-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v62) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x13 : Shape := ⟨2, ![16384, 13]⟩
abbrev S16384x26 : Shape := ⟨2, ![16384, 26]⟩
abbrev S16384x50 : Shape := ⟨2, ![16384, 50]⟩
abbrev S13 : Shape := ⟨1, ![13]⟩
abbrev S100000x16 : Shape := ⟨2, ![100000, 16]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S13 : S_.BroadcastsInDim S13 (![] : Fin 0 → Fin S13.rank)
  reducesTo_S13_S_d0 : S13.ReducesTo [0] S_
  bcast_S_S100000x16 : S_.BroadcastsInDim S100000x16 (![] : Fin 0 → Fin S100000x16.rank)
  reducesTo_S100000x16_S_d0_1 : S100000x16.ReducesTo [0, 1] S_
  bcast_S_S16384x26 : S_.BroadcastsInDim S16384x26 (![] : Fin 0 → Fin S16384x26.rank)
  reducesTo_S16384x26_S_d0_1 : S16384x26.ReducesTo [0, 1] S_
  bcast_S_S16384x50 : S_.BroadcastsInDim S16384x50 (![] : Fin 0 → Fin S16384x50.rank)
  reducesTo_S16384x50_S_d0_1 : S16384x50.ReducesTo [0, 1] S_

variable [Facts]

def fn_part4 {F : FTy → Type} [FloatOps F] (main_v61 : IVec S_ 1) (main_v66 : IVec S16384x50 1) (main_c_26 : IVec S_ 1) : IVec S_ 1 :=
  let main_v67 : IVec S_ 1 := (fun x v => Host.reduce IntOp.andi x v reducesTo_S16384x50_S_d0_1 h_S_) main_v66 main_c_26
  let main_v68 : IVec S_ 1 := andi main_v61 main_v67
  main_v68

def fn_part3 {F : FTy → Type} [FloatOps F] (main_arg3 : IVec S16384x50 32) (main_arg4 : IVec S16384x50 32) (main_arg5 : IVec S16384x50 32) (main_v47 : IVec S_ 1) (main_v49 : IVec S16384x50 1) (main_c_19 : IVec S_ 32) : IVec S_ 1 :=
  let main_v50 : IVec S16384x50 32 := broadcastInDim S16384x50 ![] bcast_S_S16384x50 main_c_19
  let main_v51 : IVec S16384x50 1 := cmpi .sle main_arg3 main_v50
  let main_v52 : IVec S16384x50 1 := andi main_v49 main_v51
  let main_c_20 : IVec S_ 1 := constantI S_ 1 1#1
  let main_v53 : IVec S_ 1 := (fun x v => Host.reduce IntOp.andi x v reducesTo_S16384x50_S_d0_1 h_S_) main_v52 main_c_20
  let main_v54 : IVec S_ 1 := andi main_v47 main_v53
  let main_c_21 : IVec S_ 32 := constantI S_ 32 0#32
  let main_v55 : IVec S16384x50 32 := broadcastInDim S16384x50 ![] bcast_S_S16384x50 main_c_21
  let main_v56 : IVec S16384x50 1 := cmpi .sge main_arg4 main_v55
  let main_c_22 : IVec S_ 32 := constantI S_ 32 99999#32
  let main_v57 : IVec S16384x50 32 := broadcastInDim S16384x50 ![] bcast_S_S16384x50 main_c_22
  let main_v58 : IVec S16384x50 1 := cmpi .sle main_arg4 main_v57
  let main_v59 : IVec S16384x50 1 := andi main_v56 main_v58
  let main_c_23 : IVec S_ 1 := constantI S_ 1 1#1
  let main_v60 : IVec S_ 1 := (fun x v => Host.reduce IntOp.andi x v reducesTo_S16384x50_S_d0_1 h_S_) main_v59 main_c_23
  let main_v61 : IVec S_ 1 := andi main_v54 main_v60
  let main_c_24 : IVec S_ 32 := constantI S_ 32 0#32
  let main_v62 : IVec S16384x50 32 := broadcastInDim S16384x50 ![] bcast_S_S16384x50 main_c_24
  let main_v63 : IVec S16384x50 1 := cmpi .sge main_arg5 main_v62
  let main_c_25 : IVec S_ 32 := constantI S_ 32 99999#32
  let main_v64 : IVec S16384x50 32 := broadcastInDim S16384x50 ![] bcast_S_S16384x50 main_c_25
  let main_v65 : IVec S16384x50 1 := cmpi .sle main_arg5 main_v64
  let main_v66 : IVec S16384x50 1 := andi main_v63 main_v65
  let main_c_26 : IVec S_ 1 := constantI S_ 1 1#1
  fn_part4 (F := F) main_v61 main_v66 main_c_26

def fn_part2 {F : FTy → Type} [FloatOps F] (main_arg1 : IVec S16384x26 32) (main_arg2 : IVec S16384x50 32) (main_arg3 : IVec S16384x50 32) (main_arg4 : IVec S16384x50 32) (main_arg5 : IVec S16384x50 32) (main_v33 : IVec S_ 1) : IVec S_ 1 :=
  let main_c_12 : IVec S_ 32 := constantI S_ 32 0#32
  let main_v34 : IVec S16384x26 32 := broadcastInDim S16384x26 ![] bcast_S_S16384x26 main_c_12
  let main_v35 : IVec S16384x26 1 := cmpi .sge main_arg1 main_v34
  let main_c_13 : IVec S_ 32 := constantI S_ 32 999#32
  let main_v36 : IVec S16384x26 32 := broadcastInDim S16384x26 ![] bcast_S_S16384x26 main_c_13
  let main_v37 : IVec S16384x26 1 := cmpi .sle main_arg1 main_v36
  let main_v38 : IVec S16384x26 1 := andi main_v35 main_v37
  let main_c_14 : IVec S_ 1 := constantI S_ 1 1#1
  let main_v39 : IVec S_ 1 := (fun x v => Host.reduce IntOp.andi x v reducesTo_S16384x26_S_d0_1 h_S_) main_v38 main_c_14
  let main_v40 : IVec S_ 1 := andi main_v33 main_v39
  let main_c_15 : IVec S_ 32 := constantI S_ 32 0#32
  let main_v41 : IVec S16384x50 32 := broadcastInDim S16384x50 ![] bcast_S_S16384x50 main_c_15
  let main_v42 : IVec S16384x50 1 := cmpi .sge main_arg2 main_v41
  let main_c_16 : IVec S_ 32 := constantI S_ 32 99999#32
  let main_v43 : IVec S16384x50 32 := broadcastInDim S16384x50 ![] bcast_S_S16384x50 main_c_16
  let main_v44 : IVec S16384x50 1 := cmpi .sle main_arg2 main_v43
  let main_v45 : IVec S16384x50 1 := andi main_v42 main_v44
  let main_c_17 : IVec S_ 1 := constantI S_ 1 1#1
  let main_v46 : IVec S_ 1 := (fun x v => Host.reduce IntOp.andi x v reducesTo_S16384x50_S_d0_1 h_S_) main_v45 main_c_17
  let main_v47 : IVec S_ 1 := andi main_v40 main_v46
  let main_c_18 : IVec S_ 32 := constantI S_ 32 0#32
  let main_v48 : IVec S16384x50 32 := broadcastInDim S16384x50 ![] bcast_S_S16384x50 main_c_18
  let main_v49 : IVec S16384x50 1 := cmpi .sge main_arg3 main_v48
  let main_c_19 : IVec S_ 32 := constantI S_ 32 99999#32
  fn_part3 (F := F) main_arg3 main_arg4 main_arg5 main_v47 main_v49 main_c_19

def fn_part1 {F : FTy → Type} [FloatOps F] (main_arg1 : IVec S16384x26 32) (main_arg2 : IVec S16384x50 32) (main_arg3 : IVec S16384x50 32) (main_arg4 : IVec S16384x50 32) (main_arg5 : IVec S16384x50 32) (main_arg9 : FVec F S100000x16 .f32) (main_arg10 : FVec F S100000x16 .f32) (main_arg11 : FVec F S100000x16 .f32) (main_v13 : IVec S_ 1) (main_v16 : IVec S100000x16 1) : IVec S_ 1 :=
  let main_c_5 : IVec S_ 1 := constantI S_ 1 1#1
  let main_v17 : IVec S_ 1 := (fun x v => Host.reduce IntOp.andi x v reducesTo_S100000x16_S_d0_1 h_S_) main_v16 main_c_5
  let main_v18 : IVec S_ 1 := andi main_v13 main_v17
  let main_v19 : FVec F S100000x16 .f32 := Host.absf main_arg9
  let main_cst_6 : FVec F S_ .f32 := constant S_ .f32 0x7F800000#32
  let main_v20 : FVec F S100000x16 .f32 := broadcastInDim S100000x16 ![] bcast_S_S100000x16 main_cst_6
  let main_v21 : IVec S100000x16 1 := cmpf .olt main_v19 main_v20
  let main_c_7 : IVec S_ 1 := constantI S_ 1 1#1
  let main_v22 : IVec S_ 1 := (fun x v => Host.reduce IntOp.andi x v reducesTo_S100000x16_S_d0_1 h_S_) main_v21 main_c_7
  let main_v23 : IVec S_ 1 := andi main_v18 main_v22
  let main_v24 : FVec F S100000x16 .f32 := Host.absf main_arg10
  let main_cst_8 : FVec F S_ .f32 := constant S_ .f32 0x7F800000#32
  let main_v25 : FVec F S100000x16 .f32 := broadcastInDim S100000x16 ![] bcast_S_S100000x16 main_cst_8
  let main_v26 : IVec S100000x16 1 := cmpf .olt main_v24 main_v25
  let main_c_9 : IVec S_ 1 := constantI S_ 1 1#1
  let main_v27 : IVec S_ 1 := (fun x v => Host.reduce IntOp.andi x v reducesTo_S100000x16_S_d0_1 h_S_) main_v26 main_c_9
  let main_v28 : IVec S_ 1 := andi main_v23 main_v27
  let main_v29 : FVec F S100000x16 .f32 := Host.absf main_arg11
  let main_cst_10 : FVec F S_ .f32 := constant S_ .f32 0x7F800000#32
  let main_v30 : FVec F S100000x16 .f32 := broadcastInDim S100000x16 ![] bcast_S_S100000x16 main_cst_10
  let main_v31 : IVec S100000x16 1 := cmpf .olt main_v29 main_v30
  let main_c_11 : IVec S_ 1 := constantI S_ 1 1#1
  let main_v32 : IVec S_ 1 := (fun x v => Host.reduce IntOp.andi x v reducesTo_S100000x16_S_d0_1 h_S_) main_v31 main_c_11
  let main_v33 : IVec S_ 1 := andi main_v28 main_v32
  fn_part2 (F := F) main_arg1 main_arg2 main_arg3 main_arg4 main_arg5 main_v33

def fn {F : FTy → Type} [FloatOps F] (main_arg0 : FVec F S16384x13 .f32) (main_arg1 : IVec S16384x26 32) (main_arg2 : IVec S16384x50 32) (main_arg3 : IVec S16384x50 32) (main_arg4 : IVec S16384x50 32) (main_arg5 : IVec S16384x50 32) (main_arg6 : FVec F S13 .f32) (main_arg7 : FVec F S13 .f32) (main_arg8 : FVec F S100000x16 .f32) (main_arg9 : FVec F S100000x16 .f32) (main_arg10 : FVec F S100000x16 .f32) (main_arg11 : FVec F S100000x16 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S13 .f32 := Host.absf main_arg6
  let main_cst_0 : FVec F S_ .f32 := constant S_ .f32 0x7F800000#32
  let main_v5 : FVec F S13 .f32 := broadcastInDim S13 ![] bcast_S_S13 main_cst_0
  let main_v6 : IVec S13 1 := cmpf .olt main_v4 main_v5
  let main_c_1 : IVec S_ 1 := constantI S_ 1 1#1
  let main_v7 : IVec S_ 1 := (fun x v => Host.reduce IntOp.andi x v reducesTo_S13_S_d0 h_S_) main_v6 main_c_1
  let main_v8 : IVec S_ 1 := andi main_v3 main_v7
  let main_v9 : FVec F S13 .f32 := Host.absf main_arg7
  let main_cst_2 : FVec F S_ .f32 := constant S_ .f32 0x7F800000#32
  let main_v10 : FVec F S13 .f32 := broadcastInDim S13 ![] bcast_S_S13 main_cst_2
  let main_v11 : IVec S13 1 := cmpf .olt main_v9 main_v10
  let main_c_3 : IVec S_ 1 := constantI S_ 1 1#1
  let main_v12 : IVec S_ 1 := (fun x v => Host.reduce IntOp.andi x v reducesTo_S13_S_d0 h_S_) main_v11 main_c_3
  let main_v13 : IVec S_ 1 := andi main_v8 main_v12
  let main_v14 : FVec F S100000x16 .f32 := Host.absf main_arg8
  let main_cst_4 : FVec F S_ .f32 := constant S_ .f32 0x7F800000#32
  let main_v15 : FVec F S100000x16 .f32 := broadcastInDim S100000x16 ![] bcast_S_S100000x16 main_cst_4
  let main_v16 : IVec S100000x16 1 := cmpf .olt main_v14 main_v15
  fn_part1 (F := F) main_arg1 main_arg2 main_arg3 main_arg4 main_arg5 main_arg9 main_arg10 main_arg11 main_v13 main_v16
-- ==== Kernel.lean ====
abbrev S16384x13 : Shape := ⟨2, ![16384, 13]⟩
abbrev S16384x26 : Shape := ⟨2, ![16384, 26]⟩
abbrev S16384x50 : Shape := ⟨2, ![16384, 50]⟩
abbrev S13 : Shape := ⟨1, ![13]⟩
abbrev S100000x16 : Shape := ⟨2, ![100000, 16]⟩
abbrev S128x8 : Shape := ⟨2, ![128, 8]⟩
abbrev S8x128 : Shape := ⟨2, ![8, 128]⟩
abbrev S1x13 : Shape := ⟨2, ![1, 13]⟩
abbrev S12500x128 : Shape := ⟨2, ![12500, 128]⟩
abbrev S12500x8 : Shape := ⟨2, ![12500, 8]⟩
abbrev S819200 : Shape := ⟨1, ![819200]⟩
abbrev S102400x128 : Shape := ⟨2, ![102400, 128]⟩
abbrev S25600 : Shape := ⟨1, ![25600]⟩
abbrev S320 : Shape := ⟨1, ![320]⟩
abbrev S320x128 : Shape := ⟨2, ![320, 128]⟩
abbrev S40x128 : Shape := ⟨2, ![40, 128]⟩
abbrev S_ : Shape := ⟨0, ![]⟩
abbrev S16 : Shape := ⟨1, ![16]⟩
abbrev S16384x50x16 : Shape := ⟨3, ![16384, 50, 16]⟩

abbrev nBuf : Table → Nat
  | .hbm => 37
  | .local .tc .vmem => 20
  | .local .scVector .vmem => 6
  | _ => 0

abbrev bufTy : (tb : Table) → Fin (nBuf tb) → BufTy
  | .hbm, ⟨0, _⟩ => ⟨S16384x13, .f32⟩
  | .hbm, ⟨1, _⟩ => ⟨S16384x26, .i32⟩
  | .hbm, ⟨2, _⟩ => ⟨S16384x50, .i32⟩
  | .hbm, ⟨3, _⟩ => ⟨S16384x50, .i32⟩
  | .hbm, ⟨4, _⟩ => ⟨S16384x50, .i32⟩
  | .hbm, ⟨5, _⟩ => ⟨S16384x50, .i32⟩
  | .hbm, ⟨6, _⟩ => ⟨S13, .f32⟩
  | .hbm, ⟨7, _⟩ => ⟨S13, .f32⟩
  | .hbm, ⟨8, _⟩ => ⟨S100000x16, .f32⟩
  | .hbm, ⟨9, _⟩ => ⟨S100000x16, .f32⟩
  | .hbm, ⟨10, _⟩ => ⟨S100000x16, .f32⟩
  | .hbm, ⟨11, _⟩ => ⟨S100000x16, .f32⟩
  | .hbm, ⟨12, _⟩ => ⟨S128x8, .f32⟩
  | .hbm, ⟨13, _⟩ => ⟨S8x128, .f32⟩
  | .hbm, ⟨14, _⟩ => ⟨S1x13, .f32⟩
  | .hbm, ⟨15, _⟩ => ⟨S1x13, .f32⟩
  | .hbm, ⟨16, _⟩ => ⟨S16384x13, .f32⟩
  | .hbm, ⟨17, _⟩ => ⟨S12500x128, .f32⟩
  | .hbm, ⟨18, _⟩ => ⟨S12500x128, .f32⟩
  | .hbm, ⟨19, _⟩ => ⟨S12500x128, .f32⟩
  | .hbm, ⟨20, _⟩ => ⟨S12500x128, .f32⟩
  | .hbm, ⟨21, _⟩ => ⟨S12500x128, .f32⟩
  | .hbm, ⟨22, _⟩ => ⟨S12500x128, .f32⟩
  | .hbm, ⟨23, _⟩ => ⟨S12500x128, .f32⟩
  | .hbm, ⟨24, _⟩ => ⟨S12500x128, .f32⟩
  | .hbm, ⟨25, _⟩ => ⟨S819200, .i32⟩
  | .hbm, ⟨26, _⟩ => ⟨S819200, .i32⟩
  | .hbm, ⟨27, _⟩ => ⟨S819200, .i32⟩
  | .hbm, ⟨28, _⟩ => ⟨S819200, .i32⟩
  | .hbm, ⟨29, _⟩ => ⟨S102400x128, .f32⟩
  | .hbm, ⟨30, _⟩ => ⟨S102400x128, .f32⟩
  | .hbm, ⟨31, _⟩ => ⟨S102400x128, .f32⟩
  | .hbm, ⟨32, _⟩ => ⟨S102400x128, .f32⟩
  | .hbm, ⟨33, _⟩ => ⟨S16384x50x16, .f32⟩
  | .hbm, ⟨34, _⟩ => ⟨S16384x50x16, .f32⟩
  | .hbm, ⟨35, _⟩ => ⟨S16384x50x16, .f32⟩
  | .hbm, ⟨36, _⟩ => ⟨S16384x50x16, .f32⟩
  | .local .tc .vmem, ⟨0, _⟩ => ⟨S16384x13, .f32⟩
  | .local .tc .vmem, ⟨1, _⟩ => ⟨S1x13, .f32⟩
  | .local .tc .vmem, ⟨2, _⟩ => ⟨S1x13, .f32⟩
  | .local .tc .vmem, ⟨3, _⟩ => ⟨S16384x13, .f32⟩
  | .local .tc .vmem, ⟨4, _⟩ => ⟨S128x8, .f32⟩
  | .local .tc .vmem, ⟨5, _⟩ => ⟨S8x128, .f32⟩
  | .local .tc .vmem, ⟨6, _⟩ => ⟨S12500x128, .f32⟩
  | .local .tc .vmem, ⟨7, _⟩ => ⟨S12500x128, .f32⟩
  | .local .tc .vmem, ⟨8, _⟩ => ⟨S128x8, .f32⟩
  | .local .tc .vmem, ⟨9, _⟩ => ⟨S8x128, .f32⟩
  | .local .tc .vmem, ⟨10, _⟩ => ⟨S12500x128, .f32⟩
  | .local .tc .vmem, ⟨11, _⟩ => ⟨S12500x128, .f32⟩
  | .local .tc .vmem, ⟨12, _⟩ => ⟨S128x8, .f32⟩
  | .local .tc .vmem, ⟨13, _⟩ => ⟨S8x128, .f32⟩
  | .local .tc .vmem, ⟨14, _⟩ => ⟨S12500x128, .f32⟩
  | .local .tc .vmem, ⟨15, _⟩ => ⟨S12500x128, .f32⟩
  | .local .tc .vmem, ⟨16, _⟩ => ⟨S128x8, .f32⟩
  | .local .tc .vmem, ⟨17, _⟩ => ⟨S8x128, .f32⟩
  | .local .tc .vmem, ⟨18, _⟩ => ⟨S12500x128, .f32⟩
  | .local .tc .vmem, ⟨19, _⟩ => ⟨S12500x128, .f32⟩
  | .local .scVector .vmem, ⟨0, _⟩ => ⟨S25600, .i32⟩
  | .local .scVector .vmem, ⟨1, _⟩ => ⟨S320, .i32⟩
  | .local .scVector .vmem, ⟨2, _⟩ => ⟨S320, .i32⟩
  | .local .scVector .vmem, ⟨3, _⟩ => ⟨S320x128, .f32⟩
  | .local .scVector .vmem, ⟨4, _⟩ => ⟨S320x128, .f32⟩
  | .local .scVector .vmem, ⟨5, _⟩ => ⟨S40x128, .f32⟩
  | _, _ => ⟨S16384x13, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v7_scv : Ref sig .scVector := ⟨.hbm, 21, rfl⟩
abbrev main_v8_scv : Ref sig .scVector := ⟨.hbm, 22, rfl⟩
abbrev main_v9_scv : Ref sig .scVector := ⟨.hbm, 23, rfl⟩
abbrev main_v10_scv : Ref sig .scVector := ⟨.hbm, 24, rfl⟩
abbrev main_v11_scv : Ref sig .scVector := ⟨.hbm, 25, rfl⟩
abbrev main_v12_scv : Ref sig .scVector := ⟨.hbm, 26, rfl⟩
abbrev main_v13_scv : Ref sig .scVector := ⟨.hbm, 27, rfl⟩
abbrev main_v14_scv : Ref sig .scVector := ⟨.hbm, 28, rfl⟩
abbrev main_v15_0_scv : Ref sig .scVector := ⟨.hbm, 29, rfl⟩
abbrev main_v15_1_scv : Ref sig .scVector := ⟨.hbm, 30, rfl⟩
abbrev main_v15_2_scv : Ref sig .scVector := ⟨.hbm, 31, rfl⟩
abbrev main_v15_3_scv : Ref sig .scVector := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc4_stg0_0 : Ref sig .tc := ⟨.vmem, 16, rfl⟩
abbrev cc4_stg1_0 : Ref sig .tc := ⟨.vmem, 17, rfl⟩
abbrev cc4_stg2_0 : Ref sig .tc := ⟨.vmem, 18, rfl⟩
abbrev cc4_stg3_0 : Ref sig .tc := ⟨.vmem, 19, rfl⟩
abbrev cc5_scratch0 : Ref sig .scVector := ⟨.vmem, 0, rfl⟩
abbrev cc5_scratch1 : Ref sig .scVector := ⟨.vmem, 1, rfl⟩
abbrev cc5_scratch2 : Ref sig .scVector := ⟨.vmem, 2, rfl⟩
abbrev cc5_scratch3 : Ref sig .scVector := ⟨.vmem, 3, rfl⟩
abbrev cc5_scratch4 : Ref sig .scVector := ⟨.vmem, 4, rfl⟩
abbrev cc5_scratch5 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc3_sem0_0 : DmaSem sig := 12
abbrev cc3_sem1_0 : DmaSem sig := 13
abbrev cc3_sem2_0 : DmaSem sig := 14
abbrev cc3_sem3_0 : DmaSem sig := 15
abbrev cc4_sem0_0 : DmaSem sig := 16
abbrev cc4_sem1_0 : DmaSem sig := 17
abbrev cc4_sem2_0 : DmaSem sig := 18
abbrev cc4_sem3_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S16384x13 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x13 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x13 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S128x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S12500x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S12500x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := .none

abbrev stage2_0 : Fin 1 → Memref sig .tc .vmem S128x8 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S12500x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S12500x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := .none

abbrev stage3_0 : Fin 1 → Memref sig .tc .vmem S128x8 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S12500x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S12500x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := .none

abbrev stage4_0 : Fin 1 → Memref sig .tc .vmem S128x8 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S8x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S12500x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S12500x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev grid5 : Pipeline.Grid := ⟨2, ![2, 16], ![false, false]⟩

def k5_off1 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k5_t1_loop : Scf.Loop 32 :=
  let c0_i32 : BitVec 32 := 0#32
  let c20_i32 : BitVec 32 := 20#32
  let v4 : BitVec 32 := Scalar.addi c0_i32 c20_i32
  let c1_i32 : BitVec 32 := 1#32
  ⟨c0_i32, v4, c1_i32⟩
def k5_off2 (k5_t1 : Fin k5_t1_loop.trips) : Fin 1 → Nat :=
  let c0_i32_37 : BitVec 32 := 0#32
  let c0_i32_36 : BitVec 32 := 0#32
  let c0_i32 : BitVec 32 := 0#32
  let c1_i32 : BitVec 32 := 1#32
  let arg22 : BitVec 32 := Scf.iv c0_i32 c1_i32 k5_t1
  let c16_i32 : BitVec 32 := 16#32
  let v16 : BitVec 32 := Scalar.muli arg22 c16_i32
  let v17 : BitVec 32 := Scalar.addi c0_i32_36 v16
  let v18 : BitVec 32 := Scalar.addi c0_i32_37 v17
  let v19 : Index := Scalar.indexCast v18
  ![v19.toNat]
def k5_off3 (k5_t1 : Fin k5_t1_loop.trips) : Fin 1 → Nat :=
  let c0_i32_36 : BitVec 32 := 0#32
  let c0_i32 : BitVec 32 := 0#32
  let c1_i32 : BitVec 32 := 1#32
  let arg22 : BitVec 32 := Scf.iv c0_i32 c1_i32 k5_t1
  let c16_i32 : BitVec 32 := 16#32
  let v16 : BitVec 32 := Scalar.muli arg22 c16_i32
  let v17 : BitVec 32 := Scalar.addi c0_i32_36 v16
  let v23 : Index := Scalar.indexCast v17
  ![v23.toNat]
@[reducible] def k5_t2_loop : Scf.Loop 32 :=
  let c0_i32_3 : BitVec 32 := 0#32
  let c40_i32 : BitVec 32 := 40#32
  let v6 : BitVec 32 := Scalar.addi c0_i32_3 c40_i32
  let c1_i32_4 : BitVec 32 := 1#32
  ⟨c0_i32_3, v6, c1_i32_4⟩
@[reducible] def k5_t3_loop : Scf.Loop 32 :=
  let c0_i32_39 : BitVec 32 := 0#32
  let c20_i32_40 : BitVec 32 := 20#32
  let v19 : BitVec 32 := Scalar.addi c0_i32_39 c20_i32_40
  let c1_i32_41 : BitVec 32 := 1#32
  ⟨c0_i32_39, v19, c1_i32_41⟩
def k5_off4 (k5_t2 : Fin k5_t2_loop.trips) (k5_t3 : Fin k5_t3_loop.trips) : Fin 1 → Nat :=
  let c0_i32_37 : BitVec 32 := 0#32
  let c0_i32_3 : BitVec 32 := 0#32
  let c1_i32_4 : BitVec 32 := 1#32
  let arg22 : BitVec 32 := Scf.iv c0_i32_3 c1_i32_4 k5_t2
  let c2_i32_36 : BitVec 32 := 2#32
  let v16 : BitVec 32 := Scalar.muli arg22 c2_i32_36
  let v17 : BitVec 32 := Scalar.addi c0_i32_37 v16
  let c1_i32_38 : BitVec 32 := 1#32
  let v18 : BitVec 32 := Scalar.addi v17 c1_i32_38
  let c320_i32_77 : BitVec 32 := 320#32
  let v74 : BitVec 32 := Scalar.muli v18 c320_i32_77
  let c0_i32_76 : BitVec 32 := 0#32
  let c0_i32_39 : BitVec 32 := 0#32
  let c1_i32_41 : BitVec 32 := 1#32
  let arg23 : BitVec 32 := Scf.iv c0_i32_39 c1_i32_41 k5_t3
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]
def k5_off5 (k5_t3 : Fin k5_t3_loop.trips) : Fin 1 → Nat :=
  let c0_i32_76 : BitVec 32 := 0#32
  let c0_i32_39 : BitVec 32 := 0#32
  let c1_i32_41 : BitVec 32 := 1#32
  let arg23 : BitVec 32 := Scf.iv c0_i32_39 c1_i32_41 k5_t3
  let c16_i32_75 : BitVec 32 := 16#32
  let v72 : BitVec 32 := Scalar.muli arg23 c16_i32_75
  let v73 : BitVec 32 := Scalar.addi c0_i32_76 v72
  let v80 : Index := Scalar.indexCast v73
  ![v80.toNat]
@[reducible] def k5_t4_loop : Scf.Loop 32 :=
  let c0_i32_47 : BitVec 32 := 0#32
  let c20_i32_48 : BitVec 32 := 20#32
  let v22 : BitVec 32 := Scalar.addi c0_i32_47 c20_i32_48
  let c1_i32_49 : BitVec 32 := 1#32
  ⟨c0_i32_47, v22, c1_i32_49⟩
def k5_off6 (k5_t2 : Fin k5_t2_loop.trips) (k5_t4 : Fin k5_t4_loop.trips) : Fin 1 → Nat :=
  let c0_i32_37 : BitVec 32 := 0#32
  let c0_i32_3 : BitVec 32 := 0#32
  let c1_i32_4 : BitVec 32 := 1#32
  let arg22 : BitVec 32 := Scf.iv c0_i32_3 c1_i32_4 k5_t2
  let c2_i32_36 : BitVec 32 := 2#32
  let v16 : BitVec 32 := Scalar.muli arg22 c2_i32_36
  let v17 : BitVec 32 := Scalar.addi c0_i32_37 v16
  let c320_i32_77 : BitVec 32 := 320#32
  let v74 : BitVec 32 := Scalar.muli v17 c320_i32_77
  let c0_i32_76 : BitVec 32 := 0#32
  let c0_i32_47 : BitVec 32 := 0#32
  let c1_i32_49 : BitVec 32 := 1#32
  let arg23 : BitVec 32 := Scf.iv c0_i32_47 c1_i32_49 k5_t4
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]

def k5_chk1 (v79 : IVec S16 32) (v87 : IVec S16 32) : Prop :=
  (∀ a x, ((![v79, v87] : Fin 2 → IVec S16 32) a x).toNat < S320x128.size a)
instance k5_chk1.dec : ∀ (v79 : IVec S16 32) (v87 : IVec S16 32), Decidable (k5_chk1 v79 v87) := fun v79 v87 => decidable_of_iff' _ (Iff.of_eq (k5_chk1.eq_1 v79 v87))
theorem k5_idx1_inb : ∀ (v79 : IVec S16 32) (v87 : IVec S16 32) (k5_hw1 : k5_chk1 v79 v87), ∀ a x, ((![v79, v87] : Fin 2 → IVec S16 32) a x).toNat < S320x128.size a := fun v79 v87 k5_hw1 => k5_hw1

def k5_chk2 (v92 : IVec S16 32) (v94 : IVec S16 32) : Prop :=
  (∀ a x, ((![v92, v94] : Fin 2 → IVec S16 32) a x).toNat < S40x128.size a)
instance k5_chk2.dec : ∀ (v92 : IVec S16 32) (v94 : IVec S16 32), Decidable (k5_chk2 v92 v94) := fun v92 v94 => decidable_of_iff' _ (Iff.of_eq (k5_chk2.eq_1 v92 v94))
theorem k5_idx2_inb : ∀ (v92 : IVec S16 32) (v94 : IVec S16 32) (k5_hw2 : k5_chk2 v92 v94), ∀ a x, ((![v92, v94] : Fin 2 → IVec S16 32) a x).toNat < S40x128.size a := fun v92 v94 k5_hw2 => k5_hw2

def k5_chk3 (v79 : IVec S16 32) (v96 : IVec S16 32) : Prop :=
  (∀ a x, ((![v79, v96] : Fin 2 → IVec S16 32) a x).toNat < S320x128.size a)
instance k5_chk3.dec : ∀ (v79 : IVec S16 32) (v96 : IVec S16 32), Decidable (k5_chk3 v79 v96) := fun v79 v96 => decidable_of_iff' _ (Iff.of_eq (k5_chk3.eq_1 v79 v96))
theorem k5_idx3_inb : ∀ (v79 : IVec S16 32) (v96 : IVec S16 32) (k5_hw3 : k5_chk3 v79 v96), ∀ a x, ((![v79, v96] : Fin 2 → IVec S16 32) a x).toNat < S320x128.size a := fun v79 v96 k5_hw3 => k5_hw3

def k5_chk4 (v101 : IVec S16 32) (v103 : IVec S16 32) : Prop :=
  (∀ a x, ((![v101, v103] : Fin 2 → IVec S16 32) a x).toNat < S40x128.size a)
instance k5_chk4.dec : ∀ (v101 : IVec S16 32) (v103 : IVec S16 32), Decidable (k5_chk4 v101 v103) := fun v101 v103 => decidable_of_iff' _ (Iff.of_eq (k5_chk4.eq_1 v101 v103))
theorem k5_idx4_inb : ∀ (v101 : IVec S16 32) (v103 : IVec S16 32) (k5_hw4 : k5_chk4 v101 v103), ∀ a x, ((![v101, v103] : Fin 2 → IVec S16 32) a x).toNat < S40x128.size a := fun v101 v103 k5_hw4 => k5_hw4

def k5_chk5 (v79 : IVec S16 32) (v105 : IVec S16 32) : Prop :=
  (∀ a x, ((![v79, v105] : Fin 2 → IVec S16 32) a x).toNat < S320x128.size a)
instance k5_chk5.dec : ∀ (v79 : IVec S16 32) (v105 : IVec S16 32), Decidable (k5_chk5 v79 v105) := fun v79 v105 => decidable_of_iff' _ (Iff.of_eq (k5_chk5.eq_1 v79 v105))
theorem k5_idx5_inb : ∀ (v79 : IVec S16 32) (v105 : IVec S16 32) (k5_hw5 : k5_chk5 v79 v105), ∀ a x, ((![v79, v105] : Fin 2 → IVec S16 32) a x).toNat < S320x128.size a := fun v79 v105 k5_hw5 => k5_hw5

def k5_chk6 (v110 : IVec S16 32) (v112 : IVec S16 32) : Prop :=
  (∀ a x, ((![v110, v112] : Fin 2 → IVec S16 32) a x).toNat < S40x128.size a)
instance k5_chk6.dec : ∀ (v110 : IVec S16 32) (v112 : IVec S16 32), Decidable (k5_chk6 v110 v112) := fun v110 v112 => decidable_of_iff' _ (Iff.of_eq (k5_chk6.eq_1 v110 v112))
theorem k5_idx6_inb : ∀ (v110 : IVec S16 32) (v112 : IVec S16 32) (k5_hw6 : k5_chk6 v110 v112), ∀ a x, ((![v110, v112] : Fin 2 → IVec S16 32) a x).toNat < S40x128.size a := fun v110 v112 k5_hw6 => k5_hw6

def k5_chk7 (v79 : IVec S16 32) (v114 : IVec S16 32) : Prop :=
  (∀ a x, ((![v79, v114] : Fin 2 → IVec S16 32) a x).toNat < S320x128.size a)
instance k5_chk7.dec : ∀ (v79 : IVec S16 32) (v114 : IVec S16 32), Decidable (k5_chk7 v79 v114) := fun v79 v114 => decidable_of_iff' _ (Iff.of_eq (k5_chk7.eq_1 v79 v114))
theorem k5_idx7_inb : ∀ (v79 : IVec S16 32) (v114 : IVec S16 32) (k5_hw7 : k5_chk7 v79 v114), ∀ a x, ((![v79, v114] : Fin 2 → IVec S16 32) a x).toNat < S320x128.size a := fun v79 v114 k5_hw7 => k5_hw7

def k5_chk8 (v119 : IVec S16 32) (v121 : IVec S16 32) : Prop :=
  (∀ a x, ((![v119, v121] : Fin 2 → IVec S16 32) a x).toNat < S40x128.size a)
instance k5_chk8.dec : ∀ (v119 : IVec S16 32) (v121 : IVec S16 32), Decidable (k5_chk8 v119 v121) := fun v119 v121 => decidable_of_iff' _ (Iff.of_eq (k5_chk8.eq_1 v119 v121))
theorem k5_idx8_inb : ∀ (v119 : IVec S16 32) (v121 : IVec S16 32) (k5_hw8 : k5_chk8 v119 v121), ∀ a x, ((![v119, v121] : Fin 2 → IVec S16 32) a x).toNat < S40x128.size a := fun v119 v121 k5_hw8 => k5_hw8

def k5_chk9 (v79 : IVec S16 32) (v123 : IVec S16 32) : Prop :=
  (∀ a x, ((![v79, v123] : Fin 2 → IVec S16 32) a x).toNat < S320x128.size a)
instance k5_chk9.dec : ∀ (v79 : IVec S16 32) (v123 : IVec S16 32), Decidable (k5_chk9 v79 v123) := fun v79 v123 => decidable_of_iff' _ (Iff.of_eq (k5_chk9.eq_1 v79 v123))
theorem k5_idx9_inb : ∀ (v79 : IVec S16 32) (v123 : IVec S16 32) (k5_hw9 : k5_chk9 v79 v123), ∀ a x, ((![v79, v123] : Fin 2 → IVec S16 32) a x).toNat < S320x128.size a := fun v79 v123 k5_hw9 => k5_hw9

def k5_chk10 (v128 : IVec S16 32) (v130 : IVec S16 32) : Prop :=
  (∀ a x, ((![v128, v130] : Fin 2 → IVec S16 32) a x).toNat < S40x128.size a)
instance k5_chk10.dec : ∀ (v128 : IVec S16 32) (v130 : IVec S16 32), Decidable (k5_chk10 v128 v130) := fun v128 v130 => decidable_of_iff' _ (Iff.of_eq (k5_chk10.eq_1 v128 v130))
theorem k5_idx10_inb : ∀ (v128 : IVec S16 32) (v130 : IVec S16 32) (k5_hw10 : k5_chk10 v128 v130), ∀ a x, ((![v128, v130] : Fin 2 → IVec S16 32) a x).toNat < S40x128.size a := fun v128 v130 k5_hw10 => k5_hw10

def k5_chk11 (v79 : IVec S16 32) (v132 : IVec S16 32) : Prop :=
  (∀ a x, ((![v79, v132] : Fin 2 → IVec S16 32) a x).toNat < S320x128.size a)
instance k5_chk11.dec : ∀ (v79 : IVec S16 32) (v132 : IVec S16 32), Decidable (k5_chk11 v79 v132) := fun v79 v132 => decidable_of_iff' _ (Iff.of_eq (k5_chk11.eq_1 v79 v132))
theorem k5_idx11_inb : ∀ (v79 : IVec S16 32) (v132 : IVec S16 32) (k5_hw11 : k5_chk11 v79 v132), ∀ a x, ((![v79, v132] : Fin 2 → IVec S16 32) a x).toNat < S320x128.size a := fun v79 v132 k5_hw11 => k5_hw11

def k5_chk12 (v137 : IVec S16 32) (v139 : IVec S16 32) : Prop :=
  (∀ a x, ((![v137, v139] : Fin 2 → IVec S16 32) a x).toNat < S40x128.size a)
instance k5_chk12.dec : ∀ (v137 : IVec S16 32) (v139 : IVec S16 32), Decidable (k5_chk12 v137 v139) := fun v137 v139 => decidable_of_iff' _ (Iff.of_eq (k5_chk12.eq_1 v137 v139))
theorem k5_idx12_inb : ∀ (v137 : IVec S16 32) (v139 : IVec S16 32) (k5_hw12 : k5_chk12 v137 v139), ∀ a x, ((![v137, v139] : Fin 2 → IVec S16 32) a x).toNat < S40x128.size a := fun v137 v139 k5_hw12 => k5_hw12

def k5_chk13 (v79 : IVec S16 32) (v141 : IVec S16 32) : Prop :=
  (∀ a x, ((![v79, v141] : Fin 2 → IVec S16 32) a x).toNat < S320x128.size a)
instance k5_chk13.dec : ∀ (v79 : IVec S16 32) (v141 : IVec S16 32), Decidable (k5_chk13 v79 v141) := fun v79 v141 => decidable_of_iff' _ (Iff.of_eq (k5_chk13.eq_1 v79 v141))
theorem k5_idx13_inb : ∀ (v79 : IVec S16 32) (v141 : IVec S16 32) (k5_hw13 : k5_chk13 v79 v141), ∀ a x, ((![v79, v141] : Fin 2 → IVec S16 32) a x).toNat < S320x128.size a := fun v79 v141 k5_hw13 => k5_hw13

def k5_chk14 (v146 : IVec S16 32) (v148 : IVec S16 32) : Prop :=
  (∀ a x, ((![v146, v148] : Fin 2 → IVec S16 32) a x).toNat < S40x128.size a)
instance k5_chk14.dec : ∀ (v146 : IVec S16 32) (v148 : IVec S16 32), Decidable (k5_chk14 v146 v148) := fun v146 v148 => decidable_of_iff' _ (Iff.of_eq (k5_chk14.eq_1 v146 v148))
theorem k5_idx14_inb : ∀ (v146 : IVec S16 32) (v148 : IVec S16 32) (k5_hw14 : k5_chk14 v146 v148), ∀ a x, ((![v146, v148] : Fin 2 → IVec S16 32) a x).toNat < S40x128.size a := fun v146 v148 k5_hw14 => k5_hw14

def k5_chk15 (v79 : IVec S16 32) (v150 : IVec S16 32) : Prop :=
  (∀ a x, ((![v79, v150] : Fin 2 → IVec S16 32) a x).toNat < S320x128.size a)
instance k5_chk15.dec : ∀ (v79 : IVec S16 32) (v150 : IVec S16 32), Decidable (k5_chk15 v79 v150) := fun v79 v150 => decidable_of_iff' _ (Iff.of_eq (k5_chk15.eq_1 v79 v150))
theorem k5_idx15_inb : ∀ (v79 : IVec S16 32) (v150 : IVec S16 32) (k5_hw15 : k5_chk15 v79 v150), ∀ a x, ((![v79, v150] : Fin 2 → IVec S16 32) a x).toNat < S320x128.size a := fun v79 v150 k5_hw15 => k5_hw15

def k5_chk16 (v155 : IVec S16 32) (v157 : IVec S16 32) : Prop :=
  (∀ a x, ((![v155, v157] : Fin 2 → IVec S16 32) a x).toNat < S40x128.size a)
instance k5_chk16.dec : ∀ (v155 : IVec S16 32) (v157 : IVec S16 32), Decidable (k5_chk16 v155 v157) := fun v155 v157 => decidable_of_iff' _ (Iff.of_eq (k5_chk16.eq_1 v155 v157))
theorem k5_idx16_inb : ∀ (v155 : IVec S16 32) (v157 : IVec S16 32) (k5_hw16 : k5_chk16 v155 v157), ∀ a x, ((![v155, v157] : Fin 2 → IVec S16 32) a x).toNat < S40x128.size a := fun v155 v157 k5_hw16 => k5_hw16

def k5_chk17 (v79 : IVec S16 32) (v159 : IVec S16 32) : Prop :=
  (∀ a x, ((![v79, v159] : Fin 2 → IVec S16 32) a x).toNat < S320x128.size a)
instance k5_chk17.dec : ∀ (v79 : IVec S16 32) (v159 : IVec S16 32), Decidable (k5_chk17 v79 v159) := fun v79 v159 => decidable_of_iff' _ (Iff.of_eq (k5_chk17.eq_1 v79 v159))
theorem k5_idx17_inb : ∀ (v79 : IVec S16 32) (v159 : IVec S16 32) (k5_hw17 : k5_chk17 v79 v159), ∀ a x, ((![v79, v159] : Fin 2 → IVec S16 32) a x).toNat < S320x128.size a := fun v79 v159 k5_hw17 => k5_hw17

def k5_chk18 (v164 : IVec S16 32) (v166 : IVec S16 32) : Prop :=
  (∀ a x, ((![v164, v166] : Fin 2 → IVec S16 32) a x).toNat < S40x128.size a)
instance k5_chk18.dec : ∀ (v164 : IVec S16 32) (v166 : IVec S16 32), Decidable (k5_chk18 v164 v166) := fun v164 v166 => decidable_of_iff' _ (Iff.of_eq (k5_chk18.eq_1 v164 v166))
theorem k5_idx18_inb : ∀ (v164 : IVec S16 32) (v166 : IVec S16 32) (k5_hw18 : k5_chk18 v164 v166), ∀ a x, ((![v164, v166] : Fin 2 → IVec S16 32) a x).toNat < S40x128.size a := fun v164 v166 k5_hw18 => k5_hw18

def k5_chk19 (v79 : IVec S16 32) (v168 : IVec S16 32) : Prop :=
  (∀ a x, ((![v79, v168] : Fin 2 → IVec S16 32) a x).toNat < S320x128.size a)
instance k5_chk19.dec : ∀ (v79 : IVec S16 32) (v168 : IVec S16 32), Decidable (k5_chk19 v79 v168) := fun v79 v168 => decidable_of_iff' _ (Iff.of_eq (k5_chk19.eq_1 v79 v168))
theorem k5_idx19_inb : ∀ (v79 : IVec S16 32) (v168 : IVec S16 32) (k5_hw19 : k5_chk19 v79 v168), ∀ a x, ((![v79, v168] : Fin 2 → IVec S16 32) a x).toNat < S320x128.size a := fun v79 v168 k5_hw19 => k5_hw19

def k5_chk20 (v173 : IVec S16 32) (v175 : IVec S16 32) : Prop :=
  (∀ a x, ((![v173, v175] : Fin 2 → IVec S16 32) a x).toNat < S40x128.size a)
instance k5_chk20.dec : ∀ (v173 : IVec S16 32) (v175 : IVec S16 32), Decidable (k5_chk20 v173 v175) := fun v173 v175 => decidable_of_iff' _ (Iff.of_eq (k5_chk20.eq_1 v173 v175))
theorem k5_idx20_inb : ∀ (v173 : IVec S16 32) (v175 : IVec S16 32) (k5_hw20 : k5_chk20 v173 v175), ∀ a x, ((![v173, v175] : Fin 2 → IVec S16 32) a x).toNat < S40x128.size a := fun v173 v175 k5_hw20 => k5_hw20

def k5_chk21 (v79 : IVec S16 32) (v177 : IVec S16 32) : Prop :=
  (∀ a x, ((![v79, v177] : Fin 2 → IVec S16 32) a x).toNat < S320x128.size a)
instance k5_chk21.dec : ∀ (v79 : IVec S16 32) (v177 : IVec S16 32), Decidable (k5_chk21 v79 v177) := fun v79 v177 => decidable_of_iff' _ (Iff.of_eq (k5_chk21.eq_1 v79 v177))
theorem k5_idx21_inb : ∀ (v79 : IVec S16 32) (v177 : IVec S16 32) (k5_hw21 : k5_chk21 v79 v177), ∀ a x, ((![v79, v177] : Fin 2 → IVec S16 32) a x).toNat < S320x128.size a := fun v79 v177 k5_hw21 => k5_hw21

def k5_chk22 (v182 : IVec S16 32) (v184 : IVec S16 32) : Prop :=
  (∀ a x, ((![v182, v184] : Fin 2 → IVec S16 32) a x).toNat < S40x128.size a)
instance k5_chk22.dec : ∀ (v182 : IVec S16 32) (v184 : IVec S16 32), Decidable (k5_chk22 v182 v184) := fun v182 v184 => decidable_of_iff' _ (Iff.of_eq (k5_chk22.eq_1 v182 v184))
theorem k5_idx22_inb : ∀ (v182 : IVec S16 32) (v184 : IVec S16 32) (k5_hw22 : k5_chk22 v182 v184), ∀ a x, ((![v182, v184] : Fin 2 → IVec S16 32) a x).toNat < S40x128.size a := fun v182 v184 k5_hw22 => k5_hw22

def k5_chk23 (v79 : IVec S16 32) (v186 : IVec S16 32) : Prop :=
  (∀ a x, ((![v79, v186] : Fin 2 → IVec S16 32) a x).toNat < S320x128.size a)
instance k5_chk23.dec : ∀ (v79 : IVec S16 32) (v186 : IVec S16 32), Decidable (k5_chk23 v79 v186) := fun v79 v186 => decidable_of_iff' _ (Iff.of_eq (k5_chk23.eq_1 v79 v186))
theorem k5_idx23_inb : ∀ (v79 : IVec S16 32) (v186 : IVec S16 32) (k5_hw23 : k5_chk23 v79 v186), ∀ a x, ((![v79, v186] : Fin 2 → IVec S16 32) a x).toNat < S320x128.size a := fun v79 v186 k5_hw23 => k5_hw23

def k5_chk24 (v191 : IVec S16 32) (v193 : IVec S16 32) : Prop :=
  (∀ a x, ((![v191, v193] : Fin 2 → IVec S16 32) a x).toNat < S40x128.size a)
instance k5_chk24.dec : ∀ (v191 : IVec S16 32) (v193 : IVec S16 32), Decidable (k5_chk24 v191 v193) := fun v191 v193 => decidable_of_iff' _ (Iff.of_eq (k5_chk24.eq_1 v191 v193))
theorem k5_idx24_inb : ∀ (v191 : IVec S16 32) (v193 : IVec S16 32) (k5_hw24 : k5_chk24 v191 v193), ∀ a x, ((![v191, v193] : Fin 2 → IVec S16 32) a x).toNat < S40x128.size a := fun v191 v193 k5_hw24 => k5_hw24

def k5_chk25 (v79 : IVec S16 32) (v195 : IVec S16 32) : Prop :=
  (∀ a x, ((![v79, v195] : Fin 2 → IVec S16 32) a x).toNat < S320x128.size a)
instance k5_chk25.dec : ∀ (v79 : IVec S16 32) (v195 : IVec S16 32), Decidable (k5_chk25 v79 v195) := fun v79 v195 => decidable_of_iff' _ (Iff.of_eq (k5_chk25.eq_1 v79 v195))
theorem k5_idx25_inb : ∀ (v79 : IVec S16 32) (v195 : IVec S16 32) (k5_hw25 : k5_chk25 v79 v195), ∀ a x, ((![v79, v195] : Fin 2 → IVec S16 32) a x).toNat < S320x128.size a := fun v79 v195 k5_hw25 => k5_hw25

def k5_chk26 (v200 : IVec S16 32) (v202 : IVec S16 32) : Prop :=
  (∀ a x, ((![v200, v202] : Fin 2 → IVec S16 32) a x).toNat < S40x128.size a)
instance k5_chk26.dec : ∀ (v200 : IVec S16 32) (v202 : IVec S16 32), Decidable (k5_chk26 v200 v202) := fun v200 v202 => decidable_of_iff' _ (Iff.of_eq (k5_chk26.eq_1 v200 v202))
theorem k5_idx26_inb : ∀ (v200 : IVec S16 32) (v202 : IVec S16 32) (k5_hw26 : k5_chk26 v200 v202), ∀ a x, ((![v200, v202] : Fin 2 → IVec S16 32) a x).toNat < S40x128.size a := fun v200 v202 k5_hw26 => k5_hw26

def k5_chk27 (v79 : IVec S16 32) (v204 : IVec S16 32) : Prop :=
  (∀ a x, ((![v79, v204] : Fin 2 → IVec S16 32) a x).toNat < S320x128.size a)
instance k5_chk27.dec : ∀ (v79 : IVec S16 32) (v204 : IVec S16 32), Decidable (k5_chk27 v79 v204) := fun v79 v204 => decidable_of_iff' _ (Iff.of_eq (k5_chk27.eq_1 v79 v204))
theorem k5_idx27_inb : ∀ (v79 : IVec S16 32) (v204 : IVec S16 32) (k5_hw27 : k5_chk27 v79 v204), ∀ a x, ((![v79, v204] : Fin 2 → IVec S16 32) a x).toNat < S320x128.size a := fun v79 v204 k5_hw27 => k5_hw27

def k5_chk28 (v209 : IVec S16 32) (v211 : IVec S16 32) : Prop :=
  (∀ a x, ((![v209, v211] : Fin 2 → IVec S16 32) a x).toNat < S40x128.size a)
instance k5_chk28.dec : ∀ (v209 : IVec S16 32) (v211 : IVec S16 32), Decidable (k5_chk28 v209 v211) := fun v209 v211 => decidable_of_iff' _ (Iff.of_eq (k5_chk28.eq_1 v209 v211))
theorem k5_idx28_inb : ∀ (v209 : IVec S16 32) (v211 : IVec S16 32) (k5_hw28 : k5_chk28 v209 v211), ∀ a x, ((![v209, v211] : Fin 2 → IVec S16 32) a x).toNat < S40x128.size a := fun v209 v211 k5_hw28 => k5_hw28

def k5_chk29 (v79 : IVec S16 32) (v213 : IVec S16 32) : Prop :=
  (∀ a x, ((![v79, v213] : Fin 2 → IVec S16 32) a x).toNat < S320x128.size a)
instance k5_chk29.dec : ∀ (v79 : IVec S16 32) (v213 : IVec S16 32), Decidable (k5_chk29 v79 v213) := fun v79 v213 => decidable_of_iff' _ (Iff.of_eq (k5_chk29.eq_1 v79 v213))
theorem k5_idx29_inb : ∀ (v79 : IVec S16 32) (v213 : IVec S16 32) (k5_hw29 : k5_chk29 v79 v213), ∀ a x, ((![v79, v213] : Fin 2 → IVec S16 32) a x).toNat < S320x128.size a := fun v79 v213 k5_hw29 => k5_hw29

def k5_chk30 (v218 : IVec S16 32) (v220 : IVec S16 32) : Prop :=
  (∀ a x, ((![v218, v220] : Fin 2 → IVec S16 32) a x).toNat < S40x128.size a)
instance k5_chk30.dec : ∀ (v218 : IVec S16 32) (v220 : IVec S16 32), Decidable (k5_chk30 v218 v220) := fun v218 v220 => decidable_of_iff' _ (Iff.of_eq (k5_chk30.eq_1 v218 v220))
theorem k5_idx30_inb : ∀ (v218 : IVec S16 32) (v220 : IVec S16 32) (k5_hw30 : k5_chk30 v218 v220), ∀ a x, ((![v218, v220] : Fin 2 → IVec S16 32) a x).toNat < S40x128.size a := fun v218 v220 k5_hw30 => k5_hw30

def k5_chk31 (v79 : IVec S16 32) (v222 : IVec S16 32) : Prop :=
  (∀ a x, ((![v79, v222] : Fin 2 → IVec S16 32) a x).toNat < S320x128.size a)
instance k5_chk31.dec : ∀ (v79 : IVec S16 32) (v222 : IVec S16 32), Decidable (k5_chk31 v79 v222) := fun v79 v222 => decidable_of_iff' _ (Iff.of_eq (k5_chk31.eq_1 v79 v222))
theorem k5_idx31_inb : ∀ (v79 : IVec S16 32) (v222 : IVec S16 32) (k5_hw31 : k5_chk31 v79 v222), ∀ a x, ((![v79, v222] : Fin 2 → IVec S16 32) a x).toNat < S320x128.size a := fun v79 v222 k5_hw31 => k5_hw31

def k5_chk32 (v227 : IVec S16 32) (v229 : IVec S16 32) : Prop :=
  (∀ a x, ((![v227, v229] : Fin 2 → IVec S16 32) a x).toNat < S40x128.size a)
instance k5_chk32.dec : ∀ (v227 : IVec S16 32) (v229 : IVec S16 32), Decidable (k5_chk32 v227 v229) := fun v227 v229 => decidable_of_iff' _ (Iff.of_eq (k5_chk32.eq_1 v227 v229))
theorem k5_idx32_inb : ∀ (v227 : IVec S16 32) (v229 : IVec S16 32) (k5_hw32 : k5_chk32 v227 v229), ∀ a x, ((![v227, v229] : Fin 2 → IVec S16 32) a x).toNat < S40x128.size a := fun v227 v229 k5_hw32 => k5_hw32
def k5_mult1 (i : grid5.Coords) (k5_t2 : Fin k5_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_3 : BitVec 32 := 0#32
  let c1_i32_4 : BitVec 32 := 1#32
  let arg22 : BitVec 32 := Scf.iv c0_i32_3 c1_i32_4 k5_t2
  let c2_i32_36 : BitVec 32 := 2#32
  let v16 : BitVec 32 := Scalar.muli arg22 c2_i32_36
  let v17 : BitVec 32 := Scalar.addi c0_i32_37 v16
  let c320_i32 : BitVec 32 := 320#32
  let v23 : BitVec 32 := Scalar.muli v17 c320_i32
  let v24 : BitVec 32 := Scalar.addi v2 v23
  let c16_i32 : BitVec 32 := 16#32
  let v25 : BitVec 32 := Scalar.muli v24 c16_i32
  let c0_i32_51 : BitVec 32 := 0#32
  let v27 : BitVec 1 := Scalar.cmpi .sgt v25 c0_i32_51
  let v28 : BitVec 32 := Scalar.extui v27
  let c0_i32_52 : BitVec 32 := 0#32
  let v29 : BitVec 1 := Scalar.cmpi .slt v25 c0_i32_52
  let v30 : BitVec 32 := Scalar.extui v29
  let v31 : BitVec 32 := Scalar.subi v28 v30
  let c128_i32 : BitVec 32 := 128#32
  let c0_i32_53 : BitVec 32 := 0#32
  let v32 : BitVec 1 := Scalar.cmpi .sgt c128_i32 c0_i32_53
  let v33 : BitVec 32 := Scalar.extui v32
  let c0_i32_54 : BitVec 32 := 0#32
  let v34 : BitVec 1 := Scalar.cmpi .slt c128_i32 c0_i32_54
  let v35 : BitVec 32 := Scalar.extui v34
  let v36 : BitVec 32 := Scalar.subi v33 v35
  let v37 : BitVec 1 := Scalar.cmpi .ne v31 v36
  let v38 : BitVec 32 := Scalar.remsi v25 c128_i32
  let c0_i32_55 : BitVec 32 := 0#32
  let v39 : BitVec 1 := Scalar.cmpi .ne v38 c0_i32_55
  let v40 : BitVec 1 := Scalar.andi v37 v39
  let v26 : BitVec 32 := Scalar.divsi v25 c128_i32
  let c1_i32_56 : BitVec 32 := 1#32
  let v41 : BitVec 32 := Scalar.subi v26 c1_i32_56
  let v42 : BitVec 32 := Scalar.select v40 v41 v26
  v42
def k5_off7 (i : grid5.Coords) (k5_t2 : Fin k5_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_3 : BitVec 32 := 0#32
  let c1_i32_4 : BitVec 32 := 1#32
  let arg22 : BitVec 32 := Scf.iv c0_i32_3 c1_i32_4 k5_t2
  let c2_i32_36 : BitVec 32 := 2#32
  let v16 : BitVec 32 := Scalar.muli arg22 c2_i32_36
  let v17 : BitVec 32 := Scalar.addi c0_i32_37 v16
  let c320_i32 : BitVec 32 := 320#32
  let v23 : BitVec 32 := Scalar.muli v17 c320_i32
  let v24 : BitVec 32 := Scalar.addi v2 v23
  let c16_i32 : BitVec 32 := 16#32
  let v25 : BitVec 32 := Scalar.muli v24 c16_i32
  let c0_i32_51 : BitVec 32 := 0#32
  let v27 : BitVec 1 := Scalar.cmpi .sgt v25 c0_i32_51
  let v28 : BitVec 32 := Scalar.extui v27
  let c0_i32_52 : BitVec 32 := 0#32
  let v29 : BitVec 1 := Scalar.cmpi .slt v25 c0_i32_52
  let v30 : BitVec 32 := Scalar.extui v29
  let v31 : BitVec 32 := Scalar.subi v28 v30
  let c128_i32 : BitVec 32 := 128#32
  let c0_i32_53 : BitVec 32 := 0#32
  let v32 : BitVec 1 := Scalar.cmpi .sgt c128_i32 c0_i32_53
  let v33 : BitVec 32 := Scalar.extui v32
  let c0_i32_54 : BitVec 32 := 0#32
  let v34 : BitVec 1 := Scalar.cmpi .slt c128_i32 c0_i32_54
  let v35 : BitVec 32 := Scalar.extui v34
  let v36 : BitVec 32 := Scalar.subi v33 v35
  let v37 : BitVec 1 := Scalar.cmpi .ne v31 v36
  let v38 : BitVec 32 := Scalar.remsi v25 c128_i32
  let c0_i32_55 : BitVec 32 := 0#32
  let v39 : BitVec 1 := Scalar.cmpi .ne v38 c0_i32_55
  let v40 : BitVec 1 := Scalar.andi v37 v39
  let v26 : BitVec 32 := Scalar.divsi v25 c128_i32
  let c1_i32_56 : BitVec 32 := 1#32
  let v41 : BitVec 32 := Scalar.subi v26 c1_i32_56
  let v42 : BitVec 32 := Scalar.select v40 v41 v26
  let v43 : BitVec 32 := v42
  let c0_i32_75_r1 : BitVec 32 := 0#32
  ![v43.toNat, 0]
def k5_cond1 (k5_t2 : Fin k5_t2_loop.trips) : BitVec 1 :=
  let c0_i32_37 : BitVec 32 := 0#32
  let c0_i32_3 : BitVec 32 := 0#32
  let c1_i32_4 : BitVec 32 := 1#32
  let arg22 : BitVec 32 := Scf.iv c0_i32_3 c1_i32_4 k5_t2
  let c2_i32_36 : BitVec 32 := 2#32
  let v16 : BitVec 32 := Scalar.muli arg22 c2_i32_36
  let v17 : BitVec 32 := Scalar.addi c0_i32_37 v16
  let c2_i32_57 : BitVec 32 := 2#32
  let v44 : BitVec 32 := Scalar.addi v17 c2_i32_57
  let c80_i32 : BitVec 32 := 80#32
  let v45 : BitVec 1 := Scalar.cmpi .slt v44 c80_i32
  let v46 : BitVec 32 := Scalar.extui v45
  let c0_i32_58 : BitVec 32 := 0#32
  let v47 : BitVec 1 := Scalar.cmpi .ne v46 c0_i32_58
  v47

@[reducible] def k5_t5_loop : Scf.Loop 32 :=
  let c0_i32_76 : BitVec 32 := 0#32
  let c20_i32_77 : BitVec 32 := 20#32
  let v73 : BitVec 32 := Scalar.addi c0_i32_76 c20_i32_77
  let c1_i32_78 : BitVec 32 := 1#32
  ⟨c0_i32_76, v73, c1_i32_78⟩
def k5_off8 (k5_t2 : Fin k5_t2_loop.trips) (k5_t5 : Fin k5_t5_loop.trips) : Fin 1 → Nat :=
  let c0_i32_37 : BitVec 32 := 0#32
  let c0_i32_3 : BitVec 32 := 0#32
  let c1_i32_4 : BitVec 32 := 1#32
  let arg22 : BitVec 32 := Scf.iv c0_i32_3 c1_i32_4 k5_t2
  let c2_i32_36 : BitVec 32 := 2#32
  let v16 : BitVec 32 := Scalar.muli arg22 c2_i32_36
  let v17 : BitVec 32 := Scalar.addi c0_i32_37 v16
  let c2_i32_75 : BitVec 32 := 2#32
  let v72 : BitVec 32 := Scalar.addi v17 c2_i32_75
  let c320_i32_84 : BitVec 32 := 320#32
  let v77 : BitVec 32 := Scalar.muli v72 c320_i32_84
  let c0_i32_83 : BitVec 32 := 0#32
  let c0_i32_76 : BitVec 32 := 0#32
  let c1_i32_78 : BitVec 32 := 1#32
  let arg23 : BitVec 32 := Scf.iv c0_i32_76 c1_i32_78 k5_t5
  let c16_i32_82 : BitVec 32 := 16#32
  let v75 : BitVec 32 := Scalar.muli arg23 c16_i32_82
  let v76 : BitVec 32 := Scalar.addi c0_i32_83 v75
  let v78 : BitVec 32 := Scalar.addi v77 v76
  let v79 : Index := Scalar.indexCast v78
  ![v79.toNat]
def k5_off9 (k5_t5 : Fin k5_t5_loop.trips) : Fin 1 → Nat :=
  let c0_i32_83 : BitVec 32 := 0#32
  let c0_i32_76 : BitVec 32 := 0#32
  let c1_i32_78 : BitVec 32 := 1#32
  let arg23 : BitVec 32 := Scf.iv c0_i32_76 c1_i32_78 k5_t5
  let c16_i32_82 : BitVec 32 := 16#32
  let v75 : BitVec 32 := Scalar.muli arg23 c16_i32_82
  let v76 : BitVec 32 := Scalar.addi c0_i32_83 v75
  let v83 : Index := Scalar.indexCast v76
  ![v83.toNat]
@[reducible] def k5_t6_loop : Scf.Loop 32 :=
  let c0_i32_62 : BitVec 32 := 0#32
  let c20_i32_63 : BitVec 32 := 20#32
  let v50 : BitVec 32 := Scalar.addi c0_i32_62 c20_i32_63
  let c1_i32_64 : BitVec 32 := 1#32
  ⟨c0_i32_62, v50, c1_i32_64⟩
def k5_off10 (k5_t2 : Fin k5_t2_loop.trips) (k5_t6 : Fin k5_t6_loop.trips) : Fin 1 → Nat :=
  let c0_i32_37 : BitVec 32 := 0#32
  let c0_i32_3 : BitVec 32 := 0#32
  let c1_i32_4 : BitVec 32 := 1#32
  let arg22 : BitVec 32 := Scf.iv c0_i32_3 c1_i32_4 k5_t2
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_77 : BitVec 32 := 320#32
  let v74 : BitVec 32 := Scalar.muli v48 c320_i32_77
  let c0_i32_76 : BitVec 32 := 0#32
  let c0_i32_62 : BitVec 32 := 0#32
  let c1_i32_64 : BitVec 32 := 1#32
  let arg23 : BitVec 32 := Scf.iv c0_i32_62 c1_i32_64 k5_t6
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]

def k5_chk33 (v79 : IVec S16 32) (v87 : IVec S16 32) : Prop :=
  (∀ a x, ((![v79, v87] : Fin 2 → IVec S16 32) a x).toNat < S320x128.size a)
instance k5_chk33.dec : ∀ (v79 : IVec S16 32) (v87 : IVec S16 32), Decidable (k5_chk33 v79 v87) := fun v79 v87 => decidable_of_iff' _ (Iff.of_eq (k5_chk33.eq_1 v79 v87))
theorem k5_idx33_inb : ∀ (v79 : IVec S16 32) (v87 : IVec S16 32) (k5_hw33 : k5_chk33 v79 v87), ∀ a x, ((![v79, v87] : Fin 2 → IVec S16 32) a x).toNat < S320x128.size a := fun v79 v87 k5_hw33 => k5_hw33

def k5_chk34 (v92 : IVec S16 32) (v94 : IVec S16 32) : Prop :=
  (∀ a x, ((![v92, v94] : Fin 2 → IVec S16 32) a x).toNat < S40x128.size a)
instance k5_chk34.dec : ∀ (v92 : IVec S16 32) (v94 : IVec S16 32), Decidable (k5_chk34 v92 v94) := fun v92 v94 => decidable_of_iff' _ (Iff.of_eq (k5_chk34.eq_1 v92 v94))
theorem k5_idx34_inb : ∀ (v92 : IVec S16 32) (v94 : IVec S16 32) (k5_hw34 : k5_chk34 v92 v94), ∀ a x, ((![v92, v94] : Fin 2 → IVec S16 32) a x).toNat < S40x128.size a := fun v92 v94 k5_hw34 => k5_hw34

def k5_chk35 (v79 : IVec S16 32) (v96 : IVec S16 32) : Prop :=
  (∀ a x, ((![v79, v96] : Fin 2 → IVec S16 32) a x).toNat < S320x128.size a)
instance k5_chk35.dec : ∀ (v79 : IVec S16 32) (v96 : IVec S16 32), Decidable (k5_chk35 v79 v96) := fun v79 v96 => decidable_of_iff' _ (Iff.of_eq (k5_chk35.eq_1 v79 v96))
theorem k5_idx35_inb : ∀ (v79 : IVec S16 32) (v96 : IVec S16 32) (k5_hw35 : k5_chk35 v79 v96), ∀ a x, ((![v79, v96] : Fin 2 → IVec S16 32) a x).toNat < S320x128.size a := fun v79 v96 k5_hw35 => k5_hw35

def k5_chk36 (v101 : IVec S16 32) (v103 : IVec S16 32) : Prop :=
  (∀ a x, ((![v101, v103] : Fin 2 → IVec S16 32) a x).toNat < S40x128.size a)
instance k5_chk36.dec : ∀ (v101 : IVec S16 32) (v103 : IVec S16 32), Decidable (k5_chk36 v101 v103) := fun v101 v103 => decidable_of_iff' _ (Iff.of_eq (k5_chk36.eq_1 v101 v103))
theorem k5_idx36_inb : ∀ (v101 : IVec S16 32) (v103 : IVec S16 32) (k5_hw36 : k5_chk36 v101 v103), ∀ a x, ((![v101, v103] : Fin 2 → IVec S16 32) a x).toNat < S40x128.size a := fun v101 v103 k5_hw36 => k5_hw36

def k5_chk37 (v79 : IVec S16 32) (v105 : IVec S16 32) : Prop :=
  (∀ a x, ((![v79, v105] : Fin 2 → IVec S16 32) a x).toNat < S320x128.size a)
instance k5_chk37.dec : ∀ (v79 : IVec S16 32) (v105 : IVec S16 32), Decidable (k5_chk37 v79 v105) := fun v79 v105 => decidable_of_iff' _ (Iff.of_eq (k5_chk37.eq_1 v79 v105))
theorem k5_idx37_inb : ∀ (v79 : IVec S16 32) (v105 : IVec S16 32) (k5_hw37 : k5_chk37 v79 v105), ∀ a x, ((![v79, v105] : Fin 2 → IVec S16 32) a x).toNat < S320x128.size a := fun v79 v105 k5_hw37 => k5_hw37

def k5_chk38 (v110 : IVec S16 32) (v112 : IVec S16 32) : Prop :=
  (∀ a x, ((![v110, v112] : Fin 2 → IVec S16 32) a x).toNat < S40x128.size a)
instance k5_chk38.dec : ∀ (v110 : IVec S16 32) (v112 : IVec S16 32), Decidable (k5_chk38 v110 v112) := fun v110 v112 => decidable_of_iff' _ (Iff.of_eq (k5_chk38.eq_1 v110 v112))
theorem k5_idx38_inb : ∀ (v110 : IVec S16 32) (v112 : IVec S16 32) (k5_hw38 : k5_chk38 v110 v112), ∀ a x, ((![v110, v112] : Fin 2 → IVec S16 32) a x).toNat < S40x128.size a := fun v110 v112 k5_hw38 => k5_hw38

def k5_chk39 (v79 : IVec S16 32) (v114 : IVec S16 32) : Prop :=
  (∀ a x, ((![v79, v114] : Fin 2 → IVec S16 32) a x).toNat < S320x128.size a)
instance k5_chk39.dec : ∀ (v79 : IVec S16 32) (v114 : IVec S16 32), Decidable (k5_chk39 v79 v114) := fun v79 v114 => decidable_of_iff' _ (Iff.of_eq (k5_chk39.eq_1 v79 v114))
theorem k5_idx39_inb : ∀ (v79 : IVec S16 32) (v114 : IVec S16 32) (k5_hw39 : k5_chk39 v79 v114), ∀ a x, ((![v79, v114] : Fin 2 → IVec S16 32) a x).toNat < S320x128.size a := fun v79 v114 k5_hw39 => k5_hw39

def k5_chk40 (v119 : IVec S16 32) (v121 : IVec S16 32) : Prop :=
  (∀ a x, ((![v119, v121] : Fin 2 → IVec S16 32) a x).toNat < S40x128.size a)
instance k5_chk40.dec : ∀ (v119 : IVec S16 32) (v121 : IVec S16 32), Decidable (k5_chk40 v119 v121) := fun v119 v121 => decidable_of_iff' _ (Iff.of_eq (k5_chk40.eq_1 v119 v121))
theorem k5_idx40_inb : ∀ (v119 : IVec S16 32) (v121 : IVec S16 32) (k5_hw40 : k5_chk40 v119 v121), ∀ a x, ((![v119, v121] : Fin 2 → IVec S16 32) a x).toNat < S40x128.size a := fun v119 v121 k5_hw40 => k5_hw40

def k5_chk41 (v79 : IVec S16 32) (v123 : IVec S16 32) : Prop :=
  (∀ a x, ((![v79, v123] : Fin 2 → IVec S16 32) a x).toNat < S320x128.size a)
instance k5_chk41.dec : ∀ (v79 : IVec S16 32) (v123 : IVec S16 32), Decidable (k5_chk41 v79 v123) := fun v79 v123 => decidable_of_iff' _ (Iff.of_eq (k5_chk41.eq_1 v79 v123))
theorem k5_idx41_inb : ∀ (v79 : IVec S16 32) (v123 : IVec S16 32) (k5_hw41 : k5_chk41 v79 v123), ∀ a x, ((![v79, v123] : Fin 2 → IVec S16 32) a x).toNat < S320x128.size a := fun v79 v123 k5_hw41 => k5_hw41

def k5_chk42 (v128 : IVec S16 32) (v130 : IVec S16 32) : Prop :=
  (∀ a x, ((![v128, v130] : Fin 2 → IVec S16 32) a x).toNat < S40x128.size a)
instance k5_chk42.dec : ∀ (v128 : IVec S16 32) (v130 : IVec S16 32), Decidable (k5_chk42 v128 v130) := fun v128 v130 => decidable_of_iff' _ (Iff.of_eq (k5_chk42.eq_1 v128 v130))
theorem k5_idx42_inb : ∀ (v128 : IVec S16 32) (v130 : IVec S16 32) (k5_hw42 : k5_chk42 v128 v130), ∀ a x, ((![v128, v130] : Fin 2 → IVec S16 32) a x).toNat < S40x128.size a := fun v128 v130 k5_hw42 => k5_hw42

def k5_chk43 (v79 : IVec S16 32) (v132 : IVec S16 32) : Prop :=
  (∀ a x, ((![v79, v132] : Fin 2 → IVec S16 32) a x).toNat < S320x128.size a)
instance k5_chk43.dec : ∀ (v79 : IVec S16 32) (v132 : IVec S16 32), Decidable (k5_chk43 v79 v132) := fun v79 v132 => decidable_of_iff' _ (Iff.of_eq (k5_chk43.eq_1 v79 v132))
theorem k5_idx43_inb : ∀ (v79 : IVec S16 32) (v132 : IVec S16 32) (k5_hw43 : k5_chk43 v79 v132), ∀ a x, ((![v79, v132] : Fin 2 → IVec S16 32) a x).toNat < S320x128.size a := fun v79 v132 k5_hw43 => k5_hw43

def k5_chk44 (v137 : IVec S16 32) (v139 : IVec S16 32) : Prop :=
  (∀ a x, ((![v137, v139] : Fin 2 → IVec S16 32) a x).toNat < S40x128.size a)
instance k5_chk44.dec : ∀ (v137 : IVec S16 32) (v139 : IVec S16 32), Decidable (k5_chk44 v137 v139) := fun v137 v139 => decidable_of_iff' _ (Iff.of_eq (k5_chk44.eq_1 v137 v139))
theorem k5_idx44_inb : ∀ (v137 : IVec S16 32) (v139 : IVec S16 32) (k5_hw44 : k5_chk44 v137 v139), ∀ a x, ((![v137, v139] : Fin 2 → IVec S16 32) a x).toNat < S40x128.size a := fun v137 v139 k5_hw44 => k5_hw44

def k5_chk45 (v79 : IVec S16 32) (v141 : IVec S16 32) : Prop :=
  (∀ a x, ((![v79, v141] : Fin 2 → IVec S16 32) a x).toNat < S320x128.size a)
instance k5_chk45.dec : ∀ (v79 : IVec S16 32) (v141 : IVec S16 32), Decidable (k5_chk45 v79 v141) := fun v79 v141 => decidable_of_iff' _ (Iff.of_eq (k5_chk45.eq_1 v79 v141))
theorem k5_idx45_inb : ∀ (v79 : IVec S16 32) (v141 : IVec S16 32) (k5_hw45 : k5_chk45 v79 v141), ∀ a x, ((![v79, v141] : Fin 2 → IVec S16 32) a x).toNat < S320x128.size a := fun v79 v141 k5_hw45 => k5_hw45

def k5_chk46 (v146 : IVec S16 32) (v148 : IVec S16 32) : Prop :=
  (∀ a x, ((![v146, v148] : Fin 2 → IVec S16 32) a x).toNat < S40x128.size a)
instance k5_chk46.dec : ∀ (v146 : IVec S16 32) (v148 : IVec S16 32), Decidable (k5_chk46 v146 v148) := fun v146 v148 => decidable_of_iff' _ (Iff.of_eq (k5_chk46.eq_1 v146 v148))
theorem k5_idx46_inb : ∀ (v146 : IVec S16 32) (v148 : IVec S16 32) (k5_hw46 : k5_chk46 v146 v148), ∀ a x, ((![v146, v148] : Fin 2 → IVec S16 32) a x).toNat < S40x128.size a := fun v146 v148 k5_hw46 => k5_hw46

def k5_chk47 (v79 : IVec S16 32) (v150 : IVec S16 32) : Prop :=
  (∀ a x, ((![v79, v150] : Fin 2 → IVec S16 32) a x).toNat < S320x128.size a)
instance k5_chk47.dec : ∀ (v79 : IVec S16 32) (v150 : IVec S16 32), Decidable (k5_chk47 v79 v150) := fun v79 v150 => decidable_of_iff' _ (Iff.of_eq (k5_chk47.eq_1 v79 v150))
theorem k5_idx47_inb : ∀ (v79 : IVec S16 32) (v150 : IVec S16 32) (k5_hw47 : k5_chk47 v79 v150), ∀ a x, ((![v79, v150] : Fin 2 → IVec S16 32) a x).toNat < S320x128.size a := fun v79 v150 k5_hw47 => k5_hw47

def k5_chk48 (v155 : IVec S16 32) (v157 : IVec S16 32) : Prop :=
  (∀ a x, ((![v155, v157] : Fin 2 → IVec S16 32) a x).toNat < S40x128.size a)
instance k5_chk48.dec : ∀ (v155 : IVec S16 32) (v157 : IVec S16 32), Decidable (k5_chk48 v155 v157) := fun v155 v157 => decidable_of_iff' _ (Iff.of_eq (k5_chk48.eq_1 v155 v157))
theorem k5_idx48_inb : ∀ (v155 : IVec S16 32) (v157 : IVec S16 32) (k5_hw48 : k5_chk48 v155 v157), ∀ a x, ((![v155, v157] : Fin 2 → IVec S16 32) a x).toNat < S40x128.size a := fun v155 v157 k5_hw48 => k5_hw48

def k5_chk49 (v79 : IVec S16 32) (v159 : IVec S16 32) : Prop :=
  (∀ a x, ((![v79, v159] : Fin 2 → IVec S16 32) a x).toNat < S320x128.size a)
instance k5_chk49.dec : ∀ (v79 : IVec S16 32) (v159 : IVec S16 32), Decidable (k5_chk49 v79 v159) := fun v79 v159 => decidable_of_iff' _ (Iff.of_eq (k5_chk49.eq_1 v79 v159))
theorem k5_idx49_inb : ∀ (v79 : IVec S16 32) (v159 : IVec S16 32) (k5_hw49 : k5_chk49 v79 v159), ∀ a x, ((![v79, v159] : Fin 2 → IVec S16 32) a x).toNat < S320x128.size a := fun v79 v159 k5_hw49 => k5_hw49

def k5_chk50 (v164 : IVec S16 32) (v166 : IVec S16 32) : Prop :=
  (∀ a x, ((![v164, v166] : Fin 2 → IVec S16 32) a x).toNat < S40x128.size a)
instance k5_chk50.dec : ∀ (v164 : IVec S16 32) (v166 : IVec S16 32), Decidable (k5_chk50 v164 v166) := fun v164 v166 => decidable_of_iff' _ (Iff.of_eq (k5_chk50.eq_1 v164 v166))
theorem k5_idx50_inb : ∀ (v164 : IVec S16 32) (v166 : IVec S16 32) (k5_hw50 : k5_chk50 v164 v166), ∀ a x, ((![v164, v166] : Fin 2 → IVec S16 32) a x).toNat < S40x128.size a := fun v164 v166 k5_hw50 => k5_hw50

def k5_chk51 (v79 : IVec S16 32) (v168 : IVec S16 32) : Prop :=
  (∀ a x, ((![v79, v168] : Fin 2 → IVec S16 32) a x).toNat < S320x128.size a)
instance k5_chk51.dec : ∀ (v79 : IVec S16 32) (v168 : IVec S16 32), Decidable (k5_chk51 v79 v168) := fun v79 v168 => decidable_of_iff' _ (Iff.of_eq (k5_chk51.eq_1 v79 v168))
theorem k5_idx51_inb : ∀ (v79 : IVec S16 32) (v168 : IVec S16 32) (k5_hw51 : k5_chk51 v79 v168), ∀ a x, ((![v79, v168] : Fin 2 → IVec S16 32) a x).toNat < S320x128.size a := fun v79 v168 k5_hw51 => k5_hw51

def k5_chk52 (v173 : IVec S16 32) (v175 : IVec S16 32) : Prop :=
  (∀ a x, ((![v173, v175] : Fin 2 → IVec S16 32) a x).toNat < S40x128.size a)
instance k5_chk52.dec : ∀ (v173 : IVec S16 32) (v175 : IVec S16 32), Decidable (k5_chk52 v173 v175) := fun v173 v175 => decidable_of_iff' _ (Iff.of_eq (k5_chk52.eq_1 v173 v175))
theorem k5_idx52_inb : ∀ (v173 : IVec S16 32) (v175 : IVec S16 32) (k5_hw52 : k5_chk52 v173 v175), ∀ a x, ((![v173, v175] : Fin 2 → IVec S16 32) a x).toNat < S40x128.size a := fun v173 v175 k5_hw52 => k5_hw52

def k5_chk53 (v79 : IVec S16 32) (v177 : IVec S16 32) : Prop :=
  (∀ a x, ((![v79, v177] : Fin 2 → IVec S16 32) a x).toNat < S320x128.size a)
instance k5_chk53.dec : ∀ (v79 : IVec S16 32) (v177 : IVec S16 32), Decidable (k5_chk53 v79 v177) := fun v79 v177 => decidable_of_iff' _ (Iff.of_eq (k5_chk53.eq_1 v79 v177))
theorem k5_idx53_inb : ∀ (v79 : IVec S16 32) (v177 : IVec S16 32) (k5_hw53 : k5_chk53 v79 v177), ∀ a x, ((![v79, v177] : Fin 2 → IVec S16 32) a x).toNat < S320x128.size a := fun v79 v177 k5_hw53 => k5_hw53

def k5_chk54 (v182 : IVec S16 32) (v184 : IVec S16 32) : Prop :=
  (∀ a x, ((![v182, v184] : Fin 2 → IVec S16 32) a x).toNat < S40x128.size a)
instance k5_chk54.dec : ∀ (v182 : IVec S16 32) (v184 : IVec S16 32), Decidable (k5_chk54 v182 v184) := fun v182 v184 => decidable_of_iff' _ (Iff.of_eq (k5_chk54.eq_1 v182 v184))
theorem k5_idx54_inb : ∀ (v182 : IVec S16 32) (v184 : IVec S16 32) (k5_hw54 : k5_chk54 v182 v184), ∀ a x, ((![v182, v184] : Fin 2 → IVec S16 32) a x).toNat < S40x128.size a := fun v182 v184 k5_hw54 => k5_hw54

def k5_chk55 (v79 : IVec S16 32) (v186 : IVec S16 32) : Prop :=
  (∀ a x, ((![v79, v186] : Fin 2 → IVec S16 32) a x).toNat < S320x128.size a)
instance k5_chk55.dec : ∀ (v79 : IVec S16 32) (v186 : IVec S16 32), Decidable (k5_chk55 v79 v186) := fun v79 v186 => decidable_of_iff' _ (Iff.of_eq (k5_chk55.eq_1 v79 v186))
theorem k5_idx55_inb : ∀ (v79 : IVec S16 32) (v186 : IVec S16 32) (k5_hw55 : k5_chk55 v79 v186), ∀ a x, ((![v79, v186] : Fin 2 → IVec S16 32) a x).toNat < S320x128.size a := fun v79 v186 k5_hw55 => k5_hw55

def k5_chk56 (v191 : IVec S16 32) (v193 : IVec S16 32) : Prop :=
  (∀ a x, ((![v191, v193] : Fin 2 → IVec S16 32) a x).toNat < S40x128.size a)
instance k5_chk56.dec : ∀ (v191 : IVec S16 32) (v193 : IVec S16 32), Decidable (k5_chk56 v191 v193) := fun v191 v193 => decidable_of_iff' _ (Iff.of_eq (k5_chk56.eq_1 v191 v193))
theorem k5_idx56_inb : ∀ (v191 : IVec S16 32) (v193 : IVec S16 32) (k5_hw56 : k5_chk56 v191 v193), ∀ a x, ((![v191, v193] : Fin 2 → IVec S16 32) a x).toNat < S40x128.size a := fun v191 v193 k5_hw56 => k5_hw56

def k5_chk57 (v79 : IVec S16 32) (v195 : IVec S16 32) : Prop :=
  (∀ a x, ((![v79, v195] : Fin 2 → IVec S16 32) a x).toNat < S320x128.size a)
instance k5_chk57.dec : ∀ (v79 : IVec S16 32) (v195 : IVec S16 32), Decidable (k5_chk57 v79 v195) := fun v79 v195 => decidable_of_iff' _ (Iff.of_eq (k5_chk57.eq_1 v79 v195))
theorem k5_idx57_inb : ∀ (v79 : IVec S16 32) (v195 : IVec S16 32) (k5_hw57 : k5_chk57 v79 v195), ∀ a x, ((![v79, v195] : Fin 2 → IVec S16 32) a x).toNat < S320x128.size a := fun v79 v195 k5_hw57 => k5_hw57

def k5_chk58 (v200 : IVec S16 32) (v202 : IVec S16 32) : Prop :=
  (∀ a x, ((![v200, v202] : Fin 2 → IVec S16 32) a x).toNat < S40x128.size a)
instance k5_chk58.dec : ∀ (v200 : IVec S16 32) (v202 : IVec S16 32), Decidable (k5_chk58 v200 v202) := fun v200 v202 => decidable_of_iff' _ (Iff.of_eq (k5_chk58.eq_1 v200 v202))
theorem k5_idx58_inb : ∀ (v200 : IVec S16 32) (v202 : IVec S16 32) (k5_hw58 : k5_chk58 v200 v202), ∀ a x, ((![v200, v202] : Fin 2 → IVec S16 32) a x).toNat < S40x128.size a := fun v200 v202 k5_hw58 => k5_hw58

def k5_chk59 (v79 : IVec S16 32) (v204 : IVec S16 32) : Prop :=
  (∀ a x, ((![v79, v204] : Fin 2 → IVec S16 32) a x).toNat < S320x128.size a)
instance k5_chk59.dec : ∀ (v79 : IVec S16 32) (v204 : IVec S16 32), Decidable (k5_chk59 v79 v204) := fun v79 v204 => decidable_of_iff' _ (Iff.of_eq (k5_chk59.eq_1 v79 v204))
theorem k5_idx59_inb : ∀ (v79 : IVec S16 32) (v204 : IVec S16 32) (k5_hw59 : k5_chk59 v79 v204), ∀ a x, ((![v79, v204] : Fin 2 → IVec S16 32) a x).toNat < S320x128.size a := fun v79 v204 k5_hw59 => k5_hw59

def k5_chk60 (v209 : IVec S16 32) (v211 : IVec S16 32) : Prop :=
  (∀ a x, ((![v209, v211] : Fin 2 → IVec S16 32) a x).toNat < S40x128.size a)
instance k5_chk60.dec : ∀ (v209 : IVec S16 32) (v211 : IVec S16 32), Decidable (k5_chk60 v209 v211) := fun v209 v211 => decidable_of_iff' _ (Iff.of_eq (k5_chk60.eq_1 v209 v211))
theorem k5_idx60_inb : ∀ (v209 : IVec S16 32) (v211 : IVec S16 32) (k5_hw60 : k5_chk60 v209 v211), ∀ a x, ((![v209, v211] : Fin 2 → IVec S16 32) a x).toNat < S40x128.size a := fun v209 v211 k5_hw60 => k5_hw60

def k5_chk61 (v79 : IVec S16 32) (v213 : IVec S16 32) : Prop :=
  (∀ a x, ((![v79, v213] : Fin 2 → IVec S16 32) a x).toNat < S320x128.size a)
instance k5_chk61.dec : ∀ (v79 : IVec S16 32) (v213 : IVec S16 32), Decidable (k5_chk61 v79 v213) := fun v79 v213 => decidable_of_iff' _ (Iff.of_eq (k5_chk61.eq_1 v79 v213))
theorem k5_idx61_inb : ∀ (v79 : IVec S16 32) (v213 : IVec S16 32) (k5_hw61 : k5_chk61 v79 v213), ∀ a x, ((![v79, v213] : Fin 2 → IVec S16 32) a x).toNat < S320x128.size a := fun v79 v213 k5_hw61 => k5_hw61

def k5_chk62 (v218 : IVec S16 32) (v220 : IVec S16 32) : Prop :=
  (∀ a x, ((![v218, v220] : Fin 2 → IVec S16 32) a x).toNat < S40x128.size a)
instance k5_chk62.dec : ∀ (v218 : IVec S16 32) (v220 : IVec S16 32), Decidable (k5_chk62 v218 v220) := fun v218 v220 => decidable_of_iff' _ (Iff.of_eq (k5_chk62.eq_1 v218 v220))
theorem k5_idx62_inb : ∀ (v218 : IVec S16 32) (v220 : IVec S16 32) (k5_hw62 : k5_chk62 v218 v220), ∀ a x, ((![v218, v220] : Fin 2 → IVec S16 32) a x).toNat < S40x128.size a := fun v218 v220 k5_hw62 => k5_hw62

def k5_chk63 (v79 : IVec S16 32) (v222 : IVec S16 32) : Prop :=
  (∀ a x, ((![v79, v222] : Fin 2 → IVec S16 32) a x).toNat < S320x128.size a)
instance k5_chk63.dec : ∀ (v79 : IVec S16 32) (v222 : IVec S16 32), Decidable (k5_chk63 v79 v222) := fun v79 v222 => decidable_of_iff' _ (Iff.of_eq (k5_chk63.eq_1 v79 v222))
theorem k5_idx63_inb : ∀ (v79 : IVec S16 32) (v222 : IVec S16 32) (k5_hw63 : k5_chk63 v79 v222), ∀ a x, ((![v79, v222] : Fin 2 → IVec S16 32) a x).toNat < S320x128.size a := fun v79 v222 k5_hw63 => k5_hw63

def k5_chk64 (v227 : IVec S16 32) (v229 : IVec S16 32) : Prop :=
  (∀ a x, ((![v227, v229] : Fin 2 → IVec S16 32) a x).toNat < S40x128.size a)
instance k5_chk64.dec : ∀ (v227 : IVec S16 32) (v229 : IVec S16 32), Decidable (k5_chk64 v227 v229) := fun v227 v229 => decidable_of_iff' _ (Iff.of_eq (k5_chk64.eq_1 v227 v229))
theorem k5_idx64_inb : ∀ (v227 : IVec S16 32) (v229 : IVec S16 32) (k5_hw64 : k5_chk64 v227 v229), ∀ a x, ((![v227, v229] : Fin 2 → IVec S16 32) a x).toNat < S40x128.size a := fun v227 v229 k5_hw64 => k5_hw64
def k5_mult2 (i : grid5.Coords) (k5_t2 : Fin k5_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_3 : BitVec 32 := 0#32
  let c1_i32_4 : BitVec 32 := 1#32
  let arg22 : BitVec 32 := Scf.iv c0_i32_3 c1_i32_4 k5_t2
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_66 : BitVec 32 := 320#32
  let v51 : BitVec 32 := Scalar.muli v48 c320_i32_66
  let v52 : BitVec 32 := Scalar.addi v2 v51
  let c16_i32_67 : BitVec 32 := 16#32
  let v53 : BitVec 32 := Scalar.muli v52 c16_i32_67
  let c0_i32_69 : BitVec 32 := 0#32
  let v55 : BitVec 1 := Scalar.cmpi .sgt v53 c0_i32_69
  let v56 : BitVec 32 := Scalar.extui v55
  let c0_i32_70 : BitVec 32 := 0#32
  let v57 : BitVec 1 := Scalar.cmpi .slt v53 c0_i32_70
  let v58 : BitVec 32 := Scalar.extui v57
  let v59 : BitVec 32 := Scalar.subi v56 v58
  let c128_i32_68 : BitVec 32 := 128#32
  let c0_i32_71 : BitVec 32 := 0#32
  let v60 : BitVec 1 := Scalar.cmpi .sgt c128_i32_68 c0_i32_71
  let v61 : BitVec 32 := Scalar.extui v60
  let c0_i32_72 : BitVec 32 := 0#32
  let v62 : BitVec 1 := Scalar.cmpi .slt c128_i32_68 c0_i32_72
  let v63 : BitVec 32 := Scalar.extui v62
  let v64 : BitVec 32 := Scalar.subi v61 v63
  let v65 : BitVec 1 := Scalar.cmpi .ne v59 v64
  let v66 : BitVec 32 := Scalar.remsi v53 c128_i32_68
  let c0_i32_73 : BitVec 32 := 0#32
  let v67 : BitVec 1 := Scalar.cmpi .ne v66 c0_i32_73
  let v68 : BitVec 1 := Scalar.andi v65 v67
  let v54 : BitVec 32 := Scalar.divsi v53 c128_i32_68
  let c1_i32_74 : BitVec 32 := 1#32
  let v69 : BitVec 32 := Scalar.subi v54 c1_i32_74
  let v70 : BitVec 32 := Scalar.select v68 v69 v54
  v70
def k5_off11 (i : grid5.Coords) (k5_t2 : Fin k5_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_3 : BitVec 32 := 0#32
  let c1_i32_4 : BitVec 32 := 1#32
  let arg22 : BitVec 32 := Scf.iv c0_i32_3 c1_i32_4 k5_t2
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_66 : BitVec 32 := 320#32
  let v51 : BitVec 32 := Scalar.muli v48 c320_i32_66
  let v52 : BitVec 32 := Scalar.addi v2 v51
  let c16_i32_67 : BitVec 32 := 16#32
  let v53 : BitVec 32 := Scalar.muli v52 c16_i32_67
  let c0_i32_69 : BitVec 32 := 0#32
  let v55 : BitVec 1 := Scalar.cmpi .sgt v53 c0_i32_69
  let v56 : BitVec 32 := Scalar.extui v55
  let c0_i32_70 : BitVec 32 := 0#32
  let v57 : BitVec 1 := Scalar.cmpi .slt v53 c0_i32_70
  let v58 : BitVec 32 := Scalar.extui v57
  let v59 : BitVec 32 := Scalar.subi v56 v58
  let c128_i32_68 : BitVec 32 := 128#32
  let c0_i32_71 : BitVec 32 := 0#32
  let v60 : BitVec 1 := Scalar.cmpi .sgt c128_i32_68 c0_i32_71
  let v61 : BitVec 32 := Scalar.extui v60
  let c0_i32_72 : BitVec 32 := 0#32
  let v62 : BitVec 1 := Scalar.cmpi .slt c128_i32_68 c0_i32_72
  let v63 : BitVec 32 := Scalar.extui v62
  let v64 : BitVec 32 := Scalar.subi v61 v63
  let v65 : BitVec 1 := Scalar.cmpi .ne v59 v64
  let v66 : BitVec 32 := Scalar.remsi v53 c128_i32_68
  let c0_i32_73 : BitVec 32 := 0#32
  let v67 : BitVec 1 := Scalar.cmpi .ne v66 c0_i32_73
  let v68 : BitVec 1 := Scalar.andi v65 v67
  let v54 : BitVec 32 := Scalar.divsi v53 c128_i32_68
  let c1_i32_74 : BitVec 32 := 1#32
  let v69 : BitVec 32 := Scalar.subi v54 c1_i32_74
  let v70 : BitVec 32 := Scalar.select v68 v69 v54
  let v71 : BitVec 32 := v70
  let c0_i32_75_r2 : BitVec 32 := 0#32
  ![v71.toNat, 0]
@[reducible] def k5_t7_loop : Scf.Loop 32 :=
  let c0_i32_6 : BitVec 32 := 0#32
  let c20_i32_7 : BitVec 32 := 20#32
  let v7 : BitVec 32 := Scalar.addi c0_i32_6 c20_i32_7
  let c1_i32_8 : BitVec 32 := 1#32
  ⟨c0_i32_6, v7, c1_i32_8⟩
def k5_off12 (k5_t7 : Fin k5_t7_loop.trips) : Fin 1 → Nat :=
  let c0_i32_37 : BitVec 32 := 0#32
  let c0_i32_36 : BitVec 32 := 0#32
  let c0_i32_6 : BitVec 32 := 0#32
  let c1_i32_8 : BitVec 32 := 1#32
  let arg22 : BitVec 32 := Scf.iv c0_i32_6 c1_i32_8 k5_t7
  let c16_i32 : BitVec 32 := 16#32
  let v16 : BitVec 32 := Scalar.muli arg22 c16_i32
  let v17 : BitVec 32 := Scalar.addi c0_i32_36 v16
  let v18 : BitVec 32 := Scalar.addi c0_i32_37 v17
  let v19 : Index := Scalar.indexCast v18
  ![v19.toNat]
def k5_off13 (k5_t7 : Fin k5_t7_loop.trips) : Fin 1 → Nat :=
  let c0_i32_36 : BitVec 32 := 0#32
  let c0_i32_6 : BitVec 32 := 0#32
  let c1_i32_8 : BitVec 32 := 1#32
  let arg22 : BitVec 32 := Scf.iv c0_i32_6 c1_i32_8 k5_t7
  let c16_i32 : BitVec 32 := 16#32
  let v16 : BitVec 32 := Scalar.muli arg22 c16_i32
  let v17 : BitVec 32 := Scalar.addi c0_i32_36 v16
  let v23 : Index := Scalar.indexCast v17
  ![v23.toNat]
@[reducible] def k5_t8_loop : Scf.Loop 32 :=
  let c0_i32_12 : BitVec 32 := 0#32
  let c40_i32_13 : BitVec 32 := 40#32
  let v9 : BitVec 32 := Scalar.addi c0_i32_12 c40_i32_13
  let c1_i32_14 : BitVec 32 := 1#32
  ⟨c0_i32_12, v9, c1_i32_14⟩
@[reducible] def k5_t9_loop : Scf.Loop 32 :=
  let c0_i32_39 : BitVec 32 := 0#32
  let c20_i32_40 : BitVec 32 := 20#32
  let v19 : BitVec 32 := Scalar.addi c0_i32_39 c20_i32_40
  let c1_i32_41 : BitVec 32 := 1#32
  ⟨c0_i32_39, v19, c1_i32_41⟩
def k5_off14 (k5_t8 : Fin k5_t8_loop.trips) (k5_t9 : Fin k5_t9_loop.trips) : Fin 1 → Nat :=
  let c0_i32_37 : BitVec 32 := 0#32
  let c0_i32_12 : BitVec 32 := 0#32
  let c1_i32_14 : BitVec 32 := 1#32
  let arg22 : BitVec 32 := Scf.iv c0_i32_12 c1_i32_14 k5_t8
  let c2_i32_36 : BitVec 32 := 2#32
  let v16 : BitVec 32 := Scalar.muli arg22 c2_i32_36
  let v17 : BitVec 32 := Scalar.addi c0_i32_37 v16
  let c1_i32_38 : BitVec 32 := 1#32
  let v18 : BitVec 32 := Scalar.addi v17 c1_i32_38
  let c320_i32_77 : BitVec 32 := 320#32
  let v74 : BitVec 32 := Scalar.muli v18 c320_i32_77
  let c0_i32_76 : BitVec 32 := 0#32
  let c0_i32_39 : BitVec 32 := 0#32
  let c1_i32_41 : BitVec 32 := 1#32
  let arg23 : BitVec 32 := Scf.iv c0_i32_39 c1_i32_41 k5_t9
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]
def k5_off15 (k5_t9 : Fin k5_t9_loop.trips) : Fin 1 → Nat :=
  let c0_i32_76 : BitVec 32 := 0#32
  let c0_i32_39 : BitVec 32 := 0#32
  let c1_i32_41 : BitVec 32 := 1#32
  let arg23 : BitVec 32 := Scf.iv c0_i32_39 c1_i32_41 k5_t9
  let c16_i32_75 : BitVec 32 := 16#32
  let v72 : BitVec 32 := Scalar.muli arg23 c16_i32_75
  let v73 : BitVec 32 := Scalar.addi c0_i32_76 v72
  let v80 : Index := Scalar.indexCast v73
  ![v80.toNat]
@[reducible] def k5_t10_loop : Scf.Loop 32 :=
  let c0_i32_47 : BitVec 32 := 0#32
  let c20_i32_48 : BitVec 32 := 20#32
  let v22 : BitVec 32 := Scalar.addi c0_i32_47 c20_i32_48
  let c1_i32_49 : BitVec 32 := 1#32
  ⟨c0_i32_47, v22, c1_i32_49⟩
def k5_off16 (k5_t8 : Fin k5_t8_loop.trips) (k5_t10 : Fin k5_t10_loop.trips) : Fin 1 → Nat :=
  let c0_i32_37 : BitVec 32 := 0#32
  let c0_i32_12 : BitVec 32 := 0#32
  let c1_i32_14 : BitVec 32 := 1#32
  let arg22 : BitVec 32 := Scf.iv c0_i32_12 c1_i32_14 k5_t8
  let c2_i32_36 : BitVec 32 := 2#32
  let v16 : BitVec 32 := Scalar.muli arg22 c2_i32_36
  let v17 : BitVec 32 := Scalar.addi c0_i32_37 v16
  let c320_i32_77 : BitVec 32 := 320#32
  let v74 : BitVec 32 := Scalar.muli v17 c320_i32_77
  let c0_i32_76 : BitVec 32 := 0#32
  let c0_i32_47 : BitVec 32 := 0#32
  let c1_i32_49 : BitVec 32 := 1#32
  let arg23 : BitVec 32 := Scf.iv c0_i32_47 c1_i32_49 k5_t10
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]

def k5_chk65 (v79 : IVec S16 32) (v87 : IVec S16 32) : Prop :=
  (∀ a x, ((![v79, v87] : Fin 2 → IVec S16 32) a x).toNat < S320x128.size a)
instance k5_chk65.dec : ∀ (v79 : IVec S16 32) (v87 : IVec S16 32), Decidable (k5_chk65 v79 v87) := fun v79 v87 => decidable_of_iff' _ (Iff.of_eq (k5_chk65.eq_1 v79 v87))
theorem k5_idx65_inb : ∀ (v79 : IVec S16 32) (v87 : IVec S16 32) (k5_hw65 : k5_chk65 v79 v87), ∀ a x, ((![v79, v87] : Fin 2 → IVec S16 32) a x).toNat < S320x128.size a := fun v79 v87 k5_hw65 => k5_hw65

def k5_chk66 (v92 : IVec S16 32) (v94 : IVec S16 32) : Prop :=
  (∀ a x, ((![v92, v94] : Fin 2 → IVec S16 32) a x).toNat < S40x128.size a)
instance k5_chk66.dec : ∀ (v92 : IVec S16 32) (v94 : IVec S16 32), Decidable (k5_chk66 v92 v94) := fun v92 v94 => decidable_of_iff' _ (Iff.of_eq (k5_chk66.eq_1 v92 v94))
theorem k5_idx66_inb : ∀ (v92 : IVec S16 32) (v94 : IVec S16 32) (k5_hw66 : k5_chk66 v92 v94), ∀ a x, ((![v92, v94] : Fin 2 → IVec S16 32) a x).toNat < S40x128.size a := fun v92 v94 k5_hw66 => k5_hw66

def k5_chk67 (v79 : IVec S16 32) (v96 : IVec S16 32) : Prop :=
  (∀ a x, ((![v79, v96] : Fin 2 → IVec S16 32) a x).toNat < S320x128.size a)
instance k5_chk67.dec : ∀ (v79 : IVec S16 32) (v96 : IVec S16 32), Decidable (k5_chk67 v79 v96) := fun v79 v96 => decidable_of_iff' _ (Iff.of_eq (k5_chk67.eq_1 v79 v96))
theorem k5_idx67_inb : ∀ (v79 : IVec S16 32) (v96 : IVec S16 32) (k5_hw67 : k5_chk67 v79 v96), ∀ a x, ((![v79, v96] : Fin 2 → IVec S16 32) a x).toNat < S320x128.size a := fun v79 v96 k5_hw67 => k5_hw67

def k5_chk68 (v101 : IVec S16 32) (v103 : IVec S16 32) : Prop :=
  (∀ a x, ((![v101, v103] : Fin 2 → IVec S16 32) a x).toNat < S40x128.size a)
instance k5_chk68.dec : ∀ (v101 : IVec S16 32) (v103 : IVec S16 32), Decidable (k5_chk68 v101 v103) := fun v101 v103 => decidable_of_iff' _ (Iff.of_eq (k5_chk68.eq_1 v101 v103))
theorem k5_idx68_inb : ∀ (v101 : IVec S16 32) (v103 : IVec S16 32) (k5_hw68 : k5_chk68 v101 v103), ∀ a x, ((![v101, v103] : Fin 2 → IVec S16 32) a x).toNat < S40x128.size a := fun v101 v103 k5_hw68 => k5_hw68

def k5_chk69 (v79 : IVec S16 32) (v105 : IVec S16 32) : Prop :=
  (∀ a x, ((![v79, v105] : Fin 2 → IVec S16 32) a x).toNat < S320x128.size a)
instance k5_chk69.dec : ∀ (v79 : IVec S16 32) (v105 : IVec S16 32), Decidable (k5_chk69 v79 v105) := fun v79 v105 => decidable_of_iff' _ (Iff.of_eq (k5_chk69.eq_1 v79 v105))
theorem k5_idx69_inb : ∀ (v79 : IVec S16 32) (v105 : IVec S16 32) (k5_hw69 : k5_chk69 v79 v105), ∀ a x, ((![v79, v105] : Fin 2 → IVec S16 32) a x).toNat < S320x128.size a := fun v79 v105 k5_hw69 => k5_hw69

def k5_chk70 (v110 : IVec S16 32) (v112 : IVec S16 32) : Prop :=
  (∀ a x, ((![v110, v112] : Fin 2 → IVec S16 32) a x).toNat < S40x128.size a)
instance k5_chk70.dec : ∀ (v110 : IVec S16 32) (v112 : IVec S16 32), Decidable (k5_chk70 v110 v112) := fun v110 v112 => decidable_of_iff' _ (Iff.of_eq (k5_chk70.eq_1 v110 v112))
theorem k5_idx70_inb : ∀ (v110 : IVec S16 32) (v112 : IVec S16 32) (k5_hw70 : k5_chk70 v110 v112), ∀ a x, ((![v110, v112] : Fin 2 → IVec S16 32) a x).toNat < S40x128.size a := fun v110 v112 k5_hw70 => k5_hw70

def k5_chk71 (v79 : IVec S16 32) (v114 : IVec S16 32) : Prop :=
  (∀ a x, ((![v79, v114] : Fin 2 → IVec S16 32) a x).toNat < S320x128.size a)
instance k5_chk71.dec : ∀ (v79 : IVec S16 32) (v114 : IVec S16 32), Decidable (k5_chk71 v79 v114) := fun v79 v114 => decidable_of_iff' _ (Iff.of_eq (k5_chk71.eq_1 v79 v114))
theorem k5_idx71_inb : ∀ (v79 : IVec S16 32) (v114 : IVec S16 32) (k5_hw71 : k5_chk71 v79 v114), ∀ a x, ((![v79, v114] : Fin 2 → IVec S16 32) a x).toNat < S320x128.size a := fun v79 v114 k5_hw71 => k5_hw71

def k5_chk72 (v119 : IVec S16 32) (v121 : IVec S16 32) : Prop :=
  (∀ a x, ((![v119, v121] : Fin 2 → IVec S16 32) a x).toNat < S40x128.size a)
instance k5_chk72.dec : ∀ (v119 : IVec S16 32) (v121 : IVec S16 32), Decidable (k5_chk72 v119 v121) := fun v119 v121 => decidable_of_iff' _ (Iff.of_eq (k5_chk72.eq_1 v119 v121))
theorem k5_idx72_inb : ∀ (v119 : IVec S16 32) (v121 : IVec S16 32) (k5_hw72 : k5_chk72 v119 v121), ∀ a x, ((![v119, v121] : Fin 2 → IVec S16 32) a x).toNat < S40x128.size a := fun v119 v121 k5_hw72 => k5_hw72

def k5_chk73 (v79 : IVec S16 32) (v123 : IVec S16 32) : Prop :=
  (∀ a x, ((![v79, v123] : Fin 2 → IVec S16 32) a x).toNat < S320x128.size a)
instance k5_chk73.dec : ∀ (v79 : IVec S16 32) (v123 : IVec S16 32), Decidable (k5_chk73 v79 v123) := fun v79 v123 => decidable_of_iff' _ (Iff.of_eq (k5_chk73.eq_1 v79 v123))
theorem k5_idx73_inb : ∀ (v79 : IVec S16 32) (v123 : IVec S16 32) (k5_hw73 : k5_chk73 v79 v123), ∀ a x, ((![v79, v123] : Fin 2 → IVec S16 32) a x).toNat < S320x128.size a := fun v79 v123 k5_hw73 => k5_hw73

def k5_chk74 (v128 : IVec S16 32) (v130 : IVec S16 32) : Prop :=
  (∀ a x, ((![v128, v130] : Fin 2 → IVec S16 32) a x).toNat < S40x128.size a)
instance k5_chk74.dec : ∀ (v128 : IVec S16 32) (v130 : IVec S16 32), Decidable (k5_chk74 v128 v130) := fun v128 v130 => decidable_of_iff' _ (Iff.of_eq (k5_chk74.eq_1 v128 v130))
theorem k5_idx74_inb : ∀ (v128 : IVec S16 32) (v130 : IVec S16 32) (k5_hw74 : k5_chk74 v128 v130), ∀ a x, ((![v128, v130] : Fin 2 → IVec S16 32) a x).toNat < S40x128.size a := fun v128 v130 k5_hw74 => k5_hw74

def k5_chk75 (v79 : IVec S16 32) (v132 : IVec S16 32) : Prop :=
  (∀ a x, ((![v79, v132] : Fin 2 → IVec S16 32) a x).toNat < S320x128.size a)
instance k5_chk75.dec : ∀ (v79 : IVec S16 32) (v132 : IVec S16 32), Decidable (k5_chk75 v79 v132) := fun v79 v132 => decidable_of_iff' _ (Iff.of_eq (k5_chk75.eq_1 v79 v132))
theorem k5_idx75_inb : ∀ (v79 : IVec S16 32) (v132 : IVec S16 32) (k5_hw75 : k5_chk75 v79 v132), ∀ a x, ((![v79, v132] : Fin 2 → IVec S16 32) a x).toNat < S320x128.size a := fun v79 v132 k5_hw75 => k5_hw75

def k5_chk76 (v137 : IVec S16 32) (v139 : IVec S16 32) : Prop :=
  (∀ a x, ((![v137, v139] : Fin 2 → IVec S16 32) a x).toNat < S40x128.size a)
instance k5_chk76.dec : ∀ (v137 : IVec S16 32) (v139 : IVec S16 32), Decidable (k5_chk76 v137 v139) := fun v137 v139 => decidable_of_iff' _ (Iff.of_eq (k5_chk76.eq_1 v137 v139))
theorem k5_idx76_inb : ∀ (v137 : IVec S16 32) (v139 : IVec S16 32) (k5_hw76 : k5_chk76 v137 v139), ∀ a x, ((![v137, v139] : Fin 2 → IVec S16 32) a x).toNat < S40x128.size a := fun v137 v139 k5_hw76 => k5_hw76

def k5_chk77 (v79 : IVec S16 32) (v141 : IVec S16 32) : Prop :=
  (∀ a x, ((![v79, v141] : Fin 2 → IVec S16 32) a x).toNat < S320x128.size a)
instance k5_chk77.dec : ∀ (v79 : IVec S16 32) (v141 : IVec S16 32), Decidable (k5_chk77 v79 v141) := fun v79 v141 => decidable_of_iff' _ (Iff.of_eq (k5_chk77.eq_1 v79 v141))
theorem k5_idx77_inb : ∀ (v79 : IVec S16 32) (v141 : IVec S16 32) (k5_hw77 : k5_chk77 v79 v141), ∀ a x, ((![v79, v141] : Fin 2 → IVec S16 32) a x).toNat < S320x128.size a := fun v79 v141 k5_hw77 => k5_hw77

def k5_chk78 (v146 : IVec S16 32) (v148 : IVec S16 32) : Prop :=
  (∀ a x, ((![v146, v148] : Fin 2 → IVec S16 32) a x).toNat < S40x128.size a)
instance k5_chk78.dec : ∀ (v146 : IVec S16 32) (v148 : IVec S16 32), Decidable (k5_chk78 v146 v148) := fun v146 v148 => decidable_of_iff' _ (Iff.of_eq (k5_chk78.eq_1 v146 v148))
theorem k5_idx78_inb : ∀ (v146 : IVec S16 32) (v148 : IVec S16 32) (k5_hw78 : k5_chk78 v146 v148), ∀ a x, ((![v146, v148] : Fin 2 → IVec S16 32) a x).toNat < S40x128.size a := fun v146 v148 k5_hw78 => k5_hw78

def k5_chk79 (v79 : IVec S16 32) (v150 : IVec S16 32) : Prop :=
  (∀ a x, ((![v79, v150] : Fin 2 → IVec S16 32) a x).toNat < S320x128.size a)
instance k5_chk79.dec : ∀ (v79 : IVec S16 32) (v150 : IVec S16 32), Decidable (k5_chk79 v79 v150) := fun v79 v150 => decidable_of_iff' _ (Iff.of_eq (k5_chk79.eq_1 v79 v150))
theorem k5_idx79_inb : ∀ (v79 : IVec S16 32) (v150 : IVec S16 32) (k5_hw79 : k5_chk79 v79 v150), ∀ a x, ((![v79, v150] : Fin 2 → IVec S16 32) a x).toNat < S320x128.size a := fun v79 v150 k5_hw79 => k5_hw79

def k5_chk80 (v155 : IVec S16 32) (v157 : IVec S16 32) : Prop :=
  (∀ a x, ((![v155, v157] : Fin 2 → IVec S16 32) a x).toNat < S40x128.size a)
instance k5_chk80.dec : ∀ (v155 : IVec S16 32) (v157 : IVec S16 32), Decidable (k5_chk80 v155 v157) := fun v155 v157 => decidable_of_iff' _ (Iff.of_eq (k5_chk80.eq_1 v155 v157))
theorem k5_idx80_inb : ∀ (v155 : IVec S16 32) (v157 : IVec S16 32) (k5_hw80 : k5_chk80 v155 v157), ∀ a x, ((![v155, v157] : Fin 2 → IVec S16 32) a x).toNat < S40x128.size a := fun v155 v157 k5_hw80 => k5_hw80

def k5_chk81 (v79 : IVec S16 32) (v159 : IVec S16 32) : Prop :=
  (∀ a x, ((![v79, v159] : Fin 2 → IVec S16 32) a x).toNat < S320x128.size a)
instance k5_chk81.dec : ∀ (v79 : IVec S16 32) (v159 : IVec S16 32), Decidable (k5_chk81 v79 v159) := fun v79 v159 => decidable_of_iff' _ (Iff.of_eq (k5_chk81.eq_1 v79 v159))
theorem k5_idx81_inb : ∀ (v79 : IVec S16 32) (v159 : IVec S16 32) (k5_hw81 : k5_chk81 v79 v159), ∀ a x, ((![v79, v159] : Fin 2 → IVec S16 32) a x).toNat < S320x128.size a := fun v79 v159 k5_hw81 => k5_hw81

def k5_chk82 (v164 : IVec S16 32) (v166 : IVec S16 32) : Prop :=
  (∀ a x, ((![v164, v166] : Fin 2 → IVec S16 32) a x).toNat < S40x128.size a)
instance k5_chk82.dec : ∀ (v164 : IVec S16 32) (v166 : IVec S16 32), Decidable (k5_chk82 v164 v166) := fun v164 v166 => decidable_of_iff' _ (Iff.of_eq (k5_chk82.eq_1 v164 v166))
theorem k5_idx82_inb : ∀ (v164 : IVec S16 32) (v166 : IVec S16 32) (k5_hw82 : k5_chk82 v164 v166), ∀ a x, ((![v164, v166] : Fin 2 → IVec S16 32) a x).toNat < S40x128.size a := fun v164 v166 k5_hw82 => k5_hw82

def k5_chk83 (v79 : IVec S16 32) (v168 : IVec S16 32) : Prop :=
  (∀ a x, ((![v79, v168] : Fin 2 → IVec S16 32) a x).toNat < S320x128.size a)
instance k5_chk83.dec : ∀ (v79 : IVec S16 32) (v168 : IVec S16 32), Decidable (k5_chk83 v79 v168) := fun v79 v168 => decidable_of_iff' _ (Iff.of_eq (k5_chk83.eq_1 v79 v168))
theorem k5_idx83_inb : ∀ (v79 : IVec S16 32) (v168 : IVec S16 32) (k5_hw83 : k5_chk83 v79 v168), ∀ a x, ((![v79, v168] : Fin 2 → IVec S16 32) a x).toNat < S320x128.size a := fun v79 v168 k5_hw83 => k5_hw83

def k5_chk84 (v173 : IVec S16 32) (v175 : IVec S16 32) : Prop :=
  (∀ a x, ((![v173, v175] : Fin 2 → IVec S16 32) a x).toNat < S40x128.size a)
instance k5_chk84.dec : ∀ (v173 : IVec S16 32) (v175 : IVec S16 32), Decidable (k5_chk84 v173 v175) := fun v173 v175 => decidable_of_iff' _ (Iff.of_eq (k5_chk84.eq_1 v173 v175))
theorem k5_idx84_inb : ∀ (v173 : IVec S16 32) (v175 : IVec S16 32) (k5_hw84 : k5_chk84 v173 v175), ∀ a x, ((![v173, v175] : Fin 2 → IVec S16 32) a x).toNat < S40x128.size a := fun v173 v175 k5_hw84 => k5_hw84

def k5_chk85 (v79 : IVec S16 32) (v177 : IVec S16 32) : Prop :=
  (∀ a x, ((![v79, v177] : Fin 2 → IVec S16 32) a x).toNat < S320x128.size a)
instance k5_chk85.dec : ∀ (v79 : IVec S16 32) (v177 : IVec S16 32), Decidable (k5_chk85 v79 v177) := fun v79 v177 => decidable_of_iff' _ (Iff.of_eq (k5_chk85.eq_1 v79 v177))
theorem k5_idx85_inb : ∀ (v79 : IVec S16 32) (v177 : IVec S16 32) (k5_hw85 : k5_chk85 v79 v177), ∀ a x, ((![v79, v177] : Fin 2 → IVec S16 32) a x).toNat < S320x128.size a := fun v79 v177 k5_hw85 => k5_hw85

def k5_chk86 (v182 : IVec S16 32) (v184 : IVec S16 32) : Prop :=
  (∀ a x, ((![v182, v184] : Fin 2 → IVec S16 32) a x).toNat < S40x128.size a)
instance k5_chk86.dec : ∀ (v182 : IVec S16 32) (v184 : IVec S16 32), Decidable (k5_chk86 v182 v184) := fun v182 v184 => decidable_of_iff' _ (Iff.of_eq (k5_chk86.eq_1 v182 v184))
theorem k5_idx86_inb : ∀ (v182 : IVec S16 32) (v184 : IVec S16 32) (k5_hw86 : k5_chk86 v182 v184), ∀ a x, ((![v182, v184] : Fin 2 → IVec S16 32) a x).toNat < S40x128.size a := fun v182 v184 k5_hw86 => k5_hw86

def k5_chk87 (v79 : IVec S16 32) (v186 : IVec S16 32) : Prop :=
  (∀ a x, ((![v79, v186] : Fin 2 → IVec S16 32) a x).toNat < S320x128.size a)
instance k5_chk87.dec : ∀ (v79 : IVec S16 32) (v186 : IVec S16 32), Decidable (k5_chk87 v79 v186) := fun v79 v186 => decidable_of_iff' _ (Iff.of_eq (k5_chk87.eq_1 v79 v186))
theorem k5_idx87_inb : ∀ (v79 : IVec S16 32) (v186 : IVec S16 32) (k5_hw87 : k5_chk87 v79 v186), ∀ a x, ((![v79, v186] : Fin 2 → IVec S16 32) a x).toNat < S320x128.size a := fun v79 v186 k5_hw87 => k5_hw87

def k5_chk88 (v191 : IVec S16 32) (v193 : IVec S16 32) : Prop :=
  (∀ a x, ((![v191, v193] : Fin 2 → IVec S16 32) a x).toNat < S40x128.size a)
instance k5_chk88.dec : ∀ (v191 : IVec S16 32) (v193 : IVec S16 32), Decidable (k5_chk88 v191 v193) := fun v191 v193 => decidable_of_iff' _ (Iff.of_eq (k5_chk88.eq_1 v191 v193))
theorem k5_idx88_inb : ∀ (v191 : IVec S16 32) (v193 : IVec S16 32) (k5_hw88 : k5_chk88 v191 v193), ∀ a x, ((![v191, v193] : Fin 2 → IVec S16 32) a x).toNat < S40x128.size a := fun v191 v193 k5_hw88 => k5_hw88

def k5_chk89 (v79 : IVec S16 32) (v195 : IVec S16 32) : Prop :=
  (∀ a x, ((![v79, v195] : Fin 2 → IVec S16 32) a x).toNat < S320x128.size a)
instance k5_chk89.dec : ∀ (v79 : IVec S16 32) (v195 : IVec S16 32), Decidable (k5_chk89 v79 v195) := fun v79 v195 => decidable_of_iff' _ (Iff.of_eq (k5_chk89.eq_1 v79 v195))
theorem k5_idx89_inb : ∀ (v79 : IVec S16 32) (v195 : IVec S16 32) (k5_hw89 : k5_chk89 v79 v195), ∀ a x, ((![v79, v195] : Fin 2 → IVec S16 32) a x).toNat < S320x128.size a := fun v79 v195 k5_hw89 => k5_hw89

def k5_chk90 (v200 : IVec S16 32) (v202 : IVec S16 32) : Prop :=
  (∀ a x, ((![v200, v202] : Fin 2 → IVec S16 32) a x).toNat < S40x128.size a)
instance k5_chk90.dec : ∀ (v200 : IVec S16 32) (v202 : IVec S16 32), Decidable (k5_chk90 v200 v202) := fun v200 v202 => decidable_of_iff' _ (Iff.of_eq (k5_chk90.eq_1 v200 v202))
theorem k5_idx90_inb : ∀ (v200 : IVec S16 32) (v202 : IVec S16 32) (k5_hw90 : k5_chk90 v200 v202), ∀ a x, ((![v200, v202] : Fin 2 → IVec S16 32) a x).toNat < S40x128.size a := fun v200 v202 k5_hw90 => k5_hw90

def k5_chk91 (v79 : IVec S16 32) (v204 : IVec S16 32) : Prop :=
  (∀ a x, ((![v79, v204] : Fin 2 → IVec S16 32) a x).toNat < S320x128.size a)
instance k5_chk91.dec : ∀ (v79 : IVec S16 32) (v204 : IVec S16 32), Decidable (k5_chk91 v79 v204) := fun v79 v204 => decidable_of_iff' _ (Iff.of_eq (k5_chk91.eq_1 v79 v204))
theorem k5_idx91_inb : ∀ (v79 : IVec S16 32) (v204 : IVec S16 32) (k5_hw91 : k5_chk91 v79 v204), ∀ a x, ((![v79, v204] : Fin 2 → IVec S16 32) a x).toNat < S320x128.size a := fun v79 v204 k5_hw91 => k5_hw91

def k5_chk92 (v209 : IVec S16 32) (v211 : IVec S16 32) : Prop :=
  (∀ a x, ((![v209, v211] : Fin 2 → IVec S16 32) a x).toNat < S40x128.size a)
instance k5_chk92.dec : ∀ (v209 : IVec S16 32) (v211 : IVec S16 32), Decidable (k5_chk92 v209 v211) := fun v209 v211 => decidable_of_iff' _ (Iff.of_eq (k5_chk92.eq_1 v209 v211))
theorem k5_idx92_inb : ∀ (v209 : IVec S16 32) (v211 : IVec S16 32) (k5_hw92 : k5_chk92 v209 v211), ∀ a x, ((![v209, v211] : Fin 2 → IVec S16 32) a x).toNat < S40x128.size a := fun v209 v211 k5_hw92 => k5_hw92

def k5_chk93 (v79 : IVec S16 32) (v213 : IVec S16 32) : Prop :=
  (∀ a x, ((![v79, v213] : Fin 2 → IVec S16 32) a x).toNat < S320x128.size a)
instance k5_chk93.dec : ∀ (v79 : IVec S16 32) (v213 : IVec S16 32), Decidable (k5_chk93 v79 v213) := fun v79 v213 => decidable_of_iff' _ (Iff.of_eq (k5_chk93.eq_1 v79 v213))
theorem k5_idx93_inb : ∀ (v79 : IVec S16 32) (v213 : IVec S16 32) (k5_hw93 : k5_chk93 v79 v213), ∀ a x, ((![v79, v213] : Fin 2 → IVec S16 32) a x).toNat < S320x128.size a := fun v79 v213 k5_hw93 => k5_hw93

def k5_chk94 (v218 : IVec S16 32) (v220 : IVec S16 32) : Prop :=
  (∀ a x, ((![v218, v220] : Fin 2 → IVec S16 32) a x).toNat < S40x128.size a)
instance k5_chk94.dec : ∀ (v218 : IVec S16 32) (v220 : IVec S16 32), Decidable (k5_chk94 v218 v220) := fun v218 v220 => decidable_of_iff' _ (Iff.of_eq (k5_chk94.eq_1 v218 v220))
theorem k5_idx94_inb : ∀ (v218 : IVec S16 32) (v220 : IVec S16 32) (k5_hw94 : k5_chk94 v218 v220), ∀ a x, ((![v218, v220] : Fin 2 → IVec S16 32) a x).toNat < S40x128.size a := fun v218 v220 k5_hw94 => k5_hw94

def k5_chk95 (v79 : IVec S16 32) (v222 : IVec S16 32) : Prop :=
  (∀ a x, ((![v79, v222] : Fin 2 → IVec S16 32) a x).toNat < S320x128.size a)
instance k5_chk95.dec : ∀ (v79 : IVec S16 32) (v222 : IVec S16 32), Decidable (k5_chk95 v79 v222) := fun v79 v222 => decidable_of_iff' _ (Iff.of_eq (k5_chk95.eq_1 v79 v222))
theorem k5_idx95_inb : ∀ (v79 : IVec S16 32) (v222 : IVec S16 32) (k5_hw95 : k5_chk95 v79 v222), ∀ a x, ((![v79, v222] : Fin 2 → IVec S16 32) a x).toNat < S320x128.size a := fun v79 v222 k5_hw95 => k5_hw95

def k5_chk96 (v227 : IVec S16 32) (v229 : IVec S16 32) : Prop :=
  (∀ a x, ((![v227, v229] : Fin 2 → IVec S16 32) a x).toNat < S40x128.size a)
instance k5_chk96.dec : ∀ (v227 : IVec S16 32) (v229 : IVec S16 32), Decidable (k5_chk96 v227 v229) := fun v227 v229 => decidable_of_iff' _ (Iff.of_eq (k5_chk96.eq_1 v227 v229))
theorem k5_idx96_inb : ∀ (v227 : IVec S16 32) (v229 : IVec S16 32) (k5_hw96 : k5_chk96 v227 v229), ∀ a x, ((![v227, v229] : Fin 2 → IVec S16 32) a x).toNat < S40x128.size a := fun v227 v229 k5_hw96 => k5_hw96
def k5_mult3 (i : grid5.Coords) (k5_t8 : Fin k5_t8_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_12 : BitVec 32 := 0#32
  let c1_i32_14 : BitVec 32 := 1#32
  let arg22 : BitVec 32 := Scf.iv c0_i32_12 c1_i32_14 k5_t8
  let c2_i32_36 : BitVec 32 := 2#32
  let v16 : BitVec 32 := Scalar.muli arg22 c2_i32_36
  let v17 : BitVec 32 := Scalar.addi c0_i32_37 v16
  let c320_i32 : BitVec 32 := 320#32
  let v23 : BitVec 32 := Scalar.muli v17 c320_i32
  let v24 : BitVec 32 := Scalar.addi v2 v23
  let c16_i32 : BitVec 32 := 16#32
  let v25 : BitVec 32 := Scalar.muli v24 c16_i32
  let c0_i32_51 : BitVec 32 := 0#32
  let v27 : BitVec 1 := Scalar.cmpi .sgt v25 c0_i32_51
  let v28 : BitVec 32 := Scalar.extui v27
  let c0_i32_52 : BitVec 32 := 0#32
  let v29 : BitVec 1 := Scalar.cmpi .slt v25 c0_i32_52
  let v30 : BitVec 32 := Scalar.extui v29
  let v31 : BitVec 32 := Scalar.subi v28 v30
  let c128_i32 : BitVec 32 := 128#32
  let c0_i32_53 : BitVec 32 := 0#32
  let v32 : BitVec 1 := Scalar.cmpi .sgt c128_i32 c0_i32_53
  let v33 : BitVec 32 := Scalar.extui v32
  let c0_i32_54 : BitVec 32 := 0#32
  let v34 : BitVec 1 := Scalar.cmpi .slt c128_i32 c0_i32_54
  let v35 : BitVec 32 := Scalar.extui v34
  let v36 : BitVec 32 := Scalar.subi v33 v35
  let v37 : BitVec 1 := Scalar.cmpi .ne v31 v36
  let v38 : BitVec 32 := Scalar.remsi v25 c128_i32
  let c0_i32_55 : BitVec 32 := 0#32
  let v39 : BitVec 1 := Scalar.cmpi .ne v38 c0_i32_55
  let v40 : BitVec 1 := Scalar.andi v37 v39
  let v26 : BitVec 32 := Scalar.divsi v25 c128_i32
  let c1_i32_56 : BitVec 32 := 1#32
  let v41 : BitVec 32 := Scalar.subi v26 c1_i32_56
  let v42 : BitVec 32 := Scalar.select v40 v41 v26
  v42
def k5_off17 (i : grid5.Coords) (k5_t8 : Fin k5_t8_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_12 : BitVec 32 := 0#32
  let c1_i32_14 : BitVec 32 := 1#32
  let arg22 : BitVec 32 := Scf.iv c0_i32_12 c1_i32_14 k5_t8
  let c2_i32_36 : BitVec 32 := 2#32
  let v16 : BitVec 32 := Scalar.muli arg22 c2_i32_36
  let v17 : BitVec 32 := Scalar.addi c0_i32_37 v16
  let c320_i32 : BitVec 32 := 320#32
  let v23 : BitVec 32 := Scalar.muli v17 c320_i32
  let v24 : BitVec 32 := Scalar.addi v2 v23
  let c16_i32 : BitVec 32 := 16#32
  let v25 : BitVec 32 := Scalar.muli v24 c16_i32
  let c0_i32_51 : BitVec 32 := 0#32
  let v27 : BitVec 1 := Scalar.cmpi .sgt v25 c0_i32_51
  let v28 : BitVec 32 := Scalar.extui v27
  let c0_i32_52 : BitVec 32 := 0#32
  let v29 : BitVec 1 := Scalar.cmpi .slt v25 c0_i32_52
  let v30 : BitVec 32 := Scalar.extui v29
  let v31 : BitVec 32 := Scalar.subi v28 v30
  let c128_i32 : BitVec 32 := 128#32
  let c0_i32_53 : BitVec 32 := 0#32
  let v32 : BitVec 1 := Scalar.cmpi .sgt c128_i32 c0_i32_53
  let v33 : BitVec 32 := Scalar.extui v32
  let c0_i32_54 : BitVec 32 := 0#32
  let v34 : BitVec 1 := Scalar.cmpi .slt c128_i32 c0_i32_54
  let v35 : BitVec 32 := Scalar.extui v34
  let v36 : BitVec 32 := Scalar.subi v33 v35
  let v37 : BitVec 1 := Scalar.cmpi .ne v31 v36
  let v38 : BitVec 32 := Scalar.remsi v25 c128_i32
  let c0_i32_55 : BitVec 32 := 0#32
  let v39 : BitVec 1 := Scalar.cmpi .ne v38 c0_i32_55
  let v40 : BitVec 1 := Scalar.andi v37 v39
  let v26 : BitVec 32 := Scalar.divsi v25 c128_i32
  let c1_i32_56 : BitVec 32 := 1#32
  let v41 : BitVec 32 := Scalar.subi v26 c1_i32_56
  let v42 : BitVec 32 := Scalar.select v40 v41 v26
  let v43 : BitVec 32 := v42
  let c0_i32_75_r4 : BitVec 32 := 0#32
  ![v43.toNat, 0]
def k5_cond2 (k5_t8 : Fin k5_t8_loop.trips) : BitVec 1 :=
  let c0_i32_37 : BitVec 32 := 0#32
  let c0_i32_12 : BitVec 32 := 0#32
  let c1_i32_14 : BitVec 32 := 1#32
  let arg22 : BitVec 32 := Scf.iv c0_i32_12 c1_i32_14 k5_t8
  let c2_i32_36 : BitVec 32 := 2#32
  let v16 : BitVec 32 := Scalar.muli arg22 c2_i32_36
  let v17 : BitVec 32 := Scalar.addi c0_i32_37 v16
  let c2_i32_57 : BitVec 32 := 2#32
  let v44 : BitVec 32 := Scalar.addi v17 c2_i32_57
  let c80_i32 : BitVec 32 := 80#32
  let v45 : BitVec 1 := Scalar.cmpi .slt v44 c80_i32
  let v46 : BitVec 32 := Scalar.extui v45
  let c0_i32_58 : BitVec 32 := 0#32
  let v47 : BitVec 1 := Scalar.cmpi .ne v46 c0_i32_58
  v47

@[reducible] def k5_t11_loop : Scf.Loop 32 :=
  let c0_i32_76 : BitVec 32 := 0#32
  let c20_i32_77 : BitVec 32 := 20#32
  let v73 : BitVec 32 := Scalar.addi c0_i32_76 c20_i32_77
  let c1_i32_78 : BitVec 32 := 1#32
  ⟨c0_i32_76, v73, c1_i32_78⟩
def k5_off18 (k5_t8 : Fin k5_t8_loop.trips) (k5_t11 : Fin k5_t11_loop.trips) : Fin 1 → Nat :=
  let c0_i32_37 : BitVec 32 := 0#32
  let c0_i32_12 : BitVec 32 := 0#32
  let c1_i32_14 : BitVec 32 := 1#32
  let arg22 : BitVec 32 := Scf.iv c0_i32_12 c1_i32_14 k5_t8
  let c2_i32_36 : BitVec 32 := 2#32
  let v16 : BitVec 32 := Scalar.muli arg22 c2_i32_36
  let v17 : BitVec 32 := Scalar.addi c0_i32_37 v16
  let c2_i32_75 : BitVec 32 := 2#32
  let v72 : BitVec 32 := Scalar.addi v17 c2_i32_75
  let c320_i32_84 : BitVec 32 := 320#32
  let v77 : BitVec 32 := Scalar.muli v72 c320_i32_84
  let c0_i32_83 : BitVec 32 := 0#32
  let c0_i32_76 : BitVec 32 := 0#32
  let c1_i32_78 : BitVec 32 := 1#32
  let arg23 : BitVec 32 := Scf.iv c0_i32_76 c1_i32_78 k5_t11
  let c16_i32_82 : BitVec 32 := 16#32
  let v75 : BitVec 32 := Scalar.muli arg23 c16_i32_82
  let v76 : BitVec 32 := Scalar.addi c0_i32_83 v75
  let v78 : BitVec 32 := Scalar.addi v77 v76
  let v79 : Index := Scalar.indexCast v78
  ![v79.toNat]
def k5_off19 (k5_t11 : Fin k5_t11_loop.trips) : Fin 1 → Nat :=
  let c0_i32_83 : BitVec 32 := 0#32
  let c0_i32_76 : BitVec 32 := 0#32
  let c1_i32_78 : BitVec 32 := 1#32
  let arg23 : BitVec 32 := Scf.iv c0_i32_76 c1_i32_78 k5_t11
  let c16_i32_82 : BitVec 32 := 16#32
  let v75 : BitVec 32 := Scalar.muli arg23 c16_i32_82
  let v76 : BitVec 32 := Scalar.addi c0_i32_83 v75
  let v83 : Index := Scalar.indexCast v76
  ![v83.toNat]
@[reducible] def k5_t12_loop : Scf.Loop 32 :=
  let c0_i32_62 : BitVec 32 := 0#32
  let c20_i32_63 : BitVec 32 := 20#32
  let v50 : BitVec 32 := Scalar.addi c0_i32_62 c20_i32_63
  let c1_i32_64 : BitVec 32 := 1#32
  ⟨c0_i32_62, v50, c1_i32_64⟩
def k5_off20 (k5_t8 : Fin k5_t8_loop.trips) (k5_t12 : Fin k5_t12_loop.trips) : Fin 1 → Nat :=
  let c0_i32_37 : BitVec 32 := 0#32
  let c0_i32_12 : BitVec 32 := 0#32
  let c1_i32_14 : BitVec 32 := 1#32
  let arg22 : BitVec 32 := Scf.iv c0_i32_12 c1_i32_14 k5_t8
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_77 : BitVec 32 := 320#32
  let v74 : BitVec 32 := Scalar.muli v48 c320_i32_77
  let c0_i32_76 : BitVec 32 := 0#32
  let c0_i32_62 : BitVec 32 := 0#32
  let c1_i32_64 : BitVec 32 := 1#32
  let arg23 : BitVec 32 := Scf.iv c0_i32_62 c1_i32_64 k5_t12
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]

def k5_chk97 (v79 : IVec S16 32) (v87 : IVec S16 32) : Prop :=
  (∀ a x, ((![v79, v87] : Fin 2 → IVec S16 32) a x).toNat < S320x128.size a)
instance k5_chk97.dec : ∀ (v79 : IVec S16 32) (v87 : IVec S16 32), Decidable (k5_chk97 v79 v87) := fun v79 v87 => decidable_of_iff' _ (Iff.of_eq (k5_chk97.eq_1 v79 v87))
theorem k5_idx97_inb : ∀ (v79 : IVec S16 32) (v87 : IVec S16 32) (k5_hw97 : k5_chk97 v79 v87), ∀ a x, ((![v79, v87] : Fin 2 → IVec S16 32) a x).toNat < S320x128.size a := fun v79 v87 k5_hw97 => k5_hw97

def k5_chk98 (v92 : IVec S16 32) (v94 : IVec S16 32) : Prop :=
  (∀ a x, ((![v92, v94] : Fin 2 → IVec S16 32) a x).toNat < S40x128.size a)
instance k5_chk98.dec : ∀ (v92 : IVec S16 32) (v94 : IVec S16 32), Decidable (k5_chk98 v92 v94) := fun v92 v94 => decidable_of_iff' _ (Iff.of_eq (k5_chk98.eq_1 v92 v94))
theorem k5_idx98_inb : ∀ (v92 : IVec S16 32) (v94 : IVec S16 32) (k5_hw98 : k5_chk98 v92 v94), ∀ a x, ((![v92, v94] : Fin 2 → IVec S16 32) a x).toNat < S40x128.size a := fun v92 v94 k5_hw98 => k5_hw98

def k5_chk99 (v79 : IVec S16 32) (v96 : IVec S16 32) : Prop :=
  (∀ a x, ((![v79, v96] : Fin 2 → IVec S16 32) a x).toNat < S320x128.size a)
instance k5_chk99.dec : ∀ (v79 : IVec S16 32) (v96 : IVec S16 32), Decidable (k5_chk99 v79 v96) := fun v79 v96 => decidable_of_iff' _ (Iff.of_eq (k5_chk99.eq_1 v79 v96))
theorem k5_idx99_inb : ∀ (v79 : IVec S16 32) (v96 : IVec S16 32) (k5_hw99 : k5_chk99 v79 v96), ∀ a x, ((![v79, v96] : Fin 2 → IVec S16 32) a x).toNat < S320x128.size a := fun v79 v96 k5_hw99 => k5_hw99

def k5_chk100 (v101 : IVec S16 32) (v103 : IVec S16 32) : Prop :=
  (∀ a x, ((![v101, v103] : Fin 2 → IVec S16 32) a x).toNat < S40x128.size a)
instance k5_chk100.dec : ∀ (v101 : IVec S16 32) (v103 : IVec S16 32), Decidable (k5_chk100 v101 v103) := fun v101 v103 => decidable_of_iff' _ (Iff.of_eq (k5_chk100.eq_1 v101 v103))
theorem k5_idx100_inb : ∀ (v101 : IVec S16 32) (v103 : IVec S16 32) (k5_hw100 : k5_chk100 v101 v103), ∀ a x, ((![v101, v103] : Fin 2 → IVec S16 32) a x).toNat < S40x128.size a := fun v101 v103 k5_hw100 => k5_hw100

def k5_chk101 (v79 : IVec S16 32) (v105 : IVec S16 32) : Prop :=
  (∀ a x, ((![v79, v105] : Fin 2 → IVec S16 32) a x).toNat < S320x128.size a)
instance k5_chk101.dec : ∀ (v79 : IVec S16 32) (v105 : IVec S16 32), Decidable (k5_chk101 v79 v105) := fun v79 v105 => decidable_of_iff' _ (Iff.of_eq (k5_chk101.eq_1 v79 v105))
theorem k5_idx101_inb : ∀ (v79 : IVec S16 32) (v105 : IVec S16 32) (k5_hw101 : k5_chk101 v79 v105), ∀ a x, ((![v79, v105] : Fin 2 → IVec S16 32) a x).toNat < S320x128.size a := fun v79 v105 k5_hw101 => k5_hw101

def k5_chk102 (v110 : IVec S16 32) (v112 : IVec S16 32) : Prop :=
  (∀ a x, ((![v110, v112] : Fin 2 → IVec S16 32) a x).toNat < S40x128.size a)
instance k5_chk102.dec : ∀ (v110 : IVec S16 32) (v112 : IVec S16 32), Decidable (k5_chk102 v110 v112) := fun v110 v112 => decidable_of_iff' _ (Iff.of_eq (k5_chk102.eq_1 v110 v112))
theorem k5_idx102_inb : ∀ (v110 : IVec S16 32) (v112 : IVec S16 32) (k5_hw102 : k5_chk102 v110 v112), ∀ a x, ((![v110, v112] : Fin 2 → IVec S16 32) a x).toNat < S40x128.size a := fun v110 v112 k5_hw102 => k5_hw102

def k5_chk103 (v79 : IVec S16 32) (v114 : IVec S16 32) : Prop :=
  (∀ a x, ((![v79, v114] : Fin 2 → IVec S16 32) a x).toNat < S320x128.size a)
instance k5_chk103.dec : ∀ (v79 : IVec S16 32) (v114 : IVec S16 32), Decidable (k5_chk103 v79 v114) := fun v79 v114 => decidable_of_iff' _ (Iff.of_eq (k5_chk103.eq_1 v79 v114))
theorem k5_idx103_inb : ∀ (v79 : IVec S16 32) (v114 : IVec S16 32) (k5_hw103 : k5_chk103 v79 v114), ∀ a x, ((![v79, v114] : Fin 2 → IVec S16 32) a x).toNat < S320x128.size a := fun v79 v114 k5_hw103 => k5_hw103

def k5_chk104 (v119 : IVec S16 32) (v121 : IVec S16 32) : Prop :=
  (∀ a x, ((![v119, v121] : Fin 2 → IVec S16 32) a x).toNat < S40x128.size a)
instance k5_chk104.dec : ∀ (v119 : IVec S16 32) (v121 : IVec S16 32), Decidable (k5_chk104 v119 v121) := fun v119 v121 => decidable_of_iff' _ (Iff.of_eq (k5_chk104.eq_1 v119 v121))
theorem k5_idx104_inb : ∀ (v119 : IVec S16 32) (v121 : IVec S16 32) (k5_hw104 : k5_chk104 v119 v121), ∀ a x, ((![v119, v121] : Fin 2 → IVec S16 32) a x).toNat < S40x128.size a := fun v119 v121 k5_hw104 => k5_hw104

def k5_chk105 (v79 : IVec S16 32) (v123 : IVec S16 32) : Prop :=
  (∀ a x, ((![v79, v123] : Fin 2 → IVec S16 32) a x).toNat < S320x128.size a)
instance k5_chk105.dec : ∀ (v79 : IVec S16 32) (v123 : IVec S16 32), Decidable (k5_chk105 v79 v123) := fun v79 v123 => decidable_of_iff' _ (Iff.of_eq (k5_chk105.eq_1 v79 v123))
theorem k5_idx105_inb : ∀ (v79 : IVec S16 32) (v123 : IVec S16 32) (k5_hw105 : k5_chk105 v79 v123), ∀ a x, ((![v79, v123] : Fin 2 → IVec S16 32) a x).toNat < S320x128.size a := fun v79 v123 k5_hw105 => k5_hw105

def k5_chk106 (v128 : IVec S16 32) (v130 : IVec S16 32) : Prop :=
  (∀ a x, ((![v128, v130] : Fin 2 → IVec S16 32) a x).toNat < S40x128.size a)
instance k5_chk106.dec : ∀ (v128 : IVec S16 32) (v130 : IVec S16 32), Decidable (k5_chk106 v128 v130) := fun v128 v130 => decidable_of_iff' _ (Iff.of_eq (k5_chk106.eq_1 v128 v130))
theorem k5_idx106_inb : ∀ (v128 : IVec S16 32) (v130 : IVec S16 32) (k5_hw106 : k5_chk106 v128 v130), ∀ a x, ((![v128, v130] : Fin 2 → IVec S16 32) a x).toNat < S40x128.size a := fun v128 v130 k5_hw106 => k5_hw106

def k5_chk107 (v79 : IVec S16 32) (v132 : IVec S16 32) : Prop :=
  (∀ a x, ((![v79, v132] : Fin 2 → IVec S16 32) a x).toNat < S320x128.size a)
instance k5_chk107.dec : ∀ (v79 : IVec S16 32) (v132 : IVec S16 32), Decidable (k5_chk107 v79 v132) := fun v79 v132 => decidable_of_iff' _ (Iff.of_eq (k5_chk107.eq_1 v79 v132))
theorem k5_idx107_inb : ∀ (v79 : IVec S16 32) (v132 : IVec S16 32) (k5_hw107 : k5_chk107 v79 v132), ∀ a x, ((![v79, v132] : Fin 2 → IVec S16 32) a x).toNat < S320x128.size a := fun v79 v132 k5_hw107 => k5_hw107

def k5_chk108 (v137 : IVec S16 32) (v139 : IVec S16 32) : Prop :=
  (∀ a x, ((![v137, v139] : Fin 2 → IVec S16 32) a x).toNat < S40x128.size a)
instance k5_chk108.dec : ∀ (v137 : IVec S16 32) (v139 : IVec S16 32), Decidable (k5_chk108 v137 v139) := fun v137 v139 => decidable_of_iff' _ (Iff.of_eq (k5_chk108.eq_1 v137 v139))
theorem k5_idx108_inb : ∀ (v137 : IVec S16 32) (v139 : IVec S16 32) (k5_hw108 : k5_chk108 v137 v139), ∀ a x, ((![v137, v139] : Fin 2 → IVec S16 32) a x).toNat < S40x128.size a := fun v137 v139 k5_hw108 => k5_hw108

def k5_chk109 (v79 : IVec S16 32) (v141 : IVec S16 32) : Prop :=
  (∀ a x, ((![v79, v141] : Fin 2 → IVec S16 32) a x).toNat < S320x128.size a)
instance k5_chk109.dec : ∀ (v79 : IVec S16 32) (v141 : IVec S16 32), Decidable (k5_chk109 v79 v141) := fun v79 v141 => decidable_of_iff' _ (Iff.of_eq (k5_chk109.eq_1 v79 v141))
theorem k5_idx109_inb : ∀ (v79 : IVec S16 32) (v141 : IVec S16 32) (k5_hw109 : k5_chk109 v79 v141), ∀ a x, ((![v79, v141] : Fin 2 → IVec S16 32) a x).toNat < S320x128.size a := fun v79 v141 k5_hw109 => k5_hw109

def k5_chk110 (v146 : IVec S16 32) (v148 : IVec S16 32) : Prop :=
  (∀ a x, ((![v146, v148] : Fin 2 → IVec S16 32) a x).toNat < S40x128.size a)
instance k5_chk110.dec : ∀ (v146 : IVec S16 32) (v148 : IVec S16 32), Decidable (k5_chk110 v146 v148) := fun v146 v148 => decidable_of_iff' _ (Iff.of_eq (k5_chk110.eq_1 v146 v148))
theorem k5_idx110_inb : ∀ (v146 : IVec S16 32) (v148 : IVec S16 32) (k5_hw110 : k5_chk110 v146 v148), ∀ a x, ((![v146, v148] : Fin 2 → IVec S16 32) a x).toNat < S40x128.size a := fun v146 v148 k5_hw110 => k5_hw110

def k5_chk111 (v79 : IVec S16 32) (v150 : IVec S16 32) : Prop :=
  (∀ a x, ((![v79, v150] : Fin 2 → IVec S16 32) a x).toNat < S320x128.size a)
instance k5_chk111.dec : ∀ (v79 : IVec S16 32) (v150 : IVec S16 32), Decidable (k5_chk111 v79 v150) := fun v79 v150 => decidable_of_iff' _ (Iff.of_eq (k5_chk111.eq_1 v79 v150))
theorem k5_idx111_inb : ∀ (v79 : IVec S16 32) (v150 : IVec S16 32) (k5_hw111 : k5_chk111 v79 v150), ∀ a x, ((![v79, v150] : Fin 2 → IVec S16 32) a x).toNat < S320x128.size a := fun v79 v150 k5_hw111 => k5_hw111

def k5_chk112 (v155 : IVec S16 32) (v157 : IVec S16 32) : Prop :=
  (∀ a x, ((![v155, v157] : Fin 2 → IVec S16 32) a x).toNat < S40x128.size a)
instance k5_chk112.dec : ∀ (v155 : IVec S16 32) (v157 : IVec S16 32), Decidable (k5_chk112 v155 v157) := fun v155 v157 => decidable_of_iff' _ (Iff.of_eq (k5_chk112.eq_1 v155 v157))
theorem k5_idx112_inb : ∀ (v155 : IVec S16 32) (v157 : IVec S16 32) (k5_hw112 : k5_chk112 v155 v157), ∀ a x, ((![v155, v157] : Fin 2 → IVec S16 32) a x).toNat < S40x128.size a := fun v155 v157 k5_hw112 => k5_hw112

def k5_chk113 (v79 : IVec S16 32) (v159 : IVec S16 32) : Prop :=
  (∀ a x, ((![v79, v159] : Fin 2 → IVec S16 32) a x).toNat < S320x128.size a)
instance k5_chk113.dec : ∀ (v79 : IVec S16 32) (v159 : IVec S16 32), Decidable (k5_chk113 v79 v159) := fun v79 v159 => decidable_of_iff' _ (Iff.of_eq (k5_chk113.eq_1 v79 v159))
theorem k5_idx113_inb : ∀ (v79 : IVec S16 32) (v159 : IVec S16 32) (k5_hw113 : k5_chk113 v79 v159), ∀ a x, ((![v79, v159] : Fin 2 → IVec S16 32) a x).toNat < S320x128.size a := fun v79 v159 k5_hw113 => k5_hw113

def k5_chk114 (v164 : IVec S16 32) (v166 : IVec S16 32) : Prop :=
  (∀ a x, ((![v164, v166] : Fin 2 → IVec S16 32) a x).toNat < S40x128.size a)
instance k5_chk114.dec : ∀ (v164 : IVec S16 32) (v166 : IVec S16 32), Decidable (k5_chk114 v164 v166) := fun v164 v166 => decidable_of_iff' _ (Iff.of_eq (k5_chk114.eq_1 v164 v166))
theorem k5_idx114_inb : ∀ (v164 : IVec S16 32) (v166 : IVec S16 32) (k5_hw114 : k5_chk114 v164 v166), ∀ a x, ((![v164, v166] : Fin 2 → IVec S16 32) a x).toNat < S40x128.size a := fun v164 v166 k5_hw114 => k5_hw114

def k5_chk115 (v79 : IVec S16 32) (v168 : IVec S16 32) : Prop :=
  (∀ a x, ((![v79, v168] : Fin 2 → IVec S16 32) a x).toNat < S320x128.size a)
instance k5_chk115.dec : ∀ (v79 : IVec S16 32) (v168 : IVec S16 32), Decidable (k5_chk115 v79 v168) := fun v79 v168 => decidable_of_iff' _ (Iff.of_eq (k5_chk115.eq_1 v79 v168))
theorem k5_idx115_inb : ∀ (v79 : IVec S16 32) (v168 : IVec S16 32) (k5_hw115 : k5_chk115 v79 v168), ∀ a x, ((![v79, v168] : Fin 2 → IVec S16 32) a x).toNat < S320x128.size a := fun v79 v168 k5_hw115 => k5_hw115

def k5_chk116 (v173 : IVec S16 32) (v175 : IVec S16 32) : Prop :=
  (∀ a x, ((![v173, v175] : Fin 2 → IVec S16 32) a x).toNat < S40x128.size a)
instance k5_chk116.dec : ∀ (v173 : IVec S16 32) (v175 : IVec S16 32), Decidable (k5_chk116 v173 v175) := fun v173 v175 => decidable_of_iff' _ (Iff.of_eq (k5_chk116.eq_1 v173 v175))
theorem k5_idx116_inb : ∀ (v173 : IVec S16 32) (v175 : IVec S16 32) (k5_hw116 : k5_chk116 v173 v175), ∀ a x, ((![v173, v175] : Fin 2 → IVec S16 32) a x).toNat < S40x128.size a := fun v173 v175 k5_hw116 => k5_hw116

def k5_chk117 (v79 : IVec S16 32) (v177 : IVec S16 32) : Prop :=
  (∀ a x, ((![v79, v177] : Fin 2 → IVec S16 32) a x).toNat < S320x128.size a)
instance k5_chk117.dec : ∀ (v79 : IVec S16 32) (v177 : IVec S16 32), Decidable (k5_chk117 v79 v177) := fun v79 v177 => decidable_of_iff' _ (Iff.of_eq (k5_chk117.eq_1 v79 v177))
theorem k5_idx117_inb : ∀ (v79 : IVec S16 32) (v177 : IVec S16 32) (k5_hw117 : k5_chk117 v79 v177), ∀ a x, ((![v79, v177] : Fin 2 → IVec S16 32) a x).toNat < S320x128.size a := fun v79 v177 k5_hw117 => k5_hw117

def k5_chk118 (v182 : IVec S16 32) (v184 : IVec S16 32) : Prop :=
  (∀ a x, ((![v182, v184] : Fin 2 → IVec S16 32) a x).toNat < S40x128.size a)
instance k5_chk118.dec : ∀ (v182 : IVec S16 32) (v184 : IVec S16 32), Decidable (k5_chk118 v182 v184) := fun v182 v184 => decidable_of_iff' _ (Iff.of_eq (k5_chk118.eq_1 v182 v184))
theorem k5_idx118_inb : ∀ (v182 : IVec S16 32) (v184 : IVec S16 32) (k5_hw118 : k5_chk118 v182 v184), ∀ a x, ((![v182, v184] : Fin 2 → IVec S16 32) a x).toNat < S40x128.size a := fun v182 v184 k5_hw118 => k5_hw118

def k5_chk119 (v79 : IVec S16 32) (v186 : IVec S16 32) : Prop :=
  (∀ a x, ((![v79, v186] : Fin 2 → IVec S16 32) a x).toNat < S320x128.size a)
instance k5_chk119.dec : ∀ (v79 : IVec S16 32) (v186 : IVec S16 32), Decidable (k5_chk119 v79 v186) := fun v79 v186 => decidable_of_iff' _ (Iff.of_eq (k5_chk119.eq_1 v79 v186))
theorem k5_idx119_inb : ∀ (v79 : IVec S16 32) (v186 : IVec S16 32) (k5_hw119 : k5_chk119 v79 v186), ∀ a x, ((![v79, v186] : Fin 2 → IVec S16 32) a x).toNat < S320x128.size a := fun v79 v186 k5_hw119 => k5_hw119

def k5_chk120 (v191 : IVec S16 32) (v193 : IVec S16 32) : Prop :=
  (∀ a x, ((![v191, v193] : Fin 2 → IVec S16 32) a x).toNat < S40x128.size a)
instance k5_chk120.dec : ∀ (v191 : IVec S16 32) (v193 : IVec S16 32), Decidable (k5_chk120 v191 v193) := fun v191 v193 => decidable_of_iff' _ (Iff.of_eq (k5_chk120.eq_1 v191 v193))
theorem k5_idx120_inb : ∀ (v191 : IVec S16 32) (v193 : IVec S16 32) (k5_hw120 : k5_chk120 v191 v193), ∀ a x, ((![v191, v193] : Fin 2 → IVec S16 32) a x).toNat < S40x128.size a := fun v191 v193 k5_hw120 => k5_hw120

def k5_chk121 (v79 : IVec S16 32) (v195 : IVec S16 32) : Prop :=
  (∀ a x, ((![v79, v195] : Fin 2 → IVec S16 32) a x).toNat < S320x128.size a)
instance k5_chk121.dec : ∀ (v79 : IVec S16 32) (v195 : IVec S16 32), Decidable (k5_chk121 v79 v195) := fun v79 v195 => decidable_of_iff' _ (Iff.of_eq (k5_chk121.eq_1 v79 v195))
theorem k5_idx121_inb : ∀ (v79 : IVec S16 32) (v195 : IVec S16 32) (k5_hw121 : k5_chk121 v79 v195), ∀ a x, ((![v79, v195] : Fin 2 → IVec S16 32) a x).toNat < S320x128.size a := fun v79 v195 k5_hw121 => k5_hw121

def k5_chk122 (v200 : IVec S16 32) (v202 : IVec S16 32) : Prop :=
  (∀ a x, ((![v200, v202] : Fin 2 → IVec S16 32) a x).toNat < S40x128.size a)
instance k5_chk122.dec : ∀ (v200 : IVec S16 32) (v202 : IVec S16 32), Decidable (k5_chk122 v200 v202) := fun v200 v202 => decidable_of_iff' _ (Iff.of_eq (k5_chk122.eq_1 v200 v202))
theorem k5_idx122_inb : ∀ (v200 : IVec S16 32) (v202 : IVec S16 32) (k5_hw122 : k5_chk122 v200 v202), ∀ a x, ((![v200, v202] : Fin 2 → IVec S16 32) a x).toNat < S40x128.size a := fun v200 v202 k5_hw122 => k5_hw122

def k5_chk123 (v79 : IVec S16 32) (v204 : IVec S16 32) : Prop :=
  (∀ a x, ((![v79, v204] : Fin 2 → IVec S16 32) a x).toNat < S320x128.size a)
instance k5_chk123.dec : ∀ (v79 : IVec S16 32) (v204 : IVec S16 32), Decidable (k5_chk123 v79 v204) := fun v79 v204 => decidable_of_iff' _ (Iff.of_eq (k5_chk123.eq_1 v79 v204))
theorem k5_idx123_inb : ∀ (v79 : IVec S16 32) (v204 : IVec S16 32) (k5_hw123 : k5_chk123 v79 v204), ∀ a x, ((![v79, v204] : Fin 2 → IVec S16 32) a x).toNat < S320x128.size a := fun v79 v204 k5_hw123 => k5_hw123

def k5_chk124 (v209 : IVec S16 32) (v211 : IVec S16 32) : Prop :=
  (∀ a x, ((![v209, v211] : Fin 2 → IVec S16 32) a x).toNat < S40x128.size a)
instance k5_chk124.dec : ∀ (v209 : IVec S16 32) (v211 : IVec S16 32), Decidable (k5_chk124 v209 v211) := fun v209 v211 => decidable_of_iff' _ (Iff.of_eq (k5_chk124.eq_1 v209 v211))
theorem k5_idx124_inb : ∀ (v209 : IVec S16 32) (v211 : IVec S16 32) (k5_hw124 : k5_chk124 v209 v211), ∀ a x, ((![v209, v211] : Fin 2 → IVec S16 32) a x).toNat < S40x128.size a := fun v209 v211 k5_hw124 => k5_hw124

def k5_chk125 (v79 : IVec S16 32) (v213 : IVec S16 32) : Prop :=
  (∀ a x, ((![v79, v213] : Fin 2 → IVec S16 32) a x).toNat < S320x128.size a)
instance k5_chk125.dec : ∀ (v79 : IVec S16 32) (v213 : IVec S16 32), Decidable (k5_chk125 v79 v213) := fun v79 v213 => decidable_of_iff' _ (Iff.of_eq (k5_chk125.eq_1 v79 v213))
theorem k5_idx125_inb : ∀ (v79 : IVec S16 32) (v213 : IVec S16 32) (k5_hw125 : k5_chk125 v79 v213), ∀ a x, ((![v79, v213] : Fin 2 → IVec S16 32) a x).toNat < S320x128.size a := fun v79 v213 k5_hw125 => k5_hw125

def k5_chk126 (v218 : IVec S16 32) (v220 : IVec S16 32) : Prop :=
  (∀ a x, ((![v218, v220] : Fin 2 → IVec S16 32) a x).toNat < S40x128.size a)
instance k5_chk126.dec : ∀ (v218 : IVec S16 32) (v220 : IVec S16 32), Decidable (k5_chk126 v218 v220) := fun v218 v220 => decidable_of_iff' _ (Iff.of_eq (k5_chk126.eq_1 v218 v220))
theorem k5_idx126_inb : ∀ (v218 : IVec S16 32) (v220 : IVec S16 32) (k5_hw126 : k5_chk126 v218 v220), ∀ a x, ((![v218, v220] : Fin 2 → IVec S16 32) a x).toNat < S40x128.size a := fun v218 v220 k5_hw126 => k5_hw126

def k5_chk127 (v79 : IVec S16 32) (v222 : IVec S16 32) : Prop :=
  (∀ a x, ((![v79, v222] : Fin 2 → IVec S16 32) a x).toNat < S320x128.size a)
instance k5_chk127.dec : ∀ (v79 : IVec S16 32) (v222 : IVec S16 32), Decidable (k5_chk127 v79 v222) := fun v79 v222 => decidable_of_iff' _ (Iff.of_eq (k5_chk127.eq_1 v79 v222))
theorem k5_idx127_inb : ∀ (v79 : IVec S16 32) (v222 : IVec S16 32) (k5_hw127 : k5_chk127 v79 v222), ∀ a x, ((![v79, v222] : Fin 2 → IVec S16 32) a x).toNat < S320x128.size a := fun v79 v222 k5_hw127 => k5_hw127

def k5_chk128 (v227 : IVec S16 32) (v229 : IVec S16 32) : Prop :=
  (∀ a x, ((![v227, v229] : Fin 2 → IVec S16 32) a x).toNat < S40x128.size a)
instance k5_chk128.dec : ∀ (v227 : IVec S16 32) (v229 : IVec S16 32), Decidable (k5_chk128 v227 v229) := fun v227 v229 => decidable_of_iff' _ (Iff.of_eq (k5_chk128.eq_1 v227 v229))
theorem k5_idx128_inb : ∀ (v227 : IVec S16 32) (v229 : IVec S16 32) (k5_hw128 : k5_chk128 v227 v229), ∀ a x, ((![v227, v229] : Fin 2 → IVec S16 32) a x).toNat < S40x128.size a := fun v227 v229 k5_hw128 => k5_hw128
def k5_mult4 (i : grid5.Coords) (k5_t8 : Fin k5_t8_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_12 : BitVec 32 := 0#32
  let c1_i32_14 : BitVec 32 := 1#32
  let arg22 : BitVec 32 := Scf.iv c0_i32_12 c1_i32_14 k5_t8
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_66 : BitVec 32 := 320#32
  let v51 : BitVec 32 := Scalar.muli v48 c320_i32_66
  let v52 : BitVec 32 := Scalar.addi v2 v51
  let c16_i32_67 : BitVec 32 := 16#32
  let v53 : BitVec 32 := Scalar.muli v52 c16_i32_67
  let c0_i32_69 : BitVec 32 := 0#32
  let v55 : BitVec 1 := Scalar.cmpi .sgt v53 c0_i32_69
  let v56 : BitVec 32 := Scalar.extui v55
  let c0_i32_70 : BitVec 32 := 0#32
  let v57 : BitVec 1 := Scalar.cmpi .slt v53 c0_i32_70
  let v58 : BitVec 32 := Scalar.extui v57
  let v59 : BitVec 32 := Scalar.subi v56 v58
  let c128_i32_68 : BitVec 32 := 128#32
  let c0_i32_71 : BitVec 32 := 0#32
  let v60 : BitVec 1 := Scalar.cmpi .sgt c128_i32_68 c0_i32_71
  let v61 : BitVec 32 := Scalar.extui v60
  let c0_i32_72 : BitVec 32 := 0#32
  let v62 : BitVec 1 := Scalar.cmpi .slt c128_i32_68 c0_i32_72
  let v63 : BitVec 32 := Scalar.extui v62
  let v64 : BitVec 32 := Scalar.subi v61 v63
  let v65 : BitVec 1 := Scalar.cmpi .ne v59 v64
  let v66 : BitVec 32 := Scalar.remsi v53 c128_i32_68
  let c0_i32_73 : BitVec 32 := 0#32
  let v67 : BitVec 1 := Scalar.cmpi .ne v66 c0_i32_73
  let v68 : BitVec 1 := Scalar.andi v65 v67
  let v54 : BitVec 32 := Scalar.divsi v53 c128_i32_68
  let c1_i32_74 : BitVec 32 := 1#32
  let v69 : BitVec 32 := Scalar.subi v54 c1_i32_74
  let v70 : BitVec 32 := Scalar.select v68 v69 v54
  v70
def k5_off21 (i : grid5.Coords) (k5_t8 : Fin k5_t8_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_12 : BitVec 32 := 0#32
  let c1_i32_14 : BitVec 32 := 1#32
  let arg22 : BitVec 32 := Scf.iv c0_i32_12 c1_i32_14 k5_t8
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_66 : BitVec 32 := 320#32
  let v51 : BitVec 32 := Scalar.muli v48 c320_i32_66
  let v52 : BitVec 32 := Scalar.addi v2 v51
  let c16_i32_67 : BitVec 32 := 16#32
  let v53 : BitVec 32 := Scalar.muli v52 c16_i32_67
  let c0_i32_69 : BitVec 32 := 0#32
  let v55 : BitVec 1 := Scalar.cmpi .sgt v53 c0_i32_69
  let v56 : BitVec 32 := Scalar.extui v55
  let c0_i32_70 : BitVec 32 := 0#32
  let v57 : BitVec 1 := Scalar.cmpi .slt v53 c0_i32_70
  let v58 : BitVec 32 := Scalar.extui v57
  let v59 : BitVec 32 := Scalar.subi v56 v58
  let c128_i32_68 : BitVec 32 := 128#32
  let c0_i32_71 : BitVec 32 := 0#32
  let v60 : BitVec 1 := Scalar.cmpi .sgt c128_i32_68 c0_i32_71
  let v61 : BitVec 32 := Scalar.extui v60
  let c0_i32_72 : BitVec 32 := 0#32
  let v62 : BitVec 1 := Scalar.cmpi .slt c128_i32_68 c0_i32_72
  let v63 : BitVec 32 := Scalar.extui v62
  let v64 : BitVec 32 := Scalar.subi v61 v63
  let v65 : BitVec 1 := Scalar.cmpi .ne v59 v64
  let v66 : BitVec 32 := Scalar.remsi v53 c128_i32_68
  let c0_i32_73 : BitVec 32 := 0#32
  let v67 : BitVec 1 := Scalar.cmpi .ne v66 c0_i32_73
  let v68 : BitVec 1 := Scalar.andi v65 v67
  let v54 : BitVec 32 := Scalar.divsi v53 c128_i32_68
  let c1_i32_74 : BitVec 32 := 1#32
  let v69 : BitVec 32 := Scalar.subi v54 c1_i32_74
  let v70 : BitVec 32 := Scalar.select v68 v69 v54
  let v71 : BitVec 32 := v70
  let c0_i32_75_r5 : BitVec 32 := 0#32
  ![v71.toNat, 0]
@[reducible] def k5_t13_loop : Scf.Loop 32 :=
  let c0_i32_16 : BitVec 32 := 0#32
  let c20_i32_17 : BitVec 32 := 20#32
  let v10 : BitVec 32 := Scalar.addi c0_i32_16 c20_i32_17
  let c1_i32_18 : BitVec 32 := 1#32
  ⟨c0_i32_16, v10, c1_i32_18⟩
def k5_off22 (k5_t13 : Fin k5_t13_loop.trips) : Fin 1 → Nat :=
  let c0_i32_37 : BitVec 32 := 0#32
  let c0_i32_36 : BitVec 32 := 0#32
  let c0_i32_16 : BitVec 32 := 0#32
  let c1_i32_18 : BitVec 32 := 1#32
  let arg22 : BitVec 32 := Scf.iv c0_i32_16 c1_i32_18 k5_t13
  let c16_i32 : BitVec 32 := 16#32
  let v16 : BitVec 32 := Scalar.muli arg22 c16_i32
  let v17 : BitVec 32 := Scalar.addi c0_i32_36 v16
  let v18 : BitVec 32 := Scalar.addi c0_i32_37 v17
  let v19 : Index := Scalar.indexCast v18
  ![v19.toNat]
def k5_off23 (k5_t13 : Fin k5_t13_loop.trips) : Fin 1 → Nat :=
  let c0_i32_36 : BitVec 32 := 0#32
  let c0_i32_16 : BitVec 32 := 0#32
  let c1_i32_18 : BitVec 32 := 1#32
  let arg22 : BitVec 32 := Scf.iv c0_i32_16 c1_i32_18 k5_t13
  let c16_i32 : BitVec 32 := 16#32
  let v16 : BitVec 32 := Scalar.muli arg22 c16_i32
  let v17 : BitVec 32 := Scalar.addi c0_i32_36 v16
  let v23 : Index := Scalar.indexCast v17
  ![v23.toNat]
@[reducible] def k5_t14_loop : Scf.Loop 32 :=
  let c0_i32_22 : BitVec 32 := 0#32
  let c40_i32_23 : BitVec 32 := 40#32
  let v12 : BitVec 32 := Scalar.addi c0_i32_22 c40_i32_23
  let c1_i32_24 : BitVec 32 := 1#32
  ⟨c0_i32_22, v12, c1_i32_24⟩
@[reducible] def k5_t15_loop : Scf.Loop 32 :=
  let c0_i32_39 : BitVec 32 := 0#32
  let c20_i32_40 : BitVec 32 := 20#32
  let v19 : BitVec 32 := Scalar.addi c0_i32_39 c20_i32_40
  let c1_i32_41 : BitVec 32 := 1#32
  ⟨c0_i32_39, v19, c1_i32_41⟩
def k5_off24 (k5_t14 : Fin k5_t14_loop.trips) (k5_t15 : Fin k5_t15_loop.trips) : Fin 1 → Nat :=
  let c0_i32_37 : BitVec 32 := 0#32
  let c0_i32_22 : BitVec 32 := 0#32
  let c1_i32_24 : BitVec 32 := 1#32
  let arg22 : BitVec 32 := Scf.iv c0_i32_22 c1_i32_24 k5_t14
  let c2_i32_36 : BitVec 32 := 2#32
  let v16 : BitVec 32 := Scalar.muli arg22 c2_i32_36
  let v17 : BitVec 32 := Scalar.addi c0_i32_37 v16
  let c1_i32_38 : BitVec 32 := 1#32
  let v18 : BitVec 32 := Scalar.addi v17 c1_i32_38
  let c320_i32_77 : BitVec 32 := 320#32
  let v74 : BitVec 32 := Scalar.muli v18 c320_i32_77
  let c0_i32_76 : BitVec 32 := 0#32
  let c0_i32_39 : BitVec 32 := 0#32
  let c1_i32_41 : BitVec 32 := 1#32
  let arg23 : BitVec 32 := Scf.iv c0_i32_39 c1_i32_41 k5_t15
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]
def k5_off25 (k5_t15 : Fin k5_t15_loop.trips) : Fin 1 → Nat :=
  let c0_i32_76 : BitVec 32 := 0#32
  let c0_i32_39 : BitVec 32 := 0#32
  let c1_i32_41 : BitVec 32 := 1#32
  let arg23 : BitVec 32 := Scf.iv c0_i32_39 c1_i32_41 k5_t15
  let c16_i32_75 : BitVec 32 := 16#32
  let v72 : BitVec 32 := Scalar.muli arg23 c16_i32_75
  let v73 : BitVec 32 := Scalar.addi c0_i32_76 v72
  let v80 : Index := Scalar.indexCast v73
  ![v80.toNat]
@[reducible] def k5_t16_loop : Scf.Loop 32 :=
  let c0_i32_47 : BitVec 32 := 0#32
  let c20_i32_48 : BitVec 32 := 20#32
  let v22 : BitVec 32 := Scalar.addi c0_i32_47 c20_i32_48
  let c1_i32_49 : BitVec 32 := 1#32
  ⟨c0_i32_47, v22, c1_i32_49⟩
def k5_off26 (k5_t14 : Fin k5_t14_loop.trips) (k5_t16 : Fin k5_t16_loop.trips) : Fin 1 → Nat :=
  let c0_i32_37 : BitVec 32 := 0#32
  let c0_i32_22 : BitVec 32 := 0#32
  let c1_i32_24 : BitVec 32 := 1#32
  let arg22 : BitVec 32 := Scf.iv c0_i32_22 c1_i32_24 k5_t14
  let c2_i32_36 : BitVec 32 := 2#32
  let v16 : BitVec 32 := Scalar.muli arg22 c2_i32_36
  let v17 : BitVec 32 := Scalar.addi c0_i32_37 v16
  let c320_i32_77 : BitVec 32 := 320#32
  let v74 : BitVec 32 := Scalar.muli v17 c320_i32_77
  let c0_i32_76 : BitVec 32 := 0#32
  let c0_i32_47 : BitVec 32 := 0#32
  let c1_i32_49 : BitVec 32 := 1#32
  let arg23 : BitVec 32 := Scf.iv c0_i32_47 c1_i32_49 k5_t16
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]

def k5_chk129 (v79 : IVec S16 32) (v87 : IVec S16 32) : Prop :=
  (∀ a x, ((![v79, v87] : Fin 2 → IVec S16 32) a x).toNat < S320x128.size a)
instance k5_chk129.dec : ∀ (v79 : IVec S16 32) (v87 : IVec S16 32), Decidable (k5_chk129 v79 v87) := fun v79 v87 => decidable_of_iff' _ (Iff.of_eq (k5_chk129.eq_1 v79 v87))
theorem k5_idx129_inb : ∀ (v79 : IVec S16 32) (v87 : IVec S16 32) (k5_hw129 : k5_chk129 v79 v87), ∀ a x, ((![v79, v87] : Fin 2 → IVec S16 32) a x).toNat < S320x128.size a := fun v79 v87 k5_hw129 => k5_hw129

def k5_chk130 (v92 : IVec S16 32) (v94 : IVec S16 32) : Prop :=
  (∀ a x, ((![v92, v94] : Fin 2 → IVec S16 32) a x).toNat < S40x128.size a)
instance k5_chk130.dec : ∀ (v92 : IVec S16 32) (v94 : IVec S16 32), Decidable (k5_chk130 v92 v94) := fun v92 v94 => decidable_of_iff' _ (Iff.of_eq (k5_chk130.eq_1 v92 v94))
theorem k5_idx130_inb : ∀ (v92 : IVec S16 32) (v94 : IVec S16 32) (k5_hw130 : k5_chk130 v92 v94), ∀ a x, ((![v92, v94] : Fin 2 → IVec S16 32) a x).toNat < S40x128.size a := fun v92 v94 k5_hw130 => k5_hw130

def k5_chk131 (v79 : IVec S16 32) (v96 : IVec S16 32) : Prop :=
  (∀ a x, ((![v79, v96] : Fin 2 → IVec S16 32) a x).toNat < S320x128.size a)
instance k5_chk131.dec : ∀ (v79 : IVec S16 32) (v96 : IVec S16 32), Decidable (k5_chk131 v79 v96) := fun v79 v96 => decidable_of_iff' _ (Iff.of_eq (k5_chk131.eq_1 v79 v96))
theorem k5_idx131_inb : ∀ (v79 : IVec S16 32) (v96 : IVec S16 32) (k5_hw131 : k5_chk131 v79 v96), ∀ a x, ((![v79, v96] : Fin 2 → IVec S16 32) a x).toNat < S320x128.size a := fun v79 v96 k5_hw131 => k5_hw131

def k5_chk132 (v101 : IVec S16 32) (v103 : IVec S16 32) : Prop :=
  (∀ a x, ((![v101, v103] : Fin 2 → IVec S16 32) a x).toNat < S40x128.size a)
instance k5_chk132.dec : ∀ (v101 : IVec S16 32) (v103 : IVec S16 32), Decidable (k5_chk132 v101 v103) := fun v101 v103 => decidable_of_iff' _ (Iff.of_eq (k5_chk132.eq_1 v101 v103))
theorem k5_idx132_inb : ∀ (v101 : IVec S16 32) (v103 : IVec S16 32) (k5_hw132 : k5_chk132 v101 v103), ∀ a x, ((![v101, v103] : Fin 2 → IVec S16 32) a x).toNat < S40x128.size a := fun v101 v103 k5_hw132 => k5_hw132

def k5_chk133 (v79 : IVec S16 32) (v105 : IVec S16 32) : Prop :=
  (∀ a x, ((![v79, v105] : Fin 2 → IVec S16 32) a x).toNat < S320x128.size a)
instance k5_chk133.dec : ∀ (v79 : IVec S16 32) (v105 : IVec S16 32), Decidable (k5_chk133 v79 v105) := fun v79 v105 => decidable_of_iff' _ (Iff.of_eq (k5_chk133.eq_1 v79 v105))
theorem k5_idx133_inb : ∀ (v79 : IVec S16 32) (v105 : IVec S16 32) (k5_hw133 : k5_chk133 v79 v105), ∀ a x, ((![v79, v105] : Fin 2 → IVec S16 32) a x).toNat < S320x128.size a := fun v79 v105 k5_hw133 => k5_hw133

def k5_chk134 (v110 : IVec S16 32) (v112 : IVec S16 32) : Prop :=
  (∀ a x, ((![v110, v112] : Fin 2 → IVec S16 32) a x).toNat < S40x128.size a)
instance k5_chk134.dec : ∀ (v110 : IVec S16 32) (v112 : IVec S16 32), Decidable (k5_chk134 v110 v112) := fun v110 v112 => decidable_of_iff' _ (Iff.of_eq (k5_chk134.eq_1 v110 v112))
theorem k5_idx134_inb : ∀ (v110 : IVec S16 32) (v112 : IVec S16 32) (k5_hw134 : k5_chk134 v110 v112), ∀ a x, ((![v110, v112] : Fin 2 → IVec S16 32) a x).toNat < S40x128.size a := fun v110 v112 k5_hw134 => k5_hw134

def k5_chk135 (v79 : IVec S16 32) (v114 : IVec S16 32) : Prop :=
  (∀ a x, ((![v79, v114] : Fin 2 → IVec S16 32) a x).toNat < S320x128.size a)
instance k5_chk135.dec : ∀ (v79 : IVec S16 32) (v114 : IVec S16 32), Decidable (k5_chk135 v79 v114) := fun v79 v114 => decidable_of_iff' _ (Iff.of_eq (k5_chk135.eq_1 v79 v114))
theorem k5_idx135_inb : ∀ (v79 : IVec S16 32) (v114 : IVec S16 32) (k5_hw135 : k5_chk135 v79 v114), ∀ a x, ((![v79, v114] : Fin 2 → IVec S16 32) a x).toNat < S320x128.size a := fun v79 v114 k5_hw135 => k5_hw135

def k5_chk136 (v119 : IVec S16 32) (v121 : IVec S16 32) : Prop :=
  (∀ a x, ((![v119, v121] : Fin 2 → IVec S16 32) a x).toNat < S40x128.size a)
instance k5_chk136.dec : ∀ (v119 : IVec S16 32) (v121 : IVec S16 32), Decidable (k5_chk136 v119 v121) := fun v119 v121 => decidable_of_iff' _ (Iff.of_eq (k5_chk136.eq_1 v119 v121))
theorem k5_idx136_inb : ∀ (v119 : IVec S16 32) (v121 : IVec S16 32) (k5_hw136 : k5_chk136 v119 v121), ∀ a x, ((![v119, v121] : Fin 2 → IVec S16 32) a x).toNat < S40x128.size a := fun v119 v121 k5_hw136 => k5_hw136

def k5_chk137 (v79 : IVec S16 32) (v123 : IVec S16 32) : Prop :=
  (∀ a x, ((![v79, v123] : Fin 2 → IVec S16 32) a x).toNat < S320x128.size a)
instance k5_chk137.dec : ∀ (v79 : IVec S16 32) (v123 : IVec S16 32), Decidable (k5_chk137 v79 v123) := fun v79 v123 => decidable_of_iff' _ (Iff.of_eq (k5_chk137.eq_1 v79 v123))
theorem k5_idx137_inb : ∀ (v79 : IVec S16 32) (v123 : IVec S16 32) (k5_hw137 : k5_chk137 v79 v123), ∀ a x, ((![v79, v123] : Fin 2 → IVec S16 32) a x).toNat < S320x128.size a := fun v79 v123 k5_hw137 => k5_hw137

def k5_chk138 (v128 : IVec S16 32) (v130 : IVec S16 32) : Prop :=
  (∀ a x, ((![v128, v130] : Fin 2 → IVec S16 32) a x).toNat < S40x128.size a)
instance k5_chk138.dec : ∀ (v128 : IVec S16 32) (v130 : IVec S16 32), Decidable (k5_chk138 v128 v130) := fun v128 v130 => decidable_of_iff' _ (Iff.of_eq (k5_chk138.eq_1 v128 v130))
theorem k5_idx138_inb : ∀ (v128 : IVec S16 32) (v130 : IVec S16 32) (k5_hw138 : k5_chk138 v128 v130), ∀ a x, ((![v128, v130] : Fin 2 → IVec S16 32) a x).toNat < S40x128.size a := fun v128 v130 k5_hw138 => k5_hw138

def k5_chk139 (v79 : IVec S16 32) (v132 : IVec S16 32) : Prop :=
  (∀ a x, ((![v79, v132] : Fin 2 → IVec S16 32) a x).toNat < S320x128.size a)
instance k5_chk139.dec : ∀ (v79 : IVec S16 32) (v132 : IVec S16 32), Decidable (k5_chk139 v79 v132) := fun v79 v132 => decidable_of_iff' _ (Iff.of_eq (k5_chk139.eq_1 v79 v132))
theorem k5_idx139_inb : ∀ (v79 : IVec S16 32) (v132 : IVec S16 32) (k5_hw139 : k5_chk139 v79 v132), ∀ a x, ((![v79, v132] : Fin 2 → IVec S16 32) a x).toNat < S320x128.size a := fun v79 v132 k5_hw139 => k5_hw139

def k5_chk140 (v137 : IVec S16 32) (v139 : IVec S16 32) : Prop :=
  (∀ a x, ((![v137, v139] : Fin 2 → IVec S16 32) a x).toNat < S40x128.size a)
instance k5_chk140.dec : ∀ (v137 : IVec S16 32) (v139 : IVec S16 32), Decidable (k5_chk140 v137 v139) := fun v137 v139 => decidable_of_iff' _ (Iff.of_eq (k5_chk140.eq_1 v137 v139))
theorem k5_idx140_inb : ∀ (v137 : IVec S16 32) (v139 : IVec S16 32) (k5_hw140 : k5_chk140 v137 v139), ∀ a x, ((![v137, v139] : Fin 2 → IVec S16 32) a x).toNat < S40x128.size a := fun v137 v139 k5_hw140 => k5_hw140

def k5_chk141 (v79 : IVec S16 32) (v141 : IVec S16 32) : Prop :=
  (∀ a x, ((![v79, v141] : Fin 2 → IVec S16 32) a x).toNat < S320x128.size a)
instance k5_chk141.dec : ∀ (v79 : IVec S16 32) (v141 : IVec S16 32), Decidable (k5_chk141 v79 v141) := fun v79 v141 => decidable_of_iff' _ (Iff.of_eq (k5_chk141.eq_1 v79 v141))
theorem k5_idx141_inb : ∀ (v79 : IVec S16 32) (v141 : IVec S16 32) (k5_hw141 : k5_chk141 v79 v141), ∀ a x, ((![v79, v141] : Fin 2 → IVec S16 32) a x).toNat < S320x128.size a := fun v79 v141 k5_hw141 => k5_hw141

def k5_chk142 (v146 : IVec S16 32) (v148 : IVec S16 32) : Prop :=
  (∀ a x, ((![v146, v148] : Fin 2 → IVec S16 32) a x).toNat < S40x128.size a)
instance k5_chk142.dec : ∀ (v146 : IVec S16 32) (v148 : IVec S16 32), Decidable (k5_chk142 v146 v148) := fun v146 v148 => decidable_of_iff' _ (Iff.of_eq (k5_chk142.eq_1 v146 v148))
theorem k5_idx142_inb : ∀ (v146 : IVec S16 32) (v148 : IVec S16 32) (k5_hw142 : k5_chk142 v146 v148), ∀ a x, ((![v146, v148] : Fin 2 → IVec S16 32) a x).toNat < S40x128.size a := fun v146 v148 k5_hw142 => k5_hw142

def k5_chk143 (v79 : IVec S16 32) (v150 : IVec S16 32) : Prop :=
  (∀ a x, ((![v79, v150] : Fin 2 → IVec S16 32) a x).toNat < S320x128.size a)
instance k5_chk143.dec : ∀ (v79 : IVec S16 32) (v150 : IVec S16 32), Decidable (k5_chk143 v79 v150) := fun v79 v150 => decidable_of_iff' _ (Iff.of_eq (k5_chk143.eq_1 v79 v150))
theorem k5_idx143_inb : ∀ (v79 : IVec S16 32) (v150 : IVec S16 32) (k5_hw143 : k5_chk143 v79 v150), ∀ a x, ((![v79, v150] : Fin 2 → IVec S16 32) a x).toNat < S320x128.size a := fun v79 v150 k5_hw143 => k5_hw143

def k5_chk144 (v155 : IVec S16 32) (v157 : IVec S16 32) : Prop :=
  (∀ a x, ((![v155, v157] : Fin 2 → IVec S16 32) a x).toNat < S40x128.size a)
instance k5_chk144.dec : ∀ (v155 : IVec S16 32) (v157 : IVec S16 32), Decidable (k5_chk144 v155 v157) := fun v155 v157 => decidable_of_iff' _ (Iff.of_eq (k5_chk144.eq_1 v155 v157))
theorem k5_idx144_inb : ∀ (v155 : IVec S16 32) (v157 : IVec S16 32) (k5_hw144 : k5_chk144 v155 v157), ∀ a x, ((![v155, v157] : Fin 2 → IVec S16 32) a x).toNat < S40x128.size a := fun v155 v157 k5_hw144 => k5_hw144

def k5_chk145 (v79 : IVec S16 32) (v159 : IVec S16 32) : Prop :=
  (∀ a x, ((![v79, v159] : Fin 2 → IVec S16 32) a x).toNat < S320x128.size a)
instance k5_chk145.dec : ∀ (v79 : IVec S16 32) (v159 : IVec S16 32), Decidable (k5_chk145 v79 v159) := fun v79 v159 => decidable_of_iff' _ (Iff.of_eq (k5_chk145.eq_1 v79 v159))
theorem k5_idx145_inb : ∀ (v79 : IVec S16 32) (v159 : IVec S16 32) (k5_hw145 : k5_chk145 v79 v159), ∀ a x, ((![v79, v159] : Fin 2 → IVec S16 32) a x).toNat < S320x128.size a := fun v79 v159 k5_hw145 => k5_hw145

def k5_chk146 (v164 : IVec S16 32) (v166 : IVec S16 32) : Prop :=
  (∀ a x, ((![v164, v166] : Fin 2 → IVec S16 32) a x).toNat < S40x128.size a)
instance k5_chk146.dec : ∀ (v164 : IVec S16 32) (v166 : IVec S16 32), Decidable (k5_chk146 v164 v166) := fun v164 v166 => decidable_of_iff' _ (Iff.of_eq (k5_chk146.eq_1 v164 v166))
theorem k5_idx146_inb : ∀ (v164 : IVec S16 32) (v166 : IVec S16 32) (k5_hw146 : k5_chk146 v164 v166), ∀ a x, ((![v164, v166] : Fin 2 → IVec S16 32) a x).toNat < S40x128.size a := fun v164 v166 k5_hw146 => k5_hw146

def k5_chk147 (v79 : IVec S16 32) (v168 : IVec S16 32) : Prop :=
  (∀ a x, ((![v79, v168] : Fin 2 → IVec S16 32) a x).toNat < S320x128.size a)
instance k5_chk147.dec : ∀ (v79 : IVec S16 32) (v168 : IVec S16 32), Decidable (k5_chk147 v79 v168) := fun v79 v168 => decidable_of_iff' _ (Iff.of_eq (k5_chk147.eq_1 v79 v168))
theorem k5_idx147_inb : ∀ (v79 : IVec S16 32) (v168 : IVec S16 32) (k5_hw147 : k5_chk147 v79 v168), ∀ a x, ((![v79, v168] : Fin 2 → IVec S16 32) a x).toNat < S320x128.size a := fun v79 v168 k5_hw147 => k5_hw147

def k5_chk148 (v173 : IVec S16 32) (v175 : IVec S16 32) : Prop :=
  (∀ a x, ((![v173, v175] : Fin 2 → IVec S16 32) a x).toNat < S40x128.size a)
instance k5_chk148.dec : ∀ (v173 : IVec S16 32) (v175 : IVec S16 32), Decidable (k5_chk148 v173 v175) := fun v173 v175 => decidable_of_iff' _ (Iff.of_eq (k5_chk148.eq_1 v173 v175))
theorem k5_idx148_inb : ∀ (v173 : IVec S16 32) (v175 : IVec S16 32) (k5_hw148 : k5_chk148 v173 v175), ∀ a x, ((![v173, v175] : Fin 2 → IVec S16 32) a x).toNat < S40x128.size a := fun v173 v175 k5_hw148 => k5_hw148

def k5_chk149 (v79 : IVec S16 32) (v177 : IVec S16 32) : Prop :=
  (∀ a x, ((![v79, v177] : Fin 2 → IVec S16 32) a x).toNat < S320x128.size a)
instance k5_chk149.dec : ∀ (v79 : IVec S16 32) (v177 : IVec S16 32), Decidable (k5_chk149 v79 v177) := fun v79 v177 => decidable_of_iff' _ (Iff.of_eq (k5_chk149.eq_1 v79 v177))
theorem k5_idx149_inb : ∀ (v79 : IVec S16 32) (v177 : IVec S16 32) (k5_hw149 : k5_chk149 v79 v177), ∀ a x, ((![v79, v177] : Fin 2 → IVec S16 32) a x).toNat < S320x128.size a := fun v79 v177 k5_hw149 => k5_hw149

def k5_chk150 (v182 : IVec S16 32) (v184 : IVec S16 32) : Prop :=
  (∀ a x, ((![v182, v184] : Fin 2 → IVec S16 32) a x).toNat < S40x128.size a)
instance k5_chk150.dec : ∀ (v182 : IVec S16 32) (v184 : IVec S16 32), Decidable (k5_chk150 v182 v184) := fun v182 v184 => decidable_of_iff' _ (Iff.of_eq (k5_chk150.eq_1 v182 v184))
theorem k5_idx150_inb : ∀ (v182 : IVec S16 32) (v184 : IVec S16 32) (k5_hw150 : k5_chk150 v182 v184), ∀ a x, ((![v182, v184] : Fin 2 → IVec S16 32) a x).toNat < S40x128.size a := fun v182 v184 k5_hw150 => k5_hw150

def k5_chk151 (v79 : IVec S16 32) (v186 : IVec S16 32) : Prop :=
  (∀ a x, ((![v79, v186] : Fin 2 → IVec S16 32) a x).toNat < S320x128.size a)
instance k5_chk151.dec : ∀ (v79 : IVec S16 32) (v186 : IVec S16 32), Decidable (k5_chk151 v79 v186) := fun v79 v186 => decidable_of_iff' _ (Iff.of_eq (k5_chk151.eq_1 v79 v186))
theorem k5_idx151_inb : ∀ (v79 : IVec S16 32) (v186 : IVec S16 32) (k5_hw151 : k5_chk151 v79 v186), ∀ a x, ((![v79, v186] : Fin 2 → IVec S16 32) a x).toNat < S320x128.size a := fun v79 v186 k5_hw151 => k5_hw151

def k5_chk152 (v191 : IVec S16 32) (v193 : IVec S16 32) : Prop :=
  (∀ a x, ((![v191, v193] : Fin 2 → IVec S16 32) a x).toNat < S40x128.size a)
instance k5_chk152.dec : ∀ (v191 : IVec S16 32) (v193 : IVec S16 32), Decidable (k5_chk152 v191 v193) := fun v191 v193 => decidable_of_iff' _ (Iff.of_eq (k5_chk152.eq_1 v191 v193))
theorem k5_idx152_inb : ∀ (v191 : IVec S16 32) (v193 : IVec S16 32) (k5_hw152 : k5_chk152 v191 v193), ∀ a x, ((![v191, v193] : Fin 2 → IVec S16 32) a x).toNat < S40x128.size a := fun v191 v193 k5_hw152 => k5_hw152

def k5_chk153 (v79 : IVec S16 32) (v195 : IVec S16 32) : Prop :=
  (∀ a x, ((![v79, v195] : Fin 2 → IVec S16 32) a x).toNat < S320x128.size a)
instance k5_chk153.dec : ∀ (v79 : IVec S16 32) (v195 : IVec S16 32), Decidable (k5_chk153 v79 v195) := fun v79 v195 => decidable_of_iff' _ (Iff.of_eq (k5_chk153.eq_1 v79 v195))
theorem k5_idx153_inb : ∀ (v79 : IVec S16 32) (v195 : IVec S16 32) (k5_hw153 : k5_chk153 v79 v195), ∀ a x, ((![v79, v195] : Fin 2 → IVec S16 32) a x).toNat < S320x128.size a := fun v79 v195 k5_hw153 => k5_hw153

def k5_chk154 (v200 : IVec S16 32) (v202 : IVec S16 32) : Prop :=
  (∀ a x, ((![v200, v202] : Fin 2 → IVec S16 32) a x).toNat < S40x128.size a)
instance k5_chk154.dec : ∀ (v200 : IVec S16 32) (v202 : IVec S16 32), Decidable (k5_chk154 v200 v202) := fun v200 v202 => decidable_of_iff' _ (Iff.of_eq (k5_chk154.eq_1 v200 v202))
theorem k5_idx154_inb : ∀ (v200 : IVec S16 32) (v202 : IVec S16 32) (k5_hw154 : k5_chk154 v200 v202), ∀ a x, ((![v200, v202] : Fin 2 → IVec S16 32) a x).toNat < S40x128.size a := fun v200 v202 k5_hw154 => k5_hw154

def k5_chk155 (v79 : IVec S16 32) (v204 : IVec S16 32) : Prop :=
  (∀ a x, ((![v79, v204] : Fin 2 → IVec S16 32) a x).toNat < S320x128.size a)
instance k5_chk155.dec : ∀ (v79 : IVec S16 32) (v204 : IVec S16 32), Decidable (k5_chk155 v79 v204) := fun v79 v204 => decidable_of_iff' _ (Iff.of_eq (k5_chk155.eq_1 v79 v204))
theorem k5_idx155_inb : ∀ (v79 : IVec S16 32) (v204 : IVec S16 32) (k5_hw155 : k5_chk155 v79 v204), ∀ a x, ((![v79, v204] : Fin 2 → IVec S16 32) a x).toNat < S320x128.size a := fun v79 v204 k5_hw155 => k5_hw155

def k5_chk156 (v209 : IVec S16 32) (v211 : IVec S16 32) : Prop :=
  (∀ a x, ((![v209, v211] : Fin 2 → IVec S16 32) a x).toNat < S40x128.size a)
instance k5_chk156.dec : ∀ (v209 : IVec S16 32) (v211 : IVec S16 32), Decidable (k5_chk156 v209 v211) := fun v209 v211 => decidable_of_iff' _ (Iff.of_eq (k5_chk156.eq_1 v209 v211))
theorem k5_idx156_inb : ∀ (v209 : IVec S16 32) (v211 : IVec S16 32) (k5_hw156 : k5_chk156 v209 v211), ∀ a x, ((![v209, v211] : Fin 2 → IVec S16 32) a x).toNat < S40x128.size a := fun v209 v211 k5_hw156 => k5_hw156

def k5_chk157 (v79 : IVec S16 32) (v213 : IVec S16 32) : Prop :=
  (∀ a x, ((![v79, v213] : Fin 2 → IVec S16 32) a x).toNat < S320x128.size a)
instance k5_chk157.dec : ∀ (v79 : IVec S16 32) (v213 : IVec S16 32), Decidable (k5_chk157 v79 v213) := fun v79 v213 => decidable_of_iff' _ (Iff.of_eq (k5_chk157.eq_1 v79 v213))
theorem k5_idx157_inb : ∀ (v79 : IVec S16 32) (v213 : IVec S16 32) (k5_hw157 : k5_chk157 v79 v213), ∀ a x, ((![v79, v213] : Fin 2 → IVec S16 32) a x).toNat < S320x128.size a := fun v79 v213 k5_hw157 => k5_hw157

def k5_chk158 (v218 : IVec S16 32) (v220 : IVec S16 32) : Prop :=
  (∀ a x, ((![v218, v220] : Fin 2 → IVec S16 32) a x).toNat < S40x128.size a)
instance k5_chk158.dec : ∀ (v218 : IVec S16 32) (v220 : IVec S16 32), Decidable (k5_chk158 v218 v220) := fun v218 v220 => decidable_of_iff' _ (Iff.of_eq (k5_chk158.eq_1 v218 v220))
theorem k5_idx158_inb : ∀ (v218 : IVec S16 32) (v220 : IVec S16 32) (k5_hw158 : k5_chk158 v218 v220), ∀ a x, ((![v218, v220] : Fin 2 → IVec S16 32) a x).toNat < S40x128.size a := fun v218 v220 k5_hw158 => k5_hw158

def k5_chk159 (v79 : IVec S16 32) (v222 : IVec S16 32) : Prop :=
  (∀ a x, ((![v79, v222] : Fin 2 → IVec S16 32) a x).toNat < S320x128.size a)
instance k5_chk159.dec : ∀ (v79 : IVec S16 32) (v222 : IVec S16 32), Decidable (k5_chk159 v79 v222) := fun v79 v222 => decidable_of_iff' _ (Iff.of_eq (k5_chk159.eq_1 v79 v222))
theorem k5_idx159_inb : ∀ (v79 : IVec S16 32) (v222 : IVec S16 32) (k5_hw159 : k5_chk159 v79 v222), ∀ a x, ((![v79, v222] : Fin 2 → IVec S16 32) a x).toNat < S320x128.size a := fun v79 v222 k5_hw159 => k5_hw159

def k5_chk160 (v227 : IVec S16 32) (v229 : IVec S16 32) : Prop :=
  (∀ a x, ((![v227, v229] : Fin 2 → IVec S16 32) a x).toNat < S40x128.size a)
instance k5_chk160.dec : ∀ (v227 : IVec S16 32) (v229 : IVec S16 32), Decidable (k5_chk160 v227 v229) := fun v227 v229 => decidable_of_iff' _ (Iff.of_eq (k5_chk160.eq_1 v227 v229))
theorem k5_idx160_inb : ∀ (v227 : IVec S16 32) (v229 : IVec S16 32) (k5_hw160 : k5_chk160 v227 v229), ∀ a x, ((![v227, v229] : Fin 2 → IVec S16 32) a x).toNat < S40x128.size a := fun v227 v229 k5_hw160 => k5_hw160
def k5_mult5 (i : grid5.Coords) (k5_t14 : Fin k5_t14_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_22 : BitVec 32 := 0#32
  let c1_i32_24 : BitVec 32 := 1#32
  let arg22 : BitVec 32 := Scf.iv c0_i32_22 c1_i32_24 k5_t14
  let c2_i32_36 : BitVec 32 := 2#32
  let v16 : BitVec 32 := Scalar.muli arg22 c2_i32_36
  let v17 : BitVec 32 := Scalar.addi c0_i32_37 v16
  let c320_i32 : BitVec 32 := 320#32
  let v23 : BitVec 32 := Scalar.muli v17 c320_i32
  let v24 : BitVec 32 := Scalar.addi v2 v23
  let c16_i32 : BitVec 32 := 16#32
  let v25 : BitVec 32 := Scalar.muli v24 c16_i32
  let c0_i32_51 : BitVec 32 := 0#32
  let v27 : BitVec 1 := Scalar.cmpi .sgt v25 c0_i32_51
  let v28 : BitVec 32 := Scalar.extui v27
  let c0_i32_52 : BitVec 32 := 0#32
  let v29 : BitVec 1 := Scalar.cmpi .slt v25 c0_i32_52
  let v30 : BitVec 32 := Scalar.extui v29
  let v31 : BitVec 32 := Scalar.subi v28 v30
  let c128_i32 : BitVec 32 := 128#32
  let c0_i32_53 : BitVec 32 := 0#32
  let v32 : BitVec 1 := Scalar.cmpi .sgt c128_i32 c0_i32_53
  let v33 : BitVec 32 := Scalar.extui v32
  let c0_i32_54 : BitVec 32 := 0#32
  let v34 : BitVec 1 := Scalar.cmpi .slt c128_i32 c0_i32_54
  let v35 : BitVec 32 := Scalar.extui v34
  let v36 : BitVec 32 := Scalar.subi v33 v35
  let v37 : BitVec 1 := Scalar.cmpi .ne v31 v36
  let v38 : BitVec 32 := Scalar.remsi v25 c128_i32
  let c0_i32_55 : BitVec 32 := 0#32
  let v39 : BitVec 1 := Scalar.cmpi .ne v38 c0_i32_55
  let v40 : BitVec 1 := Scalar.andi v37 v39
  let v26 : BitVec 32 := Scalar.divsi v25 c128_i32
  let c1_i32_56 : BitVec 32 := 1#32
  let v41 : BitVec 32 := Scalar.subi v26 c1_i32_56
  let v42 : BitVec 32 := Scalar.select v40 v41 v26
  v42
def k5_off27 (i : grid5.Coords) (k5_t14 : Fin k5_t14_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_22 : BitVec 32 := 0#32
  let c1_i32_24 : BitVec 32 := 1#32
  let arg22 : BitVec 32 := Scf.iv c0_i32_22 c1_i32_24 k5_t14
  let c2_i32_36 : BitVec 32 := 2#32
  let v16 : BitVec 32 := Scalar.muli arg22 c2_i32_36
  let v17 : BitVec 32 := Scalar.addi c0_i32_37 v16
  let c320_i32 : BitVec 32 := 320#32
  let v23 : BitVec 32 := Scalar.muli v17 c320_i32
  let v24 : BitVec 32 := Scalar.addi v2 v23
  let c16_i32 : BitVec 32 := 16#32
  let v25 : BitVec 32 := Scalar.muli v24 c16_i32
  let c0_i32_51 : BitVec 32 := 0#32
  let v27 : BitVec 1 := Scalar.cmpi .sgt v25 c0_i32_51
  let v28 : BitVec 32 := Scalar.extui v27
  let c0_i32_52 : BitVec 32 := 0#32
  let v29 : BitVec 1 := Scalar.cmpi .slt v25 c0_i32_52
  let v30 : BitVec 32 := Scalar.extui v29
  let v31 : BitVec 32 := Scalar.subi v28 v30
  let c128_i32 : BitVec 32 := 128#32
  let c0_i32_53 : BitVec 32 := 0#32
  let v32 : BitVec 1 := Scalar.cmpi .sgt c128_i32 c0_i32_53
  let v33 : BitVec 32 := Scalar.extui v32
  let c0_i32_54 : BitVec 32 := 0#32
  let v34 : BitVec 1 := Scalar.cmpi .slt c128_i32 c0_i32_54
  let v35 : BitVec 32 := Scalar.extui v34
  let v36 : BitVec 32 := Scalar.subi v33 v35
  let v37 : BitVec 1 := Scalar.cmpi .ne v31 v36
  let v38 : BitVec 32 := Scalar.remsi v25 c128_i32
  let c0_i32_55 : BitVec 32 := 0#32
  let v39 : BitVec 1 := Scalar.cmpi .ne v38 c0_i32_55
  let v40 : BitVec 1 := Scalar.andi v37 v39
  let v26 : BitVec 32 := Scalar.divsi v25 c128_i32
  let c1_i32_56 : BitVec 32 := 1#32
  let v41 : BitVec 32 := Scalar.subi v26 c1_i32_56
  let v42 : BitVec 32 := Scalar.select v40 v41 v26
  let v43 : BitVec 32 := v42
  let c0_i32_75_r7 : BitVec 32 := 0#32
  ![v43.toNat, 0]
def k5_cond3 (k5_t14 : Fin k5_t14_loop.trips) : BitVec 1 :=
  let c0_i32_37 : BitVec 32 := 0#32
  let c0_i32_22 : BitVec 32 := 0#32
  let c1_i32_24 : BitVec 32 := 1#32
  let arg22 : BitVec 32 := Scf.iv c0_i32_22 c1_i32_24 k5_t14
  let c2_i32_36 : BitVec 32 := 2#32
  let v16 : BitVec 32 := Scalar.muli arg22 c2_i32_36
  let v17 : BitVec 32 := Scalar.addi c0_i32_37 v16
  let c2_i32_57 : BitVec 32 := 2#32
  let v44 : BitVec 32 := Scalar.addi v17 c2_i32_57
  let c80_i32 : BitVec 32 := 80#32
  let v45 : BitVec 1 := Scalar.cmpi .slt v44 c80_i32
  let v46 : BitVec 32 := Scalar.extui v45
  let c0_i32_58 : BitVec 32 := 0#32
  let v47 : BitVec 1 := Scalar.cmpi .ne v46 c0_i32_58
  v47

@[reducible] def k5_t17_loop : Scf.Loop 32 :=
  let c0_i32_76 : BitVec 32 := 0#32
  let c20_i32_77 : BitVec 32 := 20#32
  let v73 : BitVec 32 := Scalar.addi c0_i32_76 c20_i32_77
  let c1_i32_78 : BitVec 32 := 1#32
  ⟨c0_i32_76, v73, c1_i32_78⟩
def k5_off28 (k5_t14 : Fin k5_t14_loop.trips) (k5_t17 : Fin k5_t17_loop.trips) : Fin 1 → Nat :=
  let c0_i32_37 : BitVec 32 := 0#32
  let c0_i32_22 : BitVec 32 := 0#32
  let c1_i32_24 : BitVec 32 := 1#32
  let arg22 : BitVec 32 := Scf.iv c0_i32_22 c1_i32_24 k5_t14
  let c2_i32_36 : BitVec 32 := 2#32
  let v16 : BitVec 32 := Scalar.muli arg22 c2_i32_36
  let v17 : BitVec 32 := Scalar.addi c0_i32_37 v16
  let c2_i32_75 : BitVec 32 := 2#32
  let v72 : BitVec 32 := Scalar.addi v17 c2_i32_75
  let c320_i32_84 : BitVec 32 := 320#32
  let v77 : BitVec 32 := Scalar.muli v72 c320_i32_84
  let c0_i32_83 : BitVec 32 := 0#32
  let c0_i32_76 : BitVec 32 := 0#32
  let c1_i32_78 : BitVec 32 := 1#32
  let arg23 : BitVec 32 := Scf.iv c0_i32_76 c1_i32_78 k5_t17
  let c16_i32_82 : BitVec 32 := 16#32
  let v75 : BitVec 32 := Scalar.muli arg23 c16_i32_82
  let v76 : BitVec 32 := Scalar.addi c0_i32_83 v75
  let v78 : BitVec 32 := Scalar.addi v77 v76
  let v79 : Index := Scalar.indexCast v78
  ![v79.toNat]
def k5_off29 (k5_t17 : Fin k5_t17_loop.trips) : Fin 1 → Nat :=
  let c0_i32_83 : BitVec 32 := 0#32
  let c0_i32_76 : BitVec 32 := 0#32
  let c1_i32_78 : BitVec 32 := 1#32
  let arg23 : BitVec 32 := Scf.iv c0_i32_76 c1_i32_78 k5_t17
  let c16_i32_82 : BitVec 32 := 16#32
  let v75 : BitVec 32 := Scalar.muli arg23 c16_i32_82
  let v76 : BitVec 32 := Scalar.addi c0_i32_83 v75
  let v83 : Index := Scalar.indexCast v76
  ![v83.toNat]
@[reducible] def k5_t18_loop : Scf.Loop 32 :=
  let c0_i32_62 : BitVec 32 := 0#32
  let c20_i32_63 : BitVec 32 := 20#32
  let v50 : BitVec 32 := Scalar.addi c0_i32_62 c20_i32_63
  let c1_i32_64 : BitVec 32 := 1#32
  ⟨c0_i32_62, v50, c1_i32_64⟩
def k5_off30 (k5_t14 : Fin k5_t14_loop.trips) (k5_t18 : Fin k5_t18_loop.trips) : Fin 1 → Nat :=
  let c0_i32_37 : BitVec 32 := 0#32
  let c0_i32_22 : BitVec 32 := 0#32
  let c1_i32_24 : BitVec 32 := 1#32
  let arg22 : BitVec 32 := Scf.iv c0_i32_22 c1_i32_24 k5_t14
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_77 : BitVec 32 := 320#32
  let v74 : BitVec 32 := Scalar.muli v48 c320_i32_77
  let c0_i32_76 : BitVec 32 := 0#32
  let c0_i32_62 : BitVec 32 := 0#32
  let c1_i32_64 : BitVec 32 := 1#32
  let arg23 : BitVec 32 := Scf.iv c0_i32_62 c1_i32_64 k5_t18
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]

def k5_chk161 (v79 : IVec S16 32) (v87 : IVec S16 32) : Prop :=
  (∀ a x, ((![v79, v87] : Fin 2 → IVec S16 32) a x).toNat < S320x128.size a)
instance k5_chk161.dec : ∀ (v79 : IVec S16 32) (v87 : IVec S16 32), Decidable (k5_chk161 v79 v87) := fun v79 v87 => decidable_of_iff' _ (Iff.of_eq (k5_chk161.eq_1 v79 v87))
theorem k5_idx161_inb : ∀ (v79 : IVec S16 32) (v87 : IVec S16 32) (k5_hw161 : k5_chk161 v79 v87), ∀ a x, ((![v79, v87] : Fin 2 → IVec S16 32) a x).toNat < S320x128.size a := fun v79 v87 k5_hw161 => k5_hw161

def k5_chk162 (v92 : IVec S16 32) (v94 : IVec S16 32) : Prop :=
  (∀ a x, ((![v92, v94] : Fin 2 → IVec S16 32) a x).toNat < S40x128.size a)
instance k5_chk162.dec : ∀ (v92 : IVec S16 32) (v94 : IVec S16 32), Decidable (k5_chk162 v92 v94) := fun v92 v94 => decidable_of_iff' _ (Iff.of_eq (k5_chk162.eq_1 v92 v94))
theorem k5_idx162_inb : ∀ (v92 : IVec S16 32) (v94 : IVec S16 32) (k5_hw162 : k5_chk162 v92 v94), ∀ a x, ((![v92, v94] : Fin 2 → IVec S16 32) a x).toNat < S40x128.size a := fun v92 v94 k5_hw162 => k5_hw162

def k5_chk163 (v79 : IVec S16 32) (v96 : IVec S16 32) : Prop :=
  (∀ a x, ((![v79, v96] : Fin 2 → IVec S16 32) a x).toNat < S320x128.size a)
instance k5_chk163.dec : ∀ (v79 : IVec S16 32) (v96 : IVec S16 32), Decidable (k5_chk163 v79 v96) := fun v79 v96 => decidable_of_iff' _ (Iff.of_eq (k5_chk163.eq_1 v79 v96))
theorem k5_idx163_inb : ∀ (v79 : IVec S16 32) (v96 : IVec S16 32) (k5_hw163 : k5_chk163 v79 v96), ∀ a x, ((![v79, v96] : Fin 2 → IVec S16 32) a x).toNat < S320x128.size a := fun v79 v96 k5_hw163 => k5_hw163

def k5_chk164 (v101 : IVec S16 32) (v103 : IVec S16 32) : Prop :=
  (∀ a x, ((![v101, v103] : Fin 2 → IVec S16 32) a x).toNat < S40x128.size a)
instance k5_chk164.dec : ∀ (v101 : IVec S16 32) (v103 : IVec S16 32), Decidable (k5_chk164 v101 v103) := fun v101 v103 => decidable_of_iff' _ (Iff.of_eq (k5_chk164.eq_1 v101 v103))
theorem k5_idx164_inb : ∀ (v101 : IVec S16 32) (v103 : IVec S16 32) (k5_hw164 : k5_chk164 v101 v103), ∀ a x, ((![v101, v103] : Fin 2 → IVec S16 32) a x).toNat < S40x128.size a := fun v101 v103 k5_hw164 => k5_hw164

def k5_chk165 (v79 : IVec S16 32) (v105 : IVec S16 32) : Prop :=
  (∀ a x, ((![v79, v105] : Fin 2 → IVec S16 32) a x).toNat < S320x128.size a)
instance k5_chk165.dec : ∀ (v79 : IVec S16 32) (v105 : IVec S16 32), Decidable (k5_chk165 v79 v105) := fun v79 v105 => decidable_of_iff' _ (Iff.of_eq (k5_chk165.eq_1 v79 v105))
theorem k5_idx165_inb : ∀ (v79 : IVec S16 32) (v105 : IVec S16 32) (k5_hw165 : k5_chk165 v79 v105), ∀ a x, ((![v79, v105] : Fin 2 → IVec S16 32) a x).toNat < S320x128.size a := fun v79 v105 k5_hw165 => k5_hw165

def k5_chk166 (v110 : IVec S16 32) (v112 : IVec S16 32) : Prop :=
  (∀ a x, ((![v110, v112] : Fin 2 → IVec S16 32) a x).toNat < S40x128.size a)
instance k5_chk166.dec : ∀ (v110 : IVec S16 32) (v112 : IVec S16 32), Decidable (k5_chk166 v110 v112) := fun v110 v112 => decidable_of_iff' _ (Iff.of_eq (k5_chk166.eq_1 v110 v112))
theorem k5_idx166_inb : ∀ (v110 : IVec S16 32) (v112 : IVec S16 32) (k5_hw166 : k5_chk166 v110 v112), ∀ a x, ((![v110, v112] : Fin 2 → IVec S16 32) a x).toNat < S40x128.size a := fun v110 v112 k5_hw166 => k5_hw166

def k5_chk167 (v79 : IVec S16 32) (v114 : IVec S16 32) : Prop :=
  (∀ a x, ((![v79, v114] : Fin 2 → IVec S16 32) a x).toNat < S320x128.size a)
instance k5_chk167.dec : ∀ (v79 : IVec S16 32) (v114 : IVec S16 32), Decidable (k5_chk167 v79 v114) := fun v79 v114 => decidable_of_iff' _ (Iff.of_eq (k5_chk167.eq_1 v79 v114))
theorem k5_idx167_inb : ∀ (v79 : IVec S16 32) (v114 : IVec S16 32) (k5_hw167 : k5_chk167 v79 v114), ∀ a x, ((![v79, v114] : Fin 2 → IVec S16 32) a x).toNat < S320x128.size a := fun v79 v114 k5_hw167 => k5_hw167

def k5_chk168 (v119 : IVec S16 32) (v121 : IVec S16 32) : Prop :=
  (∀ a x, ((![v119, v121] : Fin 2 → IVec S16 32) a x).toNat < S40x128.size a)
instance k5_chk168.dec : ∀ (v119 : IVec S16 32) (v121 : IVec S16 32), Decidable (k5_chk168 v119 v121) := fun v119 v121 => decidable_of_iff' _ (Iff.of_eq (k5_chk168.eq_1 v119 v121))
theorem k5_idx168_inb : ∀ (v119 : IVec S16 32) (v121 : IVec S16 32) (k5_hw168 : k5_chk168 v119 v121), ∀ a x, ((![v119, v121] : Fin 2 → IVec S16 32) a x).toNat < S40x128.size a := fun v119 v121 k5_hw168 => k5_hw168

def k5_chk169 (v79 : IVec S16 32) (v123 : IVec S16 32) : Prop :=
  (∀ a x, ((![v79, v123] : Fin 2 → IVec S16 32) a x).toNat < S320x128.size a)
instance k5_chk169.dec : ∀ (v79 : IVec S16 32) (v123 : IVec S16 32), Decidable (k5_chk169 v79 v123) := fun v79 v123 => decidable_of_iff' _ (Iff.of_eq (k5_chk169.eq_1 v79 v123))
theorem k5_idx169_inb : ∀ (v79 : IVec S16 32) (v123 : IVec S16 32) (k5_hw169 : k5_chk169 v79 v123), ∀ a x, ((![v79, v123] : Fin 2 → IVec S16 32) a x).toNat < S320x128.size a := fun v79 v123 k5_hw169 => k5_hw169

def k5_chk170 (v128 : IVec S16 32) (v130 : IVec S16 32) : Prop :=
  (∀ a x, ((![v128, v130] : Fin 2 → IVec S16 32) a x).toNat < S40x128.size a)
instance k5_chk170.dec : ∀ (v128 : IVec S16 32) (v130 : IVec S16 32), Decidable (k5_chk170 v128 v130) := fun v128 v130 => decidable_of_iff' _ (Iff.of_eq (k5_chk170.eq_1 v128 v130))
theorem k5_idx170_inb : ∀ (v128 : IVec S16 32) (v130 : IVec S16 32) (k5_hw170 : k5_chk170 v128 v130), ∀ a x, ((![v128, v130] : Fin 2 → IVec S16 32) a x).toNat < S40x128.size a := fun v128 v130 k5_hw170 => k5_hw170

def k5_chk171 (v79 : IVec S16 32) (v132 : IVec S16 32) : Prop :=
  (∀ a x, ((![v79, v132] : Fin 2 → IVec S16 32) a x).toNat < S320x128.size a)
instance k5_chk171.dec : ∀ (v79 : IVec S16 32) (v132 : IVec S16 32), Decidable (k5_chk171 v79 v132) := fun v79 v132 => decidable_of_iff' _ (Iff.of_eq (k5_chk171.eq_1 v79 v132))
theorem k5_idx171_inb : ∀ (v79 : IVec S16 32) (v132 : IVec S16 32) (k5_hw171 : k5_chk171 v79 v132), ∀ a x, ((![v79, v132] : Fin 2 → IVec S16 32) a x).toNat < S320x128.size a := fun v79 v132 k5_hw171 => k5_hw171

def k5_chk172 (v137 : IVec S16 32) (v139 : IVec S16 32) : Prop :=
  (∀ a x, ((![v137, v139] : Fin 2 → IVec S16 32) a x).toNat < S40x128.size a)
instance k5_chk172.dec : ∀ (v137 : IVec S16 32) (v139 : IVec S16 32), Decidable (k5_chk172 v137 v139) := fun v137 v139 => decidable_of_iff' _ (Iff.of_eq (k5_chk172.eq_1 v137 v139))
theorem k5_idx172_inb : ∀ (v137 : IVec S16 32) (v139 : IVec S16 32) (k5_hw172 : k5_chk172 v137 v139), ∀ a x, ((![v137, v139] : Fin 2 → IVec S16 32) a x).toNat < S40x128.size a := fun v137 v139 k5_hw172 => k5_hw172

def k5_chk173 (v79 : IVec S16 32) (v141 : IVec S16 32) : Prop :=
  (∀ a x, ((![v79, v141] : Fin 2 → IVec S16 32) a x).toNat < S320x128.size a)
instance k5_chk173.dec : ∀ (v79 : IVec S16 32) (v141 : IVec S16 32), Decidable (k5_chk173 v79 v141) := fun v79 v141 => decidable_of_iff' _ (Iff.of_eq (k5_chk173.eq_1 v79 v141))
theorem k5_idx173_inb : ∀ (v79 : IVec S16 32) (v141 : IVec S16 32) (k5_hw173 : k5_chk173 v79 v141), ∀ a x, ((![v79, v141] : Fin 2 → IVec S16 32) a x).toNat < S320x128.size a := fun v79 v141 k5_hw173 => k5_hw173

def k5_chk174 (v146 : IVec S16 32) (v148 : IVec S16 32) : Prop :=
  (∀ a x, ((![v146, v148] : Fin 2 → IVec S16 32) a x).toNat < S40x128.size a)
instance k5_chk174.dec : ∀ (v146 : IVec S16 32) (v148 : IVec S16 32), Decidable (k5_chk174 v146 v148) := fun v146 v148 => decidable_of_iff' _ (Iff.of_eq (k5_chk174.eq_1 v146 v148))
theorem k5_idx174_inb : ∀ (v146 : IVec S16 32) (v148 : IVec S16 32) (k5_hw174 : k5_chk174 v146 v148), ∀ a x, ((![v146, v148] : Fin 2 → IVec S16 32) a x).toNat < S40x128.size a := fun v146 v148 k5_hw174 => k5_hw174

def k5_chk175 (v79 : IVec S16 32) (v150 : IVec S16 32) : Prop :=
  (∀ a x, ((![v79, v150] : Fin 2 → IVec S16 32) a x).toNat < S320x128.size a)
instance k5_chk175.dec : ∀ (v79 : IVec S16 32) (v150 : IVec S16 32), Decidable (k5_chk175 v79 v150) := fun v79 v150 => decidable_of_iff' _ (Iff.of_eq (k5_chk175.eq_1 v79 v150))
theorem k5_idx175_inb : ∀ (v79 : IVec S16 32) (v150 : IVec S16 32) (k5_hw175 : k5_chk175 v79 v150), ∀ a x, ((![v79, v150] : Fin 2 → IVec S16 32) a x).toNat < S320x128.size a := fun v79 v150 k5_hw175 => k5_hw175

def k5_chk176 (v155 : IVec S16 32) (v157 : IVec S16 32) : Prop :=
  (∀ a x, ((![v155, v157] : Fin 2 → IVec S16 32) a x).toNat < S40x128.size a)
instance k5_chk176.dec : ∀ (v155 : IVec S16 32) (v157 : IVec S16 32), Decidable (k5_chk176 v155 v157) := fun v155 v157 => decidable_of_iff' _ (Iff.of_eq (k5_chk176.eq_1 v155 v157))
theorem k5_idx176_inb : ∀ (v155 : IVec S16 32) (v157 : IVec S16 32) (k5_hw176 : k5_chk176 v155 v157), ∀ a x, ((![v155, v157] : Fin 2 → IVec S16 32) a x).toNat < S40x128.size a := fun v155 v157 k5_hw176 => k5_hw176

def k5_chk177 (v79 : IVec S16 32) (v159 : IVec S16 32) : Prop :=
  (∀ a x, ((![v79, v159] : Fin 2 → IVec S16 32) a x).toNat < S320x128.size a)
instance k5_chk177.dec : ∀ (v79 : IVec S16 32) (v159 : IVec S16 32), Decidable (k5_chk177 v79 v159) := fun v79 v159 => decidable_of_iff' _ (Iff.of_eq (k5_chk177.eq_1 v79 v159))
theorem k5_idx177_inb : ∀ (v79 : IVec S16 32) (v159 : IVec S16 32) (k5_hw177 : k5_chk177 v79 v159), ∀ a x, ((![v79, v159] : Fin 2 → IVec S16 32) a x).toNat < S320x128.size a := fun v79 v159 k5_hw177 => k5_hw177

def k5_chk178 (v164 : IVec S16 32) (v166 : IVec S16 32) : Prop :=
  (∀ a x, ((![v164, v166] : Fin 2 → IVec S16 32) a x).toNat < S40x128.size a)
instance k5_chk178.dec : ∀ (v164 : IVec S16 32) (v166 : IVec S16 32), Decidable (k5_chk178 v164 v166) := fun v164 v166 => decidable_of_iff' _ (Iff.of_eq (k5_chk178.eq_1 v164 v166))
theorem k5_idx178_inb : ∀ (v164 : IVec S16 32) (v166 : IVec S16 32) (k5_hw178 : k5_chk178 v164 v166), ∀ a x, ((![v164, v166] : Fin 2 → IVec S16 32) a x).toNat < S40x128.size a := fun v164 v166 k5_hw178 => k5_hw178

def k5_chk179 (v79 : IVec S16 32) (v168 : IVec S16 32) : Prop :=
  (∀ a x, ((![v79, v168] : Fin 2 → IVec S16 32) a x).toNat < S320x128.size a)
instance k5_chk179.dec : ∀ (v79 : IVec S16 32) (v168 : IVec S16 32), Decidable (k5_chk179 v79 v168) := fun v79 v168 => decidable_of_iff' _ (Iff.of_eq (k5_chk179.eq_1 v79 v168))
theorem k5_idx179_inb : ∀ (v79 : IVec S16 32) (v168 : IVec S16 32) (k5_hw179 : k5_chk179 v79 v168), ∀ a x, ((![v79, v168] : Fin 2 → IVec S16 32) a x).toNat < S320x128.size a := fun v79 v168 k5_hw179 => k5_hw179

def k5_chk180 (v173 : IVec S16 32) (v175 : IVec S16 32) : Prop :=
  (∀ a x, ((![v173, v175] : Fin 2 → IVec S16 32) a x).toNat < S40x128.size a)
instance k5_chk180.dec : ∀ (v173 : IVec S16 32) (v175 : IVec S16 32), Decidable (k5_chk180 v173 v175) := fun v173 v175 => decidable_of_iff' _ (Iff.of_eq (k5_chk180.eq_1 v173 v175))
theorem k5_idx180_inb : ∀ (v173 : IVec S16 32) (v175 : IVec S16 32) (k5_hw180 : k5_chk180 v173 v175), ∀ a x, ((![v173, v175] : Fin 2 → IVec S16 32) a x).toNat < S40x128.size a := fun v173 v175 k5_hw180 => k5_hw180

def k5_chk181 (v79 : IVec S16 32) (v177 : IVec S16 32) : Prop :=
  (∀ a x, ((![v79, v177] : Fin 2 → IVec S16 32) a x).toNat < S320x128.size a)
instance k5_chk181.dec : ∀ (v79 : IVec S16 32) (v177 : IVec S16 32), Decidable (k5_chk181 v79 v177) := fun v79 v177 => decidable_of_iff' _ (Iff.of_eq (k5_chk181.eq_1 v79 v177))
theorem k5_idx181_inb : ∀ (v79 : IVec S16 32) (v177 : IVec S16 32) (k5_hw181 : k5_chk181 v79 v177), ∀ a x, ((![v79, v177] : Fin 2 → IVec S16 32) a x).toNat < S320x128.size a := fun v79 v177 k5_hw181 => k5_hw181

def k5_chk182 (v182 : IVec S16 32) (v184 : IVec S16 32) : Prop :=
  (∀ a x, ((![v182, v184] : Fin 2 → IVec S16 32) a x).toNat < S40x128.size a)
instance k5_chk182.dec : ∀ (v182 : IVec S16 32) (v184 : IVec S16 32), Decidable (k5_chk182 v182 v184) := fun v182 v184 => decidable_of_iff' _ (Iff.of_eq (k5_chk182.eq_1 v182 v184))
theorem k5_idx182_inb : ∀ (v182 : IVec S16 32) (v184 : IVec S16 32) (k5_hw182 : k5_chk182 v182 v184), ∀ a x, ((![v182, v184] : Fin 2 → IVec S16 32) a x).toNat < S40x128.size a := fun v182 v184 k5_hw182 => k5_hw182

def k5_chk183 (v79 : IVec S16 32) (v186 : IVec S16 32) : Prop :=
  (∀ a x, ((![v79, v186] : Fin 2 → IVec S16 32) a x).toNat < S320x128.size a)
instance k5_chk183.dec : ∀ (v79 : IVec S16 32) (v186 : IVec S16 32), Decidable (k5_chk183 v79 v186) := fun v79 v186 => decidable_of_iff' _ (Iff.of_eq (k5_chk183.eq_1 v79 v186))
theorem k5_idx183_inb : ∀ (v79 : IVec S16 32) (v186 : IVec S16 32) (k5_hw183 : k5_chk183 v79 v186), ∀ a x, ((![v79, v186] : Fin 2 → IVec S16 32) a x).toNat < S320x128.size a := fun v79 v186 k5_hw183 => k5_hw183

def k5_chk184 (v191 : IVec S16 32) (v193 : IVec S16 32) : Prop :=
  (∀ a x, ((![v191, v193] : Fin 2 → IVec S16 32) a x).toNat < S40x128.size a)
instance k5_chk184.dec : ∀ (v191 : IVec S16 32) (v193 : IVec S16 32), Decidable (k5_chk184 v191 v193) := fun v191 v193 => decidable_of_iff' _ (Iff.of_eq (k5_chk184.eq_1 v191 v193))
theorem k5_idx184_inb : ∀ (v191 : IVec S16 32) (v193 : IVec S16 32) (k5_hw184 : k5_chk184 v191 v193), ∀ a x, ((![v191, v193] : Fin 2 → IVec S16 32) a x).toNat < S40x128.size a := fun v191 v193 k5_hw184 => k5_hw184

def k5_chk185 (v79 : IVec S16 32) (v195 : IVec S16 32) : Prop :=
  (∀ a x, ((![v79, v195] : Fin 2 → IVec S16 32) a x).toNat < S320x128.size a)
instance k5_chk185.dec : ∀ (v79 : IVec S16 32) (v195 : IVec S16 32), Decidable (k5_chk185 v79 v195) := fun v79 v195 => decidable_of_iff' _ (Iff.of_eq (k5_chk185.eq_1 v79 v195))
theorem k5_idx185_inb : ∀ (v79 : IVec S16 32) (v195 : IVec S16 32) (k5_hw185 : k5_chk185 v79 v195), ∀ a x, ((![v79, v195] : Fin 2 → IVec S16 32) a x).toNat < S320x128.size a := fun v79 v195 k5_hw185 => k5_hw185

def k5_chk186 (v200 : IVec S16 32) (v202 : IVec S16 32) : Prop :=
  (∀ a x, ((![v200, v202] : Fin 2 → IVec S16 32) a x).toNat < S40x128.size a)
instance k5_chk186.dec : ∀ (v200 : IVec S16 32) (v202 : IVec S16 32), Decidable (k5_chk186 v200 v202) := fun v200 v202 => decidable_of_iff' _ (Iff.of_eq (k5_chk186.eq_1 v200 v202))
theorem k5_idx186_inb : ∀ (v200 : IVec S16 32) (v202 : IVec S16 32) (k5_hw186 : k5_chk186 v200 v202), ∀ a x, ((![v200, v202] : Fin 2 → IVec S16 32) a x).toNat < S40x128.size a := fun v200 v202 k5_hw186 => k5_hw186

def k5_chk187 (v79 : IVec S16 32) (v204 : IVec S16 32) : Prop :=
  (∀ a x, ((![v79, v204] : Fin 2 → IVec S16 32) a x).toNat < S320x128.size a)
instance k5_chk187.dec : ∀ (v79 : IVec S16 32) (v204 : IVec S16 32), Decidable (k5_chk187 v79 v204) := fun v79 v204 => decidable_of_iff' _ (Iff.of_eq (k5_chk187.eq_1 v79 v204))
theorem k5_idx187_inb : ∀ (v79 : IVec S16 32) (v204 : IVec S16 32) (k5_hw187 : k5_chk187 v79 v204), ∀ a x, ((![v79, v204] : Fin 2 → IVec S16 32) a x).toNat < S320x128.size a := fun v79 v204 k5_hw187 => k5_hw187

def k5_chk188 (v209 : IVec S16 32) (v211 : IVec S16 32) : Prop :=
  (∀ a x, ((![v209, v211] : Fin 2 → IVec S16 32) a x).toNat < S40x128.size a)
instance k5_chk188.dec : ∀ (v209 : IVec S16 32) (v211 : IVec S16 32), Decidable (k5_chk188 v209 v211) := fun v209 v211 => decidable_of_iff' _ (Iff.of_eq (k5_chk188.eq_1 v209 v211))
theorem k5_idx188_inb : ∀ (v209 : IVec S16 32) (v211 : IVec S16 32) (k5_hw188 : k5_chk188 v209 v211), ∀ a x, ((![v209, v211] : Fin 2 → IVec S16 32) a x).toNat < S40x128.size a := fun v209 v211 k5_hw188 => k5_hw188

def k5_chk189 (v79 : IVec S16 32) (v213 : IVec S16 32) : Prop :=
  (∀ a x, ((![v79, v213] : Fin 2 → IVec S16 32) a x).toNat < S320x128.size a)
instance k5_chk189.dec : ∀ (v79 : IVec S16 32) (v213 : IVec S16 32), Decidable (k5_chk189 v79 v213) := fun v79 v213 => decidable_of_iff' _ (Iff.of_eq (k5_chk189.eq_1 v79 v213))
theorem k5_idx189_inb : ∀ (v79 : IVec S16 32) (v213 : IVec S16 32) (k5_hw189 : k5_chk189 v79 v213), ∀ a x, ((![v79, v213] : Fin 2 → IVec S16 32) a x).toNat < S320x128.size a := fun v79 v213 k5_hw189 => k5_hw189

def k5_chk190 (v218 : IVec S16 32) (v220 : IVec S16 32) : Prop :=
  (∀ a x, ((![v218, v220] : Fin 2 → IVec S16 32) a x).toNat < S40x128.size a)
instance k5_chk190.dec : ∀ (v218 : IVec S16 32) (v220 : IVec S16 32), Decidable (k5_chk190 v218 v220) := fun v218 v220 => decidable_of_iff' _ (Iff.of_eq (k5_chk190.eq_1 v218 v220))
theorem k5_idx190_inb : ∀ (v218 : IVec S16 32) (v220 : IVec S16 32) (k5_hw190 : k5_chk190 v218 v220), ∀ a x, ((![v218, v220] : Fin 2 → IVec S16 32) a x).toNat < S40x128.size a := fun v218 v220 k5_hw190 => k5_hw190

def k5_chk191 (v79 : IVec S16 32) (v222 : IVec S16 32) : Prop :=
  (∀ a x, ((![v79, v222] : Fin 2 → IVec S16 32) a x).toNat < S320x128.size a)
instance k5_chk191.dec : ∀ (v79 : IVec S16 32) (v222 : IVec S16 32), Decidable (k5_chk191 v79 v222) := fun v79 v222 => decidable_of_iff' _ (Iff.of_eq (k5_chk191.eq_1 v79 v222))
theorem k5_idx191_inb : ∀ (v79 : IVec S16 32) (v222 : IVec S16 32) (k5_hw191 : k5_chk191 v79 v222), ∀ a x, ((![v79, v222] : Fin 2 → IVec S16 32) a x).toNat < S320x128.size a := fun v79 v222 k5_hw191 => k5_hw191

def k5_chk192 (v227 : IVec S16 32) (v229 : IVec S16 32) : Prop :=
  (∀ a x, ((![v227, v229] : Fin 2 → IVec S16 32) a x).toNat < S40x128.size a)
instance k5_chk192.dec : ∀ (v227 : IVec S16 32) (v229 : IVec S16 32), Decidable (k5_chk192 v227 v229) := fun v227 v229 => decidable_of_iff' _ (Iff.of_eq (k5_chk192.eq_1 v227 v229))
theorem k5_idx192_inb : ∀ (v227 : IVec S16 32) (v229 : IVec S16 32) (k5_hw192 : k5_chk192 v227 v229), ∀ a x, ((![v227, v229] : Fin 2 → IVec S16 32) a x).toNat < S40x128.size a := fun v227 v229 k5_hw192 => k5_hw192
def k5_mult6 (i : grid5.Coords) (k5_t14 : Fin k5_t14_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_22 : BitVec 32 := 0#32
  let c1_i32_24 : BitVec 32 := 1#32
  let arg22 : BitVec 32 := Scf.iv c0_i32_22 c1_i32_24 k5_t14
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_66 : BitVec 32 := 320#32
  let v51 : BitVec 32 := Scalar.muli v48 c320_i32_66
  let v52 : BitVec 32 := Scalar.addi v2 v51
  let c16_i32_67 : BitVec 32 := 16#32
  let v53 : BitVec 32 := Scalar.muli v52 c16_i32_67
  let c0_i32_69 : BitVec 32 := 0#32
  let v55 : BitVec 1 := Scalar.cmpi .sgt v53 c0_i32_69
  let v56 : BitVec 32 := Scalar.extui v55
  let c0_i32_70 : BitVec 32 := 0#32
  let v57 : BitVec 1 := Scalar.cmpi .slt v53 c0_i32_70
  let v58 : BitVec 32 := Scalar.extui v57
  let v59 : BitVec 32 := Scalar.subi v56 v58
  let c128_i32_68 : BitVec 32 := 128#32
  let c0_i32_71 : BitVec 32 := 0#32
  let v60 : BitVec 1 := Scalar.cmpi .sgt c128_i32_68 c0_i32_71
  let v61 : BitVec 32 := Scalar.extui v60
  let c0_i32_72 : BitVec 32 := 0#32
  let v62 : BitVec 1 := Scalar.cmpi .slt c128_i32_68 c0_i32_72
  let v63 : BitVec 32 := Scalar.extui v62
  let v64 : BitVec 32 := Scalar.subi v61 v63
  let v65 : BitVec 1 := Scalar.cmpi .ne v59 v64
  let v66 : BitVec 32 := Scalar.remsi v53 c128_i32_68
  let c0_i32_73 : BitVec 32 := 0#32
  let v67 : BitVec 1 := Scalar.cmpi .ne v66 c0_i32_73
  let v68 : BitVec 1 := Scalar.andi v65 v67
  let v54 : BitVec 32 := Scalar.divsi v53 c128_i32_68
  let c1_i32_74 : BitVec 32 := 1#32
  let v69 : BitVec 32 := Scalar.subi v54 c1_i32_74
  let v70 : BitVec 32 := Scalar.select v68 v69 v54
  v70
def k5_off31 (i : grid5.Coords) (k5_t14 : Fin k5_t14_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_22 : BitVec 32 := 0#32
  let c1_i32_24 : BitVec 32 := 1#32
  let arg22 : BitVec 32 := Scf.iv c0_i32_22 c1_i32_24 k5_t14
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_66 : BitVec 32 := 320#32
  let v51 : BitVec 32 := Scalar.muli v48 c320_i32_66
  let v52 : BitVec 32 := Scalar.addi v2 v51
  let c16_i32_67 : BitVec 32 := 16#32
  let v53 : BitVec 32 := Scalar.muli v52 c16_i32_67
  let c0_i32_69 : BitVec 32 := 0#32
  let v55 : BitVec 1 := Scalar.cmpi .sgt v53 c0_i32_69
  let v56 : BitVec 32 := Scalar.extui v55
  let c0_i32_70 : BitVec 32 := 0#32
  let v57 : BitVec 1 := Scalar.cmpi .slt v53 c0_i32_70
  let v58 : BitVec 32 := Scalar.extui v57
  let v59 : BitVec 32 := Scalar.subi v56 v58
  let c128_i32_68 : BitVec 32 := 128#32
  let c0_i32_71 : BitVec 32 := 0#32
  let v60 : BitVec 1 := Scalar.cmpi .sgt c128_i32_68 c0_i32_71
  let v61 : BitVec 32 := Scalar.extui v60
  let c0_i32_72 : BitVec 32 := 0#32
  let v62 : BitVec 1 := Scalar.cmpi .slt c128_i32_68 c0_i32_72
  let v63 : BitVec 32 := Scalar.extui v62
  let v64 : BitVec 32 := Scalar.subi v61 v63
  let v65 : BitVec 1 := Scalar.cmpi .ne v59 v64
  let v66 : BitVec 32 := Scalar.remsi v53 c128_i32_68
  let c0_i32_73 : BitVec 32 := 0#32
  let v67 : BitVec 1 := Scalar.cmpi .ne v66 c0_i32_73
  let v68 : BitVec 1 := Scalar.andi v65 v67
  let v54 : BitVec 32 := Scalar.divsi v53 c128_i32_68
  let c1_i32_74 : BitVec 32 := 1#32
  let v69 : BitVec 32 := Scalar.subi v54 c1_i32_74
  let v70 : BitVec 32 := Scalar.select v68 v69 v54
  let v71 : BitVec 32 := v70
  let c0_i32_75_r8 : BitVec 32 := 0#32
  ![v71.toNat, 0]
@[reducible] def k5_t19_loop : Scf.Loop 32 :=
  let c0_i32_26 : BitVec 32 := 0#32
  let c20_i32_27 : BitVec 32 := 20#32
  let v13 : BitVec 32 := Scalar.addi c0_i32_26 c20_i32_27
  let c1_i32_28 : BitVec 32 := 1#32
  ⟨c0_i32_26, v13, c1_i32_28⟩
def k5_off32 (k5_t19 : Fin k5_t19_loop.trips) : Fin 1 → Nat :=
  let c0_i32_37 : BitVec 32 := 0#32
  let c0_i32_36 : BitVec 32 := 0#32
  let c0_i32_26 : BitVec 32 := 0#32
  let c1_i32_28 : BitVec 32 := 1#32
  let arg22 : BitVec 32 := Scf.iv c0_i32_26 c1_i32_28 k5_t19
  let c16_i32 : BitVec 32 := 16#32
  let v16 : BitVec 32 := Scalar.muli arg22 c16_i32
  let v17 : BitVec 32 := Scalar.addi c0_i32_36 v16
  let v18 : BitVec 32 := Scalar.addi c0_i32_37 v17
  let v19 : Index := Scalar.indexCast v18
  ![v19.toNat]
def k5_off33 (k5_t19 : Fin k5_t19_loop.trips) : Fin 1 → Nat :=
  let c0_i32_36 : BitVec 32 := 0#32
  let c0_i32_26 : BitVec 32 := 0#32
  let c1_i32_28 : BitVec 32 := 1#32
  let arg22 : BitVec 32 := Scf.iv c0_i32_26 c1_i32_28 k5_t19
  let c16_i32 : BitVec 32 := 16#32
  let v16 : BitVec 32 := Scalar.muli arg22 c16_i32
  let v17 : BitVec 32 := Scalar.addi c0_i32_36 v16
  let v23 : Index := Scalar.indexCast v17
  ![v23.toNat]
@[reducible] def k5_t20_loop : Scf.Loop 32 :=
  let c0_i32_32 : BitVec 32 := 0#32
  let c40_i32_33 : BitVec 32 := 40#32
  let v15 : BitVec 32 := Scalar.addi c0_i32_32 c40_i32_33
  let c1_i32_34 : BitVec 32 := 1#32
  ⟨c0_i32_32, v15, c1_i32_34⟩
@[reducible] def k5_t21_loop : Scf.Loop 32 :=
  let c0_i32_39 : BitVec 32 := 0#32
  let c20_i32_40 : BitVec 32 := 20#32
  let v19 : BitVec 32 := Scalar.addi c0_i32_39 c20_i32_40
  let c1_i32_41 : BitVec 32 := 1#32
  ⟨c0_i32_39, v19, c1_i32_41⟩
def k5_off34 (k5_t20 : Fin k5_t20_loop.trips) (k5_t21 : Fin k5_t21_loop.trips) : Fin 1 → Nat :=
  let c0_i32_37 : BitVec 32 := 0#32
  let c0_i32_32 : BitVec 32 := 0#32
  let c1_i32_34 : BitVec 32 := 1#32
  let arg22 : BitVec 32 := Scf.iv c0_i32_32 c1_i32_34 k5_t20
  let c2_i32_36 : BitVec 32 := 2#32
  let v16 : BitVec 32 := Scalar.muli arg22 c2_i32_36
  let v17 : BitVec 32 := Scalar.addi c0_i32_37 v16
  let c1_i32_38 : BitVec 32 := 1#32
  let v18 : BitVec 32 := Scalar.addi v17 c1_i32_38
  let c320_i32_77 : BitVec 32 := 320#32
  let v74 : BitVec 32 := Scalar.muli v18 c320_i32_77
  let c0_i32_76 : BitVec 32 := 0#32
  let c0_i32_39 : BitVec 32 := 0#32
  let c1_i32_41 : BitVec 32 := 1#32
  let arg23 : BitVec 32 := Scf.iv c0_i32_39 c1_i32_41 k5_t21
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]
def k5_off35 (k5_t21 : Fin k5_t21_loop.trips) : Fin 1 → Nat :=
  let c0_i32_76 : BitVec 32 := 0#32
  let c0_i32_39 : BitVec 32 := 0#32
  let c1_i32_41 : BitVec 32 := 1#32
  let arg23 : BitVec 32 := Scf.iv c0_i32_39 c1_i32_41 k5_t21
  let c16_i32_75 : BitVec 32 := 16#32
  let v72 : BitVec 32 := Scalar.muli arg23 c16_i32_75
  let v73 : BitVec 32 := Scalar.addi c0_i32_76 v72
  let v80 : Index := Scalar.indexCast v73
  ![v80.toNat]
@[reducible] def k5_t22_loop : Scf.Loop 32 :=
  let c0_i32_47 : BitVec 32 := 0#32
  let c20_i32_48 : BitVec 32 := 20#32
  let v22 : BitVec 32 := Scalar.addi c0_i32_47 c20_i32_48
  let c1_i32_49 : BitVec 32 := 1#32
  ⟨c0_i32_47, v22, c1_i32_49⟩
def k5_off36 (k5_t20 : Fin k5_t20_loop.trips) (k5_t22 : Fin k5_t22_loop.trips) : Fin 1 → Nat :=
  let c0_i32_37 : BitVec 32 := 0#32
  let c0_i32_32 : BitVec 32 := 0#32
  let c1_i32_34 : BitVec 32 := 1#32
  let arg22 : BitVec 32 := Scf.iv c0_i32_32 c1_i32_34 k5_t20
  let c2_i32_36 : BitVec 32 := 2#32
  let v16 : BitVec 32 := Scalar.muli arg22 c2_i32_36
  let v17 : BitVec 32 := Scalar.addi c0_i32_37 v16
  let c320_i32_77 : BitVec 32 := 320#32
  let v74 : BitVec 32 := Scalar.muli v17 c320_i32_77
  let c0_i32_76 : BitVec 32 := 0#32
  let c0_i32_47 : BitVec 32 := 0#32
  let c1_i32_49 : BitVec 32 := 1#32
  let arg23 : BitVec 32 := Scf.iv c0_i32_47 c1_i32_49 k5_t22
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]

def k5_chk193 (v79 : IVec S16 32) (v87 : IVec S16 32) : Prop :=
  (∀ a x, ((![v79, v87] : Fin 2 → IVec S16 32) a x).toNat < S320x128.size a)
instance k5_chk193.dec : ∀ (v79 : IVec S16 32) (v87 : IVec S16 32), Decidable (k5_chk193 v79 v87) := fun v79 v87 => decidable_of_iff' _ (Iff.of_eq (k5_chk193.eq_1 v79 v87))
theorem k5_idx193_inb : ∀ (v79 : IVec S16 32) (v87 : IVec S16 32) (k5_hw193 : k5_chk193 v79 v87), ∀ a x, ((![v79, v87] : Fin 2 → IVec S16 32) a x).toNat < S320x128.size a := fun v79 v87 k5_hw193 => k5_hw193

def k5_chk194 (v92 : IVec S16 32) (v94 : IVec S16 32) : Prop :=
  (∀ a x, ((![v92, v94] : Fin 2 → IVec S16 32) a x).toNat < S40x128.size a)
instance k5_chk194.dec : ∀ (v92 : IVec S16 32) (v94 : IVec S16 32), Decidable (k5_chk194 v92 v94) := fun v92 v94 => decidable_of_iff' _ (Iff.of_eq (k5_chk194.eq_1 v92 v94))
theorem k5_idx194_inb : ∀ (v92 : IVec S16 32) (v94 : IVec S16 32) (k5_hw194 : k5_chk194 v92 v94), ∀ a x, ((![v92, v94] : Fin 2 → IVec S16 32) a x).toNat < S40x128.size a := fun v92 v94 k5_hw194 => k5_hw194

def k5_chk195 (v79 : IVec S16 32) (v96 : IVec S16 32) : Prop :=
  (∀ a x, ((![v79, v96] : Fin 2 → IVec S16 32) a x).toNat < S320x128.size a)
instance k5_chk195.dec : ∀ (v79 : IVec S16 32) (v96 : IVec S16 32), Decidable (k5_chk195 v79 v96) := fun v79 v96 => decidable_of_iff' _ (Iff.of_eq (k5_chk195.eq_1 v79 v96))
theorem k5_idx195_inb : ∀ (v79 : IVec S16 32) (v96 : IVec S16 32) (k5_hw195 : k5_chk195 v79 v96), ∀ a x, ((![v79, v96] : Fin 2 → IVec S16 32) a x).toNat < S320x128.size a := fun v79 v96 k5_hw195 => k5_hw195

def k5_chk196 (v101 : IVec S16 32) (v103 : IVec S16 32) : Prop :=
  (∀ a x, ((![v101, v103] : Fin 2 → IVec S16 32) a x).toNat < S40x128.size a)
instance k5_chk196.dec : ∀ (v101 : IVec S16 32) (v103 : IVec S16 32), Decidable (k5_chk196 v101 v103) := fun v101 v103 => decidable_of_iff' _ (Iff.of_eq (k5_chk196.eq_1 v101 v103))
theorem k5_idx196_inb : ∀ (v101 : IVec S16 32) (v103 : IVec S16 32) (k5_hw196 : k5_chk196 v101 v103), ∀ a x, ((![v101, v103] : Fin 2 → IVec S16 32) a x).toNat < S40x128.size a := fun v101 v103 k5_hw196 => k5_hw196

def k5_chk197 (v79 : IVec S16 32) (v105 : IVec S16 32) : Prop :=
  (∀ a x, ((![v79, v105] : Fin 2 → IVec S16 32) a x).toNat < S320x128.size a)
instance k5_chk197.dec : ∀ (v79 : IVec S16 32) (v105 : IVec S16 32), Decidable (k5_chk197 v79 v105) := fun v79 v105 => decidable_of_iff' _ (Iff.of_eq (k5_chk197.eq_1 v79 v105))
theorem k5_idx197_inb : ∀ (v79 : IVec S16 32) (v105 : IVec S16 32) (k5_hw197 : k5_chk197 v79 v105), ∀ a x, ((![v79, v105] : Fin 2 → IVec S16 32) a x).toNat < S320x128.size a := fun v79 v105 k5_hw197 => k5_hw197

def k5_chk198 (v110 : IVec S16 32) (v112 : IVec S16 32) : Prop :=
  (∀ a x, ((![v110, v112] : Fin 2 → IVec S16 32) a x).toNat < S40x128.size a)
instance k5_chk198.dec : ∀ (v110 : IVec S16 32) (v112 : IVec S16 32), Decidable (k5_chk198 v110 v112) := fun v110 v112 => decidable_of_iff' _ (Iff.of_eq (k5_chk198.eq_1 v110 v112))
theorem k5_idx198_inb : ∀ (v110 : IVec S16 32) (v112 : IVec S16 32) (k5_hw198 : k5_chk198 v110 v112), ∀ a x, ((![v110, v112] : Fin 2 → IVec S16 32) a x).toNat < S40x128.size a := fun v110 v112 k5_hw198 => k5_hw198

def k5_chk199 (v79 : IVec S16 32) (v114 : IVec S16 32) : Prop :=
  (∀ a x, ((![v79, v114] : Fin 2 → IVec S16 32) a x).toNat < S320x128.size a)
instance k5_chk199.dec : ∀ (v79 : IVec S16 32) (v114 : IVec S16 32), Decidable (k5_chk199 v79 v114) := fun v79 v114 => decidable_of_iff' _ (Iff.of_eq (k5_chk199.eq_1 v79 v114))
theorem k5_idx199_inb : ∀ (v79 : IVec S16 32) (v114 : IVec S16 32) (k5_hw199 : k5_chk199 v79 v114), ∀ a x, ((![v79, v114] : Fin 2 → IVec S16 32) a x).toNat < S320x128.size a := fun v79 v114 k5_hw199 => k5_hw199

def k5_chk200 (v119 : IVec S16 32) (v121 : IVec S16 32) : Prop :=
  (∀ a x, ((![v119, v121] : Fin 2 → IVec S16 32) a x).toNat < S40x128.size a)
instance k5_chk200.dec : ∀ (v119 : IVec S16 32) (v121 : IVec S16 32), Decidable (k5_chk200 v119 v121) := fun v119 v121 => decidable_of_iff' _ (Iff.of_eq (k5_chk200.eq_1 v119 v121))
theorem k5_idx200_inb : ∀ (v119 : IVec S16 32) (v121 : IVec S16 32) (k5_hw200 : k5_chk200 v119 v121), ∀ a x, ((![v119, v121] : Fin 2 → IVec S16 32) a x).toNat < S40x128.size a := fun v119 v121 k5_hw200 => k5_hw200

def k5_chk201 (v79 : IVec S16 32) (v123 : IVec S16 32) : Prop :=
  (∀ a x, ((![v79, v123] : Fin 2 → IVec S16 32) a x).toNat < S320x128.size a)
instance k5_chk201.dec : ∀ (v79 : IVec S16 32) (v123 : IVec S16 32), Decidable (k5_chk201 v79 v123) := fun v79 v123 => decidable_of_iff' _ (Iff.of_eq (k5_chk201.eq_1 v79 v123))
theorem k5_idx201_inb : ∀ (v79 : IVec S16 32) (v123 : IVec S16 32) (k5_hw201 : k5_chk201 v79 v123), ∀ a x, ((![v79, v123] : Fin 2 → IVec S16 32) a x).toNat < S320x128.size a := fun v79 v123 k5_hw201 => k5_hw201

def k5_chk202 (v128 : IVec S16 32) (v130 : IVec S16 32) : Prop :=
  (∀ a x, ((![v128, v130] : Fin 2 → IVec S16 32) a x).toNat < S40x128.size a)
instance k5_chk202.dec : ∀ (v128 : IVec S16 32) (v130 : IVec S16 32), Decidable (k5_chk202 v128 v130) := fun v128 v130 => decidable_of_iff' _ (Iff.of_eq (k5_chk202.eq_1 v128 v130))
theorem k5_idx202_inb : ∀ (v128 : IVec S16 32) (v130 : IVec S16 32) (k5_hw202 : k5_chk202 v128 v130), ∀ a x, ((![v128, v130] : Fin 2 → IVec S16 32) a x).toNat < S40x128.size a := fun v128 v130 k5_hw202 => k5_hw202

def k5_chk203 (v79 : IVec S16 32) (v132 : IVec S16 32) : Prop :=
  (∀ a x, ((![v79, v132] : Fin 2 → IVec S16 32) a x).toNat < S320x128.size a)
instance k5_chk203.dec : ∀ (v79 : IVec S16 32) (v132 : IVec S16 32), Decidable (k5_chk203 v79 v132) := fun v79 v132 => decidable_of_iff' _ (Iff.of_eq (k5_chk203.eq_1 v79 v132))
theorem k5_idx203_inb : ∀ (v79 : IVec S16 32) (v132 : IVec S16 32) (k5_hw203 : k5_chk203 v79 v132), ∀ a x, ((![v79, v132] : Fin 2 → IVec S16 32) a x).toNat < S320x128.size a := fun v79 v132 k5_hw203 => k5_hw203

def k5_chk204 (v137 : IVec S16 32) (v139 : IVec S16 32) : Prop :=
  (∀ a x, ((![v137, v139] : Fin 2 → IVec S16 32) a x).toNat < S40x128.size a)
instance k5_chk204.dec : ∀ (v137 : IVec S16 32) (v139 : IVec S16 32), Decidable (k5_chk204 v137 v139) := fun v137 v139 => decidable_of_iff' _ (Iff.of_eq (k5_chk204.eq_1 v137 v139))
theorem k5_idx204_inb : ∀ (v137 : IVec S16 32) (v139 : IVec S16 32) (k5_hw204 : k5_chk204 v137 v139), ∀ a x, ((![v137, v139] : Fin 2 → IVec S16 32) a x).toNat < S40x128.size a := fun v137 v139 k5_hw204 => k5_hw204

def k5_chk205 (v79 : IVec S16 32) (v141 : IVec S16 32) : Prop :=
  (∀ a x, ((![v79, v141] : Fin 2 → IVec S16 32) a x).toNat < S320x128.size a)
instance k5_chk205.dec : ∀ (v79 : IVec S16 32) (v141 : IVec S16 32), Decidable (k5_chk205 v79 v141) := fun v79 v141 => decidable_of_iff' _ (Iff.of_eq (k5_chk205.eq_1 v79 v141))
theorem k5_idx205_inb : ∀ (v79 : IVec S16 32) (v141 : IVec S16 32) (k5_hw205 : k5_chk205 v79 v141), ∀ a x, ((![v79, v141] : Fin 2 → IVec S16 32) a x).toNat < S320x128.size a := fun v79 v141 k5_hw205 => k5_hw205

def k5_chk206 (v146 : IVec S16 32) (v148 : IVec S16 32) : Prop :=
  (∀ a x, ((![v146, v148] : Fin 2 → IVec S16 32) a x).toNat < S40x128.size a)
instance k5_chk206.dec : ∀ (v146 : IVec S16 32) (v148 : IVec S16 32), Decidable (k5_chk206 v146 v148) := fun v146 v148 => decidable_of_iff' _ (Iff.of_eq (k5_chk206.eq_1 v146 v148))
theorem k5_idx206_inb : ∀ (v146 : IVec S16 32) (v148 : IVec S16 32) (k5_hw206 : k5_chk206 v146 v148), ∀ a x, ((![v146, v148] : Fin 2 → IVec S16 32) a x).toNat < S40x128.size a := fun v146 v148 k5_hw206 => k5_hw206

def k5_chk207 (v79 : IVec S16 32) (v150 : IVec S16 32) : Prop :=
  (∀ a x, ((![v79, v150] : Fin 2 → IVec S16 32) a x).toNat < S320x128.size a)
instance k5_chk207.dec : ∀ (v79 : IVec S16 32) (v150 : IVec S16 32), Decidable (k5_chk207 v79 v150) := fun v79 v150 => decidable_of_iff' _ (Iff.of_eq (k5_chk207.eq_1 v79 v150))
theorem k5_idx207_inb : ∀ (v79 : IVec S16 32) (v150 : IVec S16 32) (k5_hw207 : k5_chk207 v79 v150), ∀ a x, ((![v79, v150] : Fin 2 → IVec S16 32) a x).toNat < S320x128.size a := fun v79 v150 k5_hw207 => k5_hw207

def k5_chk208 (v155 : IVec S16 32) (v157 : IVec S16 32) : Prop :=
  (∀ a x, ((![v155, v157] : Fin 2 → IVec S16 32) a x).toNat < S40x128.size a)
instance k5_chk208.dec : ∀ (v155 : IVec S16 32) (v157 : IVec S16 32), Decidable (k5_chk208 v155 v157) := fun v155 v157 => decidable_of_iff' _ (Iff.of_eq (k5_chk208.eq_1 v155 v157))
theorem k5_idx208_inb : ∀ (v155 : IVec S16 32) (v157 : IVec S16 32) (k5_hw208 : k5_chk208 v155 v157), ∀ a x, ((![v155, v157] : Fin 2 → IVec S16 32) a x).toNat < S40x128.size a := fun v155 v157 k5_hw208 => k5_hw208

def k5_chk209 (v79 : IVec S16 32) (v159 : IVec S16 32) : Prop :=
  (∀ a x, ((![v79, v159] : Fin 2 → IVec S16 32) a x).toNat < S320x128.size a)
instance k5_chk209.dec : ∀ (v79 : IVec S16 32) (v159 : IVec S16 32), Decidable (k5_chk209 v79 v159) := fun v79 v159 => decidable_of_iff' _ (Iff.of_eq (k5_chk209.eq_1 v79 v159))
theorem k5_idx209_inb : ∀ (v79 : IVec S16 32) (v159 : IVec S16 32) (k5_hw209 : k5_chk209 v79 v159), ∀ a x, ((![v79, v159] : Fin 2 → IVec S16 32) a x).toNat < S320x128.size a := fun v79 v159 k5_hw209 => k5_hw209

def k5_chk210 (v164 : IVec S16 32) (v166 : IVec S16 32) : Prop :=
  (∀ a x, ((![v164, v166] : Fin 2 → IVec S16 32) a x).toNat < S40x128.size a)
instance k5_chk210.dec : ∀ (v164 : IVec S16 32) (v166 : IVec S16 32), Decidable (k5_chk210 v164 v166) := fun v164 v166 => decidable_of_iff' _ (Iff.of_eq (k5_chk210.eq_1 v164 v166))
theorem k5_idx210_inb : ∀ (v164 : IVec S16 32) (v166 : IVec S16 32) (k5_hw210 : k5_chk210 v164 v166), ∀ a x, ((![v164, v166] : Fin 2 → IVec S16 32) a x).toNat < S40x128.size a := fun v164 v166 k5_hw210 => k5_hw210

def k5_chk211 (v79 : IVec S16 32) (v168 : IVec S16 32) : Prop :=
  (∀ a x, ((![v79, v168] : Fin 2 → IVec S16 32) a x).toNat < S320x128.size a)
instance k5_chk211.dec : ∀ (v79 : IVec S16 32) (v168 : IVec S16 32), Decidable (k5_chk211 v79 v168) := fun v79 v168 => decidable_of_iff' _ (Iff.of_eq (k5_chk211.eq_1 v79 v168))
theorem k5_idx211_inb : ∀ (v79 : IVec S16 32) (v168 : IVec S16 32) (k5_hw211 : k5_chk211 v79 v168), ∀ a x, ((![v79, v168] : Fin 2 → IVec S16 32) a x).toNat < S320x128.size a := fun v79 v168 k5_hw211 => k5_hw211

def k5_chk212 (v173 : IVec S16 32) (v175 : IVec S16 32) : Prop :=
  (∀ a x, ((![v173, v175] : Fin 2 → IVec S16 32) a x).toNat < S40x128.size a)
instance k5_chk212.dec : ∀ (v173 : IVec S16 32) (v175 : IVec S16 32), Decidable (k5_chk212 v173 v175) := fun v173 v175 => decidable_of_iff' _ (Iff.of_eq (k5_chk212.eq_1 v173 v175))
theorem k5_idx212_inb : ∀ (v173 : IVec S16 32) (v175 : IVec S16 32) (k5_hw212 : k5_chk212 v173 v175), ∀ a x, ((![v173, v175] : Fin 2 → IVec S16 32) a x).toNat < S40x128.size a := fun v173 v175 k5_hw212 => k5_hw212

def k5_chk213 (v79 : IVec S16 32) (v177 : IVec S16 32) : Prop :=
  (∀ a x, ((![v79, v177] : Fin 2 → IVec S16 32) a x).toNat < S320x128.size a)
instance k5_chk213.dec : ∀ (v79 : IVec S16 32) (v177 : IVec S16 32), Decidable (k5_chk213 v79 v177) := fun v79 v177 => decidable_of_iff' _ (Iff.of_eq (k5_chk213.eq_1 v79 v177))
theorem k5_idx213_inb : ∀ (v79 : IVec S16 32) (v177 : IVec S16 32) (k5_hw213 : k5_chk213 v79 v177), ∀ a x, ((![v79, v177] : Fin 2 → IVec S16 32) a x).toNat < S320x128.size a := fun v79 v177 k5_hw213 => k5_hw213

def k5_chk214 (v182 : IVec S16 32) (v184 : IVec S16 32) : Prop :=
  (∀ a x, ((![v182, v184] : Fin 2 → IVec S16 32) a x).toNat < S40x128.size a)
instance k5_chk214.dec : ∀ (v182 : IVec S16 32) (v184 : IVec S16 32), Decidable (k5_chk214 v182 v184) := fun v182 v184 => decidable_of_iff' _ (Iff.of_eq (k5_chk214.eq_1 v182 v184))
theorem k5_idx214_inb : ∀ (v182 : IVec S16 32) (v184 : IVec S16 32) (k5_hw214 : k5_chk214 v182 v184), ∀ a x, ((![v182, v184] : Fin 2 → IVec S16 32) a x).toNat < S40x128.size a := fun v182 v184 k5_hw214 => k5_hw214

def k5_chk215 (v79 : IVec S16 32) (v186 : IVec S16 32) : Prop :=
  (∀ a x, ((![v79, v186] : Fin 2 → IVec S16 32) a x).toNat < S320x128.size a)
instance k5_chk215.dec : ∀ (v79 : IVec S16 32) (v186 : IVec S16 32), Decidable (k5_chk215 v79 v186) := fun v79 v186 => decidable_of_iff' _ (Iff.of_eq (k5_chk215.eq_1 v79 v186))
theorem k5_idx215_inb : ∀ (v79 : IVec S16 32) (v186 : IVec S16 32) (k5_hw215 : k5_chk215 v79 v186), ∀ a x, ((![v79, v186] : Fin 2 → IVec S16 32) a x).toNat < S320x128.size a := fun v79 v186 k5_hw215 => k5_hw215

def k5_chk216 (v191 : IVec S16 32) (v193 : IVec S16 32) : Prop :=
  (∀ a x, ((![v191, v193] : Fin 2 → IVec S16 32) a x).toNat < S40x128.size a)
instance k5_chk216.dec : ∀ (v191 : IVec S16 32) (v193 : IVec S16 32), Decidable (k5_chk216 v191 v193) := fun v191 v193 => decidable_of_iff' _ (Iff.of_eq (k5_chk216.eq_1 v191 v193))
theorem k5_idx216_inb : ∀ (v191 : IVec S16 32) (v193 : IVec S16 32) (k5_hw216 : k5_chk216 v191 v193), ∀ a x, ((![v191, v193] : Fin 2 → IVec S16 32) a x).toNat < S40x128.size a := fun v191 v193 k5_hw216 => k5_hw216

def k5_chk217 (v79 : IVec S16 32) (v195 : IVec S16 32) : Prop :=
  (∀ a x, ((![v79, v195] : Fin 2 → IVec S16 32) a x).toNat < S320x128.size a)
instance k5_chk217.dec : ∀ (v79 : IVec S16 32) (v195 : IVec S16 32), Decidable (k5_chk217 v79 v195) := fun v79 v195 => decidable_of_iff' _ (Iff.of_eq (k5_chk217.eq_1 v79 v195))
theorem k5_idx217_inb : ∀ (v79 : IVec S16 32) (v195 : IVec S16 32) (k5_hw217 : k5_chk217 v79 v195), ∀ a x, ((![v79, v195] : Fin 2 → IVec S16 32) a x).toNat < S320x128.size a := fun v79 v195 k5_hw217 => k5_hw217

def k5_chk218 (v200 : IVec S16 32) (v202 : IVec S16 32) : Prop :=
  (∀ a x, ((![v200, v202] : Fin 2 → IVec S16 32) a x).toNat < S40x128.size a)
instance k5_chk218.dec : ∀ (v200 : IVec S16 32) (v202 : IVec S16 32), Decidable (k5_chk218 v200 v202) := fun v200 v202 => decidable_of_iff' _ (Iff.of_eq (k5_chk218.eq_1 v200 v202))
theorem k5_idx218_inb : ∀ (v200 : IVec S16 32) (v202 : IVec S16 32) (k5_hw218 : k5_chk218 v200 v202), ∀ a x, ((![v200, v202] : Fin 2 → IVec S16 32) a x).toNat < S40x128.size a := fun v200 v202 k5_hw218 => k5_hw218

def k5_chk219 (v79 : IVec S16 32) (v204 : IVec S16 32) : Prop :=
  (∀ a x, ((![v79, v204] : Fin 2 → IVec S16 32) a x).toNat < S320x128.size a)
instance k5_chk219.dec : ∀ (v79 : IVec S16 32) (v204 : IVec S16 32), Decidable (k5_chk219 v79 v204) := fun v79 v204 => decidable_of_iff' _ (Iff.of_eq (k5_chk219.eq_1 v79 v204))
theorem k5_idx219_inb : ∀ (v79 : IVec S16 32) (v204 : IVec S16 32) (k5_hw219 : k5_chk219 v79 v204), ∀ a x, ((![v79, v204] : Fin 2 → IVec S16 32) a x).toNat < S320x128.size a := fun v79 v204 k5_hw219 => k5_hw219

def k5_chk220 (v209 : IVec S16 32) (v211 : IVec S16 32) : Prop :=
  (∀ a x, ((![v209, v211] : Fin 2 → IVec S16 32) a x).toNat < S40x128.size a)
instance k5_chk220.dec : ∀ (v209 : IVec S16 32) (v211 : IVec S16 32), Decidable (k5_chk220 v209 v211) := fun v209 v211 => decidable_of_iff' _ (Iff.of_eq (k5_chk220.eq_1 v209 v211))
theorem k5_idx220_inb : ∀ (v209 : IVec S16 32) (v211 : IVec S16 32) (k5_hw220 : k5_chk220 v209 v211), ∀ a x, ((![v209, v211] : Fin 2 → IVec S16 32) a x).toNat < S40x128.size a := fun v209 v211 k5_hw220 => k5_hw220

def k5_chk221 (v79 : IVec S16 32) (v213 : IVec S16 32) : Prop :=
  (∀ a x, ((![v79, v213] : Fin 2 → IVec S16 32) a x).toNat < S320x128.size a)
instance k5_chk221.dec : ∀ (v79 : IVec S16 32) (v213 : IVec S16 32), Decidable (k5_chk221 v79 v213) := fun v79 v213 => decidable_of_iff' _ (Iff.of_eq (k5_chk221.eq_1 v79 v213))
theorem k5_idx221_inb : ∀ (v79 : IVec S16 32) (v213 : IVec S16 32) (k5_hw221 : k5_chk221 v79 v213), ∀ a x, ((![v79, v213] : Fin 2 → IVec S16 32) a x).toNat < S320x128.size a := fun v79 v213 k5_hw221 => k5_hw221

def k5_chk222 (v218 : IVec S16 32) (v220 : IVec S16 32) : Prop :=
  (∀ a x, ((![v218, v220] : Fin 2 → IVec S16 32) a x).toNat < S40x128.size a)
instance k5_chk222.dec : ∀ (v218 : IVec S16 32) (v220 : IVec S16 32), Decidable (k5_chk222 v218 v220) := fun v218 v220 => decidable_of_iff' _ (Iff.of_eq (k5_chk222.eq_1 v218 v220))
theorem k5_idx222_inb : ∀ (v218 : IVec S16 32) (v220 : IVec S16 32) (k5_hw222 : k5_chk222 v218 v220), ∀ a x, ((![v218, v220] : Fin 2 → IVec S16 32) a x).toNat < S40x128.size a := fun v218 v220 k5_hw222 => k5_hw222

def k5_chk223 (v79 : IVec S16 32) (v222 : IVec S16 32) : Prop :=
  (∀ a x, ((![v79, v222] : Fin 2 → IVec S16 32) a x).toNat < S320x128.size a)
instance k5_chk223.dec : ∀ (v79 : IVec S16 32) (v222 : IVec S16 32), Decidable (k5_chk223 v79 v222) := fun v79 v222 => decidable_of_iff' _ (Iff.of_eq (k5_chk223.eq_1 v79 v222))
theorem k5_idx223_inb : ∀ (v79 : IVec S16 32) (v222 : IVec S16 32) (k5_hw223 : k5_chk223 v79 v222), ∀ a x, ((![v79, v222] : Fin 2 → IVec S16 32) a x).toNat < S320x128.size a := fun v79 v222 k5_hw223 => k5_hw223

def k5_chk224 (v227 : IVec S16 32) (v229 : IVec S16 32) : Prop :=
  (∀ a x, ((![v227, v229] : Fin 2 → IVec S16 32) a x).toNat < S40x128.size a)
instance k5_chk224.dec : ∀ (v227 : IVec S16 32) (v229 : IVec S16 32), Decidable (k5_chk224 v227 v229) := fun v227 v229 => decidable_of_iff' _ (Iff.of_eq (k5_chk224.eq_1 v227 v229))
theorem k5_idx224_inb : ∀ (v227 : IVec S16 32) (v229 : IVec S16 32) (k5_hw224 : k5_chk224 v227 v229), ∀ a x, ((![v227, v229] : Fin 2 → IVec S16 32) a x).toNat < S40x128.size a := fun v227 v229 k5_hw224 => k5_hw224
def k5_mult7 (i : grid5.Coords) (k5_t20 : Fin k5_t20_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_32 : BitVec 32 := 0#32
  let c1_i32_34 : BitVec 32 := 1#32
  let arg22 : BitVec 32 := Scf.iv c0_i32_32 c1_i32_34 k5_t20
  let c2_i32_36 : BitVec 32 := 2#32
  let v16 : BitVec 32 := Scalar.muli arg22 c2_i32_36
  let v17 : BitVec 32 := Scalar.addi c0_i32_37 v16
  let c320_i32 : BitVec 32 := 320#32
  let v23 : BitVec 32 := Scalar.muli v17 c320_i32
  let v24 : BitVec 32 := Scalar.addi v2 v23
  let c16_i32 : BitVec 32 := 16#32
  let v25 : BitVec 32 := Scalar.muli v24 c16_i32
  let c0_i32_51 : BitVec 32 := 0#32
  let v27 : BitVec 1 := Scalar.cmpi .sgt v25 c0_i32_51
  let v28 : BitVec 32 := Scalar.extui v27
  let c0_i32_52 : BitVec 32 := 0#32
  let v29 : BitVec 1 := Scalar.cmpi .slt v25 c0_i32_52
  let v30 : BitVec 32 := Scalar.extui v29
  let v31 : BitVec 32 := Scalar.subi v28 v30
  let c128_i32 : BitVec 32 := 128#32
  let c0_i32_53 : BitVec 32 := 0#32
  let v32 : BitVec 1 := Scalar.cmpi .sgt c128_i32 c0_i32_53
  let v33 : BitVec 32 := Scalar.extui v32
  let c0_i32_54 : BitVec 32 := 0#32
  let v34 : BitVec 1 := Scalar.cmpi .slt c128_i32 c0_i32_54
  let v35 : BitVec 32 := Scalar.extui v34
  let v36 : BitVec 32 := Scalar.subi v33 v35
  let v37 : BitVec 1 := Scalar.cmpi .ne v31 v36
  let v38 : BitVec 32 := Scalar.remsi v25 c128_i32
  let c0_i32_55 : BitVec 32 := 0#32
  let v39 : BitVec 1 := Scalar.cmpi .ne v38 c0_i32_55
  let v40 : BitVec 1 := Scalar.andi v37 v39
  let v26 : BitVec 32 := Scalar.divsi v25 c128_i32
  let c1_i32_56 : BitVec 32 := 1#32
  let v41 : BitVec 32 := Scalar.subi v26 c1_i32_56
  let v42 : BitVec 32 := Scalar.select v40 v41 v26
  v42
def k5_off37 (i : grid5.Coords) (k5_t20 : Fin k5_t20_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_32 : BitVec 32 := 0#32
  let c1_i32_34 : BitVec 32 := 1#32
  let arg22 : BitVec 32 := Scf.iv c0_i32_32 c1_i32_34 k5_t20
  let c2_i32_36 : BitVec 32 := 2#32
  let v16 : BitVec 32 := Scalar.muli arg22 c2_i32_36
  let v17 : BitVec 32 := Scalar.addi c0_i32_37 v16
  let c320_i32 : BitVec 32 := 320#32
  let v23 : BitVec 32 := Scalar.muli v17 c320_i32
  let v24 : BitVec 32 := Scalar.addi v2 v23
  let c16_i32 : BitVec 32 := 16#32
  let v25 : BitVec 32 := Scalar.muli v24 c16_i32
  let c0_i32_51 : BitVec 32 := 0#32
  let v27 : BitVec 1 := Scalar.cmpi .sgt v25 c0_i32_51
  let v28 : BitVec 32 := Scalar.extui v27
  let c0_i32_52 : BitVec 32 := 0#32
  let v29 : BitVec 1 := Scalar.cmpi .slt v25 c0_i32_52
  let v30 : BitVec 32 := Scalar.extui v29
  let v31 : BitVec 32 := Scalar.subi v28 v30
  let c128_i32 : BitVec 32 := 128#32
  let c0_i32_53 : BitVec 32 := 0#32
  let v32 : BitVec 1 := Scalar.cmpi .sgt c128_i32 c0_i32_53
  let v33 : BitVec 32 := Scalar.extui v32
  let c0_i32_54 : BitVec 32 := 0#32
  let v34 : BitVec 1 := Scalar.cmpi .slt c128_i32 c0_i32_54
  let v35 : BitVec 32 := Scalar.extui v34
  let v36 : BitVec 32 := Scalar.subi v33 v35
  let v37 : BitVec 1 := Scalar.cmpi .ne v31 v36
  let v38 : BitVec 32 := Scalar.remsi v25 c128_i32
  let c0_i32_55 : BitVec 32 := 0#32
  let v39 : BitVec 1 := Scalar.cmpi .ne v38 c0_i32_55
  let v40 : BitVec 1 := Scalar.andi v37 v39
  let v26 : BitVec 32 := Scalar.divsi v25 c128_i32
  let c1_i32_56 : BitVec 32 := 1#32
  let v41 : BitVec 32 := Scalar.subi v26 c1_i32_56
  let v42 : BitVec 32 := Scalar.select v40 v41 v26
  let v43 : BitVec 32 := v42
  let c0_i32_75_r10 : BitVec 32 := 0#32
  ![v43.toNat, 0]
def k5_cond4 (k5_t20 : Fin k5_t20_loop.trips) : BitVec 1 :=
  let c0_i32_37 : BitVec 32 := 0#32
  let c0_i32_32 : BitVec 32 := 0#32
  let c1_i32_34 : BitVec 32 := 1#32
  let arg22 : BitVec 32 := Scf.iv c0_i32_32 c1_i32_34 k5_t20
  let c2_i32_36 : BitVec 32 := 2#32
  let v16 : BitVec 32 := Scalar.muli arg22 c2_i32_36
  let v17 : BitVec 32 := Scalar.addi c0_i32_37 v16
  let c2_i32_57 : BitVec 32 := 2#32
  let v44 : BitVec 32 := Scalar.addi v17 c2_i32_57
  let c80_i32 : BitVec 32 := 80#32
  let v45 : BitVec 1 := Scalar.cmpi .slt v44 c80_i32
  let v46 : BitVec 32 := Scalar.extui v45
  let c0_i32_58 : BitVec 32 := 0#32
  let v47 : BitVec 1 := Scalar.cmpi .ne v46 c0_i32_58
  v47

@[reducible] def k5_t23_loop : Scf.Loop 32 :=
  let c0_i32_76 : BitVec 32 := 0#32
  let c20_i32_77 : BitVec 32 := 20#32
  let v73 : BitVec 32 := Scalar.addi c0_i32_76 c20_i32_77
  let c1_i32_78 : BitVec 32 := 1#32
  ⟨c0_i32_76, v73, c1_i32_78⟩
def k5_off38 (k5_t20 : Fin k5_t20_loop.trips) (k5_t23 : Fin k5_t23_loop.trips) : Fin 1 → Nat :=
  let c0_i32_37 : BitVec 32 := 0#32
  let c0_i32_32 : BitVec 32 := 0#32
  let c1_i32_34 : BitVec 32 := 1#32
  let arg22 : BitVec 32 := Scf.iv c0_i32_32 c1_i32_34 k5_t20
  let c2_i32_36 : BitVec 32 := 2#32
  let v16 : BitVec 32 := Scalar.muli arg22 c2_i32_36
  let v17 : BitVec 32 := Scalar.addi c0_i32_37 v16
  let c2_i32_75 : BitVec 32 := 2#32
  let v72 : BitVec 32 := Scalar.addi v17 c2_i32_75
  let c320_i32_84 : BitVec 32 := 320#32
  let v77 : BitVec 32 := Scalar.muli v72 c320_i32_84
  let c0_i32_83 : BitVec 32 := 0#32
  let c0_i32_76 : BitVec 32 := 0#32
  let c1_i32_78 : BitVec 32 := 1#32
  let arg23 : BitVec 32 := Scf.iv c0_i32_76 c1_i32_78 k5_t23
  let c16_i32_82 : BitVec 32 := 16#32
  let v75 : BitVec 32 := Scalar.muli arg23 c16_i32_82
  let v76 : BitVec 32 := Scalar.addi c0_i32_83 v75
  let v78 : BitVec 32 := Scalar.addi v77 v76
  let v79 : Index := Scalar.indexCast v78
  ![v79.toNat]
def k5_off39 (k5_t23 : Fin k5_t23_loop.trips) : Fin 1 → Nat :=
  let c0_i32_83 : BitVec 32 := 0#32
  let c0_i32_76 : BitVec 32 := 0#32
  let c1_i32_78 : BitVec 32 := 1#32
  let arg23 : BitVec 32 := Scf.iv c0_i32_76 c1_i32_78 k5_t23
  let c16_i32_82 : BitVec 32 := 16#32
  let v75 : BitVec 32 := Scalar.muli arg23 c16_i32_82
  let v76 : BitVec 32 := Scalar.addi c0_i32_83 v75
  let v83 : Index := Scalar.indexCast v76
  ![v83.toNat]
@[reducible] def k5_t24_loop : Scf.Loop 32 :=
  let c0_i32_62 : BitVec 32 := 0#32
  let c20_i32_63 : BitVec 32 := 20#32
  let v50 : BitVec 32 := Scalar.addi c0_i32_62 c20_i32_63
  let c1_i32_64 : BitVec 32 := 1#32
  ⟨c0_i32_62, v50, c1_i32_64⟩
def k5_off40 (k5_t20 : Fin k5_t20_loop.trips) (k5_t24 : Fin k5_t24_loop.trips) : Fin 1 → Nat :=
  let c0_i32_37 : BitVec 32 := 0#32
  let c0_i32_32 : BitVec 32 := 0#32
  let c1_i32_34 : BitVec 32 := 1#32
  let arg22 : BitVec 32 := Scf.iv c0_i32_32 c1_i32_34 k5_t20
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_77 : BitVec 32 := 320#32
  let v74 : BitVec 32 := Scalar.muli v48 c320_i32_77
  let c0_i32_76 : BitVec 32 := 0#32
  let c0_i32_62 : BitVec 32 := 0#32
  let c1_i32_64 : BitVec 32 := 1#32
  let arg23 : BitVec 32 := Scf.iv c0_i32_62 c1_i32_64 k5_t24
  let c16_i32_75 : BitVec 32 := 16#32
  let v72 : BitVec 32 := Scalar.muli arg23 c16_i32_75
  let v73 : BitVec 32 := Scalar.addi c0_i32_76 v72
  let v75 : BitVec 32 := Scalar.addi v74 v73
  let v76 : Index := Scalar.indexCast v75
  ![v76.toNat]

def k5_chk225 (v79 : IVec S16 32) (v87 : IVec S16 32) : Prop :=
  (∀ a x, ((![v79, v87] : Fin 2 → IVec S16 32) a x).toNat < S320x128.size a)
instance k5_chk225.dec : ∀ (v79 : IVec S16 32) (v87 : IVec S16 32), Decidable (k5_chk225 v79 v87) := fun v79 v87 => decidable_of_iff' _ (Iff.of_eq (k5_chk225.eq_1 v79 v87))
theorem k5_idx225_inb : ∀ (v79 : IVec S16 32) (v87 : IVec S16 32) (k5_hw225 : k5_chk225 v79 v87), ∀ a x, ((![v79, v87] : Fin 2 → IVec S16 32) a x).toNat < S320x128.size a := fun v79 v87 k5_hw225 => k5_hw225

def k5_chk226 (v92 : IVec S16 32) (v94 : IVec S16 32) : Prop :=
  (∀ a x, ((![v92, v94] : Fin 2 → IVec S16 32) a x).toNat < S40x128.size a)
instance k5_chk226.dec : ∀ (v92 : IVec S16 32) (v94 : IVec S16 32), Decidable (k5_chk226 v92 v94) := fun v92 v94 => decidable_of_iff' _ (Iff.of_eq (k5_chk226.eq_1 v92 v94))
theorem k5_idx226_inb : ∀ (v92 : IVec S16 32) (v94 : IVec S16 32) (k5_hw226 : k5_chk226 v92 v94), ∀ a x, ((![v92, v94] : Fin 2 → IVec S16 32) a x).toNat < S40x128.size a := fun v92 v94 k5_hw226 => k5_hw226

def k5_chk227 (v79 : IVec S16 32) (v96 : IVec S16 32) : Prop :=
  (∀ a x, ((![v79, v96] : Fin 2 → IVec S16 32) a x).toNat < S320x128.size a)
instance k5_chk227.dec : ∀ (v79 : IVec S16 32) (v96 : IVec S16 32), Decidable (k5_chk227 v79 v96) := fun v79 v96 => decidable_of_iff' _ (Iff.of_eq (k5_chk227.eq_1 v79 v96))
theorem k5_idx227_inb : ∀ (v79 : IVec S16 32) (v96 : IVec S16 32) (k5_hw227 : k5_chk227 v79 v96), ∀ a x, ((![v79, v96] : Fin 2 → IVec S16 32) a x).toNat < S320x128.size a := fun v79 v96 k5_hw227 => k5_hw227

def k5_chk228 (v101 : IVec S16 32) (v103 : IVec S16 32) : Prop :=
  (∀ a x, ((![v101, v103] : Fin 2 → IVec S16 32) a x).toNat < S40x128.size a)
instance k5_chk228.dec : ∀ (v101 : IVec S16 32) (v103 : IVec S16 32), Decidable (k5_chk228 v101 v103) := fun v101 v103 => decidable_of_iff' _ (Iff.of_eq (k5_chk228.eq_1 v101 v103))
theorem k5_idx228_inb : ∀ (v101 : IVec S16 32) (v103 : IVec S16 32) (k5_hw228 : k5_chk228 v101 v103), ∀ a x, ((![v101, v103] : Fin 2 → IVec S16 32) a x).toNat < S40x128.size a := fun v101 v103 k5_hw228 => k5_hw228

def k5_chk229 (v79 : IVec S16 32) (v105 : IVec S16 32) : Prop :=
  (∀ a x, ((![v79, v105] : Fin 2 → IVec S16 32) a x).toNat < S320x128.size a)
instance k5_chk229.dec : ∀ (v79 : IVec S16 32) (v105 : IVec S16 32), Decidable (k5_chk229 v79 v105) := fun v79 v105 => decidable_of_iff' _ (Iff.of_eq (k5_chk229.eq_1 v79 v105))
theorem k5_idx229_inb : ∀ (v79 : IVec S16 32) (v105 : IVec S16 32) (k5_hw229 : k5_chk229 v79 v105), ∀ a x, ((![v79, v105] : Fin 2 → IVec S16 32) a x).toNat < S320x128.size a := fun v79 v105 k5_hw229 => k5_hw229

def k5_chk230 (v110 : IVec S16 32) (v112 : IVec S16 32) : Prop :=
  (∀ a x, ((![v110, v112] : Fin 2 → IVec S16 32) a x).toNat < S40x128.size a)
instance k5_chk230.dec : ∀ (v110 : IVec S16 32) (v112 : IVec S16 32), Decidable (k5_chk230 v110 v112) := fun v110 v112 => decidable_of_iff' _ (Iff.of_eq (k5_chk230.eq_1 v110 v112))
theorem k5_idx230_inb : ∀ (v110 : IVec S16 32) (v112 : IVec S16 32) (k5_hw230 : k5_chk230 v110 v112), ∀ a x, ((![v110, v112] : Fin 2 → IVec S16 32) a x).toNat < S40x128.size a := fun v110 v112 k5_hw230 => k5_hw230

def k5_chk231 (v79 : IVec S16 32) (v114 : IVec S16 32) : Prop :=
  (∀ a x, ((![v79, v114] : Fin 2 → IVec S16 32) a x).toNat < S320x128.size a)
instance k5_chk231.dec : ∀ (v79 : IVec S16 32) (v114 : IVec S16 32), Decidable (k5_chk231 v79 v114) := fun v79 v114 => decidable_of_iff' _ (Iff.of_eq (k5_chk231.eq_1 v79 v114))
theorem k5_idx231_inb : ∀ (v79 : IVec S16 32) (v114 : IVec S16 32) (k5_hw231 : k5_chk231 v79 v114), ∀ a x, ((![v79, v114] : Fin 2 → IVec S16 32) a x).toNat < S320x128.size a := fun v79 v114 k5_hw231 => k5_hw231

def k5_chk232 (v119 : IVec S16 32) (v121 : IVec S16 32) : Prop :=
  (∀ a x, ((![v119, v121] : Fin 2 → IVec S16 32) a x).toNat < S40x128.size a)
instance k5_chk232.dec : ∀ (v119 : IVec S16 32) (v121 : IVec S16 32), Decidable (k5_chk232 v119 v121) := fun v119 v121 => decidable_of_iff' _ (Iff.of_eq (k5_chk232.eq_1 v119 v121))
theorem k5_idx232_inb : ∀ (v119 : IVec S16 32) (v121 : IVec S16 32) (k5_hw232 : k5_chk232 v119 v121), ∀ a x, ((![v119, v121] : Fin 2 → IVec S16 32) a x).toNat < S40x128.size a := fun v119 v121 k5_hw232 => k5_hw232

def k5_chk233 (v79 : IVec S16 32) (v123 : IVec S16 32) : Prop :=
  (∀ a x, ((![v79, v123] : Fin 2 → IVec S16 32) a x).toNat < S320x128.size a)
instance k5_chk233.dec : ∀ (v79 : IVec S16 32) (v123 : IVec S16 32), Decidable (k5_chk233 v79 v123) := fun v79 v123 => decidable_of_iff' _ (Iff.of_eq (k5_chk233.eq_1 v79 v123))
theorem k5_idx233_inb : ∀ (v79 : IVec S16 32) (v123 : IVec S16 32) (k5_hw233 : k5_chk233 v79 v123), ∀ a x, ((![v79, v123] : Fin 2 → IVec S16 32) a x).toNat < S320x128.size a := fun v79 v123 k5_hw233 => k5_hw233

def k5_chk234 (v128 : IVec S16 32) (v130 : IVec S16 32) : Prop :=
  (∀ a x, ((![v128, v130] : Fin 2 → IVec S16 32) a x).toNat < S40x128.size a)
instance k5_chk234.dec : ∀ (v128 : IVec S16 32) (v130 : IVec S16 32), Decidable (k5_chk234 v128 v130) := fun v128 v130 => decidable_of_iff' _ (Iff.of_eq (k5_chk234.eq_1 v128 v130))
theorem k5_idx234_inb : ∀ (v128 : IVec S16 32) (v130 : IVec S16 32) (k5_hw234 : k5_chk234 v128 v130), ∀ a x, ((![v128, v130] : Fin 2 → IVec S16 32) a x).toNat < S40x128.size a := fun v128 v130 k5_hw234 => k5_hw234

def k5_chk235 (v79 : IVec S16 32) (v132 : IVec S16 32) : Prop :=
  (∀ a x, ((![v79, v132] : Fin 2 → IVec S16 32) a x).toNat < S320x128.size a)
instance k5_chk235.dec : ∀ (v79 : IVec S16 32) (v132 : IVec S16 32), Decidable (k5_chk235 v79 v132) := fun v79 v132 => decidable_of_iff' _ (Iff.of_eq (k5_chk235.eq_1 v79 v132))
theorem k5_idx235_inb : ∀ (v79 : IVec S16 32) (v132 : IVec S16 32) (k5_hw235 : k5_chk235 v79 v132), ∀ a x, ((![v79, v132] : Fin 2 → IVec S16 32) a x).toNat < S320x128.size a := fun v79 v132 k5_hw235 => k5_hw235

def k5_chk236 (v137 : IVec S16 32) (v139 : IVec S16 32) : Prop :=
  (∀ a x, ((![v137, v139] : Fin 2 → IVec S16 32) a x).toNat < S40x128.size a)
instance k5_chk236.dec : ∀ (v137 : IVec S16 32) (v139 : IVec S16 32), Decidable (k5_chk236 v137 v139) := fun v137 v139 => decidable_of_iff' _ (Iff.of_eq (k5_chk236.eq_1 v137 v139))
theorem k5_idx236_inb : ∀ (v137 : IVec S16 32) (v139 : IVec S16 32) (k5_hw236 : k5_chk236 v137 v139), ∀ a x, ((![v137, v139] : Fin 2 → IVec S16 32) a x).toNat < S40x128.size a := fun v137 v139 k5_hw236 => k5_hw236

def k5_chk237 (v79 : IVec S16 32) (v141 : IVec S16 32) : Prop :=
  (∀ a x, ((![v79, v141] : Fin 2 → IVec S16 32) a x).toNat < S320x128.size a)
instance k5_chk237.dec : ∀ (v79 : IVec S16 32) (v141 : IVec S16 32), Decidable (k5_chk237 v79 v141) := fun v79 v141 => decidable_of_iff' _ (Iff.of_eq (k5_chk237.eq_1 v79 v141))
theorem k5_idx237_inb : ∀ (v79 : IVec S16 32) (v141 : IVec S16 32) (k5_hw237 : k5_chk237 v79 v141), ∀ a x, ((![v79, v141] : Fin 2 → IVec S16 32) a x).toNat < S320x128.size a := fun v79 v141 k5_hw237 => k5_hw237

def k5_chk238 (v146 : IVec S16 32) (v148 : IVec S16 32) : Prop :=
  (∀ a x, ((![v146, v148] : Fin 2 → IVec S16 32) a x).toNat < S40x128.size a)
instance k5_chk238.dec : ∀ (v146 : IVec S16 32) (v148 : IVec S16 32), Decidable (k5_chk238 v146 v148) := fun v146 v148 => decidable_of_iff' _ (Iff.of_eq (k5_chk238.eq_1 v146 v148))
theorem k5_idx238_inb : ∀ (v146 : IVec S16 32) (v148 : IVec S16 32) (k5_hw238 : k5_chk238 v146 v148), ∀ a x, ((![v146, v148] : Fin 2 → IVec S16 32) a x).toNat < S40x128.size a := fun v146 v148 k5_hw238 => k5_hw238

def k5_chk239 (v79 : IVec S16 32) (v150 : IVec S16 32) : Prop :=
  (∀ a x, ((![v79, v150] : Fin 2 → IVec S16 32) a x).toNat < S320x128.size a)
instance k5_chk239.dec : ∀ (v79 : IVec S16 32) (v150 : IVec S16 32), Decidable (k5_chk239 v79 v150) := fun v79 v150 => decidable_of_iff' _ (Iff.of_eq (k5_chk239.eq_1 v79 v150))
theorem k5_idx239_inb : ∀ (v79 : IVec S16 32) (v150 : IVec S16 32) (k5_hw239 : k5_chk239 v79 v150), ∀ a x, ((![v79, v150] : Fin 2 → IVec S16 32) a x).toNat < S320x128.size a := fun v79 v150 k5_hw239 => k5_hw239

def k5_chk240 (v155 : IVec S16 32) (v157 : IVec S16 32) : Prop :=
  (∀ a x, ((![v155, v157] : Fin 2 → IVec S16 32) a x).toNat < S40x128.size a)
instance k5_chk240.dec : ∀ (v155 : IVec S16 32) (v157 : IVec S16 32), Decidable (k5_chk240 v155 v157) := fun v155 v157 => decidable_of_iff' _ (Iff.of_eq (k5_chk240.eq_1 v155 v157))
theorem k5_idx240_inb : ∀ (v155 : IVec S16 32) (v157 : IVec S16 32) (k5_hw240 : k5_chk240 v155 v157), ∀ a x, ((![v155, v157] : Fin 2 → IVec S16 32) a x).toNat < S40x128.size a := fun v155 v157 k5_hw240 => k5_hw240

def k5_chk241 (v79 : IVec S16 32) (v159 : IVec S16 32) : Prop :=
  (∀ a x, ((![v79, v159] : Fin 2 → IVec S16 32) a x).toNat < S320x128.size a)
instance k5_chk241.dec : ∀ (v79 : IVec S16 32) (v159 : IVec S16 32), Decidable (k5_chk241 v79 v159) := fun v79 v159 => decidable_of_iff' _ (Iff.of_eq (k5_chk241.eq_1 v79 v159))
theorem k5_idx241_inb : ∀ (v79 : IVec S16 32) (v159 : IVec S16 32) (k5_hw241 : k5_chk241 v79 v159), ∀ a x, ((![v79, v159] : Fin 2 → IVec S16 32) a x).toNat < S320x128.size a := fun v79 v159 k5_hw241 => k5_hw241

def k5_chk242 (v164 : IVec S16 32) (v166 : IVec S16 32) : Prop :=
  (∀ a x, ((![v164, v166] : Fin 2 → IVec S16 32) a x).toNat < S40x128.size a)
instance k5_chk242.dec : ∀ (v164 : IVec S16 32) (v166 : IVec S16 32), Decidable (k5_chk242 v164 v166) := fun v164 v166 => decidable_of_iff' _ (Iff.of_eq (k5_chk242.eq_1 v164 v166))
theorem k5_idx242_inb : ∀ (v164 : IVec S16 32) (v166 : IVec S16 32) (k5_hw242 : k5_chk242 v164 v166), ∀ a x, ((![v164, v166] : Fin 2 → IVec S16 32) a x).toNat < S40x128.size a := fun v164 v166 k5_hw242 => k5_hw242

def k5_chk243 (v79 : IVec S16 32) (v168 : IVec S16 32) : Prop :=
  (∀ a x, ((![v79, v168] : Fin 2 → IVec S16 32) a x).toNat < S320x128.size a)
instance k5_chk243.dec : ∀ (v79 : IVec S16 32) (v168 : IVec S16 32), Decidable (k5_chk243 v79 v168) := fun v79 v168 => decidable_of_iff' _ (Iff.of_eq (k5_chk243.eq_1 v79 v168))
theorem k5_idx243_inb : ∀ (v79 : IVec S16 32) (v168 : IVec S16 32) (k5_hw243 : k5_chk243 v79 v168), ∀ a x, ((![v79, v168] : Fin 2 → IVec S16 32) a x).toNat < S320x128.size a := fun v79 v168 k5_hw243 => k5_hw243

def k5_chk244 (v173 : IVec S16 32) (v175 : IVec S16 32) : Prop :=
  (∀ a x, ((![v173, v175] : Fin 2 → IVec S16 32) a x).toNat < S40x128.size a)
instance k5_chk244.dec : ∀ (v173 : IVec S16 32) (v175 : IVec S16 32), Decidable (k5_chk244 v173 v175) := fun v173 v175 => decidable_of_iff' _ (Iff.of_eq (k5_chk244.eq_1 v173 v175))
theorem k5_idx244_inb : ∀ (v173 : IVec S16 32) (v175 : IVec S16 32) (k5_hw244 : k5_chk244 v173 v175), ∀ a x, ((![v173, v175] : Fin 2 → IVec S16 32) a x).toNat < S40x128.size a := fun v173 v175 k5_hw244 => k5_hw244

def k5_chk245 (v79 : IVec S16 32) (v177 : IVec S16 32) : Prop :=
  (∀ a x, ((![v79, v177] : Fin 2 → IVec S16 32) a x).toNat < S320x128.size a)
instance k5_chk245.dec : ∀ (v79 : IVec S16 32) (v177 : IVec S16 32), Decidable (k5_chk245 v79 v177) := fun v79 v177 => decidable_of_iff' _ (Iff.of_eq (k5_chk245.eq_1 v79 v177))
theorem k5_idx245_inb : ∀ (v79 : IVec S16 32) (v177 : IVec S16 32) (k5_hw245 : k5_chk245 v79 v177), ∀ a x, ((![v79, v177] : Fin 2 → IVec S16 32) a x).toNat < S320x128.size a := fun v79 v177 k5_hw245 => k5_hw245

def k5_chk246 (v182 : IVec S16 32) (v184 : IVec S16 32) : Prop :=
  (∀ a x, ((![v182, v184] : Fin 2 → IVec S16 32) a x).toNat < S40x128.size a)
instance k5_chk246.dec : ∀ (v182 : IVec S16 32) (v184 : IVec S16 32), Decidable (k5_chk246 v182 v184) := fun v182 v184 => decidable_of_iff' _ (Iff.of_eq (k5_chk246.eq_1 v182 v184))
theorem k5_idx246_inb : ∀ (v182 : IVec S16 32) (v184 : IVec S16 32) (k5_hw246 : k5_chk246 v182 v184), ∀ a x, ((![v182, v184] : Fin 2 → IVec S16 32) a x).toNat < S40x128.size a := fun v182 v184 k5_hw246 => k5_hw246

def k5_chk247 (v79 : IVec S16 32) (v186 : IVec S16 32) : Prop :=
  (∀ a x, ((![v79, v186] : Fin 2 → IVec S16 32) a x).toNat < S320x128.size a)
instance k5_chk247.dec : ∀ (v79 : IVec S16 32) (v186 : IVec S16 32), Decidable (k5_chk247 v79 v186) := fun v79 v186 => decidable_of_iff' _ (Iff.of_eq (k5_chk247.eq_1 v79 v186))
theorem k5_idx247_inb : ∀ (v79 : IVec S16 32) (v186 : IVec S16 32) (k5_hw247 : k5_chk247 v79 v186), ∀ a x, ((![v79, v186] : Fin 2 → IVec S16 32) a x).toNat < S320x128.size a := fun v79 v186 k5_hw247 => k5_hw247

def k5_chk248 (v191 : IVec S16 32) (v193 : IVec S16 32) : Prop :=
  (∀ a x, ((![v191, v193] : Fin 2 → IVec S16 32) a x).toNat < S40x128.size a)
instance k5_chk248.dec : ∀ (v191 : IVec S16 32) (v193 : IVec S16 32), Decidable (k5_chk248 v191 v193) := fun v191 v193 => decidable_of_iff' _ (Iff.of_eq (k5_chk248.eq_1 v191 v193))
theorem k5_idx248_inb : ∀ (v191 : IVec S16 32) (v193 : IVec S16 32) (k5_hw248 : k5_chk248 v191 v193), ∀ a x, ((![v191, v193] : Fin 2 → IVec S16 32) a x).toNat < S40x128.size a := fun v191 v193 k5_hw248 => k5_hw248

def k5_chk249 (v79 : IVec S16 32) (v195 : IVec S16 32) : Prop :=
  (∀ a x, ((![v79, v195] : Fin 2 → IVec S16 32) a x).toNat < S320x128.size a)
instance k5_chk249.dec : ∀ (v79 : IVec S16 32) (v195 : IVec S16 32), Decidable (k5_chk249 v79 v195) := fun v79 v195 => decidable_of_iff' _ (Iff.of_eq (k5_chk249.eq_1 v79 v195))
theorem k5_idx249_inb : ∀ (v79 : IVec S16 32) (v195 : IVec S16 32) (k5_hw249 : k5_chk249 v79 v195), ∀ a x, ((![v79, v195] : Fin 2 → IVec S16 32) a x).toNat < S320x128.size a := fun v79 v195 k5_hw249 => k5_hw249

def k5_chk250 (v200 : IVec S16 32) (v202 : IVec S16 32) : Prop :=
  (∀ a x, ((![v200, v202] : Fin 2 → IVec S16 32) a x).toNat < S40x128.size a)
instance k5_chk250.dec : ∀ (v200 : IVec S16 32) (v202 : IVec S16 32), Decidable (k5_chk250 v200 v202) := fun v200 v202 => decidable_of_iff' _ (Iff.of_eq (k5_chk250.eq_1 v200 v202))
theorem k5_idx250_inb : ∀ (v200 : IVec S16 32) (v202 : IVec S16 32) (k5_hw250 : k5_chk250 v200 v202), ∀ a x, ((![v200, v202] : Fin 2 → IVec S16 32) a x).toNat < S40x128.size a := fun v200 v202 k5_hw250 => k5_hw250

def k5_chk251 (v79 : IVec S16 32) (v204 : IVec S16 32) : Prop :=
  (∀ a x, ((![v79, v204] : Fin 2 → IVec S16 32) a x).toNat < S320x128.size a)
instance k5_chk251.dec : ∀ (v79 : IVec S16 32) (v204 : IVec S16 32), Decidable (k5_chk251 v79 v204) := fun v79 v204 => decidable_of_iff' _ (Iff.of_eq (k5_chk251.eq_1 v79 v204))
theorem k5_idx251_inb : ∀ (v79 : IVec S16 32) (v204 : IVec S16 32) (k5_hw251 : k5_chk251 v79 v204), ∀ a x, ((![v79, v204] : Fin 2 → IVec S16 32) a x).toNat < S320x128.size a := fun v79 v204 k5_hw251 => k5_hw251

def k5_chk252 (v209 : IVec S16 32) (v211 : IVec S16 32) : Prop :=
  (∀ a x, ((![v209, v211] : Fin 2 → IVec S16 32) a x).toNat < S40x128.size a)
instance k5_chk252.dec : ∀ (v209 : IVec S16 32) (v211 : IVec S16 32), Decidable (k5_chk252 v209 v211) := fun v209 v211 => decidable_of_iff' _ (Iff.of_eq (k5_chk252.eq_1 v209 v211))
theorem k5_idx252_inb : ∀ (v209 : IVec S16 32) (v211 : IVec S16 32) (k5_hw252 : k5_chk252 v209 v211), ∀ a x, ((![v209, v211] : Fin 2 → IVec S16 32) a x).toNat < S40x128.size a := fun v209 v211 k5_hw252 => k5_hw252

def k5_chk253 (v79 : IVec S16 32) (v213 : IVec S16 32) : Prop :=
  (∀ a x, ((![v79, v213] : Fin 2 → IVec S16 32) a x).toNat < S320x128.size a)
instance k5_chk253.dec : ∀ (v79 : IVec S16 32) (v213 : IVec S16 32), Decidable (k5_chk253 v79 v213) := fun v79 v213 => decidable_of_iff' _ (Iff.of_eq (k5_chk253.eq_1 v79 v213))
theorem k5_idx253_inb : ∀ (v79 : IVec S16 32) (v213 : IVec S16 32) (k5_hw253 : k5_chk253 v79 v213), ∀ a x, ((![v79, v213] : Fin 2 → IVec S16 32) a x).toNat < S320x128.size a := fun v79 v213 k5_hw253 => k5_hw253

def k5_chk254 (v218 : IVec S16 32) (v220 : IVec S16 32) : Prop :=
  (∀ a x, ((![v218, v220] : Fin 2 → IVec S16 32) a x).toNat < S40x128.size a)
instance k5_chk254.dec : ∀ (v218 : IVec S16 32) (v220 : IVec S16 32), Decidable (k5_chk254 v218 v220) := fun v218 v220 => decidable_of_iff' _ (Iff.of_eq (k5_chk254.eq_1 v218 v220))
theorem k5_idx254_inb : ∀ (v218 : IVec S16 32) (v220 : IVec S16 32) (k5_hw254 : k5_chk254 v218 v220), ∀ a x, ((![v218, v220] : Fin 2 → IVec S16 32) a x).toNat < S40x128.size a := fun v218 v220 k5_hw254 => k5_hw254

def k5_chk255 (v79 : IVec S16 32) (v222 : IVec S16 32) : Prop :=
  (∀ a x, ((![v79, v222] : Fin 2 → IVec S16 32) a x).toNat < S320x128.size a)
instance k5_chk255.dec : ∀ (v79 : IVec S16 32) (v222 : IVec S16 32), Decidable (k5_chk255 v79 v222) := fun v79 v222 => decidable_of_iff' _ (Iff.of_eq (k5_chk255.eq_1 v79 v222))
theorem k5_idx255_inb : ∀ (v79 : IVec S16 32) (v222 : IVec S16 32) (k5_hw255 : k5_chk255 v79 v222), ∀ a x, ((![v79, v222] : Fin 2 → IVec S16 32) a x).toNat < S320x128.size a := fun v79 v222 k5_hw255 => k5_hw255

def k5_chk256 (v227 : IVec S16 32) (v229 : IVec S16 32) : Prop :=
  (∀ a x, ((![v227, v229] : Fin 2 → IVec S16 32) a x).toNat < S40x128.size a)
instance k5_chk256.dec : ∀ (v227 : IVec S16 32) (v229 : IVec S16 32), Decidable (k5_chk256 v227 v229) := fun v227 v229 => decidable_of_iff' _ (Iff.of_eq (k5_chk256.eq_1 v227 v229))
theorem k5_idx256_inb : ∀ (v227 : IVec S16 32) (v229 : IVec S16 32) (k5_hw256 : k5_chk256 v227 v229), ∀ a x, ((![v227, v229] : Fin 2 → IVec S16 32) a x).toNat < S40x128.size a := fun v227 v229 k5_hw256 => k5_hw256
def k5_mult8 (i : grid5.Coords) (k5_t20 : Fin k5_t20_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_32 : BitVec 32 := 0#32
  let c1_i32_34 : BitVec 32 := 1#32
  let arg22 : BitVec 32 := Scf.iv c0_i32_32 c1_i32_34 k5_t20
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_66 : BitVec 32 := 320#32
  let v51 : BitVec 32 := Scalar.muli v48 c320_i32_66
  let v52 : BitVec 32 := Scalar.addi v2 v51
  let c16_i32_67 : BitVec 32 := 16#32
  let v53 : BitVec 32 := Scalar.muli v52 c16_i32_67
  let c0_i32_69 : BitVec 32 := 0#32
  let v55 : BitVec 1 := Scalar.cmpi .sgt v53 c0_i32_69
  let v56 : BitVec 32 := Scalar.extui v55
  let c0_i32_70 : BitVec 32 := 0#32
  let v57 : BitVec 1 := Scalar.cmpi .slt v53 c0_i32_70
  let v58 : BitVec 32 := Scalar.extui v57
  let v59 : BitVec 32 := Scalar.subi v56 v58
  let c128_i32_68 : BitVec 32 := 128#32
  let c0_i32_71 : BitVec 32 := 0#32
  let v60 : BitVec 1 := Scalar.cmpi .sgt c128_i32_68 c0_i32_71
  let v61 : BitVec 32 := Scalar.extui v60
  let c0_i32_72 : BitVec 32 := 0#32
  let v62 : BitVec 1 := Scalar.cmpi .slt c128_i32_68 c0_i32_72
  let v63 : BitVec 32 := Scalar.extui v62
  let v64 : BitVec 32 := Scalar.subi v61 v63
  let v65 : BitVec 1 := Scalar.cmpi .ne v59 v64
  let v66 : BitVec 32 := Scalar.remsi v53 c128_i32_68
  let c0_i32_73 : BitVec 32 := 0#32
  let v67 : BitVec 1 := Scalar.cmpi .ne v66 c0_i32_73
  let v68 : BitVec 1 := Scalar.andi v65 v67
  let v54 : BitVec 32 := Scalar.divsi v53 c128_i32_68
  let c1_i32_74 : BitVec 32 := 1#32
  let v69 : BitVec 32 := Scalar.subi v54 c1_i32_74
  let v70 : BitVec 32 := Scalar.select v68 v69 v54
  v70
def k5_off41 (i : grid5.Coords) (k5_t20 : Fin k5_t20_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c0_i32_32 : BitVec 32 := 0#32
  let c1_i32_34 : BitVec 32 := 1#32
  let arg22 : BitVec 32 := Scf.iv c0_i32_32 c1_i32_34 k5_t20
  let c2_i32_36 : BitVec 32 := 2#32
  let v16 : BitVec 32 := Scalar.muli arg22 c2_i32_36
  let v17 : BitVec 32 := Scalar.addi c0_i32_37 v16
  let c1_i32_59 : BitVec 32 := 1#32
  let v48 : BitVec 32 := Scalar.addi v17 c1_i32_59
  let c320_i32_66 : BitVec 32 := 320#32
  let v51 : BitVec 32 := Scalar.muli v48 c320_i32_66
  let v52 : BitVec 32 := Scalar.addi v2 v51
  let c16_i32_67 : BitVec 32 := 16#32
  let v53 : BitVec 32 := Scalar.muli v52 c16_i32_67
  let c0_i32_69 : BitVec 32 := 0#32
  let v55 : BitVec 1 := Scalar.cmpi .sgt v53 c0_i32_69
  let v56 : BitVec 32 := Scalar.extui v55
  let c0_i32_70 : BitVec 32 := 0#32
  let v57 : BitVec 1 := Scalar.cmpi .slt v53 c0_i32_70
  let v58 : BitVec 32 := Scalar.extui v57
  let v59 : BitVec 32 := Scalar.subi v56 v58
  let c128_i32_68 : BitVec 32 := 128#32
  let c0_i32_71 : BitVec 32 := 0#32
  let v60 : BitVec 1 := Scalar.cmpi .sgt c128_i32_68 c0_i32_71
  let v61 : BitVec 32 := Scalar.extui v60
  let c0_i32_72 : BitVec 32 := 0#32
  let v62 : BitVec 1 := Scalar.cmpi .slt c128_i32_68 c0_i32_72
  let v63 : BitVec 32 := Scalar.extui v62
  let v64 : BitVec 32 := Scalar.subi v61 v63
  let v65 : BitVec 1 := Scalar.cmpi .ne v59 v64
  let v66 : BitVec 32 := Scalar.remsi v53 c128_i32_68
  let c0_i32_73 : BitVec 32 := 0#32
  let v67 : BitVec 1 := Scalar.cmpi .ne v66 c0_i32_73
  let v68 : BitVec 1 := Scalar.andi v65 v67
  let v54 : BitVec 32 := Scalar.divsi v53 c128_i32_68
  let c1_i32_74 : BitVec 32 := 1#32
  let v69 : BitVec 32 := Scalar.subi v54 c1_i32_74
  let v70 : BitVec 32 := Scalar.select v68 v69 v54
  let v71 : BitVec 32 := v70
  let c0_i32_75_r11 : BitVec 32 := 0#32
  ![v71.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S13_S1x13 : S13.ShapeCasts S1x13
  inb_S16384x13_S16384x13_0_0 : ∀ a, (![0, 0] : Fin 2 → Nat) a + S16384x13.size a ≤ S16384x13.size a
  h_S16384x13 : 0 < S16384x13.numel
  reduces_S16384x13_S13 : S16384x13.Reduces [0] S13
  broadcasts_S1x13_S16384x13 : S1x13.Broadcasts S16384x13
  inb_S1x13_S1x13_0_0 : ∀ a, (![0, 0] : Fin 2 → Nat) a + S1x13.size a ≤ S1x13.size a
  h_S1x13 : 0 < S1x13.numel
  shapeCasts_S1x13_S1x13 : S1x13.ShapeCasts S1x13
  shapeCasts_S100000x16_S12500x128 : S100000x16.ShapeCasts S12500x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  shapeCasts_S16384x50_S819200 : S16384x50.ShapeCasts S819200
  iota_S16_d0_w32_scVector : S16.Iotas .scVector 32 [0]
  h_S16 : 0 < S16.numel
  gathers_S12500x128_S320x128 : S12500x128.Gathers 0 S320x128
  h_S320x128 : 0 < S320x128.numel
  h_S40x128 : 0 < S40x128.numel
  shapeCasts_S102400x128_S16384x50x16 : S102400x128.ShapeCasts S16384x50x16
  dot_S12500x128_S128x8_S12500x8_1_0_0_1_n_n_wf : DotDims.WF S12500x128 S128x8 S12500x8 [1] [0] [0] [1] [] []
  dot_S12500x8_S8x128_S12500x128_1_0_0_1_n_n_wf : DotDims.WF S12500x8 S8x128 S12500x128 [1] [0] [0] [1] [] []
  hcc5_scratch6 : 20 + S_.numel ≤ 34
  hcc5_scratch7 : 21 + S_.numel ≤ 34
  hcc5_scoped0 : 22 + S_.numel ≤ 34
  hcc5_scoped1 : 23 + S_.numel ≤ 34
  hcc5_scoped2 : 24 + S_.numel ≤ 34
  hcc5_scoped3 : 25 + S_.numel ≤ 34
  hcc5_scoped4 : 26 + S_.numel ≤ 34
  hcc5_scoped5 : 27 + S_.numel ≤ 34
  hcc5_scoped6 : 28 + S_.numel ≤ 34
  hcc5_scoped7 : 29 + S_.numel ≤ 34
  hcc5_scoped8 : 30 + S_.numel ≤ 34
  hcc5_scoped9 : 31 + S_.numel ≤ 34
  hcc5_scoped10 : 32 + S_.numel ≤ 34
  hcc5_scoped11 : 33 + S_.numel ≤ 34
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage4_0 : ∀ j, (stage4_0 j).IsWhole
  hstage4_1 : ∀ j, (stage4_1 j).IsWhole
  hstage4_2 : ∀ j, (stage4_2 j).IsWhole
  hstage4_3 : ∀ j, (stage4_3 j).IsWhole
  hcore5 : grid5.bound 0 ≤ τ.nSC
  hsub5 : grid5.bound 1 ≤ τ.nSub
  k5_off1_inb : ∀ i : grid5.Coords, ∀ a, (k5_off1 i) a + S25600.size a ≤ S819200.size a
  k5_t1_ok : k5_t1_loop.OK
  k5_off2_inb : ∀ k5_t1 : Fin k5_t1_loop.trips, ∀ a, (k5_off2 k5_t1) a + S16.size a ≤ S25600.size a
  k5_off3_inb : ∀ k5_t1 : Fin k5_t1_loop.trips, ∀ a, (k5_off3 k5_t1) a + S16.size a ≤ S320.size a
  k5_t2_ok : k5_t2_loop.OK
  k5_t3_ok : k5_t3_loop.OK
  k5_off4_inb : ∀ (k5_t2 : Fin k5_t2_loop.trips) (k5_t3 : Fin k5_t3_loop.trips), ∀ a, (k5_off4 k5_t2 k5_t3) a + S16.size a ≤ S25600.size a
  k5_off5_inb : ∀ k5_t3 : Fin k5_t3_loop.trips, ∀ a, (k5_off5 k5_t3) a + S16.size a ≤ S320.size a
  k5_t4_ok : k5_t4_loop.OK
  k5_off6_inb : ∀ (k5_t2 : Fin k5_t2_loop.trips) (k5_t4 : Fin k5_t4_loop.trips), ∀ a, (k5_off6 k5_t2 k5_t4) a + S16.size a ≤ S25600.size a
  k5_mult1_dvd : ∀ (i : grid5.Coords) (k5_t2 : Fin k5_t2_loop.trips), 8 ∣ (k5_mult1 i k5_t2).toNat
  k5_off7_inb : ∀ (i : grid5.Coords) (k5_t2 : Fin k5_t2_loop.trips), ∀ a, (k5_off7 i k5_t2) a + S40x128.size a ≤ S102400x128.size a
  k5_t5_ok : ∀ k5_t2 : Fin k5_t2_loop.trips, ∀ (k5_h1 : k5_cond1 k5_t2 = 1#1), k5_t5_loop.OK
  k5_off8_inb : ∀ (k5_t2 : Fin k5_t2_loop.trips) (k5_t5 : Fin k5_t5_loop.trips), ∀ (k5_h1 : k5_cond1 k5_t2 = 1#1), ∀ a, (k5_off8 k5_t2 k5_t5) a + S16.size a ≤ S25600.size a
  k5_off9_inb : ∀ (k5_t2 : Fin k5_t2_loop.trips) (k5_t5 : Fin k5_t5_loop.trips), ∀ (k5_h1 : k5_cond1 k5_t2 = 1#1), ∀ a, (k5_off9 k5_t5) a + S16.size a ≤ S320.size a
  k5_t6_ok : k5_t6_loop.OK
  k5_off10_inb : ∀ (k5_t2 : Fin k5_t2_loop.trips) (k5_t6 : Fin k5_t6_loop.trips), ∀ a, (k5_off10 k5_t2 k5_t6) a + S16.size a ≤ S25600.size a
  k5_mult2_dvd : ∀ (i : grid5.Coords) (k5_t2 : Fin k5_t2_loop.trips), 8 ∣ (k5_mult2 i k5_t2).toNat
  k5_off11_inb : ∀ (i : grid5.Coords) (k5_t2 : Fin k5_t2_loop.trips), ∀ a, (k5_off11 i k5_t2) a + S40x128.size a ≤ S102400x128.size a
  k5_t7_ok : k5_t7_loop.OK
  k5_off12_inb : ∀ k5_t7 : Fin k5_t7_loop.trips, ∀ a, (k5_off12 k5_t7) a + S16.size a ≤ S25600.size a
  k5_off13_inb : ∀ k5_t7 : Fin k5_t7_loop.trips, ∀ a, (k5_off13 k5_t7) a + S16.size a ≤ S320.size a
  k5_t8_ok : k5_t8_loop.OK
  k5_t9_ok : k5_t9_loop.OK
  k5_off14_inb : ∀ (k5_t8 : Fin k5_t8_loop.trips) (k5_t9 : Fin k5_t9_loop.trips), ∀ a, (k5_off14 k5_t8 k5_t9) a + S16.size a ≤ S25600.size a
  k5_off15_inb : ∀ k5_t9 : Fin k5_t9_loop.trips, ∀ a, (k5_off15 k5_t9) a + S16.size a ≤ S320.size a
  k5_t10_ok : k5_t10_loop.OK
  k5_off16_inb : ∀ (k5_t8 : Fin k5_t8_loop.trips) (k5_t10 : Fin k5_t10_loop.trips), ∀ a, (k5_off16 k5_t8 k5_t10) a + S16.size a ≤ S25600.size a
  k5_mult3_dvd : ∀ (i : grid5.Coords) (k5_t8 : Fin k5_t8_loop.trips), 8 ∣ (k5_mult3 i k5_t8).toNat
  k5_off17_inb : ∀ (i : grid5.Coords) (k5_t8 : Fin k5_t8_loop.trips), ∀ a, (k5_off17 i k5_t8) a + S40x128.size a ≤ S102400x128.size a
  k5_t11_ok : ∀ k5_t8 : Fin k5_t8_loop.trips, ∀ (k5_h2 : k5_cond2 k5_t8 = 1#1), k5_t11_loop.OK
  k5_off18_inb : ∀ (k5_t8 : Fin k5_t8_loop.trips) (k5_t11 : Fin k5_t11_loop.trips), ∀ (k5_h2 : k5_cond2 k5_t8 = 1#1), ∀ a, (k5_off18 k5_t8 k5_t11) a + S16.size a ≤ S25600.size a
  k5_off19_inb : ∀ (k5_t8 : Fin k5_t8_loop.trips) (k5_t11 : Fin k5_t11_loop.trips), ∀ (k5_h2 : k5_cond2 k5_t8 = 1#1), ∀ a, (k5_off19 k5_t11) a + S16.size a ≤ S320.size a
  k5_t12_ok : k5_t12_loop.OK
  k5_off20_inb : ∀ (k5_t8 : Fin k5_t8_loop.trips) (k5_t12 : Fin k5_t12_loop.trips), ∀ a, (k5_off20 k5_t8 k5_t12) a + S16.size a ≤ S25600.size a
  k5_mult4_dvd : ∀ (i : grid5.Coords) (k5_t8 : Fin k5_t8_loop.trips), 8 ∣ (k5_mult4 i k5_t8).toNat
  k5_off21_inb : ∀ (i : grid5.Coords) (k5_t8 : Fin k5_t8_loop.trips), ∀ a, (k5_off21 i k5_t8) a + S40x128.size a ≤ S102400x128.size a
  k5_t13_ok : k5_t13_loop.OK
  k5_off22_inb : ∀ k5_t13 : Fin k5_t13_loop.trips, ∀ a, (k5_off22 k5_t13) a + S16.size a ≤ S25600.size a
  k5_off23_inb : ∀ k5_t13 : Fin k5_t13_loop.trips, ∀ a, (k5_off23 k5_t13) a + S16.size a ≤ S320.size a
  k5_t14_ok : k5_t14_loop.OK
  k5_t15_ok : k5_t15_loop.OK
  k5_off24_inb : ∀ (k5_t14 : Fin k5_t14_loop.trips) (k5_t15 : Fin k5_t15_loop.trips), ∀ a, (k5_off24 k5_t14 k5_t15) a + S16.size a ≤ S25600.size a
  k5_off25_inb : ∀ k5_t15 : Fin k5_t15_loop.trips, ∀ a, (k5_off25 k5_t15) a + S16.size a ≤ S320.size a
  k5_t16_ok : k5_t16_loop.OK
  k5_off26_inb : ∀ (k5_t14 : Fin k5_t14_loop.trips) (k5_t16 : Fin k5_t16_loop.trips), ∀ a, (k5_off26 k5_t14 k5_t16) a + S16.size a ≤ S25600.size a
  k5_mult5_dvd : ∀ (i : grid5.Coords) (k5_t14 : Fin k5_t14_loop.trips), 8 ∣ (k5_mult5 i k5_t14).toNat
  k5_off27_inb : ∀ (i : grid5.Coords) (k5_t14 : Fin k5_t14_loop.trips), ∀ a, (k5_off27 i k5_t14) a + S40x128.size a ≤ S102400x128.size a
  k5_t17_ok : ∀ k5_t14 : Fin k5_t14_loop.trips, ∀ (k5_h3 : k5_cond3 k5_t14 = 1#1), k5_t17_loop.OK
  k5_off28_inb : ∀ (k5_t14 : Fin k5_t14_loop.trips) (k5_t17 : Fin k5_t17_loop.trips), ∀ (k5_h3 : k5_cond3 k5_t14 = 1#1), ∀ a, (k5_off28 k5_t14 k5_t17) a + S16.size a ≤ S25600.size a
  k5_off29_inb : ∀ (k5_t14 : Fin k5_t14_loop.trips) (k5_t17 : Fin k5_t17_loop.trips), ∀ (k5_h3 : k5_cond3 k5_t14 = 1#1), ∀ a, (k5_off29 k5_t17) a + S16.size a ≤ S320.size a
  k5_t18_ok : k5_t18_loop.OK
  k5_off30_inb : ∀ (k5_t14 : Fin k5_t14_loop.trips) (k5_t18 : Fin k5_t18_loop.trips), ∀ a, (k5_off30 k5_t14 k5_t18) a + S16.size a ≤ S25600.size a
  k5_mult6_dvd : ∀ (i : grid5.Coords) (k5_t14 : Fin k5_t14_loop.trips), 8 ∣ (k5_mult6 i k5_t14).toNat
  k5_off31_inb : ∀ (i : grid5.Coords) (k5_t14 : Fin k5_t14_loop.trips), ∀ a, (k5_off31 i k5_t14) a + S40x128.size a ≤ S102400x128.size a
  k5_t19_ok : k5_t19_loop.OK
  k5_off32_inb : ∀ k5_t19 : Fin k5_t19_loop.trips, ∀ a, (k5_off32 k5_t19) a + S16.size a ≤ S25600.size a
  k5_off33_inb : ∀ k5_t19 : Fin k5_t19_loop.trips, ∀ a, (k5_off33 k5_t19) a + S16.size a ≤ S320.size a
  k5_t20_ok : k5_t20_loop.OK
  k5_t21_ok : k5_t21_loop.OK
  k5_off34_inb : ∀ (k5_t20 : Fin k5_t20_loop.trips) (k5_t21 : Fin k5_t21_loop.trips), ∀ a, (k5_off34 k5_t20 k5_t21) a + S16.size a ≤ S25600.size a
  k5_off35_inb : ∀ k5_t21 : Fin k5_t21_loop.trips, ∀ a, (k5_off35 k5_t21) a + S16.size a ≤ S320.size a
  k5_t22_ok : k5_t22_loop.OK
  k5_off36_inb : ∀ (k5_t20 : Fin k5_t20_loop.trips) (k5_t22 : Fin k5_t22_loop.trips), ∀ a, (k5_off36 k5_t20 k5_t22) a + S16.size a ≤ S25600.size a
  k5_mult7_dvd : ∀ (i : grid5.Coords) (k5_t20 : Fin k5_t20_loop.trips), 8 ∣ (k5_mult7 i k5_t20).toNat
  k5_off37_inb : ∀ (i : grid5.Coords) (k5_t20 : Fin k5_t20_loop.trips), ∀ a, (k5_off37 i k5_t20) a + S40x128.size a ≤ S102400x128.size a
  k5_t23_ok : ∀ k5_t20 : Fin k5_t20_loop.trips, ∀ (k5_h4 : k5_cond4 k5_t20 = 1#1), k5_t23_loop.OK
  k5_off38_inb : ∀ (k5_t20 : Fin k5_t20_loop.trips) (k5_t23 : Fin k5_t23_loop.trips), ∀ (k5_h4 : k5_cond4 k5_t20 = 1#1), ∀ a, (k5_off38 k5_t20 k5_t23) a + S16.size a ≤ S25600.size a
  k5_off39_inb : ∀ (k5_t20 : Fin k5_t20_loop.trips) (k5_t23 : Fin k5_t23_loop.trips), ∀ (k5_h4 : k5_cond4 k5_t20 = 1#1), ∀ a, (k5_off39 k5_t23) a + S16.size a ≤ S320.size a
  k5_t24_ok : k5_t24_loop.OK
  k5_off40_inb : ∀ (k5_t20 : Fin k5_t20_loop.trips) (k5_t24 : Fin k5_t24_loop.trips), ∀ a, (k5_off40 k5_t20 k5_t24) a + S16.size a ≤ S25600.size a
  k5_mult8_dvd : ∀ (i : grid5.Coords) (k5_t20 : Fin k5_t20_loop.trips), 8 ∣ (k5_mult8 i k5_t20).toNat
  k5_off41_inb : ∀ (i : grid5.Coords) (k5_t20 : Fin k5_t20_loop.trips), ∀ a, (k5_off41 i k5_t20) a + S40x128.size a ≤ S102400x128.size a

variable [Facts₀]

abbrev cc5_scratch6 : DmaSems sig S_ := SemArray.consecutive 20 S_ hcc5_scratch6
abbrev cc5_scratch7 : DmaSems sig S_ := SemArray.consecutive 21 S_ hcc5_scratch7
abbrev cc5_scoped0 : DmaSems sig S_ := SemArray.consecutive 22 S_ hcc5_scoped0
abbrev cc5_scoped1 : DmaSems sig S_ := SemArray.consecutive 23 S_ hcc5_scoped1
abbrev cc5_scoped2 : DmaSems sig S_ := SemArray.consecutive 24 S_ hcc5_scoped2
abbrev cc5_scoped3 : DmaSems sig S_ := SemArray.consecutive 25 S_ hcc5_scoped3
abbrev cc5_scoped4 : DmaSems sig S_ := SemArray.consecutive 26 S_ hcc5_scoped4
abbrev cc5_scoped5 : DmaSems sig S_ := SemArray.consecutive 27 S_ hcc5_scoped5
abbrev cc5_scoped6 : DmaSems sig S_ := SemArray.consecutive 28 S_ hcc5_scoped6
abbrev cc5_scoped7 : DmaSems sig S_ := SemArray.consecutive 29 S_ hcc5_scoped7
abbrev cc5_scoped8 : DmaSems sig S_ := SemArray.consecutive 30 S_ hcc5_scoped8
abbrev cc5_scoped9 : DmaSems sig S_ := SemArray.consecutive 31 S_ hcc5_scoped9
abbrev cc5_scoped10 : DmaSems sig S_ := SemArray.consecutive 32 S_ hcc5_scoped10
abbrev cc5_scoped11 : DmaSems sig S_ := SemArray.consecutive 33 S_ hcc5_scoped11
def dot_S12500x128_S128x8_S12500x8_1_0_0_1_n_n : DotDims S12500x128 S128x8 S12500x8 where
  lhsContracting := [1]
  rhsContracting := [0]
  lhsNonContracting := [0]
  rhsNonContracting := [1]
  lhsBatch := []
  rhsBatch := []
  wf := dot_S12500x128_S128x8_S12500x8_1_0_0_1_n_n_wf
def dot_S12500x8_S8x128_S12500x128_1_0_0_1_n_n : DotDims S12500x8 S8x128 S12500x128 where
  lhsContracting := [1]
  rhsContracting := [0]
  lhsNonContracting := [0]
  rhsNonContracting := [1]
  lhsBatch := []
  rhsBatch := []
  wf := dot_S12500x8_S8x128_S12500x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.whole (Memref.whole main_cst) false false (stage1_0 0) (sem1_0 0) (Memref.isWhole_whole _) (hstage1_0 0)

abbrev win1_1 : Pipeline.Window sig grid1 :=
  Pipeline.Window.whole (Memref.whole main_cst_0) false false (stage1_1 0) (sem1_1 0) (Memref.isWhole_whole _) (hstage1_1 0)

abbrev win1_2 : Pipeline.Window sig grid1 :=
  Pipeline.Window.whole (Memref.whole main_v3) false false (stage1_2 0) (sem1_2 0) (Memref.isWhole_whole _) (hstage1_2 0)

abbrev win1_3 : Pipeline.Window sig grid1 :=
  Pipeline.Window.whole (Memref.whole main_v7) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.whole (Memref.whole main_cst) false false (stage2_0 0) (sem2_0 0) (Memref.isWhole_whole _) (hstage2_0 0)

abbrev win2_1 : Pipeline.Window sig grid2 :=
  Pipeline.Window.whole (Memref.whole main_cst_0) false false (stage2_1 0) (sem2_1 0) (Memref.isWhole_whole _) (hstage2_1 0)

abbrev win2_2 : Pipeline.Window sig grid2 :=
  Pipeline.Window.whole (Memref.whole main_v4) false false (stage2_2 0) (sem2_2 0) (Memref.isWhole_whole _) (hstage2_2 0)

abbrev win2_3 : Pipeline.Window sig grid2 :=
  Pipeline.Window.whole (Memref.whole main_v8) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.whole (Memref.whole main_cst) false false (stage3_0 0) (sem3_0 0) (Memref.isWhole_whole _) (hstage3_0 0)

abbrev win3_1 : Pipeline.Window sig grid3 :=
  Pipeline.Window.whole (Memref.whole main_cst_0) false false (stage3_1 0) (sem3_1 0) (Memref.isWhole_whole _) (hstage3_1 0)

abbrev win3_2 : Pipeline.Window sig grid3 :=
  Pipeline.Window.whole (Memref.whole main_v5) false false (stage3_2 0) (sem3_2 0) (Memref.isWhole_whole _) (hstage3_2 0)

abbrev win3_3 : Pipeline.Window sig grid3 :=
  Pipeline.Window.whole (Memref.whole main_v9) true false (stage3_3 0) (sem3_3 0) (Memref.isWhole_whole _) (hstage3_3 0)

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.whole (Memref.whole main_cst) false false (stage4_0 0) (sem4_0 0) (Memref.isWhole_whole _) (hstage4_0 0)

abbrev win4_1 : Pipeline.Window sig grid4 :=
  Pipeline.Window.whole (Memref.whole main_cst_0) false false (stage4_1 0) (sem4_1 0) (Memref.isWhole_whole _) (hstage4_1 0)

abbrev win4_2 : Pipeline.Window sig grid4 :=
  Pipeline.Window.whole (Memref.whole main_v6) false false (stage4_2 0) (sem4_2 0) (Memref.isWhole_whole _) (hstage4_2 0)

abbrev win4_3 : Pipeline.Window sig grid4 :=
  Pipeline.Window.whole (Memref.whole main_v10) true false (stage4_3 0) (sem4_3 0) (Memref.isWhole_whole _) (hstage4_3 0)

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S16384x13 : Shape := ⟨2, ![16384, 13]⟩
abbrev S16384x26 : Shape := ⟨2, ![16384, 26]⟩
abbrev S16384x50 : Shape := ⟨2, ![16384, 50]⟩
abbrev S13 : Shape := ⟨1, ![13]⟩
abbrev S100000x16 : Shape := ⟨2, ![100000, 16]⟩
abbrev S_ : Shape := ⟨0, ![]⟩
abbrev S1x13 : Shape := ⟨2, ![1, 13]⟩
abbrev S16384x50x1 : Shape := ⟨3, ![16384, 50, 1]⟩
abbrev S1 : Shape := ⟨1, ![1]⟩
abbrev S1x1x1 : Shape := ⟨3, ![1, 1, 1]⟩
abbrev S16384x50x16 : Shape := ⟨3, ![16384, 50, 16]⟩

abbrev nBuf : Space → Nat
  | .hbm => 228
  | .vmem => 0
  | .smem => 0
  | _ => 0

abbrev hbmTy0_0 (i : Nat) : BufTy := match i % 128 with
  | 0 => ⟨S16384x13, .f32⟩
  | 1 => ⟨S16384x26, .i32⟩
  | 2 => ⟨S16384x50, .i32⟩
  | 3 => ⟨S16384x50, .i32⟩
  | 4 => ⟨S16384x50, .i32⟩
  | 5 => ⟨S16384x50, .i32⟩
  | 6 => ⟨S13, .f32⟩
  | 7 => ⟨S13, .f32⟩
  | 8 => ⟨S100000x16, .f32⟩
  | 9 => ⟨S100000x16, .f32⟩
  | 10 => ⟨S100000x16, .f32⟩
  | 11 => ⟨S100000x16, .f32⟩
  | 12 => ⟨S_, .f32⟩
  | 13 => ⟨S13, .f32⟩
  | 14 => ⟨S_, .f32⟩
  | 15 => ⟨S13, .f32⟩
  | 16 => ⟨S13, .f32⟩
  | 17 => ⟨S_, .i32⟩
  | 18 => ⟨S_, .f32⟩
  | 19 => ⟨S13, .f32⟩
  | 20 => ⟨S1x13, .f32⟩
  | 21 => ⟨S_, .f32⟩
  | 22 => ⟨S1x13, .f32⟩
  | 23 => ⟨S1x13, .f32⟩
  | 24 => ⟨S16384x13, .f32⟩
  | 25 => ⟨S16384x13, .f32⟩
  | 26 => ⟨S16384x13, .f32⟩
  | 27 => ⟨S_, .f32⟩
  | 28 => ⟨S_, .f32⟩
  | 29 => ⟨S_, .f32⟩
  | 30 => ⟨S_, .f32⟩
  | 31 => ⟨S13, .f32⟩
  | 32 => ⟨S13, .f32⟩
  | 33 => ⟨S13, .f32⟩
  | 34 => ⟨S_, .f32⟩
  | 35 => ⟨S_, .i1⟩
  | 36 => ⟨S_, .f32⟩
  | 37 => ⟨S_, .f32⟩
  | 38 => ⟨S13, .f32⟩
  | 39 => ⟨S13, .f32⟩
  | 40 => ⟨S1x13, .f32⟩
  | 41 => ⟨S16384x13, .f32⟩
  | 42 => ⟨S16384x13, .f32⟩
  | 43 => ⟨S_, .f32⟩
  | 44 => ⟨S13, .f32⟩
  | 45 => ⟨S13, .f32⟩
  | 46 => ⟨S13, .f32⟩
  | 47 => ⟨S1x13, .f32⟩
  | 48 => ⟨S16384x13, .f32⟩
  | 49 => ⟨S16384x13, .f32⟩
  | 50 => ⟨S1x13, .f32⟩
  | 51 => ⟨S16384x13, .f32⟩
  | 52 => ⟨S16384x13, .f32⟩
  | 53 => ⟨S1x13, .f32⟩
  | 54 => ⟨S16384x13, .f32⟩
  | 55 => ⟨S16384x13, .f32⟩
  | 56 => ⟨S_, .i32⟩
  | 57 => ⟨S16384x50, .i32⟩
  | 58 => ⟨S16384x50, .i1⟩
  | 59 => ⟨S_, .i32⟩
  | 60 => ⟨S16384x50, .i32⟩
  | 61 => ⟨S16384x50, .i32⟩
  | 62 => ⟨S16384x50, .i32⟩
  | 63 => ⟨S16384x50x1, .i32⟩
  | 64 => ⟨S1, .i32⟩
  | 65 => ⟨S_, .i32⟩
  | 66 => ⟨S16384x50x1, .i32⟩
  | 67 => ⟨S16384x50x1, .i1⟩
  | 68 => ⟨S1x1x1, .i32⟩
  | 69 => ⟨S16384x50x1, .i32⟩
  | 70 => ⟨S16384x50x1, .i1⟩
  | 71 => ⟨S16384x50x1, .i1⟩
  | 72 => ⟨S_, .i1⟩
  | 73 => ⟨S16384x50, .i1⟩
  | 74 => ⟨S16384x50x16, .f32⟩
  | 75 => ⟨S16384x50x16, .i1⟩
  | 76 => ⟨S_, .f32⟩
  | 77 => ⟨S16384x50x16, .f32⟩
  | 78 => ⟨S16384x50x16, .f32⟩
  | 79 => ⟨S16384x50x16, .f32⟩
  | 80 => ⟨S_, .f32⟩
  | 81 => ⟨S16384x50, .f32⟩
  | 82 => ⟨S16384x50x1, .f32⟩
  | 83 => ⟨S16384x50x1, .f32⟩
  | 84 => ⟨S_, .f32⟩
  | 85 => ⟨S16384x50x1, .f32⟩
  | 86 => ⟨S16384x50x1, .i1⟩
  | 87 => ⟨S_, .f32⟩
  | 88 => ⟨S16384x50x1, .f32⟩
  | 89 => ⟨S16384x50x1, .f32⟩
  | 90 => ⟨S_, .f32⟩
  | 91 => ⟨S16384x50x1, .f32⟩
  | 92 => ⟨S16384x50x1, .f32⟩
  | 93 => ⟨S_, .f32⟩
  | 94 => ⟨S_, .f32⟩
  | 95 => ⟨S16384x50x1, .f32⟩
  | 96 => ⟨S16384x50x1, .f32⟩
  | 97 => ⟨S16384x50x16, .f32⟩
  | 98 => ⟨S16384x50x16, .f32⟩
  | 99 => ⟨S_, .i32⟩
  | 100 => ⟨S16384x50, .i32⟩
  | 101 => ⟨S16384x50, .i1⟩
  | 102 => ⟨S_, .i32⟩
  | 103 => ⟨S16384x50, .i32⟩
  | 104 => ⟨S16384x50, .i32⟩
  | 105 => ⟨S16384x50, .i32⟩
  | 106 => ⟨S16384x50x1, .i32⟩
  | 107 => ⟨S1, .i32⟩
  | 108 => ⟨S_, .i32⟩
  | 109 => ⟨S16384x50x1, .i32⟩
  | 110 => ⟨S16384x50x1, .i1⟩
  | 111 => ⟨S1x1x1, .i32⟩
  | 112 => ⟨S16384x50x1, .i32⟩
  | 113 => ⟨S16384x50x1, .i1⟩
  | 114 => ⟨S16384x50x1, .i1⟩
  | 115 => ⟨S_, .i1⟩
  | 116 => ⟨S16384x50, .i1⟩
  | 117 => ⟨S16384x50x16, .f32⟩
  | 118 => ⟨S16384x50x16, .i1⟩
  | 119 => ⟨S_, .f32⟩
  | 120 => ⟨S16384x50x16, .f32⟩
  | 121 => ⟨S16384x50x16, .f32⟩
  | 122 => ⟨S16384x50x16, .f32⟩
  | 123 => ⟨S_, .f32⟩
  | 124 => ⟨S16384x50, .f32⟩
  | 125 => ⟨S16384x50x1, .f32⟩
  | 126 => ⟨S16384x50x1, .f32⟩
  | 127 => ⟨S_, .f32⟩
  | _ => ⟨S16384x13, .f32⟩

abbrev hbmTy0_1 (i : Nat) : BufTy := match i % 128 with
  | 0 => ⟨S16384x50x1, .f32⟩
  | 1 => ⟨S16384x50x1, .i1⟩
  | 2 => ⟨S_, .f32⟩
  | 3 => ⟨S16384x50x1, .f32⟩
  | 4 => ⟨S16384x50x1, .f32⟩
  | 5 => ⟨S_, .f32⟩
  | 6 => ⟨S16384x50x1, .f32⟩
  | 7 => ⟨S16384x50x1, .f32⟩
  | 8 => ⟨S_, .f32⟩
  | 9 => ⟨S_, .f32⟩
  | 10 => ⟨S16384x50x1, .f32⟩
  | 11 => ⟨S16384x50x1, .f32⟩
  | 12 => ⟨S16384x50x16, .f32⟩
  | 13 => ⟨S16384x50x16, .f32⟩
  | 14 => ⟨S_, .i32⟩
  | 15 => ⟨S16384x50, .i32⟩
  | 16 => ⟨S16384x50, .i1⟩
  | 17 => ⟨S_, .i32⟩
  | 18 => ⟨S16384x50, .i32⟩
  | 19 => ⟨S16384x50, .i32⟩
  | 20 => ⟨S16384x50, .i32⟩
  | 21 => ⟨S16384x50x1, .i32⟩
  | 22 => ⟨S1, .i32⟩
  | 23 => ⟨S_, .i32⟩
  | 24 => ⟨S16384x50x1, .i32⟩
  | 25 => ⟨S16384x50x1, .i1⟩
  | 26 => ⟨S1x1x1, .i32⟩
  | 27 => ⟨S16384x50x1, .i32⟩
  | 28 => ⟨S16384x50x1, .i1⟩
  | 29 => ⟨S16384x50x1, .i1⟩
  | 30 => ⟨S_, .i1⟩
  | 31 => ⟨S16384x50, .i1⟩
  | 32 => ⟨S16384x50x16, .f32⟩
  | 33 => ⟨S16384x50x16, .i1⟩
  | 34 => ⟨S_, .f32⟩
  | 35 => ⟨S16384x50x16, .f32⟩
  | 36 => ⟨S16384x50x16, .f32⟩
  | 37 => ⟨S16384x50x16, .f32⟩
  | 38 => ⟨S_, .f32⟩
  | 39 => ⟨S16384x50, .f32⟩
  | 40 => ⟨S16384x50x1, .f32⟩
  | 41 => ⟨S16384x50x1, .f32⟩
  | 42 => ⟨S_, .f32⟩
  | 43 => ⟨S16384x50x1, .f32⟩
  | 44 => ⟨S16384x50x1, .i1⟩
  | 45 => ⟨S_, .f32⟩
  | 46 => ⟨S16384x50x1, .f32⟩
  | 47 => ⟨S16384x50x1, .f32⟩
  | 48 => ⟨S_, .f32⟩
  | 49 => ⟨S16384x50x1, .f32⟩
  | 50 => ⟨S16384x50x1, .f32⟩
  | 51 => ⟨S_, .f32⟩
  | 52 => ⟨S_, .f32⟩
  | 53 => ⟨S16384x50x1, .f32⟩
  | 54 => ⟨S16384x50x1, .f32⟩
  | 55 => ⟨S16384x50x16, .f32⟩
  | 56 => ⟨S16384x50x16, .f32⟩
  | 57 => ⟨S_, .i32⟩
  | 58 => ⟨S16384x50, .i32⟩
  | 59 => ⟨S16384x50, .i1⟩
  | 60 => ⟨S_, .i32⟩
  | 61 => ⟨S16384x50, .i32⟩
  | 62 => ⟨S16384x50, .i32⟩
  | 63 => ⟨S16384x50, .i32⟩
  | 64 => ⟨S16384x50x1, .i32⟩
  | 65 => ⟨S1, .i32⟩
  | 66 => ⟨S_, .i32⟩
  | 67 => ⟨S16384x50x1, .i32⟩
  | 68 => ⟨S16384x50x1, .i1⟩
  | 69 => ⟨S1x1x1, .i32⟩
  | 70 => ⟨S16384x50x1, .i32⟩
  | 71 => ⟨S16384x50x1, .i1⟩
  | 72 => ⟨S16384x50x1, .i1⟩
  | 73 => ⟨S_, .i1⟩
  | 74 => ⟨S16384x50, .i1⟩
  | 75 => ⟨S16384x50x16, .f32⟩
  | 76 => ⟨S16384x50x16, .i1⟩
  | 77 => ⟨S_, .f32⟩
  | 78 => ⟨S16384x50x16, .f32⟩
  | 79 => ⟨S16384x50x16, .f32⟩
  | 80 => ⟨S16384x50x16, .f32⟩
  | 81 => ⟨S_, .f32⟩
  | 82 => ⟨S16384x50, .f32⟩
  | 83 => ⟨S16384x50x1, .f32⟩
  | 84 => ⟨S16384x50x1, .f32⟩
  | 85 => ⟨S_, .f32⟩
  | 86 => ⟨S16384x50x1, .f32⟩
  | 87 => ⟨S16384x50x1, .i1⟩
  | 88 => ⟨S_, .f32⟩
  | 89 => ⟨S16384x50x1, .f32⟩
  | 90 => ⟨S16384x50x1, .f32⟩
  | 91 => ⟨S_, .f32⟩
  | 92 => ⟨S16384x50x1, .f32⟩
  | 93 => ⟨S16384x50x1, .f32⟩
  | 94 => ⟨S_, .f32⟩
  | 95 => ⟨S_, .f32⟩
  | 96 => ⟨S16384x50x1, .f32⟩
  | 97 => ⟨S16384x50x1, .f32⟩
  | 98 => ⟨S16384x50x16, .f32⟩
  | 99 => ⟨S16384x50x16, .f32⟩
  | _ => ⟨S16384x13, .f32⟩

abbrev hbmTy (i : Nat) : BufTy := match i / 128 with
  | 0 => hbmTy0_0 i
  | 1 => hbmTy0_1 i
  | _ => ⟨S16384x13, .f32⟩

abbrev bufTy : (tb : Table) → Fin (tcTables nBuf tb) → BufTy
  | .hbm, ⟨i, _⟩ => hbmTy i
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v19 : Ref sig .tc := ⟨.hbm, 78, rfl⟩
abbrev main_call2_v0 : Ref sig .tc := ⟨.hbm, 79, rfl⟩
abbrev main_call2_cst : Ref sig .tc := ⟨.hbm, 80, rfl⟩
abbrev main_call2_v1 : Ref sig .tc := ⟨.hbm, 81, rfl⟩
abbrev main_call2_v2 : Ref sig .tc := ⟨.hbm, 82, rfl⟩
abbrev main_v20 : Ref sig .tc := ⟨.hbm, 83, rfl⟩
abbrev main_cst_2 : Ref sig .tc := ⟨.hbm, 84, rfl⟩
abbrev main_v21 : Ref sig .tc := ⟨.hbm, 85, rfl⟩
abbrev main_v22 : Ref sig .tc := ⟨.hbm, 86, rfl⟩
abbrev main_cst_3 : Ref sig .tc := ⟨.hbm, 87, rfl⟩
abbrev main_v23 : Ref sig .tc := ⟨.hbm, 88, rfl⟩
abbrev main_v24 : Ref sig .tc := ⟨.hbm, 89, rfl⟩
abbrev main_cst_4 : Ref sig .tc := ⟨.hbm, 90, rfl⟩
abbrev main_v25 : Ref sig .tc := ⟨.hbm, 91, rfl⟩
abbrev main_v26 : Ref sig .tc := ⟨.hbm, 92, rfl⟩
abbrev main_cst_5 : Ref sig .tc := ⟨.hbm, 93, rfl⟩
abbrev main_call3_v0 : Ref sig .tc := ⟨.hbm, 94, rfl⟩
abbrev main_call3_v1 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_call4_cst : Ref sig .tc := ⟨.hbm, 119, rfl⟩
abbrev main_call4_v15 : Ref sig .tc := ⟨.hbm, 120, rfl⟩
abbrev main_v30 : Ref sig .tc := ⟨.hbm, 121, rfl⟩
abbrev main_call5_v0 : Ref sig .tc := ⟨.hbm, 122, rfl⟩
abbrev main_call5_cst : Ref sig .tc := ⟨.hbm, 123, rfl⟩
abbrev main_call5_v1 : Ref sig .tc := ⟨.hbm, 124, rfl⟩
abbrev main_call5_v2 : Ref sig .tc := ⟨.hbm, 125, rfl⟩
abbrev main_v31 : Ref sig .tc := ⟨.hbm, 126, rfl⟩
abbrev main_cst_6 : Ref sig .tc := ⟨.hbm, 127, rfl⟩
abbrev main_v32 : Ref sig .tc := ⟨.hbm, 128, rfl⟩
abbrev main_v33 : Ref sig .tc := ⟨.hbm, 129, rfl⟩
abbrev main_cst_7 : Ref sig .tc := ⟨.hbm, 130, rfl⟩
abbrev main_v34 : Ref sig .tc := ⟨.hbm, 131, rfl⟩
abbrev main_v35 : Ref sig .tc := ⟨.hbm, 132, rfl⟩
abbrev main_cst_8 : Ref sig .tc := ⟨.hbm, 133, rfl⟩
abbrev main_v36 : Ref sig .tc := ⟨.hbm, 134, rfl⟩
abbrev main_v37 : Ref sig .tc := ⟨.hbm, 135, rfl⟩
abbrev main_cst_9 : Ref sig .tc := ⟨.hbm, 136, rfl⟩
abbrev main_call6_v0 : Ref sig .tc := ⟨.hbm, 137, rfl⟩
abbrev main_call6_v1 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_call7_c : Ref sig .tc := ⟨.hbm, 142, rfl⟩
abbrev main_call7_v0 : Ref sig .tc := ⟨.hbm, 143, rfl⟩
abbrev main_call7_v1 : Ref sig .tc := ⟨.hbm, 144, rfl⟩
abbrev main_call7_c_0 : Ref sig .tc := ⟨.hbm, 145, rfl⟩
abbrev main_call7_v2 : Ref sig .tc := ⟨.hbm, 146, rfl⟩
abbrev main_call7_v3 : Ref sig .tc := ⟨.hbm, 147, rfl⟩
abbrev main_call7_v4 : Ref sig .tc := ⟨.hbm, 148, rfl⟩
abbrev main_call7_v5 : Ref sig .tc := ⟨.hbm, 149, rfl⟩
abbrev main_call7_c_1 : Ref sig .tc := ⟨.hbm, 150, rfl⟩
abbrev main_call7_c_2 : Ref sig .tc := ⟨.hbm, 151, rfl⟩
abbrev main_call7_v6 : Ref sig .tc := ⟨.hbm, 152, rfl⟩
abbrev main_call7_v7 : Ref sig .tc := ⟨.hbm, 153, rfl⟩
abbrev main_call7_v8 : Ref sig .tc := ⟨.hbm, 154, rfl⟩
abbrev main_call7_v9 : Ref sig .tc := ⟨.hbm, 155, rfl⟩
abbrev main_call7_v10 : Ref sig .tc := ⟨.hbm, 156, rfl⟩
abbrev main_call7_v11 : Ref sig .tc := ⟨.hbm, 157, rfl⟩
abbrev main_call7_c_3 : Ref sig .tc := ⟨.hbm, 158, rfl⟩
abbrev main_call7_v12 : Ref sig .tc := ⟨.hbm, 159, rfl⟩
abbrev main_call7_v13 : Ref sig .tc := ⟨.hbm, 160, rfl⟩
abbrev main_call7_v14 : Ref sig .tc := ⟨.hbm, 161, rfl⟩
abbrev main_call7_cst : Ref sig .tc := ⟨.hbm, 162, rfl⟩
abbrev main_call7_v15 : Ref sig .tc := ⟨.hbm, 163, rfl⟩
abbrev main_v41 : Ref sig .tc := ⟨.hbm, 164, rfl⟩
abbrev main_call8_v0 : Ref sig .tc := ⟨.hbm, 165, rfl⟩
abbrev main_call8_cst : Ref sig .tc := ⟨.hbm, 166, rfl⟩
abbrev main_call8_v1 : Ref sig .tc := ⟨.hbm, 167, rfl⟩
abbrev main_call8_v2 : Ref sig .tc := ⟨.hbm, 168, rfl⟩
abbrev main_v42 : Ref sig .tc := ⟨.hbm, 169, rfl⟩
abbrev main_cst_10 : Ref sig .tc := ⟨.hbm, 170, rfl⟩
abbrev main_v43 : Ref sig .tc := ⟨.hbm, 171, rfl⟩
abbrev main_v44 : Ref sig .tc := ⟨.hbm, 172, rfl⟩
abbrev main_cst_11 : Ref sig .tc := ⟨.hbm, 173, rfl⟩
abbrev main_v45 : Ref sig .tc := ⟨.hbm, 174, rfl⟩
abbrev main_v46 : Ref sig .tc := ⟨.hbm, 175, rfl⟩
abbrev main_cst_12 : Ref sig .tc := ⟨.hbm, 176, rfl⟩
abbrev main_v47 : Ref sig .tc := ⟨.hbm, 177, rfl⟩
abbrev main_v48 : Ref sig .tc := ⟨.hbm, 178, rfl⟩
abbrev main_cst_13 : Ref sig .tc := ⟨.hbm, 179, rfl⟩
abbrev main_call9_v0 : Ref sig .tc := ⟨.hbm, 180, rfl⟩
abbrev main_call9_v1 : Ref sig .tc := ⟨.hbm, 181, rfl⟩
abbrev main_v49 : Ref sig .tc := ⟨.hbm, 182, rfl⟩
abbrev main_v50 : Ref sig .tc := ⟨.hbm, 183, rfl⟩
abbrev main_v51 : Ref sig .tc := ⟨.hbm, 184, rfl⟩
abbrev main_call10_c : Ref sig .tc := ⟨.hbm, 185, rfl⟩
abbrev main_call10_v0 : Ref sig .tc := ⟨.hbm, 186, rfl⟩
abbrev main_call10_v1 : Ref sig .tc := ⟨.hbm, 187, rfl⟩
abbrev main_call10_c_0 : Ref sig .tc := ⟨.hbm, 188, rfl⟩
abbrev main_call10_v2 : Ref sig .tc := ⟨.hbm, 189, rfl⟩
abbrev main_call10_v3 : Ref sig .tc := ⟨.hbm, 190, rfl⟩
abbrev main_call10_v4 : Ref sig .tc := ⟨.hbm, 191, rfl⟩
abbrev main_call10_v5 : Ref sig .tc := ⟨.hbm, 192, rfl⟩
abbrev main_call10_c_1 : Ref sig .tc := ⟨.hbm, 193, rfl⟩
abbrev main_call10_c_2 : Ref sig .tc := ⟨.hbm, 194, rfl⟩
abbrev main_call10_v6 : Ref sig .tc := ⟨.hbm, 195, rfl⟩
abbrev main_call10_v7 : Ref sig .tc := ⟨.hbm, 196, rfl⟩
abbrev main_call10_v8 : Ref sig .tc := ⟨.hbm, 197, rfl⟩
abbrev main_call10_v9 : Ref sig .tc := ⟨.hbm, 198, rfl⟩
abbrev main_call10_v10 : Ref sig .tc := ⟨.hbm, 199, rfl⟩
abbrev main_call10_v11 : Ref sig .tc := ⟨.hbm, 200, rfl⟩
abbrev main_call10_c_3 : Ref sig .tc := ⟨.hbm, 201, rfl⟩
abbrev main_call10_v12 : Ref sig .tc := ⟨.hbm, 202, rfl⟩
abbrev main_call10_v13 : Ref sig .tc := ⟨.hbm, 203, rfl⟩
abbrev main_call10_v14 : Ref sig .tc := ⟨.hbm, 204, rfl⟩
abbrev main_call10_cst : Ref sig .tc := ⟨.hbm, 205, rfl⟩
abbrev main_call10_v15 : Ref sig .tc := ⟨.hbm, 206, rfl⟩
abbrev main_v52 : Ref sig .tc := ⟨.hbm, 207, rfl⟩
abbrev main_call11_v0 : Ref sig .tc := ⟨.hbm, 208, rfl⟩
abbrev main_call11_cst : Ref sig .tc := ⟨.hbm, 209, rfl⟩
abbrev main_call11_v1 : Ref sig .tc := ⟨.hbm, 210, rfl⟩
abbrev main_call11_v2 : Ref sig .tc := ⟨.hbm, 211, rfl⟩
abbrev main_v53 : Ref sig .tc := ⟨.hbm, 212, rfl⟩
abbrev main_cst_14 : Ref sig .tc := ⟨.hbm, 213, rfl⟩
abbrev main_v54 : Ref sig .tc := ⟨.hbm, 214, rfl⟩
abbrev main_v55 : Ref sig .tc := ⟨.hbm, 215, rfl⟩
abbrev main_cst_15 : Ref sig .tc := ⟨.hbm, 216, rfl⟩
abbrev main_v56 : Ref sig .tc := ⟨.hbm, 217, rfl⟩
abbrev main_v57 : Ref sig .tc := ⟨.hbm, 218, rfl⟩
abbrev main_cst_16 : Ref sig .tc := ⟨.hbm, 219, rfl⟩
abbrev main_v58 : Ref sig .tc := ⟨.hbm, 220, rfl⟩
abbrev main_v59 : Ref sig .tc := ⟨.hbm, 221, rfl⟩
abbrev main_cst_17 : Ref sig .tc := ⟨.hbm, 222, rfl⟩
abbrev main_call12_v0 : Ref sig .tc := ⟨.hbm, 223, rfl⟩
abbrev main_call12_v1 : Ref sig .tc := ⟨.hbm, 224, rfl⟩
abbrev main_v60 : Ref sig .tc := ⟨.hbm, 225, rfl⟩
abbrev main_v61 : Ref sig .tc := ⟨.hbm, 226, rfl⟩
abbrev main_v62 : Ref sig .tc := ⟨.hbm, 227, rfl⟩

abbrev nD : Nat := 1
abbrev τ : Topo := Topo.v7x

variable {F : FTy → Type} [FloatOps F]

class Facts₀ : Prop where
  reducesTo_S16384x13_S13_d0 : S16384x13.ReducesTo [0] S13
  h_S_ : 0 < S_.numel
  bcast_S_S13 : S_.BroadcastsInDim S13 (![] : Fin 0 → Fin S13.rank)
  bcast_S13_S1x13_1 : S13.BroadcastsInDim S1x13 (![1] : Fin 1 → Fin S1x13.rank)
  bcast_S_S1x13 : S_.BroadcastsInDim S1x13 (![] : Fin 0 → Fin S1x13.rank)
  bcast_S1x13_S16384x13_0_1 : S1x13.BroadcastsInDim S16384x13 (![0, 1] : Fin 2 → Fin S16384x13.rank)
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  bcast_S16384x50_S16384x50x16_0_1 : S16384x50.BroadcastsInDim S16384x50x16 (![0, 1] : Fin 2 → Fin S16384x50x16.rank)
  bcast_S_S16384x50x16 : S_.BroadcastsInDim S16384x50x16 (![] : Fin 0 → Fin S16384x50x16.rank)
  reducesTo_S16384x50x16_S16384x50_d2 : S16384x50x16.ReducesTo [2] S16384x50
  bcast_S16384x50x1_S16384x50x16_0_1_2 : S16384x50x1.BroadcastsInDim S16384x50x16 (![0, 1, 2] : Fin 3 → Fin S16384x50x16.rank)
  gather_S100000x16_S16384x50x1_S16384x50x16_2_0_n_n_0_2_116_wf : GatherDims.WF S100000x16 S16384x50x1 S16384x50x16 [2] [0] [] [0] [] 2 ![1, 16]

variable [Facts₀]

def gather_S100000x16_S16384x50x1_S16384x50x16_2_0_n_n_0_2_116 : GatherDims S100000x16 S16384x50x1 S16384x50x16 where
  offsetDims := [2]
  collapsedSliceDims := [0]
  operandBatchingDims := []
  startIndicesBatchingDims := []
  startIndexMap := [0]
  indexVectorDim := 2
  sliceSizes := ![1, 16]
  wf := gather_S100000x16_S16384x50x1_S16384x50x16_2_0_n_n_0_2_116_wf

class Facts : Prop extends Facts₀ where

variable [Facts]
-- ==== Proof.BScSetup.lean ====
/-
  The SparseCore program as the launch theorem sees it, and the certificate's ghost state: the four launch
  handshakes' rounds, the rounds of the five TensorCore calls' staging cells, and the counters of the tile kernel's
  own local transfers, side by side in one product.
-/
import proofs.«203359_g24824910971486_cont_8to1_1854_34_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203359_g24824910971486_cont_8to1_1854_34_alg».proof.Proof.Gen.Kernel
import proofs.«203359_g24824910971486_cont_8to1_1854_34_alg».proof.Proof.Gen.Kernel.Skeleton

noncomputable section

namespace Cert.Proof.B.ScSetup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 5) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore calls' staging cells' rounds. -/
abbrev UP : Type := URounds (GSem nD τ sig) Unit
/-- Handshakes, staging cells, and the local transfers' counters (found in the right by instance). -/
abbrev UU : Type := UH × (UP × Counters)

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP; infer_instance

example : CountersIn UU := inferInstance

end Cert.Proof.B.ScSetup

end
-- ==== Proof.BScMain.lean ====
/-
  @main on the TensorCore inside the SparseCore launch: the host operations by the buffers held whole, the five
  TensorCore calls and the SparseCore call as steps between valuations of the unscoped buffers.
-/
import proofs.«203359_g24824910971486_cont_8to1_1854_34_alg».proof.Proof.BScSetup

noncomputable section

namespace Cert.Proof.B.ScMain

open Cert.Kernel Cert.Kernel.Gen Cert.Proof.B.ScSetup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The unscoped buffers, held whole -/

/-- Every buffer of @main: the TensorCore's references that are not scoped, as buffers of the device. -/
def Sall : Finset (DevRef τ sig) :=
  (Finset.univ.filter fun b : Ref sig .tc => ¬ b.isScoped).map ⟨Proc.devRef (τ := τ) .tc, Proc.devRef_injective _⟩

/-- The launch contents as a valuation of device `d`'s buffers. -/
def V0 (d : Dev nD) : Valuation τ sig (Elt F) := fun b => m (d, b)

theorem unscoped_held (d : Dev nD) :
    (unscopedBufs d (fun b => m ((SparseCore.T d).loc b)) : sProp 𝕄) = held (SparseCore.T d) Sall (V0 m d) := by
  unfold unscopedBufs held Sall
  rw [bigSep_map]
  rfl

variable [FloatOps F]

/-! ## @main's host operations -/

abbrev opC0 : HloOp τ sig (Elt F) := StableHlo.nullary main_cst (fun i => FloatOps.ofBits .f32 (lit0 (S128x8.rowMajor i)))
abbrev opC1 : HloOp τ sig (Elt F) := StableHlo.nullary main_cst_0 (fun i => FloatOps.ofBits .f32 (lit1 (S8x128.rowMajor i)))
abbrev opG : HloOp τ sig (Elt F) := StableHlo.reshape main_arg6 main_v0 rfl shapeCasts_S13_S1x13
abbrev opB : HloOp τ sig (Elt F) := StableHlo.reshape main_arg7 main_v1 rfl shapeCasts_S13_S1x13
abbrev opT0 : HloOp τ sig (Elt F) := StableHlo.reshape main_arg8 main_v3 rfl shapeCasts_S100000x16_S12500x128
abbrev opT1 : HloOp τ sig (Elt F) := StableHlo.reshape main_arg9 main_v4 rfl shapeCasts_S100000x16_S12500x128
abbrev opT2 : HloOp τ sig (Elt F) := StableHlo.reshape main_arg10 main_v5 rfl shapeCasts_S100000x16_S12500x128
abbrev opT3 : HloOp τ sig (Elt F) := StableHlo.reshape main_arg11 main_v6 rfl shapeCasts_S100000x16_S12500x128
abbrev opI0 : HloOp τ sig (Elt F) := StableHlo.reshape main_arg2 main_v11 rfl shapeCasts_S16384x50_S819200
abbrev opI1 : HloOp τ sig (Elt F) := StableHlo.reshape main_arg3 main_v12 rfl shapeCasts_S16384x50_S819200
abbrev opI2 : HloOp τ sig (Elt F) := StableHlo.reshape main_arg4 main_v13 rfl shapeCasts_S16384x50_S819200
abbrev opI3 : HloOp τ sig (Elt F) := StableHlo.reshape main_arg5 main_v14 rfl shapeCasts_S16384x50_S819200
abbrev opO0 : HloOp τ sig (Elt F) := StableHlo.reshape main_v15_0 main_v16 rfl shapeCasts_S102400x128_S16384x50x16
abbrev opO1 : HloOp τ sig (Elt F) := StableHlo.reshape main_v15_1 main_v17 rfl shapeCasts_S102400x128_S16384x50x16
abbrev opO2 : HloOp τ sig (Elt F) := StableHlo.reshape main_v15_2 main_v18 rfl shapeCasts_S102400x128_S16384x50x16
abbrev opO3 : HloOp τ sig (Elt F) := StableHlo.reshape main_v15_3 main_v19 rfl shapeCasts_S102400x128_S16384x50x16

abbrev dr (b : Ref sig .tc) : DevRef τ sig := Proc.devRef (τ := τ) .tc b

/-- The twelve argument buffers. -/
def Sargs : Finset (DevRef τ sig) :=
  {dr main_arg0, dr main_arg1, dr main_arg2, dr main_arg3, dr main_arg4, dr main_arg5, dr main_arg6, dr main_arg7, dr main_arg8, dr main_arg9, dr main_arg10, dr main_arg11}

theorem Sargs_sub : Sargs ⊆ Sall := by decide

theorem hC0 : (opC0 (F := F)).bufs ⊆ Sall := show ({dr main_cst} : Finset (DevRef τ sig)) ⊆ Sall by decide
theorem hC1 : (opC1 (F := F)).bufs ⊆ Sall := show ({dr main_cst_0} : Finset (DevRef τ sig)) ⊆ Sall by decide
theorem hG : (opG (F := F)).bufs ⊆ Sall := show ({dr main_arg6, dr main_v0} : Finset (DevRef τ sig)) ⊆ Sall by decide
theorem hB : (opB (F := F)).bufs ⊆ Sall := show ({dr main_arg7, dr main_v1} : Finset (DevRef τ sig)) ⊆ Sall by decide
theorem hT0 : (opT0 (F := F)).bufs ⊆ Sall := show ({dr main_arg8, dr main_v3} : Finset (DevRef τ sig)) ⊆ Sall by decide
theorem hT1 : (opT1 (F := F)).bufs ⊆ Sall := show ({dr main_arg9, dr main_v4} : Finset (DevRef τ sig)) ⊆ Sall by decide
theorem hT2 : (opT2 (F := F)).bufs ⊆ Sall := show ({dr main_arg10, dr main_v5} : Finset (DevRef τ sig)) ⊆ Sall by decide
theorem hT3 : (opT3 (F := F)).bufs ⊆ Sall := show ({dr main_arg11, dr main_v6} : Finset (DevRef τ sig)) ⊆ Sall by decide
theorem hI0 : (opI0 (F := F)).bufs ⊆ Sall := show ({dr main_arg2, dr main_v11} : Finset (DevRef τ sig)) ⊆ Sall by decide
theorem hI1 : (opI1 (F := F)).bufs ⊆ Sall := show ({dr main_arg3, dr main_v12} : Finset (DevRef τ sig)) ⊆ Sall by decide
theorem hI2 : (opI2 (F := F)).bufs ⊆ Sall := show ({dr main_arg4, dr main_v13} : Finset (DevRef τ sig)) ⊆ Sall by decide
theorem hI3 : (opI3 (F := F)).bufs ⊆ Sall := show ({dr main_arg5, dr main_v14} : Finset (DevRef τ sig)) ⊆ Sall by decide
theorem hO0 : (opO0 (F := F)).bufs ⊆ Sall := show ({dr main_v15_0, dr main_v16} : Finset (DevRef τ sig)) ⊆ Sall by decide
theorem hO1 : (opO1 (F := F)).bufs ⊆ Sall := show ({dr main_v15_1, dr main_v17} : Finset (DevRef τ sig)) ⊆ Sall by decide
theorem hO2 : (opO2 (F := F)).bufs ⊆ Sall := show ({dr main_v15_2, dr main_v18} : Finset (DevRef τ sig)) ⊆ Sall by decide
theorem hO3 : (opO3 (F := F)).bufs ⊆ Sall := show ({dr main_v15_3, dr main_v19} : Finset (DevRef τ sig)) ⊆ Sall by decide

/-- One host operation of @main, the buffers held whole: the continuation holds them at the operation's result. -/
theorem host_op (d : Dev nD) (hp : (Proc.tc : Proc τ).kind.runsHlo = true) (op : HloOp τ sig (Elt F)) (hS : op.bufs ⊆ Sall) (hf : op.fresh = ∅)
    (W : Valuation τ sig (Elt F)) (Q : PUnit → sProp 𝕄) :
    iprop(boundary (SparseCore.T d) ∗ (held (SparseCore.T d) Sall W : sProp 𝕄))
      ⊢ iprop(((boundary (SparseCore.T d) ∗ (held (SparseCore.T d) Sall (op.result W) : sProp 𝕄)) -∗ Q PUnit.unit)
          -∗ wp frame (wpE ((K (F := F)).defs (D (F := F))) 𝒱 (SparseCore.T d) none) Set.univ
              (hlo (p := Proc.tc) hp op (fun _ => Prog.ret PUnit.unit)) Q) := by
  iintro ⟨Hb, Hh⟩ Hk
  iapply (wp_hlo_within 𝒱 (SparseCore.T d) none Set.univ (op := op) (S := Sall) hS (V := W) hf) $$ [Hb Hh]
  · isplitl [Hb]; · iexact Hb
    iexact Hh
  iintro Hbh
  rw [wp_ret]; imodintro
  iapply Hk
  iexact Hbh

/-! ## The arguments stay at their launch contents -/

/-- A valuation that still has the launch contents in every argument buffer. -/
def Keeps (d : Dev nD) (W : Valuation τ sig (Elt F)) : Prop := ∀ b ∈ Sargs, W b = V0 m d b

theorem keeps_V0 (d : Dev nD) : Keeps m d (V0 m d) := fun _ _ => rfl

theorem keeps_result (d : Dev nD) (op : HloOp τ sig (Elt F)) (h : Disjoint op.writes Sargs) {W : Valuation τ sig (Elt F)}
    (hW : Keeps m d W) : Keeps m d (op.result W) := fun b hb => by
  rw [op.result_of_not_mem W (Finset.disjoint_right.mp h hb)]; exact hW b hb

theorem keeps_update (d : Dev nD) (b' : DevRef τ sig) (hb' : b' ∉ Sargs) (x : b'.ty.Contents (Elt F)) {W : Valuation τ sig (Elt F)}
    (hW : Keeps m d W) : Keeps m d (Function.update W b' x) := fun b hb => by
  have hne : b ≠ b' := fun e => hb' (by rw [← e]; exact hb)
  rw [Function.update_of_ne hne]; exact hW b hb

/-! ## The TensorCore calls and the SparseCore call as steps -/

section Main

variable (P : (K (F := F)).Pay (nD := nD) (Val := Elt F) (Name := ℕ) (U := UU))

/-- TensorCore call `p` as a step of @main: entered holding every buffer whole at `W` and the calls' ghost state `Gin`,
    it runs to its end and leaves the buffers whole, its output at `R d W`, the ghost state at `Gout`; the TensorCore's
    handshake state is carried through (it owes its start signals meanwhile). -/
def RegionStep (p : Fin 5) (out : Ref sig .tc) (R : (d : Dev nD) → Valuation τ sig (Elt F) → (dr out).ty.Contents (Elt F))
    (Gin Gout : Dev nD → sProp 𝕄) : Prop :=
  ∀ (κ : GSem nD τ sig → ℕ) (d : Dev nD) (W : Valuation τ sig (Elt F)) (Q : PUnit → sProp 𝕄),
    iprop((K (F := F)).ctx EH P κ ∗ (K (F := F)).tcSt EH d 0 ∗ boundary (SparseCore.T d) ∗ (held (SparseCore.T d) Sall W : sProp 𝕄) ∗ Gin d)
      ⊢ iprop((((K (F := F)).tcSt EH d 0 ∗ boundary (SparseCore.T d)
              ∗ (held (SparseCore.T d) Sall (Function.update W (dr out) (R d W)) : sProp 𝕄) ∗ Gout d) -∗ Q PUnit.unit)
          -∗ wp frame (wpE ((K (F := F)).defs (D (F := F))) 𝒱 (SparseCore.T d) none) Set.univ
              (Prog.lift (TpuEff.customCall (SparseCore.inner (Pipeline.entry p)) ())) Q)

variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))

/-- The buffers before TensorCore call 0: the two constants and the two reshaped vectors written. -/
abbrev WA (d : Dev nD) : Valuation τ sig (Elt F) := opB.result (opG.result (opC1.result (opC0.result (V0 m d))))
abbrev WA' (d : Dev nD) : Valuation τ sig (Elt F) := Function.update (WA m d) (dr main_v2) (R0 d (WA m d))
/-- before calls 1 to 4: the four tables reshaped. -/
abbrev WB (d : Dev nD) : Valuation τ sig (Elt F) := opT3.result (opT2.result (opT1.result (opT0.result (WA' m R0 d))))
abbrev WB1 (d : Dev nD) : Valuation τ sig (Elt F) := Function.update (WB m R0 d) (dr main_v7) (R1 d (WB m R0 d))
abbrev WB2 (d : Dev nD) : Valuation τ sig (Elt F) := Function.update (WB1 m R0 R1 d) (dr main_v8) (R2 d (WB1 m R0 R1 d))
abbrev WB3 (d : Dev nD) : Valuation τ sig (Elt F) := Function.update (WB2 m R0 R1 R2 d) (dr main_v9) (R3 d (WB2 m R0 R1 R2 d))
abbrev WB4 (d : Dev nD) : Valuation τ sig (Elt F) := Function.update (WB3 m R0 R1 R2 R3 d) (dr main_v10) (R4 d (WB3 m R0 R1 R2 R3 d))
/-- at the SparseCore call: the four index arrays flattened. -/
abbrev WC (d : Dev nD) : Valuation τ sig (Elt F) := opI3.result (opI2.result (opI1.result (opI0.result (WB4 m R0 R1 R2 R3 R4 d))))

theorem keeps_WC (d : Dev nD) : Keeps m d (WC m R0 R1 R2 R3 R4 d) := by
  unfold WC WB4 WB3 WB2 WB1 WB WA' WA
  refine keeps_result m d _ (show Disjoint ({dr main_v14} : Finset (DevRef τ sig)) Sargs by decide) ?_
  refine keeps_result m d _ (show Disjoint ({dr main_v13} : Finset (DevRef τ sig)) Sargs by decide) ?_
  refine keeps_result m d _ (show Disjoint ({dr main_v12} : Finset (DevRef τ sig)) Sargs by decide) ?_
  refine keeps_result m d _ (show Disjoint ({dr main_v11} : Finset (DevRef τ sig)) Sargs by decide) ?_
  refine keeps_update m d _ (show dr main_v10 ∉ Sargs by decide) _ ?_
  refine keeps_update m d _ (show dr main_v9 ∉ Sargs by decide) _ ?_
  refine keeps_update m d _ (show dr main_v8 ∉ Sargs by decide) _ ?_
  refine keeps_update m d _ (show dr main_v7 ∉ Sargs by decide) _ ?_
  refine keeps_result m d _ (show Disjoint ({dr main_v6} : Finset (DevRef τ sig)) Sargs by decide) ?_
  refine keeps_result m d _ (show Disjoint ({dr main_v5} : Finset (DevRef τ sig)) Sargs by decide) ?_
  refine keeps_result m d _ (show Disjoint ({dr main_v4} : Finset (DevRef τ sig)) Sargs by decide) ?_
  refine keeps_result m d _ (show Disjoint ({dr main_v3} : Finset (DevRef τ sig)) Sargs by decide) ?_
  refine keeps_update m d _ (show dr main_v2 ∉ Sargs by decide) _ ?_
  refine keeps_result m d _ (show Disjoint ({dr main_v1} : Finset (DevRef τ sig)) Sargs by decide) ?_
  refine keeps_result m d _ (show Disjoint ({dr main_v0} : Finset (DevRef τ sig)) Sargs by decide) ?_
  refine keeps_result m d _ (show Disjoint ({dr main_cst_0} : Finset (DevRef τ sig)) Sargs by decide) ?_
  refine keeps_result m d _ (show Disjoint ({dr main_cst} : Finset (DevRef τ sig)) Sargs by decide) ?_
  exact keeps_V0 m d

/-- The SparseCore call as a step: the buffers held whole at the call's valuation split into what each SparseCore is
    handed, and what they hand back joins into the buffers whole again, the arguments untouched. -/
def CallStep : Prop :=
  ∀ d : Dev nD, (held (SparseCore.T d) Sall (WC m R0 R1 R2 R3 R4 d) : sProp 𝕄)
    ⊢ |={Set.univ}=> iprop((bigSep Finset.univ fun c : Fin ((K (F := F)).nCore 0) => P.st 0 d c)
        ∗ ((bigSep Finset.univ fun c : Fin ((K (F := F)).nCore 0) => P.dn 0 d c)
            -∗ ∃ W' : Valuation τ sig (Elt F), ⌜Keeps m d W'⌝ ∗ (held (SparseCore.T d) Sall W' : sProp 𝕄)))

/-- What @main leaves the claim: every buffer whole, the arguments at their launch contents. -/
def FIN (d : Dev nD) : sProp 𝕄 := iprop(∃ Wf : Valuation τ sig (Elt F), ⌜Keeps m d Wf⌝ ∗ (held (SparseCore.T d) Sall Wf : sProp 𝕄))

/-- @main on device `d`'s TensorCore, from the five TensorCore calls and the SparseCore call as steps. -/
theorem hmain (G0 G1 G2 G3 G4 G5 : Dev nD → sProp 𝕄)
    (hR0 : RegionStep P 0 main_v2 R0 G0 G1) (hR1 : RegionStep P 1 main_v7 R1 G1 G2) (hR2 : RegionStep P 2 main_v8 R2 G2 G3)
    (hR3 : RegionStep P 3 main_v9 R3 G3 G4) (hR4 : RegionStep P 4 main_v10 R4 G4 G5)
    (hcall : CallStep m P R0 R1 R2 R3 R4)
    (κ : GSem nD τ sig → ℕ) (d : Dev nD) :
    iprop((K (F := F)).ctx EH P κ ∗ (K (F := F)).tcSt EH d 0 ∗ (K (F := F)).tcRes m ρ d ∗ G0 d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  iapply (host_op d rfl opC0 hC0 rfl _ _) $$ [Hb Hheld]
  · isplitl [Hb]; · iexact Hb
    iexact Hheld
  iintro ⟨Hb, Hheld⟩
  iapply (host_op d rfl opC1 hC1 rfl _ _) $$ [Hb Hheld]
  · isplitl [Hb]; · iexact Hb
    iexact Hheld
  iintro ⟨Hb, Hheld⟩
  iapply (host_op d rfl opG hG rfl _ _) $$ [Hb Hheld]
  · isplitl [Hb]; · iexact Hb
    iexact Hheld
  iintro ⟨Hb, Hheld⟩
  iapply (host_op d rfl opB hB rfl _ _) $$ [Hb Hheld]
  · isplitl [Hb]; · iexact Hb
    iexact Hheld
  iintro ⟨Hb, Hheld⟩
  iapply (hR0 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (host_op d rfl opT0 hT0 rfl _ _) $$ [Hb Hheld]
  · isplitl [Hb]; · iexact Hb
    iexact Hheld
  iintro ⟨Hb, Hheld⟩
  iapply (host_op d rfl opT1 hT1 rfl _ _) $$ [Hb Hheld]
  · isplitl [Hb]; · iexact Hb
    iexact Hheld
  iintro ⟨Hb, Hheld⟩
  iapply (host_op d rfl opT2 hT2 rfl _ _) $$ [Hb Hheld]
  · isplitl [Hb]; · iexact Hb
    iexact Hheld
  iintro ⟨Hb, Hheld⟩
  iapply (host_op d rfl opT3 hT3 rfl _ _) $$ [Hb Hheld]
  · isplitl [Hb]; · iexact Hb
    iexact Hheld
  iintro ⟨Hb, Hheld⟩
  iapply (hR1 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (hR2 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (hR3 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (hR4 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (host_op d rfl opI0 hI0 rfl _ _) $$ [Hb Hheld]
  · isplitl [Hb]; · iexact Hb
    iexact Hheld
  iintro ⟨Hb, Hheld⟩
  iapply (host_op d rfl opI1 hI1 rfl _ _) $$ [Hb Hheld]
  · isplitl [Hb]; · iexact Hb
    iexact Hheld
  iintro ⟨Hb, Hheld⟩
  iapply (host_op d rfl opI2 hI2 rfl _ _) $$ [Hb Hheld]
  · isplitl [Hb]; · iexact Hb
    iexact Hheld
  iintro ⟨Hb, Hheld⟩
  iapply (host_op d rfl opI3 hI3 rfl _ _) $$ [Hb Hheld]
  · isplitl [Hb]; · iexact Hb
    iexact Hheld
  iintro ⟨Hb, Hheld⟩
  -- the SparseCore call
  imod (hcall d) $$ Hheld with Hc
  icases Hc with ⟨Hstc, Hback⟩
  iapply ((K (F := F)).wp_run (D (F := F)) 𝒱 (EH := EH) (P := P) κ d 0) $$ [Hst Hstc Hb Hback]
  isplitr; · iexact Hctx
  isplitl [Hst]; · iexact Hst
  isplitl [Hstc]; · iexact Hstc
  iintro ⟨Hst, Hdn⟩
  ihave Hw := Hback $$ Hdn
  icases Hw with ⟨%W', %hK, Hheld⟩
  iapply (host_op d rfl opO0 hO0 rfl _ _) $$ [Hb Hheld]
  · isplitl [Hb]; · iexact Hb
    iexact Hheld
  iintro ⟨Hb, Hheld⟩
  iapply (host_op d rfl opO1 hO1 rfl _ _) $$ [Hb Hheld]
  · isplitl [Hb]; · iexact Hb
    iexact Hheld
  iintro ⟨Hb, Hheld⟩
  iapply (host_op d rfl opO2 hO2 rfl _ _) $$ [Hb Hheld]
  · isplitl [Hb]; · iexact Hb
    iexact Hheld
  iintro ⟨Hb, Hheld⟩
  iapply (host_op d rfl opO3 hO3 rfl _ _) $$ [Hb Hheld]
  · isplitl [Hb]; · iexact Hb
    iexact Hheld
  iintro ⟨Hb, Hheld⟩
  imodintro
  isplitl [Hst]; · iexact Hst
  unfold FIN
  iexists (opO3.result (opO2.result (opO1.result (opO0.result W'))))
  isplitr
  · ipureintro
    refine keeps_result m d _ (show Disjoint ({dr main_v19} : Finset (DevRef τ sig)) Sargs by decide) ?_
    refine keeps_result m d _ (show Disjoint ({dr main_v18} : Finset (DevRef τ sig)) Sargs by decide) ?_
    refine keeps_result m d _ (show Disjoint ({dr main_v17} : Finset (DevRef τ sig)) Sargs by decide) ?_
    refine keeps_result m d _ (show Disjoint ({dr main_v16} : Finset (DevRef τ sig)) Sargs by decide) ?_
    exact hK
  · iexact Hheld

end Main

end Cert.Proof.B.ScMain

end
-- ==== Proof.BScBodyDefs.lean ====
/-
  The vector-subcore task of the lookup kernel: the names of its operands, what a tile is handed and hands back, and
  the statement of its body obligation.
-/
import proofs.«203359_g24824910971486_cont_8to1_1854_34_alg».proof.Proof.BScSetup

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile, its operands as the body table passes them, and what it is handed -/

abbrev cV (L : grid5.Coords) : Fin τ.nSC := (L 0).castLE hcore5
abbrev jV (L : grid5.Coords) : Fin τ.nSub := (L 1).castLE hsub5

/-- The four scaled tables, the four index arrays and the four outputs, as the TensorCore names them. -/
abbrev t0Loc (d : Dev nD) : Loc nD τ sig := (SparseCore.T d).loc main_v7
abbrev t1Loc (d : Dev nD) : Loc nD τ sig := (SparseCore.T d).loc main_v8
abbrev t2Loc (d : Dev nD) : Loc nD τ sig := (SparseCore.T d).loc main_v9
abbrev t3Loc (d : Dev nD) : Loc nD τ sig := (SparseCore.T d).loc main_v10
abbrev i0Loc (d : Dev nD) : Loc nD τ sig := (SparseCore.T d).loc main_v11
abbrev i1Loc (d : Dev nD) : Loc nD τ sig := (SparseCore.T d).loc main_v12
abbrev i2Loc (d : Dev nD) : Loc nD τ sig := (SparseCore.T d).loc main_v13
abbrev i3Loc (d : Dev nD) : Loc nD τ sig := (SparseCore.T d).loc main_v14
abbrev o0Loc (d : Dev nD) : Loc nD τ sig := (SparseCore.T d).loc main_v15_0
abbrev o1Loc (d : Dev nD) : Loc nD τ sig := (SparseCore.T d).loc main_v15_1
abbrev o2Loc (d : Dev nD) : Loc nD τ sig := (SparseCore.T d).loc main_v15_2
abbrev o3Loc (d : Dev nD) : Loc nD τ sig := (SparseCore.T d).loc main_v15_3

/-- The rows of an output that tile `L` fills: 3200 lines from line `6400 * L 1 + 3200 * L 0`. -/
theorem oRect_inb (L : grid5.Coords) : ∀ a, (![6400 * (L 1).val + 3200 * (L 0).val, 0] : Fin 2 → Nat) a + (![3200, 128] : Fin 2 → Nat) a ≤ S102400x128.size a := by
  have h1 : (L 1).val < 16 := (L 1).isLt
  have h0 : (L 0).val < 2 := (L 0).isLt
  intro a
  match a with
  | 0 => show 6400 * (L 1).val + 3200 * (L 0).val + 3200 ≤ 102400; omega
  | 1 => show 0 + 128 ≤ 128; omega
abbrev oRect (L : grid5.Coords) : Rect S102400x128 := Rect.unit (s := S102400x128) ![6400 * (L 1).val + 3200 * (L 0).val, 0] ![3200, 128] (oRect_inb L)
abbrev oSet (L : grid5.Coords) : Finset S102400x128.Idx := (oRect L).set

/-- An index word in the tables' range, as a signed 32-bit integer. -/
def IdxOK (w : BitVec 32) : Prop := 0 ≤ w.toInt ∧ w.toInt ≤ 99999

/-- The grid point of vector subcore `s` of SparseCore `c`. -/
def coordsV (c : Fin (grid5.bound 0)) (s : Fin (grid5.bound 1)) : grid5.Coords :=
  fun | 0 => c | 1 => s | ⟨_ + 2, h⟩ => absurd h (Nat.not_lt.2 (Nat.le_add_left _ _))

section Handed

variable (d : Dev nD) (L : grid5.Coords)
variable (qT qI : PosShare TreeShare)
variable (T0 : Buf (Elt F) (t0Loc d)) (T1 : Buf (Elt F) (t1Loc d)) (T2 : Buf (Elt F) (t2Loc d)) (T3 : Buf (Elt F) (t3Loc d))
variable (I0 : Buf (Elt F) (i0Loc d)) (I1 : Buf (Elt F) (i1Loc d)) (I2 : Buf (Elt F) (i2Loc d)) (I3 : Buf (Elt F) (i3Loc d))

/-- The read-only operands: a share of each scaled table and of each index array, whole. -/
abbrev roPts : sProp 𝕄 :=
  iprop((t0Loc d ↦{qT} T0) ∗ (t1Loc d ↦{qT} T1) ∗ (t2Loc d ↦{qT} T2) ∗ (t3Loc d ↦{qT} T3)
    ∗ (i0Loc d ↦{qI} I0) ∗ (i1Loc d ↦{qI} I1) ∗ (i2Loc d ↦{qI} I2) ∗ (i3Loc d ↦{qI} I3))
/-- The tile's own lines of the four outputs, at some contents. -/
abbrev outPts : sProp 𝕄 :=
  iprop((∃ f, o0Loc d ↦[oSet L]{fullShare} f) ∗ (∃ f, o1Loc d ↦[oSet L]{fullShare} f) ∗ (∃ f, o2Loc d ↦[oSet L]{fullShare} f) ∗ (∃ f, o3Loc d ↦[oSet L]{fullShare} f))
/-- What the tile is handed and hands back. -/
abbrev handed : sProp 𝕄 := iprop(roPts (F := F) d qT qI T0 T1 T2 T3 I0 I1 I2 I3 ∗ outPts (F := F) d L)

/-- Every index word the four arrays hold is in the tables' range. -/
def IdxPre : Prop := (∀ j, IdxOK (I0 j)) ∧ (∀ j, IdxOK (I1 j)) ∧ (∀ j, IdxOK (I2 j)) ∧ (∀ j, IdxOK (I3 j))

end Handed

/-- The task of one vector subcore: handed a read share of the tables and the index arrays and its own lines of the
    outputs, it runs to its end and hands them back, its scratch and semaphores as it found them. -/
def TileBodyStmt [FloatOps F] : Prop :=
  ∀ (d : Dev nD) (L : grid5.Coords) (qT qI : PosShare TreeShare)
    (T0 : Buf (Elt F) (t0Loc d)) (T1 : Buf (Elt F) (t1Loc d)) (T2 : Buf (Elt F) (t2Loc d)) (T3 : Buf (Elt F) (t3Loc d))
    (I0 : Buf (Elt F) (i0Loc d)) (I1 : Buf (Elt F) (i1Loc d)) (I2 : Buf (Elt F) (i2Loc d)) (I3 : Buf (Elt F) (i3Loc d))
    (_hF : (K (F := F)).Facts) (O : CellTallies nD τ sig (HIx 1)) (W : Waits sig (HIx 1)) (_hO : ∀ g, O g none = 0)
    (_hidx : IdxPre (F := F) d I0 I1 I2 I3),
    iprop(levAts (K (F := F)).L (K (F := F)).lev ∗ emp ∗ handed (F := F) d L qT qI T0 T1 T2 T3 I0 I1 I2 I3
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc5_k L (Memref.whole main_v7_scv) (Memref.isWhole_whole _) (Memref.whole main_v8_scv) (Memref.isWhole_whole _) (Memref.whole main_v9_scv) (Memref.isWhole_whole _) (Memref.whole main_v10_scv) (Memref.isWhole_whole _)
            (Memref.whole main_v11_scv) (Memref.isWhole_whole _) (Memref.whole main_v12_scv) (Memref.isWhole_whole _) (Memref.whole main_v13_scv) (Memref.isWhole_whole _) (Memref.whole main_v14_scv) (Memref.isWhole_whole _)
            (Memref.whole main_v15_0_scv) (Memref.isWhole_whole _) (Memref.whole main_v15_1_scv) (Memref.isWhole_whole _) (Memref.whole main_v15_2_scv) (Memref.isWhole_whole _) (Memref.whole main_v15_3_scv) (Memref.isWhole_whole _)
            (Memref.whole cc5_scratch0) (Memref.isWhole_whole _) (Memref.whole cc5_scratch1) (Memref.isWhole_whole _) (Memref.whole cc5_scratch2) (Memref.isWhole_whole _) (Memref.whole cc5_scratch3) (Memref.isWhole_whole _)
            (Memref.whole cc5_scratch4) (Memref.isWhole_whole _) (Memref.whole cc5_scratch5) (Memref.isWhole_whole _) cc5_scratch6 cc5_scratch7
            cc5_scoped0 cc5_scoped1 cc5_scoped2 cc5_scoped3 cc5_scoped4 cc5_scoped5 cc5_scoped6 cc5_scoped7 cc5_scoped8 cc5_scoped9 cc5_scoped10 cc5_scoped11)
          fun _ => iprop(handed (F := F) d L qT qI T0 T1 T2 T3 I0 I1 I2 I3 ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.B.ScBody

end
-- ==== Proof.BScPay.lean ====
/-
  What the one SparseCore call hands each SparseCore and each vector subcore and takes back: a share of the four
  scaled tables and the four index arrays (sixteen shares per SparseCore, two SparseCores), and the subcore's own
  3200 lines of each of the four outputs.
-/
import proofs.«203359_g24824910971486_cont_8to1_1854_34_alg».proof.Proof.BScMain
import proofs.«203359_g24824910971486_cont_8to1_1854_34_alg».proof.Proof.BScBodyDefs

noncomputable section

namespace Cert.Proof.B.ScPay

open Cert.Kernel Cert.Kernel.Gen Cert.Proof.B.ScSetup Cert.Proof.B.ScMain Cert.Proof.B.ScBody

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What a vector subcore is handed -/

-- The contents of the four scaled tables and the four flattened index arrays at the call, per device.
variable (Tv0 : (d : Dev nD) → Buf (Elt F) (t0Loc d)) (Tv1 : (d : Dev nD) → Buf (Elt F) (t1Loc d))
  (Tv2 : (d : Dev nD) → Buf (Elt F) (t2Loc d)) (Tv3 : (d : Dev nD) → Buf (Elt F) (t3Loc d))
  (Iv0 : (d : Dev nD) → Buf (Elt F) (i0Loc d)) (Iv1 : (d : Dev nD) → Buf (Elt F) (i1Loc d))
  (Iv2 : (d : Dev nD) → Buf (Elt F) (i2Loc d)) (Iv3 : (d : Dev nD) → Buf (Elt F) (i3Loc d))

/-- The two SparseCores' halves of a full share. -/
def coreShare (c : ℕ) : PosShare TreeShare := if c = 0 then fullShare.left else fullShare.right
/-- Sixteen shares composing to `q`: fifteen successive right halves and the last remainder. -/
def tileShare (q : PosShare TreeShare) (i : ℕ) : PosShare TreeShare := if i < 15 then Transfers.shareTokN q i else Transfers.shareDrop q 15

/-- What vector subcore `i` of SparseCore `c` is handed and hands back: its share of the eight read-only arrays and
    its own lines of the four outputs. -/
abbrev tileHanded (d : Dev nD) (c : Fin 2) (i : Fin 16) : sProp 𝕄 :=
  handed (F := F) d (coordsV c i) (tileShare (coreShare c.val) i.val) (tileShare (coreShare c.val) i.val)
    (Tv0 d) (Tv1 d) (Tv2 d) (Tv3 d) (Iv0 d) (Iv1 d) (Iv2 d) (Iv3 d)

/-- The one call: each SparseCore is handed its sixteen subcores' parts, each subcore its own. -/
def P : (K (F := F)).Pay (nD := nD) (Val := Elt F) (Name := ℕ) (U := UU) where
  st := fun q d c => match q with
    | 0 => bigSep Finset.univ fun i : Fin 16 => tileHanded Tv0 Tv1 Tv2 Tv3 Iv0 Iv1 Iv2 Iv3 d (Fin.cast nCore_zero c) i
  dn := fun q d c => match q with
    | 0 => bigSep Finset.univ fun i : Fin 16 => tileHanded Tv0 Tv1 Tv2 Tv3 Iv0 Iv1 Iv2 Iv3 d (Fin.cast nCore_zero c) i
  go := fun q d c i => match q with
    | 0 => tileHanded Tv0 Tv1 Tv2 Tv3 Iv0 Iv1 Iv2 Iv3 d (Fin.cast nCore_zero c) (Fin.cast nSub_zero i)
  td := fun q d c i => match q with
    | 0 => tileHanded Tv0 Tv1 Tv2 Tv3 Iv0 Iv1 Iv2 Iv3 d (Fin.cast nCore_zero c) (Fin.cast nSub_zero i)
  x := fun _ _ => iprop(emp)

set_option synthInstance.maxHeartbeats 1000000 in
set_option maxHeartbeats 1000000 in
instance tileHanded_storable (d : Dev nD) (c : Fin 2) (i : Fin 16) :
    BI.Storable (upEmb : UEmb _ 𝕄) (tileHanded (F := F) Tv0 Tv1 Tv2 Tv3 Iv0 Iv1 Iv2 Iv3 d c i) := by
  infer_instance

instance P_storable : (P (F := F) Tv0 Tv1 Tv2 Tv3 Iv0 Iv1 Iv2 Iv3).IsStorable where
  st q d c := match q with
    | 0 => (inferInstance : BI.Storable (upEmb : UEmb _ 𝕄) (bigSep Finset.univ fun i : Fin 16 => tileHanded Tv0 Tv1 Tv2 Tv3 Iv0 Iv1 Iv2 Iv3 d (Fin.cast nCore_zero c) i))
  dn q d c := match q with
    | 0 => (inferInstance : BI.Storable (upEmb : UEmb _ 𝕄) (bigSep Finset.univ fun i : Fin 16 => tileHanded Tv0 Tv1 Tv2 Tv3 Iv0 Iv1 Iv2 Iv3 d (Fin.cast nCore_zero c) i))
  go q d c i := match q with
    | 0 => (inferInstance : BI.Storable (upEmb : UEmb _ 𝕄) (tileHanded Tv0 Tv1 Tv2 Tv3 Iv0 Iv1 Iv2 Iv3 d (Fin.cast nCore_zero c) (Fin.cast nSub_zero i)))
  td q d c i := match q with
    | 0 => (inferInstance : BI.Storable (upEmb : UEmb _ 𝕄) (tileHanded Tv0 Tv1 Tv2 Tv3 Iv0 Iv1 Iv2 Iv3 d (Fin.cast nCore_zero c) (Fin.cast nSub_zero i)))

end Cert.Proof.B.ScPay

end
-- ==== Proof.BScLaunch.lean ====
/-
  The launch of the SparseCore program: the split of the one call's operands among the vector subcores, the tile
  kernel's obligation from its body's run, the launch element of the ghost state, how the final memory reads the
  frame claim, and the run of the whole thread family — from the tile body's run, the five TensorCore calls as steps,
  the call's split and the funding of the TensorCore calls' ghost state.
-/
import proofs.«203359_g24824910971486_cont_8to1_1854_34_alg».proof.Proof.BScPay

noncomputable section

namespace Cert.Proof.B.ScLaunch

open Cert.Kernel Cert.Kernel.Gen Cert.Proof.B.ScSetup Cert.Proof.B.ScMain Cert.Proof.B.ScBody Cert.Proof.B.ScPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable (Tv0 : (d : Dev nD) → Buf (Elt F) (t0Loc d)) (Tv1 : (d : Dev nD) → Buf (Elt F) (t1Loc d))
  (Tv2 : (d : Dev nD) → Buf (Elt F) (t2Loc d)) (Tv3 : (d : Dev nD) → Buf (Elt F) (t3Loc d))
  (Iv0 : (d : Dev nD) → Buf (Elt F) (i0Loc d)) (Iv1 : (d : Dev nD) → Buf (Elt F) (i1Loc d))
  (Iv2 : (d : Dev nD) → Buf (Elt F) (i2Loc d)) (Iv3 : (d : Dev nD) → Buf (Elt F) (i3Loc d))

local notation "PP" => P (F := F) Tv0 Tv1 Tv2 Tv3 Iv0 Iv1 Iv2 Iv3

/-! ## The split: a SparseCore's part is its subcores' parts -/

theorem vecSplit : (K (F := F)).VecSplit' PP 0 := by
  intro d c
  show (bigSep Finset.univ fun i : Fin 16 => tileHanded Tv0 Tv1 Tv2 Tv3 Iv0 Iv1 Iv2 Iv3 d (Fin.cast nCore_zero c) i)
    ⊢ |={Set.univ}=> iprop((bigSep Finset.univ fun i : Fin 16 => tileHanded Tv0 Tv1 Tv2 Tv3 Iv0 Iv1 Iv2 Iv3 d (Fin.cast nCore_zero c) i)
      ∗ ((bigSep Finset.univ fun i : Fin 16 => tileHanded Tv0 Tv1 Tv2 Tv3 Iv0 Iv1 Iv2 Iv3 d (Fin.cast nCore_zero c) i)
          -∗ (bigSep Finset.univ fun i : Fin 16 => tileHanded Tv0 Tv1 Tv2 Tv3 Iv0 Iv1 Iv2 Iv3 d (Fin.cast nCore_zero c) i)))
  iintro H
  imodintro
  isplitl [H]; · iexact H
  iintro H; iexact H

/-! ## The tile kernel's obligation, from its body's run -/

variable [FloatOps F]

theorem defs₀_vector (c : Fin τ.nSC) (s : Fin τ.nSub) :
    defs₀ (F := F) (.scVector c s) 5 ()
      = SparseCore.onTile hcore5 hsub5 (fun c s => cc5_k (coordsV c s)
          (Memref.whole main_v7_scv) (Memref.isWhole_whole _) (Memref.whole main_v8_scv) (Memref.isWhole_whole _) (Memref.whole main_v9_scv) (Memref.isWhole_whole _) (Memref.whole main_v10_scv) (Memref.isWhole_whole _)
          (Memref.whole main_v11_scv) (Memref.isWhole_whole _) (Memref.whole main_v12_scv) (Memref.isWhole_whole _) (Memref.whole main_v13_scv) (Memref.isWhole_whole _) (Memref.whole main_v14_scv) (Memref.isWhole_whole _)
          (Memref.whole main_v15_0_scv) (Memref.isWhole_whole _) (Memref.whole main_v15_1_scv) (Memref.isWhole_whole _) (Memref.whole main_v15_2_scv) (Memref.isWhole_whole _) (Memref.whole main_v15_3_scv) (Memref.isWhole_whole _)
          (Memref.whole cc5_scratch0) (Memref.isWhole_whole _) (Memref.whole cc5_scratch1) (Memref.isWhole_whole _) (Memref.whole cc5_scratch2) (Memref.isWhole_whole _) (Memref.whole cc5_scratch3) (Memref.isWhole_whole _)
          (Memref.whole cc5_scratch4) (Memref.isWhole_whole _) (Memref.whole cc5_scratch5) (Memref.isWhole_whole _) cc5_scratch6 cc5_scratch7
          cc5_scoped0 cc5_scoped1 cc5_scoped2 cc5_scoped3 cc5_scoped4 cc5_scoped5 cc5_scoped6 cc5_scoped7 cc5_scoped8 cc5_scoped9 cc5_scoped10 cc5_scoped11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBodyStmt (F := F))
    (hidx : ∀ d : Dev nD, IdxPre (F := F) d (Iv0 d) (Iv1 d) (Iv2 d) (Iv3 d)) :
    (K (F := F)).TileObl (D (F := F)) 𝒱 PP v₀ 0 := by
  intro d c i O W hO _ _
  simp only [show (PP).ox = fun _ _ => 0 from rfl, add_zero]
  change _ ⊢ wp _ _ _ (Pipeline.liftProg (defs₀ (F := F) (.scVector ((K (F := F)).core 0 c) ((K (F := F)).sub 0 i)) 5 ())) _
  refine BI.Entails.trans ?_ (Pipeline.wp_liftProg (D (F := F)) (Pipeline.defs_kernel pcfgs defs₀) 𝒱₀ _ Set.univ none _ _)
  have hc : ((K (F := F)).core 0 c).val < grid5.bound 0 ∧ ((K (F := F)).sub 0 i).val < grid5.bound 1 := ⟨c.isLt, i.isLt⟩
  rw [defs₀_vector]; simp only [SparseCore.onTile, hc, and_self, ↓reduceDIte]
  exact (hbody d (coordsV ⟨_, hc.1⟩ ⟨_, hc.2⟩) _ _ (Tv0 d) (Tv1 d) (Tv2 d) (Tv3 d) (Iv0 d) (Iv1 d) (Iv2 d) (Iv3 d) facts O W hO (hidx d)).trans
    (wp_mono frame _ _ fun _ => obl_post)

/-! ## The launch element: the handshakes' rounds, the TensorCore calls' ghost state, nothing of the tile kernel's own -/

/-- The certificate's launch element: the handshake cells' rounds, the staging cells' element, the counters' unit. -/
def u₀ (uP : UP) : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

omit [FloatOps F] in
theorem hu₀ (G0 : Dev nD → sProp 𝕄) (uP : UP) (hfund : (BI.own (EP (F := F) uP) : sProp 𝕄) ⊢ |={Set.univ}=> bigSep Finset.univ G0) :
    (ownU (u₀ (F := F) uP) : sProp 𝕄)
      ⊢ |={Set.univ}=> iprop(BI.own (EH (initOf (K (F := F)).hsCells (K (F := F)).hsToks)) ∗ (bigSep Finset.univ G0)
        ∗ bigSep Finset.univ fun thr : Thread nD τ => bigSep Finset.univ fun q : Fin 1 => (PP).x q thr) := by
  unfold u₀
  iintro Hu
  ihave H := (ownU_pair _ _) $$ Hu
  icases H with ⟨HH, HR⟩
  ihave H2 := (own_pair_emb (embR : Emb (UP × Counters) 𝕄) uP (1 : Counters)) $$ HR
  icases H2 with ⟨HP, -⟩
  unfold EP at hfund
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory reads the frame claim -/

def fq (d : Dev nD) (s' : Phys nD τ sig (Elt F)) : Prop := ∀ b ∈ Sargs, s'.mem.mem (d, b) = m (d, b)

omit [FloatOps F] in
theorem hfin (d : Dev nD) (s' : Phys nD τ sig (Elt F)) : iprop(FIN m d ∗ SI s') ⊢ (⌜fq m d s'⌝ : sProp 𝕄) := by
  unfold FIN held
  iintro ⟨⟨%Wf, %hK, Hh⟩, HSI⟩
  ihave %h := (SI_pointsTo_bufs_agree (st := s') (c := d) (qs := fun _ => fullShare) (F := Wf) Sall) $$ [HSI Hh]
  · isplitl [HSI]; · iexact HSI
    iexact Hh
  ipureintro
  intro b hb
  rw [h b (Sargs_sub hb), hK b hb]; rfl

/-! ## The run -/

def QC : PUnit × MemSt nD τ sig (Elt F) → Prop := fun r => ∀ c : Dev nD, ∀ b ∈ Sargs, r.2.mem (c, b) = m (c, b)

variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))

/-- Every weakly fair execution of the whole thread family terminates, nothing faulting, the argument arrays at their
    launch contents: from the tile body's run, the index words' range, the five TensorCore calls as steps, the call's
    split, and the funding of the TensorCore calls' ghost state from the launch element. -/
theorem run_main [∀ e, Nonempty (Elt F e)] (G0 G1 G2 G3 G4 G5 : Dev nD → sProp 𝕄) (uP : UP)
    (hbody : TileBodyStmt (F := F)) (hidx : ∀ d : Dev nD, IdxPre (F := F) d (Iv0 d) (Iv1 d) (Iv2 d) (Iv3 d))
    (hR0 : RegionStep PP 0 main_v2 R0 G0 G1) (hR1 : RegionStep PP 1 main_v7 R1 G1 G2) (hR2 : RegionStep PP 2 main_v8 R2 G2 G3)
    (hR3 : RegionStep PP 3 main_v9 R3 G3 G4) (hR4 : RegionStep PP 4 main_v10 R4 G4 G5)
    (hcall : CallStep m PP R0 R1 R2 R3 R4)
    (hfund : (BI.own (EP (F := F) uP) : sProp 𝕄) ⊢ |={Set.univ}=> bigSep Finset.univ G0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP) facts v₀
    (fun q hq => match q with | 0 => nomatch hq)
    (fun q _ => match q with | 0 => tileObl Tv0 Tv1 Tv2 Tv3 Iv0 Iv1 Iv2 Iv3 hbody hidx)
    (fun q _ => match q with | 0 => SparseCore.Cfg.VecSplit.of_plain (vecSplit Tv0 Tv1 Tv2 Tv3 Iv0 Iv1 Iv2 Iv3))
    m ρ main G0 (FIN m) (u₀ (F := F) uP) (sep_elim_left.trans (hu₀ Tv0 Tv1 Tv2 Tv3 Iv0 Iv1 Iv2 Iv3 G0 uP hfund))
    (hmain m ρ PP R0 R1 R2 R3 R4 G0 G1 G2 G3 G4 G5 hR0 hR1 hR2 hR3 hR4 hcall) (fq m) (hfin m) (QC m) (fun _ h => h)

end Cert.Proof.B.ScLaunch

end
-- ==== Proof.BScCall.lean ====
/-
  The SparseCore call's split: the buffers @main holds whole at the call, cut into what each of the two SparseCores'
  sixteen vector subcores is handed — a share of each of the eight read-only arrays, and its own 3200 lines of each of
  the four outputs — and, on the way back, the shares rejoined and the outputs' lines joined into whole arrays.
-/
import proofs.«203359_g24824910971486_cont_8to1_1854_34_alg».proof.Proof.BScPay

noncomputable section

namespace Cert.Proof.B.ScCall

open Cert.Kernel Cert.Kernel.Gen Cert.Proof.B.ScSetup Cert.Proof.B.ScMain Cert.Proof.B.ScBody Cert.Proof.B.ScPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type}

local notation "𝕄" => MT nD τ sig (HIx 1) (Elt F) ℕ UU ℕ

/-! ## A points-to along the thirty-two shares -/

section Shares

variable {ℓ : Loc nD τ sig} (I : Finset (Idx ℓ)) (f : Buf (Elt F) ℓ)

/-- A points-to at share `q` is the sixteen points-to at the sixteen shares `tileShare q i`: fifteen successive right
    halves and the last remainder. -/
theorem pointsTo_tiles (q : PosShare TreeShare) :
    (ℓ ↦[I]{q} f : sProp 𝕄) = bigSep Finset.univ fun i : Fin 16 => ℓ ↦[I]{tileShare q i.val} f := by
  have h1 : (bigSep Finset.univ fun i : Fin 16 => (ℓ ↦[I]{tileShare q i.val} f : sProp 𝕄))
      = bigSep (Finset.range 16) fun i => ℓ ↦[I]{tileShare q i} f := by
    rw [← Nat.Iio_eq_range, ← Fin.map_valEmbedding_univ, BI.bigSep_map]; rfl
  have h2 : (bigSep (Finset.range 16) fun i => (ℓ ↦[I]{tileShare q i} f : sProp 𝕄))
      = iprop((ℓ ↦[I]{Transfers.shareDrop q 15} f) ∗ bigSep (Finset.range 15) fun i => ℓ ↦[I]{Transfers.shareTokN q i} f) := by
    rw [show (16 : ℕ) = 15 + 1 from rfl, Finset.range_add_one, BI.bigSep_insert Finset.notMem_range_self]
    refine congrArg₂ BI.sep ?_ (bigSep_congr fun i hi => ?_)
    · unfold tileShare; rw [if_neg (by decide)]
    · unfold tileShare; rw [if_pos (Finset.mem_range.mp hi)]
  rw [h1, h2]
  have h := Transfers.pointsTo_toks_range (ℓ := ℓ) (S := I) (f := f) (Val := Elt F) (Ix := HIx 1) (Name := ℕ) (U := UU) (Lvl := ℕ) q 15
  exact BI.equiv_iff.mp ⟨h.1, h.2⟩

/-- A points-to at the full share is the two at the two SparseCores' halves. -/
theorem pointsTo_cores :
    (ℓ ↦[I]{fullShare} f : sProp 𝕄) = bigSep Finset.univ fun c : Fin 2 => ℓ ↦[I]{coreShare c.val} f := by
  rw [bigSep_univ_two]
  have h : (ℓ ↦[I]{fullShare} f : sProp 𝕄) ⊣⊢ iprop((ℓ ↦[I]{fullShare.left} f) ∗ ℓ ↦[I]{fullShare.right} f) :=
    pointsTo_share (PosShare.mem_left_op_right _)
  exact BI.equiv_iff.mp ⟨h.1, h.2⟩

/-- A points-to at the full share is the thirty-two at the subcores' shares, SparseCore by SparseCore. -/
theorem pointsTo_tileShares :
    (ℓ ↦[I]{fullShare} f : sProp 𝕄)
      = bigSep Finset.univ fun c : Fin 2 => bigSep Finset.univ fun i : Fin 16 => ℓ ↦[I]{tileShare (coreShare c.val) i.val} f := by
  rw [pointsTo_cores]
  exact bigSep_congr fun c _ => pointsTo_tiles I f _

end Shares

/-! ## The outputs' lines: thirty-two ranges of 3200 lines that cover an output, pairwise disjoint -/

/-- The lines of an output that subcore `p.2` of SparseCore `p.1` fills: 3200 lines from line `3200 (2 p.2 + p.1)`. -/
abbrev oK (p : Fin 2 × Fin 16) : Finset S102400x128.Idx := oSet (coordsV p.1 p.2)

theorem oK_disjoint : ∀ p ∈ (Finset.univ : Finset (Fin 2 × Fin 16)), ∀ p' ∈ (Finset.univ : Finset (Fin 2 × Fin 16)),
    p ≠ p' → Disjoint (oK p) (oK p') := by
  intro p _ p' _ hne
  have hc : p.1.val < 2 := p.1.isLt
  have hi : p.2.val < 16 := p.2.isLt
  have hc' : p'.1.val < 2 := p'.1.isLt
  have hi' : p'.2.val < 16 := p'.2.isLt
  have hne' : 2 * p.2.val + p.1.val ≠ 2 * p'.2.val + p'.1.val := fun e =>
    hne (Prod.ext (Fin.ext (by omega)) (Fin.ext (by omega)))
  refine Rect.unit_disjoint 0 ?_
  show 6400 * p.2.val + 3200 * p.1.val + 3200 ≤ 6400 * p'.2.val + 3200 * p'.1.val
    ∨ 6400 * p'.2.val + 3200 * p'.1.val + 3200 ≤ 6400 * p.2.val + 3200 * p.1.val
  omega

theorem oK_cover : (Finset.univ : Finset (Fin 2 × Fin 16)).biUnion oK = Finset.univ := by
  ext x
  simp only [Finset.mem_biUnion, Finset.mem_univ, true_and, iff_true]
  have h0 : (x 0).val < 102400 := (x 0).isLt
  have h1 : (x 1).val < 128 := (x 1).isLt
  refine ⟨(⟨(x 0).val / 3200 % 2, by omega⟩, ⟨(x 0).val / 6400, by omega⟩), Rect.mem_set_unit.mpr fun a => ?_⟩
  match a with
  | 0 =>
    show 6400 * ((x 0).val / 6400) + 3200 * ((x 0).val / 3200 % 2) ≤ (x 0).val
      ∧ (x 0).val < 6400 * ((x 0).val / 6400) + 3200 * ((x 0).val / 3200 % 2) + 3200
    omega
  | 1 =>
    show 0 ≤ (x 1).val ∧ (x 1).val < 0 + 128
    omega

section Lines

variable {ℓ : Loc nD τ sig} (Kp : Fin 2 × Fin 16 → Finset (Idx ℓ))
  (hdisj : ∀ p ∈ (Finset.univ : Finset (Fin 2 × Fin 16)), ∀ p' ∈ (Finset.univ : Finset (Fin 2 × Fin 16)), p ≠ p' → Disjoint (Kp p) (Kp p'))
  (hcov : (Finset.univ : Finset (Fin 2 × Fin 16)).biUnion Kp = Finset.univ)

include hdisj hcov

/-- A whole array at the full share is its thirty-two pieces, SparseCore by SparseCore. -/
theorem pointsTo_lines (f : Buf (Elt F) ℓ) :
    (ℓ ↦{fullShare} f : sProp 𝕄)
      = bigSep Finset.univ fun c : Fin 2 => bigSep Finset.univ fun i : Fin 16 => ℓ ↦[Kp (c, i)]{fullShare} f := by
  rw [← bigSep_univ_prod (fun p : Fin 2 × Fin 16 => (ℓ ↦[Kp p]{fullShare} f : sProp 𝕄)),
    ← pointsTo_biUnion Finset.univ Kp hdisj, hcov]

/-- Thirty-two pieces, each at contents of its own, join into a whole array at some contents. -/
theorem lines_join (f₀ : Buf (Elt F) ℓ) :
    (bigSep Finset.univ fun c : Fin 2 => bigSep Finset.univ fun i : Fin 16 => iprop(∃ f, ℓ ↦[Kp (c, i)]{fullShare} f))
      ⊢ (iprop(∃ g, ℓ ↦{fullShare} g) : sProp 𝕄) := by
  rw [← bigSep_univ_prod (fun p : Fin 2 × Fin 16 => (iprop(∃ f, ℓ ↦[Kp p]{fullShare} f) : sProp 𝕄))]
  refine (@bigSep_exists_pi 𝕄 _ (Fin 2 × Fin 16) _ (fun _ => Buf (Elt F) ℓ) (fun _ => ⟨f₀⟩) Finset.univ
    (fun (p : Fin 2 × Fin 16) (f : Buf (Elt F) ℓ) => (ℓ ↦[Kp p]{fullShare} f : sProp 𝕄))).trans ?_
  iintro ⟨%fs, H⟩
  ihave H' := (pointsTo_biUnion_join Finset.univ Kp fs f₀ hdisj) $$ H
  icases H' with ⟨%g, -, Hg⟩
  rw [hcov]
  iexists g; iexact Hg

end Lines

/-- Pieces at known contents are pieces at some contents. -/
theorem lines_some {ℓ : Loc nD τ sig} (Kp : Fin 2 × Fin 16 → Finset (Idx ℓ)) (f : Buf (Elt F) ℓ) :
    (bigSep Finset.univ fun c : Fin 2 => bigSep Finset.univ fun i : Fin 16 => (ℓ ↦[Kp (c, i)]{fullShare} f : sProp 𝕄))
      ⊢ bigSep Finset.univ fun c : Fin 2 => bigSep Finset.univ fun i : Fin 16 => iprop(∃ f, ℓ ↦[Kp (c, i)]{fullShare} f) :=
  bigSep_mono fun c _ => bigSep_mono fun i _ =>
    show (ℓ ↦[Kp (c, i)]{fullShare} f : sProp 𝕄) ⊢ iprop(∃ f, ℓ ↦[Kp (c, i)]{fullShare} f) from by
      iintro H; iexists f; iexact H

/-! ## The twelve buffers the call hands out -/

/-- The four scaled tables, the four flattened index arrays and the four outputs. -/
def S12 : Finset (DevRef τ sig) :=
  {dr main_v7, dr main_v8, dr main_v9, dr main_v10, dr main_v11, dr main_v12, dr main_v13, dr main_v14,
    dr main_v15_0, dr main_v15_1, dr main_v15_2, dr main_v15_3}

theorem S12_sub : S12 ⊆ Sall := by decide

theorem held_S12 (d : Dev nD) (W : Valuation τ sig (Elt F)) :
    (held (SparseCore.T d) S12 W : sProp 𝕄)
      = iprop((t0Loc d ↦{fullShare} W (dr main_v7)) ∗ (t1Loc d ↦{fullShare} W (dr main_v8))
          ∗ (t2Loc d ↦{fullShare} W (dr main_v9)) ∗ (t3Loc d ↦{fullShare} W (dr main_v10))
          ∗ (i0Loc d ↦{fullShare} W (dr main_v11)) ∗ (i1Loc d ↦{fullShare} W (dr main_v12))
          ∗ (i2Loc d ↦{fullShare} W (dr main_v13)) ∗ (i3Loc d ↦{fullShare} W (dr main_v14))
          ∗ (o0Loc d ↦{fullShare} W (dr main_v15_0)) ∗ (o1Loc d ↦{fullShare} W (dr main_v15_1))
          ∗ (o2Loc d ↦{fullShare} W (dr main_v15_2)) ∗ (o3Loc d ↦{fullShare} W (dr main_v15_3))) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- A valuation with the four outputs replaced. -/
def upd4 (W : Valuation τ sig (Elt F)) (g0 : (dr main_v15_0).ty.Contents (Elt F)) (g1 : (dr main_v15_1).ty.Contents (Elt F))
    (g2 : (dr main_v15_2).ty.Contents (Elt F)) (g3 : (dr main_v15_3).ty.Contents (Elt F)) : Valuation τ sig (Elt F) :=
  Function.update (Function.update (Function.update (Function.update W (dr main_v15_0) g0) (dr main_v15_1) g1) (dr main_v15_2) g2)
    (dr main_v15_3) g3

section Upd4
variable (W : Valuation τ sig (Elt F)) (g0 : (dr main_v15_0).ty.Contents (Elt F)) (g1 : (dr main_v15_1).ty.Contents (Elt F))
  (g2 : (dr main_v15_2).ty.Contents (Elt F)) (g3 : (dr main_v15_3).ty.Contents (Elt F))

theorem upd4_other (b : DevRef τ sig) (h0 : b ≠ dr main_v15_0) (h1 : b ≠ dr main_v15_1) (h2 : b ≠ dr main_v15_2)
    (h3 : b ≠ dr main_v15_3) : upd4 W g0 g1 g2 g3 b = W b := by
  unfold upd4
  rw [Function.update_of_ne h3, Function.update_of_ne h2, Function.update_of_ne h1, Function.update_of_ne h0]
theorem upd4_o0 : upd4 W g0 g1 g2 g3 (dr main_v15_0) = g0 := by
  unfold upd4
  rw [Function.update_of_ne (by decide), Function.update_of_ne (by decide), Function.update_of_ne (by decide), Function.update_self]
theorem upd4_o1 : upd4 W g0 g1 g2 g3 (dr main_v15_1) = g1 := by
  unfold upd4
  rw [Function.update_of_ne (by decide), Function.update_of_ne (by decide), Function.update_self]
theorem upd4_o2 : upd4 W g0 g1 g2 g3 (dr main_v15_2) = g2 := by
  unfold upd4
  rw [Function.update_of_ne (by decide), Function.update_self]
theorem upd4_o3 : upd4 W g0 g1 g2 g3 (dr main_v15_3) = g3 := by
  unfold upd4
  rw [Function.update_self]
end Upd4

/-- The twelve buffers held at a valuation with the four outputs replaced: the eight read-only arrays at the old contents,
    the outputs at the new. -/
theorem held_S12_upd4 (d : Dev nD) (W : Valuation τ sig (Elt F)) (g0 : (dr main_v15_0).ty.Contents (Elt F))
    (g1 : (dr main_v15_1).ty.Contents (Elt F)) (g2 : (dr main_v15_2).ty.Contents (Elt F)) (g3 : (dr main_v15_3).ty.Contents (Elt F)) :
    (held (SparseCore.T d) S12 (upd4 W g0 g1 g2 g3) : sProp 𝕄)
      = iprop((t0Loc d ↦{fullShare} W (dr main_v7)) ∗ (t1Loc d ↦{fullShare} W (dr main_v8))
          ∗ (t2Loc d ↦{fullShare} W (dr main_v9)) ∗ (t3Loc d ↦{fullShare} W (dr main_v10))
          ∗ (i0Loc d ↦{fullShare} W (dr main_v11)) ∗ (i1Loc d ↦{fullShare} W (dr main_v12))
          ∗ (i2Loc d ↦{fullShare} W (dr main_v13)) ∗ (i3Loc d ↦{fullShare} W (dr main_v14))
          ∗ (o0Loc d ↦{fullShare} g0) ∗ (o1Loc d ↦{fullShare} g1) ∗ (o2Loc d ↦{fullShare} g2) ∗ (o3Loc d ↦{fullShare} g3)) := by
  rw [held_S12]
  refine congrArg₂ BI.sep (congrArg (fun x => (t0Loc d ↦{fullShare} x : sProp 𝕄)) (upd4_other W g0 g1 g2 g3 _ (by decide) (by decide) (by decide) (by decide))) ?_
  refine congrArg₂ BI.sep (congrArg (fun x => (t1Loc d ↦{fullShare} x : sProp 𝕄)) (upd4_other W g0 g1 g2 g3 _ (by decide) (by decide) (by decide) (by decide))) ?_
  refine congrArg₂ BI.sep (congrArg (fun x => (t2Loc d ↦{fullShare} x : sProp 𝕄)) (upd4_other W g0 g1 g2 g3 _ (by decide) (by decide) (by decide) (by decide))) ?_
  refine congrArg₂ BI.sep (congrArg (fun x => (t3Loc d ↦{fullShare} x : sProp 𝕄)) (upd4_other W g0 g1 g2 g3 _ (by decide) (by decide) (by decide) (by decide))) ?_
  refine congrArg₂ BI.sep (congrArg (fun x => (i0Loc d ↦{fullShare} x : sProp 𝕄)) (upd4_other W g0 g1 g2 g3 _ (by decide) (by decide) (by decide) (by decide))) ?_
  refine congrArg₂ BI.sep (congrArg (fun x => (i1Loc d ↦{fullShare} x : sProp 𝕄)) (upd4_other W g0 g1 g2 g3 _ (by decide) (by decide) (by decide) (by decide))) ?_
  refine congrArg₂ BI.sep (congrArg (fun x => (i2Loc d ↦{fullShare} x : sProp 𝕄)) (upd4_other W g0 g1 g2 g3 _ (by decide) (by decide) (by decide) (by decide))) ?_
  refine congrArg₂ BI.sep (congrArg (fun x => (i3Loc d ↦{fullShare} x : sProp 𝕄)) (upd4_other W g0 g1 g2 g3 _ (by decide) (by decide) (by decide) (by decide))) ?_
  refine congrArg₂ BI.sep (congrArg (fun x => (o0Loc d ↦{fullShare} x : sProp 𝕄)) (upd4_o0 W g0 g1 g2 g3)) ?_
  refine congrArg₂ BI.sep (congrArg (fun x => (o1Loc d ↦{fullShare} x : sProp 𝕄)) (upd4_o1 W g0 g1 g2 g3)) ?_
  exact congrArg₂ BI.sep (congrArg (fun x => (o2Loc d ↦{fullShare} x : sProp 𝕄)) (upd4_o2 W g0 g1 g2 g3))
    (congrArg (fun x => (o3Loc d ↦{fullShare} x : sProp 𝕄)) (upd4_o3 W g0 g1 g2 g3))

/-! ## The split, over any valuation that keeps the arguments -/

section Split

variable [FloatOps F]
variable (m : (ℓ : Loc nD τ sig) → Buf (Elt F) ℓ)

/-- What the thirty-two subcores are handed and hand back, SparseCore by SparseCore, the read-only arrays' contents those
    of the valuation `W`. -/
abbrev allHanded (d : Dev nD) (W : Valuation τ sig (Elt F)) : sProp 𝕄 :=
  bigSep Finset.univ fun c : Fin 2 => bigSep Finset.univ fun i : Fin 16 =>
    handed (F := F) d (coordsV c i) (tileShare (coreShare c.val) i.val) (tileShare (coreShare c.val) i.val)
      (W (dr main_v7)) (W (dr main_v8)) (W (dr main_v9)) (W (dr main_v10))
      (W (dr main_v11)) (W (dr main_v12)) (W (dr main_v13)) (W (dr main_v14))

theorem split_gen (d : Dev nD) (W : Valuation τ sig (Elt F)) (hK : Keeps m d W) :
    (held (SparseCore.T d) Sall W : sProp 𝕄)
      ⊢ |={Set.univ}=> iprop(allHanded (F := F) d W
          ∗ (allHanded (F := F) d W -∗ ∃ W' : Valuation τ sig (Elt F), ⌜Keeps m d W'⌝ ∗ (held (SparseCore.T d) Sall W' : sProp 𝕄))) := by
  unfold allHanded
  simp only [handed, roPts, outPts, bigSep_sep']
  rw [held_sub_split (SparseCore.T d) S12_sub W, held_S12]
  rw [pointsTo_tileShares (ℓ := t0Loc d) Finset.univ (W (dr main_v7)), pointsTo_tileShares (ℓ := t1Loc d) Finset.univ (W (dr main_v8)),
    pointsTo_tileShares (ℓ := t2Loc d) Finset.univ (W (dr main_v9)), pointsTo_tileShares (ℓ := t3Loc d) Finset.univ (W (dr main_v10)),
    pointsTo_tileShares (ℓ := i0Loc d) Finset.univ (W (dr main_v11)), pointsTo_tileShares (ℓ := i1Loc d) Finset.univ (W (dr main_v12)),
    pointsTo_tileShares (ℓ := i2Loc d) Finset.univ (W (dr main_v13)), pointsTo_tileShares (ℓ := i3Loc d) Finset.univ (W (dr main_v14)),
    pointsTo_lines (ℓ := o0Loc d) oK oK_disjoint oK_cover (W (dr main_v15_0)), pointsTo_lines (ℓ := o1Loc d) oK oK_disjoint oK_cover (W (dr main_v15_1)),
    pointsTo_lines (ℓ := o2Loc d) oK oK_disjoint oK_cover (W (dr main_v15_2)), pointsTo_lines (ℓ := o3Loc d) oK oK_disjoint oK_cover (W (dr main_v15_3))]
  iintro ⟨⟨H0, H1, H2, H3, H4, H5, H6, H7, O0, O1, O2, O3⟩, Hrest⟩
  imodintro
  isplitl [H0 H1 H2 H3 H4 H5 H6 H7 O0 O1 O2 O3]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · isplitl [O0]; · iapply (lines_some (ℓ := o0Loc d) oK (W (dr main_v15_0))); iexact O0
      isplitl [O1]; · iapply (lines_some (ℓ := o1Loc d) oK (W (dr main_v15_1))); iexact O1
      isplitl [O2]; · iapply (lines_some (ℓ := o2Loc d) oK (W (dr main_v15_2))); iexact O2
      iapply (lines_some (ℓ := o3Loc d) oK (W (dr main_v15_3))); iexact O3
  · iintro ⟨⟨H0, H1, H2, H3, H4, H5, H6, H7⟩, O0, O1, O2, O3⟩
    ihave G0 := (lines_join (ℓ := o0Loc d) oK oK_disjoint oK_cover (W (dr main_v15_0))) $$ O0
    icases G0 with ⟨%g0, G0⟩
    ihave G1 := (lines_join (ℓ := o1Loc d) oK oK_disjoint oK_cover (W (dr main_v15_1))) $$ O1
    icases G1 with ⟨%g1, G1⟩
    ihave G2 := (lines_join (ℓ := o2Loc d) oK oK_disjoint oK_cover (W (dr main_v15_2))) $$ O2
    icases G2 with ⟨%g2, G2⟩
    ihave G3 := (lines_join (ℓ := o3Loc d) oK oK_disjoint oK_cover (W (dr main_v15_3))) $$ O3
    icases G3 with ⟨%g3, G3⟩
    iexists (upd4 W g0 g1 g2 g3)
    isplitr
    · ipureintro
      exact keeps_update m d _ (by decide) _ (keeps_update m d _ (by decide) _ (keeps_update m d _ (by decide) _
        (keeps_update m d _ (by decide) _ hK)))
    · have hrest : (held (SparseCore.T d) (Sall \ S12) (upd4 W g0 g1 g2 g3) : sProp 𝕄) = held (SparseCore.T d) (Sall \ S12) W :=
        held_congr (SparseCore.T d) fun b hb => by
          have hb' : b ∉ S12 := (Finset.mem_sdiff.mp hb).2
          exact upd4_other W g0 g1 g2 g3 b (fun e => hb' (e ▸ (by decide : dr main_v15_0 ∈ S12)))
            (fun e => hb' (e ▸ (by decide : dr main_v15_1 ∈ S12))) (fun e => hb' (e ▸ (by decide : dr main_v15_2 ∈ S12)))
            (fun e => hb' (e ▸ (by decide : dr main_v15_3 ∈ S12)))
      rw [held_sub_split (SparseCore.T d) S12_sub (upd4 W g0 g1 g2 g3), held_S12_upd4, hrest]
      ihave H0 := (Entails.of_eq (pointsTo_tileShares (ℓ := t0Loc d) Finset.univ (W (dr main_v7))).symm) $$ H0
      ihave H1 := (Entails.of_eq (pointsTo_tileShares (ℓ := t1Loc d) Finset.univ (W (dr main_v8))).symm) $$ H1
      ihave H2 := (Entails.of_eq (pointsTo_tileShares (ℓ := t2Loc d) Finset.univ (W (dr main_v9))).symm) $$ H2
      ihave H3 := (Entails.of_eq (pointsTo_tileShares (ℓ := t3Loc d) Finset.univ (W (dr main_v10))).symm) $$ H3
      ihave H4 := (Entails.of_eq (pointsTo_tileShares (ℓ := i0Loc d) Finset.univ (W (dr main_v11))).symm) $$ H4
      ihave H5 := (Entails.of_eq (pointsTo_tileShares (ℓ := i1Loc d) Finset.univ (W (dr main_v12))).symm) $$ H5
      ihave H6 := (Entails.of_eq (pointsTo_tileShares (ℓ := i2Loc d) Finset.univ (W (dr main_v13))).symm) $$ H6
      ihave H7 := (Entails.of_eq (pointsTo_tileShares (ℓ := i3Loc d) Finset.univ (W (dr main_v14))).symm) $$ H7
      isplitr [Hrest]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [G0]; · iexact G0
        isplitl [G1]; · iexact G1
        isplitl [G2]; · iexact G2
        iexact G3
      · iexact Hrest

end Split

/-! ## The call's step -/

section Call

variable [FloatOps F]
variable (m : (ℓ : Loc nD τ sig) → Buf (Elt F) ℓ)
variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))

/-- THE SPARSECORE CALL AS A STEP of @main, the tables' and the index arrays' contents those the call's valuation holds:
    the buffers held whole split into the thirty-two subcores' parts, and the parts handed back join into the buffers
    held whole, the four outputs at whatever the subcores left, every other buffer as it was. -/
theorem callStep :
    CallStep m (P (F := F) (fun d => WC m R0 R1 R2 R3 R4 d (dr main_v7)) (fun d => WC m R0 R1 R2 R3 R4 d (dr main_v8))
      (fun d => WC m R0 R1 R2 R3 R4 d (dr main_v9)) (fun d => WC m R0 R1 R2 R3 R4 d (dr main_v10))
      (fun d => WC m R0 R1 R2 R3 R4 d (dr main_v11)) (fun d => WC m R0 R1 R2 R3 R4 d (dr main_v12))
      (fun d => WC m R0 R1 R2 R3 R4 d (dr main_v13)) (fun d => WC m R0 R1 R2 R3 R4 d (dr main_v14))) R0 R1 R2 R3 R4 :=
  fun d => split_gen m d (WC m R0 R1 R2 R3 R4 d) (keeps_WC m R0 R1 R2 R3 R4 d)

end Call

end Cert.Proof.B.ScCall

end
-- ==== Proof.BScReg0.lean ====
/-
  TensorCore call 0 (the batch normalisation) as a step of @main inside the SparseCore program: the body's run on
  its staged blocks, the call's proof data at the entry contents, and the call as a kernel region.
-/
import proofs.«203359_g24824910971486_cont_8to1_1854_34_alg».proof.Proof.BScMain
import proofs.«203359_g24824910971486_cont_8to1_1854_34_alg».proof.Proof.Gen.Kernel.Launch
import proofs.«203359_g24824910971486_cont_8to1_1854_34_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Proof.B.ScReg0

open Cert.Kernel Cert.Kernel.Gen Cert.Proof.B.ScSetup Cert.Proof.B.ScMain

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Idealize.ShloMosaic.Tactic

variable {F : FTy → Type} [FloatOps F]

local notation "𝕄" => MT nD τ sig (HIx 1) (Elt F) ℕ UU ℕ

/-! ## The body's accesses and what it leaves in the output block -/

abbrev rX : Rect S16384x13 := Rect.unit (s := S16384x13) ![0, 0] S16384x13.size inb_S16384x13_S16384x13_0_0
abbrev rG : Rect S1x13 := Rect.unit (s := S1x13) ![0, 0] S1x13.size inb_S1x13_S1x13_0_0

/-- The output block after the body, from the three input blocks: its one store. -/
def out0_3 (x0 : Vec F S16384x13 .f32) (x1 : Vec F S1x13 .f32) (x2 : Vec F S1x13 .f32) : Vec F S16384x13 .f32 :=
  View.canon [⟨rX, k0_pay1 (View.ld x0 rX) (View.ld x1 rG) (View.ld x2 rG)⟩]

theorem cover0_3 (p0 : Vec F S16384x13 .f32) (y : S16384x13.Idx) :
    ∃ pc ∈ ([⟨rX, p0⟩] : List (View.Piece (Elt F) S16384x13 .f32)), y ∈ pc.1.set :=
  View.cover_of_tiled [⟨rX, p0⟩] S16384x13.size (by rfl) y

set_option maxHeartbeats 1000000 in
/-- The body on whole staging memrefs: the three inputs' as they were, the output's at the stored value. -/
theorem sound_kernel0 (c : Dev nD) (E : Set ℕ) (arg0 : Memref sig .tc .vmem S16384x13 .f32) (harg0 : arg0.IsWhole)
    (arg1 : Memref sig .tc .vmem S1x13 .f32) (harg1 : arg1.IsWhole) (arg2 : Memref sig .tc .vmem S1x13 .f32) (harg2 : arg2.IsWhole)
    (arg3 : Memref sig .tc .vmem S16384x13 .f32) (harg3 : arg3.IsWhole)
    (x0 : Vec F S16384x13 .f32) (x1 : Vec F S1x13 .f32) (x2 : Vec F S1x13 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ Kk ⟨⟩))
      ⊢ wp frame (wpE (defs₀ (F := F)) Variants.none c none) E (cc0__bn_body arg0 harg0 arg1 harg1 arg2 harg2 arg3 harg3) Kk := by
  simp only [cc0__bn_body_eq_skeleton]; unfold cc0__bn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The windows' blocks and the proof data, at entry contents `V` -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

-- What the TensorCore owes throughout the call (its start signals to the SparseCores, paid at the later call).
variable (O : Dev nD → CellTallies nD τ sig (HIx 1))

/-- The call's proof data on core `c`: the arrays as the call finds them; after the body the inputs' blocks in place
    and the output's at the stored value; the invariant the scoped buffers no window stages; full shares; the core owing
    `O c` throughout. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.scopedRest spec0 c
  q _ := fullShare
  owed _ := O c
  recorded _ := {p | p.2 = none}

theorem A_eq0 (c : Dev nD) (w : Fin cfg0.W) : (dat0 V O c).A w = V c (Pipeline.arrRef spec0 w) := by
  dsimp only [dat0]
theorem after0_0 (c : Dev nD) (t : Fin cfg0.N) : (dat0 V O c).after 0 t = iblk0 V c 0 t := by dsimp only [dat0]
theorem after0_1 (c : Dev nD) (t : Fin cfg0.N) : (dat0 V O c).after 1 t = iblk0 V c 1 t := by dsimp only [dat0]
theorem after0_2 (c : Dev nD) (t : Fin cfg0.N) : (dat0 V O c).after 2 t = iblk0 V c 2 t := by dsimp only [dat0]
theorem after0_3 (c : Dev nD) (t : Fin cfg0.N) :
    (dat0 V O c).after 3 t = out0_3 (iblk0 V c 0 t) (iblk0 V c 1 t) (iblk0 V c 2 t) := by dsimp only [dat0]

theorem before0_0 (c : Dev nD) (t : Fin cfg0.N) (d) : (dat0 V O c).before 0 t d = iblk0 V c 0 t :=
  before0_0_of V (dat0 V O c) (A_eq0 V O c 0) (after0_0 V O c) t d
theorem before0_1 (c : Dev nD) (t : Fin cfg0.N) (d) : (dat0 V O c).before 1 t d = iblk0 V c 1 t :=
  before0_1_of V (dat0 V O c) (A_eq0 V O c 1) (after0_1 V O c) t d
theorem before0_2 (c : Dev nD) (t : Fin cfg0.N) (d) : (dat0 V O c).before 2 t d = iblk0 V c 2 t :=
  before0_2_of V (dat0 V O c) (A_eq0 V O c 2) (after0_2 V O c) t d

/-! ## The body obligation -/

def bodyPre0 (c : Dev nD) (t : Fin cfg0.N) : sProp 𝕄 :=
  iprop((dat0 V O c).Φ t.castSucc ∗ (dat0 V O c).owesAt none t.castSucc
    ∗ (∃ d, owns (c : Thread nD τ) (st0_0 t) fullShare ((dat0 V O c).before 0 t d))
    ∗ (∃ d, owns (c : Thread nD τ) (st0_1 t) fullShare ((dat0 V O c).before 1 t d))
    ∗ (∃ d, owns (c : Thread nD τ) (st0_2 t) fullShare ((dat0 V O c).before 2 t d))
    ∗ (∃ d, owns (c : Thread nD τ) (st0_3 t) fullShare ((dat0 V O c).before 3 t d)))

def bodyPost0 (c : Dev nD) (t : Fin cfg0.N) : sProp 𝕄 :=
  iprop((dat0 V O c).Φ t.succ ∗ (dat0 V O c).owesAt none t.succ
    ∗ owns (c : Thread nD τ) (st0_0 t) fullShare ((dat0 V O c).after 0 t)
    ∗ owns (c : Thread nD τ) (st0_1 t) fullShare ((dat0 V O c).after 1 t)
    ∗ owns (c : Thread nD τ) (st0_2 t) fullShare ((dat0 V O c).after 2 t)
    ∗ owns (c : Thread nD τ) (st0_3 t) fullShare ((dat0 V O c).after 3 t))

theorem sound_body0 (c : Dev nD) (t : Fin cfg0.N) :
    bodyPre0 V O c t ⊢ wp frame (wpE (defs₀ (F := F)) Variants.none c none) Set.univ (bodyAt0 t) (fun _ => bodyPost0 V O c t) := by
  unfold bodyPre0 bodyPost0 bodyAt0
  simp only [before0_0, before0_1, before0_2]
  rw [show (dat0 V O c).Φ t.succ = (dat0 V O c).Φ t.castSucc from rfl,
    show (dat0 V O c).owesAt none t.succ = (dat0 V O c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : Pipeline.BodyObligation (dat0 (F := F) V O c) (defs₀ (F := F)) Variants.none none Set.univ := fun t => by
  rw [bigSep_W0, bigSep_W0]
  exact sound_body0 V O c t

/-! ## The family of proof data, and call 0 as a kernel region -/

/-- Any proof data for TensorCore call 1 (not entered here): its blocks as found. -/
def datT1 (c : Dev nD) : Dat τ (Elt F) (HIx 1) ℕ UU ℕ cfg1 c where
  A w := V c (Pipeline.arrRef spec1 w)
  after w t := match w with
    | ⟨0, _⟩ => ((cfg1.win 0).blk t).view.read (Elt F) (V c (Pipeline.arrRef spec1 0))
    | ⟨1, _⟩ => ((cfg1.win 1).blk t).view.read (Elt F) (V c (Pipeline.arrRef spec1 1))
    | ⟨2, _⟩ => ((cfg1.win 2).blk t).view.read (Elt F) (V c (Pipeline.arrRef spec1 2))
    | ⟨3, _⟩ => ((cfg1.win 3).blk t).view.read (Elt F) (V c (Pipeline.arrRef spec1 3))
  Φ _ := Pipeline.scopedRest spec1 c
  q _ := fullShare
  owed _ := O c

/-- Any proof data for TensorCore call 2 (not entered here): its blocks as found. -/
def datT2 (c : Dev nD) : Dat τ (Elt F) (HIx 1) ℕ UU ℕ cfg2 c where
  A w := V c (Pipeline.arrRef spec2 w)
  after w t := match w with
    | ⟨0, _⟩ => ((cfg2.win 0).blk t).view.read (Elt F) (V c (Pipeline.arrRef spec2 0))
    | ⟨1, _⟩ => ((cfg2.win 1).blk t).view.read (Elt F) (V c (Pipeline.arrRef spec2 1))
    | ⟨2, _⟩ => ((cfg2.win 2).blk t).view.read (Elt F) (V c (Pipeline.arrRef spec2 2))
    | ⟨3, _⟩ => ((cfg2.win 3).blk t).view.read (Elt F) (V c (Pipeline.arrRef spec2 3))
  Φ _ := Pipeline.scopedRest spec2 c
  q _ := fullShare
  owed _ := O c

/-- Any proof data for TensorCore call 3 (not entered here): its blocks as found. -/
def datT3 (c : Dev nD) : Dat τ (Elt F) (HIx 1) ℕ UU ℕ cfg3 c where
  A w := V c (Pipeline.arrRef spec3 w)
  after w t := match w with
    | ⟨0, _⟩ => ((cfg3.win 0).blk t).view.read (Elt F) (V c (Pipeline.arrRef spec3 0))
    | ⟨1, _⟩ => ((cfg3.win 1).blk t).view.read (Elt F) (V c (Pipeline.arrRef spec3 1))
    | ⟨2, _⟩ => ((cfg3.win 2).blk t).view.read (Elt F) (V c (Pipeline.arrRef spec3 2))
    | ⟨3, _⟩ => ((cfg3.win 3).blk t).view.read (Elt F) (V c (Pipeline.arrRef spec3 3))
  Φ _ := Pipeline.scopedRest spec3 c
  q _ := fullShare
  owed _ := O c

/-- Any proof data for TensorCore call 4 (not entered here): its blocks as found. -/
def datT4 (c : Dev nD) : Dat τ (Elt F) (HIx 1) ℕ UU ℕ cfg4 c where
  A w := V c (Pipeline.arrRef spec4 w)
  after w t := match w with
    | ⟨0, _⟩ => ((cfg4.win 0).blk t).view.read (Elt F) (V c (Pipeline.arrRef spec4 0))
    | ⟨1, _⟩ => ((cfg4.win 1).blk t).view.read (Elt F) (V c (Pipeline.arrRef spec4 1))
    | ⟨2, _⟩ => ((cfg4.win 2).blk t).view.read (Elt F) (V c (Pipeline.arrRef spec4 2))
    | ⟨3, _⟩ => ((cfg4.win 3).blk t).view.read (Elt F) (V c (Pipeline.arrRef spec4 3))
  Φ _ := Pipeline.scopedRest spec4 c
  q _ := fullShare
  owed _ := O c

abbrev adm : (p : Fin 5) → (pcfgs (F := F) p).Adm := fun p => (cfgs p).toPCfg_adm

def pdats : (p : Fin 5) → (c : Dev nD) → Dat τ (Elt F) (HIx 1) ℕ UU ℕ (Pipeline.pin (pcfgs (F := F)) adm p) c
  | ⟨0, _⟩ => fun c => dat0 V O c
  | ⟨1, _⟩ => fun c => datT1 V O c
  | ⟨2, _⟩ => fun c => datT2 V O c
  | ⟨3, _⟩ => fun c => datT3 V O c
  | ⟨4, _⟩ => fun c => datT4 V O c

/-! ## Call 0 as a kernel region entered from a valuation `W` of the unscoped buffers -/

section Region

variable (W : Valuation τ sig (Elt F))

/-- The valuation read at the TensorCore's references, the same on every core. -/
abbrev VW (c : Dev nD) (b : Ref sig .tc) : Buf (Elt F) ((c : Thread nD τ).loc b) := W (dr b)
/-- What the TensorCore owes from the launch to the SparseCore call: its start signals. -/
abbrev OT (c : Dev nD) : CellTallies nD τ sig (HIx 1) := (K (F := F)).Otc c 0

omit [FloatOps F] in
theorem OT_none (c : Dev nD) (g : GSem nD τ sig) : OT (F := F) c g none = 0 := by
  by_contra h
  have := SparseCore.Cfg.lev_of_Otc_pos (K := K (F := F)) (d := c) (n := 0) (g := g) (ι := none) (Nat.pos_of_ne_zero h)
  rw [SparseCore.Cfg.lev_none] at this; omega

/-- What call 0 leaves in its output array. -/
def R0 (c : Dev nD) (W : Valuation τ sig (Elt F)) : (dr main_v2).ty.Contents (Elt F) := (dat0 (VW W) (OT (F := F)) c).arrAt 3 cfg0.N

/-- The TensorCore's debt as its handshake state holds it. -/
abbrev owesPart (c : Dev nD) : sProp 𝕄 :=
  iprop(∃ Ws, ⌜(K (F := F)).WBelow (SparseCore.T c) Ws (8 * 0)⌝ ∗ owes (SparseCore.T c) (OT (F := F) c) Ws)

set_option backward.isDefEq.respectTransparency.types false in
def reg0 : Pipeline.RegionSeg (pcfgs (F := F)) adm (pdats (VW W) (OT (F := F))) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (VW W) (OT (F := F)) c).loose
  hwaits c := Pipeline.cellsWaits_intro (Pipeline.pin (pcfgs (F := F)) adm) (pdats (VW W) (OT (F := F))) none 0 c
    (R := levAts (K (F := F)).L (K (F := F)).lev) fun w s t => (K (F := F)).mayWait_none _ (OT_none c)
  pre c := iprop(StableHlo.held (c : Thread nD τ) (Pipeline.ucRefs τ sig) W ∗ owesPart c)
  post c := iprop(StableHlo.held (c : Thread nD τ) (Pipeline.ucRefs τ sig) (Function.update W (dr main_v2) (R0 c W)) ∗ owesPart c)
  X c := iprop(emp)
  Y c := iprop(emp)
  Z c := Pipeline.unscopedRest (Ix := HIx 1) (Name := ℕ) (U := UU) (Lvl := ℕ) spec0 c (VW W c)
  hentry c := by
    rw [Pipeline.ownSems0_none]
    have hsplit := Pipeline.arrays_of_unscopedBufs (p := 0) (pcfgs (F := F)) adm (pdats (VW W) (OT (F := F))) launch0.win launch0.arr_whole c
      ((pdats (VW W) (OT (F := F)) 0 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr
      · ipureintro; intro p hp; exact Or.inl (by
          have := hWs p hp
          rcases hpi : p.2 with _ | q
          · exact hpi
          · rw [hpi] at this; exact absurd this (by have := (K (F := F)).lev_some_pos (SparseCore.T c, p.1) q; omega))
      iexact HO
    isplitr; · iempintro
    iexact Hrest
  hin c := by
    rw [show (pdats (VW W) (OT (F := F)) 0 c).Φ 0 = Pipeline.scopedRest spec0 c from rfl]
    iintro ⟨-, -, Hr⟩
    iexact Hr
  hout c := by
    rw [Pipeline.ownSems0_none, show (pdats (VW W) (OT (F := F)) 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats (VW W) (OT (F := F))) ((pdats (VW W) (OT (F := F)) 0 c).share_full fun _ => rfl)
      (VW W c) (VW (Function.update W (dr main_v2) (R0 c W)) c) ((pdats (VW W) (OT (F := F)) 0 c).arrAt · cfg0.N)
      (fun w => by
        match w with
        | ⟨0, _⟩ => exact ((dat0 (VW W) (OT (F := F)) c).arrAt_in 0 rfl _).trans ((A_eq0 (VW W) (OT (F := F)) c 0).trans (Function.update_of_ne (show dr main_arg0 ≠ dr main_v2 by decide) _ _).symm)
        | ⟨1, _⟩ => exact ((dat0 (VW W) (OT (F := F)) c).arrAt_in 1 rfl _).trans ((A_eq0 (VW W) (OT (F := F)) c 1).trans (Function.update_of_ne (show dr main_v0 ≠ dr main_v2 by decide) _ _).symm)
        | ⟨2, _⟩ => exact ((dat0 (VW W) (OT (F := F)) c).arrAt_in 2 rfl _).trans ((A_eq0 (VW W) (OT (F := F)) c 2).trans (Function.update_of_ne (show dr main_v1 ≠ dr main_v2 by decide) _ _).symm)
        | ⟨3, _⟩ => exact (Function.update_self (dr main_v2) (R0 c W) W).symm)
      (fun b hb => Function.update_of_ne (fun e => hb (Finset.mem_image.mpr ⟨3, Finset.mem_univ _, Proc.devRef_injective _ e.symm⟩)) _ _)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr
    · ipureintro; intro p hp
      rcases hWs hp with h | ⟨w, s, rfl⟩
      · rw [show p.2 = none from h]; exact le_of_eq rfl
      · exact le_of_eq rfl
    iexact HO

end Region

/-! ## The step: the call in the program's own signature, lifted into the SparseCore program -/

/-- TensorCore call `p`'s ghost state on core `c`, as the launch deals it. -/
abbrev ghost (p : Fin 5) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

set_option backward.isDefEq.respectTransparency.types false in
theorem regionStep0 [∀ e, Nonempty (Elt F e)] (P : (K (F := F)).Pay (nD := nD) (Val := Elt F) (Name := ℕ) (U := UU)) (Gout : Dev nD → sProp 𝕄) :
    RegionStep P 0 main_v2 (R0 (F := F)) (fun d => iprop(ghost (F := F) 0 d ∗ Gout d)) Gout := by
  intro κ d W Q
  iintro ⟨#Hctx, Hst, Hb, Hheld, ⟨Hg, Ht⟩, HG⟩ Hk
  unfold SparseCore.Cfg.tcSt
  icases Hst with ⟨Howes, Hrest⟩
  ihave Hlev := (SparseCore.Cfg.ctx_levAts (K := K (F := F)) κ) $$ Hctx
  iapply ((K (F := F)).wp_liftProg (D (F := F)) 𝒱 (SparseCore.T d) Set.univ none
    (Prog.lift (TpuEff.customCall (Pipeline.entry (0 : Fin 5)) ())) Q)
  iapply (Pipeline.RegionSeg.wp (pcfgs (F := F)) adm (pdats (VW W) (OT (F := F))) none cellOf_inj (EP (F := F)) defs₀ 𝒱₀
    (K (F := F)).L (K (F := F)).lev (reg0 W) d none (fun _ h => nomatch h) (fun _ => Prog.ret PUnit.unit) Q) $$ [Hk Hb Hheld Howes Hg Ht Hrest HG]
  isplitl [Hk Hrest HG]
  · iintro ⟨Hb, Hpost⟩
    ihave Hpost := (Entails.of_eq (show (reg0 (F := F) W).post d
      = iprop(StableHlo.held (d : Thread nD τ) (Pipeline.ucRefs τ sig) (Function.update W (dr main_v2) (R0 d W)) ∗ owesPart (F := F) d) from rfl)) $$ Hpost
    icases Hpost with ⟨Hheld, Howes⟩
    rw [wp_ret]; imodintro
    iapply Hk
    isplitl [Howes Hrest]
    · isplitl [Howes]; · iexact Howes
      iexact Hrest
    isplitl [Hb]; · iexact Hb
    isplitl [Hheld]; · iexact Hheld
    iexact HG
  isplitl [Hb]; · iexact Hb
  isplitl [Hheld Howes]
  · iapply (Entails.of_eq (show iprop(StableHlo.held (d : Thread nD τ) (Pipeline.ucRefs τ sig) W ∗ owesPart (F := F) d) = (reg0 (F := F) W).pre d from rfl))
    isplitl [Hheld]; · iexact Hheld
    iexact Howes
  isplitr; · iexact Hlev
  isplitl [Hg]; · iexact Hg
  iexact Ht

end Cert.Proof.B.ScReg0

end
-- ==== Proof.BScReg1.lean ====
/-
  TensorCore call 1 (the scaling of table 0: each sixteen-lane segment of a line times min(1, 5 / max(norm, 1e-12)))
  as a step of @main inside the SparseCore program: the body's run on its staged blocks, the call's proof data at the
  entry contents, and the call as a kernel region.
-/
import proofs.«203359_g24824910971486_cont_8to1_1854_34_alg».proof.Proof.BScMain
import proofs.«203359_g24824910971486_cont_8to1_1854_34_alg».proof.Proof.Gen.Kernel.Launch
import proofs.«203359_g24824910971486_cont_8to1_1854_34_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Proof.B.ScReg1

open Cert.Kernel Cert.Kernel.Gen Cert.Proof.B.ScSetup Cert.Proof.B.ScMain

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Idealize.ShloMosaic.Tactic

variable {F : FTy → Type} [FloatOps F]

local notation "𝕄" => MT nD τ sig (HIx 1) (Elt F) ℕ UU ℕ

/-! ## The body's accesses and what it leaves in the output block -/

abbrev rS : Rect S128x8 := Rect.unit (s := S128x8) ![0, 0] S128x8.size inb_S128x8_S128x8_0_0
abbrev rST : Rect S8x128 := Rect.unit (s := S8x128) ![0, 0] S8x128.size inb_S8x128_S8x128_0_0
abbrev rT : Rect S12500x128 := Rect.unit (s := S12500x128) ![0, 0] S12500x128.size inb_S12500x128_S12500x128_0_0

/-- The output block after the body, from the three input blocks (the segment matrix, its transpose, the table's
    lines): its one store. -/
def outB (x0 : Vec F S128x8 .f32) (x1 : Vec F S8x128 .f32) (x2 : Vec F S12500x128 .f32) : Vec F S12500x128 .f32 :=
  View.canon [⟨rT, k1_pay1 (View.ld x2 rT) (View.ld x0 rS) (View.ld x1 rST)⟩]

theorem coverB (p0 : Vec F S12500x128 .f32) (y : S12500x128.Idx) :
    ∃ pc ∈ ([⟨rT, p0⟩] : List (View.Piece (Elt F) S12500x128 .f32)), y ∈ pc.1.set :=
  View.cover_of_tiled [⟨rT, p0⟩] S12500x128.size (by rfl) y

set_option maxHeartbeats 1000000 in
/-- The body on whole staging memrefs: the three inputs' as they were, the output's at the stored value. -/
theorem sound_kernel (c : Dev nD) (E : Set ℕ) (arg0 : Memref sig .tc .vmem S128x8 .f32) (harg0 : arg0.IsWhole)
    (arg1 : Memref sig .tc .vmem S8x128 .f32) (harg1 : arg1.IsWhole) (arg2 : Memref sig .tc .vmem S12500x128 .f32) (harg2 : arg2.IsWhole)
    (arg3 : Memref sig .tc .vmem S12500x128 .f32) (harg3 : arg3.IsWhole)
    (x0 : Vec F S128x8 .f32) (x1 : Vec F S8x128 .f32) (x2 : Vec F S12500x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (outB x0 x1 x2)) -∗ Kk ⟨⟩))
      ⊢ wp frame (wpE (defs₀ (F := F)) Variants.none c none) E (cc1__scale_body arg0 harg0 arg1 harg1 arg2 harg2 arg3 harg3) Kk := by
  simp only [cc1__scale_body_eq_skeleton]; unfold cc1__scale_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-! ## The windows' blocks and the proof data, at entry contents `V` -/

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) (HIx 1) ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

-- What the TensorCore owes throughout the call (its start signals to the SparseCores, paid at the later call).
variable (O : Dev nD → CellTallies nD τ sig (HIx 1))

/-- The call's proof data on core `c`: the arrays as the call finds them; after the body the inputs' blocks in place
    and the output's at the stored value; the invariant the scoped buffers no window stages; full shares; the core owing
    `O c` throughout, its recorded waits at the kernels' own index. -/
def datR (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outB (iblk V c 0 t) (iblk V c 1 t) (iblk V c 2 t)
  Φ _ := Pipeline.scopedRest spec1 c
  q _ := fullShare
  owed _ := O c
  recorded _ := {p | p.2 = none}

theorem A_eq (c : Dev nD) (w : Fin cfg1.W) : (datR V O c).A w = V c (Pipeline.arrRef spec1 w) := by
  dsimp only [datR]
theorem after_0 (c : Dev nD) (t : Fin cfg1.N) : (datR V O c).after 0 t = iblk V c 0 t := by dsimp only [datR]
theorem after_1 (c : Dev nD) (t : Fin cfg1.N) : (datR V O c).after 1 t = iblk V c 1 t := by dsimp only [datR]
theorem after_2 (c : Dev nD) (t : Fin cfg1.N) : (datR V O c).after 2 t = iblk V c 2 t := by dsimp only [datR]
theorem after_3 (c : Dev nD) (t : Fin cfg1.N) :
    (datR V O c).after 3 t = outB (iblk V c 0 t) (iblk V c 1 t) (iblk V c 2 t) := by dsimp only [datR]

theorem before_0 (c : Dev nD) (t : Fin cfg1.N) (d) : (datR V O c).before 0 t d = iblk V c 0 t :=
  before_0_of V (datR V O c) (A_eq V O c 0) (after_0 V O c) t d
theorem before_1 (c : Dev nD) (t : Fin cfg1.N) (d) : (datR V O c).before 1 t d = iblk V c 1 t :=
  before_1_of V (datR V O c) (A_eq V O c 1) (after_1 V O c) t d
theorem before_2 (c : Dev nD) (t : Fin cfg1.N) (d) : (datR V O c).before 2 t d = iblk V c 2 t :=
  before_2_of V (datR V O c) (A_eq V O c 2) (after_2 V O c) t d

/-! ## The body obligation -/

def bodyPre (c : Dev nD) (t : Fin cfg1.N) : sProp 𝕄 :=
  iprop((datR V O c).Φ t.castSucc ∗ (datR V O c).owesAt none t.castSucc
    ∗ (∃ d, owns (c : Thread nD τ) (st1_0 t) fullShare ((datR V O c).before 0 t d))
    ∗ (∃ d, owns (c : Thread nD τ) (st1_1 t) fullShare ((datR V O c).before 1 t d))
    ∗ (∃ d, owns (c : Thread nD τ) (st1_2 t) fullShare ((datR V O c).before 2 t d))
    ∗ (∃ d, owns (c : Thread nD τ) (st1_3 t) fullShare ((datR V O c).before 3 t d)))

def bodyPost (c : Dev nD) (t : Fin cfg1.N) : sProp 𝕄 :=
  iprop((datR V O c).Φ t.succ ∗ (datR V O c).owesAt none t.succ
    ∗ owns (c : Thread nD τ) (st1_0 t) fullShare ((datR V O c).after 0 t)
    ∗ owns (c : Thread nD τ) (st1_1 t) fullShare ((datR V O c).after 1 t)
    ∗ owns (c : Thread nD τ) (st1_2 t) fullShare ((datR V O c).after 2 t)
    ∗ owns (c : Thread nD τ) (st1_3 t) fullShare ((datR V O c).after 3 t))

theorem sound_body (c : Dev nD) (t : Fin cfg1.N) :
    bodyPre V O c t ⊢ wp frame (wpE (defs₀ (F := F)) Variants.none c none) Set.univ (bodyAt1 t) (fun _ => bodyPost V O c t) := by
  unfold bodyPre bodyPost bodyAt1
  simp only [before_0, before_1, before_2]
  rw [show (datR V O c).Φ t.succ = (datR V O c).Φ t.castSucc from rfl,
    show (datR V O c).owesAt none t.succ = (datR V O c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : Pipeline.BodyObligation (datR (F := F) V O c) (defs₀ (F := F)) Variants.none none Set.univ := fun t => by
  rw [bigSep_W1, bigSep_W1]
  exact sound_body V O c t

/-! ## The family of proof data, and call 1 as a kernel region -/

def datT0 (c : Dev nD) : Dat τ (Elt F) (HIx 1) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
    | ⟨3, _⟩ => ((cfg0.win 3).blk t).view.read (Elt F) (V c (Pipeline.arrRef spec0 3))
  Φ _ := Pipeline.scopedRest spec0 c
  q _ := fullShare
  owed _ := O c

def datT2 (c : Dev nD) : Dat τ (Elt F) (HIx 1) ℕ UU ℕ cfg2 c where
  A w := V c (Pipeline.arrRef spec2 w)
  after w t := match w with
    | ⟨0, _⟩ => ((cfg2.win 0).blk t).view.read (Elt F) (V c (Pipeline.arrRef spec2 0))
    | ⟨1, _⟩ => ((cfg2.win 1).blk t).view.read (Elt F) (V c (Pipeline.arrRef spec2 1))
    | ⟨2, _⟩ => ((cfg2.win 2).blk t).view.read (Elt F) (V c (Pipeline.arrRef spec2 2))
    | ⟨3, _⟩ => ((cfg2.win 3).blk t).view.read (Elt F) (V c (Pipeline.arrRef spec2 3))
  Φ _ := Pipeline.scopedRest spec2 c
  q _ := fullShare
  owed _ := O c

def datT3 (c : Dev nD) : Dat τ (Elt F) (HIx 1) ℕ UU ℕ cfg3 c where
  A w := V c (Pipeline.arrRef spec3 w)
  after w t := match w with
    | ⟨0, _⟩ => ((cfg3.win 0).blk t).view.read (Elt F) (V c (Pipeline.arrRef spec3 0))
    | ⟨1, _⟩ => ((cfg3.win 1).blk t).view.read (Elt F) (V c (Pipeline.arrRef spec3 1))
    | ⟨2, _⟩ => ((cfg3.win 2).blk t).view.read (Elt F) (V c (Pipeline.arrRef spec3 2))
    | ⟨3, _⟩ => ((cfg3.win 3).blk t).view.read (Elt F) (V c (Pipeline.arrRef spec3 3))
  Φ _ := Pipeline.scopedRest spec3 c
  q _ := fullShare
  owed _ := O c

def datT4 (c : Dev nD) : Dat τ (Elt F) (HIx 1) ℕ UU ℕ cfg4 c where
  A w := V c (Pipeline.arrRef spec4 w)
  after w t := match w with
    | ⟨0, _⟩ => ((cfg4.win 0).blk t).view.read (Elt F) (V c (Pipeline.arrRef spec4 0))
    | ⟨1, _⟩ => ((cfg4.win 1).blk t).view.read (Elt F) (V c (Pipeline.arrRef spec4 1))
    | ⟨2, _⟩ => ((cfg4.win 2).blk t).view.read (Elt F) (V c (Pipeline.arrRef spec4 2))
    | ⟨3, _⟩ => ((cfg4.win 3).blk t).view.read (Elt F) (V c (Pipeline.arrRef spec4 3))
  Φ _ := Pipeline.scopedRest spec4 c
  q _ := fullShare
  owed _ := O c

abbrev adm : (p : Fin 5) → (pcfgs (F := F) p).Adm := fun p => (cfgs p).toPCfg_adm

def pdats : (p : Fin 5) → (c : Dev nD) → Dat τ (Elt F) (HIx 1) ℕ UU ℕ (Pipeline.pin (pcfgs (F := F)) adm p) c
  | ⟨0, _⟩ => fun c => datT0 V O c
  | ⟨1, _⟩ => fun c => datR V O c
  | ⟨2, _⟩ => fun c => datT2 V O c
  | ⟨3, _⟩ => fun c => datT3 V O c
  | ⟨4, _⟩ => fun c => datT4 V O c

section Region

variable (W : Valuation τ sig (Elt F))

/-- The valuation read at the TensorCore's references, the same on every core. -/
abbrev VW (c : Dev nD) (b : Ref sig .tc) : Buf (Elt F) ((c : Thread nD τ).loc b) := W (dr b)
/-- What the TensorCore owes from the launch to the SparseCore call: its start signals. -/
abbrev OT (c : Dev nD) : CellTallies nD τ sig (HIx 1) := (K (F := F)).Otc c 0

omit [FloatOps F] in
theorem OT_none (c : Dev nD) (g : GSem nD τ sig) : OT (F := F) c g none = 0 := by
  by_contra h
  have := SparseCore.Cfg.lev_of_Otc_pos (K := K (F := F)) (d := c) (n := 0) (g := g) (ι := none) (Nat.pos_of_ne_zero h)
  rw [SparseCore.Cfg.lev_none] at this; omega

/-- What call 1 leaves in its output array. -/
def Rout (c : Dev nD) (W : Valuation τ sig (Elt F)) : (dr main_v7).ty.Contents (Elt F) := (datR (VW W) (OT (F := F)) c).arrAt 3 cfg1.N

/-- The TensorCore's debt as its handshake state holds it. -/
abbrev owesPart (c : Dev nD) : sProp 𝕄 :=
  iprop(∃ Ws, ⌜(K (F := F)).WBelow (SparseCore.T c) Ws (8 * 0)⌝ ∗ owes (SparseCore.T c) (OT (F := F) c) Ws)

set_option backward.isDefEq.respectTransparency.types false in
def reg : Pipeline.RegionSeg (pcfgs (F := F)) adm (pdats (VW W) (OT (F := F))) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation (VW W) (OT (F := F)) c).loose
  hwaits c := Pipeline.cellsWaits_intro (Pipeline.pin (pcfgs (F := F)) adm) (pdats (VW W) (OT (F := F))) none 1 c
    (R := levAts (K (F := F)).L (K (F := F)).lev) (fun w s t => (K (F := F)).mayWait_none _ (OT_none (F := F) c))
  pre c := iprop(StableHlo.held (c : Thread nD τ) (Pipeline.ucRefs τ sig) W ∗ owesPart c)
  post c := iprop(StableHlo.held (c : Thread nD τ) (Pipeline.ucRefs τ sig) (Function.update W (dr main_v7) (Rout c W)) ∗ owesPart c)
  X c := iprop(emp)
  Y c := iprop(emp)
  Z c := Pipeline.unscopedRest (Ix := HIx 1) (Name := ℕ) (U := UU) (Lvl := ℕ) spec1 c (VW W c)
  hentry c := by
    rw [Pipeline.ownSems0_none]
    have hsplit := Pipeline.arrays_of_unscopedBufs (p := 1) (pcfgs (F := F)) adm (pdats (VW W) (OT (F := F))) launch1.win launch1.arr_whole c
      ((pdats (VW W) (OT (F := F)) 1 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr
      · ipureintro; intro p hp; exact Or.inl (by
          have := hWs p hp
          rcases hpi : p.2 with _ | q
          · exact hpi
          · rw [hpi] at this; exact absurd this (by have := (K (F := F)).lev_some_pos (SparseCore.T c, p.1) q; omega))
      iexact HO
    isplitr; · iempintro
    iexact Hrest
  hin c := by
    rw [show (pdats (VW W) (OT (F := F)) 1 c).Φ 0 = Pipeline.scopedRest spec1 c from rfl]
    iintro ⟨-, -, Hr⟩
    iexact Hr
  hout c := by
    rw [Pipeline.ownSems0_none, show (pdats (VW W) (OT (F := F)) 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats (VW W) (OT (F := F))) ((pdats (VW W) (OT (F := F)) 1 c).share_full fun _ => rfl)
      (VW W c) (VW (Function.update W (dr main_v7) (Rout c W)) c) ((pdats (VW W) (OT (F := F)) 1 c).arrAt · cfg1.N)
      (fun w => by
        match w with
        | ⟨0, _⟩ => exact ((datR (VW W) (OT (F := F)) c).arrAt_in 0 rfl _).trans ((A_eq (VW W) (OT (F := F)) c 0).trans (Function.update_of_ne (show dr main_cst ≠ dr main_v7 by decide) _ _).symm)
        | ⟨1, _⟩ => exact ((datR (VW W) (OT (F := F)) c).arrAt_in 1 rfl _).trans ((A_eq (VW W) (OT (F := F)) c 1).trans (Function.update_of_ne (show dr main_cst_0 ≠ dr main_v7 by decide) _ _).symm)
        | ⟨2, _⟩ => exact ((datR (VW W) (OT (F := F)) c).arrAt_in 2 rfl _).trans ((A_eq (VW W) (OT (F := F)) c 2).trans (Function.update_of_ne (show dr main_v3 ≠ dr main_v7 by decide) _ _).symm)
        | ⟨3, _⟩ => exact (Function.update_self (dr main_v7) (Rout c W) W).symm)
      (fun b hb => Function.update_of_ne (fun e => hb (Finset.mem_image.mpr ⟨3, Finset.mem_univ _, Proc.devRef_injective _ e.symm⟩)) _ _)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr
    · ipureintro; intro p hp
      rcases hWs hp with h | ⟨w, s, rfl⟩
      · rw [show p.2 = none from h]; exact le_of_eq rfl
      · exact le_of_eq rfl
    iexact HO

end Region

/-! ## The step: the call in the program's own signature, lifted into the SparseCore program -/

/-- TensorCore call `p`'s ghost state on core `c`, as the launch deals it. -/
abbrev ghost (p : Fin 5) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

set_option backward.isDefEq.respectTransparency.types false in
theorem regionStep [∀ e, Nonempty (Elt F e)] (P : (K (F := F)).Pay (nD := nD) (Val := Elt F) (Name := ℕ) (U := UU)) (Gout : Dev nD → sProp 𝕄) :
    RegionStep P 1 main_v7 (Rout (F := F)) (fun d => iprop(ghost (F := F) 1 d ∗ Gout d)) Gout := by
  intro κ d W Q
  iintro ⟨#Hctx, Hst, Hb, Hheld, ⟨Hg, Ht⟩, HG⟩ Hk
  unfold SparseCore.Cfg.tcSt
  icases Hst with ⟨Howes, Hrest⟩
  ihave Hlev := (SparseCore.Cfg.ctx_levAts (K := K (F := F)) κ) $$ Hctx
  iapply ((K (F := F)).wp_liftProg (D (F := F)) 𝒱 (SparseCore.T d) Set.univ none
    (Prog.lift (TpuEff.customCall (Pipeline.entry (1 : Fin 5)) ())) Q)
  iapply (Pipeline.RegionSeg.wp (pcfgs (F := F)) adm (pdats (VW W) (OT (F := F))) none cellOf_inj (EP (F := F)) defs₀ 𝒱₀
    (K (F := F)).L (K (F := F)).lev (reg W) d none (fun _ h => nomatch h) (fun _ => Prog.ret PUnit.unit) Q) $$ [Hk Hb Hheld Howes Hg Ht Hrest HG]
  isplitl [Hk Hrest HG]
  · iintro ⟨Hb, Hpost⟩
    ihave Hpost := (Entails.of_eq (show (reg (F := F) W).post d
      = iprop(StableHlo.held (d : Thread nD τ) (Pipeline.ucRefs τ sig) (Function.update W (dr main_v7) (Rout d W)) ∗ owesPart (F := F) d) from rfl)) $$ Hpost
    icases Hpost with ⟨Hheld, Howes⟩
    rw [wp_ret]; imodintro
    iapply Hk
    isplitl [Howes Hrest]
    · isplitl [Howes]; · iexact Howes
      iexact Hrest
    isplitl [Hb]; · iexact Hb
    isplitl [Hheld]; · iexact Hheld
    iexact HG
  isplitl [Hb]; · iexact Hb
  isplitl [Hheld Howes]
  · iapply (Entails.of_eq (show iprop(StableHlo.held (d : Thread nD τ) (Pipeline.ucRefs τ sig) W ∗ owesPart (F := F) d) = (reg (F := F) W).pre d from rfl))
    isplitl [Hheld]; · iexact Hheld
    iexact Howes
  isplitr; · iexact Hlev
  isplitl [Hg]; · iexact Hg
  iexact Ht

end Cert.Proof.B.ScReg1

end
-- ==== Proof.BScReg2.lean ====
/-
  TensorCore call 2 (the scaling of table 1: each sixteen-lane segment of a line times min(1, 5 / max(norm, 1e-12)))
  as a step of @main inside the SparseCore program: the body's run on its staged blocks, the call's proof data at the
  entry contents, and the call as a kernel region.
-/
import proofs.«203359_g24824910971486_cont_8to1_1854_34_alg».proof.Proof.BScMain
import proofs.«203359_g24824910971486_cont_8to1_1854_34_alg».proof.Proof.Gen.Kernel.Launch
import proofs.«203359_g24824910971486_cont_8to1_1854_34_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Proof.B.ScReg2

open Cert.Kernel Cert.Kernel.Gen Cert.Proof.B.ScSetup Cert.Proof.B.ScMain

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Idealize.ShloMosaic.Tactic

variable {F : FTy → Type} [FloatOps F]

local notation "𝕄" => MT nD τ sig (HIx 1) (Elt F) ℕ UU ℕ

/-! ## The body's accesses and what it leaves in the output block -/

abbrev rS : Rect S128x8 := Rect.unit (s := S128x8) ![0, 0] S128x8.size inb_S128x8_S128x8_0_0
abbrev rST : Rect S8x128 := Rect.unit (s := S8x128) ![0, 0] S8x128.size inb_S8x128_S8x128_0_0
abbrev rT : Rect S12500x128 := Rect.unit (s := S12500x128) ![0, 0] S12500x128.size inb_S12500x128_S12500x128_0_0

/-- The output block after the body, from the three input blocks (the segment matrix, its transpose, the table's
    lines): its one store. -/
def outB (x0 : Vec F S128x8 .f32) (x1 : Vec F S8x128 .f32) (x2 : Vec F S12500x128 .f32) : Vec F S12500x128 .f32 :=
  View.canon [⟨rT, k2_pay1 (View.ld x2 rT) (View.ld x0 rS) (View.ld x1 rST)⟩]

theorem coverB (p0 : Vec F S12500x128 .f32) (y : S12500x128.Idx) :
    ∃ pc ∈ ([⟨rT, p0⟩] : List (View.Piece (Elt F) S12500x128 .f32)), y ∈ pc.1.set :=
  View.cover_of_tiled [⟨rT, p0⟩] S12500x128.size (by rfl) y

set_option maxHeartbeats 1000000 in
/-- The body on whole staging memrefs: the three inputs' as they were, the output's at the stored value. -/
theorem sound_kernel (c : Dev nD) (E : Set ℕ) (arg0 : Memref sig .tc .vmem S128x8 .f32) (harg0 : arg0.IsWhole)
    (arg1 : Memref sig .tc .vmem S8x128 .f32) (harg1 : arg1.IsWhole) (arg2 : Memref sig .tc .vmem S12500x128 .f32) (harg2 : arg2.IsWhole)
    (arg3 : Memref sig .tc .vmem S12500x128 .f32) (harg3 : arg3.IsWhole)
    (x0 : Vec F S128x8 .f32) (x1 : Vec F S8x128 .f32) (x2 : Vec F S12500x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (outB x0 x1 x2)) -∗ Kk ⟨⟩))
      ⊢ wp frame (wpE (defs₀ (F := F)) Variants.none c none) E (cc2__scale_body arg0 harg0 arg1 harg1 arg2 harg2 arg3 harg3) Kk := by
  simp only [cc2__scale_body_eq_skeleton]; unfold cc2__scale_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-! ## The windows' blocks and the proof data, at entry contents `V` -/

variable (V : (c : Dev nD) → (b : Ref sig .tc) → Buf (Elt F) ((c : Thread nD τ).loc b))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) (HIx 1) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

-- What the TensorCore owes throughout the call (its start signals to the SparseCores, paid at the later call).
variable (O : Dev nD → CellTallies nD τ sig (HIx 1))

/-- The call's proof data on core `c`: the arrays as the call finds them; after the body the inputs' blocks in place
    and the output's at the stored value; the invariant the scoped buffers no window stages; full shares; the core owing
    `O c` throughout, its recorded waits at the kernels' own index. -/
def datR (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outB (iblk V c 0 t) (iblk V c 1 t) (iblk V c 2 t)
  Φ _ := Pipeline.scopedRest spec2 c
  q _ := fullShare
  owed _ := O c
  recorded _ := {p | p.2 = none}

theorem A_eq (c : Dev nD) (w : Fin cfg2.W) : (datR V O c).A w = V c (Pipeline.arrRef spec2 w) := by
  dsimp only [datR]
theorem after_0 (c : Dev nD) (t : Fin cfg2.N) : (datR V O c).after 0 t = iblk V c 0 t := by dsimp only [datR]
theorem after_1 (c : Dev nD) (t : Fin cfg2.N) : (datR V O c).after 1 t = iblk V c 1 t := by dsimp only [datR]
theorem after_2 (c : Dev nD) (t : Fin cfg2.N) : (datR V O c).after 2 t = iblk V c 2 t := by dsimp only [datR]
theorem after_3 (c : Dev nD) (t : Fin cfg2.N) :
    (datR V O c).after 3 t = outB (iblk V c 0 t) (iblk V c 1 t) (iblk V c 2 t) := by dsimp only [datR]

theorem before_0 (c : Dev nD) (t : Fin cfg2.N) (d) : (datR V O c).before 0 t d = iblk V c 0 t :=
  before_0_of V (datR V O c) (A_eq V O c 0) (after_0 V O c) t d
theorem before_1 (c : Dev nD) (t : Fin cfg2.N) (d) : (datR V O c).before 1 t d = iblk V c 1 t :=
  before_1_of V (datR V O c) (A_eq V O c 1) (after_1 V O c) t d
theorem before_2 (c : Dev nD) (t : Fin cfg2.N) (d) : (datR V O c).before 2 t d = iblk V c 2 t :=
  before_2_of V (datR V O c) (A_eq V O c 2) (after_2 V O c) t d

/-! ## The body obligation -/

def bodyPre (c : Dev nD) (t : Fin cfg2.N) : sProp 𝕄 :=
  iprop((datR V O c).Φ t.castSucc ∗ (datR V O c).owesAt none t.castSucc
    ∗ (∃ d, owns (c : Thread nD τ) (st2_0 t) fullShare ((datR V O c).before 0 t d))
    ∗ (∃ d, owns (c : Thread nD τ) (st2_1 t) fullShare ((datR V O c).before 1 t d))
    ∗ (∃ d, owns (c : Thread nD τ) (st2_2 t) fullShare ((datR V O c).before 2 t d))
    ∗ (∃ d, owns (c : Thread nD τ) (st2_3 t) fullShare ((datR V O c).before 3 t d)))

def bodyPost (c : Dev nD) (t : Fin cfg2.N) : sProp 𝕄 :=
  iprop((datR V O c).Φ t.succ ∗ (datR V O c).owesAt none t.succ
    ∗ owns (c : Thread nD τ) (st2_0 t) fullShare ((datR V O c).after 0 t)
    ∗ owns (c : Thread nD τ) (st2_1 t) fullShare ((datR V O c).after 1 t)
    ∗ owns (c : Thread nD τ) (st2_2 t) fullShare ((datR V O c).after 2 t)
    ∗ owns (c : Thread nD τ) (st2_3 t) fullShare ((datR V O c).after 3 t))

theorem sound_body (c : Dev nD) (t : Fin cfg2.N) :
    bodyPre V O c t ⊢ wp frame (wpE (defs₀ (F := F)) Variants.none c none) Set.univ (bodyAt2 t) (fun _ => bodyPost V O c t) := by
  unfold bodyPre bodyPost bodyAt2
  simp only [before_0, before_1, before_2]
  rw [show (datR V O c).Φ t.succ = (datR V O c).Φ t.castSucc from rfl,
    show (datR V O c).owesAt none t.succ = (datR V O c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : Pipeline.BodyObligation (datR (F := F) V O c) (defs₀ (F := F)) Variants.none none Set.univ := fun t => by
  rw [bigSep_W2, bigSep_W2]
  exact sound_body V O c t

/-! ## The family of proof data, and call 2 as a kernel region -/

def datT0 (c : Dev nD) : Dat τ (Elt F) (HIx 1) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
    | ⟨3, _⟩ => ((cfg0.win 3).blk t).view.read (Elt F) (V c (Pipeline.arrRef spec0 3))
  Φ _ := Pipeline.scopedRest spec0 c
  q _ := fullShare
  owed _ := O c

def datT1 (c : Dev nD) : Dat τ (Elt F) (HIx 1) ℕ UU ℕ cfg1 c where
  A w := V c (Pipeline.arrRef spec1 w)
  after w t := match w with
    | ⟨0, _⟩ => ((cfg1.win 0).blk t).view.read (Elt F) (V c (Pipeline.arrRef spec1 0))
    | ⟨1, _⟩ => ((cfg1.win 1).blk t).view.read (Elt F) (V c (Pipeline.arrRef spec1 1))
    | ⟨2, _⟩ => ((cfg1.win 2).blk t).view.read (Elt F) (V c (Pipeline.arrRef spec1 2))
    | ⟨3, _⟩ => ((cfg1.win 3).blk t).view.read (Elt F) (V c (Pipeline.arrRef spec1 3))
  Φ _ := Pipeline.scopedRest spec1 c
  q _ := fullShare
  owed _ := O c

def datT3 (c : Dev nD) : Dat τ (Elt F) (HIx 1) ℕ UU ℕ cfg3 c where
  A w := V c (Pipeline.arrRef spec3 w)
  after w t := match w with
    | ⟨0, _⟩ => ((cfg3.win 0).blk t).view.read (Elt F) (V c (Pipeline.arrRef spec3 0))
    | ⟨1, _⟩ => ((cfg3.win 1).blk t).view.read (Elt F) (V c (Pipeline.arrRef spec3 1))
    | ⟨2, _⟩ => ((cfg3.win 2).blk t).view.read (Elt F) (V c (Pipeline.arrRef spec3 2))
    | ⟨3, _⟩ => ((cfg3.win 3).blk t).view.read (Elt F) (V c (Pipeline.arrRef spec3 3))
  Φ _ := Pipeline.scopedRest spec3 c
  q _ := fullShare
  owed _ := O c

def datT4 (c : Dev nD) : Dat τ (Elt F) (HIx 1) ℕ UU ℕ cfg4 c where
  A w := V c (Pipeline.arrRef spec4 w)
  after w t := match w with
    | ⟨0, _⟩ => ((cfg4.win 0).blk t).view.read (Elt F) (V c (Pipeline.arrRef spec4 0))
    | ⟨1, _⟩ => ((cfg4.win 1).blk t).view.read (Elt F) (V c (Pipeline.arrRef spec4 1))
    | ⟨2, _⟩ => ((cfg4.win 2).blk t).view.read (Elt F) (V c (Pipeline.arrRef spec4 2))
    | ⟨3, _⟩ => ((cfg4.win 3).blk t).view.read (Elt F) (V c (Pipeline.arrRef spec4 3))
  Φ _ := Pipeline.scopedRest spec4 c
  q _ := fullShare
  owed _ := O c

abbrev adm : (p : Fin 5) → (pcfgs (F := F) p).Adm := fun p => (cfgs p).toPCfg_adm

def pdats : (p : Fin 5) → (c : Dev nD) → Dat τ (Elt F) (HIx 1) ℕ UU ℕ (Pipeline.pin (pcfgs (F := F)) adm p) c
  | ⟨0, _⟩ => fun c => datT0 V O c
  | ⟨1, _⟩ => fun c => datT1 V O c
  | ⟨2, _⟩ => fun c => datR V O c
  | ⟨3, _⟩ => fun c => datT3 V O c
  | ⟨4, _⟩ => fun c => datT4 V O c

section Region

variable (W : Valuation τ sig (Elt F))

/-- The valuation read at the TensorCore's references, the same on every core. -/
abbrev VW (c : Dev nD) (b : Ref sig .tc) : Buf (Elt F) ((c : Thread nD τ).loc b) := W (dr b)
/-- What the TensorCore owes from the launch to the SparseCore call: its start signals. -/
abbrev OT (c : Dev nD) : CellTallies nD τ sig (HIx 1) := (K (F := F)).Otc c 0

omit [FloatOps F] in
theorem OT_none (c : Dev nD) (g : GSem nD τ sig) : OT (F := F) c g none = 0 := by
  by_contra h
  have := SparseCore.Cfg.lev_of_Otc_pos (K := K (F := F)) (d := c) (n := 0) (g := g) (ι := none) (Nat.pos_of_ne_zero h)
  rw [SparseCore.Cfg.lev_none] at this; omega

/-- What call 2 leaves in its output array. -/
def Rout (c : Dev nD) (W : Valuation τ sig (Elt F)) : (dr main_v8).ty.Contents (Elt F) := (datR (VW W) (OT (F := F)) c).arrAt 3 cfg2.N

/-- The TensorCore's debt as its handshake state holds it. -/
abbrev owesPart (c : Dev nD) : sProp 𝕄 :=
  iprop(∃ Ws, ⌜(K (F := F)).WBelow (SparseCore.T c) Ws (8 * 0)⌝ ∗ owes (SparseCore.T c) (OT (F := F) c) Ws)

set_option backward.isDefEq.respectTransparency.types false in
def reg : Pipeline.RegionSeg (pcfgs (F := F)) adm (pdats (VW W) (OT (F := F))) none defs₀ 𝒱₀ (K (F := F)).L (K (F := F)).lev 2 where
  win := launch2.win.to₀
  block_pos := launch2.block_pos
  stage_whole := launch2.stage_whole
  K := PEmpty
  osem k := k.elim
  ho := Pipeline.OwnSemFacts.none _
  hbody c := (body_obligation (VW W) (OT (F := F)) c).loose
  hwaits c := Pipeline.cellsWaits_intro (Pipeline.pin (pcfgs (F := F)) adm) (pdats (VW W) (OT (F := F))) none 2 c
    (R := levAts (K (F := F)).L (K (F := F)).lev) (fun w s t => (K (F := F)).mayWait_none _ (OT_none (F := F) c))
  pre c := iprop(StableHlo.held (c : Thread nD τ) (Pipeline.ucRefs τ sig) W ∗ owesPart c)
  post c := iprop(StableHlo.held (c : Thread nD τ) (Pipeline.ucRefs τ sig) (Function.update W (dr main_v8) (Rout c W)) ∗ owesPart c)
  X c := iprop(emp)
  Y c := iprop(emp)
  Z c := Pipeline.unscopedRest (Ix := HIx 1) (Name := ℕ) (U := UU) (Lvl := ℕ) spec2 c (VW W c)
  hentry c := by
    rw [Pipeline.ownSems0_none]
    have hsplit := Pipeline.arrays_of_unscopedBufs (p := 2) (pcfgs (F := F)) adm (pdats (VW W) (OT (F := F))) launch2.win launch2.arr_whole c
      ((pdats (VW W) (OT (F := F)) 2 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr
      · ipureintro; intro p hp; exact Or.inl (by
          have := hWs p hp
          rcases hpi : p.2 with _ | q
          · exact hpi
          · rw [hpi] at this; exact absurd this (by have := (K (F := F)).lev_some_pos (SparseCore.T c, p.1) q; omega))
      iexact HO
    isplitr; · iempintro
    iexact Hrest
  hin c := by
    rw [show (pdats (VW W) (OT (F := F)) 2 c).Φ 0 = Pipeline.scopedRest spec2 c from rfl]
    iintro ⟨-, -, Hr⟩
    iexact Hr
  hout c := by
    rw [Pipeline.ownSems0_none, show (pdats (VW W) (OT (F := F)) 2 c).Φ (Fin.last _) = Pipeline.scopedRest spec2 c from rfl]
    iintro Hr
    isplitr; · iempintro
    isplitr; · iempintro
    iexact Hr
  hexit c := by
    have hjoin := Pipeline.unscopedBufs_of_arrays (p := 2) (pcfgs (F := F)) adm (Ix := HIx 1) (Name := ℕ) (U := UU) (Lvl := ℕ)
      launch2.win launch2.arr_whole c (pdats (VW W) (OT (F := F))) ((pdats (VW W) (OT (F := F)) 2 c).share_full fun _ => rfl)
      (VW W c) (VW (Function.update W (dr main_v8) (Rout c W)) c) ((pdats (VW W) (OT (F := F)) 2 c).arrAt · cfg2.N)
      (fun w => by
        match w with
        | ⟨0, _⟩ => exact ((datR (VW W) (OT (F := F)) c).arrAt_in 0 rfl _).trans ((A_eq (VW W) (OT (F := F)) c 0).trans (Function.update_of_ne (show dr main_cst ≠ dr main_v8 by decide) _ _).symm)
        | ⟨1, _⟩ => exact ((datR (VW W) (OT (F := F)) c).arrAt_in 1 rfl _).trans ((A_eq (VW W) (OT (F := F)) c 1).trans (Function.update_of_ne (show dr main_cst_0 ≠ dr main_v8 by decide) _ _).symm)
        | ⟨2, _⟩ => exact ((datR (VW W) (OT (F := F)) c).arrAt_in 2 rfl _).trans ((A_eq (VW W) (OT (F := F)) c 2).trans (Function.update_of_ne (show dr main_v4 ≠ dr main_v8 by decide) _ _).symm)
        | ⟨3, _⟩ => exact (Function.update_self (dr main_v8) (Rout c W) W).symm)
      (fun b hb => Function.update_of_ne (fun e => hb (Finset.mem_image.mpr ⟨3, Finset.mem_univ _, Proc.devRef_injective _ e.symm⟩)) _ _)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr
    · ipureintro; intro p hp
      rcases hWs hp with h | ⟨w, s, rfl⟩
      · rw [show p.2 = none from h]; exact le_of_eq rfl
      · exact le_of_eq rfl
    iexact HO

end Region

/-! ## The step: the call in the program's own signature, lifted into the SparseCore program -/

/-- TensorCore call `p`'s ghost state on core `c`, as the launch deals it. -/
abbrev ghost (p : Fin 5) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

set_option backward.isDefEq.respectTransparency.types false in
theorem regionStep [∀ e, Nonempty (Elt F e)] (P : (K (F := F)).Pay (nD := nD) (Val := Elt F) (Name := ℕ) (U := UU)) (Gout : Dev nD → sProp 𝕄) :
    RegionStep P 2 main_v8 (Rout (F := F)) (fun d => iprop(ghost (F := F) 2 d ∗ Gout d)) Gout := by
  intro κ d W Q
  iintro ⟨#Hctx, Hst, Hb, Hheld, ⟨Hg, Ht⟩, HG⟩ Hk
  unfold SparseCore.Cfg.tcSt
  icases Hst with ⟨Howes, Hrest⟩
  ihave Hlev := (SparseCore.Cfg.ctx_levAts (K := K (F := F)) κ) $$ Hctx
  iapply ((K (F := F)).wp_liftProg (D (F := F)) 𝒱 (SparseCore.T d) Set.univ none
    (Prog.lift (TpuEff.customCall (Pipeline.entry (2 : Fin 5)) ())) Q)
  iapply (Pipeline.RegionSeg.wp (pcfgs (F := F)) adm (pdats (VW W) (OT (F := F))) none cellOf_inj (EP (F := F)) defs₀ 𝒱₀
    (K (F := F)).L (K (F := F)).lev (reg W) d none (fun _ h => nomatch h) (fun _ => Prog.ret PUnit.unit) Q) $$ [Hk Hb Hheld Howes Hg Ht Hrest HG]
  isplitl [Hk Hrest HG]
  · iintro ⟨Hb, Hpost⟩
    ihave Hpost := (Entails.of_eq (show (reg (F := F) W).post d
      = iprop(StableHlo.held (d : Thread nD τ) (Pipeline.ucRefs τ sig) (Function.update W (dr main_v8) (Rout d W)) ∗ owesPart (F := F) d) from rfl)) $$ Hpost
    icases Hpost with ⟨Hheld, Howes⟩
    rw [wp_ret]; imodintro
    iapply Hk
    isplitl [Howes Hrest]
    · isplitl [Howes]; · iexact Howes
      iexact Hrest
    isplitl [Hb]; · iexact Hb
    isplitl [Hheld]; · iexact Hheld
    iexact HG
  isplitl [Hb]; · iexact Hb
  isplitl [Hheld Howes]
  · iapply (Entails.of_eq (show iprop(StableHlo.held (d : Thread nD τ) (Pipeline.ucRefs τ sig) W ∗ owesPart (F := F) d) = (reg (F := F) W).pre d from rfl))
    isplitl [Hheld]; · iexact Hheld
    iexact Howes
  isplitr; · iexact Hlev
  isplitl [Hg]; · iexact Hg
  iexact Ht

end Cert.Proof.B.ScReg2

end
-- ==== Proof.BScReg3.lean ====
/-
  TensorCore call 3 (the scaling of table 2: each sixteen-lane segment of a line times min(1, 5 / max(norm, 1e-12)))
  as a step of @main inside the SparseCore program: the body's run on its staged blocks, the call's proof data at the
  entry contents, and the call as a kernel region.
-/
import proofs.«203359_g24824910971486_cont_8to1_1854_34_alg».proof.Proof.BScMain
import proofs.«203359_g24824910971486_cont_8to1_1854_34_alg».proof.Proof.Gen.Kernel.Launch
import proofs.«203359_g24824910971486_cont_8to1_1854_34_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Proof.B.ScReg3

open Cert.Kernel Cert.Kernel.Gen Cert.Proof.B.ScSetup Cert.Proof.B.ScMain

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Idealize.ShloMosaic.Tactic

variable {F : FTy → Type} [FloatOps F]

local notation "𝕄" => MT nD τ sig (HIx 1) (Elt F) ℕ UU ℕ

/-! ## The body's accesses and what it leaves in the output block -/

abbrev rS : Rect S128x8 := Rect.unit (s := S128x8) ![0, 0] S128x8.size inb_S128x8_S128x8_0_0
abbrev rST : Rect S8x128 := Rect.unit (s := S8x128) ![0, 0] S8x128.size inb_S8x128_S8x128_0_0
abbrev rT : Rect S12500x128 := Rect.unit (s := S12500x128) ![0, 0] S12500x128.size inb_S12500x128_S12500x128_0_0

/-- The output block after the body, from the three input blocks (the segment matrix, its transpose, the table's
    lines): its one store. -/
def outB (x0 : Vec F S128x8 .f32) (x1 : Vec F S8x128 .f32) (x2 : Vec F S12500x128 .f32) : Vec F S12500x128 .f32 :=
  View.canon [⟨rT, k3_pay1 (View.ld x2 rT) (View.ld x0 rS) (View.ld x1 rST)⟩]

theorem coverB (p0 : Vec F S12500x128 .f32) (y : S12500x128.Idx) :
    ∃ pc ∈ ([⟨rT, p0⟩] : List (View.Piece (Elt F) S12500x128 .f32)), y ∈ pc.1.set :=
  View.cover_of_tiled [⟨rT, p0⟩] S12500x128.size (by rfl) y

set_option maxHeartbeats 1000000 in
/-- The body on whole staging memrefs: the three inputs' as they were, the output's at the stored value. -/
theorem sound_kernel (c : Dev nD) (E : Set ℕ) (arg0 : Memref sig .tc .vmem S128x8 .f32) (harg0 : arg0.IsWhole)
    (arg1 : Memref sig .tc .vmem S8x128 .f32) (harg1 : arg1.IsWhole) (arg2 : Memref sig .tc .vmem S12500x128 .f32) (harg2 : arg2.IsWhole)
    (arg3 : Memref sig .tc .vmem S12500x128 .f32) (harg3 : arg3.IsWhole)
    (x0 : Vec F S128x8 .f32) (x1 : Vec F S8x128 .f32) (x2 : Vec F S12500x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (outB x0 x1 x2)) -∗ Kk ⟨⟩))
      ⊢ wp frame (wpE (defs₀ (F := F)) Variants.none c none) E (cc3__scale_body arg0 harg0 arg1 harg1 arg2 harg2 arg3 harg3) Kk := by
  simp only [cc3__scale_body_eq_skeleton]; unfold cc3__scale_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-! ## The windows' blocks and the proof data, at entry contents `V` -/

variable (V : (c : Dev nD) → (b : Ref sig .tc) → Buf (Elt F) ((c : Thread nD τ).loc b))

/-- Window `w`'s block at point `t`, read off its array as the call finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_0_of {c : Dev nD} (dat : Dat τ (Elt F) (HIx 1) ℕ UU ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

-- What the TensorCore owes throughout the call (its start signals to the SparseCores, paid at the later call).
variable (O : Dev nD → CellTallies nD τ sig (HIx 1))

/-- The call's proof data on core `c`: the arrays as the call finds them; after the body the inputs' blocks in place
    and the output's at the stored value; the invariant the scoped buffers no window stages; full shares; the core owing
    `O c` throughout, its recorded waits at the kernels' own index. -/
def datR (c : Dev nD) : Dat τ (Elt F) (HIx 1) ℕ UU ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outB (iblk V c 0 t) (iblk V c 1 t) (iblk V c 2 t)
  Φ _ := Pipeline.scopedRest spec3 c
  q _ := fullShare
  owed _ := O c
  recorded _ := {p | p.2 = none}

theorem A_eq (c : Dev nD) (w : Fin cfg3.W) : (datR V O c).A w = V c (Pipeline.arrRef spec3 w) := by
  dsimp only [datR]
theorem after_0 (c : Dev nD) (t : Fin cfg3.N) : (datR V O c).after 0 t = iblk V c 0 t := by dsimp only [datR]
theorem after_1 (c : Dev nD) (t : Fin cfg3.N) : (datR V O c).after 1 t = iblk V c 1 t := by dsimp only [datR]
theorem after_2 (c : Dev nD) (t : Fin cfg3.N) : (datR V O c).after 2 t = iblk V c 2 t := by dsimp only [datR]
theorem after_3 (c : Dev nD) (t : Fin cfg3.N) :
    (datR V O c).after 3 t = outB (iblk V c 0 t) (iblk V c 1 t) (iblk V c 2 t) := by dsimp only [datR]

theorem before_0 (c : Dev nD) (t : Fin cfg3.N) (d) : (datR V O c).before 0 t d = iblk V c 0 t :=
  before_0_of V (datR V O c) (A_eq V O c 0) (after_0 V O c) t d
theorem before_1 (c : Dev nD) (t : Fin cfg3.N) (d) : (datR V O c).before 1 t d = iblk V c 1 t :=
  before_1_of V (datR V O c) (A_eq V O c 1) (after_1 V O c) t d
theorem before_2 (c : Dev nD) (t : Fin cfg3.N) (d) : (datR V O c).before 2 t d = iblk V c 2 t :=
  before_2_of V (datR V O c) (A_eq V O c 2) (after_2 V O c) t d

/-! ## The body obligation -/

def bodyPre (c : Dev nD) (t : Fin cfg3.N) : sProp 𝕄 :=
  iprop((datR V O c).Φ t.castSucc ∗ (datR V O c).owesAt none t.castSucc
    ∗ (∃ d, owns (c : Thread nD τ) (st3_0 t) fullShare ((datR V O c).before 0 t d))
    ∗ (∃ d, owns (c : Thread nD τ) (st3_1 t) fullShare ((datR V O c).before 1 t d))
    ∗ (∃ d, owns (c : Thread nD τ) (st3_2 t) fullShare ((datR V O c).before 2 t d))
    ∗ (∃ d, owns (c : Thread nD τ) (st3_3 t) fullShare ((datR V O c).before 3 t d)))

def bodyPost (c : Dev nD) (t : Fin cfg3.N) : sProp 𝕄 :=
  iprop((datR V O c).Φ t.succ ∗ (datR V O c).owesAt none t.succ
    ∗ owns (c : Thread nD τ) (st3_0 t) fullShare ((datR V O c).after 0 t)
    ∗ owns (c : Thread nD τ) (st3_1 t) fullShare ((datR V O c).after 1 t)
    ∗ owns (c : Thread nD τ) (st3_2 t) fullShare ((datR V O c).after 2 t)
    ∗ owns (c : Thread nD τ) (st3_3 t) fullShare ((datR V O c).after 3 t))

theorem sound_body (c : Dev nD) (t : Fin cfg3.N) :
    bodyPre V O c t ⊢ wp frame (wpE (defs₀ (F := F)) Variants.none c none) Set.univ (bodyAt3 t) (fun _ => bodyPost V O c t) := by
  unfold bodyPre bodyPost bodyAt3
  simp only [before_0, before_1, before_2]
  rw [show (datR V O c).Φ t.succ = (datR V O c).Φ t.castSucc from rfl,
    show (datR V O c).owesAt none t.succ = (datR V O c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : Pipeline.BodyObligation (datR (F := F) V O c) (defs₀ (F := F)) Variants.none none Set.univ := fun t => by
  rw [bigSep_W3, bigSep_W3]
  exact sound_body V O c t

/-! ## The family of proof data, and call 3 as a kernel region -/

def datT0 (c : Dev nD) : Dat τ (Elt F) (HIx 1) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
    | ⟨3, _⟩ => ((cfg0.win 3).blk t).view.read (Elt F) (V c (Pipeline.arrRef spec0 3))
  Φ _ := Pipeline.scopedRest spec0 c
  q _ := fullShare
  owed _ := O c

def datT1 (c : Dev nD) : Dat τ (Elt F) (HIx 1) ℕ UU ℕ cfg1 c where
  A w := V c (Pipeline.arrRef spec1 w)
  after w t := match w with
    | ⟨0, _⟩ => ((cfg1.win 0).blk t).view.read (Elt F) (V c (Pipeline.arrRef spec1 0))
    | ⟨1, _⟩ => ((cfg1.win 1).blk t).view.read (Elt F) (V c (Pipeline.arrRef spec1 1))
    | ⟨2, _⟩ => ((cfg1.win 2).blk t).view.read (Elt F) (V c (Pipeline.arrRef spec1 2))
    | ⟨3, _⟩ => ((cfg1.win 3).blk t).view.read (Elt F) (V c (Pipeline.arrRef spec1 3))
  Φ _ := Pipeline.scopedRest spec1 c
  q _ := fullShare
  owed _ := O c

def datT2 (c : Dev nD) : Dat τ (Elt F) (HIx 1) ℕ UU ℕ cfg2 c where
  A w := V c (Pipeline.arrRef spec2 w)
  after w t := match w with
    | ⟨0, _⟩ => ((cfg2.win 0).blk t).view.read (Elt F) (V c (Pipeline.arrRef spec2 0))
    | ⟨1, _⟩ => ((cfg2.win 1).blk t).view.read (Elt F) (V c (Pipeline.arrRef spec2 1))
    | ⟨2, _⟩ => ((cfg2.win 2).blk t).view.read (Elt F) (V c (Pipeline.arrRef spec2 2))
    | ⟨3, _⟩ => ((cfg2.win 3).blk t).view.read (Elt F) (V c (Pipeline.arrRef spec2 3))
  Φ _ := Pipeline.scopedRest spec2 c
  q _ := fullShare
  owed _ := O c

def datT4 (c : Dev nD) : Dat τ (Elt F) (HIx 1) ℕ UU ℕ cfg4 c where
  A w := V c (Pipeline.arrRef spec4 w)
  after w t := match w with
    | ⟨0, _⟩ => ((cfg4.win 0).blk t).view.read (Elt F) (V c (Pipeline.arrRef spec4 0))
    | ⟨1, _⟩ => ((cfg4.win 1).blk t).view.read (Elt F) (V c (Pipeline.arrRef spec4 1))
    | ⟨2, _⟩ => ((cfg4.win 2).blk t).view.read (Elt F) (V c (Pipeline.arrRef spec4 2))
    | ⟨3, _⟩ => ((cfg4.win 3).blk t).view.read (Elt F) (V c (Pipeline.arrRef spec4 3))
  Φ _ := Pipeline.scopedRest spec4 c
  q _ := fullShare
  owed _ := O c

abbrev adm : (p : Fin 5) → (pcfgs (F := F) p).Adm := fun p => (cfgs p).toPCfg_adm

def pdats : (p : Fin 5) → (c : Dev nD) → Dat τ (Elt F) (HIx 1) ℕ UU ℕ (Pipeline.pin (pcfgs (F := F)) adm p) c
  | ⟨0, _⟩ => fun c => datT0 V O c
  | ⟨1, _⟩ => fun c => datT1 V O c
  | ⟨2, _⟩ => fun c => datT2 V O c
  | ⟨3, _⟩ => fun c => datR V O c
  | ⟨4, _⟩ => fun c => datT4 V O c

section Region

variable (W : Valuation τ sig (Elt F))

/-- The valuation read at the TensorCore's references, the same on every core. -/
abbrev VW (c : Dev nD) (b : Ref sig .tc) : Buf (Elt F) ((c : Thread nD τ).loc b) := W (dr b)
/-- What the TensorCore owes from the launch to the SparseCore call: its start signals. -/
abbrev OT (c : Dev nD) : CellTallies nD τ sig (HIx 1) := (K (F := F)).Otc c 0

omit [FloatOps F] in
theorem OT_none (c : Dev nD) (g : GSem nD τ sig) : OT (F := F) c g none = 0 := by
  by_contra h
  have := SparseCore.Cfg.lev_of_Otc_pos (K := K (F := F)) (d := c) (n := 0) (g := g) (ι := none) (Nat.pos_of_ne_zero h)
  rw [SparseCore.Cfg.lev_none] at this; omega

/-- What call 3 leaves in its output array. -/
def Rout (c : Dev nD) (W : Valuation τ sig (Elt F)) : (dr main_v9).ty.Contents (Elt F) := (datR (VW W) (OT (F := F)) c).arrAt 3 cfg3.N

/-- The TensorCore's debt as its handshake state holds it. -/
abbrev owesPart (c : Dev nD) : sProp 𝕄 :=
  iprop(∃ Ws, ⌜(K (F := F)).WBelow (SparseCore.T c) Ws (8 * 0)⌝ ∗ owes (SparseCore.T c) (OT (F := F) c) Ws)

set_option backward.isDefEq.respectTransparency.types false in
def reg : Pipeline.RegionSeg (pcfgs (F := F)) adm (pdats (VW W) (OT (F := F))) none defs₀ 𝒱₀ (K (F := F)).L (K (F := F)).lev 3 where
  win := launch3.win.to₀
  block_pos := launch3.block_pos
  stage_whole := launch3.stage_whole
  K := PEmpty
  osem k := k.elim
  ho := Pipeline.OwnSemFacts.none _
  hbody c := (body_obligation (VW W) (OT (F := F)) c).loose
  hwaits c := Pipeline.cellsWaits_intro (Pipeline.pin (pcfgs (F := F)) adm) (pdats (VW W) (OT (F := F))) none 3 c
    (R := levAts (K (F := F)).L (K (F := F)).lev) (fun w s t => (K (F := F)).mayWait_none _ (OT_none (F := F) c))
  pre c := iprop(StableHlo.held (c : Thread nD τ) (Pipeline.ucRefs τ sig) W ∗ owesPart c)
  post c := iprop(StableHlo.held (c : Thread nD τ) (Pipeline.ucRefs τ sig) (Function.update W (dr main_v9) (Rout c W)) ∗ owesPart c)
  X c := iprop(emp)
  Y c := iprop(emp)
  Z c := Pipeline.unscopedRest (Ix := HIx 1) (Name := ℕ) (U := UU) (Lvl := ℕ) spec3 c (VW W c)
  hentry c := by
    rw [Pipeline.ownSems0_none]
    have hsplit := Pipeline.arrays_of_unscopedBufs (p := 3) (pcfgs (F := F)) adm (pdats (VW W) (OT (F := F))) launch3.win launch3.arr_whole c
      ((pdats (VW W) (OT (F := F)) 3 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr
      · ipureintro; intro p hp; exact Or.inl (by
          have := hWs p hp
          rcases hpi : p.2 with _ | q
          · exact hpi
          · rw [hpi] at this; exact absurd this (by have := (K (F := F)).lev_some_pos (SparseCore.T c, p.1) q; omega))
      iexact HO
    isplitr; · iempintro
    iexact Hrest
  hin c := by
    rw [show (pdats (VW W) (OT (F := F)) 3 c).Φ 0 = Pipeline.scopedRest spec3 c from rfl]
    iintro ⟨-, -, Hr⟩
    iexact Hr
  hout c := by
    rw [Pipeline.ownSems0_none, show (pdats (VW W) (OT (F := F)) 3 c).Φ (Fin.last _) = Pipeline.scopedRest spec3 c from rfl]
    iintro Hr
    isplitr; · iempintro
    isplitr; · iempintro
    iexact Hr
  hexit c := by
    have hjoin := Pipeline.unscopedBufs_of_arrays (p := 3) (pcfgs (F := F)) adm (Ix := HIx 1) (Name := ℕ) (U := UU) (Lvl := ℕ)
      launch3.win launch3.arr_whole c (pdats (VW W) (OT (F := F))) ((pdats (VW W) (OT (F := F)) 3 c).share_full fun _ => rfl)
      (VW W c) (VW (Function.update W (dr main_v9) (Rout c W)) c) ((pdats (VW W) (OT (F := F)) 3 c).arrAt · cfg3.N)
      (fun w => by
        match w with
        | ⟨0, _⟩ => exact ((datR (VW W) (OT (F := F)) c).arrAt_in 0 rfl _).trans ((A_eq (VW W) (OT (F := F)) c 0).trans (Function.update_of_ne (show dr main_cst ≠ dr main_v9 by decide) _ _).symm)
        | ⟨1, _⟩ => exact ((datR (VW W) (OT (F := F)) c).arrAt_in 1 rfl _).trans ((A_eq (VW W) (OT (F := F)) c 1).trans (Function.update_of_ne (show dr main_cst_0 ≠ dr main_v9 by decide) _ _).symm)
        | ⟨2, _⟩ => exact ((datR (VW W) (OT (F := F)) c).arrAt_in 2 rfl _).trans ((A_eq (VW W) (OT (F := F)) c 2).trans (Function.update_of_ne (show dr main_v5 ≠ dr main_v9 by decide) _ _).symm)
        | ⟨3, _⟩ => exact (Function.update_self (dr main_v9) (Rout c W) W).symm)
      (fun b hb => Function.update_of_ne (fun e => hb (Finset.mem_image.mpr ⟨3, Finset.mem_univ _, Proc.devRef_injective _ e.symm⟩)) _ _)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr
    · ipureintro; intro p hp
      rcases hWs hp with h | ⟨w, s, rfl⟩
      · rw [show p.2 = none from h]; exact le_of_eq rfl
      · exact le_of_eq rfl
    iexact HO

end Region

/-! ## The step: the call in the program's own signature, lifted into the SparseCore program -/

/-- TensorCore call `p`'s ghost state on core `c`, as the launch deals it. -/
abbrev ghost (p : Fin 5) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

set_option backward.isDefEq.respectTransparency.types false in
theorem regionStep [∀ e, Nonempty (Elt F e)] (P : (K (F := F)).Pay (nD := nD) (Val := Elt F) (Name := ℕ) (U := UU)) (Gout : Dev nD → sProp 𝕄) :
    RegionStep P 3 main_v9 (Rout (F := F)) (fun d => iprop(ghost (F := F) 3 d ∗ Gout d)) Gout := by
  intro κ d W Q
  iintro ⟨#Hctx, Hst, Hb, Hheld, ⟨Hg, Ht⟩, HG⟩ Hk
  unfold SparseCore.Cfg.tcSt
  icases Hst with ⟨Howes, Hrest⟩
  ihave Hlev := (SparseCore.Cfg.ctx_levAts (K := K (F := F)) κ) $$ Hctx
  iapply ((K (F := F)).wp_liftProg (D (F := F)) 𝒱 (SparseCore.T d) Set.univ none
    (Prog.lift (TpuEff.customCall (Pipeline.entry (3 : Fin 5)) ())) Q)
  iapply (Pipeline.RegionSeg.wp (pcfgs (F := F)) adm (pdats (VW W) (OT (F := F))) none cellOf_inj (EP (F := F)) defs₀ 𝒱₀
    (K (F := F)).L (K (F := F)).lev (reg W) d none (fun _ h => nomatch h) (fun _ => Prog.ret PUnit.unit) Q) $$ [Hk Hb Hheld Howes Hg Ht Hrest HG]
  isplitl [Hk Hrest HG]
  · iintro ⟨Hb, Hpost⟩
    ihave Hpost := (Entails.of_eq (show (reg (F := F) W).post d
      = iprop(StableHlo.held (d : Thread nD τ) (Pipeline.ucRefs τ sig) (Function.update W (dr main_v9) (Rout d W)) ∗ owesPart (F := F) d) from rfl)) $$ Hpost
    icases Hpost with ⟨Hheld, Howes⟩
    rw [wp_ret]; imodintro
    iapply Hk
    isplitl [Howes Hrest]
    · isplitl [Howes]; · iexact Howes
      iexact Hrest
    isplitl [Hb]; · iexact Hb
    isplitl [Hheld]; · iexact Hheld
    iexact HG
  isplitl [Hb]; · iexact Hb
  isplitl [Hheld Howes]
  · iapply (Entails.of_eq (show iprop(StableHlo.held (d : Thread nD τ) (Pipeline.ucRefs τ sig) W ∗ owesPart (F := F) d) = (reg (F := F) W).pre d from rfl))
    isplitl [Hheld]; · iexact Hheld
    iexact Howes
  isplitr; · iexact Hlev
  isplitl [Hg]; · iexact Hg
  iexact Ht

end Cert.Proof.B.ScReg3

end
-- ==== Proof.BScReg4.lean ====
/-
  TensorCore call 4 (the scaling of table 3: each sixteen-lane segment of a line times min(1, 5 / max(norm, 1e-12)))
  as a step of @main inside the SparseCore program: the body's run on its staged blocks, the call's proof data at the
  entry contents, and the call as a kernel region.
-/
import proofs.«203359_g24824910971486_cont_8to1_1854_34_alg».proof.Proof.BScMain
import proofs.«203359_g24824910971486_cont_8to1_1854_34_alg».proof.Proof.Gen.Kernel.Launch
import proofs.«203359_g24824910971486_cont_8to1_1854_34_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Proof.B.ScReg4

open Cert.Kernel Cert.Kernel.Gen Cert.Proof.B.ScSetup Cert.Proof.B.ScMain

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Idealize.ShloMosaic.Tactic

variable {F : FTy → Type} [FloatOps F]

local notation "𝕄" => MT nD τ sig (HIx 1) (Elt F) ℕ UU ℕ

/-! ## The body's accesses and what it leaves in the output block -/

abbrev rS : Rect S128x8 := Rect.unit (s := S128x8) ![0, 0] S128x8.size inb_S128x8_S128x8_0_0
abbrev rST : Rect S8x128 := Rect.unit (s := S8x128) ![0, 0] S8x128.size inb_S8x128_S8x128_0_0
abbrev rT : Rect S12500x128 := Rect.unit (s := S12500x128) ![0, 0] S12500x128.size inb_S12500x128_S12500x128_0_0

/-- The output block after the body, from the three input blocks (the segment matrix, its transpose, the table's
    lines): its one store. -/
def outB (x0 : Vec F S128x8 .f32) (x1 : Vec F S8x128 .f32) (x2 : Vec F S12500x128 .f32) : Vec F S12500x128 .f32 :=
  View.canon [⟨rT, k4_pay1 (View.ld x2 rT) (View.ld x0 rS) (View.ld x1 rST)⟩]

theorem coverB (p0 : Vec F S12500x128 .f32) (y : S12500x128.Idx) :
    ∃ pc ∈ ([⟨rT, p0⟩] : List (View.Piece (Elt F) S12500x128 .f32)), y ∈ pc.1.set :=
  View.cover_of_tiled [⟨rT, p0⟩] S12500x128.size (by rfl) y

set_option maxHeartbeats 1000000 in
/-- The body on whole staging memrefs: the three inputs' as they were, the output's at the stored value. -/
theorem sound_kernel (c : Dev nD) (E : Set ℕ) (arg0 : Memref sig .tc .vmem S128x8 .f32) (harg0 : arg0.IsWhole)
    (arg1 : Memref sig .tc .vmem S8x128 .f32) (harg1 : arg1.IsWhole) (arg2 : Memref sig .tc .vmem S12500x128 .f32) (harg2 : arg2.IsWhole)
    (arg3 : Memref sig .tc .vmem S12500x128 .f32) (harg3 : arg3.IsWhole)
    (x0 : Vec F S128x8 .f32) (x1 : Vec F S8x128 .f32) (x2 : Vec F S12500x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (outB x0 x1 x2)) -∗ Kk ⟨⟩))
      ⊢ wp frame (wpE (defs₀ (F := F)) Variants.none c none) E (cc4__scale_body arg0 harg0 arg1 harg1 arg2 harg2 arg3 harg3) Kk := by
  simp only [cc4__scale_body_eq_skeleton]; unfold cc4__scale_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-! ## The windows' blocks and the proof data, at entry contents `V` -/

variable (V : (c : Dev nD) → (b : Ref sig .tc) → Buf (Elt F) ((c : Thread nD τ).loc b))

/-- Window `w`'s block at point `t`, read off its array as the call finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before_0_of {c : Dev nD} (dat : Dat τ (Elt F) (HIx 1) ℕ UU ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

-- What the TensorCore owes throughout the call (its start signals to the SparseCores, paid at the later call).
variable (O : Dev nD → CellTallies nD τ sig (HIx 1))

/-- The call's proof data on core `c`: the arrays as the call finds them; after the body the inputs' blocks in place
    and the output's at the stored value; the invariant the scoped buffers no window stages; full shares; the core owing
    `O c` throughout, its recorded waits at the kernels' own index. -/
def datR (c : Dev nD) : Dat τ (Elt F) (HIx 1) ℕ UU ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => outB (iblk V c 0 t) (iblk V c 1 t) (iblk V c 2 t)
  Φ _ := Pipeline.scopedRest spec4 c
  q _ := fullShare
  owed _ := O c
  recorded _ := {p | p.2 = none}

theorem A_eq (c : Dev nD) (w : Fin cfg4.W) : (datR V O c).A w = V c (Pipeline.arrRef spec4 w) := by
  dsimp only [datR]
theorem after_0 (c : Dev nD) (t : Fin cfg4.N) : (datR V O c).after 0 t = iblk V c 0 t := by dsimp only [datR]
theorem after_1 (c : Dev nD) (t : Fin cfg4.N) : (datR V O c).after 1 t = iblk V c 1 t := by dsimp only [datR]
theorem after_2 (c : Dev nD) (t : Fin cfg4.N) : (datR V O c).after 2 t = iblk V c 2 t := by dsimp only [datR]
theorem after_3 (c : Dev nD) (t : Fin cfg4.N) :
    (datR V O c).after 3 t = outB (iblk V c 0 t) (iblk V c 1 t) (iblk V c 2 t) := by dsimp only [datR]

theorem before_0 (c : Dev nD) (t : Fin cfg4.N) (d) : (datR V O c).before 0 t d = iblk V c 0 t :=
  before_0_of V (datR V O c) (A_eq V O c 0) (after_0 V O c) t d
theorem before_1 (c : Dev nD) (t : Fin cfg4.N) (d) : (datR V O c).before 1 t d = iblk V c 1 t :=
  before_1_of V (datR V O c) (A_eq V O c 1) (after_1 V O c) t d
theorem before_2 (c : Dev nD) (t : Fin cfg4.N) (d) : (datR V O c).before 2 t d = iblk V c 2 t :=
  before_2_of V (datR V O c) (A_eq V O c 2) (after_2 V O c) t d

/-! ## The body obligation -/

def bodyPre (c : Dev nD) (t : Fin cfg4.N) : sProp 𝕄 :=
  iprop((datR V O c).Φ t.castSucc ∗ (datR V O c).owesAt none t.castSucc
    ∗ (∃ d, owns (c : Thread nD τ) (st4_0 t) fullShare ((datR V O c).before 0 t d))
    ∗ (∃ d, owns (c : Thread nD τ) (st4_1 t) fullShare ((datR V O c).before 1 t d))
    ∗ (∃ d, owns (c : Thread nD τ) (st4_2 t) fullShare ((datR V O c).before 2 t d))
    ∗ (∃ d, owns (c : Thread nD τ) (st4_3 t) fullShare ((datR V O c).before 3 t d)))

def bodyPost (c : Dev nD) (t : Fin cfg4.N) : sProp 𝕄 :=
  iprop((datR V O c).Φ t.succ ∗ (datR V O c).owesAt none t.succ
    ∗ owns (c : Thread nD τ) (st4_0 t) fullShare ((datR V O c).after 0 t)
    ∗ owns (c : Thread nD τ) (st4_1 t) fullShare ((datR V O c).after 1 t)
    ∗ owns (c : Thread nD τ) (st4_2 t) fullShare ((datR V O c).after 2 t)
    ∗ owns (c : Thread nD τ) (st4_3 t) fullShare ((datR V O c).after 3 t))

theorem sound_body (c : Dev nD) (t : Fin cfg4.N) :
    bodyPre V O c t ⊢ wp frame (wpE (defs₀ (F := F)) Variants.none c none) Set.univ (bodyAt4 t) (fun _ => bodyPost V O c t) := by
  unfold bodyPre bodyPost bodyAt4
  simp only [before_0, before_1, before_2]
  rw [show (datR V O c).Φ t.succ = (datR V O c).Φ t.castSucc from rfl,
    show (datR V O c).owesAt none t.succ = (datR V O c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : Pipeline.BodyObligation (datR (F := F) V O c) (defs₀ (F := F)) Variants.none none Set.univ := fun t => by
  rw [bigSep_W4, bigSep_W4]
  exact sound_body V O c t

/-! ## The family of proof data, and call 4 as a kernel region -/

def datT0 (c : Dev nD) : Dat τ (Elt F) (HIx 1) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
    | ⟨3, _⟩ => ((cfg0.win 3).blk t).view.read (Elt F) (V c (Pipeline.arrRef spec0 3))
  Φ _ := Pipeline.scopedRest spec0 c
  q _ := fullShare
  owed _ := O c

def datT1 (c : Dev nD) : Dat τ (Elt F) (HIx 1) ℕ UU ℕ cfg1 c where
  A w := V c (Pipeline.arrRef spec1 w)
  after w t := match w with
    | ⟨0, _⟩ => ((cfg1.win 0).blk t).view.read (Elt F) (V c (Pipeline.arrRef spec1 0))
    | ⟨1, _⟩ => ((cfg1.win 1).blk t).view.read (Elt F) (V c (Pipeline.arrRef spec1 1))
    | ⟨2, _⟩ => ((cfg1.win 2).blk t).view.read (Elt F) (V c (Pipeline.arrRef spec1 2))
    | ⟨3, _⟩ => ((cfg1.win 3).blk t).view.read (Elt F) (V c (Pipeline.arrRef spec1 3))
  Φ _ := Pipeline.scopedRest spec1 c
  q _ := fullShare
  owed _ := O c

def datT2 (c : Dev nD) : Dat τ (Elt F) (HIx 1) ℕ UU ℕ cfg2 c where
  A w := V c (Pipeline.arrRef spec2 w)
  after w t := match w with
    | ⟨0, _⟩ => ((cfg2.win 0).blk t).view.read (Elt F) (V c (Pipeline.arrRef spec2 0))
    | ⟨1, _⟩ => ((cfg2.win 1).blk t).view.read (Elt F) (V c (Pipeline.arrRef spec2 1))
    | ⟨2, _⟩ => ((cfg2.win 2).blk t).view.read (Elt F) (V c (Pipeline.arrRef spec2 2))
    | ⟨3, _⟩ => ((cfg2.win 3).blk t).view.read (Elt F) (V c (Pipeline.arrRef spec2 3))
  Φ _ := Pipeline.scopedRest spec2 c
  q _ := fullShare
  owed _ := O c

def datT3 (c : Dev nD) : Dat τ (Elt F) (HIx 1) ℕ UU ℕ cfg3 c where
  A w := V c (Pipeline.arrRef spec3 w)
  after w t := match w with
    | ⟨0, _⟩ => ((cfg3.win 0).blk t).view.read (Elt F) (V c (Pipeline.arrRef spec3 0))
    | ⟨1, _⟩ => ((cfg3.win 1).blk t).view.read (Elt F) (V c (Pipeline.arrRef spec3 1))
    | ⟨2, _⟩ => ((cfg3.win 2).blk t).view.read (Elt F) (V c (Pipeline.arrRef spec3 2))
    | ⟨3, _⟩ => ((cfg3.win 3).blk t).view.read (Elt F) (V c (Pipeline.arrRef spec3 3))
  Φ _ := Pipeline.scopedRest spec3 c
  q _ := fullShare
  owed _ := O c

abbrev adm : (p : Fin 5) → (pcfgs (F := F) p).Adm := fun p => (cfgs p).toPCfg_adm

def pdats : (p : Fin 5) → (c : Dev nD) → Dat τ (Elt F) (HIx 1) ℕ UU ℕ (Pipeline.pin (pcfgs (F := F)) adm p) c
  | ⟨0, _⟩ => fun c => datT0 V O c
  | ⟨1, _⟩ => fun c => datT1 V O c
  | ⟨2, _⟩ => fun c => datT2 V O c
  | ⟨3, _⟩ => fun c => datT3 V O c
  | ⟨4, _⟩ => fun c => datR V O c

section Region

variable (W : Valuation τ sig (Elt F))

/-- The valuation read at the TensorCore's references, the same on every core. -/
abbrev VW (c : Dev nD) (b : Ref sig .tc) : Buf (Elt F) ((c : Thread nD τ).loc b) := W (dr b)
/-- What the TensorCore owes from the launch to the SparseCore call: its start signals. -/
abbrev OT (c : Dev nD) : CellTallies nD τ sig (HIx 1) := (K (F := F)).Otc c 0

omit [FloatOps F] in
theorem OT_none (c : Dev nD) (g : GSem nD τ sig) : OT (F := F) c g none = 0 := by
  by_contra h
  have := SparseCore.Cfg.lev_of_Otc_pos (K := K (F := F)) (d := c) (n := 0) (g := g) (ι := none) (Nat.pos_of_ne_zero h)
  rw [SparseCore.Cfg.lev_none] at this; omega

/-- What call 4 leaves in its output array. -/
def Rout (c : Dev nD) (W : Valuation τ sig (Elt F)) : (dr main_v10).ty.Contents (Elt F) := (datR (VW W) (OT (F := F)) c).arrAt 3 cfg4.N

/-- The TensorCore's debt as its handshake state holds it. -/
abbrev owesPart (c : Dev nD) : sProp 𝕄 :=
  iprop(∃ Ws, ⌜(K (F := F)).WBelow (SparseCore.T c) Ws (8 * 0)⌝ ∗ owes (SparseCore.T c) (OT (F := F) c) Ws)

set_option backward.isDefEq.respectTransparency.types false in
def reg : Pipeline.RegionSeg (pcfgs (F := F)) adm (pdats (VW W) (OT (F := F))) none defs₀ 𝒱₀ (K (F := F)).L (K (F := F)).lev 4 where
  win := launch4.win.to₀
  block_pos := launch4.block_pos
  stage_whole := launch4.stage_whole
  K := PEmpty
  osem k := k.elim
  ho := Pipeline.OwnSemFacts.none _
  hbody c := (body_obligation (VW W) (OT (F := F)) c).loose
  hwaits c := Pipeline.cellsWaits_intro (Pipeline.pin (pcfgs (F := F)) adm) (pdats (VW W) (OT (F := F))) none 4 c
    (R := levAts (K (F := F)).L (K (F := F)).lev) (fun w s t => (K (F := F)).mayWait_none _ (OT_none (F := F) c))
  pre c := iprop(StableHlo.held (c : Thread nD τ) (Pipeline.ucRefs τ sig) W ∗ owesPart c)
  post c := iprop(StableHlo.held (c : Thread nD τ) (Pipeline.ucRefs τ sig) (Function.update W (dr main_v10) (Rout c W)) ∗ owesPart c)
  X c := iprop(emp)
  Y c := iprop(emp)
  Z c := Pipeline.unscopedRest (Ix := HIx 1) (Name := ℕ) (U := UU) (Lvl := ℕ) spec4 c (VW W c)
  hentry c := by
    rw [Pipeline.ownSems0_none]
    have hsplit := Pipeline.arrays_of_unscopedBufs (p := 4) (pcfgs (F := F)) adm (pdats (VW W) (OT (F := F))) launch4.win launch4.arr_whole c
      ((pdats (VW W) (OT (F := F)) 4 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr
      · ipureintro; intro p hp; exact Or.inl (by
          have := hWs p hp
          rcases hpi : p.2 with _ | q
          · exact hpi
          · rw [hpi] at this; exact absurd this (by have := (K (F := F)).lev_some_pos (SparseCore.T c, p.1) q; omega))
      iexact HO
    isplitr; · iempintro
    iexact Hrest
  hin c := by
    rw [show (pdats (VW W) (OT (F := F)) 4 c).Φ 0 = Pipeline.scopedRest spec4 c from rfl]
    iintro ⟨-, -, Hr⟩
    iexact Hr
  hout c := by
    rw [Pipeline.ownSems0_none, show (pdats (VW W) (OT (F := F)) 4 c).Φ (Fin.last _) = Pipeline.scopedRest spec4 c from rfl]
    iintro Hr
    isplitr; · iempintro
    isplitr; · iempintro
    iexact Hr
  hexit c := by
    have hjoin := Pipeline.unscopedBufs_of_arrays (p := 4) (pcfgs (F := F)) adm (Ix := HIx 1) (Name := ℕ) (U := UU) (Lvl := ℕ)
      launch4.win launch4.arr_whole c (pdats (VW W) (OT (F := F))) ((pdats (VW W) (OT (F := F)) 4 c).share_full fun _ => rfl)
      (VW W c) (VW (Function.update W (dr main_v10) (Rout c W)) c) ((pdats (VW W) (OT (F := F)) 4 c).arrAt · cfg4.N)
      (fun w => by
        match w with
        | ⟨0, _⟩ => exact ((datR (VW W) (OT (F := F)) c).arrAt_in 0 rfl _).trans ((A_eq (VW W) (OT (F := F)) c 0).trans (Function.update_of_ne (show dr main_cst ≠ dr main_v10 by decide) _ _).symm)
        | ⟨1, _⟩ => exact ((datR (VW W) (OT (F := F)) c).arrAt_in 1 rfl _).trans ((A_eq (VW W) (OT (F := F)) c 1).trans (Function.update_of_ne (show dr main_cst_0 ≠ dr main_v10 by decide) _ _).symm)
        | ⟨2, _⟩ => exact ((datR (VW W) (OT (F := F)) c).arrAt_in 2 rfl _).trans ((A_eq (VW W) (OT (F := F)) c 2).trans (Function.update_of_ne (show dr main_v6 ≠ dr main_v10 by decide) _ _).symm)
        | ⟨3, _⟩ => exact (Function.update_self (dr main_v10) (Rout c W) W).symm)
      (fun b hb => Function.update_of_ne (fun e => hb (Finset.mem_image.mpr ⟨3, Finset.mem_univ _, Proc.devRef_injective _ e.symm⟩)) _ _)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr
    · ipureintro; intro p hp
      rcases hWs hp with h | ⟨w, s, rfl⟩
      · rw [show p.2 = none from h]; exact le_of_eq rfl
      · exact le_of_eq rfl
    iexact HO

end Region

/-! ## The step: the call in the program's own signature, lifted into the SparseCore program -/

/-- TensorCore call `p`'s ghost state on core `c`, as the launch deals it. -/
abbrev ghost (p : Fin 5) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

set_option backward.isDefEq.respectTransparency.types false in
theorem regionStep [∀ e, Nonempty (Elt F e)] (P : (K (F := F)).Pay (nD := nD) (Val := Elt F) (Name := ℕ) (U := UU)) (Gout : Dev nD → sProp 𝕄) :
    RegionStep P 4 main_v10 (Rout (F := F)) (fun d => iprop(ghost (F := F) 4 d ∗ Gout d)) Gout := by
  intro κ d W Q
  iintro ⟨#Hctx, Hst, Hb, Hheld, ⟨Hg, Ht⟩, HG⟩ Hk
  unfold SparseCore.Cfg.tcSt
  icases Hst with ⟨Howes, Hrest⟩
  ihave Hlev := (SparseCore.Cfg.ctx_levAts (K := K (F := F)) κ) $$ Hctx
  iapply ((K (F := F)).wp_liftProg (D (F := F)) 𝒱 (SparseCore.T d) Set.univ none
    (Prog.lift (TpuEff.customCall (Pipeline.entry (4 : Fin 5)) ())) Q)
  iapply (Pipeline.RegionSeg.wp (pcfgs (F := F)) adm (pdats (VW W) (OT (F := F))) none cellOf_inj (EP (F := F)) defs₀ 𝒱₀
    (K (F := F)).L (K (F := F)).lev (reg W) d none (fun _ h => nomatch h) (fun _ => Prog.ret PUnit.unit) Q) $$ [Hk Hb Hheld Howes Hg Ht Hrest HG]
  isplitl [Hk Hrest HG]
  · iintro ⟨Hb, Hpost⟩
    ihave Hpost := (Entails.of_eq (show (reg (F := F) W).post d
      = iprop(StableHlo.held (d : Thread nD τ) (Pipeline.ucRefs τ sig) (Function.update W (dr main_v10) (Rout d W)) ∗ owesPart (F := F) d) from rfl)) $$ Hpost
    icases Hpost with ⟨Hheld, Howes⟩
    rw [wp_ret]; imodintro
    iapply Hk
    isplitl [Howes Hrest]
    · isplitl [Howes]; · iexact Howes
      iexact Hrest
    isplitl [Hb]; · iexact Hb
    isplitl [Hheld]; · iexact Hheld
    iexact HG
  isplitl [Hb]; · iexact Hb
  isplitl [Hheld Howes]
  · iapply (Entails.of_eq (show iprop(StableHlo.held (d : Thread nD τ) (Pipeline.ucRefs τ sig) W ∗ owesPart (F := F) d) = (reg (F := F) W).pre d from rfl))
    isplitl [Hheld]; · iexact Hheld
    iexact Howes
  isplitr; · iexact Hlev
  isplitl [Hg]; · iexact Hg
  iexact Ht

end Cert.Proof.B.ScReg4

end
-- ==== Proof.BScIdx.lean ====
/-
  The index words' range, from the certificate's precondition: the precondition's last four conjuncts say that every
  word of the four text arrays is between 0 and 99999; the four flattened index arrays the SparseCore call reads are
  reshapes of those arrays, which nothing before the call writes, so every word they hold is such a word.
-/
import proofs.«203359_g24824910971486_cont_8to1_1854_34_alg».proof.Proof.BScCall
import proofs.«203359_g24824910971486_cont_8to1_1854_34_alg».proof.Proof.Gen.Pre_input_domain
import Idealize.ShloMosaic.Lib.ReduceAll
import Idealize.ShloMosaic.Lib.ValueIdx

noncomputable section

namespace Cert.Proof.B.ScIdx

open Cert.Kernel Cert.Kernel.Gen Cert.Proof.B.ScSetup Cert.Proof.B.ScMain Cert.Proof.B.ScBody

open Idealize.ShloMosaic
open Idealize.ShloMosaic.SparseCore (S V T)

variable {F : FTy → Type}

instance subsingleton_scalar_idx : Subsingleton Cert.Pre_input_domain.S_.Idx := ⟨fun a b => funext fun d => d.elim0⟩

/-! ## The precondition's range conjuncts -/

/-- One `jnp.all` of `0 ≤ x ≤ 99999` over a text array, read back: every word is in range. -/
theorem range_of_all (a : IVec Cert.Pre_input_domain.S16384x50 32) (init : IVec Cert.Pre_input_domain.S_ 1)
    (hb : Cert.Pre_input_domain.S_.BroadcastsInDim Cert.Pre_input_domain.S16384x50 (![] : Fin 0 → Fin Cert.Pre_input_domain.S16384x50.rank))
    (hr : Cert.Pre_input_domain.S16384x50.ReducesTo [0, 1] Cert.Pre_input_domain.S_) (hn : 0 < Cert.Pre_input_domain.S_.numel)
    (j : Cert.Pre_input_domain.S_.Idx)
    (e : Host.reduce IntOp.andi
        (andi (cmpi .sge a (broadcastInDim Cert.Pre_input_domain.S16384x50 ![] hb (constantI Cert.Pre_input_domain.S_ 32 0#32)))
          (cmpi .sle a (broadcastInDim Cert.Pre_input_domain.S16384x50 ![] hb (constantI Cert.Pre_input_domain.S_ 32 99999#32))))
        init hr hn j = 1#1) :
    ∀ i, IdxOK (a i) := by
  intro i
  have e' := Host.reduce_andi_all _ _ hr hn j e i
  obtain ⟨e1, e2⟩ := IntOp.andi_eq_one.1 e'
  have h1 : (0#32 : BitVec 32).toInt ≤ (a i).toInt := IntOp.cmpi_sge.1 e1
  have h2 : (a i).toInt ≤ (99999#32 : BitVec 32).toInt := IntOp.cmpi_sle.1 e2
  exact ⟨h1, h2⟩

/-- From the precondition (the printed predicate all ones): every word of the four text arrays is between 0 and 99999. -/
theorem text_range [FloatOps F]
    (a0 : FVec F Cert.Pre_input_domain.S16384x13 .f32) (a1 : IVec Cert.Pre_input_domain.S16384x26 32)
    (a2 a3 a4 a5 : IVec Cert.Pre_input_domain.S16384x50 32) (a6 a7 : FVec F Cert.Pre_input_domain.S13 .f32)
    (a8 a9 a10 a11 : FVec F Cert.Pre_input_domain.S100000x16 .f32)
    (h : Cert.Pre_input_domain.fn (F := F) a0 a1 a2 a3 a4 a5 a6 a7 a8 a9 a10 a11 = fun _ => 1#1) :
    (∀ i, IdxOK (a2 i)) ∧ (∀ i, IdxOK (a3 i)) ∧ (∀ i, IdxOK (a4 i)) ∧ (∀ i, IdxOK (a5 i)) := by
  have h0 := congrFun h ValueIdx.ix0
  simp only [Cert.Pre_input_domain.fn, Cert.Pre_input_domain.fn_part1, Cert.Pre_input_domain.fn_part2,
    Cert.Pre_input_domain.fn_part3, Cert.Pre_input_domain.fn_part4] at h0
  obtain ⟨h61, h67⟩ := IntOp.andi_eq_one.1 h0
  obtain ⟨h54, h60⟩ := IntOp.andi_eq_one.1 h61
  obtain ⟨h47, h53⟩ := IntOp.andi_eq_one.1 h54
  obtain ⟨-, h46⟩ := IntOp.andi_eq_one.1 h47
  exact ⟨range_of_all a2 _ _ _ _ _ h46, range_of_all a3 _ _ _ _ _ h53, range_of_all a4 _ _ _ _ _ h60,
    range_of_all a5 _ _ _ _ _ h67⟩

/-! ## The flattened index arrays are the text arrays' words -/

section Chain

variable [FloatOps F]

/-- Through the four flattening reshapes, each flattened array holds only words of its text array, whatever the valuation
    they start from: a reshape reads its source at the row-major index and writes its result alone. -/
theorem flat_range (W : Valuation τ sig (Elt F))
    (s2 : ∀ i, IdxOK (W (dr main_arg2) i)) (s3 : ∀ i, IdxOK (W (dr main_arg3) i))
    (s4 : ∀ i, IdxOK (W (dr main_arg4) i)) (s5 : ∀ i, IdxOK (W (dr main_arg5) i)) :
    (∀ j, IdxOK ((opI3 (F := F)).result ((opI2 (F := F)).result ((opI1 (F := F)).result ((opI0 (F := F)).result W))) (dr main_v11) j))
    ∧ (∀ j, IdxOK ((opI3 (F := F)).result ((opI2 (F := F)).result ((opI1 (F := F)).result ((opI0 (F := F)).result W))) (dr main_v12) j))
    ∧ (∀ j, IdxOK ((opI3 (F := F)).result ((opI2 (F := F)).result ((opI1 (F := F)).result ((opI0 (F := F)).result W))) (dr main_v13) j))
    ∧ (∀ j, IdxOK ((opI3 (F := F)).result ((opI2 (F := F)).result ((opI1 (F := F)).result ((opI0 (F := F)).result W))) (dr main_v14) j)) := by
  refine ⟨fun j => ?_, fun j => ?_, fun j => ?_, fun j => ?_⟩
  · rw [(opI3 (F := F)).result_of_not_mem _ (show dr main_v11 ∉ ({dr main_v14} : Finset (DevRef τ sig)) by decide),
      (opI2 (F := F)).result_of_not_mem _ (show dr main_v11 ∉ ({dr main_v13} : Finset (DevRef τ sig)) by decide),
      (opI1 (F := F)).result_of_not_mem _ (show dr main_v11 ∉ ({dr main_v12} : Finset (DevRef τ sig)) by decide),
      show (opI0 (F := F)).result W (dr main_v11) = _ from
        StableHlo.reshape_result main_arg2 main_v11 rfl shapeCasts_S16384x50_S819200 ⟨by decide, rfl⟩ ⟨by decide, rfl⟩ W]
    exact s2 _
  · rw [(opI3 (F := F)).result_of_not_mem _ (show dr main_v12 ∉ ({dr main_v14} : Finset (DevRef τ sig)) by decide),
      (opI2 (F := F)).result_of_not_mem _ (show dr main_v12 ∉ ({dr main_v13} : Finset (DevRef τ sig)) by decide),
      show (opI1 (F := F)).result ((opI0 (F := F)).result W) (dr main_v12) = _ from
        StableHlo.reshape_result main_arg3 main_v12 rfl shapeCasts_S16384x50_S819200 ⟨by decide, rfl⟩ ⟨by decide, rfl⟩ _]
    show IdxOK ((opI0 (F := F)).result W (dr main_arg3) _)
    rw [(opI0 (F := F)).result_of_not_mem _ (show dr main_arg3 ∉ ({dr main_v11} : Finset (DevRef τ sig)) by decide)]
    exact s3 _
  · rw [(opI3 (F := F)).result_of_not_mem _ (show dr main_v13 ∉ ({dr main_v14} : Finset (DevRef τ sig)) by decide),
      show (opI2 (F := F)).result ((opI1 (F := F)).result ((opI0 (F := F)).result W)) (dr main_v13) = _ from
        StableHlo.reshape_result main_arg4 main_v13 rfl shapeCasts_S16384x50_S819200 ⟨by decide, rfl⟩ ⟨by decide, rfl⟩ _]
    show IdxOK ((opI1 (F := F)).result ((opI0 (F := F)).result W) (dr main_arg4) _)
    rw [(opI1 (F := F)).result_of_not_mem _ (show dr main_arg4 ∉ ({dr main_v12} : Finset (DevRef τ sig)) by decide),
      (opI0 (F := F)).result_of_not_mem _ (show dr main_arg4 ∉ ({dr main_v11} : Finset (DevRef τ sig)) by decide)]
    exact s4 _
  · rw [show (opI3 (F := F)).result ((opI2 (F := F)).result ((opI1 (F := F)).result ((opI0 (F := F)).result W))) (dr main_v14) = _ from
        StableHlo.reshape_result main_arg5 main_v14 rfl shapeCasts_S16384x50_S819200 ⟨by decide, rfl⟩ ⟨by decide, rfl⟩ _]
    show IdxOK ((opI2 (F := F)).result ((opI1 (F := F)).result ((opI0 (F := F)).result W)) (dr main_arg5) _)
    rw [(opI2 (F := F)).result_of_not_mem _ (show dr main_arg5 ∉ ({dr main_v13} : Finset (DevRef τ sig)) by decide),
      (opI1 (F := F)).result_of_not_mem _ (show dr main_arg5 ∉ ({dr main_v12} : Finset (DevRef τ sig)) by decide),
      (opI0 (F := F)).result_of_not_mem _ (show dr main_arg5 ∉ ({dr main_v11} : Finset (DevRef τ sig)) by decide)]
    exact s5 _

end Chain

/-! ## The call's index arrays are in range -/

section Pre

variable [FloatOps F]
variable (m : (ℓ : Loc nD τ sig) → Buf (Elt F) ℓ)
variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))

/-- Before the four flattening reshapes the arguments are still at their launch contents. -/
theorem keeps_WB4 (d : Dev nD) : Keeps m d (WB4 m R0 R1 R2 R3 R4 d) := by
  unfold WB4 WB3 WB2 WB1 WB WA' WA
  refine keeps_update m d _ (show dr main_v10 ∉ Sargs by decide) _ ?_
  refine keeps_update m d _ (show dr main_v9 ∉ Sargs by decide) _ ?_
  refine keeps_update m d _ (show dr main_v8 ∉ Sargs by decide) _ ?_
  refine keeps_update m d _ (show dr main_v7 ∉ Sargs by decide) _ ?_
  refine keeps_result m d _ (show Disjoint ({dr main_v6} : Finset (DevRef τ sig)) Sargs by decide) ?_
  refine keeps_result m d _ (show Disjoint ({dr main_v5} : Finset (DevRef τ sig)) Sargs by decide) ?_
  refine keeps_result m d _ (show Disjoint ({dr main_v4} : Finset (DevRef τ sig)) Sargs by decide) ?_
  refine keeps_result m d _ (show Disjoint ({dr main_v3} : Finset (DevRef τ sig)) Sargs by decide) ?_
  refine keeps_update m d _ (show dr main_v2 ∉ Sargs by decide) _ ?_
  refine keeps_result m d _ (show Disjoint ({dr main_v1} : Finset (DevRef τ sig)) Sargs by decide) ?_
  refine keeps_result m d _ (show Disjoint ({dr main_v0} : Finset (DevRef τ sig)) Sargs by decide) ?_
  refine keeps_result m d _ (show Disjoint ({dr main_cst_0} : Finset (DevRef τ sig)) Sargs by decide) ?_
  refine keeps_result m d _ (show Disjoint ({dr main_cst} : Finset (DevRef τ sig)) Sargs by decide) ?_
  exact keeps_V0 m d

/-- UNDER THE PRECONDITION, every word of the four flattened index arrays the SparseCore call reads is between 0 and
    99999: the words are the text arrays', which the precondition bounds and nothing before the call writes. -/
theorem idxPre_of_pre
    (hpre : ∀ c : Dev nD,
      Cert.Pre_input_domain.fn (F := F) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) = fun _ => 1#1) :
    ∀ d : Dev nD, IdxPre (F := F) d (WC m R0 R1 R2 R3 R4 d (dr main_v11)) (WC m R0 R1 R2 R3 R4 d (dr main_v12))
      (WC m R0 R1 R2 R3 R4 d (dr main_v13)) (WC m R0 R1 R2 R3 R4 d (dr main_v14)) := by
  intro d
  have hK := keeps_WB4 m R0 R1 R2 R3 R4 d
  obtain ⟨t2, t3, t4, t5⟩ := text_range _ _ _ _ _ _ _ _ _ _ _ _ (hpre d)
  have s2 : ∀ i, IdxOK (WB4 m R0 R1 R2 R3 R4 d (dr main_arg2) i) := by
    rw [hK (dr main_arg2) (by decide)]; exact t2
  have s3 : ∀ i, IdxOK (WB4 m R0 R1 R2 R3 R4 d (dr main_arg3) i) := by
    rw [hK (dr main_arg3) (by decide)]; exact t3
  have s4 : ∀ i, IdxOK (WB4 m R0 R1 R2 R3 R4 d (dr main_arg4) i) := by
    rw [hK (dr main_arg4) (by decide)]; exact t4
  have s5 : ∀ i, IdxOK (WB4 m R0 R1 R2 R3 R4 d (dr main_arg5) i) := by
    rw [hK (dr main_arg5) (by decide)]; exact t5
  exact flat_range (WB4 m R0 R1 R2 R3 R4 d) s2 s3 s4 s5

end Pre

end Cert.Proof.B.ScIdx

end
-- ==== Proof.BScFrame.lean ====
/-
  The frame of the SparseCore program: the ghost state of the five TensorCore calls from the launch element, the run
  of the whole thread family with the argument arrays at their launch contents, and the frame claim's post read off it
  — from the tile kernel's body run and the index words' range.
-/
import proofs.«203359_g24824910971486_cont_8to1_1854_34_alg».proof.Proof.BScLaunch
import proofs.«203359_g24824910971486_cont_8to1_1854_34_alg».proof.Proof.BScCall
import proofs.«203359_g24824910971486_cont_8to1_1854_34_alg».proof.Proof.BScReg0
import proofs.«203359_g24824910971486_cont_8to1_1854_34_alg».proof.Proof.BScReg1
import proofs.«203359_g24824910971486_cont_8to1_1854_34_alg».proof.Proof.BScReg2
import proofs.«203359_g24824910971486_cont_8to1_1854_34_alg».proof.Proof.BScReg3
import proofs.«203359_g24824910971486_cont_8to1_1854_34_alg».proof.Proof.BScReg4
import proofs.«203359_g24824910971486_cont_8to1_1854_34_alg».proof.Proof.BScIdx

noncomputable section

namespace Cert.Proof.B.ScFrame

open Cert.Kernel Cert.Kernel.Gen Cert.Proof.B.ScSetup Cert.Proof.B.ScMain Cert.Proof.B.ScBody Cert.Proof.B.ScPay Cert.Proof.B.ScLaunch Cert.Proof.B.ScCall

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type} [FloatOps F]

local notation "𝕄" => MT nD τ sig (HIx 1) (Elt F) ℕ UU ℕ

/-! ## The TensorCore calls' ghost state, call by call -/

abbrev G5 : Dev nD → sProp 𝕄 := fun _ => iprop(emp)
abbrev G4 : Dev nD → sProp 𝕄 := fun d => iprop(ScReg4.ghost (F := F) 4 d ∗ G5 (F := F) d)
abbrev G3 : Dev nD → sProp 𝕄 := fun d => iprop(ScReg3.ghost (F := F) 3 d ∗ G4 (F := F) d)
abbrev G2 : Dev nD → sProp 𝕄 := fun d => iprop(ScReg2.ghost (F := F) 2 d ∗ G3 (F := F) d)
abbrev G1 : Dev nD → sProp 𝕄 := fun d => iprop(ScReg1.ghost (F := F) 1 d ∗ G2 (F := F) d)
abbrev G0 : Dev nD → sProp 𝕄 := fun d => iprop(ScReg0.ghost (F := F) 0 d ∗ G1 (F := F) d)

/-- The staging cells' launch element: every cell's rounds at their start, every transfer's token. -/
def uP : UP :=
  initOf (Pipeline.cells (nD := nD) (τ := τ) (Pipeline.pin (pcfgs (F := F)) ScReg0.adm) cellOf_inj)
    (Pipeline.launchToks (nD := nD) (τ := τ) (Pipeline.pin (pcfgs (F := F)) ScReg0.adm) cellOf_inj)

omit [FloatOps F] in
theorem bigSep_calls {M : Type} [URA M] (Φ : Fin 5 → sProp M) :
    bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ

set_option backward.isDefEq.respectTransparency.types false in
theorem ghost_chain (d : Dev nD) :
    iprop((bigSep Finset.univ fun p : Fin 5 => Pipeline.cellsGhost (Pipeline.pin (pcfgs (F := F)) ScReg0.adm) (EP (F := F)) p d)
        ∗ (bigSep Finset.univ fun p : Fin 5 => (Pipeline.toksInit (Pipeline.pin (pcfgs (F := F)) ScReg0.adm) (EP (F := F)) p d : sProp 𝕄)))
      ⊢ G0 (F := F) d := by
  rw [bigSep_calls, bigSep_calls]
  iintro ⟨⟨g0, g1, g2, g3, g4⟩, ⟨t0, t1, t2, t3, t4⟩⟩
  isplitl [g0 t0]
  · isplitl [g0]; · iexact g0
    iexact t0
  isplitl [g1 t1]
  · isplitl [g1]; · iexact g1
    iexact t1
  isplitl [g2 t2]
  · isplitl [g2]; · iexact g2
    iexact t2
  isplitl [g3 t3]
  · isplitl [g3]; · iexact g3
    iexact t3
  isplitl [g4 t4]
  · isplitl [g4]; · iexact g4
    iexact t4
  iempintro

set_option backward.isDefEq.respectTransparency.types false in
theorem hfund : (BI.own (EP (F := F) (uP (F := F))) : sProp 𝕄) ⊢ |={Set.univ}=> bigSep Finset.univ (G0 (F := F)) := by
  unfold uP
  iintro H
  imod (Pipeline.fund_ghost (Pipeline.pin (pcfgs (F := F)) ScReg0.adm) (EP (F := F)) cellOf_inj) $$ H with ⟨Hg, Ht⟩
  imodintro
  have hjoin : iprop((bigSep Finset.univ fun c : Dev nD => bigSep Finset.univ fun p : Fin 5 => Pipeline.cellsGhost (Pipeline.pin (pcfgs (F := F)) ScReg0.adm) (EP (F := F)) p c)
        ∗ (bigSep Finset.univ fun c : Dev nD => bigSep Finset.univ fun p : Fin 5 => (Pipeline.toksInit (Pipeline.pin (pcfgs (F := F)) ScReg0.adm) (EP (F := F)) p c : sProp 𝕄)))
      ⊢ bigSep Finset.univ (G0 (F := F)) :=
    (Entails.of_eq (bigSep_sep' (Finset.univ : Finset (Dev nD)) _ _).symm).trans (bigSep_mono fun d _ => ghost_chain (F := F) d)
  iapply hjoin
  isplitl [Hg]; · iexact Hg
  iexact Ht

/-! ## The run of the whole thread family, and the frame claim read off it -/

variable (m : (ℓ : Loc nD τ sig) → Buf (Elt F) ℓ) (ρ : Dev nD → PrngReg)

/-- The unscoped buffers at the SparseCore call: the launch contents through the host operations and the five calls. -/
abbrev Wc (d : Dev nD) : Valuation τ sig (Elt F) :=
  WC m (ScReg0.R0 (F := F)) (ScReg1.Rout (F := F)) (ScReg2.Rout (F := F)) (ScReg3.Rout (F := F)) (ScReg4.Rout (F := F)) d

set_option backward.isDefEq.respectTransparency.types false in
/-- Every weakly fair execution of the TensorCore's @main, the two sequencers and the thirty-two vector subcores
    terminates, nothing faulting, the twelve argument arrays at their launch contents — from the tile kernel's body run
    and the index words' range. -/
theorem run [∀ e, Nonempty (Elt F e)] (hbody : TileBodyStmt (F := F))
    (hidx : ∀ d : Dev nD, IdxPre (F := F) d (Wc m d (dr main_v11)) (Wc m d (dr main_v12)) (Wc m d (dr main_v13)) (Wc m d (dr main_v14))) :
    θ_run (Cert.Kernel.defs (F := F)) (Cert.Kernel.threads (F := F)) ⟨m, fun _ => 0, ρ⟩ (QC m) :=
  run_main m ρ (fun d => Wc m d (dr main_v7)) (fun d => Wc m d (dr main_v8)) (fun d => Wc m d (dr main_v9)) (fun d => Wc m d (dr main_v10))
    (fun d => Wc m d (dr main_v11)) (fun d => Wc m d (dr main_v12)) (fun d => Wc m d (dr main_v13)) (fun d => Wc m d (dr main_v14))
    (ScReg0.R0 (F := F)) (ScReg1.Rout (F := F)) (ScReg2.Rout (F := F)) (ScReg3.Rout (F := F)) (ScReg4.Rout (F := F))
    (G0 (F := F)) (G1 (F := F)) (G2 (F := F)) (G3 (F := F)) (G4 (F := F)) (G5 (F := F)) (uP (F := F)) hbody hidx
    (ScReg0.regionStep0 _ _) (ScReg1.regionStep _ _) (ScReg2.regionStep _ _) (ScReg3.regionStep _ _) (ScReg4.regionStep _ _)
    (callStep m _ _ _ _ _) hfund

/-- The frame claim's post from the run's: the arguments one by one. -/
theorem post_of_QC (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨h c (dr main_arg0) (by decide), h c (dr main_arg1) (by decide), h c (dr main_arg2) (by decide), h c (dr main_arg3) (by decide),
    h c (dr main_arg4) (by decide), h c (dr main_arg5) (by decide), h c (dr main_arg6) (by decide), h c (dr main_arg7) (by decide),
    h c (dr main_arg8) (by decide), h c (dr main_arg9) (by decide), h c (dr main_arg10) (by decide), h c (dr main_arg11) (by decide)⟩

/-- The frame of the program, at any float instance, from the tile kernel's body run: the index words' range comes
    from the precondition. -/
theorem frame_of_body [∀ e, Nonempty (Elt F e)] (hbody : TileBodyStmt (F := F))
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) = fun _ => 1#1) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.Kernel.defs (F := F)) _ _).mono (fun r h c => post_of_QC m r h c)
    (run m ρ hbody (Cert.Proof.B.ScIdx.idxPre_of_pre m _ _ _ _ _ hpre))

end Cert.Proof.B.ScFrame

end
-- ==== Proof.BScArith.lean ====
/-
  Word arithmetic of the lookup kernel's index vectors: the row, column and address vectors of one drain trip stay
  inside the row scratch and the output scratch, and a shifted index word names a row of a table.
-/
import proofs.«203359_g24824910971486_cont_8to1_1854_34_alg».proof.Proof.BScBodyDefs

noncomputable section

namespace Cert.Proof.B.ScBody

open Cert.Kernel Cert.Kernel.Gen
open Idealize.ShloMosaic

/-- Two index vectors, each below its axis' extent, are in range on both axes. -/
theorem chk2 (sz : Fin 2 → Nat) (u v : IVec S16 32) (h0 : ∀ x, (u x).toNat < sz 0) (h1 : ∀ x, (v x).toNat < sz 1) :
    ∀ a x, ((![u, v] : Fin 2 → IVec S16 32) a x).toNat < sz a := by
  intro a x
  match a with
  | 0 => exact h0 x
  | 1 => exact h1 x

/-- The lane numbers are below 16. -/
theorem lane_lt (x : S16.Idx) : ((iota .scVector S16 32 [0] iota_S16_d0_w32_scVector : IVec S16 32) x).toNat < 16 := by
  have hx : (x 0).val < 16 := (x 0).isLt
  show (BitVec.ofNat 32 (0 * S16.size 0 + (x 0).val)).toNat < 16
  rw [BitVec.toNat_ofNat]
  have : (0 * S16.size 0 + (x 0).val) = (x 0).val := by omega
  rw [this]; omega

/-- The row vector of trip `k < 20`: `16 k + lane < 320`. -/
theorem row_lt (v3 : IVec S16 32) (hv3 : ∀ x, (v3 x).toNat < 16) (k : Nat) (hk : k < 20) (x : S16.Idx) :
    ((addi (broadcast S16 (Scalar.addi 0#32 (Scalar.muli (Scf.iv 0#32 1#32 k) 16#32))) v3) x).toNat < 320 := by
  have h := hv3 x
  show (0#32 + (0#32 + BitVec.ofNat 32 k * 1#32) * 16#32 + v3 x).toNat < 320
  simp only [BitVec.toNat_add, BitVec.toNat_mul, BitVec.toNat_ofNat]
  omega

/-- A number whose successor is at most 16, by evaluation. -/
theorem lt16_of_ble {a : Nat} (h : Nat.ble (a + 1) 16 = true) : a < 16 := Nat.le_of_ble_eq_true h

/-- A column vector: `(w &&& 7) * 16 + m < 128` for `m < 16`. -/
theorem col_lt (w m : BitVec 32) (hm : m.toNat < 16) : (IntOp.addi (IntOp.muli (IntOp.andi w 7#32) 16#32) m).toNat < 128 := by
  show ((w &&& 7#32) * 16#32 + m).toNat < 128
  have h7 : (w &&& 7#32).toNat ≤ 7 := by rw [BitVec.toNat_and]; exact Nat.and_le_right
  simp only [BitVec.toNat_add, BitVec.toNat_mul]
  have : (16#32 : BitVec 32).toNat = 16 := rfl
  rw [this]; omega

/-- The low part of an address: `a &&& 127 < 128`. -/
theorem lo_lt (a : BitVec 32) : (IntOp.andi a 127#32).toNat < 128 := by
  show (a &&& 127#32).toNat < 128
  rw [BitVec.toNat_and]
  exact Nat.lt_succ_of_le Nat.and_le_right

/-- The high part of an address `16 r + m`, `r < 320`, `m < 16`: below 40. -/
theorem hi_lt (r m : BitVec 32) (hr : r.toNat < 320) (hm : m.toNat < 16) :
    (IntOp.shrsi .vector (IntOp.addi (IntOp.muli r 16#32) m) 7#32).toNat < 40 := by
  have ha : (r * 16#32 + m).toNat = r.toNat * 16 + m.toNat := by
    simp only [BitVec.toNat_add, BitVec.toNat_mul]
    have : (16#32 : BitVec 32).toNat = 16 := rfl
    rw [this]; omega
  have hmsb : (r * 16#32 + m).msb = false := by
    rw [BitVec.msb_eq_false_iff_two_mul_lt, ha]; omega
  show (if (7#32 : BitVec 32).toNat < 32 then (r * 16#32 + m).sshiftRight' 7#32 else _).toNat < 40
  rw [if_pos (by decide)]
  show ((r * 16#32 + m).sshiftRight 7).toNat < 40
  rw [BitVec.sshiftRight_eq_of_msb_false hmsb, BitVec.toNat_ushiftRight, ha, Nat.shiftRight_eq_div_pow]
  omega

end Cert.Proof.B.ScBody

end
-- ==== Proof.BScSup.lean ====
/-
  The offset lists of the lookup kernel: an index word shifted right by three names a row of a table, and a list
  filled sixteen words at a time with such words holds, after `k` trips, row numbers in its first `16 k` places.
-/
import proofs.«203359_g24824910971486_cont_8to1_1854_34_alg».proof.Proof.BScArith

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A tile's own buffer, as its whole memref addresses it. -/
theorem pts_w (d : Dev nD) (c : Fin τ.nSC) (i : Fin τ.nSub) (b : Ref sig .scVector) (q : PosShare TreeShare) (f : Buf (Elt F) ((V d c i).loc b)) :
    (((Memref.whole b).view.loc (V d c i) ↦{q} f : sProp 𝕄)) = ((V d c i).loc b ↦{q} f) := rfl

/-- An index word in `[0, 99999]`, shifted right by three, is below 12500. -/
theorem shr3_lt (w : BitVec 32) (h : IdxOK w) : (IntOp.shrsi .vector w 3#32).toNat < 12500 := by
  obtain ⟨h0, h1⟩ := h
  have hcond := BitVec.toInt_eq_toNat_cond w
  have h2 : 2 * w.toNat < 2 ^ 32 := by
    by_contra hn
    rw [if_neg hn] at hcond
    have := w.isLt
    omega
  rw [if_pos h2] at hcond
  have hmsb : w.msb = false := BitVec.msb_eq_false_iff_two_mul_lt.mpr h2
  show (if (3#32 : BitVec 32).toNat < 32 then w.sshiftRight' 3#32 else _).toNat < 12500
  rw [if_pos (by decide)]
  show (w.sshiftRight 3).toNat < 12500
  rw [BitVec.sshiftRight_eq_of_msb_false hmsb, BitVec.toNat_ushiftRight, Nat.shiftRight_eq_div_pow]
  omega

/-- The shifted vector of sixteen index words. -/
theorem shr3_vec_lt (v : IVec S16 32) (hv : ∀ x, IdxOK (v x)) (x : S16.Idx) : ((shrsi v (broadcast S16 3#32)) x).toNat < 12500 :=
  shr3_lt (v x) (hv x)

/-- One trip of a list's filling: sixteen row numbers stored at place `16 k` over a list whose first `16 k` places hold
    row numbers leave one whose first `16 (k + 1)` places do. -/
theorem sup_step {sig : RefSig} {κ : Kind} {sp : Space} (v : View sig κ sp S320 .i32) (fs : v.ty.Contents (Elt F))
    (k : Nat) (off : Fin 1 → Nat) (hoff : off = ![16 * k]) (inb : ∀ a, off a + S16.size a ≤ S320.size a)
    (w : (Rect.unit (s := S320) off S16.size inb).shape.Idx → Elt F .i32) (hw : ∀ x, BitVec.toNat (w x) < 12500)
    (hfs : ∀ y : S320.Idx, (y 0).val < 16 * k → BitVec.toNat (v.read (Elt F) fs y) < 12500) :
    ∀ y : S320.Idx, (y 0).val < 16 * (k + 1) →
      BitVec.toNat (v.read (Elt F) (v.writes (Elt F) fs [⟨Rect.unit (s := S320) off S16.size inb, w⟩]) y) < 12500 := by
  intro y hy
  by_cases hm : y ∈ (Rect.unit (s := S320) off S16.size inb).set
  · rw [← Rect.map_emb_univ] at hm
    obtain ⟨x, -, rfl⟩ := Finset.mem_map.mp hm
    rw [View.read_writes_cons_emb]
    exact hw x
  · rw [View.read_writes_apply_of_forall_not_mem v fs y [⟨Rect.unit (s := S320) off S16.size inb, w⟩]
      (by intro p hp; rw [List.mem_singleton] at hp; subst hp; exact hm)]
    apply hfs
    have hn := (Rect.mem_set_unit (i := y)).not.mp hm
    by_contra hc
    apply hn
    intro a
    obtain rfl : a = 0 := Subsingleton.elim _ _
    subst hoff
    show 16 * k ≤ (y 0).val ∧ (y 0).val < 16 * k + 16
    omega

/-- The invariant of a drain loop on the first row scratch: the index scratch as it is, the row scratch and the output
    scratch at some contents. -/
def drainInv0 (d : Dev nD) (L : grid5.Coords) (fI : Buf (Elt F) ((V d (cV L) (jV L)).loc cc5_scratch0)) (_ : Nat) (_ : PUnit) : sProp 𝕄 :=
  iprop(((Memref.whole cc5_scratch0).view.loc (V d (cV L) (jV L)) ↦{fullShare} fI) ∗ (∃ fr : Buf (Elt F) ((V d (cV L) (jV L)).loc cc5_scratch3), ((Memref.whole cc5_scratch3).view.loc (V d (cV L) (jV L)) ↦{fullShare} fr))
    ∗ ∃ fo : Buf (Elt F) ((V d (cV L) (jV L)).loc cc5_scratch5), ((Memref.whole cc5_scratch5).view.loc (V d (cV L) (jV L)) ↦{fullShare} fo))
/-- The same on the second row scratch. -/
def drainInv1 (d : Dev nD) (L : grid5.Coords) (fI : Buf (Elt F) ((V d (cV L) (jV L)).loc cc5_scratch0)) (_ : Nat) (_ : PUnit) : sProp 𝕄 :=
  iprop(((Memref.whole cc5_scratch0).view.loc (V d (cV L) (jV L)) ↦{fullShare} fI) ∗ (∃ fr : Buf (Elt F) ((V d (cV L) (jV L)).loc cc5_scratch4), ((Memref.whole cc5_scratch4).view.loc (V d (cV L) (jV L)) ↦{fullShare} fr))
    ∗ ∃ fo : Buf (Elt F) ((V d (cV L) (jV L)).loc cc5_scratch5), ((Memref.whole cc5_scratch5).view.loc (V d (cV L) (jV L)) ↦{fullShare} fo))
/-- The invariant of a loop that fills the first offset list: the index scratch as it is, its words in the tables'
    range; the list's first `16 k` places hold row numbers. -/
def prepInv0 (d : Dev nD) (L : grid5.Coords) (fI : Buf (Elt F) ((V d (cV L) (jV L)).loc cc5_scratch0)) (k : Nat) (_ : PUnit) : sProp 𝕄 :=
  iprop(((Memref.whole cc5_scratch0).view.loc (V d (cV L) (jV L)) ↦{fullShare} fI) ∗ ∃ fs : Buf (Elt F) ((V d (cV L) (jV L)).loc cc5_scratch1), ((Memref.whole cc5_scratch1).view.loc (V d (cV L) (jV L)) ↦{fullShare} fs)
    ∗ ⌜∀ y : S320.Idx, (y 0).val < 16 * k → BitVec.toNat ((Memref.whole cc5_scratch1 : Memref sig .scVector .vmem S320 .i32).view.read (Elt F) fs y) < 12500⌝)
/-- The same for the second offset list. -/
def prepInv1 (d : Dev nD) (L : grid5.Coords) (fI : Buf (Elt F) ((V d (cV L) (jV L)).loc cc5_scratch0)) (k : Nat) (_ : PUnit) : sProp 𝕄 :=
  iprop(((Memref.whole cc5_scratch0).view.loc (V d (cV L) (jV L)) ↦{fullShare} fI) ∗ ∃ fs : Buf (Elt F) ((V d (cV L) (jV L)).loc cc5_scratch2), ((Memref.whole cc5_scratch2).view.loc (V d (cV L) (jV L)) ↦{fullShare} fs)
    ∗ ⌜∀ y : S320.Idx, (y 0).val < 16 * k → BitVec.toNat ((Memref.whole cc5_scratch2 : Memref sig .scVector .vmem S320 .i32).view.read (Elt F) fs y) < 12500⌝)

end Cert.Proof.B.ScBody

end
-- ==== Proof.BScOwn.lean ====
/-
  A tile's own scratch: its six scratch buffers and its fourteen DMA semaphores, taken out of what the launch hands
  the tile as its own buffers and its own semaphores at zero.
-/
import proofs.«203359_g24824910971486_cont_8to1_1854_34_alg».proof.Proof.BScSup

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid5.Coords)

/-- The cell of one of the tile's DMA semaphores. -/
abbrev cellOf (d : Dev nD) (L : grid5.Coords) (sm : DmaSems sig S_) : GSem nD τ sig := ((V d (cV L) (jV L)), .dma sm.sem)

theorem cell_ne (thr : Thread nD τ) {a b : SemLoc sig} (h : a ≠ b) : ((thr, a) : GSem nD τ sig) ≠ (thr, b) := fun e => h (Prod.mk.inj e).2

/-- The tile's fourteen DMA semaphores are among its own cells: they, at zero, and the rest. -/
theorem ownSems0_V :
    (ownSems0 (V d (cV L) (jV L)) : sProp 𝕄)
      = iprop(semVal (cellOf d L cc5_scratch6) 0 ∗ semVal (cellOf d L cc5_scratch7) 0 ∗ semVal (cellOf d L cc5_scoped0) 0 ∗ semVal (cellOf d L cc5_scoped1) 0 ∗ semVal (cellOf d L cc5_scoped2) 0 ∗ semVal (cellOf d L cc5_scoped3) 0 ∗ semVal (cellOf d L cc5_scoped4) 0 ∗ semVal (cellOf d L cc5_scoped5) 0 ∗ semVal (cellOf d L cc5_scoped6) 0 ∗ semVal (cellOf d L cc5_scoped7) 0 ∗ semVal (cellOf d L cc5_scoped8) 0 ∗ semVal (cellOf d L cc5_scoped9) 0 ∗ semVal (cellOf d L cc5_scoped10) 0 ∗ semVal (cellOf d L cc5_scoped11) 0
          ∗ bigSep (((((((((((((((ownCells (V d (cV L) (jV L))).erase (cellOf d L cc5_scratch6)).erase (cellOf d L cc5_scratch7)).erase (cellOf d L cc5_scoped0)).erase (cellOf d L cc5_scoped1)).erase (cellOf d L cc5_scoped2)).erase (cellOf d L cc5_scoped3)).erase (cellOf d L cc5_scoped4)).erase (cellOf d L cc5_scoped5)).erase (cellOf d L cc5_scoped6)).erase (cellOf d L cc5_scoped7)).erase (cellOf d L cc5_scoped8)).erase (cellOf d L cc5_scoped9)).erase (cellOf d L cc5_scoped10)).erase (cellOf d L cc5_scoped11)) fun g => semVal g 0) := by
  unfold SparseCore.Cfg.ownSems0
  rw [SparseCore.bigSep_erase' ((mem_ownCells (g := cellOf d L cc5_scratch6)).mpr ⟨rfl, by show (SemLoc.dma cc5_scratch6.sem : SemLoc sig).isScoped .scVector = true; decide⟩),
    SparseCore.bigSep_erase' (Finset.mem_erase.mpr ⟨cell_ne _ (by decide : (SemLoc.dma cc5_scratch7.sem : SemLoc sig) ≠ SemLoc.dma cc5_scratch6.sem), (mem_ownCells (g := cellOf d L cc5_scratch7)).mpr ⟨rfl, by show (SemLoc.dma cc5_scratch7.sem : SemLoc sig).isScoped .scVector = true; decide⟩⟩),
    SparseCore.bigSep_erase' (Finset.mem_erase.mpr ⟨cell_ne _ (by decide : (SemLoc.dma cc5_scoped0.sem : SemLoc sig) ≠ SemLoc.dma cc5_scratch7.sem), Finset.mem_erase.mpr ⟨cell_ne _ (by decide : (SemLoc.dma cc5_scoped0.sem : SemLoc sig) ≠ SemLoc.dma cc5_scratch6.sem), (mem_ownCells (g := cellOf d L cc5_scoped0)).mpr ⟨rfl, by show (SemLoc.dma cc5_scoped0.sem : SemLoc sig).isScoped .scVector = true; decide⟩⟩⟩),
    SparseCore.bigSep_erase' (Finset.mem_erase.mpr ⟨cell_ne _ (by decide : (SemLoc.dma cc5_scoped1.sem : SemLoc sig) ≠ SemLoc.dma cc5_scoped0.sem), Finset.mem_erase.mpr ⟨cell_ne _ (by decide : (SemLoc.dma cc5_scoped1.sem : SemLoc sig) ≠ SemLoc.dma cc5_scratch7.sem), Finset.mem_erase.mpr ⟨cell_ne _ (by decide : (SemLoc.dma cc5_scoped1.sem : SemLoc sig) ≠ SemLoc.dma cc5_scratch6.sem), (mem_ownCells (g := cellOf d L cc5_scoped1)).mpr ⟨rfl, by show (SemLoc.dma cc5_scoped1.sem : SemLoc sig).isScoped .scVector = true; decide⟩⟩⟩⟩),
    SparseCore.bigSep_erase' (Finset.mem_erase.mpr ⟨cell_ne _ (by decide : (SemLoc.dma cc5_scoped2.sem : SemLoc sig) ≠ SemLoc.dma cc5_scoped1.sem), Finset.mem_erase.mpr ⟨cell_ne _ (by decide : (SemLoc.dma cc5_scoped2.sem : SemLoc sig) ≠ SemLoc.dma cc5_scoped0.sem), Finset.mem_erase.mpr ⟨cell_ne _ (by decide : (SemLoc.dma cc5_scoped2.sem : SemLoc sig) ≠ SemLoc.dma cc5_scratch7.sem), Finset.mem_erase.mpr ⟨cell_ne _ (by decide : (SemLoc.dma cc5_scoped2.sem : SemLoc sig) ≠ SemLoc.dma cc5_scratch6.sem), (mem_ownCells (g := cellOf d L cc5_scoped2)).mpr ⟨rfl, by show (SemLoc.dma cc5_scoped2.sem : SemLoc sig).isScoped .scVector = true; decide⟩⟩⟩⟩⟩),
    SparseCore.bigSep_erase' (Finset.mem_erase.mpr ⟨cell_ne _ (by decide : (SemLoc.dma cc5_scoped3.sem : SemLoc sig) ≠ SemLoc.dma cc5_scoped2.sem), Finset.mem_erase.mpr ⟨cell_ne _ (by decide : (SemLoc.dma cc5_scoped3.sem : SemLoc sig) ≠ SemLoc.dma cc5_scoped1.sem), Finset.mem_erase.mpr ⟨cell_ne _ (by decide : (SemLoc.dma cc5_scoped3.sem : SemLoc sig) ≠ SemLoc.dma cc5_scoped0.sem), Finset.mem_erase.mpr ⟨cell_ne _ (by decide : (SemLoc.dma cc5_scoped3.sem : SemLoc sig) ≠ SemLoc.dma cc5_scratch7.sem), Finset.mem_erase.mpr ⟨cell_ne _ (by decide : (SemLoc.dma cc5_scoped3.sem : SemLoc sig) ≠ SemLoc.dma cc5_scratch6.sem), (mem_ownCells (g := cellOf d L cc5_scoped3)).mpr ⟨rfl, by show (SemLoc.dma cc5_scoped3.sem : SemLoc sig).isScoped .scVector = true; decide⟩⟩⟩⟩⟩⟩),
    SparseCore.bigSep_erase' (Finset.mem_erase.mpr ⟨cell_ne _ (by decide : (SemLoc.dma cc5_scoped4.sem : SemLoc sig) ≠ SemLoc.dma cc5_scoped3.sem), Finset.mem_erase.mpr ⟨cell_ne _ (by decide : (SemLoc.dma cc5_scoped4.sem : SemLoc sig) ≠ SemLoc.dma cc5_scoped2.sem), Finset.mem_erase.mpr ⟨cell_ne _ (by decide : (SemLoc.dma cc5_scoped4.sem : SemLoc sig) ≠ SemLoc.dma cc5_scoped1.sem), Finset.mem_erase.mpr ⟨cell_ne _ (by decide : (SemLoc.dma cc5_scoped4.sem : SemLoc sig) ≠ SemLoc.dma cc5_scoped0.sem), Finset.mem_erase.mpr ⟨cell_ne _ (by decide : (SemLoc.dma cc5_scoped4.sem : SemLoc sig) ≠ SemLoc.dma cc5_scratch7.sem), Finset.mem_erase.mpr ⟨cell_ne _ (by decide : (SemLoc.dma cc5_scoped4.sem : SemLoc sig) ≠ SemLoc.dma cc5_scratch6.sem), (mem_ownCells (g := cellOf d L cc5_scoped4)).mpr ⟨rfl, by show (SemLoc.dma cc5_scoped4.sem : SemLoc sig).isScoped .scVector = true; decide⟩⟩⟩⟩⟩⟩⟩),
    SparseCore.bigSep_erase' (Finset.mem_erase.mpr ⟨cell_ne _ (by decide : (SemLoc.dma cc5_scoped5.sem : SemLoc sig) ≠ SemLoc.dma cc5_scoped4.sem), Finset.mem_erase.mpr ⟨cell_ne _ (by decide : (SemLoc.dma cc5_scoped5.sem : SemLoc sig) ≠ SemLoc.dma cc5_scoped3.sem), Finset.mem_erase.mpr ⟨cell_ne _ (by decide : (SemLoc.dma cc5_scoped5.sem : SemLoc sig) ≠ SemLoc.dma cc5_scoped2.sem), Finset.mem_erase.mpr ⟨cell_ne _ (by decide : (SemLoc.dma cc5_scoped5.sem : SemLoc sig) ≠ SemLoc.dma cc5_scoped1.sem), Finset.mem_erase.mpr ⟨cell_ne _ (by decide : (SemLoc.dma cc5_scoped5.sem : SemLoc sig) ≠ SemLoc.dma cc5_scoped0.sem), Finset.mem_erase.mpr ⟨cell_ne _ (by decide : (SemLoc.dma cc5_scoped5.sem : SemLoc sig) ≠ SemLoc.dma cc5_scratch7.sem), Finset.mem_erase.mpr ⟨cell_ne _ (by decide : (SemLoc.dma cc5_scoped5.sem : SemLoc sig) ≠ SemLoc.dma cc5_scratch6.sem), (mem_ownCells (g := cellOf d L cc5_scoped5)).mpr ⟨rfl, by show (SemLoc.dma cc5_scoped5.sem : SemLoc sig).isScoped .scVector = true; decide⟩⟩⟩⟩⟩⟩⟩⟩),
    SparseCore.bigSep_erase' (Finset.mem_erase.mpr ⟨cell_ne _ (by decide : (SemLoc.dma cc5_scoped6.sem : SemLoc sig) ≠ SemLoc.dma cc5_scoped5.sem), Finset.mem_erase.mpr ⟨cell_ne _ (by decide : (SemLoc.dma cc5_scoped6.sem : SemLoc sig) ≠ SemLoc.dma cc5_scoped4.sem), Finset.mem_erase.mpr ⟨cell_ne _ (by decide : (SemLoc.dma cc5_scoped6.sem : SemLoc sig) ≠ SemLoc.dma cc5_scoped3.sem), Finset.mem_erase.mpr ⟨cell_ne _ (by decide : (SemLoc.dma cc5_scoped6.sem : SemLoc sig) ≠ SemLoc.dma cc5_scoped2.sem), Finset.mem_erase.mpr ⟨cell_ne _ (by decide : (SemLoc.dma cc5_scoped6.sem : SemLoc sig) ≠ SemLoc.dma cc5_scoped1.sem), Finset.mem_erase.mpr ⟨cell_ne _ (by decide : (SemLoc.dma cc5_scoped6.sem : SemLoc sig) ≠ SemLoc.dma cc5_scoped0.sem), Finset.mem_erase.mpr ⟨cell_ne _ (by decide : (SemLoc.dma cc5_scoped6.sem : SemLoc sig) ≠ SemLoc.dma cc5_scratch7.sem), Finset.mem_erase.mpr ⟨cell_ne _ (by decide : (SemLoc.dma cc5_scoped6.sem : SemLoc sig) ≠ SemLoc.dma cc5_scratch6.sem), (mem_ownCells (g := cellOf d L cc5_scoped6)).mpr ⟨rfl, by show (SemLoc.dma cc5_scoped6.sem : SemLoc sig).isScoped .scVector = true; decide⟩⟩⟩⟩⟩⟩⟩⟩⟩),
    SparseCore.bigSep_erase' (Finset.mem_erase.mpr ⟨cell_ne _ (by decide : (SemLoc.dma cc5_scoped7.sem : SemLoc sig) ≠ SemLoc.dma cc5_scoped6.sem), Finset.mem_erase.mpr ⟨cell_ne _ (by decide : (SemLoc.dma cc5_scoped7.sem : SemLoc sig) ≠ SemLoc.dma cc5_scoped5.sem), Finset.mem_erase.mpr ⟨cell_ne _ (by decide : (SemLoc.dma cc5_scoped7.sem : SemLoc sig) ≠ SemLoc.dma cc5_scoped4.sem), Finset.mem_erase.mpr ⟨cell_ne _ (by decide : (SemLoc.dma cc5_scoped7.sem : SemLoc sig) ≠ SemLoc.dma cc5_scoped3.sem), Finset.mem_erase.mpr ⟨cell_ne _ (by decide : (SemLoc.dma cc5_scoped7.sem : SemLoc sig) ≠ SemLoc.dma cc5_scoped2.sem), Finset.mem_erase.mpr ⟨cell_ne _ (by decide : (SemLoc.dma cc5_scoped7.sem : SemLoc sig) ≠ SemLoc.dma cc5_scoped1.sem), Finset.mem_erase.mpr ⟨cell_ne _ (by decide : (SemLoc.dma cc5_scoped7.sem : SemLoc sig) ≠ SemLoc.dma cc5_scoped0.sem), Finset.mem_erase.mpr ⟨cell_ne _ (by decide : (SemLoc.dma cc5_scoped7.sem : SemLoc sig) ≠ SemLoc.dma cc5_scratch7.sem), Finset.mem_erase.mpr ⟨cell_ne _ (by decide : (SemLoc.dma cc5_scoped7.sem : SemLoc sig) ≠ SemLoc.dma cc5_scratch6.sem), (mem_ownCells (g := cellOf d L cc5_scoped7)).mpr ⟨rfl, by show (SemLoc.dma cc5_scoped7.sem : SemLoc sig).isScoped .scVector = true; decide⟩⟩⟩⟩⟩⟩⟩⟩⟩⟩),
    SparseCore.bigSep_erase' (Finset.mem_erase.mpr ⟨cell_ne _ (by decide : (SemLoc.dma cc5_scoped8.sem : SemLoc sig) ≠ SemLoc.dma cc5_scoped7.sem), Finset.mem_erase.mpr ⟨cell_ne _ (by decide : (SemLoc.dma cc5_scoped8.sem : SemLoc sig) ≠ SemLoc.dma cc5_scoped6.sem), Finset.mem_erase.mpr ⟨cell_ne _ (by decide : (SemLoc.dma cc5_scoped8.sem : SemLoc sig) ≠ SemLoc.dma cc5_scoped5.sem), Finset.mem_erase.mpr ⟨cell_ne _ (by decide : (SemLoc.dma cc5_scoped8.sem : SemLoc sig) ≠ SemLoc.dma cc5_scoped4.sem), Finset.mem_erase.mpr ⟨cell_ne _ (by decide : (SemLoc.dma cc5_scoped8.sem : SemLoc sig) ≠ SemLoc.dma cc5_scoped3.sem), Finset.mem_erase.mpr ⟨cell_ne _ (by decide : (SemLoc.dma cc5_scoped8.sem : SemLoc sig) ≠ SemLoc.dma cc5_scoped2.sem), Finset.mem_erase.mpr ⟨cell_ne _ (by decide : (SemLoc.dma cc5_scoped8.sem : SemLoc sig) ≠ SemLoc.dma cc5_scoped1.sem), Finset.mem_erase.mpr ⟨cell_ne _ (by decide : (SemLoc.dma cc5_scoped8.sem : SemLoc sig) ≠ SemLoc.dma cc5_scoped0.sem), Finset.mem_erase.mpr ⟨cell_ne _ (by decide : (SemLoc.dma cc5_scoped8.sem : SemLoc sig) ≠ SemLoc.dma cc5_scratch7.sem), Finset.mem_erase.mpr ⟨cell_ne _ (by decide : (SemLoc.dma cc5_scoped8.sem : SemLoc sig) ≠ SemLoc.dma cc5_scratch6.sem), (mem_ownCells (g := cellOf d L cc5_scoped8)).mpr ⟨rfl, by show (SemLoc.dma cc5_scoped8.sem : SemLoc sig).isScoped .scVector = true; decide⟩⟩⟩⟩⟩⟩⟩⟩⟩⟩⟩),
    SparseCore.bigSep_erase' (Finset.mem_erase.mpr ⟨cell_ne _ (by decide : (SemLoc.dma cc5_scoped9.sem : SemLoc sig) ≠ SemLoc.dma cc5_scoped8.sem), Finset.mem_erase.mpr ⟨cell_ne _ (by decide : (SemLoc.dma cc5_scoped9.sem : SemLoc sig) ≠ SemLoc.dma cc5_scoped7.sem), Finset.mem_erase.mpr ⟨cell_ne _ (by decide : (SemLoc.dma cc5_scoped9.sem : SemLoc sig) ≠ SemLoc.dma cc5_scoped6.sem), Finset.mem_erase.mpr ⟨cell_ne _ (by decide : (SemLoc.dma cc5_scoped9.sem : SemLoc sig) ≠ SemLoc.dma cc5_scoped5.sem), Finset.mem_erase.mpr ⟨cell_ne _ (by decide : (SemLoc.dma cc5_scoped9.sem : SemLoc sig) ≠ SemLoc.dma cc5_scoped4.sem), Finset.mem_erase.mpr ⟨cell_ne _ (by decide : (SemLoc.dma cc5_scoped9.sem : SemLoc sig) ≠ SemLoc.dma cc5_scoped3.sem), Finset.mem_erase.mpr ⟨cell_ne _ (by decide : (SemLoc.dma cc5_scoped9.sem : SemLoc sig) ≠ SemLoc.dma cc5_scoped2.sem), Finset.mem_erase.mpr ⟨cell_ne _ (by decide : (SemLoc.dma cc5_scoped9.sem : SemLoc sig) ≠ SemLoc.dma cc5_scoped1.sem), Finset.mem_erase.mpr ⟨cell_ne _ (by decide : (SemLoc.dma cc5_scoped9.sem : SemLoc sig) ≠ SemLoc.dma cc5_scoped0.sem), Finset.mem_erase.mpr ⟨cell_ne _ (by decide : (SemLoc.dma cc5_scoped9.sem : SemLoc sig) ≠ SemLoc.dma cc5_scratch7.sem), Finset.mem_erase.mpr ⟨cell_ne _ (by decide : (SemLoc.dma cc5_scoped9.sem : SemLoc sig) ≠ SemLoc.dma cc5_scratch6.sem), (mem_ownCells (g := cellOf d L cc5_scoped9)).mpr ⟨rfl, by show (SemLoc.dma cc5_scoped9.sem : SemLoc sig).isScoped .scVector = true; decide⟩⟩⟩⟩⟩⟩⟩⟩⟩⟩⟩⟩),
    SparseCore.bigSep_erase' (Finset.mem_erase.mpr ⟨cell_ne _ (by decide : (SemLoc.dma cc5_scoped10.sem : SemLoc sig) ≠ SemLoc.dma cc5_scoped9.sem), Finset.mem_erase.mpr ⟨cell_ne _ (by decide : (SemLoc.dma cc5_scoped10.sem : SemLoc sig) ≠ SemLoc.dma cc5_scoped8.sem), Finset.mem_erase.mpr ⟨cell_ne _ (by decide : (SemLoc.dma cc5_scoped10.sem : SemLoc sig) ≠ SemLoc.dma cc5_scoped7.sem), Finset.mem_erase.mpr ⟨cell_ne _ (by decide : (SemLoc.dma cc5_scoped10.sem : SemLoc sig) ≠ SemLoc.dma cc5_scoped6.sem), Finset.mem_erase.mpr ⟨cell_ne _ (by decide : (SemLoc.dma cc5_scoped10.sem : SemLoc sig) ≠ SemLoc.dma cc5_scoped5.sem), Finset.mem_erase.mpr ⟨cell_ne _ (by decide : (SemLoc.dma cc5_scoped10.sem : SemLoc sig) ≠ SemLoc.dma cc5_scoped4.sem), Finset.mem_erase.mpr ⟨cell_ne _ (by decide : (SemLoc.dma cc5_scoped10.sem : SemLoc sig) ≠ SemLoc.dma cc5_scoped3.sem), Finset.mem_erase.mpr ⟨cell_ne _ (by decide : (SemLoc.dma cc5_scoped10.sem : SemLoc sig) ≠ SemLoc.dma cc5_scoped2.sem), Finset.mem_erase.mpr ⟨cell_ne _ (by decide : (SemLoc.dma cc5_scoped10.sem : SemLoc sig) ≠ SemLoc.dma cc5_scoped1.sem), Finset.mem_erase.mpr ⟨cell_ne _ (by decide : (SemLoc.dma cc5_scoped10.sem : SemLoc sig) ≠ SemLoc.dma cc5_scoped0.sem), Finset.mem_erase.mpr ⟨cell_ne _ (by decide : (SemLoc.dma cc5_scoped10.sem : SemLoc sig) ≠ SemLoc.dma cc5_scratch7.sem), Finset.mem_erase.mpr ⟨cell_ne _ (by decide : (SemLoc.dma cc5_scoped10.sem : SemLoc sig) ≠ SemLoc.dma cc5_scratch6.sem), (mem_ownCells (g := cellOf d L cc5_scoped10)).mpr ⟨rfl, by show (SemLoc.dma cc5_scoped10.sem : SemLoc sig).isScoped .scVector = true; decide⟩⟩⟩⟩⟩⟩⟩⟩⟩⟩⟩⟩⟩),
    SparseCore.bigSep_erase' (Finset.mem_erase.mpr ⟨cell_ne _ (by decide : (SemLoc.dma cc5_scoped11.sem : SemLoc sig) ≠ SemLoc.dma cc5_scoped10.sem), Finset.mem_erase.mpr ⟨cell_ne _ (by decide : (SemLoc.dma cc5_scoped11.sem : SemLoc sig) ≠ SemLoc.dma cc5_scoped9.sem), Finset.mem_erase.mpr ⟨cell_ne _ (by decide : (SemLoc.dma cc5_scoped11.sem : SemLoc sig) ≠ SemLoc.dma cc5_scoped8.sem), Finset.mem_erase.mpr ⟨cell_ne _ (by decide : (SemLoc.dma cc5_scoped11.sem : SemLoc sig) ≠ SemLoc.dma cc5_scoped7.sem), Finset.mem_erase.mpr ⟨cell_ne _ (by decide : (SemLoc.dma cc5_scoped11.sem : SemLoc sig) ≠ SemLoc.dma cc5_scoped6.sem), Finset.mem_erase.mpr ⟨cell_ne _ (by decide : (SemLoc.dma cc5_scoped11.sem : SemLoc sig) ≠ SemLoc.dma cc5_scoped5.sem), Finset.mem_erase.mpr ⟨cell_ne _ (by decide : (SemLoc.dma cc5_scoped11.sem : SemLoc sig) ≠ SemLoc.dma cc5_scoped4.sem), Finset.mem_erase.mpr ⟨cell_ne _ (by decide : (SemLoc.dma cc5_scoped11.sem : SemLoc sig) ≠ SemLoc.dma cc5_scoped3.sem), Finset.mem_erase.mpr ⟨cell_ne _ (by decide : (SemLoc.dma cc5_scoped11.sem : SemLoc sig) ≠ SemLoc.dma cc5_scoped2.sem), Finset.mem_erase.mpr ⟨cell_ne _ (by decide : (SemLoc.dma cc5_scoped11.sem : SemLoc sig) ≠ SemLoc.dma cc5_scoped1.sem), Finset.mem_erase.mpr ⟨cell_ne _ (by decide : (SemLoc.dma cc5_scoped11.sem : SemLoc sig) ≠ SemLoc.dma cc5_scoped0.sem), Finset.mem_erase.mpr ⟨cell_ne _ (by decide : (SemLoc.dma cc5_scoped11.sem : SemLoc sig) ≠ SemLoc.dma cc5_scratch7.sem), Finset.mem_erase.mpr ⟨cell_ne _ (by decide : (SemLoc.dma cc5_scoped11.sem : SemLoc sig) ≠ SemLoc.dma cc5_scratch6.sem), (mem_ownCells (g := cellOf d L cc5_scoped11)).mpr ⟨rfl, by show (SemLoc.dma cc5_scoped11.sem : SemLoc sig).isScoped .scVector = true; decide⟩⟩⟩⟩⟩⟩⟩⟩⟩⟩⟩⟩⟩⟩)]

/-- The tile's six scratch buffers are among its own: they, at some contents, and the rest. -/
theorem ownBufs_V :
    (ownBufs (V d (cV L) (jV L)) : sProp 𝕄)
      = iprop((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f) ∗ (∃ f, (V d (cV L) (jV L)).loc cc5_scratch3 ↦{fullShare} f) ∗ (∃ f, (V d (cV L) (jV L)).loc cc5_scratch4 ↦{fullShare} f) ∗ (∃ f, (V d (cV L) (jV L)).loc cc5_scratch5 ↦{fullShare} f)
          ∗ bigSep (((((((ownRefs (τ := τ) (.scVector (cV L) (jV L))).erase ((Proc.scVector (cV L) (jV L)).devRef cc5_scratch0)).erase ((Proc.scVector (cV L) (jV L)).devRef cc5_scratch1)).erase ((Proc.scVector (cV L) (jV L)).devRef cc5_scratch2)).erase ((Proc.scVector (cV L) (jV L)).devRef cc5_scratch3)).erase ((Proc.scVector (cV L) (jV L)).devRef cc5_scratch4)).erase ((Proc.scVector (cV L) (jV L)).devRef cc5_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc5_scratch0)) rfl),
    SparseCore.bigSep_erase' (Finset.mem_erase.mpr ⟨fun e => absurd (Proc.devRef_injective _ e) (show (cc5_scratch1 : Ref sig .scVector) ≠ cc5_scratch0 by decide), SparseCore.Cfg.mem_ownRefs_of_owner (p := Proc.scVector (cV L) (jV L)) (b := ((Proc.scVector (cV L) (jV L)).devRef cc5_scratch1)) rfl⟩),
    SparseCore.bigSep_erase' (Finset.mem_erase.mpr ⟨fun e => absurd (Proc.devRef_injective _ e) (show (cc5_scratch2 : Ref sig .scVector) ≠ cc5_scratch1 by decide), Finset.mem_erase.mpr ⟨fun e => absurd (Proc.devRef_injective _ e) (show (cc5_scratch2 : Ref sig .scVector) ≠ cc5_scratch0 by decide), SparseCore.Cfg.mem_ownRefs_of_owner (p := Proc.scVector (cV L) (jV L)) (b := ((Proc.scVector (cV L) (jV L)).devRef cc5_scratch2)) rfl⟩⟩),
    SparseCore.bigSep_erase' (Finset.mem_erase.mpr ⟨fun e => absurd (Proc.devRef_injective _ e) (show (cc5_scratch3 : Ref sig .scVector) ≠ cc5_scratch2 by decide), Finset.mem_erase.mpr ⟨fun e => absurd (Proc.devRef_injective _ e) (show (cc5_scratch3 : Ref sig .scVector) ≠ cc5_scratch1 by decide), Finset.mem_erase.mpr ⟨fun e => absurd (Proc.devRef_injective _ e) (show (cc5_scratch3 : Ref sig .scVector) ≠ cc5_scratch0 by decide), SparseCore.Cfg.mem_ownRefs_of_owner (p := Proc.scVector (cV L) (jV L)) (b := ((Proc.scVector (cV L) (jV L)).devRef cc5_scratch3)) rfl⟩⟩⟩),
    SparseCore.bigSep_erase' (Finset.mem_erase.mpr ⟨fun e => absurd (Proc.devRef_injective _ e) (show (cc5_scratch4 : Ref sig .scVector) ≠ cc5_scratch3 by decide), Finset.mem_erase.mpr ⟨fun e => absurd (Proc.devRef_injective _ e) (show (cc5_scratch4 : Ref sig .scVector) ≠ cc5_scratch2 by decide), Finset.mem_erase.mpr ⟨fun e => absurd (Proc.devRef_injective _ e) (show (cc5_scratch4 : Ref sig .scVector) ≠ cc5_scratch1 by decide), Finset.mem_erase.mpr ⟨fun e => absurd (Proc.devRef_injective _ e) (show (cc5_scratch4 : Ref sig .scVector) ≠ cc5_scratch0 by decide), SparseCore.Cfg.mem_ownRefs_of_owner (p := Proc.scVector (cV L) (jV L)) (b := ((Proc.scVector (cV L) (jV L)).devRef cc5_scratch4)) rfl⟩⟩⟩⟩),
    SparseCore.bigSep_erase' (Finset.mem_erase.mpr ⟨fun e => absurd (Proc.devRef_injective _ e) (show (cc5_scratch5 : Ref sig .scVector) ≠ cc5_scratch4 by decide), Finset.mem_erase.mpr ⟨fun e => absurd (Proc.devRef_injective _ e) (show (cc5_scratch5 : Ref sig .scVector) ≠ cc5_scratch3 by decide), Finset.mem_erase.mpr ⟨fun e => absurd (Proc.devRef_injective _ e) (show (cc5_scratch5 : Ref sig .scVector) ≠ cc5_scratch2 by decide), Finset.mem_erase.mpr ⟨fun e => absurd (Proc.devRef_injective _ e) (show (cc5_scratch5 : Ref sig .scVector) ≠ cc5_scratch1 by decide), Finset.mem_erase.mpr ⟨fun e => absurd (Proc.devRef_injective _ e) (show (cc5_scratch5 : Ref sig .scVector) ≠ cc5_scratch0 by decide), SparseCore.Cfg.mem_ownRefs_of_owner (p := Proc.scVector (cV L) (jV L)) (b := ((Proc.scVector (cV L) (jV L)).devRef cc5_scratch5)) rfl⟩⟩⟩⟩⟩)]

end Cert.Proof.B.ScBody

end
-- ==== Proof.BScPrep.lean ====
/-
  One trip of a loop that fills an offset list of the lookup kernel: sixteen index words read, shifted and stored;
  the places filled so far hold row numbers of the tables.
-/
import proofs.«203359_g24824910971486_cont_8to1_1854_34_alg».proof.Proof.BScSup

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem prep_trip_t13 (d : Dev nD) (L : grid5.Coords)  (k5_t13 : Fin k5_t13_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t13.val ()
      ⊢ wp frame (wpE (defs₀ (F := F)) 𝒱₀ (V d (cV L) (jV L)) none) Set.univ
          (k5_t13_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t13 ())
          (prepInv0 (F := F) d L fI (k5_t13.val + 1)) := by
  unfold k5_t13_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t13.val (k5_off23 k5_t13) (k5_off23_eq k5_t13) _ _ (fun x => ?_) hfs
  exact shr3_lt _ (hI _)

theorem prep_trip_t19 (d : Dev nD) (L : grid5.Coords)  (k5_t19 : Fin k5_t19_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t19.val ()
      ⊢ wp frame (wpE (defs₀ (F := F)) 𝒱₀ (V d (cV L) (jV L)) none) Set.univ
          (k5_t19_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t19 ())
          (prepInv0 (F := F) d L fI (k5_t19.val + 1)) := by
  unfold k5_t19_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t19.val (k5_off33 k5_t19) (k5_off33_eq k5_t19) _ _ (fun x => ?_) hfs
  exact shr3_lt _ (hI _)

theorem prep_trip_t3 (d : Dev nD) (L : grid5.Coords) (v2 : BitVec 32) (v3 : IVec S16 32) (c0_i32_3 : BitVec 32) (c1_i32_4 : BitVec 32) (k5_t2 : Fin k5_t2_loop.trips) (k5_t3 : Fin k5_t3_loop.trips)
    (fI : Buf (Elt F) ((V d (cV L) (jV L)).loc cc5_scratch0)) (hI : ∀ j, IdxOK ((Memref.whole cc5_scratch0 : Memref sig .scVector .vmem S25600 .i32).view.read (Elt F) fI j)) :
    prepInv1 (F := F) d L fI k5_t3.val ()
      ⊢ wp frame (wpE (defs₀ (F := F)) 𝒱₀ (V d (cV L) (jV L)) none) Set.univ
          (k5_t3_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_3 c1_i32_4 k5_t2 k5_t3 ())
          (prepInv1 (F := F) d L fI (k5_t3.val + 1)) := by
  unfold k5_t3_body
  unfold prepInv1
  iintro ⟨HI', %fs, Hs', %hfs⟩
  sl_exec
  sl_step
  isplitl [HI']; · iexact HI'
  iexists _
  isplitl [Hs']; · iexact Hs'
  ipureintro
  refine sup_step (F := F) (Memref.whole cc5_scratch2 : Memref sig .scVector .vmem S320 .i32).view fs k5_t3.val (k5_off5 k5_t3) (k5_off5_eq k5_t3) _ _ (fun x => ?_) hfs
  exact shr3_lt _ (hI _)

theorem prep_trip_t5 (d : Dev nD) (L : grid5.Coords) (v2 : BitVec 32) (v3 : IVec S16 32) (k5_t2 : Fin k5_t2_loop.trips) (v17 : BitVec 32) (k5_h1 : k5_cond1 k5_t2 = 1#1) (k5_t5 : Fin k5_t5_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t5.val ()
      ⊢ wp frame (wpE (defs₀ (F := F)) 𝒱₀ (V d (cV L) (jV L)) none) Set.univ
          (k5_t5_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t2 v17 k5_h1 k5_t5 ())
          (prepInv0 (F := F) d L fI (k5_t5.val + 1)) := by
  unfold k5_t5_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t5.val (k5_off9 k5_t5) (k5_off9_eq k5_t5) _ _ (fun x => ?_) hfs
  exact shr3_lt _ (hI _)

theorem prep_trip_t9 (d : Dev nD) (L : grid5.Coords) (v2 : BitVec 32) (v3 : IVec S16 32) (c0_i32_12 : BitVec 32) (c1_i32_14 : BitVec 32) (k5_t8 : Fin k5_t8_loop.trips) (k5_t9 : Fin k5_t9_loop.trips)
    (fI : Buf (Elt F) ((V d (cV L) (jV L)).loc cc5_scratch0)) (hI : ∀ j, IdxOK ((Memref.whole cc5_scratch0 : Memref sig .scVector .vmem S25600 .i32).view.read (Elt F) fI j)) :
    prepInv1 (F := F) d L fI k5_t9.val ()
      ⊢ wp frame (wpE (defs₀ (F := F)) 𝒱₀ (V d (cV L) (jV L)) none) Set.univ
          (k5_t9_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_12 c1_i32_14 k5_t8 k5_t9 ())
          (prepInv1 (F := F) d L fI (k5_t9.val + 1)) := by
  unfold k5_t9_body
  unfold prepInv1
  iintro ⟨HI', %fs, Hs', %hfs⟩
  sl_exec
  sl_step
  isplitl [HI']; · iexact HI'
  iexists _
  isplitl [Hs']; · iexact Hs'
  ipureintro
  refine sup_step (F := F) (Memref.whole cc5_scratch2 : Memref sig .scVector .vmem S320 .i32).view fs k5_t9.val (k5_off15 k5_t9) (k5_off15_eq k5_t9) _ _ (fun x => ?_) hfs
  exact shr3_lt _ (hI _)

theorem prep_trip_t11 (d : Dev nD) (L : grid5.Coords) (v2 : BitVec 32) (v3 : IVec S16 32) (k5_t8 : Fin k5_t8_loop.trips) (v17 : BitVec 32) (k5_h2 : k5_cond2 k5_t8 = 1#1) (k5_t11 : Fin k5_t11_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t11.val ()
      ⊢ wp frame (wpE (defs₀ (F := F)) 𝒱₀ (V d (cV L) (jV L)) none) Set.univ
          (k5_t11_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t8 v17 k5_h2 k5_t11 ())
          (prepInv0 (F := F) d L fI (k5_t11.val + 1)) := by
  unfold k5_t11_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t11.val (k5_off19 k5_t11) (k5_off19_eq k5_t11) _ _ (fun x => ?_) hfs
  exact shr3_lt _ (hI _)

theorem prep_trip_t15 (d : Dev nD) (L : grid5.Coords) (v2 : BitVec 32) (v3 : IVec S16 32) (c0_i32_22 : BitVec 32) (c1_i32_24 : BitVec 32) (k5_t14 : Fin k5_t14_loop.trips) (k5_t15 : Fin k5_t15_loop.trips)
    (fI : Buf (Elt F) ((V d (cV L) (jV L)).loc cc5_scratch0)) (hI : ∀ j, IdxOK ((Memref.whole cc5_scratch0 : Memref sig .scVector .vmem S25600 .i32).view.read (Elt F) fI j)) :
    prepInv1 (F := F) d L fI k5_t15.val ()
      ⊢ wp frame (wpE (defs₀ (F := F)) 𝒱₀ (V d (cV L) (jV L)) none) Set.univ
          (k5_t15_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_22 c1_i32_24 k5_t14 k5_t15 ())
          (prepInv1 (F := F) d L fI (k5_t15.val + 1)) := by
  unfold k5_t15_body
  unfold prepInv1
  iintro ⟨HI', %fs, Hs', %hfs⟩
  sl_exec
  sl_step
  isplitl [HI']; · iexact HI'
  iexists _
  isplitl [Hs']; · iexact Hs'
  ipureintro
  refine sup_step (F := F) (Memref.whole cc5_scratch2 : Memref sig .scVector .vmem S320 .i32).view fs k5_t15.val (k5_off25 k5_t15) (k5_off25_eq k5_t15) _ _ (fun x => ?_) hfs
  exact shr3_lt _ (hI _)

theorem prep_trip_t17 (d : Dev nD) (L : grid5.Coords) (v2 : BitVec 32) (v3 : IVec S16 32) (k5_t14 : Fin k5_t14_loop.trips) (v17 : BitVec 32) (k5_h3 : k5_cond3 k5_t14 = 1#1) (k5_t17 : Fin k5_t17_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t17.val ()
      ⊢ wp frame (wpE (defs₀ (F := F)) 𝒱₀ (V d (cV L) (jV L)) none) Set.univ
          (k5_t17_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t14 v17 k5_h3 k5_t17 ())
          (prepInv0 (F := F) d L fI (k5_t17.val + 1)) := by
  unfold k5_t17_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t17.val (k5_off29 k5_t17) (k5_off29_eq k5_t17) _ _ (fun x => ?_) hfs
  exact shr3_lt _ (hI _)

theorem prep_trip_t21 (d : Dev nD) (L : grid5.Coords) (v2 : BitVec 32) (v3 : IVec S16 32) (c0_i32_32 : BitVec 32) (c1_i32_34 : BitVec 32) (k5_t20 : Fin k5_t20_loop.trips) (k5_t21 : Fin k5_t21_loop.trips)
    (fI : Buf (Elt F) ((V d (cV L) (jV L)).loc cc5_scratch0)) (hI : ∀ j, IdxOK ((Memref.whole cc5_scratch0 : Memref sig .scVector .vmem S25600 .i32).view.read (Elt F) fI j)) :
    prepInv1 (F := F) d L fI k5_t21.val ()
      ⊢ wp frame (wpE (defs₀ (F := F)) 𝒱₀ (V d (cV L) (jV L)) none) Set.univ
          (k5_t21_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_32 c1_i32_34 k5_t20 k5_t21 ())
          (prepInv1 (F := F) d L fI (k5_t21.val + 1)) := by
  unfold k5_t21_body
  unfold prepInv1
  iintro ⟨HI', %fs, Hs', %hfs⟩
  sl_exec
  sl_step
  isplitl [HI']; · iexact HI'
  iexists _
  isplitl [Hs']; · iexact Hs'
  ipureintro
  refine sup_step (F := F) (Memref.whole cc5_scratch2 : Memref sig .scVector .vmem S320 .i32).view fs k5_t21.val (k5_off35 k5_t21) (k5_off35_eq k5_t21) _ _ (fun x => ?_) hfs
  exact shr3_lt _ (hI _)

theorem prep_trip_t23 (d : Dev nD) (L : grid5.Coords) (v2 : BitVec 32) (v3 : IVec S16 32) (k5_t20 : Fin k5_t20_loop.trips) (v17 : BitVec 32) (k5_h4 : k5_cond4 k5_t20 = 1#1) (k5_t23 : Fin k5_t23_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t23.val ()
      ⊢ wp frame (wpE (defs₀ (F := F)) 𝒱₀ (V d (cV L) (jV L)) none) Set.univ
          (k5_t23_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t20 v17 k5_h4 k5_t23 ())
          (prepInv0 (F := F) d L fI (k5_t23.val + 1)) := by
  unfold k5_t23_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t23.val (k5_off39 k5_t23) (k5_off39_eq k5_t23) _ _ (fun x => ?_) hfs
  exact shr3_lt _ (hI _)

theorem prep_trip_t1 (d : Dev nD) (L : grid5.Coords)  (k5_t1 : Fin k5_t1_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t1.val ()
      ⊢ wp frame (wpE (defs₀ (F := F)) 𝒱₀ (V d (cV L) (jV L)) none) Set.univ
          (k5_t1_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t1 ())
          (prepInv0 (F := F) d L fI (k5_t1.val + 1)) := by
  unfold k5_t1_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t1.val (k5_off3 k5_t1) (k5_off3_eq k5_t1) _ _ (fun x => ?_) hfs
  exact shr3_lt _ (hI _)

theorem prep_trip_t7 (d : Dev nD) (L : grid5.Coords)  (k5_t7 : Fin k5_t7_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t7.val ()
      ⊢ wp frame (wpE (defs₀ (F := F)) 𝒱₀ (V d (cV L) (jV L)) none) Set.univ
          (k5_t7_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t7 ())
          (prepInv0 (F := F) d L fI (k5_t7.val + 1)) := by
  unfold k5_t7_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t7.val (k5_off13 k5_t7) (k5_off13_eq k5_t7) _ _ (fun x => ?_) hfs
  exact shr3_lt _ (hI _)

end Cert.Proof.B.ScBody

end
-- ==== Proof.BScChunk.lean ====
/-
  The output lines of one chunk lie among the tile's own lines, and the two chunks of one trip of the main loop are
  disjoint.
-/
import proofs.«203359_g24824910971486_cont_8to1_1854_34_alg».proof.Proof.BScSup

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A block of 40 lines at line `c` of the tile's lines, `c + 40 ≤ 3200`, lies among the tile's lines. -/
theorem chunkRect_sub (L : grid5.Coords) (off : Fin 2 → Nat) (c : Nat) (hc : c + 40 ≤ 3200)
    (hoff : off = ![6400 * (L 1).val + 3200 * (L 0).val + c, 0]) (inb : ∀ a, off a + S40x128.size a ≤ S102400x128.size a) :
    (Rect.unit (s := S102400x128) off S40x128.size inb).set ⊆ oSet L := by
  intro i hi
  rw [Rect.mem_set_unit] at hi ⊢
  subst hoff
  intro a
  have h := hi a
  match a with
  | 0 =>
    have h' : 6400 * (L 1).val + 3200 * (L 0).val + c ≤ (i 0).val ∧ (i 0).val < 6400 * (L 1).val + 3200 * (L 0).val + c + 40 := h
    show 6400 * (L 1).val + 3200 * (L 0).val ≤ (i 0).val ∧ (i 0).val < 6400 * (L 1).val + 3200 * (L 0).val + 3200
    omega
  | 1 =>
    have h' : 0 ≤ (i 1).val ∧ (i 1).val < 0 + 128 := h
    show 0 ≤ (i 1).val ∧ (i 1).val < 0 + 128
    exact h'

/-- Two blocks of 40 lines at lines `c` and `c + 40` are disjoint. -/
theorem chunkRect_disj (L : grid5.Coords) (off off' : Fin 2 → Nat) (c : Nat)
    (hoff : off = ![6400 * (L 1).val + 3200 * (L 0).val + c, 0]) (hoff' : off' = ![6400 * (L 1).val + 3200 * (L 0).val + c + 40, 0])
    (inb : ∀ a, off a + S40x128.size a ≤ S102400x128.size a) (inb' : ∀ a, off' a + S40x128.size a ≤ S102400x128.size a) :
    Disjoint (Rect.unit (s := S102400x128) off S40x128.size inb).set (Rect.unit (s := S102400x128) off' S40x128.size inb').set := by
  subst hoff hoff'
  refine Rect.unit_disjoint 0 (.inl ?_)
  show 6400 * (L 1).val + 3200 * (L 0).val + c + 40 ≤ 6400 * (L 1).val + 3200 * (L 0).val + c + 40
  exact le_refl _

end Cert.Proof.B.ScBody

end
-- ==== Proof.BScDrainA.lean ====
/-
  One trip of a drain loop of the lookup kernel (the chunks gathered into the first row scratch): sixteen indexed loads from the row scratch and sixteen
  indexed stores into the output scratch, each index vector in range by the word arithmetic of the trip.
-/
import proofs.«203359_g24824910971486_cont_8to1_1854_34_alg».proof.Proof.BScSup

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem drain_trip_t4 (d : Dev nD) (L : grid5.Coords) (v2 c0 c1 v17 : BitVec 32) (k5_t2 : Fin k5_t2_loop.trips) (k5_t4 : Fin k5_t4_loop.trips)
    (fI : Buf (Elt F) ((V d (cV L) (jV L)).loc cc5_scratch0)) :
    drainInv0 (F := F) d L fI k5_t4.val ()
      ⊢ wp frame (wpE (defs₀ (F := F)) 𝒱₀ (V d (cV L) (jV L)) none) Set.univ
          (k5_t4_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t2 v17 k5_t4 ())
          (drainInv0 (F := F) d L fI (k5_t4.val + 1)) := by
  unfold k5_t4_body
  simp only [k5_part1_eq_skeleton, k5_part2_eq_skeleton, k5_part3_eq_skeleton, k5_part4_eq_skeleton]
  unfold k5_part1_skel k5_part2_skel k5_part3_skel k5_part4_skel
  simp only [SparseCore.vectorLoadIdx_bind (c := (V d (cV L) (jV L))), SparseCore.vectorStoreIdx_bind (c := (V d (cV L) (jV L)))]
  have hk : k5_t4.val < 20 := Nat.lt_of_lt_of_le k5_t4.isLt k5_t4_abs.2.1
  unfold drainInv0
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t10 (d : Dev nD) (L : grid5.Coords) (v2 c0 c1 v17 : BitVec 32) (k5_t8 : Fin k5_t8_loop.trips) (k5_t10 : Fin k5_t10_loop.trips)
    (fI : Buf (Elt F) ((V d (cV L) (jV L)).loc cc5_scratch0)) :
    drainInv0 (F := F) d L fI k5_t10.val ()
      ⊢ wp frame (wpE (defs₀ (F := F)) 𝒱₀ (V d (cV L) (jV L)) none) Set.univ
          (k5_t10_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t8 v17 k5_t10 ())
          (drainInv0 (F := F) d L fI (k5_t10.val + 1)) := by
  unfold k5_t10_body
  simp only [k5_part11_eq_skeleton, k5_part12_eq_skeleton, k5_part13_eq_skeleton, k5_part14_eq_skeleton]
  unfold k5_part11_skel k5_part12_skel k5_part13_skel k5_part14_skel
  simp only [SparseCore.vectorLoadIdx_bind (c := (V d (cV L) (jV L))), SparseCore.vectorStoreIdx_bind (c := (V d (cV L) (jV L)))]
  have hk : k5_t10.val < 20 := Nat.lt_of_lt_of_le k5_t10.isLt k5_t10_abs.2.1
  unfold drainInv0
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t16 (d : Dev nD) (L : grid5.Coords) (v2 c0 c1 v17 : BitVec 32) (k5_t14 : Fin k5_t14_loop.trips) (k5_t16 : Fin k5_t16_loop.trips)
    (fI : Buf (Elt F) ((V d (cV L) (jV L)).loc cc5_scratch0)) :
    drainInv0 (F := F) d L fI k5_t16.val ()
      ⊢ wp frame (wpE (defs₀ (F := F)) 𝒱₀ (V d (cV L) (jV L)) none) Set.univ
          (k5_t16_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t14 v17 k5_t16 ())
          (drainInv0 (F := F) d L fI (k5_t16.val + 1)) := by
  unfold k5_t16_body
  simp only [k5_part21_eq_skeleton, k5_part22_eq_skeleton, k5_part23_eq_skeleton, k5_part24_eq_skeleton]
  unfold k5_part21_skel k5_part22_skel k5_part23_skel k5_part24_skel
  simp only [SparseCore.vectorLoadIdx_bind (c := (V d (cV L) (jV L))), SparseCore.vectorStoreIdx_bind (c := (V d (cV L) (jV L)))]
  have hk : k5_t16.val < 20 := Nat.lt_of_lt_of_le k5_t16.isLt k5_t16_abs.2.1
  unfold drainInv0
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t22 (d : Dev nD) (L : grid5.Coords) (v2 c0 c1 v17 : BitVec 32) (k5_t20 : Fin k5_t20_loop.trips) (k5_t22 : Fin k5_t22_loop.trips)
    (fI : Buf (Elt F) ((V d (cV L) (jV L)).loc cc5_scratch0)) :
    drainInv0 (F := F) d L fI k5_t22.val ()
      ⊢ wp frame (wpE (defs₀ (F := F)) 𝒱₀ (V d (cV L) (jV L)) none) Set.univ
          (k5_t22_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t20 v17 k5_t22 ())
          (drainInv0 (F := F) d L fI (k5_t22.val + 1)) := by
  unfold k5_t22_body
  simp only [k5_part31_eq_skeleton, k5_part32_eq_skeleton, k5_part33_eq_skeleton, k5_part34_eq_skeleton]
  unfold k5_part31_skel k5_part32_skel k5_part33_skel k5_part34_skel
  simp only [SparseCore.vectorLoadIdx_bind (c := (V d (cV L) (jV L))), SparseCore.vectorStoreIdx_bind (c := (V d (cV L) (jV L)))]
  have hk : k5_t22.val < 20 := Nat.lt_of_lt_of_le k5_t22.isLt k5_t22_abs.2.1
  unfold drainInv0
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

end Cert.Proof.B.ScBody

end
-- ==== Proof.BScDrainB.lean ====
/-
  One trip of a drain loop of the lookup kernel (the chunks gathered into the second row scratch): sixteen indexed loads from the row scratch and sixteen
  indexed stores into the output scratch, each index vector in range by the word arithmetic of the trip.
-/
import proofs.«203359_g24824910971486_cont_8to1_1854_34_alg».proof.Proof.BScSup

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem drain_trip_t6 (d : Dev nD) (L : grid5.Coords) (v2 v17 v48 : BitVec 32) (k5_t2 : Fin k5_t2_loop.trips) (k5_t6 : Fin k5_t6_loop.trips)
    (fI : Buf (Elt F) ((V d (cV L) (jV L)).loc cc5_scratch0)) :
    drainInv1 (F := F) d L fI k5_t6.val ()
      ⊢ wp frame (wpE (defs₀ (F := F)) 𝒱₀ (V d (cV L) (jV L)) none) Set.univ
          (k5_t6_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t2 v17 v48 k5_t6 ())
          (drainInv1 (F := F) d L fI (k5_t6.val + 1)) := by
  unfold k5_t6_body
  simp only [k5_part5_eq_skeleton, k5_part6_eq_skeleton, k5_part7_eq_skeleton, k5_part8_eq_skeleton]
  unfold k5_part5_skel k5_part6_skel k5_part7_skel k5_part8_skel
  simp only [SparseCore.vectorLoadIdx_bind (c := (V d (cV L) (jV L))), SparseCore.vectorStoreIdx_bind (c := (V d (cV L) (jV L)))]
  have hk : k5_t6.val < 20 := Nat.lt_of_lt_of_le k5_t6.isLt k5_t6_abs.2.1
  unfold drainInv1
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t12 (d : Dev nD) (L : grid5.Coords) (v2 v17 v48 : BitVec 32) (k5_t8 : Fin k5_t8_loop.trips) (k5_t12 : Fin k5_t12_loop.trips)
    (fI : Buf (Elt F) ((V d (cV L) (jV L)).loc cc5_scratch0)) :
    drainInv1 (F := F) d L fI k5_t12.val ()
      ⊢ wp frame (wpE (defs₀ (F := F)) 𝒱₀ (V d (cV L) (jV L)) none) Set.univ
          (k5_t12_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t8 v17 v48 k5_t12 ())
          (drainInv1 (F := F) d L fI (k5_t12.val + 1)) := by
  unfold k5_t12_body
  simp only [k5_part15_eq_skeleton, k5_part16_eq_skeleton, k5_part17_eq_skeleton, k5_part18_eq_skeleton]
  unfold k5_part15_skel k5_part16_skel k5_part17_skel k5_part18_skel
  simp only [SparseCore.vectorLoadIdx_bind (c := (V d (cV L) (jV L))), SparseCore.vectorStoreIdx_bind (c := (V d (cV L) (jV L)))]
  have hk : k5_t12.val < 20 := Nat.lt_of_lt_of_le k5_t12.isLt k5_t12_abs.2.1
  unfold drainInv1
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t18 (d : Dev nD) (L : grid5.Coords) (v2 v17 v48 : BitVec 32) (k5_t14 : Fin k5_t14_loop.trips) (k5_t18 : Fin k5_t18_loop.trips)
    (fI : Buf (Elt F) ((V d (cV L) (jV L)).loc cc5_scratch0)) :
    drainInv1 (F := F) d L fI k5_t18.val ()
      ⊢ wp frame (wpE (defs₀ (F := F)) 𝒱₀ (V d (cV L) (jV L)) none) Set.univ
          (k5_t18_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t14 v17 v48 k5_t18 ())
          (drainInv1 (F := F) d L fI (k5_t18.val + 1)) := by
  unfold k5_t18_body
  simp only [k5_part25_eq_skeleton, k5_part26_eq_skeleton, k5_part27_eq_skeleton, k5_part28_eq_skeleton]
  unfold k5_part25_skel k5_part26_skel k5_part27_skel k5_part28_skel
  simp only [SparseCore.vectorLoadIdx_bind (c := (V d (cV L) (jV L))), SparseCore.vectorStoreIdx_bind (c := (V d (cV L) (jV L)))]
  have hk : k5_t18.val < 20 := Nat.lt_of_lt_of_le k5_t18.isLt k5_t18_abs.2.1
  unfold drainInv1
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t24 (d : Dev nD) (L : grid5.Coords) (v2 v17 v48 : BitVec 32) (k5_t20 : Fin k5_t20_loop.trips) (k5_t24 : Fin k5_t24_loop.trips)
    (fI : Buf (Elt F) ((V d (cV L) (jV L)).loc cc5_scratch0)) :
    drainInv1 (F := F) d L fI k5_t24.val ()
      ⊢ wp frame (wpE (defs₀ (F := F)) 𝒱₀ (V d (cV L) (jV L)) none) Set.univ
          (k5_t24_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t20 v17 v48 k5_t24 ())
          (drainInv1 (F := F) d L fI (k5_t24.val + 1)) := by
  unfold k5_t24_body
  simp only [k5_part35_eq_skeleton, k5_part36_eq_skeleton, k5_part37_eq_skeleton, k5_part38_eq_skeleton]
  unfold k5_part35_skel k5_part36_skel k5_part37_skel k5_part38_skel
  simp only [SparseCore.vectorLoadIdx_bind (c := (V d (cV L) (jV L))), SparseCore.vectorStoreIdx_bind (c := (V d (cV L) (jV L)))]
  have hk : k5_t24.val < 20 := Nat.lt_of_lt_of_le k5_t24.isLt k5_t24_abs.2.1
  unfold drainInv1
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

end Cert.Proof.B.ScBody

end
-- ==== Proof.BScMain0.lean ====
/-
  One trip of the main loop of table 0 of the lookup kernel: the next odd chunk's offsets prepared and its gather
  issued on the second gather semaphore; the wait for the even chunk's gather, its drain and its lines copied out; the
  next even chunk's offsets and gather, while one remains; the wait for the odd chunk's gather, its drain and its lines.
-/
import proofs.«203359_g24824910971486_cont_8to1_1854_34_alg».proof.Proof.BScOwn
import proofs.«203359_g24824910971486_cont_8to1_1854_34_alg».proof.Proof.BScPrep
import proofs.«203359_g24824910971486_cont_8to1_1854_34_alg».proof.Proof.BScChunk
import proofs.«203359_g24824910971486_cont_8to1_1854_34_alg».proof.Proof.BScDrainA
import proofs.«203359_g24824910971486_cont_8to1_1854_34_alg».proof.Proof.BScDrainB

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The scaled table as the gathers address it. -/
abbrev tblSlice0 : Memref sig .scVector .hbm S12500x128 .f32 :=
  (Memref.whole main_v7_scv).slice (Rect.unit (s := S12500x128) ![0, 0] ![12500, 128] inb_S12500x128_S12500x128_0_0) (fun _ => rfl)
/-- The output lines of the even and of the odd chunk of trip `k`. -/
abbrev chunkE0 (L : grid5.Coords) (k : Fin k5_t2_loop.trips) : Memref sig .scVector .hbm S40x128 .f32 :=
  (Memref.whole main_v15_0_scv).slice (Rect.unit (s := S102400x128) (k5_off7 L k) ![40, 128] (k5_off7_inb L k)) (fun _ => rfl)
abbrev chunkO0 (L : grid5.Coords) (k : Fin k5_t2_loop.trips) : Memref sig .scVector .hbm S40x128 .f32 :=
  (Memref.whole main_v15_0_scv).slice (Rect.unit (s := S102400x128) (k5_off11 L k) ![40, 128] (k5_off11_inb L k)) (fun _ => rfl)

theorem cond0_iff : ∀ t : Fin k5_t2_loop.trips, k5_cond1 t = 1#1 ↔ t.val + 1 < 40 := by decide

/-- What is pending on the first gather semaphore at the start of trip `k` of the main loop: before the last trip's
    end the gather of the next even chunk, in flight, holding the first row scratch, the first offset list and half of
    the table's share; after it nothing, those three and the semaphore in hand. -/
def pend0 (d : Dev nD) (L : grid5.Coords) (qT : PosShare TreeShare) (T0 : Buf (Elt F) (t0Loc d)) (k : Nat) : sProp 𝕄 :=
  if k < 40 then
    iprop((∃ (fd : Buf (Elt F) ((V d (cV L) (jV L)).loc cc5_scratch3)) (fo : Buf (Elt F) ((V d (cV L) (jV L)).loc cc5_scratch1)),
        Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v7_scv).view.loc (V d (cV L) (jV L)) ↦[(tblSlice0).view.set]{qT.left} T0)))
      ∗ ((Memref.whole main_v7_scv).view.loc (V d (cV L) (jV L)) ↦[Finset.univ \ (tblSlice0).view.set]{qT.left} T0))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v7_scv).view.loc (V d (cV L) (jV L)) ↦{qT.left} T0) ∗ semVal (cellOf d L cc5_scratch6) 0)

/-- The invariant of the main loop of table 0: the index scratch as it is; half of the table's share, the second
    offset list, the second row scratch and the output scratch in hand, their semaphores at zero; the tile's lines of
    the output at some contents; what is pending on the first gather semaphore; the waits so far at the kernels' index. -/
def mainInv0 (d : Dev nD) (L : grid5.Coords) (qT : PosShare TreeShare) (T0 : Buf (Elt F) (t0Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v7_scv).view.loc (V d (cV L) (jV L)) ↦{qT.right} T0)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped1) 0 ∗ semVal (cellOf d L cc5_scoped2) 0
    ∗ (∃ f, o0Loc d ↦[oSet L]{fullShare} f)
    ∗ pend0 (F := F) d L qT T0 k
    ∗ ∃ W', ⌜∀ p ∈ W', p ∈ W ∨ p.2 = none⌝ ∗ owes (V d (cV L) (jV L)) O W')

set_option maxHeartbeats 8000000 in
theorem main_trip_t2 (d : Dev nD) (L : grid5.Coords) (qT : PosShare TreeShare) (T0 : Buf (Elt F) (t0Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (O : CellTallies nD τ sig (HIx 1)) (W : Waits sig (HIx 1)) (k5_t2 : Fin k5_t2_loop.trips) :
    mainInv0 (F := F) d L qT T0 fI O W k5_t2.val ()
      ⊢ wp frame (wpE (defs₀ (F := F)) 𝒱₀ (V d (cV L) (jV L)) none) Set.univ
          (k5_t2_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t2 ())
          (mainInv0 (F := F) d L qT T0 fI O W (k5_t2.val + 1)) := by
  have hk : k5_t2.val < 40 := Nat.lt_of_lt_of_le k5_t2.isLt k5_t2_abs.2.1
  unfold k5_t2_body
  simp only [k5_part9_eq_skeleton, k5_part10_eq_skeleton]
  unfold k5_part9_skel k5_part10_skel
  simp only [Prog.bind_assoc]
  unfold mainInv0 pend0
  rw [if_pos hk]
  iintro ⟨#Hmw, Htb, HI, ⟨%fs1, Hs1⟩, ⟨%fr1, Hr1⟩, Hsem21, ⟨%fout, Hout⟩, HscE, HscO, ⟨%fo, Ho⟩, ⟨⟨%fd, %fo0, Hfl⟩, Htrem⟩, %W', %hW', HO⟩
  have hsubE : (chunkE0 L k5_t2).view.set ⊆ oSet L := by
    rw [show (chunkE0 L k5_t2).view.set = (Rect.unit (s := S102400x128) (k5_off7 L k5_t2) ![40, 128] (k5_off7_inb L k5_t2)).set from View.set_slice_whole _ _]
    exact chunkRect_sub L _ (80 * k5_t2.val) (by omega) (k5_off7_eq L k5_t2) _
  have hsubO : (chunkO0 L k5_t2).view.set ⊆ oSet L \ (chunkE0 L k5_t2).view.set := by
    rw [show (chunkO0 L k5_t2).view.set = (Rect.unit (s := S102400x128) (k5_off11 L k5_t2) ![40, 128] (k5_off11_inb L k5_t2)).set from View.set_slice_whole _ _,
      show (chunkE0 L k5_t2).view.set = (Rect.unit (s := S102400x128) (k5_off7 L k5_t2) ![40, 128] (k5_off7_inb L k5_t2)).set from View.set_slice_whole _ _]
    exact Finset.subset_sdiff.mpr ⟨chunkRect_sub L _ (80 * k5_t2.val + 40) (by omega) (k5_off11_eq L k5_t2) _,
      (chunkRect_disj L _ _ (80 * k5_t2.val) (k5_off7_eq L k5_t2) (k5_off11_eq L k5_t2) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o0Loc d ↦[(chunkE0 L k5_t2).view.set]{fullShare} fo : sProp 𝕄)) ⊢ ((chunkE0 L k5_t2).view.loc (V d (cV L) (jV L)) ↦[(chunkE0 L k5_t2).view.set]{fullShare} fo) from Entails.of_eq rfl) $$ HcE
  ihave HcO' := (show ((o0Loc d ↦[(chunkO0 L k5_t2).view.set]{fullShare} fo : sProp 𝕄)) ⊢ ((chunkO0 L k5_t2).view.loc (V d (cV L) (jV L)) ↦[(chunkO0 L k5_t2).view.set]{fullShare} fo) from Entails.of_eq rfl) $$ HcO
  sl_for (prepInv1 (F := F) d L fI) $$ [HI Hs1]
  case region =>
    intro k u
    exact prep_trip_t3 (F := F) d L _ _ _ _ k5_t2 k fI hI
  · unfold prepInv1
    isplitl [HI]; · iexact HI
    iexists fs1
    isplitl [Hs1]; · iexact Hs1
    ipureintro; intro y hy; omega
  iintro %_ HIv
  unfold prepInv1
  icases HIv with ⟨HI, %fs1', Hs1, %hfs1⟩
  have htr3 : Scf.trips k5_t3_loop.lb k5_t3_loop.ub k5_t3_loop.st = 20 := by decide
  have hin3 : ∀ x, ((Memref.whole cc5_scratch2 : Memref sig .scVector .vmem S320 .i32).view.read (Elt F) fs1' x).toNat < S12500x128.size gathers_S12500x128_S320x128.axis :=
    fun x => hfs1 x (by rw [htr3]; have : (x 0).val < 320 := (x 0).isLt; omega)
  sl_exec
  sl_for (drainInv0 (F := F) d L fI) $$ [HI Hfl_dst Hout]
  case region =>
    intro k u
    exact drain_trip_t4 (F := F) d L _ _ _ _ k5_t2 k fI
  · unfold drainInv0
    isplitl [HI]; · iexact HI
    isplitl [Hfl_dst]; · iexists _; iexact Hfl_dst
    iexists _; iexact Hout
  iintro %_ HIv
  unfold drainInv0
  icases HIv with ⟨HI, ⟨%fr_4, Hfl_dst⟩, %fout_4, Hout⟩
  sl_exec
  by_cases hc : k5_cond1 k5_t2 = 1#1
  · sl_exec
    sl_rw [Prog.bind_assoc]
    sl_for (prepInv0 (F := F) d L fI) $$ [HI Hfl_dst_and]
    case region =>
      intro k u
      exact prep_trip_t5 (F := F) d L _ _ k5_t2 _ hc k fI hI
    · unfold prepInv0
      isplitl [HI]; · iexact HI
      iexists fo0
      isplitl [Hfl_dst_and]; · iexact Hfl_dst_and
      ipureintro; intro y hy; omega
    iintro %_ HIv
    unfold prepInv0
    icases HIv with ⟨HI, %fo0', Hfl_dst_and, %hfo0⟩
    have htr5 : Scf.trips k5_t5_loop.lb k5_t5_loop.ub k5_t5_loop.st = 20 := by decide
    have hin5 : ∀ x, ((Memref.whole cc5_scratch1 : Memref sig .scVector .vmem S320 .i32).view.read (Elt F) fo0' x).toNat < S12500x128.size gathers_S12500x128_S320x128.axis :=
      fun x => hfo0 x (by rw [htr5]; have : (x 0).val < 320 := (x 0).isLt; omega)
    sl_exec
    try sl_rw [Prog.bind_assoc]
    sl_for (drainInv1 (F := F) d L fI) $$ [HI Hr1 Hout]
    case region =>
      intro k u
      exact drain_trip_t6 (F := F) d L _ _ _ k5_t2 k fI
    · unfold drainInv1
      isplitl [HI]; · iexact HI
      isplitl [Hr1]; · iexists _; iexact Hr1
      iexists _; iexact Hout
    iintro %_ HIv
    unfold drainInv1
    icases HIv with ⟨HI, ⟨%fr_6, Hr1⟩, %fout_6, Hout⟩
    sl_exec
    sl_step
    irw [if_pos (by have := (cond0_iff k5_t2).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Htrem Hfl]
    · isplitl [Hfl]
      · iexists _, _; iexact Hfl
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInv1 (F := F) d L fI) $$ [HI Hr1 Hout]
    case region =>
      intro k u
      exact drain_trip_t6 (F := F) d L _ _ _ k5_t2 k fI
    · unfold drainInv1
      isplitl [HI]; · iexact HI
      isplitl [Hr1]; · iexists _; iexact Hr1
      iexists _; iexact Hout
    iintro %_ HIv
    unfold drainInv1
    icases HIv with ⟨HI, ⟨%fr_6, Hr1⟩, %fout_6, Hout⟩
    sl_exec
    sl_step
    irw [if_neg (by intro h; exact hc ((cond0_iff k5_t2).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.B.ScBody

end
-- ==== Proof.BScMain1.lean ====
/-
  One trip of the main loop of table 1 of the lookup kernel: the next odd chunk's offsets prepared and its gather
  issued on the second gather semaphore; the wait for the even chunk's gather, its drain and its lines copied out; the
  next even chunk's offsets and gather, while one remains; the wait for the odd chunk's gather, its drain and its lines.
-/
import proofs.«203359_g24824910971486_cont_8to1_1854_34_alg».proof.Proof.BScOwn
import proofs.«203359_g24824910971486_cont_8to1_1854_34_alg».proof.Proof.BScPrep
import proofs.«203359_g24824910971486_cont_8to1_1854_34_alg».proof.Proof.BScChunk
import proofs.«203359_g24824910971486_cont_8to1_1854_34_alg».proof.Proof.BScDrainA
import proofs.«203359_g24824910971486_cont_8to1_1854_34_alg».proof.Proof.BScDrainB

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The scaled table as the gathers address it. -/
abbrev tblSlice1 : Memref sig .scVector .hbm S12500x128 .f32 :=
  (Memref.whole main_v8_scv).slice (Rect.unit (s := S12500x128) ![0, 0] ![12500, 128] inb_S12500x128_S12500x128_0_0) (fun _ => rfl)
/-- The output lines of the even and of the odd chunk of trip `k`. -/
abbrev chunkE1 (L : grid5.Coords) (k : Fin k5_t8_loop.trips) : Memref sig .scVector .hbm S40x128 .f32 :=
  (Memref.whole main_v15_1_scv).slice (Rect.unit (s := S102400x128) (k5_off17 L k) ![40, 128] (k5_off17_inb L k)) (fun _ => rfl)
abbrev chunkO1 (L : grid5.Coords) (k : Fin k5_t8_loop.trips) : Memref sig .scVector .hbm S40x128 .f32 :=
  (Memref.whole main_v15_1_scv).slice (Rect.unit (s := S102400x128) (k5_off21 L k) ![40, 128] (k5_off21_inb L k)) (fun _ => rfl)

theorem cond1_iff : ∀ t : Fin k5_t8_loop.trips, k5_cond2 t = 1#1 ↔ t.val + 1 < 40 := by decide

/-- What is pending on the first gather semaphore at the start of trip `k` of the main loop: before the last trip's
    end the gather of the next even chunk, in flight, holding the first row scratch, the first offset list and half of
    the table's share; after it nothing, those three and the semaphore in hand. -/
def pend1 (d : Dev nD) (L : grid5.Coords) (qT : PosShare TreeShare) (T1 : Buf (Elt F) (t1Loc d)) (k : Nat) : sProp 𝕄 :=
  if k < 40 then
    iprop((∃ (fd : Buf (Elt F) ((V d (cV L) (jV L)).loc cc5_scratch3)) (fo : Buf (Elt F) ((V d (cV L) (jV L)).loc cc5_scratch1)),
        Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v8_scv).view.loc (V d (cV L) (jV L)) ↦[(tblSlice1).view.set]{qT.left} T1)))
      ∗ ((Memref.whole main_v8_scv).view.loc (V d (cV L) (jV L)) ↦[Finset.univ \ (tblSlice1).view.set]{qT.left} T1))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v8_scv).view.loc (V d (cV L) (jV L)) ↦{qT.left} T1) ∗ semVal (cellOf d L cc5_scratch6) 0)

/-- The invariant of the main loop of table 1: the index scratch as it is; half of the table's share, the second
    offset list, the second row scratch and the output scratch in hand, their semaphores at zero; the tile's lines of
    the output at some contents; what is pending on the first gather semaphore; the waits so far at the kernels' index. -/
def mainInv1 (d : Dev nD) (L : grid5.Coords) (qT : PosShare TreeShare) (T1 : Buf (Elt F) (t1Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v8_scv).view.loc (V d (cV L) (jV L)) ↦{qT.right} T1)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped4) 0 ∗ semVal (cellOf d L cc5_scoped5) 0
    ∗ (∃ f, o1Loc d ↦[oSet L]{fullShare} f)
    ∗ pend1 (F := F) d L qT T1 k
    ∗ ∃ W', ⌜∀ p ∈ W', p ∈ W ∨ p.2 = none⌝ ∗ owes (V d (cV L) (jV L)) O W')

set_option maxHeartbeats 8000000 in
theorem main_trip_t8 (d : Dev nD) (L : grid5.Coords) (qT : PosShare TreeShare) (T1 : Buf (Elt F) (t1Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (O : CellTallies nD τ sig (HIx 1)) (W : Waits sig (HIx 1)) (k5_t8 : Fin k5_t8_loop.trips) :
    mainInv1 (F := F) d L qT T1 fI O W k5_t8.val ()
      ⊢ wp frame (wpE (defs₀ (F := F)) 𝒱₀ (V d (cV L) (jV L)) none) Set.univ
          (k5_t8_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t8 ())
          (mainInv1 (F := F) d L qT T1 fI O W (k5_t8.val + 1)) := by
  have hk : k5_t8.val < 40 := Nat.lt_of_lt_of_le k5_t8.isLt k5_t8_abs.2.1
  unfold k5_t8_body
  simp only [k5_part19_eq_skeleton, k5_part20_eq_skeleton]
  unfold k5_part19_skel k5_part20_skel
  simp only [Prog.bind_assoc]
  unfold mainInv1 pend1
  rw [if_pos hk]
  iintro ⟨#Hmw, Htb, HI, ⟨%fs1, Hs1⟩, ⟨%fr1, Hr1⟩, Hsem21, ⟨%fout, Hout⟩, HscE, HscO, ⟨%fo, Ho⟩, ⟨⟨%fd, %fo0, Hfl⟩, Htrem⟩, %W', %hW', HO⟩
  have hsubE : (chunkE1 L k5_t8).view.set ⊆ oSet L := by
    rw [show (chunkE1 L k5_t8).view.set = (Rect.unit (s := S102400x128) (k5_off17 L k5_t8) ![40, 128] (k5_off17_inb L k5_t8)).set from View.set_slice_whole _ _]
    exact chunkRect_sub L _ (80 * k5_t8.val) (by omega) (k5_off17_eq L k5_t8) _
  have hsubO : (chunkO1 L k5_t8).view.set ⊆ oSet L \ (chunkE1 L k5_t8).view.set := by
    rw [show (chunkO1 L k5_t8).view.set = (Rect.unit (s := S102400x128) (k5_off21 L k5_t8) ![40, 128] (k5_off21_inb L k5_t8)).set from View.set_slice_whole _ _,
      show (chunkE1 L k5_t8).view.set = (Rect.unit (s := S102400x128) (k5_off17 L k5_t8) ![40, 128] (k5_off17_inb L k5_t8)).set from View.set_slice_whole _ _]
    exact Finset.subset_sdiff.mpr ⟨chunkRect_sub L _ (80 * k5_t8.val + 40) (by omega) (k5_off21_eq L k5_t8) _,
      (chunkRect_disj L _ _ (80 * k5_t8.val) (k5_off17_eq L k5_t8) (k5_off21_eq L k5_t8) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o1Loc d ↦[(chunkE1 L k5_t8).view.set]{fullShare} fo : sProp 𝕄)) ⊢ ((chunkE1 L k5_t8).view.loc (V d (cV L) (jV L)) ↦[(chunkE1 L k5_t8).view.set]{fullShare} fo) from Entails.of_eq rfl) $$ HcE
  ihave HcO' := (show ((o1Loc d ↦[(chunkO1 L k5_t8).view.set]{fullShare} fo : sProp 𝕄)) ⊢ ((chunkO1 L k5_t8).view.loc (V d (cV L) (jV L)) ↦[(chunkO1 L k5_t8).view.set]{fullShare} fo) from Entails.of_eq rfl) $$ HcO
  sl_for (prepInv1 (F := F) d L fI) $$ [HI Hs1]
  case region =>
    intro k u
    exact prep_trip_t9 (F := F) d L _ _ _ _ k5_t8 k fI hI
  · unfold prepInv1
    isplitl [HI]; · iexact HI
    iexists fs1
    isplitl [Hs1]; · iexact Hs1
    ipureintro; intro y hy; omega
  iintro %_ HIv
  unfold prepInv1
  icases HIv with ⟨HI, %fs1', Hs1, %hfs1⟩
  have htr9 : Scf.trips k5_t9_loop.lb k5_t9_loop.ub k5_t9_loop.st = 20 := by decide
  have hin9 : ∀ x, ((Memref.whole cc5_scratch2 : Memref sig .scVector .vmem S320 .i32).view.read (Elt F) fs1' x).toNat < S12500x128.size gathers_S12500x128_S320x128.axis :=
    fun x => hfs1 x (by rw [htr9]; have : (x 0).val < 320 := (x 0).isLt; omega)
  sl_exec
  sl_for (drainInv0 (F := F) d L fI) $$ [HI Hfl_dst Hout]
  case region =>
    intro k u
    exact drain_trip_t10 (F := F) d L _ _ _ _ k5_t8 k fI
  · unfold drainInv0
    isplitl [HI]; · iexact HI
    isplitl [Hfl_dst]; · iexists _; iexact Hfl_dst
    iexists _; iexact Hout
  iintro %_ HIv
  unfold drainInv0
  icases HIv with ⟨HI, ⟨%fr_10, Hfl_dst⟩, %fout_10, Hout⟩
  sl_exec
  by_cases hc : k5_cond2 k5_t8 = 1#1
  · sl_exec
    sl_rw [Prog.bind_assoc]
    sl_for (prepInv0 (F := F) d L fI) $$ [HI Hfl_dst_and]
    case region =>
      intro k u
      exact prep_trip_t11 (F := F) d L _ _ k5_t8 _ hc k fI hI
    · unfold prepInv0
      isplitl [HI]; · iexact HI
      iexists fo0
      isplitl [Hfl_dst_and]; · iexact Hfl_dst_and
      ipureintro; intro y hy; omega
    iintro %_ HIv
    unfold prepInv0
    icases HIv with ⟨HI, %fo0', Hfl_dst_and, %hfo0⟩
    have htr11 : Scf.trips k5_t11_loop.lb k5_t11_loop.ub k5_t11_loop.st = 20 := by decide
    have hin11 : ∀ x, ((Memref.whole cc5_scratch1 : Memref sig .scVector .vmem S320 .i32).view.read (Elt F) fo0' x).toNat < S12500x128.size gathers_S12500x128_S320x128.axis :=
      fun x => hfo0 x (by rw [htr11]; have : (x 0).val < 320 := (x 0).isLt; omega)
    sl_exec
    try sl_rw [Prog.bind_assoc]
    sl_for (drainInv1 (F := F) d L fI) $$ [HI Hr1 Hout]
    case region =>
      intro k u
      exact drain_trip_t12 (F := F) d L _ _ _ k5_t8 k fI
    · unfold drainInv1
      isplitl [HI]; · iexact HI
      isplitl [Hr1]; · iexists _; iexact Hr1
      iexists _; iexact Hout
    iintro %_ HIv
    unfold drainInv1
    icases HIv with ⟨HI, ⟨%fr_12, Hr1⟩, %fout_12, Hout⟩
    sl_exec
    sl_step
    irw [if_pos (by have := (cond1_iff k5_t8).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Htrem Hfl]
    · isplitl [Hfl]
      · iexists _, _; iexact Hfl
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInv1 (F := F) d L fI) $$ [HI Hr1 Hout]
    case region =>
      intro k u
      exact drain_trip_t12 (F := F) d L _ _ _ k5_t8 k fI
    · unfold drainInv1
      isplitl [HI]; · iexact HI
      isplitl [Hr1]; · iexists _; iexact Hr1
      iexists _; iexact Hout
    iintro %_ HIv
    unfold drainInv1
    icases HIv with ⟨HI, ⟨%fr_12, Hr1⟩, %fout_12, Hout⟩
    sl_exec
    sl_step
    irw [if_neg (by intro h; exact hc ((cond1_iff k5_t8).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.B.ScBody

end
-- ==== Proof.BScMain2.lean ====
/-
  One trip of the main loop of table 2 of the lookup kernel: the next odd chunk's offsets prepared and its gather
  issued on the second gather semaphore; the wait for the even chunk's gather, its drain and its lines copied out; the
  next even chunk's offsets and gather, while one remains; the wait for the odd chunk's gather, its drain and its lines.
-/
import proofs.«203359_g24824910971486_cont_8to1_1854_34_alg».proof.Proof.BScOwn
import proofs.«203359_g24824910971486_cont_8to1_1854_34_alg».proof.Proof.BScPrep
import proofs.«203359_g24824910971486_cont_8to1_1854_34_alg».proof.Proof.BScChunk
import proofs.«203359_g24824910971486_cont_8to1_1854_34_alg».proof.Proof.BScDrainA
import proofs.«203359_g24824910971486_cont_8to1_1854_34_alg».proof.Proof.BScDrainB

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The scaled table as the gathers address it. -/
abbrev tblSlice2 : Memref sig .scVector .hbm S12500x128 .f32 :=
  (Memref.whole main_v9_scv).slice (Rect.unit (s := S12500x128) ![0, 0] ![12500, 128] inb_S12500x128_S12500x128_0_0) (fun _ => rfl)
/-- The output lines of the even and of the odd chunk of trip `k`. -/
abbrev chunkE2 (L : grid5.Coords) (k : Fin k5_t14_loop.trips) : Memref sig .scVector .hbm S40x128 .f32 :=
  (Memref.whole main_v15_2_scv).slice (Rect.unit (s := S102400x128) (k5_off27 L k) ![40, 128] (k5_off27_inb L k)) (fun _ => rfl)
abbrev chunkO2 (L : grid5.Coords) (k : Fin k5_t14_loop.trips) : Memref sig .scVector .hbm S40x128 .f32 :=
  (Memref.whole main_v15_2_scv).slice (Rect.unit (s := S102400x128) (k5_off31 L k) ![40, 128] (k5_off31_inb L k)) (fun _ => rfl)

theorem cond2_iff : ∀ t : Fin k5_t14_loop.trips, k5_cond3 t = 1#1 ↔ t.val + 1 < 40 := by decide

/-- What is pending on the first gather semaphore at the start of trip `k` of the main loop: before the last trip's
    end the gather of the next even chunk, in flight, holding the first row scratch, the first offset list and half of
    the table's share; after it nothing, those three and the semaphore in hand. -/
def pend2 (d : Dev nD) (L : grid5.Coords) (qT : PosShare TreeShare) (T2 : Buf (Elt F) (t2Loc d)) (k : Nat) : sProp 𝕄 :=
  if k < 40 then
    iprop((∃ (fd : Buf (Elt F) ((V d (cV L) (jV L)).loc cc5_scratch3)) (fo : Buf (Elt F) ((V d (cV L) (jV L)).loc cc5_scratch1)),
        Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v9_scv).view.loc (V d (cV L) (jV L)) ↦[(tblSlice2).view.set]{qT.left} T2)))
      ∗ ((Memref.whole main_v9_scv).view.loc (V d (cV L) (jV L)) ↦[Finset.univ \ (tblSlice2).view.set]{qT.left} T2))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v9_scv).view.loc (V d (cV L) (jV L)) ↦{qT.left} T2) ∗ semVal (cellOf d L cc5_scratch6) 0)

/-- The invariant of the main loop of table 2: the index scratch as it is; half of the table's share, the second
    offset list, the second row scratch and the output scratch in hand, their semaphores at zero; the tile's lines of
    the output at some contents; what is pending on the first gather semaphore; the waits so far at the kernels' index. -/
def mainInv2 (d : Dev nD) (L : grid5.Coords) (qT : PosShare TreeShare) (T2 : Buf (Elt F) (t2Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v9_scv).view.loc (V d (cV L) (jV L)) ↦{qT.right} T2)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped7) 0 ∗ semVal (cellOf d L cc5_scoped8) 0
    ∗ (∃ f, o2Loc d ↦[oSet L]{fullShare} f)
    ∗ pend2 (F := F) d L qT T2 k
    ∗ ∃ W', ⌜∀ p ∈ W', p ∈ W ∨ p.2 = none⌝ ∗ owes (V d (cV L) (jV L)) O W')

set_option maxHeartbeats 8000000 in
theorem main_trip_t14 (d : Dev nD) (L : grid5.Coords) (qT : PosShare TreeShare) (T2 : Buf (Elt F) (t2Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (O : CellTallies nD τ sig (HIx 1)) (W : Waits sig (HIx 1)) (k5_t14 : Fin k5_t14_loop.trips) :
    mainInv2 (F := F) d L qT T2 fI O W k5_t14.val ()
      ⊢ wp frame (wpE (defs₀ (F := F)) 𝒱₀ (V d (cV L) (jV L)) none) Set.univ
          (k5_t14_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t14 ())
          (mainInv2 (F := F) d L qT T2 fI O W (k5_t14.val + 1)) := by
  have hk : k5_t14.val < 40 := Nat.lt_of_lt_of_le k5_t14.isLt k5_t14_abs.2.1
  unfold k5_t14_body
  simp only [k5_part29_eq_skeleton, k5_part30_eq_skeleton]
  unfold k5_part29_skel k5_part30_skel
  simp only [Prog.bind_assoc]
  unfold mainInv2 pend2
  rw [if_pos hk]
  iintro ⟨#Hmw, Htb, HI, ⟨%fs1, Hs1⟩, ⟨%fr1, Hr1⟩, Hsem21, ⟨%fout, Hout⟩, HscE, HscO, ⟨%fo, Ho⟩, ⟨⟨%fd, %fo0, Hfl⟩, Htrem⟩, %W', %hW', HO⟩
  have hsubE : (chunkE2 L k5_t14).view.set ⊆ oSet L := by
    rw [show (chunkE2 L k5_t14).view.set = (Rect.unit (s := S102400x128) (k5_off27 L k5_t14) ![40, 128] (k5_off27_inb L k5_t14)).set from View.set_slice_whole _ _]
    exact chunkRect_sub L _ (80 * k5_t14.val) (by omega) (k5_off27_eq L k5_t14) _
  have hsubO : (chunkO2 L k5_t14).view.set ⊆ oSet L \ (chunkE2 L k5_t14).view.set := by
    rw [show (chunkO2 L k5_t14).view.set = (Rect.unit (s := S102400x128) (k5_off31 L k5_t14) ![40, 128] (k5_off31_inb L k5_t14)).set from View.set_slice_whole _ _,
      show (chunkE2 L k5_t14).view.set = (Rect.unit (s := S102400x128) (k5_off27 L k5_t14) ![40, 128] (k5_off27_inb L k5_t14)).set from View.set_slice_whole _ _]
    exact Finset.subset_sdiff.mpr ⟨chunkRect_sub L _ (80 * k5_t14.val + 40) (by omega) (k5_off31_eq L k5_t14) _,
      (chunkRect_disj L _ _ (80 * k5_t14.val) (k5_off27_eq L k5_t14) (k5_off31_eq L k5_t14) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o2Loc d ↦[(chunkE2 L k5_t14).view.set]{fullShare} fo : sProp 𝕄)) ⊢ ((chunkE2 L k5_t14).view.loc (V d (cV L) (jV L)) ↦[(chunkE2 L k5_t14).view.set]{fullShare} fo) from Entails.of_eq rfl) $$ HcE
  ihave HcO' := (show ((o2Loc d ↦[(chunkO2 L k5_t14).view.set]{fullShare} fo : sProp 𝕄)) ⊢ ((chunkO2 L k5_t14).view.loc (V d (cV L) (jV L)) ↦[(chunkO2 L k5_t14).view.set]{fullShare} fo) from Entails.of_eq rfl) $$ HcO
  sl_for (prepInv1 (F := F) d L fI) $$ [HI Hs1]
  case region =>
    intro k u
    exact prep_trip_t15 (F := F) d L _ _ _ _ k5_t14 k fI hI
  · unfold prepInv1
    isplitl [HI]; · iexact HI
    iexists fs1
    isplitl [Hs1]; · iexact Hs1
    ipureintro; intro y hy; omega
  iintro %_ HIv
  unfold prepInv1
  icases HIv with ⟨HI, %fs1', Hs1, %hfs1⟩
  have htr15 : Scf.trips k5_t15_loop.lb k5_t15_loop.ub k5_t15_loop.st = 20 := by decide
  have hin15 : ∀ x, ((Memref.whole cc5_scratch2 : Memref sig .scVector .vmem S320 .i32).view.read (Elt F) fs1' x).toNat < S12500x128.size gathers_S12500x128_S320x128.axis :=
    fun x => hfs1 x (by rw [htr15]; have : (x 0).val < 320 := (x 0).isLt; omega)
  sl_exec
  sl_for (drainInv0 (F := F) d L fI) $$ [HI Hfl_dst Hout]
  case region =>
    intro k u
    exact drain_trip_t16 (F := F) d L _ _ _ _ k5_t14 k fI
  · unfold drainInv0
    isplitl [HI]; · iexact HI
    isplitl [Hfl_dst]; · iexists _; iexact Hfl_dst
    iexists _; iexact Hout
  iintro %_ HIv
  unfold drainInv0
  icases HIv with ⟨HI, ⟨%fr_16, Hfl_dst⟩, %fout_16, Hout⟩
  sl_exec
  by_cases hc : k5_cond3 k5_t14 = 1#1
  · sl_exec
    sl_rw [Prog.bind_assoc]
    sl_for (prepInv0 (F := F) d L fI) $$ [HI Hfl_dst_and]
    case region =>
      intro k u
      exact prep_trip_t17 (F := F) d L _ _ k5_t14 _ hc k fI hI
    · unfold prepInv0
      isplitl [HI]; · iexact HI
      iexists fo0
      isplitl [Hfl_dst_and]; · iexact Hfl_dst_and
      ipureintro; intro y hy; omega
    iintro %_ HIv
    unfold prepInv0
    icases HIv with ⟨HI, %fo0', Hfl_dst_and, %hfo0⟩
    have htr17 : Scf.trips k5_t17_loop.lb k5_t17_loop.ub k5_t17_loop.st = 20 := by decide
    have hin17 : ∀ x, ((Memref.whole cc5_scratch1 : Memref sig .scVector .vmem S320 .i32).view.read (Elt F) fo0' x).toNat < S12500x128.size gathers_S12500x128_S320x128.axis :=
      fun x => hfo0 x (by rw [htr17]; have : (x 0).val < 320 := (x 0).isLt; omega)
    sl_exec
    try sl_rw [Prog.bind_assoc]
    sl_for (drainInv1 (F := F) d L fI) $$ [HI Hr1 Hout]
    case region =>
      intro k u
      exact drain_trip_t18 (F := F) d L _ _ _ k5_t14 k fI
    · unfold drainInv1
      isplitl [HI]; · iexact HI
      isplitl [Hr1]; · iexists _; iexact Hr1
      iexists _; iexact Hout
    iintro %_ HIv
    unfold drainInv1
    icases HIv with ⟨HI, ⟨%fr_18, Hr1⟩, %fout_18, Hout⟩
    sl_exec
    sl_step
    irw [if_pos (by have := (cond2_iff k5_t14).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Htrem Hfl]
    · isplitl [Hfl]
      · iexists _, _; iexact Hfl
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInv1 (F := F) d L fI) $$ [HI Hr1 Hout]
    case region =>
      intro k u
      exact drain_trip_t18 (F := F) d L _ _ _ k5_t14 k fI
    · unfold drainInv1
      isplitl [HI]; · iexact HI
      isplitl [Hr1]; · iexists _; iexact Hr1
      iexists _; iexact Hout
    iintro %_ HIv
    unfold drainInv1
    icases HIv with ⟨HI, ⟨%fr_18, Hr1⟩, %fout_18, Hout⟩
    sl_exec
    sl_step
    irw [if_neg (by intro h; exact hc ((cond2_iff k5_t14).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.B.ScBody

end
-- ==== Proof.BScMain3.lean ====
/-
  One trip of the main loop of table 3 of the lookup kernel: the next odd chunk's offsets prepared and its gather
  issued on the second gather semaphore; the wait for the even chunk's gather, its drain and its lines copied out; the
  next even chunk's offsets and gather, while one remains; the wait for the odd chunk's gather, its drain and its lines.
-/
import proofs.«203359_g24824910971486_cont_8to1_1854_34_alg».proof.Proof.BScOwn
import proofs.«203359_g24824910971486_cont_8to1_1854_34_alg».proof.Proof.BScPrep
import proofs.«203359_g24824910971486_cont_8to1_1854_34_alg».proof.Proof.BScChunk
import proofs.«203359_g24824910971486_cont_8to1_1854_34_alg».proof.Proof.BScDrainA
import proofs.«203359_g24824910971486_cont_8to1_1854_34_alg».proof.Proof.BScDrainB

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The scaled table as the gathers address it. -/
abbrev tblSlice3 : Memref sig .scVector .hbm S12500x128 .f32 :=
  (Memref.whole main_v10_scv).slice (Rect.unit (s := S12500x128) ![0, 0] ![12500, 128] inb_S12500x128_S12500x128_0_0) (fun _ => rfl)
/-- The output lines of the even and of the odd chunk of trip `k`. -/
abbrev chunkE3 (L : grid5.Coords) (k : Fin k5_t20_loop.trips) : Memref sig .scVector .hbm S40x128 .f32 :=
  (Memref.whole main_v15_3_scv).slice (Rect.unit (s := S102400x128) (k5_off37 L k) ![40, 128] (k5_off37_inb L k)) (fun _ => rfl)
abbrev chunkO3 (L : grid5.Coords) (k : Fin k5_t20_loop.trips) : Memref sig .scVector .hbm S40x128 .f32 :=
  (Memref.whole main_v15_3_scv).slice (Rect.unit (s := S102400x128) (k5_off41 L k) ![40, 128] (k5_off41_inb L k)) (fun _ => rfl)

theorem cond3_iff : ∀ t : Fin k5_t20_loop.trips, k5_cond4 t = 1#1 ↔ t.val + 1 < 40 := by decide

/-- What is pending on the first gather semaphore at the start of trip `k` of the main loop: before the last trip's
    end the gather of the next even chunk, in flight, holding the first row scratch, the first offset list and half of
    the table's share; after it nothing, those three and the semaphore in hand. -/
def pend3 (d : Dev nD) (L : grid5.Coords) (qT : PosShare TreeShare) (T3 : Buf (Elt F) (t3Loc d)) (k : Nat) : sProp 𝕄 :=
  if k < 40 then
    iprop((∃ (fd : Buf (Elt F) ((V d (cV L) (jV L)).loc cc5_scratch3)) (fo : Buf (Elt F) ((V d (cV L) (jV L)).loc cc5_scratch1)),
        Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v10_scv).view.loc (V d (cV L) (jV L)) ↦[(tblSlice3).view.set]{qT.left} T3)))
      ∗ ((Memref.whole main_v10_scv).view.loc (V d (cV L) (jV L)) ↦[Finset.univ \ (tblSlice3).view.set]{qT.left} T3))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v10_scv).view.loc (V d (cV L) (jV L)) ↦{qT.left} T3) ∗ semVal (cellOf d L cc5_scratch6) 0)

/-- The invariant of the main loop of table 3: the index scratch as it is; half of the table's share, the second
    offset list, the second row scratch and the output scratch in hand, their semaphores at zero; the tile's lines of
    the output at some contents; what is pending on the first gather semaphore; the waits so far at the kernels' index. -/
def mainInv3 (d : Dev nD) (L : grid5.Coords) (qT : PosShare TreeShare) (T3 : Buf (Elt F) (t3Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v10_scv).view.loc (V d (cV L) (jV L)) ↦{qT.right} T3)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped10) 0 ∗ semVal (cellOf d L cc5_scoped11) 0
    ∗ (∃ f, o3Loc d ↦[oSet L]{fullShare} f)
    ∗ pend3 (F := F) d L qT T3 k
    ∗ ∃ W', ⌜∀ p ∈ W', p ∈ W ∨ p.2 = none⌝ ∗ owes (V d (cV L) (jV L)) O W')

set_option maxHeartbeats 8000000 in
theorem main_trip_t20 (d : Dev nD) (L : grid5.Coords) (qT : PosShare TreeShare) (T3 : Buf (Elt F) (t3Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (O : CellTallies nD τ sig (HIx 1)) (W : Waits sig (HIx 1)) (k5_t20 : Fin k5_t20_loop.trips) :
    mainInv3 (F := F) d L qT T3 fI O W k5_t20.val ()
      ⊢ wp frame (wpE (defs₀ (F := F)) 𝒱₀ (V d (cV L) (jV L)) none) Set.univ
          (k5_t20_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t20 ())
          (mainInv3 (F := F) d L qT T3 fI O W (k5_t20.val + 1)) := by
  have hk : k5_t20.val < 40 := Nat.lt_of_lt_of_le k5_t20.isLt k5_t20_abs.2.1
  unfold k5_t20_body
  simp only [k5_part39_eq_skeleton, k5_part40_eq_skeleton]
  unfold k5_part39_skel k5_part40_skel
  simp only [Prog.bind_assoc]
  unfold mainInv3 pend3
  rw [if_pos hk]
  iintro ⟨#Hmw, Htb, HI, ⟨%fs1, Hs1⟩, ⟨%fr1, Hr1⟩, Hsem21, ⟨%fout, Hout⟩, HscE, HscO, ⟨%fo, Ho⟩, ⟨⟨%fd, %fo0, Hfl⟩, Htrem⟩, %W', %hW', HO⟩
  have hsubE : (chunkE3 L k5_t20).view.set ⊆ oSet L := by
    rw [show (chunkE3 L k5_t20).view.set = (Rect.unit (s := S102400x128) (k5_off37 L k5_t20) ![40, 128] (k5_off37_inb L k5_t20)).set from View.set_slice_whole _ _]
    exact chunkRect_sub L _ (80 * k5_t20.val) (by omega) (k5_off37_eq L k5_t20) _
  have hsubO : (chunkO3 L k5_t20).view.set ⊆ oSet L \ (chunkE3 L k5_t20).view.set := by
    rw [show (chunkO3 L k5_t20).view.set = (Rect.unit (s := S102400x128) (k5_off41 L k5_t20) ![40, 128] (k5_off41_inb L k5_t20)).set from View.set_slice_whole _ _,
      show (chunkE3 L k5_t20).view.set = (Rect.unit (s := S102400x128) (k5_off37 L k5_t20) ![40, 128] (k5_off37_inb L k5_t20)).set from View.set_slice_whole _ _]
    exact Finset.subset_sdiff.mpr ⟨chunkRect_sub L _ (80 * k5_t20.val + 40) (by omega) (k5_off41_eq L k5_t20) _,
      (chunkRect_disj L _ _ (80 * k5_t20.val) (k5_off37_eq L k5_t20) (k5_off41_eq L k5_t20) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o3Loc d ↦[(chunkE3 L k5_t20).view.set]{fullShare} fo : sProp 𝕄)) ⊢ ((chunkE3 L k5_t20).view.loc (V d (cV L) (jV L)) ↦[(chunkE3 L k5_t20).view.set]{fullShare} fo) from Entails.of_eq rfl) $$ HcE
  ihave HcO' := (show ((o3Loc d ↦[(chunkO3 L k5_t20).view.set]{fullShare} fo : sProp 𝕄)) ⊢ ((chunkO3 L k5_t20).view.loc (V d (cV L) (jV L)) ↦[(chunkO3 L k5_t20).view.set]{fullShare} fo) from Entails.of_eq rfl) $$ HcO
  sl_for (prepInv1 (F := F) d L fI) $$ [HI Hs1]
  case region =>
    intro k u
    exact prep_trip_t21 (F := F) d L _ _ _ _ k5_t20 k fI hI
  · unfold prepInv1
    isplitl [HI]; · iexact HI
    iexists fs1
    isplitl [Hs1]; · iexact Hs1
    ipureintro; intro y hy; omega
  iintro %_ HIv
  unfold prepInv1
  icases HIv with ⟨HI, %fs1', Hs1, %hfs1⟩
  have htr21 : Scf.trips k5_t21_loop.lb k5_t21_loop.ub k5_t21_loop.st = 20 := by decide
  have hin21 : ∀ x, ((Memref.whole cc5_scratch2 : Memref sig .scVector .vmem S320 .i32).view.read (Elt F) fs1' x).toNat < S12500x128.size gathers_S12500x128_S320x128.axis :=
    fun x => hfs1 x (by rw [htr21]; have : (x 0).val < 320 := (x 0).isLt; omega)
  sl_exec
  sl_for (drainInv0 (F := F) d L fI) $$ [HI Hfl_dst Hout]
  case region =>
    intro k u
    exact drain_trip_t22 (F := F) d L _ _ _ _ k5_t20 k fI
  · unfold drainInv0
    isplitl [HI]; · iexact HI
    isplitl [Hfl_dst]; · iexists _; iexact Hfl_dst
    iexists _; iexact Hout
  iintro %_ HIv
  unfold drainInv0
  icases HIv with ⟨HI, ⟨%fr_22, Hfl_dst⟩, %fout_22, Hout⟩
  sl_exec
  by_cases hc : k5_cond4 k5_t20 = 1#1
  · sl_exec
    sl_rw [Prog.bind_assoc]
    sl_for (prepInv0 (F := F) d L fI) $$ [HI Hfl_dst_and]
    case region =>
      intro k u
      exact prep_trip_t23 (F := F) d L _ _ k5_t20 _ hc k fI hI
    · unfold prepInv0
      isplitl [HI]; · iexact HI
      iexists fo0
      isplitl [Hfl_dst_and]; · iexact Hfl_dst_and
      ipureintro; intro y hy; omega
    iintro %_ HIv
    unfold prepInv0
    icases HIv with ⟨HI, %fo0', Hfl_dst_and, %hfo0⟩
    have htr23 : Scf.trips k5_t23_loop.lb k5_t23_loop.ub k5_t23_loop.st = 20 := by decide
    have hin23 : ∀ x, ((Memref.whole cc5_scratch1 : Memref sig .scVector .vmem S320 .i32).view.read (Elt F) fo0' x).toNat < S12500x128.size gathers_S12500x128_S320x128.axis :=
      fun x => hfo0 x (by rw [htr23]; have : (x 0).val < 320 := (x 0).isLt; omega)
    sl_exec
    try sl_rw [Prog.bind_assoc]
    sl_for (drainInv1 (F := F) d L fI) $$ [HI Hr1 Hout]
    case region =>
      intro k u
      exact drain_trip_t24 (F := F) d L _ _ _ k5_t20 k fI
    · unfold drainInv1
      isplitl [HI]; · iexact HI
      isplitl [Hr1]; · iexists _; iexact Hr1
      iexists _; iexact Hout
    iintro %_ HIv
    unfold drainInv1
    icases HIv with ⟨HI, ⟨%fr_24, Hr1⟩, %fout_24, Hout⟩
    sl_exec
    sl_step
    irw [if_pos (by have := (cond3_iff k5_t20).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Htrem Hfl]
    · isplitl [Hfl]
      · iexists _, _; iexact Hfl
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInv1 (F := F) d L fI) $$ [HI Hr1 Hout]
    case region =>
      intro k u
      exact drain_trip_t24 (F := F) d L _ _ _ k5_t20 k fI
    · unfold drainInv1
      isplitl [HI]; · iexact HI
      isplitl [Hr1]; · iexists _; iexact Hr1
      iexists _; iexact Hout
    iintro %_ HIv
    unfold drainInv1
    icases HIv with ⟨HI, ⟨%fr_24, Hr1⟩, %fout_24, Hout⟩
    sl_exec
    sl_step
    irw [if_neg (by intro h; exact hc ((cond3_iff k5_t20).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.B.ScBody

end
-- ==== Proof.BScBody.lean ====
/-
  The body obligation of the lookup kernel's vector-subcore task: for each of the four tables, the tile's indices copied
  in, the first chunk's offsets prepared and its gather issued, the main loop under its invariant, and at the end
  everything handed back as it was found, the tile's lines of the outputs at some contents.
-/
import proofs.«203359_g24824910971486_cont_8to1_1854_34_alg».proof.Proof.BScMain0
import proofs.«203359_g24824910971486_cont_8to1_1854_34_alg».proof.Proof.BScMain1
import proofs.«203359_g24824910971486_cont_8to1_1854_34_alg».proof.Proof.BScMain2
import proofs.«203359_g24824910971486_cont_8to1_1854_34_alg».proof.Proof.BScMain3

noncomputable section

namespace Cert.Proof.B.ScBody

open Cert.Kernel Cert.Kernel.Gen
open Cert.Proof.B.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 32000000 in
theorem tile_body : TileBodyStmt (F := F) := by
  intro d L qT qI T0 T1 T2 T3 I0 I1 I2 I3 hF O W hO hidx
  simp only [cc5_k_eq_skeleton]; unfold cc5_k_skel
  simp only [k5_part41_eq_skeleton]; unfold k5_part41_skel
  simp only [Prog.bind_assoc]
  rw [(K (F := F)).scopedBufs_V hF d (cV L) (jV L), SparseCore.Cfg.scopedSems0_V (Val := Elt F) d (cV L) (jV L), ownSems0_V, ownBufs_V]
  iintro ⟨#Hlv, -, ⟨⟨Ht0, Ht1, Ht2, Ht3, Hi0, Hi1, Hi2, Hi3⟩, ⟨⟨%fo0, Ho0⟩, ⟨%fo1, Ho1⟩, ⟨%fo2, Ho2⟩, ⟨%fo3, Ho3⟩⟩⟩,
    ⟨⟨%fI, HI⟩, ⟨%fs0, Hs0⟩, ⟨%fs1, Hs1⟩, ⟨%fr0, Hr0⟩, ⟨%fr1, Hr1⟩, ⟨%fout, Hout⟩, Hbufs⟩, ⟨Hsem20, Hsem21, Hsc0, Hsc1, Hsc2, Hsc3, Hsc4, Hsc5, Hsc6, Hsc7, Hsc8, Hsc9, Hsc10, Hsc11, Hsems⟩, HO⟩
  ihave Hmw := ((K (F := F)).mayWaits_none (thr := (V d (cV L) (jV L))) hO) $$ Hlv
  ihave HI' := (Entails.of_eq (pts_w (F := F) d (cV L) (jV L) cc5_scratch0 _ _).symm) $$ HI
  ihave Hs0' := (Entails.of_eq (pts_w (F := F) d (cV L) (jV L) cc5_scratch1 _ _).symm) $$ Hs0
  ihave Hs1' := (Entails.of_eq (pts_w (F := F) d (cV L) (jV L) cc5_scratch2 _ _).symm) $$ Hs1
  ihave Hr0' := (Entails.of_eq (pts_w (F := F) d (cV L) (jV L) cc5_scratch3 _ _).symm) $$ Hr0
  ihave Hr1' := (Entails.of_eq (pts_w (F := F) d (cV L) (jV L) cc5_scratch4 _ _).symm) $$ Hr1
  ihave Hout' := (Entails.of_eq (pts_w (F := F) d (cV L) (jV L) cc5_scratch5 _ _).symm) $$ Hout
  have hW_start : ∀ p ∈ W, p ∈ W ∨ p.2 = none := fun p hp => .inl hp
  ihave Hi0' := (show ((i0Loc d ↦{qI} I0 : sProp 𝕄)) ⊢ ((Memref.whole main_v11_scv).view.loc (V d (cV L) (jV L)) ↦{qI} I0) from Entails.of_eq rfl) $$ Hi0
  ihave Hi1' := (show ((i1Loc d ↦{qI} I1 : sProp 𝕄)) ⊢ ((Memref.whole main_v12_scv).view.loc (V d (cV L) (jV L)) ↦{qI} I1) from Entails.of_eq rfl) $$ Hi1
  ihave Hi2' := (show ((i2Loc d ↦{qI} I2 : sProp 𝕄)) ⊢ ((Memref.whole main_v13_scv).view.loc (V d (cV L) (jV L)) ↦{qI} I2) from Entails.of_eq rfl) $$ Hi2
  ihave Hi3' := (show ((i3Loc d ↦{qI} I3 : sProp 𝕄)) ⊢ ((Memref.whole main_v14_scv).view.loc (V d (cV L) (jV L)) ↦{qI} I3) from Entails.of_eq rfl) $$ Hi3
  -- table 0
  ihave Hsh := (pointsTo_share (PosShare.mem_left_op_right qT)).1 $$ Ht0
  icases Hsh with ⟨HtL, HtR⟩
  ihave HtL' := (show ((t0Loc d ↦{qT.left} T0 : sProp 𝕄)) ⊢ ((Memref.whole main_v7_scv).view.loc (V d (cV L) (jV L)) ↦{qT.left} T0) from Entails.of_eq rfl) $$ HtL
  sl_exec
  have hI0 : ∀ j, IdxOK ((Memref.whole cc5_scratch0 : Memref sig .scVector .vmem S25600 .i32).view.read (Elt F) (View.write (Elt F) (Memref.whole cc5_scratch0 : Memref sig .scVector .vmem S25600 .i32).view fI (tile_body.sl.dma0 d L I0) Finset.univ) j) := by
    intro j
    rw [View.write_whole_univ]
    unfold tile_body.sl.dma0
    exact hidx.1 _
  generalize (View.write (Elt F) (Memref.whole cc5_scratch0 : Memref sig .scVector .vmem S25600 .i32).view fI (tile_body.sl.dma0 d L I0) Finset.univ) = fI_0 at hI0 ⊢
  sl_for (prepInv0 (F := F) d L fI_0) $$ [HI' Hs0']
  case region =>
    intro k u
    exact prep_trip_t1 (F := F) d L k fI_0 hI0
  · unfold prepInv0
    isplitl [HI']; · iexact HI'
    iexists _
    isplitl [Hs0']; · iexact Hs0'
    ipureintro; intro y hy; omega
  iintro %_ HIv
  unfold prepInv0
  icases HIv with ⟨HI', %fs0_0, Hs0', %hfs0_0⟩
  have htrI0 : Scf.trips k5_t1_loop.lb k5_t1_loop.ub k5_t1_loop.st = 20 := by decide
  have hin_0 : ∀ x, ((Memref.whole cc5_scratch1 : Memref sig .scVector .vmem S320 .i32).view.read (Elt F) fs0_0 x).toNat < S12500x128.size gathers_S12500x128_S320x128.axis :=
    fun x => hfs0_0 x (by rw [htrI0]; have : (x 0).val < 320 := (x 0).isLt; omega)
  sl_exec
  ihave HtR' := (show ((t0Loc d ↦{qT.right} T0 : sProp 𝕄)) ⊢ ((Memref.whole main_v7_scv).view.loc (V d (cV L) (jV L)) ↦{qT.right} T0) from Entails.of_eq rfl) $$ HtR
  sl_for (mainInv0 (F := F) d L qT T0 fI_0 O W) $$ [HtR' HI' Hs1' Hr1' Hsem21 Hout' Hsc1 Hsc2 Ho0 Hsem20 HtL' HO]
  case region =>
    intro k u
    exact main_trip_t2 (F := F) d L qT T0 _ fI_0 hI0 O W k
  · unfold mainInv0 pend0
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc1]; · iexact Hsc1
    isplitl [Hsc2]; · iexact Hsc2
    isplitl [Ho0]; · iexists _; iexact Ho0
    isplitl [Hsem20 HtL']
    · isplitl [Hsem20]
      · iexists _, _; iexact Hsem20
      · iexact HtL'
    iexists _; isplitr
    swap
    · iexact HO
    · ipureintro; intro p hp
      rcases Finset.mem_insert.mp hp with rfl | hp
      · exact .inr rfl
      · exact hW_start p hp
  iintro %_ HIv
  unfold mainInv0 pend0
  rw [if_neg (by decide : ¬ Scf.trips k5_t2_loop.lb k5_t2_loop.ub k5_t2_loop.st < 40)]
  icases HIv with ⟨-, HtR', HI', ⟨%fs1_0, Hs1'⟩, ⟨%fr1_0, Hr1'⟩, Hsem21, ⟨%fout_0, Hout'⟩, Hsc1, Hsc2, ⟨%fo0', Ho0⟩, ⟨⟨%fr0_0, Hr0'⟩, ⟨%fs0_0', Hs0'⟩, HtL', Hsem20⟩, %W_0, %hW_0, HO⟩
  ihave Ht0' := (pointsTo_share (PosShare.mem_left_op_right qT)).2 $$ [HtL' HtR']
  · isplitl [HtL'] <;> iassumption
  -- table 1
  ihave Hsh := (pointsTo_share (PosShare.mem_left_op_right qT)).1 $$ Ht1
  icases Hsh with ⟨HtL, HtR⟩
  ihave HtL' := (show ((t1Loc d ↦{qT.left} T1 : sProp 𝕄)) ⊢ ((Memref.whole main_v8_scv).view.loc (V d (cV L) (jV L)) ↦{qT.left} T1) from Entails.of_eq rfl) $$ HtL
  sl_exec
  have hI1 : ∀ j, IdxOK ((Memref.whole cc5_scratch0 : Memref sig .scVector .vmem S25600 .i32).view.read (Elt F) (View.write (Elt F) (Memref.whole cc5_scratch0 : Memref sig .scVector .vmem S25600 .i32).view fI_0 (tile_body.sl.dma0_1 d L I1) Finset.univ) j) := by
    intro j
    rw [View.write_whole_univ]
    unfold tile_body.sl.dma0_1
    exact hidx.2.1 _
  generalize (View.write (Elt F) (Memref.whole cc5_scratch0 : Memref sig .scVector .vmem S25600 .i32).view fI_0 (tile_body.sl.dma0_1 d L I1) Finset.univ) = fI_1 at hI1 ⊢
  sl_for (prepInv0 (F := F) d L fI_1) $$ [HI' Hs0']
  case region =>
    intro k u
    exact prep_trip_t7 (F := F) d L k fI_1 hI1
  · unfold prepInv0
    isplitl [HI']; · iexact HI'
    iexists _
    isplitl [Hs0']; · iexact Hs0'
    ipureintro; intro y hy; omega
  iintro %_ HIv
  unfold prepInv0
  icases HIv with ⟨HI', %fs0_1, Hs0', %hfs0_1⟩
  have htrI1 : Scf.trips k5_t7_loop.lb k5_t7_loop.ub k5_t7_loop.st = 20 := by decide
  have hin_1 : ∀ x, ((Memref.whole cc5_scratch1 : Memref sig .scVector .vmem S320 .i32).view.read (Elt F) fs0_1 x).toNat < S12500x128.size gathers_S12500x128_S320x128.axis :=
    fun x => hfs0_1 x (by rw [htrI1]; have : (x 0).val < 320 := (x 0).isLt; omega)
  sl_exec
  ihave HtR' := (show ((t1Loc d ↦{qT.right} T1 : sProp 𝕄)) ⊢ ((Memref.whole main_v8_scv).view.loc (V d (cV L) (jV L)) ↦{qT.right} T1) from Entails.of_eq rfl) $$ HtR
  sl_for (mainInv1 (F := F) d L qT T1 fI_1 O W) $$ [HtR' HI' Hs1' Hr1' Hsem21 Hout' Hsc4 Hsc5 Ho1 Hsem20 HtL' HO]
  case region =>
    intro k u
    exact main_trip_t8 (F := F) d L qT T1 _ fI_1 hI1 O W k
  · unfold mainInv1 pend1
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc4]; · iexact Hsc4
    isplitl [Hsc5]; · iexact Hsc5
    isplitl [Ho1]; · iexists _; iexact Ho1
    isplitl [Hsem20 HtL']
    · isplitl [Hsem20]
      · iexists _, _; iexact Hsem20
      · iexact HtL'
    iexists _; isplitr
    swap
    · iexact HO
    · ipureintro; intro p hp
      rcases Finset.mem_insert.mp hp with rfl | hp
      · exact .inr rfl
      · exact hW_0 p hp
  iintro %_ HIv
  unfold mainInv1 pend1
  rw [if_neg (by decide : ¬ Scf.trips k5_t8_loop.lb k5_t8_loop.ub k5_t8_loop.st < 40)]
  icases HIv with ⟨-, HtR', HI', ⟨%fs1_1, Hs1'⟩, ⟨%fr1_1, Hr1'⟩, Hsem21, ⟨%fout_1, Hout'⟩, Hsc4, Hsc5, ⟨%fo1', Ho1⟩, ⟨⟨%fr0_1, Hr0'⟩, ⟨%fs0_1', Hs0'⟩, HtL', Hsem20⟩, %W_1, %hW_1, HO⟩
  ihave Ht1' := (pointsTo_share (PosShare.mem_left_op_right qT)).2 $$ [HtL' HtR']
  · isplitl [HtL'] <;> iassumption
  -- table 2
  ihave Hsh := (pointsTo_share (PosShare.mem_left_op_right qT)).1 $$ Ht2
  icases Hsh with ⟨HtL, HtR⟩
  ihave HtL' := (show ((t2Loc d ↦{qT.left} T2 : sProp 𝕄)) ⊢ ((Memref.whole main_v9_scv).view.loc (V d (cV L) (jV L)) ↦{qT.left} T2) from Entails.of_eq rfl) $$ HtL
  sl_exec
  have hI2 : ∀ j, IdxOK ((Memref.whole cc5_scratch0 : Memref sig .scVector .vmem S25600 .i32).view.read (Elt F) (View.write (Elt F) (Memref.whole cc5_scratch0 : Memref sig .scVector .vmem S25600 .i32).view fI_1 (tile_body.sl.dma0_2 d L I2) Finset.univ) j) := by
    intro j
    rw [View.write_whole_univ]
    unfold tile_body.sl.dma0_2
    exact hidx.2.2.1 _
  generalize (View.write (Elt F) (Memref.whole cc5_scratch0 : Memref sig .scVector .vmem S25600 .i32).view fI_1 (tile_body.sl.dma0_2 d L I2) Finset.univ) = fI_2 at hI2 ⊢
  sl_for (prepInv0 (F := F) d L fI_2) $$ [HI' Hs0']
  case region =>
    intro k u
    exact prep_trip_t13 (F := F) d L k fI_2 hI2
  · unfold prepInv0
    isplitl [HI']; · iexact HI'
    iexists _
    isplitl [Hs0']; · iexact Hs0'
    ipureintro; intro y hy; omega
  iintro %_ HIv
  unfold prepInv0
  icases HIv with ⟨HI', %fs0_2, Hs0', %hfs0_2⟩
  have htrI2 : Scf.trips k5_t13_loop.lb k5_t13_loop.ub k5_t13_loop.st = 20 := by decide
  have hin_2 : ∀ x, ((Memref.whole cc5_scratch1 : Memref sig .scVector .vmem S320 .i32).view.read (Elt F) fs0_2 x).toNat < S12500x128.size gathers_S12500x128_S320x128.axis :=
    fun x => hfs0_2 x (by rw [htrI2]; have : (x 0).val < 320 := (x 0).isLt; omega)
  sl_exec
  ihave HtR' := (show ((t2Loc d ↦{qT.right} T2 : sProp 𝕄)) ⊢ ((Memref.whole main_v9_scv).view.loc (V d (cV L) (jV L)) ↦{qT.right} T2) from Entails.of_eq rfl) $$ HtR
  sl_for (mainInv2 (F := F) d L qT T2 fI_2 O W) $$ [HtR' HI' Hs1' Hr1' Hsem21 Hout' Hsc7 Hsc8 Ho2 Hsem20 HtL' HO]
  case region =>
    intro k u
    exact main_trip_t14 (F := F) d L qT T2 _ fI_2 hI2 O W k
  · unfold mainInv2 pend2
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc7]; · iexact Hsc7
    isplitl [Hsc8]; · iexact Hsc8
    isplitl [Ho2]; · iexists _; iexact Ho2
    isplitl [Hsem20 HtL']
    · isplitl [Hsem20]
      · iexists _, _; iexact Hsem20
      · iexact HtL'
    iexists _; isplitr
    swap
    · iexact HO
    · ipureintro; intro p hp
      rcases Finset.mem_insert.mp hp with rfl | hp
      · exact .inr rfl
      · exact hW_1 p hp
  iintro %_ HIv
  unfold mainInv2 pend2
  rw [if_neg (by decide : ¬ Scf.trips k5_t14_loop.lb k5_t14_loop.ub k5_t14_loop.st < 40)]
  icases HIv with ⟨-, HtR', HI', ⟨%fs1_2, Hs1'⟩, ⟨%fr1_2, Hr1'⟩, Hsem21, ⟨%fout_2, Hout'⟩, Hsc7, Hsc8, ⟨%fo2', Ho2⟩, ⟨⟨%fr0_2, Hr0'⟩, ⟨%fs0_2', Hs0'⟩, HtL', Hsem20⟩, %W_2, %hW_2, HO⟩
  ihave Ht2' := (pointsTo_share (PosShare.mem_left_op_right qT)).2 $$ [HtL' HtR']
  · isplitl [HtL'] <;> iassumption
  -- table 3
  ihave Hsh := (pointsTo_share (PosShare.mem_left_op_right qT)).1 $$ Ht3
  icases Hsh with ⟨HtL, HtR⟩
  ihave HtL' := (show ((t3Loc d ↦{qT.left} T3 : sProp 𝕄)) ⊢ ((Memref.whole main_v10_scv).view.loc (V d (cV L) (jV L)) ↦{qT.left} T3) from Entails.of_eq rfl) $$ HtL
  sl_exec
  have hI3 : ∀ j, IdxOK ((Memref.whole cc5_scratch0 : Memref sig .scVector .vmem S25600 .i32).view.read (Elt F) (View.write (Elt F) (Memref.whole cc5_scratch0 : Memref sig .scVector .vmem S25600 .i32).view fI_2 (tile_body.sl.dma0_3 d L I3) Finset.univ) j) := by
    intro j
    rw [View.write_whole_univ]
    unfold tile_body.sl.dma0_3
    exact hidx.2.2.2 _
  generalize (View.write (Elt F) (Memref.whole cc5_scratch0 : Memref sig .scVector .vmem S25600 .i32).view fI_2 (tile_body.sl.dma0_3 d L I3) Finset.univ) = fI_3 at hI3 ⊢
  sl_for (prepInv0 (F := F) d L fI_3) $$ [HI' Hs0']
  case region =>
    intro k u
    exact prep_trip_t19 (F := F) d L k fI_3 hI3
  · unfold prepInv0
    isplitl [HI']; · iexact HI'
    iexists _
    isplitl [Hs0']; · iexact Hs0'
    ipureintro; intro y hy; omega
  iintro %_ HIv
  unfold prepInv0
  icases HIv with ⟨HI', %fs0_3, Hs0', %hfs0_3⟩
  have htrI3 : Scf.trips k5_t19_loop.lb k5_t19_loop.ub k5_t19_loop.st = 20 := by decide
  have hin_3 : ∀ x, ((Memref.whole cc5_scratch1 : Memref sig .scVector .vmem S320 .i32).view.read (Elt F) fs0_3 x).toNat < S12500x128.size gathers_S12500x128_S320x128.axis :=
    fun x => hfs0_3 x (by rw [htrI3]; have : (x 0).val < 320 := (x 0).isLt; omega)
  sl_exec
  ihave HtR' := (show ((t3Loc d ↦{qT.right} T3 : sProp 𝕄)) ⊢ ((Memref.whole main_v10_scv).view.loc (V d (cV L) (jV L)) ↦{qT.right} T3) from Entails.of_eq rfl) $$ HtR
  sl_for (mainInv3 (F := F) d L qT T3 fI_3 O W) $$ [HtR' HI' Hs1' Hr1' Hsem21 Hout' Hsc10 Hsc11 Ho3 Hsem20 HtL' HO]
  case region =>
    intro k u
    exact main_trip_t20 (F := F) d L qT T3 _ fI_3 hI3 O W k
  · unfold mainInv3 pend3
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc10]; · iexact Hsc10
    isplitl [Hsc11]; · iexact Hsc11
    isplitl [Ho3]; · iexists _; iexact Ho3
    isplitl [Hsem20 HtL']
    · isplitl [Hsem20]
      · iexists _, _; iexact Hsem20
      · iexact HtL'
    iexists _; isplitr
    swap
    · iexact HO
    · ipureintro; intro p hp
      rcases Finset.mem_insert.mp hp with rfl | hp
      · exact .inr rfl
      · exact hW_2 p hp
  iintro %_ HIv
  unfold mainInv3 pend3
  rw [if_neg (by decide : ¬ Scf.trips k5_t20_loop.lb k5_t20_loop.ub k5_t20_loop.st < 40)]
  icases HIv with ⟨-, HtR', HI', ⟨%fs1_3, Hs1'⟩, ⟨%fr1_3, Hr1'⟩, Hsem21, ⟨%fout_3, Hout'⟩, Hsc10, Hsc11, ⟨%fo3', Ho3⟩, ⟨⟨%fr0_3, Hr0'⟩, ⟨%fs0_3', Hs0'⟩, HtL', Hsem20⟩, %W_3, %hW_3, HO⟩
  ihave Ht3' := (pointsTo_share (PosShare.mem_left_op_right qT)).2 $$ [HtL' HtR']
  · isplitl [HtL'] <;> iassumption
  sl_exec
  sl_step
  isplitl [Ht0' Ht1' Ht2' Ht3' Hi0' Hi1' Hi2' Hi3' Ho0 Ho1 Ho2 Ho3]
  · isplitl [Ht0' Ht1' Ht2' Ht3' Hi0' Hi1' Hi2' Hi3']
    · isplitl [Ht0']; · iapply (show (((Memref.whole main_v7_scv).view.loc (V d (cV L) (jV L)) ↦{qT} T0 : sProp 𝕄)) ⊢ (t0Loc d ↦{qT} T0) from Entails.of_eq rfl); iexact Ht0'
      isplitl [Ht1']; · iapply (show (((Memref.whole main_v8_scv).view.loc (V d (cV L) (jV L)) ↦{qT} T1 : sProp 𝕄)) ⊢ (t1Loc d ↦{qT} T1) from Entails.of_eq rfl); iexact Ht1'
      isplitl [Ht2']; · iapply (show (((Memref.whole main_v9_scv).view.loc (V d (cV L) (jV L)) ↦{qT} T2 : sProp 𝕄)) ⊢ (t2Loc d ↦{qT} T2) from Entails.of_eq rfl); iexact Ht2'
      isplitl [Ht3']; · iapply (show (((Memref.whole main_v10_scv).view.loc (V d (cV L) (jV L)) ↦{qT} T3 : sProp 𝕄)) ⊢ (t3Loc d ↦{qT} T3) from Entails.of_eq rfl); iexact Ht3'
      isplitl [Hi0']; · iapply (show (((Memref.whole main_v11_scv).view.loc (V d (cV L) (jV L)) ↦{qI} I0 : sProp 𝕄)) ⊢ (i0Loc d ↦{qI} I0) from Entails.of_eq rfl); iexact Hi0'
      isplitl [Hi1']; · iapply (show (((Memref.whole main_v12_scv).view.loc (V d (cV L) (jV L)) ↦{qI} I1 : sProp 𝕄)) ⊢ (i1Loc d ↦{qI} I1) from Entails.of_eq rfl); iexact Hi1'
      isplitl [Hi2']; · iapply (show (((Memref.whole main_v13_scv).view.loc (V d (cV L) (jV L)) ↦{qI} I2 : sProp 𝕄)) ⊢ (i2Loc d ↦{qI} I2) from Entails.of_eq rfl); iexact Hi2'
      iapply (show (((Memref.whole main_v14_scv).view.loc (V d (cV L) (jV L)) ↦{qI} I3 : sProp 𝕄)) ⊢ (i3Loc d ↦{qI} I3) from Entails.of_eq rfl); iexact Hi3'
    · isplitl [Ho0]; · iexists _; iexact Ho0
      isplitl [Ho1]; · iexists _; iexact Ho1
      isplitl [Ho2]; · iexists _; iexact Ho2
      iexists _; iexact Ho3
  isplitl [HI' Hs0' Hs1' Hr0' Hr1' Hout' Hbufs]
  · isplitl [HI']; · iexists _; iapply (Entails.of_eq (pts_w (F := F) d (cV L) (jV L) cc5_scratch0 _ _)); iexact HI'
    isplitl [Hs0']; · iexists _; iapply (Entails.of_eq (pts_w (F := F) d (cV L) (jV L) cc5_scratch1 _ _)); iexact Hs0'
    isplitl [Hs1']; · iexists _; iapply (Entails.of_eq (pts_w (F := F) d (cV L) (jV L) cc5_scratch2 _ _)); iexact Hs1'
    isplitl [Hr0']; · iexists _; iapply (Entails.of_eq (pts_w (F := F) d (cV L) (jV L) cc5_scratch3 _ _)); iexact Hr0'
    isplitl [Hr1']; · iexists _; iapply (Entails.of_eq (pts_w (F := F) d (cV L) (jV L) cc5_scratch4 _ _)); iexact Hr1'
    isplitl [Hout']; · iexists _; iapply (Entails.of_eq (pts_w (F := F) d (cV L) (jV L) cc5_scratch5 _ _)); iexact Hout'
    iexact Hbufs
  isplitl [Hsem20 Hsem21 Hsc0 Hsc1 Hsc2 Hsc3 Hsc4 Hsc5 Hsc6 Hsc7 Hsc8 Hsc9 Hsc10 Hsc11 Hsems]
  · isplitl [Hsem20]; · iexact Hsem20
    isplitl [Hsem21]; · iexact Hsem21
    isplitl [Hsc0]; · iexact Hsc0
    isplitl [Hsc1]; · iexact Hsc1
    isplitl [Hsc2]; · iexact Hsc2
    isplitl [Hsc3]; · iexact Hsc3
    isplitl [Hsc4]; · iexact Hsc4
    isplitl [Hsc5]; · iexact Hsc5
    isplitl [Hsc6]; · iexact Hsc6
    isplitl [Hsc7]; · iexact Hsc7
    isplitl [Hsc8]; · iexact Hsc8
    isplitl [Hsc9]; · iexact Hsc9
    isplitl [Hsc10]; · iexact Hsc10
    isplitl [Hsc11]; · iexact Hsc11
    iexact Hsems
  iexists _; isplitr
  · ipureintro; exact hW_3
  · iexact HO

end Cert.Proof.B.ScBody

end
-- ==== Proof.ScSetup.lean ====
/-
  The SparseCore program as the launch theorem sees it, and the certificate's ghost state: the four launch
  handshakes' rounds, the rounds of the five TensorCore calls' staging cells, and the counters of the tile kernel's
  own local transfers, side by side in one product.
-/
import proofs.«203359_g24824910971486_cont_8to1_1854_34_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203359_g24824910971486_cont_8to1_1854_34_alg».proof.Proof.Gen.KernelIdeal
import proofs.«203359_g24824910971486_cont_8to1_1854_34_alg».proof.Proof.Gen.KernelIdeal.Skeleton

noncomputable section

namespace Cert.Proof.ScSetup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 5) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore calls' staging cells' rounds. -/
abbrev UP : Type := URounds (GSem nD τ sig) Unit
/-- Handshakes, staging cells, and the local transfers' counters (found in the right by instance). -/
abbrev UU : Type := UH × (UP × Counters)

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP; infer_instance

example : CountersIn UU := inferInstance

end Cert.Proof.ScSetup

end
-- ==== Proof.ScMain.lean ====
/-
  @main on the TensorCore inside the SparseCore launch: the host operations by the buffers held whole, the five
  TensorCore calls and the SparseCore call as steps between valuations of the unscoped buffers.
-/
import proofs.«203359_g24824910971486_cont_8to1_1854_34_alg».proof.Proof.ScSetup

noncomputable section

namespace Cert.Proof.ScMain

open Cert.KernelIdeal Cert.KernelIdeal.Gen Cert.Proof.ScSetup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The unscoped buffers, held whole -/

/-- Every buffer of @main: the TensorCore's references that are not scoped, as buffers of the device. -/
def Sall : Finset (DevRef τ sig) :=
  (Finset.univ.filter fun b : Ref sig .tc => ¬ b.isScoped).map ⟨Proc.devRef (τ := τ) .tc, Proc.devRef_injective _⟩

/-- The launch contents as a valuation of device `d`'s buffers. -/
def V0 (d : Dev nD) : Valuation τ sig (Elt F) := fun b => m (d, b)

theorem unscoped_held (d : Dev nD) :
    (unscopedBufs d (fun b => m ((SparseCore.T d).loc b)) : sProp 𝕄) = held (SparseCore.T d) Sall (V0 m d) := by
  unfold unscopedBufs held Sall
  rw [bigSep_map]
  rfl

variable [FloatOps F]

/-! ## @main's host operations -/

abbrev opC0 : HloOp τ sig (Elt F) := StableHlo.nullary main_cst (fun i => FloatOps.ofBits .f32 (lit0 (S128x8.rowMajor i)))
abbrev opC1 : HloOp τ sig (Elt F) := StableHlo.nullary main_cst_0 (fun i => FloatOps.ofBits .f32 (lit1 (S8x128.rowMajor i)))
abbrev opG : HloOp τ sig (Elt F) := StableHlo.reshape main_arg6 main_v0 rfl shapeCasts_S13_S1x13
abbrev opB : HloOp τ sig (Elt F) := StableHlo.reshape main_arg7 main_v1 rfl shapeCasts_S13_S1x13
abbrev opT0 : HloOp τ sig (Elt F) := StableHlo.reshape main_arg8 main_v3 rfl shapeCasts_S100000x16_S12500x128
abbrev opT1 : HloOp τ sig (Elt F) := StableHlo.reshape main_arg9 main_v4 rfl shapeCasts_S100000x16_S12500x128
abbrev opT2 : HloOp τ sig (Elt F) := StableHlo.reshape main_arg10 main_v5 rfl shapeCasts_S100000x16_S12500x128
abbrev opT3 : HloOp τ sig (Elt F) := StableHlo.reshape main_arg11 main_v6 rfl shapeCasts_S100000x16_S12500x128
abbrev opI0 : HloOp τ sig (Elt F) := StableHlo.reshape main_arg2 main_v11 rfl shapeCasts_S16384x50_S819200
abbrev opI1 : HloOp τ sig (Elt F) := StableHlo.reshape main_arg3 main_v12 rfl shapeCasts_S16384x50_S819200
abbrev opI2 : HloOp τ sig (Elt F) := StableHlo.reshape main_arg4 main_v13 rfl shapeCasts_S16384x50_S819200
abbrev opI3 : HloOp τ sig (Elt F) := StableHlo.reshape main_arg5 main_v14 rfl shapeCasts_S16384x50_S819200
abbrev opO0 : HloOp τ sig (Elt F) := StableHlo.reshape main_v15_0 main_v16 rfl shapeCasts_S102400x128_S16384x50x16
abbrev opO1 : HloOp τ sig (Elt F) := StableHlo.reshape main_v15_1 main_v17 rfl shapeCasts_S102400x128_S16384x50x16
abbrev opO2 : HloOp τ sig (Elt F) := StableHlo.reshape main_v15_2 main_v18 rfl shapeCasts_S102400x128_S16384x50x16
abbrev opO3 : HloOp τ sig (Elt F) := StableHlo.reshape main_v15_3 main_v19 rfl shapeCasts_S102400x128_S16384x50x16

abbrev dr (b : Ref sig .tc) : DevRef τ sig := Proc.devRef (τ := τ) .tc b

/-- The twelve argument buffers. -/
def Sargs : Finset (DevRef τ sig) :=
  {dr main_arg0, dr main_arg1, dr main_arg2, dr main_arg3, dr main_arg4, dr main_arg5, dr main_arg6, dr main_arg7, dr main_arg8, dr main_arg9, dr main_arg10, dr main_arg11}

theorem Sargs_sub : Sargs ⊆ Sall := by decide

theorem hC0 : (opC0 (F := F)).bufs ⊆ Sall := show ({dr main_cst} : Finset (DevRef τ sig)) ⊆ Sall by decide
theorem hC1 : (opC1 (F := F)).bufs ⊆ Sall := show ({dr main_cst_0} : Finset (DevRef τ sig)) ⊆ Sall by decide
theorem hG : (opG (F := F)).bufs ⊆ Sall := show ({dr main_arg6, dr main_v0} : Finset (DevRef τ sig)) ⊆ Sall by decide
theorem hB : (opB (F := F)).bufs ⊆ Sall := show ({dr main_arg7, dr main_v1} : Finset (DevRef τ sig)) ⊆ Sall by decide
theorem hT0 : (opT0 (F := F)).bufs ⊆ Sall := show ({dr main_arg8, dr main_v3} : Finset (DevRef τ sig)) ⊆ Sall by decide
theorem hT1 : (opT1 (F := F)).bufs ⊆ Sall := show ({dr main_arg9, dr main_v4} : Finset (DevRef τ sig)) ⊆ Sall by decide
theorem hT2 : (opT2 (F := F)).bufs ⊆ Sall := show ({dr main_arg10, dr main_v5} : Finset (DevRef τ sig)) ⊆ Sall by decide
theorem hT3 : (opT3 (F := F)).bufs ⊆ Sall := show ({dr main_arg11, dr main_v6} : Finset (DevRef τ sig)) ⊆ Sall by decide
theorem hI0 : (opI0 (F := F)).bufs ⊆ Sall := show ({dr main_arg2, dr main_v11} : Finset (DevRef τ sig)) ⊆ Sall by decide
theorem hI1 : (opI1 (F := F)).bufs ⊆ Sall := show ({dr main_arg3, dr main_v12} : Finset (DevRef τ sig)) ⊆ Sall by decide
theorem hI2 : (opI2 (F := F)).bufs ⊆ Sall := show ({dr main_arg4, dr main_v13} : Finset (DevRef τ sig)) ⊆ Sall by decide
theorem hI3 : (opI3 (F := F)).bufs ⊆ Sall := show ({dr main_arg5, dr main_v14} : Finset (DevRef τ sig)) ⊆ Sall by decide
theorem hO0 : (opO0 (F := F)).bufs ⊆ Sall := show ({dr main_v15_0, dr main_v16} : Finset (DevRef τ sig)) ⊆ Sall by decide
theorem hO1 : (opO1 (F := F)).bufs ⊆ Sall := show ({dr main_v15_1, dr main_v17} : Finset (DevRef τ sig)) ⊆ Sall by decide
theorem hO2 : (opO2 (F := F)).bufs ⊆ Sall := show ({dr main_v15_2, dr main_v18} : Finset (DevRef τ sig)) ⊆ Sall by decide
theorem hO3 : (opO3 (F := F)).bufs ⊆ Sall := show ({dr main_v15_3, dr main_v19} : Finset (DevRef τ sig)) ⊆ Sall by decide

/-- One host operation of @main, the buffers held whole: the continuation holds them at the operation's result. -/
theorem host_op (d : Dev nD) (hp : (Proc.tc : Proc τ).kind.runsHlo = true) (op : HloOp τ sig (Elt F)) (hS : op.bufs ⊆ Sall) (hf : op.fresh = ∅)
    (W : Valuation τ sig (Elt F)) (Q : PUnit → sProp 𝕄) :
    iprop(boundary (SparseCore.T d) ∗ (held (SparseCore.T d) Sall W : sProp 𝕄))
      ⊢ iprop(((boundary (SparseCore.T d) ∗ (held (SparseCore.T d) Sall (op.result W) : sProp 𝕄)) -∗ Q PUnit.unit)
          -∗ wp frame (wpE ((K (F := F)).defs (D (F := F))) 𝒱 (SparseCore.T d) none) Set.univ
              (hlo (p := Proc.tc) hp op (fun _ => Prog.ret PUnit.unit)) Q) := by
  iintro ⟨Hb, Hh⟩ Hk
  iapply (wp_hlo_within 𝒱 (SparseCore.T d) none Set.univ (op := op) (S := Sall) hS (V := W) hf) $$ [Hb Hh]
  · isplitl [Hb]; · iexact Hb
    iexact Hh
  iintro Hbh
  rw [wp_ret]; imodintro
  iapply Hk
  iexact Hbh

/-! ## The arguments stay at their launch contents -/

/-- A valuation that still has the launch contents in every argument buffer. -/
def Keeps (d : Dev nD) (W : Valuation τ sig (Elt F)) : Prop := ∀ b ∈ Sargs, W b = V0 m d b

theorem keeps_V0 (d : Dev nD) : Keeps m d (V0 m d) := fun _ _ => rfl

theorem keeps_result (d : Dev nD) (op : HloOp τ sig (Elt F)) (h : Disjoint op.writes Sargs) {W : Valuation τ sig (Elt F)}
    (hW : Keeps m d W) : Keeps m d (op.result W) := fun b hb => by
  rw [op.result_of_not_mem W (Finset.disjoint_right.mp h hb)]; exact hW b hb

theorem keeps_update (d : Dev nD) (b' : DevRef τ sig) (hb' : b' ∉ Sargs) (x : b'.ty.Contents (Elt F)) {W : Valuation τ sig (Elt F)}
    (hW : Keeps m d W) : Keeps m d (Function.update W b' x) := fun b hb => by
  have hne : b ≠ b' := fun e => hb' (by rw [← e]; exact hb)
  rw [Function.update_of_ne hne]; exact hW b hb

/-! ## The TensorCore calls and the SparseCore call as steps -/

section Main

variable (P : (K (F := F)).Pay (nD := nD) (Val := Elt F) (Name := ℕ) (U := UU))

/-- TensorCore call `p` as a step of @main: entered holding every buffer whole at `W` and the calls' ghost state `Gin`,
    it runs to its end and leaves the buffers whole, its output at `R d W`, the ghost state at `Gout`; the TensorCore's
    handshake state is carried through (it owes its start signals meanwhile). -/
def RegionStep (p : Fin 5) (out : Ref sig .tc) (R : (d : Dev nD) → Valuation τ sig (Elt F) → (dr out).ty.Contents (Elt F))
    (Gin Gout : Dev nD → sProp 𝕄) : Prop :=
  ∀ (κ : GSem nD τ sig → ℕ) (d : Dev nD) (W : Valuation τ sig (Elt F)) (Q : PUnit → sProp 𝕄),
    iprop((K (F := F)).ctx EH P κ ∗ (K (F := F)).tcSt EH d 0 ∗ boundary (SparseCore.T d) ∗ (held (SparseCore.T d) Sall W : sProp 𝕄) ∗ Gin d)
      ⊢ iprop((((K (F := F)).tcSt EH d 0 ∗ boundary (SparseCore.T d)
              ∗ (held (SparseCore.T d) Sall (Function.update W (dr out) (R d W)) : sProp 𝕄) ∗ Gout d) -∗ Q PUnit.unit)
          -∗ wp frame (wpE ((K (F := F)).defs (D (F := F))) 𝒱 (SparseCore.T d) none) Set.univ
              (Prog.lift (TpuEff.customCall (SparseCore.inner (Pipeline.entry p)) ())) Q)

variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))

/-- The buffers before TensorCore call 0: the two constants and the two reshaped vectors written. -/
abbrev WA (d : Dev nD) : Valuation τ sig (Elt F) := opB.result (opG.result (opC1.result (opC0.result (V0 m d))))
abbrev WA' (d : Dev nD) : Valuation τ sig (Elt F) := Function.update (WA m d) (dr main_v2) (R0 d (WA m d))
/-- before calls 1 to 4: the four tables reshaped. -/
abbrev WB (d : Dev nD) : Valuation τ sig (Elt F) := opT3.result (opT2.result (opT1.result (opT0.result (WA' m R0 d))))
abbrev WB1 (d : Dev nD) : Valuation τ sig (Elt F) := Function.update (WB m R0 d) (dr main_v7) (R1 d (WB m R0 d))
abbrev WB2 (d : Dev nD) : Valuation τ sig (Elt F) := Function.update (WB1 m R0 R1 d) (dr main_v8) (R2 d (WB1 m R0 R1 d))
abbrev WB3 (d : Dev nD) : Valuation τ sig (Elt F) := Function.update (WB2 m R0 R1 R2 d) (dr main_v9) (R3 d (WB2 m R0 R1 R2 d))
abbrev WB4 (d : Dev nD) : Valuation τ sig (Elt F) := Function.update (WB3 m R0 R1 R2 R3 d) (dr main_v10) (R4 d (WB3 m R0 R1 R2 R3 d))
/-- at the SparseCore call: the four index arrays flattened. -/
abbrev WC (d : Dev nD) : Valuation τ sig (Elt F) := opI3.result (opI2.result (opI1.result (opI0.result (WB4 m R0 R1 R2 R3 R4 d))))

theorem keeps_WC (d : Dev nD) : Keeps m d (WC m R0 R1 R2 R3 R4 d) := by
  unfold WC WB4 WB3 WB2 WB1 WB WA' WA
  refine keeps_result m d _ (show Disjoint ({dr main_v14} : Finset (DevRef τ sig)) Sargs by decide) ?_
  refine keeps_result m d _ (show Disjoint ({dr main_v13} : Finset (DevRef τ sig)) Sargs by decide) ?_
  refine keeps_result m d _ (show Disjoint ({dr main_v12} : Finset (DevRef τ sig)) Sargs by decide) ?_
  refine keeps_result m d _ (show Disjoint ({dr main_v11} : Finset (DevRef τ sig)) Sargs by decide) ?_
  refine keeps_update m d _ (show dr main_v10 ∉ Sargs by decide) _ ?_
  refine keeps_update m d _ (show dr main_v9 ∉ Sargs by decide) _ ?_
  refine keeps_update m d _ (show dr main_v8 ∉ Sargs by decide) _ ?_
  refine keeps_update m d _ (show dr main_v7 ∉ Sargs by decide) _ ?_
  refine keeps_result m d _ (show Disjoint ({dr main_v6} : Finset (DevRef τ sig)) Sargs by decide) ?_
  refine keeps_result m d _ (show Disjoint ({dr main_v5} : Finset (DevRef τ sig)) Sargs by decide) ?_
  refine keeps_result m d _ (show Disjoint ({dr main_v4} : Finset (DevRef τ sig)) Sargs by decide) ?_
  refine keeps_result m d _ (show Disjoint ({dr main_v3} : Finset (DevRef τ sig)) Sargs by decide) ?_
  refine keeps_update m d _ (show dr main_v2 ∉ Sargs by decide) _ ?_
  refine keeps_result m d _ (show Disjoint ({dr main_v1} : Finset (DevRef τ sig)) Sargs by decide) ?_
  refine keeps_result m d _ (show Disjoint ({dr main_v0} : Finset (DevRef τ sig)) Sargs by decide) ?_
  refine keeps_result m d _ (show Disjoint ({dr main_cst_0} : Finset (DevRef τ sig)) Sargs by decide) ?_
  refine keeps_result m d _ (show Disjoint ({dr main_cst} : Finset (DevRef τ sig)) Sargs by decide) ?_
  exact keeps_V0 m d

/-- The SparseCore call as a step: the buffers held whole at the call's valuation split into what each SparseCore is
    handed, and what they hand back joins into the buffers whole again, the arguments untouched. -/
def CallStep : Prop :=
  ∀ d : Dev nD, (held (SparseCore.T d) Sall (WC m R0 R1 R2 R3 R4 d) : sProp 𝕄)
    ⊢ |={Set.univ}=> iprop((bigSep Finset.univ fun c : Fin ((K (F := F)).nCore 0) => P.st 0 d c)
        ∗ ((bigSep Finset.univ fun c : Fin ((K (F := F)).nCore 0) => P.dn 0 d c)
            -∗ ∃ W' : Valuation τ sig (Elt F), ⌜Keeps m d W'⌝ ∗ (held (SparseCore.T d) Sall W' : sProp 𝕄)))

/-- What @main leaves the claim: every buffer whole, the arguments at their launch contents. -/
def FIN (d : Dev nD) : sProp 𝕄 := iprop(∃ Wf : Valuation τ sig (Elt F), ⌜Keeps m d Wf⌝ ∗ (held (SparseCore.T d) Sall Wf : sProp 𝕄))

/-- @main on device `d`'s TensorCore, from the five TensorCore calls and the SparseCore call as steps. -/
theorem hmain (G0 G1 G2 G3 G4 G5 : Dev nD → sProp 𝕄)
    (hR0 : RegionStep P 0 main_v2 R0 G0 G1) (hR1 : RegionStep P 1 main_v7 R1 G1 G2) (hR2 : RegionStep P 2 main_v8 R2 G2 G3)
    (hR3 : RegionStep P 3 main_v9 R3 G3 G4) (hR4 : RegionStep P 4 main_v10 R4 G4 G5)
    (hcall : CallStep m P R0 R1 R2 R3 R4)
    (κ : GSem nD τ sig → ℕ) (d : Dev nD) :
    iprop((K (F := F)).ctx EH P κ ∗ (K (F := F)).tcSt EH d 0 ∗ (K (F := F)).tcRes m ρ d ∗ G0 d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  iapply (host_op d rfl opC0 hC0 rfl _ _) $$ [Hb Hheld]
  · isplitl [Hb]; · iexact Hb
    iexact Hheld
  iintro ⟨Hb, Hheld⟩
  iapply (host_op d rfl opC1 hC1 rfl _ _) $$ [Hb Hheld]
  · isplitl [Hb]; · iexact Hb
    iexact Hheld
  iintro ⟨Hb, Hheld⟩
  iapply (host_op d rfl opG hG rfl _ _) $$ [Hb Hheld]
  · isplitl [Hb]; · iexact Hb
    iexact Hheld
  iintro ⟨Hb, Hheld⟩
  iapply (host_op d rfl opB hB rfl _ _) $$ [Hb Hheld]
  · isplitl [Hb]; · iexact Hb
    iexact Hheld
  iintro ⟨Hb, Hheld⟩
  iapply (hR0 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (host_op d rfl opT0 hT0 rfl _ _) $$ [Hb Hheld]
  · isplitl [Hb]; · iexact Hb
    iexact Hheld
  iintro ⟨Hb, Hheld⟩
  iapply (host_op d rfl opT1 hT1 rfl _ _) $$ [Hb Hheld]
  · isplitl [Hb]; · iexact Hb
    iexact Hheld
  iintro ⟨Hb, Hheld⟩
  iapply (host_op d rfl opT2 hT2 rfl _ _) $$ [Hb Hheld]
  · isplitl [Hb]; · iexact Hb
    iexact Hheld
  iintro ⟨Hb, Hheld⟩
  iapply (host_op d rfl opT3 hT3 rfl _ _) $$ [Hb Hheld]
  · isplitl [Hb]; · iexact Hb
    iexact Hheld
  iintro ⟨Hb, Hheld⟩
  iapply (hR1 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (hR2 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (hR3 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (hR4 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (host_op d rfl opI0 hI0 rfl _ _) $$ [Hb Hheld]
  · isplitl [Hb]; · iexact Hb
    iexact Hheld
  iintro ⟨Hb, Hheld⟩
  iapply (host_op d rfl opI1 hI1 rfl _ _) $$ [Hb Hheld]
  · isplitl [Hb]; · iexact Hb
    iexact Hheld
  iintro ⟨Hb, Hheld⟩
  iapply (host_op d rfl opI2 hI2 rfl _ _) $$ [Hb Hheld]
  · isplitl [Hb]; · iexact Hb
    iexact Hheld
  iintro ⟨Hb, Hheld⟩
  iapply (host_op d rfl opI3 hI3 rfl _ _) $$ [Hb Hheld]
  · isplitl [Hb]; · iexact Hb
    iexact Hheld
  iintro ⟨Hb, Hheld⟩
  -- the SparseCore call
  imod (hcall d) $$ Hheld with Hc
  icases Hc with ⟨Hstc, Hback⟩
  iapply ((K (F := F)).wp_run (D (F := F)) 𝒱 (EH := EH) (P := P) κ d 0) $$ [Hst Hstc Hb Hback]
  isplitr; · iexact Hctx
  isplitl [Hst]; · iexact Hst
  isplitl [Hstc]; · iexact Hstc
  iintro ⟨Hst, Hdn⟩
  ihave Hw := Hback $$ Hdn
  icases Hw with ⟨%W', %hK, Hheld⟩
  iapply (host_op d rfl opO0 hO0 rfl _ _) $$ [Hb Hheld]
  · isplitl [Hb]; · iexact Hb
    iexact Hheld
  iintro ⟨Hb, Hheld⟩
  iapply (host_op d rfl opO1 hO1 rfl _ _) $$ [Hb Hheld]
  · isplitl [Hb]; · iexact Hb
    iexact Hheld
  iintro ⟨Hb, Hheld⟩
  iapply (host_op d rfl opO2 hO2 rfl _ _) $$ [Hb Hheld]
  · isplitl [Hb]; · iexact Hb
    iexact Hheld
  iintro ⟨Hb, Hheld⟩
  iapply (host_op d rfl opO3 hO3 rfl _ _) $$ [Hb Hheld]
  · isplitl [Hb]; · iexact Hb
    iexact Hheld
  iintro ⟨Hb, Hheld⟩
  imodintro
  isplitl [Hst]; · iexact Hst
  unfold FIN
  iexists (opO3.result (opO2.result (opO1.result (opO0.result W'))))
  isplitr
  · ipureintro
    refine keeps_result m d _ (show Disjoint ({dr main_v19} : Finset (DevRef τ sig)) Sargs by decide) ?_
    refine keeps_result m d _ (show Disjoint ({dr main_v18} : Finset (DevRef τ sig)) Sargs by decide) ?_
    refine keeps_result m d _ (show Disjoint ({dr main_v17} : Finset (DevRef τ sig)) Sargs by decide) ?_
    refine keeps_result m d _ (show Disjoint ({dr main_v16} : Finset (DevRef τ sig)) Sargs by decide) ?_
    exact hK
  · iexact Hheld

end Main

end Cert.Proof.ScMain

end
-- ==== Proof.ScBodyDefs.lean ====
/-
  The vector-subcore task of the lookup kernel: the names of its operands, what a tile is handed and hands back, and
  the statement of its body obligation.
-/
import proofs.«203359_g24824910971486_cont_8to1_1854_34_alg».proof.Proof.ScSetup

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile, its operands as the body table passes them, and what it is handed -/

abbrev cV (L : grid5.Coords) : Fin τ.nSC := (L 0).castLE hcore5
abbrev jV (L : grid5.Coords) : Fin τ.nSub := (L 1).castLE hsub5

/-- The four scaled tables, the four index arrays and the four outputs, as the TensorCore names them. -/
abbrev t0Loc (d : Dev nD) : Loc nD τ sig := (SparseCore.T d).loc main_v7
abbrev t1Loc (d : Dev nD) : Loc nD τ sig := (SparseCore.T d).loc main_v8
abbrev t2Loc (d : Dev nD) : Loc nD τ sig := (SparseCore.T d).loc main_v9
abbrev t3Loc (d : Dev nD) : Loc nD τ sig := (SparseCore.T d).loc main_v10
abbrev i0Loc (d : Dev nD) : Loc nD τ sig := (SparseCore.T d).loc main_v11
abbrev i1Loc (d : Dev nD) : Loc nD τ sig := (SparseCore.T d).loc main_v12
abbrev i2Loc (d : Dev nD) : Loc nD τ sig := (SparseCore.T d).loc main_v13
abbrev i3Loc (d : Dev nD) : Loc nD τ sig := (SparseCore.T d).loc main_v14
abbrev o0Loc (d : Dev nD) : Loc nD τ sig := (SparseCore.T d).loc main_v15_0
abbrev o1Loc (d : Dev nD) : Loc nD τ sig := (SparseCore.T d).loc main_v15_1
abbrev o2Loc (d : Dev nD) : Loc nD τ sig := (SparseCore.T d).loc main_v15_2
abbrev o3Loc (d : Dev nD) : Loc nD τ sig := (SparseCore.T d).loc main_v15_3

/-- The rows of an output that tile `L` fills: 3200 lines from line `6400 * L 1 + 3200 * L 0`. -/
theorem oRect_inb (L : grid5.Coords) : ∀ a, (![6400 * (L 1).val + 3200 * (L 0).val, 0] : Fin 2 → Nat) a + (![3200, 128] : Fin 2 → Nat) a ≤ S102400x128.size a := by
  have h1 : (L 1).val < 16 := (L 1).isLt
  have h0 : (L 0).val < 2 := (L 0).isLt
  intro a
  match a with
  | 0 => show 6400 * (L 1).val + 3200 * (L 0).val + 3200 ≤ 102400; omega
  | 1 => show 0 + 128 ≤ 128; omega
abbrev oRect (L : grid5.Coords) : Rect S102400x128 := Rect.unit (s := S102400x128) ![6400 * (L 1).val + 3200 * (L 0).val, 0] ![3200, 128] (oRect_inb L)
abbrev oSet (L : grid5.Coords) : Finset S102400x128.Idx := (oRect L).set

/-- An index word in the tables' range, as a signed 32-bit integer. -/
def IdxOK (w : BitVec 32) : Prop := 0 ≤ w.toInt ∧ w.toInt ≤ 99999

/-- The grid point of vector subcore `s` of SparseCore `c`. -/
def coordsV (c : Fin (grid5.bound 0)) (s : Fin (grid5.bound 1)) : grid5.Coords :=
  fun | 0 => c | 1 => s | ⟨_ + 2, h⟩ => absurd h (Nat.not_lt.2 (Nat.le_add_left _ _))

section Handed

variable (d : Dev nD) (L : grid5.Coords)
variable (qT qI : PosShare TreeShare)
variable (T0 : Buf (Elt F) (t0Loc d)) (T1 : Buf (Elt F) (t1Loc d)) (T2 : Buf (Elt F) (t2Loc d)) (T3 : Buf (Elt F) (t3Loc d))
variable (I0 : Buf (Elt F) (i0Loc d)) (I1 : Buf (Elt F) (i1Loc d)) (I2 : Buf (Elt F) (i2Loc d)) (I3 : Buf (Elt F) (i3Loc d))

/-- The read-only operands: a share of each scaled table and of each index array, whole. -/
abbrev roPts : sProp 𝕄 :=
  iprop((t0Loc d ↦{qT} T0) ∗ (t1Loc d ↦{qT} T1) ∗ (t2Loc d ↦{qT} T2) ∗ (t3Loc d ↦{qT} T3)
    ∗ (i0Loc d ↦{qI} I0) ∗ (i1Loc d ↦{qI} I1) ∗ (i2Loc d ↦{qI} I2) ∗ (i3Loc d ↦{qI} I3))
/-- The tile's own lines of the four outputs, at some contents. -/
abbrev outPts : sProp 𝕄 :=
  iprop((∃ f, o0Loc d ↦[oSet L]{fullShare} f) ∗ (∃ f, o1Loc d ↦[oSet L]{fullShare} f) ∗ (∃ f, o2Loc d ↦[oSet L]{fullShare} f) ∗ (∃ f, o3Loc d ↦[oSet L]{fullShare} f))
/-- What the tile is handed and hands back. -/
abbrev handed : sProp 𝕄 := iprop(roPts (F := F) d qT qI T0 T1 T2 T3 I0 I1 I2 I3 ∗ outPts (F := F) d L)

/-- Every index word the four arrays hold is in the tables' range. -/
def IdxPre : Prop := (∀ j, IdxOK (I0 j)) ∧ (∀ j, IdxOK (I1 j)) ∧ (∀ j, IdxOK (I2 j)) ∧ (∀ j, IdxOK (I3 j))

end Handed

/-- The task of one vector subcore: handed a read share of the tables and the index arrays and its own lines of the
    outputs, it runs to its end and hands them back, its scratch and semaphores as it found them. -/
def TileBodyStmt [FloatOps F] : Prop :=
  ∀ (d : Dev nD) (L : grid5.Coords) (qT qI : PosShare TreeShare)
    (T0 : Buf (Elt F) (t0Loc d)) (T1 : Buf (Elt F) (t1Loc d)) (T2 : Buf (Elt F) (t2Loc d)) (T3 : Buf (Elt F) (t3Loc d))
    (I0 : Buf (Elt F) (i0Loc d)) (I1 : Buf (Elt F) (i1Loc d)) (I2 : Buf (Elt F) (i2Loc d)) (I3 : Buf (Elt F) (i3Loc d))
    (_hF : (K (F := F)).Facts) (O : CellTallies nD τ sig (HIx 1)) (W : Waits sig (HIx 1)) (_hO : ∀ g, O g none = 0)
    (_hidx : IdxPre (F := F) d I0 I1 I2 I3),
    iprop(levAts (K (F := F)).L (K (F := F)).lev ∗ emp ∗ handed (F := F) d L qT qI T0 T1 T2 T3 I0 I1 I2 I3
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc5_k L (Memref.whole main_v7_scv) (Memref.isWhole_whole _) (Memref.whole main_v8_scv) (Memref.isWhole_whole _) (Memref.whole main_v9_scv) (Memref.isWhole_whole _) (Memref.whole main_v10_scv) (Memref.isWhole_whole _)
            (Memref.whole main_v11_scv) (Memref.isWhole_whole _) (Memref.whole main_v12_scv) (Memref.isWhole_whole _) (Memref.whole main_v13_scv) (Memref.isWhole_whole _) (Memref.whole main_v14_scv) (Memref.isWhole_whole _)
            (Memref.whole main_v15_0_scv) (Memref.isWhole_whole _) (Memref.whole main_v15_1_scv) (Memref.isWhole_whole _) (Memref.whole main_v15_2_scv) (Memref.isWhole_whole _) (Memref.whole main_v15_3_scv) (Memref.isWhole_whole _)
            (Memref.whole cc5_scratch0) (Memref.isWhole_whole _) (Memref.whole cc5_scratch1) (Memref.isWhole_whole _) (Memref.whole cc5_scratch2) (Memref.isWhole_whole _) (Memref.whole cc5_scratch3) (Memref.isWhole_whole _)
            (Memref.whole cc5_scratch4) (Memref.isWhole_whole _) (Memref.whole cc5_scratch5) (Memref.isWhole_whole _) cc5_scratch6 cc5_scratch7
            cc5_scoped0 cc5_scoped1 cc5_scoped2 cc5_scoped3 cc5_scoped4 cc5_scoped5 cc5_scoped6 cc5_scoped7 cc5_scoped8 cc5_scoped9 cc5_scoped10 cc5_scoped11)
          fun _ => iprop(handed (F := F) d L qT qI T0 T1 T2 T3 I0 I1 I2 I3 ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.ScBody

end
-- ==== Proof.ScPay.lean ====
/-
  What the one SparseCore call hands each SparseCore and each vector subcore and takes back: a share of the four
  scaled tables and the four index arrays (sixteen shares per SparseCore, two SparseCores), and the subcore's own
  3200 lines of each of the four outputs.
-/
import proofs.«203359_g24824910971486_cont_8to1_1854_34_alg».proof.Proof.ScMain
import proofs.«203359_g24824910971486_cont_8to1_1854_34_alg».proof.Proof.ScBodyDefs

noncomputable section

namespace Cert.Proof.ScPay

open Cert.KernelIdeal Cert.KernelIdeal.Gen Cert.Proof.ScSetup Cert.Proof.ScMain Cert.Proof.ScBody

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What a vector subcore is handed -/

-- The contents of the four scaled tables and the four flattened index arrays at the call, per device.
variable (Tv0 : (d : Dev nD) → Buf (Elt F) (t0Loc d)) (Tv1 : (d : Dev nD) → Buf (Elt F) (t1Loc d))
  (Tv2 : (d : Dev nD) → Buf (Elt F) (t2Loc d)) (Tv3 : (d : Dev nD) → Buf (Elt F) (t3Loc d))
  (Iv0 : (d : Dev nD) → Buf (Elt F) (i0Loc d)) (Iv1 : (d : Dev nD) → Buf (Elt F) (i1Loc d))
  (Iv2 : (d : Dev nD) → Buf (Elt F) (i2Loc d)) (Iv3 : (d : Dev nD) → Buf (Elt F) (i3Loc d))

/-- The two SparseCores' halves of a full share. -/
def coreShare (c : ℕ) : PosShare TreeShare := if c = 0 then fullShare.left else fullShare.right
/-- Sixteen shares composing to `q`: fifteen successive right halves and the last remainder. -/
def tileShare (q : PosShare TreeShare) (i : ℕ) : PosShare TreeShare := if i < 15 then Transfers.shareTokN q i else Transfers.shareDrop q 15

/-- What vector subcore `i` of SparseCore `c` is handed and hands back: its share of the eight read-only arrays and
    its own lines of the four outputs. -/
abbrev tileHanded (d : Dev nD) (c : Fin 2) (i : Fin 16) : sProp 𝕄 :=
  handed (F := F) d (coordsV c i) (tileShare (coreShare c.val) i.val) (tileShare (coreShare c.val) i.val)
    (Tv0 d) (Tv1 d) (Tv2 d) (Tv3 d) (Iv0 d) (Iv1 d) (Iv2 d) (Iv3 d)

/-- The one call: each SparseCore is handed its sixteen subcores' parts, each subcore its own. -/
def P : (K (F := F)).Pay (nD := nD) (Val := Elt F) (Name := ℕ) (U := UU) where
  st := fun q d c => match q with
    | 0 => bigSep Finset.univ fun i : Fin 16 => tileHanded Tv0 Tv1 Tv2 Tv3 Iv0 Iv1 Iv2 Iv3 d (Fin.cast nCore_zero c) i
  dn := fun q d c => match q with
    | 0 => bigSep Finset.univ fun i : Fin 16 => tileHanded Tv0 Tv1 Tv2 Tv3 Iv0 Iv1 Iv2 Iv3 d (Fin.cast nCore_zero c) i
  go := fun q d c i => match q with
    | 0 => tileHanded Tv0 Tv1 Tv2 Tv3 Iv0 Iv1 Iv2 Iv3 d (Fin.cast nCore_zero c) (Fin.cast nSub_zero i)
  td := fun q d c i => match q with
    | 0 => tileHanded Tv0 Tv1 Tv2 Tv3 Iv0 Iv1 Iv2 Iv3 d (Fin.cast nCore_zero c) (Fin.cast nSub_zero i)
  x := fun _ _ => iprop(emp)

set_option synthInstance.maxHeartbeats 1000000 in
set_option maxHeartbeats 1000000 in
instance tileHanded_storable (d : Dev nD) (c : Fin 2) (i : Fin 16) :
    BI.Storable (upEmb : UEmb _ 𝕄) (tileHanded (F := F) Tv0 Tv1 Tv2 Tv3 Iv0 Iv1 Iv2 Iv3 d c i) := by
  infer_instance

instance P_storable : (P (F := F) Tv0 Tv1 Tv2 Tv3 Iv0 Iv1 Iv2 Iv3).IsStorable where
  st q d c := match q with
    | 0 => (inferInstance : BI.Storable (upEmb : UEmb _ 𝕄) (bigSep Finset.univ fun i : Fin 16 => tileHanded Tv0 Tv1 Tv2 Tv3 Iv0 Iv1 Iv2 Iv3 d (Fin.cast nCore_zero c) i))
  dn q d c := match q with
    | 0 => (inferInstance : BI.Storable (upEmb : UEmb _ 𝕄) (bigSep Finset.univ fun i : Fin 16 => tileHanded Tv0 Tv1 Tv2 Tv3 Iv0 Iv1 Iv2 Iv3 d (Fin.cast nCore_zero c) i))
  go q d c i := match q with
    | 0 => (inferInstance : BI.Storable (upEmb : UEmb _ 𝕄) (tileHanded Tv0 Tv1 Tv2 Tv3 Iv0 Iv1 Iv2 Iv3 d (Fin.cast nCore_zero c) (Fin.cast nSub_zero i)))
  td q d c i := match q with
    | 0 => (inferInstance : BI.Storable (upEmb : UEmb _ 𝕄) (tileHanded Tv0 Tv1 Tv2 Tv3 Iv0 Iv1 Iv2 Iv3 d (Fin.cast nCore_zero c) (Fin.cast nSub_zero i)))

end Cert.Proof.ScPay

end
-- ==== Proof.ScLaunch.lean ====
/-
  The launch of the SparseCore program: the split of the one call's operands among the vector subcores, the tile
  kernel's obligation from its body's run, the launch element of the ghost state, how the final memory reads the
  frame claim, and the run of the whole thread family — from the tile body's run, the five TensorCore calls as steps,
  the call's split and the funding of the TensorCore calls' ghost state.
-/
import proofs.«203359_g24824910971486_cont_8to1_1854_34_alg».proof.Proof.ScPay

noncomputable section

namespace Cert.Proof.ScLaunch

open Cert.KernelIdeal Cert.KernelIdeal.Gen Cert.Proof.ScSetup Cert.Proof.ScMain Cert.Proof.ScBody Cert.Proof.ScPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable (Tv0 : (d : Dev nD) → Buf (Elt F) (t0Loc d)) (Tv1 : (d : Dev nD) → Buf (Elt F) (t1Loc d))
  (Tv2 : (d : Dev nD) → Buf (Elt F) (t2Loc d)) (Tv3 : (d : Dev nD) → Buf (Elt F) (t3Loc d))
  (Iv0 : (d : Dev nD) → Buf (Elt F) (i0Loc d)) (Iv1 : (d : Dev nD) → Buf (Elt F) (i1Loc d))
  (Iv2 : (d : Dev nD) → Buf (Elt F) (i2Loc d)) (Iv3 : (d : Dev nD) → Buf (Elt F) (i3Loc d))

local notation "PP" => P (F := F) Tv0 Tv1 Tv2 Tv3 Iv0 Iv1 Iv2 Iv3

/-! ## The split: a SparseCore's part is its subcores' parts -/

theorem vecSplit : (K (F := F)).VecSplit' PP 0 := by
  intro d c
  show (bigSep Finset.univ fun i : Fin 16 => tileHanded Tv0 Tv1 Tv2 Tv3 Iv0 Iv1 Iv2 Iv3 d (Fin.cast nCore_zero c) i)
    ⊢ |={Set.univ}=> iprop((bigSep Finset.univ fun i : Fin 16 => tileHanded Tv0 Tv1 Tv2 Tv3 Iv0 Iv1 Iv2 Iv3 d (Fin.cast nCore_zero c) i)
      ∗ ((bigSep Finset.univ fun i : Fin 16 => tileHanded Tv0 Tv1 Tv2 Tv3 Iv0 Iv1 Iv2 Iv3 d (Fin.cast nCore_zero c) i)
          -∗ (bigSep Finset.univ fun i : Fin 16 => tileHanded Tv0 Tv1 Tv2 Tv3 Iv0 Iv1 Iv2 Iv3 d (Fin.cast nCore_zero c) i)))
  iintro H
  imodintro
  isplitl [H]; · iexact H
  iintro H; iexact H

/-! ## The tile kernel's obligation, from its body's run -/

variable [FloatOps F]

theorem defs₀_vector (c : Fin τ.nSC) (s : Fin τ.nSub) :
    defs₀ (F := F) (.scVector c s) 5 ()
      = SparseCore.onTile hcore5 hsub5 (fun c s => cc5_k (coordsV c s)
          (Memref.whole main_v7_scv) (Memref.isWhole_whole _) (Memref.whole main_v8_scv) (Memref.isWhole_whole _) (Memref.whole main_v9_scv) (Memref.isWhole_whole _) (Memref.whole main_v10_scv) (Memref.isWhole_whole _)
          (Memref.whole main_v11_scv) (Memref.isWhole_whole _) (Memref.whole main_v12_scv) (Memref.isWhole_whole _) (Memref.whole main_v13_scv) (Memref.isWhole_whole _) (Memref.whole main_v14_scv) (Memref.isWhole_whole _)
          (Memref.whole main_v15_0_scv) (Memref.isWhole_whole _) (Memref.whole main_v15_1_scv) (Memref.isWhole_whole _) (Memref.whole main_v15_2_scv) (Memref.isWhole_whole _) (Memref.whole main_v15_3_scv) (Memref.isWhole_whole _)
          (Memref.whole cc5_scratch0) (Memref.isWhole_whole _) (Memref.whole cc5_scratch1) (Memref.isWhole_whole _) (Memref.whole cc5_scratch2) (Memref.isWhole_whole _) (Memref.whole cc5_scratch3) (Memref.isWhole_whole _)
          (Memref.whole cc5_scratch4) (Memref.isWhole_whole _) (Memref.whole cc5_scratch5) (Memref.isWhole_whole _) cc5_scratch6 cc5_scratch7
          cc5_scoped0 cc5_scoped1 cc5_scoped2 cc5_scoped3 cc5_scoped4 cc5_scoped5 cc5_scoped6 cc5_scoped7 cc5_scoped8 cc5_scoped9 cc5_scoped10 cc5_scoped11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBodyStmt (F := F))
    (hidx : ∀ d : Dev nD, IdxPre (F := F) d (Iv0 d) (Iv1 d) (Iv2 d) (Iv3 d)) :
    (K (F := F)).TileObl (D (F := F)) 𝒱 PP v₀ 0 := by
  intro d c i O W hO _ _
  simp only [show (PP).ox = fun _ _ => 0 from rfl, add_zero]
  change _ ⊢ wp _ _ _ (Pipeline.liftProg (defs₀ (F := F) (.scVector ((K (F := F)).core 0 c) ((K (F := F)).sub 0 i)) 5 ())) _
  refine BI.Entails.trans ?_ (Pipeline.wp_liftProg (D (F := F)) (Pipeline.defs_kernel pcfgs defs₀) 𝒱₀ _ Set.univ none _ _)
  have hc : ((K (F := F)).core 0 c).val < grid5.bound 0 ∧ ((K (F := F)).sub 0 i).val < grid5.bound 1 := ⟨c.isLt, i.isLt⟩
  rw [defs₀_vector]; simp only [SparseCore.onTile, hc, and_self, ↓reduceDIte]
  exact (hbody d (coordsV ⟨_, hc.1⟩ ⟨_, hc.2⟩) _ _ (Tv0 d) (Tv1 d) (Tv2 d) (Tv3 d) (Iv0 d) (Iv1 d) (Iv2 d) (Iv3 d) facts O W hO (hidx d)).trans
    (wp_mono frame _ _ fun _ => obl_post)

/-! ## The launch element: the handshakes' rounds, the TensorCore calls' ghost state, nothing of the tile kernel's own -/

/-- The certificate's launch element: the handshake cells' rounds, the staging cells' element, the counters' unit. -/
def u₀ (uP : UP) : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

omit [FloatOps F] in
theorem hu₀ (G0 : Dev nD → sProp 𝕄) (uP : UP) (hfund : (BI.own (EP (F := F) uP) : sProp 𝕄) ⊢ |={Set.univ}=> bigSep Finset.univ G0) :
    (ownU (u₀ (F := F) uP) : sProp 𝕄)
      ⊢ |={Set.univ}=> iprop(BI.own (EH (initOf (K (F := F)).hsCells (K (F := F)).hsToks)) ∗ (bigSep Finset.univ G0)
        ∗ bigSep Finset.univ fun thr : Thread nD τ => bigSep Finset.univ fun q : Fin 1 => (PP).x q thr) := by
  unfold u₀
  iintro Hu
  ihave H := (ownU_pair _ _) $$ Hu
  icases H with ⟨HH, HR⟩
  ihave H2 := (own_pair_emb (embR : Emb (UP × Counters) 𝕄) uP (1 : Counters)) $$ HR
  icases H2 with ⟨HP, -⟩
  unfold EP at hfund
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory reads the frame claim -/

def fq (d : Dev nD) (s' : Phys nD τ sig (Elt F)) : Prop := ∀ b ∈ Sargs, s'.mem.mem (d, b) = m (d, b)

omit [FloatOps F] in
theorem hfin (d : Dev nD) (s' : Phys nD τ sig (Elt F)) : iprop(FIN m d ∗ SI s') ⊢ (⌜fq m d s'⌝ : sProp 𝕄) := by
  unfold FIN held
  iintro ⟨⟨%Wf, %hK, Hh⟩, HSI⟩
  ihave %h := (SI_pointsTo_bufs_agree (st := s') (c := d) (qs := fun _ => fullShare) (F := Wf) Sall) $$ [HSI Hh]
  · isplitl [HSI]; · iexact HSI
    iexact Hh
  ipureintro
  intro b hb
  rw [h b (Sargs_sub hb), hK b hb]; rfl

/-! ## The run -/

def QC : PUnit × MemSt nD τ sig (Elt F) → Prop := fun r => ∀ c : Dev nD, ∀ b ∈ Sargs, r.2.mem (c, b) = m (c, b)

variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))

/-- Every weakly fair execution of the whole thread family terminates, nothing faulting, the argument arrays at their
    launch contents: from the tile body's run, the index words' range, the five TensorCore calls as steps, the call's
    split, and the funding of the TensorCore calls' ghost state from the launch element. -/
theorem run_main [∀ e, Nonempty (Elt F e)] (G0 G1 G2 G3 G4 G5 : Dev nD → sProp 𝕄) (uP : UP)
    (hbody : TileBodyStmt (F := F)) (hidx : ∀ d : Dev nD, IdxPre (F := F) d (Iv0 d) (Iv1 d) (Iv2 d) (Iv3 d))
    (hR0 : RegionStep PP 0 main_v2 R0 G0 G1) (hR1 : RegionStep PP 1 main_v7 R1 G1 G2) (hR2 : RegionStep PP 2 main_v8 R2 G2 G3)
    (hR3 : RegionStep PP 3 main_v9 R3 G3 G4) (hR4 : RegionStep PP 4 main_v10 R4 G4 G5)
    (hcall : CallStep m PP R0 R1 R2 R3 R4)
    (hfund : (BI.own (EP (F := F) uP) : sProp 𝕄) ⊢ |={Set.univ}=> bigSep Finset.univ G0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP) facts v₀
    (fun q hq => match q with | 0 => nomatch hq)
    (fun q _ => match q with | 0 => tileObl Tv0 Tv1 Tv2 Tv3 Iv0 Iv1 Iv2 Iv3 hbody hidx)
    (fun q _ => match q with | 0 => SparseCore.Cfg.VecSplit.of_plain (vecSplit Tv0 Tv1 Tv2 Tv3 Iv0 Iv1 Iv2 Iv3))
    m ρ main G0 (FIN m) (u₀ (F := F) uP) (sep_elim_left.trans (hu₀ Tv0 Tv1 Tv2 Tv3 Iv0 Iv1 Iv2 Iv3 G0 uP hfund))
    (hmain m ρ PP R0 R1 R2 R3 R4 G0 G1 G2 G3 G4 G5 hR0 hR1 hR2 hR3 hR4 hcall) (fq m) (hfin m) (QC m) (fun _ h => h)

end Cert.Proof.ScLaunch

end
-- ==== Proof.ScCall.lean ====
/-
  The SparseCore call's split: the buffers @main holds whole at the call, cut into what each of the two SparseCores'
  sixteen vector subcores is handed — a share of each of the eight read-only arrays, and its own 3200 lines of each of
  the four outputs — and, on the way back, the shares rejoined and the outputs' lines joined into whole arrays.
-/
import proofs.«203359_g24824910971486_cont_8to1_1854_34_alg».proof.Proof.ScPay

noncomputable section

namespace Cert.Proof.ScCall

open Cert.KernelIdeal Cert.KernelIdeal.Gen Cert.Proof.ScSetup Cert.Proof.ScMain Cert.Proof.ScBody Cert.Proof.ScPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type}

local notation "𝕄" => MT nD τ sig (HIx 1) (Elt F) ℕ UU ℕ

/-! ## A points-to along the thirty-two shares -/

section Shares

variable {ℓ : Loc nD τ sig} (I : Finset (Idx ℓ)) (f : Buf (Elt F) ℓ)

/-- A points-to at share `q` is the sixteen points-to at the sixteen shares `tileShare q i`: fifteen successive right
    halves and the last remainder. -/
theorem pointsTo_tiles (q : PosShare TreeShare) :
    (ℓ ↦[I]{q} f : sProp 𝕄) = bigSep Finset.univ fun i : Fin 16 => ℓ ↦[I]{tileShare q i.val} f := by
  have h1 : (bigSep Finset.univ fun i : Fin 16 => (ℓ ↦[I]{tileShare q i.val} f : sProp 𝕄))
      = bigSep (Finset.range 16) fun i => ℓ ↦[I]{tileShare q i} f := by
    rw [← Nat.Iio_eq_range, ← Fin.map_valEmbedding_univ, BI.bigSep_map]; rfl
  have h2 : (bigSep (Finset.range 16) fun i => (ℓ ↦[I]{tileShare q i} f : sProp 𝕄))
      = iprop((ℓ ↦[I]{Transfers.shareDrop q 15} f) ∗ bigSep (Finset.range 15) fun i => ℓ ↦[I]{Transfers.shareTokN q i} f) := by
    rw [show (16 : ℕ) = 15 + 1 from rfl, Finset.range_add_one, BI.bigSep_insert Finset.notMem_range_self]
    refine congrArg₂ BI.sep ?_ (bigSep_congr fun i hi => ?_)
    · unfold tileShare; rw [if_neg (by decide)]
    · unfold tileShare; rw [if_pos (Finset.mem_range.mp hi)]
  rw [h1, h2]
  have h := Transfers.pointsTo_toks_range (ℓ := ℓ) (S := I) (f := f) (Val := Elt F) (Ix := HIx 1) (Name := ℕ) (U := UU) (Lvl := ℕ) q 15
  exact BI.equiv_iff.mp ⟨h.1, h.2⟩

/-- A points-to at the full share is the two at the two SparseCores' halves. -/
theorem pointsTo_cores :
    (ℓ ↦[I]{fullShare} f : sProp 𝕄) = bigSep Finset.univ fun c : Fin 2 => ℓ ↦[I]{coreShare c.val} f := by
  rw [bigSep_univ_two]
  have h : (ℓ ↦[I]{fullShare} f : sProp 𝕄) ⊣⊢ iprop((ℓ ↦[I]{fullShare.left} f) ∗ ℓ ↦[I]{fullShare.right} f) :=
    pointsTo_share (PosShare.mem_left_op_right _)
  exact BI.equiv_iff.mp ⟨h.1, h.2⟩

/-- A points-to at the full share is the thirty-two at the subcores' shares, SparseCore by SparseCore. -/
theorem pointsTo_tileShares :
    (ℓ ↦[I]{fullShare} f : sProp 𝕄)
      = bigSep Finset.univ fun c : Fin 2 => bigSep Finset.univ fun i : Fin 16 => ℓ ↦[I]{tileShare (coreShare c.val) i.val} f := by
  rw [pointsTo_cores]
  exact bigSep_congr fun c _ => pointsTo_tiles I f _

end Shares

/-! ## The outputs' lines: thirty-two ranges of 3200 lines that cover an output, pairwise disjoint -/

/-- The lines of an output that subcore `p.2` of SparseCore `p.1` fills: 3200 lines from line `3200 (2 p.2 + p.1)`. -/
abbrev oK (p : Fin 2 × Fin 16) : Finset S102400x128.Idx := oSet (coordsV p.1 p.2)

theorem oK_disjoint : ∀ p ∈ (Finset.univ : Finset (Fin 2 × Fin 16)), ∀ p' ∈ (Finset.univ : Finset (Fin 2 × Fin 16)),
    p ≠ p' → Disjoint (oK p) (oK p') := by
  intro p _ p' _ hne
  have hc : p.1.val < 2 := p.1.isLt
  have hi : p.2.val < 16 := p.2.isLt
  have hc' : p'.1.val < 2 := p'.1.isLt
  have hi' : p'.2.val < 16 := p'.2.isLt
  have hne' : 2 * p.2.val + p.1.val ≠ 2 * p'.2.val + p'.1.val := fun e =>
    hne (Prod.ext (Fin.ext (by omega)) (Fin.ext (by omega)))
  refine Rect.unit_disjoint 0 ?_
  show 6400 * p.2.val + 3200 * p.1.val + 3200 ≤ 6400 * p'.2.val + 3200 * p'.1.val
    ∨ 6400 * p'.2.val + 3200 * p'.1.val + 3200 ≤ 6400 * p.2.val + 3200 * p.1.val
  omega

theorem oK_cover : (Finset.univ : Finset (Fin 2 × Fin 16)).biUnion oK = Finset.univ := by
  ext x
  simp only [Finset.mem_biUnion, Finset.mem_univ, true_and, iff_true]
  have h0 : (x 0).val < 102400 := (x 0).isLt
  have h1 : (x 1).val < 128 := (x 1).isLt
  refine ⟨(⟨(x 0).val / 3200 % 2, by omega⟩, ⟨(x 0).val / 6400, by omega⟩), Rect.mem_set_unit.mpr fun a => ?_⟩
  match a with
  | 0 =>
    show 6400 * ((x 0).val / 6400) + 3200 * ((x 0).val / 3200 % 2) ≤ (x 0).val
      ∧ (x 0).val < 6400 * ((x 0).val / 6400) + 3200 * ((x 0).val / 3200 % 2) + 3200
    omega
  | 1 =>
    show 0 ≤ (x 1).val ∧ (x 1).val < 0 + 128
    omega

section Lines

variable {ℓ : Loc nD τ sig} (Kp : Fin 2 × Fin 16 → Finset (Idx ℓ))
  (hdisj : ∀ p ∈ (Finset.univ : Finset (Fin 2 × Fin 16)), ∀ p' ∈ (Finset.univ : Finset (Fin 2 × Fin 16)), p ≠ p' → Disjoint (Kp p) (Kp p'))
  (hcov : (Finset.univ : Finset (Fin 2 × Fin 16)).biUnion Kp = Finset.univ)

include hdisj hcov

/-- A whole array at the full share is its thirty-two pieces, SparseCore by SparseCore. -/
theorem pointsTo_lines (f : Buf (Elt F) ℓ) :
    (ℓ ↦{fullShare} f : sProp 𝕄)
      = bigSep Finset.univ fun c : Fin 2 => bigSep Finset.univ fun i : Fin 16 => ℓ ↦[Kp (c, i)]{fullShare} f := by
  rw [← bigSep_univ_prod (fun p : Fin 2 × Fin 16 => (ℓ ↦[Kp p]{fullShare} f : sProp 𝕄)),
    ← pointsTo_biUnion Finset.univ Kp hdisj, hcov]

/-- Thirty-two pieces, each at contents of its own, join into a whole array at some contents. -/
theorem lines_join (f₀ : Buf (Elt F) ℓ) :
    (bigSep Finset.univ fun c : Fin 2 => bigSep Finset.univ fun i : Fin 16 => iprop(∃ f, ℓ ↦[Kp (c, i)]{fullShare} f))
      ⊢ (iprop(∃ g, ℓ ↦{fullShare} g) : sProp 𝕄) := by
  rw [← bigSep_univ_prod (fun p : Fin 2 × Fin 16 => (iprop(∃ f, ℓ ↦[Kp p]{fullShare} f) : sProp 𝕄))]
  refine (@bigSep_exists_pi 𝕄 _ (Fin 2 × Fin 16) _ (fun _ => Buf (Elt F) ℓ) (fun _ => ⟨f₀⟩) Finset.univ
    (fun (p : Fin 2 × Fin 16) (f : Buf (Elt F) ℓ) => (ℓ ↦[Kp p]{fullShare} f : sProp 𝕄))).trans ?_
  iintro ⟨%fs, H⟩
  ihave H' := (pointsTo_biUnion_join Finset.univ Kp fs f₀ hdisj) $$ H
  icases H' with ⟨%g, -, Hg⟩
  rw [hcov]
  iexists g; iexact Hg

end Lines

/-- Pieces at known contents are pieces at some contents. -/
theorem lines_some {ℓ : Loc nD τ sig} (Kp : Fin 2 × Fin 16 → Finset (Idx ℓ)) (f : Buf (Elt F) ℓ) :
    (bigSep Finset.univ fun c : Fin 2 => bigSep Finset.univ fun i : Fin 16 => (ℓ ↦[Kp (c, i)]{fullShare} f : sProp 𝕄))
      ⊢ bigSep Finset.univ fun c : Fin 2 => bigSep Finset.univ fun i : Fin 16 => iprop(∃ f, ℓ ↦[Kp (c, i)]{fullShare} f) :=
  bigSep_mono fun c _ => bigSep_mono fun i _ =>
    show (ℓ ↦[Kp (c, i)]{fullShare} f : sProp 𝕄) ⊢ iprop(∃ f, ℓ ↦[Kp (c, i)]{fullShare} f) from by
      iintro H; iexists f; iexact H

/-! ## The twelve buffers the call hands out -/

/-- The four scaled tables, the four flattened index arrays and the four outputs. -/
def S12 : Finset (DevRef τ sig) :=
  {dr main_v7, dr main_v8, dr main_v9, dr main_v10, dr main_v11, dr main_v12, dr main_v13, dr main_v14,
    dr main_v15_0, dr main_v15_1, dr main_v15_2, dr main_v15_3}

theorem S12_sub : S12 ⊆ Sall := by decide

theorem held_S12 (d : Dev nD) (W : Valuation τ sig (Elt F)) :
    (held (SparseCore.T d) S12 W : sProp 𝕄)
      = iprop((t0Loc d ↦{fullShare} W (dr main_v7)) ∗ (t1Loc d ↦{fullShare} W (dr main_v8))
          ∗ (t2Loc d ↦{fullShare} W (dr main_v9)) ∗ (t3Loc d ↦{fullShare} W (dr main_v10))
          ∗ (i0Loc d ↦{fullShare} W (dr main_v11)) ∗ (i1Loc d ↦{fullShare} W (dr main_v12))
          ∗ (i2Loc d ↦{fullShare} W (dr main_v13)) ∗ (i3Loc d ↦{fullShare} W (dr main_v14))
          ∗ (o0Loc d ↦{fullShare} W (dr main_v15_0)) ∗ (o1Loc d ↦{fullShare} W (dr main_v15_1))
          ∗ (o2Loc d ↦{fullShare} W (dr main_v15_2)) ∗ (o3Loc d ↦{fullShare} W (dr main_v15_3))) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- A valuation with the four outputs replaced. -/
def upd4 (W : Valuation τ sig (Elt F)) (g0 : (dr main_v15_0).ty.Contents (Elt F)) (g1 : (dr main_v15_1).ty.Contents (Elt F))
    (g2 : (dr main_v15_2).ty.Contents (Elt F)) (g3 : (dr main_v15_3).ty.Contents (Elt F)) : Valuation τ sig (Elt F) :=
  Function.update (Function.update (Function.update (Function.update W (dr main_v15_0) g0) (dr main_v15_1) g1) (dr main_v15_2) g2)
    (dr main_v15_3) g3

section Upd4
variable (W : Valuation τ sig (Elt F)) (g0 : (dr main_v15_0).ty.Contents (Elt F)) (g1 : (dr main_v15_1).ty.Contents (Elt F))
  (g2 : (dr main_v15_2).ty.Contents (Elt F)) (g3 : (dr main_v15_3).ty.Contents (Elt F))

theorem upd4_other (b : DevRef τ sig) (h0 : b ≠ dr main_v15_0) (h1 : b ≠ dr main_v15_1) (h2 : b ≠ dr main_v15_2)
    (h3 : b ≠ dr main_v15_3) : upd4 W g0 g1 g2 g3 b = W b := by
  unfold upd4
  rw [Function.update_of_ne h3, Function.update_of_ne h2, Function.update_of_ne h1, Function.update_of_ne h0]
theorem upd4_o0 : upd4 W g0 g1 g2 g3 (dr main_v15_0) = g0 := by
  unfold upd4
  rw [Function.update_of_ne (by decide), Function.update_of_ne (by decide), Function.update_of_ne (by decide), Function.update_self]
theorem upd4_o1 : upd4 W g0 g1 g2 g3 (dr main_v15_1) = g1 := by
  unfold upd4
  rw [Function.update_of_ne (by decide), Function.update_of_ne (by decide), Function.update_self]
theorem upd4_o2 : upd4 W g0 g1 g2 g3 (dr main_v15_2) = g2 := by
  unfold upd4
  rw [Function.update_of_ne (by decide), Function.update_self]
theorem upd4_o3 : upd4 W g0 g1 g2 g3 (dr main_v15_3) = g3 := by
  unfold upd4
  rw [Function.update_self]
end Upd4

/-- The twelve buffers held at a valuation with the four outputs replaced: the eight read-only arrays at the old contents,
    the outputs at the new. -/
theorem held_S12_upd4 (d : Dev nD) (W : Valuation τ sig (Elt F)) (g0 : (dr main_v15_0).ty.Contents (Elt F))
    (g1 : (dr main_v15_1).ty.Contents (Elt F)) (g2 : (dr main_v15_2).ty.Contents (Elt F)) (g3 : (dr main_v15_3).ty.Contents (Elt F)) :
    (held (SparseCore.T d) S12 (upd4 W g0 g1 g2 g3) : sProp 𝕄)
      = iprop((t0Loc d ↦{fullShare} W (dr main_v7)) ∗ (t1Loc d ↦{fullShare} W (dr main_v8))
          ∗ (t2Loc d ↦{fullShare} W (dr main_v9)) ∗ (t3Loc d ↦{fullShare} W (dr main_v10))
          ∗ (i0Loc d ↦{fullShare} W (dr main_v11)) ∗ (i1Loc d ↦{fullShare} W (dr main_v12))
          ∗ (i2Loc d ↦{fullShare} W (dr main_v13)) ∗ (i3Loc d ↦{fullShare} W (dr main_v14))
          ∗ (o0Loc d ↦{fullShare} g0) ∗ (o1Loc d ↦{fullShare} g1) ∗ (o2Loc d ↦{fullShare} g2) ∗ (o3Loc d ↦{fullShare} g3)) := by
  rw [held_S12]
  refine congrArg₂ BI.sep (congrArg (fun x => (t0Loc d ↦{fullShare} x : sProp 𝕄)) (upd4_other W g0 g1 g2 g3 _ (by decide) (by decide) (by decide) (by decide))) ?_
  refine congrArg₂ BI.sep (congrArg (fun x => (t1Loc d ↦{fullShare} x : sProp 𝕄)) (upd4_other W g0 g1 g2 g3 _ (by decide) (by decide) (by decide) (by decide))) ?_
  refine congrArg₂ BI.sep (congrArg (fun x => (t2Loc d ↦{fullShare} x : sProp 𝕄)) (upd4_other W g0 g1 g2 g3 _ (by decide) (by decide) (by decide) (by decide))) ?_
  refine congrArg₂ BI.sep (congrArg (fun x => (t3Loc d ↦{fullShare} x : sProp 𝕄)) (upd4_other W g0 g1 g2 g3 _ (by decide) (by decide) (by decide) (by decide))) ?_
  refine congrArg₂ BI.sep (congrArg (fun x => (i0Loc d ↦{fullShare} x : sProp 𝕄)) (upd4_other W g0 g1 g2 g3 _ (by decide) (by decide) (by decide) (by decide))) ?_
  refine congrArg₂ BI.sep (congrArg (fun x => (i1Loc d ↦{fullShare} x : sProp 𝕄)) (upd4_other W g0 g1 g2 g3 _ (by decide) (by decide) (by decide) (by decide))) ?_
  refine congrArg₂ BI.sep (congrArg (fun x => (i2Loc d ↦{fullShare} x : sProp 𝕄)) (upd4_other W g0 g1 g2 g3 _ (by decide) (by decide) (by decide) (by decide))) ?_
  refine congrArg₂ BI.sep (congrArg (fun x => (i3Loc d ↦{fullShare} x : sProp 𝕄)) (upd4_other W g0 g1 g2 g3 _ (by decide) (by decide) (by decide) (by decide))) ?_
  refine congrArg₂ BI.sep (congrArg (fun x => (o0Loc d ↦{fullShare} x : sProp 𝕄)) (upd4_o0 W g0 g1 g2 g3)) ?_
  refine congrArg₂ BI.sep (congrArg (fun x => (o1Loc d ↦{fullShare} x : sProp 𝕄)) (upd4_o1 W g0 g1 g2 g3)) ?_
  exact congrArg₂ BI.sep (congrArg (fun x => (o2Loc d ↦{fullShare} x : sProp 𝕄)) (upd4_o2 W g0 g1 g2 g3))
    (congrArg (fun x => (o3Loc d ↦{fullShare} x : sProp 𝕄)) (upd4_o3 W g0 g1 g2 g3))

/-! ## The split, over any valuation that keeps the arguments -/

section Split

variable [FloatOps F]
variable (m : (ℓ : Loc nD τ sig) → Buf (Elt F) ℓ)

/-- What the thirty-two subcores are handed and hand back, SparseCore by SparseCore, the read-only arrays' contents those
    of the valuation `W`. -/
abbrev allHanded (d : Dev nD) (W : Valuation τ sig (Elt F)) : sProp 𝕄 :=
  bigSep Finset.univ fun c : Fin 2 => bigSep Finset.univ fun i : Fin 16 =>
    handed (F := F) d (coordsV c i) (tileShare (coreShare c.val) i.val) (tileShare (coreShare c.val) i.val)
      (W (dr main_v7)) (W (dr main_v8)) (W (dr main_v9)) (W (dr main_v10))
      (W (dr main_v11)) (W (dr main_v12)) (W (dr main_v13)) (W (dr main_v14))

theorem split_gen (d : Dev nD) (W : Valuation τ sig (Elt F)) (hK : Keeps m d W) :
    (held (SparseCore.T d) Sall W : sProp 𝕄)
      ⊢ |={Set.univ}=> iprop(allHanded (F := F) d W
          ∗ (allHanded (F := F) d W -∗ ∃ W' : Valuation τ sig (Elt F), ⌜Keeps m d W'⌝ ∗ (held (SparseCore.T d) Sall W' : sProp 𝕄))) := by
  unfold allHanded
  simp only [handed, roPts, outPts, bigSep_sep']
  rw [held_sub_split (SparseCore.T d) S12_sub W, held_S12]
  rw [pointsTo_tileShares (ℓ := t0Loc d) Finset.univ (W (dr main_v7)), pointsTo_tileShares (ℓ := t1Loc d) Finset.univ (W (dr main_v8)),
    pointsTo_tileShares (ℓ := t2Loc d) Finset.univ (W (dr main_v9)), pointsTo_tileShares (ℓ := t3Loc d) Finset.univ (W (dr main_v10)),
    pointsTo_tileShares (ℓ := i0Loc d) Finset.univ (W (dr main_v11)), pointsTo_tileShares (ℓ := i1Loc d) Finset.univ (W (dr main_v12)),
    pointsTo_tileShares (ℓ := i2Loc d) Finset.univ (W (dr main_v13)), pointsTo_tileShares (ℓ := i3Loc d) Finset.univ (W (dr main_v14)),
    pointsTo_lines (ℓ := o0Loc d) oK oK_disjoint oK_cover (W (dr main_v15_0)), pointsTo_lines (ℓ := o1Loc d) oK oK_disjoint oK_cover (W (dr main_v15_1)),
    pointsTo_lines (ℓ := o2Loc d) oK oK_disjoint oK_cover (W (dr main_v15_2)), pointsTo_lines (ℓ := o3Loc d) oK oK_disjoint oK_cover (W (dr main_v15_3))]
  iintro ⟨⟨H0, H1, H2, H3, H4, H5, H6, H7, O0, O1, O2, O3⟩, Hrest⟩
  imodintro
  isplitl [H0 H1 H2 H3 H4 H5 H6 H7 O0 O1 O2 O3]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · isplitl [O0]; · iapply (lines_some (ℓ := o0Loc d) oK (W (dr main_v15_0))); iexact O0
      isplitl [O1]; · iapply (lines_some (ℓ := o1Loc d) oK (W (dr main_v15_1))); iexact O1
      isplitl [O2]; · iapply (lines_some (ℓ := o2Loc d) oK (W (dr main_v15_2))); iexact O2
      iapply (lines_some (ℓ := o3Loc d) oK (W (dr main_v15_3))); iexact O3
  · iintro ⟨⟨H0, H1, H2, H3, H4, H5, H6, H7⟩, O0, O1, O2, O3⟩
    ihave G0 := (lines_join (ℓ := o0Loc d) oK oK_disjoint oK_cover (W (dr main_v15_0))) $$ O0
    icases G0 with ⟨%g0, G0⟩
    ihave G1 := (lines_join (ℓ := o1Loc d) oK oK_disjoint oK_cover (W (dr main_v15_1))) $$ O1
    icases G1 with ⟨%g1, G1⟩
    ihave G2 := (lines_join (ℓ := o2Loc d) oK oK_disjoint oK_cover (W (dr main_v15_2))) $$ O2
    icases G2 with ⟨%g2, G2⟩
    ihave G3 := (lines_join (ℓ := o3Loc d) oK oK_disjoint oK_cover (W (dr main_v15_3))) $$ O3
    icases G3 with ⟨%g3, G3⟩
    iexists (upd4 W g0 g1 g2 g3)
    isplitr
    · ipureintro
      exact keeps_update m d _ (by decide) _ (keeps_update m d _ (by decide) _ (keeps_update m d _ (by decide) _
        (keeps_update m d _ (by decide) _ hK)))
    · have hrest : (held (SparseCore.T d) (Sall \ S12) (upd4 W g0 g1 g2 g3) : sProp 𝕄) = held (SparseCore.T d) (Sall \ S12) W :=
        held_congr (SparseCore.T d) fun b hb => by
          have hb' : b ∉ S12 := (Finset.mem_sdiff.mp hb).2
          exact upd4_other W g0 g1 g2 g3 b (fun e => hb' (e ▸ (by decide : dr main_v15_0 ∈ S12)))
            (fun e => hb' (e ▸ (by decide : dr main_v15_1 ∈ S12))) (fun e => hb' (e ▸ (by decide : dr main_v15_2 ∈ S12)))
            (fun e => hb' (e ▸ (by decide : dr main_v15_3 ∈ S12)))
      rw [held_sub_split (SparseCore.T d) S12_sub (upd4 W g0 g1 g2 g3), held_S12_upd4, hrest]
      ihave H0 := (Entails.of_eq (pointsTo_tileShares (ℓ := t0Loc d) Finset.univ (W (dr main_v7))).symm) $$ H0
      ihave H1 := (Entails.of_eq (pointsTo_tileShares (ℓ := t1Loc d) Finset.univ (W (dr main_v8))).symm) $$ H1
      ihave H2 := (Entails.of_eq (pointsTo_tileShares (ℓ := t2Loc d) Finset.univ (W (dr main_v9))).symm) $$ H2
      ihave H3 := (Entails.of_eq (pointsTo_tileShares (ℓ := t3Loc d) Finset.univ (W (dr main_v10))).symm) $$ H3
      ihave H4 := (Entails.of_eq (pointsTo_tileShares (ℓ := i0Loc d) Finset.univ (W (dr main_v11))).symm) $$ H4
      ihave H5 := (Entails.of_eq (pointsTo_tileShares (ℓ := i1Loc d) Finset.univ (W (dr main_v12))).symm) $$ H5
      ihave H6 := (Entails.of_eq (pointsTo_tileShares (ℓ := i2Loc d) Finset.univ (W (dr main_v13))).symm) $$ H6
      ihave H7 := (Entails.of_eq (pointsTo_tileShares (ℓ := i3Loc d) Finset.univ (W (dr main_v14))).symm) $$ H7
      isplitr [Hrest]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [G0]; · iexact G0
        isplitl [G1]; · iexact G1
        isplitl [G2]; · iexact G2
        iexact G3
      · iexact Hrest

end Split

/-! ## The call's step -/

section Call

variable [FloatOps F]
variable (m : (ℓ : Loc nD τ sig) → Buf (Elt F) ℓ)
variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))

/-- THE SPARSECORE CALL AS A STEP of @main, the tables' and the index arrays' contents those the call's valuation holds:
    the buffers held whole split into the thirty-two subcores' parts, and the parts handed back join into the buffers
    held whole, the four outputs at whatever the subcores left, every other buffer as it was. -/
theorem callStep :
    CallStep m (P (F := F) (fun d => WC m R0 R1 R2 R3 R4 d (dr main_v7)) (fun d => WC m R0 R1 R2 R3 R4 d (dr main_v8))
      (fun d => WC m R0 R1 R2 R3 R4 d (dr main_v9)) (fun d => WC m R0 R1 R2 R3 R4 d (dr main_v10))
      (fun d => WC m R0 R1 R2 R3 R4 d (dr main_v11)) (fun d => WC m R0 R1 R2 R3 R4 d (dr main_v12))
      (fun d => WC m R0 R1 R2 R3 R4 d (dr main_v13)) (fun d => WC m R0 R1 R2 R3 R4 d (dr main_v14))) R0 R1 R2 R3 R4 :=
  fun d => split_gen m d (WC m R0 R1 R2 R3 R4 d) (keeps_WC m R0 R1 R2 R3 R4 d)

end Call

end Cert.Proof.ScCall

end
-- ==== Proof.ScReg0.lean ====
/-
  TensorCore call 0 (the batch normalisation) as a step of @main inside the SparseCore program: the body's run on
  its staged blocks, the call's proof data at the entry contents, and the call as a kernel region.
-/
import proofs.«203359_g24824910971486_cont_8to1_1854_34_alg».proof.Proof.ScMain
import proofs.«203359_g24824910971486_cont_8to1_1854_34_alg».proof.Proof.Gen.KernelIdeal.Launch
import proofs.«203359_g24824910971486_cont_8to1_1854_34_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Proof.ScReg0

open Cert.KernelIdeal Cert.KernelIdeal.Gen Cert.Proof.ScSetup Cert.Proof.ScMain

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Idealize.ShloMosaic.Tactic

variable {F : FTy → Type} [FloatOps F]

local notation "𝕄" => MT nD τ sig (HIx 1) (Elt F) ℕ UU ℕ

/-! ## The body's accesses and what it leaves in the output block -/

abbrev rX : Rect S16384x13 := Rect.unit (s := S16384x13) ![0, 0] S16384x13.size inb_S16384x13_S16384x13_0_0
abbrev rG : Rect S1x13 := Rect.unit (s := S1x13) ![0, 0] S1x13.size inb_S1x13_S1x13_0_0

/-- The output block after the body, from the three input blocks: its one store. -/
def out0_3 (x0 : Vec F S16384x13 .f32) (x1 : Vec F S1x13 .f32) (x2 : Vec F S1x13 .f32) : Vec F S16384x13 .f32 :=
  View.canon [⟨rX, k0_pay1 (View.ld x0 rX) (View.ld x1 rG) (View.ld x2 rG)⟩]

theorem cover0_3 (p0 : Vec F S16384x13 .f32) (y : S16384x13.Idx) :
    ∃ pc ∈ ([⟨rX, p0⟩] : List (View.Piece (Elt F) S16384x13 .f32)), y ∈ pc.1.set :=
  View.cover_of_tiled [⟨rX, p0⟩] S16384x13.size (by rfl) y

set_option maxHeartbeats 1000000 in
/-- The body on whole staging memrefs: the three inputs' as they were, the output's at the stored value. -/
theorem sound_kernel0 (c : Dev nD) (E : Set ℕ) (arg0 : Memref sig .tc .vmem S16384x13 .f32) (harg0 : arg0.IsWhole)
    (arg1 : Memref sig .tc .vmem S1x13 .f32) (harg1 : arg1.IsWhole) (arg2 : Memref sig .tc .vmem S1x13 .f32) (harg2 : arg2.IsWhole)
    (arg3 : Memref sig .tc .vmem S16384x13 .f32) (harg3 : arg3.IsWhole)
    (x0 : Vec F S16384x13 .f32) (x1 : Vec F S1x13 .f32) (x2 : Vec F S1x13 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ Kk ⟨⟩))
      ⊢ wp frame (wpE (defs₀ (F := F)) Variants.none c none) E (cc0__bn_body arg0 harg0 arg1 harg1 arg2 harg2 arg3 harg3) Kk := by
  simp only [cc0__bn_body_eq_skeleton]; unfold cc0__bn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The windows' blocks and the proof data, at entry contents `V` -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

-- What the TensorCore owes throughout the call (its start signals to the SparseCores, paid at the later call).
variable (O : Dev nD → CellTallies nD τ sig (HIx 1))

/-- The call's proof data on core `c`: the arrays as the call finds them; after the body the inputs' blocks in place
    and the output's at the stored value; the invariant the scoped buffers no window stages; full shares; the core owing
    `O c` throughout. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.scopedRest spec0 c
  q _ := fullShare
  owed _ := O c
  recorded _ := {p | p.2 = none}

theorem A_eq0 (c : Dev nD) (w : Fin cfg0.W) : (dat0 V O c).A w = V c (Pipeline.arrRef spec0 w) := by
  dsimp only [dat0]
theorem after0_0 (c : Dev nD) (t : Fin cfg0.N) : (dat0 V O c).after 0 t = iblk0 V c 0 t := by dsimp only [dat0]
theorem after0_1 (c : Dev nD) (t : Fin cfg0.N) : (dat0 V O c).after 1 t = iblk0 V c 1 t := by dsimp only [dat0]
theorem after0_2 (c : Dev nD) (t : Fin cfg0.N) : (dat0 V O c).after 2 t = iblk0 V c 2 t := by dsimp only [dat0]
theorem after0_3 (c : Dev nD) (t : Fin cfg0.N) :
    (dat0 V O c).after 3 t = out0_3 (iblk0 V c 0 t) (iblk0 V c 1 t) (iblk0 V c 2 t) := by dsimp only [dat0]

theorem before0_0 (c : Dev nD) (t : Fin cfg0.N) (d) : (dat0 V O c).before 0 t d = iblk0 V c 0 t :=
  before0_0_of V (dat0 V O c) (A_eq0 V O c 0) (after0_0 V O c) t d
theorem before0_1 (c : Dev nD) (t : Fin cfg0.N) (d) : (dat0 V O c).before 1 t d = iblk0 V c 1 t :=
  before0_1_of V (dat0 V O c) (A_eq0 V O c 1) (after0_1 V O c) t d
theorem before0_2 (c : Dev nD) (t : Fin cfg0.N) (d) : (dat0 V O c).before 2 t d = iblk0 V c 2 t :=
  before0_2_of V (dat0 V O c) (A_eq0 V O c 2) (after0_2 V O c) t d

/-! ## The body obligation -/

def bodyPre0 (c : Dev nD) (t : Fin cfg0.N) : sProp 𝕄 :=
  iprop((dat0 V O c).Φ t.castSucc ∗ (dat0 V O c).owesAt none t.castSucc
    ∗ (∃ d, owns (c : Thread nD τ) (st0_0 t) fullShare ((dat0 V O c).before 0 t d))
    ∗ (∃ d, owns (c : Thread nD τ) (st0_1 t) fullShare ((dat0 V O c).before 1 t d))
    ∗ (∃ d, owns (c : Thread nD τ) (st0_2 t) fullShare ((dat0 V O c).before 2 t d))
    ∗ (∃ d, owns (c : Thread nD τ) (st0_3 t) fullShare ((dat0 V O c).before 3 t d)))

def bodyPost0 (c : Dev nD) (t : Fin cfg0.N) : sProp 𝕄 :=
  iprop((dat0 V O c).Φ t.succ ∗ (dat0 V O c).owesAt none t.succ
    ∗ owns (c : Thread nD τ) (st0_0 t) fullShare ((dat0 V O c).after 0 t)
    ∗ owns (c : Thread nD τ) (st0_1 t) fullShare ((dat0 V O c).after 1 t)
    ∗ owns (c : Thread nD τ) (st0_2 t) fullShare ((dat0 V O c).after 2 t)
    ∗ owns (c : Thread nD τ) (st0_3 t) fullShare ((dat0 V O c).after 3 t))

theorem sound_body0 (c : Dev nD) (t : Fin cfg0.N) :
    bodyPre0 V O c t ⊢ wp frame (wpE (defs₀ (F := F)) Variants.none c none) Set.univ (bodyAt0 t) (fun _ => bodyPost0 V O c t) := by
  unfold bodyPre0 bodyPost0 bodyAt0
  simp only [before0_0, before0_1, before0_2]
  rw [show (dat0 V O c).Φ t.succ = (dat0 V O c).Φ t.castSucc from rfl,
    show (dat0 V O c).owesAt none t.succ = (dat0 V O c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : Pipeline.BodyObligation (dat0 (F := F) V O c) (defs₀ (F := F)) Variants.none none Set.univ := fun t => by
  rw [bigSep_W0, bigSep_W0]
  exact sound_body0 V O c t

/-! ## The family of proof data, and call 0 as a kernel region -/

/-- Any proof data for TensorCore call 1 (not entered here): its blocks as found. -/
def datT1 (c : Dev nD) : Dat τ (Elt F) (HIx 1) ℕ UU ℕ cfg1 c where
  A w := V c (Pipeline.arrRef spec1 w)
  after w t := match w with
    | ⟨0, _⟩ => ((cfg1.win 0).blk t).view.read (Elt F) (V c (Pipeline.arrRef spec1 0))
    | ⟨1, _⟩ => ((cfg1.win 1).blk t).view.read (Elt F) (V c (Pipeline.arrRef spec1 1))
    | ⟨2, _⟩ => ((cfg1.win 2).blk t).view.read (Elt F) (V c (Pipeline.arrRef spec1 2))
    | ⟨3, _⟩ => ((cfg1.win 3).blk t).view.read (Elt F) (V c (Pipeline.arrRef spec1 3))
  Φ _ := Pipeline.scopedRest spec1 c
  q _ := fullShare
  owed _ := O c

/-- Any proof data for TensorCore call 2 (not entered here): its blocks as found. -/
def datT2 (c : Dev nD) : Dat τ (Elt F) (HIx 1) ℕ UU ℕ cfg2 c where
  A w := V c (Pipeline.arrRef spec2 w)
  after w t := match w with
    | ⟨0, _⟩ => ((cfg2.win 0).blk t).view.read (Elt F) (V c (Pipeline.arrRef spec2 0))
    | ⟨1, _⟩ => ((cfg2.win 1).blk t).view.read (Elt F) (V c (Pipeline.arrRef spec2 1))
    | ⟨2, _⟩ => ((cfg2.win 2).blk t).view.read (Elt F) (V c (Pipeline.arrRef spec2 2))
    | ⟨3, _⟩ => ((cfg2.win 3).blk t).view.read (Elt F) (V c (Pipeline.arrRef spec2 3))
  Φ _ := Pipeline.scopedRest spec2 c
  q _ := fullShare
  owed _ := O c

/-- Any proof data for TensorCore call 3 (not entered here): its blocks as found. -/
def datT3 (c : Dev nD) : Dat τ (Elt F) (HIx 1) ℕ UU ℕ cfg3 c where
  A w := V c (Pipeline.arrRef spec3 w)
  after w t := match w with
    | ⟨0, _⟩ => ((cfg3.win 0).blk t).view.read (Elt F) (V c (Pipeline.arrRef spec3 0))
    | ⟨1, _⟩ => ((cfg3.win 1).blk t).view.read (Elt F) (V c (Pipeline.arrRef spec3 1))
    | ⟨2, _⟩ => ((cfg3.win 2).blk t).view.read (Elt F) (V c (Pipeline.arrRef spec3 2))
    | ⟨3, _⟩ => ((cfg3.win 3).blk t).view.read (Elt F) (V c (Pipeline.arrRef spec3 3))
  Φ _ := Pipeline.scopedRest spec3 c
  q _ := fullShare
  owed _ := O c

/-- Any proof data for TensorCore call 4 (not entered here): its blocks as found. -/
def datT4 (c : Dev nD) : Dat τ (Elt F) (HIx 1) ℕ UU ℕ cfg4 c where
  A w := V c (Pipeline.arrRef spec4 w)
  after w t := match w with
    | ⟨0, _⟩ => ((cfg4.win 0).blk t).view.read (Elt F) (V c (Pipeline.arrRef spec4 0))
    | ⟨1, _⟩ => ((cfg4.win 1).blk t).view.read (Elt F) (V c (Pipeline.arrRef spec4 1))
    | ⟨2, _⟩ => ((cfg4.win 2).blk t).view.read (Elt F) (V c (Pipeline.arrRef spec4 2))
    | ⟨3, _⟩ => ((cfg4.win 3).blk t).view.read (Elt F) (V c (Pipeline.arrRef spec4 3))
  Φ _ := Pipeline.scopedRest spec4 c
  q _ := fullShare
  owed _ := O c

abbrev adm : (p : Fin 5) → (pcfgs (F := F) p).Adm := fun p => (cfgs p).toPCfg_adm

def pdats : (p : Fin 5) → (c : Dev nD) → Dat τ (Elt F) (HIx 1) ℕ UU ℕ (Pipeline.pin (pcfgs (F := F)) adm p) c
  | ⟨0, _⟩ => fun c => dat0 V O c
  | ⟨1, _⟩ => fun c => datT1 V O c
  | ⟨2, _⟩ => fun c => datT2 V O c
  | ⟨3, _⟩ => fun c => datT3 V O c
  | ⟨4, _⟩ => fun c => datT4 V O c

/-! ## Call 0 as a kernel region entered from a valuation `W` of the unscoped buffers -/

section Region

variable (W : Valuation τ sig (Elt F))

/-- The valuation read at the TensorCore's references, the same on every core. -/
abbrev VW (c : Dev nD) (b : Ref sig .tc) : Buf (Elt F) ((c : Thread nD τ).loc b) := W (dr b)
/-- What the TensorCore owes from the launch to the SparseCore call: its start signals. -/
abbrev OT (c : Dev nD) : CellTallies nD τ sig (HIx 1) := (K (F := F)).Otc c 0

omit [FloatOps F] in
theorem OT_none (c : Dev nD) (g : GSem nD τ sig) : OT (F := F) c g none = 0 := by
  by_contra h
  have := SparseCore.Cfg.lev_of_Otc_pos (K := K (F := F)) (d := c) (n := 0) (g := g) (ι := none) (Nat.pos_of_ne_zero h)
  rw [SparseCore.Cfg.lev_none] at this; omega

/-- What call 0 leaves in its output array. -/
def R0 (c : Dev nD) (W : Valuation τ sig (Elt F)) : (dr main_v2).ty.Contents (Elt F) := (dat0 (VW W) (OT (F := F)) c).arrAt 3 cfg0.N

/-- The TensorCore's debt as its handshake state holds it. -/
abbrev owesPart (c : Dev nD) : sProp 𝕄 :=
  iprop(∃ Ws, ⌜(K (F := F)).WBelow (SparseCore.T c) Ws (8 * 0)⌝ ∗ owes (SparseCore.T c) (OT (F := F) c) Ws)

set_option backward.isDefEq.respectTransparency.types false in
def reg0 : Pipeline.RegionSeg (pcfgs (F := F)) adm (pdats (VW W) (OT (F := F))) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (VW W) (OT (F := F)) c).loose
  hwaits c := Pipeline.cellsWaits_intro (Pipeline.pin (pcfgs (F := F)) adm) (pdats (VW W) (OT (F := F))) none 0 c
    (R := levAts (K (F := F)).L (K (F := F)).lev) fun w s t => (K (F := F)).mayWait_none _ (OT_none c)
  pre c := iprop(StableHlo.held (c : Thread nD τ) (Pipeline.ucRefs τ sig) W ∗ owesPart c)
  post c := iprop(StableHlo.held (c : Thread nD τ) (Pipeline.ucRefs τ sig) (Function.update W (dr main_v2) (R0 c W)) ∗ owesPart c)
  X c := iprop(emp)
  Y c := iprop(emp)
  Z c := Pipeline.unscopedRest (Ix := HIx 1) (Name := ℕ) (U := UU) (Lvl := ℕ) spec0 c (VW W c)
  hentry c := by
    rw [Pipeline.ownSems0_none]
    have hsplit := Pipeline.arrays_of_unscopedBufs (p := 0) (pcfgs (F := F)) adm (pdats (VW W) (OT (F := F))) launch0.win launch0.arr_whole c
      ((pdats (VW W) (OT (F := F)) 0 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr
      · ipureintro; intro p hp; exact Or.inl (by
          have := hWs p hp
          rcases hpi : p.2 with _ | q
          · exact hpi
          · rw [hpi] at this; exact absurd this (by have := (K (F := F)).lev_some_pos (SparseCore.T c, p.1) q; omega))
      iexact HO
    isplitr; · iempintro
    iexact Hrest
  hin c := by
    rw [show (pdats (VW W) (OT (F := F)) 0 c).Φ 0 = Pipeline.scopedRest spec0 c from rfl]
    iintro ⟨-, -, Hr⟩
    iexact Hr
  hout c := by
    rw [Pipeline.ownSems0_none, show (pdats (VW W) (OT (F := F)) 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats (VW W) (OT (F := F))) ((pdats (VW W) (OT (F := F)) 0 c).share_full fun _ => rfl)
      (VW W c) (VW (Function.update W (dr main_v2) (R0 c W)) c) ((pdats (VW W) (OT (F := F)) 0 c).arrAt · cfg0.N)
      (fun w => by
        match w with
        | ⟨0, _⟩ => exact ((dat0 (VW W) (OT (F := F)) c).arrAt_in 0 rfl _).trans ((A_eq0 (VW W) (OT (F := F)) c 0).trans (Function.update_of_ne (show dr main_arg0 ≠ dr main_v2 by decide) _ _).symm)
        | ⟨1, _⟩ => exact ((dat0 (VW W) (OT (F := F)) c).arrAt_in 1 rfl _).trans ((A_eq0 (VW W) (OT (F := F)) c 1).trans (Function.update_of_ne (show dr main_v0 ≠ dr main_v2 by decide) _ _).symm)
        | ⟨2, _⟩ => exact ((dat0 (VW W) (OT (F := F)) c).arrAt_in 2 rfl _).trans ((A_eq0 (VW W) (OT (F := F)) c 2).trans (Function.update_of_ne (show dr main_v1 ≠ dr main_v2 by decide) _ _).symm)
        | ⟨3, _⟩ => exact (Function.update_self (dr main_v2) (R0 c W) W).symm)
      (fun b hb => Function.update_of_ne (fun e => hb (Finset.mem_image.mpr ⟨3, Finset.mem_univ _, Proc.devRef_injective _ e.symm⟩)) _ _)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr
    · ipureintro; intro p hp
      rcases hWs hp with h | ⟨w, s, rfl⟩
      · rw [show p.2 = none from h]; exact le_of_eq rfl
      · exact le_of_eq rfl
    iexact HO

end Region

/-! ## The step: the call in the program's own signature, lifted into the SparseCore program -/

/-- TensorCore call `p`'s ghost state on core `c`, as the launch deals it. -/
abbrev ghost (p : Fin 5) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

set_option backward.isDefEq.respectTransparency.types false in
theorem regionStep0 [∀ e, Nonempty (Elt F e)] (P : (K (F := F)).Pay (nD := nD) (Val := Elt F) (Name := ℕ) (U := UU)) (Gout : Dev nD → sProp 𝕄) :
    RegionStep P 0 main_v2 (R0 (F := F)) (fun d => iprop(ghost (F := F) 0 d ∗ Gout d)) Gout := by
  intro κ d W Q
  iintro ⟨#Hctx, Hst, Hb, Hheld, ⟨Hg, Ht⟩, HG⟩ Hk
  unfold SparseCore.Cfg.tcSt
  icases Hst with ⟨Howes, Hrest⟩
  ihave Hlev := (SparseCore.Cfg.ctx_levAts (K := K (F := F)) κ) $$ Hctx
  iapply ((K (F := F)).wp_liftProg (D (F := F)) 𝒱 (SparseCore.T d) Set.univ none
    (Prog.lift (TpuEff.customCall (Pipeline.entry (0 : Fin 5)) ())) Q)
  iapply (Pipeline.RegionSeg.wp (pcfgs (F := F)) adm (pdats (VW W) (OT (F := F))) none cellOf_inj (EP (F := F)) defs₀ 𝒱₀
    (K (F := F)).L (K (F := F)).lev (reg0 W) d none (fun _ h => nomatch h) (fun _ => Prog.ret PUnit.unit) Q) $$ [Hk Hb Hheld Howes Hg Ht Hrest HG]
  isplitl [Hk Hrest HG]
  · iintro ⟨Hb, Hpost⟩
    ihave Hpost := (Entails.of_eq (show (reg0 (F := F) W).post d
      = iprop(StableHlo.held (d : Thread nD τ) (Pipeline.ucRefs τ sig) (Function.update W (dr main_v2) (R0 d W)) ∗ owesPart (F := F) d) from rfl)) $$ Hpost
    icases Hpost with ⟨Hheld, Howes⟩
    rw [wp_ret]; imodintro
    iapply Hk
    isplitl [Howes Hrest]
    · isplitl [Howes]; · iexact Howes
      iexact Hrest
    isplitl [Hb]; · iexact Hb
    isplitl [Hheld]; · iexact Hheld
    iexact HG
  isplitl [Hb]; · iexact Hb
  isplitl [Hheld Howes]
  · iapply (Entails.of_eq (show iprop(StableHlo.held (d : Thread nD τ) (Pipeline.ucRefs τ sig) W ∗ owesPart (F := F) d) = (reg0 (F := F) W).pre d from rfl))
    isplitl [Hheld]; · iexact Hheld
    iexact Howes
  isplitr; · iexact Hlev
  isplitl [Hg]; · iexact Hg
  iexact Ht

end Cert.Proof.ScReg0

end
-- ==== Proof.ScReg1.lean ====
/-
  TensorCore call 1 (the scaling of table 0: each sixteen-lane segment of a line times min(1, 5 / max(norm, 1e-12)))
  as a step of @main inside the SparseCore program: the body's run on its staged blocks, the call's proof data at the
  entry contents, and the call as a kernel region.
-/
import proofs.«203359_g24824910971486_cont_8to1_1854_34_alg».proof.Proof.ScMain
import proofs.«203359_g24824910971486_cont_8to1_1854_34_alg».proof.Proof.Gen.KernelIdeal.Launch
import proofs.«203359_g24824910971486_cont_8to1_1854_34_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Proof.ScReg1

open Cert.KernelIdeal Cert.KernelIdeal.Gen Cert.Proof.ScSetup Cert.Proof.ScMain

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Idealize.ShloMosaic.Tactic

variable {F : FTy → Type} [FloatOps F]

local notation "𝕄" => MT nD τ sig (HIx 1) (Elt F) ℕ UU ℕ

/-! ## The body's accesses and what it leaves in the output block -/

abbrev rS : Rect S128x8 := Rect.unit (s := S128x8) ![0, 0] S128x8.size inb_S128x8_S128x8_0_0
abbrev rST : Rect S8x128 := Rect.unit (s := S8x128) ![0, 0] S8x128.size inb_S8x128_S8x128_0_0
abbrev rT : Rect S12500x128 := Rect.unit (s := S12500x128) ![0, 0] S12500x128.size inb_S12500x128_S12500x128_0_0

/-- The output block after the body, from the three input blocks (the segment matrix, its transpose, the table's
    lines): its one store. -/
def outB (x0 : Vec F S128x8 .f32) (x1 : Vec F S8x128 .f32) (x2 : Vec F S12500x128 .f32) : Vec F S12500x128 .f32 :=
  View.canon [⟨rT, k1_pay1 (View.ld x2 rT) (View.ld x0 rS) (View.ld x1 rST)⟩]

theorem coverB (p0 : Vec F S12500x128 .f32) (y : S12500x128.Idx) :
    ∃ pc ∈ ([⟨rT, p0⟩] : List (View.Piece (Elt F) S12500x128 .f32)), y ∈ pc.1.set :=
  View.cover_of_tiled [⟨rT, p0⟩] S12500x128.size (by rfl) y

set_option maxHeartbeats 1000000 in
/-- The body on whole staging memrefs: the three inputs' as they were, the output's at the stored value. -/
theorem sound_kernel (c : Dev nD) (E : Set ℕ) (arg0 : Memref sig .tc .vmem S128x8 .f32) (harg0 : arg0.IsWhole)
    (arg1 : Memref sig .tc .vmem S8x128 .f32) (harg1 : arg1.IsWhole) (arg2 : Memref sig .tc .vmem S12500x128 .f32) (harg2 : arg2.IsWhole)
    (arg3 : Memref sig .tc .vmem S12500x128 .f32) (harg3 : arg3.IsWhole)
    (x0 : Vec F S128x8 .f32) (x1 : Vec F S8x128 .f32) (x2 : Vec F S12500x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (outB x0 x1 x2)) -∗ Kk ⟨⟩))
      ⊢ wp frame (wpE (defs₀ (F := F)) Variants.none c none) E (cc1__scale_body arg0 harg0 arg1 harg1 arg2 harg2 arg3 harg3) Kk := by
  simp only [cc1__scale_body_eq_skeleton]; unfold cc1__scale_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-! ## The windows' blocks and the proof data, at entry contents `V` -/

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) (HIx 1) ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

-- What the TensorCore owes throughout the call (its start signals to the SparseCores, paid at the later call).
variable (O : Dev nD → CellTallies nD τ sig (HIx 1))

/-- The call's proof data on core `c`: the arrays as the call finds them; after the body the inputs' blocks in place
    and the output's at the stored value; the invariant the scoped buffers no window stages; full shares; the core owing
    `O c` throughout, its recorded waits at the kernels' own index. -/
def datR (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outB (iblk V c 0 t) (iblk V c 1 t) (iblk V c 2 t)
  Φ _ := Pipeline.scopedRest spec1 c
  q _ := fullShare
  owed _ := O c
  recorded _ := {p | p.2 = none}

theorem A_eq (c : Dev nD) (w : Fin cfg1.W) : (datR V O c).A w = V c (Pipeline.arrRef spec1 w) := by
  dsimp only [datR]
theorem after_0 (c : Dev nD) (t : Fin cfg1.N) : (datR V O c).after 0 t = iblk V c 0 t := by dsimp only [datR]
theorem after_1 (c : Dev nD) (t : Fin cfg1.N) : (datR V O c).after 1 t = iblk V c 1 t := by dsimp only [datR]
theorem after_2 (c : Dev nD) (t : Fin cfg1.N) : (datR V O c).after 2 t = iblk V c 2 t := by dsimp only [datR]
theorem after_3 (c : Dev nD) (t : Fin cfg1.N) :
    (datR V O c).after 3 t = outB (iblk V c 0 t) (iblk V c 1 t) (iblk V c 2 t) := by dsimp only [datR]

theorem before_0 (c : Dev nD) (t : Fin cfg1.N) (d) : (datR V O c).before 0 t d = iblk V c 0 t :=
  before_0_of V (datR V O c) (A_eq V O c 0) (after_0 V O c) t d
theorem before_1 (c : Dev nD) (t : Fin cfg1.N) (d) : (datR V O c).before 1 t d = iblk V c 1 t :=
  before_1_of V (datR V O c) (A_eq V O c 1) (after_1 V O c) t d
theorem before_2 (c : Dev nD) (t : Fin cfg1.N) (d) : (datR V O c).before 2 t d = iblk V c 2 t :=
  before_2_of V (datR V O c) (A_eq V O c 2) (after_2 V O c) t d

/-! ## The body obligation -/

def bodyPre (c : Dev nD) (t : Fin cfg1.N) : sProp 𝕄 :=
  iprop((datR V O c).Φ t.castSucc ∗ (datR V O c).owesAt none t.castSucc
    ∗ (∃ d, owns (c : Thread nD τ) (st1_0 t) fullShare ((datR V O c).before 0 t d))
    ∗ (∃ d, owns (c : Thread nD τ) (st1_1 t) fullShare ((datR V O c).before 1 t d))
    ∗ (∃ d, owns (c : Thread nD τ) (st1_2 t) fullShare ((datR V O c).before 2 t d))
    ∗ (∃ d, owns (c : Thread nD τ) (st1_3 t) fullShare ((datR V O c).before 3 t d)))

def bodyPost (c : Dev nD) (t : Fin cfg1.N) : sProp 𝕄 :=
  iprop((datR V O c).Φ t.succ ∗ (datR V O c).owesAt none t.succ
    ∗ owns (c : Thread nD τ) (st1_0 t) fullShare ((datR V O c).after 0 t)
    ∗ owns (c : Thread nD τ) (st1_1 t) fullShare ((datR V O c).after 1 t)
    ∗ owns (c : Thread nD τ) (st1_2 t) fullShare ((datR V O c).after 2 t)
    ∗ owns (c : Thread nD τ) (st1_3 t) fullShare ((datR V O c).after 3 t))

theorem sound_body (c : Dev nD) (t : Fin cfg1.N) :
    bodyPre V O c t ⊢ wp frame (wpE (defs₀ (F := F)) Variants.none c none) Set.univ (bodyAt1 t) (fun _ => bodyPost V O c t) := by
  unfold bodyPre bodyPost bodyAt1
  simp only [before_0, before_1, before_2]
  rw [show (datR V O c).Φ t.succ = (datR V O c).Φ t.castSucc from rfl,
    show (datR V O c).owesAt none t.succ = (datR V O c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : Pipeline.BodyObligation (datR (F := F) V O c) (defs₀ (F := F)) Variants.none none Set.univ := fun t => by
  rw [bigSep_W1, bigSep_W1]
  exact sound_body V O c t

/-! ## The family of proof data, and call 1 as a kernel region -/

def datT0 (c : Dev nD) : Dat τ (Elt F) (HIx 1) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
    | ⟨3, _⟩ => ((cfg0.win 3).blk t).view.read (Elt F) (V c (Pipeline.arrRef spec0 3))
  Φ _ := Pipeline.scopedRest spec0 c
  q _ := fullShare
  owed _ := O c

def datT2 (c : Dev nD) : Dat τ (Elt F) (HIx 1) ℕ UU ℕ cfg2 c where
  A w := V c (Pipeline.arrRef spec2 w)
  after w t := match w with
    | ⟨0, _⟩ => ((cfg2.win 0).blk t).view.read (Elt F) (V c (Pipeline.arrRef spec2 0))
    | ⟨1, _⟩ => ((cfg2.win 1).blk t).view.read (Elt F) (V c (Pipeline.arrRef spec2 1))
    | ⟨2, _⟩ => ((cfg2.win 2).blk t).view.read (Elt F) (V c (Pipeline.arrRef spec2 2))
    | ⟨3, _⟩ => ((cfg2.win 3).blk t).view.read (Elt F) (V c (Pipeline.arrRef spec2 3))
  Φ _ := Pipeline.scopedRest spec2 c
  q _ := fullShare
  owed _ := O c

def datT3 (c : Dev nD) : Dat τ (Elt F) (HIx 1) ℕ UU ℕ cfg3 c where
  A w := V c (Pipeline.arrRef spec3 w)
  after w t := match w with
    | ⟨0, _⟩ => ((cfg3.win 0).blk t).view.read (Elt F) (V c (Pipeline.arrRef spec3 0))
    | ⟨1, _⟩ => ((cfg3.win 1).blk t).view.read (Elt F) (V c (Pipeline.arrRef spec3 1))
    | ⟨2, _⟩ => ((cfg3.win 2).blk t).view.read (Elt F) (V c (Pipeline.arrRef spec3 2))
    | ⟨3, _⟩ => ((cfg3.win 3).blk t).view.read (Elt F) (V c (Pipeline.arrRef spec3 3))
  Φ _ := Pipeline.scopedRest spec3 c
  q _ := fullShare
  owed _ := O c

def datT4 (c : Dev nD) : Dat τ (Elt F) (HIx 1) ℕ UU ℕ cfg4 c where
  A w := V c (Pipeline.arrRef spec4 w)
  after w t := match w with
    | ⟨0, _⟩ => ((cfg4.win 0).blk t).view.read (Elt F) (V c (Pipeline.arrRef spec4 0))
    | ⟨1, _⟩ => ((cfg4.win 1).blk t).view.read (Elt F) (V c (Pipeline.arrRef spec4 1))
    | ⟨2, _⟩ => ((cfg4.win 2).blk t).view.read (Elt F) (V c (Pipeline.arrRef spec4 2))
    | ⟨3, _⟩ => ((cfg4.win 3).blk t).view.read (Elt F) (V c (Pipeline.arrRef spec4 3))
  Φ _ := Pipeline.scopedRest spec4 c
  q _ := fullShare
  owed _ := O c

abbrev adm : (p : Fin 5) → (pcfgs (F := F) p).Adm := fun p => (cfgs p).toPCfg_adm

def pdats : (p : Fin 5) → (c : Dev nD) → Dat τ (Elt F) (HIx 1) ℕ UU ℕ (Pipeline.pin (pcfgs (F := F)) adm p) c
  | ⟨0, _⟩ => fun c => datT0 V O c
  | ⟨1, _⟩ => fun c => datR V O c
  | ⟨2, _⟩ => fun c => datT2 V O c
  | ⟨3, _⟩ => fun c => datT3 V O c
  | ⟨4, _⟩ => fun c => datT4 V O c

section Region

variable (W : Valuation τ sig (Elt F))

/-- The valuation read at the TensorCore's references, the same on every core. -/
abbrev VW (c : Dev nD) (b : Ref sig .tc) : Buf (Elt F) ((c : Thread nD τ).loc b) := W (dr b)
/-- What the TensorCore owes from the launch to the SparseCore call: its start signals. -/
abbrev OT (c : Dev nD) : CellTallies nD τ sig (HIx 1) := (K (F := F)).Otc c 0

omit [FloatOps F] in
theorem OT_none (c : Dev nD) (g : GSem nD τ sig) : OT (F := F) c g none = 0 := by
  by_contra h
  have := SparseCore.Cfg.lev_of_Otc_pos (K := K (F := F)) (d := c) (n := 0) (g := g) (ι := none) (Nat.pos_of_ne_zero h)
  rw [SparseCore.Cfg.lev_none] at this; omega

/-- What call 1 leaves in its output array. -/
def Rout (c : Dev nD) (W : Valuation τ sig (Elt F)) : (dr main_v7).ty.Contents (Elt F) := (datR (VW W) (OT (F := F)) c).arrAt 3 cfg1.N

/-- The TensorCore's debt as its handshake state holds it. -/
abbrev owesPart (c : Dev nD) : sProp 𝕄 :=
  iprop(∃ Ws, ⌜(K (F := F)).WBelow (SparseCore.T c) Ws (8 * 0)⌝ ∗ owes (SparseCore.T c) (OT (F := F) c) Ws)

set_option backward.isDefEq.respectTransparency.types false in
def reg : Pipeline.RegionSeg (pcfgs (F := F)) adm (pdats (VW W) (OT (F := F))) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation (VW W) (OT (F := F)) c).loose
  hwaits c := Pipeline.cellsWaits_intro (Pipeline.pin (pcfgs (F := F)) adm) (pdats (VW W) (OT (F := F))) none 1 c
    (R := levAts (K (F := F)).L (K (F := F)).lev) (fun w s t => (K (F := F)).mayWait_none _ (OT_none (F := F) c))
  pre c := iprop(StableHlo.held (c : Thread nD τ) (Pipeline.ucRefs τ sig) W ∗ owesPart c)
  post c := iprop(StableHlo.held (c : Thread nD τ) (Pipeline.ucRefs τ sig) (Function.update W (dr main_v7) (Rout c W)) ∗ owesPart c)
  X c := iprop(emp)
  Y c := iprop(emp)
  Z c := Pipeline.unscopedRest (Ix := HIx 1) (Name := ℕ) (U := UU) (Lvl := ℕ) spec1 c (VW W c)
  hentry c := by
    rw [Pipeline.ownSems0_none]
    have hsplit := Pipeline.arrays_of_unscopedBufs (p := 1) (pcfgs (F := F)) adm (pdats (VW W) (OT (F := F))) launch1.win launch1.arr_whole c
      ((pdats (VW W) (OT (F := F)) 1 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr
      · ipureintro; intro p hp; exact Or.inl (by
          have := hWs p hp
          rcases hpi : p.2 with _ | q
          · exact hpi
          · rw [hpi] at this; exact absurd this (by have := (K (F := F)).lev_some_pos (SparseCore.T c, p.1) q; omega))
      iexact HO
    isplitr; · iempintro
    iexact Hrest
  hin c := by
    rw [show (pdats (VW W) (OT (F := F)) 1 c).Φ 0 = Pipeline.scopedRest spec1 c from rfl]
    iintro ⟨-, -, Hr⟩
    iexact Hr
  hout c := by
    rw [Pipeline.ownSems0_none, show (pdats (VW W) (OT (F := F)) 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats (VW W) (OT (F := F))) ((pdats (VW W) (OT (F := F)) 1 c).share_full fun _ => rfl)
      (VW W c) (VW (Function.update W (dr main_v7) (Rout c W)) c) ((pdats (VW W) (OT (F := F)) 1 c).arrAt · cfg1.N)
      (fun w => by
        match w with
        | ⟨0, _⟩ => exact ((datR (VW W) (OT (F := F)) c).arrAt_in 0 rfl _).trans ((A_eq (VW W) (OT (F := F)) c 0).trans (Function.update_of_ne (show dr main_cst ≠ dr main_v7 by decide) _ _).symm)
        | ⟨1, _⟩ => exact ((datR (VW W) (OT (F := F)) c).arrAt_in 1 rfl _).trans ((A_eq (VW W) (OT (F := F)) c 1).trans (Function.update_of_ne (show dr main_cst_0 ≠ dr main_v7 by decide) _ _).symm)
        | ⟨2, _⟩ => exact ((datR (VW W) (OT (F := F)) c).arrAt_in 2 rfl _).trans ((A_eq (VW W) (OT (F := F)) c 2).trans (Function.update_of_ne (show dr main_v3 ≠ dr main_v7 by decide) _ _).symm)
        | ⟨3, _⟩ => exact (Function.update_self (dr main_v7) (Rout c W) W).symm)
      (fun b hb => Function.update_of_ne (fun e => hb (Finset.mem_image.mpr ⟨3, Finset.mem_univ _, Proc.devRef_injective _ e.symm⟩)) _ _)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr
    · ipureintro; intro p hp
      rcases hWs hp with h | ⟨w, s, rfl⟩
      · rw [show p.2 = none from h]; exact le_of_eq rfl
      · exact le_of_eq rfl
    iexact HO

end Region

/-! ## The step: the call in the program's own signature, lifted into the SparseCore program -/

/-- TensorCore call `p`'s ghost state on core `c`, as the launch deals it. -/
abbrev ghost (p : Fin 5) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

set_option backward.isDefEq.respectTransparency.types false in
theorem regionStep [∀ e, Nonempty (Elt F e)] (P : (K (F := F)).Pay (nD := nD) (Val := Elt F) (Name := ℕ) (U := UU)) (Gout : Dev nD → sProp 𝕄) :
    RegionStep P 1 main_v7 (Rout (F := F)) (fun d => iprop(ghost (F := F) 1 d ∗ Gout d)) Gout := by
  intro κ d W Q
  iintro ⟨#Hctx, Hst, Hb, Hheld, ⟨Hg, Ht⟩, HG⟩ Hk
  unfold SparseCore.Cfg.tcSt
  icases Hst with ⟨Howes, Hrest⟩
  ihave Hlev := (SparseCore.Cfg.ctx_levAts (K := K (F := F)) κ) $$ Hctx
  iapply ((K (F := F)).wp_liftProg (D (F := F)) 𝒱 (SparseCore.T d) Set.univ none
    (Prog.lift (TpuEff.customCall (Pipeline.entry (1 : Fin 5)) ())) Q)
  iapply (Pipeline.RegionSeg.wp (pcfgs (F := F)) adm (pdats (VW W) (OT (F := F))) none cellOf_inj (EP (F := F)) defs₀ 𝒱₀
    (K (F := F)).L (K (F := F)).lev (reg W) d none (fun _ h => nomatch h) (fun _ => Prog.ret PUnit.unit) Q) $$ [Hk Hb Hheld Howes Hg Ht Hrest HG]
  isplitl [Hk Hrest HG]
  · iintro ⟨Hb, Hpost⟩
    ihave Hpost := (Entails.of_eq (show (reg (F := F) W).post d
      = iprop(StableHlo.held (d : Thread nD τ) (Pipeline.ucRefs τ sig) (Function.update W (dr main_v7) (Rout d W)) ∗ owesPart (F := F) d) from rfl)) $$ Hpost
    icases Hpost with ⟨Hheld, Howes⟩
    rw [wp_ret]; imodintro
    iapply Hk
    isplitl [Howes Hrest]
    · isplitl [Howes]; · iexact Howes
      iexact Hrest
    isplitl [Hb]; · iexact Hb
    isplitl [Hheld]; · iexact Hheld
    iexact HG
  isplitl [Hb]; · iexact Hb
  isplitl [Hheld Howes]
  · iapply (Entails.of_eq (show iprop(StableHlo.held (d : Thread nD τ) (Pipeline.ucRefs τ sig) W ∗ owesPart (F := F) d) = (reg (F := F) W).pre d from rfl))
    isplitl [Hheld]; · iexact Hheld
    iexact Howes
  isplitr; · iexact Hlev
  isplitl [Hg]; · iexact Hg
  iexact Ht

end Cert.Proof.ScReg1

end
-- ==== Proof.ScReg2.lean ====
/-
  TensorCore call 2 (the scaling of table 1: each sixteen-lane segment of a line times min(1, 5 / max(norm, 1e-12)))
  as a step of @main inside the SparseCore program: the body's run on its staged blocks, the call's proof data at the
  entry contents, and the call as a kernel region.
-/
import proofs.«203359_g24824910971486_cont_8to1_1854_34_alg».proof.Proof.ScMain
import proofs.«203359_g24824910971486_cont_8to1_1854_34_alg».proof.Proof.Gen.KernelIdeal.Launch
import proofs.«203359_g24824910971486_cont_8to1_1854_34_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Proof.ScReg2

open Cert.KernelIdeal Cert.KernelIdeal.Gen Cert.Proof.ScSetup Cert.Proof.ScMain

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Idealize.ShloMosaic.Tactic

variable {F : FTy → Type} [FloatOps F]

local notation "𝕄" => MT nD τ sig (HIx 1) (Elt F) ℕ UU ℕ

/-! ## The body's accesses and what it leaves in the output block -/

abbrev rS : Rect S128x8 := Rect.unit (s := S128x8) ![0, 0] S128x8.size inb_S128x8_S128x8_0_0
abbrev rST : Rect S8x128 := Rect.unit (s := S8x128) ![0, 0] S8x128.size inb_S8x128_S8x128_0_0
abbrev rT : Rect S12500x128 := Rect.unit (s := S12500x128) ![0, 0] S12500x128.size inb_S12500x128_S12500x128_0_0

/-- The output block after the body, from the three input blocks (the segment matrix, its transpose, the table's
    lines): its one store. -/
def outB (x0 : Vec F S128x8 .f32) (x1 : Vec F S8x128 .f32) (x2 : Vec F S12500x128 .f32) : Vec F S12500x128 .f32 :=
  View.canon [⟨rT, k2_pay1 (View.ld x2 rT) (View.ld x0 rS) (View.ld x1 rST)⟩]

theorem coverB (p0 : Vec F S12500x128 .f32) (y : S12500x128.Idx) :
    ∃ pc ∈ ([⟨rT, p0⟩] : List (View.Piece (Elt F) S12500x128 .f32)), y ∈ pc.1.set :=
  View.cover_of_tiled [⟨rT, p0⟩] S12500x128.size (by rfl) y

set_option maxHeartbeats 1000000 in
/-- The body on whole staging memrefs: the three inputs' as they were, the output's at the stored value. -/
theorem sound_kernel (c : Dev nD) (E : Set ℕ) (arg0 : Memref sig .tc .vmem S128x8 .f32) (harg0 : arg0.IsWhole)
    (arg1 : Memref sig .tc .vmem S8x128 .f32) (harg1 : arg1.IsWhole) (arg2 : Memref sig .tc .vmem S12500x128 .f32) (harg2 : arg2.IsWhole)
    (arg3 : Memref sig .tc .vmem S12500x128 .f32) (harg3 : arg3.IsWhole)
    (x0 : Vec F S128x8 .f32) (x1 : Vec F S8x128 .f32) (x2 : Vec F S12500x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (outB x0 x1 x2)) -∗ Kk ⟨⟩))
      ⊢ wp frame (wpE (defs₀ (F := F)) Variants.none c none) E (cc2__scale_body arg0 harg0 arg1 harg1 arg2 harg2 arg3 harg3) Kk := by
  simp only [cc2__scale_body_eq_skeleton]; unfold cc2__scale_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-! ## The windows' blocks and the proof data, at entry contents `V` -/

variable (V : (c : Dev nD) → (b : Ref sig .tc) → Buf (Elt F) ((c : Thread nD τ).loc b))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) (HIx 1) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

-- What the TensorCore owes throughout the call (its start signals to the SparseCores, paid at the later call).
variable (O : Dev nD → CellTallies nD τ sig (HIx 1))

/-- The call's proof data on core `c`: the arrays as the call finds them; after the body the inputs' blocks in place
    and the output's at the stored value; the invariant the scoped buffers no window stages; full shares; the core owing
    `O c` throughout, its recorded waits at the kernels' own index. -/
def datR (c : Dev nD) : Dat τ (Elt F) (HIx 1) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outB (iblk V c 0 t) (iblk V c 1 t) (iblk V c 2 t)
  Φ _ := Pipeline.scopedRest spec2 c
  q _ := fullShare
  owed _ := O c
  recorded _ := {p | p.2 = none}

theorem A_eq (c : Dev nD) (w : Fin cfg2.W) : (datR V O c).A w = V c (Pipeline.arrRef spec2 w) := by
  dsimp only [datR]
theorem after_0 (c : Dev nD) (t : Fin cfg2.N) : (datR V O c).after 0 t = iblk V c 0 t := by dsimp only [datR]
theorem after_1 (c : Dev nD) (t : Fin cfg2.N) : (datR V O c).after 1 t = iblk V c 1 t := by dsimp only [datR]
theorem after_2 (c : Dev nD) (t : Fin cfg2.N) : (datR V O c).after 2 t = iblk V c 2 t := by dsimp only [datR]
theorem after_3 (c : Dev nD) (t : Fin cfg2.N) :
    (datR V O c).after 3 t = outB (iblk V c 0 t) (iblk V c 1 t) (iblk V c 2 t) := by dsimp only [datR]

theorem before_0 (c : Dev nD) (t : Fin cfg2.N) (d) : (datR V O c).before 0 t d = iblk V c 0 t :=
  before_0_of V (datR V O c) (A_eq V O c 0) (after_0 V O c) t d
theorem before_1 (c : Dev nD) (t : Fin cfg2.N) (d) : (datR V O c).before 1 t d = iblk V c 1 t :=
  before_1_of V (datR V O c) (A_eq V O c 1) (after_1 V O c) t d
theorem before_2 (c : Dev nD) (t : Fin cfg2.N) (d) : (datR V O c).before 2 t d = iblk V c 2 t :=
  before_2_of V (datR V O c) (A_eq V O c 2) (after_2 V O c) t d

/-! ## The body obligation -/

def bodyPre (c : Dev nD) (t : Fin cfg2.N) : sProp 𝕄 :=
  iprop((datR V O c).Φ t.castSucc ∗ (datR V O c).owesAt none t.castSucc
    ∗ (∃ d, owns (c : Thread nD τ) (st2_0 t) fullShare ((datR V O c).before 0 t d))
    ∗ (∃ d, owns (c : Thread nD τ) (st2_1 t) fullShare ((datR V O c).before 1 t d))
    ∗ (∃ d, owns (c : Thread nD τ) (st2_2 t) fullShare ((datR V O c).before 2 t d))
    ∗ (∃ d, owns (c : Thread nD τ) (st2_3 t) fullShare ((datR V O c).before 3 t d)))

def bodyPost (c : Dev nD) (t : Fin cfg2.N) : sProp 𝕄 :=
  iprop((datR V O c).Φ t.succ ∗ (datR V O c).owesAt none t.succ
    ∗ owns (c : Thread nD τ) (st2_0 t) fullShare ((datR V O c).after 0 t)
    ∗ owns (c : Thread nD τ) (st2_1 t) fullShare ((datR V O c).after 1 t)
    ∗ owns (c : Thread nD τ) (st2_2 t) fullShare ((datR V O c).after 2 t)
    ∗ owns (c : Thread nD τ) (st2_3 t) fullShare ((datR V O c).after 3 t))

theorem sound_body (c : Dev nD) (t : Fin cfg2.N) :
    bodyPre V O c t ⊢ wp frame (wpE (defs₀ (F := F)) Variants.none c none) Set.univ (bodyAt2 t) (fun _ => bodyPost V O c t) := by
  unfold bodyPre bodyPost bodyAt2
  simp only [before_0, before_1, before_2]
  rw [show (datR V O c).Φ t.succ = (datR V O c).Φ t.castSucc from rfl,
    show (datR V O c).owesAt none t.succ = (datR V O c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : Pipeline.BodyObligation (datR (F := F) V O c) (defs₀ (F := F)) Variants.none none Set.univ := fun t => by
  rw [bigSep_W2, bigSep_W2]
  exact sound_body V O c t

/-! ## The family of proof data, and call 2 as a kernel region -/

def datT0 (c : Dev nD) : Dat τ (Elt F) (HIx 1) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
    | ⟨3, _⟩ => ((cfg0.win 3).blk t).view.read (Elt F) (V c (Pipeline.arrRef spec0 3))
  Φ _ := Pipeline.scopedRest spec0 c
  q _ := fullShare
  owed _ := O c

def datT1 (c : Dev nD) : Dat τ (Elt F) (HIx 1) ℕ UU ℕ cfg1 c where
  A w := V c (Pipeline.arrRef spec1 w)
  after w t := match w with
    | ⟨0, _⟩ => ((cfg1.win 0).blk t).view.read (Elt F) (V c (Pipeline.arrRef spec1 0))
    | ⟨1, _⟩ => ((cfg1.win 1).blk t).view.read (Elt F) (V c (Pipeline.arrRef spec1 1))
    | ⟨2, _⟩ => ((cfg1.win 2).blk t).view.read (Elt F) (V c (Pipeline.arrRef spec1 2))
    | ⟨3, _⟩ => ((cfg1.win 3).blk t).view.read (Elt F) (V c (Pipeline.arrRef spec1 3))
  Φ _ := Pipeline.scopedRest spec1 c
  q _ := fullShare
  owed _ := O c

def datT3 (c : Dev nD) : Dat τ (Elt F) (HIx 1) ℕ UU ℕ cfg3 c where
  A w := V c (Pipeline.arrRef spec3 w)
  after w t := match w with
    | ⟨0, _⟩ => ((cfg3.win 0).blk t).view.read (Elt F) (V c (Pipeline.arrRef spec3 0))
    | ⟨1, _⟩ => ((cfg3.win 1).blk t).view.read (Elt F) (V c (Pipeline.arrRef spec3 1))
    | ⟨2, _⟩ => ((cfg3.win 2).blk t).view.read (Elt F) (V c (Pipeline.arrRef spec3 2))
    | ⟨3, _⟩ => ((cfg3.win 3).blk t).view.read (Elt F) (V c (Pipeline.arrRef spec3 3))
  Φ _ := Pipeline.scopedRest spec3 c
  q _ := fullShare
  owed _ := O c

def datT4 (c : Dev nD) : Dat τ (Elt F) (HIx 1) ℕ UU ℕ cfg4 c where
  A w := V c (Pipeline.arrRef spec4 w)
  after w t := match w with
    | ⟨0, _⟩ => ((cfg4.win 0).blk t).view.read (Elt F) (V c (Pipeline.arrRef spec4 0))
    | ⟨1, _⟩ => ((cfg4.win 1).blk t).view.read (Elt F) (V c (Pipeline.arrRef spec4 1))
    | ⟨2, _⟩ => ((cfg4.win 2).blk t).view.read (Elt F) (V c (Pipeline.arrRef spec4 2))
    | ⟨3, _⟩ => ((cfg4.win 3).blk t).view.read (Elt F) (V c (Pipeline.arrRef spec4 3))
  Φ _ := Pipeline.scopedRest spec4 c
  q _ := fullShare
  owed _ := O c

abbrev adm : (p : Fin 5) → (pcfgs (F := F) p).Adm := fun p => (cfgs p).toPCfg_adm

def pdats : (p : Fin 5) → (c : Dev nD) → Dat τ (Elt F) (HIx 1) ℕ UU ℕ (Pipeline.pin (pcfgs (F := F)) adm p) c
  | ⟨0, _⟩ => fun c => datT0 V O c
  | ⟨1, _⟩ => fun c => datT1 V O c
  | ⟨2, _⟩ => fun c => datR V O c
  | ⟨3, _⟩ => fun c => datT3 V O c
  | ⟨4, _⟩ => fun c => datT4 V O c

section Region

variable (W : Valuation τ sig (Elt F))

/-- The valuation read at the TensorCore's references, the same on every core. -/
abbrev VW (c : Dev nD) (b : Ref sig .tc) : Buf (Elt F) ((c : Thread nD τ).loc b) := W (dr b)
/-- What the TensorCore owes from the launch to the SparseCore call: its start signals. -/
abbrev OT (c : Dev nD) : CellTallies nD τ sig (HIx 1) := (K (F := F)).Otc c 0

omit [FloatOps F] in
theorem OT_none (c : Dev nD) (g : GSem nD τ sig) : OT (F := F) c g none = 0 := by
  by_contra h
  have := SparseCore.Cfg.lev_of_Otc_pos (K := K (F := F)) (d := c) (n := 0) (g := g) (ι := none) (Nat.pos_of_ne_zero h)
  rw [SparseCore.Cfg.lev_none] at this; omega

/-- What call 2 leaves in its output array. -/
def Rout (c : Dev nD) (W : Valuation τ sig (Elt F)) : (dr main_v8).ty.Contents (Elt F) := (datR (VW W) (OT (F := F)) c).arrAt 3 cfg2.N

/-- The TensorCore's debt as its handshake state holds it. -/
abbrev owesPart (c : Dev nD) : sProp 𝕄 :=
  iprop(∃ Ws, ⌜(K (F := F)).WBelow (SparseCore.T c) Ws (8 * 0)⌝ ∗ owes (SparseCore.T c) (OT (F := F) c) Ws)

set_option backward.isDefEq.respectTransparency.types false in
def reg : Pipeline.RegionSeg (pcfgs (F := F)) adm (pdats (VW W) (OT (F := F))) none defs₀ 𝒱₀ (K (F := F)).L (K (F := F)).lev 2 where
  win := launch2.win.to₀
  block_pos := launch2.block_pos
  stage_whole := launch2.stage_whole
  K := PEmpty
  osem k := k.elim
  ho := Pipeline.OwnSemFacts.none _
  hbody c := (body_obligation (VW W) (OT (F := F)) c).loose
  hwaits c := Pipeline.cellsWaits_intro (Pipeline.pin (pcfgs (F := F)) adm) (pdats (VW W) (OT (F := F))) none 2 c
    (R := levAts (K (F := F)).L (K (F := F)).lev) (fun w s t => (K (F := F)).mayWait_none _ (OT_none (F := F) c))
  pre c := iprop(StableHlo.held (c : Thread nD τ) (Pipeline.ucRefs τ sig) W ∗ owesPart c)
  post c := iprop(StableHlo.held (c : Thread nD τ) (Pipeline.ucRefs τ sig) (Function.update W (dr main_v8) (Rout c W)) ∗ owesPart c)
  X c := iprop(emp)
  Y c := iprop(emp)
  Z c := Pipeline.unscopedRest (Ix := HIx 1) (Name := ℕ) (U := UU) (Lvl := ℕ) spec2 c (VW W c)
  hentry c := by
    rw [Pipeline.ownSems0_none]
    have hsplit := Pipeline.arrays_of_unscopedBufs (p := 2) (pcfgs (F := F)) adm (pdats (VW W) (OT (F := F))) launch2.win launch2.arr_whole c
      ((pdats (VW W) (OT (F := F)) 2 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr
      · ipureintro; intro p hp; exact Or.inl (by
          have := hWs p hp
          rcases hpi : p.2 with _ | q
          · exact hpi
          · rw [hpi] at this; exact absurd this (by have := (K (F := F)).lev_some_pos (SparseCore.T c, p.1) q; omega))
      iexact HO
    isplitr; · iempintro
    iexact Hrest
  hin c := by
    rw [show (pdats (VW W) (OT (F := F)) 2 c).Φ 0 = Pipeline.scopedRest spec2 c from rfl]
    iintro ⟨-, -, Hr⟩
    iexact Hr
  hout c := by
    rw [Pipeline.ownSems0_none, show (pdats (VW W) (OT (F := F)) 2 c).Φ (Fin.last _) = Pipeline.scopedRest spec2 c from rfl]
    iintro Hr
    isplitr; · iempintro
    isplitr; · iempintro
    iexact Hr
  hexit c := by
    have hjoin := Pipeline.unscopedBufs_of_arrays (p := 2) (pcfgs (F := F)) adm (Ix := HIx 1) (Name := ℕ) (U := UU) (Lvl := ℕ)
      launch2.win launch2.arr_whole c (pdats (VW W) (OT (F := F))) ((pdats (VW W) (OT (F := F)) 2 c).share_full fun _ => rfl)
      (VW W c) (VW (Function.update W (dr main_v8) (Rout c W)) c) ((pdats (VW W) (OT (F := F)) 2 c).arrAt · cfg2.N)
      (fun w => by
        match w with
        | ⟨0, _⟩ => exact ((datR (VW W) (OT (F := F)) c).arrAt_in 0 rfl _).trans ((A_eq (VW W) (OT (F := F)) c 0).trans (Function.update_of_ne (show dr main_cst ≠ dr main_v8 by decide) _ _).symm)
        | ⟨1, _⟩ => exact ((datR (VW W) (OT (F := F)) c).arrAt_in 1 rfl _).trans ((A_eq (VW W) (OT (F := F)) c 1).trans (Function.update_of_ne (show dr main_cst_0 ≠ dr main_v8 by decide) _ _).symm)
        | ⟨2, _⟩ => exact ((datR (VW W) (OT (F := F)) c).arrAt_in 2 rfl _).trans ((A_eq (VW W) (OT (F := F)) c 2).trans (Function.update_of_ne (show dr main_v4 ≠ dr main_v8 by decide) _ _).symm)
        | ⟨3, _⟩ => exact (Function.update_self (dr main_v8) (Rout c W) W).symm)
      (fun b hb => Function.update_of_ne (fun e => hb (Finset.mem_image.mpr ⟨3, Finset.mem_univ _, Proc.devRef_injective _ e.symm⟩)) _ _)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr
    · ipureintro; intro p hp
      rcases hWs hp with h | ⟨w, s, rfl⟩
      · rw [show p.2 = none from h]; exact le_of_eq rfl
      · exact le_of_eq rfl
    iexact HO

end Region

/-! ## The step: the call in the program's own signature, lifted into the SparseCore program -/

/-- TensorCore call `p`'s ghost state on core `c`, as the launch deals it. -/
abbrev ghost (p : Fin 5) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

set_option backward.isDefEq.respectTransparency.types false in
theorem regionStep [∀ e, Nonempty (Elt F e)] (P : (K (F := F)).Pay (nD := nD) (Val := Elt F) (Name := ℕ) (U := UU)) (Gout : Dev nD → sProp 𝕄) :
    RegionStep P 2 main_v8 (Rout (F := F)) (fun d => iprop(ghost (F := F) 2 d ∗ Gout d)) Gout := by
  intro κ d W Q
  iintro ⟨#Hctx, Hst, Hb, Hheld, ⟨Hg, Ht⟩, HG⟩ Hk
  unfold SparseCore.Cfg.tcSt
  icases Hst with ⟨Howes, Hrest⟩
  ihave Hlev := (SparseCore.Cfg.ctx_levAts (K := K (F := F)) κ) $$ Hctx
  iapply ((K (F := F)).wp_liftProg (D (F := F)) 𝒱 (SparseCore.T d) Set.univ none
    (Prog.lift (TpuEff.customCall (Pipeline.entry (2 : Fin 5)) ())) Q)
  iapply (Pipeline.RegionSeg.wp (pcfgs (F := F)) adm (pdats (VW W) (OT (F := F))) none cellOf_inj (EP (F := F)) defs₀ 𝒱₀
    (K (F := F)).L (K (F := F)).lev (reg W) d none (fun _ h => nomatch h) (fun _ => Prog.ret PUnit.unit) Q) $$ [Hk Hb Hheld Howes Hg Ht Hrest HG]
  isplitl [Hk Hrest HG]
  · iintro ⟨Hb, Hpost⟩
    ihave Hpost := (Entails.of_eq (show (reg (F := F) W).post d
      = iprop(StableHlo.held (d : Thread nD τ) (Pipeline.ucRefs τ sig) (Function.update W (dr main_v8) (Rout d W)) ∗ owesPart (F := F) d) from rfl)) $$ Hpost
    icases Hpost with ⟨Hheld, Howes⟩
    rw [wp_ret]; imodintro
    iapply Hk
    isplitl [Howes Hrest]
    · isplitl [Howes]; · iexact Howes
      iexact Hrest
    isplitl [Hb]; · iexact Hb
    isplitl [Hheld]; · iexact Hheld
    iexact HG
  isplitl [Hb]; · iexact Hb
  isplitl [Hheld Howes]
  · iapply (Entails.of_eq (show iprop(StableHlo.held (d : Thread nD τ) (Pipeline.ucRefs τ sig) W ∗ owesPart (F := F) d) = (reg (F := F) W).pre d from rfl))
    isplitl [Hheld]; · iexact Hheld
    iexact Howes
  isplitr; · iexact Hlev
  isplitl [Hg]; · iexact Hg
  iexact Ht

end Cert.Proof.ScReg2

end
-- ==== Proof.ScReg3.lean ====
/-
  TensorCore call 3 (the scaling of table 2: each sixteen-lane segment of a line times min(1, 5 / max(norm, 1e-12)))
  as a step of @main inside the SparseCore program: the body's run on its staged blocks, the call's proof data at the
  entry contents, and the call as a kernel region.
-/
import proofs.«203359_g24824910971486_cont_8to1_1854_34_alg».proof.Proof.ScMain
import proofs.«203359_g24824910971486_cont_8to1_1854_34_alg».proof.Proof.Gen.KernelIdeal.Launch
import proofs.«203359_g24824910971486_cont_8to1_1854_34_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Proof.ScReg3

open Cert.KernelIdeal Cert.KernelIdeal.Gen Cert.Proof.ScSetup Cert.Proof.ScMain

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Idealize.ShloMosaic.Tactic

variable {F : FTy → Type} [FloatOps F]

local notation "𝕄" => MT nD τ sig (HIx 1) (Elt F) ℕ UU ℕ

/-! ## The body's accesses and what it leaves in the output block -/

abbrev rS : Rect S128x8 := Rect.unit (s := S128x8) ![0, 0] S128x8.size inb_S128x8_S128x8_0_0
abbrev rST : Rect S8x128 := Rect.unit (s := S8x128) ![0, 0] S8x128.size inb_S8x128_S8x128_0_0
abbrev rT : Rect S12500x128 := Rect.unit (s := S12500x128) ![0, 0] S12500x128.size inb_S12500x128_S12500x128_0_0

/-- The output block after the body, from the three input blocks (the segment matrix, its transpose, the table's
    lines): its one store. -/
def outB (x0 : Vec F S128x8 .f32) (x1 : Vec F S8x128 .f32) (x2 : Vec F S12500x128 .f32) : Vec F S12500x128 .f32 :=
  View.canon [⟨rT, k3_pay1 (View.ld x2 rT) (View.ld x0 rS) (View.ld x1 rST)⟩]

theorem coverB (p0 : Vec F S12500x128 .f32) (y : S12500x128.Idx) :
    ∃ pc ∈ ([⟨rT, p0⟩] : List (View.Piece (Elt F) S12500x128 .f32)), y ∈ pc.1.set :=
  View.cover_of_tiled [⟨rT, p0⟩] S12500x128.size (by rfl) y

set_option maxHeartbeats 1000000 in
/-- The body on whole staging memrefs: the three inputs' as they were, the output's at the stored value. -/
theorem sound_kernel (c : Dev nD) (E : Set ℕ) (arg0 : Memref sig .tc .vmem S128x8 .f32) (harg0 : arg0.IsWhole)
    (arg1 : Memref sig .tc .vmem S8x128 .f32) (harg1 : arg1.IsWhole) (arg2 : Memref sig .tc .vmem S12500x128 .f32) (harg2 : arg2.IsWhole)
    (arg3 : Memref sig .tc .vmem S12500x128 .f32) (harg3 : arg3.IsWhole)
    (x0 : Vec F S128x8 .f32) (x1 : Vec F S8x128 .f32) (x2 : Vec F S12500x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (outB x0 x1 x2)) -∗ Kk ⟨⟩))
      ⊢ wp frame (wpE (defs₀ (F := F)) Variants.none c none) E (cc3__scale_body arg0 harg0 arg1 harg1 arg2 harg2 arg3 harg3) Kk := by
  simp only [cc3__scale_body_eq_skeleton]; unfold cc3__scale_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-! ## The windows' blocks and the proof data, at entry contents `V` -/

variable (V : (c : Dev nD) → (b : Ref sig .tc) → Buf (Elt F) ((c : Thread nD τ).loc b))

/-- Window `w`'s block at point `t`, read off its array as the call finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_0_of {c : Dev nD} (dat : Dat τ (Elt F) (HIx 1) ℕ UU ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

-- What the TensorCore owes throughout the call (its start signals to the SparseCores, paid at the later call).
variable (O : Dev nD → CellTallies nD τ sig (HIx 1))

/-- The call's proof data on core `c`: the arrays as the call finds them; after the body the inputs' blocks in place
    and the output's at the stored value; the invariant the scoped buffers no window stages; full shares; the core owing
    `O c` throughout, its recorded waits at the kernels' own index. -/
def datR (c : Dev nD) : Dat τ (Elt F) (HIx 1) ℕ UU ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outB (iblk V c 0 t) (iblk V c 1 t) (iblk V c 2 t)
  Φ _ := Pipeline.scopedRest spec3 c
  q _ := fullShare
  owed _ := O c
  recorded _ := {p | p.2 = none}

theorem A_eq (c : Dev nD) (w : Fin cfg3.W) : (datR V O c).A w = V c (Pipeline.arrRef spec3 w) := by
  dsimp only [datR]
theorem after_0 (c : Dev nD) (t : Fin cfg3.N) : (datR V O c).after 0 t = iblk V c 0 t := by dsimp only [datR]
theorem after_1 (c : Dev nD) (t : Fin cfg3.N) : (datR V O c).after 1 t = iblk V c 1 t := by dsimp only [datR]
theorem after_2 (c : Dev nD) (t : Fin cfg3.N) : (datR V O c).after 2 t = iblk V c 2 t := by dsimp only [datR]
theorem after_3 (c : Dev nD) (t : Fin cfg3.N) :
    (datR V O c).after 3 t = outB (iblk V c 0 t) (iblk V c 1 t) (iblk V c 2 t) := by dsimp only [datR]

theorem before_0 (c : Dev nD) (t : Fin cfg3.N) (d) : (datR V O c).before 0 t d = iblk V c 0 t :=
  before_0_of V (datR V O c) (A_eq V O c 0) (after_0 V O c) t d
theorem before_1 (c : Dev nD) (t : Fin cfg3.N) (d) : (datR V O c).before 1 t d = iblk V c 1 t :=
  before_1_of V (datR V O c) (A_eq V O c 1) (after_1 V O c) t d
theorem before_2 (c : Dev nD) (t : Fin cfg3.N) (d) : (datR V O c).before 2 t d = iblk V c 2 t :=
  before_2_of V (datR V O c) (A_eq V O c 2) (after_2 V O c) t d

/-! ## The body obligation -/

def bodyPre (c : Dev nD) (t : Fin cfg3.N) : sProp 𝕄 :=
  iprop((datR V O c).Φ t.castSucc ∗ (datR V O c).owesAt none t.castSucc
    ∗ (∃ d, owns (c : Thread nD τ) (st3_0 t) fullShare ((datR V O c).before 0 t d))
    ∗ (∃ d, owns (c : Thread nD τ) (st3_1 t) fullShare ((datR V O c).before 1 t d))
    ∗ (∃ d, owns (c : Thread nD τ) (st3_2 t) fullShare ((datR V O c).before 2 t d))
    ∗ (∃ d, owns (c : Thread nD τ) (st3_3 t) fullShare ((datR V O c).before 3 t d)))

def bodyPost (c : Dev nD) (t : Fin cfg3.N) : sProp 𝕄 :=
  iprop((datR V O c).Φ t.succ ∗ (datR V O c).owesAt none t.succ
    ∗ owns (c : Thread nD τ) (st3_0 t) fullShare ((datR V O c).after 0 t)
    ∗ owns (c : Thread nD τ) (st3_1 t) fullShare ((datR V O c).after 1 t)
    ∗ owns (c : Thread nD τ) (st3_2 t) fullShare ((datR V O c).after 2 t)
    ∗ owns (c : Thread nD τ) (st3_3 t) fullShare ((datR V O c).after 3 t))

theorem sound_body (c : Dev nD) (t : Fin cfg3.N) :
    bodyPre V O c t ⊢ wp frame (wpE (defs₀ (F := F)) Variants.none c none) Set.univ (bodyAt3 t) (fun _ => bodyPost V O c t) := by
  unfold bodyPre bodyPost bodyAt3
  simp only [before_0, before_1, before_2]
  rw [show (datR V O c).Φ t.succ = (datR V O c).Φ t.castSucc from rfl,
    show (datR V O c).owesAt none t.succ = (datR V O c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : Pipeline.BodyObligation (datR (F := F) V O c) (defs₀ (F := F)) Variants.none none Set.univ := fun t => by
  rw [bigSep_W3, bigSep_W3]
  exact sound_body V O c t

/-! ## The family of proof data, and call 3 as a kernel region -/

def datT0 (c : Dev nD) : Dat τ (Elt F) (HIx 1) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
    | ⟨3, _⟩ => ((cfg0.win 3).blk t).view.read (Elt F) (V c (Pipeline.arrRef spec0 3))
  Φ _ := Pipeline.scopedRest spec0 c
  q _ := fullShare
  owed _ := O c

def datT1 (c : Dev nD) : Dat τ (Elt F) (HIx 1) ℕ UU ℕ cfg1 c where
  A w := V c (Pipeline.arrRef spec1 w)
  after w t := match w with
    | ⟨0, _⟩ => ((cfg1.win 0).blk t).view.read (Elt F) (V c (Pipeline.arrRef spec1 0))
    | ⟨1, _⟩ => ((cfg1.win 1).blk t).view.read (Elt F) (V c (Pipeline.arrRef spec1 1))
    | ⟨2, _⟩ => ((cfg1.win 2).blk t).view.read (Elt F) (V c (Pipeline.arrRef spec1 2))
    | ⟨3, _⟩ => ((cfg1.win 3).blk t).view.read (Elt F) (V c (Pipeline.arrRef spec1 3))
  Φ _ := Pipeline.scopedRest spec1 c
  q _ := fullShare
  owed _ := O c

def datT2 (c : Dev nD) : Dat τ (Elt F) (HIx 1) ℕ UU ℕ cfg2 c where
  A w := V c (Pipeline.arrRef spec2 w)
  after w t := match w with
    | ⟨0, _⟩ => ((cfg2.win 0).blk t).view.read (Elt F) (V c (Pipeline.arrRef spec2 0))
    | ⟨1, _⟩ => ((cfg2.win 1).blk t).view.read (Elt F) (V c (Pipeline.arrRef spec2 1))
    | ⟨2, _⟩ => ((cfg2.win 2).blk t).view.read (Elt F) (V c (Pipeline.arrRef spec2 2))
    | ⟨3, _⟩ => ((cfg2.win 3).blk t).view.read (Elt F) (V c (Pipeline.arrRef spec2 3))
  Φ _ := Pipeline.scopedRest spec2 c
  q _ := fullShare
  owed _ := O c

def datT4 (c : Dev nD) : Dat τ (Elt F) (HIx 1) ℕ UU ℕ cfg4 c where
  A w := V c (Pipeline.arrRef spec4 w)
  after w t := match w with
    | ⟨0, _⟩ => ((cfg4.win 0).blk t).view.read (Elt F) (V c (Pipeline.arrRef spec4 0))
    | ⟨1, _⟩ => ((cfg4.win 1).blk t).view.read (Elt F) (V c (Pipeline.arrRef spec4 1))
    | ⟨2, _⟩ => ((cfg4.win 2).blk t).view.read (Elt F) (V c (Pipeline.arrRef spec4 2))
    | ⟨3, _⟩ => ((cfg4.win 3).blk t).view.read (Elt F) (V c (Pipeline.arrRef spec4 3))
  Φ _ := Pipeline.scopedRest spec4 c
  q _ := fullShare
  owed _ := O c

abbrev adm : (p : Fin 5) → (pcfgs (F := F) p).Adm := fun p => (cfgs p).toPCfg_adm

def pdats : (p : Fin 5) → (c : Dev nD) → Dat τ (Elt F) (HIx 1) ℕ UU ℕ (Pipeline.pin (pcfgs (F := F)) adm p) c
  | ⟨0, _⟩ => fun c => datT0 V O c
  | ⟨1, _⟩ => fun c => datT1 V O c
  | ⟨2, _⟩ => fun c => datT2 V O c
  | ⟨3, _⟩ => fun c => datR V O c
  | ⟨4, _⟩ => fun c => datT4 V O c

section Region

variable (W : Valuation τ sig (Elt F))

/-- The valuation read at the TensorCore's references, the same on every core. -/
abbrev VW (c : Dev nD) (b : Ref sig .tc) : Buf (Elt F) ((c : Thread nD τ).loc b) := W (dr b)
/-- What the TensorCore owes from the launch to the SparseCore call: its start signals. -/
abbrev OT (c : Dev nD) : CellTallies nD τ sig (HIx 1) := (K (F := F)).Otc c 0

omit [FloatOps F] in
theorem OT_none (c : Dev nD) (g : GSem nD τ sig) : OT (F := F) c g none = 0 := by
  by_contra h
  have := SparseCore.Cfg.lev_of_Otc_pos (K := K (F := F)) (d := c) (n := 0) (g := g) (ι := none) (Nat.pos_of_ne_zero h)
  rw [SparseCore.Cfg.lev_none] at this; omega

/-- What call 3 leaves in its output array. -/
def Rout (c : Dev nD) (W : Valuation τ sig (Elt F)) : (dr main_v9).ty.Contents (Elt F) := (datR (VW W) (OT (F := F)) c).arrAt 3 cfg3.N

/-- The TensorCore's debt as its handshake state holds it. -/
abbrev owesPart (c : Dev nD) : sProp 𝕄 :=
  iprop(∃ Ws, ⌜(K (F := F)).WBelow (SparseCore.T c) Ws (8 * 0)⌝ ∗ owes (SparseCore.T c) (OT (F := F) c) Ws)

set_option backward.isDefEq.respectTransparency.types false in
def reg : Pipeline.RegionSeg (pcfgs (F := F)) adm (pdats (VW W) (OT (F := F))) none defs₀ 𝒱₀ (K (F := F)).L (K (F := F)).lev 3 where
  win := launch3.win.to₀
  block_pos := launch3.block_pos
  stage_whole := launch3.stage_whole
  K := PEmpty
  osem k := k.elim
  ho := Pipeline.OwnSemFacts.none _
  hbody c := (body_obligation (VW W) (OT (F := F)) c).loose
  hwaits c := Pipeline.cellsWaits_intro (Pipeline.pin (pcfgs (F := F)) adm) (pdats (VW W) (OT (F := F))) none 3 c
    (R := levAts (K (F := F)).L (K (F := F)).lev) (fun w s t => (K (F := F)).mayWait_none _ (OT_none (F := F) c))
  pre c := iprop(StableHlo.held (c : Thread nD τ) (Pipeline.ucRefs τ sig) W ∗ owesPart c)
  post c := iprop(StableHlo.held (c : Thread nD τ) (Pipeline.ucRefs τ sig) (Function.update W (dr main_v9) (Rout c W)) ∗ owesPart c)
  X c := iprop(emp)
  Y c := iprop(emp)
  Z c := Pipeline.unscopedRest (Ix := HIx 1) (Name := ℕ) (U := UU) (Lvl := ℕ) spec3 c (VW W c)
  hentry c := by
    rw [Pipeline.ownSems0_none]
    have hsplit := Pipeline.arrays_of_unscopedBufs (p := 3) (pcfgs (F := F)) adm (pdats (VW W) (OT (F := F))) launch3.win launch3.arr_whole c
      ((pdats (VW W) (OT (F := F)) 3 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr
      · ipureintro; intro p hp; exact Or.inl (by
          have := hWs p hp
          rcases hpi : p.2 with _ | q
          · exact hpi
          · rw [hpi] at this; exact absurd this (by have := (K (F := F)).lev_some_pos (SparseCore.T c, p.1) q; omega))
      iexact HO
    isplitr; · iempintro
    iexact Hrest
  hin c := by
    rw [show (pdats (VW W) (OT (F := F)) 3 c).Φ 0 = Pipeline.scopedRest spec3 c from rfl]
    iintro ⟨-, -, Hr⟩
    iexact Hr
  hout c := by
    rw [Pipeline.ownSems0_none, show (pdats (VW W) (OT (F := F)) 3 c).Φ (Fin.last _) = Pipeline.scopedRest spec3 c from rfl]
    iintro Hr
    isplitr; · iempintro
    isplitr; · iempintro
    iexact Hr
  hexit c := by
    have hjoin := Pipeline.unscopedBufs_of_arrays (p := 3) (pcfgs (F := F)) adm (Ix := HIx 1) (Name := ℕ) (U := UU) (Lvl := ℕ)
      launch3.win launch3.arr_whole c (pdats (VW W) (OT (F := F))) ((pdats (VW W) (OT (F := F)) 3 c).share_full fun _ => rfl)
      (VW W c) (VW (Function.update W (dr main_v9) (Rout c W)) c) ((pdats (VW W) (OT (F := F)) 3 c).arrAt · cfg3.N)
      (fun w => by
        match w with
        | ⟨0, _⟩ => exact ((datR (VW W) (OT (F := F)) c).arrAt_in 0 rfl _).trans ((A_eq (VW W) (OT (F := F)) c 0).trans (Function.update_of_ne (show dr main_cst ≠ dr main_v9 by decide) _ _).symm)
        | ⟨1, _⟩ => exact ((datR (VW W) (OT (F := F)) c).arrAt_in 1 rfl _).trans ((A_eq (VW W) (OT (F := F)) c 1).trans (Function.update_of_ne (show dr main_cst_0 ≠ dr main_v9 by decide) _ _).symm)
        | ⟨2, _⟩ => exact ((datR (VW W) (OT (F := F)) c).arrAt_in 2 rfl _).trans ((A_eq (VW W) (OT (F := F)) c 2).trans (Function.update_of_ne (show dr main_v5 ≠ dr main_v9 by decide) _ _).symm)
        | ⟨3, _⟩ => exact (Function.update_self (dr main_v9) (Rout c W) W).symm)
      (fun b hb => Function.update_of_ne (fun e => hb (Finset.mem_image.mpr ⟨3, Finset.mem_univ _, Proc.devRef_injective _ e.symm⟩)) _ _)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr
    · ipureintro; intro p hp
      rcases hWs hp with h | ⟨w, s, rfl⟩
      · rw [show p.2 = none from h]; exact le_of_eq rfl
      · exact le_of_eq rfl
    iexact HO

end Region

/-! ## The step: the call in the program's own signature, lifted into the SparseCore program -/

/-- TensorCore call `p`'s ghost state on core `c`, as the launch deals it. -/
abbrev ghost (p : Fin 5) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

set_option backward.isDefEq.respectTransparency.types false in
theorem regionStep [∀ e, Nonempty (Elt F e)] (P : (K (F := F)).Pay (nD := nD) (Val := Elt F) (Name := ℕ) (U := UU)) (Gout : Dev nD → sProp 𝕄) :
    RegionStep P 3 main_v9 (Rout (F := F)) (fun d => iprop(ghost (F := F) 3 d ∗ Gout d)) Gout := by
  intro κ d W Q
  iintro ⟨#Hctx, Hst, Hb, Hheld, ⟨Hg, Ht⟩, HG⟩ Hk
  unfold SparseCore.Cfg.tcSt
  icases Hst with ⟨Howes, Hrest⟩
  ihave Hlev := (SparseCore.Cfg.ctx_levAts (K := K (F := F)) κ) $$ Hctx
  iapply ((K (F := F)).wp_liftProg (D (F := F)) 𝒱 (SparseCore.T d) Set.univ none
    (Prog.lift (TpuEff.customCall (Pipeline.entry (3 : Fin 5)) ())) Q)
  iapply (Pipeline.RegionSeg.wp (pcfgs (F := F)) adm (pdats (VW W) (OT (F := F))) none cellOf_inj (EP (F := F)) defs₀ 𝒱₀
    (K (F := F)).L (K (F := F)).lev (reg W) d none (fun _ h => nomatch h) (fun _ => Prog.ret PUnit.unit) Q) $$ [Hk Hb Hheld Howes Hg Ht Hrest HG]
  isplitl [Hk Hrest HG]
  · iintro ⟨Hb, Hpost⟩
    ihave Hpost := (Entails.of_eq (show (reg (F := F) W).post d
      = iprop(StableHlo.held (d : Thread nD τ) (Pipeline.ucRefs τ sig) (Function.update W (dr main_v9) (Rout d W)) ∗ owesPart (F := F) d) from rfl)) $$ Hpost
    icases Hpost with ⟨Hheld, Howes⟩
    rw [wp_ret]; imodintro
    iapply Hk
    isplitl [Howes Hrest]
    · isplitl [Howes]; · iexact Howes
      iexact Hrest
    isplitl [Hb]; · iexact Hb
    isplitl [Hheld]; · iexact Hheld
    iexact HG
  isplitl [Hb]; · iexact Hb
  isplitl [Hheld Howes]
  · iapply (Entails.of_eq (show iprop(StableHlo.held (d : Thread nD τ) (Pipeline.ucRefs τ sig) W ∗ owesPart (F := F) d) = (reg (F := F) W).pre d from rfl))
    isplitl [Hheld]; · iexact Hheld
    iexact Howes
  isplitr; · iexact Hlev
  isplitl [Hg]; · iexact Hg
  iexact Ht

end Cert.Proof.ScReg3

end
-- ==== Proof.ScReg4.lean ====
/-
  TensorCore call 4 (the scaling of table 3: each sixteen-lane segment of a line times min(1, 5 / max(norm, 1e-12)))
  as a step of @main inside the SparseCore program: the body's run on its staged blocks, the call's proof data at the
  entry contents, and the call as a kernel region.
-/
import proofs.«203359_g24824910971486_cont_8to1_1854_34_alg».proof.Proof.ScMain
import proofs.«203359_g24824910971486_cont_8to1_1854_34_alg».proof.Proof.Gen.KernelIdeal.Launch
import proofs.«203359_g24824910971486_cont_8to1_1854_34_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Proof.ScReg4

open Cert.KernelIdeal Cert.KernelIdeal.Gen Cert.Proof.ScSetup Cert.Proof.ScMain

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Idealize.ShloMosaic.Tactic

variable {F : FTy → Type} [FloatOps F]

local notation "𝕄" => MT nD τ sig (HIx 1) (Elt F) ℕ UU ℕ

/-! ## The body's accesses and what it leaves in the output block -/

abbrev rS : Rect S128x8 := Rect.unit (s := S128x8) ![0, 0] S128x8.size inb_S128x8_S128x8_0_0
abbrev rST : Rect S8x128 := Rect.unit (s := S8x128) ![0, 0] S8x128.size inb_S8x128_S8x128_0_0
abbrev rT : Rect S12500x128 := Rect.unit (s := S12500x128) ![0, 0] S12500x128.size inb_S12500x128_S12500x128_0_0

/-- The output block after the body, from the three input blocks (the segment matrix, its transpose, the table's
    lines): its one store. -/
def outB (x0 : Vec F S128x8 .f32) (x1 : Vec F S8x128 .f32) (x2 : Vec F S12500x128 .f32) : Vec F S12500x128 .f32 :=
  View.canon [⟨rT, k4_pay1 (View.ld x2 rT) (View.ld x0 rS) (View.ld x1 rST)⟩]

theorem coverB (p0 : Vec F S12500x128 .f32) (y : S12500x128.Idx) :
    ∃ pc ∈ ([⟨rT, p0⟩] : List (View.Piece (Elt F) S12500x128 .f32)), y ∈ pc.1.set :=
  View.cover_of_tiled [⟨rT, p0⟩] S12500x128.size (by rfl) y

set_option maxHeartbeats 1000000 in
/-- The body on whole staging memrefs: the three inputs' as they were, the output's at the stored value. -/
theorem sound_kernel (c : Dev nD) (E : Set ℕ) (arg0 : Memref sig .tc .vmem S128x8 .f32) (harg0 : arg0.IsWhole)
    (arg1 : Memref sig .tc .vmem S8x128 .f32) (harg1 : arg1.IsWhole) (arg2 : Memref sig .tc .vmem S12500x128 .f32) (harg2 : arg2.IsWhole)
    (arg3 : Memref sig .tc .vmem S12500x128 .f32) (harg3 : arg3.IsWhole)
    (x0 : Vec F S128x8 .f32) (x1 : Vec F S8x128 .f32) (x2 : Vec F S12500x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (outB x0 x1 x2)) -∗ Kk ⟨⟩))
      ⊢ wp frame (wpE (defs₀ (F := F)) Variants.none c none) E (cc4__scale_body arg0 harg0 arg1 harg1 arg2 harg2 arg3 harg3) Kk := by
  simp only [cc4__scale_body_eq_skeleton]; unfold cc4__scale_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

/-! ## The windows' blocks and the proof data, at entry contents `V` -/

variable (V : (c : Dev nD) → (b : Ref sig .tc) → Buf (Elt F) ((c : Thread nD τ).loc b))

/-- Window `w`'s block at point `t`, read off its array as the call finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before_0_of {c : Dev nD} (dat : Dat τ (Elt F) (HIx 1) ℕ UU ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) (HIx 1) ℕ UU ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) (HIx 1) ℕ UU ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

-- What the TensorCore owes throughout the call (its start signals to the SparseCores, paid at the later call).
variable (O : Dev nD → CellTallies nD τ sig (HIx 1))

/-- The call's proof data on core `c`: the arrays as the call finds them; after the body the inputs' blocks in place
    and the output's at the stored value; the invariant the scoped buffers no window stages; full shares; the core owing
    `O c` throughout, its recorded waits at the kernels' own index. -/
def datR (c : Dev nD) : Dat τ (Elt F) (HIx 1) ℕ UU ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => outB (iblk V c 0 t) (iblk V c 1 t) (iblk V c 2 t)
  Φ _ := Pipeline.scopedRest spec4 c
  q _ := fullShare
  owed _ := O c
  recorded _ := {p | p.2 = none}

theorem A_eq (c : Dev nD) (w : Fin cfg4.W) : (datR V O c).A w = V c (Pipeline.arrRef spec4 w) := by
  dsimp only [datR]
theorem after_0 (c : Dev nD) (t : Fin cfg4.N) : (datR V O c).after 0 t = iblk V c 0 t := by dsimp only [datR]
theorem after_1 (c : Dev nD) (t : Fin cfg4.N) : (datR V O c).after 1 t = iblk V c 1 t := by dsimp only [datR]
theorem after_2 (c : Dev nD) (t : Fin cfg4.N) : (datR V O c).after 2 t = iblk V c 2 t := by dsimp only [datR]
theorem after_3 (c : Dev nD) (t : Fin cfg4.N) :
    (datR V O c).after 3 t = outB (iblk V c 0 t) (iblk V c 1 t) (iblk V c 2 t) := by dsimp only [datR]

theorem before_0 (c : Dev nD) (t : Fin cfg4.N) (d) : (datR V O c).before 0 t d = iblk V c 0 t :=
  before_0_of V (datR V O c) (A_eq V O c 0) (after_0 V O c) t d
theorem before_1 (c : Dev nD) (t : Fin cfg4.N) (d) : (datR V O c).before 1 t d = iblk V c 1 t :=
  before_1_of V (datR V O c) (A_eq V O c 1) (after_1 V O c) t d
theorem before_2 (c : Dev nD) (t : Fin cfg4.N) (d) : (datR V O c).before 2 t d = iblk V c 2 t :=
  before_2_of V (datR V O c) (A_eq V O c 2) (after_2 V O c) t d

/-! ## The body obligation -/

def bodyPre (c : Dev nD) (t : Fin cfg4.N) : sProp 𝕄 :=
  iprop((datR V O c).Φ t.castSucc ∗ (datR V O c).owesAt none t.castSucc
    ∗ (∃ d, owns (c : Thread nD τ) (st4_0 t) fullShare ((datR V O c).before 0 t d))
    ∗ (∃ d, owns (c : Thread nD τ) (st4_1 t) fullShare ((datR V O c).before 1 t d))
    ∗ (∃ d, owns (c : Thread nD τ) (st4_2 t) fullShare ((datR V O c).before 2 t d))
    ∗ (∃ d, owns (c : Thread nD τ) (st4_3 t) fullShare ((datR V O c).before 3 t d)))

def bodyPost (c : Dev nD) (t : Fin cfg4.N) : sProp 𝕄 :=
  iprop((datR V O c).Φ t.succ ∗ (datR V O c).owesAt none t.succ
    ∗ owns (c : Thread nD τ) (st4_0 t) fullShare ((datR V O c).after 0 t)
    ∗ owns (c : Thread nD τ) (st4_1 t) fullShare ((datR V O c).after 1 t)
    ∗ owns (c : Thread nD τ) (st4_2 t) fullShare ((datR V O c).after 2 t)
    ∗ owns (c : Thread nD τ) (st4_3 t) fullShare ((datR V O c).after 3 t))

theorem sound_body (c : Dev nD) (t : Fin cfg4.N) :
    bodyPre V O c t ⊢ wp frame (wpE (defs₀ (F := F)) Variants.none c none) Set.univ (bodyAt4 t) (fun _ => bodyPost V O c t) := by
  unfold bodyPre bodyPost bodyAt4
  simp only [before_0, before_1, before_2]
  rw [show (datR V O c).Φ t.succ = (datR V O c).Φ t.castSucc from rfl,
    show (datR V O c).owesAt none t.succ = (datR V O c).owesAt none t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : Pipeline.BodyObligation (datR (F := F) V O c) (defs₀ (F := F)) Variants.none none Set.univ := fun t => by
  rw [bigSep_W4, bigSep_W4]
  exact sound_body V O c t

/-! ## The family of proof data, and call 4 as a kernel region -/

def datT0 (c : Dev nD) : Dat τ (Elt F) (HIx 1) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
    | ⟨3, _⟩ => ((cfg0.win 3).blk t).view.read (Elt F) (V c (Pipeline.arrRef spec0 3))
  Φ _ := Pipeline.scopedRest spec0 c
  q _ := fullShare
  owed _ := O c

def datT1 (c : Dev nD) : Dat τ (Elt F) (HIx 1) ℕ UU ℕ cfg1 c where
  A w := V c (Pipeline.arrRef spec1 w)
  after w t := match w with
    | ⟨0, _⟩ => ((cfg1.win 0).blk t).view.read (Elt F) (V c (Pipeline.arrRef spec1 0))
    | ⟨1, _⟩ => ((cfg1.win 1).blk t).view.read (Elt F) (V c (Pipeline.arrRef spec1 1))
    | ⟨2, _⟩ => ((cfg1.win 2).blk t).view.read (Elt F) (V c (Pipeline.arrRef spec1 2))
    | ⟨3, _⟩ => ((cfg1.win 3).blk t).view.read (Elt F) (V c (Pipeline.arrRef spec1 3))
  Φ _ := Pipeline.scopedRest spec1 c
  q _ := fullShare
  owed _ := O c

def datT2 (c : Dev nD) : Dat τ (Elt F) (HIx 1) ℕ UU ℕ cfg2 c where
  A w := V c (Pipeline.arrRef spec2 w)
  after w t := match w with
    | ⟨0, _⟩ => ((cfg2.win 0).blk t).view.read (Elt F) (V c (Pipeline.arrRef spec2 0))
    | ⟨1, _⟩ => ((cfg2.win 1).blk t).view.read (Elt F) (V c (Pipeline.arrRef spec2 1))
    | ⟨2, _⟩ => ((cfg2.win 2).blk t).view.read (Elt F) (V c (Pipeline.arrRef spec2 2))
    | ⟨3, _⟩ => ((cfg2.win 3).blk t).view.read (Elt F) (V c (Pipeline.arrRef spec2 3))
  Φ _ := Pipeline.scopedRest spec2 c
  q _ := fullShare
  owed _ := O c

def datT3 (c : Dev nD) : Dat τ (Elt F) (HIx 1) ℕ UU ℕ cfg3 c where
  A w := V c (Pipeline.arrRef spec3 w)
  after w t := match w with
    | ⟨0, _⟩ => ((cfg3.win 0).blk t).view.read (Elt F) (V c (Pipeline.arrRef spec3 0))
    | ⟨1, _⟩ => ((cfg3.win 1).blk t).view.read (Elt F) (V c (Pipeline.arrRef spec3 1))
    | ⟨2, _⟩ => ((cfg3.win 2).blk t).view.read (Elt F) (V c (Pipeline.arrRef spec3 2))
    | ⟨3, _⟩ => ((cfg3.win 3).blk t).view.read (Elt F) (V c (Pipeline.arrRef spec3 3))
  Φ _ := Pipeline.scopedRest spec3 c
  q _ := fullShare
  owed _ := O c

abbrev adm : (p : Fin 5) → (pcfgs (F := F) p).Adm := fun p => (cfgs p).toPCfg_adm

def pdats : (p : Fin 5) → (c : Dev nD) → Dat τ (Elt F) (HIx 1) ℕ UU ℕ (Pipeline.pin (pcfgs (F := F)) adm p) c
  | ⟨0, _⟩ => fun c => datT0 V O c
  | ⟨1, _⟩ => fun c => datT1 V O c
  | ⟨2, _⟩ => fun c => datT2 V O c
  | ⟨3, _⟩ => fun c => datT3 V O c
  | ⟨4, _⟩ => fun c => datR V O c

section Region

variable (W : Valuation τ sig (Elt F))

/-- The valuation read at the TensorCore's references, the same on every core. -/
abbrev VW (c : Dev nD) (b : Ref sig .tc) : Buf (Elt F) ((c : Thread nD τ).loc b) := W (dr b)
/-- What the TensorCore owes from the launch to the SparseCore call: its start signals. -/
abbrev OT (c : Dev nD) : CellTallies nD τ sig (HIx 1) := (K (F := F)).Otc c 0

omit [FloatOps F] in
theorem OT_none (c : Dev nD) (g : GSem nD τ sig) : OT (F := F) c g none = 0 := by
  by_contra h
  have := SparseCore.Cfg.lev_of_Otc_pos (K := K (F := F)) (d := c) (n := 0) (g := g) (ι := none) (Nat.pos_of_ne_zero h)
  rw [SparseCore.Cfg.lev_none] at this; omega

/-- What call 4 leaves in its output array. -/
def Rout (c : Dev nD) (W : Valuation τ sig (Elt F)) : (dr main_v10).ty.Contents (Elt F) := (datR (VW W) (OT (F := F)) c).arrAt 3 cfg4.N

/-- The TensorCore's debt as its handshake state holds it. -/
abbrev owesPart (c : Dev nD) : sProp 𝕄 :=
  iprop(∃ Ws, ⌜(K (F := F)).WBelow (SparseCore.T c) Ws (8 * 0)⌝ ∗ owes (SparseCore.T c) (OT (F := F) c) Ws)

set_option backward.isDefEq.respectTransparency.types false in
def reg : Pipeline.RegionSeg (pcfgs (F := F)) adm (pdats (VW W) (OT (F := F))) none defs₀ 𝒱₀ (K (F := F)).L (K (F := F)).lev 4 where
  win := launch4.win.to₀
  block_pos := launch4.block_pos
  stage_whole := launch4.stage_whole
  K := PEmpty
  osem k := k.elim
  ho := Pipeline.OwnSemFacts.none _
  hbody c := (body_obligation (VW W) (OT (F := F)) c).loose
  hwaits c := Pipeline.cellsWaits_intro (Pipeline.pin (pcfgs (F := F)) adm) (pdats (VW W) (OT (F := F))) none 4 c
    (R := levAts (K (F := F)).L (K (F := F)).lev) (fun w s t => (K (F := F)).mayWait_none _ (OT_none (F := F) c))
  pre c := iprop(StableHlo.held (c : Thread nD τ) (Pipeline.ucRefs τ sig) W ∗ owesPart c)
  post c := iprop(StableHlo.held (c : Thread nD τ) (Pipeline.ucRefs τ sig) (Function.update W (dr main_v10) (Rout c W)) ∗ owesPart c)
  X c := iprop(emp)
  Y c := iprop(emp)
  Z c := Pipeline.unscopedRest (Ix := HIx 1) (Name := ℕ) (U := UU) (Lvl := ℕ) spec4 c (VW W c)
  hentry c := by
    rw [Pipeline.ownSems0_none]
    have hsplit := Pipeline.arrays_of_unscopedBufs (p := 4) (pcfgs (F := F)) adm (pdats (VW W) (OT (F := F))) launch4.win launch4.arr_whole c
      ((pdats (VW W) (OT (F := F)) 4 c).share_full fun _ => rfl) (VW W c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Ws, %hWs, HO⟩; iexists Ws; isplitr
      · ipureintro; intro p hp; exact Or.inl (by
          have := hWs p hp
          rcases hpi : p.2 with _ | q
          · exact hpi
          · rw [hpi] at this; exact absurd this (by have := (K (F := F)).lev_some_pos (SparseCore.T c, p.1) q; omega))
      iexact HO
    isplitr; · iempintro
    iexact Hrest
  hin c := by
    rw [show (pdats (VW W) (OT (F := F)) 4 c).Φ 0 = Pipeline.scopedRest spec4 c from rfl]
    iintro ⟨-, -, Hr⟩
    iexact Hr
  hout c := by
    rw [Pipeline.ownSems0_none, show (pdats (VW W) (OT (F := F)) 4 c).Φ (Fin.last _) = Pipeline.scopedRest spec4 c from rfl]
    iintro Hr
    isplitr; · iempintro
    isplitr; · iempintro
    iexact Hr
  hexit c := by
    have hjoin := Pipeline.unscopedBufs_of_arrays (p := 4) (pcfgs (F := F)) adm (Ix := HIx 1) (Name := ℕ) (U := UU) (Lvl := ℕ)
      launch4.win launch4.arr_whole c (pdats (VW W) (OT (F := F))) ((pdats (VW W) (OT (F := F)) 4 c).share_full fun _ => rfl)
      (VW W c) (VW (Function.update W (dr main_v10) (Rout c W)) c) ((pdats (VW W) (OT (F := F)) 4 c).arrAt · cfg4.N)
      (fun w => by
        match w with
        | ⟨0, _⟩ => exact ((datR (VW W) (OT (F := F)) c).arrAt_in 0 rfl _).trans ((A_eq (VW W) (OT (F := F)) c 0).trans (Function.update_of_ne (show dr main_cst ≠ dr main_v10 by decide) _ _).symm)
        | ⟨1, _⟩ => exact ((datR (VW W) (OT (F := F)) c).arrAt_in 1 rfl _).trans ((A_eq (VW W) (OT (F := F)) c 1).trans (Function.update_of_ne (show dr main_cst_0 ≠ dr main_v10 by decide) _ _).symm)
        | ⟨2, _⟩ => exact ((datR (VW W) (OT (F := F)) c).arrAt_in 2 rfl _).trans ((A_eq (VW W) (OT (F := F)) c 2).trans (Function.update_of_ne (show dr main_v6 ≠ dr main_v10 by decide) _ _).symm)
        | ⟨3, _⟩ => exact (Function.update_self (dr main_v10) (Rout c W) W).symm)
      (fun b hb => Function.update_of_ne (fun e => hb (Finset.mem_image.mpr ⟨3, Finset.mem_univ _, Proc.devRef_injective _ e.symm⟩)) _ _)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩; iexists Ws; isplitr
    · ipureintro; intro p hp
      rcases hWs hp with h | ⟨w, s, rfl⟩
      · rw [show p.2 = none from h]; exact le_of_eq rfl
      · exact le_of_eq rfl
    iexact HO

end Region

/-! ## The step: the call in the program's own signature, lifted into the SparseCore program -/

/-- TensorCore call `p`'s ghost state on core `c`, as the launch deals it. -/
abbrev ghost (p : Fin 5) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

set_option backward.isDefEq.respectTransparency.types false in
theorem regionStep [∀ e, Nonempty (Elt F e)] (P : (K (F := F)).Pay (nD := nD) (Val := Elt F) (Name := ℕ) (U := UU)) (Gout : Dev nD → sProp 𝕄) :
    RegionStep P 4 main_v10 (Rout (F := F)) (fun d => iprop(ghost (F := F) 4 d ∗ Gout d)) Gout := by
  intro κ d W Q
  iintro ⟨#Hctx, Hst, Hb, Hheld, ⟨Hg, Ht⟩, HG⟩ Hk
  unfold SparseCore.Cfg.tcSt
  icases Hst with ⟨Howes, Hrest⟩
  ihave Hlev := (SparseCore.Cfg.ctx_levAts (K := K (F := F)) κ) $$ Hctx
  iapply ((K (F := F)).wp_liftProg (D (F := F)) 𝒱 (SparseCore.T d) Set.univ none
    (Prog.lift (TpuEff.customCall (Pipeline.entry (4 : Fin 5)) ())) Q)
  iapply (Pipeline.RegionSeg.wp (pcfgs (F := F)) adm (pdats (VW W) (OT (F := F))) none cellOf_inj (EP (F := F)) defs₀ 𝒱₀
    (K (F := F)).L (K (F := F)).lev (reg W) d none (fun _ h => nomatch h) (fun _ => Prog.ret PUnit.unit) Q) $$ [Hk Hb Hheld Howes Hg Ht Hrest HG]
  isplitl [Hk Hrest HG]
  · iintro ⟨Hb, Hpost⟩
    ihave Hpost := (Entails.of_eq (show (reg (F := F) W).post d
      = iprop(StableHlo.held (d : Thread nD τ) (Pipeline.ucRefs τ sig) (Function.update W (dr main_v10) (Rout d W)) ∗ owesPart (F := F) d) from rfl)) $$ Hpost
    icases Hpost with ⟨Hheld, Howes⟩
    rw [wp_ret]; imodintro
    iapply Hk
    isplitl [Howes Hrest]
    · isplitl [Howes]; · iexact Howes
      iexact Hrest
    isplitl [Hb]; · iexact Hb
    isplitl [Hheld]; · iexact Hheld
    iexact HG
  isplitl [Hb]; · iexact Hb
  isplitl [Hheld Howes]
  · iapply (Entails.of_eq (show iprop(StableHlo.held (d : Thread nD τ) (Pipeline.ucRefs τ sig) W ∗ owesPart (F := F) d) = (reg (F := F) W).pre d from rfl))
    isplitl [Hheld]; · iexact Hheld
    iexact Howes
  isplitr; · iexact Hlev
  isplitl [Hg]; · iexact Hg
  iexact Ht

end Cert.Proof.ScReg4

end
-- ==== Proof.ScIdx.lean ====
/-
  The index words' range, from the certificate's precondition: the precondition's last four conjuncts say that every
  word of the four text arrays is between 0 and 99999; the four flattened index arrays the SparseCore call reads are
  reshapes of those arrays, which nothing before the call writes, so every word they hold is such a word.
-/
import proofs.«203359_g24824910971486_cont_8to1_1854_34_alg».proof.Proof.ScCall
import proofs.«203359_g24824910971486_cont_8to1_1854_34_alg».proof.Proof.Gen.Pre_input_domain
import Idealize.ShloMosaic.Lib.ReduceAll
import Idealize.ShloMosaic.Lib.ValueIdx

noncomputable section

namespace Cert.Proof.ScIdx

open Cert.KernelIdeal Cert.KernelIdeal.Gen Cert.Proof.ScSetup Cert.Proof.ScMain Cert.Proof.ScBody

open Idealize.ShloMosaic
open Idealize.ShloMosaic.SparseCore (S V T)

variable {F : FTy → Type}

instance subsingleton_scalar_idx : Subsingleton Cert.Pre_input_domain.S_.Idx := ⟨fun a b => funext fun d => d.elim0⟩

/-! ## The precondition's range conjuncts -/

/-- One `jnp.all` of `0 ≤ x ≤ 99999` over a text array, read back: every word is in range. -/
theorem range_of_all (a : IVec Cert.Pre_input_domain.S16384x50 32) (init : IVec Cert.Pre_input_domain.S_ 1)
    (hb : Cert.Pre_input_domain.S_.BroadcastsInDim Cert.Pre_input_domain.S16384x50 (![] : Fin 0 → Fin Cert.Pre_input_domain.S16384x50.rank))
    (hr : Cert.Pre_input_domain.S16384x50.ReducesTo [0, 1] Cert.Pre_input_domain.S_) (hn : 0 < Cert.Pre_input_domain.S_.numel)
    (j : Cert.Pre_input_domain.S_.Idx)
    (e : Host.reduce IntOp.andi
        (andi (cmpi .sge a (broadcastInDim Cert.Pre_input_domain.S16384x50 ![] hb (constantI Cert.Pre_input_domain.S_ 32 0#32)))
          (cmpi .sle a (broadcastInDim Cert.Pre_input_domain.S16384x50 ![] hb (constantI Cert.Pre_input_domain.S_ 32 99999#32))))
        init hr hn j = 1#1) :
    ∀ i, IdxOK (a i) := by
  intro i
  have e' := Host.reduce_andi_all _ _ hr hn j e i
  obtain ⟨e1, e2⟩ := IntOp.andi_eq_one.1 e'
  have h1 : (0#32 : BitVec 32).toInt ≤ (a i).toInt := IntOp.cmpi_sge.1 e1
  have h2 : (a i).toInt ≤ (99999#32 : BitVec 32).toInt := IntOp.cmpi_sle.1 e2
  exact ⟨h1, h2⟩

/-- From the precondition (the printed predicate all ones): every word of the four text arrays is between 0 and 99999. -/
theorem text_range [FloatOps F]
    (a0 : FVec F Cert.Pre_input_domain.S16384x13 .f32) (a1 : IVec Cert.Pre_input_domain.S16384x26 32)
    (a2 a3 a4 a5 : IVec Cert.Pre_input_domain.S16384x50 32) (a6 a7 : FVec F Cert.Pre_input_domain.S13 .f32)
    (a8 a9 a10 a11 : FVec F Cert.Pre_input_domain.S100000x16 .f32)
    (h : Cert.Pre_input_domain.fn (F := F) a0 a1 a2 a3 a4 a5 a6 a7 a8 a9 a10 a11 = fun _ => 1#1) :
    (∀ i, IdxOK (a2 i)) ∧ (∀ i, IdxOK (a3 i)) ∧ (∀ i, IdxOK (a4 i)) ∧ (∀ i, IdxOK (a5 i)) := by
  have h0 := congrFun h ValueIdx.ix0
  simp only [Cert.Pre_input_domain.fn, Cert.Pre_input_domain.fn_part1, Cert.Pre_input_domain.fn_part2,
    Cert.Pre_input_domain.fn_part3, Cert.Pre_input_domain.fn_part4] at h0
  obtain ⟨h61, h67⟩ := IntOp.andi_eq_one.1 h0
  obtain ⟨h54, h60⟩ := IntOp.andi_eq_one.1 h61
  obtain ⟨h47, h53⟩ := IntOp.andi_eq_one.1 h54
  obtain ⟨-, h46⟩ := IntOp.andi_eq_one.1 h47
  exact ⟨range_of_all a2 _ _ _ _ _ h46, range_of_all a3 _ _ _ _ _ h53, range_of_all a4 _ _ _ _ _ h60,
    range_of_all a5 _ _ _ _ _ h67⟩

/-! ## The flattened index arrays are the text arrays' words -/

section Chain

variable [FloatOps F]

/-- Through the four flattening reshapes, each flattened array holds only words of its text array, whatever the valuation
    they start from: a reshape reads its source at the row-major index and writes its result alone. -/
theorem flat_range (W : Valuation τ sig (Elt F))
    (s2 : ∀ i, IdxOK (W (dr main_arg2) i)) (s3 : ∀ i, IdxOK (W (dr main_arg3) i))
    (s4 : ∀ i, IdxOK (W (dr main_arg4) i)) (s5 : ∀ i, IdxOK (W (dr main_arg5) i)) :
    (∀ j, IdxOK ((opI3 (F := F)).result ((opI2 (F := F)).result ((opI1 (F := F)).result ((opI0 (F := F)).result W))) (dr main_v11) j))
    ∧ (∀ j, IdxOK ((opI3 (F := F)).result ((opI2 (F := F)).result ((opI1 (F := F)).result ((opI0 (F := F)).result W))) (dr main_v12) j))
    ∧ (∀ j, IdxOK ((opI3 (F := F)).result ((opI2 (F := F)).result ((opI1 (F := F)).result ((opI0 (F := F)).result W))) (dr main_v13) j))
    ∧ (∀ j, IdxOK ((opI3 (F := F)).result ((opI2 (F := F)).result ((opI1 (F := F)).result ((opI0 (F := F)).result W))) (dr main_v14) j)) := by
  refine ⟨fun j => ?_, fun j => ?_, fun j => ?_, fun j => ?_⟩
  · rw [(opI3 (F := F)).result_of_not_mem _ (show dr main_v11 ∉ ({dr main_v14} : Finset (DevRef τ sig)) by decide),
      (opI2 (F := F)).result_of_not_mem _ (show dr main_v11 ∉ ({dr main_v13} : Finset (DevRef τ sig)) by decide),
      (opI1 (F := F)).result_of_not_mem _ (show dr main_v11 ∉ ({dr main_v12} : Finset (DevRef τ sig)) by decide),
      show (opI0 (F := F)).result W (dr main_v11) = _ from
        StableHlo.reshape_result main_arg2 main_v11 rfl shapeCasts_S16384x50_S819200 ⟨by decide, rfl⟩ ⟨by decide, rfl⟩ W]
    exact s2 _
  · rw [(opI3 (F := F)).result_of_not_mem _ (show dr main_v12 ∉ ({dr main_v14} : Finset (DevRef τ sig)) by decide),
      (opI2 (F := F)).result_of_not_mem _ (show dr main_v12 ∉ ({dr main_v13} : Finset (DevRef τ sig)) by decide),
      show (opI1 (F := F)).result ((opI0 (F := F)).result W) (dr main_v12) = _ from
        StableHlo.reshape_result main_arg3 main_v12 rfl shapeCasts_S16384x50_S819200 ⟨by decide, rfl⟩ ⟨by decide, rfl⟩ _]
    show IdxOK ((opI0 (F := F)).result W (dr main_arg3) _)
    rw [(opI0 (F := F)).result_of_not_mem _ (show dr main_arg3 ∉ ({dr main_v11} : Finset (DevRef τ sig)) by decide)]
    exact s3 _
  · rw [(opI3 (F := F)).result_of_not_mem _ (show dr main_v13 ∉ ({dr main_v14} : Finset (DevRef τ sig)) by decide),
      show (opI2 (F := F)).result ((opI1 (F := F)).result ((opI0 (F := F)).result W)) (dr main_v13) = _ from
        StableHlo.reshape_result main_arg4 main_v13 rfl shapeCasts_S16384x50_S819200 ⟨by decide, rfl⟩ ⟨by decide, rfl⟩ _]
    show IdxOK ((opI1 (F := F)).result ((opI0 (F := F)).result W) (dr main_arg4) _)
    rw [(opI1 (F := F)).result_of_not_mem _ (show dr main_arg4 ∉ ({dr main_v12} : Finset (DevRef τ sig)) by decide),
      (opI0 (F := F)).result_of_not_mem _ (show dr main_arg4 ∉ ({dr main_v11} : Finset (DevRef τ sig)) by decide)]
    exact s4 _
  · rw [show (opI3 (F := F)).result ((opI2 (F := F)).result ((opI1 (F := F)).result ((opI0 (F := F)).result W))) (dr main_v14) = _ from
        StableHlo.reshape_result main_arg5 main_v14 rfl shapeCasts_S16384x50_S819200 ⟨by decide, rfl⟩ ⟨by decide, rfl⟩ _]
    show IdxOK ((opI2 (F := F)).result ((opI1 (F := F)).result ((opI0 (F := F)).result W)) (dr main_arg5) _)
    rw [(opI2 (F := F)).result_of_not_mem _ (show dr main_arg5 ∉ ({dr main_v13} : Finset (DevRef τ sig)) by decide),
      (opI1 (F := F)).result_of_not_mem _ (show dr main_arg5 ∉ ({dr main_v12} : Finset (DevRef τ sig)) by decide),
      (opI0 (F := F)).result_of_not_mem _ (show dr main_arg5 ∉ ({dr main_v11} : Finset (DevRef τ sig)) by decide)]
    exact s5 _

end Chain

/-! ## The call's index arrays are in range -/

section Pre

variable [FloatOps F]
variable (m : (ℓ : Loc nD τ sig) → Buf (Elt F) ℓ)
variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))

/-- Before the four flattening reshapes the arguments are still at their launch contents. -/
theorem keeps_WB4 (d : Dev nD) : Keeps m d (WB4 m R0 R1 R2 R3 R4 d) := by
  unfold WB4 WB3 WB2 WB1 WB WA' WA
  refine keeps_update m d _ (show dr main_v10 ∉ Sargs by decide) _ ?_
  refine keeps_update m d _ (show dr main_v9 ∉ Sargs by decide) _ ?_
  refine keeps_update m d _ (show dr main_v8 ∉ Sargs by decide) _ ?_
  refine keeps_update m d _ (show dr main_v7 ∉ Sargs by decide) _ ?_
  refine keeps_result m d _ (show Disjoint ({dr main_v6} : Finset (DevRef τ sig)) Sargs by decide) ?_
  refine keeps_result m d _ (show Disjoint ({dr main_v5} : Finset (DevRef τ sig)) Sargs by decide) ?_
  refine keeps_result m d _ (show Disjoint ({dr main_v4} : Finset (DevRef τ sig)) Sargs by decide) ?_
  refine keeps_result m d _ (show Disjoint ({dr main_v3} : Finset (DevRef τ sig)) Sargs by decide) ?_
  refine keeps_update m d _ (show dr main_v2 ∉ Sargs by decide) _ ?_
  refine keeps_result m d _ (show Disjoint ({dr main_v1} : Finset (DevRef τ sig)) Sargs by decide) ?_
  refine keeps_result m d _ (show Disjoint ({dr main_v0} : Finset (DevRef τ sig)) Sargs by decide) ?_
  refine keeps_result m d _ (show Disjoint ({dr main_cst_0} : Finset (DevRef τ sig)) Sargs by decide) ?_
  refine keeps_result m d _ (show Disjoint ({dr main_cst} : Finset (DevRef τ sig)) Sargs by decide) ?_
  exact keeps_V0 m d

/-- UNDER THE PRECONDITION, every word of the four flattened index arrays the SparseCore call reads is between 0 and
    99999: the words are the text arrays', which the precondition bounds and nothing before the call writes. -/
theorem idxPre_of_pre
    (hpre : ∀ c : Dev nD,
      Cert.Pre_input_domain.fn (F := F) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) = fun _ => 1#1) :
    ∀ d : Dev nD, IdxPre (F := F) d (WC m R0 R1 R2 R3 R4 d (dr main_v11)) (WC m R0 R1 R2 R3 R4 d (dr main_v12))
      (WC m R0 R1 R2 R3 R4 d (dr main_v13)) (WC m R0 R1 R2 R3 R4 d (dr main_v14)) := by
  intro d
  have hK := keeps_WB4 m R0 R1 R2 R3 R4 d
  obtain ⟨t2, t3, t4, t5⟩ := text_range _ _ _ _ _ _ _ _ _ _ _ _ (hpre d)
  have s2 : ∀ i, IdxOK (WB4 m R0 R1 R2 R3 R4 d (dr main_arg2) i) := by
    rw [hK (dr main_arg2) (by decide)]; exact t2
  have s3 : ∀ i, IdxOK (WB4 m R0 R1 R2 R3 R4 d (dr main_arg3) i) := by
    rw [hK (dr main_arg3) (by decide)]; exact t3
  have s4 : ∀ i, IdxOK (WB4 m R0 R1 R2 R3 R4 d (dr main_arg4) i) := by
    rw [hK (dr main_arg4) (by decide)]; exact t4
  have s5 : ∀ i, IdxOK (WB4 m R0 R1 R2 R3 R4 d (dr main_arg5) i) := by
    rw [hK (dr main_arg5) (by decide)]; exact t5
  exact flat_range (WB4 m R0 R1 R2 R3 R4 d) s2 s3 s4 s5

end Pre

end Cert.Proof.ScIdx

end
-- ==== Proof.ScFrame.lean ====
/-
  The frame of the SparseCore program: the ghost state of the five TensorCore calls from the launch element, the run
  of the whole thread family with the argument arrays at their launch contents, and the frame claim's post read off it
  — from the tile kernel's body run and the index words' range.
-/
import proofs.«203359_g24824910971486_cont_8to1_1854_34_alg».proof.Proof.ScLaunch
import proofs.«203359_g24824910971486_cont_8to1_1854_34_alg».proof.Proof.ScCall
import proofs.«203359_g24824910971486_cont_8to1_1854_34_alg».proof.Proof.ScReg0
import proofs.«203359_g24824910971486_cont_8to1_1854_34_alg».proof.Proof.ScReg1
import proofs.«203359_g24824910971486_cont_8to1_1854_34_alg».proof.Proof.ScReg2
import proofs.«203359_g24824910971486_cont_8to1_1854_34_alg».proof.Proof.ScReg3
import proofs.«203359_g24824910971486_cont_8to1_1854_34_alg».proof.Proof.ScReg4
import proofs.«203359_g24824910971486_cont_8to1_1854_34_alg».proof.Proof.ScIdx

noncomputable section

namespace Cert.Proof.ScFrame

open Cert.KernelIdeal Cert.KernelIdeal.Gen Cert.Proof.ScSetup Cert.Proof.ScMain Cert.Proof.ScBody Cert.Proof.ScPay Cert.Proof.ScLaunch Cert.Proof.ScCall

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type} [FloatOps F]

local notation "𝕄" => MT nD τ sig (HIx 1) (Elt F) ℕ UU ℕ

/-! ## The TensorCore calls' ghost state, call by call -/

abbrev G5 : Dev nD → sProp 𝕄 := fun _ => iprop(emp)
abbrev G4 : Dev nD → sProp 𝕄 := fun d => iprop(ScReg4.ghost (F := F) 4 d ∗ G5 (F := F) d)
abbrev G3 : Dev nD → sProp 𝕄 := fun d => iprop(ScReg3.ghost (F := F) 3 d ∗ G4 (F := F) d)
abbrev G2 : Dev nD → sProp 𝕄 := fun d => iprop(ScReg2.ghost (F := F) 2 d ∗ G3 (F := F) d)
abbrev G1 : Dev nD → sProp 𝕄 := fun d => iprop(ScReg1.ghost (F := F) 1 d ∗ G2 (F := F) d)
abbrev G0 : Dev nD → sProp 𝕄 := fun d => iprop(ScReg0.ghost (F := F) 0 d ∗ G1 (F := F) d)

/-- The staging cells' launch element: every cell's rounds at their start, every transfer's token. -/
def uP : UP :=
  initOf (Pipeline.cells (nD := nD) (τ := τ) (Pipeline.pin (pcfgs (F := F)) ScReg0.adm) cellOf_inj)
    (Pipeline.launchToks (nD := nD) (τ := τ) (Pipeline.pin (pcfgs (F := F)) ScReg0.adm) cellOf_inj)

omit [FloatOps F] in
theorem bigSep_calls {M : Type} [URA M] (Φ : Fin 5 → sProp M) :
    bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ

set_option backward.isDefEq.respectTransparency.types false in
theorem ghost_chain (d : Dev nD) :
    iprop((bigSep Finset.univ fun p : Fin 5 => Pipeline.cellsGhost (Pipeline.pin (pcfgs (F := F)) ScReg0.adm) (EP (F := F)) p d)
        ∗ (bigSep Finset.univ fun p : Fin 5 => (Pipeline.toksInit (Pipeline.pin (pcfgs (F := F)) ScReg0.adm) (EP (F := F)) p d : sProp 𝕄)))
      ⊢ G0 (F := F) d := by
  rw [bigSep_calls, bigSep_calls]
  iintro ⟨⟨g0, g1, g2, g3, g4⟩, ⟨t0, t1, t2, t3, t4⟩⟩
  isplitl [g0 t0]
  · isplitl [g0]; · iexact g0
    iexact t0
  isplitl [g1 t1]
  · isplitl [g1]; · iexact g1
    iexact t1
  isplitl [g2 t2]
  · isplitl [g2]; · iexact g2
    iexact t2
  isplitl [g3 t3]
  · isplitl [g3]; · iexact g3
    iexact t3
  isplitl [g4 t4]
  · isplitl [g4]; · iexact g4
    iexact t4
  iempintro

set_option backward.isDefEq.respectTransparency.types false in
theorem hfund : (BI.own (EP (F := F) (uP (F := F))) : sProp 𝕄) ⊢ |={Set.univ}=> bigSep Finset.univ (G0 (F := F)) := by
  unfold uP
  iintro H
  imod (Pipeline.fund_ghost (Pipeline.pin (pcfgs (F := F)) ScReg0.adm) (EP (F := F)) cellOf_inj) $$ H with ⟨Hg, Ht⟩
  imodintro
  have hjoin : iprop((bigSep Finset.univ fun c : Dev nD => bigSep Finset.univ fun p : Fin 5 => Pipeline.cellsGhost (Pipeline.pin (pcfgs (F := F)) ScReg0.adm) (EP (F := F)) p c)
        ∗ (bigSep Finset.univ fun c : Dev nD => bigSep Finset.univ fun p : Fin 5 => (Pipeline.toksInit (Pipeline.pin (pcfgs (F := F)) ScReg0.adm) (EP (F := F)) p c : sProp 𝕄)))
      ⊢ bigSep Finset.univ (G0 (F := F)) :=
    (Entails.of_eq (bigSep_sep' (Finset.univ : Finset (Dev nD)) _ _).symm).trans (bigSep_mono fun d _ => ghost_chain (F := F) d)
  iapply hjoin
  isplitl [Hg]; · iexact Hg
  iexact Ht

/-! ## The run of the whole thread family, and the frame claim read off it -/

variable (m : (ℓ : Loc nD τ sig) → Buf (Elt F) ℓ) (ρ : Dev nD → PrngReg)

/-- The unscoped buffers at the SparseCore call: the launch contents through the host operations and the five calls. -/
abbrev Wc (d : Dev nD) : Valuation τ sig (Elt F) :=
  WC m (ScReg0.R0 (F := F)) (ScReg1.Rout (F := F)) (ScReg2.Rout (F := F)) (ScReg3.Rout (F := F)) (ScReg4.Rout (F := F)) d

set_option backward.isDefEq.respectTransparency.types false in
/-- Every weakly fair execution of the TensorCore's @main, the two sequencers and the thirty-two vector subcores
    terminates, nothing faulting, the twelve argument arrays at their launch contents — from the tile kernel's body run
    and the index words' range. -/
theorem run [∀ e, Nonempty (Elt F e)] (hbody : TileBodyStmt (F := F))
    (hidx : ∀ d : Dev nD, IdxPre (F := F) d (Wc m d (dr main_v11)) (Wc m d (dr main_v12)) (Wc m d (dr main_v13)) (Wc m d (dr main_v14))) :
    θ_run (Cert.KernelIdeal.defs (F := F)) (Cert.KernelIdeal.threads (F := F)) ⟨m, fun _ => 0, ρ⟩ (QC m) :=
  run_main m ρ (fun d => Wc m d (dr main_v7)) (fun d => Wc m d (dr main_v8)) (fun d => Wc m d (dr main_v9)) (fun d => Wc m d (dr main_v10))
    (fun d => Wc m d (dr main_v11)) (fun d => Wc m d (dr main_v12)) (fun d => Wc m d (dr main_v13)) (fun d => Wc m d (dr main_v14))
    (ScReg0.R0 (F := F)) (ScReg1.Rout (F := F)) (ScReg2.Rout (F := F)) (ScReg3.Rout (F := F)) (ScReg4.Rout (F := F))
    (G0 (F := F)) (G1 (F := F)) (G2 (F := F)) (G3 (F := F)) (G4 (F := F)) (G5 (F := F)) (uP (F := F)) hbody hidx
    (ScReg0.regionStep0 _ _) (ScReg1.regionStep _ _) (ScReg2.regionStep _ _) (ScReg3.regionStep _ _) (ScReg4.regionStep _ _)
    (callStep m _ _ _ _ _) hfund

/-- The frame claim's post from the run's: the arguments one by one. -/
theorem post_of_QC (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨h c (dr main_arg0) (by decide), h c (dr main_arg1) (by decide), h c (dr main_arg2) (by decide), h c (dr main_arg3) (by decide),
    h c (dr main_arg4) (by decide), h c (dr main_arg5) (by decide), h c (dr main_arg6) (by decide), h c (dr main_arg7) (by decide),
    h c (dr main_arg8) (by decide), h c (dr main_arg9) (by decide), h c (dr main_arg10) (by decide), h c (dr main_arg11) (by decide)⟩

/-- The frame of the program, at any float instance, from the tile kernel's body run: the index words' range comes
    from the precondition. -/
theorem frame_of_body [∀ e, Nonempty (Elt F e)] (hbody : TileBodyStmt (F := F))
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.KernelIdeal.defs (F := F)) _ _).mono (fun r h c => post_of_QC m r h c)
    (run m ρ hbody (Cert.Proof.ScIdx.idxPre_of_pre m _ _ _ _ _ hpre))

end Cert.Proof.ScFrame

end
-- ==== Proof.ScArith.lean ====
/-
  Word arithmetic of the lookup kernel's index vectors: the row, column and address vectors of one drain trip stay
  inside the row scratch and the output scratch, and a shifted index word names a row of a table.
-/
import proofs.«203359_g24824910971486_cont_8to1_1854_34_alg».proof.Proof.ScBodyDefs

noncomputable section

namespace Cert.Proof.ScBody

open Cert.KernelIdeal Cert.KernelIdeal.Gen
open Idealize.ShloMosaic

/-- Two index vectors, each below its axis' extent, are in range on both axes. -/
theorem chk2 (sz : Fin 2 → Nat) (u v : IVec S16 32) (h0 : ∀ x, (u x).toNat < sz 0) (h1 : ∀ x, (v x).toNat < sz 1) :
    ∀ a x, ((![u, v] : Fin 2 → IVec S16 32) a x).toNat < sz a := by
  intro a x
  match a with
  | 0 => exact h0 x
  | 1 => exact h1 x

/-- The lane numbers are below 16. -/
theorem lane_lt (x : S16.Idx) : ((iota .scVector S16 32 [0] iota_S16_d0_w32_scVector : IVec S16 32) x).toNat < 16 := by
  have hx : (x 0).val < 16 := (x 0).isLt
  show (BitVec.ofNat 32 (0 * S16.size 0 + (x 0).val)).toNat < 16
  rw [BitVec.toNat_ofNat]
  have : (0 * S16.size 0 + (x 0).val) = (x 0).val := by omega
  rw [this]; omega

/-- The row vector of trip `k < 20`: `16 k + lane < 320`. -/
theorem row_lt (v3 : IVec S16 32) (hv3 : ∀ x, (v3 x).toNat < 16) (k : Nat) (hk : k < 20) (x : S16.Idx) :
    ((addi (broadcast S16 (Scalar.addi 0#32 (Scalar.muli (Scf.iv 0#32 1#32 k) 16#32))) v3) x).toNat < 320 := by
  have h := hv3 x
  show (0#32 + (0#32 + BitVec.ofNat 32 k * 1#32) * 16#32 + v3 x).toNat < 320
  simp only [BitVec.toNat_add, BitVec.toNat_mul, BitVec.toNat_ofNat]
  omega

/-- A number whose successor is at most 16, by evaluation. -/
theorem lt16_of_ble {a : Nat} (h : Nat.ble (a + 1) 16 = true) : a < 16 := Nat.le_of_ble_eq_true h

/-- A column vector: `(w &&& 7) * 16 + m < 128` for `m < 16`. -/
theorem col_lt (w m : BitVec 32) (hm : m.toNat < 16) : (IntOp.addi (IntOp.muli (IntOp.andi w 7#32) 16#32) m).toNat < 128 := by
  show ((w &&& 7#32) * 16#32 + m).toNat < 128
  have h7 : (w &&& 7#32).toNat ≤ 7 := by rw [BitVec.toNat_and]; exact Nat.and_le_right
  simp only [BitVec.toNat_add, BitVec.toNat_mul]
  have : (16#32 : BitVec 32).toNat = 16 := rfl
  rw [this]; omega

/-- The low part of an address: `a &&& 127 < 128`. -/
theorem lo_lt (a : BitVec 32) : (IntOp.andi a 127#32).toNat < 128 := by
  show (a &&& 127#32).toNat < 128
  rw [BitVec.toNat_and]
  exact Nat.lt_succ_of_le Nat.and_le_right

/-- The high part of an address `16 r + m`, `r < 320`, `m < 16`: below 40. -/
theorem hi_lt (r m : BitVec 32) (hr : r.toNat < 320) (hm : m.toNat < 16) :
    (IntOp.shrsi .vector (IntOp.addi (IntOp.muli r 16#32) m) 7#32).toNat < 40 := by
  have ha : (r * 16#32 + m).toNat = r.toNat * 16 + m.toNat := by
    simp only [BitVec.toNat_add, BitVec.toNat_mul]
    have : (16#32 : BitVec 32).toNat = 16 := rfl
    rw [this]; omega
  have hmsb : (r * 16#32 + m).msb = false := by
    rw [BitVec.msb_eq_false_iff_two_mul_lt, ha]; omega
  show (if (7#32 : BitVec 32).toNat < 32 then (r * 16#32 + m).sshiftRight' 7#32 else _).toNat < 40
  rw [if_pos (by decide)]
  show ((r * 16#32 + m).sshiftRight 7).toNat < 40
  rw [BitVec.sshiftRight_eq_of_msb_false hmsb, BitVec.toNat_ushiftRight, ha, Nat.shiftRight_eq_div_pow]
  omega

end Cert.Proof.ScBody

end
-- ==== Proof.ScSup.lean ====
/-
  The offset lists of the lookup kernel: an index word shifted right by three names a row of a table, and a list
  filled sixteen words at a time with such words holds, after `k` trips, row numbers in its first `16 k` places.
-/
import proofs.«203359_g24824910971486_cont_8to1_1854_34_alg».proof.Proof.ScArith

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A tile's own buffer, as its whole memref addresses it. -/
theorem pts_w (d : Dev nD) (c : Fin τ.nSC) (i : Fin τ.nSub) (b : Ref sig .scVector) (q : PosShare TreeShare) (f : Buf (Elt F) ((V d c i).loc b)) :
    (((Memref.whole b).view.loc (V d c i) ↦{q} f : sProp 𝕄)) = ((V d c i).loc b ↦{q} f) := rfl

/-- An index word in `[0, 99999]`, shifted right by three, is below 12500. -/
theorem shr3_lt (w : BitVec 32) (h : IdxOK w) : (IntOp.shrsi .vector w 3#32).toNat < 12500 := by
  obtain ⟨h0, h1⟩ := h
  have hcond := BitVec.toInt_eq_toNat_cond w
  have h2 : 2 * w.toNat < 2 ^ 32 := by
    by_contra hn
    rw [if_neg hn] at hcond
    have := w.isLt
    omega
  rw [if_pos h2] at hcond
  have hmsb : w.msb = false := BitVec.msb_eq_false_iff_two_mul_lt.mpr h2
  show (if (3#32 : BitVec 32).toNat < 32 then w.sshiftRight' 3#32 else _).toNat < 12500
  rw [if_pos (by decide)]
  show (w.sshiftRight 3).toNat < 12500
  rw [BitVec.sshiftRight_eq_of_msb_false hmsb, BitVec.toNat_ushiftRight, Nat.shiftRight_eq_div_pow]
  omega

/-- The shifted vector of sixteen index words. -/
theorem shr3_vec_lt (v : IVec S16 32) (hv : ∀ x, IdxOK (v x)) (x : S16.Idx) : ((shrsi v (broadcast S16 3#32)) x).toNat < 12500 :=
  shr3_lt (v x) (hv x)

/-- One trip of a list's filling: sixteen row numbers stored at place `16 k` over a list whose first `16 k` places hold
    row numbers leave one whose first `16 (k + 1)` places do. -/
theorem sup_step {sig : RefSig} {κ : Kind} {sp : Space} (v : View sig κ sp S320 .i32) (fs : v.ty.Contents (Elt F))
    (k : Nat) (off : Fin 1 → Nat) (hoff : off = ![16 * k]) (inb : ∀ a, off a + S16.size a ≤ S320.size a)
    (w : (Rect.unit (s := S320) off S16.size inb).shape.Idx → Elt F .i32) (hw : ∀ x, BitVec.toNat (w x) < 12500)
    (hfs : ∀ y : S320.Idx, (y 0).val < 16 * k → BitVec.toNat (v.read (Elt F) fs y) < 12500) :
    ∀ y : S320.Idx, (y 0).val < 16 * (k + 1) →
      BitVec.toNat (v.read (Elt F) (v.writes (Elt F) fs [⟨Rect.unit (s := S320) off S16.size inb, w⟩]) y) < 12500 := by
  intro y hy
  by_cases hm : y ∈ (Rect.unit (s := S320) off S16.size inb).set
  · rw [← Rect.map_emb_univ] at hm
    obtain ⟨x, -, rfl⟩ := Finset.mem_map.mp hm
    rw [View.read_writes_cons_emb]
    exact hw x
  · rw [View.read_writes_apply_of_forall_not_mem v fs y [⟨Rect.unit (s := S320) off S16.size inb, w⟩]
      (by intro p hp; rw [List.mem_singleton] at hp; subst hp; exact hm)]
    apply hfs
    have hn := (Rect.mem_set_unit (i := y)).not.mp hm
    by_contra hc
    apply hn
    intro a
    obtain rfl : a = 0 := Subsingleton.elim _ _
    subst hoff
    show 16 * k ≤ (y 0).val ∧ (y 0).val < 16 * k + 16
    omega

/-- The invariant of a drain loop on the first row scratch: the index scratch as it is, the row scratch and the output
    scratch at some contents. -/
def drainInv0 (d : Dev nD) (L : grid5.Coords) (fI : Buf (Elt F) ((V d (cV L) (jV L)).loc cc5_scratch0)) (_ : Nat) (_ : PUnit) : sProp 𝕄 :=
  iprop(((Memref.whole cc5_scratch0).view.loc (V d (cV L) (jV L)) ↦{fullShare} fI) ∗ (∃ fr : Buf (Elt F) ((V d (cV L) (jV L)).loc cc5_scratch3), ((Memref.whole cc5_scratch3).view.loc (V d (cV L) (jV L)) ↦{fullShare} fr))
    ∗ ∃ fo : Buf (Elt F) ((V d (cV L) (jV L)).loc cc5_scratch5), ((Memref.whole cc5_scratch5).view.loc (V d (cV L) (jV L)) ↦{fullShare} fo))
/-- The same on the second row scratch. -/
def drainInv1 (d : Dev nD) (L : grid5.Coords) (fI : Buf (Elt F) ((V d (cV L) (jV L)).loc cc5_scratch0)) (_ : Nat) (_ : PUnit) : sProp 𝕄 :=
  iprop(((Memref.whole cc5_scratch0).view.loc (V d (cV L) (jV L)) ↦{fullShare} fI) ∗ (∃ fr : Buf (Elt F) ((V d (cV L) (jV L)).loc cc5_scratch4), ((Memref.whole cc5_scratch4).view.loc (V d (cV L) (jV L)) ↦{fullShare} fr))
    ∗ ∃ fo : Buf (Elt F) ((V d (cV L) (jV L)).loc cc5_scratch5), ((Memref.whole cc5_scratch5).view.loc (V d (cV L) (jV L)) ↦{fullShare} fo))
/-- The invariant of a loop that fills the first offset list: the index scratch as it is, its words in the tables'
    range; the list's first `16 k` places hold row numbers. -/
def prepInv0 (d : Dev nD) (L : grid5.Coords) (fI : Buf (Elt F) ((V d (cV L) (jV L)).loc cc5_scratch0)) (k : Nat) (_ : PUnit) : sProp 𝕄 :=
  iprop(((Memref.whole cc5_scratch0).view.loc (V d (cV L) (jV L)) ↦{fullShare} fI) ∗ ∃ fs : Buf (Elt F) ((V d (cV L) (jV L)).loc cc5_scratch1), ((Memref.whole cc5_scratch1).view.loc (V d (cV L) (jV L)) ↦{fullShare} fs)
    ∗ ⌜∀ y : S320.Idx, (y 0).val < 16 * k → BitVec.toNat ((Memref.whole cc5_scratch1 : Memref sig .scVector .vmem S320 .i32).view.read (Elt F) fs y) < 12500⌝)
/-- The same for the second offset list. -/
def prepInv1 (d : Dev nD) (L : grid5.Coords) (fI : Buf (Elt F) ((V d (cV L) (jV L)).loc cc5_scratch0)) (k : Nat) (_ : PUnit) : sProp 𝕄 :=
  iprop(((Memref.whole cc5_scratch0).view.loc (V d (cV L) (jV L)) ↦{fullShare} fI) ∗ ∃ fs : Buf (Elt F) ((V d (cV L) (jV L)).loc cc5_scratch2), ((Memref.whole cc5_scratch2).view.loc (V d (cV L) (jV L)) ↦{fullShare} fs)
    ∗ ⌜∀ y : S320.Idx, (y 0).val < 16 * k → BitVec.toNat ((Memref.whole cc5_scratch2 : Memref sig .scVector .vmem S320 .i32).view.read (Elt F) fs y) < 12500⌝)

end Cert.Proof.ScBody

end
-- ==== Proof.ScOwn.lean ====
/-
  A tile's own scratch: its six scratch buffers and its fourteen DMA semaphores, taken out of what the launch hands
  the tile as its own buffers and its own semaphores at zero.
-/
import proofs.«203359_g24824910971486_cont_8to1_1854_34_alg».proof.Proof.ScSup

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid5.Coords)

/-- The cell of one of the tile's DMA semaphores. -/
abbrev cellOf (d : Dev nD) (L : grid5.Coords) (sm : DmaSems sig S_) : GSem nD τ sig := ((V d (cV L) (jV L)), .dma sm.sem)

theorem cell_ne (thr : Thread nD τ) {a b : SemLoc sig} (h : a ≠ b) : ((thr, a) : GSem nD τ sig) ≠ (thr, b) := fun e => h (Prod.mk.inj e).2

/-- The tile's fourteen DMA semaphores are among its own cells: they, at zero, and the rest. -/
theorem ownSems0_V :
    (ownSems0 (V d (cV L) (jV L)) : sProp 𝕄)
      = iprop(semVal (cellOf d L cc5_scratch6) 0 ∗ semVal (cellOf d L cc5_scratch7) 0 ∗ semVal (cellOf d L cc5_scoped0) 0 ∗ semVal (cellOf d L cc5_scoped1) 0 ∗ semVal (cellOf d L cc5_scoped2) 0 ∗ semVal (cellOf d L cc5_scoped3) 0 ∗ semVal (cellOf d L cc5_scoped4) 0 ∗ semVal (cellOf d L cc5_scoped5) 0 ∗ semVal (cellOf d L cc5_scoped6) 0 ∗ semVal (cellOf d L cc5_scoped7) 0 ∗ semVal (cellOf d L cc5_scoped8) 0 ∗ semVal (cellOf d L cc5_scoped9) 0 ∗ semVal (cellOf d L cc5_scoped10) 0 ∗ semVal (cellOf d L cc5_scoped11) 0
          ∗ bigSep (((((((((((((((ownCells (V d (cV L) (jV L))).erase (cellOf d L cc5_scratch6)).erase (cellOf d L cc5_scratch7)).erase (cellOf d L cc5_scoped0)).erase (cellOf d L cc5_scoped1)).erase (cellOf d L cc5_scoped2)).erase (cellOf d L cc5_scoped3)).erase (cellOf d L cc5_scoped4)).erase (cellOf d L cc5_scoped5)).erase (cellOf d L cc5_scoped6)).erase (cellOf d L cc5_scoped7)).erase (cellOf d L cc5_scoped8)).erase (cellOf d L cc5_scoped9)).erase (cellOf d L cc5_scoped10)).erase (cellOf d L cc5_scoped11)) fun g => semVal g 0) := by
  unfold SparseCore.Cfg.ownSems0
  rw [SparseCore.bigSep_erase' ((mem_ownCells (g := cellOf d L cc5_scratch6)).mpr ⟨rfl, by show (SemLoc.dma cc5_scratch6.sem : SemLoc sig).isScoped .scVector = true; decide⟩),
    SparseCore.bigSep_erase' (Finset.mem_erase.mpr ⟨cell_ne _ (by decide : (SemLoc.dma cc5_scratch7.sem : SemLoc sig) ≠ SemLoc.dma cc5_scratch6.sem), (mem_ownCells (g := cellOf d L cc5_scratch7)).mpr ⟨rfl, by show (SemLoc.dma cc5_scratch7.sem : SemLoc sig).isScoped .scVector = true; decide⟩⟩),
    SparseCore.bigSep_erase' (Finset.mem_erase.mpr ⟨cell_ne _ (by decide : (SemLoc.dma cc5_scoped0.sem : SemLoc sig) ≠ SemLoc.dma cc5_scratch7.sem), Finset.mem_erase.mpr ⟨cell_ne _ (by decide : (SemLoc.dma cc5_scoped0.sem : SemLoc sig) ≠ SemLoc.dma cc5_scratch6.sem), (mem_ownCells (g := cellOf d L cc5_scoped0)).mpr ⟨rfl, by show (SemLoc.dma cc5_scoped0.sem : SemLoc sig).isScoped .scVector = true; decide⟩⟩⟩),
    SparseCore.bigSep_erase' (Finset.mem_erase.mpr ⟨cell_ne _ (by decide : (SemLoc.dma cc5_scoped1.sem : SemLoc sig) ≠ SemLoc.dma cc5_scoped0.sem), Finset.mem_erase.mpr ⟨cell_ne _ (by decide : (SemLoc.dma cc5_scoped1.sem : SemLoc sig) ≠ SemLoc.dma cc5_scratch7.sem), Finset.mem_erase.mpr ⟨cell_ne _ (by decide : (SemLoc.dma cc5_scoped1.sem : SemLoc sig) ≠ SemLoc.dma cc5_scratch6.sem), (mem_ownCells (g := cellOf d L cc5_scoped1)).mpr ⟨rfl, by show (SemLoc.dma cc5_scoped1.sem : SemLoc sig).isScoped .scVector = true; decide⟩⟩⟩⟩),
    SparseCore.bigSep_erase' (Finset.mem_erase.mpr ⟨cell_ne _ (by decide : (SemLoc.dma cc5_scoped2.sem : SemLoc sig) ≠ SemLoc.dma cc5_scoped1.sem), Finset.mem_erase.mpr ⟨cell_ne _ (by decide : (SemLoc.dma cc5_scoped2.sem : SemLoc sig) ≠ SemLoc.dma cc5_scoped0.sem), Finset.mem_erase.mpr ⟨cell_ne _ (by decide : (SemLoc.dma cc5_scoped2.sem : SemLoc sig) ≠ SemLoc.dma cc5_scratch7.sem), Finset.mem_erase.mpr ⟨cell_ne _ (by decide : (SemLoc.dma cc5_scoped2.sem : SemLoc sig) ≠ SemLoc.dma cc5_scratch6.sem), (mem_ownCells (g := cellOf d L cc5_scoped2)).mpr ⟨rfl, by show (SemLoc.dma cc5_scoped2.sem : SemLoc sig).isScoped .scVector = true; decide⟩⟩⟩⟩⟩),
    SparseCore.bigSep_erase' (Finset.mem_erase.mpr ⟨cell_ne _ (by decide : (SemLoc.dma cc5_scoped3.sem : SemLoc sig) ≠ SemLoc.dma cc5_scoped2.sem), Finset.mem_erase.mpr ⟨cell_ne _ (by decide : (SemLoc.dma cc5_scoped3.sem : SemLoc sig) ≠ SemLoc.dma cc5_scoped1.sem), Finset.mem_erase.mpr ⟨cell_ne _ (by decide : (SemLoc.dma cc5_scoped3.sem : SemLoc sig) ≠ SemLoc.dma cc5_scoped0.sem), Finset.mem_erase.mpr ⟨cell_ne _ (by decide : (SemLoc.dma cc5_scoped3.sem : SemLoc sig) ≠ SemLoc.dma cc5_scratch7.sem), Finset.mem_erase.mpr ⟨cell_ne _ (by decide : (SemLoc.dma cc5_scoped3.sem : SemLoc sig) ≠ SemLoc.dma cc5_scratch6.sem), (mem_ownCells (g := cellOf d L cc5_scoped3)).mpr ⟨rfl, by show (SemLoc.dma cc5_scoped3.sem : SemLoc sig).isScoped .scVector = true; decide⟩⟩⟩⟩⟩⟩),
    SparseCore.bigSep_erase' (Finset.mem_erase.mpr ⟨cell_ne _ (by decide : (SemLoc.dma cc5_scoped4.sem : SemLoc sig) ≠ SemLoc.dma cc5_scoped3.sem), Finset.mem_erase.mpr ⟨cell_ne _ (by decide : (SemLoc.dma cc5_scoped4.sem : SemLoc sig) ≠ SemLoc.dma cc5_scoped2.sem), Finset.mem_erase.mpr ⟨cell_ne _ (by decide : (SemLoc.dma cc5_scoped4.sem : SemLoc sig) ≠ SemLoc.dma cc5_scoped1.sem), Finset.mem_erase.mpr ⟨cell_ne _ (by decide : (SemLoc.dma cc5_scoped4.sem : SemLoc sig) ≠ SemLoc.dma cc5_scoped0.sem), Finset.mem_erase.mpr ⟨cell_ne _ (by decide : (SemLoc.dma cc5_scoped4.sem : SemLoc sig) ≠ SemLoc.dma cc5_scratch7.sem), Finset.mem_erase.mpr ⟨cell_ne _ (by decide : (SemLoc.dma cc5_scoped4.sem : SemLoc sig) ≠ SemLoc.dma cc5_scratch6.sem), (mem_ownCells (g := cellOf d L cc5_scoped4)).mpr ⟨rfl, by show (SemLoc.dma cc5_scoped4.sem : SemLoc sig).isScoped .scVector = true; decide⟩⟩⟩⟩⟩⟩⟩),
    SparseCore.bigSep_erase' (Finset.mem_erase.mpr ⟨cell_ne _ (by decide : (SemLoc.dma cc5_scoped5.sem : SemLoc sig) ≠ SemLoc.dma cc5_scoped4.sem), Finset.mem_erase.mpr ⟨cell_ne _ (by decide : (SemLoc.dma cc5_scoped5.sem : SemLoc sig) ≠ SemLoc.dma cc5_scoped3.sem), Finset.mem_erase.mpr ⟨cell_ne _ (by decide : (SemLoc.dma cc5_scoped5.sem : SemLoc sig) ≠ SemLoc.dma cc5_scoped2.sem), Finset.mem_erase.mpr ⟨cell_ne _ (by decide : (SemLoc.dma cc5_scoped5.sem : SemLoc sig) ≠ SemLoc.dma cc5_scoped1.sem), Finset.mem_erase.mpr ⟨cell_ne _ (by decide : (SemLoc.dma cc5_scoped5.sem : SemLoc sig) ≠ SemLoc.dma cc5_scoped0.sem), Finset.mem_erase.mpr ⟨cell_ne _ (by decide : (SemLoc.dma cc5_scoped5.sem : SemLoc sig) ≠ SemLoc.dma cc5_scratch7.sem), Finset.mem_erase.mpr ⟨cell_ne _ (by decide : (SemLoc.dma cc5_scoped5.sem : SemLoc sig) ≠ SemLoc.dma cc5_scratch6.sem), (mem_ownCells (g := cellOf d L cc5_scoped5)).mpr ⟨rfl, by show (SemLoc.dma cc5_scoped5.sem : SemLoc sig).isScoped .scVector = true; decide⟩⟩⟩⟩⟩⟩⟩⟩),
    SparseCore.bigSep_erase' (Finset.mem_erase.mpr ⟨cell_ne _ (by decide : (SemLoc.dma cc5_scoped6.sem : SemLoc sig) ≠ SemLoc.dma cc5_scoped5.sem), Finset.mem_erase.mpr ⟨cell_ne _ (by decide : (SemLoc.dma cc5_scoped6.sem : SemLoc sig) ≠ SemLoc.dma cc5_scoped4.sem), Finset.mem_erase.mpr ⟨cell_ne _ (by decide : (SemLoc.dma cc5_scoped6.sem : SemLoc sig) ≠ SemLoc.dma cc5_scoped3.sem), Finset.mem_erase.mpr ⟨cell_ne _ (by decide : (SemLoc.dma cc5_scoped6.sem : SemLoc sig) ≠ SemLoc.dma cc5_scoped2.sem), Finset.mem_erase.mpr ⟨cell_ne _ (by decide : (SemLoc.dma cc5_scoped6.sem : SemLoc sig) ≠ SemLoc.dma cc5_scoped1.sem), Finset.mem_erase.mpr ⟨cell_ne _ (by decide : (SemLoc.dma cc5_scoped6.sem : SemLoc sig) ≠ SemLoc.dma cc5_scoped0.sem), Finset.mem_erase.mpr ⟨cell_ne _ (by decide : (SemLoc.dma cc5_scoped6.sem : SemLoc sig) ≠ SemLoc.dma cc5_scratch7.sem), Finset.mem_erase.mpr ⟨cell_ne _ (by decide : (SemLoc.dma cc5_scoped6.sem : SemLoc sig) ≠ SemLoc.dma cc5_scratch6.sem), (mem_ownCells (g := cellOf d L cc5_scoped6)).mpr ⟨rfl, by show (SemLoc.dma cc5_scoped6.sem : SemLoc sig).isScoped .scVector = true; decide⟩⟩⟩⟩⟩⟩⟩⟩⟩),
    SparseCore.bigSep_erase' (Finset.mem_erase.mpr ⟨cell_ne _ (by decide : (SemLoc.dma cc5_scoped7.sem : SemLoc sig) ≠ SemLoc.dma cc5_scoped6.sem), Finset.mem_erase.mpr ⟨cell_ne _ (by decide : (SemLoc.dma cc5_scoped7.sem : SemLoc sig) ≠ SemLoc.dma cc5_scoped5.sem), Finset.mem_erase.mpr ⟨cell_ne _ (by decide : (SemLoc.dma cc5_scoped7.sem : SemLoc sig) ≠ SemLoc.dma cc5_scoped4.sem), Finset.mem_erase.mpr ⟨cell_ne _ (by decide : (SemLoc.dma cc5_scoped7.sem : SemLoc sig) ≠ SemLoc.dma cc5_scoped3.sem), Finset.mem_erase.mpr ⟨cell_ne _ (by decide : (SemLoc.dma cc5_scoped7.sem : SemLoc sig) ≠ SemLoc.dma cc5_scoped2.sem), Finset.mem_erase.mpr ⟨cell_ne _ (by decide : (SemLoc.dma cc5_scoped7.sem : SemLoc sig) ≠ SemLoc.dma cc5_scoped1.sem), Finset.mem_erase.mpr ⟨cell_ne _ (by decide : (SemLoc.dma cc5_scoped7.sem : SemLoc sig) ≠ SemLoc.dma cc5_scoped0.sem), Finset.mem_erase.mpr ⟨cell_ne _ (by decide : (SemLoc.dma cc5_scoped7.sem : SemLoc sig) ≠ SemLoc.dma cc5_scratch7.sem), Finset.mem_erase.mpr ⟨cell_ne _ (by decide : (SemLoc.dma cc5_scoped7.sem : SemLoc sig) ≠ SemLoc.dma cc5_scratch6.sem), (mem_ownCells (g := cellOf d L cc5_scoped7)).mpr ⟨rfl, by show (SemLoc.dma cc5_scoped7.sem : SemLoc sig).isScoped .scVector = true; decide⟩⟩⟩⟩⟩⟩⟩⟩⟩⟩),
    SparseCore.bigSep_erase' (Finset.mem_erase.mpr ⟨cell_ne _ (by decide : (SemLoc.dma cc5_scoped8.sem : SemLoc sig) ≠ SemLoc.dma cc5_scoped7.sem), Finset.mem_erase.mpr ⟨cell_ne _ (by decide : (SemLoc.dma cc5_scoped8.sem : SemLoc sig) ≠ SemLoc.dma cc5_scoped6.sem), Finset.mem_erase.mpr ⟨cell_ne _ (by decide : (SemLoc.dma cc5_scoped8.sem : SemLoc sig) ≠ SemLoc.dma cc5_scoped5.sem), Finset.mem_erase.mpr ⟨cell_ne _ (by decide : (SemLoc.dma cc5_scoped8.sem : SemLoc sig) ≠ SemLoc.dma cc5_scoped4.sem), Finset.mem_erase.mpr ⟨cell_ne _ (by decide : (SemLoc.dma cc5_scoped8.sem : SemLoc sig) ≠ SemLoc.dma cc5_scoped3.sem), Finset.mem_erase.mpr ⟨cell_ne _ (by decide : (SemLoc.dma cc5_scoped8.sem : SemLoc sig) ≠ SemLoc.dma cc5_scoped2.sem), Finset.mem_erase.mpr ⟨cell_ne _ (by decide : (SemLoc.dma cc5_scoped8.sem : SemLoc sig) ≠ SemLoc.dma cc5_scoped1.sem), Finset.mem_erase.mpr ⟨cell_ne _ (by decide : (SemLoc.dma cc5_scoped8.sem : SemLoc sig) ≠ SemLoc.dma cc5_scoped0.sem), Finset.mem_erase.mpr ⟨cell_ne _ (by decide : (SemLoc.dma cc5_scoped8.sem : SemLoc sig) ≠ SemLoc.dma cc5_scratch7.sem), Finset.mem_erase.mpr ⟨cell_ne _ (by decide : (SemLoc.dma cc5_scoped8.sem : SemLoc sig) ≠ SemLoc.dma cc5_scratch6.sem), (mem_ownCells (g := cellOf d L cc5_scoped8)).mpr ⟨rfl, by show (SemLoc.dma cc5_scoped8.sem : SemLoc sig).isScoped .scVector = true; decide⟩⟩⟩⟩⟩⟩⟩⟩⟩⟩⟩),
    SparseCore.bigSep_erase' (Finset.mem_erase.mpr ⟨cell_ne _ (by decide : (SemLoc.dma cc5_scoped9.sem : SemLoc sig) ≠ SemLoc.dma cc5_scoped8.sem), Finset.mem_erase.mpr ⟨cell_ne _ (by decide : (SemLoc.dma cc5_scoped9.sem : SemLoc sig) ≠ SemLoc.dma cc5_scoped7.sem), Finset.mem_erase.mpr ⟨cell_ne _ (by decide : (SemLoc.dma cc5_scoped9.sem : SemLoc sig) ≠ SemLoc.dma cc5_scoped6.sem), Finset.mem_erase.mpr ⟨cell_ne _ (by decide : (SemLoc.dma cc5_scoped9.sem : SemLoc sig) ≠ SemLoc.dma cc5_scoped5.sem), Finset.mem_erase.mpr ⟨cell_ne _ (by decide : (SemLoc.dma cc5_scoped9.sem : SemLoc sig) ≠ SemLoc.dma cc5_scoped4.sem), Finset.mem_erase.mpr ⟨cell_ne _ (by decide : (SemLoc.dma cc5_scoped9.sem : SemLoc sig) ≠ SemLoc.dma cc5_scoped3.sem), Finset.mem_erase.mpr ⟨cell_ne _ (by decide : (SemLoc.dma cc5_scoped9.sem : SemLoc sig) ≠ SemLoc.dma cc5_scoped2.sem), Finset.mem_erase.mpr ⟨cell_ne _ (by decide : (SemLoc.dma cc5_scoped9.sem : SemLoc sig) ≠ SemLoc.dma cc5_scoped1.sem), Finset.mem_erase.mpr ⟨cell_ne _ (by decide : (SemLoc.dma cc5_scoped9.sem : SemLoc sig) ≠ SemLoc.dma cc5_scoped0.sem), Finset.mem_erase.mpr ⟨cell_ne _ (by decide : (SemLoc.dma cc5_scoped9.sem : SemLoc sig) ≠ SemLoc.dma cc5_scratch7.sem), Finset.mem_erase.mpr ⟨cell_ne _ (by decide : (SemLoc.dma cc5_scoped9.sem : SemLoc sig) ≠ SemLoc.dma cc5_scratch6.sem), (mem_ownCells (g := cellOf d L cc5_scoped9)).mpr ⟨rfl, by show (SemLoc.dma cc5_scoped9.sem : SemLoc sig).isScoped .scVector = true; decide⟩⟩⟩⟩⟩⟩⟩⟩⟩⟩⟩⟩),
    SparseCore.bigSep_erase' (Finset.mem_erase.mpr ⟨cell_ne _ (by decide : (SemLoc.dma cc5_scoped10.sem : SemLoc sig) ≠ SemLoc.dma cc5_scoped9.sem), Finset.mem_erase.mpr ⟨cell_ne _ (by decide : (SemLoc.dma cc5_scoped10.sem : SemLoc sig) ≠ SemLoc.dma cc5_scoped8.sem), Finset.mem_erase.mpr ⟨cell_ne _ (by decide : (SemLoc.dma cc5_scoped10.sem : SemLoc sig) ≠ SemLoc.dma cc5_scoped7.sem), Finset.mem_erase.mpr ⟨cell_ne _ (by decide : (SemLoc.dma cc5_scoped10.sem : SemLoc sig) ≠ SemLoc.dma cc5_scoped6.sem), Finset.mem_erase.mpr ⟨cell_ne _ (by decide : (SemLoc.dma cc5_scoped10.sem : SemLoc sig) ≠ SemLoc.dma cc5_scoped5.sem), Finset.mem_erase.mpr ⟨cell_ne _ (by decide : (SemLoc.dma cc5_scoped10.sem : SemLoc sig) ≠ SemLoc.dma cc5_scoped4.sem), Finset.mem_erase.mpr ⟨cell_ne _ (by decide : (SemLoc.dma cc5_scoped10.sem : SemLoc sig) ≠ SemLoc.dma cc5_scoped3.sem), Finset.mem_erase.mpr ⟨cell_ne _ (by decide : (SemLoc.dma cc5_scoped10.sem : SemLoc sig) ≠ SemLoc.dma cc5_scoped2.sem), Finset.mem_erase.mpr ⟨cell_ne _ (by decide : (SemLoc.dma cc5_scoped10.sem : SemLoc sig) ≠ SemLoc.dma cc5_scoped1.sem), Finset.mem_erase.mpr ⟨cell_ne _ (by decide : (SemLoc.dma cc5_scoped10.sem : SemLoc sig) ≠ SemLoc.dma cc5_scoped0.sem), Finset.mem_erase.mpr ⟨cell_ne _ (by decide : (SemLoc.dma cc5_scoped10.sem : SemLoc sig) ≠ SemLoc.dma cc5_scratch7.sem), Finset.mem_erase.mpr ⟨cell_ne _ (by decide : (SemLoc.dma cc5_scoped10.sem : SemLoc sig) ≠ SemLoc.dma cc5_scratch6.sem), (mem_ownCells (g := cellOf d L cc5_scoped10)).mpr ⟨rfl, by show (SemLoc.dma cc5_scoped10.sem : SemLoc sig).isScoped .scVector = true; decide⟩⟩⟩⟩⟩⟩⟩⟩⟩⟩⟩⟩⟩),
    SparseCore.bigSep_erase' (Finset.mem_erase.mpr ⟨cell_ne _ (by decide : (SemLoc.dma cc5_scoped11.sem : SemLoc sig) ≠ SemLoc.dma cc5_scoped10.sem), Finset.mem_erase.mpr ⟨cell_ne _ (by decide : (SemLoc.dma cc5_scoped11.sem : SemLoc sig) ≠ SemLoc.dma cc5_scoped9.sem), Finset.mem_erase.mpr ⟨cell_ne _ (by decide : (SemLoc.dma cc5_scoped11.sem : SemLoc sig) ≠ SemLoc.dma cc5_scoped8.sem), Finset.mem_erase.mpr ⟨cell_ne _ (by decide : (SemLoc.dma cc5_scoped11.sem : SemLoc sig) ≠ SemLoc.dma cc5_scoped7.sem), Finset.mem_erase.mpr ⟨cell_ne _ (by decide : (SemLoc.dma cc5_scoped11.sem : SemLoc sig) ≠ SemLoc.dma cc5_scoped6.sem), Finset.mem_erase.mpr ⟨cell_ne _ (by decide : (SemLoc.dma cc5_scoped11.sem : SemLoc sig) ≠ SemLoc.dma cc5_scoped5.sem), Finset.mem_erase.mpr ⟨cell_ne _ (by decide : (SemLoc.dma cc5_scoped11.sem : SemLoc sig) ≠ SemLoc.dma cc5_scoped4.sem), Finset.mem_erase.mpr ⟨cell_ne _ (by decide : (SemLoc.dma cc5_scoped11.sem : SemLoc sig) ≠ SemLoc.dma cc5_scoped3.sem), Finset.mem_erase.mpr ⟨cell_ne _ (by decide : (SemLoc.dma cc5_scoped11.sem : SemLoc sig) ≠ SemLoc.dma cc5_scoped2.sem), Finset.mem_erase.mpr ⟨cell_ne _ (by decide : (SemLoc.dma cc5_scoped11.sem : SemLoc sig) ≠ SemLoc.dma cc5_scoped1.sem), Finset.mem_erase.mpr ⟨cell_ne _ (by decide : (SemLoc.dma cc5_scoped11.sem : SemLoc sig) ≠ SemLoc.dma cc5_scoped0.sem), Finset.mem_erase.mpr ⟨cell_ne _ (by decide : (SemLoc.dma cc5_scoped11.sem : SemLoc sig) ≠ SemLoc.dma cc5_scratch7.sem), Finset.mem_erase.mpr ⟨cell_ne _ (by decide : (SemLoc.dma cc5_scoped11.sem : SemLoc sig) ≠ SemLoc.dma cc5_scratch6.sem), (mem_ownCells (g := cellOf d L cc5_scoped11)).mpr ⟨rfl, by show (SemLoc.dma cc5_scoped11.sem : SemLoc sig).isScoped .scVector = true; decide⟩⟩⟩⟩⟩⟩⟩⟩⟩⟩⟩⟩⟩⟩)]

/-- The tile's six scratch buffers are among its own: they, at some contents, and the rest. -/
theorem ownBufs_V :
    (ownBufs (V d (cV L) (jV L)) : sProp 𝕄)
      = iprop((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f) ∗ (∃ f, (V d (cV L) (jV L)).loc cc5_scratch3 ↦{fullShare} f) ∗ (∃ f, (V d (cV L) (jV L)).loc cc5_scratch4 ↦{fullShare} f) ∗ (∃ f, (V d (cV L) (jV L)).loc cc5_scratch5 ↦{fullShare} f)
          ∗ bigSep (((((((ownRefs (τ := τ) (.scVector (cV L) (jV L))).erase ((Proc.scVector (cV L) (jV L)).devRef cc5_scratch0)).erase ((Proc.scVector (cV L) (jV L)).devRef cc5_scratch1)).erase ((Proc.scVector (cV L) (jV L)).devRef cc5_scratch2)).erase ((Proc.scVector (cV L) (jV L)).devRef cc5_scratch3)).erase ((Proc.scVector (cV L) (jV L)).devRef cc5_scratch4)).erase ((Proc.scVector (cV L) (jV L)).devRef cc5_scratch5))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc5_scratch0)) rfl),
    SparseCore.bigSep_erase' (Finset.mem_erase.mpr ⟨fun e => absurd (Proc.devRef_injective _ e) (show (cc5_scratch1 : Ref sig .scVector) ≠ cc5_scratch0 by decide), SparseCore.Cfg.mem_ownRefs_of_owner (p := Proc.scVector (cV L) (jV L)) (b := ((Proc.scVector (cV L) (jV L)).devRef cc5_scratch1)) rfl⟩),
    SparseCore.bigSep_erase' (Finset.mem_erase.mpr ⟨fun e => absurd (Proc.devRef_injective _ e) (show (cc5_scratch2 : Ref sig .scVector) ≠ cc5_scratch1 by decide), Finset.mem_erase.mpr ⟨fun e => absurd (Proc.devRef_injective _ e) (show (cc5_scratch2 : Ref sig .scVector) ≠ cc5_scratch0 by decide), SparseCore.Cfg.mem_ownRefs_of_owner (p := Proc.scVector (cV L) (jV L)) (b := ((Proc.scVector (cV L) (jV L)).devRef cc5_scratch2)) rfl⟩⟩),
    SparseCore.bigSep_erase' (Finset.mem_erase.mpr ⟨fun e => absurd (Proc.devRef_injective _ e) (show (cc5_scratch3 : Ref sig .scVector) ≠ cc5_scratch2 by decide), Finset.mem_erase.mpr ⟨fun e => absurd (Proc.devRef_injective _ e) (show (cc5_scratch3 : Ref sig .scVector) ≠ cc5_scratch1 by decide), Finset.mem_erase.mpr ⟨fun e => absurd (Proc.devRef_injective _ e) (show (cc5_scratch3 : Ref sig .scVector) ≠ cc5_scratch0 by decide), SparseCore.Cfg.mem_ownRefs_of_owner (p := Proc.scVector (cV L) (jV L)) (b := ((Proc.scVector (cV L) (jV L)).devRef cc5_scratch3)) rfl⟩⟩⟩),
    SparseCore.bigSep_erase' (Finset.mem_erase.mpr ⟨fun e => absurd (Proc.devRef_injective _ e) (show (cc5_scratch4 : Ref sig .scVector) ≠ cc5_scratch3 by decide), Finset.mem_erase.mpr ⟨fun e => absurd (Proc.devRef_injective _ e) (show (cc5_scratch4 : Ref sig .scVector) ≠ cc5_scratch2 by decide), Finset.mem_erase.mpr ⟨fun e => absurd (Proc.devRef_injective _ e) (show (cc5_scratch4 : Ref sig .scVector) ≠ cc5_scratch1 by decide), Finset.mem_erase.mpr ⟨fun e => absurd (Proc.devRef_injective _ e) (show (cc5_scratch4 : Ref sig .scVector) ≠ cc5_scratch0 by decide), SparseCore.Cfg.mem_ownRefs_of_owner (p := Proc.scVector (cV L) (jV L)) (b := ((Proc.scVector (cV L) (jV L)).devRef cc5_scratch4)) rfl⟩⟩⟩⟩),
    SparseCore.bigSep_erase' (Finset.mem_erase.mpr ⟨fun e => absurd (Proc.devRef_injective _ e) (show (cc5_scratch5 : Ref sig .scVector) ≠ cc5_scratch4 by decide), Finset.mem_erase.mpr ⟨fun e => absurd (Proc.devRef_injective _ e) (show (cc5_scratch5 : Ref sig .scVector) ≠ cc5_scratch3 by decide), Finset.mem_erase.mpr ⟨fun e => absurd (Proc.devRef_injective _ e) (show (cc5_scratch5 : Ref sig .scVector) ≠ cc5_scratch2 by decide), Finset.mem_erase.mpr ⟨fun e => absurd (Proc.devRef_injective _ e) (show (cc5_scratch5 : Ref sig .scVector) ≠ cc5_scratch1 by decide), Finset.mem_erase.mpr ⟨fun e => absurd (Proc.devRef_injective _ e) (show (cc5_scratch5 : Ref sig .scVector) ≠ cc5_scratch0 by decide), SparseCore.Cfg.mem_ownRefs_of_owner (p := Proc.scVector (cV L) (jV L)) (b := ((Proc.scVector (cV L) (jV L)).devRef cc5_scratch5)) rfl⟩⟩⟩⟩⟩)]

end Cert.Proof.ScBody

end
-- ==== Proof.ScPrep.lean ====
/-
  One trip of a loop that fills an offset list of the lookup kernel: sixteen index words read, shifted and stored;
  the places filled so far hold row numbers of the tables.
-/
import proofs.«203359_g24824910971486_cont_8to1_1854_34_alg».proof.Proof.ScSup

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem prep_trip_t13 (d : Dev nD) (L : grid5.Coords)  (k5_t13 : Fin k5_t13_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t13.val ()
      ⊢ wp frame (wpE (defs₀ (F := F)) 𝒱₀ (V d (cV L) (jV L)) none) Set.univ
          (k5_t13_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t13 ())
          (prepInv0 (F := F) d L fI (k5_t13.val + 1)) := by
  unfold k5_t13_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t13.val (k5_off23 k5_t13) (k5_off23_eq k5_t13) _ _ (fun x => ?_) hfs
  exact shr3_lt _ (hI _)

theorem prep_trip_t19 (d : Dev nD) (L : grid5.Coords)  (k5_t19 : Fin k5_t19_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t19.val ()
      ⊢ wp frame (wpE (defs₀ (F := F)) 𝒱₀ (V d (cV L) (jV L)) none) Set.univ
          (k5_t19_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t19 ())
          (prepInv0 (F := F) d L fI (k5_t19.val + 1)) := by
  unfold k5_t19_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t19.val (k5_off33 k5_t19) (k5_off33_eq k5_t19) _ _ (fun x => ?_) hfs
  exact shr3_lt _ (hI _)

theorem prep_trip_t3 (d : Dev nD) (L : grid5.Coords) (v2 : BitVec 32) (v3 : IVec S16 32) (c0_i32_3 : BitVec 32) (c1_i32_4 : BitVec 32) (k5_t2 : Fin k5_t2_loop.trips) (k5_t3 : Fin k5_t3_loop.trips)
    (fI : Buf (Elt F) ((V d (cV L) (jV L)).loc cc5_scratch0)) (hI : ∀ j, IdxOK ((Memref.whole cc5_scratch0 : Memref sig .scVector .vmem S25600 .i32).view.read (Elt F) fI j)) :
    prepInv1 (F := F) d L fI k5_t3.val ()
      ⊢ wp frame (wpE (defs₀ (F := F)) 𝒱₀ (V d (cV L) (jV L)) none) Set.univ
          (k5_t3_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_3 c1_i32_4 k5_t2 k5_t3 ())
          (prepInv1 (F := F) d L fI (k5_t3.val + 1)) := by
  unfold k5_t3_body
  unfold prepInv1
  iintro ⟨HI', %fs, Hs', %hfs⟩
  sl_exec
  sl_step
  isplitl [HI']; · iexact HI'
  iexists _
  isplitl [Hs']; · iexact Hs'
  ipureintro
  refine sup_step (F := F) (Memref.whole cc5_scratch2 : Memref sig .scVector .vmem S320 .i32).view fs k5_t3.val (k5_off5 k5_t3) (k5_off5_eq k5_t3) _ _ (fun x => ?_) hfs
  exact shr3_lt _ (hI _)

theorem prep_trip_t5 (d : Dev nD) (L : grid5.Coords) (v2 : BitVec 32) (v3 : IVec S16 32) (k5_t2 : Fin k5_t2_loop.trips) (v17 : BitVec 32) (k5_h1 : k5_cond1 k5_t2 = 1#1) (k5_t5 : Fin k5_t5_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t5.val ()
      ⊢ wp frame (wpE (defs₀ (F := F)) 𝒱₀ (V d (cV L) (jV L)) none) Set.univ
          (k5_t5_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t2 v17 k5_h1 k5_t5 ())
          (prepInv0 (F := F) d L fI (k5_t5.val + 1)) := by
  unfold k5_t5_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t5.val (k5_off9 k5_t5) (k5_off9_eq k5_t5) _ _ (fun x => ?_) hfs
  exact shr3_lt _ (hI _)

theorem prep_trip_t9 (d : Dev nD) (L : grid5.Coords) (v2 : BitVec 32) (v3 : IVec S16 32) (c0_i32_12 : BitVec 32) (c1_i32_14 : BitVec 32) (k5_t8 : Fin k5_t8_loop.trips) (k5_t9 : Fin k5_t9_loop.trips)
    (fI : Buf (Elt F) ((V d (cV L) (jV L)).loc cc5_scratch0)) (hI : ∀ j, IdxOK ((Memref.whole cc5_scratch0 : Memref sig .scVector .vmem S25600 .i32).view.read (Elt F) fI j)) :
    prepInv1 (F := F) d L fI k5_t9.val ()
      ⊢ wp frame (wpE (defs₀ (F := F)) 𝒱₀ (V d (cV L) (jV L)) none) Set.univ
          (k5_t9_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_12 c1_i32_14 k5_t8 k5_t9 ())
          (prepInv1 (F := F) d L fI (k5_t9.val + 1)) := by
  unfold k5_t9_body
  unfold prepInv1
  iintro ⟨HI', %fs, Hs', %hfs⟩
  sl_exec
  sl_step
  isplitl [HI']; · iexact HI'
  iexists _
  isplitl [Hs']; · iexact Hs'
  ipureintro
  refine sup_step (F := F) (Memref.whole cc5_scratch2 : Memref sig .scVector .vmem S320 .i32).view fs k5_t9.val (k5_off15 k5_t9) (k5_off15_eq k5_t9) _ _ (fun x => ?_) hfs
  exact shr3_lt _ (hI _)

theorem prep_trip_t11 (d : Dev nD) (L : grid5.Coords) (v2 : BitVec 32) (v3 : IVec S16 32) (k5_t8 : Fin k5_t8_loop.trips) (v17 : BitVec 32) (k5_h2 : k5_cond2 k5_t8 = 1#1) (k5_t11 : Fin k5_t11_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t11.val ()
      ⊢ wp frame (wpE (defs₀ (F := F)) 𝒱₀ (V d (cV L) (jV L)) none) Set.univ
          (k5_t11_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t8 v17 k5_h2 k5_t11 ())
          (prepInv0 (F := F) d L fI (k5_t11.val + 1)) := by
  unfold k5_t11_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t11.val (k5_off19 k5_t11) (k5_off19_eq k5_t11) _ _ (fun x => ?_) hfs
  exact shr3_lt _ (hI _)

theorem prep_trip_t15 (d : Dev nD) (L : grid5.Coords) (v2 : BitVec 32) (v3 : IVec S16 32) (c0_i32_22 : BitVec 32) (c1_i32_24 : BitVec 32) (k5_t14 : Fin k5_t14_loop.trips) (k5_t15 : Fin k5_t15_loop.trips)
    (fI : Buf (Elt F) ((V d (cV L) (jV L)).loc cc5_scratch0)) (hI : ∀ j, IdxOK ((Memref.whole cc5_scratch0 : Memref sig .scVector .vmem S25600 .i32).view.read (Elt F) fI j)) :
    prepInv1 (F := F) d L fI k5_t15.val ()
      ⊢ wp frame (wpE (defs₀ (F := F)) 𝒱₀ (V d (cV L) (jV L)) none) Set.univ
          (k5_t15_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_22 c1_i32_24 k5_t14 k5_t15 ())
          (prepInv1 (F := F) d L fI (k5_t15.val + 1)) := by
  unfold k5_t15_body
  unfold prepInv1
  iintro ⟨HI', %fs, Hs', %hfs⟩
  sl_exec
  sl_step
  isplitl [HI']; · iexact HI'
  iexists _
  isplitl [Hs']; · iexact Hs'
  ipureintro
  refine sup_step (F := F) (Memref.whole cc5_scratch2 : Memref sig .scVector .vmem S320 .i32).view fs k5_t15.val (k5_off25 k5_t15) (k5_off25_eq k5_t15) _ _ (fun x => ?_) hfs
  exact shr3_lt _ (hI _)

theorem prep_trip_t17 (d : Dev nD) (L : grid5.Coords) (v2 : BitVec 32) (v3 : IVec S16 32) (k5_t14 : Fin k5_t14_loop.trips) (v17 : BitVec 32) (k5_h3 : k5_cond3 k5_t14 = 1#1) (k5_t17 : Fin k5_t17_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t17.val ()
      ⊢ wp frame (wpE (defs₀ (F := F)) 𝒱₀ (V d (cV L) (jV L)) none) Set.univ
          (k5_t17_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t14 v17 k5_h3 k5_t17 ())
          (prepInv0 (F := F) d L fI (k5_t17.val + 1)) := by
  unfold k5_t17_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t17.val (k5_off29 k5_t17) (k5_off29_eq k5_t17) _ _ (fun x => ?_) hfs
  exact shr3_lt _ (hI _)

theorem prep_trip_t21 (d : Dev nD) (L : grid5.Coords) (v2 : BitVec 32) (v3 : IVec S16 32) (c0_i32_32 : BitVec 32) (c1_i32_34 : BitVec 32) (k5_t20 : Fin k5_t20_loop.trips) (k5_t21 : Fin k5_t21_loop.trips)
    (fI : Buf (Elt F) ((V d (cV L) (jV L)).loc cc5_scratch0)) (hI : ∀ j, IdxOK ((Memref.whole cc5_scratch0 : Memref sig .scVector .vmem S25600 .i32).view.read (Elt F) fI j)) :
    prepInv1 (F := F) d L fI k5_t21.val ()
      ⊢ wp frame (wpE (defs₀ (F := F)) 𝒱₀ (V d (cV L) (jV L)) none) Set.univ
          (k5_t21_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_32 c1_i32_34 k5_t20 k5_t21 ())
          (prepInv1 (F := F) d L fI (k5_t21.val + 1)) := by
  unfold k5_t21_body
  unfold prepInv1
  iintro ⟨HI', %fs, Hs', %hfs⟩
  sl_exec
  sl_step
  isplitl [HI']; · iexact HI'
  iexists _
  isplitl [Hs']; · iexact Hs'
  ipureintro
  refine sup_step (F := F) (Memref.whole cc5_scratch2 : Memref sig .scVector .vmem S320 .i32).view fs k5_t21.val (k5_off35 k5_t21) (k5_off35_eq k5_t21) _ _ (fun x => ?_) hfs
  exact shr3_lt _ (hI _)

theorem prep_trip_t23 (d : Dev nD) (L : grid5.Coords) (v2 : BitVec 32) (v3 : IVec S16 32) (k5_t20 : Fin k5_t20_loop.trips) (v17 : BitVec 32) (k5_h4 : k5_cond4 k5_t20 = 1#1) (k5_t23 : Fin k5_t23_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t23.val ()
      ⊢ wp frame (wpE (defs₀ (F := F)) 𝒱₀ (V d (cV L) (jV L)) none) Set.univ
          (k5_t23_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t20 v17 k5_h4 k5_t23 ())
          (prepInv0 (F := F) d L fI (k5_t23.val + 1)) := by
  unfold k5_t23_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t23.val (k5_off39 k5_t23) (k5_off39_eq k5_t23) _ _ (fun x => ?_) hfs
  exact shr3_lt _ (hI _)

theorem prep_trip_t1 (d : Dev nD) (L : grid5.Coords)  (k5_t1 : Fin k5_t1_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t1.val ()
      ⊢ wp frame (wpE (defs₀ (F := F)) 𝒱₀ (V d (cV L) (jV L)) none) Set.univ
          (k5_t1_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t1 ())
          (prepInv0 (F := F) d L fI (k5_t1.val + 1)) := by
  unfold k5_t1_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t1.val (k5_off3 k5_t1) (k5_off3_eq k5_t1) _ _ (fun x => ?_) hfs
  exact shr3_lt _ (hI _)

theorem prep_trip_t7 (d : Dev nD) (L : grid5.Coords)  (k5_t7 : Fin k5_t7_loop.trips)
    (fI : Buf (Elt F) ((V d (cV L) (jV L)).loc cc5_scratch0)) (hI : ∀ j, IdxOK ((Memref.whole cc5_scratch0 : Memref sig .scVector .vmem S25600 .i32).view.read (Elt F) fI j)) :
    prepInv0 (F := F) d L fI k5_t7.val ()
      ⊢ wp frame (wpE (defs₀ (F := F)) 𝒱₀ (V d (cV L) (jV L)) none) Set.univ
          (k5_t7_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t7 ())
          (prepInv0 (F := F) d L fI (k5_t7.val + 1)) := by
  unfold k5_t7_body
  unfold prepInv0
  iintro ⟨HI', %fs, Hs', %hfs⟩
  sl_exec
  sl_step
  isplitl [HI']; · iexact HI'
  iexists _
  isplitl [Hs']; · iexact Hs'
  ipureintro
  refine sup_step (F := F) (Memref.whole cc5_scratch1 : Memref sig .scVector .vmem S320 .i32).view fs k5_t7.val (k5_off13 k5_t7) (k5_off13_eq k5_t7) _ _ (fun x => ?_) hfs
  exact shr3_lt _ (hI _)

end Cert.Proof.ScBody

end
-- ==== Proof.ScChunk.lean ====
/-
  The output lines of one chunk lie among the tile's own lines, and the two chunks of one trip of the main loop are
  disjoint.
-/
import proofs.«203359_g24824910971486_cont_8to1_1854_34_alg».proof.Proof.ScSup

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A block of 40 lines at line `c` of the tile's lines, `c + 40 ≤ 3200`, lies among the tile's lines. -/
theorem chunkRect_sub (L : grid5.Coords) (off : Fin 2 → Nat) (c : Nat) (hc : c + 40 ≤ 3200)
    (hoff : off = ![6400 * (L 1).val + 3200 * (L 0).val + c, 0]) (inb : ∀ a, off a + S40x128.size a ≤ S102400x128.size a) :
    (Rect.unit (s := S102400x128) off S40x128.size inb).set ⊆ oSet L := by
  intro i hi
  rw [Rect.mem_set_unit] at hi ⊢
  subst hoff
  intro a
  have h := hi a
  match a with
  | 0 =>
    have h' : 6400 * (L 1).val + 3200 * (L 0).val + c ≤ (i 0).val ∧ (i 0).val < 6400 * (L 1).val + 3200 * (L 0).val + c + 40 := h
    show 6400 * (L 1).val + 3200 * (L 0).val ≤ (i 0).val ∧ (i 0).val < 6400 * (L 1).val + 3200 * (L 0).val + 3200
    omega
  | 1 =>
    have h' : 0 ≤ (i 1).val ∧ (i 1).val < 0 + 128 := h
    show 0 ≤ (i 1).val ∧ (i 1).val < 0 + 128
    exact h'

/-- Two blocks of 40 lines at lines `c` and `c + 40` are disjoint. -/
theorem chunkRect_disj (L : grid5.Coords) (off off' : Fin 2 → Nat) (c : Nat)
    (hoff : off = ![6400 * (L 1).val + 3200 * (L 0).val + c, 0]) (hoff' : off' = ![6400 * (L 1).val + 3200 * (L 0).val + c + 40, 0])
    (inb : ∀ a, off a + S40x128.size a ≤ S102400x128.size a) (inb' : ∀ a, off' a + S40x128.size a ≤ S102400x128.size a) :
    Disjoint (Rect.unit (s := S102400x128) off S40x128.size inb).set (Rect.unit (s := S102400x128) off' S40x128.size inb').set := by
  subst hoff hoff'
  refine Rect.unit_disjoint 0 (.inl ?_)
  show 6400 * (L 1).val + 3200 * (L 0).val + c + 40 ≤ 6400 * (L 1).val + 3200 * (L 0).val + c + 40
  exact le_refl _

end Cert.Proof.ScBody

end
-- ==== Proof.ScDrainA.lean ====
/-
  One trip of a drain loop of the lookup kernel (the chunks gathered into the first row scratch): sixteen indexed loads from the row scratch and sixteen
  indexed stores into the output scratch, each index vector in range by the word arithmetic of the trip.
-/
import proofs.«203359_g24824910971486_cont_8to1_1854_34_alg».proof.Proof.ScSup

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem drain_trip_t4 (d : Dev nD) (L : grid5.Coords) (v2 c0 c1 v17 : BitVec 32) (k5_t2 : Fin k5_t2_loop.trips) (k5_t4 : Fin k5_t4_loop.trips)
    (fI : Buf (Elt F) ((V d (cV L) (jV L)).loc cc5_scratch0)) :
    drainInv0 (F := F) d L fI k5_t4.val ()
      ⊢ wp frame (wpE (defs₀ (F := F)) 𝒱₀ (V d (cV L) (jV L)) none) Set.univ
          (k5_t4_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t2 v17 k5_t4 ())
          (drainInv0 (F := F) d L fI (k5_t4.val + 1)) := by
  unfold k5_t4_body
  simp only [k5_part1_eq_skeleton, k5_part2_eq_skeleton, k5_part3_eq_skeleton, k5_part4_eq_skeleton]
  unfold k5_part1_skel k5_part2_skel k5_part3_skel k5_part4_skel
  simp only [SparseCore.vectorLoadIdx_bind (c := (V d (cV L) (jV L))), SparseCore.vectorStoreIdx_bind (c := (V d (cV L) (jV L)))]
  have hk : k5_t4.val < 20 := Nat.lt_of_lt_of_le k5_t4.isLt k5_t4_abs.2.1
  unfold drainInv0
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t10 (d : Dev nD) (L : grid5.Coords) (v2 c0 c1 v17 : BitVec 32) (k5_t8 : Fin k5_t8_loop.trips) (k5_t10 : Fin k5_t10_loop.trips)
    (fI : Buf (Elt F) ((V d (cV L) (jV L)).loc cc5_scratch0)) :
    drainInv0 (F := F) d L fI k5_t10.val ()
      ⊢ wp frame (wpE (defs₀ (F := F)) 𝒱₀ (V d (cV L) (jV L)) none) Set.univ
          (k5_t10_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t8 v17 k5_t10 ())
          (drainInv0 (F := F) d L fI (k5_t10.val + 1)) := by
  unfold k5_t10_body
  simp only [k5_part11_eq_skeleton, k5_part12_eq_skeleton, k5_part13_eq_skeleton, k5_part14_eq_skeleton]
  unfold k5_part11_skel k5_part12_skel k5_part13_skel k5_part14_skel
  simp only [SparseCore.vectorLoadIdx_bind (c := (V d (cV L) (jV L))), SparseCore.vectorStoreIdx_bind (c := (V d (cV L) (jV L)))]
  have hk : k5_t10.val < 20 := Nat.lt_of_lt_of_le k5_t10.isLt k5_t10_abs.2.1
  unfold drainInv0
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t16 (d : Dev nD) (L : grid5.Coords) (v2 c0 c1 v17 : BitVec 32) (k5_t14 : Fin k5_t14_loop.trips) (k5_t16 : Fin k5_t16_loop.trips)
    (fI : Buf (Elt F) ((V d (cV L) (jV L)).loc cc5_scratch0)) :
    drainInv0 (F := F) d L fI k5_t16.val ()
      ⊢ wp frame (wpE (defs₀ (F := F)) 𝒱₀ (V d (cV L) (jV L)) none) Set.univ
          (k5_t16_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t14 v17 k5_t16 ())
          (drainInv0 (F := F) d L fI (k5_t16.val + 1)) := by
  unfold k5_t16_body
  simp only [k5_part21_eq_skeleton, k5_part22_eq_skeleton, k5_part23_eq_skeleton, k5_part24_eq_skeleton]
  unfold k5_part21_skel k5_part22_skel k5_part23_skel k5_part24_skel
  simp only [SparseCore.vectorLoadIdx_bind (c := (V d (cV L) (jV L))), SparseCore.vectorStoreIdx_bind (c := (V d (cV L) (jV L)))]
  have hk : k5_t16.val < 20 := Nat.lt_of_lt_of_le k5_t16.isLt k5_t16_abs.2.1
  unfold drainInv0
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t22 (d : Dev nD) (L : grid5.Coords) (v2 c0 c1 v17 : BitVec 32) (k5_t20 : Fin k5_t20_loop.trips) (k5_t22 : Fin k5_t22_loop.trips)
    (fI : Buf (Elt F) ((V d (cV L) (jV L)).loc cc5_scratch0)) :
    drainInv0 (F := F) d L fI k5_t22.val ()
      ⊢ wp frame (wpE (defs₀ (F := F)) 𝒱₀ (V d (cV L) (jV L)) none) Set.univ
          (k5_t22_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t20 v17 k5_t22 ())
          (drainInv0 (F := F) d L fI (k5_t22.val + 1)) := by
  unfold k5_t22_body
  simp only [k5_part31_eq_skeleton, k5_part32_eq_skeleton, k5_part33_eq_skeleton, k5_part34_eq_skeleton]
  unfold k5_part31_skel k5_part32_skel k5_part33_skel k5_part34_skel
  simp only [SparseCore.vectorLoadIdx_bind (c := (V d (cV L) (jV L))), SparseCore.vectorStoreIdx_bind (c := (V d (cV L) (jV L)))]
  have hk : k5_t22.val < 20 := Nat.lt_of_lt_of_le k5_t22.isLt k5_t22_abs.2.1
  unfold drainInv0
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

end Cert.Proof.ScBody

end
-- ==== Proof.ScDrainB.lean ====
/-
  One trip of a drain loop of the lookup kernel (the chunks gathered into the second row scratch): sixteen indexed loads from the row scratch and sixteen
  indexed stores into the output scratch, each index vector in range by the word arithmetic of the trip.
-/
import proofs.«203359_g24824910971486_cont_8to1_1854_34_alg».proof.Proof.ScSup

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem drain_trip_t6 (d : Dev nD) (L : grid5.Coords) (v2 v17 v48 : BitVec 32) (k5_t2 : Fin k5_t2_loop.trips) (k5_t6 : Fin k5_t6_loop.trips)
    (fI : Buf (Elt F) ((V d (cV L) (jV L)).loc cc5_scratch0)) :
    drainInv1 (F := F) d L fI k5_t6.val ()
      ⊢ wp frame (wpE (defs₀ (F := F)) 𝒱₀ (V d (cV L) (jV L)) none) Set.univ
          (k5_t6_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t2 v17 v48 k5_t6 ())
          (drainInv1 (F := F) d L fI (k5_t6.val + 1)) := by
  unfold k5_t6_body
  simp only [k5_part5_eq_skeleton, k5_part6_eq_skeleton, k5_part7_eq_skeleton, k5_part8_eq_skeleton]
  unfold k5_part5_skel k5_part6_skel k5_part7_skel k5_part8_skel
  simp only [SparseCore.vectorLoadIdx_bind (c := (V d (cV L) (jV L))), SparseCore.vectorStoreIdx_bind (c := (V d (cV L) (jV L)))]
  have hk : k5_t6.val < 20 := Nat.lt_of_lt_of_le k5_t6.isLt k5_t6_abs.2.1
  unfold drainInv1
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t12 (d : Dev nD) (L : grid5.Coords) (v2 v17 v48 : BitVec 32) (k5_t8 : Fin k5_t8_loop.trips) (k5_t12 : Fin k5_t12_loop.trips)
    (fI : Buf (Elt F) ((V d (cV L) (jV L)).loc cc5_scratch0)) :
    drainInv1 (F := F) d L fI k5_t12.val ()
      ⊢ wp frame (wpE (defs₀ (F := F)) 𝒱₀ (V d (cV L) (jV L)) none) Set.univ
          (k5_t12_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t8 v17 v48 k5_t12 ())
          (drainInv1 (F := F) d L fI (k5_t12.val + 1)) := by
  unfold k5_t12_body
  simp only [k5_part15_eq_skeleton, k5_part16_eq_skeleton, k5_part17_eq_skeleton, k5_part18_eq_skeleton]
  unfold k5_part15_skel k5_part16_skel k5_part17_skel k5_part18_skel
  simp only [SparseCore.vectorLoadIdx_bind (c := (V d (cV L) (jV L))), SparseCore.vectorStoreIdx_bind (c := (V d (cV L) (jV L)))]
  have hk : k5_t12.val < 20 := Nat.lt_of_lt_of_le k5_t12.isLt k5_t12_abs.2.1
  unfold drainInv1
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t18 (d : Dev nD) (L : grid5.Coords) (v2 v17 v48 : BitVec 32) (k5_t14 : Fin k5_t14_loop.trips) (k5_t18 : Fin k5_t18_loop.trips)
    (fI : Buf (Elt F) ((V d (cV L) (jV L)).loc cc5_scratch0)) :
    drainInv1 (F := F) d L fI k5_t18.val ()
      ⊢ wp frame (wpE (defs₀ (F := F)) 𝒱₀ (V d (cV L) (jV L)) none) Set.univ
          (k5_t18_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t14 v17 v48 k5_t18 ())
          (drainInv1 (F := F) d L fI (k5_t18.val + 1)) := by
  unfold k5_t18_body
  simp only [k5_part25_eq_skeleton, k5_part26_eq_skeleton, k5_part27_eq_skeleton, k5_part28_eq_skeleton]
  unfold k5_part25_skel k5_part26_skel k5_part27_skel k5_part28_skel
  simp only [SparseCore.vectorLoadIdx_bind (c := (V d (cV L) (jV L))), SparseCore.vectorStoreIdx_bind (c := (V d (cV L) (jV L)))]
  have hk : k5_t18.val < 20 := Nat.lt_of_lt_of_le k5_t18.isLt k5_t18_abs.2.1
  unfold drainInv1
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

theorem drain_trip_t24 (d : Dev nD) (L : grid5.Coords) (v2 v17 v48 : BitVec 32) (k5_t20 : Fin k5_t20_loop.trips) (k5_t24 : Fin k5_t24_loop.trips)
    (fI : Buf (Elt F) ((V d (cV L) (jV L)).loc cc5_scratch0)) :
    drainInv1 (F := F) d L fI k5_t24.val ()
      ⊢ wp frame (wpE (defs₀ (F := F)) 𝒱₀ (V d (cV L) (jV L)) none) Set.univ
          (k5_t24_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t20 v17 v48 k5_t24 ())
          (drainInv1 (F := F) d L fI (k5_t24.val + 1)) := by
  unfold k5_t24_body
  simp only [k5_part35_eq_skeleton, k5_part36_eq_skeleton, k5_part37_eq_skeleton, k5_part38_eq_skeleton]
  unfold k5_part35_skel k5_part36_skel k5_part37_skel k5_part38_skel
  simp only [SparseCore.vectorLoadIdx_bind (c := (V d (cV L) (jV L))), SparseCore.vectorStoreIdx_bind (c := (V d (cV L) (jV L)))]
  have hk : k5_t24.val < 20 := Nat.lt_of_lt_of_le k5_t24.isLt k5_t24_abs.2.1
  unfold drainInv1
  iintro ⟨HI', ⟨%fr, Hr'⟩, %fo, Ho'⟩
  sl_exec (disch := first
    | exact chk2 _ _ _ (fun x => row_lt _ lane_lt _ hk x) (fun x => col_lt _ _ (lt16_of_ble rfl))
    | exact chk2 _ _ _ (fun x => hi_lt _ _ (row_lt _ lane_lt _ hk x) (lt16_of_ble rfl)) (fun x => lo_lt _))
  sl_step
  isplitl [HI']; · iexact HI'
  isplitl [Hr']; · iexists _; iexact Hr'
  iexists _; iexact Ho'

end Cert.Proof.ScBody

end
-- ==== Proof.ScMain0.lean ====
/-
  One trip of the main loop of table 0 of the lookup kernel: the next odd chunk's offsets prepared and its gather
  issued on the second gather semaphore; the wait for the even chunk's gather, its drain and its lines copied out; the
  next even chunk's offsets and gather, while one remains; the wait for the odd chunk's gather, its drain and its lines.
-/
import proofs.«203359_g24824910971486_cont_8to1_1854_34_alg».proof.Proof.ScOwn
import proofs.«203359_g24824910971486_cont_8to1_1854_34_alg».proof.Proof.ScPrep
import proofs.«203359_g24824910971486_cont_8to1_1854_34_alg».proof.Proof.ScChunk
import proofs.«203359_g24824910971486_cont_8to1_1854_34_alg».proof.Proof.ScDrainA
import proofs.«203359_g24824910971486_cont_8to1_1854_34_alg».proof.Proof.ScDrainB

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The scaled table as the gathers address it. -/
abbrev tblSlice0 : Memref sig .scVector .hbm S12500x128 .f32 :=
  (Memref.whole main_v7_scv).slice (Rect.unit (s := S12500x128) ![0, 0] ![12500, 128] inb_S12500x128_S12500x128_0_0) (fun _ => rfl)
/-- The output lines of the even and of the odd chunk of trip `k`. -/
abbrev chunkE0 (L : grid5.Coords) (k : Fin k5_t2_loop.trips) : Memref sig .scVector .hbm S40x128 .f32 :=
  (Memref.whole main_v15_0_scv).slice (Rect.unit (s := S102400x128) (k5_off7 L k) ![40, 128] (k5_off7_inb L k)) (fun _ => rfl)
abbrev chunkO0 (L : grid5.Coords) (k : Fin k5_t2_loop.trips) : Memref sig .scVector .hbm S40x128 .f32 :=
  (Memref.whole main_v15_0_scv).slice (Rect.unit (s := S102400x128) (k5_off11 L k) ![40, 128] (k5_off11_inb L k)) (fun _ => rfl)

theorem cond0_iff : ∀ t : Fin k5_t2_loop.trips, k5_cond1 t = 1#1 ↔ t.val + 1 < 40 := by decide

/-- What is pending on the first gather semaphore at the start of trip `k` of the main loop: before the last trip's
    end the gather of the next even chunk, in flight, holding the first row scratch, the first offset list and half of
    the table's share; after it nothing, those three and the semaphore in hand. -/
def pend0 (d : Dev nD) (L : grid5.Coords) (qT : PosShare TreeShare) (T0 : Buf (Elt F) (t0Loc d)) (k : Nat) : sProp 𝕄 :=
  if k < 40 then
    iprop((∃ (fd : Buf (Elt F) ((V d (cV L) (jV L)).loc cc5_scratch3)) (fo : Buf (Elt F) ((V d (cV L) (jV L)).loc cc5_scratch1)),
        Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v7_scv).view.loc (V d (cV L) (jV L)) ↦[(tblSlice0).view.set]{qT.left} T0)))
      ∗ ((Memref.whole main_v7_scv).view.loc (V d (cV L) (jV L)) ↦[Finset.univ \ (tblSlice0).view.set]{qT.left} T0))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v7_scv).view.loc (V d (cV L) (jV L)) ↦{qT.left} T0) ∗ semVal (cellOf d L cc5_scratch6) 0)

/-- The invariant of the main loop of table 0: the index scratch as it is; half of the table's share, the second
    offset list, the second row scratch and the output scratch in hand, their semaphores at zero; the tile's lines of
    the output at some contents; what is pending on the first gather semaphore; the waits so far at the kernels' index. -/
def mainInv0 (d : Dev nD) (L : grid5.Coords) (qT : PosShare TreeShare) (T0 : Buf (Elt F) (t0Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v7_scv).view.loc (V d (cV L) (jV L)) ↦{qT.right} T0)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped1) 0 ∗ semVal (cellOf d L cc5_scoped2) 0
    ∗ (∃ f, o0Loc d ↦[oSet L]{fullShare} f)
    ∗ pend0 (F := F) d L qT T0 k
    ∗ ∃ W', ⌜∀ p ∈ W', p ∈ W ∨ p.2 = none⌝ ∗ owes (V d (cV L) (jV L)) O W')

set_option maxHeartbeats 8000000 in
theorem main_trip_t2 (d : Dev nD) (L : grid5.Coords) (qT : PosShare TreeShare) (T0 : Buf (Elt F) (t0Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (O : CellTallies nD τ sig (HIx 1)) (W : Waits sig (HIx 1)) (k5_t2 : Fin k5_t2_loop.trips) :
    mainInv0 (F := F) d L qT T0 fI O W k5_t2.val ()
      ⊢ wp frame (wpE (defs₀ (F := F)) 𝒱₀ (V d (cV L) (jV L)) none) Set.univ
          (k5_t2_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t2 ())
          (mainInv0 (F := F) d L qT T0 fI O W (k5_t2.val + 1)) := by
  have hk : k5_t2.val < 40 := Nat.lt_of_lt_of_le k5_t2.isLt k5_t2_abs.2.1
  unfold k5_t2_body
  simp only [k5_part9_eq_skeleton, k5_part10_eq_skeleton]
  unfold k5_part9_skel k5_part10_skel
  simp only [Prog.bind_assoc]
  unfold mainInv0 pend0
  rw [if_pos hk]
  iintro ⟨#Hmw, Htb, HI, ⟨%fs1, Hs1⟩, ⟨%fr1, Hr1⟩, Hsem21, ⟨%fout, Hout⟩, HscE, HscO, ⟨%fo, Ho⟩, ⟨⟨%fd, %fo0, Hfl⟩, Htrem⟩, %W', %hW', HO⟩
  have hsubE : (chunkE0 L k5_t2).view.set ⊆ oSet L := by
    rw [show (chunkE0 L k5_t2).view.set = (Rect.unit (s := S102400x128) (k5_off7 L k5_t2) ![40, 128] (k5_off7_inb L k5_t2)).set from View.set_slice_whole _ _]
    exact chunkRect_sub L _ (80 * k5_t2.val) (by omega) (k5_off7_eq L k5_t2) _
  have hsubO : (chunkO0 L k5_t2).view.set ⊆ oSet L \ (chunkE0 L k5_t2).view.set := by
    rw [show (chunkO0 L k5_t2).view.set = (Rect.unit (s := S102400x128) (k5_off11 L k5_t2) ![40, 128] (k5_off11_inb L k5_t2)).set from View.set_slice_whole _ _,
      show (chunkE0 L k5_t2).view.set = (Rect.unit (s := S102400x128) (k5_off7 L k5_t2) ![40, 128] (k5_off7_inb L k5_t2)).set from View.set_slice_whole _ _]
    exact Finset.subset_sdiff.mpr ⟨chunkRect_sub L _ (80 * k5_t2.val + 40) (by omega) (k5_off11_eq L k5_t2) _,
      (chunkRect_disj L _ _ (80 * k5_t2.val) (k5_off7_eq L k5_t2) (k5_off11_eq L k5_t2) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o0Loc d ↦[(chunkE0 L k5_t2).view.set]{fullShare} fo : sProp 𝕄)) ⊢ ((chunkE0 L k5_t2).view.loc (V d (cV L) (jV L)) ↦[(chunkE0 L k5_t2).view.set]{fullShare} fo) from Entails.of_eq rfl) $$ HcE
  ihave HcO' := (show ((o0Loc d ↦[(chunkO0 L k5_t2).view.set]{fullShare} fo : sProp 𝕄)) ⊢ ((chunkO0 L k5_t2).view.loc (V d (cV L) (jV L)) ↦[(chunkO0 L k5_t2).view.set]{fullShare} fo) from Entails.of_eq rfl) $$ HcO
  sl_for (prepInv1 (F := F) d L fI) $$ [HI Hs1]
  case region =>
    intro k u
    exact prep_trip_t3 (F := F) d L _ _ _ _ k5_t2 k fI hI
  · unfold prepInv1
    isplitl [HI]; · iexact HI
    iexists fs1
    isplitl [Hs1]; · iexact Hs1
    ipureintro; intro y hy; omega
  iintro %_ HIv
  unfold prepInv1
  icases HIv with ⟨HI, %fs1', Hs1, %hfs1⟩
  have htr3 : Scf.trips k5_t3_loop.lb k5_t3_loop.ub k5_t3_loop.st = 20 := by decide
  have hin3 : ∀ x, ((Memref.whole cc5_scratch2 : Memref sig .scVector .vmem S320 .i32).view.read (Elt F) fs1' x).toNat < S12500x128.size gathers_S12500x128_S320x128.axis :=
    fun x => hfs1 x (by rw [htr3]; have : (x 0).val < 320 := (x 0).isLt; omega)
  sl_exec
  sl_for (drainInv0 (F := F) d L fI) $$ [HI Hfl_dst Hout]
  case region =>
    intro k u
    exact drain_trip_t4 (F := F) d L _ _ _ _ k5_t2 k fI
  · unfold drainInv0
    isplitl [HI]; · iexact HI
    isplitl [Hfl_dst]; · iexists _; iexact Hfl_dst
    iexists _; iexact Hout
  iintro %_ HIv
  unfold drainInv0
  icases HIv with ⟨HI, ⟨%fr_4, Hfl_dst⟩, %fout_4, Hout⟩
  sl_exec
  by_cases hc : k5_cond1 k5_t2 = 1#1
  · sl_exec
    sl_rw [Prog.bind_assoc]
    sl_for (prepInv0 (F := F) d L fI) $$ [HI Hfl_dst_and]
    case region =>
      intro k u
      exact prep_trip_t5 (F := F) d L _ _ k5_t2 _ hc k fI hI
    · unfold prepInv0
      isplitl [HI]; · iexact HI
      iexists fo0
      isplitl [Hfl_dst_and]; · iexact Hfl_dst_and
      ipureintro; intro y hy; omega
    iintro %_ HIv
    unfold prepInv0
    icases HIv with ⟨HI, %fo0', Hfl_dst_and, %hfo0⟩
    have htr5 : Scf.trips k5_t5_loop.lb k5_t5_loop.ub k5_t5_loop.st = 20 := by decide
    have hin5 : ∀ x, ((Memref.whole cc5_scratch1 : Memref sig .scVector .vmem S320 .i32).view.read (Elt F) fo0' x).toNat < S12500x128.size gathers_S12500x128_S320x128.axis :=
      fun x => hfo0 x (by rw [htr5]; have : (x 0).val < 320 := (x 0).isLt; omega)
    sl_exec
    try sl_rw [Prog.bind_assoc]
    sl_for (drainInv1 (F := F) d L fI) $$ [HI Hr1 Hout]
    case region =>
      intro k u
      exact drain_trip_t6 (F := F) d L _ _ _ k5_t2 k fI
    · unfold drainInv1
      isplitl [HI]; · iexact HI
      isplitl [Hr1]; · iexists _; iexact Hr1
      iexists _; iexact Hout
    iintro %_ HIv
    unfold drainInv1
    icases HIv with ⟨HI, ⟨%fr_6, Hr1⟩, %fout_6, Hout⟩
    sl_exec
    sl_step
    irw [if_pos (by have := (cond0_iff k5_t2).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Htrem Hfl]
    · isplitl [Hfl]
      · iexists _, _; iexact Hfl
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInv1 (F := F) d L fI) $$ [HI Hr1 Hout]
    case region =>
      intro k u
      exact drain_trip_t6 (F := F) d L _ _ _ k5_t2 k fI
    · unfold drainInv1
      isplitl [HI]; · iexact HI
      isplitl [Hr1]; · iexists _; iexact Hr1
      iexists _; iexact Hout
    iintro %_ HIv
    unfold drainInv1
    icases HIv with ⟨HI, ⟨%fr_6, Hr1⟩, %fout_6, Hout⟩
    sl_exec
    sl_step
    irw [if_neg (by intro h; exact hc ((cond0_iff k5_t2).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.ScBody

end
-- ==== Proof.ScMain1.lean ====
/-
  One trip of the main loop of table 1 of the lookup kernel: the next odd chunk's offsets prepared and its gather
  issued on the second gather semaphore; the wait for the even chunk's gather, its drain and its lines copied out; the
  next even chunk's offsets and gather, while one remains; the wait for the odd chunk's gather, its drain and its lines.
-/
import proofs.«203359_g24824910971486_cont_8to1_1854_34_alg».proof.Proof.ScOwn
import proofs.«203359_g24824910971486_cont_8to1_1854_34_alg».proof.Proof.ScPrep
import proofs.«203359_g24824910971486_cont_8to1_1854_34_alg».proof.Proof.ScChunk
import proofs.«203359_g24824910971486_cont_8to1_1854_34_alg».proof.Proof.ScDrainA
import proofs.«203359_g24824910971486_cont_8to1_1854_34_alg».proof.Proof.ScDrainB

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The scaled table as the gathers address it. -/
abbrev tblSlice1 : Memref sig .scVector .hbm S12500x128 .f32 :=
  (Memref.whole main_v8_scv).slice (Rect.unit (s := S12500x128) ![0, 0] ![12500, 128] inb_S12500x128_S12500x128_0_0) (fun _ => rfl)
/-- The output lines of the even and of the odd chunk of trip `k`. -/
abbrev chunkE1 (L : grid5.Coords) (k : Fin k5_t8_loop.trips) : Memref sig .scVector .hbm S40x128 .f32 :=
  (Memref.whole main_v15_1_scv).slice (Rect.unit (s := S102400x128) (k5_off17 L k) ![40, 128] (k5_off17_inb L k)) (fun _ => rfl)
abbrev chunkO1 (L : grid5.Coords) (k : Fin k5_t8_loop.trips) : Memref sig .scVector .hbm S40x128 .f32 :=
  (Memref.whole main_v15_1_scv).slice (Rect.unit (s := S102400x128) (k5_off21 L k) ![40, 128] (k5_off21_inb L k)) (fun _ => rfl)

theorem cond1_iff : ∀ t : Fin k5_t8_loop.trips, k5_cond2 t = 1#1 ↔ t.val + 1 < 40 := by decide

/-- What is pending on the first gather semaphore at the start of trip `k` of the main loop: before the last trip's
    end the gather of the next even chunk, in flight, holding the first row scratch, the first offset list and half of
    the table's share; after it nothing, those three and the semaphore in hand. -/
def pend1 (d : Dev nD) (L : grid5.Coords) (qT : PosShare TreeShare) (T1 : Buf (Elt F) (t1Loc d)) (k : Nat) : sProp 𝕄 :=
  if k < 40 then
    iprop((∃ (fd : Buf (Elt F) ((V d (cV L) (jV L)).loc cc5_scratch3)) (fo : Buf (Elt F) ((V d (cV L) (jV L)).loc cc5_scratch1)),
        Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v8_scv).view.loc (V d (cV L) (jV L)) ↦[(tblSlice1).view.set]{qT.left} T1)))
      ∗ ((Memref.whole main_v8_scv).view.loc (V d (cV L) (jV L)) ↦[Finset.univ \ (tblSlice1).view.set]{qT.left} T1))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v8_scv).view.loc (V d (cV L) (jV L)) ↦{qT.left} T1) ∗ semVal (cellOf d L cc5_scratch6) 0)

/-- The invariant of the main loop of table 1: the index scratch as it is; half of the table's share, the second
    offset list, the second row scratch and the output scratch in hand, their semaphores at zero; the tile's lines of
    the output at some contents; what is pending on the first gather semaphore; the waits so far at the kernels' index. -/
def mainInv1 (d : Dev nD) (L : grid5.Coords) (qT : PosShare TreeShare) (T1 : Buf (Elt F) (t1Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v8_scv).view.loc (V d (cV L) (jV L)) ↦{qT.right} T1)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped4) 0 ∗ semVal (cellOf d L cc5_scoped5) 0
    ∗ (∃ f, o1Loc d ↦[oSet L]{fullShare} f)
    ∗ pend1 (F := F) d L qT T1 k
    ∗ ∃ W', ⌜∀ p ∈ W', p ∈ W ∨ p.2 = none⌝ ∗ owes (V d (cV L) (jV L)) O W')

set_option maxHeartbeats 8000000 in
theorem main_trip_t8 (d : Dev nD) (L : grid5.Coords) (qT : PosShare TreeShare) (T1 : Buf (Elt F) (t1Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (O : CellTallies nD τ sig (HIx 1)) (W : Waits sig (HIx 1)) (k5_t8 : Fin k5_t8_loop.trips) :
    mainInv1 (F := F) d L qT T1 fI O W k5_t8.val ()
      ⊢ wp frame (wpE (defs₀ (F := F)) 𝒱₀ (V d (cV L) (jV L)) none) Set.univ
          (k5_t8_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t8 ())
          (mainInv1 (F := F) d L qT T1 fI O W (k5_t8.val + 1)) := by
  have hk : k5_t8.val < 40 := Nat.lt_of_lt_of_le k5_t8.isLt k5_t8_abs.2.1
  unfold k5_t8_body
  simp only [k5_part19_eq_skeleton, k5_part20_eq_skeleton]
  unfold k5_part19_skel k5_part20_skel
  simp only [Prog.bind_assoc]
  unfold mainInv1 pend1
  rw [if_pos hk]
  iintro ⟨#Hmw, Htb, HI, ⟨%fs1, Hs1⟩, ⟨%fr1, Hr1⟩, Hsem21, ⟨%fout, Hout⟩, HscE, HscO, ⟨%fo, Ho⟩, ⟨⟨%fd, %fo0, Hfl⟩, Htrem⟩, %W', %hW', HO⟩
  have hsubE : (chunkE1 L k5_t8).view.set ⊆ oSet L := by
    rw [show (chunkE1 L k5_t8).view.set = (Rect.unit (s := S102400x128) (k5_off17 L k5_t8) ![40, 128] (k5_off17_inb L k5_t8)).set from View.set_slice_whole _ _]
    exact chunkRect_sub L _ (80 * k5_t8.val) (by omega) (k5_off17_eq L k5_t8) _
  have hsubO : (chunkO1 L k5_t8).view.set ⊆ oSet L \ (chunkE1 L k5_t8).view.set := by
    rw [show (chunkO1 L k5_t8).view.set = (Rect.unit (s := S102400x128) (k5_off21 L k5_t8) ![40, 128] (k5_off21_inb L k5_t8)).set from View.set_slice_whole _ _,
      show (chunkE1 L k5_t8).view.set = (Rect.unit (s := S102400x128) (k5_off17 L k5_t8) ![40, 128] (k5_off17_inb L k5_t8)).set from View.set_slice_whole _ _]
    exact Finset.subset_sdiff.mpr ⟨chunkRect_sub L _ (80 * k5_t8.val + 40) (by omega) (k5_off21_eq L k5_t8) _,
      (chunkRect_disj L _ _ (80 * k5_t8.val) (k5_off17_eq L k5_t8) (k5_off21_eq L k5_t8) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o1Loc d ↦[(chunkE1 L k5_t8).view.set]{fullShare} fo : sProp 𝕄)) ⊢ ((chunkE1 L k5_t8).view.loc (V d (cV L) (jV L)) ↦[(chunkE1 L k5_t8).view.set]{fullShare} fo) from Entails.of_eq rfl) $$ HcE
  ihave HcO' := (show ((o1Loc d ↦[(chunkO1 L k5_t8).view.set]{fullShare} fo : sProp 𝕄)) ⊢ ((chunkO1 L k5_t8).view.loc (V d (cV L) (jV L)) ↦[(chunkO1 L k5_t8).view.set]{fullShare} fo) from Entails.of_eq rfl) $$ HcO
  sl_for (prepInv1 (F := F) d L fI) $$ [HI Hs1]
  case region =>
    intro k u
    exact prep_trip_t9 (F := F) d L _ _ _ _ k5_t8 k fI hI
  · unfold prepInv1
    isplitl [HI]; · iexact HI
    iexists fs1
    isplitl [Hs1]; · iexact Hs1
    ipureintro; intro y hy; omega
  iintro %_ HIv
  unfold prepInv1
  icases HIv with ⟨HI, %fs1', Hs1, %hfs1⟩
  have htr9 : Scf.trips k5_t9_loop.lb k5_t9_loop.ub k5_t9_loop.st = 20 := by decide
  have hin9 : ∀ x, ((Memref.whole cc5_scratch2 : Memref sig .scVector .vmem S320 .i32).view.read (Elt F) fs1' x).toNat < S12500x128.size gathers_S12500x128_S320x128.axis :=
    fun x => hfs1 x (by rw [htr9]; have : (x 0).val < 320 := (x 0).isLt; omega)
  sl_exec
  sl_for (drainInv0 (F := F) d L fI) $$ [HI Hfl_dst Hout]
  case region =>
    intro k u
    exact drain_trip_t10 (F := F) d L _ _ _ _ k5_t8 k fI
  · unfold drainInv0
    isplitl [HI]; · iexact HI
    isplitl [Hfl_dst]; · iexists _; iexact Hfl_dst
    iexists _; iexact Hout
  iintro %_ HIv
  unfold drainInv0
  icases HIv with ⟨HI, ⟨%fr_10, Hfl_dst⟩, %fout_10, Hout⟩
  sl_exec
  by_cases hc : k5_cond2 k5_t8 = 1#1
  · sl_exec
    sl_rw [Prog.bind_assoc]
    sl_for (prepInv0 (F := F) d L fI) $$ [HI Hfl_dst_and]
    case region =>
      intro k u
      exact prep_trip_t11 (F := F) d L _ _ k5_t8 _ hc k fI hI
    · unfold prepInv0
      isplitl [HI]; · iexact HI
      iexists fo0
      isplitl [Hfl_dst_and]; · iexact Hfl_dst_and
      ipureintro; intro y hy; omega
    iintro %_ HIv
    unfold prepInv0
    icases HIv with ⟨HI, %fo0', Hfl_dst_and, %hfo0⟩
    have htr11 : Scf.trips k5_t11_loop.lb k5_t11_loop.ub k5_t11_loop.st = 20 := by decide
    have hin11 : ∀ x, ((Memref.whole cc5_scratch1 : Memref sig .scVector .vmem S320 .i32).view.read (Elt F) fo0' x).toNat < S12500x128.size gathers_S12500x128_S320x128.axis :=
      fun x => hfo0 x (by rw [htr11]; have : (x 0).val < 320 := (x 0).isLt; omega)
    sl_exec
    try sl_rw [Prog.bind_assoc]
    sl_for (drainInv1 (F := F) d L fI) $$ [HI Hr1 Hout]
    case region =>
      intro k u
      exact drain_trip_t12 (F := F) d L _ _ _ k5_t8 k fI
    · unfold drainInv1
      isplitl [HI]; · iexact HI
      isplitl [Hr1]; · iexists _; iexact Hr1
      iexists _; iexact Hout
    iintro %_ HIv
    unfold drainInv1
    icases HIv with ⟨HI, ⟨%fr_12, Hr1⟩, %fout_12, Hout⟩
    sl_exec
    sl_step
    irw [if_pos (by have := (cond1_iff k5_t8).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Htrem Hfl]
    · isplitl [Hfl]
      · iexists _, _; iexact Hfl
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInv1 (F := F) d L fI) $$ [HI Hr1 Hout]
    case region =>
      intro k u
      exact drain_trip_t12 (F := F) d L _ _ _ k5_t8 k fI
    · unfold drainInv1
      isplitl [HI]; · iexact HI
      isplitl [Hr1]; · iexists _; iexact Hr1
      iexists _; iexact Hout
    iintro %_ HIv
    unfold drainInv1
    icases HIv with ⟨HI, ⟨%fr_12, Hr1⟩, %fout_12, Hout⟩
    sl_exec
    sl_step
    irw [if_neg (by intro h; exact hc ((cond1_iff k5_t8).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.ScBody

end
-- ==== Proof.ScMain2.lean ====
/-
  One trip of the main loop of table 2 of the lookup kernel: the next odd chunk's offsets prepared and its gather
  issued on the second gather semaphore; the wait for the even chunk's gather, its drain and its lines copied out; the
  next even chunk's offsets and gather, while one remains; the wait for the odd chunk's gather, its drain and its lines.
-/
import proofs.«203359_g24824910971486_cont_8to1_1854_34_alg».proof.Proof.ScOwn
import proofs.«203359_g24824910971486_cont_8to1_1854_34_alg».proof.Proof.ScPrep
import proofs.«203359_g24824910971486_cont_8to1_1854_34_alg».proof.Proof.ScChunk
import proofs.«203359_g24824910971486_cont_8to1_1854_34_alg».proof.Proof.ScDrainA
import proofs.«203359_g24824910971486_cont_8to1_1854_34_alg».proof.Proof.ScDrainB

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The scaled table as the gathers address it. -/
abbrev tblSlice2 : Memref sig .scVector .hbm S12500x128 .f32 :=
  (Memref.whole main_v9_scv).slice (Rect.unit (s := S12500x128) ![0, 0] ![12500, 128] inb_S12500x128_S12500x128_0_0) (fun _ => rfl)
/-- The output lines of the even and of the odd chunk of trip `k`. -/
abbrev chunkE2 (L : grid5.Coords) (k : Fin k5_t14_loop.trips) : Memref sig .scVector .hbm S40x128 .f32 :=
  (Memref.whole main_v15_2_scv).slice (Rect.unit (s := S102400x128) (k5_off27 L k) ![40, 128] (k5_off27_inb L k)) (fun _ => rfl)
abbrev chunkO2 (L : grid5.Coords) (k : Fin k5_t14_loop.trips) : Memref sig .scVector .hbm S40x128 .f32 :=
  (Memref.whole main_v15_2_scv).slice (Rect.unit (s := S102400x128) (k5_off31 L k) ![40, 128] (k5_off31_inb L k)) (fun _ => rfl)

theorem cond2_iff : ∀ t : Fin k5_t14_loop.trips, k5_cond3 t = 1#1 ↔ t.val + 1 < 40 := by decide

/-- What is pending on the first gather semaphore at the start of trip `k` of the main loop: before the last trip's
    end the gather of the next even chunk, in flight, holding the first row scratch, the first offset list and half of
    the table's share; after it nothing, those three and the semaphore in hand. -/
def pend2 (d : Dev nD) (L : grid5.Coords) (qT : PosShare TreeShare) (T2 : Buf (Elt F) (t2Loc d)) (k : Nat) : sProp 𝕄 :=
  if k < 40 then
    iprop((∃ (fd : Buf (Elt F) ((V d (cV L) (jV L)).loc cc5_scratch3)) (fo : Buf (Elt F) ((V d (cV L) (jV L)).loc cc5_scratch1)),
        Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v9_scv).view.loc (V d (cV L) (jV L)) ↦[(tblSlice2).view.set]{qT.left} T2)))
      ∗ ((Memref.whole main_v9_scv).view.loc (V d (cV L) (jV L)) ↦[Finset.univ \ (tblSlice2).view.set]{qT.left} T2))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v9_scv).view.loc (V d (cV L) (jV L)) ↦{qT.left} T2) ∗ semVal (cellOf d L cc5_scratch6) 0)

/-- The invariant of the main loop of table 2: the index scratch as it is; half of the table's share, the second
    offset list, the second row scratch and the output scratch in hand, their semaphores at zero; the tile's lines of
    the output at some contents; what is pending on the first gather semaphore; the waits so far at the kernels' index. -/
def mainInv2 (d : Dev nD) (L : grid5.Coords) (qT : PosShare TreeShare) (T2 : Buf (Elt F) (t2Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v9_scv).view.loc (V d (cV L) (jV L)) ↦{qT.right} T2)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped7) 0 ∗ semVal (cellOf d L cc5_scoped8) 0
    ∗ (∃ f, o2Loc d ↦[oSet L]{fullShare} f)
    ∗ pend2 (F := F) d L qT T2 k
    ∗ ∃ W', ⌜∀ p ∈ W', p ∈ W ∨ p.2 = none⌝ ∗ owes (V d (cV L) (jV L)) O W')

set_option maxHeartbeats 8000000 in
theorem main_trip_t14 (d : Dev nD) (L : grid5.Coords) (qT : PosShare TreeShare) (T2 : Buf (Elt F) (t2Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (O : CellTallies nD τ sig (HIx 1)) (W : Waits sig (HIx 1)) (k5_t14 : Fin k5_t14_loop.trips) :
    mainInv2 (F := F) d L qT T2 fI O W k5_t14.val ()
      ⊢ wp frame (wpE (defs₀ (F := F)) 𝒱₀ (V d (cV L) (jV L)) none) Set.univ
          (k5_t14_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t14 ())
          (mainInv2 (F := F) d L qT T2 fI O W (k5_t14.val + 1)) := by
  have hk : k5_t14.val < 40 := Nat.lt_of_lt_of_le k5_t14.isLt k5_t14_abs.2.1
  unfold k5_t14_body
  simp only [k5_part29_eq_skeleton, k5_part30_eq_skeleton]
  unfold k5_part29_skel k5_part30_skel
  simp only [Prog.bind_assoc]
  unfold mainInv2 pend2
  rw [if_pos hk]
  iintro ⟨#Hmw, Htb, HI, ⟨%fs1, Hs1⟩, ⟨%fr1, Hr1⟩, Hsem21, ⟨%fout, Hout⟩, HscE, HscO, ⟨%fo, Ho⟩, ⟨⟨%fd, %fo0, Hfl⟩, Htrem⟩, %W', %hW', HO⟩
  have hsubE : (chunkE2 L k5_t14).view.set ⊆ oSet L := by
    rw [show (chunkE2 L k5_t14).view.set = (Rect.unit (s := S102400x128) (k5_off27 L k5_t14) ![40, 128] (k5_off27_inb L k5_t14)).set from View.set_slice_whole _ _]
    exact chunkRect_sub L _ (80 * k5_t14.val) (by omega) (k5_off27_eq L k5_t14) _
  have hsubO : (chunkO2 L k5_t14).view.set ⊆ oSet L \ (chunkE2 L k5_t14).view.set := by
    rw [show (chunkO2 L k5_t14).view.set = (Rect.unit (s := S102400x128) (k5_off31 L k5_t14) ![40, 128] (k5_off31_inb L k5_t14)).set from View.set_slice_whole _ _,
      show (chunkE2 L k5_t14).view.set = (Rect.unit (s := S102400x128) (k5_off27 L k5_t14) ![40, 128] (k5_off27_inb L k5_t14)).set from View.set_slice_whole _ _]
    exact Finset.subset_sdiff.mpr ⟨chunkRect_sub L _ (80 * k5_t14.val + 40) (by omega) (k5_off31_eq L k5_t14) _,
      (chunkRect_disj L _ _ (80 * k5_t14.val) (k5_off27_eq L k5_t14) (k5_off31_eq L k5_t14) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o2Loc d ↦[(chunkE2 L k5_t14).view.set]{fullShare} fo : sProp 𝕄)) ⊢ ((chunkE2 L k5_t14).view.loc (V d (cV L) (jV L)) ↦[(chunkE2 L k5_t14).view.set]{fullShare} fo) from Entails.of_eq rfl) $$ HcE
  ihave HcO' := (show ((o2Loc d ↦[(chunkO2 L k5_t14).view.set]{fullShare} fo : sProp 𝕄)) ⊢ ((chunkO2 L k5_t14).view.loc (V d (cV L) (jV L)) ↦[(chunkO2 L k5_t14).view.set]{fullShare} fo) from Entails.of_eq rfl) $$ HcO
  sl_for (prepInv1 (F := F) d L fI) $$ [HI Hs1]
  case region =>
    intro k u
    exact prep_trip_t15 (F := F) d L _ _ _ _ k5_t14 k fI hI
  · unfold prepInv1
    isplitl [HI]; · iexact HI
    iexists fs1
    isplitl [Hs1]; · iexact Hs1
    ipureintro; intro y hy; omega
  iintro %_ HIv
  unfold prepInv1
  icases HIv with ⟨HI, %fs1', Hs1, %hfs1⟩
  have htr15 : Scf.trips k5_t15_loop.lb k5_t15_loop.ub k5_t15_loop.st = 20 := by decide
  have hin15 : ∀ x, ((Memref.whole cc5_scratch2 : Memref sig .scVector .vmem S320 .i32).view.read (Elt F) fs1' x).toNat < S12500x128.size gathers_S12500x128_S320x128.axis :=
    fun x => hfs1 x (by rw [htr15]; have : (x 0).val < 320 := (x 0).isLt; omega)
  sl_exec
  sl_for (drainInv0 (F := F) d L fI) $$ [HI Hfl_dst Hout]
  case region =>
    intro k u
    exact drain_trip_t16 (F := F) d L _ _ _ _ k5_t14 k fI
  · unfold drainInv0
    isplitl [HI]; · iexact HI
    isplitl [Hfl_dst]; · iexists _; iexact Hfl_dst
    iexists _; iexact Hout
  iintro %_ HIv
  unfold drainInv0
  icases HIv with ⟨HI, ⟨%fr_16, Hfl_dst⟩, %fout_16, Hout⟩
  sl_exec
  by_cases hc : k5_cond3 k5_t14 = 1#1
  · sl_exec
    sl_rw [Prog.bind_assoc]
    sl_for (prepInv0 (F := F) d L fI) $$ [HI Hfl_dst_and]
    case region =>
      intro k u
      exact prep_trip_t17 (F := F) d L _ _ k5_t14 _ hc k fI hI
    · unfold prepInv0
      isplitl [HI]; · iexact HI
      iexists fo0
      isplitl [Hfl_dst_and]; · iexact Hfl_dst_and
      ipureintro; intro y hy; omega
    iintro %_ HIv
    unfold prepInv0
    icases HIv with ⟨HI, %fo0', Hfl_dst_and, %hfo0⟩
    have htr17 : Scf.trips k5_t17_loop.lb k5_t17_loop.ub k5_t17_loop.st = 20 := by decide
    have hin17 : ∀ x, ((Memref.whole cc5_scratch1 : Memref sig .scVector .vmem S320 .i32).view.read (Elt F) fo0' x).toNat < S12500x128.size gathers_S12500x128_S320x128.axis :=
      fun x => hfo0 x (by rw [htr17]; have : (x 0).val < 320 := (x 0).isLt; omega)
    sl_exec
    try sl_rw [Prog.bind_assoc]
    sl_for (drainInv1 (F := F) d L fI) $$ [HI Hr1 Hout]
    case region =>
      intro k u
      exact drain_trip_t18 (F := F) d L _ _ _ k5_t14 k fI
    · unfold drainInv1
      isplitl [HI]; · iexact HI
      isplitl [Hr1]; · iexists _; iexact Hr1
      iexists _; iexact Hout
    iintro %_ HIv
    unfold drainInv1
    icases HIv with ⟨HI, ⟨%fr_18, Hr1⟩, %fout_18, Hout⟩
    sl_exec
    sl_step
    irw [if_pos (by have := (cond2_iff k5_t14).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Htrem Hfl]
    · isplitl [Hfl]
      · iexists _, _; iexact Hfl
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInv1 (F := F) d L fI) $$ [HI Hr1 Hout]
    case region =>
      intro k u
      exact drain_trip_t18 (F := F) d L _ _ _ k5_t14 k fI
    · unfold drainInv1
      isplitl [HI]; · iexact HI
      isplitl [Hr1]; · iexists _; iexact Hr1
      iexists _; iexact Hout
    iintro %_ HIv
    unfold drainInv1
    icases HIv with ⟨HI, ⟨%fr_18, Hr1⟩, %fout_18, Hout⟩
    sl_exec
    sl_step
    irw [if_neg (by intro h; exact hc ((cond2_iff k5_t14).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.ScBody

end
-- ==== Proof.ScMain3.lean ====
/-
  One trip of the main loop of table 3 of the lookup kernel: the next odd chunk's offsets prepared and its gather
  issued on the second gather semaphore; the wait for the even chunk's gather, its drain and its lines copied out; the
  next even chunk's offsets and gather, while one remains; the wait for the odd chunk's gather, its drain and its lines.
-/
import proofs.«203359_g24824910971486_cont_8to1_1854_34_alg».proof.Proof.ScOwn
import proofs.«203359_g24824910971486_cont_8to1_1854_34_alg».proof.Proof.ScPrep
import proofs.«203359_g24824910971486_cont_8to1_1854_34_alg».proof.Proof.ScChunk
import proofs.«203359_g24824910971486_cont_8to1_1854_34_alg».proof.Proof.ScDrainA
import proofs.«203359_g24824910971486_cont_8to1_1854_34_alg».proof.Proof.ScDrainB

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The scaled table as the gathers address it. -/
abbrev tblSlice3 : Memref sig .scVector .hbm S12500x128 .f32 :=
  (Memref.whole main_v10_scv).slice (Rect.unit (s := S12500x128) ![0, 0] ![12500, 128] inb_S12500x128_S12500x128_0_0) (fun _ => rfl)
/-- The output lines of the even and of the odd chunk of trip `k`. -/
abbrev chunkE3 (L : grid5.Coords) (k : Fin k5_t20_loop.trips) : Memref sig .scVector .hbm S40x128 .f32 :=
  (Memref.whole main_v15_3_scv).slice (Rect.unit (s := S102400x128) (k5_off37 L k) ![40, 128] (k5_off37_inb L k)) (fun _ => rfl)
abbrev chunkO3 (L : grid5.Coords) (k : Fin k5_t20_loop.trips) : Memref sig .scVector .hbm S40x128 .f32 :=
  (Memref.whole main_v15_3_scv).slice (Rect.unit (s := S102400x128) (k5_off41 L k) ![40, 128] (k5_off41_inb L k)) (fun _ => rfl)

theorem cond3_iff : ∀ t : Fin k5_t20_loop.trips, k5_cond4 t = 1#1 ↔ t.val + 1 < 40 := by decide

/-- What is pending on the first gather semaphore at the start of trip `k` of the main loop: before the last trip's
    end the gather of the next even chunk, in flight, holding the first row scratch, the first offset list and half of
    the table's share; after it nothing, those three and the semaphore in hand. -/
def pend3 (d : Dev nD) (L : grid5.Coords) (qT : PosShare TreeShare) (T3 : Buf (Elt F) (t3Loc d)) (k : Nat) : sProp 𝕄 :=
  if k < 40 then
    iprop((∃ (fd : Buf (Elt F) ((V d (cV L) (jV L)).loc cc5_scratch3)) (fo : Buf (Elt F) ((V d (cV L) (jV L)).loc cc5_scratch1)),
        Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v10_scv).view.loc (V d (cV L) (jV L)) ↦[(tblSlice3).view.set]{qT.left} T3)))
      ∗ ((Memref.whole main_v10_scv).view.loc (V d (cV L) (jV L)) ↦[Finset.univ \ (tblSlice3).view.set]{qT.left} T3))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v10_scv).view.loc (V d (cV L) (jV L)) ↦{qT.left} T3) ∗ semVal (cellOf d L cc5_scratch6) 0)

/-- The invariant of the main loop of table 3: the index scratch as it is; half of the table's share, the second
    offset list, the second row scratch and the output scratch in hand, their semaphores at zero; the tile's lines of
    the output at some contents; what is pending on the first gather semaphore; the waits so far at the kernels' index. -/
def mainInv3 (d : Dev nD) (L : grid5.Coords) (qT : PosShare TreeShare) (T3 : Buf (Elt F) (t3Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v10_scv).view.loc (V d (cV L) (jV L)) ↦{qT.right} T3)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped10) 0 ∗ semVal (cellOf d L cc5_scoped11) 0
    ∗ (∃ f, o3Loc d ↦[oSet L]{fullShare} f)
    ∗ pend3 (F := F) d L qT T3 k
    ∗ ∃ W', ⌜∀ p ∈ W', p ∈ W ∨ p.2 = none⌝ ∗ owes (V d (cV L) (jV L)) O W')

set_option maxHeartbeats 8000000 in
theorem main_trip_t20 (d : Dev nD) (L : grid5.Coords) (qT : PosShare TreeShare) (T3 : Buf (Elt F) (t3Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (O : CellTallies nD τ sig (HIx 1)) (W : Waits sig (HIx 1)) (k5_t20 : Fin k5_t20_loop.trips) :
    mainInv3 (F := F) d L qT T3 fI O W k5_t20.val ()
      ⊢ wp frame (wpE (defs₀ (F := F)) 𝒱₀ (V d (cV L) (jV L)) none) Set.univ
          (k5_t20_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t20 ())
          (mainInv3 (F := F) d L qT T3 fI O W (k5_t20.val + 1)) := by
  have hk : k5_t20.val < 40 := Nat.lt_of_lt_of_le k5_t20.isLt k5_t20_abs.2.1
  unfold k5_t20_body
  simp only [k5_part39_eq_skeleton, k5_part40_eq_skeleton]
  unfold k5_part39_skel k5_part40_skel
  simp only [Prog.bind_assoc]
  unfold mainInv3 pend3
  rw [if_pos hk]
  iintro ⟨#Hmw, Htb, HI, ⟨%fs1, Hs1⟩, ⟨%fr1, Hr1⟩, Hsem21, ⟨%fout, Hout⟩, HscE, HscO, ⟨%fo, Ho⟩, ⟨⟨%fd, %fo0, Hfl⟩, Htrem⟩, %W', %hW', HO⟩
  have hsubE : (chunkE3 L k5_t20).view.set ⊆ oSet L := by
    rw [show (chunkE3 L k5_t20).view.set = (Rect.unit (s := S102400x128) (k5_off37 L k5_t20) ![40, 128] (k5_off37_inb L k5_t20)).set from View.set_slice_whole _ _]
    exact chunkRect_sub L _ (80 * k5_t20.val) (by omega) (k5_off37_eq L k5_t20) _
  have hsubO : (chunkO3 L k5_t20).view.set ⊆ oSet L \ (chunkE3 L k5_t20).view.set := by
    rw [show (chunkO3 L k5_t20).view.set = (Rect.unit (s := S102400x128) (k5_off41 L k5_t20) ![40, 128] (k5_off41_inb L k5_t20)).set from View.set_slice_whole _ _,
      show (chunkE3 L k5_t20).view.set = (Rect.unit (s := S102400x128) (k5_off37 L k5_t20) ![40, 128] (k5_off37_inb L k5_t20)).set from View.set_slice_whole _ _]
    exact Finset.subset_sdiff.mpr ⟨chunkRect_sub L _ (80 * k5_t20.val + 40) (by omega) (k5_off41_eq L k5_t20) _,
      (chunkRect_disj L _ _ (80 * k5_t20.val) (k5_off37_eq L k5_t20) (k5_off41_eq L k5_t20) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o3Loc d ↦[(chunkE3 L k5_t20).view.set]{fullShare} fo : sProp 𝕄)) ⊢ ((chunkE3 L k5_t20).view.loc (V d (cV L) (jV L)) ↦[(chunkE3 L k5_t20).view.set]{fullShare} fo) from Entails.of_eq rfl) $$ HcE
  ihave HcO' := (show ((o3Loc d ↦[(chunkO3 L k5_t20).view.set]{fullShare} fo : sProp 𝕄)) ⊢ ((chunkO3 L k5_t20).view.loc (V d (cV L) (jV L)) ↦[(chunkO3 L k5_t20).view.set]{fullShare} fo) from Entails.of_eq rfl) $$ HcO
  sl_for (prepInv1 (F := F) d L fI) $$ [HI Hs1]
  case region =>
    intro k u
    exact prep_trip_t21 (F := F) d L _ _ _ _ k5_t20 k fI hI
  · unfold prepInv1
    isplitl [HI]; · iexact HI
    iexists fs1
    isplitl [Hs1]; · iexact Hs1
    ipureintro; intro y hy; omega
  iintro %_ HIv
  unfold prepInv1
  icases HIv with ⟨HI, %fs1', Hs1, %hfs1⟩
  have htr21 : Scf.trips k5_t21_loop.lb k5_t21_loop.ub k5_t21_loop.st = 20 := by decide
  have hin21 : ∀ x, ((Memref.whole cc5_scratch2 : Memref sig .scVector .vmem S320 .i32).view.read (Elt F) fs1' x).toNat < S12500x128.size gathers_S12500x128_S320x128.axis :=
    fun x => hfs1 x (by rw [htr21]; have : (x 0).val < 320 := (x 0).isLt; omega)
  sl_exec
  sl_for (drainInv0 (F := F) d L fI) $$ [HI Hfl_dst Hout]
  case region =>
    intro k u
    exact drain_trip_t22 (F := F) d L _ _ _ _ k5_t20 k fI
  · unfold drainInv0
    isplitl [HI]; · iexact HI
    isplitl [Hfl_dst]; · iexists _; iexact Hfl_dst
    iexists _; iexact Hout
  iintro %_ HIv
  unfold drainInv0
  icases HIv with ⟨HI, ⟨%fr_22, Hfl_dst⟩, %fout_22, Hout⟩
  sl_exec
  by_cases hc : k5_cond4 k5_t20 = 1#1
  · sl_exec
    sl_rw [Prog.bind_assoc]
    sl_for (prepInv0 (F := F) d L fI) $$ [HI Hfl_dst_and]
    case region =>
      intro k u
      exact prep_trip_t23 (F := F) d L _ _ k5_t20 _ hc k fI hI
    · unfold prepInv0
      isplitl [HI]; · iexact HI
      iexists fo0
      isplitl [Hfl_dst_and]; · iexact Hfl_dst_and
      ipureintro; intro y hy; omega
    iintro %_ HIv
    unfold prepInv0
    icases HIv with ⟨HI, %fo0', Hfl_dst_and, %hfo0⟩
    have htr23 : Scf.trips k5_t23_loop.lb k5_t23_loop.ub k5_t23_loop.st = 20 := by decide
    have hin23 : ∀ x, ((Memref.whole cc5_scratch1 : Memref sig .scVector .vmem S320 .i32).view.read (Elt F) fo0' x).toNat < S12500x128.size gathers_S12500x128_S320x128.axis :=
      fun x => hfo0 x (by rw [htr23]; have : (x 0).val < 320 := (x 0).isLt; omega)
    sl_exec
    try sl_rw [Prog.bind_assoc]
    sl_for (drainInv1 (F := F) d L fI) $$ [HI Hr1 Hout]
    case region =>
      intro k u
      exact drain_trip_t24 (F := F) d L _ _ _ k5_t20 k fI
    · unfold drainInv1
      isplitl [HI]; · iexact HI
      isplitl [Hr1]; · iexists _; iexact Hr1
      iexists _; iexact Hout
    iintro %_ HIv
    unfold drainInv1
    icases HIv with ⟨HI, ⟨%fr_24, Hr1⟩, %fout_24, Hout⟩
    sl_exec
    sl_step
    irw [if_pos (by have := (cond3_iff k5_t20).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Htrem Hfl]
    · isplitl [Hfl]
      · iexists _, _; iexact Hfl
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInv1 (F := F) d L fI) $$ [HI Hr1 Hout]
    case region =>
      intro k u
      exact drain_trip_t24 (F := F) d L _ _ _ k5_t20 k fI
    · unfold drainInv1
      isplitl [HI]; · iexact HI
      isplitl [Hr1]; · iexists _; iexact Hr1
      iexists _; iexact Hout
    iintro %_ HIv
    unfold drainInv1
    icases HIv with ⟨HI, ⟨%fr_24, Hr1⟩, %fout_24, Hout⟩
    sl_exec
    sl_step
    irw [if_neg (by intro h; exact hc ((cond3_iff k5_t20).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      iapply (pointsTo_join_subset hsubE)
      isplitl [HcE']; · iexact HcE'
      iapply (pointsTo_join_subset hsubO)
      isplitl [HcO']; · iexact HcO'
      iexact Hrest
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.ScBody

end
-- ==== Proof.ScBody.lean ====
/-
  The body obligation of the lookup kernel's vector-subcore task: for each of the four tables, the tile's indices copied
  in, the first chunk's offsets prepared and its gather issued, the main loop under its invariant, and at the end
  everything handed back as it was found, the tile's lines of the outputs at some contents.
-/
import proofs.«203359_g24824910971486_cont_8to1_1854_34_alg».proof.Proof.ScMain0
import proofs.«203359_g24824910971486_cont_8to1_1854_34_alg».proof.Proof.ScMain1
import proofs.«203359_g24824910971486_cont_8to1_1854_34_alg».proof.Proof.ScMain2
import proofs.«203359_g24824910971486_cont_8to1_1854_34_alg».proof.Proof.ScMain3

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 32000000 in
theorem tile_body : TileBodyStmt (F := F) := by
  intro d L qT qI T0 T1 T2 T3 I0 I1 I2 I3 hF O W hO hidx
  simp only [cc5_k_eq_skeleton]; unfold cc5_k_skel
  simp only [k5_part41_eq_skeleton]; unfold k5_part41_skel
  simp only [Prog.bind_assoc]
  rw [(K (F := F)).scopedBufs_V hF d (cV L) (jV L), SparseCore.Cfg.scopedSems0_V (Val := Elt F) d (cV L) (jV L), ownSems0_V, ownBufs_V]
  iintro ⟨#Hlv, -, ⟨⟨Ht0, Ht1, Ht2, Ht3, Hi0, Hi1, Hi2, Hi3⟩, ⟨⟨%fo0, Ho0⟩, ⟨%fo1, Ho1⟩, ⟨%fo2, Ho2⟩, ⟨%fo3, Ho3⟩⟩⟩,
    ⟨⟨%fI, HI⟩, ⟨%fs0, Hs0⟩, ⟨%fs1, Hs1⟩, ⟨%fr0, Hr0⟩, ⟨%fr1, Hr1⟩, ⟨%fout, Hout⟩, Hbufs⟩, ⟨Hsem20, Hsem21, Hsc0, Hsc1, Hsc2, Hsc3, Hsc4, Hsc5, Hsc6, Hsc7, Hsc8, Hsc9, Hsc10, Hsc11, Hsems⟩, HO⟩
  ihave Hmw := ((K (F := F)).mayWaits_none (thr := (V d (cV L) (jV L))) hO) $$ Hlv
  ihave HI' := (Entails.of_eq (pts_w (F := F) d (cV L) (jV L) cc5_scratch0 _ _).symm) $$ HI
  ihave Hs0' := (Entails.of_eq (pts_w (F := F) d (cV L) (jV L) cc5_scratch1 _ _).symm) $$ Hs0
  ihave Hs1' := (Entails.of_eq (pts_w (F := F) d (cV L) (jV L) cc5_scratch2 _ _).symm) $$ Hs1
  ihave Hr0' := (Entails.of_eq (pts_w (F := F) d (cV L) (jV L) cc5_scratch3 _ _).symm) $$ Hr0
  ihave Hr1' := (Entails.of_eq (pts_w (F := F) d (cV L) (jV L) cc5_scratch4 _ _).symm) $$ Hr1
  ihave Hout' := (Entails.of_eq (pts_w (F := F) d (cV L) (jV L) cc5_scratch5 _ _).symm) $$ Hout
  have hW_start : ∀ p ∈ W, p ∈ W ∨ p.2 = none := fun p hp => .inl hp
  ihave Hi0' := (show ((i0Loc d ↦{qI} I0 : sProp 𝕄)) ⊢ ((Memref.whole main_v11_scv).view.loc (V d (cV L) (jV L)) ↦{qI} I0) from Entails.of_eq rfl) $$ Hi0
  ihave Hi1' := (show ((i1Loc d ↦{qI} I1 : sProp 𝕄)) ⊢ ((Memref.whole main_v12_scv).view.loc (V d (cV L) (jV L)) ↦{qI} I1) from Entails.of_eq rfl) $$ Hi1
  ihave Hi2' := (show ((i2Loc d ↦{qI} I2 : sProp 𝕄)) ⊢ ((Memref.whole main_v13_scv).view.loc (V d (cV L) (jV L)) ↦{qI} I2) from Entails.of_eq rfl) $$ Hi2
  ihave Hi3' := (show ((i3Loc d ↦{qI} I3 : sProp 𝕄)) ⊢ ((Memref.whole main_v14_scv).view.loc (V d (cV L) (jV L)) ↦{qI} I3) from Entails.of_eq rfl) $$ Hi3
  -- table 0
  ihave Hsh := (pointsTo_share (PosShare.mem_left_op_right qT)).1 $$ Ht0
  icases Hsh with ⟨HtL, HtR⟩
  ihave HtL' := (show ((t0Loc d ↦{qT.left} T0 : sProp 𝕄)) ⊢ ((Memref.whole main_v7_scv).view.loc (V d (cV L) (jV L)) ↦{qT.left} T0) from Entails.of_eq rfl) $$ HtL
  sl_exec
  have hI0 : ∀ j, IdxOK ((Memref.whole cc5_scratch0 : Memref sig .scVector .vmem S25600 .i32).view.read (Elt F) (View.write (Elt F) (Memref.whole cc5_scratch0 : Memref sig .scVector .vmem S25600 .i32).view fI (tile_body.sl.dma0 d L I0) Finset.univ) j) := by
    intro j
    rw [View.write_whole_univ]
    unfold tile_body.sl.dma0
    exact hidx.1 _
  generalize (View.write (Elt F) (Memref.whole cc5_scratch0 : Memref sig .scVector .vmem S25600 .i32).view fI (tile_body.sl.dma0 d L I0) Finset.univ) = fI_0 at hI0 ⊢
  sl_for (prepInv0 (F := F) d L fI_0) $$ [HI' Hs0']
  case region =>
    intro k u
    exact prep_trip_t1 (F := F) d L k fI_0 hI0
  · unfold prepInv0
    isplitl [HI']; · iexact HI'
    iexists _
    isplitl [Hs0']; · iexact Hs0'
    ipureintro; intro y hy; omega
  iintro %_ HIv
  unfold prepInv0
  icases HIv with ⟨HI', %fs0_0, Hs0', %hfs0_0⟩
  have htrI0 : Scf.trips k5_t1_loop.lb k5_t1_loop.ub k5_t1_loop.st = 20 := by decide
  have hin_0 : ∀ x, ((Memref.whole cc5_scratch1 : Memref sig .scVector .vmem S320 .i32).view.read (Elt F) fs0_0 x).toNat < S12500x128.size gathers_S12500x128_S320x128.axis :=
    fun x => hfs0_0 x (by rw [htrI0]; have : (x 0).val < 320 := (x 0).isLt; omega)
  sl_exec
  ihave HtR' := (show ((t0Loc d ↦{qT.right} T0 : sProp 𝕄)) ⊢ ((Memref.whole main_v7_scv).view.loc (V d (cV L) (jV L)) ↦{qT.right} T0) from Entails.of_eq rfl) $$ HtR
  sl_for (mainInv0 (F := F) d L qT T0 fI_0 O W) $$ [HtR' HI' Hs1' Hr1' Hsem21 Hout' Hsc1 Hsc2 Ho0 Hsem20 HtL' HO]
  case region =>
    intro k u
    exact main_trip_t2 (F := F) d L qT T0 _ fI_0 hI0 O W k
  · unfold mainInv0 pend0
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc1]; · iexact Hsc1
    isplitl [Hsc2]; · iexact Hsc2
    isplitl [Ho0]; · iexists _; iexact Ho0
    isplitl [Hsem20 HtL']
    · isplitl [Hsem20]
      · iexists _, _; iexact Hsem20
      · iexact HtL'
    iexists _; isplitr
    swap
    · iexact HO
    · ipureintro; intro p hp
      rcases Finset.mem_insert.mp hp with rfl | hp
      · exact .inr rfl
      · exact hW_start p hp
  iintro %_ HIv
  unfold mainInv0 pend0
  rw [if_neg (by decide : ¬ Scf.trips k5_t2_loop.lb k5_t2_loop.ub k5_t2_loop.st < 40)]
  icases HIv with ⟨-, HtR', HI', ⟨%fs1_0, Hs1'⟩, ⟨%fr1_0, Hr1'⟩, Hsem21, ⟨%fout_0, Hout'⟩, Hsc1, Hsc2, ⟨%fo0', Ho0⟩, ⟨⟨%fr0_0, Hr0'⟩, ⟨%fs0_0', Hs0'⟩, HtL', Hsem20⟩, %W_0, %hW_0, HO⟩
  ihave Ht0' := (pointsTo_share (PosShare.mem_left_op_right qT)).2 $$ [HtL' HtR']
  · isplitl [HtL'] <;> iassumption
  -- table 1
  ihave Hsh := (pointsTo_share (PosShare.mem_left_op_right qT)).1 $$ Ht1
  icases Hsh with ⟨HtL, HtR⟩
  ihave HtL' := (show ((t1Loc d ↦{qT.left} T1 : sProp 𝕄)) ⊢ ((Memref.whole main_v8_scv).view.loc (V d (cV L) (jV L)) ↦{qT.left} T1) from Entails.of_eq rfl) $$ HtL
  sl_exec
  have hI1 : ∀ j, IdxOK ((Memref.whole cc5_scratch0 : Memref sig .scVector .vmem S25600 .i32).view.read (Elt F) (View.write (Elt F) (Memref.whole cc5_scratch0 : Memref sig .scVector .vmem S25600 .i32).view fI_0 (tile_body.sl.dma0_1 d L I1) Finset.univ) j) := by
    intro j
    rw [View.write_whole_univ]
    unfold tile_body.sl.dma0_1
    exact hidx.2.1 _
  generalize (View.write (Elt F) (Memref.whole cc5_scratch0 : Memref sig .scVector .vmem S25600 .i32).view fI_0 (tile_body.sl.dma0_1 d L I1) Finset.univ) = fI_1 at hI1 ⊢
  sl_for (prepInv0 (F := F) d L fI_1) $$ [HI' Hs0']
  case region =>
    intro k u
    exact prep_trip_t7 (F := F) d L k fI_1 hI1
  · unfold prepInv0
    isplitl [HI']; · iexact HI'
    iexists _
    isplitl [Hs0']; · iexact Hs0'
    ipureintro; intro y hy; omega
  iintro %_ HIv
  unfold prepInv0
  icases HIv with ⟨HI', %fs0_1, Hs0', %hfs0_1⟩
  have htrI1 : Scf.trips k5_t7_loop.lb k5_t7_loop.ub k5_t7_loop.st = 20 := by decide
  have hin_1 : ∀ x, ((Memref.whole cc5_scratch1 : Memref sig .scVector .vmem S320 .i32).view.read (Elt F) fs0_1 x).toNat < S12500x128.size gathers_S12500x128_S320x128.axis :=
    fun x => hfs0_1 x (by rw [htrI1]; have : (x 0).val < 320 := (x 0).isLt; omega)
  sl_exec
  ihave HtR' := (show ((t1Loc d ↦{qT.right} T1 : sProp 𝕄)) ⊢ ((Memref.whole main_v8_scv).view.loc (V d (cV L) (jV L)) ↦{qT.right} T1) from Entails.of_eq rfl) $$ HtR
  sl_for (mainInv1 (F := F) d L qT T1 fI_1 O W) $$ [HtR' HI' Hs1' Hr1' Hsem21 Hout' Hsc4 Hsc5 Ho1 Hsem20 HtL' HO]
  case region =>
    intro k u
    exact main_trip_t8 (F := F) d L qT T1 _ fI_1 hI1 O W k
  · unfold mainInv1 pend1
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc4]; · iexact Hsc4
    isplitl [Hsc5]; · iexact Hsc5
    isplitl [Ho1]; · iexists _; iexact Ho1
    isplitl [Hsem20 HtL']
    · isplitl [Hsem20]
      · iexists _, _; iexact Hsem20
      · iexact HtL'
    iexists _; isplitr
    swap
    · iexact HO
    · ipureintro; intro p hp
      rcases Finset.mem_insert.mp hp with rfl | hp
      · exact .inr rfl
      · exact hW_0 p hp
  iintro %_ HIv
  unfold mainInv1 pend1
  rw [if_neg (by decide : ¬ Scf.trips k5_t8_loop.lb k5_t8_loop.ub k5_t8_loop.st < 40)]
  icases HIv with ⟨-, HtR', HI', ⟨%fs1_1, Hs1'⟩, ⟨%fr1_1, Hr1'⟩, Hsem21, ⟨%fout_1, Hout'⟩, Hsc4, Hsc5, ⟨%fo1', Ho1⟩, ⟨⟨%fr0_1, Hr0'⟩, ⟨%fs0_1', Hs0'⟩, HtL', Hsem20⟩, %W_1, %hW_1, HO⟩
  ihave Ht1' := (pointsTo_share (PosShare.mem_left_op_right qT)).2 $$ [HtL' HtR']
  · isplitl [HtL'] <;> iassumption
  -- table 2
  ihave Hsh := (pointsTo_share (PosShare.mem_left_op_right qT)).1 $$ Ht2
  icases Hsh with ⟨HtL, HtR⟩
  ihave HtL' := (show ((t2Loc d ↦{qT.left} T2 : sProp 𝕄)) ⊢ ((Memref.whole main_v9_scv).view.loc (V d (cV L) (jV L)) ↦{qT.left} T2) from Entails.of_eq rfl) $$ HtL
  sl_exec
  have hI2 : ∀ j, IdxOK ((Memref.whole cc5_scratch0 : Memref sig .scVector .vmem S25600 .i32).view.read (Elt F) (View.write (Elt F) (Memref.whole cc5_scratch0 : Memref sig .scVector .vmem S25600 .i32).view fI_1 (tile_body.sl.dma0_2 d L I2) Finset.univ) j) := by
    intro j
    rw [View.write_whole_univ]
    unfold tile_body.sl.dma0_2
    exact hidx.2.2.1 _
  generalize (View.write (Elt F) (Memref.whole cc5_scratch0 : Memref sig .scVector .vmem S25600 .i32).view fI_1 (tile_body.sl.dma0_2 d L I2) Finset.univ) = fI_2 at hI2 ⊢
  sl_for (prepInv0 (F := F) d L fI_2) $$ [HI' Hs0']
  case region =>
    intro k u
    exact prep_trip_t13 (F := F) d L k fI_2 hI2
  · unfold prepInv0
    isplitl [HI']; · iexact HI'
    iexists _
    isplitl [Hs0']; · iexact Hs0'
    ipureintro; intro y hy; omega
  iintro %_ HIv
  unfold prepInv0
  icases HIv with ⟨HI', %fs0_2, Hs0', %hfs0_2⟩
  have htrI2 : Scf.trips k5_t13_loop.lb k5_t13_loop.ub k5_t13_loop.st = 20 := by decide
  have hin_2 : ∀ x, ((Memref.whole cc5_scratch1 : Memref sig .scVector .vmem S320 .i32).view.read (Elt F) fs0_2 x).toNat < S12500x128.size gathers_S12500x128_S320x128.axis :=
    fun x => hfs0_2 x (by rw [htrI2]; have : (x 0).val < 320 := (x 0).isLt; omega)
  sl_exec
  ihave HtR' := (show ((t2Loc d ↦{qT.right} T2 : sProp 𝕄)) ⊢ ((Memref.whole main_v9_scv).view.loc (V d (cV L) (jV L)) ↦{qT.right} T2) from Entails.of_eq rfl) $$ HtR
  sl_for (mainInv2 (F := F) d L qT T2 fI_2 O W) $$ [HtR' HI' Hs1' Hr1' Hsem21 Hout' Hsc7 Hsc8 Ho2 Hsem20 HtL' HO]
  case region =>
    intro k u
    exact main_trip_t14 (F := F) d L qT T2 _ fI_2 hI2 O W k
  · unfold mainInv2 pend2
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc7]; · iexact Hsc7
    isplitl [Hsc8]; · iexact Hsc8
    isplitl [Ho2]; · iexists _; iexact Ho2
    isplitl [Hsem20 HtL']
    · isplitl [Hsem20]
      · iexists _, _; iexact Hsem20
      · iexact HtL'
    iexists _; isplitr
    swap
    · iexact HO
    · ipureintro; intro p hp
      rcases Finset.mem_insert.mp hp with rfl | hp
      · exact .inr rfl
      · exact hW_1 p hp
  iintro %_ HIv
  unfold mainInv2 pend2
  rw [if_neg (by decide : ¬ Scf.trips k5_t14_loop.lb k5_t14_loop.ub k5_t14_loop.st < 40)]
  icases HIv with ⟨-, HtR', HI', ⟨%fs1_2, Hs1'⟩, ⟨%fr1_2, Hr1'⟩, Hsem21, ⟨%fout_2, Hout'⟩, Hsc7, Hsc8, ⟨%fo2', Ho2⟩, ⟨⟨%fr0_2, Hr0'⟩, ⟨%fs0_2', Hs0'⟩, HtL', Hsem20⟩, %W_2, %hW_2, HO⟩
  ihave Ht2' := (pointsTo_share (PosShare.mem_left_op_right qT)).2 $$ [HtL' HtR']
  · isplitl [HtL'] <;> iassumption
  -- table 3
  ihave Hsh := (pointsTo_share (PosShare.mem_left_op_right qT)).1 $$ Ht3
  icases Hsh with ⟨HtL, HtR⟩
  ihave HtL' := (show ((t3Loc d ↦{qT.left} T3 : sProp 𝕄)) ⊢ ((Memref.whole main_v10_scv).view.loc (V d (cV L) (jV L)) ↦{qT.left} T3) from Entails.of_eq rfl) $$ HtL
  sl_exec
  have hI3 : ∀ j, IdxOK ((Memref.whole cc5_scratch0 : Memref sig .scVector .vmem S25600 .i32).view.read (Elt F) (View.write (Elt F) (Memref.whole cc5_scratch0 : Memref sig .scVector .vmem S25600 .i32).view fI_2 (tile_body.sl.dma0_3 d L I3) Finset.univ) j) := by
    intro j
    rw [View.write_whole_univ]
    unfold tile_body.sl.dma0_3
    exact hidx.2.2.2 _
  generalize (View.write (Elt F) (Memref.whole cc5_scratch0 : Memref sig .scVector .vmem S25600 .i32).view fI_2 (tile_body.sl.dma0_3 d L I3) Finset.univ) = fI_3 at hI3 ⊢
  sl_for (prepInv0 (F := F) d L fI_3) $$ [HI' Hs0']
  case region =>
    intro k u
    exact prep_trip_t19 (F := F) d L k fI_3 hI3
  · unfold prepInv0
    isplitl [HI']; · iexact HI'
    iexists _
    isplitl [Hs0']; · iexact Hs0'
    ipureintro; intro y hy; omega
  iintro %_ HIv
  unfold prepInv0
  icases HIv with ⟨HI', %fs0_3, Hs0', %hfs0_3⟩
  have htrI3 : Scf.trips k5_t19_loop.lb k5_t19_loop.ub k5_t19_loop.st = 20 := by decide
  have hin_3 : ∀ x, ((Memref.whole cc5_scratch1 : Memref sig .scVector .vmem S320 .i32).view.read (Elt F) fs0_3 x).toNat < S12500x128.size gathers_S12500x128_S320x128.axis :=
    fun x => hfs0_3 x (by rw [htrI3]; have : (x 0).val < 320 := (x 0).isLt; omega)
  sl_exec
  ihave HtR' := (show ((t3Loc d ↦{qT.right} T3 : sProp 𝕄)) ⊢ ((Memref.whole main_v10_scv).view.loc (V d (cV L) (jV L)) ↦{qT.right} T3) from Entails.of_eq rfl) $$ HtR
  sl_for (mainInv3 (F := F) d L qT T3 fI_3 O W) $$ [HtR' HI' Hs1' Hr1' Hsem21 Hout' Hsc10 Hsc11 Ho3 Hsem20 HtL' HO]
  case region =>
    intro k u
    exact main_trip_t20 (F := F) d L qT T3 _ fI_3 hI3 O W k
  · unfold mainInv3 pend3
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc10]; · iexact Hsc10
    isplitl [Hsc11]; · iexact Hsc11
    isplitl [Ho3]; · iexists _; iexact Ho3
    isplitl [Hsem20 HtL']
    · isplitl [Hsem20]
      · iexists _, _; iexact Hsem20
      · iexact HtL'
    iexists _; isplitr
    swap
    · iexact HO
    · ipureintro; intro p hp
      rcases Finset.mem_insert.mp hp with rfl | hp
      · exact .inr rfl
      · exact hW_2 p hp
  iintro %_ HIv
  unfold mainInv3 pend3
  rw [if_neg (by decide : ¬ Scf.trips k5_t20_loop.lb k5_t20_loop.ub k5_t20_loop.st < 40)]
  icases HIv with ⟨-, HtR', HI', ⟨%fs1_3, Hs1'⟩, ⟨%fr1_3, Hr1'⟩, Hsem21, ⟨%fout_3, Hout'⟩, Hsc10, Hsc11, ⟨%fo3', Ho3⟩, ⟨⟨%fr0_3, Hr0'⟩, ⟨%fs0_3', Hs0'⟩, HtL', Hsem20⟩, %W_3, %hW_3, HO⟩
  ihave Ht3' := (pointsTo_share (PosShare.mem_left_op_right qT)).2 $$ [HtL' HtR']
  · isplitl [HtL'] <;> iassumption
  sl_exec
  sl_step
  isplitl [Ht0' Ht1' Ht2' Ht3' Hi0' Hi1' Hi2' Hi3' Ho0 Ho1 Ho2 Ho3]
  · isplitl [Ht0' Ht1' Ht2' Ht3' Hi0' Hi1' Hi2' Hi3']
    · isplitl [Ht0']; · iapply (show (((Memref.whole main_v7_scv).view.loc (V d (cV L) (jV L)) ↦{qT} T0 : sProp 𝕄)) ⊢ (t0Loc d ↦{qT} T0) from Entails.of_eq rfl); iexact Ht0'
      isplitl [Ht1']; · iapply (show (((Memref.whole main_v8_scv).view.loc (V d (cV L) (jV L)) ↦{qT} T1 : sProp 𝕄)) ⊢ (t1Loc d ↦{qT} T1) from Entails.of_eq rfl); iexact Ht1'
      isplitl [Ht2']; · iapply (show (((Memref.whole main_v9_scv).view.loc (V d (cV L) (jV L)) ↦{qT} T2 : sProp 𝕄)) ⊢ (t2Loc d ↦{qT} T2) from Entails.of_eq rfl); iexact Ht2'
      isplitl [Ht3']; · iapply (show (((Memref.whole main_v10_scv).view.loc (V d (cV L) (jV L)) ↦{qT} T3 : sProp 𝕄)) ⊢ (t3Loc d ↦{qT} T3) from Entails.of_eq rfl); iexact Ht3'
      isplitl [Hi0']; · iapply (show (((Memref.whole main_v11_scv).view.loc (V d (cV L) (jV L)) ↦{qI} I0 : sProp 𝕄)) ⊢ (i0Loc d ↦{qI} I0) from Entails.of_eq rfl); iexact Hi0'
      isplitl [Hi1']; · iapply (show (((Memref.whole main_v12_scv).view.loc (V d (cV L) (jV L)) ↦{qI} I1 : sProp 𝕄)) ⊢ (i1Loc d ↦{qI} I1) from Entails.of_eq rfl); iexact Hi1'
      isplitl [Hi2']; · iapply (show (((Memref.whole main_v13_scv).view.loc (V d (cV L) (jV L)) ↦{qI} I2 : sProp 𝕄)) ⊢ (i2Loc d ↦{qI} I2) from Entails.of_eq rfl); iexact Hi2'
      iapply (show (((Memref.whole main_v14_scv).view.loc (V d (cV L) (jV L)) ↦{qI} I3 : sProp 𝕄)) ⊢ (i3Loc d ↦{qI} I3) from Entails.of_eq rfl); iexact Hi3'
    · isplitl [Ho0]; · iexists _; iexact Ho0
      isplitl [Ho1]; · iexists _; iexact Ho1
      isplitl [Ho2]; · iexists _; iexact Ho2
      iexists _; iexact Ho3
  isplitl [HI' Hs0' Hs1' Hr0' Hr1' Hout' Hbufs]
  · isplitl [HI']; · iexists _; iapply (Entails.of_eq (pts_w (F := F) d (cV L) (jV L) cc5_scratch0 _ _)); iexact HI'
    isplitl [Hs0']; · iexists _; iapply (Entails.of_eq (pts_w (F := F) d (cV L) (jV L) cc5_scratch1 _ _)); iexact Hs0'
    isplitl [Hs1']; · iexists _; iapply (Entails.of_eq (pts_w (F := F) d (cV L) (jV L) cc5_scratch2 _ _)); iexact Hs1'
    isplitl [Hr0']; · iexists _; iapply (Entails.of_eq (pts_w (F := F) d (cV L) (jV L) cc5_scratch3 _ _)); iexact Hr0'
    isplitl [Hr1']; · iexists _; iapply (Entails.of_eq (pts_w (F := F) d (cV L) (jV L) cc5_scratch4 _ _)); iexact Hr1'
    isplitl [Hout']; · iexists _; iapply (Entails.of_eq (pts_w (F := F) d (cV L) (jV L) cc5_scratch5 _ _)); iexact Hout'
    iexact Hbufs
  isplitl [Hsem20 Hsem21 Hsc0 Hsc1 Hsc2 Hsc3 Hsc4 Hsc5 Hsc6 Hsc7 Hsc8 Hsc9 Hsc10 Hsc11 Hsems]
  · isplitl [Hsem20]; · iexact Hsem20
    isplitl [Hsem21]; · iexact Hsem21
    isplitl [Hsc0]; · iexact Hsc0
    isplitl [Hsc1]; · iexact Hsc1
    isplitl [Hsc2]; · iexact Hsc2
    isplitl [Hsc3]; · iexact Hsc3
    isplitl [Hsc4]; · iexact Hsc4
    isplitl [Hsc5]; · iexact Hsc5
    isplitl [Hsc6]; · iexact Hsc6
    isplitl [Hsc7]; · iexact Hsc7
    isplitl [Hsc8]; · iexact Hsc8
    isplitl [Hsc9]; · iexact Hsc9
    isplitl [Hsc10]; · iexact Hsc10
    isplitl [Hsc11]; · iexact Hsc11
    iexact Hsems
  iexists _; isplitr
  · ipureintro; exact hW_3
  · iexact HO

end Cert.Proof.ScBody

end
-- ==== Proof.RefOps.lean ====
import proofs.«203359_g24824910971486_cont_8to1_1854_34_alg».proof.Defs
import proofs.«203359_g24824910971486_cont_8to1_1854_34_alg».proof.Proof.Gen.ReferenceIdeal
import proofs.«203359_g24824910971486_cont_8to1_1854_34_alg».proof.Proof.Gen.Pre_input_domain
import Idealize.ShloMosaic.Lib.StableHlo.Run

/-! The reference program's @main as one straight line of host operations (each call's callee listed in place over the
    call's own buffers), cut into windows: the batch normalisation of the numeric features, then four windows per
    embedding table (the look-up's row numbers, its bounds mask, the gather with its fill, and the rescaling). -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The batch normalisation (mean, the variance function with its select, the affine map). -/
abbrev opsBn : List (HloOp τ sig (Elt F)) :=
  [ StableHlo.nullary main_cst (constant S_ .f32 0x00000000#32),
    StableHlo.binary main_arg0 main_cst main_v0 ((fun x v => Host.reduceAdd x v reducesTo_S16384x13_S13_d0 h_S_) : (⟨S16384x13, .f32⟩ : BufTy).Contents (Elt F) → (⟨S_, .f32⟩ : BufTy).Contents (Elt F) → (⟨S13, .f32⟩ : BufTy).Contents (Elt F)),
    StableHlo.nullary main_cst_0 (constant S_ .f32 0x46800000#32),
    StableHlo.unary main_cst_0 main_v1 (broadcastInDim S13 ![] bcast_S_S13 : (⟨S_, .f32⟩ : BufTy).Contents (Elt F) → (⟨S13, .f32⟩ : BufTy).Contents (Elt F)),
    StableHlo.binary main_v0 main_v1 main_v2 (Host.divf : (⟨S13, .f32⟩ : BufTy).Contents (Elt F) → (⟨S13, .f32⟩ : BufTy).Contents (Elt F) → (⟨S13, .f32⟩ : BufTy).Contents (Elt F)),
    StableHlo.nullary main_c (constantI S_ 32 0#32),
    StableHlo.TRef.nullary main_call0.cst (constant S_ .f32 0x00000000#32),
    StableHlo.TRef.binary (.of main_arg0 : StableHlo.TRef sig ⟨S16384x13, .f32⟩) main_call0.cst main_call0.v0 (fun x v => Host.reduceAdd x v reducesTo_S16384x13_S13_d0 h_S_),
    StableHlo.TRef.unary main_call0.v0 main_call0.v1 (broadcastInDim S1x13 ![1] bcast_S13_S1x13_1),
    StableHlo.TRef.nullary main_call0.cst_0 (constant S_ .f32 0x46800000#32),
    StableHlo.TRef.unary main_call0.cst_0 main_call0.v2 (broadcastInDim S1x13 ![] bcast_S_S1x13),
    StableHlo.TRef.binary main_call0.v1 main_call0.v2 main_call0.v3 Host.divf,
    StableHlo.TRef.unary main_call0.v3 main_call0.v4 (broadcastInDim S16384x13 ![0, 1] bcast_S1x13_S16384x13_0_1),
    StableHlo.TRef.binary (.of main_arg0 : StableHlo.TRef sig ⟨S16384x13, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x13_S13_d0 h_S_),
    StableHlo.TRef.unary main_call0.v8 main_call0.v10 (broadcastInDim S13 ![] bcast_S_S13),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S13 ![] bcast_S_S13),
    StableHlo.TRef.ternary main_call0.v12 main_call0.v11 main_call0.call0.v1 main_call0.call0.v2 (fun p a b => select (broadcastInDim S13 ![] bcast_S_S13 p) a b),
    StableHlo.unary main_v2 main_v4 (broadcastInDim S1x13 ![1] bcast_S13_S1x13_1 : (⟨S13, .f32⟩ : BufTy).Contents (Elt F) → (⟨S1x13, .f32⟩ : BufTy).Contents (Elt F)),
    StableHlo.unary main_v4 main_v5 (broadcastInDim S16384x13 ![0, 1] bcast_S1x13_S16384x13_0_1 : (⟨S1x13, .f32⟩ : BufTy).Contents (Elt F) → (⟨S16384x13, .f32⟩ : BufTy).Contents (Elt F)),
    StableHlo.binary main_arg0 main_v5 main_v6 (subf : (⟨S16384x13, .f32⟩ : BufTy).Contents (Elt F) → (⟨S16384x13, .f32⟩ : BufTy).Contents (Elt F) → (⟨S16384x13, .f32⟩ : BufTy).Contents (Elt F)),
    StableHlo.nullary main_cst_1 (constant S_ .f32 0x3727C5AC#32),
    StableHlo.unary main_cst_1 main_v7 (broadcastInDim S13 ![] bcast_S_S13 : (⟨S_, .f32⟩ : BufTy).Contents (Elt F) → (⟨S13, .f32⟩ : BufTy).Contents (Elt F)),
    StableHlo.binary main_v3 main_v7 main_v8 (addf : (⟨S13, .f32⟩ : BufTy).Contents (Elt F) → (⟨S13, .f32⟩ : BufTy).Contents (Elt F) → (⟨S13, .f32⟩ : BufTy).Contents (Elt F)),
    StableHlo.unary main_v8 main_v9 (Host.sqrt : (⟨S13, .f32⟩ : BufTy).Contents (Elt F) → (⟨S13, .f32⟩ : BufTy).Contents (Elt F)),
    StableHlo.unary main_v9 main_v10 (broadcastInDim S1x13 ![1] bcast_S13_S1x13_1 : (⟨S13, .f32⟩ : BufTy).Contents (Elt F) → (⟨S1x13, .f32⟩ : BufTy).Contents (Elt F)),
    StableHlo.unary main_v10 main_v11 (broadcastInDim S16384x13 ![0, 1] bcast_S1x13_S16384x13_0_1 : (⟨S1x13, .f32⟩ : BufTy).Contents (Elt F) → (⟨S16384x13, .f32⟩ : BufTy).Contents (Elt F)),
    StableHlo.binary main_v6 main_v11 main_v12 (Host.divf : (⟨S16384x13, .f32⟩ : BufTy).Contents (Elt F) → (⟨S16384x13, .f32⟩ : BufTy).Contents (Elt F) → (⟨S16384x13, .f32⟩ : BufTy).Contents (Elt F)),
    StableHlo.unary main_arg6 main_v13 (broadcastInDim S1x13 ![1] bcast_S13_S1x13_1 : (⟨S13, .f32⟩ : BufTy).Contents (Elt F) → (⟨S1x13, .f32⟩ : BufTy).Contents (Elt F)),
    StableHlo.unary main_v13 main_v14 (broadcastInDim S16384x13 ![0, 1] bcast_S1x13_S16384x13_0_1 : (⟨S1x13, .f32⟩ : BufTy).Contents (Elt F) → (⟨S16384x13, .f32⟩ : BufTy).Contents (Elt F)),
    StableHlo.binary main_v12 main_v14 main_v15 (mulf : (⟨S16384x13, .f32⟩ : BufTy).Contents (Elt F) → (⟨S16384x13, .f32⟩ : BufTy).Contents (Elt F) → (⟨S16384x13, .f32⟩ : BufTy).Contents (Elt F)),
    StableHlo.unary main_arg7 main_v16 (broadcastInDim S1x13 ![1] bcast_S13_S1x13_1 : (⟨S13, .f32⟩ : BufTy).Contents (Elt F) → (⟨S1x13, .f32⟩ : BufTy).Contents (Elt F)),
    StableHlo.unary main_v16 main_v17 (broadcastInDim S16384x13 ![0, 1] bcast_S1x13_S16384x13_0_1 : (⟨S1x13, .f32⟩ : BufTy).Contents (Elt F) → (⟨S16384x13, .f32⟩ : BufTy).Contents (Elt F)),
    StableHlo.binary main_v15 main_v17 main_v18 (addf : (⟨S16384x13, .f32⟩ : BufTy).Contents (Elt F) → (⟨S16384x13, .f32⟩ : BufTy).Contents (Elt F) → (⟨S16384x13, .f32⟩ : BufTy).Contents (Elt F)) ]

/-- Embedding table 1: the look-up's row numbers (a negative index wrapped, a trailing unit axis). -/
abbrev opsTa1 : List (HloOp τ sig (Elt F)) :=
  [ StableHlo.TRef.nullary main_call1.c (constantI S_ 32 0#32),
    StableHlo.TRef.unary main_call1.c main_call1.v0 (broadcastInDim S16384x50 ![] bcast_S_S16384x50),
    StableHlo.TRef.binary (.of main_arg2 : StableHlo.TRef sig ⟨S16384x50, .i32⟩) main_call1.v0 main_call1.v1 (cmpi .slt),
    StableHlo.TRef.nullary main_call1.c_0 (constantI S_ 32 100000#32),
    StableHlo.TRef.unary main_call1.c_0 main_call1.v2 (broadcastInDim S16384x50 ![] bcast_S_S16384x50),
    StableHlo.TRef.binary (.of main_arg2 : StableHlo.TRef sig ⟨S16384x50, .i32⟩) main_call1.v2 main_call1.v3 addi,
    StableHlo.TRef.ternary main_call1.v1 main_call1.v3 (.of main_arg2 : StableHlo.TRef sig ⟨S16384x50, .i32⟩) main_call1.call0.v0 select,
    StableHlo.TRef.unary main_call1.call0.v0 main_call1.v5 (broadcastInDim S16384x50x1 ![0, 1] bcast_S16384x50_S16384x50x1_0_1) ]

/-- Embedding table 1: the look-up's bounds mask. -/
abbrev opsTb1 : List (HloOp τ sig (Elt F)) :=
  [ StableHlo.TRef.nullary main_call1.c_1 (constantI S1 32 99999#32),
    StableHlo.TRef.nullary main_call1.c_2 (constantI S_ 32 0#32),
    StableHlo.TRef.unary main_call1.c_2 main_call1.v6 (broadcastInDim S16384x50x1 ![] bcast_S_S16384x50x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S16384x50x1 ![0, 1, 2] bcast_S1x1x1_S16384x50x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x50x1_S16384x50_d2 h_S_) ]

/-- Embedding table 1: the gather and the fill where the mask fails. -/
abbrev opsTc1 : List (HloOp τ sig (Elt F)) :=
  [ StableHlo.TRef.binary (.of main_arg8 : StableHlo.TRef sig ⟨S100000x16, .f32⟩) main_call1.v5 main_call1.v13 (fun x i => Host.gather gather_S100000x16_S16384x50x1_S16384x50x16_2_0_n_n_0_2_116 x i),
    StableHlo.TRef.unary main_call1.v12 main_call1.v14 (broadcastInDim S16384x50x16 ![0, 1] bcast_S16384x50_S16384x50x16_0_1),
    StableHlo.TRef.nullary main_call1.cst (constant S_ .f32 0x7FC00000#32),
    StableHlo.TRef.unary main_call1.cst main_call1.v15 (broadcastInDim S16384x50x16 ![] bcast_S_S16384x50x16),
    StableHlo.TRef.ternary main_call1.v14 main_call1.v13 main_call1.v15 main_call1.v16 select ]

/-- Embedding table 1: row norm, rescaling factor, product. -/
abbrev opsS1 : List (HloOp τ sig (Elt F)) :=
  [ StableHlo.TRef.binary (.of main_v19 : StableHlo.TRef sig ⟨S16384x50x16, .f32⟩) (.of main_v19 : StableHlo.TRef sig ⟨S16384x50x16, .f32⟩) main_call2.v0 mulf,
    StableHlo.TRef.nullary main_call2.cst (constant S_ .f32 0x00000000#32),
    StableHlo.TRef.binary main_call2.v0 main_call2.cst main_call2.v1 (fun x v => Host.reduceAdd x v reducesTo_S16384x50x16_S16384x50_d2 h_S_),
    StableHlo.TRef.unary main_call2.v1 main_call2.v2 (broadcastInDim S16384x50x1 ![0, 1] bcast_S16384x50_S16384x50x1_0_1),
    StableHlo.TRef.unary main_call2.v2 main_call2.v3 Host.sqrt,
    StableHlo.nullary main_cst_2 (constant S_ .f32 0x40A00000#32),
    StableHlo.unary main_cst_2 main_v21 (broadcastInDim S16384x50x1 ![] bcast_S_S16384x50x1 : (⟨S_, .f32⟩ : BufTy).Contents (Elt F) → (⟨S16384x50x1, .f32⟩ : BufTy).Contents (Elt F)),
    StableHlo.binary main_v20 main_v21 main_v22 (cmpf .ogt : (⟨S16384x50x1, .f32⟩ : BufTy).Contents (Elt F) → (⟨S16384x50x1, .f32⟩ : BufTy).Contents (Elt F) → (⟨S16384x50x1, .i1⟩ : BufTy).Contents (Elt F)),
    StableHlo.nullary main_cst_3 (constant S_ .f32 0x2B8CBCCC#32),
    StableHlo.unary main_cst_3 main_v23 (broadcastInDim S16384x50x1 ![] bcast_S_S16384x50x1 : (⟨S_, .f32⟩ : BufTy).Contents (Elt F) → (⟨S16384x50x1, .f32⟩ : BufTy).Contents (Elt F)),
    StableHlo.binary main_v20 main_v23 main_v24 (maximumf : (⟨S16384x50x1, .f32⟩ : BufTy).Contents (Elt F) → (⟨S16384x50x1, .f32⟩ : BufTy).Contents (Elt F) → (⟨S16384x50x1, .f32⟩ : BufTy).Contents (Elt F)),
    StableHlo.nullary main_cst_4 (constant S_ .f32 0x40A00000#32),
    StableHlo.unary main_cst_4 main_v25 (broadcastInDim S16384x50x1 ![] bcast_S_S16384x50x1 : (⟨S_, .f32⟩ : BufTy).Contents (Elt F) → (⟨S16384x50x1, .f32⟩ : BufTy).Contents (Elt F)),
    StableHlo.binary main_v25 main_v24 main_v26 (Host.divf : (⟨S16384x50x1, .f32⟩ : BufTy).Contents (Elt F) → (⟨S16384x50x1, .f32⟩ : BufTy).Contents (Elt F) → (⟨S16384x50x1, .f32⟩ : BufTy).Contents (Elt F)),
    StableHlo.nullary main_cst_5 (constant S_ .f32 0x3F800000#32),
    StableHlo.TRef.unary (.of main_cst_5 : StableHlo.TRef sig ⟨S_, .f32⟩) main_call3.v0 id,
    StableHlo.TRef.unary main_call3.v0 main_call3.v1 (broadcastInDim S16384x50x1 ![] bcast_S_S16384x50x1),
    StableHlo.TRef.ternary (.of main_v22 : StableHlo.TRef sig ⟨S16384x50x1, .i1⟩) (.of main_v26 : StableHlo.TRef sig ⟨S16384x50x1, .f32⟩) main_call3.v1 main_call3.v2 select,
    StableHlo.unary main_v27 main_v28 (broadcastInDim S16384x50x16 ![0, 1, 2] bcast_S16384x50x1_S16384x50x16_0_1_2 : (⟨S16384x50x1, .f32⟩ : BufTy).Contents (Elt F) → (⟨S16384x50x16, .f32⟩ : BufTy).Contents (Elt F)),
    StableHlo.binary main_v19 main_v28 main_v29 (mulf : (⟨S16384x50x16, .f32⟩ : BufTy).Contents (Elt F) → (⟨S16384x50x16, .f32⟩ : BufTy).Contents (Elt F) → (⟨S16384x50x16, .f32⟩ : BufTy).Contents (Elt F)) ]

/-- Embedding table 2: the look-up's row numbers (a negative index wrapped, a trailing unit axis). -/
abbrev opsTa2 : List (HloOp τ sig (Elt F)) :=
  [ StableHlo.TRef.nullary main_call4.c (constantI S_ 32 0#32),
    StableHlo.TRef.unary main_call4.c main_call4.v0 (broadcastInDim S16384x50 ![] bcast_S_S16384x50),
    StableHlo.TRef.binary (.of main_arg3 : StableHlo.TRef sig ⟨S16384x50, .i32⟩) main_call4.v0 main_call4.v1 (cmpi .slt),
    StableHlo.TRef.nullary main_call4.c_0 (constantI S_ 32 100000#32),
    StableHlo.TRef.unary main_call4.c_0 main_call4.v2 (broadcastInDim S16384x50 ![] bcast_S_S16384x50),
    StableHlo.TRef.binary (.of main_arg3 : StableHlo.TRef sig ⟨S16384x50, .i32⟩) main_call4.v2 main_call4.v3 addi,
    StableHlo.TRef.ternary main_call4.v1 main_call4.v3 (.of main_arg3 : StableHlo.TRef sig ⟨S16384x50, .i32⟩) main_call4.call0.v0 select,
    StableHlo.TRef.unary main_call4.call0.v0 main_call4.v5 (broadcastInDim S16384x50x1 ![0, 1] bcast_S16384x50_S16384x50x1_0_1) ]

/-- Embedding table 2: the look-up's bounds mask. -/
abbrev opsTb2 : List (HloOp τ sig (Elt F)) :=
  [ StableHlo.TRef.nullary main_call4.c_1 (constantI S1 32 99999#32),
    StableHlo.TRef.nullary main_call4.c_2 (constantI S_ 32 0#32),
    StableHlo.TRef.unary main_call4.c_2 main_call4.v6 (broadcastInDim S16384x50x1 ![] bcast_S_S16384x50x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S16384x50x1 ![0, 1, 2] bcast_S1x1x1_S16384x50x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S16384x50x1_S16384x50_d2 h_S_) ]

/-- Embedding table 2: the gather and the fill where the mask fails. -/
abbrev opsTc2 : List (HloOp τ sig (Elt F)) :=
  [ StableHlo.TRef.binary (.of main_arg9 : StableHlo.TRef sig ⟨S100000x16, .f32⟩) main_call4.v5 main_call4.v13 (fun x i => Host.gather gather_S100000x16_S16384x50x1_S16384x50x16_2_0_n_n_0_2_116 x i),
    StableHlo.TRef.unary main_call4.v12 main_call4.v14 (broadcastInDim S16384x50x16 ![0, 1] bcast_S16384x50_S16384x50x16_0_1),
    StableHlo.TRef.nullary main_call4.cst (constant S_ .f32 0x7FC00000#32),
    StableHlo.TRef.unary main_call4.cst main_call4.v15 (broadcastInDim S16384x50x16 ![] bcast_S_S16384x50x16),
    StableHlo.TRef.ternary main_call4.v14 main_call4.v13 main_call4.v15 main_call4.v16 select ]

/-- Embedding table 2: row norm, rescaling factor, product. -/
abbrev opsS2 : List (HloOp τ sig (Elt F)) :=
  [ StableHlo.TRef.binary (.of main_v30 : StableHlo.TRef sig ⟨S16384x50x16, .f32⟩) (.of main_v30 : StableHlo.TRef sig ⟨S16384x50x16, .f32⟩) main_call5.v0 mulf,
    StableHlo.TRef.nullary main_call5.cst (constant S_ .f32 0x00000000#32),
    StableHlo.TRef.binary main_call5.v0 main_call5.cst main_call5.v1 (fun x v => Host.reduceAdd x v reducesTo_S16384x50x16_S16384x50_d2 h_S_),
    StableHlo.TRef.unary main_call5.v1 main_call5.v2 (broadcastInDim S16384x50x1 ![0, 1] bcast_S16384x50_S16384x50x1_0_1),
    StableHlo.TRef.unary main_call5.v2 main_call5.v3 Host.sqrt,
    StableHlo.nullary main_cst_6 (constant S_ .f32 0x40A00000#32),
    StableHlo.unary main_cst_6 main_v32 (broadcastInDim S16384x50x1 ![] bcast_S_S16384x50x1 : (⟨S_, .f32⟩ : BufTy).Contents (Elt F) → (⟨S16384x50x1, .f32⟩ : BufTy).Contents (Elt F)),
    StableHlo.binary main_v31 main_v32 main_v33 (cmpf .ogt : (⟨S16384x50x1, .f32⟩ : BufTy).Contents (Elt F) → (⟨S16384x50x1, .f32⟩ : BufTy).Contents (Elt F) → (⟨S16384x50x1, .i1⟩ : BufTy).Contents (Elt F)),
    StableHlo.nullary main_cst_7 (constant S_ .f32 0x2B8CBCCC#32),
    StableHlo.unary main_cst_7 main_v34 (broadcastInDim S16384x50x1 ![] bcast_S_S16384x50x1 : (⟨S_, .f32⟩ : BufTy).Contents (Elt F) → (⟨S16384x50x1, .f32⟩ : BufTy).Contents (Elt F)),
    StableHlo.binary main_v31 main_v34 main_v35 (maximumf : (⟨S16384x50x1, .f32⟩ : BufTy).Contents (Elt F) → (⟨S16384x50x1, .f32⟩ : BufTy).Contents (Elt F) → (⟨S16384x50x1, .f32⟩ : BufTy).Contents (Elt F)),
    StableHlo.nullary main_cst_8 (constant S_ .f32 0x40A00000#32),
    StableHlo.unary main_cst_8 main_v36 (broadcastInDim S16384x50x1 ![] bcast_S_S16384x50x1 : (⟨S_, .f32⟩ : BufTy).Contents (Elt F) → (⟨S16384x50x1, .f32⟩ : BufTy).Contents (Elt F)),
    StableHlo.binary main_v36 main_v35 main_v37 (Host.divf : (⟨S16384x50x1, .f32⟩ : BufTy).Contents (Elt F) → (⟨S16384x50x1, .f32⟩ : BufTy).Contents (Elt F) → (⟨S16384x50x1, .f32⟩ : BufTy).Contents (Elt F)),
    StableHlo.nullary main_cst_9 (constant S_ .f32 0x3F800000#32),
    StableHlo.TRef.unary (.of main_cst_9 : StableHlo.TRef sig ⟨S_, .f32⟩) main_call6.v0 id,
    StableHlo.TRef.unary main_call6.v0 main_call6.v1 (broadcastInDim S16384x50x1 ![] bcast_S_S16384x50x1),
    StableHlo.TRef.ternary (.of main_v33 : StableHlo.TRef sig ⟨S16384x50x1, .i1⟩) (.of main_v37 : StableHlo.TRef sig ⟨S16384x50x1, .f32⟩) main_call6.v1 main_call6.v2 select,
    StableHlo.unary main_v38 main_v39 (broadcastInDim S16384x50x16 ![0, 1, 2] bcast_S16384x50x1_S16384x50x16_0_1_2 : (⟨S16384x50x1, .f32⟩ : BufTy).Contents (Elt F) → (⟨S16384x50x16, .f32⟩ : BufTy).Contents (Elt F)),
    StableHlo.binary main_v30 main_v39 main_v40 (mulf : (⟨S16384x50x16, .f32⟩ : BufTy).Contents (Elt F) → (⟨S16384x50x16, .f32⟩ : BufTy).Contents (Elt F) → (⟨S16384x50x16, .f32⟩ : BufTy).Contents (Elt F)) ]

/-- Embedding table 3: the look-up's row numbers (a negative index wrapped, a trailing unit axis). -/
abbrev opsTa3 : List (HloOp τ sig (Elt F)) :=
  [ StableHlo.TRef.nullary main_call7.c (constantI S_ 32 0#32),
    StableHlo.TRef.unary main_call7.c main_call7.v0 (broadcastInDim S16384x50 ![] bcast_S_S16384x50),
    StableHlo.TRef.binary (.of main_arg4 : StableHlo.TRef sig ⟨S16384x50, .i32⟩) main_call7.v0 main_call7.v1 (cmpi .slt),
    StableHlo.TRef.nullary main_call7.c_0 (constantI S_ 32 100000#32),
    StableHlo.TRef.unary main_call7.c_0 main_call7.v2 (broadcastInDim S16384x50 ![] bcast_S_S16384x50),
    StableHlo.TRef.binary (.of main_arg4 : StableHlo.TRef sig ⟨S16384x50, .i32⟩) main_call7.v2 main_call7.v3 addi,
    StableHlo.TRef.ternary main_call7.v1 main_call7.v3 (.of main_arg4 : StableHlo.TRef sig ⟨S16384x50, .i32⟩) main_call7.call0.v0 select,
    StableHlo.TRef.unary main_call7.call0.v0 main_call7.v5 (broadcastInDim S16384x50x1 ![0, 1] bcast_S16384x50_S16384x50x1_0_1) ]

/-- Embedding table 3: the look-up's bounds mask. -/
abbrev opsTb3 : List (HloOp τ sig (Elt F)) :=
  [ StableHlo.TRef.nullary main_call7.c_1 (constantI S1 32 99999#32),
    StableHlo.TRef.nullary main_call7.c_2 (constantI S_ 32 0#32),
    StableHlo.TRef.unary main_call7.c_2 main_call7.v6 (broadcastInDim S16384x50x1 ![] bcast_S_S16384x50x1),
    StableHlo.TRef.binary main_call7.v5 main_call7.v6 main_call7.v7 (cmpi .sge),
    StableHlo.TRef.unary main_call7.c_1 main_call7.v8 (broadcastInDim S1x1x1 ![2] bcast_S1_S1x1x1_2),
    StableHlo.TRef.unary main_call7.v8 main_call7.v9 (broadcastInDim S16384x50x1 ![0, 1, 2] bcast_S1x1x1_S16384x50x1_0_1_2),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S16384x50x1_S16384x50_d2 h_S_) ]

/-- Embedding table 3: the gather and the fill where the mask fails. -/
abbrev opsTc3 : List (HloOp τ sig (Elt F)) :=
  [ StableHlo.TRef.binary (.of main_arg10 : StableHlo.TRef sig ⟨S100000x16, .f32⟩) main_call7.v5 main_call7.v13 (fun x i => Host.gather gather_S100000x16_S16384x50x1_S16384x50x16_2_0_n_n_0_2_116 x i),
    StableHlo.TRef.unary main_call7.v12 main_call7.v14 (broadcastInDim S16384x50x16 ![0, 1] bcast_S16384x50_S16384x50x16_0_1),
    StableHlo.TRef.nullary main_call7.cst (constant S_ .f32 0x7FC00000#32),
    StableHlo.TRef.unary main_call7.cst main_call7.v15 (broadcastInDim S16384x50x16 ![] bcast_S_S16384x50x16),
    StableHlo.TRef.ternary main_call7.v14 main_call7.v13 main_call7.v15 main_call7.v16 select ]

/-- Embedding table 3: row norm, rescaling factor, product. -/
abbrev opsS3 : List (HloOp τ sig (Elt F)) :=
  [ StableHlo.TRef.binary (.of main_v41 : StableHlo.TRef sig ⟨S16384x50x16, .f32⟩) (.of main_v41 : StableHlo.TRef sig ⟨S16384x50x16, .f32⟩) main_call8.v0 mulf,
    StableHlo.TRef.nullary main_call8.cst (constant S_ .f32 0x00000000#32),
    StableHlo.TRef.binary main_call8.v0 main_call8.cst main_call8.v1 (fun x v => Host.reduceAdd x v reducesTo_S16384x50x16_S16384x50_d2 h_S_),
    StableHlo.TRef.unary main_call8.v1 main_call8.v2 (broadcastInDim S16384x50x1 ![0, 1] bcast_S16384x50_S16384x50x1_0_1),
    StableHlo.TRef.unary main_call8.v2 main_call8.v3 Host.sqrt,
    StableHlo.nullary main_cst_10 (constant S_ .f32 0x40A00000#32),
    StableHlo.unary main_cst_10 main_v43 (broadcastInDim S16384x50x1 ![] bcast_S_S16384x50x1 : (⟨S_, .f32⟩ : BufTy).Contents (Elt F) → (⟨S16384x50x1, .f32⟩ : BufTy).Contents (Elt F)),
    StableHlo.binary main_v42 main_v43 main_v44 (cmpf .ogt : (⟨S16384x50x1, .f32⟩ : BufTy).Contents (Elt F) → (⟨S16384x50x1, .f32⟩ : BufTy).Contents (Elt F) → (⟨S16384x50x1, .i1⟩ : BufTy).Contents (Elt F)),
    StableHlo.nullary main_cst_11 (constant S_ .f32 0x2B8CBCCC#32),
    StableHlo.unary main_cst_11 main_v45 (broadcastInDim S16384x50x1 ![] bcast_S_S16384x50x1 : (⟨S_, .f32⟩ : BufTy).Contents (Elt F) → (⟨S16384x50x1, .f32⟩ : BufTy).Contents (Elt F)),
    StableHlo.binary main_v42 main_v45 main_v46 (maximumf : (⟨S16384x50x1, .f32⟩ : BufTy).Contents (Elt F) → (⟨S16384x50x1, .f32⟩ : BufTy).Contents (Elt F) → (⟨S16384x50x1, .f32⟩ : BufTy).Contents (Elt F)),
    StableHlo.nullary main_cst_12 (constant S_ .f32 0x40A00000#32),
    StableHlo.unary main_cst_12 main_v47 (broadcastInDim S16384x50x1 ![] bcast_S_S16384x50x1 : (⟨S_, .f32⟩ : BufTy).Contents (Elt F) → (⟨S16384x50x1, .f32⟩ : BufTy).Contents (Elt F)),
    StableHlo.binary main_v47 main_v46 main_v48 (Host.divf : (⟨S16384x50x1, .f32⟩ : BufTy).Contents (Elt F) → (⟨S16384x50x1, .f32⟩ : BufTy).Contents (Elt F) → (⟨S16384x50x1, .f32⟩ : BufTy).Contents (Elt F)),
    StableHlo.nullary main_cst_13 (constant S_ .f32 0x3F800000#32),
    StableHlo.TRef.unary (.of main_cst_13 : StableHlo.TRef sig ⟨S_, .f32⟩) main_call9.v0 id,
    StableHlo.TRef.unary main_call9.v0 main_call9.v1 (broadcastInDim S16384x50x1 ![] bcast_S_S16384x50x1),
    StableHlo.TRef.ternary (.of main_v44 : StableHlo.TRef sig ⟨S16384x50x1, .i1⟩) (.of main_v48 : StableHlo.TRef sig ⟨S16384x50x1, .f32⟩) main_call9.v1 main_call9.v2 select,
    StableHlo.unary main_v49 main_v50 (broadcastInDim S16384x50x16 ![0, 1, 2] bcast_S16384x50x1_S16384x50x16_0_1_2 : (⟨S16384x50x1, .f32⟩ : BufTy).Contents (Elt F) → (⟨S16384x50x16, .f32⟩ : BufTy).Contents (Elt F)),
    StableHlo.binary main_v41 main_v50 main_v51 (mulf : (⟨S16384x50x16, .f32⟩ : BufTy).Contents (Elt F) → (⟨S16384x50x16, .f32⟩ : BufTy).Contents (Elt F) → (⟨S16384x50x16, .f32⟩ : BufTy).Contents (Elt F)) ]

/-- Embedding table 4: the look-up's row numbers (a negative index wrapped, a trailing unit axis). -/
abbrev opsTa4 : List (HloOp τ sig (Elt F)) :=
  [ StableHlo.TRef.nullary main_call10.c (constantI S_ 32 0#32),
    StableHlo.TRef.unary main_call10.c main_call10.v0 (broadcastInDim S16384x50 ![] bcast_S_S16384x50),
    StableHlo.TRef.binary (.of main_arg5 : StableHlo.TRef sig ⟨S16384x50, .i32⟩) main_call10.v0 main_call10.v1 (cmpi .slt),
    StableHlo.TRef.nullary main_call10.c_0 (constantI S_ 32 100000#32),
    StableHlo.TRef.unary main_call10.c_0 main_call10.v2 (broadcastInDim S16384x50 ![] bcast_S_S16384x50),
    StableHlo.TRef.binary (.of main_arg5 : StableHlo.TRef sig ⟨S16384x50, .i32⟩) main_call10.v2 main_call10.v3 addi,
    StableHlo.TRef.ternary main_call10.v1 main_call10.v3 (.of main_arg5 : StableHlo.TRef sig ⟨S16384x50, .i32⟩) main_call10.call0.v0 select,
    StableHlo.TRef.unary main_call10.call0.v0 main_call10.v5 (broadcastInDim S16384x50x1 ![0, 1] bcast_S16384x50_S16384x50x1_0_1) ]

/-- Embedding table 4: the look-up's bounds mask. -/
abbrev opsTb4 : List (HloOp τ sig (Elt F)) :=
  [ StableHlo.TRef.nullary main_call10.c_1 (constantI S1 32 99999#32),
    StableHlo.TRef.nullary main_call10.c_2 (constantI S_ 32 0#32),
    StableHlo.TRef.unary main_call10.c_2 main_call10.v6 (broadcastInDim S16384x50x1 ![] bcast_S_S16384x50x1),
    StableHlo.TRef.binary main_call10.v5 main_call10.v6 main_call10.v7 (cmpi .sge),
    StableHlo.TRef.unary main_call10.c_1 main_call10.v8 (broadcastInDim S1x1x1 ![2] bcast_S1_S1x1x1_2),
    StableHlo.TRef.unary main_call10.v8 main_call10.v9 (broadcastInDim S16384x50x1 ![0, 1, 2] bcast_S1x1x1_S16384x50x1_0_1_2),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S16384x50x1_S16384x50_d2 h_S_) ]

/-- Embedding table 4: the gather and the fill where the mask fails. -/
abbrev opsTc4 : List (HloOp τ sig (Elt F)) :=
  [ StableHlo.TRef.binary (.of main_arg11 : StableHlo.TRef sig ⟨S100000x16, .f32⟩) main_call10.v5 main_call10.v13 (fun x i => Host.gather gather_S100000x16_S16384x50x1_S16384x50x16_2_0_n_n_0_2_116 x i),
    StableHlo.TRef.unary main_call10.v12 main_call10.v14 (broadcastInDim S16384x50x16 ![0, 1] bcast_S16384x50_S16384x50x16_0_1),
    StableHlo.TRef.nullary main_call10.cst (constant S_ .f32 0x7FC00000#32),
    StableHlo.TRef.unary main_call10.cst main_call10.v15 (broadcastInDim S16384x50x16 ![] bcast_S_S16384x50x16),
    StableHlo.TRef.ternary main_call10.v14 main_call10.v13 main_call10.v15 main_call10.v16 select ]

/-- Embedding table 4: row norm, rescaling factor, product. -/
abbrev opsS4 : List (HloOp τ sig (Elt F)) :=
  [ StableHlo.TRef.binary (.of main_v52 : StableHlo.TRef sig ⟨S16384x50x16, .f32⟩) (.of main_v52 : StableHlo.TRef sig ⟨S16384x50x16, .f32⟩) main_call11.v0 mulf,
    StableHlo.TRef.nullary main_call11.cst (constant S_ .f32 0x00000000#32),
    StableHlo.TRef.binary main_call11.v0 main_call11.cst main_call11.v1 (fun x v => Host.reduceAdd x v reducesTo_S16384x50x16_S16384x50_d2 h_S_),
    StableHlo.TRef.unary main_call11.v1 main_call11.v2 (broadcastInDim S16384x50x1 ![0, 1] bcast_S16384x50_S16384x50x1_0_1),
    StableHlo.TRef.unary main_call11.v2 main_call11.v3 Host.sqrt,
    StableHlo.nullary main_cst_14 (constant S_ .f32 0x40A00000#32),
    StableHlo.unary main_cst_14 main_v54 (broadcastInDim S16384x50x1 ![] bcast_S_S16384x50x1 : (⟨S_, .f32⟩ : BufTy).Contents (Elt F) → (⟨S16384x50x1, .f32⟩ : BufTy).Contents (Elt F)),
    StableHlo.binary main_v53 main_v54 main_v55 (cmpf .ogt : (⟨S16384x50x1, .f32⟩ : BufTy).Contents (Elt F) → (⟨S16384x50x1, .f32⟩ : BufTy).Contents (Elt F) → (⟨S16384x50x1, .i1⟩ : BufTy).Contents (Elt F)),
    StableHlo.nullary main_cst_15 (constant S_ .f32 0x2B8CBCCC#32),
    StableHlo.unary main_cst_15 main_v56 (broadcastInDim S16384x50x1 ![] bcast_S_S16384x50x1 : (⟨S_, .f32⟩ : BufTy).Contents (Elt F) → (⟨S16384x50x1, .f32⟩ : BufTy).Contents (Elt F)),
    StableHlo.binary main_v53 main_v56 main_v57 (maximumf : (⟨S16384x50x1, .f32⟩ : BufTy).Contents (Elt F) → (⟨S16384x50x1, .f32⟩ : BufTy).Contents (Elt F) → (⟨S16384x50x1, .f32⟩ : BufTy).Contents (Elt F)),
    StableHlo.nullary main_cst_16 (constant S_ .f32 0x40A00000#32),
    StableHlo.unary main_cst_16 main_v58 (broadcastInDim S16384x50x1 ![] bcast_S_S16384x50x1 : (⟨S_, .f32⟩ : BufTy).Contents (Elt F) → (⟨S16384x50x1, .f32⟩ : BufTy).Contents (Elt F)),
    StableHlo.binary main_v58 main_v57 main_v59 (Host.divf : (⟨S16384x50x1, .f32⟩ : BufTy).Contents (Elt F) → (⟨S16384x50x1, .f32⟩ : BufTy).Contents (Elt F) → (⟨S16384x50x1, .f32⟩ : BufTy).Contents (Elt F)),
    StableHlo.nullary main_cst_17 (constant S_ .f32 0x3F800000#32),
    StableHlo.TRef.unary (.of main_cst_17 : StableHlo.TRef sig ⟨S_, .f32⟩) main_call12.v0 id,
    StableHlo.TRef.unary main_call12.v0 main_call12.v1 (broadcastInDim S16384x50x1 ![] bcast_S_S16384x50x1),
    StableHlo.TRef.ternary (.of main_v55 : StableHlo.TRef sig ⟨S16384x50x1, .i1⟩) (.of main_v59 : StableHlo.TRef sig ⟨S16384x50x1, .f32⟩) main_call12.v1 main_call12.v2 select,
    StableHlo.unary main_v60 main_v61 (broadcastInDim S16384x50x16 ![0, 1, 2] bcast_S16384x50x1_S16384x50x16_0_1_2 : (⟨S16384x50x1, .f32⟩ : BufTy).Contents (Elt F) → (⟨S16384x50x16, .f32⟩ : BufTy).Contents (Elt F)),
    StableHlo.binary main_v52 main_v61 main_v62 (mulf : (⟨S16384x50x16, .f32⟩ : BufTy).Contents (Elt F) → (⟨S16384x50x16, .f32⟩ : BufTy).Contents (Elt F) → (⟨S16384x50x16, .f32⟩ : BufTy).Contents (Elt F)) ]

/-- @main's operations, in order. -/
abbrev ops : List (HloOp τ sig (Elt F)) :=
  opsBn ++ opsTa1 ++ opsTb1 ++ opsTc1 ++ opsS1 ++ opsTa2 ++ opsTb2 ++ opsTc2 ++ opsS2 ++ opsTa3 ++ opsTb3 ++ opsTc3 ++ opsS3 ++ opsTa4 ++ opsTb4 ++ opsTc4 ++ opsS4

set_option maxRecDepth 16384 in
set_option maxHeartbeats 4000000 in
/-- @main is that straight line: the callees unfolded at their calls and the call records at their fields, both sides are
    one chain of host steps once sequencing is re-associated. -/
theorem main_eq (c : Dev nD) : main (F := F) c = seq ops := by
  simp only [main, main_part0, main_part1, fn_var.body, fn_where.body, fn_take.body, fn_where_0.body, fn_norm.body,
    fn_where_1.body, ops, opsBn, opsTa1, opsTb1, opsTc1, opsS1, opsTa2, opsTb2, opsTc2, opsS2, opsTa3, opsTb3, opsTc3, opsS3, opsTa4, opsTb4, opsTc4, opsS4, List.cons_append, List.nil_append, seq, bind_assoc, pure_bind]

/-! ## The reference's values as pure functions of the argument arrays -/

/-- The per-feature mean over the 16384 rows: the column sums (from zero) over 16384. -/
def bnMean (x : FVec F S16384x13 .f32) : FVec F S13 .f32 :=
  Host.divf (Host.reduceAdd x (constant S_ .f32 0x00000000#32) reducesTo_S16384x13_S13_d0 h_S_)
    (broadcastInDim S13 ![] bcast_S_S13 (constant S_ .f32 0x46800000#32))

/-- The variance function's own mean, kept as one row. -/
def bnRowMean (x : FVec F S16384x13 .f32) : FVec F S1x13 .f32 :=
  Host.divf (broadcastInDim S1x13 ![1] bcast_S13_S1x13_1
      (Host.reduceAdd x (constant S_ .f32 0x00000000#32) reducesTo_S16384x13_S13_d0 h_S_))
    (broadcastInDim S1x13 ![] bcast_S_S1x13 (constant S_ .f32 0x46800000#32))

/-- The variance function's divisor: the row count less the (zero) degrees-of-freedom correction. -/
def bnCount : FVec F S_ .f32 :=
  subf (constant S_ .f32 0x46800000#32) (sitofp .f32 (constantI S_ 32 0#32))

/-- The squared deviations from the mean. -/
def bnSq (x : FVec F S16384x13 .f32) : FVec F S16384x13 .f32 :=
  mulf (subf x (broadcastInDim S16384x13 ![0, 1] bcast_S1x13_S16384x13_0_1 (bnRowMean x)))
    (subf x (broadcastInDim S16384x13 ![0, 1] bcast_S1x13_S16384x13_0_1 (bnRowMean x)))

/-- The per-feature variance: the summed squared deviations over the divisor where the divisor is positive, the fill
    value elsewhere. -/
def bnVar (x : FVec F S16384x13 .f32) : FVec F S13 .f32 :=
  select (broadcastInDim S13 ![] bcast_S_S13 (cmpf .ogt (bnCount (F := F)) (constant S_ .f32 0x00000000#32)))
    (Host.divf (Host.reduceAdd (bnSq x) (constant S_ .f32 0x00000000#32) reducesTo_S16384x13_S13_d0 h_S_)
      (broadcastInDim S13 ![] bcast_S_S13 (bnCount (F := F))))
    (broadcastInDim S13 ![] bcast_S_S13 (id (constant S_ .f32 0x7FC00000#32)))

/-- The normalised features: (x − mean) / sqrt(var + ε) · γ + β, each per-feature vector spread over the rows. -/
def bnRef (x : FVec F S16384x13 .f32) (g b : FVec F S13 .f32) : FVec F S16384x13 .f32 :=
  addf
    (mulf
      (Host.divf
        (subf x (broadcastInDim S16384x13 ![0, 1] bcast_S1x13_S16384x13_0_1
          (broadcastInDim S1x13 ![1] bcast_S13_S1x13_1 (bnMean x))))
        (broadcastInDim S16384x13 ![0, 1] bcast_S1x13_S16384x13_0_1
          (broadcastInDim S1x13 ![1] bcast_S13_S1x13_1
            (Host.sqrt (addf (bnVar x) (broadcastInDim S13 ![] bcast_S_S13 (constant S_ .f32 0x3727C5AC#32)))))))
      (broadcastInDim S16384x13 ![0, 1] bcast_S1x13_S16384x13_0_1 (broadcastInDim S1x13 ![1] bcast_S13_S1x13_1 g)))
    (broadcastInDim S16384x13 ![0, 1] bcast_S1x13_S16384x13_0_1 (broadcastInDim S1x13 ![1] bcast_S13_S1x13_1 b))

/-- The look-up's row numbers: a negative index wrapped by the table height, with a trailing unit axis. -/
def rowIdx (ix : IVec S16384x50 32) : IVec S16384x50x1 32 :=
  broadcastInDim S16384x50x1 ![0, 1] bcast_S16384x50_S16384x50x1_0_1
    (select (cmpi .slt ix (broadcastInDim S16384x50 ![] bcast_S_S16384x50 (constantI S_ 32 0#32)))
      (addi ix (broadcastInDim S16384x50 ![] bcast_S_S16384x50 (constantI S_ 32 100000#32))) ix)

/-- The bounds mask of row numbers: each lies in [0, 99999]. -/
def maskOf (i5 : IVec S16384x50x1 32) : IVec S16384x50 1 :=
  Host.reduce IntOp.andi
    (andi (cmpi .sge i5 (broadcastInDim S16384x50x1 ![] bcast_S_S16384x50x1 (constantI S_ 32 0#32)))
      (cmpi .sle i5
        (broadcastInDim S16384x50x1 ![0, 1, 2] bcast_S1x1x1_S16384x50x1_0_1_2
          (broadcastInDim S1x1x1 ![2] bcast_S1_S1x1x1_2 (constantI S1 32 99999#32)))))
    (constantI S_ 1 1#1) reducesTo_S16384x50x1_S16384x50_d2 h_S_

/-- The table's rows at the row numbers where the mask holds, the fill value elsewhere. -/
def fillOf (ok : IVec S16384x50 1) (T : FVec F S100000x16 .f32) (i5 : IVec S16384x50x1 32) : FVec F S16384x50x16 .f32 :=
  select (broadcastInDim S16384x50x16 ![0, 1] bcast_S16384x50_S16384x50x16_0_1 ok)
    (Host.gather gather_S100000x16_S16384x50x1_S16384x50x16_2_0_n_n_0_2_116 T i5)
    (broadcastInDim S16384x50x16 ![] bcast_S_S16384x50x16 (constant S_ .f32 0x7FC00000#32))

/-- The looked-up rows of a table at an index array. -/
def takeRef (T : FVec F S100000x16 .f32) (ix : IVec S16384x50 32) : FVec F S16384x50x16 .f32 :=
  fillOf (maskOf (rowIdx ix)) T (rowIdx ix)

/-- The Euclidean norm of each looked-up row, with a trailing unit axis. -/
def normRef (y : FVec F S16384x50x16 .f32) : FVec F S16384x50x1 .f32 :=
  Host.sqrt (broadcastInDim S16384x50x1 ![0, 1] bcast_S16384x50_S16384x50x1_0_1
    (Host.reduceAdd (mulf y y) (constant S_ .f32 0x00000000#32) reducesTo_S16384x50x16_S16384x50_d2 h_S_))

/-- The rescaling factor of a row of norm `n`: 5 / max(n, tiny) where n > 5, one elsewhere. -/
def scaleRef (n : FVec F S16384x50x1 .f32) : FVec F S16384x50x1 .f32 :=
  select (cmpf .ogt n (broadcastInDim S16384x50x1 ![] bcast_S_S16384x50x1 (constant S_ .f32 0x40A00000#32)))
    (Host.divf (broadcastInDim S16384x50x1 ![] bcast_S_S16384x50x1 (constant S_ .f32 0x40A00000#32))
      (maximumf n (broadcastInDim S16384x50x1 ![] bcast_S_S16384x50x1 (constant S_ .f32 0x2B8CBCCC#32))))
    (broadcastInDim S16384x50x1 ![] bcast_S_S16384x50x1 (id (constant S_ .f32 0x3F800000#32)))

/-- A row array rescaled: each row times its rescaling factor. -/
def clipRef (y : FVec F S16384x50x16 .f32) : FVec F S16384x50x16 .f32 :=
  mulf y (broadcastInDim S16384x50x16 ![0, 1, 2] bcast_S16384x50x1_S16384x50x16_0_1_2 (scaleRef (normRef y)))

/-- One embedding table's result: the looked-up rows, each rescaled to norm at most 5. -/
def embRef (T : FVec F S100000x16 .f32) (ix : IVec S16384x50 32) : FVec F S16384x50x16 .f32 :=
  clipRef (takeRef T ix)

/-! ## What each window writes, and what it leaves alone -/

/-- The buffers that window `opsBn` writes. -/
abbrev opsBn_W : List (Ref sig .tc) :=
  [main_cst, main_v0, main_cst_0, main_v1, main_v2, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v4, main_v5, main_v6, main_cst_1, main_v7, main_v8, main_v9, main_v10, main_v11, main_v12, main_v13, main_v14, main_v15, main_v16, main_v17, main_v18]
theorem opsBn_writes : (opsBn : List (HloOp τ sig (Elt F))).Forall fun op => op.writes ⊆ (opsBn_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsBn` does not write keeps its contents through it. -/
theorem opsBn_keep (V : Valuation τ sig (Elt F)) (r : Ref sig .tc) (h : r ∉ opsBn_W) :
    after opsBn V (Proc.devRef .tc r) = V (Proc.devRef .tc r) :=
  after_of_writes_sub opsBn V opsBn_writes h

/-- The buffers that window `opsTa1` writes. -/
abbrev opsTa1_W : List (Ref sig .tc) :=
  [main_call1.c.ref, main_call1.v0.ref, main_call1.v1.ref, main_call1.c_0.ref, main_call1.v2.ref, main_call1.v3.ref, main_call1.call0.v0.ref, main_call1.v5.ref]
theorem opsTa1_writes : (opsTa1 : List (HloOp τ sig (Elt F))).Forall fun op => op.writes ⊆ (opsTa1_W.map (Proc.devRef (τ := τ) .tc)).toFinset := by
  simp only [List.Forall]
  refine ⟨?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsTa1` does not write keeps its contents through it. -/
theorem opsTa1_keep (V : Valuation τ sig (Elt F)) (r : Ref sig .tc) (h : r ∉ opsTa1_W) :
    after opsTa1 V (Proc.devRef .tc r) = V (Proc.devRef .tc r) :=
  after_of_writes_sub opsTa1 V opsTa1_writes h

/-- The buffers that window `opsTb1` writes. -/
abbrev opsTb1_W : List (Ref sig .tc) :=
  [main_call1.c_1.ref, main_call1.c_2.ref, main_call1.v6.ref, main_call1.v7.ref, main_call1.v8.ref, main_call1.v9.ref, main_call1.v10.ref, main_call1.v11.ref, main_call1.c_3.ref, main_call1.v12.ref]
theorem opsTb1_writes : (opsTb1 : List (HloOp τ sig (Elt F))).Forall fun op => op.writes ⊆ (opsTb1_W.map (Proc.devRef (τ := τ) .tc)).toFinset := by
  simp only [List.Forall]
  refine ⟨?_, ?_, ?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsTb1` does not write keeps its contents through it. -/
theorem opsTb1_keep (V : Valuation τ sig (Elt F)) (r : Ref sig .tc) (h : r ∉ opsTb1_W) :
    after opsTb1 V (Proc.devRef .tc r) = V (Proc.devRef .tc r) :=
  after_of_writes_sub opsTb1 V opsTb1_writes h

/-- The buffers that window `opsTc1` writes. -/
abbrev opsTc1_W : List (Ref sig .tc) :=
  [main_call1.v13.ref, main_call1.v14.ref, main_call1.cst.ref, main_call1.v15.ref, main_call1.v16.ref]
theorem opsTc1_writes : (opsTc1 : List (HloOp τ sig (Elt F))).Forall fun op => op.writes ⊆ (opsTc1_W.map (Proc.devRef (τ := τ) .tc)).toFinset := by
  simp only [List.Forall]
  refine ⟨?_, ?_, ?_, ?_, ?_⟩
  all_goals (simp only [nullary_writes, unary_writes, binary_writes, ternary_writes, Finset.singleton_subset_iff, List.mem_toFinset]; exact List.mem_map_of_mem (by decide))
/-- A buffer that window `opsTc1` does not write keeps its contents through it. -/
theorem opsTc1_keep (V : Valuation τ sig (Elt F)) (r : Ref sig .tc) (h : r ∉ opsTc1_W) :
    after opsTc1 V (Proc.devRef .tc r) = V (Proc.devRef .tc r) :=
  after_of_writes_sub opsTc1 V opsTc1_writes h

/-- The buffers that window `opsS1` writes. -/
abbrev opsS1_W : List (Ref sig .tc) :=
  [main_call2.v0.ref, main_call2.cst.ref, main_call2.v1.ref, main_call2.v2.ref, main_call2.v3.ref, main_cst_2, main_v21, main_v22, main_cst_3, main_v23, main_v24, main_cst_4, main_v25, main_v26, main_cst_5, main_call3.v0.ref, main_call3.v1.ref, main_call3.v2.ref, main_v28, main_v29]
theorem opsS1_writes : (opsS1 : List (HloOp τ sig (Elt F))).Forall fun op => op.writes ⊆ (opsS1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsS1` does not write keeps its contents through it. -/
theorem opsS1_keep (V : Valuation τ sig (Elt F)) (r : Ref sig .tc) (h : r ∉ opsS1_W) :
    after opsS1 V (Proc.devRef .tc r) = V (Proc.devRef .tc r) :=
  after_of_writes_sub opsS1 V opsS1_writes h

/-- The buffers that window `opsTa2` writes. -/
abbrev opsTa2_W : List (Ref sig .tc) :=
  [main_call4.c.ref, main_call4.v0.ref, main_call4.v1.ref, main_call4.c_0.ref, main_call4.v2.ref, main_call4.v3.ref, main_call4.call0.v0.ref, main_call4.v5.ref]
theorem opsTa2_writes : (opsTa2 : List (HloOp τ sig (Elt F))).Forall fun op => op.writes ⊆ (opsTa2_W.map (Proc.devRef (τ := τ) .tc)).toFinset := by
  simp only [List.Forall]
  refine ⟨?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsTa2` does not write keeps its contents through it. -/
theorem opsTa2_keep (V : Valuation τ sig (Elt F)) (r : Ref sig .tc) (h : r ∉ opsTa2_W) :
    after opsTa2 V (Proc.devRef .tc r) = V (Proc.devRef .tc r) :=
  after_of_writes_sub opsTa2 V opsTa2_writes h

/-- The buffers that window `opsTb2` writes. -/
abbrev opsTb2_W : List (Ref sig .tc) :=
  [main_call4.c_1.ref, main_call4.c_2.ref, main_call4.v6.ref, main_call4.v7.ref, main_call4.v8.ref, main_call4.v9.ref, main_call4.v10.ref, main_call4.v11.ref, main_call4.c_3.ref, main_call4.v12.ref]
theorem opsTb2_writes : (opsTb2 : List (HloOp τ sig (Elt F))).Forall fun op => op.writes ⊆ (opsTb2_W.map (Proc.devRef (τ := τ) .tc)).toFinset := by
  simp only [List.Forall]
  refine ⟨?_, ?_, ?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsTb2` does not write keeps its contents through it. -/
theorem opsTb2_keep (V : Valuation τ sig (Elt F)) (r : Ref sig .tc) (h : r ∉ opsTb2_W) :
    after opsTb2 V (Proc.devRef .tc r) = V (Proc.devRef .tc r) :=
  after_of_writes_sub opsTb2 V opsTb2_writes h

/-- The buffers that window `opsTc2` writes. -/
abbrev opsTc2_W : List (Ref sig .tc) :=
  [main_call4.v13.ref, main_call4.v14.ref, main_call4.cst.ref, main_call4.v15.ref, main_call4.v16.ref]
theorem opsTc2_writes : (opsTc2 : List (HloOp τ sig (Elt F))).Forall fun op => op.writes ⊆ (opsTc2_W.map (Proc.devRef (τ := τ) .tc)).toFinset := by
  simp only [List.Forall]
  refine ⟨?_, ?_, ?_, ?_, ?_⟩
  all_goals (simp only [nullary_writes, unary_writes, binary_writes, ternary_writes, Finset.singleton_subset_iff, List.mem_toFinset]; exact List.mem_map_of_mem (by decide))
/-- A buffer that window `opsTc2` does not write keeps its contents through it. -/
theorem opsTc2_keep (V : Valuation τ sig (Elt F)) (r : Ref sig .tc) (h : r ∉ opsTc2_W) :
    after opsTc2 V (Proc.devRef .tc r) = V (Proc.devRef .tc r) :=
  after_of_writes_sub opsTc2 V opsTc2_writes h

/-- The buffers that window `opsS2` writes. -/
abbrev opsS2_W : List (Ref sig .tc) :=
  [main_call5.v0.ref, main_call5.cst.ref, main_call5.v1.ref, main_call5.v2.ref, main_call5.v3.ref, main_cst_6, main_v32, main_v33, main_cst_7, main_v34, main_v35, main_cst_8, main_v36, main_v37, main_cst_9, main_call6.v0.ref, main_call6.v1.ref, main_call6.v2.ref, main_v39, main_v40]
theorem opsS2_writes : (opsS2 : List (HloOp τ sig (Elt F))).Forall fun op => op.writes ⊆ (opsS2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsS2` does not write keeps its contents through it. -/
theorem opsS2_keep (V : Valuation τ sig (Elt F)) (r : Ref sig .tc) (h : r ∉ opsS2_W) :
    after opsS2 V (Proc.devRef .tc r) = V (Proc.devRef .tc r) :=
  after_of_writes_sub opsS2 V opsS2_writes h

/-- The buffers that window `opsTa3` writes. -/
abbrev opsTa3_W : List (Ref sig .tc) :=
  [main_call7.c.ref, main_call7.v0.ref, main_call7.v1.ref, main_call7.c_0.ref, main_call7.v2.ref, main_call7.v3.ref, main_call7.call0.v0.ref, main_call7.v5.ref]
theorem opsTa3_writes : (opsTa3 : List (HloOp τ sig (Elt F))).Forall fun op => op.writes ⊆ (opsTa3_W.map (Proc.devRef (τ := τ) .tc)).toFinset := by
  simp only [List.Forall]
  refine ⟨?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsTa3` does not write keeps its contents through it. -/
theorem opsTa3_keep (V : Valuation τ sig (Elt F)) (r : Ref sig .tc) (h : r ∉ opsTa3_W) :
    after opsTa3 V (Proc.devRef .tc r) = V (Proc.devRef .tc r) :=
  after_of_writes_sub opsTa3 V opsTa3_writes h

/-- The buffers that window `opsTb3` writes. -/
abbrev opsTb3_W : List (Ref sig .tc) :=
  [main_call7.c_1.ref, main_call7.c_2.ref, main_call7.v6.ref, main_call7.v7.ref, main_call7.v8.ref, main_call7.v9.ref, main_call7.v10.ref, main_call7.v11.ref, main_call7.c_3.ref, main_call7.v12.ref]
theorem opsTb3_writes : (opsTb3 : List (HloOp τ sig (Elt F))).Forall fun op => op.writes ⊆ (opsTb3_W.map (Proc.devRef (τ := τ) .tc)).toFinset := by
  simp only [List.Forall]
  refine ⟨?_, ?_, ?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsTb3` does not write keeps its contents through it. -/
theorem opsTb3_keep (V : Valuation τ sig (Elt F)) (r : Ref sig .tc) (h : r ∉ opsTb3_W) :
    after opsTb3 V (Proc.devRef .tc r) = V (Proc.devRef .tc r) :=
  after_of_writes_sub opsTb3 V opsTb3_writes h

/-- The buffers that window `opsTc3` writes. -/
abbrev opsTc3_W : List (Ref sig .tc) :=
  [main_call7.v13.ref, main_call7.v14.ref, main_call7.cst.ref, main_call7.v15.ref, main_call7.v16.ref]
theorem opsTc3_writes : (opsTc3 : List (HloOp τ sig (Elt F))).Forall fun op => op.writes ⊆ (opsTc3_W.map (Proc.devRef (τ := τ) .tc)).toFinset := by
  simp only [List.Forall]
  refine ⟨?_, ?_, ?_, ?_, ?_⟩
  all_goals (simp only [nullary_writes, unary_writes, binary_writes, ternary_writes, Finset.singleton_subset_iff, List.mem_toFinset]; exact List.mem_map_of_mem (by decide))
/-- A buffer that window `opsTc3` does not write keeps its contents through it. -/
theorem opsTc3_keep (V : Valuation τ sig (Elt F)) (r : Ref sig .tc) (h : r ∉ opsTc3_W) :
    after opsTc3 V (Proc.devRef .tc r) = V (Proc.devRef .tc r) :=
  after_of_writes_sub opsTc3 V opsTc3_writes h

/-- The buffers that window `opsS3` writes. -/
abbrev opsS3_W : List (Ref sig .tc) :=
  [main_call8.v0.ref, main_call8.cst.ref, main_call8.v1.ref, main_call8.v2.ref, main_call8.v3.ref, main_cst_10, main_v43, main_v44, main_cst_11, main_v45, main_v46, main_cst_12, main_v47, main_v48, main_cst_13, main_call9.v0.ref, main_call9.v1.ref, main_call9.v2.ref, main_v50, main_v51]
theorem opsS3_writes : (opsS3 : List (HloOp τ sig (Elt F))).Forall fun op => op.writes ⊆ (opsS3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsS3` does not write keeps its contents through it. -/
theorem opsS3_keep (V : Valuation τ sig (Elt F)) (r : Ref sig .tc) (h : r ∉ opsS3_W) :
    after opsS3 V (Proc.devRef .tc r) = V (Proc.devRef .tc r) :=
  after_of_writes_sub opsS3 V opsS3_writes h

/-- The buffers that window `opsTa4` writes. -/
abbrev opsTa4_W : List (Ref sig .tc) :=
  [main_call10.c.ref, main_call10.v0.ref, main_call10.v1.ref, main_call10.c_0.ref, main_call10.v2.ref, main_call10.v3.ref, main_call10.call0.v0.ref, main_call10.v5.ref]
theorem opsTa4_writes : (opsTa4 : List (HloOp τ sig (Elt F))).Forall fun op => op.writes ⊆ (opsTa4_W.map (Proc.devRef (τ := τ) .tc)).toFinset := by
  simp only [List.Forall]
  refine ⟨?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsTa4` does not write keeps its contents through it. -/
theorem opsTa4_keep (V : Valuation τ sig (Elt F)) (r : Ref sig .tc) (h : r ∉ opsTa4_W) :
    after opsTa4 V (Proc.devRef .tc r) = V (Proc.devRef .tc r) :=
  after_of_writes_sub opsTa4 V opsTa4_writes h

/-- The buffers that window `opsTb4` writes. -/
abbrev opsTb4_W : List (Ref sig .tc) :=
  [main_call10.c_1.ref, main_call10.c_2.ref, main_call10.v6.ref, main_call10.v7.ref, main_call10.v8.ref, main_call10.v9.ref, main_call10.v10.ref, main_call10.v11.ref, main_call10.c_3.ref, main_call10.v12.ref]
theorem opsTb4_writes : (opsTb4 : List (HloOp τ sig (Elt F))).Forall fun op => op.writes ⊆ (opsTb4_W.map (Proc.devRef (τ := τ) .tc)).toFinset := by
  simp only [List.Forall]
  refine ⟨?_, ?_, ?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsTb4` does not write keeps its contents through it. -/
theorem opsTb4_keep (V : Valuation τ sig (Elt F)) (r : Ref sig .tc) (h : r ∉ opsTb4_W) :
    after opsTb4 V (Proc.devRef .tc r) = V (Proc.devRef .tc r) :=
  after_of_writes_sub opsTb4 V opsTb4_writes h

/-- The buffers that window `opsTc4` writes. -/
abbrev opsTc4_W : List (Ref sig .tc) :=
  [main_call10.v13.ref, main_call10.v14.ref, main_call10.cst.ref, main_call10.v15.ref, main_call10.v16.ref]
theorem opsTc4_writes : (opsTc4 : List (HloOp τ sig (Elt F))).Forall fun op => op.writes ⊆ (opsTc4_W.map (Proc.devRef (τ := τ) .tc)).toFinset := by
  simp only [List.Forall]
  refine ⟨?_, ?_, ?_, ?_, ?_⟩
  all_goals (simp only [nullary_writes, unary_writes, binary_writes, ternary_writes, Finset.singleton_subset_iff, List.mem_toFinset]; exact List.mem_map_of_mem (by decide))
/-- A buffer that window `opsTc4` does not write keeps its contents through it. -/
theorem opsTc4_keep (V : Valuation τ sig (Elt F)) (r : Ref sig .tc) (h : r ∉ opsTc4_W) :
    after opsTc4 V (Proc.devRef .tc r) = V (Proc.devRef .tc r) :=
  after_of_writes_sub opsTc4 V opsTc4_writes h

/-- The buffers that window `opsS4` writes. -/
abbrev opsS4_W : List (Ref sig .tc) :=
  [main_call11.v0.ref, main_call11.cst.ref, main_call11.v1.ref, main_call11.v2.ref, main_call11.v3.ref, main_cst_14, main_v54, main_v55, main_cst_15, main_v56, main_v57, main_cst_16, main_v58, main_v59, main_cst_17, main_call12.v0.ref, main_call12.v1.ref, main_call12.v2.ref, main_v61, main_v62]
theorem opsS4_writes : (opsS4 : List (HloOp τ sig (Elt F))).Forall fun op => op.writes ⊆ (opsS4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩
  all_goals (simp only [nullary_writes, unary_writes, binary_writes, ternary_writes, Finset.singleton_subset_iff, List.mem_toFinset]; exact List.mem_map_of_mem (by decide))
/-- A buffer that window `opsS4` does not write keeps its contents through it. -/
theorem opsS4_keep (V : Valuation τ sig (Elt F)) (r : Ref sig .tc) (h : r ∉ opsS4_W) :
    after opsS4 V (Proc.devRef .tc r) = V (Proc.devRef .tc r) :=
  after_of_writes_sub opsS4 V opsS4_writes h

/-! ## The side conditions of the straight-line run -/

theorem opsBn_sub : (opsBn : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsBn_fresh : ∀ op ∈ (opsBn : List (HloOp τ sig (Elt F))), op.fresh = ∅ := by
  intro op h; (repeat (cases h with | head => rfl | tail _ h => ?_)); exact nomatch h

theorem opsTa1_sub : (opsTa1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem opsTa1_fresh : ∀ op ∈ (opsTa1 : List (HloOp τ sig (Elt F))), op.fresh = ∅ := by
  intro op h; (repeat (cases h with | head => rfl | tail _ h => ?_)); exact nomatch h

theorem opsTb1_sub : (opsTb1 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub ..⟩
theorem opsTb1_fresh : ∀ op ∈ (opsTb1 : List (HloOp τ sig (Elt F))), op.fresh = ∅ := by
  intro op h; (repeat (cases h with | head => rfl | tail _ h => ?_)); exact nomatch h

theorem opsTc1_sub : (opsTc1 : List (HloOp τ sig (Elt F))).Forall fun op => op.bufs ⊆ tcRefs τ sig :=
  ⟨binary_bufs_sub .., unary_bufs_sub .., nullary_bufs_sub .., unary_bufs_sub .., ternary_bufs_sub ..⟩
theorem opsTc1_fresh : ∀ op ∈ (opsTc1 : List (HloOp τ sig (Elt F))), op.fresh = ∅ := by
  intro op h; (repeat (cases h with | head => rfl | tail _ h => ?_)); exact nomatch h

theorem opsS1_sub : (opsS1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub ..⟩
theorem opsS1_fresh : ∀ op ∈ (opsS1 : List (HloOp τ sig (Elt F))), op.fresh = ∅ := by
  intro op h; (repeat (cases h with | head => rfl | tail _ h => ?_)); exact nomatch h

theorem opsTa2_sub : (opsTa2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem opsTa2_fresh : ∀ op ∈ (opsTa2 : List (HloOp τ sig (Elt F))), op.fresh = ∅ := by
  intro op h; (repeat (cases h with | head => rfl | tail _ h => ?_)); exact nomatch h

theorem opsTb2_sub : (opsTb2 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub ..⟩
theorem opsTb2_fresh : ∀ op ∈ (opsTb2 : List (HloOp τ sig (Elt F))), op.fresh = ∅ := by
  intro op h; (repeat (cases h with | head => rfl | tail _ h => ?_)); exact nomatch h

theorem opsTc2_sub : (opsTc2 : List (HloOp τ sig (Elt F))).Forall fun op => op.bufs ⊆ tcRefs τ sig :=
  ⟨binary_bufs_sub .., unary_bufs_sub .., nullary_bufs_sub .., unary_bufs_sub .., ternary_bufs_sub ..⟩
theorem opsTc2_fresh : ∀ op ∈ (opsTc2 : List (HloOp τ sig (Elt F))), op.fresh = ∅ := by
  intro op h; (repeat (cases h with | head => rfl | tail _ h => ?_)); exact nomatch h

theorem opsS2_sub : (opsS2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub ..⟩
theorem opsS2_fresh : ∀ op ∈ (opsS2 : List (HloOp τ sig (Elt F))), op.fresh = ∅ := by
  intro op h; (repeat (cases h with | head => rfl | tail _ h => ?_)); exact nomatch h

theorem opsTa3_sub : (opsTa3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem opsTa3_fresh : ∀ op ∈ (opsTa3 : List (HloOp τ sig (Elt F))), op.fresh = ∅ := by
  intro op h; (repeat (cases h with | head => rfl | tail _ h => ?_)); exact nomatch h

theorem opsTb3_sub : (opsTb3 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub ..⟩
theorem opsTb3_fresh : ∀ op ∈ (opsTb3 : List (HloOp τ sig (Elt F))), op.fresh = ∅ := by
  intro op h; (repeat (cases h with | head => rfl | tail _ h => ?_)); exact nomatch h

theorem opsTc3_sub : (opsTc3 : List (HloOp τ sig (Elt F))).Forall fun op => op.bufs ⊆ tcRefs τ sig :=
  ⟨binary_bufs_sub .., unary_bufs_sub .., nullary_bufs_sub .., unary_bufs_sub .., ternary_bufs_sub ..⟩
theorem opsTc3_fresh : ∀ op ∈ (opsTc3 : List (HloOp τ sig (Elt F))), op.fresh = ∅ := by
  intro op h; (repeat (cases h with | head => rfl | tail _ h => ?_)); exact nomatch h

theorem opsS3_sub : (opsS3 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub ..⟩
theorem opsS3_fresh : ∀ op ∈ (opsS3 : List (HloOp τ sig (Elt F))), op.fresh = ∅ := by
  intro op h; (repeat (cases h with | head => rfl | tail _ h => ?_)); exact nomatch h

theorem opsTa4_sub : (opsTa4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem opsTa4_fresh : ∀ op ∈ (opsTa4 : List (HloOp τ sig (Elt F))), op.fresh = ∅ := by
  intro op h; (repeat (cases h with | head => rfl | tail _ h => ?_)); exact nomatch h

theorem opsTb4_sub : (opsTb4 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub ..⟩
theorem opsTb4_fresh : ∀ op ∈ (opsTb4 : List (HloOp τ sig (Elt F))), op.fresh = ∅ := by
  intro op h; (repeat (cases h with | head => rfl | tail _ h => ?_)); exact nomatch h

theorem opsTc4_sub : (opsTc4 : List (HloOp τ sig (Elt F))).Forall fun op => op.bufs ⊆ tcRefs τ sig :=
  ⟨binary_bufs_sub .., unary_bufs_sub .., nullary_bufs_sub .., unary_bufs_sub .., ternary_bufs_sub ..⟩
theorem opsTc4_fresh : ∀ op ∈ (opsTc4 : List (HloOp τ sig (Elt F))), op.fresh = ∅ := by
  intro op h; (repeat (cases h with | head => rfl | tail _ h => ?_)); exact nomatch h

theorem opsS4_sub : (opsS4 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub ..⟩
theorem opsS4_fresh : ∀ op ∈ (opsS4 : List (HloOp τ sig (Elt F))), op.fresh = ∅ := by
  intro op h; (repeat (cases h with | head => rfl | tail _ h => ?_)); exact nomatch h

theorem ops_sub : (ops : List (HloOp τ sig (Elt F))).Forall fun op => op.bufs ⊆ tcRefs τ sig := by
  unfold ops
  simp only [List.forall_append]
  exact ⟨⟨⟨⟨⟨⟨⟨⟨⟨⟨⟨⟨⟨⟨⟨⟨opsBn_sub, opsTa1_sub⟩, opsTb1_sub⟩, opsTc1_sub⟩, opsS1_sub⟩, opsTa2_sub⟩, opsTb2_sub⟩, opsTc2_sub⟩, opsS2_sub⟩, opsTa3_sub⟩, opsTb3_sub⟩, opsTc3_sub⟩, opsS3_sub⟩, opsTa4_sub⟩, opsTb4_sub⟩, opsTc4_sub⟩, opsS4_sub⟩
theorem ops_fresh : ∀ op ∈ (ops : List (HloOp τ sig (Elt F))), op.fresh = ∅ := by
  unfold ops
  simp only [List.forall_mem_append]
  exact ⟨⟨⟨⟨⟨⟨⟨⟨⟨⟨⟨⟨⟨⟨⟨⟨opsBn_fresh, opsTa1_fresh⟩, opsTb1_fresh⟩, opsTc1_fresh⟩, opsS1_fresh⟩, opsTa2_fresh⟩, opsTb2_fresh⟩, opsTc2_fresh⟩, opsS2_fresh⟩, opsTa3_fresh⟩, opsTb3_fresh⟩, opsTc3_fresh⟩, opsS3_fresh⟩, opsTa4_fresh⟩, opsTb4_fresh⟩, opsTc4_fresh⟩, opsS4_fresh⟩
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefRun.lean ====
import proofs.«203359_g24824910971486_cont_8to1_1854_34_alg».proof.Proof.RefOps

/-! The reference program's run: each window's result from any contents, the whole line's results, and the run itself
    with the frame it gives. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each window's result, from any contents -/

/-- Two lines run one after the other fold as the second over the first's result. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) :
    after ops V = after opsS4 (after opsTc4 (after opsTb4 (after opsTa4 (after opsS3 (after opsTc3 (after opsTb3 (after opsTa3 (after opsS2 (after opsTc2 (after opsTb2 (after opsTa2 (after opsS1 (after opsTc1 (after opsTb1 (after opsTa1 (after opsBn V)))))))))))))))) := by
  simp only [ops, after_app]

attribute [local irreducible] Host.reduce Host.reduceAdd Host.gather in
set_option maxRecDepth 8192 in
set_option maxHeartbeats 1000000 in
/-- The first window leaves the normalised features in their result buffer. -/
theorem winBn (V : Valuation τ sig (Elt F)) :
    after opsBn V (Proc.devRef .tc main_v18)
      = bnRef (V (Proc.devRef .tc main_arg0)) (V (Proc.devRef .tc main_arg6)) (V (Proc.devRef .tc main_arg7)) := by
  simp only [opsBn]
  after_results_simp
  rfl

attribute [local irreducible] Host.reduce Host.reduceAdd Host.gather in
set_option maxRecDepth 8192 in
set_option maxHeartbeats 1000000 in
/-- Table 1: the row numbers. -/
theorem winTa1 (V : Valuation τ sig (Elt F)) :
    after opsTa1 V (Proc.devRef .tc main_call1_v5) = rowIdx (V (Proc.devRef .tc main_arg2)) := by
  simp only [opsTa1]
  after_results_simp
  rfl

attribute [local irreducible] Host.reduce Host.reduceAdd Host.gather in
set_option maxRecDepth 8192 in
set_option maxHeartbeats 1000000 in
/-- Table 1: the bounds mask of the row numbers. -/
theorem winTb1 (V : Valuation τ sig (Elt F)) :
    after opsTb1 V (Proc.devRef .tc main_call1_v12) = maskOf (V (Proc.devRef .tc main_call1_v5)) := by
  simp only [opsTb1]
  after_results_simp
  rfl

attribute [local irreducible] Host.reduce Host.reduceAdd Host.gather in
set_option maxRecDepth 8192 in
set_option maxHeartbeats 1000000 in
/-- Table 1: the rows gathered, filled where the mask fails. -/
theorem winTc1 (V : Valuation τ sig (Elt F)) :
    after opsTc1 V (Proc.devRef .tc main_v19)
      = fillOf (V (Proc.devRef .tc main_call1_v12)) (V (Proc.devRef .tc main_arg8)) (V (Proc.devRef .tc main_call1_v5)) := by
  simp only [opsTc1]
  after_results_simp
  rfl

attribute [local irreducible] Host.reduce Host.reduceAdd Host.gather in
set_option maxRecDepth 8192 in
set_option maxHeartbeats 1000000 in
/-- Table 1: the looked-up rows rescaled. -/
theorem winS1 (V : Valuation τ sig (Elt F)) :
    after opsS1 V (Proc.devRef .tc main_v29) = clipRef (V (Proc.devRef .tc main_v19)) := by
  simp only [opsS1]
  after_results_simp
  rfl

attribute [local irreducible] Host.reduce Host.reduceAdd Host.gather in
set_option maxRecDepth 8192 in
set_option maxHeartbeats 1000000 in
/-- Table 2: the row numbers. -/
theorem winTa2 (V : Valuation τ sig (Elt F)) :
    after opsTa2 V (Proc.devRef .tc main_call4_v5) = rowIdx (V (Proc.devRef .tc main_arg3)) := by
  simp only [opsTa2]
  after_results_simp
  rfl

attribute [local irreducible] Host.reduce Host.reduceAdd Host.gather in
set_option maxRecDepth 8192 in
set_option maxHeartbeats 1000000 in
/-- Table 2: the bounds mask of the row numbers. -/
theorem winTb2 (V : Valuation τ sig (Elt F)) :
    after opsTb2 V (Proc.devRef .tc main_call4_v12) = maskOf (V (Proc.devRef .tc main_call4_v5)) := by
  simp only [opsTb2]
  after_results_simp
  rfl

attribute [local irreducible] Host.reduce Host.reduceAdd Host.gather in
set_option maxRecDepth 8192 in
set_option maxHeartbeats 1000000 in
/-- Table 2: the rows gathered, filled where the mask fails. -/
theorem winTc2 (V : Valuation τ sig (Elt F)) :
    after opsTc2 V (Proc.devRef .tc main_v30)
      = fillOf (V (Proc.devRef .tc main_call4_v12)) (V (Proc.devRef .tc main_arg9)) (V (Proc.devRef .tc main_call4_v5)) := by
  simp only [opsTc2]
  after_results_simp
  rfl

attribute [local irreducible] Host.reduce Host.reduceAdd Host.gather in
set_option maxRecDepth 8192 in
set_option maxHeartbeats 1000000 in
/-- Table 2: the looked-up rows rescaled. -/
theorem winS2 (V : Valuation τ sig (Elt F)) :
    after opsS2 V (Proc.devRef .tc main_v40) = clipRef (V (Proc.devRef .tc main_v30)) := by
  simp only [opsS2]
  after_results_simp
  rfl

attribute [local irreducible] Host.reduce Host.reduceAdd Host.gather in
set_option maxRecDepth 8192 in
set_option maxHeartbeats 1000000 in
/-- Table 3: the row numbers. -/
theorem winTa3 (V : Valuation τ sig (Elt F)) :
    after opsTa3 V (Proc.devRef .tc main_call7_v5) = rowIdx (V (Proc.devRef .tc main_arg4)) := by
  simp only [opsTa3]
  after_results_simp
  rfl

attribute [local irreducible] Host.reduce Host.reduceAdd Host.gather in
set_option maxRecDepth 8192 in
set_option maxHeartbeats 1000000 in
/-- Table 3: the bounds mask of the row numbers. -/
theorem winTb3 (V : Valuation τ sig (Elt F)) :
    after opsTb3 V (Proc.devRef .tc main_call7_v12) = maskOf (V (Proc.devRef .tc main_call7_v5)) := by
  simp only [opsTb3]
  after_results_simp
  rfl

attribute [local irreducible] Host.reduce Host.reduceAdd Host.gather in
set_option maxRecDepth 8192 in
set_option maxHeartbeats 1000000 in
/-- Table 3: the rows gathered, filled where the mask fails. -/
theorem winTc3 (V : Valuation τ sig (Elt F)) :
    after opsTc3 V (Proc.devRef .tc main_v41)
      = fillOf (V (Proc.devRef .tc main_call7_v12)) (V (Proc.devRef .tc main_arg10)) (V (Proc.devRef .tc main_call7_v5)) := by
  simp only [opsTc3]
  after_results_simp
  rfl

attribute [local irreducible] Host.reduce Host.reduceAdd Host.gather in
set_option maxRecDepth 8192 in
set_option maxHeartbeats 1000000 in
/-- Table 3: the looked-up rows rescaled. -/
theorem winS3 (V : Valuation τ sig (Elt F)) :
    after opsS3 V (Proc.devRef .tc main_v51) = clipRef (V (Proc.devRef .tc main_v41)) := by
  simp only [opsS3]
  after_results_simp
  rfl

attribute [local irreducible] Host.reduce Host.reduceAdd Host.gather in
set_option maxRecDepth 8192 in
set_option maxHeartbeats 1000000 in
/-- Table 4: the row numbers. -/
theorem winTa4 (V : Valuation τ sig (Elt F)) :
    after opsTa4 V (Proc.devRef .tc main_call10_v5) = rowIdx (V (Proc.devRef .tc main_arg5)) := by
  simp only [opsTa4]
  after_results_simp
  rfl

attribute [local irreducible] Host.reduce Host.reduceAdd Host.gather in
set_option maxRecDepth 8192 in
set_option maxHeartbeats 1000000 in
/-- Table 4: the bounds mask of the row numbers. -/
theorem winTb4 (V : Valuation τ sig (Elt F)) :
    after opsTb4 V (Proc.devRef .tc main_call10_v12) = maskOf (V (Proc.devRef .tc main_call10_v5)) := by
  simp only [opsTb4]
  after_results_simp
  rfl

attribute [local irreducible] Host.reduce Host.reduceAdd Host.gather in
set_option maxRecDepth 8192 in
set_option maxHeartbeats 1000000 in
/-- Table 4: the rows gathered, filled where the mask fails. -/
theorem winTc4 (V : Valuation τ sig (Elt F)) :
    after opsTc4 V (Proc.devRef .tc main_v52)
      = fillOf (V (Proc.devRef .tc main_call10_v12)) (V (Proc.devRef .tc main_arg11)) (V (Proc.devRef .tc main_call10_v5)) := by
  simp only [opsTc4]
  after_results_simp
  rfl

attribute [local irreducible] Host.reduce Host.reduceAdd Host.gather in
set_option maxRecDepth 8192 in
set_option maxHeartbeats 1000000 in
/-- Table 4: the looked-up rows rescaled. -/
theorem winS4 (V : Valuation τ sig (Elt F)) :
    after opsS4 V (Proc.devRef .tc main_v62) = clipRef (V (Proc.devRef .tc main_v52)) := by
  simp only [opsS4]
  after_results_simp
  rfl

/-! ## The whole line's results -/

theorem res_bn (V : Valuation τ sig (Elt F)) :
    after ops V (Proc.devRef .tc main_v18)
      = bnRef (V (Proc.devRef .tc main_arg0)) (V (Proc.devRef .tc main_arg6)) (V (Proc.devRef .tc main_arg7)) := by
  rw [after_ops, opsS4_keep _ main_v18 (by decide), opsTc4_keep _ main_v18 (by decide), opsTb4_keep _ main_v18 (by decide), opsTa4_keep _ main_v18 (by decide), opsS3_keep _ main_v18 (by decide), opsTc3_keep _ main_v18 (by decide), opsTb3_keep _ main_v18 (by decide), opsTa3_keep _ main_v18 (by decide), opsS2_keep _ main_v18 (by decide), opsTc2_keep _ main_v18 (by decide), opsTb2_keep _ main_v18 (by decide), opsTa2_keep _ main_v18 (by decide), opsS1_keep _ main_v18 (by decide), opsTc1_keep _ main_v18 (by decide), opsTb1_keep _ main_v18 (by decide), opsTa1_keep _ main_v18 (by decide), winBn]

theorem res_e1 (V : Valuation τ sig (Elt F)) :
    after ops V (Proc.devRef .tc main_v29)
      = embRef (V (Proc.devRef .tc main_arg8)) (V (Proc.devRef .tc main_arg2)) := by
  rw [after_ops,
    opsS4_keep _ main_v29 (by decide),
    opsTc4_keep _ main_v29 (by decide),
    opsTb4_keep _ main_v29 (by decide),
    opsTa4_keep _ main_v29 (by decide),
    opsS3_keep _ main_v29 (by decide),
    opsTc3_keep _ main_v29 (by decide),
    opsTb3_keep _ main_v29 (by decide),
    opsTa3_keep _ main_v29 (by decide),
    opsS2_keep _ main_v29 (by decide),
    opsTc2_keep _ main_v29 (by decide),
    opsTb2_keep _ main_v29 (by decide),
    opsTa2_keep _ main_v29 (by decide),
    winS1,
    winTc1,
    winTb1,
    opsTb1_keep _ main_arg8 (by decide),
    opsTb1_keep _ main_call1_v5 (by decide),
    winTa1,
    opsTa1_keep _ main_arg8 (by decide),
    opsBn_keep _ main_arg8 (by decide),
    opsBn_keep _ main_arg2 (by decide)]
  rfl

theorem res_e2 (V : Valuation τ sig (Elt F)) :
    after ops V (Proc.devRef .tc main_v40)
      = embRef (V (Proc.devRef .tc main_arg9)) (V (Proc.devRef .tc main_arg3)) := by
  rw [after_ops,
    opsS4_keep _ main_v40 (by decide),
    opsTc4_keep _ main_v40 (by decide),
    opsTb4_keep _ main_v40 (by decide),
    opsTa4_keep _ main_v40 (by decide),
    opsS3_keep _ main_v40 (by decide),
    opsTc3_keep _ main_v40 (by decide),
    opsTb3_keep _ main_v40 (by decide),
    opsTa3_keep _ main_v40 (by decide),
    winS2,
    winTc2,
    winTb2,
    opsTb2_keep _ main_arg9 (by decide),
    opsTb2_keep _ main_call4_v5 (by decide),
    winTa2,
    opsTa2_keep _ main_arg9 (by decide),
    opsS1_keep _ main_arg9 (by decide),
    opsTc1_keep _ main_arg9 (by decide),
    opsTb1_keep _ main_arg9 (by decide),
    opsTa1_keep _ main_arg9 (by decide),
    opsBn_keep _ main_arg9 (by decide),
    opsS1_keep _ main_arg3 (by decide),
    opsTc1_keep _ main_arg3 (by decide),
    opsTb1_keep _ main_arg3 (by decide),
    opsTa1_keep _ main_arg3 (by decide),
    opsBn_keep _ main_arg3 (by decide)]
  rfl

theorem res_e3 (V : Valuation τ sig (Elt F)) :
    after ops V (Proc.devRef .tc main_v51)
      = embRef (V (Proc.devRef .tc main_arg10)) (V (Proc.devRef .tc main_arg4)) := by
  rw [after_ops,
    opsS4_keep _ main_v51 (by decide),
    opsTc4_keep _ main_v51 (by decide),
    opsTb4_keep _ main_v51 (by decide),
    opsTa4_keep _ main_v51 (by decide),
    winS3,
    winTc3,
    winTb3,
    opsTb3_keep _ main_arg10 (by decide),
    opsTb3_keep _ main_call7_v5 (by decide),
    winTa3,
    opsTa3_keep _ main_arg10 (by decide),
    opsS2_keep _ main_arg10 (by decide),
    opsTc2_keep _ main_arg10 (by decide),
    opsTb2_keep _ main_arg10 (by decide),
    opsTa2_keep _ main_arg10 (by decide),
    opsS1_keep _ main_arg10 (by decide),
    opsTc1_keep _ main_arg10 (by decide),
    opsTb1_keep _ main_arg10 (by decide),
    opsTa1_keep _ main_arg10 (by decide),
    opsBn_keep _ main_arg10 (by decide),
    opsS2_keep _ main_arg4 (by decide),
    opsTc2_keep _ main_arg4 (by decide),
    opsTb2_keep _ main_arg4 (by decide),
    opsTa2_keep _ main_arg4 (by decide),
    opsS1_keep _ main_arg4 (by decide),
    opsTc1_keep _ main_arg4 (by decide),
    opsTb1_keep _ main_arg4 (by decide),
    opsTa1_keep _ main_arg4 (by decide),
    opsBn_keep _ main_arg4 (by decide)]
  rfl

theorem res_e4 (V : Valuation τ sig (Elt F)) :
    after ops V (Proc.devRef .tc main_v62)
      = embRef (V (Proc.devRef .tc main_arg11)) (V (Proc.devRef .tc main_arg5)) := by
  rw [after_ops,
    winS4,
    winTc4,
    winTb4,
    opsTb4_keep _ main_arg11 (by decide),
    opsTb4_keep _ main_call10_v5 (by decide),
    winTa4,
    opsTa4_keep _ main_arg11 (by decide),
    opsS3_keep _ main_arg11 (by decide),
    opsTc3_keep _ main_arg11 (by decide),
    opsTb3_keep _ main_arg11 (by decide),
    opsTa3_keep _ main_arg11 (by decide),
    opsS2_keep _ main_arg11 (by decide),
    opsTc2_keep _ main_arg11 (by decide),
    opsTb2_keep _ main_arg11 (by decide),
    opsTa2_keep _ main_arg11 (by decide),
    opsS1_keep _ main_arg11 (by decide),
    opsTc1_keep _ main_arg11 (by decide),
    opsTb1_keep _ main_arg11 (by decide),
    opsTa1_keep _ main_arg11 (by decide),
    opsBn_keep _ main_arg11 (by decide),
    opsS3_keep _ main_arg5 (by decide),
    opsTc3_keep _ main_arg5 (by decide),
    opsTb3_keep _ main_arg5 (by decide),
    opsTa3_keep _ main_arg5 (by decide),
    opsS2_keep _ main_arg5 (by decide),
    opsTc2_keep _ main_arg5 (by decide),
    opsTb2_keep _ main_arg5 (by decide),
    opsTa2_keep _ main_arg5 (by decide),
    opsS1_keep _ main_arg5 (by decide),
    opsTc1_keep _ main_arg5 (by decide),
    opsTb1_keep _ main_arg5 (by decide),
    opsTa1_keep _ main_arg5 (by decide),
    opsBn_keep _ main_arg5 (by decide)]
  rfl

/-- No window writes an argument buffer. -/
theorem res_arg (V : Valuation τ sig (Elt F)) (r : Ref sig .tc)
    (h0 : r ∉ opsBn_W) (h1 : r ∉ opsTa1_W) (h2 : r ∉ opsTb1_W) (h3 : r ∉ opsTc1_W) (h4 : r ∉ opsS1_W) (h5 : r ∉ opsTa2_W) (h6 : r ∉ opsTb2_W) (h7 : r ∉ opsTc2_W) (h8 : r ∉ opsS2_W) (h9 : r ∉ opsTa3_W) (h10 : r ∉ opsTb3_W) (h11 : r ∉ opsTc3_W) (h12 : r ∉ opsS3_W) (h13 : r ∉ opsTa4_W) (h14 : r ∉ opsTb4_W) (h15 : r ∉ opsTc4_W) (h16 : r ∉ opsS4_W) :
    after ops V (Proc.devRef .tc r) = V (Proc.devRef .tc r) := by
  rw [after_ops, opsS4_keep _ r h16, opsTc4_keep _ r h15, opsTb4_keep _ r h14, opsTa4_keep _ r h13, opsS3_keep _ r h12, opsTc3_keep _ r h11, opsTb3_keep _ r h10, opsTa3_keep _ r h9, opsS2_keep _ r h8, opsTc2_keep _ r h7, opsTb2_keep _ r h6, opsTa2_keep _ r h5, opsS1_keep _ r h4, opsTc1_keep _ r h3, opsTb1_keep _ r h2, opsTa1_keep _ r h1, opsBn_keep _ r h0]

/-! ## The run -/

set_option maxHeartbeats 2000000 in
/-- From any memory with zero counters, every weakly fair execution of the reference's @main terminates, without a fault,
    with every buffer at the fold of the operations over its launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ((fun _ => ops (F := F)) c) (launchContents m c) (Proc.devRef .tc b) :=
  run_seq scopedRefs_eq scopedSems_eq (defs (F := F)) (main (F := F)) (fun _ => ops (F := F)) (main_eq (F := F)) (fun _ => ops_sub) m ρ (fun _ => ops_fresh)

/-- From any memory with zero counters, every weakly fair execution of the reference's @main terminates, without a fault,
    with the normalised features and the four tables' rescaled rows in the result buffers — each the reference's own
    composed operations of the argument arrays — and the twelve argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18) = bnRef (F := Ideal) (m ((c.tc : Thread nD τ).loc main_arg0)) (m ((c.tc : Thread nD τ).loc main_arg6)) (m ((c.tc : Thread nD τ).loc main_arg7))
      ∧ r.2.mem ((c.tc : Thread nD τ).loc main_v29) = embRef (F := Ideal) (m ((c.tc : Thread nD τ).loc main_arg8)) (m ((c.tc : Thread nD τ).loc main_arg2))
      ∧ r.2.mem ((c.tc : Thread nD τ).loc main_v40) = embRef (F := Ideal) (m ((c.tc : Thread nD τ).loc main_arg9)) (m ((c.tc : Thread nD τ).loc main_arg3))
      ∧ r.2.mem ((c.tc : Thread nD τ).loc main_v51) = embRef (F := Ideal) (m ((c.tc : Thread nD τ).loc main_arg10)) (m ((c.tc : Thread nD τ).loc main_arg4))
      ∧ r.2.mem ((c.tc : Thread nD τ).loc main_v62) = embRef (F := Ideal) (m ((c.tc : Thread nD τ).loc main_arg11)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v18).trans (res_bn _),
      (h c main_v29).trans (res_e1 _),
      (h c main_v40).trans (res_e2 _),
      (h c main_v51).trans (res_e3 _),
      (h c main_v62).trans (res_e4 _),
      (h c main_arg0).trans (res_arg _ main_arg0 (by decide) (by decide) (by decide) (by decide) (by decide) (by decide) (by decide) (by decide) (by decide) (by decide) (by decide) (by decide) (by decide) (by decide) (by decide) (by decide) (by decide)),
      (h c main_arg1).trans (res_arg _ main_arg1 (by decide) (by decide) (by decide) (by decide) (by decide) (by decide) (by decide) (by decide) (by decide) (by decide) (by decide) (by decide) (by decide) (by decide) (by decide) (by decide) (by decide)),
      (h c main_arg2).trans (res_arg _ main_arg2 (by decide) (by decide) (by decide) (by decide) (by decide) (by decide) (by decide) (by decide) (by decide) (by decide) (by decide) (by decide) (by decide) (by decide) (by decide) (by decide) (by decide)),
      (h c main_arg3).trans (res_arg _ main_arg3 (by decide) (by decide) (by decide) (by decide) (by decide) (by decide) (by decide) (by decide) (by decide) (by decide) (by decide) (by decide) (by decide) (by decide) (by decide) (by decide) (by decide)),
      (h c main_arg4).trans (res_arg _ main_arg4 (by decide) (by decide) (by decide) (by decide) (by decide) (by decide) (by decide) (by decide) (by decide) (by decide) (by decide) (by decide) (by decide) (by decide) (by decide) (by decide) (by decide)),
      (h c main_arg5).trans (res_arg _ main_arg5 (by decide) (by decide) (by decide) (by decide) (by decide) (by decide) (by decide) (by decide) (by decide) (by decide) (by decide) (by decide) (by decide) (by decide) (by decide) (by decide) (by decide)),
      (h c main_arg6).trans (res_arg _ main_arg6 (by decide) (by decide) (by decide) (by decide) (by decide) (by decide) (by decide) (by decide) (by decide) (by decide) (by decide) (by decide) (by decide) (by decide) (by decide) (by decide) (by decide)),
      (h c main_arg7).trans (res_arg _ main_arg7 (by decide) (by decide) (by decide) (by decide) (by decide) (by decide) (by decide) (by decide) (by decide) (by decide) (by decide) (by decide) (by decide) (by decide) (by decide) (by decide) (by decide)),
      (h c main_arg8).trans (res_arg _ main_arg8 (by decide) (by decide) (by decide) (by decide) (by decide) (by decide) (by decide) (by decide) (by decide) (by decide) (by decide) (by decide) (by decide) (by decide) (by decide) (by decide) (by decide)),
      (h c main_arg9).trans (res_arg _ main_arg9 (by decide) (by decide) (by decide) (by decide) (by decide) (by decide) (by decide) (by decide) (by decide) (by decide) (by decide) (by decide) (by decide) (by decide) (by decide) (by decide) (by decide)),
      (h c main_arg10).trans (res_arg _ main_arg10 (by decide) (by decide) (by decide) (by decide) (by decide) (by decide) (by decide) (by decide) (by decide) (by decide) (by decide) (by decide) (by decide) (by decide) (by decide) (by decide) (by decide)),
      (h c main_arg11).trans (res_arg _ main_arg11 (by decide) (by decide) (by decide) (by decide) (by decide) (by decide) (by decide) (by decide) (by decide) (by decide) (by decide) (by decide) (by decide) (by decide) (by decide) (by decide) (by decide))⟩)
    (run_all m ρ)

/-- The reference runs and leaves its arguments unchanged. -/
theorem frame : Cert.frame_ReferenceIdeal (hReferenceIdeal := Cert.ReferenceIdeal.Gen.facts)
    (hPre_input_domain := Cert.Pre_input_domain.Gen.facts) :=
  fun m g _ => (θ_run _ _ _).mono (fun _ h c => (h c).2.2.2.2.2) (run m g)

end Cert.ReferenceIdeal.RefRun

end
-- ==== Proof.ScBodyValDefs.lean ====
/-
  The value of the vector-subcore task of the lookup kernel: the element it leaves at each place of its own lines of
  the outputs, and the statement of its body obligation with that value.
-/
import proofs.«203359_g24824910971486_cont_8to1_1854_34_alg».proof.Proof.ScBodyDefs
import Idealize.ShloMosaic.Lib.ValueIdx

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The element the task puts at line `idx 0`, lane `idx 1` of an output: with `w` the index word at flat position
    `8 * line + lane / 16`, the scaled table's element at line `w >> 3` (arithmetic shift) and lane
    `(w &&& 7) * 16 + lane % 16`. Total: the positions are reduced modulo the extents, which changes nothing when the
    index words are in the tables' range. -/
def gatherAt (T : S12500x128.Idx → Elt F .f32) (I : S819200.Idx → BitVec 32) (idx : S102400x128.Idx) : Elt F .f32 :=
  let w : BitVec 32 := I (ValueIdx.ix1 (⟨(8 * (idx 0).val + (idx 1).val / 16) % 819200, Nat.mod_lt _ (by decide)⟩ : Fin 819200))
  T (ValueIdx.ix2 (⟨(IntOp.shrsi .vector w 3#32).toNat % 12500, Nat.mod_lt _ (by decide)⟩ : Fin 12500)
    (⟨((w &&& 7#32).toNat * 16 + (idx 1).val % 16) % 128, Nat.mod_lt _ (by decide)⟩ : Fin 128))

section Val

variable (d : Dev nD) (L : grid5.Coords)
variable (T0 : Buf (Elt F) (t0Loc d)) (T1 : Buf (Elt F) (t1Loc d)) (T2 : Buf (Elt F) (t2Loc d)) (T3 : Buf (Elt F) (t3Loc d))
variable (I0 : Buf (Elt F) (i0Loc d)) (I1 : Buf (Elt F) (i1Loc d)) (I2 : Buf (Elt F) (i2Loc d)) (I3 : Buf (Elt F) (i3Loc d))

/-- The tile's own lines of the four outputs, each holding the gathered elements. -/
abbrev outVal : sProp 𝕄 :=
  iprop((∃ f : Buf (Elt F) (o0Loc d), ⌜∀ idx ∈ oSet L, f idx = gatherAt (F := F) T0 I0 idx⌝ ∗ o0Loc d ↦[oSet L]{fullShare} f)
    ∗ (∃ f : Buf (Elt F) (o1Loc d), ⌜∀ idx ∈ oSet L, f idx = gatherAt (F := F) T1 I1 idx⌝ ∗ o1Loc d ↦[oSet L]{fullShare} f)
    ∗ (∃ f : Buf (Elt F) (o2Loc d), ⌜∀ idx ∈ oSet L, f idx = gatherAt (F := F) T2 I2 idx⌝ ∗ o2Loc d ↦[oSet L]{fullShare} f)
    ∗ (∃ f : Buf (Elt F) (o3Loc d), ⌜∀ idx ∈ oSet L, f idx = gatherAt (F := F) T3 I3 idx⌝ ∗ o3Loc d ↦[oSet L]{fullShare} f))

end Val

/-- The task of one vector subcore, with the value of what it writes: as `TileBodyStmt`, the tile's lines of the
    outputs handed back holding the gathered elements. -/
def TileBodyValStmt [FloatOps F] : Prop :=
  ∀ (d : Dev nD) (L : grid5.Coords) (qT qI : PosShare TreeShare)
    (T0 : Buf (Elt F) (t0Loc d)) (T1 : Buf (Elt F) (t1Loc d)) (T2 : Buf (Elt F) (t2Loc d)) (T3 : Buf (Elt F) (t3Loc d))
    (I0 : Buf (Elt F) (i0Loc d)) (I1 : Buf (Elt F) (i1Loc d)) (I2 : Buf (Elt F) (i2Loc d)) (I3 : Buf (Elt F) (i3Loc d))
    (_hF : (K (F := F)).Facts) (O : CellTallies nD τ sig (HIx 1)) (W : Waits sig (HIx 1)) (_hO : ∀ g, O g none = 0)
    (_hidx : IdxPre (F := F) d I0 I1 I2 I3),
    iprop(levAts (K (F := F)).L (K (F := F)).lev ∗ emp ∗ handed (F := F) d L qT qI T0 T1 T2 T3 I0 I1 I2 I3
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc5_k L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11)
          fun _ => iprop((roPts (F := F) d qT qI T0 T1 T2 T3 I0 I1 I2 I3 ∗ outVal (F := F) d L T0 T1 T2 T3 I0 I1 I2 I3)
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.ScBody

end
-- ==== Proof.ScPayV.lean ====
/-
  What the SparseCore call hands each vector subcore and takes back, with values: handed as before (a share of the eight
  read-only arrays, its own output lines at any contents), handed back with its output lines holding the gathered
  elements.
-/
import proofs.«203359_g24824910971486_cont_8to1_1854_34_alg».proof.Proof.ScPay
import proofs.«203359_g24824910971486_cont_8to1_1854_34_alg».proof.Proof.ScBodyValDefs

noncomputable section

namespace Cert.Proof.ScPayV

open Cert.KernelIdeal Cert.KernelIdeal.Gen Cert.Proof.ScSetup Cert.Proof.ScMain Cert.Proof.ScBody Cert.Proof.ScPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- The contents of the four scaled tables and the four flattened index arrays at the call, per device.
variable (Tv0 : (d : Dev nD) → Buf (Elt F) (t0Loc d)) (Tv1 : (d : Dev nD) → Buf (Elt F) (t1Loc d))
  (Tv2 : (d : Dev nD) → Buf (Elt F) (t2Loc d)) (Tv3 : (d : Dev nD) → Buf (Elt F) (t3Loc d))
  (Iv0 : (d : Dev nD) → Buf (Elt F) (i0Loc d)) (Iv1 : (d : Dev nD) → Buf (Elt F) (i1Loc d))
  (Iv2 : (d : Dev nD) → Buf (Elt F) (i2Loc d)) (Iv3 : (d : Dev nD) → Buf (Elt F) (i3Loc d))

/-- What vector subcore `i` of SparseCore `c` hands back: its shares, and its own lines of the four outputs holding the
    gathered elements. -/
abbrev tileBack (d : Dev nD) (c : Fin 2) (i : Fin 16) : sProp 𝕄 :=
  iprop(roPts (F := F) d (tileShare (coreShare c.val) i.val) (tileShare (coreShare c.val) i.val)
      (Tv0 d) (Tv1 d) (Tv2 d) (Tv3 d) (Iv0 d) (Iv1 d) (Iv2 d) (Iv3 d)
    ∗ outVal (F := F) d (coordsV c i) (Tv0 d) (Tv1 d) (Tv2 d) (Tv3 d) (Iv0 d) (Iv1 d) (Iv2 d) (Iv3 d))

/-- The one call, with values: handed as in the frame's record, handed back with the gathered elements. -/
def PV : (K (F := F)).Pay (nD := nD) (Val := Elt F) (Name := ℕ) (U := UU) where
  st := fun q d c => match q with
    | 0 => bigSep Finset.univ fun i : Fin 16 => tileHanded Tv0 Tv1 Tv2 Tv3 Iv0 Iv1 Iv2 Iv3 d (Fin.cast nCore_zero c) i
  dn := fun q d c => match q with
    | 0 => bigSep Finset.univ fun i : Fin 16 => tileBack Tv0 Tv1 Tv2 Tv3 Iv0 Iv1 Iv2 Iv3 d (Fin.cast nCore_zero c) i
  go := fun q d c i => match q with
    | 0 => tileHanded Tv0 Tv1 Tv2 Tv3 Iv0 Iv1 Iv2 Iv3 d (Fin.cast nCore_zero c) (Fin.cast nSub_zero i)
  td := fun q d c i => match q with
    | 0 => tileBack Tv0 Tv1 Tv2 Tv3 Iv0 Iv1 Iv2 Iv3 d (Fin.cast nCore_zero c) (Fin.cast nSub_zero i)
  x := fun _ _ => iprop(emp)

set_option synthInstance.maxHeartbeats 1000000 in
set_option maxHeartbeats 1000000 in
instance tileBack_storable (d : Dev nD) (c : Fin 2) (i : Fin 16) :
    BI.Storable (upEmb : UEmb _ 𝕄) (tileBack (F := F) Tv0 Tv1 Tv2 Tv3 Iv0 Iv1 Iv2 Iv3 d c i) := by
  infer_instance

instance PV_storable : (PV (F := F) Tv0 Tv1 Tv2 Tv3 Iv0 Iv1 Iv2 Iv3).IsStorable where
  st q d c := match q with
    | 0 => (inferInstance : BI.Storable (upEmb : UEmb _ 𝕄) (bigSep Finset.univ fun i : Fin 16 => tileHanded Tv0 Tv1 Tv2 Tv3 Iv0 Iv1 Iv2 Iv3 d (Fin.cast nCore_zero c) i))
  dn q d c := match q with
    | 0 => (inferInstance : BI.Storable (upEmb : UEmb _ 𝕄) (bigSep Finset.univ fun i : Fin 16 => tileBack Tv0 Tv1 Tv2 Tv3 Iv0 Iv1 Iv2 Iv3 d (Fin.cast nCore_zero c) i))
  go q d c i := match q with
    | 0 => (inferInstance : BI.Storable (upEmb : UEmb _ 𝕄) (tileHanded Tv0 Tv1 Tv2 Tv3 Iv0 Iv1 Iv2 Iv3 d (Fin.cast nCore_zero c) (Fin.cast nSub_zero i)))
  td q d c i := match q with
    | 0 => (inferInstance : BI.Storable (upEmb : UEmb _ 𝕄) (tileBack Tv0 Tv1 Tv2 Tv3 Iv0 Iv1 Iv2 Iv3 d (Fin.cast nCore_zero c) (Fin.cast nSub_zero i)))

end Cert.Proof.ScPayV

end
-- ==== Proof.ScMainV.lean ====
/-
  @main on the TensorCore inside the SparseCore launch, with values: the SparseCore call leaves the four outputs at
  given contents, and @main ends holding every unscoped buffer whole at one final valuation, a function of the launch
  memory.
-/
import proofs.«203359_g24824910971486_cont_8to1_1854_34_alg».proof.Proof.ScCall

noncomputable section

namespace Cert.Proof.ScMainV

open Cert.KernelIdeal Cert.KernelIdeal.Gen Cert.Proof.ScSetup Cert.Proof.ScMain Cert.Proof.ScCall

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

section Main

variable (P : (K (F := F)).Pay (nD := nD) (Val := Elt F) (Name := ℕ) (U := UU))

variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))

-- What the SparseCore call leaves in its four outputs, per device.
variable (Go0 : (d : Dev nD) → (dr main_v15_0).ty.Contents (Elt F)) (Go1 : (d : Dev nD) → (dr main_v15_1).ty.Contents (Elt F))
  (Go2 : (d : Dev nD) → (dr main_v15_2).ty.Contents (Elt F)) (Go3 : (d : Dev nD) → (dr main_v15_3).ty.Contents (Elt F))

/-- The buffers after the SparseCore call: the four outputs at the given contents. -/
abbrev WD (d : Dev nD) : Valuation τ sig (Elt F) := upd4 (WC m R0 R1 R2 R3 R4 d) (Go0 d) (Go1 d) (Go2 d) (Go3 d)
/-- The final valuation: the four outputs reshaped to the results. -/
abbrev WE (d : Dev nD) : Valuation τ sig (Elt F) :=
  opO3.result (opO2.result (opO1.result (opO0.result (WD m R0 R1 R2 R3 R4 Go0 Go1 Go2 Go3 d))))

theorem keeps_WE (d : Dev nD) : Keeps m d (WE m R0 R1 R2 R3 R4 Go0 Go1 Go2 Go3 d) := by
  refine keeps_result m d _ (show Disjoint ({dr main_v19} : Finset (DevRef τ sig)) Sargs by decide) ?_
  refine keeps_result m d _ (show Disjoint ({dr main_v18} : Finset (DevRef τ sig)) Sargs by decide) ?_
  refine keeps_result m d _ (show Disjoint ({dr main_v17} : Finset (DevRef τ sig)) Sargs by decide) ?_
  refine keeps_result m d _ (show Disjoint ({dr main_v16} : Finset (DevRef τ sig)) Sargs by decide) ?_
  exact keeps_update m d _ (by decide) _ (keeps_update m d _ (by decide) _ (keeps_update m d _ (by decide) _
    (keeps_update m d _ (by decide) _ (keeps_WC m R0 R1 R2 R3 R4 d))))

/-- The SparseCore call as a step, with values: the buffers held whole at the call's valuation split into what each
    SparseCore is handed, and what they hand back joins into the buffers whole, the four outputs at the given contents. -/
def CallStepV : Prop :=
  ∀ d : Dev nD, (held (SparseCore.T d) Sall (WC m R0 R1 R2 R3 R4 d) : sProp 𝕄)
    ⊢ |={Set.univ}=> iprop((bigSep Finset.univ fun c : Fin ((K (F := F)).nCore 0) => P.st 0 d c)
        ∗ ((bigSep Finset.univ fun c : Fin ((K (F := F)).nCore 0) => P.dn 0 d c)
            -∗ (held (SparseCore.T d) Sall (WD m R0 R1 R2 R3 R4 Go0 Go1 Go2 Go3 d) : sProp 𝕄)))

/-- What @main leaves the claim: every unscoped buffer whole at the final valuation. -/
def FINV (d : Dev nD) : sProp 𝕄 := (held (SparseCore.T d) Sall (WE m R0 R1 R2 R3 R4 Go0 Go1 Go2 Go3 d) : sProp 𝕄)

theorem hmainV (G0 G1 G2 G3 G4 G5 : Dev nD → sProp 𝕄)
    (hR0 : RegionStep P 0 main_v2 R0 G0 G1) (hR1 : RegionStep P 1 main_v7 R1 G1 G2) (hR2 : RegionStep P 2 main_v8 R2 G2 G3)
    (hR3 : RegionStep P 3 main_v9 R3 G3 G4) (hR4 : RegionStep P 4 main_v10 R4 G4 G5)
    (hcall : CallStepV m P R0 R1 R2 R3 R4 Go0 Go1 Go2 Go3)
    (κ : GSem nD τ sig → ℕ) (d : Dev nD) :
    iprop((K (F := F)).ctx EH P κ ∗ (K (F := F)).tcSt EH d 0 ∗ (K (F := F)).tcRes m ρ d ∗ G0 d)
      ⊢ wp frame (wpE ((K (F := F)).defs (D (F := F))) 𝒱 (SparseCore.T d) none) Set.univ (main d)
          fun _ => iprop((K (F := F)).tcSt EH d 1 ∗ FINV m R0 R1 R2 R3 R4 Go0 Go1 Go2 Go3 d) := by
  unfold SparseCore.Cfg.tcRes
  rw [unscoped_held]
  simp only [main, wp_bind, wp_pure]
  iintro ⟨#Hctx, Hst, ⟨Hb, Hheld, -, -⟩, HG⟩
  iapply (host_op d rfl opC0 hC0 rfl _ _) $$ [Hb Hheld]
  · isplitl [Hb]; · iexact Hb
    iexact Hheld
  iintro ⟨Hb, Hheld⟩
  iapply (host_op d rfl opC1 hC1 rfl _ _) $$ [Hb Hheld]
  · isplitl [Hb]; · iexact Hb
    iexact Hheld
  iintro ⟨Hb, Hheld⟩
  iapply (host_op d rfl opG hG rfl _ _) $$ [Hb Hheld]
  · isplitl [Hb]; · iexact Hb
    iexact Hheld
  iintro ⟨Hb, Hheld⟩
  iapply (host_op d rfl opB hB rfl _ _) $$ [Hb Hheld]
  · isplitl [Hb]; · iexact Hb
    iexact Hheld
  iintro ⟨Hb, Hheld⟩
  iapply (hR0 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (host_op d rfl opT0 hT0 rfl _ _) $$ [Hb Hheld]
  · isplitl [Hb]; · iexact Hb
    iexact Hheld
  iintro ⟨Hb, Hheld⟩
  iapply (host_op d rfl opT1 hT1 rfl _ _) $$ [Hb Hheld]
  · isplitl [Hb]; · iexact Hb
    iexact Hheld
  iintro ⟨Hb, Hheld⟩
  iapply (host_op d rfl opT2 hT2 rfl _ _) $$ [Hb Hheld]
  · isplitl [Hb]; · iexact Hb
    iexact Hheld
  iintro ⟨Hb, Hheld⟩
  iapply (host_op d rfl opT3 hT3 rfl _ _) $$ [Hb Hheld]
  · isplitl [Hb]; · iexact Hb
    iexact Hheld
  iintro ⟨Hb, Hheld⟩
  iapply (hR1 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (hR2 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (hR3 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (hR4 κ d _ _) $$ [Hst Hb Hheld HG]
  · isplitr; · iexact Hctx
    isplitl [Hst]; · iexact Hst
    isplitl [Hb]; · iexact Hb
    isplitl [Hheld]; · iexact Hheld
    iexact HG
  iintro ⟨Hst, Hb, Hheld, HG⟩
  iapply (host_op d rfl opI0 hI0 rfl _ _) $$ [Hb Hheld]
  · isplitl [Hb]; · iexact Hb
    iexact Hheld
  iintro ⟨Hb, Hheld⟩
  iapply (host_op d rfl opI1 hI1 rfl _ _) $$ [Hb Hheld]
  · isplitl [Hb]; · iexact Hb
    iexact Hheld
  iintro ⟨Hb, Hheld⟩
  iapply (host_op d rfl opI2 hI2 rfl _ _) $$ [Hb Hheld]
  · isplitl [Hb]; · iexact Hb
    iexact Hheld
  iintro ⟨Hb, Hheld⟩
  iapply (host_op d rfl opI3 hI3 rfl _ _) $$ [Hb Hheld]
  · isplitl [Hb]; · iexact Hb
    iexact Hheld
  iintro ⟨Hb, Hheld⟩
  -- the SparseCore call
  imod (hcall d) $$ Hheld with Hc
  icases Hc with ⟨Hstc, Hback⟩
  iapply ((K (F := F)).wp_run (D (F := F)) 𝒱 (EH := EH) (P := P) κ d 0) $$ [Hst Hstc Hb Hback]
  isplitr; · iexact Hctx
  isplitl [Hst]; · iexact Hst
  isplitl [Hstc]; · iexact Hstc
  iintro ⟨Hst, Hdn⟩
  ihave Hheld := Hback $$ Hdn
  iapply (host_op d rfl opO0 hO0 rfl _ _) $$ [Hb Hheld]
  · isplitl [Hb]; · iexact Hb
    iexact Hheld
  iintro ⟨Hb, Hheld⟩
  iapply (host_op d rfl opO1 hO1 rfl _ _) $$ [Hb Hheld]
  · isplitl [Hb]; · iexact Hb
    iexact Hheld
  iintro ⟨Hb, Hheld⟩
  iapply (host_op d rfl opO2 hO2 rfl _ _) $$ [Hb Hheld]
  · isplitl [Hb]; · iexact Hb
    iexact Hheld
  iintro ⟨Hb, Hheld⟩
  iapply (host_op d rfl opO3 hO3 rfl _ _) $$ [Hb Hheld]
  · isplitl [Hb]; · iexact Hb
    iexact Hheld
  iintro ⟨Hb, Hheld⟩
  imodintro
  isplitl [Hst]; · iexact Hst
  unfold FINV
  iexact Hheld

end Main

end Cert.Proof.ScMainV

end
-- ==== Proof.ScLaunchV.lean ====
/-
  The launch of the SparseCore program, with values: the tile kernel's obligation from its body's run with the value of
  what it writes, and the run of the whole thread family ending with every unscoped buffer at the final valuation.
-/
import proofs.«203359_g24824910971486_cont_8to1_1854_34_alg».proof.Proof.ScLaunch
import proofs.«203359_g24824910971486_cont_8to1_1854_34_alg».proof.Proof.ScPayV
import proofs.«203359_g24824910971486_cont_8to1_1854_34_alg».proof.Proof.ScMainV

noncomputable section

namespace Cert.Proof.ScLaunchV

open Cert.KernelIdeal Cert.KernelIdeal.Gen Cert.Proof.ScSetup Cert.Proof.ScMain Cert.Proof.ScBody Cert.Proof.ScPay Cert.Proof.ScPayV
  Cert.Proof.ScLaunch Cert.Proof.ScCall Cert.Proof.ScMainV

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable (Tv0 : (d : Dev nD) → Buf (Elt F) (t0Loc d)) (Tv1 : (d : Dev nD) → Buf (Elt F) (t1Loc d))
  (Tv2 : (d : Dev nD) → Buf (Elt F) (t2Loc d)) (Tv3 : (d : Dev nD) → Buf (Elt F) (t3Loc d))
  (Iv0 : (d : Dev nD) → Buf (Elt F) (i0Loc d)) (Iv1 : (d : Dev nD) → Buf (Elt F) (i1Loc d))
  (Iv2 : (d : Dev nD) → Buf (Elt F) (i2Loc d)) (Iv3 : (d : Dev nD) → Buf (Elt F) (i3Loc d))

local notation "PPV" => PV (F := F) Tv0 Tv1 Tv2 Tv3 Iv0 Iv1 Iv2 Iv3

theorem vecSplitV : (K (F := F)).VecSplit' PPV 0 := by
  intro d c
  show (bigSep Finset.univ fun i : Fin 16 => tileHanded Tv0 Tv1 Tv2 Tv3 Iv0 Iv1 Iv2 Iv3 d (Fin.cast nCore_zero c) i)
    ⊢ |={Set.univ}=> iprop((bigSep Finset.univ fun i : Fin 16 => tileHanded Tv0 Tv1 Tv2 Tv3 Iv0 Iv1 Iv2 Iv3 d (Fin.cast nCore_zero c) i)
      ∗ ((bigSep Finset.univ fun i : Fin 16 => tileBack Tv0 Tv1 Tv2 Tv3 Iv0 Iv1 Iv2 Iv3 d (Fin.cast nCore_zero c) i)
          -∗ (bigSep Finset.univ fun i : Fin 16 => tileBack Tv0 Tv1 Tv2 Tv3 Iv0 Iv1 Iv2 Iv3 d (Fin.cast nCore_zero c) i)))
  iintro H
  imodintro
  isplitl [H]; · iexact H
  iintro H; iexact H

variable [FloatOps F]

theorem tileOblV (hbody : TileBodyValStmt (F := F))
    (hidx : ∀ d : Dev nD, IdxPre (F := F) d (Iv0 d) (Iv1 d) (Iv2 d) (Iv3 d)) :
    (K (F := F)).TileObl (D (F := F)) 𝒱 PPV v₀ 0 := by
  intro d c i O W hO _ _
  simp only [show (PPV).ox = fun _ _ => 0 from rfl, add_zero]
  change _ ⊢ wp _ _ _ (Pipeline.liftProg (defs₀ (F := F) (.scVector ((K (F := F)).core 0 c) ((K (F := F)).sub 0 i)) 5 ())) _
  refine BI.Entails.trans ?_ (Pipeline.wp_liftProg (D (F := F)) (Pipeline.defs_kernel pcfgs defs₀) 𝒱₀ _ Set.univ none _ _)
  have hc : ((K (F := F)).core 0 c).val < grid5.bound 0 ∧ ((K (F := F)).sub 0 i).val < grid5.bound 1 := ⟨c.isLt, i.isLt⟩
  rw [defs₀_vector]; simp only [SparseCore.onTile, hc, and_self, ↓reduceDIte]
  exact (hbody d (coordsV ⟨_, hc.1⟩ ⟨_, hc.2⟩) _ _ (Tv0 d) (Tv1 d) (Tv2 d) (Tv3 d) (Iv0 d) (Iv1 d) (Iv2 d) (Iv3 d) facts O W hO (hidx d)).trans
    (wp_mono frame _ _ fun _ => obl_post)

omit [FloatOps F] in
theorem hu₀V (G0 : Dev nD → sProp 𝕄) (uP : UP) (hfund : (BI.own (EP (F := F) uP) : sProp 𝕄) ⊢ |={Set.univ}=> bigSep Finset.univ G0) :
    (ownU (u₀ (F := F) uP) : sProp 𝕄)
      ⊢ |={Set.univ}=> iprop(BI.own (EH (initOf (K (F := F)).hsCells (K (F := F)).hsToks)) ∗ (bigSep Finset.univ G0)
        ∗ bigSep Finset.univ fun thr : Thread nD τ => bigSep Finset.univ fun q : Fin 1 => (PPV).x q thr) := by
  unfold u₀
  iintro Hu
  ihave H := (ownU_pair _ _) $$ Hu
  icases H with ⟨HH, HR⟩
  ihave H2 := (own_pair_emb (embR : Emb (UP × Counters) 𝕄) uP (1 : Counters)) $$ HR
  icases H2 with ⟨HP, -⟩
  unfold EP at hfund
  imod hfund $$ HP with HG
  imodintro
  isplitl [HH]; · iexact HH
  isplitl [HG]; · iexact HG
  unfold PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))
variable (Go0 : (d : Dev nD) → (dr main_v15_0).ty.Contents (Elt F)) (Go1 : (d : Dev nD) → (dr main_v15_1).ty.Contents (Elt F))
  (Go2 : (d : Dev nD) → (dr main_v15_2).ty.Contents (Elt F)) (Go3 : (d : Dev nD) → (dr main_v15_3).ty.Contents (Elt F))

/-- The final memory holds the final valuation in every unscoped buffer. -/
def fqV (d : Dev nD) (s' : Phys nD τ sig (Elt F)) : Prop :=
  ∀ b ∈ Sall, s'.mem.mem (d, b) = WE m R0 R1 R2 R3 R4 Go0 Go1 Go2 Go3 d b

omit [FloatOps F] in
theorem hfinV [FloatOps F] (d : Dev nD) (s' : Phys nD τ sig (Elt F)) :
    iprop(FINV m R0 R1 R2 R3 R4 Go0 Go1 Go2 Go3 d ∗ SI s') ⊢ (⌜fqV m R0 R1 R2 R3 R4 Go0 Go1 Go2 Go3 d s'⌝ : sProp 𝕄) := by
  unfold FINV held
  iintro ⟨Hh, HSI⟩
  ihave %h := (SI_pointsTo_bufs_agree (st := s') (c := d) (qs := fun _ => fullShare) (F := WE m R0 R1 R2 R3 R4 Go0 Go1 Go2 Go3 d) Sall) $$ [HSI Hh]
  · isplitl [HSI]; · iexact HSI
    iexact Hh
  ipureintro
  exact h

def QCV : PUnit × MemSt nD τ sig (Elt F) → Prop :=
  fun r => ∀ c : Dev nD, ∀ b ∈ Sall, r.2.mem (c, b) = WE m R0 R1 R2 R3 R4 Go0 Go1 Go2 Go3 c b

/-- Every weakly fair execution of the whole thread family terminates, nothing faulting, every unscoped buffer at the
    final valuation. -/
theorem run_mainV [∀ e, Nonempty (Elt F e)] (G0 G1 G2 G3 G4 G5 : Dev nD → sProp 𝕄) (uP : UP)
    (hbody : TileBodyValStmt (F := F)) (hidx : ∀ d : Dev nD, IdxPre (F := F) d (Iv0 d) (Iv1 d) (Iv2 d) (Iv3 d))
    (hR0 : RegionStep PPV 0 main_v2 R0 G0 G1) (hR1 : RegionStep PPV 1 main_v7 R1 G1 G2) (hR2 : RegionStep PPV 2 main_v8 R2 G2 G3)
    (hR3 : RegionStep PPV 3 main_v9 R3 G3 G4) (hR4 : RegionStep PPV 4 main_v10 R4 G4 G5)
    (hcall : CallStepV m PPV R0 R1 R2 R3 R4 Go0 Go1 Go2 Go3)
    (hfund : (BI.own (EP (F := F) uP) : sProp 𝕄) ⊢ |={Set.univ}=> bigSep Finset.univ G0) :
    θ_run (Cert.KernelIdeal.defs (F := F)) (Cert.KernelIdeal.threads (F := F)) ⟨m, fun _ => 0, ρ⟩ (QCV m R0 R1 R2 R3 R4 Go0 Go1 Go2 Go3) :=
  SparseCore.Cfg.θ_run_sc (K := K (F := F)) (D := D (F := F)) (𝒱 := 𝒱) (EH := EH) (P := PPV) facts v₀
    (fun q hq => match q with | 0 => nomatch hq)
    (fun q _ => match q with | 0 => tileOblV Tv0 Tv1 Tv2 Tv3 Iv0 Iv1 Iv2 Iv3 hbody hidx)
    (fun q _ => match q with | 0 => SparseCore.Cfg.VecSplit.of_plain (vecSplitV Tv0 Tv1 Tv2 Tv3 Iv0 Iv1 Iv2 Iv3))
    m ρ main G0 (FINV m R0 R1 R2 R3 R4 Go0 Go1 Go2 Go3) (u₀ (F := F) uP) (sep_elim_left.trans (hu₀V Tv0 Tv1 Tv2 Tv3 Iv0 Iv1 Iv2 Iv3 G0 uP hfund))
    (hmainV m ρ PPV R0 R1 R2 R3 R4 Go0 Go1 Go2 Go3 G0 G1 G2 G3 G4 G5 hR0 hR1 hR2 hR3 hR4 hcall) (fqV m R0 R1 R2 R3 R4 Go0 Go1 Go2 Go3)
    (hfinV m R0 R1 R2 R3 R4 Go0 Go1 Go2 Go3) (QCV m R0 R1 R2 R3 R4 Go0 Go1 Go2 Go3) (fun _ h => h)

end Cert.Proof.ScLaunchV

end
-- ==== Proof.ScCallV.lean ====
/-
  The SparseCore call's split, with values: what the thirty-two subcores hand back — their output lines holding the
  gathered elements — joins into the four outputs whole at the gathered array.
-/
import proofs.«203359_g24824910971486_cont_8to1_1854_34_alg».proof.Proof.ScLaunchV

noncomputable section

namespace Cert.Proof.ScCallV

open Cert.KernelIdeal Cert.KernelIdeal.Gen Cert.Proof.ScSetup Cert.Proof.ScMain Cert.Proof.ScBody Cert.Proof.ScPay Cert.Proof.ScPayV
  Cert.Proof.ScCall Cert.Proof.ScMainV

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type}

local notation "𝕄" => MT nD τ sig (HIx 1) (Elt F) ℕ UU ℕ

/-- Thirty-two pieces, each agreeing with one array on its own lines, are that array whole. -/
theorem lines_joinV {ℓ : Loc nD τ sig} (Kp : Fin 2 × Fin 16 → Finset (Idx ℓ))
    (hdisj : ∀ p ∈ (Finset.univ : Finset (Fin 2 × Fin 16)), ∀ p' ∈ (Finset.univ : Finset (Fin 2 × Fin 16)), p ≠ p' → Disjoint (Kp p) (Kp p'))
    (hcov : (Finset.univ : Finset (Fin 2 × Fin 16)).biUnion Kp = Finset.univ) (G : Buf (Elt F) ℓ) :
    (bigSep Finset.univ fun c : Fin 2 => bigSep Finset.univ fun i : Fin 16 =>
        iprop(∃ f : Buf (Elt F) ℓ, ⌜∀ idx ∈ Kp (c, i), f idx = G idx⌝ ∗ ℓ ↦[Kp (c, i)]{fullShare} f))
      ⊢ (ℓ ↦{fullShare} G : sProp 𝕄) := by
  rw [pointsTo_lines Kp hdisj hcov G]
  exact bigSep_mono fun c _ => bigSep_mono fun i _ =>
    show (iprop(∃ f : Buf (Elt F) ℓ, ⌜∀ idx ∈ Kp (c, i), f idx = G idx⌝ ∗ ℓ ↦[Kp (c, i)]{fullShare} f) : sProp 𝕄)
        ⊢ (ℓ ↦[Kp (c, i)]{fullShare} G : sProp 𝕄) from by
      iintro ⟨%f, %hf, H⟩
      rw [← pointsTo_congr hf]
      iexact H

section Split

variable [FloatOps F]
variable (m : (ℓ : Loc nD τ sig) → Buf (Elt F) ℓ)

/-- What the thirty-two subcores hand back, SparseCore by SparseCore. -/
abbrev allBack (d : Dev nD) (W : Valuation τ sig (Elt F)) : sProp 𝕄 :=
  bigSep Finset.univ fun c : Fin 2 => bigSep Finset.univ fun i : Fin 16 =>
    iprop(roPts (F := F) d (tileShare (coreShare c.val) i.val) (tileShare (coreShare c.val) i.val)
        (W (dr main_v7)) (W (dr main_v8)) (W (dr main_v9)) (W (dr main_v10))
        (W (dr main_v11)) (W (dr main_v12)) (W (dr main_v13)) (W (dr main_v14))
      ∗ outVal (F := F) d (coordsV c i) (W (dr main_v7)) (W (dr main_v8)) (W (dr main_v9)) (W (dr main_v10))
        (W (dr main_v11)) (W (dr main_v12)) (W (dr main_v13)) (W (dr main_v14)))

set_option maxHeartbeats 4000000 in
theorem split_genV (d : Dev nD) (W : Valuation τ sig (Elt F)) :
    (held (SparseCore.T d) Sall W : sProp 𝕄)
      ⊢ |={Set.univ}=> iprop(allHanded (F := F) d W
          ∗ (allBack (F := F) d W -∗ (held (SparseCore.T d) Sall
              (upd4 W (fun idx => gatherAt (F := F) (W (dr main_v7)) (W (dr main_v11)) idx)
                (fun idx => gatherAt (F := F) (W (dr main_v8)) (W (dr main_v12)) idx)
                (fun idx => gatherAt (F := F) (W (dr main_v9)) (W (dr main_v13)) idx)
                (fun idx => gatherAt (F := F) (W (dr main_v10)) (W (dr main_v14)) idx)) : sProp 𝕄))) := by
  unfold allHanded allBack
  simp only [handed, roPts, outPts, outVal, bigSep_sep']
  rw [held_sub_split (SparseCore.T d) S12_sub W, held_S12]
  rw [pointsTo_tileShares (ℓ := t0Loc d) Finset.univ (W (dr main_v7)), pointsTo_tileShares (ℓ := t1Loc d) Finset.univ (W (dr main_v8)),
    pointsTo_tileShares (ℓ := t2Loc d) Finset.univ (W (dr main_v9)), pointsTo_tileShares (ℓ := t3Loc d) Finset.univ (W (dr main_v10)),
    pointsTo_tileShares (ℓ := i0Loc d) Finset.univ (W (dr main_v11)), pointsTo_tileShares (ℓ := i1Loc d) Finset.univ (W (dr main_v12)),
    pointsTo_tileShares (ℓ := i2Loc d) Finset.univ (W (dr main_v13)), pointsTo_tileShares (ℓ := i3Loc d) Finset.univ (W (dr main_v14)),
    pointsTo_lines (ℓ := o0Loc d) oK oK_disjoint oK_cover (W (dr main_v15_0)), pointsTo_lines (ℓ := o1Loc d) oK oK_disjoint oK_cover (W (dr main_v15_1)),
    pointsTo_lines (ℓ := o2Loc d) oK oK_disjoint oK_cover (W (dr main_v15_2)), pointsTo_lines (ℓ := o3Loc d) oK oK_disjoint oK_cover (W (dr main_v15_3))]
  iintro ⟨⟨H0, H1, H2, H3, H4, H5, H6, H7, O0, O1, O2, O3⟩, Hrest⟩
  imodintro
  isplitl [H0 H1 H2 H3 H4 H5 H6 H7 O0 O1 O2 O3]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · isplitl [O0]; · iapply (lines_some (ℓ := o0Loc d) oK (W (dr main_v15_0))); iexact O0
      isplitl [O1]; · iapply (lines_some (ℓ := o1Loc d) oK (W (dr main_v15_1))); iexact O1
      isplitl [O2]; · iapply (lines_some (ℓ := o2Loc d) oK (W (dr main_v15_2))); iexact O2
      iapply (lines_some (ℓ := o3Loc d) oK (W (dr main_v15_3))); iexact O3
  · iintro ⟨⟨H0, H1, H2, H3, H4, H5, H6, H7⟩, O0, O1, O2, O3⟩
    ihave G0 := (lines_joinV (ℓ := o0Loc d) oK oK_disjoint oK_cover (fun idx => gatherAt (F := F) (W (dr main_v7)) (W (dr main_v11)) idx)) $$ O0
    ihave G1 := (lines_joinV (ℓ := o1Loc d) oK oK_disjoint oK_cover (fun idx => gatherAt (F := F) (W (dr main_v8)) (W (dr main_v12)) idx)) $$ O1
    ihave G2 := (lines_joinV (ℓ := o2Loc d) oK oK_disjoint oK_cover (fun idx => gatherAt (F := F) (W (dr main_v9)) (W (dr main_v13)) idx)) $$ O2
    ihave G3 := (lines_joinV (ℓ := o3Loc d) oK oK_disjoint oK_cover (fun idx => gatherAt (F := F) (W (dr main_v10)) (W (dr main_v14)) idx)) $$ O3
    have hrest : (held (SparseCore.T d) (Sall \ S12) (upd4 W (fun idx => gatherAt (F := F) (W (dr main_v7)) (W (dr main_v11)) idx) (fun idx => gatherAt (F := F) (W (dr main_v8)) (W (dr main_v12)) idx) (fun idx => gatherAt (F := F) (W (dr main_v9)) (W (dr main_v13)) idx) (fun idx => gatherAt (F := F) (W (dr main_v10)) (W (dr main_v14)) idx)) : sProp 𝕄) = held (SparseCore.T d) (Sall \ S12) W :=
      held_congr (SparseCore.T d) fun b hb => by
        have hb' : b ∉ S12 := (Finset.mem_sdiff.mp hb).2
        exact upd4_other W _ _ _ _ b (fun e => hb' (e ▸ (by decide : dr main_v15_0 ∈ S12)))
          (fun e => hb' (e ▸ (by decide : dr main_v15_1 ∈ S12))) (fun e => hb' (e ▸ (by decide : dr main_v15_2 ∈ S12)))
          (fun e => hb' (e ▸ (by decide : dr main_v15_3 ∈ S12)))
    rw [held_sub_split (SparseCore.T d) S12_sub (upd4 W (fun idx => gatherAt (F := F) (W (dr main_v7)) (W (dr main_v11)) idx) (fun idx => gatherAt (F := F) (W (dr main_v8)) (W (dr main_v12)) idx) (fun idx => gatherAt (F := F) (W (dr main_v9)) (W (dr main_v13)) idx) (fun idx => gatherAt (F := F) (W (dr main_v10)) (W (dr main_v14)) idx)), held_S12_upd4, hrest]
    ihave H0 := (Entails.of_eq (pointsTo_tileShares (ℓ := t0Loc d) Finset.univ (W (dr main_v7))).symm) $$ H0
    ihave H1 := (Entails.of_eq (pointsTo_tileShares (ℓ := t1Loc d) Finset.univ (W (dr main_v8))).symm) $$ H1
    ihave H2 := (Entails.of_eq (pointsTo_tileShares (ℓ := t2Loc d) Finset.univ (W (dr main_v9))).symm) $$ H2
    ihave H3 := (Entails.of_eq (pointsTo_tileShares (ℓ := t3Loc d) Finset.univ (W (dr main_v10))).symm) $$ H3
    ihave H4 := (Entails.of_eq (pointsTo_tileShares (ℓ := i0Loc d) Finset.univ (W (dr main_v11))).symm) $$ H4
    ihave H5 := (Entails.of_eq (pointsTo_tileShares (ℓ := i1Loc d) Finset.univ (W (dr main_v12))).symm) $$ H5
    ihave H6 := (Entails.of_eq (pointsTo_tileShares (ℓ := i2Loc d) Finset.univ (W (dr main_v13))).symm) $$ H6
    ihave H7 := (Entails.of_eq (pointsTo_tileShares (ℓ := i3Loc d) Finset.univ (W (dr main_v14))).symm) $$ H7
    isplitr [Hrest]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [G0]; · iexact G0
      isplitl [G1]; · iexact G1
      isplitl [G2]; · iexact G2
      iexact G3
    · iexact Hrest

end Split

/-! ## The call's step, with values -/

section Call

variable [FloatOps F]
variable (m : (ℓ : Loc nD τ sig) → Buf (Elt F) ℓ)
variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))

/-- What the SparseCore call leaves in output `k`: the gathered array of table `k` scaled and index array `k` flattened,
    as the call's valuation holds them. -/
abbrev Go0 (d : Dev nD) : (dr main_v15_0).ty.Contents (Elt F) :=
  fun idx => gatherAt (F := F) (WC m R0 R1 R2 R3 R4 d (dr main_v7)) (WC m R0 R1 R2 R3 R4 d (dr main_v11)) idx
abbrev Go1 (d : Dev nD) : (dr main_v15_1).ty.Contents (Elt F) :=
  fun idx => gatherAt (F := F) (WC m R0 R1 R2 R3 R4 d (dr main_v8)) (WC m R0 R1 R2 R3 R4 d (dr main_v12)) idx
abbrev Go2 (d : Dev nD) : (dr main_v15_2).ty.Contents (Elt F) :=
  fun idx => gatherAt (F := F) (WC m R0 R1 R2 R3 R4 d (dr main_v9)) (WC m R0 R1 R2 R3 R4 d (dr main_v13)) idx
abbrev Go3 (d : Dev nD) : (dr main_v15_3).ty.Contents (Elt F) :=
  fun idx => gatherAt (F := F) (WC m R0 R1 R2 R3 R4 d (dr main_v10)) (WC m R0 R1 R2 R3 R4 d (dr main_v14)) idx

theorem callStepV :
    CallStepV m (PV (F := F) (fun d => WC m R0 R1 R2 R3 R4 d (dr main_v7)) (fun d => WC m R0 R1 R2 R3 R4 d (dr main_v8))
      (fun d => WC m R0 R1 R2 R3 R4 d (dr main_v9)) (fun d => WC m R0 R1 R2 R3 R4 d (dr main_v10))
      (fun d => WC m R0 R1 R2 R3 R4 d (dr main_v11)) (fun d => WC m R0 R1 R2 R3 R4 d (dr main_v12))
      (fun d => WC m R0 R1 R2 R3 R4 d (dr main_v13)) (fun d => WC m R0 R1 R2 R3 R4 d (dr main_v14))) R0 R1 R2 R3 R4
      (Go0 m R0 R1 R2 R3 R4) (Go1 m R0 R1 R2 R3 R4) (Go2 m R0 R1 R2 R3 R4) (Go3 m R0 R1 R2 R3 R4) :=
  fun d => split_genV d (WC m R0 R1 R2 R3 R4 d)

end Call

end Cert.Proof.ScCallV

end
-- ==== Proof.ScFrameV.lean ====
/-
  The run of the SparseCore program with values, the frame claim read off it, and what the final valuation holds in the
  result buffers.
-/
import proofs.«203359_g24824910971486_cont_8to1_1854_34_alg».proof.Proof.ScFrame
import proofs.«203359_g24824910971486_cont_8to1_1854_34_alg».proof.Proof.ScCallV

noncomputable section

namespace Cert.Proof.ScFrameV

open Cert.KernelIdeal Cert.KernelIdeal.Gen Cert.Proof.ScSetup Cert.Proof.ScMain Cert.Proof.ScBody Cert.Proof.ScPay Cert.Proof.ScPayV
  Cert.Proof.ScLaunchV Cert.Proof.ScCall Cert.Proof.ScCallV Cert.Proof.ScMainV Cert.Proof.ScFrame

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-- What the SparseCore call leaves in its outputs: the gathered arrays at the call's valuation. -/
abbrev Gk0 (d : Dev nD) := Go0 m (ScReg0.R0 (F := F)) (ScReg1.Rout (F := F)) (ScReg2.Rout (F := F)) (ScReg3.Rout (F := F)) (ScReg4.Rout (F := F)) d
abbrev Gk1 (d : Dev nD) := Go1 m (ScReg0.R0 (F := F)) (ScReg1.Rout (F := F)) (ScReg2.Rout (F := F)) (ScReg3.Rout (F := F)) (ScReg4.Rout (F := F)) d
abbrev Gk2 (d : Dev nD) := Go2 m (ScReg0.R0 (F := F)) (ScReg1.Rout (F := F)) (ScReg2.Rout (F := F)) (ScReg3.Rout (F := F)) (ScReg4.Rout (F := F)) d
abbrev Gk3 (d : Dev nD) := Go3 m (ScReg0.R0 (F := F)) (ScReg1.Rout (F := F)) (ScReg2.Rout (F := F)) (ScReg3.Rout (F := F)) (ScReg4.Rout (F := F)) d

/-- The final valuation of the unscoped buffers. -/
abbrev Wf (d : Dev nD) : Valuation τ sig (Elt F) :=
  WE m (ScReg0.R0 (F := F)) (ScReg1.Rout (F := F)) (ScReg2.Rout (F := F)) (ScReg3.Rout (F := F)) (ScReg4.Rout (F := F))
    (Gk0 m) (Gk1 m) (Gk2 m) (Gk3 m) d

theorem keeps_Wf (d : Dev nD) : Keeps m d (Wf m d) := keeps_WE m _ _ _ _ _ _ _ _ _ d

set_option backward.isDefEq.respectTransparency.types false in
/-- Every weakly fair execution of the whole thread family terminates, nothing faulting, every unscoped buffer at the
    final valuation — from the tile kernel's body run with values and the index words' range. -/
theorem runV [∀ e, Nonempty (Elt F e)] (hbody : TileBodyValStmt (F := F))
    (hidx : ∀ d : Dev nD, IdxPre (F := F) d (Wc m d (dr main_v11)) (Wc m d (dr main_v12)) (Wc m d (dr main_v13)) (Wc m d (dr main_v14))) :
    θ_run (Cert.KernelIdeal.defs (F := F)) (Cert.KernelIdeal.threads (F := F)) ⟨m, fun _ => 0, ρ⟩
      (fun r => ∀ c : Dev nD, ∀ b ∈ Sall, r.2.mem (c, b) = Wf m c b) :=
  run_mainV m ρ (fun d => Wc m d (dr main_v7)) (fun d => Wc m d (dr main_v8)) (fun d => Wc m d (dr main_v9)) (fun d => Wc m d (dr main_v10))
    (fun d => Wc m d (dr main_v11)) (fun d => Wc m d (dr main_v12)) (fun d => Wc m d (dr main_v13)) (fun d => Wc m d (dr main_v14))
    (ScReg0.R0 (F := F)) (ScReg1.Rout (F := F)) (ScReg2.Rout (F := F)) (ScReg3.Rout (F := F)) (ScReg4.Rout (F := F))
    (Gk0 m) (Gk1 m) (Gk2 m) (Gk3 m)
    (G0 (F := F)) (G1 (F := F)) (G2 (F := F)) (G3 (F := F)) (G4 (F := F)) (G5 (F := F)) (uP (F := F)) hbody hidx
    (ScReg0.regionStep0 _ _) (ScReg1.regionStep _ _) (ScReg2.regionStep _ _) (ScReg3.regionStep _ _) (ScReg4.regionStep _ _)
    (callStepV m _ _ _ _ _) hfund

/-- The frame of the program, at any float instance, from the tile kernel's body run with values. -/
theorem frameV_of_body [∀ e, Nonempty (Elt F e)] (hbody : TileBodyValStmt (F := F))
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.KernelIdeal.defs (F := F)) _ _).mono
    (fun r h c => post_of_QC m r (fun c b hb => (h c b (Sargs_sub hb)).trans (keeps_Wf m c b hb)) c)
    (runV m ρ hbody (Cert.Proof.ScIdx.idxPre_of_pre m _ _ _ _ _ hpre))

end Cert.Proof.ScFrameV

end
-- ==== Proof.ScVals.lean ====
/-
  What the valuations of @main hold in the buffers the claim reads: the batch normalisation's output, the four tables
  scaled, the four index arrays flattened, and the four results as reshapes of what the SparseCore call left.
-/
import proofs.«203359_g24824910971486_cont_8to1_1854_34_alg».proof.Proof.ScMainV

noncomputable section

namespace Cert.Proof.ScVals

open Cert.KernelIdeal Cert.KernelIdeal.Gen Cert.Proof.ScSetup Cert.Proof.ScMain Cert.Proof.ScCall Cert.Proof.ScMainV

open Idealize.ShloMosaic

variable {F : FTy → Type} [FloatOps F]

variable (m : (ℓ : Loc nD τ sig) → Buf (Elt F) ℓ)
variable (R0 : (d : Dev nD) → Valuation τ sig (Elt F) → (dr main_v2).ty.Contents (Elt F))
  (R1 : (d : Dev nD) → Valuation τ sig (Elt F) → (dr main_v7).ty.Contents (Elt F))
  (R2 : (d : Dev nD) → Valuation τ sig (Elt F) → (dr main_v8).ty.Contents (Elt F))
  (R3 : (d : Dev nD) → Valuation τ sig (Elt F) → (dr main_v9).ty.Contents (Elt F))
  (R4 : (d : Dev nD) → Valuation τ sig (Elt F) → (dr main_v10).ty.Contents (Elt F))
variable (Go0 : (d : Dev nD) → (dr main_v15_0).ty.Contents (Elt F)) (Go1 : (d : Dev nD) → (dr main_v15_1).ty.Contents (Elt F))
  (Go2 : (d : Dev nD) → (dr main_v15_2).ty.Contents (Elt F)) (Go3 : (d : Dev nD) → (dr main_v15_3).ty.Contents (Elt F))

/-! ## Before and after TensorCore call 0 -/

theorem WA_arg0 (d : Dev nD) : WA m d (dr main_arg0) = m (d, dr main_arg0) := rfl
theorem WA_v0 (d : Dev nD) :
    WA m d (dr main_v0) = fun i => shapeCast S1x13 (m (d, dr main_arg6)) shapeCasts_S13_S1x13 i := rfl
theorem WA_v1 (d : Dev nD) :
    WA m d (dr main_v1) = fun i => shapeCast S1x13 (m (d, dr main_arg7)) shapeCasts_S13_S1x13 i := rfl
theorem WE_v2 (d : Dev nD) : WE m R0 R1 R2 R3 R4 Go0 Go1 Go2 Go3 d (dr main_v2) = R0 d (WA m d) := rfl

/-! ## The four results, the four scaled tables, the four flattened index arrays -/

theorem WE_v16 (d : Dev nD) :
    WE m R0 R1 R2 R3 R4 Go0 Go1 Go2 Go3 d (dr main_v16)
      = fun i => shapeCast S16384x50x16 (Go0 d) shapeCasts_S102400x128_S16384x50x16 i := rfl
theorem WC_v7 (d : Dev nD) : WC m R0 R1 R2 R3 R4 d (dr main_v7) = R1 d (WB m R0 d) := rfl
theorem WBk0_tab (d : Dev nD) :
    (WB m R0 d) (dr main_v3) = fun i => shapeCast S12500x128 (m (d, dr main_arg8)) shapeCasts_S100000x16_S12500x128 i := rfl
theorem WBk0_cst (d : Dev nD) : (WB m R0 d) (dr main_cst) = fun i => FloatOps.ofBits .f32 (lit0 (S128x8.rowMajor i)) := rfl
theorem WBk0_cst0 (d : Dev nD) : (WB m R0 d) (dr main_cst_0) = fun i => FloatOps.ofBits .f32 (lit1 (S8x128.rowMajor i)) := rfl
theorem WC_v11 (d : Dev nD) :
    WC m R0 R1 R2 R3 R4 d (dr main_v11) = fun i => shapeCast S819200 (m (d, dr main_arg2)) shapeCasts_S16384x50_S819200 i := rfl

theorem WE_v17 (d : Dev nD) :
    WE m R0 R1 R2 R3 R4 Go0 Go1 Go2 Go3 d (dr main_v17)
      = fun i => shapeCast S16384x50x16 (Go1 d) shapeCasts_S102400x128_S16384x50x16 i := rfl
theorem WC_v8 (d : Dev nD) : WC m R0 R1 R2 R3 R4 d (dr main_v8) = R2 d (WB1 m R0 R1 d) := rfl
theorem WBk1_tab (d : Dev nD) :
    (WB1 m R0 R1 d) (dr main_v4) = fun i => shapeCast S12500x128 (m (d, dr main_arg9)) shapeCasts_S100000x16_S12500x128 i := rfl
theorem WBk1_cst (d : Dev nD) : (WB1 m R0 R1 d) (dr main_cst) = fun i => FloatOps.ofBits .f32 (lit0 (S128x8.rowMajor i)) := rfl
theorem WBk1_cst0 (d : Dev nD) : (WB1 m R0 R1 d) (dr main_cst_0) = fun i => FloatOps.ofBits .f32 (lit1 (S8x128.rowMajor i)) := rfl
theorem WC_v12 (d : Dev nD) :
    WC m R0 R1 R2 R3 R4 d (dr main_v12) = fun i => shapeCast S819200 (m (d, dr main_arg3)) shapeCasts_S16384x50_S819200 i := rfl

theorem WE_v18 (d : Dev nD) :
    WE m R0 R1 R2 R3 R4 Go0 Go1 Go2 Go3 d (dr main_v18)
      = fun i => shapeCast S16384x50x16 (Go2 d) shapeCasts_S102400x128_S16384x50x16 i := rfl
theorem WC_v9 (d : Dev nD) : WC m R0 R1 R2 R3 R4 d (dr main_v9) = R3 d (WB2 m R0 R1 R2 d) := rfl
theorem WBk2_tab (d : Dev nD) :
    (WB2 m R0 R1 R2 d) (dr main_v5) = fun i => shapeCast S12500x128 (m (d, dr main_arg10)) shapeCasts_S100000x16_S12500x128 i := rfl
theorem WBk2_cst (d : Dev nD) : (WB2 m R0 R1 R2 d) (dr main_cst) = fun i => FloatOps.ofBits .f32 (lit0 (S128x8.rowMajor i)) := rfl
theorem WBk2_cst0 (d : Dev nD) : (WB2 m R0 R1 R2 d) (dr main_cst_0) = fun i => FloatOps.ofBits .f32 (lit1 (S8x128.rowMajor i)) := rfl
theorem WC_v13 (d : Dev nD) :
    WC m R0 R1 R2 R3 R4 d (dr main_v13) = fun i => shapeCast S819200 (m (d, dr main_arg4)) shapeCasts_S16384x50_S819200 i := rfl

theorem WE_v19 (d : Dev nD) :
    WE m R0 R1 R2 R3 R4 Go0 Go1 Go2 Go3 d (dr main_v19)
      = fun i => shapeCast S16384x50x16 (Go3 d) shapeCasts_S102400x128_S16384x50x16 i := rfl
theorem WC_v10 (d : Dev nD) : WC m R0 R1 R2 R3 R4 d (dr main_v10) = R4 d (WB3 m R0 R1 R2 R3 d) := rfl
theorem WBk3_tab (d : Dev nD) :
    (WB3 m R0 R1 R2 R3 d) (dr main_v6) = fun i => shapeCast S12500x128 (m (d, dr main_arg11)) shapeCasts_S100000x16_S12500x128 i := rfl
theorem WBk3_cst (d : Dev nD) : (WB3 m R0 R1 R2 R3 d) (dr main_cst) = fun i => FloatOps.ofBits .f32 (lit0 (S128x8.rowMajor i)) := rfl
theorem WBk3_cst0 (d : Dev nD) : (WB3 m R0 R1 R2 R3 d) (dr main_cst_0) = fun i => FloatOps.ofBits .f32 (lit1 (S8x128.rowMajor i)) := rfl
theorem WC_v14 (d : Dev nD) :
    WC m R0 R1 R2 R3 R4 d (dr main_v14) = fun i => shapeCast S819200 (m (d, dr main_arg5)) shapeCasts_S16384x50_S819200 i := rfl

end Cert.Proof.ScVals

end
-- ==== Proof.RefRead.lean ====
import proofs.«203359_g24824910971486_cont_8to1_1854_34_alg».proof.Proof.RefOps
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce
import Idealize.ShloMosaic.Lib.Affine

/-! The reference's values read at an index, at the ideal values (floats are extended reals, every operation exact). -/

noncomputable section

namespace Cert.ReferenceIdeal.RefRead

open Cert.ReferenceIdeal Cert.ReferenceIdeal.Gen Cert.ReferenceIdeal.RefRun Idealize.ShloMosaic Idealize.ShloMosaic.ValueIdx
open scoped BigOperators

/-! ## The batch normalisation -/

/-- A per-feature vector spread over the rows reads the feature's entry. -/
theorem bcast_rows {α : Type} (v : S13.Idx → α) (i : Fin 16384) (j : Fin 13) :
    broadcastInDim S16384x13 ![0, 1] bcast_S1x13_S16384x13_0_1 (broadcastInDim S1x13 ![1] bcast_S13_S1x13_1 v) (ix2 i j)
      = v (ix1 j) := by
  rw [broadcastInDim_apply _ _ _ _ (ix2 (0 : Fin 1) j) (by intro a; match a with | ⟨0, _⟩ => rfl | ⟨1, _⟩ => rfl)]
  exact broadcastInDim_apply _ _ _ _ (ix1 j) (by intro a; match a with | ⟨0, _⟩ => rfl)

/-- A one-row array spread over the rows reads the row's entry. -/
theorem bcast_row {α : Type} (v : S1x13.Idx → α) (i : Fin 16384) (j : Fin 13) :
    broadcastInDim S16384x13 ![0, 1] bcast_S1x13_S16384x13_0_1 v (ix2 i j) = v (ix2 (0 : Fin 1) j) :=
  broadcastInDim_apply _ _ _ _ (ix2 (0 : Fin 1) j) (by intro a; match a with | ⟨0, _⟩ => rfl | ⟨1, _⟩ => rfl)

/-- The sum of a column from zero. -/
theorem colSum_apply (x : FVec Ideal S16384x13 .f32) (j : Fin 13) :
    Host.reduceAdd x (constant S_ .f32 0x00000000#32) reducesTo_S16384x13_S13_d0 h_S_ (ix1 j)
      = 0 + ∑ i' : Fin 16384, x (ix2 i' j) := by
  rw [hostReduceAdd_apply, Ideal.hostReduceAdd_single reducesTo_S16384x13_S13_d0 (by decide), constant_apply,
    Ideal.ofBits_zero_f32]
  refine congrArg (_ + ·) (Finset.sum_congr rfl fun k _ => ?_)
  exact congrArg x (funext fun a => Fin.ext (by match a with | ⟨0, _⟩ => rfl | ⟨1, _⟩ => rfl))

/-- The mean of feature `j`: its column's sum over the row count. -/
def meanAt (x : FVec Ideal S16384x13 .f32) (j : Fin 13) : EReal :=
  Ideal.div (0 + ∑ i' : Fin 16384, x (ix2 i' j)) (Ideal.ofBits .f32 0x46800000#32)

theorem bnMean_apply (x : FVec Ideal S16384x13 .f32) (j : Fin 13) : bnMean x (ix1 j) = meanAt x j := by
  unfold bnMean meanAt
  rw [hostDivf_apply, colSum_apply, broadcastInDim_scalar_apply, constant_apply]

theorem bnRowMean_apply (x : FVec Ideal S16384x13 .f32) (j : Fin 13) : bnRowMean x (ix2 (0 : Fin 1) j) = meanAt x j := by
  unfold bnRowMean meanAt
  rw [hostDivf_apply, broadcastInDim_apply _ _ _ _ (ix1 j) (by intro a; match a with | ⟨0, _⟩ => rfl), colSum_apply,
    broadcastInDim_scalar_apply, constant_apply]

/-- The word 0x46800000 is the real 16384. -/
theorem ofBits_16384 : Ideal.ofBits .f32 0x46800000#32 = ((16384 : ℝ) : EReal) := by
  simp [Ideal.ofBits, Ideal.ieee, -EReal.coe_mul]; norm_num

theorem ofBits_16384_pos : (0 : EReal) < Ideal.ofBits .f32 0x46800000#32 := by
  rw [ofBits_16384]; exact EReal.coe_pos.mpr (by norm_num)

/-- The variance's divisor is the row count: the correction subtracted is the integer zero. -/
theorem bnCount_apply : bnCount (F := Ideal) ix0 = Ideal.ofBits .f32 0x46800000#32 := by
  unfold bnCount
  rw [subf_apply, constant_apply, sitofp_apply]
  show Ideal.ofBits .f32 0x46800000#32 - ((((0#32 : BitVec 32).toInt : ℝ)) : EReal) = _
  simp

/-- The scalar test of the variance's select holds: the divisor is positive. -/
theorem bnCount_pos : cmpf .ogt (bnCount (F := Ideal)) (constant S_ .f32 0x00000000#32) ix0 = 1#1 := by
  rw [cmpf_apply, bnCount_apply, constant_apply, Ideal.ofBits_zero_f32, Ideal.cmpf_def]
  show BitVec.ofBool (decide ((0 : EReal) < Ideal.ofBits .f32 0x46800000#32)) = 1#1
  rw [decide_eq_true ofBits_16384_pos]; rfl

theorem bnSq_apply (x : FVec Ideal S16384x13 .f32) (i : Fin 16384) (j : Fin 13) :
    bnSq x (ix2 i j) = (x (ix2 i j) - meanAt x j) * (x (ix2 i j) - meanAt x j) := by
  unfold bnSq
  rw [mulf_apply, subf_apply, bcast_row, bnRowMean_apply]

/-- The variance of feature `j`: the summed squared deviations from its mean over the row count. -/
def varAt (x : FVec Ideal S16384x13 .f32) (j : Fin 13) : EReal :=
  Ideal.div (0 + ∑ i' : Fin 16384, (x (ix2 i' j) - meanAt x j) * (x (ix2 i' j) - meanAt x j))
    (Ideal.ofBits .f32 0x46800000#32)

theorem bnVar_apply (x : FVec Ideal S16384x13 .f32) (j : Fin 13) : bnVar x (ix1 j) = varAt x j := by
  unfold bnVar varAt
  rw [select_apply, broadcastInDim_scalar_apply, bnCount_pos, select_one, hostDivf_apply, colSum_apply,
    broadcastInDim_scalar_apply, bnCount_apply]
  simp only [bnSq_apply]

theorem hostSqrt_apply {s : Shape} (v : FVec Ideal s .f32) (k : s.Idx) : Host.sqrt v k = Ideal.sqrt (v k) := rfl

/-- THE NORMALISED FEATURES AT (i, j): (x − mean) / sqrt(var + ε) · γ + β. -/
theorem bnRef_apply (x : FVec Ideal S16384x13 .f32) (g b : FVec Ideal S13 .f32) (i : Fin 16384) (j : Fin 13) :
    bnRef x g b (ix2 i j)
      = Ideal.div (x (ix2 i j) - meanAt x j) (Ideal.sqrt (varAt x j + Ideal.ofBits .f32 0x3727C5AC#32)) * g (ix1 j)
        + b (ix1 j) := by
  unfold bnRef
  rw [addf_apply, mulf_apply, hostDivf_apply, subf_apply, bcast_rows, bcast_rows, bcast_rows, bcast_rows, bnMean_apply,
    hostSqrt_apply, addf_apply, bnVar_apply, broadcastInDim_scalar_apply, constant_apply]

/-! ## The embedding look-up -/

/-- The row number at (b, s): the index, the table height added when it is negative. -/
theorem rowIdx_apply (ix : IVec S16384x50 32) (b : Fin 16384) (s : Fin 50) :
    rowIdx ix (ix3 b s (0 : Fin 1))
      = Scalar.select (IntOp.cmpi .slt (ix (ix2 b s)) 0#32) (IntOp.addi (ix (ix2 b s)) 100000#32) (ix (ix2 b s)) := by
  unfold rowIdx
  rw [broadcastInDim_apply _ _ _ _ (ix2 b s) (by intro a; match a with | ⟨0, _⟩ => rfl | ⟨1, _⟩ => rfl)]
  rfl

/-- An index that is not negative is its own row number. -/
theorem rowIdx_of_nonneg (ix : IVec S16384x50 32) (b : Fin 16384) (s : Fin 50) (h0 : 0 ≤ (ix (ix2 b s)).toInt) :
    rowIdx ix (ix3 b s (0 : Fin 1)) = ix (ix2 b s) := by
  rw [rowIdx_apply]
  have hc : IntOp.cmpi .slt (ix (ix2 b s)) 0#32 = 0#1 := by
    show BitVec.ofBool (decide ((ix (ix2 b s)).toInt < (0#32 : BitVec 32).toInt)) = 0#1
    rw [decide_eq_false (by rw [BitVec.toInt_zero]; omega)]; rfl
  rw [hc, select_zero]

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    exact foldl_andi_one f l _ (by rw [hi, h a List.mem_cons_self]; rfl) (fun n hn => h n (List.mem_cons_of_mem _ hn))

/-- The bounds mask holds at (b, s) when the row number there lies in [0, 99999]. -/
theorem maskOf_eq_one (i5 : IVec S16384x50x1 32) (b : Fin 16384) (s : Fin 50)
    (h0 : 0 ≤ (i5 (ix3 b s (0 : Fin 1))).toInt) (h1 : (i5 (ix3 b s (0 : Fin 1))).toInt ≤ 99999) :
    maskOf i5 (ix2 b s) = 1#1 := by
  unfold maskOf
  rw [Host.reduce_eq_foldl]
  refine foldl_andi_one _ _ _ rfl (fun i hi => ?_)
  have hd : reducesTo_S16384x50x1_S16384x50_d2.drop i = ix2 b s := by simpa using (List.mem_filter.mp hi).2
  have e0 : (i 0).val = b.val := by
    rw [← Shape.ReducesTo.drop_apply_val_of_eq reducesTo_S16384x50x1_S16384x50_d2 i 0 0, hd]
  have e1 : (i 1).val = s.val := by
    rw [← Shape.ReducesTo.drop_apply_val_of_eq reducesTo_S16384x50x1_S16384x50_d2 i 1 1, hd]
  have e2 : (i 2).val = 0 := by
    have : (i 2).val < 1 := (i 2).isLt
    omega
  have hi' : i = ix3 b s (0 : Fin 1) := by
    funext a; refine Fin.ext ?_
    match a with
    | ⟨0, _⟩ => exact e0
    | ⟨1, _⟩ => exact e1
    | ⟨2, _⟩ => exact e2
  subst hi'
  show IntOp.andi (IntOp.cmpi .sge (i5 (ix3 b s (0 : Fin 1))) 0#32) (IntOp.cmpi .sle (i5 (ix3 b s (0 : Fin 1))) 99999#32) = 1#1
  have hge : IntOp.cmpi .sge (i5 (ix3 b s (0 : Fin 1))) 0#32 = 1#1 := by
    show BitVec.ofBool (decide ((0#32 : BitVec 32).toInt ≤ (i5 (ix3 b s (0 : Fin 1))).toInt)) = 1#1
    rw [decide_eq_true (by rw [BitVec.toInt_zero]; exact h0)]; rfl
  have hle : IntOp.cmpi .sle (i5 (ix3 b s (0 : Fin 1))) 99999#32 = 1#1 := by
    show BitVec.ofBool (decide ((i5 (ix3 b s (0 : Fin 1))).toInt ≤ (99999#32 : BitVec 32).toInt)) = 1#1
    rw [decide_eq_true (by rw [show (99999#32 : BitVec 32).toInt = 99999 by decide]; exact h1)]; rfl
  rw [hge, hle]; rfl

/-- The gather at (b, s, d): the table's column d at the row number there, read signed and clamped into [0, 99999]. -/
theorem gather_apply {α : Type} (T : S100000x16.Idx → α) (i5 : IVec S16384x50x1 32) (b : Fin 16384) (s : Fin 50)
    (d : Fin 16) :
    Host.gather gather_S100000x16_S16384x50x1_S16384x50x16_2_0_n_n_0_2_116 T i5 (ix3 b s d)
      = T (ix2 (⟨min (i5 (ix3 b s (0 : Fin 1))).toInt.toNat 99999, by omega⟩ : Fin 100000) d) := by
  unfold Host.gather
  refine congrArg T (funext fun a => Fin.ext ?_)
  match a with
  | ⟨0, _⟩ =>
    show gather_S100000x16_S16384x50x1_S16384x50x16_2_0_n_n_0_2_116.start (ix3 b s d) i5 0 + gather_S100000x16_S16384x50x1_S16384x50x16_2_0_n_n_0_2_116.batchCoord (ix3 b s d) 0 + gather_S100000x16_S16384x50x1_S16384x50x16_2_0_n_n_0_2_116.offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x16_S16384x50x1_S16384x50x16_2_0_n_n_0_2_116.startIndexMap from List.mem_singleton.mpr rfl)]
    have hsi : gather_S100000x16_S16384x50x1_S16384x50x16_2_0_n_n_0_2_116.siIdx (ix3 b s d) ⟨List.idxOf (0 : Fin 2) gather_S100000x16_S16384x50x1_S16384x50x16_2_0_n_n_0_2_116.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S100000x16_S16384x50x1_S16384x50x16_2_0_n_n_0_2_116.start (ix3 b s d) i5 1 + gather_S100000x16_S16384x50x1_S16384x50x16_2_0_n_n_0_2_116.batchCoord (ix3 b s d) 1 + gather_S100000x16_S16384x50x1_S16384x50x16_2_0_n_n_0_2_116.offCoord (ix3 b s d) 1 = _
    rw [GatherDims.batchCoord_eq_zero _ _ _ List.not_mem_nil]
    unfold GatherDims.start
    rw [dif_neg (by decide)]
    unfold GatherDims.offCoord
    rw [dif_pos (by decide), Nat.zero_add]
    rfl

/-- A signed 32-bit word in [0, 99999] is its unsigned reading, below the table height. -/
theorem toNat_of_range (v : BitVec 32) (h0 : 0 ≤ v.toInt) (h1 : v.toInt ≤ 99999) :
    v.toInt.toNat = v.toNat ∧ v.toNat < 100000 := by
  have hc := BitVec.toInt_eq_toNat_cond v
  have hlt := v.isLt
  split at hc <;> omega

/-- THE LOOK-UP AT (b, s, d), for an index in range: the table's entry at that row. -/
theorem takeRef_apply (T : FVec Ideal S100000x16 .f32) (ix : IVec S16384x50 32) (b : Fin 16384) (s : Fin 50) (d : Fin 16)
    (h0 : 0 ≤ (ix (ix2 b s)).toInt) (h1 : (ix (ix2 b s)).toInt ≤ 99999) :
    takeRef T ix (ix3 b s d) = T (ix2 (⟨(ix (ix2 b s)).toNat, (toNat_of_range _ h0 h1).2⟩ : Fin 100000) d) := by
  have hr := rowIdx_of_nonneg ix b s h0
  unfold takeRef fillOf
  rw [select_apply, broadcastInDim_apply _ _ _ _ (ix2 b s) (by intro a; match a with | ⟨0, _⟩ => rfl | ⟨1, _⟩ => rfl),
    maskOf_eq_one _ b s (by rw [hr]; exact h0) (by rw [hr]; exact h1), select_one, gather_apply]
  refine congrArg T (funext fun a => Fin.ext ?_)
  match a with
  | ⟨0, _⟩ =>
    show min (rowIdx ix (ix3 b s (0 : Fin 1))).toInt.toNat 99999 = (ix (ix2 b s)).toNat
    rw [hr, (toNat_of_range _ h0 h1).1]
    have := (toNat_of_range _ h0 h1).2
    omega
  | ⟨1, _⟩ => rfl

/-! ## The rescaling -/

/-- The Euclidean norm of row (b, s) of an array of rows: the square root of the summed squares, from zero. -/
def rowNorm (y : FVec Ideal S16384x50x16 .f32) (b : Fin 16384) (s : Fin 50) : EReal :=
  Ideal.sqrt (0 + ∑ d' : Fin 16, y (ix3 b s d') * y (ix3 b s d'))

theorem normRef_apply (y : FVec Ideal S16384x50x16 .f32) (b : Fin 16384) (s : Fin 50) :
    normRef y (ix3 b s (0 : Fin 1)) = rowNorm y b s := by
  unfold normRef rowNorm
  rw [hostSqrt_apply, broadcastInDim_apply _ _ _ _ (ix2 b s) (by intro a; match a with | ⟨0, _⟩ => rfl | ⟨1, _⟩ => rfl),
    hostReduceAdd_apply, Ideal.hostReduceAdd_single reducesTo_S16384x50x16_S16384x50_d2 (by decide), constant_apply,
    Ideal.ofBits_zero_f32]
  refine congrArg (fun t => Ideal.sqrt (0 + t)) (Finset.sum_congr rfl fun k _ => ?_)
  exact congrArg (mulf y y) (funext fun a => Fin.ext (by match a with | ⟨0, _⟩ => rfl | ⟨1, _⟩ => rfl | ⟨2, _⟩ => rfl))

/-- The rescaling factor at an index: 5 / max(n, tiny) where the norm n exceeds 5, one elsewhere. -/
theorem scaleRef_apply (n : FVec Ideal S16384x50x1 .f32) (k : S16384x50x1.Idx) :
    scaleRef n k
      = if Ideal.ofBits .f32 0x40A00000#32 < n k
        then Ideal.div (Ideal.ofBits .f32 0x40A00000#32) (max (n k) (Ideal.ofBits .f32 0x2B8CBCCC#32))
        else Ideal.ofBits .f32 0x3F800000#32 := by
  unfold scaleRef
  simp only [select_apply, cmpf_apply, hostDivf_apply, maximumf_apply, broadcastInDim_scalar_apply, constant_apply, id_eq,
    Ideal.cmpf_def]
  by_cases h : Ideal.ofBits .f32 0x40A00000#32 < n k
  · rw [if_pos h]
    show Scalar.select (BitVec.ofBool (decide (Ideal.ofBits .f32 0x40A00000#32 < n k))) _ _ = _
    rw [decide_eq_true h]; exact select_one _ _
  · rw [if_neg h]
    show Scalar.select (BitVec.ofBool (decide (Ideal.ofBits .f32 0x40A00000#32 < n k))) _ _ = _
    rw [decide_eq_false h]; exact select_zero _ _

theorem clipRef_apply (y : FVec Ideal S16384x50x16 .f32) (b : Fin 16384) (s : Fin 50) (d : Fin 16) :
    clipRef y (ix3 b s d) = y (ix3 b s d) * scaleRef (normRef y) (ix3 b s (0 : Fin 1)) := by
  unfold clipRef
  rw [mulf_apply, broadcastInDim_apply _ _ _ _ (ix3 b s (0 : Fin 1))
    (by intro a; match a with | ⟨0, _⟩ => rfl | ⟨1, _⟩ => rfl | ⟨2, _⟩ => rfl)]

/-- The Euclidean norm of a table's row. -/
def tableRowNorm (T : FVec Ideal S100000x16 .f32) (r : Fin 100000) : EReal :=
  Ideal.sqrt (0 + ∑ d' : Fin 16, T (ix2 r d') * T (ix2 r d'))

/-- ONE TABLE'S RESULT AT (b, s, d), for an index in [0, 99999]: the table's entry at that row, times 5 / max(norm, tiny)
    where the row's norm exceeds 5 and times one elsewhere. -/
theorem embRef_apply (T : FVec Ideal S100000x16 .f32) (ix : IVec S16384x50 32) (b : Fin 16384) (s : Fin 50) (d : Fin 16)
    (h0 : 0 ≤ (ix (ix2 b s)).toInt) (h1 : (ix (ix2 b s)).toInt ≤ 99999) :
    embRef T ix (ix3 b s d)
      = T (ix2 (⟨(ix (ix2 b s)).toNat, (toNat_of_range _ h0 h1).2⟩ : Fin 100000) d)
        * (if Ideal.ofBits .f32 0x40A00000#32 < tableRowNorm T ⟨(ix (ix2 b s)).toNat, (toNat_of_range _ h0 h1).2⟩
          then Ideal.div (Ideal.ofBits .f32 0x40A00000#32)
            (max (tableRowNorm T ⟨(ix (ix2 b s)).toNat, (toNat_of_range _ h0 h1).2⟩) (Ideal.ofBits .f32 0x2B8CBCCC#32))
          else Ideal.ofBits .f32 0x3F800000#32) := by
  have hn : rowNorm (takeRef T ix) b s = tableRowNorm T ⟨(ix (ix2 b s)).toNat, (toNat_of_range _ h0 h1).2⟩ := by
    unfold rowNorm tableRowNorm
    simp only [takeRef_apply T ix b s _ h0 h1]
  unfold embRef
  rw [clipRef_apply, scaleRef_apply, normRef_apply, hn, takeRef_apply T ix b s d h0 h1]

end Cert.ReferenceIdeal.RefRead

end
-- ==== Proof.LibEmbedScale.lean ====
/-
  General facts about the extended reals, as the ideal float values spell them, for a kernel that
  rescales the rows of an embedding table to a maximal norm and for a batch normalisation:

  • a finite sum of reals, coerced, is the sum of the coerced terms (coe_finset_sum), and a family of
    extended reals that are all real has a real sum (exists_real_sum);
  • x · rsqrt y = x / sqrt y for a positive real y (mul_rsqrt_eq_div_sqrt): the reciprocal square
    root is finite and nonzero there, so the product and the quotient are one extended real, for
    EVERY x (no finiteness of x is needed);
  • the clipping factor: for a real norm n ≥ 0, a positive cap c and a floor 0 < e ≤ c,
    min (1, c / max (n, e)) = if n > c then c / max (n, e) else 1 (clip_eq_ite, clip_eq_select):
    above the cap the quotient is c / n < 1, and at or below it max (n, e) ≤ c makes the quotient ≥ 1;
  • sums against a 0/1 indicator of "lane c lies in block k" (blocks of b consecutive lanes):
    ∑_c a(c) · [c / b = k] = ∑_{d < b} a(b·k + d) (sum_mul_indicator_block) and
    ∑_k s(k) · [c / b = k] = s(c / b) (sum_mul_indicator_pick). On the extended reals a · 0 = 0 and
    a · 1 = a hold for every a, the infinities included, so neither needs finiteness;
  • the f32 words 1.0, 5.0, 16384.0 and the words nearest 1e-12 and 1e-5 as the reals they denote.
-/
import Idealize.ShloMosaic.PureOps.Ideal
import Idealize.ShloMosaic.Lib.ValueIdx

noncomputable section

open scoped BigOperators
open Idealize.ShloMosaic

namespace Cert.Proof.Values

/-! ## Finite sums of reals inside the extended reals -/

/-- The coercion of a finite sum of reals is the sum of the coerced terms. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite family of extended reals, each of them a real, has a real sum: the sum of the reals. -/
theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl fun i _ => hg i⟩

/-- A finite sum of squares of reals, inside the extended reals, is a nonnegative real. -/
theorem exists_nonneg_sum_sq {ι : Type*} (s : Finset ι) (f : ι → EReal) (hf : ∀ i, ∃ r : ℝ, f i = (r : EReal)) :
    ∃ r : ℝ, 0 ≤ r ∧ ∑ i ∈ s, f i * f i = (r : EReal) := by
  choose g hg using hf
  refine ⟨∑ i ∈ s, g i * g i, Finset.sum_nonneg fun i _ => mul_self_nonneg _, ?_⟩
  rw [coe_finset_sum]
  exact Finset.sum_congr rfl fun i _ => by rw [hg i, EReal.coe_mul]

/-! ## The reciprocal square root against the quotient by the square root -/

/-- For a positive real `y`, the product with `rsqrt y` is the quotient by `sqrt y`, whatever the other
    factor: `sqrt y` is a nonzero real and `rsqrt y` its reciprocal. -/
theorem mul_rsqrt_eq_div_sqrt (x : EReal) {y : ℝ} (hy : 0 < y) :
    x * Ideal.rsqrt (y : EReal) = Ideal.div x (Ideal.sqrt (y : EReal)) := by
  have hs : Real.sqrt y ≠ 0 := (Real.sqrt_pos.mpr hy).ne'
  rw [Ideal.rsqrt_coe, Ideal.sqrt_coe, if_neg (not_lt.mpr hy.le), if_neg hy.ne', if_neg (not_lt.mpr hy.le),
    Ideal.div_coe hs, one_div]

/-! ## The clipping factor of a maximal-norm rescaling -/

/-- The maximum of two reals, coerced. -/
theorem coe_max (a b : ℝ) : ((max a b : ℝ) : EReal) = max (a : EReal) (b : EReal) :=
  EReal.coe_strictMono.monotone.map_max

/-- The quotient of a real by a nonzero real, in the ideal values' division, is the real quotient. -/
theorem div_coe_coe (c : ℝ) {m : ℝ} (hm : m ≠ 0) : Ideal.div (c : EReal) (m : EReal) = ((c / m : ℝ) : EReal) := by
  rw [Ideal.div_coe hm, ← EReal.coe_mul, mul_one_div]

/-- THE CLIPPING FACTOR as a case split. For a real norm `n ≥ 0`, a cap `c` and a floor `0 < e ≤ c`:
    `min (1, c / max (n, e))` is `c / max (n, e)` when `n > c` (then the quotient is `c / n < 1`) and `1`
    otherwise (then `max (n, e) ≤ c`, so the quotient is at least `1`). -/
theorem clip_eq_ite {n c e : ℝ} (hn : 0 ≤ n) (he : 0 < e) (hec : e ≤ c) :
    min (1 : EReal) (Ideal.div (c : EReal) (max (n : EReal) (e : EReal)))
      = if (c : EReal) < (n : EReal) then Ideal.div (c : EReal) (max (n : EReal) (e : EReal)) else 1 := by
  have hm : 0 < max n e := lt_max_of_lt_right he
  rw [← coe_max, div_coe_coe c hm.ne']
  by_cases h : c < n
  · rw [if_pos (EReal.coe_lt_coe_iff.mpr h)]
    refine min_eq_right ?_
    rw [← EReal.coe_one, EReal.coe_le_coe_iff, div_le_one hm]
    exact le_trans h.le (le_max_left _ _)
  · rw [if_neg (fun h' => h (EReal.coe_lt_coe_iff.mp h'))]
    refine min_eq_left ?_
    rw [← EReal.coe_one, EReal.coe_le_coe_iff, one_le_div hm]
    exact max_le (not_lt.mp h) hec

/-- The same with the case split written as the ideal values' comparison `n > c` and selection, the form
    `where (n > c, c / max (n, e), 1)` takes at one element. -/
theorem clip_eq_select {n c e : ℝ} (hn : 0 ≤ n) (he : 0 < e) (hec : e ≤ c) :
    min (1 : EReal) (Ideal.div (c : EReal) (max (n : EReal) (e : EReal)))
      = Scalar.select (Ideal.cmp .ogt (n : EReal) (c : EReal))
          (Ideal.div (c : EReal) (max (n : EReal) (e : EReal))) 1 := by
  rw [clip_eq_ite hn he hec]
  by_cases h : (c : EReal) < (n : EReal)
  · rw [if_pos h]
    show _ = Scalar.select (BitVec.ofBool (decide ((c : EReal) < (n : EReal)))) _ _
    rw [decide_eq_true h]; rfl
  · rw [if_neg h]
    show _ = Scalar.select (BitVec.ofBool (decide ((c : EReal) < (n : EReal)))) _ _
    rw [decide_eq_false h]; rfl

/-! ## Sums against the 0/1 indicator of a block of lanes -/

/-- A product with a 0/1 indicator is the factor where the indicator holds and `0` elsewhere; on the extended
    reals this holds at the infinities too (`a · 0 = 0` there). -/
theorem mul_indicator (a : EReal) (p : Prop) [Decidable p] : a * (if p then (1 : EReal) else 0) = if p then a else 0 := by
  split
  · exact mul_one a
  · exact mul_zero a

/-- A sum over `N = n · b` lanes of the terms whose lane lies in block `k` (lanes `b·k … b·k + b − 1`) is the sum
    over the block's `b` lanes. -/
theorem sum_ite_block {M : Type*} [AddCommMonoid M] {N n b : ℕ} (hN : N = n * b) (a : Fin N → M) (k : Fin n) :
    ∑ c : Fin N, (if c.val / b = k.val then a c else 0)
      = ∑ d : Fin b, a ⟨b * k.val + d.val, by
          have h1 : b * k.val + d.val < b * (k.val + 1) := by rw [Nat.mul_succ]; exact Nat.add_lt_add_left d.isLt _
          have h2 : b * (k.val + 1) ≤ b * n := Nat.mul_le_mul_left b k.isLt
          rw [hN, Nat.mul_comm n b]; exact lt_of_lt_of_le h1 h2⟩ := by
  rw [← Finset.sum_filter]
  symm
  refine Finset.sum_bij (fun d _ => (⟨b * k.val + d.val, _⟩ : Fin N)) (fun d _ => ?_) (fun d _ d' _ h => ?_)
    (fun c hc => ?_) (fun d _ => rfl)
  · have hb : 0 < b := Nat.pos_of_ne_zero (fun h0 => by have := d.isLt; omega)
    rw [Finset.mem_filter]
    refine ⟨Finset.mem_univ _, ?_⟩
    show (b * k.val + d.val) / b = k.val
    rw [Nat.mul_add_div hb, Nat.div_eq_of_lt d.isLt, Nat.add_zero]
  · have := congrArg Fin.val h
    exact Fin.ext (Nat.add_left_cancel this)
  · have hck : c.val / b = k.val := (Finset.mem_filter.mp hc).2
    have hb : 0 < b := Nat.pos_of_ne_zero (fun h0 => by
      have h1 := c.isLt
      have h2 : N = 0 := by rw [hN, h0, Nat.mul_zero]
      omega)
    refine ⟨⟨c.val % b, Nat.mod_lt _ hb⟩, Finset.mem_univ _, Fin.ext ?_⟩
    show b * k.val + c.val % b = c.val
    rw [← hck]; exact Nat.div_add_mod _ _

/-- The same against the indicator as a factor, over the extended reals: `∑_c a(c) · [c / b = k]` is the sum of
    `a` over block `k`'s lanes, for every `a` (infinite entries included). -/
theorem sum_mul_indicator_block {N n b : ℕ} (hN : N = n * b) (a : Fin N → EReal) (k : Fin n) :
    ∑ c : Fin N, a c * (if c.val / b = k.val then (1 : EReal) else 0)
      = ∑ d : Fin b, a ⟨b * k.val + d.val, by
          have h1 : b * k.val + d.val < b * (k.val + 1) := by rw [Nat.mul_succ]; exact Nat.add_lt_add_left d.isLt _
          have h2 : b * (k.val + 1) ≤ b * n := Nat.mul_le_mul_left b k.isLt
          rw [hN, Nat.mul_comm n b]; exact lt_of_lt_of_le h1 h2⟩ := by
  rw [← sum_ite_block hN a k]
  exact Finset.sum_congr rfl fun c _ => mul_indicator _ _

/-- A sum over the blocks of the terms of the one block `q` is that block's term. -/
theorem sum_ite_pick {M : Type*} [AddCommMonoid M] {n : ℕ} (s : Fin n → M) (q : ℕ) (hq : q < n) :
    ∑ k : Fin n, (if q = k.val then s k else 0) = s ⟨q, hq⟩ := by
  rw [Finset.sum_eq_single (⟨q, hq⟩ : Fin n)]
  · exact if_pos rfl
  · intro k _ hk
    exact if_neg fun h => hk (Fin.ext h.symm)
  · intro h; exact absurd (Finset.mem_univ _) h

/-- The same against the indicator as a factor, over the extended reals: `∑_k s(k) · [q = k] = s(q)`, for every
    `s` (infinite entries included): spreading one value per block back over the block's lanes. -/
theorem sum_mul_indicator_pick {n : ℕ} (s : Fin n → EReal) (q : ℕ) (hq : q < n) :
    ∑ k : Fin n, s k * (if q = k.val then (1 : EReal) else 0) = s ⟨q, hq⟩ := by
  rw [← sum_ite_pick s q hq]
  exact Finset.sum_congr rfl fun k _ => mul_indicator _ _

/-! ## The f32 words of the two computations, as the reals they denote -/

/-- The word of `1.0` denotes `1`. -/
theorem ofBits_f32_one : Ideal.ofBits .f32 0x3F800000#32 = (1 : EReal) := by
  simp [Ideal.ofBits, Ideal.ieee, -EReal.coe_mul]; norm_num

/-- The zero word denotes `0`. -/
theorem ofBits_f32_zero : Ideal.ofBits .f32 0x00000000#32 = (0 : EReal) := by
  simp [Ideal.ofBits, Ideal.ieee]

/-- The word of `5.0` denotes the real `5`. -/
theorem ofBits_f32_five : Ideal.ofBits .f32 0x40A00000#32 = ((5 : ℝ) : EReal) := by
  simp [Ideal.ofBits, Ideal.ieee, -EReal.coe_mul]; norm_num

/-- The word of `16384.0` denotes the real `16384`. -/
theorem ofBits_f32_16384 : Ideal.ofBits .f32 0x46800000#32 = ((16384 : ℝ) : EReal) := by
  simp [Ideal.ofBits, Ideal.ieee, -EReal.coe_mul]; norm_num

/-- The f32 word nearest `1e-12` denotes the real `9223372 · 2^(-63)` … -/
theorem ofBits_f32_floor : Ideal.ofBits .f32 0x2B8CBCCC#32 = (((9223372 : ℝ) * (2 : ℝ) ^ (-63 : ℤ) : ℝ) : EReal) := by
  simp [Ideal.ofBits, Ideal.ieee, -EReal.coe_mul]

/-- … which is positive … -/
theorem floor_pos : (0 : ℝ) < 9223372 * (2 : ℝ) ^ (-63 : ℤ) := by positivity

/-- … and at most `5`. -/
theorem floor_le_five : (9223372 : ℝ) * (2 : ℝ) ^ (-63 : ℤ) ≤ 5 := by
  rw [zpow_neg]; norm_num

/-- The f32 word nearest `1e-5` denotes the real `10995116 · 2^(-40)` … -/
theorem ofBits_f32_bnEps : Ideal.ofBits .f32 0x3727C5AC#32 = (((10995116 : ℝ) * (2 : ℝ) ^ (-40 : ℤ) : ℝ) : EReal) := by
  simp [Ideal.ofBits, Ideal.ieee, -EReal.coe_mul]

/-- … which is positive. -/
theorem bnEps_pos : (0 : ℝ) < 10995116 * (2 : ℝ) ^ (-40 : ℤ) := by positivity

end Cert.Proof.Values

end
-- ==== Proof.TcBn.lean ====
/-
  The batch-normalisation body's stored value, read at an index, at the ideal values (extended reals, every
  operation exact). Column `j` of a [16384, 13] input has mean `m_j = (∑_i x(i,j)) / 16384` and biased variance
  `v_j = (∑_i (x(i,j) − m_j)²) / 16384`; the body stores `(x(i,j) − m_j) · rsqrt (v_j + ε) · γ_j + β_j`
  (bn_kernel_form: holds for every input). For a FINITE input `v_j` is a nonnegative real and `v_j + ε` a positive
  real, so the product with the reciprocal square root is the quotient by the square root, and the stored value is
  `((x(i,j) − m_j) / sqrt (v_j + ε)) · γ_j + β_j` (bn_payload).
-/
import proofs.«203359_g24824910971486_cont_8to1_1854_34_alg».proof.Proof.Gen.KernelIdeal.Skeleton
import proofs.«203359_g24824910971486_cont_8to1_1854_34_alg».proof.Proof.LibEmbedScale
import Idealize.ShloMosaic.Lib.ValueLayout
import Idealize.ShloMosaic.PureOps.Ideal.Laws

noncomputable section

open scoped BigOperators
open Idealize.ShloMosaic Idealize.ShloMosaic.ValueIdx

namespace Cert.Proof.Values

open Cert.KernelIdeal (S16384x13 S1x13 S13 S12500x128 S12500x8 S128x8 S8x128)
open Cert.KernelIdeal.Gen (k0_pay1 k1_pay1 k2_pay1 k3_pay1 k4_pay1)

/-- A sum over the batch axis of a [16384, 13] array, read at column `j`. -/
theorem colSum_apply (v : FVec Ideal S16384x13 .f32) (h : S16384x13.Reduces [0] S13)
    (hφ : FTy.f32 = FTy.f32 ∨ FTy.f32 = FTy.bf16) (hacc : (0x00000000#32 : BitVec 32) = 0x00000000#32) (j : Fin 13) :
    multiReduction .add [0] S13 v 0x00000000#32 h hφ hacc (ix1 j) = ∑ k : Fin 16384, v (ix2 k j) := by
  refine (Ideal.multiReduction_add_single v 0x00000000#32 h hφ hacc (ix1 j)).trans ?_
  exact Finset.sum_congr rfl fun k _ => congrArg v (funext fun a => match a with | ⟨0, _⟩ => rfl | ⟨1, _⟩ => rfl)

/-- The batch mean of column `j`: the column's sum over the `16384` rows, divided by `16384.0`. -/
def bnMean (x : Vec Ideal S16384x13 .f32) (j : Fin 13) : EReal :=
  Ideal.div (∑ k : Fin 16384, x (ix2 k j)) (Ideal.ofBits .f32 0x46800000#32)

/-- The biased batch variance of column `j`: the sum of the squared deviations from the mean, divided by `16384.0`. -/
def bnVar (x : Vec Ideal S16384x13 .f32) (j : Fin 13) : EReal :=
  Ideal.div (∑ k : Fin 16384, (x (ix2 k j) - bnMean x j) * (x (ix2 k j) - bnMean x j))
    (Ideal.ofBits .f32 0x46800000#32)

/-- The batch-normalisation body's stored value at (i, j), in the kernel's own arrangement:
    `(x − mean) · rsqrt (var + ε) · γ + β`, for every input (no finiteness). -/
theorem bn_kernel_form (x : Vec Ideal S16384x13 .f32) (g b : Vec Ideal S1x13 .f32) (i : Fin 16384) (j : Fin 13) :
    k0_pay1 (F := Ideal) x g b (ix2 i j)
      = (x (ix2 i j) - bnMean x j) * Ideal.rsqrt (bnVar x j + Ideal.ofBits .f32 0x3727C5AC#32)
          * g (ix2 (0 : Fin 1) j) + b (ix2 (0 : Fin 1) j) := by
  have rsqrt_apply : ∀ (v : FVec Ideal S1x13 .f32) (q : S1x13.Idx), rsqrt v q = Ideal.rsqrt (v q) := fun _ _ => rfl
  unfold k0_pay1
  simp only [addf_apply, mulf_apply, subf_apply, broadcastTo_1b_ab_apply, shapeCast_self, rsqrt_apply, divf_apply,
    broadcast_apply, shapeCast_a_1a_apply, colSum_apply, Ideal.ofBits_def]
  rw [colSum_apply (mulf _ _) _ _ _ j]
  simp only [mulf_apply, subf_apply, broadcastTo_1b_ab_apply, divf_apply, broadcast_apply, shapeCast_a_1a_apply,
    Ideal.ofBits_def]
  rw [colSum_apply x _ _ _ j]
  rfl

/-- For a finite input the batch mean of a column is a real. -/
theorem bnMean_real (x : Vec Ideal S16384x13 .f32) (hx : ∀ idx, ∃ r : ℝ, x idx = (r : EReal)) (j : Fin 13) :
    ∃ m : ℝ, bnMean x j = (m : EReal) := by
  obtain ⟨r, hr⟩ := exists_real_sum Finset.univ (fun k : Fin 16384 => x (ix2 k j)) (fun k => hx _)
  have hr' : ∑ k : Fin 16384, x (ix2 k j) = (r : EReal) := hr
  refine ⟨r / 16384, ?_⟩
  unfold bnMean
  rw [hr', ofBits_f32_16384, div_coe_coe r (by norm_num)]

/-- For a finite input the batch variance of a column is a nonnegative real: a sum of squares of reals over `16384`. -/
theorem bnVar_real (x : Vec Ideal S16384x13 .f32) (hx : ∀ idx, ∃ r : ℝ, x idx = (r : EReal)) (j : Fin 13) :
    ∃ v : ℝ, 0 ≤ v ∧ bnVar x j = (v : EReal) := by
  obtain ⟨m, hm⟩ := bnMean_real x hx j
  obtain ⟨s, hs0, hs⟩ := exists_nonneg_sum_sq Finset.univ (fun k : Fin 16384 => x (ix2 k j) - bnMean x j) (fun k => by
    obtain ⟨r, hr⟩ := hx (ix2 k j)
    exact ⟨r - m, by rw [hr, hm, EReal.coe_sub]⟩)
  have hs' : ∑ k : Fin 16384, (x (ix2 k j) - bnMean x j) * (x (ix2 k j) - bnMean x j) = (s : EReal) := hs
  refine ⟨s / 16384, div_nonneg hs0 (by norm_num), ?_⟩
  unfold bnVar
  rw [hs', ofBits_f32_16384, div_coe_coe s (by norm_num)]

/-- THE BATCH-NORMALISATION BODY AT AN INDEX, in the reference's arrangement: for a finite input the variance plus the
    epsilon is a positive real, so the kernel's product with its reciprocal square root is the quotient by its square
    root: `((x − mean) / sqrt (var + ε)) · γ + β`. Only the input's finiteness is used (the scale and the shift may be
    any extended reals). -/
theorem bn_payload (x : Vec Ideal S16384x13 .f32) (g b : Vec Ideal S1x13 .f32)
    (hx : ∀ idx, ∃ r : ℝ, x idx = (r : EReal)) (i : Fin 16384) (j : Fin 13) :
    k0_pay1 (F := Ideal) x g b (ix2 i j)
      = Ideal.div (x (ix2 i j) - bnMean x j) (Ideal.sqrt (bnVar x j + Ideal.ofBits .f32 0x3727C5AC#32))
          * g (ix2 (0 : Fin 1) j) + b (ix2 (0 : Fin 1) j) := by
  obtain ⟨v, hv0, hv⟩ := bnVar_real x hx j
  rw [bn_kernel_form, hv, ofBits_f32_bnEps, ← EReal.coe_add,
    mul_rsqrt_eq_div_sqrt _ (add_pos_of_nonneg_of_pos hv0 bnEps_pos)]

/-! ## The reference's normaliser

The reference computes the variance as the sum of the squared deviations over `16384.0 − float (0)`, kept where that
normaliser is above zero. Both steps change nothing. -/

/-- `16384.0 − float (0 : i32)` is `16384.0`. -/
theorem var_normaliser :
    Ideal.ofBits .f32 0x46800000#32 - FloatOps.sitofp (F := Ideal) .f32 (0#32 : BitVec 32)
      = Ideal.ofBits .f32 0x46800000#32 := by
  show Ideal.ofBits .f32 0x46800000#32 - (((0#32 : BitVec 32).toInt : ℝ) : EReal) = _
  simp

/-- The normaliser is above zero, so the reference's guard on it keeps the quotient. -/
theorem var_normaliser_pos :
    Ideal.cmp .ogt (Ideal.ofBits .f32 0x46800000#32 - FloatOps.sitofp (F := Ideal) .f32 (0#32 : BitVec 32))
      (Ideal.ofBits .f32 0x00000000#32) = 1#1 := by
  rw [var_normaliser, ofBits_f32_16384, ofBits_f32_zero]
  show BitVec.ofBool (decide ((0 : EReal) < ((16384 : ℝ) : EReal))) = 1#1
  rw [decide_eq_true (by exact_mod_cast (by norm_num : (0 : ℝ) < 16384))]; rfl

end Cert.Proof.Values

end
-- ==== Proof.TcScale.lean ====
/-
  The table-scaling bodies' stored value, read at an index, at the ideal values (extended reals, every operation
  exact). A [12500, 128] block holds eight table rows of sixteen entries per line. The body squares the block,
  multiplies by the [128, 8] indicator of "lane c lies in block k" (so entry (l, k) is the sum of the squares of
  block k of line l), takes the square root (the block's norm n), forms min (1, 5 / max (n, floor)), multiplies by
  the transposed indicator (so lane c receives the factor of its own block c / 16), and scales the block by it
  (scale_kernel_form: holds for every input). For a FINITE block n is a nonnegative real, and
  min (1, 5 / max (n, floor)) is the reference's where (n > 5, 5 / max (n, floor), 1) (scale_payload). Last, over the
  [100000, 16] table of which the block is the row-major reshape, the block of lane c in line l is the table's row
  8 l + c / 16 (scale_payload_table).
-/
import proofs.«203359_g24824910971486_cont_8to1_1854_34_alg».proof.Proof.Gen.KernelIdeal.Skeleton
import proofs.«203359_g24824910971486_cont_8to1_1854_34_alg».proof.Proof.LibEmbedScale
import Idealize.ShloMosaic.Lib.ValueLayout
import Idealize.ShloMosaic.PureOps.Ideal.Laws

noncomputable section

open scoped BigOperators
open Idealize.ShloMosaic Idealize.ShloMosaic.ValueIdx

namespace Cert.Proof.Values

open Cert.KernelIdeal (S16384x13 S1x13 S13 S12500x128 S12500x8 S128x8 S8x128 S100000x16)
open Cert.KernelIdeal.Gen (k0_pay1 k1_pay1 k2_pay1 k3_pay1 k4_pay1)

/-- The dimension numbers of the first product, [12500, 128] × [128, 8]: one contracting axis, the 128 lanes. -/
abbrev dotSeg := Cert.KernelIdeal.dot_S12500x128_S128x8_S12500x8_1_0_0_1_n_n
/-- The dimension numbers of the second product, [12500, 8] × [8, 128]: one contracting axis, the 8 blocks. -/
abbrev dotSegT := Cert.KernelIdeal.dot_S12500x8_S8x128_S12500x128_1_0_0_1_n_n

/-- The first product into a zero accumulator, read at (l, k): the sum over the 128 lanes of the products. -/
theorem mm1_apply (A : FVec Ideal S12500x128 .f32) (B : FVec Ideal S128x8 .f32) (l : Fin 12500) (k : Fin 8) :
    matmul dotSeg none A B (constant S12500x8 .f32 0x00000000#32) (ix2 l k) = ∑ c : Fin 128, A (ix2 l c) * B (ix2 c k) := by
  refine (Ideal.matmul_constant_zero_apply dotSeg none A B (ix2 l k)).trans ?_
  rw [← Equiv.sum_comp (contrEquiv1 dotSeg 128 rfl rfl).symm]
  refine Finset.sum_congr rfl fun c _ => ?_
  congr 2
  · funext a; apply Fin.ext
    match a with
    | ⟨0, _⟩ => rfl
    | ⟨1, _⟩ => exact (dotSeg.lhsIdx_val_of_single rfl _ _).trans (contrEquiv1_symm_val dotSeg 128 rfl rfl c)
  · funext a; apply Fin.ext
    match a with
    | ⟨0, _⟩ => exact (dotSeg.rhsIdx_val_of_single rfl _ _).trans (contrEquiv1_symm_val dotSeg 128 rfl rfl c)
    | ⟨1, _⟩ => rfl

/-- The second product into a zero accumulator, read at (l, c): the sum over the 8 blocks of the products. -/
theorem mm2_apply (A : FVec Ideal S12500x8 .f32) (B : FVec Ideal S8x128 .f32) (l : Fin 12500) (c : Fin 128) :
    matmul dotSegT none A B (constant S12500x128 .f32 0x00000000#32) (ix2 l c) = ∑ k : Fin 8, A (ix2 l k) * B (ix2 k c) := by
  refine (Ideal.matmul_constant_zero_apply dotSegT none A B (ix2 l c)).trans ?_
  rw [← Equiv.sum_comp (contrEquiv1 dotSegT 8 rfl rfl).symm]
  refine Finset.sum_congr rfl fun k _ => ?_
  congr 2
  · funext a; apply Fin.ext
    match a with
    | ⟨0, _⟩ => rfl
    | ⟨1, _⟩ => exact (dotSegT.lhsIdx_val_of_single rfl _ _).trans (contrEquiv1_symm_val dotSegT 8 rfl rfl k)
  · funext a; apply Fin.ext
    match a with
    | ⟨0, _⟩ => exact (dotSegT.rhsIdx_val_of_single rfl _ _).trans (contrEquiv1_symm_val dotSegT 8 rfl rfl k)
    | ⟨1, _⟩ => rfl

/-- Lane `d` of the block of sixteen lanes that holds lane `c`. -/
def blockLane (c : Fin 128) (d : Fin 16) : Fin 128 :=
  ⟨16 * (c.val / 16) + d.val, by have := c.isLt; have := d.isLt; omega⟩

/-- The norm of the sixteen lanes, in line `l`, of the block that holds lane `c`. -/
def blockNorm (X : Vec Ideal S12500x128 .f32) (l : Fin 12500) (c : Fin 128) : EReal :=
  Ideal.sqrt (∑ d : Fin 16, X (ix2 l (blockLane c d)) * X (ix2 l (blockLane c d)))

/-- The reference's factor for a row of norm `n`: `5 / max (n, floor)` where `n > 5`, else `1`. -/
def clipFactor (n : EReal) : EReal :=
  Scalar.select (Ideal.cmp .ogt n (Ideal.ofBits .f32 0x40A00000#32))
    (Ideal.div (Ideal.ofBits .f32 0x40A00000#32) (max n (Ideal.ofBits .f32 0x2B8CBCCC#32)))
    (Ideal.ofBits .f32 0x3F800000#32)

/-- The table-scaling body's stored value at (l, c), in the kernel's own arrangement, for every table block (no
    finiteness): the first product against the indicator sums the squares of the block of sixteen lanes that holds
    `c`, and the second spreads the block's factor `min (1, 5 / max (norm, floor))` back over its lanes. -/
theorem scale_kernel_form (X : Vec Ideal S12500x128 .f32) (seg : Vec Ideal S128x8 .f32) (segT : Vec Ideal S8x128 .f32)
    (hseg : ∀ (c : Fin 128) (k : Fin 8), seg (ix2 c k) = if c.val / 16 = k.val then (1 : EReal) else 0)
    (hsegT : ∀ (k : Fin 8) (c : Fin 128), segT (ix2 k c) = if c.val / 16 = k.val then (1 : EReal) else 0)
    (l : Fin 12500) (c : Fin 128) :
    k1_pay1 (F := Ideal) X seg segT (ix2 l c)
      = X (ix2 l c) * min (Ideal.ofBits .f32 0x3F800000#32)
          (Ideal.div (Ideal.ofBits .f32 0x40A00000#32) (max (blockNorm X l c) (Ideal.ofBits .f32 0x2B8CBCCC#32))) := by
  have sqrt_apply : ∀ (v : FVec Ideal S12500x8 .f32) (q : S12500x8.Idx), sqrt v q = Ideal.sqrt (v q) := fun _ _ => rfl
  have hq : c.val / 16 < 8 := by have := c.isLt; omega
  unfold k1_pay1
  simp only [mulf_apply, shapeCast_self]
  rw [mm2_apply]
  simp only [hsegT]
  rw [sum_mul_indicator_pick _ (c.val / 16) hq]
  simp only [minimumf_apply, broadcast_apply, divf_apply, maximumf_apply, sqrt_apply, Ideal.ofBits_def]
  rw [mm1_apply]
  simp only [hseg, mulf_apply]
  have hblk : (∑ c' : Fin 128, X (ix2 l c') * X (ix2 l c') * if c'.val / 16 = c.val / 16 then (1 : EReal) else 0)
      = ∑ d : Fin 16, X (ix2 l (blockLane c d)) * X (ix2 l (blockLane c d)) :=
    sum_mul_indicator_block (N := 128) (n := 8) (b := 16) rfl (fun c' : Fin 128 => X (ix2 l c') * X (ix2 l c'))
      ⟨c.val / 16, hq⟩
  rw [hblk]
  rfl

/-- For a finite table block the norm of a block of sixteen lanes is a nonnegative real. -/
theorem blockNorm_real (X : Vec Ideal S12500x128 .f32) (hX : ∀ idx, ∃ r : ℝ, X idx = (r : EReal)) (l : Fin 12500)
    (c : Fin 128) : ∃ n : ℝ, 0 ≤ n ∧ blockNorm X l c = (n : EReal) := by
  obtain ⟨s, hs0, hs⟩ := exists_nonneg_sum_sq Finset.univ (fun d : Fin 16 => X (ix2 l (blockLane c d))) (fun d => hX _)
  have hs' : ∑ d : Fin 16, X (ix2 l (blockLane c d)) * X (ix2 l (blockLane c d)) = (s : EReal) := hs
  refine ⟨Real.sqrt s, Real.sqrt_nonneg s, ?_⟩
  unfold blockNorm
  rw [hs', Ideal.sqrt_coe, if_neg (not_lt.mpr hs0)]

/-- THE TABLE-SCALING BODY AT AN INDEX, in the reference's arrangement: for a finite table block, lane `c` of line `l` is
    stored as itself times the clipping factor of the norm `n` of its block of sixteen lanes, written as the reference
    writes it: `5 / max (n, floor)` where `n > 5`, else `1`. (`n` is a nonnegative real; above `5` the kernel's
    `min (1, 5 / max (n, floor))` is the quotient, which is below `1`; at or below `5` the quotient is at least `1`.) The
    two constant operands enter through what they hold: the indicator of "lane `c` lies in block `k`". -/
theorem scale_payload (X : Vec Ideal S12500x128 .f32) (seg : Vec Ideal S128x8 .f32) (segT : Vec Ideal S8x128 .f32)
    (hX : ∀ idx, ∃ r : ℝ, X idx = (r : EReal))
    (hseg : ∀ (c : Fin 128) (k : Fin 8), seg (ix2 c k) = if c.val / 16 = k.val then (1 : EReal) else 0)
    (hsegT : ∀ (k : Fin 8) (c : Fin 128), segT (ix2 k c) = if c.val / 16 = k.val then (1 : EReal) else 0)
    (l : Fin 12500) (c : Fin 128) :
    k1_pay1 (F := Ideal) X seg segT (ix2 l c) = X (ix2 l c) * clipFactor (blockNorm X l c) := by
  obtain ⟨n, hn0, hn⟩ := blockNorm_real X hX l c
  rw [scale_kernel_form X seg segT hseg hsegT l c, hn]
  unfold clipFactor
  rw [ofBits_f32_one, ofBits_f32_five, ofBits_f32_floor, clip_eq_select hn0 floor_pos floor_le_five]

/-- The other three table-scaling bodies store the same term of their loads. -/
theorem k2_pay1_eq : @k2_pay1 = @k1_pay1 := rfl
theorem k3_pay1_eq : @k3_pay1 = @k1_pay1 := rfl
theorem k4_pay1_eq : @k4_pay1 = @k1_pay1 := rfl

/-! ## The same over the [100000, 16] table the [12500, 128] array is a reshape of -/

/-- The table row that lane `c` of line `l` belongs to: `8 l + c / 16`. -/
def lineRow (l : Fin 12500) (c : Fin 128) : Fin 100000 :=
  ⟨8 * l.val + c.val / 16, by have := l.isLt; have := c.isLt; omega⟩

/-- The column of that row that lane `c` holds: `c mod 16`. -/
def laneCol (c : Fin 128) : Fin 16 := ⟨c.val % 16, Nat.mod_lt _ (by norm_num)⟩

/-- The norm of a table row. -/
def rowNorm (T : Vec Ideal S100000x16 .f32) (r : Fin 100000) : EReal :=
  Ideal.sqrt (∑ d : Fin 16, T (ix2 r d) * T (ix2 r d))

/-- When the [12500, 128] array is the row-major reshape of a [100000, 16] table, the block of sixteen lanes that holds
    lane `c` of line `l` is the table's row `8 l + c / 16`, column by column, so the block's norm is that row's. -/
theorem blockNorm_eq_rowNorm (T : Vec Ideal S100000x16 .f32) (X : Vec Ideal S12500x128 .f32)
    (hXT : ∀ (l : Fin 12500) (c : Fin 128), X (ix2 l c) = T (ix2 (lineRow l c) (laneCol c))) (l : Fin 12500) (c : Fin 128) :
    blockNorm X l c = rowNorm T (lineRow l c) := by
  unfold blockNorm rowNorm
  refine congrArg Ideal.sqrt (Finset.sum_congr rfl fun d _ => ?_)
  have h1 : lineRow l (blockLane c d) = lineRow l c :=
    Fin.ext (by show 8 * l.val + (16 * (c.val / 16) + d.val) / 16 = 8 * l.val + c.val / 16; have := d.isLt; omega)
  have h2 : laneCol (blockLane c d) = d :=
    Fin.ext (by show (16 * (c.val / 16) + d.val) % 16 = d.val; have := d.isLt; omega)
  rw [hXT, h1, h2]

/-- So each stored lane is the table's entry times the reference's factor of its row's norm. -/
theorem scale_payload_table (T : Vec Ideal S100000x16 .f32) (X : Vec Ideal S12500x128 .f32) (seg : Vec Ideal S128x8 .f32)
    (segT : Vec Ideal S8x128 .f32) (hT : ∀ idx, ∃ r : ℝ, T idx = (r : EReal))
    (hXT : ∀ (l : Fin 12500) (c : Fin 128), X (ix2 l c) = T (ix2 (lineRow l c) (laneCol c)))
    (hseg : ∀ (c : Fin 128) (k : Fin 8), seg (ix2 c k) = if c.val / 16 = k.val then (1 : EReal) else 0)
    (hsegT : ∀ (k : Fin 8) (c : Fin 128), segT (ix2 k c) = if c.val / 16 = k.val then (1 : EReal) else 0)
    (l : Fin 12500) (c : Fin 128) :
    k1_pay1 (F := Ideal) X seg segT (ix2 l c)
      = T (ix2 (lineRow l c) (laneCol c)) * clipFactor (rowNorm T (lineRow l c)) := by
  have hX : ∀ idx, ∃ r : ℝ, X idx = (r : EReal) := fun idx => by
    obtain ⟨p, q, rfl⟩ : ∃ (p : Fin 12500) (q : Fin 128), idx = ix2 p q := ⟨idx 0, idx 1, eq_ix2 idx⟩
    rw [hXT]; exact hT _
  rw [scale_payload X seg segT hX hseg hsegT l c, blockNorm_eq_rowNorm T X hXT l c, hXT]

end Cert.Proof.Values

end
-- ==== Proof.TcSeg.lean ====
/-
  The two dense constants of the table-scaling bodies, read at an index. The first, a [128, 8] array, holds 1
  at (c, k) exactly when lane c lies in block k of sixteen lanes (c / 16 = k), and 0 elsewhere; the second, an
  [8, 128] array, is its transpose. Their literal tables are compared ONCE with these closed forms, entry by
  entry; every later use reads the closed form.
-/
import proofs.«203359_g24824910971486_cont_8to1_1854_34_alg».proof.KernelIdeal
import proofs.«203359_g24824910971486_cont_8to1_1854_34_alg».proof.Proof.LibEmbedScale
import Idealize.ShloMosaic.Lib.Decide
import Idealize.ShloMosaic.Lib.ValueIdx

noncomputable section

open Idealize.ShloMosaic Idealize.ShloMosaic.ValueIdx

namespace Cert.Proof.Values

open Cert.KernelIdeal (lit0 lit1 S128x8 S8x128)

/-- The first table, row-major over [128, 8]: entry `i` is lane `i / 8`, block `i % 8`; it is the word of `1.0`
    when the lane lies in the block and the zero word otherwise. -/
theorem lit0_closed : ∀ i : Fin 1024,
    lit0 i = if (i.val / 8) / 16 = i.val % 8 then 0x3F800000#32 else 0x00000000#32 := by
  decide +kernel

/-- The second table, row-major over [8, 128]: entry `i` is block `i / 128`, lane `i % 128`. -/
theorem lit1_closed : ∀ i : Fin 1024,
    lit1 i = if (i.val % 128) / 16 = i.val / 128 then 0x3F800000#32 else 0x00000000#32 := by
  decide +kernel

/-- The [128, 8] constant at (c, k), as an extended real: the indicator of "lane c lies in block k". -/
theorem seg_apply (c : Fin 128) (k : Fin 8) :
    FloatOps.ofBits (F := Ideal) .f32 (lit0 (S128x8.rowMajor (ix2 c k)))
      = if c.val / 16 = k.val then (1 : EReal) else 0 := by
  have hv : (S128x8.rowMajor (ix2 c k)).val = c.val * 8 + k.val := Shape.rowMajor_val_two (ix2 c k)
  have key : ∀ i : Fin 1024, i.val = c.val * 8 + k.val →
      FloatOps.ofBits (F := Ideal) .f32 (lit0 i) = if c.val / 16 = k.val then (1 : EReal) else 0 := by
    intro i hi
    have hc := c.isLt
    have hk := k.isLt
    have h1 : (c.val * 8 + k.val) / 8 = c.val := by omega
    have h2 : (c.val * 8 + k.val) % 8 = k.val := by omega
    rw [lit0_closed, hi, Ideal.ofBits_def, h1, h2]
    split
    · exact ofBits_f32_one
    · exact ofBits_f32_zero
  exact key _ hv

/-- The [8, 128] constant at (k, c), as an extended real: the same indicator. -/
theorem segT_apply (k : Fin 8) (c : Fin 128) :
    FloatOps.ofBits (F := Ideal) .f32 (lit1 (S8x128.rowMajor (ix2 k c)))
      = if c.val / 16 = k.val then (1 : EReal) else 0 := by
  have hv : (S8x128.rowMajor (ix2 k c)).val = k.val * 128 + c.val := Shape.rowMajor_val_two (ix2 k c)
  have key : ∀ i : Fin 1024, i.val = k.val * 128 + c.val →
      FloatOps.ofBits (F := Ideal) .f32 (lit1 i) = if c.val / 16 = k.val then (1 : EReal) else 0 := by
    intro i hi
    have hc := c.isLt
    have hk := k.isLt
    have h1 : (k.val * 128 + c.val) % 128 = c.val := by omega
    have h2 : (k.val * 128 + c.val) / 128 = k.val := by omega
    rw [lit1_closed, hi, Ideal.ofBits_def, h1, h2]
    split
    · exact ofBits_f32_one
    · exact ofBits_f32_zero
  exact key _ hv

end Cert.Proof.Values

end
-- ==== Proof.TcValues.lean ====
/-
  The five TensorCore bodies' stored values at an index, at the ideal values, gathered: the batch normalisation
  (bn_kernel_form, bn_payload), the table scaling over any operands that hold the block indicator
  (scale_kernel_form, scale_payload, scale_payload_table; the four scaling bodies are one term), and the table scaling
  at the program's own two constant tables (scale_payload_consts, scale_payload_table_consts).
-/
import proofs.«203359_g24824910971486_cont_8to1_1854_34_alg».proof.Proof.TcBn
import proofs.«203359_g24824910971486_cont_8to1_1854_34_alg».proof.Proof.TcScale
import proofs.«203359_g24824910971486_cont_8to1_1854_34_alg».proof.Proof.TcSeg

noncomputable section

open Idealize.ShloMosaic Idealize.ShloMosaic.ValueIdx

namespace Cert.Proof.Values

open Cert.KernelIdeal (S12500x128 S128x8 S8x128 S100000x16 lit0 lit1)
open Cert.KernelIdeal.Gen (k1_pay1)

/-- The table-scaling body at the program's two constant tables: for a finite block, lane `c` of line `l` times the
    reference's factor of its block's norm. -/
theorem scale_payload_consts (X : Vec Ideal S12500x128 .f32) (hX : ∀ idx, ∃ r : ℝ, X idx = (r : EReal))
    (l : Fin 12500) (c : Fin 128) :
    k1_pay1 (F := Ideal) X (fun i => FloatOps.ofBits (F := Ideal) .f32 (lit0 (S128x8.rowMajor i)))
        (fun i => FloatOps.ofBits (F := Ideal) .f32 (lit1 (S8x128.rowMajor i))) (ix2 l c)
      = X (ix2 l c) * clipFactor (blockNorm X l c) :=
  scale_payload X _ _ hX seg_apply segT_apply l c

/-- The same over the [100000, 16] table the block is the reshape of: the table's entry times the reference's factor of
    its row's norm. -/
theorem scale_payload_table_consts (T : Vec Ideal S100000x16 .f32) (X : Vec Ideal S12500x128 .f32)
    (hT : ∀ idx, ∃ r : ℝ, T idx = (r : EReal))
    (hXT : ∀ (l : Fin 12500) (c : Fin 128), X (ix2 l c) = T (ix2 (lineRow l c) (laneCol c)))
    (l : Fin 12500) (c : Fin 128) :
    k1_pay1 (F := Ideal) X (fun i => FloatOps.ofBits (F := Ideal) .f32 (lit0 (S128x8.rowMajor i)))
        (fun i => FloatOps.ofBits (F := Ideal) .f32 (lit1 (S8x128.rowMajor i))) (ix2 l c)
      = T (ix2 (lineRow l c) (laneCol c)) * clipFactor (rowNorm T (lineRow l c)) :=
  scale_payload_table T X _ _ hT hXT seg_apply segT_apply l c

end Cert.Proof.Values

end
-- ==== Proof.BridgeBn.lean ====
import proofs.«203359_g24824910971486_cont_8to1_1854_34_alg».proof.Proof.RefRead
import proofs.«203359_g24824910971486_cont_8to1_1854_34_alg».proof.Proof.TcValues
import proofs.«203359_g24824910971486_cont_8to1_1854_34_alg».proof.Proof.ScMain
import proofs.«203359_g24824910971486_cont_8to1_1854_34_alg».proof.Proof.Gen.Pre_input_domain
import Idealize.ShloMosaic.Lib.ReduceAll

/-! The batch normalisation's two sides joined: under the precondition the float inputs are finite, and for a finite input
    the value the kernel stores is the reference's, as whole arrays. -/

noncomputable section

namespace Cert.Proof.Bridge

open Idealize.ShloMosaic Idealize.ShloMosaic.ValueIdx
open scoped BigOperators

/-! ## Finiteness, from the precondition -/

/-- The precondition's results have one index. -/
local instance subsingleton_scalar_idx : Subsingleton Cert.Pre_input_domain.S_.Idx := ⟨fun a b => funext fun d => d.elim0⟩

/-- The word 0x7F800000 is +∞. -/
theorem ofBits_f32_inf : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One `jnp.all` of `|x| < +∞` over a float array, read back: every element is a real. -/
theorem finite_of_all {s : Shape} {axes : List (Fin s.rank)} (a : FVec Ideal s .f32) (init : IVec Cert.Pre_input_domain.S_ 1)
    (hb : Cert.Pre_input_domain.S_.BroadcastsInDim s (![] : Fin 0 → Fin s.rank))
    (hr : s.ReducesTo axes Cert.Pre_input_domain.S_) (hn : 0 < Cert.Pre_input_domain.S_.numel)
    (j : Cert.Pre_input_domain.S_.Idx)
    (e : Host.reduce IntOp.andi
        (cmpf .olt (Host.absf a) (broadcastInDim s ![] hb (constant Cert.Pre_input_domain.S_ .f32 0x7F800000#32)))
        init hr hn j = 1#1) :
    ∀ i, ∃ r : ℝ, a i = (r : EReal) := by
  intro i
  have e' := Host.reduce_andi_all _ _ hr hn j e i
  have e2 : BitVec.ofBool (decide (max (a i) (-(a i)) < Ideal.ofBits .f32 0x7F800000#32)) = 1#1 := e'
  have hlt : max (a i) (-(a i)) < Ideal.ofBits .f32 0x7F800000#32 := by
    by_contra hc
    rw [decide_eq_false hc] at e2
    exact absurd e2 (by decide)
  rw [ofBits_f32_inf] at hlt
  exact real_of_abs_lt_top _ hlt

/-- FROM THE PRECONDITION (the printed predicate all ones): the numeric features and the four tables are finite. -/
theorem finite_of_pre
    (a0 : FVec Ideal Cert.Pre_input_domain.S16384x13 .f32) (a1 : IVec Cert.Pre_input_domain.S16384x26 32)
    (a2 a3 a4 a5 : IVec Cert.Pre_input_domain.S16384x50 32) (a6 a7 : FVec Ideal Cert.Pre_input_domain.S13 .f32)
    (a8 a9 a10 a11 : FVec Ideal Cert.Pre_input_domain.S100000x16 .f32)
    (h : Cert.Pre_input_domain.fn (F := Ideal) a0 a1 a2 a3 a4 a5 a6 a7 a8 a9 a10 a11 = fun _ => 1#1) :
    (∀ idx, ∃ r : ℝ, a0 idx = (r : EReal)) ∧ (∀ idx, ∃ r : ℝ, a8 idx = (r : EReal)) ∧ (∀ idx, ∃ r : ℝ, a9 idx = (r : EReal))
      ∧ (∀ idx, ∃ r : ℝ, a10 idx = (r : EReal)) ∧ (∀ idx, ∃ r : ℝ, a11 idx = (r : EReal)) := by
  have h0 := congrFun h ValueIdx.ix0
  simp only [Cert.Pre_input_domain.fn, Cert.Pre_input_domain.fn_part1, Cert.Pre_input_domain.fn_part2,
    Cert.Pre_input_domain.fn_part3, Cert.Pre_input_domain.fn_part4] at h0
  obtain ⟨h61, -⟩ := IntOp.andi_eq_one.1 h0
  obtain ⟨h54, -⟩ := IntOp.andi_eq_one.1 h61
  obtain ⟨h47, -⟩ := IntOp.andi_eq_one.1 h54
  obtain ⟨h40, -⟩ := IntOp.andi_eq_one.1 h47
  obtain ⟨h33, -⟩ := IntOp.andi_eq_one.1 h40
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, -⟩ := IntOp.andi_eq_one.1 h13
  obtain ⟨h3, -⟩ := IntOp.andi_eq_one.1 h8
  exact ⟨finite_of_all a0 _ _ _ _ _ h3, finite_of_all a8 _ _ _ _ _ h17, finite_of_all a9 _ _ _ _ _ h22,
    finite_of_all a10 _ _ _ _ _ h27, finite_of_all a11 _ _ _ _ _ h32⟩

/-! ## The batch normalisation: the kernel's stored value is the reference's -/

/-- What the kernel's host reshape of a per-feature vector to one row computes. -/
abbrev G1 {F : FTy → Type} (g : Vec F Cert.KernelIdeal.S13 .f32) : Vec F Cert.KernelIdeal.S1x13 .f32 :=
  shapeCast Cert.KernelIdeal.S1x13 g Cert.KernelIdeal.Gen.shapeCasts_S13_S1x13

/-- The reshape of the scale vector leaves that row in its result buffer, from any contents. -/
theorem opG_result {F : FTy → Type} [FloatOps F] (W : Valuation Cert.KernelIdeal.τ Cert.KernelIdeal.sig (Elt F)) :
    (Cert.Proof.ScMain.opG (F := F)).result W (Cert.Proof.ScMain.dr Cert.KernelIdeal.main_v0)
      = G1 (W (Cert.Proof.ScMain.dr Cert.KernelIdeal.main_arg6)) :=
  StableHlo.reshape_result Cert.KernelIdeal.main_arg6 Cert.KernelIdeal.main_v0 rfl Cert.KernelIdeal.Gen.shapeCasts_S13_S1x13
    ⟨by decide, rfl⟩ ⟨by decide, rfl⟩ W

/-- The reshape of the shift vector likewise. -/
theorem opB_result {F : FTy → Type} [FloatOps F] (W : Valuation Cert.KernelIdeal.τ Cert.KernelIdeal.sig (Elt F)) :
    (Cert.Proof.ScMain.opB (F := F)).result W (Cert.Proof.ScMain.dr Cert.KernelIdeal.main_v1)
      = G1 (W (Cert.Proof.ScMain.dr Cert.KernelIdeal.main_arg7)) :=
  StableHlo.reshape_result Cert.KernelIdeal.main_arg7 Cert.KernelIdeal.main_v1 rfl Cert.KernelIdeal.Gen.shapeCasts_S13_S1x13
    ⟨by decide, rfl⟩ ⟨by decide, rfl⟩ W

/-- The row reads the vector's entry. -/
theorem G1_apply {F : FTy → Type} (g : Vec F Cert.KernelIdeal.S13 .f32) (j : Fin 13) :
    G1 g (ix2 (0 : Fin 1) j) = g (ix1 j) :=
  shapeCast_a_1a_apply g _ 0 j

/-- The two spellings of a column's mean agree: a sum from zero is the sum. -/
theorem meanAt_eq (x : Vec Ideal Cert.KernelIdeal.S16384x13 .f32) (j : Fin 13) :
    Cert.ReferenceIdeal.RefRead.meanAt x j = Cert.Proof.Values.bnMean x j := by
  unfold Cert.ReferenceIdeal.RefRead.meanAt Cert.Proof.Values.bnMean
  rw [zero_add]

/-- The two spellings of a column's variance agree. -/
theorem varAt_eq (x : Vec Ideal Cert.KernelIdeal.S16384x13 .f32) (j : Fin 13) :
    Cert.ReferenceIdeal.RefRead.varAt x j = Cert.Proof.Values.bnVar x j := by
  unfold Cert.ReferenceIdeal.RefRead.varAt Cert.Proof.Values.bnVar
  simp only [zero_add, meanAt_eq]

/-- THE BATCH NORMALISATION, BOTH SIDES: for a finite input the array the kernel's body stores, over the reshaped scale
    and shift, is the reference's normalised features. -/
theorem bn_bridge (x : Vec Ideal Cert.KernelIdeal.S16384x13 .f32) (g b : Vec Ideal Cert.KernelIdeal.S13 .f32)
    (hx : ∀ idx, ∃ r : ℝ, x idx = (r : EReal)) :
    Cert.KernelIdeal.Gen.k0_pay1 (F := Ideal) x (G1 g) (G1 b) = Cert.ReferenceIdeal.RefRun.bnRef (F := Ideal) x g b := by
  funext idx
  obtain ⟨i, j, rfl⟩ : ∃ (i : Fin 16384) (j : Fin 13), idx = ix2 i j := ⟨idx 0, idx 1, eq_ix2 idx⟩
  rw [Cert.Proof.Values.bn_payload x _ _ hx i j, Cert.ReferenceIdeal.RefRead.bnRef_apply x g b i j, G1_apply, G1_apply,
    meanAt_eq, varAt_eq]

end Cert.Proof.Bridge

end
-- ==== Proof.ScRead.lean ====
/-
  The reshaped gathered array read at (batch, position, feature): the scaled table's element at line w / 8, lane
  (w % 8) * 16 + feature, for w the index word at (batch, position).
-/
import proofs.«203359_g24824910971486_cont_8to1_1854_34_alg».proof.Proof.ScBodyValDefs
import Idealize.ShloMosaic.Lib.Pipeline.Value
import Idealize.ShloMosaic.Lib.ValueIdx

noncomputable section

namespace Cert.Proof.Bridge

open Cert.KernelIdeal Cert.KernelIdeal.Gen Cert.Proof.ScBody
open Idealize.ShloMosaic Idealize.ShloMosaic.ValueIdx

variable {F : FTy → Type}

/-- An index word in [0, 99999] as a natural number. -/
theorem idx_nat (w : BitVec 32) (h : IdxOK w) : w.toNat ≤ 99999 ∧ w.msb = false := by
  obtain ⟨h0, h1⟩ := h
  have hcond := BitVec.toInt_eq_toNat_cond w
  have h2 : 2 * w.toNat < 2 ^ 32 := by
    by_contra hn
    rw [if_neg hn] at hcond
    have := w.isLt
    omega
  rw [if_pos h2] at hcond
  exact ⟨by omega, BitVec.msb_eq_false_iff_two_mul_lt.mpr h2⟩

theorem shr3_val (w : BitVec 32) (h : IdxOK w) : (IntOp.shrsi .vector w 3#32).toNat = w.toNat / 8 := by
  obtain ⟨_, hmsb⟩ := idx_nat w h
  show (if (3#32 : BitVec 32).toNat < 32 then w.sshiftRight' 3#32 else _).toNat = w.toNat / 8
  rw [if_pos (by decide)]
  show (w.sshiftRight 3).toNat = w.toNat / 8
  rw [BitVec.sshiftRight_eq_of_msb_false hmsb, BitVec.toNat_ushiftRight, Nat.shiftRight_eq_div_pow]

theorem and7_val (w : BitVec 32) : (w &&& 7#32).toNat = w.toNat % 8 := by
  rw [BitVec.toNat_and]
  exact Nat.and_two_pow_sub_one_eq_mod w.toNat 3

theorem gathered_apply (Ts : S12500x128.Idx → Elt F .f32) (ix : S16384x50.Idx → BitVec 32) (hix : ∀ i, IdxOK (ix i))
    (b : Fin 16384) (s : Fin 50) (d : Fin 16) :
    shapeCast S16384x50x16
        (fun idx => gatherAt (F := F) Ts (fun i => shapeCast S819200 ix shapeCasts_S16384x50_S819200 i) idx)
        shapeCasts_S102400x128_S16384x50x16 (ix3 b s d)
      = Ts (ix2 (⟨(ix (ix2 b s)).toNat / 8, by have := (idx_nat _ (hix (ix2 b s))).1; omega⟩ : Fin 12500)
          (⟨(ix (ix2 b s)).toNat % 8 * 16 + d.val, by have := d.isLt; omega⟩ : Fin 128)) := by
  have hb := b.isLt; have hs := s.isLt; have hd := d.isLt
  -- the flat position of (b, s, d), its line and lane
  have hflat : ((b.val * 50 + s.val) * 16 + d.val) / 128 < 102400 := by omega
  rw [shapeCast_apply _ shapeCasts_S102400x128_S16384x50x16 (ix3 b s d)
    (ix2 (⟨((b.val * 50 + s.val) * 16 + d.val) / 128, hflat⟩ : Fin 102400) (⟨((b.val * 50 + s.val) * 16 + d.val) % 128, Nat.mod_lt _ (by decide)⟩ : Fin 128))
    (by rw [Shape.rowMajor_val_two, Shape.rowMajor_val_three]
        show ((b.val * 50 + s.val) * 16 + d.val) / 128 * 128 + ((b.val * 50 + s.val) * 16 + d.val) % 128 = (b.val * 50 + s.val) * 16 + d.val
        omega)]
  unfold gatherAt
  -- the index word read
  have hj : (8 * (((b.val * 50 + s.val) * 16 + d.val) / 128) + ((b.val * 50 + s.val) * 16 + d.val) % 128 / 16) % 819200 = b.val * 50 + s.val := by
    omega
  have hw : shapeCast S819200 ix shapeCasts_S16384x50_S819200
      (ix1 (⟨(8 * (((b.val * 50 + s.val) * 16 + d.val) / 128) + ((b.val * 50 + s.val) * 16 + d.val) % 128 / 16) % 819200, Nat.mod_lt _ (by decide)⟩ : Fin 819200))
      = ix (ix2 b s) :=
    shapeCast_apply _ _ _ _ (by
      rw [Shape.rowMajor_val_two, Shape.rowMajor_val_one]
      show b.val * 50 + s.val = _
      exact hj.symm)
  have key : ∀ (w : BitVec 32) (hw' : IdxOK w) (c : ℕ), c % 16 = d.val →
      Ts (ix2 (⟨(IntOp.shrsi .vector w 3#32).toNat % 12500, Nat.mod_lt _ (by decide)⟩ : Fin 12500)
          (⟨((w &&& 7#32).toNat * 16 + c % 16) % 128, Nat.mod_lt _ (by decide)⟩ : Fin 128))
        = Ts (ix2 (⟨w.toNat / 8, by have := (idx_nat _ hw').1; omega⟩ : Fin 12500) (⟨w.toNat % 8 * 16 + d.val, by omega⟩ : Fin 128)) := by
    intro w hw' c hc
    have h1 : (IntOp.shrsi .vector w 3#32).toNat % 12500 = w.toNat / 8 := by
      rw [shr3_val w hw']; exact Nat.mod_eq_of_lt (by have := (idx_nat _ hw').1; omega)
    have h2 : ((w &&& 7#32).toNat * 16 + c % 16) % 128 = w.toNat % 8 * 16 + d.val := by
      rw [and7_val, hc]; exact Nat.mod_eq_of_lt (by omega)
    congr 2
    · exact Fin.ext h1
    · exact Fin.ext h2
  dsimp only
  refine (key _ (by rw [hw]; exact hix _) _ (by show ((b.val * 50 + s.val) * 16 + d.val) % 128 % 16 = d.val; omega)).trans ?_
  congr 2
  · exact Fin.ext (by show _ / 8 = _ / 8; rw [hw])
  · exact Fin.ext (by show _ % 8 * 16 + _ = _ % 8 * 16 + _; rw [hw])

end Cert.Proof.Bridge

end
-- ==== Proof.BridgeEmb.lean ====
import proofs.«203359_g24824910971486_cont_8to1_1854_34_alg».proof.Proof.RefRead
import proofs.«203359_g24824910971486_cont_8to1_1854_34_alg».proof.Proof.TcValues
import proofs.«203359_g24824910971486_cont_8to1_1854_34_alg».proof.Proof.ScBodyValDefs
import proofs.«203359_g24824910971486_cont_8to1_1854_34_alg».proof.Proof.ScRead
/-! The embedding tables' two sides joined: for a finite table and index words in range, what the kernel's scaling body
    stores at the place the look-up reads is the reference's rescaled looked-up entry. -/

noncomputable section

namespace Cert.Proof.Bridge

open Idealize.ShloMosaic Idealize.ShloMosaic.ValueIdx
open Cert.Proof.ScBody (IdxOK)
open scoped BigOperators

/-- The two constant operands of the table-scaling bodies, as the program's host constants hold them. -/
abbrev segC : Vec Ideal Cert.KernelIdeal.S128x8 .f32 :=
  fun i => FloatOps.ofBits (F := Ideal) .f32 (Cert.KernelIdeal.lit0 (Cert.KernelIdeal.S128x8.rowMajor i))
abbrev segTC : Vec Ideal Cert.KernelIdeal.S8x128 .f32 :=
  fun i => FloatOps.ofBits (F := Ideal) .f32 (Cert.KernelIdeal.lit1 (Cert.KernelIdeal.S8x128.rowMajor i))

/-- The [12500, 128] array a [100000, 16] table is reshaped to holds, in lane `c` of line `l`, the table's row
    `8 l + c / 16`, column `c mod 16`. -/
theorem reshape_table_apply {α : Type} (T : Cert.KernelIdeal.S100000x16.Idx → α) (l : Fin 12500) (c : Fin 128) :
    shapeCast Cert.KernelIdeal.S12500x128 T Cert.KernelIdeal.Gen.shapeCasts_S100000x16_S12500x128 (ix2 l c)
      = T (ix2 (Cert.Proof.Values.lineRow l c) (Cert.Proof.Values.laneCol c)) :=
  shapeCast_apply T _ (ix2 l c) (ix2 (Cert.Proof.Values.lineRow l c) (Cert.Proof.Values.laneCol c)) (by
    rw [Shape.rowMajor_val_two, Shape.rowMajor_val_two]
    show (8 * l.val + c.val / 16) * 16 + c.val % 16 = l.val * 128 + c.val
    omega)

/-- The line and the lane of the reshaped table that hold column `d` of row `w`. -/
theorem lineRow_laneCol (w : Nat) (hw : w < 100000) (d : Fin 16) :
    Cert.Proof.Values.lineRow (⟨w / 8, by omega⟩ : Fin 12500) (⟨w % 8 * 16 + d.val, by have := d.isLt; omega⟩ : Fin 128)
        = (⟨w, hw⟩ : Fin 100000)
      ∧ Cert.Proof.Values.laneCol (⟨w % 8 * 16 + d.val, by have := d.isLt; omega⟩ : Fin 128) = d := by
  have hd := d.isLt
  constructor
  · refine Fin.ext ?_
    show 8 * (w / 8) + (w % 8 * 16 + d.val) / 16 = w
    omega
  · refine Fin.ext ?_
    show (w % 8 * 16 + d.val) % 16 = d.val
    omega

/-- The kernel's spelling of the clipping factor is the reference's. -/
theorem clipFactor_eq (n : EReal) :
    Cert.Proof.Values.clipFactor n
      = if Ideal.ofBits .f32 0x40A00000#32 < n
        then Ideal.div (Ideal.ofBits .f32 0x40A00000#32) (max n (Ideal.ofBits .f32 0x2B8CBCCC#32))
        else Ideal.ofBits .f32 0x3F800000#32 := by
  unfold Cert.Proof.Values.clipFactor
  by_cases h : Ideal.ofBits .f32 0x40A00000#32 < n
  · rw [if_pos h]
    show Scalar.select (BitVec.ofBool (decide (Ideal.ofBits .f32 0x40A00000#32 < n))) _ _ = _
    rw [decide_eq_true h]; exact select_one _ _
  · rw [if_neg h]
    show Scalar.select (BitVec.ofBool (decide (Ideal.ofBits .f32 0x40A00000#32 < n))) _ _ = _
    rw [decide_eq_false h]; exact select_zero _ _

/-- The two spellings of a table row's norm agree: a sum from zero is the sum. -/
theorem rowNorm_eq (T : Vec Ideal Cert.KernelIdeal.S100000x16 .f32) (r : Fin 100000) :
    Cert.Proof.Values.rowNorm T r = Cert.ReferenceIdeal.RefRead.tableRowNorm T r := by
  unfold Cert.Proof.Values.rowNorm Cert.ReferenceIdeal.RefRead.tableRowNorm
  rw [zero_add]

/-- ONE TABLE, BOTH SIDES, AT AN INDEX: for a finite table and an index word in range, the scaling body's stored value
    at the line and lane the look-up reads for (b, s, d) is the reference's result there. -/
theorem emb_bridge (T : Vec Ideal Cert.KernelIdeal.S100000x16 .f32) (ix : IVec Cert.KernelIdeal.S16384x50 32)
    (hT : ∀ idx, ∃ r : ℝ, T idx = (r : EReal)) (hix : ∀ i, IdxOK (ix i)) (b : Fin 16384) (s : Fin 50) (d : Fin 16) :
    Cert.KernelIdeal.Gen.k1_pay1 (F := Ideal)
        (fun i => shapeCast Cert.KernelIdeal.S12500x128 T Cert.KernelIdeal.Gen.shapeCasts_S100000x16_S12500x128 i) segC segTC
        (ix2 (⟨(ix (ix2 b s)).toNat / 8, by
            have := (Cert.ReferenceIdeal.RefRead.toNat_of_range _ (hix (ix2 b s)).1 (hix (ix2 b s)).2).2; omega⟩ : Fin 12500)
          (⟨(ix (ix2 b s)).toNat % 8 * 16 + d.val, by have := d.isLt; omega⟩ : Fin 128))
      = Cert.ReferenceIdeal.RefRun.embRef (F := Ideal) T ix (ix3 b s d) := by
  have hw := (Cert.ReferenceIdeal.RefRead.toNat_of_range _ (hix (ix2 b s)).1 (hix (ix2 b s)).2).2
  obtain ⟨e1, e2⟩ := lineRow_laneCol (ix (ix2 b s)).toNat hw d
  rw [Cert.Proof.Values.scale_payload_table_consts T _ hT (fun l c => reshape_table_apply T l c),
    Cert.ReferenceIdeal.RefRead.embRef_apply T ix b s d (hix (ix2 b s)).1 (hix (ix2 b s)).2, e1, e2, clipFactor_eq, rowNorm_eq]

/-- ONE TABLE, BOTH SIDES, AS WHOLE ARRAYS: for a finite table and index words in range, the array of gathered elements of
    the scaled reshaped table, reshaped to [16384, 50, 16], is the reference's result. -/
theorem emb_full (T : Vec Ideal Cert.KernelIdeal.S100000x16 .f32) (ix : IVec Cert.KernelIdeal.S16384x50 32)
    (hT : ∀ idx, ∃ r : ℝ, T idx = (r : EReal)) (hix : ∀ i, IdxOK (ix i)) :
    (fun i => shapeCast Cert.KernelIdeal.S16384x50x16
        (fun idx => Cert.Proof.ScBody.gatherAt (F := Ideal)
          (Cert.KernelIdeal.Gen.k1_pay1 (F := Ideal)
            (fun i => shapeCast Cert.KernelIdeal.S12500x128 T Cert.KernelIdeal.Gen.shapeCasts_S100000x16_S12500x128 i) segC segTC)
          (fun i => shapeCast Cert.KernelIdeal.S819200 ix Cert.KernelIdeal.Gen.shapeCasts_S16384x50_S819200 i) idx)
        Cert.KernelIdeal.Gen.shapeCasts_S102400x128_S16384x50x16 i)
      = Cert.ReferenceIdeal.RefRun.embRef (F := Ideal) T ix := by
  funext i
  obtain ⟨b, s, d, rfl⟩ : ∃ (b : Fin 16384) (s : Fin 50) (d : Fin 16), i = ix3 b s d := ⟨i 0, i 1, i 2, eq_ix3 i⟩
  rw [gathered_apply _ ix hix b s d]
  exact emb_bridge T ix hT hix b s d

end Cert.Proof.Bridge

end
-- ==== Proof.ScAlg.lean ====
/-
  The algebraic conjunct: at the ideal instance, from memories agreeing on the arguments, the kernel program and the
  reference both run and end with equal results and unchanged arguments. The kernel's results are read off the final
  valuation of its run; each is joined to the reference's value: the batch normalisation by its body's payload on whole
  arrays, the four embeddings by the gathered array of the scaled table.
-/
import proofs.«203359_g24824910971486_cont_8to1_1854_34_alg».proof.Proof.ScFrameV
import proofs.«203359_g24824910971486_cont_8to1_1854_34_alg».proof.Proof.ScVals
import proofs.«203359_g24824910971486_cont_8to1_1854_34_alg».proof.Proof.BridgeBn
import proofs.«203359_g24824910971486_cont_8to1_1854_34_alg».proof.Proof.BridgeEmb
import proofs.«203359_g24824910971486_cont_8to1_1854_34_alg».proof.Proof.RefRun
import proofs.«203359_g24824910971486_cont_8to1_1854_34_alg».proof.Proof.ScIdx

noncomputable section

namespace Cert.Proof.ScAlg

open Cert.KernelIdeal Cert.KernelIdeal.Gen Cert.Proof.ScSetup Cert.Proof.ScMain Cert.Proof.ScBody Cert.Proof.ScCall Cert.Proof.ScCallV
  Cert.Proof.ScMainV Cert.Proof.ScFrame Cert.Proof.ScFrameV Cert.Proof.Bridge

open Idealize.ShloMosaic Idealize.ShloMosaic.ValueIdx

/-- What TensorCore call 0 leaves in its output: its body's payload on the whole arrays. -/
def Out0Stmt : Prop := ∀ (d : Dev nD) (W : Valuation τ sig (Elt Ideal)),
  ScReg0.R0 (F := Ideal) d W = k0_pay1 (F := Ideal) (W (dr main_arg0)) (W (dr main_v0)) (W (dr main_v1))
def Out1Stmt : Prop := ∀ (d : Dev nD) (W : Valuation τ sig (Elt Ideal)),
  ScReg1.Rout (F := Ideal) d W = k1_pay1 (F := Ideal) (W (dr main_v3)) (W (dr main_cst)) (W (dr main_cst_0))
def Out2Stmt : Prop := ∀ (d : Dev nD) (W : Valuation τ sig (Elt Ideal)),
  ScReg2.Rout (F := Ideal) d W = k1_pay1 (F := Ideal) (W (dr main_v4)) (W (dr main_cst)) (W (dr main_cst_0))
def Out3Stmt : Prop := ∀ (d : Dev nD) (W : Valuation τ sig (Elt Ideal)),
  ScReg3.Rout (F := Ideal) d W = k1_pay1 (F := Ideal) (W (dr main_v5)) (W (dr main_cst)) (W (dr main_cst_0))
def Out4Stmt : Prop := ∀ (d : Dev nD) (W : Valuation τ sig (Elt Ideal)),
  ScReg4.Rout (F := Ideal) d W = k1_pay1 (F := Ideal) (W (dr main_v6)) (W (dr main_cst)) (W (dr main_cst_0))

variable (m : (ℓ : Loc nD τ sig) → Buf (Elt Ideal) ℓ)

/-! ## What the final valuation holds in the results -/

theorem Wf_v2 (h0 : Out0Stmt) (c : Dev nD) (hx : ∀ idx, ∃ r : ℝ, m (c, dr main_arg0) idx = (r : EReal)) :
    Wf m c (dr main_v2)
      = Cert.ReferenceIdeal.RefRun.bnRef (F := Ideal) (m (c, dr main_arg0)) (m (c, dr main_arg6)) (m (c, dr main_arg7)) := by
  rw [show Wf m c (dr main_v2) = _ from ScVals.WE_v2 m _ _ _ _ _ _ _ _ _ c, h0 c (WA m c), ScVals.WA_arg0, ScVals.WA_v0, ScVals.WA_v1]
  exact bn_bridge (m (c, dr main_arg0)) (m (c, dr main_arg6)) (m (c, dr main_arg7)) hx

theorem Wf_v16 (h : Out1Stmt) (c : Dev nD) (hT : ∀ idx, ∃ r : ℝ, m (c, dr main_arg8) idx = (r : EReal))
    (hix : ∀ i, IdxOK (m (c, dr main_arg2) i)) :
    Wf m c (dr main_v16) = Cert.ReferenceIdeal.RefRun.embRef (F := Ideal) (m (c, dr main_arg8)) (m (c, dr main_arg2)) := by
  rw [show Wf m c (dr main_v16) = _ from ScVals.WE_v16 m _ _ _ _ _ _ _ _ _ c]
  unfold Gk0 Go0
  rw [ScVals.WC_v7, ScVals.WC_v11, h c _, ScVals.WBk0_tab, ScVals.WBk0_cst, ScVals.WBk0_cst0]
  exact emb_full (m (c, dr main_arg8)) (m (c, dr main_arg2)) hT hix

theorem Wf_v17 (h : Out2Stmt) (c : Dev nD) (hT : ∀ idx, ∃ r : ℝ, m (c, dr main_arg9) idx = (r : EReal))
    (hix : ∀ i, IdxOK (m (c, dr main_arg3) i)) :
    Wf m c (dr main_v17) = Cert.ReferenceIdeal.RefRun.embRef (F := Ideal) (m (c, dr main_arg9)) (m (c, dr main_arg3)) := by
  rw [show Wf m c (dr main_v17) = _ from ScVals.WE_v17 m _ _ _ _ _ _ _ _ _ c]
  unfold Gk1 Go1
  rw [ScVals.WC_v8, ScVals.WC_v12, h c _, ScVals.WBk1_tab, ScVals.WBk1_cst, ScVals.WBk1_cst0]
  exact emb_full (m (c, dr main_arg9)) (m (c, dr main_arg3)) hT hix

theorem Wf_v18 (h : Out3Stmt) (c : Dev nD) (hT : ∀ idx, ∃ r : ℝ, m (c, dr main_arg10) idx = (r : EReal))
    (hix : ∀ i, IdxOK (m (c, dr main_arg4) i)) :
    Wf m c (dr main_v18) = Cert.ReferenceIdeal.RefRun.embRef (F := Ideal) (m (c, dr main_arg10)) (m (c, dr main_arg4)) := by
  rw [show Wf m c (dr main_v18) = _ from ScVals.WE_v18 m _ _ _ _ _ _ _ _ _ c]
  unfold Gk2 Go2
  rw [ScVals.WC_v9, ScVals.WC_v13, h c _, ScVals.WBk2_tab, ScVals.WBk2_cst, ScVals.WBk2_cst0]
  exact emb_full (m (c, dr main_arg10)) (m (c, dr main_arg4)) hT hix

theorem Wf_v19 (h : Out4Stmt) (c : Dev nD) (hT : ∀ idx, ∃ r : ℝ, m (c, dr main_arg11) idx = (r : EReal))
    (hix : ∀ i, IdxOK (m (c, dr main_arg5) i)) :
    Wf m c (dr main_v19) = Cert.ReferenceIdeal.RefRun.embRef (F := Ideal) (m (c, dr main_arg11)) (m (c, dr main_arg5)) := by
  rw [show Wf m c (dr main_v19) = _ from ScVals.WE_v19 m _ _ _ _ _ _ _ _ _ c]
  unfold Gk3 Go3
  rw [ScVals.WC_v10, ScVals.WC_v14, h c _, ScVals.WBk3_tab, ScVals.WBk3_cst, ScVals.WBk3_cst0]
  exact emb_full (m (c, dr main_arg11)) (m (c, dr main_arg5)) hT hix

/-! ## The conjunct -/

set_option maxHeartbeats 1000000 in
theorem algebraic_of (hbodyV : TileBodyValStmt (F := Ideal)) (h0 : Out0Stmt) (h1 : Out1Stmt) (h2 : Out2Stmt) (h3 : Out3Stmt) (h4 : Out4Stmt) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hm
  have hfin := fun c : Dev nD => finite_of_pre _ _ _ _ _ _ _ _ _ _ _ _ (hpre c)
  have htxt := fun c : Dev nD => Cert.Proof.ScIdx.text_range _ _ _ _ _ _ _ _ _ _ _ _ (hpre c)
  refine ⟨fun c => Wf m c (dr main_v2), fun c => Wf m c (dr main_arg1), fun c => Wf m c (dr main_v16), fun c => Wf m c (dr main_v17),
    fun c => Wf m c (dr main_v18), fun c => Wf m c (dr main_v19), ?_, ?_⟩
  · refine (θ_run (Cert.KernelIdeal.defs (F := Ideal)) _ _).mono (fun r h c => ?_)
      (runV m g hbodyV (Cert.Proof.ScIdx.idxPre_of_pre m _ _ _ _ _ hpre))
    exact ⟨h c (dr main_v2) (by decide), h c (dr main_arg1) (by decide), h c (dr main_v16) (by decide), h c (dr main_v17) (by decide), h c (dr main_v18) (by decide), h c (dr main_v19) (by decide),
      (h c (dr main_arg0) (by decide)).trans (keeps_Wf m c (dr main_arg0) (by decide)),
      (h c (dr main_arg1) (by decide)).trans (keeps_Wf m c (dr main_arg1) (by decide)),
      (h c (dr main_arg2) (by decide)).trans (keeps_Wf m c (dr main_arg2) (by decide)),
      (h c (dr main_arg3) (by decide)).trans (keeps_Wf m c (dr main_arg3) (by decide)),
      (h c (dr main_arg4) (by decide)).trans (keeps_Wf m c (dr main_arg4) (by decide)),
      (h c (dr main_arg5) (by decide)).trans (keeps_Wf m c (dr main_arg5) (by decide)),
      (h c (dr main_arg6) (by decide)).trans (keeps_Wf m c (dr main_arg6) (by decide)),
      (h c (dr main_arg7) (by decide)).trans (keeps_Wf m c (dr main_arg7) (by decide)),
      (h c (dr main_arg8) (by decide)).trans (keeps_Wf m c (dr main_arg8) (by decide)),
      (h c (dr main_arg9) (by decide)).trans (keeps_Wf m c (dr main_arg9) (by decide)),
      (h c (dr main_arg10) (by decide)).trans (keeps_Wf m c (dr main_arg10) (by decide)),
      (h c (dr main_arg11) (by decide)).trans (keeps_Wf m c (dr main_arg11) (by decide))⟩
  · refine (θ_run (Cert.ReferenceIdeal.defs (F := Ideal)) _ _).mono (fun r h c => ?_) (Cert.ReferenceIdeal.RefRun.run m' g')
    obtain ⟨e0, e1, e2, e3, e4, a0, a1, a2, a3, a4, a5, a6, a7, a8, a9, a10, a11⟩ := h c
    obtain ⟨m0, m1, m2, m3, m4, m5, m6, m7, m8, m9, m10, m11⟩ := hm c
    obtain ⟨hx0, hT8, hT9, hT10, hT11⟩ := hfin c
    obtain ⟨hi2, hi3, hi4, hi5⟩ := htxt c
    refine ⟨?_, ?_, ?_, ?_, ?_, ?_, a0, a1, a2, a3, a4, a5, a6, a7, a8, a9, a10, a11⟩
    · rw [e0, m0, m6, m7]; exact (Wf_v2 m h0 c hx0).symm
    · rw [a1, m1]; exact (keeps_Wf m c (dr main_arg1) (by decide)).symm
    · rw [e1, m8, m2]; exact (Wf_v16 m h1 c hT8 hi2).symm
    · rw [e2, m9, m3]; exact (Wf_v17 m h2 c hT9 hi3).symm
    · rw [e3, m10, m4]; exact (Wf_v18 m h3 c hT10 hi4).symm
    · rw [e4, m11, m5]; exact (Wf_v19 m h4 c hT11 hi5).symm

end Cert.Proof.ScAlg

end
-- ==== Proof.BridgeOut.lean ====
import proofs.«203359_g24824910971486_cont_8to1_1854_34_alg».proof.Proof.ScReg0
import proofs.«203359_g24824910971486_cont_8to1_1854_34_alg».proof.Proof.ScReg1
import proofs.«203359_g24824910971486_cont_8to1_1854_34_alg».proof.Proof.ScReg2
import proofs.«203359_g24824910971486_cont_8to1_1854_34_alg».proof.Proof.ScReg3
import proofs.«203359_g24824910971486_cont_8to1_1854_34_alg».proof.Proof.ScReg4
import Idealize.ShloMosaic.Lib.Pipeline.Value

/-! What each TensorCore call leaves in its output array, as one function of the arrays it reads: the call has one grid
    point and every block is the whole array, so the array ends holding the body's stored value of the whole arrays. -/

noncomputable section

namespace Cert.Proof.Bridge

open Cert.KernelIdeal Cert.KernelIdeal.Gen Cert.Proof.ScMain
open Idealize.ShloMosaic

variable {F : FTy → Type} [FloatOps F]

theorem hz2 : (![0, 0] : Fin 2 → Nat) = fun _ => 0 := funext fun a => by fin_cases a <;> rfl

/-- Call 0: its output array ends holding the body's stored value of the whole arrays it reads. -/
theorem out0 (d : Dev nD) (W : Valuation τ sig (Elt F)) :
    Cert.Proof.ScReg0.R0 d W = k0_pay1 (W (dr main_arg0)) (W (dr main_v0)) (W (dr main_v1)) := by
  show Cert.Proof.ScReg0.R0 d W = k0_pay1 (W (dr main_arg0)) (W (dr main_v0)) (W (dr main_v1))
  unfold Cert.Proof.ScReg0.R0
  refine Pipeline.Dat.arrAt_eq_of_cover _ 3 _ (fun t _ => ?_) (fun (i : S16384x13.Idx) => ?_)
  · show (cfg0.win 3).cut (cfg0.grid.coords t) ((Cert.Proof.ScReg0.dat0 (Cert.Proof.ScReg0.VW W) (Cert.Proof.ScReg0.OT (F := F)) d).after 3 t) = _
    rw [Cert.Proof.ScReg0.after0_3]
    unfold Cert.Proof.ScReg0.out0_3
    rw [View.canon_unit_zero hz2]
    simp only [View.ld_unit_zero (S := S16384x13) hz2, View.ld_unit_zero (S := S1x13) hz2, View.ld_unit_zero (S := S12500x128) hz2, View.ld_unit_zero (S := S128x8) hz2, View.ld_unit_zero (S := S8x128) hz2]
    have h0 : Cert.Proof.ScReg0.iblk0 (Cert.Proof.ScReg0.VW W) d 0 t = W (dr main_arg0) := by
      unfold Cert.Proof.ScReg0.iblk0
      funext x
      rw [View.read_apply, cast_eq]
      refine congrArg (W (dr main_arg0)) (funext fun a => Fin.ext ?_)
      show 0 * _ + 1 * (x a).val = (x a).val
      rw [Nat.zero_mul, Nat.zero_add, Nat.one_mul]
    have h1 : Cert.Proof.ScReg0.iblk0 (Cert.Proof.ScReg0.VW W) d 1 t = W (dr main_v0) := by
      unfold Cert.Proof.ScReg0.iblk0
      funext x
      rw [View.read_apply, cast_eq]
      refine congrArg (W (dr main_v0)) (funext fun a => Fin.ext ?_)
      show 0 * _ + 1 * (x a).val = (x a).val
      rw [Nat.zero_mul, Nat.zero_add, Nat.one_mul]
    have h2 : Cert.Proof.ScReg0.iblk0 (Cert.Proof.ScReg0.VW W) d 2 t = W (dr main_v1) := by
      unfold Cert.Proof.ScReg0.iblk0
      funext x
      rw [View.read_apply, cast_eq]
      refine congrArg (W (dr main_v1)) (funext fun a => Fin.ext ?_)
      show 0 * _ + 1 * (x a).val = (x a).val
      rw [Nat.zero_mul, Nat.zero_add, Nat.one_mul]
    rw [h0, h1, h2]
    funext j
    rw [View.read_apply, cast_eq]
    refine congrArg (k0_pay1 (W (dr main_arg0)) (W (dr main_v0)) (W (dr main_v1))) (funext fun a => Fin.ext ?_)
    show (j a).val = 0 * _ + 1 * (j a).val
    rw [Nat.zero_mul, Nat.zero_add, Nat.one_mul]
  · refine ⟨⟨0, Nat.one_pos⟩, rfl, ?_⟩
    show i ∈ ((View.whole main_v2).slice ((win0 3).rect ⟨0, Nat.one_pos⟩)).set
    rw [View.set_slice_whole, Rect.mem_set_unit]
    intro a
    refine ⟨?_, ?_⟩
    · show 0 * _ ≤ (i a).val
      rw [Nat.zero_mul]; exact Nat.zero_le _
    · show (i a).val < 0 * _ + _
      rw [Nat.zero_mul, Nat.zero_add]; exact (i a).isLt

/-- Call 1: its output array ends holding the body's stored value of the whole arrays it reads. -/
theorem out1 (d : Dev nD) (W : Valuation τ sig (Elt F)) :
    Cert.Proof.ScReg1.Rout d W = k1_pay1 (W (dr main_v3)) (W (dr main_cst)) (W (dr main_cst_0)) := by
  show Cert.Proof.ScReg1.Rout d W = k1_pay1 (W (dr main_v3)) (W (dr main_cst)) (W (dr main_cst_0))
  unfold Cert.Proof.ScReg1.Rout
  refine Pipeline.Dat.arrAt_eq_of_cover _ 3 _ (fun t _ => ?_) (fun (i : S12500x128.Idx) => ?_)
  · show (cfg1.win 3).cut (cfg1.grid.coords t) ((Cert.Proof.ScReg1.datR (Cert.Proof.ScReg1.VW W) (Cert.Proof.ScReg1.OT (F := F)) d).after 3 t) = _
    rw [Cert.Proof.ScReg1.after_3]
    unfold Cert.Proof.ScReg1.outB
    rw [View.canon_unit_zero hz2]
    simp only [View.ld_unit_zero (S := S16384x13) hz2, View.ld_unit_zero (S := S1x13) hz2, View.ld_unit_zero (S := S12500x128) hz2, View.ld_unit_zero (S := S128x8) hz2, View.ld_unit_zero (S := S8x128) hz2]
    have h0 : Cert.Proof.ScReg1.iblk (Cert.Proof.ScReg1.VW W) d 0 t = W (dr main_cst) := by
      unfold Cert.Proof.ScReg1.iblk
      funext x
      rw [View.read_apply, cast_eq]
      refine congrArg (W (dr main_cst)) (funext fun a => Fin.ext ?_)
      show 0 * _ + 1 * (x a).val = (x a).val
      rw [Nat.zero_mul, Nat.zero_add, Nat.one_mul]
    have h1 : Cert.Proof.ScReg1.iblk (Cert.Proof.ScReg1.VW W) d 1 t = W (dr main_cst_0) := by
      unfold Cert.Proof.ScReg1.iblk
      funext x
      rw [View.read_apply, cast_eq]
      refine congrArg (W (dr main_cst_0)) (funext fun a => Fin.ext ?_)
      show 0 * _ + 1 * (x a).val = (x a).val
      rw [Nat.zero_mul, Nat.zero_add, Nat.one_mul]
    have h2 : Cert.Proof.ScReg1.iblk (Cert.Proof.ScReg1.VW W) d 2 t = W (dr main_v3) := by
      unfold Cert.Proof.ScReg1.iblk
      funext x
      rw [View.read_apply, cast_eq]
      refine congrArg (W (dr main_v3)) (funext fun a => Fin.ext ?_)
      show 0 * _ + 1 * (x a).val = (x a).val
      rw [Nat.zero_mul, Nat.zero_add, Nat.one_mul]
    rw [h0, h1, h2]
    funext j
    rw [View.read_apply, cast_eq]
    refine congrArg (k1_pay1 (W (dr main_v3)) (W (dr main_cst)) (W (dr main_cst_0))) (funext fun a => Fin.ext ?_)
    show (j a).val = 0 * _ + 1 * (j a).val
    rw [Nat.zero_mul, Nat.zero_add, Nat.one_mul]
  · refine ⟨⟨0, Nat.one_pos⟩, rfl, ?_⟩
    show i ∈ ((View.whole main_v7).slice ((win1 3).rect ⟨0, Nat.one_pos⟩)).set
    rw [View.set_slice_whole, Rect.mem_set_unit]
    intro a
    refine ⟨?_, ?_⟩
    · show 0 * _ ≤ (i a).val
      rw [Nat.zero_mul]; exact Nat.zero_le _
    · show (i a).val < 0 * _ + _
      rw [Nat.zero_mul, Nat.zero_add]; exact (i a).isLt

/-- Call 2: its output array ends holding the body's stored value of the whole arrays it reads. -/
theorem out2 (d : Dev nD) (W : Valuation τ sig (Elt F)) :
    Cert.Proof.ScReg2.Rout d W = k1_pay1 (W (dr main_v4)) (W (dr main_cst)) (W (dr main_cst_0)) := by
  show Cert.Proof.ScReg2.Rout d W = k2_pay1 (W (dr main_v4)) (W (dr main_cst)) (W (dr main_cst_0))
  unfold Cert.Proof.ScReg2.Rout
  refine Pipeline.Dat.arrAt_eq_of_cover _ 3 _ (fun t _ => ?_) (fun (i : S12500x128.Idx) => ?_)
  · show (cfg2.win 3).cut (cfg2.grid.coords t) ((Cert.Proof.ScReg2.datR (Cert.Proof.ScReg2.VW W) (Cert.Proof.ScReg2.OT (F := F)) d).after 3 t) = _
    rw [Cert.Proof.ScReg2.after_3]
    unfold Cert.Proof.ScReg2.outB
    rw [View.canon_unit_zero hz2]
    simp only [View.ld_unit_zero (S := S16384x13) hz2, View.ld_unit_zero (S := S1x13) hz2, View.ld_unit_zero (S := S12500x128) hz2, View.ld_unit_zero (S := S128x8) hz2, View.ld_unit_zero (S := S8x128) hz2]
    have h0 : Cert.Proof.ScReg2.iblk (Cert.Proof.ScReg2.VW W) d 0 t = W (dr main_cst) := by
      unfold Cert.Proof.ScReg2.iblk
      funext x
      rw [View.read_apply, cast_eq]
      refine congrArg (W (dr main_cst)) (funext fun a => Fin.ext ?_)
      show 0 * _ + 1 * (x a).val = (x a).val
      rw [Nat.zero_mul, Nat.zero_add, Nat.one_mul]
    have h1 : Cert.Proof.ScReg2.iblk (Cert.Proof.ScReg2.VW W) d 1 t = W (dr main_cst_0) := by
      unfold Cert.Proof.ScReg2.iblk
      funext x
      rw [View.read_apply, cast_eq]
      refine congrArg (W (dr main_cst_0)) (funext fun a => Fin.ext ?_)
      show 0 * _ + 1 * (x a).val = (x a).val
      rw [Nat.zero_mul, Nat.zero_add, Nat.one_mul]
    have h2 : Cert.Proof.ScReg2.iblk (Cert.Proof.ScReg2.VW W) d 2 t = W (dr main_v4) := by
      unfold Cert.Proof.ScReg2.iblk
      funext x
      rw [View.read_apply, cast_eq]
      refine congrArg (W (dr main_v4)) (funext fun a => Fin.ext ?_)
      show 0 * _ + 1 * (x a).val = (x a).val
      rw [Nat.zero_mul, Nat.zero_add, Nat.one_mul]
    rw [h0, h1, h2]
    funext j
    rw [View.read_apply, cast_eq]
    refine congrArg (k2_pay1 (W (dr main_v4)) (W (dr main_cst)) (W (dr main_cst_0))) (funext fun a => Fin.ext ?_)
    show (j a).val = 0 * _ + 1 * (j a).val
    rw [Nat.zero_mul, Nat.zero_add, Nat.one_mul]
  · refine ⟨⟨0, Nat.one_pos⟩, rfl, ?_⟩
    show i ∈ ((View.whole main_v8).slice ((win2 3).rect ⟨0, Nat.one_pos⟩)).set
    rw [View.set_slice_whole, Rect.mem_set_unit]
    intro a
    refine ⟨?_, ?_⟩
    · show 0 * _ ≤ (i a).val
      rw [Nat.zero_mul]; exact Nat.zero_le _
    · show (i a).val < 0 * _ + _
      rw [Nat.zero_mul, Nat.zero_add]; exact (i a).isLt

/-- Call 3: its output array ends holding the body's stored value of the whole arrays it reads. -/
theorem out3 (d : Dev nD) (W : Valuation τ sig (Elt F)) :
    Cert.Proof.ScReg3.Rout d W = k1_pay1 (W (dr main_v5)) (W (dr main_cst)) (W (dr main_cst_0)) := by
  show Cert.Proof.ScReg3.Rout d W = k3_pay1 (W (dr main_v5)) (W (dr main_cst)) (W (dr main_cst_0))
  unfold Cert.Proof.ScReg3.Rout
  refine Pipeline.Dat.arrAt_eq_of_cover _ 3 _ (fun t _ => ?_) (fun (i : S12500x128.Idx) => ?_)
  · show (cfg3.win 3).cut (cfg3.grid.coords t) ((Cert.Proof.ScReg3.datR (Cert.Proof.ScReg3.VW W) (Cert.Proof.ScReg3.OT (F := F)) d).after 3 t) = _
    rw [Cert.Proof.ScReg3.after_3]
    unfold Cert.Proof.ScReg3.outB
    rw [View.canon_unit_zero hz2]
    simp only [View.ld_unit_zero (S := S16384x13) hz2, View.ld_unit_zero (S := S1x13) hz2, View.ld_unit_zero (S := S12500x128) hz2, View.ld_unit_zero (S := S128x8) hz2, View.ld_unit_zero (S := S8x128) hz2]
    have h0 : Cert.Proof.ScReg3.iblk (Cert.Proof.ScReg3.VW W) d 0 t = W (dr main_cst) := by
      unfold Cert.Proof.ScReg3.iblk
      funext x
      rw [View.read_apply, cast_eq]
      refine congrArg (W (dr main_cst)) (funext fun a => Fin.ext ?_)
      show 0 * _ + 1 * (x a).val = (x a).val
      rw [Nat.zero_mul, Nat.zero_add, Nat.one_mul]
    have h1 : Cert.Proof.ScReg3.iblk (Cert.Proof.ScReg3.VW W) d 1 t = W (dr main_cst_0) := by
      unfold Cert.Proof.ScReg3.iblk
      funext x
      rw [View.read_apply, cast_eq]
      refine congrArg (W (dr main_cst_0)) (funext fun a => Fin.ext ?_)
      show 0 * _ + 1 * (x a).val = (x a).val
      rw [Nat.zero_mul, Nat.zero_add, Nat.one_mul]
    have h2 : Cert.Proof.ScReg3.iblk (Cert.Proof.ScReg3.VW W) d 2 t = W (dr main_v5) := by
      unfold Cert.Proof.ScReg3.iblk
      funext x
      rw [View.read_apply, cast_eq]
      refine congrArg (W (dr main_v5)) (funext fun a => Fin.ext ?_)
      show 0 * _ + 1 * (x a).val = (x a).val
      rw [Nat.zero_mul, Nat.zero_add, Nat.one_mul]
    rw [h0, h1, h2]
    funext j
    rw [View.read_apply, cast_eq]
    refine congrArg (k3_pay1 (W (dr main_v5)) (W (dr main_cst)) (W (dr main_cst_0))) (funext fun a => Fin.ext ?_)
    show (j a).val = 0 * _ + 1 * (j a).val
    rw [Nat.zero_mul, Nat.zero_add, Nat.one_mul]
  · refine ⟨⟨0, Nat.one_pos⟩, rfl, ?_⟩
    show i ∈ ((View.whole main_v9).slice ((win3 3).rect ⟨0, Nat.one_pos⟩)).set
    rw [View.set_slice_whole, Rect.mem_set_unit]
    intro a
    refine ⟨?_, ?_⟩
    · show 0 * _ ≤ (i a).val
      rw [Nat.zero_mul]; exact Nat.zero_le _
    · show (i a).val < 0 * _ + _
      rw [Nat.zero_mul, Nat.zero_add]; exact (i a).isLt

/-- Call 4: its output array ends holding the body's stored value of the whole arrays it reads. -/
theorem out4 (d : Dev nD) (W : Valuation τ sig (Elt F)) :
    Cert.Proof.ScReg4.Rout d W = k1_pay1 (W (dr main_v6)) (W (dr main_cst)) (W (dr main_cst_0)) := by
  show Cert.Proof.ScReg4.Rout d W = k4_pay1 (W (dr main_v6)) (W (dr main_cst)) (W (dr main_cst_0))
  unfold Cert.Proof.ScReg4.Rout
  refine Pipeline.Dat.arrAt_eq_of_cover _ 3 _ (fun t _ => ?_) (fun (i : S12500x128.Idx) => ?_)
  · show (cfg4.win 3).cut (cfg4.grid.coords t) ((Cert.Proof.ScReg4.datR (Cert.Proof.ScReg4.VW W) (Cert.Proof.ScReg4.OT (F := F)) d).after 3 t) = _
    rw [Cert.Proof.ScReg4.after_3]
    unfold Cert.Proof.ScReg4.outB
    rw [View.canon_unit_zero hz2]
    simp only [View.ld_unit_zero (S := S16384x13) hz2, View.ld_unit_zero (S := S1x13) hz2, View.ld_unit_zero (S := S12500x128) hz2, View.ld_unit_zero (S := S128x8) hz2, View.ld_unit_zero (S := S8x128) hz2]
    have h0 : Cert.Proof.ScReg4.iblk (Cert.Proof.ScReg4.VW W) d 0 t = W (dr main_cst) := by
      unfold Cert.Proof.ScReg4.iblk
      funext x
      rw [View.read_apply, cast_eq]
      refine congrArg (W (dr main_cst)) (funext fun a => Fin.ext ?_)
      show 0 * _ + 1 * (x a).val = (x a).val
      rw [Nat.zero_mul, Nat.zero_add, Nat.one_mul]
    have h1 : Cert.Proof.ScReg4.iblk (Cert.Proof.ScReg4.VW W) d 1 t = W (dr main_cst_0) := by
      unfold Cert.Proof.ScReg4.iblk
      funext x
      rw [View.read_apply, cast_eq]
      refine congrArg (W (dr main_cst_0)) (funext fun a => Fin.ext ?_)
      show 0 * _ + 1 * (x a).val = (x a).val
      rw [Nat.zero_mul, Nat.zero_add, Nat.one_mul]
    have h2 : Cert.Proof.ScReg4.iblk (Cert.Proof.ScReg4.VW W) d 2 t = W (dr main_v6) := by
      unfold Cert.Proof.ScReg4.iblk
      funext x
      rw [View.read_apply, cast_eq]
      refine congrArg (W (dr main_v6)) (funext fun a => Fin.ext ?_)
      show 0 * _ + 1 * (x a).val = (x a).val
      rw [Nat.zero_mul, Nat.zero_add, Nat.one_mul]
    rw [h0, h1, h2]
    funext j
    rw [View.read_apply, cast_eq]
    refine congrArg (k4_pay1 (W (dr main_v6)) (W (dr main_cst)) (W (dr main_cst_0))) (funext fun a => Fin.ext ?_)
    show (j a).val = 0 * _ + 1 * (j a).val
    rw [Nat.zero_mul, Nat.zero_add, Nat.one_mul]
  · refine ⟨⟨0, Nat.one_pos⟩, rfl, ?_⟩
    show i ∈ ((View.whole main_v10).slice ((win4 3).rect ⟨0, Nat.one_pos⟩)).set
    rw [View.set_slice_whole, Rect.mem_set_unit]
    intro a
    refine ⟨?_, ?_⟩
    · show 0 * _ ≤ (i a).val
      rw [Nat.zero_mul]; exact Nat.zero_le _
    · show (i a).val < 0 * _ + _
      rw [Nat.zero_mul, Nat.zero_add]; exact (i a).isLt

end Cert.Proof.Bridge

end
-- ==== Proof.ScValDefs.lean ====
/-
  The values the vector-subcore task of the lookup kernel carries: what an offset list, a row scratch and the output
  scratch hold at each stage of one chunk, and the loop invariants stated with them.
-/
import proofs.«203359_g24824910971486_cont_8to1_1854_34_alg».proof.Proof.ScSup
import proofs.«203359_g24824910971486_cont_8to1_1854_34_alg».proof.Proof.ScBodyValDefs

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The flat address of a place of the output scratch. -/
def flat (p : S40x128.Idx) : Nat := (p 0).val * 128 + (p 1).val

theorem flat_lt (p : S40x128.Idx) : flat p < 5120 := by
  have h0 : (p 0).val < 40 := (p 0).isLt
  have h1 : (p 1).val < 128 := (p 1).isLt
  unfold flat; omega

section Vals

variable (d : Dev nD) (L : grid5.Coords)

/-- The index word at place `n` of the tile's index scratch (the place reduced modulo the scratch's extent). -/
def idxAtN (fI : Buf (Elt F) ((V d (cV L) (jV L)).loc cc5_scratch0)) (n : Nat) : BitVec 32 :=
  (Memref.whole cc5_scratch0 : Memref sig .scVector .vmem S25600 .i32).view.read (Elt F) fI (ix1 (⟨n % 25600, Nat.mod_lt _ (by decide)⟩ : Fin 25600))

/-- An offset list whose first `16 k` places hold the index words from place `cb` on, each shifted right by three. -/
def SupOK (fI : Buf (Elt F) ((V d (cV L) (jV L)).loc cc5_scratch0)) (cb k : Nat) (fs : S320.Idx → BitVec 32) : Prop :=
  ∀ y : S320.Idx, (y 0).val < 16 * k → fs y = IntOp.shrsi .vector (idxAtN (F := F) d L fI (cb + (y 0).val)) 3#32

/-- A row scratch holding, in row `j`, the table's row named by the shifted index word at place `cb + j`. -/
def RowsOK (Tf : S12500x128.Idx → Elt F .f32) (fI : Buf (Elt F) ((V d (cV L) (jV L)).loc cc5_scratch0)) (cb : Nat) (fr : S320x128.Idx → Elt F .f32) : Prop :=
  ∀ (j : Fin 320) (c : Fin 128),
    fr (ix2 j c) = Tf (ix2 (⟨(IntOp.shrsi .vector (idxAtN (F := F) d L fI (cb + j.val)) 3#32).toNat % 12500, Nat.mod_lt _ (by decide)⟩ : Fin 12500) c)

/-- The output scratch after `k` drain trips: each place of flat address below `256 k` holds the row scratch's
    element at row `address / 16`, lane `(word &&& 7) * 16 + address % 16`, the word the index word at place
    `cb + address / 16`. -/
def OutOK (fI : Buf (Elt F) ((V d (cV L) (jV L)).loc cc5_scratch0)) (fr : S320x128.Idx → Elt F .f32) (cb k : Nat) (fo : S40x128.Idx → Elt F .f32) : Prop :=
  ∀ p : S40x128.Idx, flat p < 256 * k →
    fo p = fr (ix2 (⟨flat p / 16, by have := flat_lt p; omega⟩ : Fin 320)
      (⟨((idxAtN (F := F) d L fI (cb + flat p / 16) &&& 7#32).toNat * 16 + flat p % 16) % 128, Nat.mod_lt _ (by decide)⟩ : Fin 128))

/-- The element of chunk `cb` that belongs at place `p` of the output scratch. -/
def chunkElt (Tf : S12500x128.Idx → Elt F .f32) (fI : Buf (Elt F) ((V d (cV L) (jV L)).loc cc5_scratch0)) (cb : Nat) (p : S40x128.Idx) : Elt F .f32 :=
  Tf (ix2 (⟨(IntOp.shrsi .vector (idxAtN (F := F) d L fI (cb + flat p / 16)) 3#32).toNat % 12500, Nat.mod_lt _ (by decide)⟩ : Fin 12500)
    (⟨((idxAtN (F := F) d L fI (cb + flat p / 16) &&& 7#32).toNat * 16 + flat p % 16) % 128, Nat.mod_lt _ (by decide)⟩ : Fin 128))

/-- Rows landed and all twenty trips drained: the output scratch holds the chunk's elements. -/
theorem out_chunkElt {Tf : S12500x128.Idx → Elt F .f32} {fI : Buf (Elt F) ((V d (cV L) (jV L)).loc cc5_scratch0)} {cb : Nat}
    {fr : S320x128.Idx → Elt F .f32} {fo : S40x128.Idx → Elt F .f32}
    (hr : RowsOK (F := F) d L Tf fI cb fr) (ho : OutOK (F := F) d L fI fr cb 20 fo) (p : S40x128.Idx) :
    fo p = chunkElt (F := F) d L Tf fI cb p := by
  have hp := flat_lt p
  rw [ho p (by omega), hr]
  rfl

/-- The invariant of a loop that fills the first offset list, with its values. -/
def prepInvV0 (fI : Buf (Elt F) ((V d (cV L) (jV L)).loc cc5_scratch0)) (cb : Nat) (k : Nat) (_ : PUnit) : sProp 𝕄 :=
  iprop(((Memref.whole cc5_scratch0).view.loc (V d (cV L) (jV L)) ↦{fullShare} fI) ∗ ∃ fs : Buf (Elt F) ((V d (cV L) (jV L)).loc cc5_scratch1), ((Memref.whole cc5_scratch1).view.loc (V d (cV L) (jV L)) ↦{fullShare} fs)
    ∗ ⌜SupOK (F := F) d L fI cb k ((Memref.whole cc5_scratch1 : Memref sig .scVector .vmem S320 .i32).view.read (Elt F) fs)⌝)
/-- The same for the second offset list. -/
def prepInvV1 (fI : Buf (Elt F) ((V d (cV L) (jV L)).loc cc5_scratch0)) (cb : Nat) (k : Nat) (_ : PUnit) : sProp 𝕄 :=
  iprop(((Memref.whole cc5_scratch0).view.loc (V d (cV L) (jV L)) ↦{fullShare} fI) ∗ ∃ fs : Buf (Elt F) ((V d (cV L) (jV L)).loc cc5_scratch2), ((Memref.whole cc5_scratch2).view.loc (V d (cV L) (jV L)) ↦{fullShare} fs)
    ∗ ⌜SupOK (F := F) d L fI cb k ((Memref.whole cc5_scratch2 : Memref sig .scVector .vmem S320 .i32).view.read (Elt F) fs)⌝)

/-- The invariant of a drain loop on the first row scratch, with the output scratch's values. -/
def drainInvV0 (fI : Buf (Elt F) ((V d (cV L) (jV L)).loc cc5_scratch0)) (fr : Buf (Elt F) ((V d (cV L) (jV L)).loc cc5_scratch3)) (cb : Nat) (k : Nat) (_ : PUnit) : sProp 𝕄 :=
  iprop(((Memref.whole cc5_scratch0).view.loc (V d (cV L) (jV L)) ↦{fullShare} fI) ∗ ((Memref.whole cc5_scratch3).view.loc (V d (cV L) (jV L)) ↦{fullShare} fr)
    ∗ ∃ fo : Buf (Elt F) ((V d (cV L) (jV L)).loc cc5_scratch5), ((Memref.whole cc5_scratch5).view.loc (V d (cV L) (jV L)) ↦{fullShare} fo)
      ∗ ⌜OutOK (F := F) d L fI ((Memref.whole cc5_scratch3 : Memref sig .scVector .vmem S320x128 .f32).view.read (Elt F) fr) cb k
          ((Memref.whole cc5_scratch5 : Memref sig .scVector .vmem S40x128 .f32).view.read (Elt F) fo)⌝)
/-- The same on the second row scratch. -/
def drainInvV1 (fI : Buf (Elt F) ((V d (cV L) (jV L)).loc cc5_scratch0)) (fr : Buf (Elt F) ((V d (cV L) (jV L)).loc cc5_scratch4)) (cb : Nat) (k : Nat) (_ : PUnit) : sProp 𝕄 :=
  iprop(((Memref.whole cc5_scratch0).view.loc (V d (cV L) (jV L)) ↦{fullShare} fI) ∗ ((Memref.whole cc5_scratch4).view.loc (V d (cV L) (jV L)) ↦{fullShare} fr)
    ∗ ∃ fo : Buf (Elt F) ((V d (cV L) (jV L)).loc cc5_scratch5), ((Memref.whole cc5_scratch5).view.loc (V d (cV L) (jV L)) ↦{fullShare} fo)
      ∗ ⌜OutOK (F := F) d L fI ((Memref.whole cc5_scratch4 : Memref sig .scVector .vmem S320x128 .f32).view.read (Elt F) fr) cb k
          ((Memref.whole cc5_scratch5 : Memref sig .scVector .vmem S40x128 .f32).view.read (Elt F) fo)⌝)

end Vals

end Cert.Proof.ScBody

end
-- ==== Proof.ScValOut.lean ====
/-
  From the output scratch to the tile's lines of an output: a drained chunk's elements are the gathered elements of its
  forty lines, and two chunks copied out over lines already right leave them right eighty lines further.
-/
import proofs.«203359_g24824910971486_cont_8to1_1854_34_alg».proof.Proof.ScValDefs
import proofs.«203359_g24824910971486_cont_8to1_1854_34_alg».proof.Proof.ScChunk

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The first of the tile's lines of an output, and the first of its places of an index array. -/
abbrev obase (L : grid5.Coords) : Nat := 6400 * (L 1).val + 3200 * (L 0).val
abbrev ioff (L : grid5.Coords) : Nat := 51200 * (L 1).val + 25600 * (L 0).val

theorem ioff_lt (L : grid5.Coords) (n : Nat) (hn : n < 25600) : ioff L + n < 819200 := by
  have h1 : (L 1).val < 16 := (L 1).isLt
  have h0 : (L 0).val < 2 := (L 0).isLt
  unfold ioff; omega

/-- The tile's index scratch holds the tile's slice of the index array. -/
def IdxIs (d : Dev nD) (L : grid5.Coords) (fI : Buf (Elt F) ((V d (cV L) (jV L)).loc cc5_scratch0)) (Ic : S819200.Idx → BitVec 32) : Prop :=
  ∀ (n : Nat) (hn : n < 25600), idxAtN (F := F) d L fI n = Ic (ix1 (⟨ioff L + n, ioff_lt L n hn⟩ : Fin 819200))

/-- Place `p` of the output scratch, copied out as line `p 0` of the chunk at line `c` of the tile's lines. -/
theorem chunkElt_gatherAt (d : Dev nD) (L : grid5.Coords) (Tf Tc : S12500x128.Idx → Elt F .f32) (hTf : ∀ i, Tf i = Tc i)
    (fI : Buf (Elt F) ((V d (cV L) (jV L)).loc cc5_scratch0)) (Ic : S819200.Idx → BitVec 32) (hIs : IdxIs (F := F) d L fI Ic)
    (c : Nat) (hc : c + 40 ≤ 3200) (p : S40x128.Idx) (idx : S102400x128.Idx)
    (h0 : (idx 0).val = obase L + c + (p 0).val) (h1 : (idx 1).val = (p 1).val) :
    chunkElt (F := F) d L Tf fI (8 * c) p = gatherAt (F := F) Tc Ic idx := by
  have hp0 : (p 0).val < 40 := (p 0).isLt
  have hp1 : (p 1).val < 128 := (p 1).isLt
  have hL1 : (L 1).val < 16 := (L 1).isLt
  have hL0 : (L 0).val < 2 := (L 0).isLt
  have hfl : flat p / 16 = 8 * (p 0).val + (p 1).val / 16 := by unfold flat; omega
  have hfm : flat p % 16 = (idx 1).val % 16 := by rw [h1]; unfold flat; omega
  have hn : 8 * c + flat p / 16 < 25600 := by rw [hfl]; omega
  have hw : idxAtN (F := F) d L fI (8 * c + flat p / 16)
      = Ic (ix1 (⟨(8 * (idx 0).val + (idx 1).val / 16) % 819200, Nat.mod_lt _ (by decide)⟩ : Fin 819200)) := by
    rw [hIs _ hn]
    congr 2
    apply Fin.ext
    show ioff L + (8 * c + flat p / 16) = (8 * (idx 0).val + (idx 1).val / 16) % 819200
    rw [h0, h1, hfl]
    unfold ioff obase
    omega
  have key : ∀ w w' : BitVec 32, w = w' → ∀ m m' : Nat, m = m' →
      (ix2 (⟨(IntOp.shrsi .vector w 3#32).toNat % 12500, Nat.mod_lt _ (by decide)⟩ : Fin 12500)
        (⟨((w &&& 7#32).toNat * 16 + m) % 128, Nat.mod_lt _ (by decide)⟩ : Fin 128) : S12500x128.Idx)
      = ix2 (⟨(IntOp.shrsi .vector w' 3#32).toNat % 12500, Nat.mod_lt _ (by decide)⟩ : Fin 12500)
        (⟨((w' &&& 7#32).toNat * 16 + m') % 128, Nat.mod_lt _ (by decide)⟩ : Fin 128) := by
    intro w w' h m m' hm; subst h; subst hm; rfl
  unfold chunkElt gatherAt
  rw [hTf]
  exact congrArg Tc (key _ _ hw _ _ hfm)

end Cert.Proof.ScBody

end
-- ==== Proof.ScValGather.lean ====
import proofs.«203359_g24824910971486_cont_8to1_1854_34_alg».proof.Proof.ScBodyDefs
import Idealize.ShloMosaic.Lib.SparseCore.Stream
import Idealize.ShloMosaic.Lib.ValueIdx

/-! The indirect gather's landing, read at an index: row `j` of the destination holds the source's row that entry `j`
    of the offset list names. -/

noncomputable section

namespace Cert.Proof.ScBody

open Cert.KernelIdeal
open Idealize.ShloMosaic Idealize.ShloMosaic.ValueIdx

variable {F : FTy → Type}

/-- Entry `j` of a list of 320 words, by its row-major position. -/
theorem rowMajor_symm_S320 (j : Fin 320) (k : Fin S320.numel) (hk : k.val = j.val) : S320.rowMajor.symm k = ix1 j := by
  rw [Equiv.symm_apply_eq]
  refine Fin.ext ?_
  rw [hk, Shape.rowMajor_val_one]

/-- THE GATHER'S PAYLOAD AT (j, c): the source at the row that entry `j` of the offset list names, column `c`. -/
theorem gatherPayload_apply (hg : S12500x128.Gathers 0 S320x128) (T : S12500x128.Idx → Elt F .f32)
    (o : S320.Idx → Elt F .i32) (hn : S320.numel = S320x128.size hg.axis')
    (hin : ∀ x, (o x).toNat < S12500x128.size hg.axis) (j : Fin 320) (c : Fin 128) :
    SparseCore.gatherPayload hg T (SparseCore.rows o hn hin) (ix2 j c)
      = T (ix2 (⟨(o (ix1 j)).toNat, hin (ix1 j)⟩ : Fin 12500) c) := by
  unfold SparseCore.gatherPayload
  refine congrArg T (funext fun b => Fin.ext ?_)
  match b with
  | ⟨0, _⟩ =>
    show (hg.idx (SparseCore.rows o hn hin) (ix2 j c) hg.axis).val = _
    rw [Shape.Gathers.idx_axis]
    show (o (S320.rowMajor.symm _)).toNat = (o (ix1 j)).toNat
    exact congrArg (fun i => (o i).toNat) (rowMajor_symm_S320 j _ rfl)
  | ⟨1, _⟩ =>
    exact Shape.Gathers.idx_of_ne hg _ (ix2 j c) 1 (by decide)

/-- THE LANDED GATHER READ AT (j, c): the destination, written whole with the gather's payload, read back through its
    own view, holds the source at the row that entry `j` of the offset list names. -/
theorem gather_landed_apply {sig : RefSig} {κ : Kind} {sp : Space} (v : View sig κ sp S320x128 .f32)
    (hg : S12500x128.Gathers 0 S320x128) (T : S12500x128.Idx → Elt F .f32) (o : S320.Idx → Elt F .i32)
    (fd : v.ty.Contents (Elt F)) (hn : S320.numel = S320x128.size hg.axis')
    (hin : ∀ x, (o x).toNat < S12500x128.size hg.axis) (j : Fin 320) (c : Fin 128) :
    v.read (Elt F) (v.write (Elt F) fd (SparseCore.gatherPayload hg T (SparseCore.rows o hn hin)) Finset.univ) (ix2 j c)
      = T (ix2 (⟨(o (ix1 j)).toNat, hin (ix1 j)⟩ : Fin 12500) c) := by
  rw [View.read_write_univ]
  exact gatherPayload_apply hg T o hn hin j c

end Cert.Proof.ScBody

end
-- ==== Proof.ScPrepVal.lean ====
/-
  One trip of a loop that fills an offset list of the lookup kernel, with its values: sixteen index words read, shifted
  right by three and stored; the places filled so far hold the shifted index words of the chunk. Then what a full list
  names, and what the gather it feeds lands.
-/
import proofs.«203359_g24824910971486_cont_8to1_1854_34_alg».proof.Proof.ScValDefs
import proofs.«203359_g24824910971486_cont_8to1_1854_34_alg».proof.Proof.ScValGather

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- Sixteen index words loaded from place `n` on and shifted right by three: lane `x` is the shifted word at place
    `n + x` (the place is inside the scratch, so its reduction is itself). -/
theorem load_shr_val (d : Dev nD) (L : grid5.Coords) (fI : Buf (Elt F) ((V d (cV L) (jV L)).loc cc5_scratch0)) (n : Nat)
    (off : Fin 1 → Nat) (hoff : off = ![n]) (inb : ∀ a, off a + S16.size a ≤ S25600.size a)
    (x : (Rect.unit (s := S25600) off S16.size inb).shape.Idx) :
    shrsi ((Memref.whole cc5_scratch0 : Memref sig .scVector .vmem S25600 .i32).view.readAt (Elt F)
        (Rect.unit (s := S25600) off S16.size inb).toLoadRect fI) (broadcast S16 3#32) x
      = IntOp.shrsi .vector (idxAtN (F := F) d L fI (n + (x 0).val)) 3#32 := by
  subst hoff
  have hx : (x 0).val < 16 := (x 0).isLt
  have hn : n + 16 ≤ 25600 := inb 0
  show IntOp.shrsi .vector ((Memref.whole cc5_scratch0 : Memref sig .scVector .vmem S25600 .i32).view.read (Elt F) fI
      ((Rect.unit (s := S25600) ![n] S16.size inb).toLoadRect.idx x)) 3#32 = _
  unfold idxAtN
  refine congrArg (fun i => IntOp.shrsi .vector ((Memref.whole cc5_scratch0 : Memref sig .scVector .vmem S25600 .i32).view.read (Elt F) fI i) 3#32)
    (funext fun a => Fin.ext ?_)
  obtain rfl : a = 0 := Subsingleton.elim _ _
  show n + 1 * (x 0).val = (n + (x 0).val) % 25600
  rw [Nat.mod_eq_of_lt (by omega), Nat.one_mul]

/-- One trip of a list's filling, with its values: the sixteen shifted index words of places `cb + 16 k …` stored at
    place `16 k` over a list whose first `16 k` places hold the chunk's shifted words leave one whose first
    `16 (k + 1)` places do. -/
theorem sup_step_val (d : Dev nD) (L : grid5.Coords) (fI : Buf (Elt F) ((V d (cV L) (jV L)).loc cc5_scratch0)) (cb : Nat)
    {sig : RefSig} {κ : Kind} {sp : Space} (v : View sig κ sp S320 .i32) (fs : v.ty.Contents (Elt F))
    (k : Nat) (off : Fin 1 → Nat) (hoff : off = ![16 * k]) (inb : ∀ a, off a + S16.size a ≤ S320.size a)
    (w : (Rect.unit (s := S320) off S16.size inb).shape.Idx → Elt F .i32)
    (hw : ∀ x, w x = IntOp.shrsi .vector (idxAtN (F := F) d L fI (cb + (16 * k + (x 0).val))) 3#32)
    (hfs : SupOK (F := F) d L fI cb k (v.read (Elt F) fs)) :
    SupOK (F := F) d L fI cb (k + 1) (v.read (Elt F) (v.writes (Elt F) fs [⟨Rect.unit (s := S320) off S16.size inb, w⟩])) := by
  intro y hy
  by_cases hm : y ∈ (Rect.unit (s := S320) off S16.size inb).set
  · rw [← Rect.map_emb_univ] at hm
    obtain ⟨x, -, rfl⟩ := Finset.mem_map.mp hm
    rw [View.read_writes_cons_emb, hw x]
    subst hoff
    refine congrArg (fun n => IntOp.shrsi .vector (idxAtN (F := F) d L fI (cb + n)) 3#32) ?_
    show 16 * k + (x 0).val = 16 * k + 1 * (x 0).val
    rw [Nat.one_mul]
  · rw [View.read_writes_apply_of_forall_not_mem v fs y [⟨Rect.unit (s := S320) off S16.size inb, w⟩]
      (by intro p hp; rw [List.mem_singleton] at hp; subst hp; exact hm)]
    apply hfs
    have hn := (Rect.mem_set_unit (i := y)).not.mp hm
    by_contra hc
    apply hn
    intro a
    obtain rfl : a = 0 := Subsingleton.elim _ _
    subst hoff
    show 16 * k ≤ (y 0).val ∧ (y 0).val < 16 * k + 16
    omega

/-! ## The twelve trips -/

theorem prep_trip_t13_val (d : Dev nD) (L : grid5.Coords)  (k5_t13 : Fin k5_t13_loop.trips)
    (fI : Buf (Elt F) ((V d (cV L) (jV L)).loc cc5_scratch0)) :
    prepInvV0 (F := F) d L fI 0 k5_t13.val ()
      ⊢ wp frame (wpE (defs₀ (F := F)) 𝒱₀ (V d (cV L) (jV L)) none) Set.univ
          (k5_t13_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t13 ())
          (prepInvV0 (F := F) d L fI 0 (k5_t13.val + 1)) := by
  unfold k5_t13_body
  unfold prepInvV0
  iintro ⟨HI', %fs, Hs', %hfs⟩
  sl_exec
  sl_step
  isplitl [HI']; · iexact HI'
  iexists _
  isplitl [Hs']; · iexact Hs'
  ipureintro
  refine sup_step_val (F := F) d L fI 0 (Memref.whole cc5_scratch1 : Memref sig .scVector .vmem S320 .i32).view fs k5_t13.val (k5_off23 k5_t13) (k5_off23_eq k5_t13) _ _ (fun x => ?_) hfs
  exact (load_shr_val (F := F) d L fI _ (k5_off22 k5_t13) (k5_off22_eq k5_t13) _ x).trans
    (congrArg (fun n => IntOp.shrsi .vector (idxAtN (F := F) d L fI n) 3#32) (by omega))

theorem prep_trip_t19_val (d : Dev nD) (L : grid5.Coords)  (k5_t19 : Fin k5_t19_loop.trips)
    (fI : Buf (Elt F) ((V d (cV L) (jV L)).loc cc5_scratch0)) :
    prepInvV0 (F := F) d L fI 0 k5_t19.val ()
      ⊢ wp frame (wpE (defs₀ (F := F)) 𝒱₀ (V d (cV L) (jV L)) none) Set.univ
          (k5_t19_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t19 ())
          (prepInvV0 (F := F) d L fI 0 (k5_t19.val + 1)) := by
  unfold k5_t19_body
  unfold prepInvV0
  iintro ⟨HI', %fs, Hs', %hfs⟩
  sl_exec
  sl_step
  isplitl [HI']; · iexact HI'
  iexists _
  isplitl [Hs']; · iexact Hs'
  ipureintro
  refine sup_step_val (F := F) d L fI 0 (Memref.whole cc5_scratch1 : Memref sig .scVector .vmem S320 .i32).view fs k5_t19.val (k5_off33 k5_t19) (k5_off33_eq k5_t19) _ _ (fun x => ?_) hfs
  exact (load_shr_val (F := F) d L fI _ (k5_off32 k5_t19) (k5_off32_eq k5_t19) _ x).trans
    (congrArg (fun n => IntOp.shrsi .vector (idxAtN (F := F) d L fI n) 3#32) (by omega))

theorem prep_trip_t3_val (d : Dev nD) (L : grid5.Coords) (v2 : BitVec 32) (v3 : IVec S16 32) (c0_i32_3 : BitVec 32) (c1_i32_4 : BitVec 32) (k5_t2 : Fin k5_t2_loop.trips) (k5_t3 : Fin k5_t3_loop.trips)
    (fI : Buf (Elt F) ((V d (cV L) (jV L)).loc cc5_scratch0)) :
    prepInvV1 (F := F) d L fI (640 * k5_t2.val + 320) k5_t3.val ()
      ⊢ wp frame (wpE (defs₀ (F := F)) 𝒱₀ (V d (cV L) (jV L)) none) Set.univ
          (k5_t3_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_3 c1_i32_4 k5_t2 k5_t3 ())
          (prepInvV1 (F := F) d L fI (640 * k5_t2.val + 320) (k5_t3.val + 1)) := by
  unfold k5_t3_body
  unfold prepInvV1
  iintro ⟨HI', %fs, Hs', %hfs⟩
  sl_exec
  sl_step
  isplitl [HI']; · iexact HI'
  iexists _
  isplitl [Hs']; · iexact Hs'
  ipureintro
  refine sup_step_val (F := F) d L fI (640 * k5_t2.val + 320) (Memref.whole cc5_scratch2 : Memref sig .scVector .vmem S320 .i32).view fs k5_t3.val (k5_off5 k5_t3) (k5_off5_eq k5_t3) _ _ (fun x => ?_) hfs
  exact (load_shr_val (F := F) d L fI _ (k5_off4 k5_t2 k5_t3) (k5_off4_eq k5_t2 k5_t3) _ x).trans
    (congrArg (fun n => IntOp.shrsi .vector (idxAtN (F := F) d L fI n) 3#32) (by omega))

theorem prep_trip_t5_val (d : Dev nD) (L : grid5.Coords) (v2 : BitVec 32) (v3 : IVec S16 32) (k5_t2 : Fin k5_t2_loop.trips) (v17 : BitVec 32) (k5_h1 : k5_cond1 k5_t2 = 1#1) (k5_t5 : Fin k5_t5_loop.trips)
    (fI : Buf (Elt F) ((V d (cV L) (jV L)).loc cc5_scratch0)) :
    prepInvV0 (F := F) d L fI (640 * k5_t2.val + 640) k5_t5.val ()
      ⊢ wp frame (wpE (defs₀ (F := F)) 𝒱₀ (V d (cV L) (jV L)) none) Set.univ
          (k5_t5_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t2 v17 k5_h1 k5_t5 ())
          (prepInvV0 (F := F) d L fI (640 * k5_t2.val + 640) (k5_t5.val + 1)) := by
  unfold k5_t5_body
  unfold prepInvV0
  iintro ⟨HI', %fs, Hs', %hfs⟩
  sl_exec
  sl_step
  isplitl [HI']; · iexact HI'
  iexists _
  isplitl [Hs']; · iexact Hs'
  ipureintro
  refine sup_step_val (F := F) d L fI (640 * k5_t2.val + 640) (Memref.whole cc5_scratch1 : Memref sig .scVector .vmem S320 .i32).view fs k5_t5.val (k5_off9 k5_t5) (k5_off9_eq k5_t5) _ _ (fun x => ?_) hfs
  exact (load_shr_val (F := F) d L fI _ (k5_off8 k5_t2 k5_t5) (k5_off8_eq k5_t2 k5_t5) _ x).trans
    (congrArg (fun n => IntOp.shrsi .vector (idxAtN (F := F) d L fI n) 3#32) (by omega))

theorem prep_trip_t9_val (d : Dev nD) (L : grid5.Coords) (v2 : BitVec 32) (v3 : IVec S16 32) (c0_i32_12 : BitVec 32) (c1_i32_14 : BitVec 32) (k5_t8 : Fin k5_t8_loop.trips) (k5_t9 : Fin k5_t9_loop.trips)
    (fI : Buf (Elt F) ((V d (cV L) (jV L)).loc cc5_scratch0)) :
    prepInvV1 (F := F) d L fI (640 * k5_t8.val + 320) k5_t9.val ()
      ⊢ wp frame (wpE (defs₀ (F := F)) 𝒱₀ (V d (cV L) (jV L)) none) Set.univ
          (k5_t9_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_12 c1_i32_14 k5_t8 k5_t9 ())
          (prepInvV1 (F := F) d L fI (640 * k5_t8.val + 320) (k5_t9.val + 1)) := by
  unfold k5_t9_body
  unfold prepInvV1
  iintro ⟨HI', %fs, Hs', %hfs⟩
  sl_exec
  sl_step
  isplitl [HI']; · iexact HI'
  iexists _
  isplitl [Hs']; · iexact Hs'
  ipureintro
  refine sup_step_val (F := F) d L fI (640 * k5_t8.val + 320) (Memref.whole cc5_scratch2 : Memref sig .scVector .vmem S320 .i32).view fs k5_t9.val (k5_off15 k5_t9) (k5_off15_eq k5_t9) _ _ (fun x => ?_) hfs
  exact (load_shr_val (F := F) d L fI _ (k5_off14 k5_t8 k5_t9) (k5_off14_eq k5_t8 k5_t9) _ x).trans
    (congrArg (fun n => IntOp.shrsi .vector (idxAtN (F := F) d L fI n) 3#32) (by omega))

theorem prep_trip_t11_val (d : Dev nD) (L : grid5.Coords) (v2 : BitVec 32) (v3 : IVec S16 32) (k5_t8 : Fin k5_t8_loop.trips) (v17 : BitVec 32) (k5_h2 : k5_cond2 k5_t8 = 1#1) (k5_t11 : Fin k5_t11_loop.trips)
    (fI : Buf (Elt F) ((V d (cV L) (jV L)).loc cc5_scratch0)) :
    prepInvV0 (F := F) d L fI (640 * k5_t8.val + 640) k5_t11.val ()
      ⊢ wp frame (wpE (defs₀ (F := F)) 𝒱₀ (V d (cV L) (jV L)) none) Set.univ
          (k5_t11_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t8 v17 k5_h2 k5_t11 ())
          (prepInvV0 (F := F) d L fI (640 * k5_t8.val + 640) (k5_t11.val + 1)) := by
  unfold k5_t11_body
  unfold prepInvV0
  iintro ⟨HI', %fs, Hs', %hfs⟩
  sl_exec
  sl_step
  isplitl [HI']; · iexact HI'
  iexists _
  isplitl [Hs']; · iexact Hs'
  ipureintro
  refine sup_step_val (F := F) d L fI (640 * k5_t8.val + 640) (Memref.whole cc5_scratch1 : Memref sig .scVector .vmem S320 .i32).view fs k5_t11.val (k5_off19 k5_t11) (k5_off19_eq k5_t11) _ _ (fun x => ?_) hfs
  exact (load_shr_val (F := F) d L fI _ (k5_off18 k5_t8 k5_t11) (k5_off18_eq k5_t8 k5_t11) _ x).trans
    (congrArg (fun n => IntOp.shrsi .vector (idxAtN (F := F) d L fI n) 3#32) (by omega))

theorem prep_trip_t15_val (d : Dev nD) (L : grid5.Coords) (v2 : BitVec 32) (v3 : IVec S16 32) (c0_i32_22 : BitVec 32) (c1_i32_24 : BitVec 32) (k5_t14 : Fin k5_t14_loop.trips) (k5_t15 : Fin k5_t15_loop.trips)
    (fI : Buf (Elt F) ((V d (cV L) (jV L)).loc cc5_scratch0)) :
    prepInvV1 (F := F) d L fI (640 * k5_t14.val + 320) k5_t15.val ()
      ⊢ wp frame (wpE (defs₀ (F := F)) 𝒱₀ (V d (cV L) (jV L)) none) Set.univ
          (k5_t15_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_22 c1_i32_24 k5_t14 k5_t15 ())
          (prepInvV1 (F := F) d L fI (640 * k5_t14.val + 320) (k5_t15.val + 1)) := by
  unfold k5_t15_body
  unfold prepInvV1
  iintro ⟨HI', %fs, Hs', %hfs⟩
  sl_exec
  sl_step
  isplitl [HI']; · iexact HI'
  iexists _
  isplitl [Hs']; · iexact Hs'
  ipureintro
  refine sup_step_val (F := F) d L fI (640 * k5_t14.val + 320) (Memref.whole cc5_scratch2 : Memref sig .scVector .vmem S320 .i32).view fs k5_t15.val (k5_off25 k5_t15) (k5_off25_eq k5_t15) _ _ (fun x => ?_) hfs
  exact (load_shr_val (F := F) d L fI _ (k5_off24 k5_t14 k5_t15) (k5_off24_eq k5_t14 k5_t15) _ x).trans
    (congrArg (fun n => IntOp.shrsi .vector (idxAtN (F := F) d L fI n) 3#32) (by omega))

theorem prep_trip_t17_val (d : Dev nD) (L : grid5.Coords) (v2 : BitVec 32) (v3 : IVec S16 32) (k5_t14 : Fin k5_t14_loop.trips) (v17 : BitVec 32) (k5_h3 : k5_cond3 k5_t14 = 1#1) (k5_t17 : Fin k5_t17_loop.trips)
    (fI : Buf (Elt F) ((V d (cV L) (jV L)).loc cc5_scratch0)) :
    prepInvV0 (F := F) d L fI (640 * k5_t14.val + 640) k5_t17.val ()
      ⊢ wp frame (wpE (defs₀ (F := F)) 𝒱₀ (V d (cV L) (jV L)) none) Set.univ
          (k5_t17_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t14 v17 k5_h3 k5_t17 ())
          (prepInvV0 (F := F) d L fI (640 * k5_t14.val + 640) (k5_t17.val + 1)) := by
  unfold k5_t17_body
  unfold prepInvV0
  iintro ⟨HI', %fs, Hs', %hfs⟩
  sl_exec
  sl_step
  isplitl [HI']; · iexact HI'
  iexists _
  isplitl [Hs']; · iexact Hs'
  ipureintro
  refine sup_step_val (F := F) d L fI (640 * k5_t14.val + 640) (Memref.whole cc5_scratch1 : Memref sig .scVector .vmem S320 .i32).view fs k5_t17.val (k5_off29 k5_t17) (k5_off29_eq k5_t17) _ _ (fun x => ?_) hfs
  exact (load_shr_val (F := F) d L fI _ (k5_off28 k5_t14 k5_t17) (k5_off28_eq k5_t14 k5_t17) _ x).trans
    (congrArg (fun n => IntOp.shrsi .vector (idxAtN (F := F) d L fI n) 3#32) (by omega))

theorem prep_trip_t21_val (d : Dev nD) (L : grid5.Coords) (v2 : BitVec 32) (v3 : IVec S16 32) (c0_i32_32 : BitVec 32) (c1_i32_34 : BitVec 32) (k5_t20 : Fin k5_t20_loop.trips) (k5_t21 : Fin k5_t21_loop.trips)
    (fI : Buf (Elt F) ((V d (cV L) (jV L)).loc cc5_scratch0)) :
    prepInvV1 (F := F) d L fI (640 * k5_t20.val + 320) k5_t21.val ()
      ⊢ wp frame (wpE (defs₀ (F := F)) 𝒱₀ (V d (cV L) (jV L)) none) Set.univ
          (k5_t21_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 c0_i32_32 c1_i32_34 k5_t20 k5_t21 ())
          (prepInvV1 (F := F) d L fI (640 * k5_t20.val + 320) (k5_t21.val + 1)) := by
  unfold k5_t21_body
  unfold prepInvV1
  iintro ⟨HI', %fs, Hs', %hfs⟩
  sl_exec
  sl_step
  isplitl [HI']; · iexact HI'
  iexists _
  isplitl [Hs']; · iexact Hs'
  ipureintro
  refine sup_step_val (F := F) d L fI (640 * k5_t20.val + 320) (Memref.whole cc5_scratch2 : Memref sig .scVector .vmem S320 .i32).view fs k5_t21.val (k5_off35 k5_t21) (k5_off35_eq k5_t21) _ _ (fun x => ?_) hfs
  exact (load_shr_val (F := F) d L fI _ (k5_off34 k5_t20 k5_t21) (k5_off34_eq k5_t20 k5_t21) _ x).trans
    (congrArg (fun n => IntOp.shrsi .vector (idxAtN (F := F) d L fI n) 3#32) (by omega))

theorem prep_trip_t23_val (d : Dev nD) (L : grid5.Coords) (v2 : BitVec 32) (v3 : IVec S16 32) (k5_t20 : Fin k5_t20_loop.trips) (v17 : BitVec 32) (k5_h4 : k5_cond4 k5_t20 = 1#1) (k5_t23 : Fin k5_t23_loop.trips)
    (fI : Buf (Elt F) ((V d (cV L) (jV L)).loc cc5_scratch0)) :
    prepInvV0 (F := F) d L fI (640 * k5_t20.val + 640) k5_t23.val ()
      ⊢ wp frame (wpE (defs₀ (F := F)) 𝒱₀ (V d (cV L) (jV L)) none) Set.univ
          (k5_t23_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 v3 k5_t20 v17 k5_h4 k5_t23 ())
          (prepInvV0 (F := F) d L fI (640 * k5_t20.val + 640) (k5_t23.val + 1)) := by
  unfold k5_t23_body
  unfold prepInvV0
  iintro ⟨HI', %fs, Hs', %hfs⟩
  sl_exec
  sl_step
  isplitl [HI']; · iexact HI'
  iexists _
  isplitl [Hs']; · iexact Hs'
  ipureintro
  refine sup_step_val (F := F) d L fI (640 * k5_t20.val + 640) (Memref.whole cc5_scratch1 : Memref sig .scVector .vmem S320 .i32).view fs k5_t23.val (k5_off39 k5_t23) (k5_off39_eq k5_t23) _ _ (fun x => ?_) hfs
  exact (load_shr_val (F := F) d L fI _ (k5_off38 k5_t20 k5_t23) (k5_off38_eq k5_t20 k5_t23) _ x).trans
    (congrArg (fun n => IntOp.shrsi .vector (idxAtN (F := F) d L fI n) 3#32) (by omega))

theorem prep_trip_t1_val (d : Dev nD) (L : grid5.Coords)  (k5_t1 : Fin k5_t1_loop.trips)
    (fI : Buf (Elt F) ((V d (cV L) (jV L)).loc cc5_scratch0)) :
    prepInvV0 (F := F) d L fI 0 k5_t1.val ()
      ⊢ wp frame (wpE (defs₀ (F := F)) 𝒱₀ (V d (cV L) (jV L)) none) Set.univ
          (k5_t1_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t1 ())
          (prepInvV0 (F := F) d L fI 0 (k5_t1.val + 1)) := by
  unfold k5_t1_body
  unfold prepInvV0
  iintro ⟨HI', %fs, Hs', %hfs⟩
  sl_exec
  sl_step
  isplitl [HI']; · iexact HI'
  iexists _
  isplitl [Hs']; · iexact Hs'
  ipureintro
  refine sup_step_val (F := F) d L fI 0 (Memref.whole cc5_scratch1 : Memref sig .scVector .vmem S320 .i32).view fs k5_t1.val (k5_off3 k5_t1) (k5_off3_eq k5_t1) _ _ (fun x => ?_) hfs
  exact (load_shr_val (F := F) d L fI _ (k5_off2 k5_t1) (k5_off2_eq k5_t1) _ x).trans
    (congrArg (fun n => IntOp.shrsi .vector (idxAtN (F := F) d L fI n) 3#32) (by omega))

theorem prep_trip_t7_val (d : Dev nD) (L : grid5.Coords)  (k5_t7 : Fin k5_t7_loop.trips)
    (fI : Buf (Elt F) ((V d (cV L) (jV L)).loc cc5_scratch0)) :
    prepInvV0 (F := F) d L fI 0 k5_t7.val ()
      ⊢ wp frame (wpE (defs₀ (F := F)) 𝒱₀ (V d (cV L) (jV L)) none) Set.univ
          (k5_t7_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11  k5_t7 ())
          (prepInvV0 (F := F) d L fI 0 (k5_t7.val + 1)) := by
  unfold k5_t7_body
  unfold prepInvV0
  iintro ⟨HI', %fs, Hs', %hfs⟩
  sl_exec
  sl_step
  isplitl [HI']; · iexact HI'
  iexists _
  isplitl [Hs']; · iexact Hs'
  ipureintro
  refine sup_step_val (F := F) d L fI 0 (Memref.whole cc5_scratch1 : Memref sig .scVector .vmem S320 .i32).view fs k5_t7.val (k5_off13 k5_t7) (k5_off13_eq k5_t7) _ _ (fun x => ?_) hfs
  exact (load_shr_val (F := F) d L fI _ (k5_off12 k5_t7) (k5_off12_eq k5_t7) _ x).trans
    (congrArg (fun n => IntOp.shrsi .vector (idxAtN (F := F) d L fI n) 3#32) (by omega))

/-! ## What a full list names, and what the gather it feeds lands -/

/-- A full list of shifted index words in the tables' range names rows of the tables. -/
theorem supOK_lt (d : Dev nD) (L : grid5.Coords) (fI : Buf (Elt F) ((V d (cV L) (jV L)).loc cc5_scratch0)) (cb : Nat)
    (fs : S320.Idx → BitVec 32) (h : SupOK (F := F) d L fI cb 20 fs) (hI : ∀ n, IdxOK (idxAtN (F := F) d L fI n)) :
    ∀ x, (fs x).toNat < 12500 := by
  intro x
  have hx : (x 0).val < 320 := (x 0).isLt
  rw [h x (by omega)]
  exact shr3_lt _ (hI _)

/-- The gather's payload over a full list: row `j` is the table's row named by the shifted index word at place
    `cb + j`. -/
theorem rows_payload (d : Dev nD) (L : grid5.Coords) (Tf : S12500x128.Idx → Elt F .f32)
    (fI : Buf (Elt F) ((V d (cV L) (jV L)).loc cc5_scratch0)) (cb : Nat) (hg : S12500x128.Gathers 0 S320x128)
    (o : S320.Idx → Elt F .i32) (hn : S320.numel = S320x128.size hg.axis')
    (hin : ∀ x, (o x).toNat < S12500x128.size hg.axis) (h : SupOK (F := F) d L fI cb 20 o) :
    RowsOK (F := F) d L Tf fI cb (SparseCore.gatherPayload hg Tf (SparseCore.rows o hn hin)) := by
  intro j c
  rw [gatherPayload_apply hg Tf o hn hin j c]
  have e := h (ix1 j) (show j.val < 16 * 20 from j.isLt)
  have hlt : (o (ix1 j)).toNat < 12500 := hin (ix1 j)
  refine congrArg Tf (funext fun a => Fin.ext ?_)
  match a with
  | ⟨0, _⟩ =>
    show (o (ix1 j)).toNat = (IntOp.shrsi .vector (idxAtN (F := F) d L fI (cb + j.val)) 3#32).toNat % 12500
    rw [← e, Nat.mod_eq_of_lt hlt]
  | ⟨1, _⟩ => rfl

/-- THE ROWS LANDED: the destination written whole with the gather's payload over a full list, read back, holds in row
    `j` the table's row named by the shifted index word at place `cb + j`. -/
theorem rows_landed (d : Dev nD) (L : grid5.Coords) (Tf : S12500x128.Idx → Elt F .f32)
    (fI : Buf (Elt F) ((V d (cV L) (jV L)).loc cc5_scratch0)) (cb : Nat) {sig : RefSig} {κ : Kind} {sp : Space}
    (v : View sig κ sp S320x128 .f32) (fd : v.ty.Contents (Elt F)) (hg : S12500x128.Gathers 0 S320x128)
    (o : S320.Idx → Elt F .i32) (hn : S320.numel = S320x128.size hg.axis')
    (hin : ∀ x, (o x).toNat < S12500x128.size hg.axis) (h : SupOK (F := F) d L fI cb 20 o) :
    RowsOK (F := F) d L Tf fI cb
      (v.read (Elt F) (v.write (Elt F) fd (SparseCore.gatherPayload hg Tf (SparseCore.rows o hn hin)) Finset.univ)) := by
  rw [View.read_write_univ]
  exact rows_payload d L Tf fI cb hg o hn hin h

/-- The same for the destination's contents spelt as the whole-buffer piece of the payload over any contents. -/
theorem rows_landed_writes (d : Dev nD) (L : grid5.Coords) (Tf : S12500x128.Idx → Elt F .f32)
    (fI : Buf (Elt F) ((V d (cV L) (jV L)).loc cc5_scratch0)) (cb : Nat) {sig : RefSig} {κ : Kind} {sp : Space}
    (v : View sig κ sp S320x128 .f32) (g : v.ty.Contents (Elt F)) (hg : S12500x128.Gathers 0 S320x128)
    (o : S320.Idx → Elt F .i32) (hn : S320.numel = S320x128.size hg.axis')
    (hin : ∀ x, (o x).toNat < S12500x128.size hg.axis) (h : SupOK (F := F) d L fI cb 20 o) :
    RowsOK (F := F) d L Tf fI cb
      (v.read (Elt F) (v.writes (Elt F) g [⟨Rect.whole S320x128, SparseCore.gatherPayload hg Tf (SparseCore.rows o hn hin)⟩])) := by
  rw [View.read_writes_whole]
  exact rows_payload d L Tf fI cb hg o hn hin h

end Cert.Proof.ScBody

end
-- ==== Proof.ScValIdx.lean ====
/-
  The indexed loads and stores of a drain trip, read at a position: what a sixteen-lane indexed load reads and an
  unmasked sixteen-lane indexed store with pairwise distinct positions leaves, and from these one whole trip — sixteen
  (load, store) pairs — as a function on the output scratch.
-/
import proofs.«203359_g24824910971486_cont_8to1_1854_34_alg».proof.Proof.ScBodyDefs
import proofs.«203359_g24824910971486_cont_8to1_1854_34_alg».proof.Proof.ScArith
import Idealize.ShloMosaic.Lib.ValueIdx

noncomputable section

namespace Cert.Proof.ScBody

open Cert.KernelIdeal Cert.KernelIdeal.Gen
open Idealize.ShloMosaic Idealize.ShloMosaic.ValueIdx

variable {F : FTy → Type} [FloatOps F] {e : EltTy}

/-- The sixteen lanes as indices of a sixteen-lane vector. -/
abbrev lane16 (i : Fin 16) : S16.Idx := ix1 i

theorem lane16_coord (x : S16.Idx) : lane16 (x 0) = x := (eq_ix1 x).symm

/-! ## An unmasked indexed store as a fold over its lanes -/

section Fold

variable {s : Shape} {d : Fin 1 → ℕ}

/-- A lane's multi-index, from the lane's number, and back. -/
theorem ofLane_coord (x : (⟨1, d⟩ : Shape).Idx) : Shape.ofLane (x 0) = x := by
  funext a
  obtain rfl : a = 0 := Fin.eq_zero a
  exact Fin.ext rfl

theorem ofLane_injective {k k' : Fin (d 0)} (h : Shape.ofLane (d := d) k = Shape.ofLane k') : k = k' :=
  Fin.ext (congrArg (fun i : (⟨1, d⟩ : Shape).Idx => (i 0).val) h)

/-- Through a fold of steps each of which changes one position only, a position no step of the list names keeps its
    value. -/
theorem foldl_miss {n : ℕ} (st : Vec F s e → Fin n → Vec F s e) (pos : Fin n → s.Idx)
    (hmiss : ∀ g k j, j ≠ pos k → st g k j = g j) (j : s.Idx) :
    ∀ (l : List (Fin n)) (g : Vec F s e), (∀ k ∈ l, j ≠ pos k) → (l.foldl st g) j = g j
  | [], _, _ => rfl
  | k :: l, g, hj => by
    rw [List.foldl_cons, foldl_miss st pos hmiss j l _ (fun k' hk' => hj k' (List.mem_cons_of_mem _ hk'))]
    exact hmiss g k j (hj k List.mem_cons_self)

/-- A step of a duplicate-free list whose position no other step of the list names leaves its value there. -/
theorem foldl_hit {n : ℕ} (st : Vec F s e → Fin n → Vec F s e) (pos : Fin n → s.Idx) (val : Fin n → Elt F e)
    (hhit : ∀ g k, st g k (pos k) = val k) (hmiss : ∀ g k j, j ≠ pos k → st g k j = g j) (k : Fin n) :
    ∀ (l : List (Fin n)) (g : Vec F s e), l.Nodup → k ∈ l → (∀ k' ∈ l, pos k' = pos k → k' = k) →
      (l.foldl st g) (pos k) = val k
  | [], _, _, hk, _ => absurd hk List.not_mem_nil
  | k₀ :: l, g, hnd, hk, hinj => by
    rw [List.foldl_cons]
    rcases List.mem_cons.mp hk with rfl | hk'
    · rw [foldl_miss st pos hmiss _ l _ (fun k' hk' hp => by
        have := hinj k' (List.mem_cons_of_mem _ hk') hp.symm
        exact (List.nodup_cons.mp hnd).1 (this ▸ hk'))]
      exact hhit g k
    · exact foldl_hit st pos val hhit hmiss k l _ (List.nodup_cons.mp hnd).2 hk'
        (fun k' hk'' => hinj k' (List.mem_cons_of_mem _ hk''))

/-- An unmasked, non-accumulating indexed store leaves lane `k`'s value at lane `k`'s position, when no other lane names
    that position … -/
theorem storeIdx_hit_lane (f : Vec F s e) (idxs : Fin s.rank → IVec ⟨1, d⟩ 32) (w : Vec F ⟨1, d⟩ e)
    (h : ∀ a x, (idxs a x).toNat < s.size a) (k : Fin (d 0))
    (hinj : ∀ k', idxAt idxs h (Shape.ofLane k') = idxAt idxs h (Shape.ofLane k) → k' = k) :
    storeIdx f idxs w (fun _ => 1#1) false h (idxAt idxs h (Shape.ofLane k)) = w (Shape.ofLane k) := by
  unfold storeIdx
  refine foldl_hit _ (fun k => idxAt idxs h (Shape.ofLane k)) (fun k => w (Shape.ofLane k)) (fun g k => ?_) (fun g k j hj => ?_) k
    (List.finRange (d 0)) f (List.nodup_finRange _) (List.mem_finRange _) (fun k' _ => hinj k')
  · simp
  · have hne : ¬ ∀ a, (j a).val = (idxAt idxs h (Shape.ofLane k) a).val := fun hq => hj (funext fun a => Fin.ext (hq a))
    simp [hne]

/-- … and the old value at every position no lane names. -/
theorem storeIdx_miss_lane (f : Vec F s e) (idxs : Fin s.rank → IVec ⟨1, d⟩ 32) (w : Vec F ⟨1, d⟩ e)
    (h : ∀ a x, (idxs a x).toNat < s.size a) (j : s.Idx) (hj : ∀ k, j ≠ idxAt idxs h (Shape.ofLane k)) :
    storeIdx f idxs w (fun _ => 1#1) false h j = f j := by
  unfold storeIdx
  refine foldl_miss _ (fun k => idxAt idxs h (Shape.ofLane k)) (fun g k j hj => ?_) j (List.finRange (d 0)) f (fun k _ => hj k)
  have hne : ¬ ∀ a, (j a).val = (idxAt idxs h (Shape.ofLane k) a).val := fun hq => hj (funext fun a => Fin.ext (hq a))
  simp [hne]

end Fold

/-! ## (H1) The indexed load and the unmasked indexed store at a position -/

section H1

variable {n0 n1 : ℕ}

/-- The position the two index vectors name for lane `x`. -/
theorem idxAt_ix2 (u v : IVec S16 32)
    (h : ∀ a x, ((![u, v] : Fin 2 → IVec S16 32) a x).toNat < (⟨2, ![n0, n1]⟩ : Shape).size a) (x : S16.Idx) :
    idxAt ![u, v] h x = ix2 ⟨(u x).toNat, h 0 x⟩ ⟨(v x).toNat, h 1 x⟩ :=
  funext fun a => match a with | ⟨0, _⟩ => rfl | ⟨1, _⟩ => rfl

/-- (H1) An indexed load at lane `x` reads the base at the position the two index vectors name for `x`. -/
theorem loadIdx_ix2 (f : Vec F ⟨2, ![n0, n1]⟩ e) (u v : IVec S16 32)
    (h : ∀ a x, ((![u, v] : Fin 2 → IVec S16 32) a x).toNat < (⟨2, ![n0, n1]⟩ : Shape).size a) (x : S16.Idx) :
    loadIdx f ![u, v] h x = f (ix2 ⟨(u x).toNat, h 0 x⟩ ⟨(v x).toNat, h 1 x⟩) :=
  congrArg f (idxAt_ix2 u v h x)

/-- (H1) An unmasked indexed store whose sixteen positions are pairwise distinct leaves lane `x`'s value at lane `x`'s
    position … -/
theorem storeIdx_hit (f : Vec F ⟨2, ![n0, n1]⟩ e) (u v : IVec S16 32) (w : Vec F S16 e)
    (h : ∀ a x, ((![u, v] : Fin 2 → IVec S16 32) a x).toNat < (⟨2, ![n0, n1]⟩ : Shape).size a)
    (hinj : ∀ x x' : S16.Idx, (u x).toNat = (u x').toNat → (v x).toNat = (v x').toNat → x = x') (x : S16.Idx) :
    storeIdx f ![u, v] w (fun _ => 1#1) false h (ix2 ⟨(u x).toNat, h 0 x⟩ ⟨(v x).toNat, h 1 x⟩) = w x := by
  obtain ⟨k, rfl⟩ : ∃ k : Fin ((![16] : Fin 1 → ℕ) 0), Shape.ofLane (d := ![16]) k = x := ⟨x 0, ofLane_coord x⟩
  have key := storeIdx_hit_lane f (![u, v] : Fin 2 → IVec S16 32) w h k (fun k' hp => by
    have e0 : (u (Shape.ofLane (d := ![16]) k')).toNat = (u (Shape.ofLane (d := ![16]) k)).toNat :=
      congrArg (fun i : (⟨2, ![n0, n1]⟩ : Shape).Idx => (i 0).val) hp
    have e1 : (v (Shape.ofLane (d := ![16]) k')).toNat = (v (Shape.ofLane (d := ![16]) k)).toNat :=
      congrArg (fun i : (⟨2, ![n0, n1]⟩ : Shape).Idx => (i 1).val) hp
    exact ofLane_injective (hinj _ _ e0 e1))
  exact (congrArg (storeIdx f (![u, v] : Fin 2 → IVec S16 32) w (fun _ => 1#1) false h)
    (idxAt_ix2 u v h (Shape.ofLane (d := ![16]) k)).symm).trans key

/-- … and the old value at every position no lane names. -/
theorem storeIdx_miss (f : Vec F ⟨2, ![n0, n1]⟩ e) (u v : IVec S16 32) (w : Vec F S16 e)
    (h : ∀ a x, ((![u, v] : Fin 2 → IVec S16 32) a x).toNat < (⟨2, ![n0, n1]⟩ : Shape).size a)
    (p : (⟨2, ![n0, n1]⟩ : Shape).Idx) (hp : ∀ x, ¬((u x).toNat = (p 0).val ∧ (v x).toNat = (p 1).val)) :
    storeIdx f ![u, v] w (fun _ => 1#1) false h p = f p := by
  refine storeIdx_miss_lane f (![u, v] : Fin 2 → IVec S16 32) w h p (fun k hq => ?_)
  exact hp (Shape.ofLane (d := ![16]) k) ⟨(congrArg (fun i : (⟨2, ![n0, n1]⟩ : Shape).Idx => (i 0).val) hq).symm,
    (congrArg (fun i : (⟨2, ![n0, n1]⟩ : Shape).Idx => (i 1).val) hq).symm⟩

end H1

/-! ## (H2) One drain trip -/

/-- The flat address of a position of the output scratch: `128 · line + lane`. -/
def flatAddr (p : S40x128.Idx) : ℕ := (p 0).val * 128 + (p 1).val

/-- (H2, one pair) The `m`-th (load, store) pair of trip `k`: lane `x` writes what it loaded at flat address
    `(16 k + x) · 16 + m`; every other position keeps its value. -/
theorem drain_pair (rows : Vec F S320x128 e) (out : Vec F S40x128 e) (ur uc uh ul : IVec S16 32)
    (h1 : ∀ a x, ((![ur, uc] : Fin 2 → IVec S16 32) a x).toNat < S320x128.size a)
    (h2 : ∀ a x, ((![uh, ul] : Fin 2 → IVec S16 32) a x).toNat < S40x128.size a)
    (k m : ℕ) (hk : k < 20) (hm : m < 16)
    (huh : ∀ x, (uh x).toNat = ((16 * k + (x 0).val) * 16 + m) / 128)
    (hul : ∀ x, (ul x).toNat = ((16 * k + (x 0).val) * 16 + m) % 128) (p : S40x128.Idx) :
    storeIdx out ![uh, ul] (loadIdx rows ![ur, uc] h1) (fun _ => 1#1) false h2 p
      = if 256 * k ≤ flatAddr p ∧ flatAddr p < 256 * k + 256 ∧ flatAddr p % 16 = m
        then loadIdx rows ![ur, uc] h1 (lane16 ⟨flatAddr p / 16 % 16, Nat.mod_lt _ (by decide)⟩) else out p := by
  have hp0 : (p 0).val < 40 := (p 0).isLt
  have hp1 : (p 1).val < 128 := (p 1).isLt
  have hinj : ∀ x x' : S16.Idx, (uh x).toNat = (uh x').toNat → (ul x).toNat = (ul x').toNat → x = x' := by
    intro x x' e0 e1
    have hx : (x 0).val < 16 := (x 0).isLt
    have hx' : (x' 0).val < 16 := (x' 0).isLt
    rw [huh, huh] at e0
    rw [hul, hul] at e1
    rw [eq_ix1 x, eq_ix1 x']
    exact congrArg ix1 (Fin.ext (by omega))
  unfold flatAddr
  split
  · rename_i hc
    obtain ⟨c1, c2, c3⟩ := hc
    have hq : ((p 0).val * 128 + (p 1).val) / 16 % 16 < 16 := Nat.mod_lt _ (by decide)
    have hpe : p = ix2 ⟨(uh (lane16 ⟨((p 0).val * 128 + (p 1).val) / 16 % 16, hq⟩)).toNat, h2 0 _⟩
        ⟨(ul (lane16 ⟨((p 0).val * 128 + (p 1).val) / 16 % 16, hq⟩)).toNat, h2 1 _⟩ := by
      funext a
      match a with
      | ⟨0, _⟩ =>
        refine Fin.ext ?_
        show (p 0).val = (uh (lane16 ⟨((p 0).val * 128 + (p 1).val) / 16 % 16, hq⟩)).toNat
        rw [huh]
        show (p 0).val = ((16 * k + ((p 0).val * 128 + (p 1).val) / 16 % 16) * 16 + m) / 128
        omega
      | ⟨1, _⟩ =>
        refine Fin.ext ?_
        show (p 1).val = (ul (lane16 ⟨((p 0).val * 128 + (p 1).val) / 16 % 16, hq⟩)).toNat
        rw [hul]
        show (p 1).val = ((16 * k + ((p 0).val * 128 + (p 1).val) / 16 % 16) * 16 + m) % 128
        omega
    exact (congrArg (storeIdx out (![uh, ul] : Fin 2 → IVec S16 32) (loadIdx rows ![ur, uc] h1) (fun _ => 1#1) false h2) hpe).trans
      (storeIdx_hit out uh ul (loadIdx rows ![ur, uc] h1) h2 hinj _)
  · rename_i hc
    refine storeIdx_miss out uh ul (loadIdx rows ![ur, uc] h1) h2 p (fun x hx => hc ?_)
    have hx0 : (x 0).val < 16 := (x 0).isLt
    obtain ⟨e0, e1⟩ := hx
    rw [huh] at e0
    rw [hul] at e1
    omega

/-- The output scratch after the first `n` (load, store) pairs of a trip, from its contents `out` before the trip: pair 0
    innermost. -/
def drainFold (rows : Vec F S320x128 e) (ur : IVec S16 32) (uc uh ul : Fin 16 → IVec S16 32)
    (h1 : ∀ m a x, ((![ur, uc m] : Fin 2 → IVec S16 32) a x).toNat < S320x128.size a)
    (h2 : ∀ m a x, ((![uh m, ul m] : Fin 2 → IVec S16 32) a x).toNat < S40x128.size a) :
    (n : ℕ) → n ≤ 16 → Vec F S40x128 e → Vec F S40x128 e
  | 0, _, out => out
  | n + 1, hn, out =>
    storeIdx (drainFold rows ur uc uh ul h1 h2 n (Nat.le_of_succ_le hn) out) ![uh ⟨n, hn⟩, ul ⟨n, hn⟩]
      (loadIdx rows ![ur, uc ⟨n, hn⟩] (h1 ⟨n, hn⟩)) (fun _ => 1#1) false (h2 ⟨n, hn⟩)

section Trip

variable (rows : Vec F S320x128 e) (out : Vec F S40x128 e) (ur : IVec S16 32) (uc uh ul : Fin 16 → IVec S16 32)
  (h1 : ∀ m a x, ((![ur, uc m] : Fin 2 → IVec S16 32) a x).toNat < S320x128.size a)
  (h2 : ∀ m a x, ((![uh m, ul m] : Fin 2 → IVec S16 32) a x).toNat < S40x128.size a)
  (k : ℕ) (hk : k < 20)
  (huh : ∀ m x, (uh m x).toNat = ((16 * k + (x 0).val) * 16 + m.val) / 128)
  (hul : ∀ m x, (ul m x).toNat = ((16 * k + (x 0).val) * 16 + m.val) % 128)

include hk huh hul

/-- After the first `n` pairs: a position of the trip's 256 addresses whose address is `< n` modulo 16 holds what its pair
    loaded at its lane; every other position keeps its value. -/
theorem drainFold_value (n : ℕ) (hn : n ≤ 16) (p : S40x128.Idx) :
    drainFold rows ur uc uh ul h1 h2 n hn out p
      = if 256 * k ≤ flatAddr p ∧ flatAddr p < 256 * k + 256 ∧ flatAddr p % 16 < n
        then loadIdx rows ![ur, uc ⟨flatAddr p % 16, Nat.mod_lt _ (by decide)⟩] (h1 _)
          (lane16 ⟨flatAddr p / 16 % 16, Nat.mod_lt _ (by decide)⟩)
        else out p := by
  induction n with
  | zero =>
    rw [if_neg (fun hc => Nat.not_lt_zero _ hc.2.2)]
    rfl
  | succ n ih =>
    have hn' : n < 16 := hn
    show storeIdx (drainFold rows ur uc uh ul h1 h2 n (Nat.le_of_succ_le hn) out) ![uh ⟨n, hn⟩, ul ⟨n, hn⟩]
      (loadIdx rows ![ur, uc ⟨n, hn⟩] (h1 ⟨n, hn⟩)) (fun _ => 1#1) false (h2 ⟨n, hn⟩) p = _
    rw [drain_pair rows _ ur (uc ⟨n, hn⟩) (uh ⟨n, hn⟩) (ul ⟨n, hn⟩) (h1 ⟨n, hn⟩) (h2 ⟨n, hn⟩) k n hk hn'
      (fun x => huh ⟨n, hn⟩ x) (fun x => hul ⟨n, hn⟩ x) p, ih (Nat.le_of_succ_le hn)]
    by_cases hc : 256 * k ≤ flatAddr p ∧ flatAddr p < 256 * k + 256 ∧ flatAddr p % 16 = n
    · obtain ⟨c1, c2, c3⟩ := hc
      rw [if_pos ⟨c1, c2, c3⟩, if_pos ⟨c1, c2, by omega⟩]
      have hi : (⟨flatAddr p % 16, Nat.mod_lt _ (by decide)⟩ : Fin 16) = ⟨n, hn⟩ := Fin.ext c3
      exact (congrArg (fun i : Fin 16 => loadIdx rows ![ur, uc i] (h1 i)
        (lane16 ⟨flatAddr p / 16 % 16, Nat.mod_lt _ (by decide)⟩)) hi).symm
    · rw [if_neg hc]
      by_cases hd : 256 * k ≤ flatAddr p ∧ flatAddr p < 256 * k + 256 ∧ flatAddr p % 16 < n
      · rw [if_pos hd, if_pos ⟨hd.1, hd.2.1, by omega⟩]
      · rw [if_neg hd, if_neg (fun hq => by
          obtain ⟨q1, q2, q3⟩ := hq
          rcases Nat.lt_succ_iff_lt_or_eq.mp q3 with h | h
          · exact hd ⟨q1, q2, h⟩
          · exact hc ⟨q1, q2, h⟩)]

/-- (H2) ONE DRAIN TRIP as a function on the output scratch: after the sixteen pairs, a position whose flat address
    `A` lies in the trip's 256 addresses `256 k … 256 k + 255` holds what pair `A mod 16` loaded at lane `A / 16 mod 16`;
    every other position keeps its value. -/
theorem drain_trip_value (p : S40x128.Idx) :
    drainFold rows ur uc uh ul h1 h2 16 (Nat.le_refl 16) out p
      = if 256 * k ≤ flatAddr p ∧ flatAddr p < 256 * k + 256
        then loadIdx rows ![ur, uc ⟨flatAddr p % 16, Nat.mod_lt _ (by decide)⟩] (h1 _)
          (lane16 ⟨flatAddr p / 16 % 16, Nat.mod_lt _ (by decide)⟩)
        else out p := by
  rw [drainFold_value rows out ur uc uh ul h1 h2 k hk huh hul 16 (Nat.le_refl 16) p]
  by_cases hc : 256 * k ≤ flatAddr p ∧ flatAddr p < 256 * k + 256
  · rw [if_pos hc, if_pos ⟨hc.1, hc.2, Nat.mod_lt _ (by decide)⟩]
  · rw [if_neg hc, if_neg (fun hq => hc ⟨hq.1, hq.2.1⟩)]

/-- (H2, at a lane and a pair) The element lane `x` of pair `m` moved: at the position the store's index vectors name
    for it the output scratch holds the row scratch's element at the position the load's index vectors name. -/
theorem drain_trip_at (m : Fin 16) (x : S16.Idx) :
    drainFold rows ur uc uh ul h1 h2 16 (Nat.le_refl 16) out
        (ix2 ⟨(uh m x).toNat, h2 m 0 x⟩ ⟨(ul m x).toNat, h2 m 1 x⟩)
      = rows (ix2 ⟨(ur x).toNat, h1 m 0 x⟩ ⟨(uc m x).toNat, h1 m 1 x⟩) := by
  have hx : (x 0).val < 16 := (x 0).isLt
  have hm : m.val < 16 := m.isLt
  have hA : flatAddr (ix2 ⟨(uh m x).toNat, h2 m 0 x⟩ ⟨(ul m x).toNat, h2 m 1 x⟩) = (16 * k + (x 0).val) * 16 + m.val := by
    show (uh m x).toNat * 128 + (ul m x).toNat = _
    rw [huh, hul]; omega
  rw [drain_trip_value rows out ur uc uh ul h1 h2 k hk huh hul, if_pos (by rw [hA]; omega)]
  have hi : (⟨flatAddr (ix2 ⟨(uh m x).toNat, h2 m 0 x⟩ ⟨(ul m x).toNat, h2 m 1 x⟩) % 16, Nat.mod_lt _ (by decide)⟩ : Fin 16) = m :=
    Fin.ext (by show flatAddr _ % 16 = m.val; rw [hA]; omega)
  have hl : lane16 ⟨flatAddr (ix2 ⟨(uh m x).toNat, h2 m 0 x⟩ ⟨(ul m x).toNat, h2 m 1 x⟩) / 16 % 16, Nat.mod_lt _ (by decide)⟩ = x := by
    have hc : (⟨flatAddr (ix2 ⟨(uh m x).toNat, h2 m 0 x⟩ ⟨(ul m x).toNat, h2 m 1 x⟩) / 16 % 16, Nat.mod_lt _ (by decide)⟩ : Fin 16)
        = (x 0 : Fin 16) := Fin.ext (by show flatAddr _ / 16 % 16 = (x 0).val; rw [hA]; omega)
    exact (congrArg lane16 hc).trans (lane16_coord x)
  rw [hl]
  exact (congrArg (fun i : Fin 16 => loadIdx rows ![ur, uc i] (h1 i) x) hi).trans (loadIdx_ix2 rows ur (uc m) (h1 m) x)

end Trip

/-! ## The trip's index words as numbers -/

/-- A lane number, read unsigned, is the lane. -/
theorem lane_val (x : S16.Idx) : ((iota .scVector S16 32 [0] iota_S16_d0_w32_scVector : IVec S16 32) x).toNat = (x 0).val := by
  have hx : (x 0).val < 16 := (x 0).isLt
  show (BitVec.ofNat 32 (0 * S16.size 0 + (x 0).val)).toNat = (x 0).val
  rw [BitVec.toNat_ofNat]
  have : (0 * S16.size 0 + (x 0).val) = (x 0).val := by omega
  rw [this]; omega

/-- The row word of trip `k < 20` at a lane word below 16: `16 k + lane`. -/
theorem row_val (v3 : IVec S16 32) (hv3 : ∀ x, (v3 x).toNat < 16) (k : Nat) (hk : k < 20) (x : S16.Idx) :
    ((addi (broadcast S16 (Scalar.addi 0#32 (Scalar.muli (Scf.iv 0#32 1#32 k) 16#32))) v3) x).toNat = 16 * k + (v3 x).toNat := by
  have h := hv3 x
  show (0#32 + (0#32 + BitVec.ofNat 32 k * 1#32) * 16#32 + v3 x).toNat = _
  simp only [BitVec.toNat_add, BitVec.toNat_mul, BitVec.toNat_ofNat]
  omega

/-- A column word: `(w &&& 7) · 16 + m` for `m < 16`. -/
theorem col_val (w m : BitVec 32) (hm : m.toNat < 16) :
    (IntOp.addi (IntOp.muli (IntOp.andi w 7#32) 16#32) m).toNat = (w &&& 7#32).toNat * 16 + m.toNat := by
  show ((w &&& 7#32) * 16#32 + m).toNat = _
  have h7 : (w &&& 7#32).toNat ≤ 7 := by rw [BitVec.toNat_and]; exact Nat.and_le_right
  simp only [BitVec.toNat_add, BitVec.toNat_mul]
  have : (16#32 : BitVec 32).toNat = 16 := rfl
  rw [this]; omega

/-- The low part of an address `16 r + m`, `r < 320`, `m < 16`: the address modulo 128. -/
theorem lo_val (r m : BitVec 32) (hr : r.toNat < 320) (hm : m.toNat < 16) :
    (IntOp.andi (IntOp.addi (IntOp.muli r 16#32) m) 127#32).toNat = (r.toNat * 16 + m.toNat) % 128 := by
  have ha : (r * 16#32 + m).toNat = r.toNat * 16 + m.toNat := by
    simp only [BitVec.toNat_add, BitVec.toNat_mul]
    have : (16#32 : BitVec 32).toNat = 16 := rfl
    rw [this]; omega
  show ((r * 16#32 + m) &&& 127#32).toNat = _
  rw [BitVec.toNat_and, ha]
  exact Nat.and_two_pow_sub_one_eq_mod _ 7

/-- The high part of that address: the address divided by 128. -/
theorem hi_val (r m : BitVec 32) (hr : r.toNat < 320) (hm : m.toNat < 16) :
    (IntOp.shrsi .vector (IntOp.addi (IntOp.muli r 16#32) m) 7#32).toNat = (r.toNat * 16 + m.toNat) / 128 := by
  have ha : (r * 16#32 + m).toNat = r.toNat * 16 + m.toNat := by
    simp only [BitVec.toNat_add, BitVec.toNat_mul]
    have : (16#32 : BitVec 32).toNat = 16 := rfl
    rw [this]; omega
  have hmsb : (r * 16#32 + m).msb = false := by
    rw [BitVec.msb_eq_false_iff_two_mul_lt, ha]; omega
  show (if (7#32 : BitVec 32).toNat < 32 then (r * 16#32 + m).sshiftRight' 7#32 else _).toNat = _
  rw [if_pos (by decide)]
  show ((r * 16#32 + m).sshiftRight 7).toNat = _
  rw [BitVec.sshiftRight_eq_of_msb_false hmsb, BitVec.toNat_ushiftRight, ha, Nat.shiftRight_eq_div_pow]

end Cert.Proof.ScBody

end
-- ==== Proof.ScDrainPure.lean ====
/-
  One drain trip of the lookup kernel on the output scratch's VALUES: the sixteen (indexed load, indexed store) pairs of
  trip k write, at the 256 flat addresses 256 k … 256 k + 255 of the output scratch, the row scratch's elements the
  chunk's index words name, and leave every other place as it was.
-/
import proofs.«203359_g24824910971486_cont_8to1_1854_34_alg».proof.Proof.ScValDefs
import proofs.«203359_g24824910971486_cont_8to1_1854_34_alg».proof.Proof.ScValIdx

noncomputable section

namespace Cert.Proof.ScBody

open Cert.KernelIdeal Cert.KernelIdeal.Gen
open Cert.Proof.ScSetup

open Idealize.ShloMosaic
open Idealize.ShloMosaic.SparseCore (S V T)
open Idealize.ShloMosaic.ValueIdx

variable {F : FTy → Type}

/-! ## Reads through a whole view after whole-view writes -/

section Whole

variable {Val : EltTy → Type} {sig : RefSig} {κ : Kind} {sp : Space} {Sh : Shape} {e : EltTy}

/-- A read after a write of the whole view, last, reads the payload. -/
theorem read_writes_whole_cons (v : View sig κ sp Sh e) (f : v.ty.Contents Val) (Y : (Rect.whole Sh).shape.Idx → Val e)
    (Lp : List (View.Piece Val Sh e)) (p : Sh.Idx) :
    v.read Val (v.writes Val f ((⟨Rect.whole Sh, Y⟩ : View.Piece Val Sh e) :: Lp)) p = Y p := by
  have h := View.read_writes_cons_emb (v := v) (f := f) (Rect.whole Sh) Y Lp p
  rw [Rect.emb_whole_apply] at h
  exact h

/-- A whole-view load reads the contents. -/
theorem readAt_whole_apply (v : View sig κ sp Sh e) (f : v.ty.Contents Val) (p : Sh.Idx) :
    v.readAt Val (LoadRect.whole Sh) f p = v.read Val f p := by
  show v.read Val f ((Rect.whole Sh).emb p) = _
  rw [Rect.emb_whole_apply]

/-- A whole-view load of what a whole-view store, last, left reads the payload. -/
theorem readCov_whole_cons [∀ e, Nonempty (Val e)] (v : View sig κ sp Sh e) (Y : (Rect.whole Sh).shape.Idx → Val e)
    (Lp : List (View.Piece Val Sh e)) (p : Sh.Idx) :
    v.readCov ((⟨Rect.whole Sh, Y⟩ : View.Piece Val Sh e) :: Lp) (LoadRect.whole Sh) p = Y p := by
  show v.readAt Val (LoadRect.whole Sh) (v.writes Val v.junk (⟨Rect.whole Sh, Y⟩ :: Lp)) p = _
  rw [readAt_whole_apply, read_writes_whole_cons]

end Whole

/-! ## The invariant of one trip's sixteen pairs -/

section Trip

variable (d : Dev nD) (L : grid5.Coords)
variable (fI : Buf (Elt F) ((V d (cV L) (jV L)).loc cc5_scratch0)) (rows : S320x128.Idx → Elt F .f32) (cb k : ℕ)

/-- What the drained output scratch holds at place `p`: the row scratch's element at row `address / 16`, lane
    `(word &&& 7) · 16 + address mod 16`, the word the chunk's index word at place `cb + address / 16`. -/
def drained (p : S40x128.Idx) : Elt F .f32 :=
  rows (ix2 (⟨flat p / 16, by have := flat_lt p; omega⟩ : Fin 320)
    (⟨((idxAtN (F := F) d L fI (cb + flat p / 16) &&& 7#32).toNat * 16 + flat p % 16) % 128, Nat.mod_lt _ (by decide)⟩ : Fin 128))

theorem outOK_iff (kk : ℕ) (fo : S40x128.Idx → Elt F .f32) :
    OutOK (F := F) d L fI rows cb kk fo ↔ ∀ p : S40x128.Idx, flat p < 256 * kk → fo p = drained (F := F) d L fI rows cb p :=
  Iff.rfl

/-- After the first `m` pairs of trip `k`: the places of the trip's 256 addresses whose address is below `m` modulo 16
    are drained, every other place is as before the trip. -/
def TripInv (out0 : S40x128.Idx → Elt F .f32) (m : ℕ) (X : S40x128.Idx → Elt F .f32) : Prop :=
  ∀ p : S40x128.Idx, X p = if 256 * k ≤ flat p ∧ flat p < 256 * k + 256 ∧ flat p % 16 < m
    then drained (F := F) d L fI rows cb p else out0 p

variable [FloatOps F]

theorem tripInv_zero (out0 X : S40x128.Idx → Elt F .f32) (h : ∀ p, X p = out0 p) :
    TripInv (F := F) d L fI rows cb k out0 0 X := fun p => by
  rw [if_neg (fun hc => Nat.not_lt_zero _ hc.2.2)]; exact h p

/-- One more pair: its sixteen lanes drain the addresses that are `m` modulo 16. -/
theorem tripInv_step (out0 X : S40x128.Idx → Elt F .f32) (m : ℕ) (hm : m < 16) (hk : k < 20)
    (hX : TripInv (F := F) d L fI rows cb k out0 m X) (ur uc uh ul : IVec S16 32)
    (h1 : ∀ a x, ((![ur, uc] : Fin 2 → IVec S16 32) a x).toNat < S320x128.size a)
    (h2 : ∀ a x, ((![uh, ul] : Fin 2 → IVec S16 32) a x).toNat < S40x128.size a)
    (huh : ∀ x, (uh x).toNat = ((16 * k + (x 0).val) * 16 + m) / 128)
    (hul : ∀ x, (ul x).toNat = ((16 * k + (x 0).val) * 16 + m) % 128)
    (hur : ∀ x, (ur x).toNat = 16 * k + (x 0).val)
    (huc : ∀ x, (uc x).toNat = (idxAtN (F := F) d L fI (cb + (16 * k + (x 0).val)) &&& 7#32).toNat * 16 + m) :
    TripInv (F := F) d L fI rows cb k out0 (m + 1)
      (storeIdx X ![uh, ul] (loadIdx rows ![ur, uc] h1) (fun _ => 1#1) false h2) := by
  intro p
  have hp := flat_lt p
  rw [drain_pair rows X ur uc uh ul h1 h2 k m hk hm huh hul p]
  show (if 256 * k ≤ flat p ∧ flat p < 256 * k + 256 ∧ flat p % 16 = m then _ else _) = _
  by_cases hc : 256 * k ≤ flat p ∧ flat p < 256 * k + 256 ∧ flat p % 16 = m
  · obtain ⟨c1, c2, c3⟩ := hc
    rw [if_pos ⟨c1, c2, c3⟩, if_pos ⟨c1, c2, by omega⟩, loadIdx_ix2]
    unfold drained
    have hx0 : ((lane16 ⟨flatAddr p / 16 % 16, Nat.mod_lt _ (by decide)⟩ : S16.Idx) 0).val = flat p / 16 % 16 := rfl
    have h7 : (idxAtN (F := F) d L fI (cb + flat p / 16) &&& 7#32).toNat ≤ 7 := by
      rw [BitVec.toNat_and]; exact Nat.and_le_right
    refine congrArg rows (congrArg₂ ix2 (Fin.ext ?_) (Fin.ext ?_))
    · show (ur _).toNat = flat p / 16
      rw [hur, hx0]; omega
    · show (uc _).toNat = ((idxAtN (F := F) d L fI (cb + flat p / 16) &&& 7#32).toNat * 16 + flat p % 16) % 128
      rw [huc, hx0, show 16 * k + flat p / 16 % 16 = flat p / 16 by omega, c3]
      omega
  · rw [if_neg hc, hX p]
    by_cases hd : 256 * k ≤ flat p ∧ flat p < 256 * k + 256 ∧ flat p % 16 < m
    · rw [if_pos hd, if_pos ⟨hd.1, hd.2.1, by omega⟩]
    · rw [if_neg hd, if_neg (fun hq => by
        obtain ⟨q1, q2, q3⟩ := hq
        rcases Nat.lt_succ_iff_lt_or_eq.mp q3 with h | h
        · exact hd ⟨q1, q2, h⟩
        · exact hc ⟨q1, q2, h⟩)]

/-- After the sixteen pairs, one more trip's worth of the output scratch is drained. -/
theorem outOK_succ (out0 X : S40x128.Idx → Elt F .f32) (h0 : OutOK (F := F) d L fI rows cb k out0)
    (hX : TripInv (F := F) d L fI rows cb k out0 16 X) : OutOK (F := F) d L fI rows cb (k + 1) X := by
  intro p hp
  rw [hX p]
  by_cases hc : 256 * k ≤ flat p
  · rw [if_pos ⟨hc, by omega, Nat.mod_lt _ (by decide)⟩]; rfl
  · rw [if_neg (fun hq => hc hq.1)]
    exact h0 p (by omega)

end Trip

/-! ## The invariant through the executor's spelling of a trip -/

section Spelled

variable (d : Dev nD) (L : grid5.Coords)
variable (fI : Buf (Elt F) ((V d (cV L) (jV L)).loc cc5_scratch0)) (rows : S320x128.Idx → Elt F .f32) (cb k : ℕ)
variable [FloatOps F]
variable {sig' : RefSig} {κ : Kind} {sp : Space}

/-- What the output scratch is read to hold after a whole-view store of `Y`. -/
theorem tripInv_read_writes (v : View sig' κ sp S40x128 .f32) (f : v.ty.Contents (Elt F)) (out0 : S40x128.Idx → Elt F .f32) (m : ℕ)
    (Y : (Rect.whole S40x128).shape.Idx → Elt F .f32) (Lp : List (View.Piece (Elt F) S40x128 .f32))
    (hY : TripInv (F := F) d L fI rows cb k out0 m Y) :
    TripInv (F := F) d L fI rows cb k out0 m (v.read (Elt F) (v.writes (Elt F) f ((⟨Rect.whole S40x128, Y⟩ : View.Piece (Elt F) S40x128 .f32) :: Lp))) :=
  fun p => (read_writes_whole_cons v f Y Lp p).trans (hY p)

/-- The first pair of a trip: over the output scratch as a whole-view load reads it. -/
theorem tripInv_first [∀ e, Nonempty (Elt F e)] (v : View sig' κ sp S40x128 .f32) (fo : v.ty.Contents (Elt F)) (hk : k < 20)
    (rows' : S320x128.Idx → Elt F .f32) (hrows : ∀ q, rows' q = rows q) (ur uc uh ul : IVec S16 32)
    (h1 : ∀ a x, ((![ur, uc] : Fin 2 → IVec S16 32) a x).toNat < S320x128.size a)
    (h2 : ∀ a x, ((![uh, ul] : Fin 2 → IVec S16 32) a x).toNat < S40x128.size a)
    (huh : ∀ x, (uh x).toNat = ((16 * k + (x 0).val) * 16 + 0) / 128)
    (hul : ∀ x, (ul x).toNat = ((16 * k + (x 0).val) * 16 + 0) % 128)
    (hur : ∀ x, (ur x).toNat = 16 * k + (x 0).val)
    (huc : ∀ x, (uc x).toNat = (idxAtN (F := F) d L fI (cb + (16 * k + (x 0).val)) &&& 7#32).toNat * 16 + 0) :
    TripInv (F := F) d L fI rows cb k (v.read (Elt F) fo) 1
      (storeIdx (v.readAt (Elt F) (LoadRect.whole S40x128) fo) ![uh, ul] (loadIdx rows' ![ur, uc] h1) (fun _ => 1#1) false h2) := by
  obtain rfl : rows' = rows := funext hrows
  exact tripInv_step d L fI rows' cb k _ _ 0 (by decide) hk
    (tripInv_zero d L fI rows' cb k _ _ (fun p => readAt_whole_apply v fo p)) ur uc uh ul h1 h2 huh hul hur huc

/-- A later pair: over what a whole-view load reads after the previous pair's whole-view store. -/
theorem tripInv_next [∀ e, Nonempty (Elt F e)] (v : View sig' κ sp S40x128 .f32) (out0 : S40x128.Idx → Elt F .f32) (m : ℕ) (hm : m < 16) (hk : k < 20)
    (Y : (Rect.whole S40x128).shape.Idx → Elt F .f32) (Lp : List (View.Piece (Elt F) S40x128 .f32))
    (hY : TripInv (F := F) d L fI rows cb k out0 m Y)
    (rows' : S320x128.Idx → Elt F .f32) (hrows : ∀ q, rows' q = rows q) (ur uc uh ul : IVec S16 32)
    (h1 : ∀ a x, ((![ur, uc] : Fin 2 → IVec S16 32) a x).toNat < S320x128.size a)
    (h2 : ∀ a x, ((![uh, ul] : Fin 2 → IVec S16 32) a x).toNat < S40x128.size a)
    (huh : ∀ x, (uh x).toNat = ((16 * k + (x 0).val) * 16 + m) / 128)
    (hul : ∀ x, (ul x).toNat = ((16 * k + (x 0).val) * 16 + m) % 128)
    (hur : ∀ x, (ur x).toNat = 16 * k + (x 0).val)
    (huc : ∀ x, (uc x).toNat = (idxAtN (F := F) d L fI (cb + (16 * k + (x 0).val)) &&& 7#32).toNat * 16 + m) :
    TripInv (F := F) d L fI rows cb k out0 (m + 1)
      (storeIdx (v.readCov ((⟨Rect.whole S40x128, Y⟩ : View.Piece (Elt F) S40x128 .f32) :: Lp) (LoadRect.whole S40x128)) ![uh, ul]
        (loadIdx rows' ![ur, uc] h1) (fun _ => 1#1) false h2) := by
  obtain rfl : rows' = rows := funext hrows
  have e : v.readCov ((⟨Rect.whole S40x128, Y⟩ : View.Piece (Elt F) S40x128 .f32) :: Lp) (LoadRect.whole S40x128) = Y :=
    funext fun p => readCov_whole_cons v Y Lp p
  rw [e]
  exact tripInv_step d L fI rows' cb k out0 Y m hm hk hY ur uc uh ul h1 h2 huh hul hur huc

end Spelled

/-! ## The trip's words, in the shapes the body spells them -/

section Words

variable (d : Dev nD) (L : grid5.Coords) (fI : Buf (Elt F) ((V d (cV L) (jV L)).loc cc5_scratch0))

/-- Sixteen index words loaded from place `n` on: lane `x` is the word at place `n + x`. -/
theorem load_word_val (n : Nat) (off : Fin 1 → Nat) (hoff : off = ![n]) (inb : ∀ a, off a + S16.size a ≤ S25600.size a)
    (x : (Rect.unit (s := S25600) off S16.size inb).shape.Idx) :
    (Memref.whole cc5_scratch0 : Memref sig .scVector .vmem S25600 .i32).view.readAt (Elt F)
        (Rect.unit (s := S25600) off S16.size inb).toLoadRect fI x
      = idxAtN (F := F) d L fI (n + (x 0).val) := by
  subst hoff
  have hx : (x 0).val < 16 := (x 0).isLt
  have hn : n + 16 ≤ 25600 := inb 0
  show (Memref.whole cc5_scratch0 : Memref sig .scVector .vmem S25600 .i32).view.read (Elt F) fI
      ((Rect.unit (s := S25600) ![n] S16.size inb).toLoadRect.idx x) = _
  unfold idxAtN
  refine congrArg (fun i => (Memref.whole cc5_scratch0 : Memref sig .scVector .vmem S25600 .i32).view.read (Elt F) fI i)
    (funext fun a => Fin.ext ?_)
  obtain rfl : a = 0 := Subsingleton.elim _ _
  show n + 1 * (x 0).val = (n + (x 0).val) % 25600
  rw [Nat.mod_eq_of_lt (by omega), Nat.one_mul]

/-- The high part of the store address of lane `x`, pair `m`, trip `k`. -/
theorem hi_eq (r mw : BitVec 32) (k x0 m : ℕ) (hr : r.toNat = 16 * k + x0) (hk : k < 20) (hx : x0 < 16) (hm : mw.toNat = m)
    (hm16 : Nat.ble (m + 1) 16 = true) :
    (IntOp.shrsi .vector (IntOp.addi (IntOp.muli r 16#32) mw) 7#32).toNat = ((16 * k + x0) * 16 + m) / 128 := by
  have hm' : m < 16 := Nat.le_of_ble_eq_true hm16
  rw [hi_val r mw (by omega) (by omega), hr, hm]

/-- The low part of that address. -/
theorem lo_eq (r mw : BitVec 32) (k x0 m : ℕ) (hr : r.toNat = 16 * k + x0) (hk : k < 20) (hx : x0 < 16) (hm : mw.toNat = m)
    (hm16 : Nat.ble (m + 1) 16 = true) :
    (IntOp.andi (IntOp.addi (IntOp.muli r 16#32) mw) 127#32).toNat = ((16 * k + x0) * 16 + m) % 128 := by
  have hm' : m < 16 := Nat.le_of_ble_eq_true hm16
  rw [lo_val r mw (by omega) (by omega), hr, hm]

/-- The load's column word of lane `x`, pair `m`. -/
theorem col_eq (w w' mw : BitVec 32) (m : ℕ) (hw : w = w') (hm : mw.toNat = m) (hm16 : Nat.ble (m + 1) 16 = true) :
    (IntOp.addi (IntOp.muli (IntOp.andi w 7#32) 16#32) mw).toNat = (w' &&& 7#32).toNat * 16 + m := by
  have hm' : m < 16 := Nat.le_of_ble_eq_true hm16
  subst hw
  rw [col_val w mw (by omega), hm]

/-- The row word of lane `x`, trip `k`. -/
theorem rowv_eq (k : Nat) (hk : k < 20) (x : S16.Idx) :
    ((addi (broadcast S16 (Scalar.addi 0#32 (Scalar.muli (Scf.iv 0#32 1#32 k) 16#32)))
      (iota .scVector S16 32 [0] iota_S16_d0_w32_scVector : IVec S16 32)) x).toNat = 16 * k + (x 0).val := by
  rw [row_val _ lane_lt k hk x, lane_val]

end Words

/-! ## The same steps over an atom for the previous contents -/

section Atoms

variable (d : Dev nD) (L : grid5.Coords)
variable (fI : Buf (Elt F) ((V d (cV L) (jV L)).loc cc5_scratch0)) (rows : S320x128.Idx → Elt F .f32) (cb k : ℕ)
variable [FloatOps F]
variable {sig' : RefSig} {κ : Kind} {sp : Space}

/-- What a whole-view load reads after a whole-view store of `Y`, last. -/
theorem tripInv_cov [∀ e, Nonempty (Elt F e)] (v : View sig' κ sp S40x128 .f32) (out0 : S40x128.Idx → Elt F .f32) (m : ℕ)
    (Y : (Rect.whole S40x128).shape.Idx → Elt F .f32) (Lp : List (View.Piece (Elt F) S40x128 .f32))
    (hY : TripInv (F := F) d L fI rows cb k out0 m Y) :
    TripInv (F := F) d L fI rows cb k out0 m
      (v.readCov ((⟨Rect.whole S40x128, Y⟩ : View.Piece (Elt F) S40x128 .f32) :: Lp) (LoadRect.whole S40x128)) :=
  fun p => (readCov_whole_cons v Y Lp p).trans (hY p)

/-- One more pair over contents `X` that satisfy the invariant, the row scratch read through any spelling `rows'`. -/
theorem tripInv_stepR (out0 X : S40x128.Idx → Elt F .f32) (m : ℕ) (hm : m < 16) (hk : k < 20)
    (hX : TripInv (F := F) d L fI rows cb k out0 m X)
    (rows' : S320x128.Idx → Elt F .f32) (hrows : ∀ q, rows' q = rows q) (ur uc uh ul : IVec S16 32)
    (h1 : ∀ a x, ((![ur, uc] : Fin 2 → IVec S16 32) a x).toNat < S320x128.size a)
    (h2 : ∀ a x, ((![uh, ul] : Fin 2 → IVec S16 32) a x).toNat < S40x128.size a)
    (huh : ∀ x, (uh x).toNat = ((16 * k + (x 0).val) * 16 + m) / 128)
    (hul : ∀ x, (ul x).toNat = ((16 * k + (x 0).val) * 16 + m) % 128)
    (hur : ∀ x, (ur x).toNat = 16 * k + (x 0).val)
    (huc : ∀ x, (uc x).toNat = (idxAtN (F := F) d L fI (cb + (16 * k + (x 0).val)) &&& 7#32).toNat * 16 + m) :
    TripInv (F := F) d L fI rows cb k out0 (m + 1)
      (storeIdx X ![uh, ul] (loadIdx rows' ![ur, uc] h1) (fun _ => 1#1) false h2) := by
  obtain rfl : rows' = rows := funext hrows
  exact tripInv_step d L fI rows' cb k out0 X m hm hk hX ur uc uh ul h1 h2 huh hul hur huc

end Atoms

end Cert.Proof.ScBody

end
-- ==== Proof.ScDrainPair.lean ====
/-
  One (indexed load, indexed store) pair of a drain trip of the lookup kernel, with its value: the output scratch at
  named contents, one more residue of the trip's 256 addresses drained.
-/
import proofs.«203359_g24824910971486_cont_8to1_1854_34_alg».proof.Proof.ScSup
import proofs.«203359_g24824910971486_cont_8to1_1854_34_alg».proof.Proof.ScDrainPure

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- A points-to at some contents, its contents named. -/
theorem pts_repack {ℓ : Loc nD τ sig} {q : PosShare TreeShare} {X : Buf (Elt F) ℓ} :
    ((ℓ ↦{q} X : sProp 𝕄)) ⊢ iprop(∃ g : Buf (Elt F) ℓ, ⌜g = X⌝ ∗ ℓ ↦{q} g) := by
  iintro H; iexists X; isplitr; · ipureintro; rfl
  iexact H

/-- One more pair of a drain trip, over the output scratch at contents `g`. -/
theorem pair_step (d : Dev nD) (L : grid5.Coords) (fI : Buf (Elt F) ((V d (cV L) (jV L)).loc cc5_scratch0)) (rows : S320x128.Idx → Elt F .f32) (cb k : ℕ)
    {sig' : RefSig} {κ : Kind} {sp : Space} (v : View sig' κ sp S40x128 .f32) (g : v.ty.Contents (Elt F)) (out0 : S40x128.Idx → Elt F .f32) (m : ℕ) (hm : m < 16) (hk : k < 20)
    (hT : TripInv (F := F) d L fI rows cb k out0 m (v.read (Elt F) g))
    (rows' : S320x128.Idx → Elt F .f32) (hrows : ∀ q, rows' q = rows q) (ur uc uh ul : IVec S16 32)
    (h1 : ∀ a x, ((![ur, uc] : Fin 2 → IVec S16 32) a x).toNat < S320x128.size a)
    (h2 : ∀ a x, ((![uh, ul] : Fin 2 → IVec S16 32) a x).toNat < S40x128.size a)
    (huh : ∀ x, (uh x).toNat = ((16 * k + (x 0).val) * 16 + m) / 128)
    (hul : ∀ x, (ul x).toNat = ((16 * k + (x 0).val) * 16 + m) % 128)
    (hur : ∀ x, (ur x).toNat = 16 * k + (x 0).val)
    (huc : ∀ x, (uc x).toNat = (idxAtN (F := F) d L fI (cb + (16 * k + (x 0).val)) &&& 7#32).toNat * 16 + m) :
    TripInv (F := F) d L fI rows cb k out0 (m + 1)
      (v.read (Elt F) (v.writes (Elt F) g [⟨Rect.whole S40x128,
        storeIdx (v.readAt (Elt F) (LoadRect.whole S40x128) g) ![uh, ul] (loadIdx rows' ![ur, uc] h1) (fun _ => 1#1) false h2⟩])) := by
  obtain rfl : rows' = rows := funext hrows
  refine tripInv_read_writes (F := F) d L fI rows' cb k v g out0 (m + 1) _ [] ?_
  exact tripInv_step (F := F) d L fI rows' cb k out0 _ m hm hk (fun p => (readAt_whole_apply v g p).trans (hT p)) ur uc uh ul h1 h2 huh hul hur huc

end Cert.Proof.ScBody

end
-- ==== Proof.ScDrainValA.lean ====
/-
  One trip of a drain loop of the lookup kernel (the chunks gathered into the first row scratch) WITH ITS VALUES, pair by pair: after each indexed load and
  indexed store the output scratch's contents are named and one more residue of the trip's 256 addresses is drained.
-/
import proofs.«203359_g24824910971486_cont_8to1_1854_34_alg».proof.Proof.ScDrainPair

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

set_option maxHeartbeats 4000000 in
theorem drain_trip_t4_val (d : Dev nD) (L : grid5.Coords) (v2 c0 c1 v17 : BitVec 32) (k5_t2 : Fin k5_t2_loop.trips) (k5_t4 : Fin k5_t4_loop.trips)
    (fI : Buf (Elt F) ((V d (cV L) (jV L)).loc cc5_scratch0)) (fr : Buf (Elt F) ((V d (cV L) (jV L)).loc cc5_scratch3)) :
    drainInvV0 (F := F) d L fI fr (640 * k5_t2.val) k5_t4.val ()
      ⊢ wp frame (wpE (defs₀ (F := F)) 𝒱₀ (V d (cV L) (jV L)) none) Set.univ
          (k5_t4_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t2 v17 k5_t4 ())
          (drainInvV0 (F := F) d L fI fr (640 * k5_t2.val) (k5_t4.val + 1)) := by
  unfold k5_t4_body
  simp only [k5_part1_eq_skeleton, k5_part2_eq_skeleton, k5_part3_eq_skeleton, k5_part4_eq_skeleton]
  unfold k5_part1_skel k5_part2_skel k5_part3_skel k5_part4_skel
  simp only [SparseCore.vectorLoadIdx_bind (c := (V d (cV L) (jV L))), SparseCore.vectorStoreIdx_bind (c := (V d (cV L) (jV L)))]
  have hk : k5_t4.val < 20 := Nat.lt_of_lt_of_le k5_t4.isLt k5_t4_abs.2.1
  unfold drainInvV0
  iintro ⟨HI', Hr', %g0, Ho', %hO⟩
  have hT0 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 0 ((Memref.whole cc5_scratch5 : Memref sig .scVector .vmem S40x128 .f32).view.read (Elt F) g0) :=
    tripInv_zero (F := F) d L fI _ _ _ _ _ (fun _ => rfl)
  sl_exec (disch := first
    | (guard_target = k5_chk1 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g1, %hg, Ho'⟩
  have hT1 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 1 ((Memref.whole cc5_scratch5 : Memref sig .scVector .vmem S40x128 .f32).view.read (Elt F) g1) := by
    rw [hg]
    dsimp only
    refine pair_step (F := F) d L fI _ (640 * k5_t2.val) k5_t4.val (Memref.whole cc5_scratch5 : Memref sig .scVector .vmem S40x128 .f32).view g0 _ 0 (by decide) hk hT0 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT0
  sl_exec (disch := first
    | (guard_target = k5_chk3 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g2, %hg, Ho'⟩
  have hT2 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 2 ((Memref.whole cc5_scratch5 : Memref sig .scVector .vmem S40x128 .f32).view.read (Elt F) g2) := by
    rw [hg]
    dsimp only
    refine pair_step (F := F) d L fI _ (640 * k5_t2.val) k5_t4.val (Memref.whole cc5_scratch5 : Memref sig .scVector .vmem S40x128 .f32).view g1 _ 1 (by decide) hk hT1 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT1
  sl_exec (disch := first
    | (guard_target = k5_chk5 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g3, %hg, Ho'⟩
  have hT3 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 3 ((Memref.whole cc5_scratch5 : Memref sig .scVector .vmem S40x128 .f32).view.read (Elt F) g3) := by
    rw [hg]
    dsimp only
    refine pair_step (F := F) d L fI _ (640 * k5_t2.val) k5_t4.val (Memref.whole cc5_scratch5 : Memref sig .scVector .vmem S40x128 .f32).view g2 _ 2 (by decide) hk hT2 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT2
  sl_exec (disch := first
    | (guard_target = k5_chk7 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g4, %hg, Ho'⟩
  have hT4 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 4 ((Memref.whole cc5_scratch5 : Memref sig .scVector .vmem S40x128 .f32).view.read (Elt F) g4) := by
    rw [hg]
    dsimp only
    refine pair_step (F := F) d L fI _ (640 * k5_t2.val) k5_t4.val (Memref.whole cc5_scratch5 : Memref sig .scVector .vmem S40x128 .f32).view g3 _ 3 (by decide) hk hT3 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT3
  sl_exec (disch := first
    | (guard_target = k5_chk9 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g5, %hg, Ho'⟩
  have hT5 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 5 ((Memref.whole cc5_scratch5 : Memref sig .scVector .vmem S40x128 .f32).view.read (Elt F) g5) := by
    rw [hg]
    dsimp only
    refine pair_step (F := F) d L fI _ (640 * k5_t2.val) k5_t4.val (Memref.whole cc5_scratch5 : Memref sig .scVector .vmem S40x128 .f32).view g4 _ 4 (by decide) hk hT4 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT4
  sl_exec (disch := first
    | (guard_target = k5_chk11 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g6, %hg, Ho'⟩
  have hT6 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 6 ((Memref.whole cc5_scratch5 : Memref sig .scVector .vmem S40x128 .f32).view.read (Elt F) g6) := by
    rw [hg]
    dsimp only
    refine pair_step (F := F) d L fI _ (640 * k5_t2.val) k5_t4.val (Memref.whole cc5_scratch5 : Memref sig .scVector .vmem S40x128 .f32).view g5 _ 5 (by decide) hk hT5 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT5
  sl_exec (disch := first
    | (guard_target = k5_chk13 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g7, %hg, Ho'⟩
  have hT7 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 7 ((Memref.whole cc5_scratch5 : Memref sig .scVector .vmem S40x128 .f32).view.read (Elt F) g7) := by
    rw [hg]
    dsimp only
    refine pair_step (F := F) d L fI _ (640 * k5_t2.val) k5_t4.val (Memref.whole cc5_scratch5 : Memref sig .scVector .vmem S40x128 .f32).view g6 _ 6 (by decide) hk hT6 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT6
  sl_exec (disch := first
    | (guard_target = k5_chk15 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g8, %hg, Ho'⟩
  have hT8 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 8 ((Memref.whole cc5_scratch5 : Memref sig .scVector .vmem S40x128 .f32).view.read (Elt F) g8) := by
    rw [hg]
    dsimp only
    refine pair_step (F := F) d L fI _ (640 * k5_t2.val) k5_t4.val (Memref.whole cc5_scratch5 : Memref sig .scVector .vmem S40x128 .f32).view g7 _ 7 (by decide) hk hT7 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT7
  sl_exec (disch := first
    | (guard_target = k5_chk17 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g9, %hg, Ho'⟩
  have hT9 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 9 ((Memref.whole cc5_scratch5 : Memref sig .scVector .vmem S40x128 .f32).view.read (Elt F) g9) := by
    rw [hg]
    dsimp only
    refine pair_step (F := F) d L fI _ (640 * k5_t2.val) k5_t4.val (Memref.whole cc5_scratch5 : Memref sig .scVector .vmem S40x128 .f32).view g8 _ 8 (by decide) hk hT8 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT8
  sl_exec (disch := first
    | (guard_target = k5_chk19 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g10, %hg, Ho'⟩
  have hT10 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 10 ((Memref.whole cc5_scratch5 : Memref sig .scVector .vmem S40x128 .f32).view.read (Elt F) g10) := by
    rw [hg]
    dsimp only
    refine pair_step (F := F) d L fI _ (640 * k5_t2.val) k5_t4.val (Memref.whole cc5_scratch5 : Memref sig .scVector .vmem S40x128 .f32).view g9 _ 9 (by decide) hk hT9 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT9
  sl_exec (disch := first
    | (guard_target = k5_chk21 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g11, %hg, Ho'⟩
  have hT11 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 11 ((Memref.whole cc5_scratch5 : Memref sig .scVector .vmem S40x128 .f32).view.read (Elt F) g11) := by
    rw [hg]
    dsimp only
    refine pair_step (F := F) d L fI _ (640 * k5_t2.val) k5_t4.val (Memref.whole cc5_scratch5 : Memref sig .scVector .vmem S40x128 .f32).view g10 _ 10 (by decide) hk hT10 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT10
  sl_exec (disch := first
    | (guard_target = k5_chk23 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g12, %hg, Ho'⟩
  have hT12 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 12 ((Memref.whole cc5_scratch5 : Memref sig .scVector .vmem S40x128 .f32).view.read (Elt F) g12) := by
    rw [hg]
    dsimp only
    refine pair_step (F := F) d L fI _ (640 * k5_t2.val) k5_t4.val (Memref.whole cc5_scratch5 : Memref sig .scVector .vmem S40x128 .f32).view g11 _ 11 (by decide) hk hT11 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT11
  sl_exec (disch := first
    | (guard_target = k5_chk25 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g13, %hg, Ho'⟩
  have hT13 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 13 ((Memref.whole cc5_scratch5 : Memref sig .scVector .vmem S40x128 .f32).view.read (Elt F) g13) := by
    rw [hg]
    dsimp only
    refine pair_step (F := F) d L fI _ (640 * k5_t2.val) k5_t4.val (Memref.whole cc5_scratch5 : Memref sig .scVector .vmem S40x128 .f32).view g12 _ 12 (by decide) hk hT12 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT12
  sl_exec (disch := first
    | (guard_target = k5_chk27 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g14, %hg, Ho'⟩
  have hT14 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 14 ((Memref.whole cc5_scratch5 : Memref sig .scVector .vmem S40x128 .f32).view.read (Elt F) g14) := by
    rw [hg]
    dsimp only
    refine pair_step (F := F) d L fI _ (640 * k5_t2.val) k5_t4.val (Memref.whole cc5_scratch5 : Memref sig .scVector .vmem S40x128 .f32).view g13 _ 13 (by decide) hk hT13 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT13
  sl_exec (disch := first
    | (guard_target = k5_chk29 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g15, %hg, Ho'⟩
  have hT15 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 15 ((Memref.whole cc5_scratch5 : Memref sig .scVector .vmem S40x128 .f32).view.read (Elt F) g15) := by
    rw [hg]
    dsimp only
    refine pair_step (F := F) d L fI _ (640 * k5_t2.val) k5_t4.val (Memref.whole cc5_scratch5 : Memref sig .scVector .vmem S40x128 .f32).view g14 _ 14 (by decide) hk hT14 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT14
  sl_exec (disch := first
    | (guard_target = k5_chk31 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g16, %hg, Ho'⟩
  have hT16 : TripInv (F := F) d L fI ((Memref.whole cc5_scratch3 : Memref sig .scVector .vmem S320x128 .f32).view.read (Elt F) fr) (640 * k5_t2.val) k5_t4.val ((Memref.whole cc5_scratch5 : Memref sig .scVector .vmem S40x128 .f32).view.read (Elt F) g0) 16 ((Memref.whole cc5_scratch5 : Memref sig .scVector .vmem S40x128 .f32).view.read (Elt F) g16) := by
    rw [hg]
    dsimp only
    refine pair_step (F := F) d L fI _ (640 * k5_t2.val) k5_t4.val (Memref.whole cc5_scratch5 : Memref sig .scVector .vmem S40x128 .f32).view g15 _ 15 (by decide) hk hT15 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off6 k5_t2 k5_t4) (k5_off6_eq k5_t2 k5_t4) _ x).trans
      (congrArg (idxAtN (F := F) d L fI) (by omega))) rfl rfl
  clear hg hT15
  sl_step
  isplitl [HI']; · iexact HI'
  isplitl [Hr']; · iexact Hr'
  iexists _
  isplitl [Ho']; · iexact Ho'
  ipureintro
  exact outOK_succ (F := F) d L fI _ (640 * k5_t2.val) k5_t4.val _ _ hO hT16

set_option maxHeartbeats 4000000 in
theorem drain_trip_t10_val (d : Dev nD) (L : grid5.Coords) (v2 c0 c1 v17 : BitVec 32) (k5_t8 : Fin k5_t8_loop.trips) (k5_t10 : Fin k5_t10_loop.trips)
    (fI : Buf (Elt F) ((V d (cV L) (jV L)).loc cc5_scratch0)) (fr : Buf (Elt F) ((V d (cV L) (jV L)).loc cc5_scratch3)) :
    drainInvV0 (F := F) d L fI fr (640 * k5_t8.val) k5_t10.val ()
      ⊢ wp frame (wpE (defs₀ (F := F)) 𝒱₀ (V d (cV L) (jV L)) none) Set.univ
          (k5_t10_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t8 v17 k5_t10 ())
          (drainInvV0 (F := F) d L fI fr (640 * k5_t8.val) (k5_t10.val + 1)) := by
  unfold k5_t10_body
  simp only [k5_part11_eq_skeleton, k5_part12_eq_skeleton, k5_part13_eq_skeleton, k5_part14_eq_skeleton]
  unfold k5_part11_skel k5_part12_skel k5_part13_skel k5_part14_skel
  simp only [SparseCore.vectorLoadIdx_bind (c := (V d (cV L) (jV L))), SparseCore.vectorStoreIdx_bind (c := (V d (cV L) (jV L)))]
  have hk : k5_t10.val < 20 := Nat.lt_of_lt_of_le k5_t10.isLt k5_t10_abs.2.1
  unfold drainInvV0
  iintro ⟨HI', Hr', %g0, Ho', %hO⟩
  have hT0 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 0 ((Memref.whole cc5_scratch5 : Memref sig .scVector .vmem S40x128 .f32).view.read (Elt F) g0) :=
    tripInv_zero (F := F) d L fI _ _ _ _ _ (fun _ => rfl)
  sl_exec (disch := first
    | (guard_target = k5_chk65 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g1, %hg, Ho'⟩
  have hT1 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 1 ((Memref.whole cc5_scratch5 : Memref sig .scVector .vmem S40x128 .f32).view.read (Elt F) g1) := by
    rw [hg]
    dsimp only
    refine pair_step (F := F) d L fI _ (640 * k5_t8.val) k5_t10.val (Memref.whole cc5_scratch5 : Memref sig .scVector .vmem S40x128 .f32).view g0 _ 0 (by decide) hk hT0 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT0
  sl_exec (disch := first
    | (guard_target = k5_chk67 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g2, %hg, Ho'⟩
  have hT2 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 2 ((Memref.whole cc5_scratch5 : Memref sig .scVector .vmem S40x128 .f32).view.read (Elt F) g2) := by
    rw [hg]
    dsimp only
    refine pair_step (F := F) d L fI _ (640 * k5_t8.val) k5_t10.val (Memref.whole cc5_scratch5 : Memref sig .scVector .vmem S40x128 .f32).view g1 _ 1 (by decide) hk hT1 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT1
  sl_exec (disch := first
    | (guard_target = k5_chk69 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g3, %hg, Ho'⟩
  have hT3 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 3 ((Memref.whole cc5_scratch5 : Memref sig .scVector .vmem S40x128 .f32).view.read (Elt F) g3) := by
    rw [hg]
    dsimp only
    refine pair_step (F := F) d L fI _ (640 * k5_t8.val) k5_t10.val (Memref.whole cc5_scratch5 : Memref sig .scVector .vmem S40x128 .f32).view g2 _ 2 (by decide) hk hT2 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT2
  sl_exec (disch := first
    | (guard_target = k5_chk71 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g4, %hg, Ho'⟩
  have hT4 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 4 ((Memref.whole cc5_scratch5 : Memref sig .scVector .vmem S40x128 .f32).view.read (Elt F) g4) := by
    rw [hg]
    dsimp only
    refine pair_step (F := F) d L fI _ (640 * k5_t8.val) k5_t10.val (Memref.whole cc5_scratch5 : Memref sig .scVector .vmem S40x128 .f32).view g3 _ 3 (by decide) hk hT3 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT3
  sl_exec (disch := first
    | (guard_target = k5_chk73 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g5, %hg, Ho'⟩
  have hT5 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 5 ((Memref.whole cc5_scratch5 : Memref sig .scVector .vmem S40x128 .f32).view.read (Elt F) g5) := by
    rw [hg]
    dsimp only
    refine pair_step (F := F) d L fI _ (640 * k5_t8.val) k5_t10.val (Memref.whole cc5_scratch5 : Memref sig .scVector .vmem S40x128 .f32).view g4 _ 4 (by decide) hk hT4 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT4
  sl_exec (disch := first
    | (guard_target = k5_chk75 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g6, %hg, Ho'⟩
  have hT6 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 6 ((Memref.whole cc5_scratch5 : Memref sig .scVector .vmem S40x128 .f32).view.read (Elt F) g6) := by
    rw [hg]
    dsimp only
    refine pair_step (F := F) d L fI _ (640 * k5_t8.val) k5_t10.val (Memref.whole cc5_scratch5 : Memref sig .scVector .vmem S40x128 .f32).view g5 _ 5 (by decide) hk hT5 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT5
  sl_exec (disch := first
    | (guard_target = k5_chk77 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g7, %hg, Ho'⟩
  have hT7 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 7 ((Memref.whole cc5_scratch5 : Memref sig .scVector .vmem S40x128 .f32).view.read (Elt F) g7) := by
    rw [hg]
    dsimp only
    refine pair_step (F := F) d L fI _ (640 * k5_t8.val) k5_t10.val (Memref.whole cc5_scratch5 : Memref sig .scVector .vmem S40x128 .f32).view g6 _ 6 (by decide) hk hT6 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT6
  sl_exec (disch := first
    | (guard_target = k5_chk79 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g8, %hg, Ho'⟩
  have hT8 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 8 ((Memref.whole cc5_scratch5 : Memref sig .scVector .vmem S40x128 .f32).view.read (Elt F) g8) := by
    rw [hg]
    dsimp only
    refine pair_step (F := F) d L fI _ (640 * k5_t8.val) k5_t10.val (Memref.whole cc5_scratch5 : Memref sig .scVector .vmem S40x128 .f32).view g7 _ 7 (by decide) hk hT7 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT7
  sl_exec (disch := first
    | (guard_target = k5_chk81 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g9, %hg, Ho'⟩
  have hT9 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 9 ((Memref.whole cc5_scratch5 : Memref sig .scVector .vmem S40x128 .f32).view.read (Elt F) g9) := by
    rw [hg]
    dsimp only
    refine pair_step (F := F) d L fI _ (640 * k5_t8.val) k5_t10.val (Memref.whole cc5_scratch5 : Memref sig .scVector .vmem S40x128 .f32).view g8 _ 8 (by decide) hk hT8 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT8
  sl_exec (disch := first
    | (guard_target = k5_chk83 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g10, %hg, Ho'⟩
  have hT10 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 10 ((Memref.whole cc5_scratch5 : Memref sig .scVector .vmem S40x128 .f32).view.read (Elt F) g10) := by
    rw [hg]
    dsimp only
    refine pair_step (F := F) d L fI _ (640 * k5_t8.val) k5_t10.val (Memref.whole cc5_scratch5 : Memref sig .scVector .vmem S40x128 .f32).view g9 _ 9 (by decide) hk hT9 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT9
  sl_exec (disch := first
    | (guard_target = k5_chk85 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g11, %hg, Ho'⟩
  have hT11 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 11 ((Memref.whole cc5_scratch5 : Memref sig .scVector .vmem S40x128 .f32).view.read (Elt F) g11) := by
    rw [hg]
    dsimp only
    refine pair_step (F := F) d L fI _ (640 * k5_t8.val) k5_t10.val (Memref.whole cc5_scratch5 : Memref sig .scVector .vmem S40x128 .f32).view g10 _ 10 (by decide) hk hT10 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT10
  sl_exec (disch := first
    | (guard_target = k5_chk87 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g12, %hg, Ho'⟩
  have hT12 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 12 ((Memref.whole cc5_scratch5 : Memref sig .scVector .vmem S40x128 .f32).view.read (Elt F) g12) := by
    rw [hg]
    dsimp only
    refine pair_step (F := F) d L fI _ (640 * k5_t8.val) k5_t10.val (Memref.whole cc5_scratch5 : Memref sig .scVector .vmem S40x128 .f32).view g11 _ 11 (by decide) hk hT11 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT11
  sl_exec (disch := first
    | (guard_target = k5_chk89 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g13, %hg, Ho'⟩
  have hT13 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 13 ((Memref.whole cc5_scratch5 : Memref sig .scVector .vmem S40x128 .f32).view.read (Elt F) g13) := by
    rw [hg]
    dsimp only
    refine pair_step (F := F) d L fI _ (640 * k5_t8.val) k5_t10.val (Memref.whole cc5_scratch5 : Memref sig .scVector .vmem S40x128 .f32).view g12 _ 12 (by decide) hk hT12 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT12
  sl_exec (disch := first
    | (guard_target = k5_chk91 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g14, %hg, Ho'⟩
  have hT14 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 14 ((Memref.whole cc5_scratch5 : Memref sig .scVector .vmem S40x128 .f32).view.read (Elt F) g14) := by
    rw [hg]
    dsimp only
    refine pair_step (F := F) d L fI _ (640 * k5_t8.val) k5_t10.val (Memref.whole cc5_scratch5 : Memref sig .scVector .vmem S40x128 .f32).view g13 _ 13 (by decide) hk hT13 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT13
  sl_exec (disch := first
    | (guard_target = k5_chk93 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g15, %hg, Ho'⟩
  have hT15 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 15 ((Memref.whole cc5_scratch5 : Memref sig .scVector .vmem S40x128 .f32).view.read (Elt F) g15) := by
    rw [hg]
    dsimp only
    refine pair_step (F := F) d L fI _ (640 * k5_t8.val) k5_t10.val (Memref.whole cc5_scratch5 : Memref sig .scVector .vmem S40x128 .f32).view g14 _ 14 (by decide) hk hT14 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT14
  sl_exec (disch := first
    | (guard_target = k5_chk95 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g16, %hg, Ho'⟩
  have hT16 : TripInv (F := F) d L fI ((Memref.whole cc5_scratch3 : Memref sig .scVector .vmem S320x128 .f32).view.read (Elt F) fr) (640 * k5_t8.val) k5_t10.val ((Memref.whole cc5_scratch5 : Memref sig .scVector .vmem S40x128 .f32).view.read (Elt F) g0) 16 ((Memref.whole cc5_scratch5 : Memref sig .scVector .vmem S40x128 .f32).view.read (Elt F) g16) := by
    rw [hg]
    dsimp only
    refine pair_step (F := F) d L fI _ (640 * k5_t8.val) k5_t10.val (Memref.whole cc5_scratch5 : Memref sig .scVector .vmem S40x128 .f32).view g15 _ 15 (by decide) hk hT15 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off16 k5_t8 k5_t10) (k5_off16_eq k5_t8 k5_t10) _ x).trans
      (congrArg (idxAtN (F := F) d L fI) (by omega))) rfl rfl
  clear hg hT15
  sl_step
  isplitl [HI']; · iexact HI'
  isplitl [Hr']; · iexact Hr'
  iexists _
  isplitl [Ho']; · iexact Ho'
  ipureintro
  exact outOK_succ (F := F) d L fI _ (640 * k5_t8.val) k5_t10.val _ _ hO hT16

set_option maxHeartbeats 4000000 in
theorem drain_trip_t16_val (d : Dev nD) (L : grid5.Coords) (v2 c0 c1 v17 : BitVec 32) (k5_t14 : Fin k5_t14_loop.trips) (k5_t16 : Fin k5_t16_loop.trips)
    (fI : Buf (Elt F) ((V d (cV L) (jV L)).loc cc5_scratch0)) (fr : Buf (Elt F) ((V d (cV L) (jV L)).loc cc5_scratch3)) :
    drainInvV0 (F := F) d L fI fr (640 * k5_t14.val) k5_t16.val ()
      ⊢ wp frame (wpE (defs₀ (F := F)) 𝒱₀ (V d (cV L) (jV L)) none) Set.univ
          (k5_t16_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t14 v17 k5_t16 ())
          (drainInvV0 (F := F) d L fI fr (640 * k5_t14.val) (k5_t16.val + 1)) := by
  unfold k5_t16_body
  simp only [k5_part21_eq_skeleton, k5_part22_eq_skeleton, k5_part23_eq_skeleton, k5_part24_eq_skeleton]
  unfold k5_part21_skel k5_part22_skel k5_part23_skel k5_part24_skel
  simp only [SparseCore.vectorLoadIdx_bind (c := (V d (cV L) (jV L))), SparseCore.vectorStoreIdx_bind (c := (V d (cV L) (jV L)))]
  have hk : k5_t16.val < 20 := Nat.lt_of_lt_of_le k5_t16.isLt k5_t16_abs.2.1
  unfold drainInvV0
  iintro ⟨HI', Hr', %g0, Ho', %hO⟩
  have hT0 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 0 ((Memref.whole cc5_scratch5 : Memref sig .scVector .vmem S40x128 .f32).view.read (Elt F) g0) :=
    tripInv_zero (F := F) d L fI _ _ _ _ _ (fun _ => rfl)
  sl_exec (disch := first
    | (guard_target = k5_chk129 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g1, %hg, Ho'⟩
  have hT1 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 1 ((Memref.whole cc5_scratch5 : Memref sig .scVector .vmem S40x128 .f32).view.read (Elt F) g1) := by
    rw [hg]
    dsimp only
    refine pair_step (F := F) d L fI _ (640 * k5_t14.val) k5_t16.val (Memref.whole cc5_scratch5 : Memref sig .scVector .vmem S40x128 .f32).view g0 _ 0 (by decide) hk hT0 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT0
  sl_exec (disch := first
    | (guard_target = k5_chk131 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g2, %hg, Ho'⟩
  have hT2 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 2 ((Memref.whole cc5_scratch5 : Memref sig .scVector .vmem S40x128 .f32).view.read (Elt F) g2) := by
    rw [hg]
    dsimp only
    refine pair_step (F := F) d L fI _ (640 * k5_t14.val) k5_t16.val (Memref.whole cc5_scratch5 : Memref sig .scVector .vmem S40x128 .f32).view g1 _ 1 (by decide) hk hT1 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT1
  sl_exec (disch := first
    | (guard_target = k5_chk133 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g3, %hg, Ho'⟩
  have hT3 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 3 ((Memref.whole cc5_scratch5 : Memref sig .scVector .vmem S40x128 .f32).view.read (Elt F) g3) := by
    rw [hg]
    dsimp only
    refine pair_step (F := F) d L fI _ (640 * k5_t14.val) k5_t16.val (Memref.whole cc5_scratch5 : Memref sig .scVector .vmem S40x128 .f32).view g2 _ 2 (by decide) hk hT2 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT2
  sl_exec (disch := first
    | (guard_target = k5_chk135 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g4, %hg, Ho'⟩
  have hT4 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 4 ((Memref.whole cc5_scratch5 : Memref sig .scVector .vmem S40x128 .f32).view.read (Elt F) g4) := by
    rw [hg]
    dsimp only
    refine pair_step (F := F) d L fI _ (640 * k5_t14.val) k5_t16.val (Memref.whole cc5_scratch5 : Memref sig .scVector .vmem S40x128 .f32).view g3 _ 3 (by decide) hk hT3 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT3
  sl_exec (disch := first
    | (guard_target = k5_chk137 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g5, %hg, Ho'⟩
  have hT5 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 5 ((Memref.whole cc5_scratch5 : Memref sig .scVector .vmem S40x128 .f32).view.read (Elt F) g5) := by
    rw [hg]
    dsimp only
    refine pair_step (F := F) d L fI _ (640 * k5_t14.val) k5_t16.val (Memref.whole cc5_scratch5 : Memref sig .scVector .vmem S40x128 .f32).view g4 _ 4 (by decide) hk hT4 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT4
  sl_exec (disch := first
    | (guard_target = k5_chk139 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g6, %hg, Ho'⟩
  have hT6 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 6 ((Memref.whole cc5_scratch5 : Memref sig .scVector .vmem S40x128 .f32).view.read (Elt F) g6) := by
    rw [hg]
    dsimp only
    refine pair_step (F := F) d L fI _ (640 * k5_t14.val) k5_t16.val (Memref.whole cc5_scratch5 : Memref sig .scVector .vmem S40x128 .f32).view g5 _ 5 (by decide) hk hT5 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT5
  sl_exec (disch := first
    | (guard_target = k5_chk141 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g7, %hg, Ho'⟩
  have hT7 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 7 ((Memref.whole cc5_scratch5 : Memref sig .scVector .vmem S40x128 .f32).view.read (Elt F) g7) := by
    rw [hg]
    dsimp only
    refine pair_step (F := F) d L fI _ (640 * k5_t14.val) k5_t16.val (Memref.whole cc5_scratch5 : Memref sig .scVector .vmem S40x128 .f32).view g6 _ 6 (by decide) hk hT6 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT6
  sl_exec (disch := first
    | (guard_target = k5_chk143 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g8, %hg, Ho'⟩
  have hT8 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 8 ((Memref.whole cc5_scratch5 : Memref sig .scVector .vmem S40x128 .f32).view.read (Elt F) g8) := by
    rw [hg]
    dsimp only
    refine pair_step (F := F) d L fI _ (640 * k5_t14.val) k5_t16.val (Memref.whole cc5_scratch5 : Memref sig .scVector .vmem S40x128 .f32).view g7 _ 7 (by decide) hk hT7 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT7
  sl_exec (disch := first
    | (guard_target = k5_chk145 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g9, %hg, Ho'⟩
  have hT9 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 9 ((Memref.whole cc5_scratch5 : Memref sig .scVector .vmem S40x128 .f32).view.read (Elt F) g9) := by
    rw [hg]
    dsimp only
    refine pair_step (F := F) d L fI _ (640 * k5_t14.val) k5_t16.val (Memref.whole cc5_scratch5 : Memref sig .scVector .vmem S40x128 .f32).view g8 _ 8 (by decide) hk hT8 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT8
  sl_exec (disch := first
    | (guard_target = k5_chk147 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g10, %hg, Ho'⟩
  have hT10 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 10 ((Memref.whole cc5_scratch5 : Memref sig .scVector .vmem S40x128 .f32).view.read (Elt F) g10) := by
    rw [hg]
    dsimp only
    refine pair_step (F := F) d L fI _ (640 * k5_t14.val) k5_t16.val (Memref.whole cc5_scratch5 : Memref sig .scVector .vmem S40x128 .f32).view g9 _ 9 (by decide) hk hT9 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT9
  sl_exec (disch := first
    | (guard_target = k5_chk149 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g11, %hg, Ho'⟩
  have hT11 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 11 ((Memref.whole cc5_scratch5 : Memref sig .scVector .vmem S40x128 .f32).view.read (Elt F) g11) := by
    rw [hg]
    dsimp only
    refine pair_step (F := F) d L fI _ (640 * k5_t14.val) k5_t16.val (Memref.whole cc5_scratch5 : Memref sig .scVector .vmem S40x128 .f32).view g10 _ 10 (by decide) hk hT10 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT10
  sl_exec (disch := first
    | (guard_target = k5_chk151 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g12, %hg, Ho'⟩
  have hT12 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 12 ((Memref.whole cc5_scratch5 : Memref sig .scVector .vmem S40x128 .f32).view.read (Elt F) g12) := by
    rw [hg]
    dsimp only
    refine pair_step (F := F) d L fI _ (640 * k5_t14.val) k5_t16.val (Memref.whole cc5_scratch5 : Memref sig .scVector .vmem S40x128 .f32).view g11 _ 11 (by decide) hk hT11 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT11
  sl_exec (disch := first
    | (guard_target = k5_chk153 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g13, %hg, Ho'⟩
  have hT13 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 13 ((Memref.whole cc5_scratch5 : Memref sig .scVector .vmem S40x128 .f32).view.read (Elt F) g13) := by
    rw [hg]
    dsimp only
    refine pair_step (F := F) d L fI _ (640 * k5_t14.val) k5_t16.val (Memref.whole cc5_scratch5 : Memref sig .scVector .vmem S40x128 .f32).view g12 _ 12 (by decide) hk hT12 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT12
  sl_exec (disch := first
    | (guard_target = k5_chk155 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g14, %hg, Ho'⟩
  have hT14 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 14 ((Memref.whole cc5_scratch5 : Memref sig .scVector .vmem S40x128 .f32).view.read (Elt F) g14) := by
    rw [hg]
    dsimp only
    refine pair_step (F := F) d L fI _ (640 * k5_t14.val) k5_t16.val (Memref.whole cc5_scratch5 : Memref sig .scVector .vmem S40x128 .f32).view g13 _ 13 (by decide) hk hT13 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT13
  sl_exec (disch := first
    | (guard_target = k5_chk157 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g15, %hg, Ho'⟩
  have hT15 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 15 ((Memref.whole cc5_scratch5 : Memref sig .scVector .vmem S40x128 .f32).view.read (Elt F) g15) := by
    rw [hg]
    dsimp only
    refine pair_step (F := F) d L fI _ (640 * k5_t14.val) k5_t16.val (Memref.whole cc5_scratch5 : Memref sig .scVector .vmem S40x128 .f32).view g14 _ 14 (by decide) hk hT14 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT14
  sl_exec (disch := first
    | (guard_target = k5_chk159 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g16, %hg, Ho'⟩
  have hT16 : TripInv (F := F) d L fI ((Memref.whole cc5_scratch3 : Memref sig .scVector .vmem S320x128 .f32).view.read (Elt F) fr) (640 * k5_t14.val) k5_t16.val ((Memref.whole cc5_scratch5 : Memref sig .scVector .vmem S40x128 .f32).view.read (Elt F) g0) 16 ((Memref.whole cc5_scratch5 : Memref sig .scVector .vmem S40x128 .f32).view.read (Elt F) g16) := by
    rw [hg]
    dsimp only
    refine pair_step (F := F) d L fI _ (640 * k5_t14.val) k5_t16.val (Memref.whole cc5_scratch5 : Memref sig .scVector .vmem S40x128 .f32).view g15 _ 15 (by decide) hk hT15 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off26 k5_t14 k5_t16) (k5_off26_eq k5_t14 k5_t16) _ x).trans
      (congrArg (idxAtN (F := F) d L fI) (by omega))) rfl rfl
  clear hg hT15
  sl_step
  isplitl [HI']; · iexact HI'
  isplitl [Hr']; · iexact Hr'
  iexists _
  isplitl [Ho']; · iexact Ho'
  ipureintro
  exact outOK_succ (F := F) d L fI _ (640 * k5_t14.val) k5_t16.val _ _ hO hT16

set_option maxHeartbeats 4000000 in
theorem drain_trip_t22_val (d : Dev nD) (L : grid5.Coords) (v2 c0 c1 v17 : BitVec 32) (k5_t20 : Fin k5_t20_loop.trips) (k5_t22 : Fin k5_t22_loop.trips)
    (fI : Buf (Elt F) ((V d (cV L) (jV L)).loc cc5_scratch0)) (fr : Buf (Elt F) ((V d (cV L) (jV L)).loc cc5_scratch3)) :
    drainInvV0 (F := F) d L fI fr (640 * k5_t20.val) k5_t22.val ()
      ⊢ wp frame (wpE (defs₀ (F := F)) 𝒱₀ (V d (cV L) (jV L)) none) Set.univ
          (k5_t22_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t20 v17 k5_t22 ())
          (drainInvV0 (F := F) d L fI fr (640 * k5_t20.val) (k5_t22.val + 1)) := by
  unfold k5_t22_body
  simp only [k5_part31_eq_skeleton, k5_part32_eq_skeleton, k5_part33_eq_skeleton, k5_part34_eq_skeleton]
  unfold k5_part31_skel k5_part32_skel k5_part33_skel k5_part34_skel
  simp only [SparseCore.vectorLoadIdx_bind (c := (V d (cV L) (jV L))), SparseCore.vectorStoreIdx_bind (c := (V d (cV L) (jV L)))]
  have hk : k5_t22.val < 20 := Nat.lt_of_lt_of_le k5_t22.isLt k5_t22_abs.2.1
  unfold drainInvV0
  iintro ⟨HI', Hr', %g0, Ho', %hO⟩
  have hT0 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 0 ((Memref.whole cc5_scratch5 : Memref sig .scVector .vmem S40x128 .f32).view.read (Elt F) g0) :=
    tripInv_zero (F := F) d L fI _ _ _ _ _ (fun _ => rfl)
  sl_exec (disch := first
    | (guard_target = k5_chk193 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g1, %hg, Ho'⟩
  have hT1 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 1 ((Memref.whole cc5_scratch5 : Memref sig .scVector .vmem S40x128 .f32).view.read (Elt F) g1) := by
    rw [hg]
    dsimp only
    refine pair_step (F := F) d L fI _ (640 * k5_t20.val) k5_t22.val (Memref.whole cc5_scratch5 : Memref sig .scVector .vmem S40x128 .f32).view g0 _ 0 (by decide) hk hT0 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT0
  sl_exec (disch := first
    | (guard_target = k5_chk195 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g2, %hg, Ho'⟩
  have hT2 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 2 ((Memref.whole cc5_scratch5 : Memref sig .scVector .vmem S40x128 .f32).view.read (Elt F) g2) := by
    rw [hg]
    dsimp only
    refine pair_step (F := F) d L fI _ (640 * k5_t20.val) k5_t22.val (Memref.whole cc5_scratch5 : Memref sig .scVector .vmem S40x128 .f32).view g1 _ 1 (by decide) hk hT1 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT1
  sl_exec (disch := first
    | (guard_target = k5_chk197 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g3, %hg, Ho'⟩
  have hT3 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 3 ((Memref.whole cc5_scratch5 : Memref sig .scVector .vmem S40x128 .f32).view.read (Elt F) g3) := by
    rw [hg]
    dsimp only
    refine pair_step (F := F) d L fI _ (640 * k5_t20.val) k5_t22.val (Memref.whole cc5_scratch5 : Memref sig .scVector .vmem S40x128 .f32).view g2 _ 2 (by decide) hk hT2 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT2
  sl_exec (disch := first
    | (guard_target = k5_chk199 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g4, %hg, Ho'⟩
  have hT4 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 4 ((Memref.whole cc5_scratch5 : Memref sig .scVector .vmem S40x128 .f32).view.read (Elt F) g4) := by
    rw [hg]
    dsimp only
    refine pair_step (F := F) d L fI _ (640 * k5_t20.val) k5_t22.val (Memref.whole cc5_scratch5 : Memref sig .scVector .vmem S40x128 .f32).view g3 _ 3 (by decide) hk hT3 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT3
  sl_exec (disch := first
    | (guard_target = k5_chk201 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g5, %hg, Ho'⟩
  have hT5 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 5 ((Memref.whole cc5_scratch5 : Memref sig .scVector .vmem S40x128 .f32).view.read (Elt F) g5) := by
    rw [hg]
    dsimp only
    refine pair_step (F := F) d L fI _ (640 * k5_t20.val) k5_t22.val (Memref.whole cc5_scratch5 : Memref sig .scVector .vmem S40x128 .f32).view g4 _ 4 (by decide) hk hT4 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT4
  sl_exec (disch := first
    | (guard_target = k5_chk203 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g6, %hg, Ho'⟩
  have hT6 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 6 ((Memref.whole cc5_scratch5 : Memref sig .scVector .vmem S40x128 .f32).view.read (Elt F) g6) := by
    rw [hg]
    dsimp only
    refine pair_step (F := F) d L fI _ (640 * k5_t20.val) k5_t22.val (Memref.whole cc5_scratch5 : Memref sig .scVector .vmem S40x128 .f32).view g5 _ 5 (by decide) hk hT5 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT5
  sl_exec (disch := first
    | (guard_target = k5_chk205 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g7, %hg, Ho'⟩
  have hT7 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 7 ((Memref.whole cc5_scratch5 : Memref sig .scVector .vmem S40x128 .f32).view.read (Elt F) g7) := by
    rw [hg]
    dsimp only
    refine pair_step (F := F) d L fI _ (640 * k5_t20.val) k5_t22.val (Memref.whole cc5_scratch5 : Memref sig .scVector .vmem S40x128 .f32).view g6 _ 6 (by decide) hk hT6 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT6
  sl_exec (disch := first
    | (guard_target = k5_chk207 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g8, %hg, Ho'⟩
  have hT8 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 8 ((Memref.whole cc5_scratch5 : Memref sig .scVector .vmem S40x128 .f32).view.read (Elt F) g8) := by
    rw [hg]
    dsimp only
    refine pair_step (F := F) d L fI _ (640 * k5_t20.val) k5_t22.val (Memref.whole cc5_scratch5 : Memref sig .scVector .vmem S40x128 .f32).view g7 _ 7 (by decide) hk hT7 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT7
  sl_exec (disch := first
    | (guard_target = k5_chk209 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g9, %hg, Ho'⟩
  have hT9 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 9 ((Memref.whole cc5_scratch5 : Memref sig .scVector .vmem S40x128 .f32).view.read (Elt F) g9) := by
    rw [hg]
    dsimp only
    refine pair_step (F := F) d L fI _ (640 * k5_t20.val) k5_t22.val (Memref.whole cc5_scratch5 : Memref sig .scVector .vmem S40x128 .f32).view g8 _ 8 (by decide) hk hT8 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT8
  sl_exec (disch := first
    | (guard_target = k5_chk211 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g10, %hg, Ho'⟩
  have hT10 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 10 ((Memref.whole cc5_scratch5 : Memref sig .scVector .vmem S40x128 .f32).view.read (Elt F) g10) := by
    rw [hg]
    dsimp only
    refine pair_step (F := F) d L fI _ (640 * k5_t20.val) k5_t22.val (Memref.whole cc5_scratch5 : Memref sig .scVector .vmem S40x128 .f32).view g9 _ 9 (by decide) hk hT9 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT9
  sl_exec (disch := first
    | (guard_target = k5_chk213 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g11, %hg, Ho'⟩
  have hT11 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 11 ((Memref.whole cc5_scratch5 : Memref sig .scVector .vmem S40x128 .f32).view.read (Elt F) g11) := by
    rw [hg]
    dsimp only
    refine pair_step (F := F) d L fI _ (640 * k5_t20.val) k5_t22.val (Memref.whole cc5_scratch5 : Memref sig .scVector .vmem S40x128 .f32).view g10 _ 10 (by decide) hk hT10 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT10
  sl_exec (disch := first
    | (guard_target = k5_chk215 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g12, %hg, Ho'⟩
  have hT12 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 12 ((Memref.whole cc5_scratch5 : Memref sig .scVector .vmem S40x128 .f32).view.read (Elt F) g12) := by
    rw [hg]
    dsimp only
    refine pair_step (F := F) d L fI _ (640 * k5_t20.val) k5_t22.val (Memref.whole cc5_scratch5 : Memref sig .scVector .vmem S40x128 .f32).view g11 _ 11 (by decide) hk hT11 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT11
  sl_exec (disch := first
    | (guard_target = k5_chk217 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g13, %hg, Ho'⟩
  have hT13 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 13 ((Memref.whole cc5_scratch5 : Memref sig .scVector .vmem S40x128 .f32).view.read (Elt F) g13) := by
    rw [hg]
    dsimp only
    refine pair_step (F := F) d L fI _ (640 * k5_t20.val) k5_t22.val (Memref.whole cc5_scratch5 : Memref sig .scVector .vmem S40x128 .f32).view g12 _ 12 (by decide) hk hT12 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT12
  sl_exec (disch := first
    | (guard_target = k5_chk219 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g14, %hg, Ho'⟩
  have hT14 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 14 ((Memref.whole cc5_scratch5 : Memref sig .scVector .vmem S40x128 .f32).view.read (Elt F) g14) := by
    rw [hg]
    dsimp only
    refine pair_step (F := F) d L fI _ (640 * k5_t20.val) k5_t22.val (Memref.whole cc5_scratch5 : Memref sig .scVector .vmem S40x128 .f32).view g13 _ 13 (by decide) hk hT13 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT13
  sl_exec (disch := first
    | (guard_target = k5_chk221 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g15, %hg, Ho'⟩
  have hT15 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 15 ((Memref.whole cc5_scratch5 : Memref sig .scVector .vmem S40x128 .f32).view.read (Elt F) g15) := by
    rw [hg]
    dsimp only
    refine pair_step (F := F) d L fI _ (640 * k5_t20.val) k5_t22.val (Memref.whole cc5_scratch5 : Memref sig .scVector .vmem S40x128 .f32).view g14 _ 14 (by decide) hk hT14 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT14
  sl_exec (disch := first
    | (guard_target = k5_chk223 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g16, %hg, Ho'⟩
  have hT16 : TripInv (F := F) d L fI ((Memref.whole cc5_scratch3 : Memref sig .scVector .vmem S320x128 .f32).view.read (Elt F) fr) (640 * k5_t20.val) k5_t22.val ((Memref.whole cc5_scratch5 : Memref sig .scVector .vmem S40x128 .f32).view.read (Elt F) g0) 16 ((Memref.whole cc5_scratch5 : Memref sig .scVector .vmem S40x128 .f32).view.read (Elt F) g16) := by
    rw [hg]
    dsimp only
    refine pair_step (F := F) d L fI _ (640 * k5_t20.val) k5_t22.val (Memref.whole cc5_scratch5 : Memref sig .scVector .vmem S40x128 .f32).view g15 _ 15 (by decide) hk hT15 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off36 k5_t20 k5_t22) (k5_off36_eq k5_t20 k5_t22) _ x).trans
      (congrArg (idxAtN (F := F) d L fI) (by omega))) rfl rfl
  clear hg hT15
  sl_step
  isplitl [HI']; · iexact HI'
  isplitl [Hr']; · iexact Hr'
  iexists _
  isplitl [Ho']; · iexact Ho'
  ipureintro
  exact outOK_succ (F := F) d L fI _ (640 * k5_t20.val) k5_t22.val _ _ hO hT16

end Cert.Proof.ScBody

end
-- ==== Proof.ScDrainValB.lean ====
/-
  One trip of a drain loop of the lookup kernel (the chunks gathered into the second row scratch) WITH ITS VALUES, pair by pair: after each indexed load and
  indexed store the output scratch's contents are named and one more residue of the trip's 256 addresses is drained.
-/
import proofs.«203359_g24824910971486_cont_8to1_1854_34_alg».proof.Proof.ScDrainPair

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

set_option maxHeartbeats 4000000 in
theorem drain_trip_t6_val (d : Dev nD) (L : grid5.Coords) (v2 v17 v48 : BitVec 32) (k5_t2 : Fin k5_t2_loop.trips) (k5_t6 : Fin k5_t6_loop.trips)
    (fI : Buf (Elt F) ((V d (cV L) (jV L)).loc cc5_scratch0)) (fr : Buf (Elt F) ((V d (cV L) (jV L)).loc cc5_scratch4)) :
    drainInvV1 (F := F) d L fI fr (640 * k5_t2.val + 320) k5_t6.val ()
      ⊢ wp frame (wpE (defs₀ (F := F)) 𝒱₀ (V d (cV L) (jV L)) none) Set.univ
          (k5_t6_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t2 v17 v48 k5_t6 ())
          (drainInvV1 (F := F) d L fI fr (640 * k5_t2.val + 320) (k5_t6.val + 1)) := by
  unfold k5_t6_body
  simp only [k5_part5_eq_skeleton, k5_part6_eq_skeleton, k5_part7_eq_skeleton, k5_part8_eq_skeleton]
  unfold k5_part5_skel k5_part6_skel k5_part7_skel k5_part8_skel
  simp only [SparseCore.vectorLoadIdx_bind (c := (V d (cV L) (jV L))), SparseCore.vectorStoreIdx_bind (c := (V d (cV L) (jV L)))]
  have hk : k5_t6.val < 20 := Nat.lt_of_lt_of_le k5_t6.isLt k5_t6_abs.2.1
  unfold drainInvV1
  iintro ⟨HI', Hr', %g0, Ho', %hO⟩
  have hT0 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 0 ((Memref.whole cc5_scratch5 : Memref sig .scVector .vmem S40x128 .f32).view.read (Elt F) g0) :=
    tripInv_zero (F := F) d L fI _ _ _ _ _ (fun _ => rfl)
  sl_exec (disch := first
    | (guard_target = k5_chk33 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g1, %hg, Ho'⟩
  have hT1 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 1 ((Memref.whole cc5_scratch5 : Memref sig .scVector .vmem S40x128 .f32).view.read (Elt F) g1) := by
    rw [hg]
    dsimp only
    refine pair_step (F := F) d L fI _ (640 * k5_t2.val + 320) k5_t6.val (Memref.whole cc5_scratch5 : Memref sig .scVector .vmem S40x128 .f32).view g0 _ 0 (by decide) hk hT0 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT0
  sl_exec (disch := first
    | (guard_target = k5_chk35 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g2, %hg, Ho'⟩
  have hT2 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 2 ((Memref.whole cc5_scratch5 : Memref sig .scVector .vmem S40x128 .f32).view.read (Elt F) g2) := by
    rw [hg]
    dsimp only
    refine pair_step (F := F) d L fI _ (640 * k5_t2.val + 320) k5_t6.val (Memref.whole cc5_scratch5 : Memref sig .scVector .vmem S40x128 .f32).view g1 _ 1 (by decide) hk hT1 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT1
  sl_exec (disch := first
    | (guard_target = k5_chk37 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g3, %hg, Ho'⟩
  have hT3 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 3 ((Memref.whole cc5_scratch5 : Memref sig .scVector .vmem S40x128 .f32).view.read (Elt F) g3) := by
    rw [hg]
    dsimp only
    refine pair_step (F := F) d L fI _ (640 * k5_t2.val + 320) k5_t6.val (Memref.whole cc5_scratch5 : Memref sig .scVector .vmem S40x128 .f32).view g2 _ 2 (by decide) hk hT2 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT2
  sl_exec (disch := first
    | (guard_target = k5_chk39 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g4, %hg, Ho'⟩
  have hT4 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 4 ((Memref.whole cc5_scratch5 : Memref sig .scVector .vmem S40x128 .f32).view.read (Elt F) g4) := by
    rw [hg]
    dsimp only
    refine pair_step (F := F) d L fI _ (640 * k5_t2.val + 320) k5_t6.val (Memref.whole cc5_scratch5 : Memref sig .scVector .vmem S40x128 .f32).view g3 _ 3 (by decide) hk hT3 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT3
  sl_exec (disch := first
    | (guard_target = k5_chk41 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g5, %hg, Ho'⟩
  have hT5 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 5 ((Memref.whole cc5_scratch5 : Memref sig .scVector .vmem S40x128 .f32).view.read (Elt F) g5) := by
    rw [hg]
    dsimp only
    refine pair_step (F := F) d L fI _ (640 * k5_t2.val + 320) k5_t6.val (Memref.whole cc5_scratch5 : Memref sig .scVector .vmem S40x128 .f32).view g4 _ 4 (by decide) hk hT4 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT4
  sl_exec (disch := first
    | (guard_target = k5_chk43 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g6, %hg, Ho'⟩
  have hT6 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 6 ((Memref.whole cc5_scratch5 : Memref sig .scVector .vmem S40x128 .f32).view.read (Elt F) g6) := by
    rw [hg]
    dsimp only
    refine pair_step (F := F) d L fI _ (640 * k5_t2.val + 320) k5_t6.val (Memref.whole cc5_scratch5 : Memref sig .scVector .vmem S40x128 .f32).view g5 _ 5 (by decide) hk hT5 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT5
  sl_exec (disch := first
    | (guard_target = k5_chk45 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g7, %hg, Ho'⟩
  have hT7 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 7 ((Memref.whole cc5_scratch5 : Memref sig .scVector .vmem S40x128 .f32).view.read (Elt F) g7) := by
    rw [hg]
    dsimp only
    refine pair_step (F := F) d L fI _ (640 * k5_t2.val + 320) k5_t6.val (Memref.whole cc5_scratch5 : Memref sig .scVector .vmem S40x128 .f32).view g6 _ 6 (by decide) hk hT6 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT6
  sl_exec (disch := first
    | (guard_target = k5_chk47 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g8, %hg, Ho'⟩
  have hT8 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 8 ((Memref.whole cc5_scratch5 : Memref sig .scVector .vmem S40x128 .f32).view.read (Elt F) g8) := by
    rw [hg]
    dsimp only
    refine pair_step (F := F) d L fI _ (640 * k5_t2.val + 320) k5_t6.val (Memref.whole cc5_scratch5 : Memref sig .scVector .vmem S40x128 .f32).view g7 _ 7 (by decide) hk hT7 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT7
  sl_exec (disch := first
    | (guard_target = k5_chk49 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g9, %hg, Ho'⟩
  have hT9 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 9 ((Memref.whole cc5_scratch5 : Memref sig .scVector .vmem S40x128 .f32).view.read (Elt F) g9) := by
    rw [hg]
    dsimp only
    refine pair_step (F := F) d L fI _ (640 * k5_t2.val + 320) k5_t6.val (Memref.whole cc5_scratch5 : Memref sig .scVector .vmem S40x128 .f32).view g8 _ 8 (by decide) hk hT8 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT8
  sl_exec (disch := first
    | (guard_target = k5_chk51 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g10, %hg, Ho'⟩
  have hT10 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 10 ((Memref.whole cc5_scratch5 : Memref sig .scVector .vmem S40x128 .f32).view.read (Elt F) g10) := by
    rw [hg]
    dsimp only
    refine pair_step (F := F) d L fI _ (640 * k5_t2.val + 320) k5_t6.val (Memref.whole cc5_scratch5 : Memref sig .scVector .vmem S40x128 .f32).view g9 _ 9 (by decide) hk hT9 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT9
  sl_exec (disch := first
    | (guard_target = k5_chk53 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g11, %hg, Ho'⟩
  have hT11 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 11 ((Memref.whole cc5_scratch5 : Memref sig .scVector .vmem S40x128 .f32).view.read (Elt F) g11) := by
    rw [hg]
    dsimp only
    refine pair_step (F := F) d L fI _ (640 * k5_t2.val + 320) k5_t6.val (Memref.whole cc5_scratch5 : Memref sig .scVector .vmem S40x128 .f32).view g10 _ 10 (by decide) hk hT10 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT10
  sl_exec (disch := first
    | (guard_target = k5_chk55 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g12, %hg, Ho'⟩
  have hT12 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 12 ((Memref.whole cc5_scratch5 : Memref sig .scVector .vmem S40x128 .f32).view.read (Elt F) g12) := by
    rw [hg]
    dsimp only
    refine pair_step (F := F) d L fI _ (640 * k5_t2.val + 320) k5_t6.val (Memref.whole cc5_scratch5 : Memref sig .scVector .vmem S40x128 .f32).view g11 _ 11 (by decide) hk hT11 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT11
  sl_exec (disch := first
    | (guard_target = k5_chk57 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g13, %hg, Ho'⟩
  have hT13 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 13 ((Memref.whole cc5_scratch5 : Memref sig .scVector .vmem S40x128 .f32).view.read (Elt F) g13) := by
    rw [hg]
    dsimp only
    refine pair_step (F := F) d L fI _ (640 * k5_t2.val + 320) k5_t6.val (Memref.whole cc5_scratch5 : Memref sig .scVector .vmem S40x128 .f32).view g12 _ 12 (by decide) hk hT12 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT12
  sl_exec (disch := first
    | (guard_target = k5_chk59 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g14, %hg, Ho'⟩
  have hT14 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 14 ((Memref.whole cc5_scratch5 : Memref sig .scVector .vmem S40x128 .f32).view.read (Elt F) g14) := by
    rw [hg]
    dsimp only
    refine pair_step (F := F) d L fI _ (640 * k5_t2.val + 320) k5_t6.val (Memref.whole cc5_scratch5 : Memref sig .scVector .vmem S40x128 .f32).view g13 _ 13 (by decide) hk hT13 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT13
  sl_exec (disch := first
    | (guard_target = k5_chk61 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g15, %hg, Ho'⟩
  have hT15 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 15 ((Memref.whole cc5_scratch5 : Memref sig .scVector .vmem S40x128 .f32).view.read (Elt F) g15) := by
    rw [hg]
    dsimp only
    refine pair_step (F := F) d L fI _ (640 * k5_t2.val + 320) k5_t6.val (Memref.whole cc5_scratch5 : Memref sig .scVector .vmem S40x128 .f32).view g14 _ 14 (by decide) hk hT14 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT14
  sl_exec (disch := first
    | (guard_target = k5_chk63 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g16, %hg, Ho'⟩
  have hT16 : TripInv (F := F) d L fI ((Memref.whole cc5_scratch4 : Memref sig .scVector .vmem S320x128 .f32).view.read (Elt F) fr) (640 * k5_t2.val + 320) k5_t6.val ((Memref.whole cc5_scratch5 : Memref sig .scVector .vmem S40x128 .f32).view.read (Elt F) g0) 16 ((Memref.whole cc5_scratch5 : Memref sig .scVector .vmem S40x128 .f32).view.read (Elt F) g16) := by
    rw [hg]
    dsimp only
    refine pair_step (F := F) d L fI _ (640 * k5_t2.val + 320) k5_t6.val (Memref.whole cc5_scratch5 : Memref sig .scVector .vmem S40x128 .f32).view g15 _ 15 (by decide) hk hT15 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off10 k5_t2 k5_t6) (k5_off10_eq k5_t2 k5_t6) _ x).trans
      (congrArg (idxAtN (F := F) d L fI) (by omega))) rfl rfl
  clear hg hT15
  sl_step
  isplitl [HI']; · iexact HI'
  isplitl [Hr']; · iexact Hr'
  iexists _
  isplitl [Ho']; · iexact Ho'
  ipureintro
  exact outOK_succ (F := F) d L fI _ (640 * k5_t2.val + 320) k5_t6.val _ _ hO hT16

set_option maxHeartbeats 4000000 in
theorem drain_trip_t12_val (d : Dev nD) (L : grid5.Coords) (v2 v17 v48 : BitVec 32) (k5_t8 : Fin k5_t8_loop.trips) (k5_t12 : Fin k5_t12_loop.trips)
    (fI : Buf (Elt F) ((V d (cV L) (jV L)).loc cc5_scratch0)) (fr : Buf (Elt F) ((V d (cV L) (jV L)).loc cc5_scratch4)) :
    drainInvV1 (F := F) d L fI fr (640 * k5_t8.val + 320) k5_t12.val ()
      ⊢ wp frame (wpE (defs₀ (F := F)) 𝒱₀ (V d (cV L) (jV L)) none) Set.univ
          (k5_t12_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t8 v17 v48 k5_t12 ())
          (drainInvV1 (F := F) d L fI fr (640 * k5_t8.val + 320) (k5_t12.val + 1)) := by
  unfold k5_t12_body
  simp only [k5_part15_eq_skeleton, k5_part16_eq_skeleton, k5_part17_eq_skeleton, k5_part18_eq_skeleton]
  unfold k5_part15_skel k5_part16_skel k5_part17_skel k5_part18_skel
  simp only [SparseCore.vectorLoadIdx_bind (c := (V d (cV L) (jV L))), SparseCore.vectorStoreIdx_bind (c := (V d (cV L) (jV L)))]
  have hk : k5_t12.val < 20 := Nat.lt_of_lt_of_le k5_t12.isLt k5_t12_abs.2.1
  unfold drainInvV1
  iintro ⟨HI', Hr', %g0, Ho', %hO⟩
  have hT0 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 0 ((Memref.whole cc5_scratch5 : Memref sig .scVector .vmem S40x128 .f32).view.read (Elt F) g0) :=
    tripInv_zero (F := F) d L fI _ _ _ _ _ (fun _ => rfl)
  sl_exec (disch := first
    | (guard_target = k5_chk97 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g1, %hg, Ho'⟩
  have hT1 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 1 ((Memref.whole cc5_scratch5 : Memref sig .scVector .vmem S40x128 .f32).view.read (Elt F) g1) := by
    rw [hg]
    dsimp only
    refine pair_step (F := F) d L fI _ (640 * k5_t8.val + 320) k5_t12.val (Memref.whole cc5_scratch5 : Memref sig .scVector .vmem S40x128 .f32).view g0 _ 0 (by decide) hk hT0 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT0
  sl_exec (disch := first
    | (guard_target = k5_chk99 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g2, %hg, Ho'⟩
  have hT2 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 2 ((Memref.whole cc5_scratch5 : Memref sig .scVector .vmem S40x128 .f32).view.read (Elt F) g2) := by
    rw [hg]
    dsimp only
    refine pair_step (F := F) d L fI _ (640 * k5_t8.val + 320) k5_t12.val (Memref.whole cc5_scratch5 : Memref sig .scVector .vmem S40x128 .f32).view g1 _ 1 (by decide) hk hT1 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT1
  sl_exec (disch := first
    | (guard_target = k5_chk101 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g3, %hg, Ho'⟩
  have hT3 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 3 ((Memref.whole cc5_scratch5 : Memref sig .scVector .vmem S40x128 .f32).view.read (Elt F) g3) := by
    rw [hg]
    dsimp only
    refine pair_step (F := F) d L fI _ (640 * k5_t8.val + 320) k5_t12.val (Memref.whole cc5_scratch5 : Memref sig .scVector .vmem S40x128 .f32).view g2 _ 2 (by decide) hk hT2 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT2
  sl_exec (disch := first
    | (guard_target = k5_chk103 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g4, %hg, Ho'⟩
  have hT4 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 4 ((Memref.whole cc5_scratch5 : Memref sig .scVector .vmem S40x128 .f32).view.read (Elt F) g4) := by
    rw [hg]
    dsimp only
    refine pair_step (F := F) d L fI _ (640 * k5_t8.val + 320) k5_t12.val (Memref.whole cc5_scratch5 : Memref sig .scVector .vmem S40x128 .f32).view g3 _ 3 (by decide) hk hT3 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT3
  sl_exec (disch := first
    | (guard_target = k5_chk105 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g5, %hg, Ho'⟩
  have hT5 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 5 ((Memref.whole cc5_scratch5 : Memref sig .scVector .vmem S40x128 .f32).view.read (Elt F) g5) := by
    rw [hg]
    dsimp only
    refine pair_step (F := F) d L fI _ (640 * k5_t8.val + 320) k5_t12.val (Memref.whole cc5_scratch5 : Memref sig .scVector .vmem S40x128 .f32).view g4 _ 4 (by decide) hk hT4 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT4
  sl_exec (disch := first
    | (guard_target = k5_chk107 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g6, %hg, Ho'⟩
  have hT6 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 6 ((Memref.whole cc5_scratch5 : Memref sig .scVector .vmem S40x128 .f32).view.read (Elt F) g6) := by
    rw [hg]
    dsimp only
    refine pair_step (F := F) d L fI _ (640 * k5_t8.val + 320) k5_t12.val (Memref.whole cc5_scratch5 : Memref sig .scVector .vmem S40x128 .f32).view g5 _ 5 (by decide) hk hT5 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT5
  sl_exec (disch := first
    | (guard_target = k5_chk109 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g7, %hg, Ho'⟩
  have hT7 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 7 ((Memref.whole cc5_scratch5 : Memref sig .scVector .vmem S40x128 .f32).view.read (Elt F) g7) := by
    rw [hg]
    dsimp only
    refine pair_step (F := F) d L fI _ (640 * k5_t8.val + 320) k5_t12.val (Memref.whole cc5_scratch5 : Memref sig .scVector .vmem S40x128 .f32).view g6 _ 6 (by decide) hk hT6 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT6
  sl_exec (disch := first
    | (guard_target = k5_chk111 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g8, %hg, Ho'⟩
  have hT8 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 8 ((Memref.whole cc5_scratch5 : Memref sig .scVector .vmem S40x128 .f32).view.read (Elt F) g8) := by
    rw [hg]
    dsimp only
    refine pair_step (F := F) d L fI _ (640 * k5_t8.val + 320) k5_t12.val (Memref.whole cc5_scratch5 : Memref sig .scVector .vmem S40x128 .f32).view g7 _ 7 (by decide) hk hT7 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT7
  sl_exec (disch := first
    | (guard_target = k5_chk113 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g9, %hg, Ho'⟩
  have hT9 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 9 ((Memref.whole cc5_scratch5 : Memref sig .scVector .vmem S40x128 .f32).view.read (Elt F) g9) := by
    rw [hg]
    dsimp only
    refine pair_step (F := F) d L fI _ (640 * k5_t8.val + 320) k5_t12.val (Memref.whole cc5_scratch5 : Memref sig .scVector .vmem S40x128 .f32).view g8 _ 8 (by decide) hk hT8 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT8
  sl_exec (disch := first
    | (guard_target = k5_chk115 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g10, %hg, Ho'⟩
  have hT10 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 10 ((Memref.whole cc5_scratch5 : Memref sig .scVector .vmem S40x128 .f32).view.read (Elt F) g10) := by
    rw [hg]
    dsimp only
    refine pair_step (F := F) d L fI _ (640 * k5_t8.val + 320) k5_t12.val (Memref.whole cc5_scratch5 : Memref sig .scVector .vmem S40x128 .f32).view g9 _ 9 (by decide) hk hT9 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT9
  sl_exec (disch := first
    | (guard_target = k5_chk117 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g11, %hg, Ho'⟩
  have hT11 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 11 ((Memref.whole cc5_scratch5 : Memref sig .scVector .vmem S40x128 .f32).view.read (Elt F) g11) := by
    rw [hg]
    dsimp only
    refine pair_step (F := F) d L fI _ (640 * k5_t8.val + 320) k5_t12.val (Memref.whole cc5_scratch5 : Memref sig .scVector .vmem S40x128 .f32).view g10 _ 10 (by decide) hk hT10 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT10
  sl_exec (disch := first
    | (guard_target = k5_chk119 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g12, %hg, Ho'⟩
  have hT12 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 12 ((Memref.whole cc5_scratch5 : Memref sig .scVector .vmem S40x128 .f32).view.read (Elt F) g12) := by
    rw [hg]
    dsimp only
    refine pair_step (F := F) d L fI _ (640 * k5_t8.val + 320) k5_t12.val (Memref.whole cc5_scratch5 : Memref sig .scVector .vmem S40x128 .f32).view g11 _ 11 (by decide) hk hT11 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT11
  sl_exec (disch := first
    | (guard_target = k5_chk121 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g13, %hg, Ho'⟩
  have hT13 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 13 ((Memref.whole cc5_scratch5 : Memref sig .scVector .vmem S40x128 .f32).view.read (Elt F) g13) := by
    rw [hg]
    dsimp only
    refine pair_step (F := F) d L fI _ (640 * k5_t8.val + 320) k5_t12.val (Memref.whole cc5_scratch5 : Memref sig .scVector .vmem S40x128 .f32).view g12 _ 12 (by decide) hk hT12 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT12
  sl_exec (disch := first
    | (guard_target = k5_chk123 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g14, %hg, Ho'⟩
  have hT14 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 14 ((Memref.whole cc5_scratch5 : Memref sig .scVector .vmem S40x128 .f32).view.read (Elt F) g14) := by
    rw [hg]
    dsimp only
    refine pair_step (F := F) d L fI _ (640 * k5_t8.val + 320) k5_t12.val (Memref.whole cc5_scratch5 : Memref sig .scVector .vmem S40x128 .f32).view g13 _ 13 (by decide) hk hT13 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT13
  sl_exec (disch := first
    | (guard_target = k5_chk125 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g15, %hg, Ho'⟩
  have hT15 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 15 ((Memref.whole cc5_scratch5 : Memref sig .scVector .vmem S40x128 .f32).view.read (Elt F) g15) := by
    rw [hg]
    dsimp only
    refine pair_step (F := F) d L fI _ (640 * k5_t8.val + 320) k5_t12.val (Memref.whole cc5_scratch5 : Memref sig .scVector .vmem S40x128 .f32).view g14 _ 14 (by decide) hk hT14 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT14
  sl_exec (disch := first
    | (guard_target = k5_chk127 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g16, %hg, Ho'⟩
  have hT16 : TripInv (F := F) d L fI ((Memref.whole cc5_scratch4 : Memref sig .scVector .vmem S320x128 .f32).view.read (Elt F) fr) (640 * k5_t8.val + 320) k5_t12.val ((Memref.whole cc5_scratch5 : Memref sig .scVector .vmem S40x128 .f32).view.read (Elt F) g0) 16 ((Memref.whole cc5_scratch5 : Memref sig .scVector .vmem S40x128 .f32).view.read (Elt F) g16) := by
    rw [hg]
    dsimp only
    refine pair_step (F := F) d L fI _ (640 * k5_t8.val + 320) k5_t12.val (Memref.whole cc5_scratch5 : Memref sig .scVector .vmem S40x128 .f32).view g15 _ 15 (by decide) hk hT15 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off20 k5_t8 k5_t12) (k5_off20_eq k5_t8 k5_t12) _ x).trans
      (congrArg (idxAtN (F := F) d L fI) (by omega))) rfl rfl
  clear hg hT15
  sl_step
  isplitl [HI']; · iexact HI'
  isplitl [Hr']; · iexact Hr'
  iexists _
  isplitl [Ho']; · iexact Ho'
  ipureintro
  exact outOK_succ (F := F) d L fI _ (640 * k5_t8.val + 320) k5_t12.val _ _ hO hT16

set_option maxHeartbeats 4000000 in
theorem drain_trip_t18_val (d : Dev nD) (L : grid5.Coords) (v2 v17 v48 : BitVec 32) (k5_t14 : Fin k5_t14_loop.trips) (k5_t18 : Fin k5_t18_loop.trips)
    (fI : Buf (Elt F) ((V d (cV L) (jV L)).loc cc5_scratch0)) (fr : Buf (Elt F) ((V d (cV L) (jV L)).loc cc5_scratch4)) :
    drainInvV1 (F := F) d L fI fr (640 * k5_t14.val + 320) k5_t18.val ()
      ⊢ wp frame (wpE (defs₀ (F := F)) 𝒱₀ (V d (cV L) (jV L)) none) Set.univ
          (k5_t18_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t14 v17 v48 k5_t18 ())
          (drainInvV1 (F := F) d L fI fr (640 * k5_t14.val + 320) (k5_t18.val + 1)) := by
  unfold k5_t18_body
  simp only [k5_part25_eq_skeleton, k5_part26_eq_skeleton, k5_part27_eq_skeleton, k5_part28_eq_skeleton]
  unfold k5_part25_skel k5_part26_skel k5_part27_skel k5_part28_skel
  simp only [SparseCore.vectorLoadIdx_bind (c := (V d (cV L) (jV L))), SparseCore.vectorStoreIdx_bind (c := (V d (cV L) (jV L)))]
  have hk : k5_t18.val < 20 := Nat.lt_of_lt_of_le k5_t18.isLt k5_t18_abs.2.1
  unfold drainInvV1
  iintro ⟨HI', Hr', %g0, Ho', %hO⟩
  have hT0 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 0 ((Memref.whole cc5_scratch5 : Memref sig .scVector .vmem S40x128 .f32).view.read (Elt F) g0) :=
    tripInv_zero (F := F) d L fI _ _ _ _ _ (fun _ => rfl)
  sl_exec (disch := first
    | (guard_target = k5_chk161 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g1, %hg, Ho'⟩
  have hT1 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 1 ((Memref.whole cc5_scratch5 : Memref sig .scVector .vmem S40x128 .f32).view.read (Elt F) g1) := by
    rw [hg]
    dsimp only
    refine pair_step (F := F) d L fI _ (640 * k5_t14.val + 320) k5_t18.val (Memref.whole cc5_scratch5 : Memref sig .scVector .vmem S40x128 .f32).view g0 _ 0 (by decide) hk hT0 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT0
  sl_exec (disch := first
    | (guard_target = k5_chk163 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g2, %hg, Ho'⟩
  have hT2 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 2 ((Memref.whole cc5_scratch5 : Memref sig .scVector .vmem S40x128 .f32).view.read (Elt F) g2) := by
    rw [hg]
    dsimp only
    refine pair_step (F := F) d L fI _ (640 * k5_t14.val + 320) k5_t18.val (Memref.whole cc5_scratch5 : Memref sig .scVector .vmem S40x128 .f32).view g1 _ 1 (by decide) hk hT1 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT1
  sl_exec (disch := first
    | (guard_target = k5_chk165 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g3, %hg, Ho'⟩
  have hT3 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 3 ((Memref.whole cc5_scratch5 : Memref sig .scVector .vmem S40x128 .f32).view.read (Elt F) g3) := by
    rw [hg]
    dsimp only
    refine pair_step (F := F) d L fI _ (640 * k5_t14.val + 320) k5_t18.val (Memref.whole cc5_scratch5 : Memref sig .scVector .vmem S40x128 .f32).view g2 _ 2 (by decide) hk hT2 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT2
  sl_exec (disch := first
    | (guard_target = k5_chk167 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g4, %hg, Ho'⟩
  have hT4 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 4 ((Memref.whole cc5_scratch5 : Memref sig .scVector .vmem S40x128 .f32).view.read (Elt F) g4) := by
    rw [hg]
    dsimp only
    refine pair_step (F := F) d L fI _ (640 * k5_t14.val + 320) k5_t18.val (Memref.whole cc5_scratch5 : Memref sig .scVector .vmem S40x128 .f32).view g3 _ 3 (by decide) hk hT3 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT3
  sl_exec (disch := first
    | (guard_target = k5_chk169 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g5, %hg, Ho'⟩
  have hT5 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 5 ((Memref.whole cc5_scratch5 : Memref sig .scVector .vmem S40x128 .f32).view.read (Elt F) g5) := by
    rw [hg]
    dsimp only
    refine pair_step (F := F) d L fI _ (640 * k5_t14.val + 320) k5_t18.val (Memref.whole cc5_scratch5 : Memref sig .scVector .vmem S40x128 .f32).view g4 _ 4 (by decide) hk hT4 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT4
  sl_exec (disch := first
    | (guard_target = k5_chk171 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g6, %hg, Ho'⟩
  have hT6 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 6 ((Memref.whole cc5_scratch5 : Memref sig .scVector .vmem S40x128 .f32).view.read (Elt F) g6) := by
    rw [hg]
    dsimp only
    refine pair_step (F := F) d L fI _ (640 * k5_t14.val + 320) k5_t18.val (Memref.whole cc5_scratch5 : Memref sig .scVector .vmem S40x128 .f32).view g5 _ 5 (by decide) hk hT5 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT5
  sl_exec (disch := first
    | (guard_target = k5_chk173 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g7, %hg, Ho'⟩
  have hT7 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 7 ((Memref.whole cc5_scratch5 : Memref sig .scVector .vmem S40x128 .f32).view.read (Elt F) g7) := by
    rw [hg]
    dsimp only
    refine pair_step (F := F) d L fI _ (640 * k5_t14.val + 320) k5_t18.val (Memref.whole cc5_scratch5 : Memref sig .scVector .vmem S40x128 .f32).view g6 _ 6 (by decide) hk hT6 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT6
  sl_exec (disch := first
    | (guard_target = k5_chk175 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g8, %hg, Ho'⟩
  have hT8 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 8 ((Memref.whole cc5_scratch5 : Memref sig .scVector .vmem S40x128 .f32).view.read (Elt F) g8) := by
    rw [hg]
    dsimp only
    refine pair_step (F := F) d L fI _ (640 * k5_t14.val + 320) k5_t18.val (Memref.whole cc5_scratch5 : Memref sig .scVector .vmem S40x128 .f32).view g7 _ 7 (by decide) hk hT7 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT7
  sl_exec (disch := first
    | (guard_target = k5_chk177 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g9, %hg, Ho'⟩
  have hT9 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 9 ((Memref.whole cc5_scratch5 : Memref sig .scVector .vmem S40x128 .f32).view.read (Elt F) g9) := by
    rw [hg]
    dsimp only
    refine pair_step (F := F) d L fI _ (640 * k5_t14.val + 320) k5_t18.val (Memref.whole cc5_scratch5 : Memref sig .scVector .vmem S40x128 .f32).view g8 _ 8 (by decide) hk hT8 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT8
  sl_exec (disch := first
    | (guard_target = k5_chk179 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g10, %hg, Ho'⟩
  have hT10 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 10 ((Memref.whole cc5_scratch5 : Memref sig .scVector .vmem S40x128 .f32).view.read (Elt F) g10) := by
    rw [hg]
    dsimp only
    refine pair_step (F := F) d L fI _ (640 * k5_t14.val + 320) k5_t18.val (Memref.whole cc5_scratch5 : Memref sig .scVector .vmem S40x128 .f32).view g9 _ 9 (by decide) hk hT9 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT9
  sl_exec (disch := first
    | (guard_target = k5_chk181 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g11, %hg, Ho'⟩
  have hT11 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 11 ((Memref.whole cc5_scratch5 : Memref sig .scVector .vmem S40x128 .f32).view.read (Elt F) g11) := by
    rw [hg]
    dsimp only
    refine pair_step (F := F) d L fI _ (640 * k5_t14.val + 320) k5_t18.val (Memref.whole cc5_scratch5 : Memref sig .scVector .vmem S40x128 .f32).view g10 _ 10 (by decide) hk hT10 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT10
  sl_exec (disch := first
    | (guard_target = k5_chk183 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g12, %hg, Ho'⟩
  have hT12 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 12 ((Memref.whole cc5_scratch5 : Memref sig .scVector .vmem S40x128 .f32).view.read (Elt F) g12) := by
    rw [hg]
    dsimp only
    refine pair_step (F := F) d L fI _ (640 * k5_t14.val + 320) k5_t18.val (Memref.whole cc5_scratch5 : Memref sig .scVector .vmem S40x128 .f32).view g11 _ 11 (by decide) hk hT11 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT11
  sl_exec (disch := first
    | (guard_target = k5_chk185 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g13, %hg, Ho'⟩
  have hT13 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 13 ((Memref.whole cc5_scratch5 : Memref sig .scVector .vmem S40x128 .f32).view.read (Elt F) g13) := by
    rw [hg]
    dsimp only
    refine pair_step (F := F) d L fI _ (640 * k5_t14.val + 320) k5_t18.val (Memref.whole cc5_scratch5 : Memref sig .scVector .vmem S40x128 .f32).view g12 _ 12 (by decide) hk hT12 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT12
  sl_exec (disch := first
    | (guard_target = k5_chk187 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g14, %hg, Ho'⟩
  have hT14 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 14 ((Memref.whole cc5_scratch5 : Memref sig .scVector .vmem S40x128 .f32).view.read (Elt F) g14) := by
    rw [hg]
    dsimp only
    refine pair_step (F := F) d L fI _ (640 * k5_t14.val + 320) k5_t18.val (Memref.whole cc5_scratch5 : Memref sig .scVector .vmem S40x128 .f32).view g13 _ 13 (by decide) hk hT13 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT13
  sl_exec (disch := first
    | (guard_target = k5_chk189 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g15, %hg, Ho'⟩
  have hT15 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 15 ((Memref.whole cc5_scratch5 : Memref sig .scVector .vmem S40x128 .f32).view.read (Elt F) g15) := by
    rw [hg]
    dsimp only
    refine pair_step (F := F) d L fI _ (640 * k5_t14.val + 320) k5_t18.val (Memref.whole cc5_scratch5 : Memref sig .scVector .vmem S40x128 .f32).view g14 _ 14 (by decide) hk hT14 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT14
  sl_exec (disch := first
    | (guard_target = k5_chk191 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g16, %hg, Ho'⟩
  have hT16 : TripInv (F := F) d L fI ((Memref.whole cc5_scratch4 : Memref sig .scVector .vmem S320x128 .f32).view.read (Elt F) fr) (640 * k5_t14.val + 320) k5_t18.val ((Memref.whole cc5_scratch5 : Memref sig .scVector .vmem S40x128 .f32).view.read (Elt F) g0) 16 ((Memref.whole cc5_scratch5 : Memref sig .scVector .vmem S40x128 .f32).view.read (Elt F) g16) := by
    rw [hg]
    dsimp only
    refine pair_step (F := F) d L fI _ (640 * k5_t14.val + 320) k5_t18.val (Memref.whole cc5_scratch5 : Memref sig .scVector .vmem S40x128 .f32).view g15 _ 15 (by decide) hk hT15 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off30 k5_t14 k5_t18) (k5_off30_eq k5_t14 k5_t18) _ x).trans
      (congrArg (idxAtN (F := F) d L fI) (by omega))) rfl rfl
  clear hg hT15
  sl_step
  isplitl [HI']; · iexact HI'
  isplitl [Hr']; · iexact Hr'
  iexists _
  isplitl [Ho']; · iexact Ho'
  ipureintro
  exact outOK_succ (F := F) d L fI _ (640 * k5_t14.val + 320) k5_t18.val _ _ hO hT16

set_option maxHeartbeats 4000000 in
theorem drain_trip_t24_val (d : Dev nD) (L : grid5.Coords) (v2 v17 v48 : BitVec 32) (k5_t20 : Fin k5_t20_loop.trips) (k5_t24 : Fin k5_t24_loop.trips)
    (fI : Buf (Elt F) ((V d (cV L) (jV L)).loc cc5_scratch0)) (fr : Buf (Elt F) ((V d (cV L) (jV L)).loc cc5_scratch4)) :
    drainInvV1 (F := F) d L fI fr (640 * k5_t20.val + 320) k5_t24.val ()
      ⊢ wp frame (wpE (defs₀ (F := F)) 𝒱₀ (V d (cV L) (jV L)) none) Set.univ
          (k5_t24_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t20 v17 v48 k5_t24 ())
          (drainInvV1 (F := F) d L fI fr (640 * k5_t20.val + 320) (k5_t24.val + 1)) := by
  unfold k5_t24_body
  simp only [k5_part35_eq_skeleton, k5_part36_eq_skeleton, k5_part37_eq_skeleton, k5_part38_eq_skeleton]
  unfold k5_part35_skel k5_part36_skel k5_part37_skel k5_part38_skel
  simp only [SparseCore.vectorLoadIdx_bind (c := (V d (cV L) (jV L))), SparseCore.vectorStoreIdx_bind (c := (V d (cV L) (jV L)))]
  have hk : k5_t24.val < 20 := Nat.lt_of_lt_of_le k5_t24.isLt k5_t24_abs.2.1
  unfold drainInvV1
  iintro ⟨HI', Hr', %g0, Ho', %hO⟩
  have hT0 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 0 ((Memref.whole cc5_scratch5 : Memref sig .scVector .vmem S40x128 .f32).view.read (Elt F) g0) :=
    tripInv_zero (F := F) d L fI _ _ _ _ _ (fun _ => rfl)
  sl_exec (disch := first
    | (guard_target = k5_chk225 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g1, %hg, Ho'⟩
  have hT1 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 1 ((Memref.whole cc5_scratch5 : Memref sig .scVector .vmem S40x128 .f32).view.read (Elt F) g1) := by
    rw [hg]
    dsimp only
    refine pair_step (F := F) d L fI _ (640 * k5_t20.val + 320) k5_t24.val (Memref.whole cc5_scratch5 : Memref sig .scVector .vmem S40x128 .f32).view g0 _ 0 (by decide) hk hT0 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT0
  sl_exec (disch := first
    | (guard_target = k5_chk227 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g2, %hg, Ho'⟩
  have hT2 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 2 ((Memref.whole cc5_scratch5 : Memref sig .scVector .vmem S40x128 .f32).view.read (Elt F) g2) := by
    rw [hg]
    dsimp only
    refine pair_step (F := F) d L fI _ (640 * k5_t20.val + 320) k5_t24.val (Memref.whole cc5_scratch5 : Memref sig .scVector .vmem S40x128 .f32).view g1 _ 1 (by decide) hk hT1 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT1
  sl_exec (disch := first
    | (guard_target = k5_chk229 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g3, %hg, Ho'⟩
  have hT3 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 3 ((Memref.whole cc5_scratch5 : Memref sig .scVector .vmem S40x128 .f32).view.read (Elt F) g3) := by
    rw [hg]
    dsimp only
    refine pair_step (F := F) d L fI _ (640 * k5_t20.val + 320) k5_t24.val (Memref.whole cc5_scratch5 : Memref sig .scVector .vmem S40x128 .f32).view g2 _ 2 (by decide) hk hT2 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT2
  sl_exec (disch := first
    | (guard_target = k5_chk231 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g4, %hg, Ho'⟩
  have hT4 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 4 ((Memref.whole cc5_scratch5 : Memref sig .scVector .vmem S40x128 .f32).view.read (Elt F) g4) := by
    rw [hg]
    dsimp only
    refine pair_step (F := F) d L fI _ (640 * k5_t20.val + 320) k5_t24.val (Memref.whole cc5_scratch5 : Memref sig .scVector .vmem S40x128 .f32).view g3 _ 3 (by decide) hk hT3 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT3
  sl_exec (disch := first
    | (guard_target = k5_chk233 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g5, %hg, Ho'⟩
  have hT5 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 5 ((Memref.whole cc5_scratch5 : Memref sig .scVector .vmem S40x128 .f32).view.read (Elt F) g5) := by
    rw [hg]
    dsimp only
    refine pair_step (F := F) d L fI _ (640 * k5_t20.val + 320) k5_t24.val (Memref.whole cc5_scratch5 : Memref sig .scVector .vmem S40x128 .f32).view g4 _ 4 (by decide) hk hT4 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT4
  sl_exec (disch := first
    | (guard_target = k5_chk235 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g6, %hg, Ho'⟩
  have hT6 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 6 ((Memref.whole cc5_scratch5 : Memref sig .scVector .vmem S40x128 .f32).view.read (Elt F) g6) := by
    rw [hg]
    dsimp only
    refine pair_step (F := F) d L fI _ (640 * k5_t20.val + 320) k5_t24.val (Memref.whole cc5_scratch5 : Memref sig .scVector .vmem S40x128 .f32).view g5 _ 5 (by decide) hk hT5 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT5
  sl_exec (disch := first
    | (guard_target = k5_chk237 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g7, %hg, Ho'⟩
  have hT7 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 7 ((Memref.whole cc5_scratch5 : Memref sig .scVector .vmem S40x128 .f32).view.read (Elt F) g7) := by
    rw [hg]
    dsimp only
    refine pair_step (F := F) d L fI _ (640 * k5_t20.val + 320) k5_t24.val (Memref.whole cc5_scratch5 : Memref sig .scVector .vmem S40x128 .f32).view g6 _ 6 (by decide) hk hT6 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT6
  sl_exec (disch := first
    | (guard_target = k5_chk239 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g8, %hg, Ho'⟩
  have hT8 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 8 ((Memref.whole cc5_scratch5 : Memref sig .scVector .vmem S40x128 .f32).view.read (Elt F) g8) := by
    rw [hg]
    dsimp only
    refine pair_step (F := F) d L fI _ (640 * k5_t20.val + 320) k5_t24.val (Memref.whole cc5_scratch5 : Memref sig .scVector .vmem S40x128 .f32).view g7 _ 7 (by decide) hk hT7 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT7
  sl_exec (disch := first
    | (guard_target = k5_chk241 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g9, %hg, Ho'⟩
  have hT9 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 9 ((Memref.whole cc5_scratch5 : Memref sig .scVector .vmem S40x128 .f32).view.read (Elt F) g9) := by
    rw [hg]
    dsimp only
    refine pair_step (F := F) d L fI _ (640 * k5_t20.val + 320) k5_t24.val (Memref.whole cc5_scratch5 : Memref sig .scVector .vmem S40x128 .f32).view g8 _ 8 (by decide) hk hT8 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT8
  sl_exec (disch := first
    | (guard_target = k5_chk243 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g10, %hg, Ho'⟩
  have hT10 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 10 ((Memref.whole cc5_scratch5 : Memref sig .scVector .vmem S40x128 .f32).view.read (Elt F) g10) := by
    rw [hg]
    dsimp only
    refine pair_step (F := F) d L fI _ (640 * k5_t20.val + 320) k5_t24.val (Memref.whole cc5_scratch5 : Memref sig .scVector .vmem S40x128 .f32).view g9 _ 9 (by decide) hk hT9 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT9
  sl_exec (disch := first
    | (guard_target = k5_chk245 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g11, %hg, Ho'⟩
  have hT11 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 11 ((Memref.whole cc5_scratch5 : Memref sig .scVector .vmem S40x128 .f32).view.read (Elt F) g11) := by
    rw [hg]
    dsimp only
    refine pair_step (F := F) d L fI _ (640 * k5_t20.val + 320) k5_t24.val (Memref.whole cc5_scratch5 : Memref sig .scVector .vmem S40x128 .f32).view g10 _ 10 (by decide) hk hT10 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT10
  sl_exec (disch := first
    | (guard_target = k5_chk247 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g12, %hg, Ho'⟩
  have hT12 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 12 ((Memref.whole cc5_scratch5 : Memref sig .scVector .vmem S40x128 .f32).view.read (Elt F) g12) := by
    rw [hg]
    dsimp only
    refine pair_step (F := F) d L fI _ (640 * k5_t20.val + 320) k5_t24.val (Memref.whole cc5_scratch5 : Memref sig .scVector .vmem S40x128 .f32).view g11 _ 11 (by decide) hk hT11 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT11
  sl_exec (disch := first
    | (guard_target = k5_chk249 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g13, %hg, Ho'⟩
  have hT13 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 13 ((Memref.whole cc5_scratch5 : Memref sig .scVector .vmem S40x128 .f32).view.read (Elt F) g13) := by
    rw [hg]
    dsimp only
    refine pair_step (F := F) d L fI _ (640 * k5_t20.val + 320) k5_t24.val (Memref.whole cc5_scratch5 : Memref sig .scVector .vmem S40x128 .f32).view g12 _ 12 (by decide) hk hT12 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT12
  sl_exec (disch := first
    | (guard_target = k5_chk251 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g14, %hg, Ho'⟩
  have hT14 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 14 ((Memref.whole cc5_scratch5 : Memref sig .scVector .vmem S40x128 .f32).view.read (Elt F) g14) := by
    rw [hg]
    dsimp only
    refine pair_step (F := F) d L fI _ (640 * k5_t20.val + 320) k5_t24.val (Memref.whole cc5_scratch5 : Memref sig .scVector .vmem S40x128 .f32).view g13 _ 13 (by decide) hk hT13 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT13
  sl_exec (disch := first
    | (guard_target = k5_chk253 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g15, %hg, Ho'⟩
  have hT15 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 15 ((Memref.whole cc5_scratch5 : Memref sig .scVector .vmem S40x128 .f32).view.read (Elt F) g15) := by
    rw [hg]
    dsimp only
    refine pair_step (F := F) d L fI _ (640 * k5_t20.val + 320) k5_t24.val (Memref.whole cc5_scratch5 : Memref sig .scVector .vmem S40x128 .f32).view g14 _ 14 (by decide) hk hT14 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT14
  sl_exec (disch := first
    | (guard_target = k5_chk255 _ _; exact chk2 _ _ _ (fun x => row_lt _ lane_lt _ hk x) (fun x => col_lt _ _ (lt16_of_ble rfl)))
    | exact chk2 _ _ _ (fun x => hi_lt _ _ (row_lt _ lane_lt _ hk x) (lt16_of_ble rfl)) (fun x => lo_lt _))
  ihave Hx := (pts_repack (F := F)) $$ Ho'
  icases Hx with ⟨%g16, %hg, Ho'⟩
  have hT16 : TripInv (F := F) d L fI ((Memref.whole cc5_scratch4 : Memref sig .scVector .vmem S320x128 .f32).view.read (Elt F) fr) (640 * k5_t20.val + 320) k5_t24.val ((Memref.whole cc5_scratch5 : Memref sig .scVector .vmem S40x128 .f32).view.read (Elt F) g0) 16 ((Memref.whole cc5_scratch5 : Memref sig .scVector .vmem S40x128 .f32).view.read (Elt F) g16) := by
    rw [hg]
    dsimp only
    refine pair_step (F := F) d L fI _ (640 * k5_t20.val + 320) k5_t24.val (Memref.whole cc5_scratch5 : Memref sig .scVector .vmem S40x128 .f32).view g15 _ 15 (by decide) hk hT15 _ ?hrows _ _ _ _ _ _ ?huh ?hul ?hur ?huc
    case hrows => exact fun q => readAt_whole_apply _ _ q
    case huh => exact fun x => hi_eq _ _ _ _ _ (rowv_eq _ hk x) hk (x 0).isLt rfl rfl
    case hul => exact fun x => lo_eq _ _ _ _ _ (rowv_eq _ hk x) hk (x 0).isLt rfl rfl
    case hur => exact fun x => rowv_eq _ hk x
    case huc => exact fun x => col_eq _ _ _ _ ((load_word_val (F := F) d L fI _ (k5_off40 k5_t20 k5_t24) (k5_off40_eq k5_t20 k5_t24) _ x).trans
      (congrArg (idxAtN (F := F) d L fI) (by omega))) rfl rfl
  clear hg hT15
  sl_step
  isplitl [HI']; · iexact HI'
  isplitl [Hr']; · iexact Hr'
  iexists _
  isplitl [Ho']; · iexact Ho'
  ipureintro
  exact outOK_succ (F := F) d L fI _ (640 * k5_t20.val + 320) k5_t24.val _ _ hO hT16

end Cert.Proof.ScBody

end
-- ==== Proof.ScValJoin.lean ====
/-
  Two joins of the vector-subcore task's values: after the tile's synchronous copy the index scratch holds the tile's
  slice of its index array, and two chunks copied out over lines already right leave the lines right eighty further.
-/
import proofs.«203359_g24824910971486_cont_8to1_1854_34_alg».proof.Proof.ScValOut

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## After the tile's copy the index scratch holds the tile's slice -/

/-- Index array 0: the scratch written whole with the tile's slice holds, at place `n`, the array's word at place
    `ioff L + n`. -/
theorem idx_is_0 (d : Dev nD) (L : grid5.Coords) (fprev : Buf (Elt F) ((V d (cV L) (jV L)).loc cc5_scratch0))
    (I0 : Buf (Elt F) (i0Loc d)) :
    IdxIs (F := F) d L (View.write (Elt F) (Memref.whole cc5_scratch0 : Memref sig .scVector .vmem S25600 .i32).view fprev
      (ReadAs.same.apply (((Memref.whole main_v11_scv).slice (Rect.unit (s := S819200) (k5_off1 L) ![25600] (k5_off1_inb L))
        (fun _ => rfl)).view.read (Elt F) I0)) Finset.univ) I0 := by
  intro n hn
  unfold idxAtN
  rw [View.read_write_univ, ReadAs.apply_same, View.read_apply, cast_eq]
  refine congrArg I0 (funext fun a => Fin.ext ?_)
  obtain ⟨av, ah⟩ := a
  have hav : av = 0 := by change av < 1 at ah; omega
  subst hav
  show k5_off1 L 0 + 1 * (n % 25600) = ioff L + n
  rw [congrFun (k5_off1_eq L) 0, Nat.mod_eq_of_lt hn, Nat.one_mul]
  rfl

/-- The same with the slice's extent spelt as the scratch's shape's. -/
theorem idx_is_0' (d : Dev nD) (L : grid5.Coords) (fprev : Buf (Elt F) ((V d (cV L) (jV L)).loc cc5_scratch0))
    (I0 : Buf (Elt F) (i0Loc d)) :
    IdxIs (F := F) d L (View.write (Elt F) (Memref.whole cc5_scratch0 : Memref sig .scVector .vmem S25600 .i32).view fprev
      (ReadAs.same.apply (((Memref.whole main_v11_scv).slice (Rect.unit (s := S819200) (k5_off1 L) S25600.size (k5_off1_inb L))
        (fun _ => rfl)).view.read (Elt F) I0)) Finset.univ) I0 := by
  intro n hn
  unfold idxAtN
  rw [View.read_write_univ, ReadAs.apply_same, View.read_apply, cast_eq]
  refine congrArg I0 (funext fun a => Fin.ext ?_)
  obtain ⟨av, ah⟩ := a
  have hav : av = 0 := by change av < 1 at ah; omega
  subst hav
  show k5_off1 L 0 + 1 * (n % 25600) = ioff L + n
  rw [congrFun (k5_off1_eq L) 0, Nat.mod_eq_of_lt hn, Nat.one_mul]
  rfl

/-- Index array 1: the scratch written whole with the tile's slice holds, at place `n`, the array's word at place
    `ioff L + n`. -/
theorem idx_is_1 (d : Dev nD) (L : grid5.Coords) (fprev : Buf (Elt F) ((V d (cV L) (jV L)).loc cc5_scratch0))
    (I1 : Buf (Elt F) (i1Loc d)) :
    IdxIs (F := F) d L (View.write (Elt F) (Memref.whole cc5_scratch0 : Memref sig .scVector .vmem S25600 .i32).view fprev
      (ReadAs.same.apply (((Memref.whole main_v12_scv).slice (Rect.unit (s := S819200) (k5_off1 L) ![25600] (k5_off1_inb L))
        (fun _ => rfl)).view.read (Elt F) I1)) Finset.univ) I1 := by
  intro n hn
  unfold idxAtN
  rw [View.read_write_univ, ReadAs.apply_same, View.read_apply, cast_eq]
  refine congrArg I1 (funext fun a => Fin.ext ?_)
  obtain ⟨av, ah⟩ := a
  have hav : av = 0 := by change av < 1 at ah; omega
  subst hav
  show k5_off1 L 0 + 1 * (n % 25600) = ioff L + n
  rw [congrFun (k5_off1_eq L) 0, Nat.mod_eq_of_lt hn, Nat.one_mul]
  rfl

/-- The same with the slice's extent spelt as the scratch's shape's. -/
theorem idx_is_1' (d : Dev nD) (L : grid5.Coords) (fprev : Buf (Elt F) ((V d (cV L) (jV L)).loc cc5_scratch0))
    (I1 : Buf (Elt F) (i1Loc d)) :
    IdxIs (F := F) d L (View.write (Elt F) (Memref.whole cc5_scratch0 : Memref sig .scVector .vmem S25600 .i32).view fprev
      (ReadAs.same.apply (((Memref.whole main_v12_scv).slice (Rect.unit (s := S819200) (k5_off1 L) S25600.size (k5_off1_inb L))
        (fun _ => rfl)).view.read (Elt F) I1)) Finset.univ) I1 := by
  intro n hn
  unfold idxAtN
  rw [View.read_write_univ, ReadAs.apply_same, View.read_apply, cast_eq]
  refine congrArg I1 (funext fun a => Fin.ext ?_)
  obtain ⟨av, ah⟩ := a
  have hav : av = 0 := by change av < 1 at ah; omega
  subst hav
  show k5_off1 L 0 + 1 * (n % 25600) = ioff L + n
  rw [congrFun (k5_off1_eq L) 0, Nat.mod_eq_of_lt hn, Nat.one_mul]
  rfl

/-- Index array 2: the scratch written whole with the tile's slice holds, at place `n`, the array's word at place
    `ioff L + n`. -/
theorem idx_is_2 (d : Dev nD) (L : grid5.Coords) (fprev : Buf (Elt F) ((V d (cV L) (jV L)).loc cc5_scratch0))
    (I2 : Buf (Elt F) (i2Loc d)) :
    IdxIs (F := F) d L (View.write (Elt F) (Memref.whole cc5_scratch0 : Memref sig .scVector .vmem S25600 .i32).view fprev
      (ReadAs.same.apply (((Memref.whole main_v13_scv).slice (Rect.unit (s := S819200) (k5_off1 L) ![25600] (k5_off1_inb L))
        (fun _ => rfl)).view.read (Elt F) I2)) Finset.univ) I2 := by
  intro n hn
  unfold idxAtN
  rw [View.read_write_univ, ReadAs.apply_same, View.read_apply, cast_eq]
  refine congrArg I2 (funext fun a => Fin.ext ?_)
  obtain ⟨av, ah⟩ := a
  have hav : av = 0 := by change av < 1 at ah; omega
  subst hav
  show k5_off1 L 0 + 1 * (n % 25600) = ioff L + n
  rw [congrFun (k5_off1_eq L) 0, Nat.mod_eq_of_lt hn, Nat.one_mul]
  rfl

/-- The same with the slice's extent spelt as the scratch's shape's. -/
theorem idx_is_2' (d : Dev nD) (L : grid5.Coords) (fprev : Buf (Elt F) ((V d (cV L) (jV L)).loc cc5_scratch0))
    (I2 : Buf (Elt F) (i2Loc d)) :
    IdxIs (F := F) d L (View.write (Elt F) (Memref.whole cc5_scratch0 : Memref sig .scVector .vmem S25600 .i32).view fprev
      (ReadAs.same.apply (((Memref.whole main_v13_scv).slice (Rect.unit (s := S819200) (k5_off1 L) S25600.size (k5_off1_inb L))
        (fun _ => rfl)).view.read (Elt F) I2)) Finset.univ) I2 := by
  intro n hn
  unfold idxAtN
  rw [View.read_write_univ, ReadAs.apply_same, View.read_apply, cast_eq]
  refine congrArg I2 (funext fun a => Fin.ext ?_)
  obtain ⟨av, ah⟩ := a
  have hav : av = 0 := by change av < 1 at ah; omega
  subst hav
  show k5_off1 L 0 + 1 * (n % 25600) = ioff L + n
  rw [congrFun (k5_off1_eq L) 0, Nat.mod_eq_of_lt hn, Nat.one_mul]
  rfl

/-- Index array 3: the scratch written whole with the tile's slice holds, at place `n`, the array's word at place
    `ioff L + n`. -/
theorem idx_is_3 (d : Dev nD) (L : grid5.Coords) (fprev : Buf (Elt F) ((V d (cV L) (jV L)).loc cc5_scratch0))
    (I3 : Buf (Elt F) (i3Loc d)) :
    IdxIs (F := F) d L (View.write (Elt F) (Memref.whole cc5_scratch0 : Memref sig .scVector .vmem S25600 .i32).view fprev
      (ReadAs.same.apply (((Memref.whole main_v14_scv).slice (Rect.unit (s := S819200) (k5_off1 L) ![25600] (k5_off1_inb L))
        (fun _ => rfl)).view.read (Elt F) I3)) Finset.univ) I3 := by
  intro n hn
  unfold idxAtN
  rw [View.read_write_univ, ReadAs.apply_same, View.read_apply, cast_eq]
  refine congrArg I3 (funext fun a => Fin.ext ?_)
  obtain ⟨av, ah⟩ := a
  have hav : av = 0 := by change av < 1 at ah; omega
  subst hav
  show k5_off1 L 0 + 1 * (n % 25600) = ioff L + n
  rw [congrFun (k5_off1_eq L) 0, Nat.mod_eq_of_lt hn, Nat.one_mul]
  rfl

/-- The same with the slice's extent spelt as the scratch's shape's. -/
theorem idx_is_3' (d : Dev nD) (L : grid5.Coords) (fprev : Buf (Elt F) ((V d (cV L) (jV L)).loc cc5_scratch0))
    (I3 : Buf (Elt F) (i3Loc d)) :
    IdxIs (F := F) d L (View.write (Elt F) (Memref.whole cc5_scratch0 : Memref sig .scVector .vmem S25600 .i32).view fprev
      (ReadAs.same.apply (((Memref.whole main_v14_scv).slice (Rect.unit (s := S819200) (k5_off1 L) S25600.size (k5_off1_inb L))
        (fun _ => rfl)).view.read (Elt F) I3)) Finset.univ) I3 := by
  intro n hn
  unfold idxAtN
  rw [View.read_write_univ, ReadAs.apply_same, View.read_apply, cast_eq]
  refine congrArg I3 (funext fun a => Fin.ext ?_)
  obtain ⟨av, ah⟩ := a
  have hav : av = 0 := by change av < 1 at ah; omega
  subst hav
  show k5_off1 L 0 + 1 * (n % 25600) = ioff L + n
  rw [congrFun (k5_off1_eq L) 0, Nat.mod_eq_of_lt hn, Nat.one_mul]
  rfl

/-! ## Two chunks copied out -/

/-- Two chunks of forty lines copied out, one after the other, over lines that were right below the first: the lines are
    right eighty further. -/
theorem out_step (L : grid5.Coords) (GA : S102400x128.Idx → Elt F .f32) (E O : Finset S102400x128.Idx)
    [∀ j, Decidable (j ∈ E)] [∀ j, Decidable (j ∈ O)] (c : Nat)
    (hE : ∀ idx, idx ∈ E ↔ (obase L + c ≤ (idx 0).val ∧ (idx 0).val < obase L + c + 40))
    (hO : ∀ idx, idx ∈ O ↔ (obase L + c + 40 ≤ (idx 0).val ∧ (idx 0).val < obase L + c + 80))
    (fo gE gO : S102400x128.Idx → Elt F .f32)
    (hIH : ∀ idx ∈ oSet L, (idx 0).val < obase L + c → fo idx = GA idx)
    (hgE : ∀ idx, obase L + c ≤ (idx 0).val → (idx 0).val < obase L + c + 40 → gE idx = GA idx)
    (hgO : ∀ idx, obase L + c + 40 ≤ (idx 0).val → (idx 0).val < obase L + c + 80 → gO idx = GA idx) :
    ∀ idx ∈ oSet L, (idx 0).val < obase L + (c + 80) → (E.piecewise gE (O.piecewise gO fo)) idx = GA idx := by
  intro idx hi hlt
  by_cases h1 : idx ∈ E
  · rw [Finset.piecewise_eq_of_mem _ _ _ h1]
    exact hgE idx ((hE idx).mp h1).1 ((hE idx).mp h1).2
  · rw [Finset.piecewise_eq_of_notMem _ _ _ h1]
    by_cases h2 : idx ∈ O
    · rw [Finset.piecewise_eq_of_mem _ _ _ h2]
      exact hgO idx ((hO idx).mp h2).1 ((hO idx).mp h2).2
    · rw [Finset.piecewise_eq_of_notMem _ _ _ h2]
      refine hIH idx hi ?_
      have n1 := (hE idx).not.mp h1
      have n2 := (hO idx).not.mp h2
      omega

end Cert.Proof.ScBody

end
-- ==== Proof.ScMainVal0.lean ====
/-
  One trip of the main loop of table 0 of the lookup kernel, with the values: the chunks' offset lists hold the
  shifted index words, the landed rows the tables' rows they name, the drained output scratch the chunk's elements, and
  the tile's lines of the output, eighty lines further each trip, the gathered elements.
-/
import proofs.«203359_g24824910971486_cont_8to1_1854_34_alg».proof.Proof.ScMain0
import proofs.«203359_g24824910971486_cont_8to1_1854_34_alg».proof.Proof.ScValOut
import proofs.«203359_g24824910971486_cont_8to1_1854_34_alg».proof.Proof.ScPrepVal
import proofs.«203359_g24824910971486_cont_8to1_1854_34_alg».proof.Proof.ScDrainValA
import proofs.«203359_g24824910971486_cont_8to1_1854_34_alg».proof.Proof.ScDrainValB
import proofs.«203359_g24824910971486_cont_8to1_1854_34_alg».proof.Proof.ScValJoin

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- What is pending on the first gather semaphore at the start of trip `k`, with the landed rows' values. -/
def pendV0 (d : Dev nD) (L : grid5.Coords) (qT : PosShare TreeShare) (T0 : Buf (Elt F) (t0Loc d))
    (fI : Buf (Elt F) ((V d (cV L) (jV L)).loc cc5_scratch0)) (k : Nat) : sProp 𝕄 :=
  if k < 40 then
    iprop((∃ (fd : Buf (Elt F) ((V d (cV L) (jV L)).loc cc5_scratch3)) (fo : Buf (Elt F) ((V d (cV L) (jV L)).loc cc5_scratch1)),
        ⌜RowsOK (F := F) d L ((tblSlice0).view.read (Elt F) T0) fI (640 * k)
            ((Memref.whole cc5_scratch3 : Memref sig .scVector .vmem S320x128 .f32).view.read (Elt F) fd)⌝
        ∗ Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v7_scv).view.loc (V d (cV L) (jV L)) ↦[(tblSlice0).view.set]{qT.left} T0)))
      ∗ ((Memref.whole main_v7_scv).view.loc (V d (cV L) (jV L)) ↦[Finset.univ \ (tblSlice0).view.set]{qT.left} T0))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v7_scv).view.loc (V d (cV L) (jV L)) ↦{qT.left} T0) ∗ semVal (cellOf d L cc5_scratch6) 0)

/-- The invariant of the main loop of table 0, with the values: the tile's lines of the output before line
    `80 k` of its own hold the gathered elements. -/
def mainInvV0 (d : Dev nD) (L : grid5.Coords) (qT : PosShare TreeShare) (T0 : Buf (Elt F) (t0Loc d)) (I0 : Buf (Elt F) (i0Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v7_scv).view.loc (V d (cV L) (jV L)) ↦{qT.right} T0)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped1) 0 ∗ semVal (cellOf d L cc5_scoped2) 0
    ∗ (∃ f : Buf (Elt F) (o0Loc d), ⌜∀ idx ∈ oSet L, (idx 0).val < obase L + 80 * k → f idx = gatherAt (F := F) T0 I0 idx⌝
        ∗ o0Loc d ↦[oSet L]{fullShare} f)
    ∗ pendV0 (F := F) d L qT T0 fI k
    ∗ ∃ W', ⌜∀ p ∈ W', p ∈ W ∨ p.2 = none⌝ ∗ owes (V d (cV L) (jV L)) O W')

/-- The drain loops' invariants with the row scratch's contents left open: some contents holding the landed rows. -/
def drainInvX0_0 (d : Dev nD) (L : grid5.Coords) (T0 : Buf (Elt F) (t0Loc d)) (fI : Buf (Elt F) ((V d (cV L) (jV L)).loc cc5_scratch0)) (cb : Nat) (k : Nat) (u : PUnit) : sProp 𝕄 :=
  iprop(∃ fr : Buf (Elt F) ((V d (cV L) (jV L)).loc cc5_scratch3), ⌜RowsOK (F := F) d L ((tblSlice0).view.read (Elt F) T0) fI cb
      ((Memref.whole cc5_scratch3 : Memref sig .scVector .vmem S320x128 .f32).view.read (Elt F) fr)⌝ ∗ drainInvV0 (F := F) d L fI fr cb k u)
def drainInvX1_0 (d : Dev nD) (L : grid5.Coords) (T0 : Buf (Elt F) (t0Loc d)) (fI : Buf (Elt F) ((V d (cV L) (jV L)).loc cc5_scratch0)) (cb : Nat) (k : Nat) (u : PUnit) : sProp 𝕄 :=
  iprop(∃ fr : Buf (Elt F) ((V d (cV L) (jV L)).loc cc5_scratch4), ⌜RowsOK (F := F) d L ((tblSlice0).view.read (Elt F) T0) fI cb
      ((Memref.whole cc5_scratch4 : Memref sig .scVector .vmem S320x128 .f32).view.read (Elt F) fr)⌝ ∗ drainInvV1 (F := F) d L fI fr cb k u)

/-- The table as its full-size slice reads it. -/
theorem read_tblSlice0 (d : Dev nD) (L : grid5.Coords) (T0 : Buf (Elt F) (t0Loc d)) (i : S12500x128.Idx) :
    (tblSlice0).view.read (Elt F) T0 i = T0 i := by
  rw [View.read_apply, cast_eq]
  congr 1
  funext a
  apply Fin.ext
  show ((Rect.unit (s := S12500x128) ![0, 0] ![12500, 128] inb_S12500x128_S12500x128_0_0).emb i a).val = (i a).val
  rw [Rect.emb_apply]
  simp only [Rect.off_unit, Rect.stride_unit]
  match a with
  | 0 => show 0 + 1 * (i 0).val = (i 0).val; omega
  | 1 => show 0 + 1 * (i 1).val = (i 1).val; omega

/-- A chunk's lines written whole from the output scratch read back the output scratch, place by place. -/
theorem chunkE_val0 (d : Dev nD) (L : grid5.Coords) (k : Fin k5_t2_loop.trips) (fo : Buf (Elt F) (o0Loc d)) (w : S40x128.Idx → Elt F .f32)
    (idx : S102400x128.Idx) (h1 : obase L + 80 * k.val ≤ (idx 0).val) (h2 : (idx 0).val < obase L + 80 * k.val + 40) :
    ((chunkE0 L k).view.writes (Elt F) fo [⟨Rect.whole S40x128, w⟩]) idx
      = w (ix2 (⟨(idx 0).val - (obase L + 80 * k.val), by omega⟩ : Fin 40) (⟨(idx 1).val, (idx 1).isLt⟩ : Fin 128)) := by
  have hemb : (chunkE0 L k).view.emb ((Rect.whole S40x128).emb (ix2 (⟨(idx 0).val - (obase L + 80 * k.val), by omega⟩ : Fin 40) (⟨(idx 1).val, (idx 1).isLt⟩ : Fin 128))) = idx := by
    rw [Rect.emb_whole_apply]
    funext a
    apply Fin.ext
    show ((Rect.unit (s := S102400x128) (k5_off7 L k) ![40, 128] (k5_off7_inb L k)).emb _ a).val = (idx a).val
    rw [Rect.emb_apply]
    simp only [Rect.off_unit, Rect.stride_unit, k5_off7_eq]
    match a with
    | 0 => show obase L + 80 * k.val + 1 * ((idx 0).val - (obase L + 80 * k.val)) = (idx 0).val; omega
    | 1 => show 0 + 1 * (idx 1).val = (idx 1).val; omega
  have hr := View.read_writes_cons_emb (chunkE0 L k).view fo (Rect.whole S40x128) w [] (ix2 (⟨(idx 0).val - (obase L + 80 * k.val), by omega⟩ : Fin 40) (⟨(idx 1).val, (idx 1).isLt⟩ : Fin 128))
  rw [View.read_apply, hemb] at hr
  exact (cast_eq _ _).symm.trans hr

/-- A chunk's lines written whole from the output scratch read back the output scratch, place by place. -/
theorem chunkO_val0 (d : Dev nD) (L : grid5.Coords) (k : Fin k5_t2_loop.trips) (fo : Buf (Elt F) (o0Loc d)) (w : S40x128.Idx → Elt F .f32)
    (idx : S102400x128.Idx) (h1 : obase L + 80 * k.val + 40 ≤ (idx 0).val) (h2 : (idx 0).val < obase L + 80 * k.val + 40 + 40) :
    ((chunkO0 L k).view.writes (Elt F) fo [⟨Rect.whole S40x128, w⟩]) idx
      = w (ix2 (⟨(idx 0).val - (obase L + 80 * k.val + 40), by omega⟩ : Fin 40) (⟨(idx 1).val, (idx 1).isLt⟩ : Fin 128)) := by
  have hemb : (chunkO0 L k).view.emb ((Rect.whole S40x128).emb (ix2 (⟨(idx 0).val - (obase L + 80 * k.val + 40), by omega⟩ : Fin 40) (⟨(idx 1).val, (idx 1).isLt⟩ : Fin 128))) = idx := by
    rw [Rect.emb_whole_apply]
    funext a
    apply Fin.ext
    show ((Rect.unit (s := S102400x128) (k5_off11 L k) ![40, 128] (k5_off11_inb L k)).emb _ a).val = (idx a).val
    rw [Rect.emb_apply]
    simp only [Rect.off_unit, Rect.stride_unit, k5_off11_eq]
    match a with
    | 0 => show obase L + 80 * k.val + 40 + 1 * ((idx 0).val - (obase L + 80 * k.val + 40)) = (idx 0).val; omega
    | 1 => show 0 + 1 * (idx 1).val = (idx 1).val; omega
  have hr := View.read_writes_cons_emb (chunkO0 L k).view fo (Rect.whole S40x128) w [] (ix2 (⟨(idx 0).val - (obase L + 80 * k.val + 40), by omega⟩ : Fin 40) (⟨(idx 1).val, (idx 1).isLt⟩ : Fin 128))
  rw [View.read_apply, hemb] at hr
  exact (cast_eq _ _).symm.trans hr

theorem drainX_trip_t4 (d : Dev nD) (L : grid5.Coords) (T0 : Buf (Elt F) (t0Loc d)) (v2 c0 c1 v17 : BitVec 32) (k5_t2 : Fin k5_t2_loop.trips) (k : Fin k5_t4_loop.trips)
    (fI : Buf (Elt F) ((V d (cV L) (jV L)).loc cc5_scratch0)) :
    drainInvX0_0 (F := F) d L T0 fI (640 * k5_t2.val) k.val ()
      ⊢ wp frame (wpE (defs₀ (F := F)) 𝒱₀ (V d (cV L) (jV L)) none) Set.univ (k5_t4_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t2 v17 k ())
          (drainInvX0_0 (F := F) d L T0 fI (640 * k5_t2.val) (k.val + 1)) := by
  unfold drainInvX0_0
  iintro ⟨%fr, %hr, H⟩
  iapply (wp_mono frame _ _ (fun u => show drainInvV0 (F := F) d L fI fr (640 * k5_t2.val) (k.val + 1) u ⊢ iprop(∃ fr : Buf (Elt F) ((V d (cV L) (jV L)).loc cc5_scratch3), ⌜RowsOK (F := F) d L ((tblSlice0).view.read (Elt F) T0) fI (640 * k5_t2.val) ((Memref.whole cc5_scratch3 : Memref sig .scVector .vmem S320x128 .f32).view.read (Elt F) fr)⌝ ∗ drainInvV0 (F := F) d L fI fr (640 * k5_t2.val) (k.val + 1) u) from by
    iintro H; iexists fr; isplitr; · ipureintro; exact hr
    iexact H))
  iapply (drain_trip_t4_val (F := F) d L v2 c0 c1 v17 k5_t2 k fI fr)
  iexact H

theorem drainX_trip_t6 (d : Dev nD) (L : grid5.Coords) (T0 : Buf (Elt F) (t0Loc d)) (v2 v17 v48 : BitVec 32) (k5_t2 : Fin k5_t2_loop.trips) (k : Fin k5_t6_loop.trips)
    (fI : Buf (Elt F) ((V d (cV L) (jV L)).loc cc5_scratch0)) :
    drainInvX1_0 (F := F) d L T0 fI (640 * k5_t2.val + 320) k.val ()
      ⊢ wp frame (wpE (defs₀ (F := F)) 𝒱₀ (V d (cV L) (jV L)) none) Set.univ (k5_t6_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t2 v17 v48 k ())
          (drainInvX1_0 (F := F) d L T0 fI (640 * k5_t2.val + 320) (k.val + 1)) := by
  unfold drainInvX1_0
  iintro ⟨%fr, %hr, H⟩
  iapply (wp_mono frame _ _ (fun u => show drainInvV1 (F := F) d L fI fr (640 * k5_t2.val + 320) (k.val + 1) u ⊢ iprop(∃ fr : Buf (Elt F) ((V d (cV L) (jV L)).loc cc5_scratch4), ⌜RowsOK (F := F) d L ((tblSlice0).view.read (Elt F) T0) fI (640 * k5_t2.val + 320) ((Memref.whole cc5_scratch4 : Memref sig .scVector .vmem S320x128 .f32).view.read (Elt F) fr)⌝ ∗ drainInvV1 (F := F) d L fI fr (640 * k5_t2.val + 320) (k.val + 1) u) from by
    iintro H; iexists fr; isplitr; · ipureintro; exact hr
    iexact H))
  iapply (drain_trip_t6_val (F := F) d L v2 v17 v48 k5_t2 k fI fr)
  iexact H

set_option maxHeartbeats 16000000 in
theorem main_trip_t2_val (d : Dev nD) (L : grid5.Coords) (qT : PosShare TreeShare) (T0 : Buf (Elt F) (t0Loc d)) (I0 : Buf (Elt F) (i0Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (hIs : IdxIs (F := F) d L fI I0)
    (O : CellTallies nD τ sig (HIx 1)) (W : Waits sig (HIx 1)) (k5_t2 : Fin k5_t2_loop.trips) :
    mainInvV0 (F := F) d L qT T0 I0 fI O W k5_t2.val ()
      ⊢ wp frame (wpE (defs₀ (F := F)) 𝒱₀ (V d (cV L) (jV L)) none) Set.univ
          (k5_t2_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t2 ())
          (mainInvV0 (F := F) d L qT T0 I0 fI O W (k5_t2.val + 1)) := by
  have hk : k5_t2.val < 40 := Nat.lt_of_lt_of_le k5_t2.isLt k5_t2_abs.2.1
  have hIall : ∀ n, IdxOK (idxAtN (F := F) d L fI n) := fun n => hI _
  unfold k5_t2_body
  simp only [k5_part9_eq_skeleton, k5_part10_eq_skeleton]
  unfold k5_part9_skel k5_part10_skel
  simp only [Prog.bind_assoc]
  unfold mainInvV0 pendV0
  rw [if_pos hk]
  iintro ⟨#Hmw, Htb, HI, ⟨%fs1, Hs1⟩, ⟨%fr1, Hr1⟩, Hsem21, ⟨%fout, Hout⟩, HscE, HscO, ⟨%fo, %hfo, Ho⟩, ⟨⟨%fd, %fo0, %hrows0, Hfl⟩, Htrem⟩, %W', %hW', HO⟩
  have hsetE : (chunkE0 L k5_t2).view.set = (Rect.unit (s := S102400x128) (k5_off7 L k5_t2) ![40, 128] (k5_off7_inb L k5_t2)).set := View.set_slice_whole _ _
  have hsetO : (chunkO0 L k5_t2).view.set = (Rect.unit (s := S102400x128) (k5_off11 L k5_t2) ![40, 128] (k5_off11_inb L k5_t2)).set := View.set_slice_whole _ _
  have hmemE : ∀ idx : S102400x128.Idx, idx ∈ (chunkE0 L k5_t2).view.set ↔ (obase L + 80 * k5_t2.val ≤ (idx 0).val ∧ (idx 0).val < obase L + 80 * k5_t2.val + 40) := by
    intro idx
    rw [hsetE, Rect.mem_set_unit, k5_off7_eq]
    constructor
    · intro h
      have h0 : obase L + 80 * k5_t2.val ≤ (idx 0).val ∧ (idx 0).val < obase L + 80 * k5_t2.val + 40 := h 0
      exact h0
    · intro h a
      match a with
      | 0 => exact h
      | 1 => exact ⟨Nat.zero_le _, by show (idx 1).val < 0 + 128; have h128 : (idx 1).val < 128 := (idx 1).isLt; omega⟩
  have hmemO : ∀ idx : S102400x128.Idx, idx ∈ (chunkO0 L k5_t2).view.set ↔ (obase L + 80 * k5_t2.val + 40 ≤ (idx 0).val ∧ (idx 0).val < obase L + 80 * k5_t2.val + 80) := by
    intro idx
    rw [hsetO, Rect.mem_set_unit, k5_off11_eq]
    constructor
    · intro h
      have h0 : obase L + 80 * k5_t2.val + 40 ≤ (idx 0).val ∧ (idx 0).val < obase L + 80 * k5_t2.val + 40 + 40 := h 0
      exact ⟨h0.1, by omega⟩
    · intro h a
      match a with
      | 0 => exact ⟨h.1, by show (idx 0).val < obase L + 80 * k5_t2.val + 40 + 40; omega⟩
      | 1 => exact ⟨Nat.zero_le _, by show (idx 1).val < 0 + 128; have h128 : (idx 1).val < 128 := (idx 1).isLt; omega⟩
  have hsubE : (chunkE0 L k5_t2).view.set ⊆ oSet L := by
    rw [hsetE]
    exact chunkRect_sub L _ (80 * k5_t2.val) (by omega) (k5_off7_eq L k5_t2) _
  have hsubO : (chunkO0 L k5_t2).view.set ⊆ oSet L \ (chunkE0 L k5_t2).view.set := by
    rw [hsetO, hsetE]
    exact Finset.subset_sdiff.mpr ⟨chunkRect_sub L _ (80 * k5_t2.val + 40) (by omega) (k5_off11_eq L k5_t2) _,
      (chunkRect_disj L _ _ (80 * k5_t2.val) (k5_off7_eq L k5_t2) (k5_off11_eq L k5_t2) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o0Loc d ↦[(chunkE0 L k5_t2).view.set]{fullShare} fo : sProp 𝕄)) ⊢ ((chunkE0 L k5_t2).view.loc (V d (cV L) (jV L)) ↦[(chunkE0 L k5_t2).view.set]{fullShare} fo) from Entails.of_eq rfl) $$ HcE
  ihave HcO' := (show ((o0Loc d ↦[(chunkO0 L k5_t2).view.set]{fullShare} fo : sProp 𝕄)) ⊢ ((chunkO0 L k5_t2).view.loc (V d (cV L) (jV L)) ↦[(chunkO0 L k5_t2).view.set]{fullShare} fo) from Entails.of_eq rfl) $$ HcO
  sl_for (prepInvV1 (F := F) d L fI (640 * k5_t2.val + 320)) $$ [HI Hs1]
  case region =>
    intro k u
    exact prep_trip_t3_val (F := F) d L _ _ _ _ k5_t2 k fI
  · unfold prepInvV1
    isplitl [HI]; · iexact HI
    iexists fs1
    isplitl [Hs1]; · iexact Hs1
    ipureintro; intro y hy; omega
  iintro %_ HIv
  unfold prepInvV1
  icases HIv with ⟨HI, %fs1', Hs1, %hfs1⟩
  have htr3 : Scf.trips k5_t3_loop.lb k5_t3_loop.ub k5_t3_loop.st = 20 := by decide
  rw [htr3] at hfs1
  have hin3 : ∀ x, ((Memref.whole cc5_scratch2 : Memref sig .scVector .vmem S320 .i32).view.read (Elt F) fs1' x).toNat < S12500x128.size gathers_S12500x128_S320x128.axis :=
    supOK_lt (F := F) d L fI (640 * k5_t2.val + 320) _ hfs1 hIall
  sl_exec
  sl_for (drainInvX0_0 (F := F) d L T0 fI (640 * k5_t2.val)) $$ [HI Hfl_dst Hout]
  case region =>
    intro k u
    exact drainX_trip_t4 (F := F) d L T0 _ _ _ _ k5_t2 k fI
  · unfold drainInvX0_0 drainInvV0
    iexists _
    isplitr
    swap
    · isplitl [HI]; · iexact HI
      isplitl [Hfl_dst]; · iexact Hfl_dst
      iexists _
      isplitl [Hout]; · iexact Hout
      ipureintro; intro p hp; omega
    · ipureintro
      exact hrows0
  iintro %_ HIv
  unfold drainInvX0_0 drainInvV0
  icases HIv with ⟨%fr_4, %hfr_4, HI, Hfl_dst, %fout_4, Hout, %hout_4⟩
  have htr4 : Scf.trips k5_t4_loop.lb k5_t4_loop.ub k5_t4_loop.st = 20 := by decide
  rw [htr4] at hout_4
  sl_exec
  by_cases hc : k5_cond1 k5_t2 = 1#1
  · sl_exec
    sl_rw [Prog.bind_assoc]
    sl_for (prepInvV0 (F := F) d L fI (640 * k5_t2.val + 640)) $$ [HI Hfl_dst_and]
    case region =>
      intro k u
      exact prep_trip_t5_val (F := F) d L _ _ k5_t2 _ hc k fI
    · unfold prepInvV0
      isplitl [HI]; · iexact HI
      iexists fo0
      isplitl [Hfl_dst_and]; · iexact Hfl_dst_and
      ipureintro; intro y hy; omega
    iintro %_ HIv
    unfold prepInvV0
    icases HIv with ⟨HI, %fo0', Hfl_dst_and, %hfo0⟩
    have htr5 : Scf.trips k5_t5_loop.lb k5_t5_loop.ub k5_t5_loop.st = 20 := by decide
    rw [htr5] at hfo0
    have hin5 : ∀ x, ((Memref.whole cc5_scratch1 : Memref sig .scVector .vmem S320 .i32).view.read (Elt F) fo0' x).toNat < S12500x128.size gathers_S12500x128_S320x128.axis :=
      supOK_lt (F := F) d L fI (640 * k5_t2.val + 640) _ hfo0 hIall
    sl_exec
    try sl_rw [Prog.bind_assoc]
    sl_for (drainInvX1_0 (F := F) d L T0 fI (640 * k5_t2.val + 320)) $$ [HI Hr1 Hout]
    case region =>
      intro k u
      exact drainX_trip_t6 (F := F) d L T0 _ _ _ k5_t2 k fI
    · unfold drainInvX1_0 drainInvV1
      iexists _
      isplitr
      swap
      · isplitl [HI]; · iexact HI
        isplitl [Hr1]; · iexact Hr1
        iexists _
        isplitl [Hout]; · iexact Hout
        ipureintro; intro p hp; omega
      · ipureintro
        exact rows_landed_writes (F := F) d L _ fI _ _ _ _ _ _ hin3 hfs1
    iintro %_ HIv
    unfold drainInvX1_0 drainInvV1
    icases HIv with ⟨%fr_6, %hfr_6, HI, Hr1, %fout_6, Hout, %hout_6⟩
    have htr6 : Scf.trips k5_t6_loop.lb k5_t6_loop.ub k5_t6_loop.st = 20 := by decide
    rw [htr6] at hout_6
    sl_exec
    sl_step
    irw [if_pos (by have := (cond0_iff k5_t2).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      isplitr
      swap
      · iapply (pointsTo_join_subset hsubE)
        isplitl [HcE']; · iexact HcE'
        iapply (pointsTo_join_subset hsubO)
        isplitl [HcO']; · iexact HcO'
        iexact Hrest
      · ipureintro
        rw [show obase L + 80 * (k5_t2.val + 1) = obase L + (80 * k5_t2.val + 80) by omega]
        refine out_step (F := F) L (gatherAt (F := F) T0 I0) _ _ (80 * k5_t2.val) hmemE hmemO fo _ _ hfo ?_ ?_
        · intro idx h1 h2
          rw [chunkE_val0 (F := F) d L k5_t2 fo _ idx h1 h2]
          refine (out_chunkElt (F := F) d L hfr_4 hout_4 _).trans ?_
          rw [show 640 * k5_t2.val = 8 * (80 * k5_t2.val) by omega]
          exact chunkElt_gatherAt (F := F) d L _ T0 (read_tblSlice0 (F := F) d L T0) fI I0 hIs (80 * k5_t2.val) (by omega) _ idx (by show (idx 0).val = obase L + 80 * k5_t2.val + ((idx 0).val - (obase L + 80 * k5_t2.val)); omega) rfl
        · intro idx h1 h2
          rw [chunkO_val0 (F := F) d L k5_t2 _ _ idx (by omega) (by omega)]
          refine (out_chunkElt (F := F) d L hfr_6 hout_6 _).trans ?_
          rw [show 640 * k5_t2.val + 320 = 8 * (80 * k5_t2.val + 40) by omega]
          exact chunkElt_gatherAt (F := F) d L _ T0 (read_tblSlice0 (F := F) d L T0) fI I0 hIs (80 * k5_t2.val + 40) (by omega) _ idx (by show (idx 0).val = obase L + (80 * k5_t2.val + 40) + ((idx 0).val - (obase L + 80 * k5_t2.val + 40)); omega) rfl
    isplitl [Htrem Hfl]
    · isplitl [Hfl]
      · iexists _, _
        isplitr
        swap
        · iexact Hfl
        · ipureintro
          rw [show 640 * (k5_t2.val + 1) = 640 * k5_t2.val + 640 by omega]
          exact rows_landed_writes (F := F) d L _ fI _ _ _ _ _ _ hin5 hfo0
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInvX1_0 (F := F) d L T0 fI (640 * k5_t2.val + 320)) $$ [HI Hr1 Hout]
    case region =>
      intro k u
      exact drainX_trip_t6 (F := F) d L T0 _ _ _ k5_t2 k fI
    · unfold drainInvX1_0 drainInvV1
      iexists _
      isplitr
      swap
      · isplitl [HI]; · iexact HI
        isplitl [Hr1]; · iexact Hr1
        iexists _
        isplitl [Hout]; · iexact Hout
        ipureintro; intro p hp; omega
      · ipureintro
        exact rows_landed_writes (F := F) d L _ fI _ _ _ _ _ _ hin3 hfs1
    iintro %_ HIv
    unfold drainInvX1_0 drainInvV1
    icases HIv with ⟨%fr_6, %hfr_6, HI, Hr1, %fout_6, Hout, %hout_6⟩
    have htr6 : Scf.trips k5_t6_loop.lb k5_t6_loop.ub k5_t6_loop.st = 20 := by decide
    rw [htr6] at hout_6
    sl_exec
    sl_step
    irw [if_neg (by intro h; exact hc ((cond0_iff k5_t2).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      isplitr
      swap
      · iapply (pointsTo_join_subset hsubE)
        isplitl [HcE']; · iexact HcE'
        iapply (pointsTo_join_subset hsubO)
        isplitl [HcO']; · iexact HcO'
        iexact Hrest
      · ipureintro
        rw [show obase L + 80 * (k5_t2.val + 1) = obase L + (80 * k5_t2.val + 80) by omega]
        refine out_step (F := F) L (gatherAt (F := F) T0 I0) _ _ (80 * k5_t2.val) hmemE hmemO fo _ _ hfo ?_ ?_
        · intro idx h1 h2
          rw [chunkE_val0 (F := F) d L k5_t2 fo _ idx h1 h2]
          refine (out_chunkElt (F := F) d L hfr_4 hout_4 _).trans ?_
          rw [show 640 * k5_t2.val = 8 * (80 * k5_t2.val) by omega]
          exact chunkElt_gatherAt (F := F) d L _ T0 (read_tblSlice0 (F := F) d L T0) fI I0 hIs (80 * k5_t2.val) (by omega) _ idx (by show (idx 0).val = obase L + 80 * k5_t2.val + ((idx 0).val - (obase L + 80 * k5_t2.val)); omega) rfl
        · intro idx h1 h2
          rw [chunkO_val0 (F := F) d L k5_t2 _ _ idx (by omega) (by omega)]
          refine (out_chunkElt (F := F) d L hfr_6 hout_6 _).trans ?_
          rw [show 640 * k5_t2.val + 320 = 8 * (80 * k5_t2.val + 40) by omega]
          exact chunkElt_gatherAt (F := F) d L _ T0 (read_tblSlice0 (F := F) d L T0) fI I0 hIs (80 * k5_t2.val + 40) (by omega) _ idx (by show (idx 0).val = obase L + (80 * k5_t2.val + 40) + ((idx 0).val - (obase L + 80 * k5_t2.val + 40)); omega) rfl
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.ScBody

end
-- ==== Proof.ScMainVal1.lean ====
/-
  One trip of the main loop of table 1 of the lookup kernel, with the values: the chunks' offset lists hold the
  shifted index words, the landed rows the tables' rows they name, the drained output scratch the chunk's elements, and
  the tile's lines of the output, eighty lines further each trip, the gathered elements.
-/
import proofs.«203359_g24824910971486_cont_8to1_1854_34_alg».proof.Proof.ScMain1
import proofs.«203359_g24824910971486_cont_8to1_1854_34_alg».proof.Proof.ScValOut
import proofs.«203359_g24824910971486_cont_8to1_1854_34_alg».proof.Proof.ScPrepVal
import proofs.«203359_g24824910971486_cont_8to1_1854_34_alg».proof.Proof.ScDrainValA
import proofs.«203359_g24824910971486_cont_8to1_1854_34_alg».proof.Proof.ScDrainValB
import proofs.«203359_g24824910971486_cont_8to1_1854_34_alg».proof.Proof.ScValJoin

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- What is pending on the first gather semaphore at the start of trip `k`, with the landed rows' values. -/
def pendV1 (d : Dev nD) (L : grid5.Coords) (qT : PosShare TreeShare) (T1 : Buf (Elt F) (t1Loc d))
    (fI : Buf (Elt F) ((V d (cV L) (jV L)).loc cc5_scratch0)) (k : Nat) : sProp 𝕄 :=
  if k < 40 then
    iprop((∃ (fd : Buf (Elt F) ((V d (cV L) (jV L)).loc cc5_scratch3)) (fo : Buf (Elt F) ((V d (cV L) (jV L)).loc cc5_scratch1)),
        ⌜RowsOK (F := F) d L ((tblSlice1).view.read (Elt F) T1) fI (640 * k)
            ((Memref.whole cc5_scratch3 : Memref sig .scVector .vmem S320x128 .f32).view.read (Elt F) fd)⌝
        ∗ Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v8_scv).view.loc (V d (cV L) (jV L)) ↦[(tblSlice1).view.set]{qT.left} T1)))
      ∗ ((Memref.whole main_v8_scv).view.loc (V d (cV L) (jV L)) ↦[Finset.univ \ (tblSlice1).view.set]{qT.left} T1))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v8_scv).view.loc (V d (cV L) (jV L)) ↦{qT.left} T1) ∗ semVal (cellOf d L cc5_scratch6) 0)

/-- The invariant of the main loop of table 1, with the values: the tile's lines of the output before line
    `80 k` of its own hold the gathered elements. -/
def mainInvV1 (d : Dev nD) (L : grid5.Coords) (qT : PosShare TreeShare) (T1 : Buf (Elt F) (t1Loc d)) (I1 : Buf (Elt F) (i1Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v8_scv).view.loc (V d (cV L) (jV L)) ↦{qT.right} T1)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped4) 0 ∗ semVal (cellOf d L cc5_scoped5) 0
    ∗ (∃ f : Buf (Elt F) (o1Loc d), ⌜∀ idx ∈ oSet L, (idx 0).val < obase L + 80 * k → f idx = gatherAt (F := F) T1 I1 idx⌝
        ∗ o1Loc d ↦[oSet L]{fullShare} f)
    ∗ pendV1 (F := F) d L qT T1 fI k
    ∗ ∃ W', ⌜∀ p ∈ W', p ∈ W ∨ p.2 = none⌝ ∗ owes (V d (cV L) (jV L)) O W')

/-- The drain loops' invariants with the row scratch's contents left open: some contents holding the landed rows. -/
def drainInvX0_1 (d : Dev nD) (L : grid5.Coords) (T1 : Buf (Elt F) (t1Loc d)) (fI : Buf (Elt F) ((V d (cV L) (jV L)).loc cc5_scratch0)) (cb : Nat) (k : Nat) (u : PUnit) : sProp 𝕄 :=
  iprop(∃ fr : Buf (Elt F) ((V d (cV L) (jV L)).loc cc5_scratch3), ⌜RowsOK (F := F) d L ((tblSlice1).view.read (Elt F) T1) fI cb
      ((Memref.whole cc5_scratch3 : Memref sig .scVector .vmem S320x128 .f32).view.read (Elt F) fr)⌝ ∗ drainInvV0 (F := F) d L fI fr cb k u)
def drainInvX1_1 (d : Dev nD) (L : grid5.Coords) (T1 : Buf (Elt F) (t1Loc d)) (fI : Buf (Elt F) ((V d (cV L) (jV L)).loc cc5_scratch0)) (cb : Nat) (k : Nat) (u : PUnit) : sProp 𝕄 :=
  iprop(∃ fr : Buf (Elt F) ((V d (cV L) (jV L)).loc cc5_scratch4), ⌜RowsOK (F := F) d L ((tblSlice1).view.read (Elt F) T1) fI cb
      ((Memref.whole cc5_scratch4 : Memref sig .scVector .vmem S320x128 .f32).view.read (Elt F) fr)⌝ ∗ drainInvV1 (F := F) d L fI fr cb k u)

/-- The table as its full-size slice reads it. -/
theorem read_tblSlice1 (d : Dev nD) (L : grid5.Coords) (T1 : Buf (Elt F) (t1Loc d)) (i : S12500x128.Idx) :
    (tblSlice1).view.read (Elt F) T1 i = T1 i := by
  rw [View.read_apply, cast_eq]
  congr 1
  funext a
  apply Fin.ext
  show ((Rect.unit (s := S12500x128) ![0, 0] ![12500, 128] inb_S12500x128_S12500x128_0_0).emb i a).val = (i a).val
  rw [Rect.emb_apply]
  simp only [Rect.off_unit, Rect.stride_unit]
  match a with
  | 0 => show 0 + 1 * (i 0).val = (i 0).val; omega
  | 1 => show 0 + 1 * (i 1).val = (i 1).val; omega

/-- A chunk's lines written whole from the output scratch read back the output scratch, place by place. -/
theorem chunkE_val1 (d : Dev nD) (L : grid5.Coords) (k : Fin k5_t8_loop.trips) (fo : Buf (Elt F) (o1Loc d)) (w : S40x128.Idx → Elt F .f32)
    (idx : S102400x128.Idx) (h1 : obase L + 80 * k.val ≤ (idx 0).val) (h2 : (idx 0).val < obase L + 80 * k.val + 40) :
    ((chunkE1 L k).view.writes (Elt F) fo [⟨Rect.whole S40x128, w⟩]) idx
      = w (ix2 (⟨(idx 0).val - (obase L + 80 * k.val), by omega⟩ : Fin 40) (⟨(idx 1).val, (idx 1).isLt⟩ : Fin 128)) := by
  have hemb : (chunkE1 L k).view.emb ((Rect.whole S40x128).emb (ix2 (⟨(idx 0).val - (obase L + 80 * k.val), by omega⟩ : Fin 40) (⟨(idx 1).val, (idx 1).isLt⟩ : Fin 128))) = idx := by
    rw [Rect.emb_whole_apply]
    funext a
    apply Fin.ext
    show ((Rect.unit (s := S102400x128) (k5_off17 L k) ![40, 128] (k5_off17_inb L k)).emb _ a).val = (idx a).val
    rw [Rect.emb_apply]
    simp only [Rect.off_unit, Rect.stride_unit, k5_off17_eq]
    match a with
    | 0 => show obase L + 80 * k.val + 1 * ((idx 0).val - (obase L + 80 * k.val)) = (idx 0).val; omega
    | 1 => show 0 + 1 * (idx 1).val = (idx 1).val; omega
  have hr := View.read_writes_cons_emb (chunkE1 L k).view fo (Rect.whole S40x128) w [] (ix2 (⟨(idx 0).val - (obase L + 80 * k.val), by omega⟩ : Fin 40) (⟨(idx 1).val, (idx 1).isLt⟩ : Fin 128))
  rw [View.read_apply, hemb] at hr
  exact (cast_eq _ _).symm.trans hr

/-- A chunk's lines written whole from the output scratch read back the output scratch, place by place. -/
theorem chunkO_val1 (d : Dev nD) (L : grid5.Coords) (k : Fin k5_t8_loop.trips) (fo : Buf (Elt F) (o1Loc d)) (w : S40x128.Idx → Elt F .f32)
    (idx : S102400x128.Idx) (h1 : obase L + 80 * k.val + 40 ≤ (idx 0).val) (h2 : (idx 0).val < obase L + 80 * k.val + 40 + 40) :
    ((chunkO1 L k).view.writes (Elt F) fo [⟨Rect.whole S40x128, w⟩]) idx
      = w (ix2 (⟨(idx 0).val - (obase L + 80 * k.val + 40), by omega⟩ : Fin 40) (⟨(idx 1).val, (idx 1).isLt⟩ : Fin 128)) := by
  have hemb : (chunkO1 L k).view.emb ((Rect.whole S40x128).emb (ix2 (⟨(idx 0).val - (obase L + 80 * k.val + 40), by omega⟩ : Fin 40) (⟨(idx 1).val, (idx 1).isLt⟩ : Fin 128))) = idx := by
    rw [Rect.emb_whole_apply]
    funext a
    apply Fin.ext
    show ((Rect.unit (s := S102400x128) (k5_off21 L k) ![40, 128] (k5_off21_inb L k)).emb _ a).val = (idx a).val
    rw [Rect.emb_apply]
    simp only [Rect.off_unit, Rect.stride_unit, k5_off21_eq]
    match a with
    | 0 => show obase L + 80 * k.val + 40 + 1 * ((idx 0).val - (obase L + 80 * k.val + 40)) = (idx 0).val; omega
    | 1 => show 0 + 1 * (idx 1).val = (idx 1).val; omega
  have hr := View.read_writes_cons_emb (chunkO1 L k).view fo (Rect.whole S40x128) w [] (ix2 (⟨(idx 0).val - (obase L + 80 * k.val + 40), by omega⟩ : Fin 40) (⟨(idx 1).val, (idx 1).isLt⟩ : Fin 128))
  rw [View.read_apply, hemb] at hr
  exact (cast_eq _ _).symm.trans hr

theorem drainX_trip_t10 (d : Dev nD) (L : grid5.Coords) (T1 : Buf (Elt F) (t1Loc d)) (v2 c0 c1 v17 : BitVec 32) (k5_t8 : Fin k5_t8_loop.trips) (k : Fin k5_t10_loop.trips)
    (fI : Buf (Elt F) ((V d (cV L) (jV L)).loc cc5_scratch0)) :
    drainInvX0_1 (F := F) d L T1 fI (640 * k5_t8.val) k.val ()
      ⊢ wp frame (wpE (defs₀ (F := F)) 𝒱₀ (V d (cV L) (jV L)) none) Set.univ (k5_t10_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t8 v17 k ())
          (drainInvX0_1 (F := F) d L T1 fI (640 * k5_t8.val) (k.val + 1)) := by
  unfold drainInvX0_1
  iintro ⟨%fr, %hr, H⟩
  iapply (wp_mono frame _ _ (fun u => show drainInvV0 (F := F) d L fI fr (640 * k5_t8.val) (k.val + 1) u ⊢ iprop(∃ fr : Buf (Elt F) ((V d (cV L) (jV L)).loc cc5_scratch3), ⌜RowsOK (F := F) d L ((tblSlice1).view.read (Elt F) T1) fI (640 * k5_t8.val) ((Memref.whole cc5_scratch3 : Memref sig .scVector .vmem S320x128 .f32).view.read (Elt F) fr)⌝ ∗ drainInvV0 (F := F) d L fI fr (640 * k5_t8.val) (k.val + 1) u) from by
    iintro H; iexists fr; isplitr; · ipureintro; exact hr
    iexact H))
  iapply (drain_trip_t10_val (F := F) d L v2 c0 c1 v17 k5_t8 k fI fr)
  iexact H

theorem drainX_trip_t12 (d : Dev nD) (L : grid5.Coords) (T1 : Buf (Elt F) (t1Loc d)) (v2 v17 v48 : BitVec 32) (k5_t8 : Fin k5_t8_loop.trips) (k : Fin k5_t12_loop.trips)
    (fI : Buf (Elt F) ((V d (cV L) (jV L)).loc cc5_scratch0)) :
    drainInvX1_1 (F := F) d L T1 fI (640 * k5_t8.val + 320) k.val ()
      ⊢ wp frame (wpE (defs₀ (F := F)) 𝒱₀ (V d (cV L) (jV L)) none) Set.univ (k5_t12_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t8 v17 v48 k ())
          (drainInvX1_1 (F := F) d L T1 fI (640 * k5_t8.val + 320) (k.val + 1)) := by
  unfold drainInvX1_1
  iintro ⟨%fr, %hr, H⟩
  iapply (wp_mono frame _ _ (fun u => show drainInvV1 (F := F) d L fI fr (640 * k5_t8.val + 320) (k.val + 1) u ⊢ iprop(∃ fr : Buf (Elt F) ((V d (cV L) (jV L)).loc cc5_scratch4), ⌜RowsOK (F := F) d L ((tblSlice1).view.read (Elt F) T1) fI (640 * k5_t8.val + 320) ((Memref.whole cc5_scratch4 : Memref sig .scVector .vmem S320x128 .f32).view.read (Elt F) fr)⌝ ∗ drainInvV1 (F := F) d L fI fr (640 * k5_t8.val + 320) (k.val + 1) u) from by
    iintro H; iexists fr; isplitr; · ipureintro; exact hr
    iexact H))
  iapply (drain_trip_t12_val (F := F) d L v2 v17 v48 k5_t8 k fI fr)
  iexact H

set_option maxHeartbeats 16000000 in
theorem main_trip_t8_val (d : Dev nD) (L : grid5.Coords) (qT : PosShare TreeShare) (T1 : Buf (Elt F) (t1Loc d)) (I1 : Buf (Elt F) (i1Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (hIs : IdxIs (F := F) d L fI I1)
    (O : CellTallies nD τ sig (HIx 1)) (W : Waits sig (HIx 1)) (k5_t8 : Fin k5_t8_loop.trips) :
    mainInvV1 (F := F) d L qT T1 I1 fI O W k5_t8.val ()
      ⊢ wp frame (wpE (defs₀ (F := F)) 𝒱₀ (V d (cV L) (jV L)) none) Set.univ
          (k5_t8_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t8 ())
          (mainInvV1 (F := F) d L qT T1 I1 fI O W (k5_t8.val + 1)) := by
  have hk : k5_t8.val < 40 := Nat.lt_of_lt_of_le k5_t8.isLt k5_t8_abs.2.1
  have hIall : ∀ n, IdxOK (idxAtN (F := F) d L fI n) := fun n => hI _
  unfold k5_t8_body
  simp only [k5_part19_eq_skeleton, k5_part20_eq_skeleton]
  unfold k5_part19_skel k5_part20_skel
  simp only [Prog.bind_assoc]
  unfold mainInvV1 pendV1
  rw [if_pos hk]
  iintro ⟨#Hmw, Htb, HI, ⟨%fs1, Hs1⟩, ⟨%fr1, Hr1⟩, Hsem21, ⟨%fout, Hout⟩, HscE, HscO, ⟨%fo, %hfo, Ho⟩, ⟨⟨%fd, %fo0, %hrows0, Hfl⟩, Htrem⟩, %W', %hW', HO⟩
  have hsetE : (chunkE1 L k5_t8).view.set = (Rect.unit (s := S102400x128) (k5_off17 L k5_t8) ![40, 128] (k5_off17_inb L k5_t8)).set := View.set_slice_whole _ _
  have hsetO : (chunkO1 L k5_t8).view.set = (Rect.unit (s := S102400x128) (k5_off21 L k5_t8) ![40, 128] (k5_off21_inb L k5_t8)).set := View.set_slice_whole _ _
  have hmemE : ∀ idx : S102400x128.Idx, idx ∈ (chunkE1 L k5_t8).view.set ↔ (obase L + 80 * k5_t8.val ≤ (idx 0).val ∧ (idx 0).val < obase L + 80 * k5_t8.val + 40) := by
    intro idx
    rw [hsetE, Rect.mem_set_unit, k5_off17_eq]
    constructor
    · intro h
      have h0 : obase L + 80 * k5_t8.val ≤ (idx 0).val ∧ (idx 0).val < obase L + 80 * k5_t8.val + 40 := h 0
      exact h0
    · intro h a
      match a with
      | 0 => exact h
      | 1 => exact ⟨Nat.zero_le _, by show (idx 1).val < 0 + 128; have h128 : (idx 1).val < 128 := (idx 1).isLt; omega⟩
  have hmemO : ∀ idx : S102400x128.Idx, idx ∈ (chunkO1 L k5_t8).view.set ↔ (obase L + 80 * k5_t8.val + 40 ≤ (idx 0).val ∧ (idx 0).val < obase L + 80 * k5_t8.val + 80) := by
    intro idx
    rw [hsetO, Rect.mem_set_unit, k5_off21_eq]
    constructor
    · intro h
      have h0 : obase L + 80 * k5_t8.val + 40 ≤ (idx 0).val ∧ (idx 0).val < obase L + 80 * k5_t8.val + 40 + 40 := h 0
      exact ⟨h0.1, by omega⟩
    · intro h a
      match a with
      | 0 => exact ⟨h.1, by show (idx 0).val < obase L + 80 * k5_t8.val + 40 + 40; omega⟩
      | 1 => exact ⟨Nat.zero_le _, by show (idx 1).val < 0 + 128; have h128 : (idx 1).val < 128 := (idx 1).isLt; omega⟩
  have hsubE : (chunkE1 L k5_t8).view.set ⊆ oSet L := by
    rw [hsetE]
    exact chunkRect_sub L _ (80 * k5_t8.val) (by omega) (k5_off17_eq L k5_t8) _
  have hsubO : (chunkO1 L k5_t8).view.set ⊆ oSet L \ (chunkE1 L k5_t8).view.set := by
    rw [hsetO, hsetE]
    exact Finset.subset_sdiff.mpr ⟨chunkRect_sub L _ (80 * k5_t8.val + 40) (by omega) (k5_off21_eq L k5_t8) _,
      (chunkRect_disj L _ _ (80 * k5_t8.val) (k5_off17_eq L k5_t8) (k5_off21_eq L k5_t8) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o1Loc d ↦[(chunkE1 L k5_t8).view.set]{fullShare} fo : sProp 𝕄)) ⊢ ((chunkE1 L k5_t8).view.loc (V d (cV L) (jV L)) ↦[(chunkE1 L k5_t8).view.set]{fullShare} fo) from Entails.of_eq rfl) $$ HcE
  ihave HcO' := (show ((o1Loc d ↦[(chunkO1 L k5_t8).view.set]{fullShare} fo : sProp 𝕄)) ⊢ ((chunkO1 L k5_t8).view.loc (V d (cV L) (jV L)) ↦[(chunkO1 L k5_t8).view.set]{fullShare} fo) from Entails.of_eq rfl) $$ HcO
  sl_for (prepInvV1 (F := F) d L fI (640 * k5_t8.val + 320)) $$ [HI Hs1]
  case region =>
    intro k u
    exact prep_trip_t9_val (F := F) d L _ _ _ _ k5_t8 k fI
  · unfold prepInvV1
    isplitl [HI]; · iexact HI
    iexists fs1
    isplitl [Hs1]; · iexact Hs1
    ipureintro; intro y hy; omega
  iintro %_ HIv
  unfold prepInvV1
  icases HIv with ⟨HI, %fs1', Hs1, %hfs1⟩
  have htr9 : Scf.trips k5_t9_loop.lb k5_t9_loop.ub k5_t9_loop.st = 20 := by decide
  rw [htr9] at hfs1
  have hin9 : ∀ x, ((Memref.whole cc5_scratch2 : Memref sig .scVector .vmem S320 .i32).view.read (Elt F) fs1' x).toNat < S12500x128.size gathers_S12500x128_S320x128.axis :=
    supOK_lt (F := F) d L fI (640 * k5_t8.val + 320) _ hfs1 hIall
  sl_exec
  sl_for (drainInvX0_1 (F := F) d L T1 fI (640 * k5_t8.val)) $$ [HI Hfl_dst Hout]
  case region =>
    intro k u
    exact drainX_trip_t10 (F := F) d L T1 _ _ _ _ k5_t8 k fI
  · unfold drainInvX0_1 drainInvV0
    iexists _
    isplitr
    swap
    · isplitl [HI]; · iexact HI
      isplitl [Hfl_dst]; · iexact Hfl_dst
      iexists _
      isplitl [Hout]; · iexact Hout
      ipureintro; intro p hp; omega
    · ipureintro
      exact hrows0
  iintro %_ HIv
  unfold drainInvX0_1 drainInvV0
  icases HIv with ⟨%fr_10, %hfr_10, HI, Hfl_dst, %fout_10, Hout, %hout_10⟩
  have htr10 : Scf.trips k5_t10_loop.lb k5_t10_loop.ub k5_t10_loop.st = 20 := by decide
  rw [htr10] at hout_10
  sl_exec
  by_cases hc : k5_cond2 k5_t8 = 1#1
  · sl_exec
    sl_rw [Prog.bind_assoc]
    sl_for (prepInvV0 (F := F) d L fI (640 * k5_t8.val + 640)) $$ [HI Hfl_dst_and]
    case region =>
      intro k u
      exact prep_trip_t11_val (F := F) d L _ _ k5_t8 _ hc k fI
    · unfold prepInvV0
      isplitl [HI]; · iexact HI
      iexists fo0
      isplitl [Hfl_dst_and]; · iexact Hfl_dst_and
      ipureintro; intro y hy; omega
    iintro %_ HIv
    unfold prepInvV0
    icases HIv with ⟨HI, %fo0', Hfl_dst_and, %hfo0⟩
    have htr11 : Scf.trips k5_t11_loop.lb k5_t11_loop.ub k5_t11_loop.st = 20 := by decide
    rw [htr11] at hfo0
    have hin11 : ∀ x, ((Memref.whole cc5_scratch1 : Memref sig .scVector .vmem S320 .i32).view.read (Elt F) fo0' x).toNat < S12500x128.size gathers_S12500x128_S320x128.axis :=
      supOK_lt (F := F) d L fI (640 * k5_t8.val + 640) _ hfo0 hIall
    sl_exec
    try sl_rw [Prog.bind_assoc]
    sl_for (drainInvX1_1 (F := F) d L T1 fI (640 * k5_t8.val + 320)) $$ [HI Hr1 Hout]
    case region =>
      intro k u
      exact drainX_trip_t12 (F := F) d L T1 _ _ _ k5_t8 k fI
    · unfold drainInvX1_1 drainInvV1
      iexists _
      isplitr
      swap
      · isplitl [HI]; · iexact HI
        isplitl [Hr1]; · iexact Hr1
        iexists _
        isplitl [Hout]; · iexact Hout
        ipureintro; intro p hp; omega
      · ipureintro
        exact rows_landed_writes (F := F) d L _ fI _ _ _ _ _ _ hin9 hfs1
    iintro %_ HIv
    unfold drainInvX1_1 drainInvV1
    icases HIv with ⟨%fr_12, %hfr_12, HI, Hr1, %fout_12, Hout, %hout_12⟩
    have htr12 : Scf.trips k5_t12_loop.lb k5_t12_loop.ub k5_t12_loop.st = 20 := by decide
    rw [htr12] at hout_12
    sl_exec
    sl_step
    irw [if_pos (by have := (cond1_iff k5_t8).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      isplitr
      swap
      · iapply (pointsTo_join_subset hsubE)
        isplitl [HcE']; · iexact HcE'
        iapply (pointsTo_join_subset hsubO)
        isplitl [HcO']; · iexact HcO'
        iexact Hrest
      · ipureintro
        rw [show obase L + 80 * (k5_t8.val + 1) = obase L + (80 * k5_t8.val + 80) by omega]
        refine out_step (F := F) L (gatherAt (F := F) T1 I1) _ _ (80 * k5_t8.val) hmemE hmemO fo _ _ hfo ?_ ?_
        · intro idx h1 h2
          rw [chunkE_val1 (F := F) d L k5_t8 fo _ idx h1 h2]
          refine (out_chunkElt (F := F) d L hfr_10 hout_10 _).trans ?_
          rw [show 640 * k5_t8.val = 8 * (80 * k5_t8.val) by omega]
          exact chunkElt_gatherAt (F := F) d L _ T1 (read_tblSlice1 (F := F) d L T1) fI I1 hIs (80 * k5_t8.val) (by omega) _ idx (by show (idx 0).val = obase L + 80 * k5_t8.val + ((idx 0).val - (obase L + 80 * k5_t8.val)); omega) rfl
        · intro idx h1 h2
          rw [chunkO_val1 (F := F) d L k5_t8 _ _ idx (by omega) (by omega)]
          refine (out_chunkElt (F := F) d L hfr_12 hout_12 _).trans ?_
          rw [show 640 * k5_t8.val + 320 = 8 * (80 * k5_t8.val + 40) by omega]
          exact chunkElt_gatherAt (F := F) d L _ T1 (read_tblSlice1 (F := F) d L T1) fI I1 hIs (80 * k5_t8.val + 40) (by omega) _ idx (by show (idx 0).val = obase L + (80 * k5_t8.val + 40) + ((idx 0).val - (obase L + 80 * k5_t8.val + 40)); omega) rfl
    isplitl [Htrem Hfl]
    · isplitl [Hfl]
      · iexists _, _
        isplitr
        swap
        · iexact Hfl
        · ipureintro
          rw [show 640 * (k5_t8.val + 1) = 640 * k5_t8.val + 640 by omega]
          exact rows_landed_writes (F := F) d L _ fI _ _ _ _ _ _ hin11 hfo0
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInvX1_1 (F := F) d L T1 fI (640 * k5_t8.val + 320)) $$ [HI Hr1 Hout]
    case region =>
      intro k u
      exact drainX_trip_t12 (F := F) d L T1 _ _ _ k5_t8 k fI
    · unfold drainInvX1_1 drainInvV1
      iexists _
      isplitr
      swap
      · isplitl [HI]; · iexact HI
        isplitl [Hr1]; · iexact Hr1
        iexists _
        isplitl [Hout]; · iexact Hout
        ipureintro; intro p hp; omega
      · ipureintro
        exact rows_landed_writes (F := F) d L _ fI _ _ _ _ _ _ hin9 hfs1
    iintro %_ HIv
    unfold drainInvX1_1 drainInvV1
    icases HIv with ⟨%fr_12, %hfr_12, HI, Hr1, %fout_12, Hout, %hout_12⟩
    have htr12 : Scf.trips k5_t12_loop.lb k5_t12_loop.ub k5_t12_loop.st = 20 := by decide
    rw [htr12] at hout_12
    sl_exec
    sl_step
    irw [if_neg (by intro h; exact hc ((cond1_iff k5_t8).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      isplitr
      swap
      · iapply (pointsTo_join_subset hsubE)
        isplitl [HcE']; · iexact HcE'
        iapply (pointsTo_join_subset hsubO)
        isplitl [HcO']; · iexact HcO'
        iexact Hrest
      · ipureintro
        rw [show obase L + 80 * (k5_t8.val + 1) = obase L + (80 * k5_t8.val + 80) by omega]
        refine out_step (F := F) L (gatherAt (F := F) T1 I1) _ _ (80 * k5_t8.val) hmemE hmemO fo _ _ hfo ?_ ?_
        · intro idx h1 h2
          rw [chunkE_val1 (F := F) d L k5_t8 fo _ idx h1 h2]
          refine (out_chunkElt (F := F) d L hfr_10 hout_10 _).trans ?_
          rw [show 640 * k5_t8.val = 8 * (80 * k5_t8.val) by omega]
          exact chunkElt_gatherAt (F := F) d L _ T1 (read_tblSlice1 (F := F) d L T1) fI I1 hIs (80 * k5_t8.val) (by omega) _ idx (by show (idx 0).val = obase L + 80 * k5_t8.val + ((idx 0).val - (obase L + 80 * k5_t8.val)); omega) rfl
        · intro idx h1 h2
          rw [chunkO_val1 (F := F) d L k5_t8 _ _ idx (by omega) (by omega)]
          refine (out_chunkElt (F := F) d L hfr_12 hout_12 _).trans ?_
          rw [show 640 * k5_t8.val + 320 = 8 * (80 * k5_t8.val + 40) by omega]
          exact chunkElt_gatherAt (F := F) d L _ T1 (read_tblSlice1 (F := F) d L T1) fI I1 hIs (80 * k5_t8.val + 40) (by omega) _ idx (by show (idx 0).val = obase L + (80 * k5_t8.val + 40) + ((idx 0).val - (obase L + 80 * k5_t8.val + 40)); omega) rfl
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.ScBody

end
-- ==== Proof.ScMainVal2.lean ====
/-
  One trip of the main loop of table 2 of the lookup kernel, with the values: the chunks' offset lists hold the
  shifted index words, the landed rows the tables' rows they name, the drained output scratch the chunk's elements, and
  the tile's lines of the output, eighty lines further each trip, the gathered elements.
-/
import proofs.«203359_g24824910971486_cont_8to1_1854_34_alg».proof.Proof.ScMain2
import proofs.«203359_g24824910971486_cont_8to1_1854_34_alg».proof.Proof.ScValOut
import proofs.«203359_g24824910971486_cont_8to1_1854_34_alg».proof.Proof.ScPrepVal
import proofs.«203359_g24824910971486_cont_8to1_1854_34_alg».proof.Proof.ScDrainValA
import proofs.«203359_g24824910971486_cont_8to1_1854_34_alg».proof.Proof.ScDrainValB
import proofs.«203359_g24824910971486_cont_8to1_1854_34_alg».proof.Proof.ScValJoin

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- What is pending on the first gather semaphore at the start of trip `k`, with the landed rows' values. -/
def pendV2 (d : Dev nD) (L : grid5.Coords) (qT : PosShare TreeShare) (T2 : Buf (Elt F) (t2Loc d))
    (fI : Buf (Elt F) ((V d (cV L) (jV L)).loc cc5_scratch0)) (k : Nat) : sProp 𝕄 :=
  if k < 40 then
    iprop((∃ (fd : Buf (Elt F) ((V d (cV L) (jV L)).loc cc5_scratch3)) (fo : Buf (Elt F) ((V d (cV L) (jV L)).loc cc5_scratch1)),
        ⌜RowsOK (F := F) d L ((tblSlice2).view.read (Elt F) T2) fI (640 * k)
            ((Memref.whole cc5_scratch3 : Memref sig .scVector .vmem S320x128 .f32).view.read (Elt F) fd)⌝
        ∗ Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v9_scv).view.loc (V d (cV L) (jV L)) ↦[(tblSlice2).view.set]{qT.left} T2)))
      ∗ ((Memref.whole main_v9_scv).view.loc (V d (cV L) (jV L)) ↦[Finset.univ \ (tblSlice2).view.set]{qT.left} T2))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v9_scv).view.loc (V d (cV L) (jV L)) ↦{qT.left} T2) ∗ semVal (cellOf d L cc5_scratch6) 0)

/-- The invariant of the main loop of table 2, with the values: the tile's lines of the output before line
    `80 k` of its own hold the gathered elements. -/
def mainInvV2 (d : Dev nD) (L : grid5.Coords) (qT : PosShare TreeShare) (T2 : Buf (Elt F) (t2Loc d)) (I2 : Buf (Elt F) (i2Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v9_scv).view.loc (V d (cV L) (jV L)) ↦{qT.right} T2)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped7) 0 ∗ semVal (cellOf d L cc5_scoped8) 0
    ∗ (∃ f : Buf (Elt F) (o2Loc d), ⌜∀ idx ∈ oSet L, (idx 0).val < obase L + 80 * k → f idx = gatherAt (F := F) T2 I2 idx⌝
        ∗ o2Loc d ↦[oSet L]{fullShare} f)
    ∗ pendV2 (F := F) d L qT T2 fI k
    ∗ ∃ W', ⌜∀ p ∈ W', p ∈ W ∨ p.2 = none⌝ ∗ owes (V d (cV L) (jV L)) O W')

/-- The drain loops' invariants with the row scratch's contents left open: some contents holding the landed rows. -/
def drainInvX0_2 (d : Dev nD) (L : grid5.Coords) (T2 : Buf (Elt F) (t2Loc d)) (fI : Buf (Elt F) ((V d (cV L) (jV L)).loc cc5_scratch0)) (cb : Nat) (k : Nat) (u : PUnit) : sProp 𝕄 :=
  iprop(∃ fr : Buf (Elt F) ((V d (cV L) (jV L)).loc cc5_scratch3), ⌜RowsOK (F := F) d L ((tblSlice2).view.read (Elt F) T2) fI cb
      ((Memref.whole cc5_scratch3 : Memref sig .scVector .vmem S320x128 .f32).view.read (Elt F) fr)⌝ ∗ drainInvV0 (F := F) d L fI fr cb k u)
def drainInvX1_2 (d : Dev nD) (L : grid5.Coords) (T2 : Buf (Elt F) (t2Loc d)) (fI : Buf (Elt F) ((V d (cV L) (jV L)).loc cc5_scratch0)) (cb : Nat) (k : Nat) (u : PUnit) : sProp 𝕄 :=
  iprop(∃ fr : Buf (Elt F) ((V d (cV L) (jV L)).loc cc5_scratch4), ⌜RowsOK (F := F) d L ((tblSlice2).view.read (Elt F) T2) fI cb
      ((Memref.whole cc5_scratch4 : Memref sig .scVector .vmem S320x128 .f32).view.read (Elt F) fr)⌝ ∗ drainInvV1 (F := F) d L fI fr cb k u)

/-- The table as its full-size slice reads it. -/
theorem read_tblSlice2 (d : Dev nD) (L : grid5.Coords) (T2 : Buf (Elt F) (t2Loc d)) (i : S12500x128.Idx) :
    (tblSlice2).view.read (Elt F) T2 i = T2 i := by
  rw [View.read_apply, cast_eq]
  congr 1
  funext a
  apply Fin.ext
  show ((Rect.unit (s := S12500x128) ![0, 0] ![12500, 128] inb_S12500x128_S12500x128_0_0).emb i a).val = (i a).val
  rw [Rect.emb_apply]
  simp only [Rect.off_unit, Rect.stride_unit]
  match a with
  | 0 => show 0 + 1 * (i 0).val = (i 0).val; omega
  | 1 => show 0 + 1 * (i 1).val = (i 1).val; omega

/-- A chunk's lines written whole from the output scratch read back the output scratch, place by place. -/
theorem chunkE_val2 (d : Dev nD) (L : grid5.Coords) (k : Fin k5_t14_loop.trips) (fo : Buf (Elt F) (o2Loc d)) (w : S40x128.Idx → Elt F .f32)
    (idx : S102400x128.Idx) (h1 : obase L + 80 * k.val ≤ (idx 0).val) (h2 : (idx 0).val < obase L + 80 * k.val + 40) :
    ((chunkE2 L k).view.writes (Elt F) fo [⟨Rect.whole S40x128, w⟩]) idx
      = w (ix2 (⟨(idx 0).val - (obase L + 80 * k.val), by omega⟩ : Fin 40) (⟨(idx 1).val, (idx 1).isLt⟩ : Fin 128)) := by
  have hemb : (chunkE2 L k).view.emb ((Rect.whole S40x128).emb (ix2 (⟨(idx 0).val - (obase L + 80 * k.val), by omega⟩ : Fin 40) (⟨(idx 1).val, (idx 1).isLt⟩ : Fin 128))) = idx := by
    rw [Rect.emb_whole_apply]
    funext a
    apply Fin.ext
    show ((Rect.unit (s := S102400x128) (k5_off27 L k) ![40, 128] (k5_off27_inb L k)).emb _ a).val = (idx a).val
    rw [Rect.emb_apply]
    simp only [Rect.off_unit, Rect.stride_unit, k5_off27_eq]
    match a with
    | 0 => show obase L + 80 * k.val + 1 * ((idx 0).val - (obase L + 80 * k.val)) = (idx 0).val; omega
    | 1 => show 0 + 1 * (idx 1).val = (idx 1).val; omega
  have hr := View.read_writes_cons_emb (chunkE2 L k).view fo (Rect.whole S40x128) w [] (ix2 (⟨(idx 0).val - (obase L + 80 * k.val), by omega⟩ : Fin 40) (⟨(idx 1).val, (idx 1).isLt⟩ : Fin 128))
  rw [View.read_apply, hemb] at hr
  exact (cast_eq _ _).symm.trans hr

/-- A chunk's lines written whole from the output scratch read back the output scratch, place by place. -/
theorem chunkO_val2 (d : Dev nD) (L : grid5.Coords) (k : Fin k5_t14_loop.trips) (fo : Buf (Elt F) (o2Loc d)) (w : S40x128.Idx → Elt F .f32)
    (idx : S102400x128.Idx) (h1 : obase L + 80 * k.val + 40 ≤ (idx 0).val) (h2 : (idx 0).val < obase L + 80 * k.val + 40 + 40) :
    ((chunkO2 L k).view.writes (Elt F) fo [⟨Rect.whole S40x128, w⟩]) idx
      = w (ix2 (⟨(idx 0).val - (obase L + 80 * k.val + 40), by omega⟩ : Fin 40) (⟨(idx 1).val, (idx 1).isLt⟩ : Fin 128)) := by
  have hemb : (chunkO2 L k).view.emb ((Rect.whole S40x128).emb (ix2 (⟨(idx 0).val - (obase L + 80 * k.val + 40), by omega⟩ : Fin 40) (⟨(idx 1).val, (idx 1).isLt⟩ : Fin 128))) = idx := by
    rw [Rect.emb_whole_apply]
    funext a
    apply Fin.ext
    show ((Rect.unit (s := S102400x128) (k5_off31 L k) ![40, 128] (k5_off31_inb L k)).emb _ a).val = (idx a).val
    rw [Rect.emb_apply]
    simp only [Rect.off_unit, Rect.stride_unit, k5_off31_eq]
    match a with
    | 0 => show obase L + 80 * k.val + 40 + 1 * ((idx 0).val - (obase L + 80 * k.val + 40)) = (idx 0).val; omega
    | 1 => show 0 + 1 * (idx 1).val = (idx 1).val; omega
  have hr := View.read_writes_cons_emb (chunkO2 L k).view fo (Rect.whole S40x128) w [] (ix2 (⟨(idx 0).val - (obase L + 80 * k.val + 40), by omega⟩ : Fin 40) (⟨(idx 1).val, (idx 1).isLt⟩ : Fin 128))
  rw [View.read_apply, hemb] at hr
  exact (cast_eq _ _).symm.trans hr

theorem drainX_trip_t16 (d : Dev nD) (L : grid5.Coords) (T2 : Buf (Elt F) (t2Loc d)) (v2 c0 c1 v17 : BitVec 32) (k5_t14 : Fin k5_t14_loop.trips) (k : Fin k5_t16_loop.trips)
    (fI : Buf (Elt F) ((V d (cV L) (jV L)).loc cc5_scratch0)) :
    drainInvX0_2 (F := F) d L T2 fI (640 * k5_t14.val) k.val ()
      ⊢ wp frame (wpE (defs₀ (F := F)) 𝒱₀ (V d (cV L) (jV L)) none) Set.univ (k5_t16_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t14 v17 k ())
          (drainInvX0_2 (F := F) d L T2 fI (640 * k5_t14.val) (k.val + 1)) := by
  unfold drainInvX0_2
  iintro ⟨%fr, %hr, H⟩
  iapply (wp_mono frame _ _ (fun u => show drainInvV0 (F := F) d L fI fr (640 * k5_t14.val) (k.val + 1) u ⊢ iprop(∃ fr : Buf (Elt F) ((V d (cV L) (jV L)).loc cc5_scratch3), ⌜RowsOK (F := F) d L ((tblSlice2).view.read (Elt F) T2) fI (640 * k5_t14.val) ((Memref.whole cc5_scratch3 : Memref sig .scVector .vmem S320x128 .f32).view.read (Elt F) fr)⌝ ∗ drainInvV0 (F := F) d L fI fr (640 * k5_t14.val) (k.val + 1) u) from by
    iintro H; iexists fr; isplitr; · ipureintro; exact hr
    iexact H))
  iapply (drain_trip_t16_val (F := F) d L v2 c0 c1 v17 k5_t14 k fI fr)
  iexact H

theorem drainX_trip_t18 (d : Dev nD) (L : grid5.Coords) (T2 : Buf (Elt F) (t2Loc d)) (v2 v17 v48 : BitVec 32) (k5_t14 : Fin k5_t14_loop.trips) (k : Fin k5_t18_loop.trips)
    (fI : Buf (Elt F) ((V d (cV L) (jV L)).loc cc5_scratch0)) :
    drainInvX1_2 (F := F) d L T2 fI (640 * k5_t14.val + 320) k.val ()
      ⊢ wp frame (wpE (defs₀ (F := F)) 𝒱₀ (V d (cV L) (jV L)) none) Set.univ (k5_t18_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t14 v17 v48 k ())
          (drainInvX1_2 (F := F) d L T2 fI (640 * k5_t14.val + 320) (k.val + 1)) := by
  unfold drainInvX1_2
  iintro ⟨%fr, %hr, H⟩
  iapply (wp_mono frame _ _ (fun u => show drainInvV1 (F := F) d L fI fr (640 * k5_t14.val + 320) (k.val + 1) u ⊢ iprop(∃ fr : Buf (Elt F) ((V d (cV L) (jV L)).loc cc5_scratch4), ⌜RowsOK (F := F) d L ((tblSlice2).view.read (Elt F) T2) fI (640 * k5_t14.val + 320) ((Memref.whole cc5_scratch4 : Memref sig .scVector .vmem S320x128 .f32).view.read (Elt F) fr)⌝ ∗ drainInvV1 (F := F) d L fI fr (640 * k5_t14.val + 320) (k.val + 1) u) from by
    iintro H; iexists fr; isplitr; · ipureintro; exact hr
    iexact H))
  iapply (drain_trip_t18_val (F := F) d L v2 v17 v48 k5_t14 k fI fr)
  iexact H

set_option maxHeartbeats 16000000 in
theorem main_trip_t14_val (d : Dev nD) (L : grid5.Coords) (qT : PosShare TreeShare) (T2 : Buf (Elt F) (t2Loc d)) (I2 : Buf (Elt F) (i2Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (hIs : IdxIs (F := F) d L fI I2)
    (O : CellTallies nD τ sig (HIx 1)) (W : Waits sig (HIx 1)) (k5_t14 : Fin k5_t14_loop.trips) :
    mainInvV2 (F := F) d L qT T2 I2 fI O W k5_t14.val ()
      ⊢ wp frame (wpE (defs₀ (F := F)) 𝒱₀ (V d (cV L) (jV L)) none) Set.univ
          (k5_t14_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t14 ())
          (mainInvV2 (F := F) d L qT T2 I2 fI O W (k5_t14.val + 1)) := by
  have hk : k5_t14.val < 40 := Nat.lt_of_lt_of_le k5_t14.isLt k5_t14_abs.2.1
  have hIall : ∀ n, IdxOK (idxAtN (F := F) d L fI n) := fun n => hI _
  unfold k5_t14_body
  simp only [k5_part29_eq_skeleton, k5_part30_eq_skeleton]
  unfold k5_part29_skel k5_part30_skel
  simp only [Prog.bind_assoc]
  unfold mainInvV2 pendV2
  rw [if_pos hk]
  iintro ⟨#Hmw, Htb, HI, ⟨%fs1, Hs1⟩, ⟨%fr1, Hr1⟩, Hsem21, ⟨%fout, Hout⟩, HscE, HscO, ⟨%fo, %hfo, Ho⟩, ⟨⟨%fd, %fo0, %hrows0, Hfl⟩, Htrem⟩, %W', %hW', HO⟩
  have hsetE : (chunkE2 L k5_t14).view.set = (Rect.unit (s := S102400x128) (k5_off27 L k5_t14) ![40, 128] (k5_off27_inb L k5_t14)).set := View.set_slice_whole _ _
  have hsetO : (chunkO2 L k5_t14).view.set = (Rect.unit (s := S102400x128) (k5_off31 L k5_t14) ![40, 128] (k5_off31_inb L k5_t14)).set := View.set_slice_whole _ _
  have hmemE : ∀ idx : S102400x128.Idx, idx ∈ (chunkE2 L k5_t14).view.set ↔ (obase L + 80 * k5_t14.val ≤ (idx 0).val ∧ (idx 0).val < obase L + 80 * k5_t14.val + 40) := by
    intro idx
    rw [hsetE, Rect.mem_set_unit, k5_off27_eq]
    constructor
    · intro h
      have h0 : obase L + 80 * k5_t14.val ≤ (idx 0).val ∧ (idx 0).val < obase L + 80 * k5_t14.val + 40 := h 0
      exact h0
    · intro h a
      match a with
      | 0 => exact h
      | 1 => exact ⟨Nat.zero_le _, by show (idx 1).val < 0 + 128; have h128 : (idx 1).val < 128 := (idx 1).isLt; omega⟩
  have hmemO : ∀ idx : S102400x128.Idx, idx ∈ (chunkO2 L k5_t14).view.set ↔ (obase L + 80 * k5_t14.val + 40 ≤ (idx 0).val ∧ (idx 0).val < obase L + 80 * k5_t14.val + 80) := by
    intro idx
    rw [hsetO, Rect.mem_set_unit, k5_off31_eq]
    constructor
    · intro h
      have h0 : obase L + 80 * k5_t14.val + 40 ≤ (idx 0).val ∧ (idx 0).val < obase L + 80 * k5_t14.val + 40 + 40 := h 0
      exact ⟨h0.1, by omega⟩
    · intro h a
      match a with
      | 0 => exact ⟨h.1, by show (idx 0).val < obase L + 80 * k5_t14.val + 40 + 40; omega⟩
      | 1 => exact ⟨Nat.zero_le _, by show (idx 1).val < 0 + 128; have h128 : (idx 1).val < 128 := (idx 1).isLt; omega⟩
  have hsubE : (chunkE2 L k5_t14).view.set ⊆ oSet L := by
    rw [hsetE]
    exact chunkRect_sub L _ (80 * k5_t14.val) (by omega) (k5_off27_eq L k5_t14) _
  have hsubO : (chunkO2 L k5_t14).view.set ⊆ oSet L \ (chunkE2 L k5_t14).view.set := by
    rw [hsetO, hsetE]
    exact Finset.subset_sdiff.mpr ⟨chunkRect_sub L _ (80 * k5_t14.val + 40) (by omega) (k5_off31_eq L k5_t14) _,
      (chunkRect_disj L _ _ (80 * k5_t14.val) (k5_off27_eq L k5_t14) (k5_off31_eq L k5_t14) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o2Loc d ↦[(chunkE2 L k5_t14).view.set]{fullShare} fo : sProp 𝕄)) ⊢ ((chunkE2 L k5_t14).view.loc (V d (cV L) (jV L)) ↦[(chunkE2 L k5_t14).view.set]{fullShare} fo) from Entails.of_eq rfl) $$ HcE
  ihave HcO' := (show ((o2Loc d ↦[(chunkO2 L k5_t14).view.set]{fullShare} fo : sProp 𝕄)) ⊢ ((chunkO2 L k5_t14).view.loc (V d (cV L) (jV L)) ↦[(chunkO2 L k5_t14).view.set]{fullShare} fo) from Entails.of_eq rfl) $$ HcO
  sl_for (prepInvV1 (F := F) d L fI (640 * k5_t14.val + 320)) $$ [HI Hs1]
  case region =>
    intro k u
    exact prep_trip_t15_val (F := F) d L _ _ _ _ k5_t14 k fI
  · unfold prepInvV1
    isplitl [HI]; · iexact HI
    iexists fs1
    isplitl [Hs1]; · iexact Hs1
    ipureintro; intro y hy; omega
  iintro %_ HIv
  unfold prepInvV1
  icases HIv with ⟨HI, %fs1', Hs1, %hfs1⟩
  have htr15 : Scf.trips k5_t15_loop.lb k5_t15_loop.ub k5_t15_loop.st = 20 := by decide
  rw [htr15] at hfs1
  have hin15 : ∀ x, ((Memref.whole cc5_scratch2 : Memref sig .scVector .vmem S320 .i32).view.read (Elt F) fs1' x).toNat < S12500x128.size gathers_S12500x128_S320x128.axis :=
    supOK_lt (F := F) d L fI (640 * k5_t14.val + 320) _ hfs1 hIall
  sl_exec
  sl_for (drainInvX0_2 (F := F) d L T2 fI (640 * k5_t14.val)) $$ [HI Hfl_dst Hout]
  case region =>
    intro k u
    exact drainX_trip_t16 (F := F) d L T2 _ _ _ _ k5_t14 k fI
  · unfold drainInvX0_2 drainInvV0
    iexists _
    isplitr
    swap
    · isplitl [HI]; · iexact HI
      isplitl [Hfl_dst]; · iexact Hfl_dst
      iexists _
      isplitl [Hout]; · iexact Hout
      ipureintro; intro p hp; omega
    · ipureintro
      exact hrows0
  iintro %_ HIv
  unfold drainInvX0_2 drainInvV0
  icases HIv with ⟨%fr_16, %hfr_16, HI, Hfl_dst, %fout_16, Hout, %hout_16⟩
  have htr16 : Scf.trips k5_t16_loop.lb k5_t16_loop.ub k5_t16_loop.st = 20 := by decide
  rw [htr16] at hout_16
  sl_exec
  by_cases hc : k5_cond3 k5_t14 = 1#1
  · sl_exec
    sl_rw [Prog.bind_assoc]
    sl_for (prepInvV0 (F := F) d L fI (640 * k5_t14.val + 640)) $$ [HI Hfl_dst_and]
    case region =>
      intro k u
      exact prep_trip_t17_val (F := F) d L _ _ k5_t14 _ hc k fI
    · unfold prepInvV0
      isplitl [HI]; · iexact HI
      iexists fo0
      isplitl [Hfl_dst_and]; · iexact Hfl_dst_and
      ipureintro; intro y hy; omega
    iintro %_ HIv
    unfold prepInvV0
    icases HIv with ⟨HI, %fo0', Hfl_dst_and, %hfo0⟩
    have htr17 : Scf.trips k5_t17_loop.lb k5_t17_loop.ub k5_t17_loop.st = 20 := by decide
    rw [htr17] at hfo0
    have hin17 : ∀ x, ((Memref.whole cc5_scratch1 : Memref sig .scVector .vmem S320 .i32).view.read (Elt F) fo0' x).toNat < S12500x128.size gathers_S12500x128_S320x128.axis :=
      supOK_lt (F := F) d L fI (640 * k5_t14.val + 640) _ hfo0 hIall
    sl_exec
    try sl_rw [Prog.bind_assoc]
    sl_for (drainInvX1_2 (F := F) d L T2 fI (640 * k5_t14.val + 320)) $$ [HI Hr1 Hout]
    case region =>
      intro k u
      exact drainX_trip_t18 (F := F) d L T2 _ _ _ k5_t14 k fI
    · unfold drainInvX1_2 drainInvV1
      iexists _
      isplitr
      swap
      · isplitl [HI]; · iexact HI
        isplitl [Hr1]; · iexact Hr1
        iexists _
        isplitl [Hout]; · iexact Hout
        ipureintro; intro p hp; omega
      · ipureintro
        exact rows_landed_writes (F := F) d L _ fI _ _ _ _ _ _ hin15 hfs1
    iintro %_ HIv
    unfold drainInvX1_2 drainInvV1
    icases HIv with ⟨%fr_18, %hfr_18, HI, Hr1, %fout_18, Hout, %hout_18⟩
    have htr18 : Scf.trips k5_t18_loop.lb k5_t18_loop.ub k5_t18_loop.st = 20 := by decide
    rw [htr18] at hout_18
    sl_exec
    sl_step
    irw [if_pos (by have := (cond2_iff k5_t14).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      isplitr
      swap
      · iapply (pointsTo_join_subset hsubE)
        isplitl [HcE']; · iexact HcE'
        iapply (pointsTo_join_subset hsubO)
        isplitl [HcO']; · iexact HcO'
        iexact Hrest
      · ipureintro
        rw [show obase L + 80 * (k5_t14.val + 1) = obase L + (80 * k5_t14.val + 80) by omega]
        refine out_step (F := F) L (gatherAt (F := F) T2 I2) _ _ (80 * k5_t14.val) hmemE hmemO fo _ _ hfo ?_ ?_
        · intro idx h1 h2
          rw [chunkE_val2 (F := F) d L k5_t14 fo _ idx h1 h2]
          refine (out_chunkElt (F := F) d L hfr_16 hout_16 _).trans ?_
          rw [show 640 * k5_t14.val = 8 * (80 * k5_t14.val) by omega]
          exact chunkElt_gatherAt (F := F) d L _ T2 (read_tblSlice2 (F := F) d L T2) fI I2 hIs (80 * k5_t14.val) (by omega) _ idx (by show (idx 0).val = obase L + 80 * k5_t14.val + ((idx 0).val - (obase L + 80 * k5_t14.val)); omega) rfl
        · intro idx h1 h2
          rw [chunkO_val2 (F := F) d L k5_t14 _ _ idx (by omega) (by omega)]
          refine (out_chunkElt (F := F) d L hfr_18 hout_18 _).trans ?_
          rw [show 640 * k5_t14.val + 320 = 8 * (80 * k5_t14.val + 40) by omega]
          exact chunkElt_gatherAt (F := F) d L _ T2 (read_tblSlice2 (F := F) d L T2) fI I2 hIs (80 * k5_t14.val + 40) (by omega) _ idx (by show (idx 0).val = obase L + (80 * k5_t14.val + 40) + ((idx 0).val - (obase L + 80 * k5_t14.val + 40)); omega) rfl
    isplitl [Htrem Hfl]
    · isplitl [Hfl]
      · iexists _, _
        isplitr
        swap
        · iexact Hfl
        · ipureintro
          rw [show 640 * (k5_t14.val + 1) = 640 * k5_t14.val + 640 by omega]
          exact rows_landed_writes (F := F) d L _ fI _ _ _ _ _ _ hin17 hfo0
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInvX1_2 (F := F) d L T2 fI (640 * k5_t14.val + 320)) $$ [HI Hr1 Hout]
    case region =>
      intro k u
      exact drainX_trip_t18 (F := F) d L T2 _ _ _ k5_t14 k fI
    · unfold drainInvX1_2 drainInvV1
      iexists _
      isplitr
      swap
      · isplitl [HI]; · iexact HI
        isplitl [Hr1]; · iexact Hr1
        iexists _
        isplitl [Hout]; · iexact Hout
        ipureintro; intro p hp; omega
      · ipureintro
        exact rows_landed_writes (F := F) d L _ fI _ _ _ _ _ _ hin15 hfs1
    iintro %_ HIv
    unfold drainInvX1_2 drainInvV1
    icases HIv with ⟨%fr_18, %hfr_18, HI, Hr1, %fout_18, Hout, %hout_18⟩
    have htr18 : Scf.trips k5_t18_loop.lb k5_t18_loop.ub k5_t18_loop.st = 20 := by decide
    rw [htr18] at hout_18
    sl_exec
    sl_step
    irw [if_neg (by intro h; exact hc ((cond2_iff k5_t14).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      isplitr
      swap
      · iapply (pointsTo_join_subset hsubE)
        isplitl [HcE']; · iexact HcE'
        iapply (pointsTo_join_subset hsubO)
        isplitl [HcO']; · iexact HcO'
        iexact Hrest
      · ipureintro
        rw [show obase L + 80 * (k5_t14.val + 1) = obase L + (80 * k5_t14.val + 80) by omega]
        refine out_step (F := F) L (gatherAt (F := F) T2 I2) _ _ (80 * k5_t14.val) hmemE hmemO fo _ _ hfo ?_ ?_
        · intro idx h1 h2
          rw [chunkE_val2 (F := F) d L k5_t14 fo _ idx h1 h2]
          refine (out_chunkElt (F := F) d L hfr_16 hout_16 _).trans ?_
          rw [show 640 * k5_t14.val = 8 * (80 * k5_t14.val) by omega]
          exact chunkElt_gatherAt (F := F) d L _ T2 (read_tblSlice2 (F := F) d L T2) fI I2 hIs (80 * k5_t14.val) (by omega) _ idx (by show (idx 0).val = obase L + 80 * k5_t14.val + ((idx 0).val - (obase L + 80 * k5_t14.val)); omega) rfl
        · intro idx h1 h2
          rw [chunkO_val2 (F := F) d L k5_t14 _ _ idx (by omega) (by omega)]
          refine (out_chunkElt (F := F) d L hfr_18 hout_18 _).trans ?_
          rw [show 640 * k5_t14.val + 320 = 8 * (80 * k5_t14.val + 40) by omega]
          exact chunkElt_gatherAt (F := F) d L _ T2 (read_tblSlice2 (F := F) d L T2) fI I2 hIs (80 * k5_t14.val + 40) (by omega) _ idx (by show (idx 0).val = obase L + (80 * k5_t14.val + 40) + ((idx 0).val - (obase L + 80 * k5_t14.val + 40)); omega) rfl
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.ScBody

end
-- ==== Proof.ScMainVal3.lean ====
/-
  One trip of the main loop of table 3 of the lookup kernel, with the values: the chunks' offset lists hold the
  shifted index words, the landed rows the tables' rows they name, the drained output scratch the chunk's elements, and
  the tile's lines of the output, eighty lines further each trip, the gathered elements.
-/
import proofs.«203359_g24824910971486_cont_8to1_1854_34_alg».proof.Proof.ScMain3
import proofs.«203359_g24824910971486_cont_8to1_1854_34_alg».proof.Proof.ScValOut
import proofs.«203359_g24824910971486_cont_8to1_1854_34_alg».proof.Proof.ScPrepVal
import proofs.«203359_g24824910971486_cont_8to1_1854_34_alg».proof.Proof.ScDrainValA
import proofs.«203359_g24824910971486_cont_8to1_1854_34_alg».proof.Proof.ScDrainValB
import proofs.«203359_g24824910971486_cont_8to1_1854_34_alg».proof.Proof.ScValJoin

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- What is pending on the first gather semaphore at the start of trip `k`, with the landed rows' values. -/
def pendV3 (d : Dev nD) (L : grid5.Coords) (qT : PosShare TreeShare) (T3 : Buf (Elt F) (t3Loc d))
    (fI : Buf (Elt F) ((V d (cV L) (jV L)).loc cc5_scratch0)) (k : Nat) : sProp 𝕄 :=
  if k < 40 then
    iprop((∃ (fd : Buf (Elt F) ((V d (cV L) (jV L)).loc cc5_scratch3)) (fo : Buf (Elt F) ((V d (cV L) (jV L)).loc cc5_scratch1)),
        ⌜RowsOK (F := F) d L ((tblSlice3).view.read (Elt F) T3) fI (640 * k)
            ((Memref.whole cc5_scratch3 : Memref sig .scVector .vmem S320x128 .f32).view.read (Elt F) fd)⌝
        ∗ Transfers.Flight countersEmb (V d (cV L) (jV L)) (SemLoc.dma cc5_scratch6.sem) default 1310720
          iprop((((Memref.whole cc5_scratch3).view.loc (V d (cV L) (jV L)) ↦{fullShare} fd) ∗ ((Memref.whole cc5_scratch1).view.loc (V d (cV L) (jV L)) ↦{fullShare} fo))
            ∗ ((Memref.whole main_v10_scv).view.loc (V d (cV L) (jV L)) ↦[(tblSlice3).view.set]{qT.left} T3)))
      ∗ ((Memref.whole main_v10_scv).view.loc (V d (cV L) (jV L)) ↦[Finset.univ \ (tblSlice3).view.set]{qT.left} T3))
  else
    iprop((∃ f : Buf (Elt F) ((V d (cV L) (jV L)).loc cc5_scratch3), (Memref.whole cc5_scratch3).view.loc (V d (cV L) (jV L)) ↦{fullShare} f)
      ∗ (∃ f : Buf (Elt F) ((V d (cV L) (jV L)).loc cc5_scratch1), (Memref.whole cc5_scratch1).view.loc (V d (cV L) (jV L)) ↦{fullShare} f)
      ∗ ((Memref.whole main_v10_scv).view.loc (V d (cV L) (jV L)) ↦{qT.left} T3) ∗ semVal (cellOf d L cc5_scratch6) 0)

/-- The invariant of the main loop of table 3, with the values: the tile's lines of the output before line
    `80 k` of its own hold the gathered elements. -/
def mainInvV3 (d : Dev nD) (L : grid5.Coords) (qT : PosShare TreeShare) (T3 : Buf (Elt F) (t3Loc d)) (I3 : Buf (Elt F) (i3Loc d))
    (fI : Buf (Elt F) ((V d (cV L) (jV L)).loc cc5_scratch0)) (O : CellTallies nD τ sig (HIx 1)) (W : Waits sig (HIx 1)) (k : Nat) (_ : PUnit) : sProp 𝕄 :=
  iprop(Transfers.MayWaits (V d (cV L) (jV L)) (none : HIx 1) O
    ∗ ((Memref.whole main_v10_scv).view.loc (V d (cV L) (jV L)) ↦{qT.right} T3)
    ∗ ((Memref.whole cc5_scratch0).view.loc (V d (cV L) (jV L)) ↦{fullShare} fI)
    ∗ (∃ f : Buf (Elt F) ((V d (cV L) (jV L)).loc cc5_scratch2), (Memref.whole cc5_scratch2).view.loc (V d (cV L) (jV L)) ↦{fullShare} f)
    ∗ (∃ f : Buf (Elt F) ((V d (cV L) (jV L)).loc cc5_scratch4), (Memref.whole cc5_scratch4).view.loc (V d (cV L) (jV L)) ↦{fullShare} f)
    ∗ semVal (cellOf d L cc5_scratch7) 0
    ∗ (∃ f : Buf (Elt F) ((V d (cV L) (jV L)).loc cc5_scratch5), (Memref.whole cc5_scratch5).view.loc (V d (cV L) (jV L)) ↦{fullShare} f)
    ∗ semVal (cellOf d L cc5_scoped10) 0 ∗ semVal (cellOf d L cc5_scoped11) 0
    ∗ (∃ f : Buf (Elt F) (o3Loc d), ⌜∀ idx ∈ oSet L, (idx 0).val < obase L + 80 * k → f idx = gatherAt (F := F) T3 I3 idx⌝
        ∗ o3Loc d ↦[oSet L]{fullShare} f)
    ∗ pendV3 (F := F) d L qT T3 fI k
    ∗ ∃ W', ⌜∀ p ∈ W', p ∈ W ∨ p.2 = none⌝ ∗ owes (V d (cV L) (jV L)) O W')

/-- The drain loops' invariants with the row scratch's contents left open: some contents holding the landed rows. -/
def drainInvX0_3 (d : Dev nD) (L : grid5.Coords) (T3 : Buf (Elt F) (t3Loc d)) (fI : Buf (Elt F) ((V d (cV L) (jV L)).loc cc5_scratch0)) (cb : Nat) (k : Nat) (u : PUnit) : sProp 𝕄 :=
  iprop(∃ fr : Buf (Elt F) ((V d (cV L) (jV L)).loc cc5_scratch3), ⌜RowsOK (F := F) d L ((tblSlice3).view.read (Elt F) T3) fI cb
      ((Memref.whole cc5_scratch3 : Memref sig .scVector .vmem S320x128 .f32).view.read (Elt F) fr)⌝ ∗ drainInvV0 (F := F) d L fI fr cb k u)
def drainInvX1_3 (d : Dev nD) (L : grid5.Coords) (T3 : Buf (Elt F) (t3Loc d)) (fI : Buf (Elt F) ((V d (cV L) (jV L)).loc cc5_scratch0)) (cb : Nat) (k : Nat) (u : PUnit) : sProp 𝕄 :=
  iprop(∃ fr : Buf (Elt F) ((V d (cV L) (jV L)).loc cc5_scratch4), ⌜RowsOK (F := F) d L ((tblSlice3).view.read (Elt F) T3) fI cb
      ((Memref.whole cc5_scratch4 : Memref sig .scVector .vmem S320x128 .f32).view.read (Elt F) fr)⌝ ∗ drainInvV1 (F := F) d L fI fr cb k u)

/-- The table as its full-size slice reads it. -/
theorem read_tblSlice3 (d : Dev nD) (L : grid5.Coords) (T3 : Buf (Elt F) (t3Loc d)) (i : S12500x128.Idx) :
    (tblSlice3).view.read (Elt F) T3 i = T3 i := by
  rw [View.read_apply, cast_eq]
  congr 1
  funext a
  apply Fin.ext
  show ((Rect.unit (s := S12500x128) ![0, 0] ![12500, 128] inb_S12500x128_S12500x128_0_0).emb i a).val = (i a).val
  rw [Rect.emb_apply]
  simp only [Rect.off_unit, Rect.stride_unit]
  match a with
  | 0 => show 0 + 1 * (i 0).val = (i 0).val; omega
  | 1 => show 0 + 1 * (i 1).val = (i 1).val; omega

/-- A chunk's lines written whole from the output scratch read back the output scratch, place by place. -/
theorem chunkE_val3 (d : Dev nD) (L : grid5.Coords) (k : Fin k5_t20_loop.trips) (fo : Buf (Elt F) (o3Loc d)) (w : S40x128.Idx → Elt F .f32)
    (idx : S102400x128.Idx) (h1 : obase L + 80 * k.val ≤ (idx 0).val) (h2 : (idx 0).val < obase L + 80 * k.val + 40) :
    ((chunkE3 L k).view.writes (Elt F) fo [⟨Rect.whole S40x128, w⟩]) idx
      = w (ix2 (⟨(idx 0).val - (obase L + 80 * k.val), by omega⟩ : Fin 40) (⟨(idx 1).val, (idx 1).isLt⟩ : Fin 128)) := by
  have hemb : (chunkE3 L k).view.emb ((Rect.whole S40x128).emb (ix2 (⟨(idx 0).val - (obase L + 80 * k.val), by omega⟩ : Fin 40) (⟨(idx 1).val, (idx 1).isLt⟩ : Fin 128))) = idx := by
    rw [Rect.emb_whole_apply]
    funext a
    apply Fin.ext
    show ((Rect.unit (s := S102400x128) (k5_off37 L k) ![40, 128] (k5_off37_inb L k)).emb _ a).val = (idx a).val
    rw [Rect.emb_apply]
    simp only [Rect.off_unit, Rect.stride_unit, k5_off37_eq]
    match a with
    | 0 => show obase L + 80 * k.val + 1 * ((idx 0).val - (obase L + 80 * k.val)) = (idx 0).val; omega
    | 1 => show 0 + 1 * (idx 1).val = (idx 1).val; omega
  have hr := View.read_writes_cons_emb (chunkE3 L k).view fo (Rect.whole S40x128) w [] (ix2 (⟨(idx 0).val - (obase L + 80 * k.val), by omega⟩ : Fin 40) (⟨(idx 1).val, (idx 1).isLt⟩ : Fin 128))
  rw [View.read_apply, hemb] at hr
  exact (cast_eq _ _).symm.trans hr

/-- A chunk's lines written whole from the output scratch read back the output scratch, place by place. -/
theorem chunkO_val3 (d : Dev nD) (L : grid5.Coords) (k : Fin k5_t20_loop.trips) (fo : Buf (Elt F) (o3Loc d)) (w : S40x128.Idx → Elt F .f32)
    (idx : S102400x128.Idx) (h1 : obase L + 80 * k.val + 40 ≤ (idx 0).val) (h2 : (idx 0).val < obase L + 80 * k.val + 40 + 40) :
    ((chunkO3 L k).view.writes (Elt F) fo [⟨Rect.whole S40x128, w⟩]) idx
      = w (ix2 (⟨(idx 0).val - (obase L + 80 * k.val + 40), by omega⟩ : Fin 40) (⟨(idx 1).val, (idx 1).isLt⟩ : Fin 128)) := by
  have hemb : (chunkO3 L k).view.emb ((Rect.whole S40x128).emb (ix2 (⟨(idx 0).val - (obase L + 80 * k.val + 40), by omega⟩ : Fin 40) (⟨(idx 1).val, (idx 1).isLt⟩ : Fin 128))) = idx := by
    rw [Rect.emb_whole_apply]
    funext a
    apply Fin.ext
    show ((Rect.unit (s := S102400x128) (k5_off41 L k) ![40, 128] (k5_off41_inb L k)).emb _ a).val = (idx a).val
    rw [Rect.emb_apply]
    simp only [Rect.off_unit, Rect.stride_unit, k5_off41_eq]
    match a with
    | 0 => show obase L + 80 * k.val + 40 + 1 * ((idx 0).val - (obase L + 80 * k.val + 40)) = (idx 0).val; omega
    | 1 => show 0 + 1 * (idx 1).val = (idx 1).val; omega
  have hr := View.read_writes_cons_emb (chunkO3 L k).view fo (Rect.whole S40x128) w [] (ix2 (⟨(idx 0).val - (obase L + 80 * k.val + 40), by omega⟩ : Fin 40) (⟨(idx 1).val, (idx 1).isLt⟩ : Fin 128))
  rw [View.read_apply, hemb] at hr
  exact (cast_eq _ _).symm.trans hr

theorem drainX_trip_t22 (d : Dev nD) (L : grid5.Coords) (T3 : Buf (Elt F) (t3Loc d)) (v2 c0 c1 v17 : BitVec 32) (k5_t20 : Fin k5_t20_loop.trips) (k : Fin k5_t22_loop.trips)
    (fI : Buf (Elt F) ((V d (cV L) (jV L)).loc cc5_scratch0)) :
    drainInvX0_3 (F := F) d L T3 fI (640 * k5_t20.val) k.val ()
      ⊢ wp frame (wpE (defs₀ (F := F)) 𝒱₀ (V d (cV L) (jV L)) none) Set.univ (k5_t22_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) c0 c1 k5_t20 v17 k ())
          (drainInvX0_3 (F := F) d L T3 fI (640 * k5_t20.val) (k.val + 1)) := by
  unfold drainInvX0_3
  iintro ⟨%fr, %hr, H⟩
  iapply (wp_mono frame _ _ (fun u => show drainInvV0 (F := F) d L fI fr (640 * k5_t20.val) (k.val + 1) u ⊢ iprop(∃ fr : Buf (Elt F) ((V d (cV L) (jV L)).loc cc5_scratch3), ⌜RowsOK (F := F) d L ((tblSlice3).view.read (Elt F) T3) fI (640 * k5_t20.val) ((Memref.whole cc5_scratch3 : Memref sig .scVector .vmem S320x128 .f32).view.read (Elt F) fr)⌝ ∗ drainInvV0 (F := F) d L fI fr (640 * k5_t20.val) (k.val + 1) u) from by
    iintro H; iexists fr; isplitr; · ipureintro; exact hr
    iexact H))
  iapply (drain_trip_t22_val (F := F) d L v2 c0 c1 v17 k5_t20 k fI fr)
  iexact H

theorem drainX_trip_t24 (d : Dev nD) (L : grid5.Coords) (T3 : Buf (Elt F) (t3Loc d)) (v2 v17 v48 : BitVec 32) (k5_t20 : Fin k5_t20_loop.trips) (k : Fin k5_t24_loop.trips)
    (fI : Buf (Elt F) ((V d (cV L) (jV L)).loc cc5_scratch0)) :
    drainInvX1_3 (F := F) d L T3 fI (640 * k5_t20.val + 320) k.val ()
      ⊢ wp frame (wpE (defs₀ (F := F)) 𝒱₀ (V d (cV L) (jV L)) none) Set.univ (k5_t24_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t20 v17 v48 k ())
          (drainInvX1_3 (F := F) d L T3 fI (640 * k5_t20.val + 320) (k.val + 1)) := by
  unfold drainInvX1_3
  iintro ⟨%fr, %hr, H⟩
  iapply (wp_mono frame _ _ (fun u => show drainInvV1 (F := F) d L fI fr (640 * k5_t20.val + 320) (k.val + 1) u ⊢ iprop(∃ fr : Buf (Elt F) ((V d (cV L) (jV L)).loc cc5_scratch4), ⌜RowsOK (F := F) d L ((tblSlice3).view.read (Elt F) T3) fI (640 * k5_t20.val + 320) ((Memref.whole cc5_scratch4 : Memref sig .scVector .vmem S320x128 .f32).view.read (Elt F) fr)⌝ ∗ drainInvV1 (F := F) d L fI fr (640 * k5_t20.val + 320) (k.val + 1) u) from by
    iintro H; iexists fr; isplitr; · ipureintro; exact hr
    iexact H))
  iapply (drain_trip_t24_val (F := F) d L v2 v17 v48 k5_t20 k fI fr)
  iexact H

set_option maxHeartbeats 16000000 in
theorem main_trip_t20_val (d : Dev nD) (L : grid5.Coords) (qT : PosShare TreeShare) (T3 : Buf (Elt F) (t3Loc d)) (I3 : Buf (Elt F) (i3Loc d)) (v2 : BitVec 32)
    (fI : Buf (Elt F) ((V d (cV L) (jV L)).loc cc5_scratch0)) (hI : ∀ j, IdxOK ((Memref.whole cc5_scratch0 : Memref sig .scVector .vmem S25600 .i32).view.read (Elt F) fI j))
    (hIs : IdxIs (F := F) d L fI I3)
    (O : CellTallies nD τ sig (HIx 1)) (W : Waits sig (HIx 1)) (k5_t20 : Fin k5_t20_loop.trips) :
    mainInvV3 (F := F) d L qT T3 I3 fI O W k5_t20.val ()
      ⊢ wp frame (wpE (defs₀ (F := F)) 𝒱₀ (V d (cV L) (jV L)) none) Set.univ
          (k5_t20_body L (Memref.whole main_v7_scv) (Memref.isWhole_whole _) (Memref.whole main_v8_scv) (Memref.isWhole_whole _) (Memref.whole main_v9_scv) (Memref.isWhole_whole _) (Memref.whole main_v10_scv) (Memref.isWhole_whole _) (Memref.whole main_v11_scv) (Memref.isWhole_whole _) (Memref.whole main_v12_scv) (Memref.isWhole_whole _) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scoped0 cc5_scoped1 cc5_scoped2 cc5_scoped3 cc5_scoped4 cc5_scoped5 cc5_scoped6 cc5_scoped7 cc5_scoped8 cc5_scoped9 cc5_scoped10 cc5_scoped11 v2 (iota .scVector S16 32 [0] iota_S16_d0_w32_scVector) k5_t20 ())
          (mainInvV3 (F := F) d L qT T3 I3 fI O W (k5_t20.val + 1)) := by
  have hk : k5_t20.val < 40 := Nat.lt_of_lt_of_le k5_t20.isLt k5_t20_abs.2.1
  have hIall : ∀ n, IdxOK (idxAtN (F := F) d L fI n) := fun n => hI _
  unfold k5_t20_body
  simp only [k5_part39_eq_skeleton, k5_part40_eq_skeleton]
  unfold k5_part39_skel k5_part40_skel
  simp only [Prog.bind_assoc]
  unfold mainInvV3 pendV3
  rw [if_pos hk]
  iintro ⟨#Hmw, Htb, HI, ⟨%fs1, Hs1⟩, ⟨%fr1, Hr1⟩, Hsem21, ⟨%fout, Hout⟩, HscE, HscO, ⟨%fo, %hfo, Ho⟩, ⟨⟨%fd, %fo0, %hrows0, Hfl⟩, Htrem⟩, %W', %hW', HO⟩
  have hsetE : (chunkE3 L k5_t20).view.set = (Rect.unit (s := S102400x128) (k5_off37 L k5_t20) ![40, 128] (k5_off37_inb L k5_t20)).set := View.set_slice_whole _ _
  have hsetO : (chunkO3 L k5_t20).view.set = (Rect.unit (s := S102400x128) (k5_off41 L k5_t20) ![40, 128] (k5_off41_inb L k5_t20)).set := View.set_slice_whole _ _
  have hmemE : ∀ idx : S102400x128.Idx, idx ∈ (chunkE3 L k5_t20).view.set ↔ (obase L + 80 * k5_t20.val ≤ (idx 0).val ∧ (idx 0).val < obase L + 80 * k5_t20.val + 40) := by
    intro idx
    rw [hsetE, Rect.mem_set_unit, k5_off37_eq]
    constructor
    · intro h
      have h0 : obase L + 80 * k5_t20.val ≤ (idx 0).val ∧ (idx 0).val < obase L + 80 * k5_t20.val + 40 := h 0
      exact h0
    · intro h a
      match a with
      | 0 => exact h
      | 1 => exact ⟨Nat.zero_le _, by show (idx 1).val < 0 + 128; have h128 : (idx 1).val < 128 := (idx 1).isLt; omega⟩
  have hmemO : ∀ idx : S102400x128.Idx, idx ∈ (chunkO3 L k5_t20).view.set ↔ (obase L + 80 * k5_t20.val + 40 ≤ (idx 0).val ∧ (idx 0).val < obase L + 80 * k5_t20.val + 80) := by
    intro idx
    rw [hsetO, Rect.mem_set_unit, k5_off41_eq]
    constructor
    · intro h
      have h0 : obase L + 80 * k5_t20.val + 40 ≤ (idx 0).val ∧ (idx 0).val < obase L + 80 * k5_t20.val + 40 + 40 := h 0
      exact ⟨h0.1, by omega⟩
    · intro h a
      match a with
      | 0 => exact ⟨h.1, by show (idx 0).val < obase L + 80 * k5_t20.val + 40 + 40; omega⟩
      | 1 => exact ⟨Nat.zero_le _, by show (idx 1).val < 0 + 128; have h128 : (idx 1).val < 128 := (idx 1).isLt; omega⟩
  have hsubE : (chunkE3 L k5_t20).view.set ⊆ oSet L := by
    rw [hsetE]
    exact chunkRect_sub L _ (80 * k5_t20.val) (by omega) (k5_off37_eq L k5_t20) _
  have hsubO : (chunkO3 L k5_t20).view.set ⊆ oSet L \ (chunkE3 L k5_t20).view.set := by
    rw [hsetO, hsetE]
    exact Finset.subset_sdiff.mpr ⟨chunkRect_sub L _ (80 * k5_t20.val + 40) (by omega) (k5_off41_eq L k5_t20) _,
      (chunkRect_disj L _ _ (80 * k5_t20.val) (k5_off37_eq L k5_t20) (k5_off41_eq L k5_t20) _ _).symm⟩
  ihave Hsp := (pointsTo_split_subset hsubE).1 $$ Ho
  icases Hsp with ⟨HcE, Hrest⟩
  ihave Hsp2 := (pointsTo_split_subset hsubO).1 $$ Hrest
  icases Hsp2 with ⟨HcO, Hrest⟩
  ihave HcE' := (show ((o3Loc d ↦[(chunkE3 L k5_t20).view.set]{fullShare} fo : sProp 𝕄)) ⊢ ((chunkE3 L k5_t20).view.loc (V d (cV L) (jV L)) ↦[(chunkE3 L k5_t20).view.set]{fullShare} fo) from Entails.of_eq rfl) $$ HcE
  ihave HcO' := (show ((o3Loc d ↦[(chunkO3 L k5_t20).view.set]{fullShare} fo : sProp 𝕄)) ⊢ ((chunkO3 L k5_t20).view.loc (V d (cV L) (jV L)) ↦[(chunkO3 L k5_t20).view.set]{fullShare} fo) from Entails.of_eq rfl) $$ HcO
  sl_for (prepInvV1 (F := F) d L fI (640 * k5_t20.val + 320)) $$ [HI Hs1]
  case region =>
    intro k u
    exact prep_trip_t21_val (F := F) d L _ _ _ _ k5_t20 k fI
  · unfold prepInvV1
    isplitl [HI]; · iexact HI
    iexists fs1
    isplitl [Hs1]; · iexact Hs1
    ipureintro; intro y hy; omega
  iintro %_ HIv
  unfold prepInvV1
  icases HIv with ⟨HI, %fs1', Hs1, %hfs1⟩
  have htr21 : Scf.trips k5_t21_loop.lb k5_t21_loop.ub k5_t21_loop.st = 20 := by decide
  rw [htr21] at hfs1
  have hin21 : ∀ x, ((Memref.whole cc5_scratch2 : Memref sig .scVector .vmem S320 .i32).view.read (Elt F) fs1' x).toNat < S12500x128.size gathers_S12500x128_S320x128.axis :=
    supOK_lt (F := F) d L fI (640 * k5_t20.val + 320) _ hfs1 hIall
  sl_exec
  sl_for (drainInvX0_3 (F := F) d L T3 fI (640 * k5_t20.val)) $$ [HI Hfl_dst Hout]
  case region =>
    intro k u
    exact drainX_trip_t22 (F := F) d L T3 _ _ _ _ k5_t20 k fI
  · unfold drainInvX0_3 drainInvV0
    iexists _
    isplitr
    swap
    · isplitl [HI]; · iexact HI
      isplitl [Hfl_dst]; · iexact Hfl_dst
      iexists _
      isplitl [Hout]; · iexact Hout
      ipureintro; intro p hp; omega
    · ipureintro
      exact hrows0
  iintro %_ HIv
  unfold drainInvX0_3 drainInvV0
  icases HIv with ⟨%fr_22, %hfr_22, HI, Hfl_dst, %fout_22, Hout, %hout_22⟩
  have htr22 : Scf.trips k5_t22_loop.lb k5_t22_loop.ub k5_t22_loop.st = 20 := by decide
  rw [htr22] at hout_22
  sl_exec
  by_cases hc : k5_cond4 k5_t20 = 1#1
  · sl_exec
    sl_rw [Prog.bind_assoc]
    sl_for (prepInvV0 (F := F) d L fI (640 * k5_t20.val + 640)) $$ [HI Hfl_dst_and]
    case region =>
      intro k u
      exact prep_trip_t23_val (F := F) d L _ _ k5_t20 _ hc k fI
    · unfold prepInvV0
      isplitl [HI]; · iexact HI
      iexists fo0
      isplitl [Hfl_dst_and]; · iexact Hfl_dst_and
      ipureintro; intro y hy; omega
    iintro %_ HIv
    unfold prepInvV0
    icases HIv with ⟨HI, %fo0', Hfl_dst_and, %hfo0⟩
    have htr23 : Scf.trips k5_t23_loop.lb k5_t23_loop.ub k5_t23_loop.st = 20 := by decide
    rw [htr23] at hfo0
    have hin23 : ∀ x, ((Memref.whole cc5_scratch1 : Memref sig .scVector .vmem S320 .i32).view.read (Elt F) fo0' x).toNat < S12500x128.size gathers_S12500x128_S320x128.axis :=
      supOK_lt (F := F) d L fI (640 * k5_t20.val + 640) _ hfo0 hIall
    sl_exec
    try sl_rw [Prog.bind_assoc]
    sl_for (drainInvX1_3 (F := F) d L T3 fI (640 * k5_t20.val + 320)) $$ [HI Hr1 Hout]
    case region =>
      intro k u
      exact drainX_trip_t24 (F := F) d L T3 _ _ _ k5_t20 k fI
    · unfold drainInvX1_3 drainInvV1
      iexists _
      isplitr
      swap
      · isplitl [HI]; · iexact HI
        isplitl [Hr1]; · iexact Hr1
        iexists _
        isplitl [Hout]; · iexact Hout
        ipureintro; intro p hp; omega
      · ipureintro
        exact rows_landed_writes (F := F) d L _ fI _ _ _ _ _ _ hin21 hfs1
    iintro %_ HIv
    unfold drainInvX1_3 drainInvV1
    icases HIv with ⟨%fr_24, %hfr_24, HI, Hr1, %fout_24, Hout, %hout_24⟩
    have htr24 : Scf.trips k5_t24_loop.lb k5_t24_loop.ub k5_t24_loop.st = 20 := by decide
    rw [htr24] at hout_24
    sl_exec
    sl_step
    irw [if_pos (by have := (cond3_iff k5_t20).mp hc; omega)]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      isplitr
      swap
      · iapply (pointsTo_join_subset hsubE)
        isplitl [HcE']; · iexact HcE'
        iapply (pointsTo_join_subset hsubO)
        isplitl [HcO']; · iexact HcO'
        iexact Hrest
      · ipureintro
        rw [show obase L + 80 * (k5_t20.val + 1) = obase L + (80 * k5_t20.val + 80) by omega]
        refine out_step (F := F) L (gatherAt (F := F) T3 I3) _ _ (80 * k5_t20.val) hmemE hmemO fo _ _ hfo ?_ ?_
        · intro idx h1 h2
          rw [chunkE_val3 (F := F) d L k5_t20 fo _ idx h1 h2]
          refine (out_chunkElt (F := F) d L hfr_22 hout_22 _).trans ?_
          rw [show 640 * k5_t20.val = 8 * (80 * k5_t20.val) by omega]
          exact chunkElt_gatherAt (F := F) d L _ T3 (read_tblSlice3 (F := F) d L T3) fI I3 hIs (80 * k5_t20.val) (by omega) _ idx (by show (idx 0).val = obase L + 80 * k5_t20.val + ((idx 0).val - (obase L + 80 * k5_t20.val)); omega) rfl
        · intro idx h1 h2
          rw [chunkO_val3 (F := F) d L k5_t20 _ _ idx (by omega) (by omega)]
          refine (out_chunkElt (F := F) d L hfr_24 hout_24 _).trans ?_
          rw [show 640 * k5_t20.val + 320 = 8 * (80 * k5_t20.val + 40) by omega]
          exact chunkElt_gatherAt (F := F) d L _ T3 (read_tblSlice3 (F := F) d L T3) fI I3 hIs (80 * k5_t20.val + 40) (by omega) _ idx (by show (idx 0).val = obase L + (80 * k5_t20.val + 40) + ((idx 0).val - (obase L + 80 * k5_t20.val + 40)); omega) rfl
    isplitl [Htrem Hfl]
    · isplitl [Hfl]
      · iexists _, _
        isplitr
        swap
        · iexact Hfl
        · ipureintro
          rw [show 640 * (k5_t20.val + 1) = 640 * k5_t20.val + 640 by omega]
          exact rows_landed_writes (F := F) d L _ fI _ _ _ _ _ _ hin23 hfo0
      · iexact Htrem
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp
  · sl_exec
    try sl_rw [Prog.bind_assoc]
    sl_for (drainInvX1_3 (F := F) d L T3 fI (640 * k5_t20.val + 320)) $$ [HI Hr1 Hout]
    case region =>
      intro k u
      exact drainX_trip_t24 (F := F) d L T3 _ _ _ k5_t20 k fI
    · unfold drainInvX1_3 drainInvV1
      iexists _
      isplitr
      swap
      · isplitl [HI]; · iexact HI
        isplitl [Hr1]; · iexact Hr1
        iexists _
        isplitl [Hout]; · iexact Hout
        ipureintro; intro p hp; omega
      · ipureintro
        exact rows_landed_writes (F := F) d L _ fI _ _ _ _ _ _ hin21 hfs1
    iintro %_ HIv
    unfold drainInvX1_3 drainInvV1
    icases HIv with ⟨%fr_24, %hfr_24, HI, Hr1, %fout_24, Hout, %hout_24⟩
    have htr24 : Scf.trips k5_t24_loop.lb k5_t24_loop.ub k5_t24_loop.st = 20 := by decide
    rw [htr24] at hout_24
    sl_exec
    sl_step
    irw [if_neg (by intro h; exact hc ((cond3_iff k5_t20).mpr h))]
    isplitr; · iexact Hmw
    isplitl [Htb]; · iexact Htb
    isplitl [HI]; · iexact HI
    isplitl [Hs1]; · iexists _; iexact Hs1
    isplitl [Hr1]; · iexists _; iexact Hr1
    isplitl [Hsem21]; · iexact Hsem21
    isplitl [Hout]; · iexists _; iexact Hout
    isplitl [HscE]; · iexact HscE
    isplitl [HscO]; · iexact HscO
    isplitl [HcE' HcO' Hrest]
    · iexists _
      isplitr
      swap
      · iapply (pointsTo_join_subset hsubE)
        isplitl [HcE']; · iexact HcE'
        iapply (pointsTo_join_subset hsubO)
        isplitl [HcO']; · iexact HcO'
        iexact Hrest
      · ipureintro
        rw [show obase L + 80 * (k5_t20.val + 1) = obase L + (80 * k5_t20.val + 80) by omega]
        refine out_step (F := F) L (gatherAt (F := F) T3 I3) _ _ (80 * k5_t20.val) hmemE hmemO fo _ _ hfo ?_ ?_
        · intro idx h1 h2
          rw [chunkE_val3 (F := F) d L k5_t20 fo _ idx h1 h2]
          refine (out_chunkElt (F := F) d L hfr_22 hout_22 _).trans ?_
          rw [show 640 * k5_t20.val = 8 * (80 * k5_t20.val) by omega]
          exact chunkElt_gatherAt (F := F) d L _ T3 (read_tblSlice3 (F := F) d L T3) fI I3 hIs (80 * k5_t20.val) (by omega) _ idx (by show (idx 0).val = obase L + 80 * k5_t20.val + ((idx 0).val - (obase L + 80 * k5_t20.val)); omega) rfl
        · intro idx h1 h2
          rw [chunkO_val3 (F := F) d L k5_t20 _ _ idx (by omega) (by omega)]
          refine (out_chunkElt (F := F) d L hfr_24 hout_24 _).trans ?_
          rw [show 640 * k5_t20.val + 320 = 8 * (80 * k5_t20.val + 40) by omega]
          exact chunkElt_gatherAt (F := F) d L _ T3 (read_tblSlice3 (F := F) d L T3) fI I3 hIs (80 * k5_t20.val + 40) (by omega) _ idx (by show (idx 0).val = obase L + (80 * k5_t20.val + 40) + ((idx 0).val - (obase L + 80 * k5_t20.val + 40)); omega) rfl
    isplitl [Hfl_dst Hfl_dst_and Htrem Hfl]
    · isplitl [Hfl_dst]; · iexists _; iexact Hfl_dst
      isplitl [Hfl_dst_and]; · iexists _; iexact Hfl_dst_and
      isplitl [Htrem]; · iexact Htrem
      iexact Hfl
    iexists _
    isplitr
    swap
    · iexact HO
    · ipureintro; intro p hp
      simp only [Finset.mem_insert] at hp
      rcases hp with rfl | rfl | rfl | rfl | hp
      · exact .inr rfl
      · exact .inr rfl
      · exact .inr rfl
      · exact .inr rfl
      · exact hW' p hp

end Cert.Proof.ScBody

end
-- ==== Proof.ScValSet.lean ====
/-
  The tile's lines of an output, as bounds on the line number.
-/
import proofs.«203359_g24824910971486_cont_8to1_1854_34_alg».proof.Proof.ScValOut

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A place among the tile's lines of an output has its line number within the tile's 3200 lines. -/
theorem oSet_bounds (L : grid5.Coords) (idx : S102400x128.Idx) (h : idx ∈ oSet L) :
    obase L ≤ (idx 0).val ∧ (idx 0).val < obase L + 3200 := by
  rw [Rect.mem_set_unit] at h
  exact h 0

end Cert.Proof.ScBody

end
-- ==== Proof.ScBodyVal.lean ====
/-
  The body obligation of the lookup kernel's vector-subcore task with the value of what it writes: as the frame's
  proof, the index scratch known to hold the tile's slice of each index array, each main loop under its invariant with
  values, and at the end the tile's lines of each output holding the gathered elements.
-/
import proofs.«203359_g24824910971486_cont_8to1_1854_34_alg».proof.Proof.ScMainVal0
import proofs.«203359_g24824910971486_cont_8to1_1854_34_alg».proof.Proof.ScMainVal1
import proofs.«203359_g24824910971486_cont_8to1_1854_34_alg».proof.Proof.ScMainVal2
import proofs.«203359_g24824910971486_cont_8to1_1854_34_alg».proof.Proof.ScMainVal3
import proofs.«203359_g24824910971486_cont_8to1_1854_34_alg».proof.Proof.ScValSet

noncomputable section

namespace Cert.Proof.ScBody

open Cert.KernelIdeal Cert.KernelIdeal.Gen
open Cert.Proof.ScSetup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

set_option maxHeartbeats 32000000 in
theorem tile_body_val : TileBodyValStmt (F := F) := by
  intro d L qT qI T0 T1 T2 T3 I0 I1 I2 I3 hF O W hO hidx
  simp only [cc5_k_eq_skeleton]; unfold cc5_k_skel
  simp only [k5_part41_eq_skeleton]; unfold k5_part41_skel
  simp only [Prog.bind_assoc]
  rw [(K (F := F)).scopedBufs_V hF d (cV L) (jV L), SparseCore.Cfg.scopedSems0_V (Val := Elt F) d (cV L) (jV L), ownSems0_V, ownBufs_V]
  iintro ⟨#Hlv, -, ⟨⟨Ht0, Ht1, Ht2, Ht3, Hi0, Hi1, Hi2, Hi3⟩, ⟨⟨%fo0, Ho0⟩, ⟨%fo1, Ho1⟩, ⟨%fo2, Ho2⟩, ⟨%fo3, Ho3⟩⟩⟩,
    ⟨⟨%fI, HI⟩, ⟨%fs0, Hs0⟩, ⟨%fs1, Hs1⟩, ⟨%fr0, Hr0⟩, ⟨%fr1, Hr1⟩, ⟨%fout, Hout⟩, Hbufs⟩, ⟨Hsem20, Hsem21, Hsc0, Hsc1, Hsc2, Hsc3, Hsc4, Hsc5, Hsc6, Hsc7, Hsc8, Hsc9, Hsc10, Hsc11, Hsems⟩, HO⟩
  ihave Hmw := ((K (F := F)).mayWaits_none (thr := (V d (cV L) (jV L))) hO) $$ Hlv
  ihave HI' := (Entails.of_eq (pts_w (F := F) d (cV L) (jV L) cc5_scratch0 _ _).symm) $$ HI
  ihave Hs0' := (Entails.of_eq (pts_w (F := F) d (cV L) (jV L) cc5_scratch1 _ _).symm) $$ Hs0
  ihave Hs1' := (Entails.of_eq (pts_w (F := F) d (cV L) (jV L) cc5_scratch2 _ _).symm) $$ Hs1
  ihave Hr0' := (Entails.of_eq (pts_w (F := F) d (cV L) (jV L) cc5_scratch3 _ _).symm) $$ Hr0
  ihave Hr1' := (Entails.of_eq (pts_w (F := F) d (cV L) (jV L) cc5_scratch4 _ _).symm) $$ Hr1
  ihave Hout' := (Entails.of_eq (pts_w (F := F) d (cV L) (jV L) cc5_scratch5 _ _).symm) $$ Hout
  have hW_start : ∀ p ∈ W, p ∈ W ∨ p.2 = none := fun p hp => .inl hp
  ihave Hi0' := (show ((i0Loc d ↦{qI} I0 : sProp 𝕄)) ⊢ ((Memref.whole main_v11_scv).view.loc (V d (cV L) (jV L)) ↦{qI} I0) from Entails.of_eq rfl) $$ Hi0
  ihave Hi1' := (show ((i1Loc d ↦{qI} I1 : sProp 𝕄)) ⊢ ((Memref.whole main_v12_scv).view.loc (V d (cV L) (jV L)) ↦{qI} I1) from Entails.of_eq rfl) $$ Hi1
  ihave Hi2' := (show ((i2Loc d ↦{qI} I2 : sProp 𝕄)) ⊢ ((Memref.whole main_v13_scv).view.loc (V d (cV L) (jV L)) ↦{qI} I2) from Entails.of_eq rfl) $$ Hi2
  ihave Hi3' := (show ((i3Loc d ↦{qI} I3 : sProp 𝕄)) ⊢ ((Memref.whole main_v14_scv).view.loc (V d (cV L) (jV L)) ↦{qI} I3) from Entails.of_eq rfl) $$ Hi3
  -- table 0
  ihave Hsh := (pointsTo_share (PosShare.mem_left_op_right qT)).1 $$ Ht0
  icases Hsh with ⟨HtL, HtR⟩
  ihave HtL' := (show ((t0Loc d ↦{qT.left} T0 : sProp 𝕄)) ⊢ ((Memref.whole main_v7_scv).view.loc (V d (cV L) (jV L)) ↦{qT.left} T0) from Entails.of_eq rfl) $$ HtL
  sl_exec
  have hI0 : ∀ j, IdxOK ((Memref.whole cc5_scratch0 : Memref sig .scVector .vmem S25600 .i32).view.read (Elt F) (View.write (Elt F) (Memref.whole cc5_scratch0 : Memref sig .scVector .vmem S25600 .i32).view fI (tile_body_val.sl.dma0 d L I0) Finset.univ) j) := by
    intro j
    rw [View.write_whole_univ]
    unfold tile_body_val.sl.dma0
    exact hidx.1 _
  have hIs0 : IdxIs (F := F) d L (View.write (Elt F) (Memref.whole cc5_scratch0 : Memref sig .scVector .vmem S25600 .i32).view fI (tile_body_val.sl.dma0 d L I0) Finset.univ) I0 := by
    unfold tile_body_val.sl.dma0
    exact idx_is_0 (F := F) d L fI I0
  generalize (View.write (Elt F) (Memref.whole cc5_scratch0 : Memref sig .scVector .vmem S25600 .i32).view fI (tile_body_val.sl.dma0 d L I0) Finset.univ) = fI_0 at hI0 hIs0 ⊢
  have hIall0 : ∀ n, IdxOK (idxAtN (F := F) d L fI_0 n) := fun n => hI0 _
  sl_for (prepInvV0 (F := F) d L fI_0 0) $$ [HI' Hs0']
  case region =>
    intro k u
    exact prep_trip_t1_val (F := F) d L k fI_0
  · unfold prepInvV0
    isplitl [HI']; · iexact HI'
    iexists _
    isplitl [Hs0']; · iexact Hs0'
    ipureintro; intro y hy; omega
  iintro %_ HIv
  unfold prepInvV0
  icases HIv with ⟨HI', %fs0_0, Hs0', %hfs0_0⟩
  have htrI0 : Scf.trips k5_t1_loop.lb k5_t1_loop.ub k5_t1_loop.st = 20 := by decide
  rw [htrI0] at hfs0_0
  have hin_0 : ∀ x, ((Memref.whole cc5_scratch1 : Memref sig .scVector .vmem S320 .i32).view.read (Elt F) fs0_0 x).toNat < S12500x128.size gathers_S12500x128_S320x128.axis :=
    supOK_lt (F := F) d L fI_0 0 _ hfs0_0 hIall0
  sl_exec
  ihave HtR' := (show ((t0Loc d ↦{qT.right} T0 : sProp 𝕄)) ⊢ ((Memref.whole main_v7_scv).view.loc (V d (cV L) (jV L)) ↦{qT.right} T0) from Entails.of_eq rfl) $$ HtR
  sl_for (mainInvV0 (F := F) d L qT T0 I0 fI_0 O W) $$ [HtR' HI' Hs1' Hr1' Hsem21 Hout' Hsc1 Hsc2 Ho0 Hsem20 HtL' HO]
  case region =>
    intro k u
    exact main_trip_t2_val (F := F) d L qT T0 I0 _ fI_0 hI0 hIs0 O W k
  · unfold mainInvV0 pendV0
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc1]; · iexact Hsc1
    isplitl [Hsc2]; · iexact Hsc2
    isplitl [Ho0]
    · iexists fo0
      isplitr
      · ipureintro; intro idx hmem hlt
        have hlo := (oSet_bounds L idx hmem).1
        omega
      · iexact Ho0
    isplitl [Hsem20 HtL']
    · isplitl [Hsem20]
      · iexists _, _
        isplitr
        swap
        · iexact Hsem20
        · ipureintro
          exact rows_landed_writes (F := F) d L _ fI_0 _ _ _ _ _ _ hin_0 hfs0_0
      · iexact HtL'
    iexists _; isplitr
    swap
    · iexact HO
    · ipureintro; intro p hp
      rcases Finset.mem_insert.mp hp with rfl | hp
      · exact .inr rfl
      · exact hW_start p hp
  iintro %_ HIv
  unfold mainInvV0 pendV0
  rw [if_neg (by decide : ¬ Scf.trips k5_t2_loop.lb k5_t2_loop.ub k5_t2_loop.st < 40)]
  icases HIv with ⟨-, HtR', HI', ⟨%fs1_0, Hs1'⟩, ⟨%fr1_0, Hr1'⟩, Hsem21, ⟨%fout_0, Hout'⟩, Hsc1, Hsc2, ⟨%fo0', %hfo0, Ho0⟩, ⟨⟨%fr0_0, Hr0'⟩, ⟨%fs0_0', Hs0'⟩, HtL', Hsem20⟩, %W_0, %hW_0, HO⟩
  have hfin0 : ∀ idx ∈ oSet L, fo0' idx = gatherAt (F := F) T0 I0 idx := by
    intro idx hmem
    refine hfo0 idx hmem ?_
    have hhi := (oSet_bounds L idx hmem).2
    have htr : Scf.trips k5_t2_loop.lb k5_t2_loop.ub k5_t2_loop.st = 40 := by decide
    rw [htr]; omega
  ihave Ht0' := (pointsTo_share (PosShare.mem_left_op_right qT)).2 $$ [HtL' HtR']
  · isplitl [HtL'] <;> iassumption
  -- table 1
  ihave Hsh := (pointsTo_share (PosShare.mem_left_op_right qT)).1 $$ Ht1
  icases Hsh with ⟨HtL, HtR⟩
  ihave HtL' := (show ((t1Loc d ↦{qT.left} T1 : sProp 𝕄)) ⊢ ((Memref.whole main_v8_scv).view.loc (V d (cV L) (jV L)) ↦{qT.left} T1) from Entails.of_eq rfl) $$ HtL
  sl_exec
  have hI1 : ∀ j, IdxOK ((Memref.whole cc5_scratch0 : Memref sig .scVector .vmem S25600 .i32).view.read (Elt F) (View.write (Elt F) (Memref.whole cc5_scratch0 : Memref sig .scVector .vmem S25600 .i32).view fI_0 (tile_body_val.sl.dma0_1 d L I1) Finset.univ) j) := by
    intro j
    rw [View.write_whole_univ]
    unfold tile_body_val.sl.dma0_1
    exact hidx.2.1 _
  have hIs1 : IdxIs (F := F) d L (View.write (Elt F) (Memref.whole cc5_scratch0 : Memref sig .scVector .vmem S25600 .i32).view fI_0 (tile_body_val.sl.dma0_1 d L I1) Finset.univ) I1 := by
    unfold tile_body_val.sl.dma0_1
    exact idx_is_1 (F := F) d L fI_0 I1
  generalize (View.write (Elt F) (Memref.whole cc5_scratch0 : Memref sig .scVector .vmem S25600 .i32).view fI_0 (tile_body_val.sl.dma0_1 d L I1) Finset.univ) = fI_1 at hI1 hIs1 ⊢
  have hIall1 : ∀ n, IdxOK (idxAtN (F := F) d L fI_1 n) := fun n => hI1 _
  sl_for (prepInvV0 (F := F) d L fI_1 0) $$ [HI' Hs0']
  case region =>
    intro k u
    exact prep_trip_t7_val (F := F) d L k fI_1
  · unfold prepInvV0
    isplitl [HI']; · iexact HI'
    iexists _
    isplitl [Hs0']; · iexact Hs0'
    ipureintro; intro y hy; omega
  iintro %_ HIv
  unfold prepInvV0
  icases HIv with ⟨HI', %fs0_1, Hs0', %hfs0_1⟩
  have htrI1 : Scf.trips k5_t7_loop.lb k5_t7_loop.ub k5_t7_loop.st = 20 := by decide
  rw [htrI1] at hfs0_1
  have hin_1 : ∀ x, ((Memref.whole cc5_scratch1 : Memref sig .scVector .vmem S320 .i32).view.read (Elt F) fs0_1 x).toNat < S12500x128.size gathers_S12500x128_S320x128.axis :=
    supOK_lt (F := F) d L fI_1 0 _ hfs0_1 hIall1
  sl_exec
  ihave HtR' := (show ((t1Loc d ↦{qT.right} T1 : sProp 𝕄)) ⊢ ((Memref.whole main_v8_scv).view.loc (V d (cV L) (jV L)) ↦{qT.right} T1) from Entails.of_eq rfl) $$ HtR
  sl_for (mainInvV1 (F := F) d L qT T1 I1 fI_1 O W) $$ [HtR' HI' Hs1' Hr1' Hsem21 Hout' Hsc4 Hsc5 Ho1 Hsem20 HtL' HO]
  case region =>
    intro k u
    exact main_trip_t8_val (F := F) d L qT T1 I1 _ fI_1 hI1 hIs1 O W k
  · unfold mainInvV1 pendV1
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc4]; · iexact Hsc4
    isplitl [Hsc5]; · iexact Hsc5
    isplitl [Ho1]
    · iexists fo1
      isplitr
      · ipureintro; intro idx hmem hlt
        have hlo := (oSet_bounds L idx hmem).1
        omega
      · iexact Ho1
    isplitl [Hsem20 HtL']
    · isplitl [Hsem20]
      · iexists _, _
        isplitr
        swap
        · iexact Hsem20
        · ipureintro
          exact rows_landed_writes (F := F) d L _ fI_1 _ _ _ _ _ _ hin_1 hfs0_1
      · iexact HtL'
    iexists _; isplitr
    swap
    · iexact HO
    · ipureintro; intro p hp
      rcases Finset.mem_insert.mp hp with rfl | hp
      · exact .inr rfl
      · exact hW_0 p hp
  iintro %_ HIv
  unfold mainInvV1 pendV1
  rw [if_neg (by decide : ¬ Scf.trips k5_t8_loop.lb k5_t8_loop.ub k5_t8_loop.st < 40)]
  icases HIv with ⟨-, HtR', HI', ⟨%fs1_1, Hs1'⟩, ⟨%fr1_1, Hr1'⟩, Hsem21, ⟨%fout_1, Hout'⟩, Hsc4, Hsc5, ⟨%fo1', %hfo1, Ho1⟩, ⟨⟨%fr0_1, Hr0'⟩, ⟨%fs0_1', Hs0'⟩, HtL', Hsem20⟩, %W_1, %hW_1, HO⟩
  have hfin1 : ∀ idx ∈ oSet L, fo1' idx = gatherAt (F := F) T1 I1 idx := by
    intro idx hmem
    refine hfo1 idx hmem ?_
    have hhi := (oSet_bounds L idx hmem).2
    have htr : Scf.trips k5_t8_loop.lb k5_t8_loop.ub k5_t8_loop.st = 40 := by decide
    rw [htr]; omega
  ihave Ht1' := (pointsTo_share (PosShare.mem_left_op_right qT)).2 $$ [HtL' HtR']
  · isplitl [HtL'] <;> iassumption
  -- table 2
  ihave Hsh := (pointsTo_share (PosShare.mem_left_op_right qT)).1 $$ Ht2
  icases Hsh with ⟨HtL, HtR⟩
  ihave HtL' := (show ((t2Loc d ↦{qT.left} T2 : sProp 𝕄)) ⊢ ((Memref.whole main_v9_scv).view.loc (V d (cV L) (jV L)) ↦{qT.left} T2) from Entails.of_eq rfl) $$ HtL
  sl_exec
  have hI2 : ∀ j, IdxOK ((Memref.whole cc5_scratch0 : Memref sig .scVector .vmem S25600 .i32).view.read (Elt F) (View.write (Elt F) (Memref.whole cc5_scratch0 : Memref sig .scVector .vmem S25600 .i32).view fI_1 (tile_body_val.sl.dma0_2 d L I2) Finset.univ) j) := by
    intro j
    rw [View.write_whole_univ]
    unfold tile_body_val.sl.dma0_2
    exact hidx.2.2.1 _
  have hIs2 : IdxIs (F := F) d L (View.write (Elt F) (Memref.whole cc5_scratch0 : Memref sig .scVector .vmem S25600 .i32).view fI_1 (tile_body_val.sl.dma0_2 d L I2) Finset.univ) I2 := by
    unfold tile_body_val.sl.dma0_2
    exact idx_is_2 (F := F) d L fI_1 I2
  generalize (View.write (Elt F) (Memref.whole cc5_scratch0 : Memref sig .scVector .vmem S25600 .i32).view fI_1 (tile_body_val.sl.dma0_2 d L I2) Finset.univ) = fI_2 at hI2 hIs2 ⊢
  have hIall2 : ∀ n, IdxOK (idxAtN (F := F) d L fI_2 n) := fun n => hI2 _
  sl_for (prepInvV0 (F := F) d L fI_2 0) $$ [HI' Hs0']
  case region =>
    intro k u
    exact prep_trip_t13_val (F := F) d L k fI_2
  · unfold prepInvV0
    isplitl [HI']; · iexact HI'
    iexists _
    isplitl [Hs0']; · iexact Hs0'
    ipureintro; intro y hy; omega
  iintro %_ HIv
  unfold prepInvV0
  icases HIv with ⟨HI', %fs0_2, Hs0', %hfs0_2⟩
  have htrI2 : Scf.trips k5_t13_loop.lb k5_t13_loop.ub k5_t13_loop.st = 20 := by decide
  rw [htrI2] at hfs0_2
  have hin_2 : ∀ x, ((Memref.whole cc5_scratch1 : Memref sig .scVector .vmem S320 .i32).view.read (Elt F) fs0_2 x).toNat < S12500x128.size gathers_S12500x128_S320x128.axis :=
    supOK_lt (F := F) d L fI_2 0 _ hfs0_2 hIall2
  sl_exec
  ihave HtR' := (show ((t2Loc d ↦{qT.right} T2 : sProp 𝕄)) ⊢ ((Memref.whole main_v9_scv).view.loc (V d (cV L) (jV L)) ↦{qT.right} T2) from Entails.of_eq rfl) $$ HtR
  sl_for (mainInvV2 (F := F) d L qT T2 I2 fI_2 O W) $$ [HtR' HI' Hs1' Hr1' Hsem21 Hout' Hsc7 Hsc8 Ho2 Hsem20 HtL' HO]
  case region =>
    intro k u
    exact main_trip_t14_val (F := F) d L qT T2 I2 _ fI_2 hI2 hIs2 O W k
  · unfold mainInvV2 pendV2
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc7]; · iexact Hsc7
    isplitl [Hsc8]; · iexact Hsc8
    isplitl [Ho2]
    · iexists fo2
      isplitr
      · ipureintro; intro idx hmem hlt
        have hlo := (oSet_bounds L idx hmem).1
        omega
      · iexact Ho2
    isplitl [Hsem20 HtL']
    · isplitl [Hsem20]
      · iexists _, _
        isplitr
        swap
        · iexact Hsem20
        · ipureintro
          exact rows_landed_writes (F := F) d L _ fI_2 _ _ _ _ _ _ hin_2 hfs0_2
      · iexact HtL'
    iexists _; isplitr
    swap
    · iexact HO
    · ipureintro; intro p hp
      rcases Finset.mem_insert.mp hp with rfl | hp
      · exact .inr rfl
      · exact hW_1 p hp
  iintro %_ HIv
  unfold mainInvV2 pendV2
  rw [if_neg (by decide : ¬ Scf.trips k5_t14_loop.lb k5_t14_loop.ub k5_t14_loop.st < 40)]
  icases HIv with ⟨-, HtR', HI', ⟨%fs1_2, Hs1'⟩, ⟨%fr1_2, Hr1'⟩, Hsem21, ⟨%fout_2, Hout'⟩, Hsc7, Hsc8, ⟨%fo2', %hfo2, Ho2⟩, ⟨⟨%fr0_2, Hr0'⟩, ⟨%fs0_2', Hs0'⟩, HtL', Hsem20⟩, %W_2, %hW_2, HO⟩
  have hfin2 : ∀ idx ∈ oSet L, fo2' idx = gatherAt (F := F) T2 I2 idx := by
    intro idx hmem
    refine hfo2 idx hmem ?_
    have hhi := (oSet_bounds L idx hmem).2
    have htr : Scf.trips k5_t14_loop.lb k5_t14_loop.ub k5_t14_loop.st = 40 := by decide
    rw [htr]; omega
  ihave Ht2' := (pointsTo_share (PosShare.mem_left_op_right qT)).2 $$ [HtL' HtR']
  · isplitl [HtL'] <;> iassumption
  -- table 3
  ihave Hsh := (pointsTo_share (PosShare.mem_left_op_right qT)).1 $$ Ht3
  icases Hsh with ⟨HtL, HtR⟩
  ihave HtL' := (show ((t3Loc d ↦{qT.left} T3 : sProp 𝕄)) ⊢ ((Memref.whole main_v10_scv).view.loc (V d (cV L) (jV L)) ↦{qT.left} T3) from Entails.of_eq rfl) $$ HtL
  sl_exec
  have hI3 : ∀ j, IdxOK ((Memref.whole cc5_scratch0 : Memref sig .scVector .vmem S25600 .i32).view.read (Elt F) (View.write (Elt F) (Memref.whole cc5_scratch0 : Memref sig .scVector .vmem S25600 .i32).view fI_2 (tile_body_val.sl.dma0_3 d L I3) Finset.univ) j) := by
    intro j
    rw [View.write_whole_univ]
    unfold tile_body_val.sl.dma0_3
    exact hidx.2.2.2 _
  have hIs3 : IdxIs (F := F) d L (View.write (Elt F) (Memref.whole cc5_scratch0 : Memref sig .scVector .vmem S25600 .i32).view fI_2 (tile_body_val.sl.dma0_3 d L I3) Finset.univ) I3 := by
    unfold tile_body_val.sl.dma0_3
    exact idx_is_3 (F := F) d L fI_2 I3
  generalize (View.write (Elt F) (Memref.whole cc5_scratch0 : Memref sig .scVector .vmem S25600 .i32).view fI_2 (tile_body_val.sl.dma0_3 d L I3) Finset.univ) = fI_3 at hI3 hIs3 ⊢
  have hIall3 : ∀ n, IdxOK (idxAtN (F := F) d L fI_3 n) := fun n => hI3 _
  sl_for (prepInvV0 (F := F) d L fI_3 0) $$ [HI' Hs0']
  case region =>
    intro k u
    exact prep_trip_t19_val (F := F) d L k fI_3
  · unfold prepInvV0
    isplitl [HI']; · iexact HI'
    iexists _
    isplitl [Hs0']; · iexact Hs0'
    ipureintro; intro y hy; omega
  iintro %_ HIv
  unfold prepInvV0
  icases HIv with ⟨HI', %fs0_3, Hs0', %hfs0_3⟩
  have htrI3 : Scf.trips k5_t19_loop.lb k5_t19_loop.ub k5_t19_loop.st = 20 := by decide
  rw [htrI3] at hfs0_3
  have hin_3 : ∀ x, ((Memref.whole cc5_scratch1 : Memref sig .scVector .vmem S320 .i32).view.read (Elt F) fs0_3 x).toNat < S12500x128.size gathers_S12500x128_S320x128.axis :=
    supOK_lt (F := F) d L fI_3 0 _ hfs0_3 hIall3
  sl_exec
  ihave HtR' := (show ((t3Loc d ↦{qT.right} T3 : sProp 𝕄)) ⊢ ((Memref.whole main_v10_scv).view.loc (V d (cV L) (jV L)) ↦{qT.right} T3) from Entails.of_eq rfl) $$ HtR
  sl_for (mainInvV3 (F := F) d L qT T3 I3 fI_3 O W) $$ [HtR' HI' Hs1' Hr1' Hsem21 Hout' Hsc10 Hsc11 Ho3 Hsem20 HtL' HO]
  case region =>
    intro k u
    exact main_trip_t20_val (F := F) d L qT T3 I3 _ fI_3 hI3 hIs3 O W k
  · unfold mainInvV3 pendV3
    rw [if_pos (by decide)]
    isplitr; · iexact Hmw
    isplitl [HtR']; · iexact HtR'
    isplitl [HI']; · iexact HI'
    isplitl [Hs1']; · iexists _; iexact Hs1'
    isplitl [Hr1']; · iexists _; iexact Hr1'
    isplitl [Hsem21]; · iexact Hsem21
    isplitl [Hout']; · iexists _; iexact Hout'
    isplitl [Hsc10]; · iexact Hsc10
    isplitl [Hsc11]; · iexact Hsc11
    isplitl [Ho3]
    · iexists fo3
      isplitr
      · ipureintro; intro idx hmem hlt
        have hlo := (oSet_bounds L idx hmem).1
        omega
      · iexact Ho3
    isplitl [Hsem20 HtL']
    · isplitl [Hsem20]
      · iexists _, _
        isplitr
        swap
        · iexact Hsem20
        · ipureintro
          exact rows_landed_writes (F := F) d L _ fI_3 _ _ _ _ _ _ hin_3 hfs0_3
      · iexact HtL'
    iexists _; isplitr
    swap
    · iexact HO
    · ipureintro; intro p hp
      rcases Finset.mem_insert.mp hp with rfl | hp
      · exact .inr rfl
      · exact hW_2 p hp
  iintro %_ HIv
  unfold mainInvV3 pendV3
  rw [if_neg (by decide : ¬ Scf.trips k5_t20_loop.lb k5_t20_loop.ub k5_t20_loop.st < 40)]
  icases HIv with ⟨-, HtR', HI', ⟨%fs1_3, Hs1'⟩, ⟨%fr1_3, Hr1'⟩, Hsem21, ⟨%fout_3, Hout'⟩, Hsc10, Hsc11, ⟨%fo3', %hfo3, Ho3⟩, ⟨⟨%fr0_3, Hr0'⟩, ⟨%fs0_3', Hs0'⟩, HtL', Hsem20⟩, %W_3, %hW_3, HO⟩
  have hfin3 : ∀ idx ∈ oSet L, fo3' idx = gatherAt (F := F) T3 I3 idx := by
    intro idx hmem
    refine hfo3 idx hmem ?_
    have hhi := (oSet_bounds L idx hmem).2
    have htr : Scf.trips k5_t20_loop.lb k5_t20_loop.ub k5_t20_loop.st = 40 := by decide
    rw [htr]; omega
  ihave Ht3' := (pointsTo_share (PosShare.mem_left_op_right qT)).2 $$ [HtL' HtR']
  · isplitl [HtL'] <;> iassumption
  sl_exec
  sl_step
  isplitl [Ht0' Ht1' Ht2' Ht3' Hi0' Hi1' Hi2' Hi3' Ho0 Ho1 Ho2 Ho3]
  · isplitl [Ht0' Ht1' Ht2' Ht3' Hi0' Hi1' Hi2' Hi3']
    · isplitl [Ht0']; · iapply (show (((Memref.whole main_v7_scv).view.loc (V d (cV L) (jV L)) ↦{qT} T0 : sProp 𝕄)) ⊢ (t0Loc d ↦{qT} T0) from Entails.of_eq rfl); iexact Ht0'
      isplitl [Ht1']; · iapply (show (((Memref.whole main_v8_scv).view.loc (V d (cV L) (jV L)) ↦{qT} T1 : sProp 𝕄)) ⊢ (t1Loc d ↦{qT} T1) from Entails.of_eq rfl); iexact Ht1'
      isplitl [Ht2']; · iapply (show (((Memref.whole main_v9_scv).view.loc (V d (cV L) (jV L)) ↦{qT} T2 : sProp 𝕄)) ⊢ (t2Loc d ↦{qT} T2) from Entails.of_eq rfl); iexact Ht2'
      isplitl [Ht3']; · iapply (show (((Memref.whole main_v10_scv).view.loc (V d (cV L) (jV L)) ↦{qT} T3 : sProp 𝕄)) ⊢ (t3Loc d ↦{qT} T3) from Entails.of_eq rfl); iexact Ht3'
      isplitl [Hi0']; · iapply (show (((Memref.whole main_v11_scv).view.loc (V d (cV L) (jV L)) ↦{qI} I0 : sProp 𝕄)) ⊢ (i0Loc d ↦{qI} I0) from Entails.of_eq rfl); iexact Hi0'
      isplitl [Hi1']; · iapply (show (((Memref.whole main_v12_scv).view.loc (V d (cV L) (jV L)) ↦{qI} I1 : sProp 𝕄)) ⊢ (i1Loc d ↦{qI} I1) from Entails.of_eq rfl); iexact Hi1'
      isplitl [Hi2']; · iapply (show (((Memref.whole main_v13_scv).view.loc (V d (cV L) (jV L)) ↦{qI} I2 : sProp 𝕄)) ⊢ (i2Loc d ↦{qI} I2) from Entails.of_eq rfl); iexact Hi2'
      iapply (show (((Memref.whole main_v14_scv).view.loc (V d (cV L) (jV L)) ↦{qI} I3 : sProp 𝕄)) ⊢ (i3Loc d ↦{qI} I3) from Entails.of_eq rfl); iexact Hi3'
    · isplitl [Ho0]
      · iexists _; isplitr; · ipureintro; exact hfin0
        iexact Ho0
      isplitl [Ho1]
      · iexists _; isplitr; · ipureintro; exact hfin1
        iexact Ho1
      isplitl [Ho2]
      · iexists _; isplitr; · ipureintro; exact hfin2
        iexact Ho2
      iexists _; isplitr; · ipureintro; exact hfin3
      iexact Ho3
  isplitl [HI' Hs0' Hs1' Hr0' Hr1' Hout' Hbufs]
  · isplitl [HI']; · iexists _; iapply (Entails.of_eq (pts_w (F := F) d (cV L) (jV L) cc5_scratch0 _ _)); iexact HI'
    isplitl [Hs0']; · iexists _; iapply (Entails.of_eq (pts_w (F := F) d (cV L) (jV L) cc5_scratch1 _ _)); iexact Hs0'
    isplitl [Hs1']; · iexists _; iapply (Entails.of_eq (pts_w (F := F) d (cV L) (jV L) cc5_scratch2 _ _)); iexact Hs1'
    isplitl [Hr0']; · iexists _; iapply (Entails.of_eq (pts_w (F := F) d (cV L) (jV L) cc5_scratch3 _ _)); iexact Hr0'
    isplitl [Hr1']; · iexists _; iapply (Entails.of_eq (pts_w (F := F) d (cV L) (jV L) cc5_scratch4 _ _)); iexact Hr1'
    isplitl [Hout']; · iexists _; iapply (Entails.of_eq (pts_w (F := F) d (cV L) (jV L) cc5_scratch5 _ _)); iexact Hout'
    iexact Hbufs
  isplitl [Hsem20 Hsem21 Hsc0 Hsc1 Hsc2 Hsc3 Hsc4 Hsc5 Hsc6 Hsc7 Hsc8 Hsc9 Hsc10 Hsc11 Hsems]
  · isplitl [Hsem20]; · iexact Hsem20
    isplitl [Hsem21]; · iexact Hsem21
    isplitl [Hsc0]; · iexact Hsc0
    isplitl [Hsc1]; · iexact Hsc1
    isplitl [Hsc2]; · iexact Hsc2
    isplitl [Hsc3]; · iexact Hsc3
    isplitl [Hsc4]; · iexact Hsc4
    isplitl [Hsc5]; · iexact Hsc5
    isplitl [Hsc6]; · iexact Hsc6
    isplitl [Hsc7]; · iexact Hsc7
    isplitl [Hsc8]; · iexact Hsc8
    isplitl [Hsc9]; · iexact Hsc9
    isplitl [Hsc10]; · iexact Hsc10
    isplitl [Hsc11]; · iexact Hsc11
    iexact Hsems
  iexists _; isplitr
  · ipureintro; exact hW_3
  · iexact HO

end Cert.Proof.ScBody

end
-- ==== Proof.lean ====
/- The proof of `Cert.Claim` (proofs.«203359_g24824910971486_cont_8to1_1854_34_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«203359_g24824910971486_cont_8to1_1854_34_alg».proof.Defs
import proofs.«203359_g24824910971486_cont_8to1_1854_34_alg».proof.Proof.Gen.Kernel
import proofs.«203359_g24824910971486_cont_8to1_1854_34_alg».proof.Proof.Gen.Kernel.Skeleton
import proofs.«203359_g24824910971486_cont_8to1_1854_34_alg».proof.Proof.Gen.Kernel.Launch
import proofs.«203359_g24824910971486_cont_8to1_1854_34_alg».proof.Proof.Gen.Kernel.Regions
import proofs.«203359_g24824910971486_cont_8to1_1854_34_alg».proof.Proof.Gen.Kernel.Points
import proofs.«203359_g24824910971486_cont_8to1_1854_34_alg».proof.Proof.Gen.KernelIdeal
import proofs.«203359_g24824910971486_cont_8to1_1854_34_alg».proof.Proof.Gen.KernelIdeal.Skeleton
import proofs.«203359_g24824910971486_cont_8to1_1854_34_alg».proof.Proof.Gen.KernelIdeal.Launch
import proofs.«203359_g24824910971486_cont_8to1_1854_34_alg».proof.Proof.Gen.KernelIdeal.Regions
import proofs.«203359_g24824910971486_cont_8to1_1854_34_alg».proof.Proof.Gen.KernelIdeal.Points
import proofs.«203359_g24824910971486_cont_8to1_1854_34_alg».proof.Proof.Gen.ReferenceIdeal
import proofs.«203359_g24824910971486_cont_8to1_1854_34_alg».proof.Proof.Gen.Pre_input_domain
import proofs.«203359_g24824910971486_cont_8to1_1854_34_alg».proof.Proof.BScFrame
import proofs.«203359_g24824910971486_cont_8to1_1854_34_alg».proof.Proof.BScBody
import proofs.«203359_g24824910971486_cont_8to1_1854_34_alg».proof.Proof.ScFrame
import proofs.«203359_g24824910971486_cont_8to1_1854_34_alg».proof.Proof.ScBody
import proofs.«203359_g24824910971486_cont_8to1_1854_34_alg».proof.Proof.RefRun
import proofs.«203359_g24824910971486_cont_8to1_1854_34_alg».proof.Proof.ScAlg
import proofs.«203359_g24824910971486_cont_8to1_1854_34_alg».proof.Proof.BridgeOut
import proofs.«203359_g24824910971486_cont_8to1_1854_34_alg».proof.Proof.ScBodyVal
import Idealize.ShloMosaic.Adequacy
import Idealize.ShloMosaic.Init

noncomputable section

namespace Cert.Proof

open Idealize.ShloMosaic Idealize.SL.Sem Cert.Kernel

/-- The word-level program's frame: the run of the whole thread family from the tile kernel's body run. -/
theorem frame_Kernel : Cert.frame_Kernel (hKernel := Cert.Kernel.Gen.facts) (hPre_input_domain := Cert.Pre_input_domain.Gen.facts) :=
  fun m g hpre => Cert.Proof.B.ScFrame.frame_of_body (F := Bits) m g Cert.Proof.B.ScBody.tile_body hpre

/-- The idealized program's frame: the same proof at the ideal instance. -/
theorem frame_KernelIdeal : Cert.frame_KernelIdeal (hKernelIdeal := Cert.KernelIdeal.Gen.facts) (hPre_input_domain := Cert.Pre_input_domain.Gen.facts) :=
  fun m g hpre => Cert.Proof.ScFrame.frame_of_body (F := Ideal) m g Cert.Proof.ScBody.tile_body hpre

/-- The algebraic conjunct: the kernel's results, read off the final valuation of its run, are the reference's. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  Cert.Proof.ScAlg.algebraic_of (Cert.Proof.ScBody.tile_body_val (F := Ideal))
    (fun d W => Cert.Proof.Bridge.out0 d W) (fun d W => Cert.Proof.Bridge.out1 d W) (fun d W => Cert.Proof.Bridge.out2 d W)
    (fun d W => Cert.Proof.Bridge.out3 d W) (fun d W => Cert.Proof.Bridge.out4 d W)

theorem claim : Cert.Claim := ⟨Cert.Kernel.Gen.facts, Cert.KernelIdeal.Gen.facts, Cert.ReferenceIdeal.Gen.facts, Cert.Pre_input_domain.Gen.facts,
  frame_Kernel, frame_KernelIdeal, Cert.ReferenceIdeal.RefRun.frame, trivial, algebraic⟩

end Cert.Proof

end
